-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v408)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v408) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v633) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x1x1048576x3 : Shape := ⟨5, ![1, 1, 1, 1048576, 3]⟩
abbrev S1x4x64x64x64 : Shape := ⟨5, ![1, 4, 64, 64, 64]⟩
abbrev S1x4x128x128x128 : Shape := ⟨5, ![1, 4, 128, 128, 128]⟩
abbrev S1x4x192x192x192 : Shape := ⟨5, ![1, 4, 192, 192, 192]⟩
abbrev S_ : Shape := ⟨0, ![]⟩

class Facts : Prop where
  bcast_S_S1x1x1x1048576x3 : S_.BroadcastsInDim S1x1x1x1048576x3 (![] : Fin 0 → Fin S1x1x1x1048576x3.rank)
  reducesTo_S1x1x1x1048576x3_S_d0_1_2_3_4 : S1x1x1x1048576x3.ReducesTo [0, 1, 2, 3, 4] S_
  h_S_ : 0 < S_.numel
  bcast_S_S1x4x64x64x64 : S_.BroadcastsInDim S1x4x64x64x64 (![] : Fin 0 → Fin S1x4x64x64x64.rank)
  reducesTo_S1x4x64x64x64_S_d0_1_2_3_4 : S1x4x64x64x64.ReducesTo [0, 1, 2, 3, 4] S_
  bcast_S_S1x4x128x128x128 : S_.BroadcastsInDim S1x4x128x128x128 (![] : Fin 0 → Fin S1x4x128x128x128.rank)
  reducesTo_S1x4x128x128x128_S_d0_1_2_3_4 : S1x4x128x128x128.ReducesTo [0, 1, 2, 3, 4] S_
  bcast_S_S1x4x192x192x192 : S_.BroadcastsInDim S1x4x192x192x192 (![] : Fin 0 → Fin S1x4x192x192x192.rank)
  reducesTo_S1x4x192x192x192_S_d0_1_2_3_4 : S1x4x192x192x192.ReducesTo [0, 1, 2, 3, 4] S_

variable [Facts]

def fn_part1 {F : FTy → Type} [FloatOps F] (main_v13 : IVec S_ 1) (main_v16 : IVec S1x4x192x192x192 1) : IVec S_ 1 :=
  let main_c_5 : IVec S_ 1 := constantI S_ 1 1#1
  let main_v17 : IVec S_ 1 := (fun x v => Host.reduce IntOp.andi x v reducesTo_S1x4x192x192x192_S_d0_1_2_3_4 h_S_) main_v16 main_c_5
  let main_v18 : IVec S_ 1 := andi main_v13 main_v17
  main_v18

def fn {F : FTy → Type} [FloatOps F] (main_arg0 : FVec F S1x1x1x1048576x3 .f32) (main_arg1 : FVec F S1x4x64x64x64 .f32) (main_arg2 : FVec F S1x4x128x128x128 .f32) (main_arg3 : FVec F S1x4x192x192x192 .f32) : IVec S_ 1 :=
  let main_v0 : FVec F S1x1x1x1048576x3 .f32 := Host.absf main_arg0
  let main_cst : FVec F S_ .f32 := constant S_ .f32 0x7F800000#32
  let main_v1 : FVec F S1x1x1x1048576x3 .f32 := broadcastInDim S1x1x1x1048576x3 ![] bcast_S_S1x1x1x1048576x3 main_cst
  let main_v2 : IVec S1x1x1x1048576x3 1 := cmpf .olt main_v0 main_v1
  let main_c : IVec S_ 1 := constantI S_ 1 1#1
  let main_v3 : IVec S_ 1 := (fun x v => Host.reduce IntOp.andi x v reducesTo_S1x1x1x1048576x3_S_d0_1_2_3_4 h_S_) main_v2 main_c
  let main_v4 : FVec F S1x4x64x64x64 .f32 := Host.absf main_arg1
  let main_cst_0 : FVec F S_ .f32 := constant S_ .f32 0x7F800000#32
  let main_v5 : FVec F S1x4x64x64x64 .f32 := broadcastInDim S1x4x64x64x64 ![] bcast_S_S1x4x64x64x64 main_cst_0
  let main_v6 : IVec S1x4x64x64x64 1 := cmpf .olt main_v4 main_v5
  let main_c_1 : IVec S_ 1 := constantI S_ 1 1#1
  let main_v7 : IVec S_ 1 := (fun x v => Host.reduce IntOp.andi x v reducesTo_S1x4x64x64x64_S_d0_1_2_3_4 h_S_) main_v6 main_c_1
  let main_v8 : IVec S_ 1 := andi main_v3 main_v7
  let main_v9 : FVec F S1x4x128x128x128 .f32 := Host.absf main_arg2
  let main_cst_2 : FVec F S_ .f32 := constant S_ .f32 0x7F800000#32
  let main_v10 : FVec F S1x4x128x128x128 .f32 := broadcastInDim S1x4x128x128x128 ![] bcast_S_S1x4x128x128x128 main_cst_2
  let main_v11 : IVec S1x4x128x128x128 1 := cmpf .olt main_v9 main_v10
  let main_c_3 : IVec S_ 1 := constantI S_ 1 1#1
  let main_v12 : IVec S_ 1 := (fun x v => Host.reduce IntOp.andi x v reducesTo_S1x4x128x128x128_S_d0_1_2_3_4 h_S_) main_v11 main_c_3
  let main_v13 : IVec S_ 1 := andi main_v8 main_v12
  let main_v14 : FVec F S1x4x192x192x192 .f32 := Host.absf main_arg3
  let main_cst_4 : FVec F S_ .f32 := constant S_ .f32 0x7F800000#32
  let main_v15 : FVec F S1x4x192x192x192 .f32 := broadcastInDim S1x4x192x192x192 ![] bcast_S_S1x4x192x192x192 main_cst_4
  let main_v16 : IVec S1x4x192x192x192 1 := cmpf .olt main_v14 main_v15
  fn_part1 (F := F) main_v13 main_v16
-- ==== Kernel.lean ====
abbrev S1x1x1x1048576x3 : Shape := ⟨5, ![1, 1, 1, 1048576, 3]⟩
abbrev S1x4x64x64x64 : Shape := ⟨5, ![1, 4, 64, 64, 64]⟩
abbrev S1x4x128x128x128 : Shape := ⟨5, ![1, 4, 128, 128, 128]⟩
abbrev S1x4x192x192x192 : Shape := ⟨5, ![1, 4, 192, 192, 192]⟩
abbrev S1048576x3 : Shape := ⟨2, ![1048576, 3]⟩
abbrev S1048576x1 : Shape := ⟨2, ![1048576, 1]⟩
abbrev S1048576 : Shape := ⟨1, ![1048576]⟩
abbrev S_ : Shape := ⟨0, ![]⟩
abbrev S4x64x64x64 : Shape := ⟨4, ![4, 64, 64, 64]⟩
abbrev S64x64x64x4 : Shape := ⟨4, ![64, 64, 64, 4]⟩
abbrev S262144x4 : Shape := ⟨2, ![262144, 4]⟩
abbrev S1048576x4 : Shape := ⟨2, ![1048576, 4]⟩
abbrev S4x1048576 : Shape := ⟨2, ![4, 1048576]⟩
abbrev S1x1048576 : Shape := ⟨2, ![1, 1048576]⟩
abbrev S4x128x128x128 : Shape := ⟨4, ![4, 128, 128, 128]⟩
abbrev S128x128x128x4 : Shape := ⟨4, ![128, 128, 128, 4]⟩
abbrev S2097152x4 : Shape := ⟨2, ![2097152, 4]⟩
abbrev S4x192x192x192 : Shape := ⟨4, ![4, 192, 192, 192]⟩
abbrev S192x192x192x4 : Shape := ⟨4, ![192, 192, 192, 4]⟩
abbrev S7077888x4 : Shape := ⟨2, ![7077888, 4]⟩
abbrev S12x1048576 : Shape := ⟨2, ![12, 1048576]⟩
abbrev S2x1048576 : Shape := ⟨2, ![2, 1048576]⟩
abbrev S12x16384 : Shape := ⟨2, ![12, 16384]⟩
abbrev S2x16384 : Shape := ⟨2, ![2, 16384]⟩
abbrev S1x16384 : Shape := ⟨2, ![1, 16384]⟩
abbrev S4x16384 : Shape := ⟨2, ![4, 16384]⟩
abbrev S1x12x1x1x1048576 : Shape := ⟨5, ![1, 12, 1, 1, 1048576]⟩

abbrev nBuf : Space → Nat
  | .hbm => 620
  | .vmem => 12
  | .smem => 0
  | _ => 0

abbrev hbmTy0_0 (i : Nat) : BufTy := match i % 128 with
  | 0 => ⟨S1x1x1x1048576x3, .f32⟩
  | 1 => ⟨S1x4x64x64x64, .f32⟩
  | 2 => ⟨S1x4x128x128x128, .f32⟩
  | 3 => ⟨S1x4x192x192x192, .f32⟩
  | 4 => ⟨S1048576x3, .f32⟩
  | 5 => ⟨S1048576x1, .f32⟩
  | 6 => ⟨S1048576, .f32⟩
  | 7 => ⟨S1048576x1, .f32⟩
  | 8 => ⟨S1048576, .f32⟩
  | 9 => ⟨S1048576x1, .f32⟩
  | 10 => ⟨S1048576, .f32⟩
  | 11 => ⟨S_, .f32⟩
  | 12 => ⟨S1048576, .f32⟩
  | 13 => ⟨S1048576, .f32⟩
  | 14 => ⟨S_, .f32⟩
  | 15 => ⟨S1048576, .f32⟩
  | 16 => ⟨S1048576, .f32⟩
  | 17 => ⟨S_, .f32⟩
  | 18 => ⟨S1048576, .f32⟩
  | 19 => ⟨S1048576, .f32⟩
  | 20 => ⟨S_, .f32⟩
  | 21 => ⟨S1048576, .f32⟩
  | 22 => ⟨S1048576, .f32⟩
  | 23 => ⟨S_, .f32⟩
  | 24 => ⟨S1048576, .f32⟩
  | 25 => ⟨S1048576, .f32⟩
  | 26 => ⟨S_, .f32⟩
  | 27 => ⟨S1048576, .f32⟩
  | 28 => ⟨S1048576, .f32⟩
  | 29 => ⟨S_, .f32⟩
  | 30 => ⟨S1048576, .f32⟩
  | 31 => ⟨S1048576, .f32⟩
  | 32 => ⟨S_, .f32⟩
  | 33 => ⟨S1048576, .f32⟩
  | 34 => ⟨S1048576, .f32⟩
  | 35 => ⟨S_, .f32⟩
  | 36 => ⟨S1048576, .f32⟩
  | 37 => ⟨S1048576, .f32⟩
  | 38 => ⟨S1048576, .f32⟩
  | 39 => ⟨S_, .f32⟩
  | 40 => ⟨S_, .f32⟩
  | 41 => ⟨S_, .f32⟩
  | 42 => ⟨S1048576, .f32⟩
  | 43 => ⟨S1048576, .f32⟩
  | 44 => ⟨S_, .f32⟩
  | 45 => ⟨S1048576, .f32⟩
  | 46 => ⟨S1048576, .f32⟩
  | 47 => ⟨S1048576, .f32⟩
  | 48 => ⟨S_, .f32⟩
  | 49 => ⟨S_, .f32⟩
  | 50 => ⟨S_, .f32⟩
  | 51 => ⟨S1048576, .f32⟩
  | 52 => ⟨S1048576, .f32⟩
  | 53 => ⟨S_, .f32⟩
  | 54 => ⟨S1048576, .f32⟩
  | 55 => ⟨S1048576, .f32⟩
  | 56 => ⟨S1048576, .f32⟩
  | 57 => ⟨S_, .f32⟩
  | 58 => ⟨S_, .f32⟩
  | 59 => ⟨S_, .f32⟩
  | 60 => ⟨S1048576, .f32⟩
  | 61 => ⟨S1048576, .f32⟩
  | 62 => ⟨S_, .f32⟩
  | 63 => ⟨S1048576, .f32⟩
  | 64 => ⟨S1048576, .f32⟩
  | 65 => ⟨S1048576, .f32⟩
  | 66 => ⟨S_, .f32⟩
  | 67 => ⟨S_, .f32⟩
  | 68 => ⟨S_, .f32⟩
  | 69 => ⟨S1048576, .f32⟩
  | 70 => ⟨S1048576, .f32⟩
  | 71 => ⟨S_, .f32⟩
  | 72 => ⟨S1048576, .f32⟩
  | 73 => ⟨S1048576, .f32⟩
  | 74 => ⟨S1048576, .f32⟩
  | 75 => ⟨S_, .f32⟩
  | 76 => ⟨S1048576, .f32⟩
  | 77 => ⟨S1048576, .f32⟩
  | 78 => ⟨S_, .f32⟩
  | 79 => ⟨S1048576, .f32⟩
  | 80 => ⟨S1048576, .f32⟩
  | 81 => ⟨S1048576, .f32⟩
  | 82 => ⟨S1048576, .i32⟩
  | 83 => ⟨S1048576, .i32⟩
  | 84 => ⟨S1048576, .i32⟩
  | 85 => ⟨S_, .i32⟩
  | 86 => ⟨S1048576, .i32⟩
  | 87 => ⟨S1048576, .i32⟩
  | 88 => ⟨S_, .i32⟩
  | 89 => ⟨S1048576, .i32⟩
  | 90 => ⟨S1048576, .i32⟩
  | 91 => ⟨S_, .i32⟩
  | 92 => ⟨S1048576, .i32⟩
  | 93 => ⟨S1048576, .i32⟩
  | 94 => ⟨S_, .i32⟩
  | 95 => ⟨S1048576, .i32⟩
  | 96 => ⟨S1048576, .i32⟩
  | 97 => ⟨S_, .i32⟩
  | 98 => ⟨S1048576, .i32⟩
  | 99 => ⟨S1048576, .i32⟩
  | 100 => ⟨S_, .i32⟩
  | 101 => ⟨S1048576, .i32⟩
  | 102 => ⟨S1048576, .i32⟩
  | 103 => ⟨S4x64x64x64, .f32⟩
  | 104 => ⟨S64x64x64x4, .f32⟩
  | 105 => ⟨S262144x4, .f32⟩
  | 106 => ⟨S_, .i32⟩
  | 107 => ⟨S1048576, .i32⟩
  | 108 => ⟨S1048576, .i32⟩
  | 109 => ⟨S1048576, .i32⟩
  | 110 => ⟨S_, .i32⟩
  | 111 => ⟨S1048576, .i32⟩
  | 112 => ⟨S1048576, .i32⟩
  | 113 => ⟨S1048576, .i32⟩
  | 114 => ⟨S1048576x1, .i32⟩
  | 115 => ⟨S1048576x4, .f32⟩
  | 116 => ⟨S4x1048576, .f32⟩
  | 117 => ⟨S_, .i32⟩
  | 118 => ⟨S1048576, .i32⟩
  | 119 => ⟨S1048576, .i32⟩
  | 120 => ⟨S1048576, .i32⟩
  | 121 => ⟨S_, .i32⟩
  | 122 => ⟨S1048576, .i32⟩
  | 123 => ⟨S1048576, .i32⟩
  | 124 => ⟨S1048576, .i32⟩
  | 125 => ⟨S1048576x1, .i32⟩
  | 126 => ⟨S1048576x4, .f32⟩
  | 127 => ⟨S4x1048576, .f32⟩
  | _ => ⟨S1x1x1x1048576x3, .f32⟩

abbrev hbmTy0_1 (i : Nat) : BufTy := match i % 128 with
  | 0 => ⟨S_, .i32⟩
  | 1 => ⟨S1048576, .i32⟩
  | 2 => ⟨S1048576, .i32⟩
  | 3 => ⟨S1048576, .i32⟩
  | 4 => ⟨S_, .i32⟩
  | 5 => ⟨S1048576, .i32⟩
  | 6 => ⟨S1048576, .i32⟩
  | 7 => ⟨S1048576, .i32⟩
  | 8 => ⟨S1048576x1, .i32⟩
  | 9 => ⟨S1048576x4, .f32⟩
  | 10 => ⟨S4x1048576, .f32⟩
  | 11 => ⟨S_, .i32⟩
  | 12 => ⟨S1048576, .i32⟩
  | 13 => ⟨S1048576, .i32⟩
  | 14 => ⟨S1048576, .i32⟩
  | 15 => ⟨S_, .i32⟩
  | 16 => ⟨S1048576, .i32⟩
  | 17 => ⟨S1048576, .i32⟩
  | 18 => ⟨S1048576, .i32⟩
  | 19 => ⟨S1048576x1, .i32⟩
  | 20 => ⟨S1048576x4, .f32⟩
  | 21 => ⟨S4x1048576, .f32⟩
  | 22 => ⟨S_, .i32⟩
  | 23 => ⟨S1048576, .i32⟩
  | 24 => ⟨S1048576, .i32⟩
  | 25 => ⟨S1048576, .i32⟩
  | 26 => ⟨S_, .i32⟩
  | 27 => ⟨S1048576, .i32⟩
  | 28 => ⟨S1048576, .i32⟩
  | 29 => ⟨S1048576, .i32⟩
  | 30 => ⟨S1048576x1, .i32⟩
  | 31 => ⟨S1048576x4, .f32⟩
  | 32 => ⟨S4x1048576, .f32⟩
  | 33 => ⟨S_, .i32⟩
  | 34 => ⟨S1048576, .i32⟩
  | 35 => ⟨S1048576, .i32⟩
  | 36 => ⟨S1048576, .i32⟩
  | 37 => ⟨S_, .i32⟩
  | 38 => ⟨S1048576, .i32⟩
  | 39 => ⟨S1048576, .i32⟩
  | 40 => ⟨S1048576, .i32⟩
  | 41 => ⟨S1048576x1, .i32⟩
  | 42 => ⟨S1048576x4, .f32⟩
  | 43 => ⟨S4x1048576, .f32⟩
  | 44 => ⟨S_, .i32⟩
  | 45 => ⟨S1048576, .i32⟩
  | 46 => ⟨S1048576, .i32⟩
  | 47 => ⟨S1048576, .i32⟩
  | 48 => ⟨S_, .i32⟩
  | 49 => ⟨S1048576, .i32⟩
  | 50 => ⟨S1048576, .i32⟩
  | 51 => ⟨S1048576, .i32⟩
  | 52 => ⟨S1048576x1, .i32⟩
  | 53 => ⟨S1048576x4, .f32⟩
  | 54 => ⟨S4x1048576, .f32⟩
  | 55 => ⟨S_, .i32⟩
  | 56 => ⟨S1048576, .i32⟩
  | 57 => ⟨S1048576, .i32⟩
  | 58 => ⟨S1048576, .i32⟩
  | 59 => ⟨S_, .i32⟩
  | 60 => ⟨S1048576, .i32⟩
  | 61 => ⟨S1048576, .i32⟩
  | 62 => ⟨S1048576, .i32⟩
  | 63 => ⟨S1048576x1, .i32⟩
  | 64 => ⟨S1048576x4, .f32⟩
  | 65 => ⟨S4x1048576, .f32⟩
  | 66 => ⟨S1x1048576, .f32⟩
  | 67 => ⟨S4x1048576, .f32⟩
  | 68 => ⟨S4x1048576, .f32⟩
  | 69 => ⟨S4x1048576, .f32⟩
  | 70 => ⟨S4x1048576, .f32⟩
  | 71 => ⟨S4x1048576, .f32⟩
  | 72 => ⟨S4x1048576, .f32⟩
  | 73 => ⟨S4x1048576, .f32⟩
  | 74 => ⟨S4x1048576, .f32⟩
  | 75 => ⟨S4x1048576, .f32⟩
  | 76 => ⟨S4x1048576, .f32⟩
  | 77 => ⟨S4x1048576, .f32⟩
  | 78 => ⟨S4x1048576, .f32⟩
  | 79 => ⟨S4x1048576, .f32⟩
  | 80 => ⟨S4x1048576, .f32⟩
  | 81 => ⟨S4x1048576, .f32⟩
  | 82 => ⟨S4x1048576, .f32⟩
  | 83 => ⟨S_, .f32⟩
  | 84 => ⟨S1048576, .f32⟩
  | 85 => ⟨S1048576, .f32⟩
  | 86 => ⟨S_, .f32⟩
  | 87 => ⟨S1048576, .f32⟩
  | 88 => ⟨S1048576, .f32⟩
  | 89 => ⟨S_, .f32⟩
  | 90 => ⟨S1048576, .f32⟩
  | 91 => ⟨S1048576, .f32⟩
  | 92 => ⟨S_, .f32⟩
  | 93 => ⟨S1048576, .f32⟩
  | 94 => ⟨S1048576, .f32⟩
  | 95 => ⟨S_, .f32⟩
  | 96 => ⟨S1048576, .f32⟩
  | 97 => ⟨S1048576, .f32⟩
  | 98 => ⟨S_, .f32⟩
  | 99 => ⟨S1048576, .f32⟩
  | 100 => ⟨S1048576, .f32⟩
  | 101 => ⟨S_, .f32⟩
  | 102 => ⟨S1048576, .f32⟩
  | 103 => ⟨S1048576, .f32⟩
  | 104 => ⟨S_, .f32⟩
  | 105 => ⟨S1048576, .f32⟩
  | 106 => ⟨S1048576, .f32⟩
  | 107 => ⟨S_, .f32⟩
  | 108 => ⟨S1048576, .f32⟩
  | 109 => ⟨S1048576, .f32⟩
  | 110 => ⟨S1048576, .f32⟩
  | 111 => ⟨S_, .f32⟩
  | 112 => ⟨S_, .f32⟩
  | 113 => ⟨S_, .f32⟩
  | 114 => ⟨S1048576, .f32⟩
  | 115 => ⟨S1048576, .f32⟩
  | 116 => ⟨S_, .f32⟩
  | 117 => ⟨S1048576, .f32⟩
  | 118 => ⟨S1048576, .f32⟩
  | 119 => ⟨S1048576, .f32⟩
  | 120 => ⟨S_, .f32⟩
  | 121 => ⟨S_, .f32⟩
  | 122 => ⟨S_, .f32⟩
  | 123 => ⟨S1048576, .f32⟩
  | 124 => ⟨S1048576, .f32⟩
  | 125 => ⟨S_, .f32⟩
  | 126 => ⟨S1048576, .f32⟩
  | 127 => ⟨S1048576, .f32⟩
  | _ => ⟨S1x1x1x1048576x3, .f32⟩

abbrev hbmTy0_2 (i : Nat) : BufTy := match i % 128 with
  | 0 => ⟨S1048576, .f32⟩
  | 1 => ⟨S_, .f32⟩
  | 2 => ⟨S_, .f32⟩
  | 3 => ⟨S_, .f32⟩
  | 4 => ⟨S1048576, .f32⟩
  | 5 => ⟨S1048576, .f32⟩
  | 6 => ⟨S_, .f32⟩
  | 7 => ⟨S1048576, .f32⟩
  | 8 => ⟨S1048576, .f32⟩
  | 9 => ⟨S1048576, .f32⟩
  | 10 => ⟨S_, .f32⟩
  | 11 => ⟨S_, .f32⟩
  | 12 => ⟨S_, .f32⟩
  | 13 => ⟨S1048576, .f32⟩
  | 14 => ⟨S1048576, .f32⟩
  | 15 => ⟨S_, .f32⟩
  | 16 => ⟨S1048576, .f32⟩
  | 17 => ⟨S1048576, .f32⟩
  | 18 => ⟨S1048576, .f32⟩
  | 19 => ⟨S_, .f32⟩
  | 20 => ⟨S1048576, .f32⟩
  | 21 => ⟨S1048576, .f32⟩
  | 22 => ⟨S_, .f32⟩
  | 23 => ⟨S1048576, .f32⟩
  | 24 => ⟨S1048576, .f32⟩
  | 25 => ⟨S1048576, .f32⟩
  | 26 => ⟨S1048576, .i32⟩
  | 27 => ⟨S1048576, .i32⟩
  | 28 => ⟨S1048576, .i32⟩
  | 29 => ⟨S_, .i32⟩
  | 30 => ⟨S1048576, .i32⟩
  | 31 => ⟨S1048576, .i32⟩
  | 32 => ⟨S_, .i32⟩
  | 33 => ⟨S1048576, .i32⟩
  | 34 => ⟨S1048576, .i32⟩
  | 35 => ⟨S_, .i32⟩
  | 36 => ⟨S1048576, .i32⟩
  | 37 => ⟨S1048576, .i32⟩
  | 38 => ⟨S_, .i32⟩
  | 39 => ⟨S1048576, .i32⟩
  | 40 => ⟨S1048576, .i32⟩
  | 41 => ⟨S_, .i32⟩
  | 42 => ⟨S1048576, .i32⟩
  | 43 => ⟨S1048576, .i32⟩
  | 44 => ⟨S_, .i32⟩
  | 45 => ⟨S1048576, .i32⟩
  | 46 => ⟨S1048576, .i32⟩
  | 47 => ⟨S4x128x128x128, .f32⟩
  | 48 => ⟨S128x128x128x4, .f32⟩
  | 49 => ⟨S2097152x4, .f32⟩
  | 50 => ⟨S_, .i32⟩
  | 51 => ⟨S1048576, .i32⟩
  | 52 => ⟨S1048576, .i32⟩
  | 53 => ⟨S1048576, .i32⟩
  | 54 => ⟨S_, .i32⟩
  | 55 => ⟨S1048576, .i32⟩
  | 56 => ⟨S1048576, .i32⟩
  | 57 => ⟨S1048576, .i32⟩
  | 58 => ⟨S1048576x1, .i32⟩
  | 59 => ⟨S1048576x4, .f32⟩
  | 60 => ⟨S4x1048576, .f32⟩
  | 61 => ⟨S_, .i32⟩
  | 62 => ⟨S1048576, .i32⟩
  | 63 => ⟨S1048576, .i32⟩
  | 64 => ⟨S1048576, .i32⟩
  | 65 => ⟨S_, .i32⟩
  | 66 => ⟨S1048576, .i32⟩
  | 67 => ⟨S1048576, .i32⟩
  | 68 => ⟨S1048576, .i32⟩
  | 69 => ⟨S1048576x1, .i32⟩
  | 70 => ⟨S1048576x4, .f32⟩
  | 71 => ⟨S4x1048576, .f32⟩
  | 72 => ⟨S_, .i32⟩
  | 73 => ⟨S1048576, .i32⟩
  | 74 => ⟨S1048576, .i32⟩
  | 75 => ⟨S1048576, .i32⟩
  | 76 => ⟨S_, .i32⟩
  | 77 => ⟨S1048576, .i32⟩
  | 78 => ⟨S1048576, .i32⟩
  | 79 => ⟨S1048576, .i32⟩
  | 80 => ⟨S1048576x1, .i32⟩
  | 81 => ⟨S1048576x4, .f32⟩
  | 82 => ⟨S4x1048576, .f32⟩
  | 83 => ⟨S_, .i32⟩
  | 84 => ⟨S1048576, .i32⟩
  | 85 => ⟨S1048576, .i32⟩
  | 86 => ⟨S1048576, .i32⟩
  | 87 => ⟨S_, .i32⟩
  | 88 => ⟨S1048576, .i32⟩
  | 89 => ⟨S1048576, .i32⟩
  | 90 => ⟨S1048576, .i32⟩
  | 91 => ⟨S1048576x1, .i32⟩
  | 92 => ⟨S1048576x4, .f32⟩
  | 93 => ⟨S4x1048576, .f32⟩
  | 94 => ⟨S_, .i32⟩
  | 95 => ⟨S1048576, .i32⟩
  | 96 => ⟨S1048576, .i32⟩
  | 97 => ⟨S1048576, .i32⟩
  | 98 => ⟨S_, .i32⟩
  | 99 => ⟨S1048576, .i32⟩
  | 100 => ⟨S1048576, .i32⟩
  | 101 => ⟨S1048576, .i32⟩
  | 102 => ⟨S1048576x1, .i32⟩
  | 103 => ⟨S1048576x4, .f32⟩
  | 104 => ⟨S4x1048576, .f32⟩
  | 105 => ⟨S_, .i32⟩
  | 106 => ⟨S1048576, .i32⟩
  | 107 => ⟨S1048576, .i32⟩
  | 108 => ⟨S1048576, .i32⟩
  | 109 => ⟨S_, .i32⟩
  | 110 => ⟨S1048576, .i32⟩
  | 111 => ⟨S1048576, .i32⟩
  | 112 => ⟨S1048576, .i32⟩
  | 113 => ⟨S1048576x1, .i32⟩
  | 114 => ⟨S1048576x4, .f32⟩
  | 115 => ⟨S4x1048576, .f32⟩
  | 116 => ⟨S_, .i32⟩
  | 117 => ⟨S1048576, .i32⟩
  | 118 => ⟨S1048576, .i32⟩
  | 119 => ⟨S1048576, .i32⟩
  | 120 => ⟨S_, .i32⟩
  | 121 => ⟨S1048576, .i32⟩
  | 122 => ⟨S1048576, .i32⟩
  | 123 => ⟨S1048576, .i32⟩
  | 124 => ⟨S1048576x1, .i32⟩
  | 125 => ⟨S1048576x4, .f32⟩
  | 126 => ⟨S4x1048576, .f32⟩
  | 127 => ⟨S_, .i32⟩
  | _ => ⟨S1x1x1x1048576x3, .f32⟩

abbrev hbmTy0_3 (i : Nat) : BufTy := match i % 128 with
  | 0 => ⟨S1048576, .i32⟩
  | 1 => ⟨S1048576, .i32⟩
  | 2 => ⟨S1048576, .i32⟩
  | 3 => ⟨S_, .i32⟩
  | 4 => ⟨S1048576, .i32⟩
  | 5 => ⟨S1048576, .i32⟩
  | 6 => ⟨S1048576, .i32⟩
  | 7 => ⟨S1048576x1, .i32⟩
  | 8 => ⟨S1048576x4, .f32⟩
  | 9 => ⟨S4x1048576, .f32⟩
  | 10 => ⟨S1x1048576, .f32⟩
  | 11 => ⟨S4x1048576, .f32⟩
  | 12 => ⟨S4x1048576, .f32⟩
  | 13 => ⟨S4x1048576, .f32⟩
  | 14 => ⟨S4x1048576, .f32⟩
  | 15 => ⟨S4x1048576, .f32⟩
  | 16 => ⟨S4x1048576, .f32⟩
  | 17 => ⟨S4x1048576, .f32⟩
  | 18 => ⟨S4x1048576, .f32⟩
  | 19 => ⟨S4x1048576, .f32⟩
  | 20 => ⟨S4x1048576, .f32⟩
  | 21 => ⟨S4x1048576, .f32⟩
  | 22 => ⟨S4x1048576, .f32⟩
  | 23 => ⟨S4x1048576, .f32⟩
  | 24 => ⟨S4x1048576, .f32⟩
  | 25 => ⟨S4x1048576, .f32⟩
  | 26 => ⟨S4x1048576, .f32⟩
  | 27 => ⟨S_, .f32⟩
  | 28 => ⟨S1048576, .f32⟩
  | 29 => ⟨S1048576, .f32⟩
  | 30 => ⟨S_, .f32⟩
  | 31 => ⟨S1048576, .f32⟩
  | 32 => ⟨S1048576, .f32⟩
  | 33 => ⟨S_, .f32⟩
  | 34 => ⟨S1048576, .f32⟩
  | 35 => ⟨S1048576, .f32⟩
  | 36 => ⟨S_, .f32⟩
  | 37 => ⟨S1048576, .f32⟩
  | 38 => ⟨S1048576, .f32⟩
  | 39 => ⟨S_, .f32⟩
  | 40 => ⟨S1048576, .f32⟩
  | 41 => ⟨S1048576, .f32⟩
  | 42 => ⟨S_, .f32⟩
  | 43 => ⟨S1048576, .f32⟩
  | 44 => ⟨S1048576, .f32⟩
  | 45 => ⟨S_, .f32⟩
  | 46 => ⟨S1048576, .f32⟩
  | 47 => ⟨S1048576, .f32⟩
  | 48 => ⟨S_, .f32⟩
  | 49 => ⟨S1048576, .f32⟩
  | 50 => ⟨S1048576, .f32⟩
  | 51 => ⟨S_, .f32⟩
  | 52 => ⟨S1048576, .f32⟩
  | 53 => ⟨S1048576, .f32⟩
  | 54 => ⟨S1048576, .f32⟩
  | 55 => ⟨S_, .f32⟩
  | 56 => ⟨S_, .f32⟩
  | 57 => ⟨S_, .f32⟩
  | 58 => ⟨S1048576, .f32⟩
  | 59 => ⟨S1048576, .f32⟩
  | 60 => ⟨S_, .f32⟩
  | 61 => ⟨S1048576, .f32⟩
  | 62 => ⟨S1048576, .f32⟩
  | 63 => ⟨S1048576, .f32⟩
  | 64 => ⟨S_, .f32⟩
  | 65 => ⟨S_, .f32⟩
  | 66 => ⟨S_, .f32⟩
  | 67 => ⟨S1048576, .f32⟩
  | 68 => ⟨S1048576, .f32⟩
  | 69 => ⟨S_, .f32⟩
  | 70 => ⟨S1048576, .f32⟩
  | 71 => ⟨S1048576, .f32⟩
  | 72 => ⟨S1048576, .f32⟩
  | 73 => ⟨S_, .f32⟩
  | 74 => ⟨S_, .f32⟩
  | 75 => ⟨S_, .f32⟩
  | 76 => ⟨S1048576, .f32⟩
  | 77 => ⟨S1048576, .f32⟩
  | 78 => ⟨S_, .f32⟩
  | 79 => ⟨S1048576, .f32⟩
  | 80 => ⟨S1048576, .f32⟩
  | 81 => ⟨S1048576, .f32⟩
  | 82 => ⟨S_, .f32⟩
  | 83 => ⟨S_, .f32⟩
  | 84 => ⟨S_, .f32⟩
  | 85 => ⟨S1048576, .f32⟩
  | 86 => ⟨S1048576, .f32⟩
  | 87 => ⟨S_, .f32⟩
  | 88 => ⟨S1048576, .f32⟩
  | 89 => ⟨S1048576, .f32⟩
  | 90 => ⟨S1048576, .f32⟩
  | 91 => ⟨S_, .f32⟩
  | 92 => ⟨S1048576, .f32⟩
  | 93 => ⟨S1048576, .f32⟩
  | 94 => ⟨S_, .f32⟩
  | 95 => ⟨S1048576, .f32⟩
  | 96 => ⟨S1048576, .f32⟩
  | 97 => ⟨S1048576, .f32⟩
  | 98 => ⟨S1048576, .i32⟩
  | 99 => ⟨S1048576, .i32⟩
  | 100 => ⟨S1048576, .i32⟩
  | 101 => ⟨S_, .i32⟩
  | 102 => ⟨S1048576, .i32⟩
  | 103 => ⟨S1048576, .i32⟩
  | 104 => ⟨S_, .i32⟩
  | 105 => ⟨S1048576, .i32⟩
  | 106 => ⟨S1048576, .i32⟩
  | 107 => ⟨S_, .i32⟩
  | 108 => ⟨S1048576, .i32⟩
  | 109 => ⟨S1048576, .i32⟩
  | 110 => ⟨S_, .i32⟩
  | 111 => ⟨S1048576, .i32⟩
  | 112 => ⟨S1048576, .i32⟩
  | 113 => ⟨S_, .i32⟩
  | 114 => ⟨S1048576, .i32⟩
  | 115 => ⟨S1048576, .i32⟩
  | 116 => ⟨S_, .i32⟩
  | 117 => ⟨S1048576, .i32⟩
  | 118 => ⟨S1048576, .i32⟩
  | 119 => ⟨S4x192x192x192, .f32⟩
  | 120 => ⟨S192x192x192x4, .f32⟩
  | 121 => ⟨S7077888x4, .f32⟩
  | 122 => ⟨S_, .i32⟩
  | 123 => ⟨S1048576, .i32⟩
  | 124 => ⟨S1048576, .i32⟩
  | 125 => ⟨S1048576, .i32⟩
  | 126 => ⟨S_, .i32⟩
  | 127 => ⟨S1048576, .i32⟩
  | _ => ⟨S1x1x1x1048576x3, .f32⟩

abbrev hbmTy0_4 (i : Nat) : BufTy := match i % 128 with
  | 0 => ⟨S1048576, .i32⟩
  | 1 => ⟨S1048576, .i32⟩
  | 2 => ⟨S1048576x1, .i32⟩
  | 3 => ⟨S1048576x4, .f32⟩
  | 4 => ⟨S4x1048576, .f32⟩
  | 5 => ⟨S_, .i32⟩
  | 6 => ⟨S1048576, .i32⟩
  | 7 => ⟨S1048576, .i32⟩
  | 8 => ⟨S1048576, .i32⟩
  | 9 => ⟨S_, .i32⟩
  | 10 => ⟨S1048576, .i32⟩
  | 11 => ⟨S1048576, .i32⟩
  | 12 => ⟨S1048576, .i32⟩
  | 13 => ⟨S1048576x1, .i32⟩
  | 14 => ⟨S1048576x4, .f32⟩
  | 15 => ⟨S4x1048576, .f32⟩
  | 16 => ⟨S_, .i32⟩
  | 17 => ⟨S1048576, .i32⟩
  | 18 => ⟨S1048576, .i32⟩
  | 19 => ⟨S1048576, .i32⟩
  | 20 => ⟨S_, .i32⟩
  | 21 => ⟨S1048576, .i32⟩
  | 22 => ⟨S1048576, .i32⟩
  | 23 => ⟨S1048576, .i32⟩
  | 24 => ⟨S1048576x1, .i32⟩
  | 25 => ⟨S1048576x4, .f32⟩
  | 26 => ⟨S4x1048576, .f32⟩
  | 27 => ⟨S_, .i32⟩
  | 28 => ⟨S1048576, .i32⟩
  | 29 => ⟨S1048576, .i32⟩
  | 30 => ⟨S1048576, .i32⟩
  | 31 => ⟨S_, .i32⟩
  | 32 => ⟨S1048576, .i32⟩
  | 33 => ⟨S1048576, .i32⟩
  | 34 => ⟨S1048576, .i32⟩
  | 35 => ⟨S1048576x1, .i32⟩
  | 36 => ⟨S1048576x4, .f32⟩
  | 37 => ⟨S4x1048576, .f32⟩
  | 38 => ⟨S_, .i32⟩
  | 39 => ⟨S1048576, .i32⟩
  | 40 => ⟨S1048576, .i32⟩
  | 41 => ⟨S1048576, .i32⟩
  | 42 => ⟨S_, .i32⟩
  | 43 => ⟨S1048576, .i32⟩
  | 44 => ⟨S1048576, .i32⟩
  | 45 => ⟨S1048576, .i32⟩
  | 46 => ⟨S1048576x1, .i32⟩
  | 47 => ⟨S1048576x4, .f32⟩
  | 48 => ⟨S4x1048576, .f32⟩
  | 49 => ⟨S_, .i32⟩
  | 50 => ⟨S1048576, .i32⟩
  | 51 => ⟨S1048576, .i32⟩
  | 52 => ⟨S1048576, .i32⟩
  | 53 => ⟨S_, .i32⟩
  | 54 => ⟨S1048576, .i32⟩
  | 55 => ⟨S1048576, .i32⟩
  | 56 => ⟨S1048576, .i32⟩
  | 57 => ⟨S1048576x1, .i32⟩
  | 58 => ⟨S1048576x4, .f32⟩
  | 59 => ⟨S4x1048576, .f32⟩
  | 60 => ⟨S_, .i32⟩
  | 61 => ⟨S1048576, .i32⟩
  | 62 => ⟨S1048576, .i32⟩
  | 63 => ⟨S1048576, .i32⟩
  | 64 => ⟨S_, .i32⟩
  | 65 => ⟨S1048576, .i32⟩
  | 66 => ⟨S1048576, .i32⟩
  | 67 => ⟨S1048576, .i32⟩
  | 68 => ⟨S1048576x1, .i32⟩
  | 69 => ⟨S1048576x4, .f32⟩
  | 70 => ⟨S4x1048576, .f32⟩
  | 71 => ⟨S_, .i32⟩
  | 72 => ⟨S1048576, .i32⟩
  | 73 => ⟨S1048576, .i32⟩
  | 74 => ⟨S1048576, .i32⟩
  | 75 => ⟨S_, .i32⟩
  | 76 => ⟨S1048576, .i32⟩
  | 77 => ⟨S1048576, .i32⟩
  | 78 => ⟨S1048576, .i32⟩
  | 79 => ⟨S1048576x1, .i32⟩
  | 80 => ⟨S1048576x4, .f32⟩
  | 81 => ⟨S4x1048576, .f32⟩
  | 82 => ⟨S1x1048576, .f32⟩
  | 83 => ⟨S4x1048576, .f32⟩
  | 84 => ⟨S4x1048576, .f32⟩
  | 85 => ⟨S4x1048576, .f32⟩
  | 86 => ⟨S4x1048576, .f32⟩
  | 87 => ⟨S4x1048576, .f32⟩
  | 88 => ⟨S4x1048576, .f32⟩
  | 89 => ⟨S4x1048576, .f32⟩
  | 90 => ⟨S4x1048576, .f32⟩
  | 91 => ⟨S4x1048576, .f32⟩
  | 92 => ⟨S4x1048576, .f32⟩
  | 93 => ⟨S4x1048576, .f32⟩
  | 94 => ⟨S4x1048576, .f32⟩
  | 95 => ⟨S4x1048576, .f32⟩
  | 96 => ⟨S4x1048576, .f32⟩
  | 97 => ⟨S4x1048576, .f32⟩
  | 98 => ⟨S4x1048576, .f32⟩
  | 99 => ⟨S12x1048576, .f32⟩
  | 100 => ⟨S12x1048576, .f32⟩
  | 101 => ⟨S12x1048576, .f32⟩
  | 102 => ⟨S12x1048576, .f32⟩
  | 103 => ⟨S1x1048576, .f32⟩
  | 104 => ⟨S1x1048576, .f32⟩
  | 105 => ⟨S2x1048576, .f32⟩
  | 106 => ⟨S12x1048576, .f32⟩
  | 107 => ⟨S1x12x1x1x1048576, .f32⟩
  | _ => ⟨S1x1x1x1048576x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1x1x1x1048576x3, .f32⟩

abbrev bufTy : (tb : Table) → Fin (tcTables nBuf tb) → BufTy
  | .hbm, ⟨i, _⟩ => hbmTy i
  | .local _ .vmem, ⟨0, _⟩ => ⟨S12x16384, .f32⟩
  | .local _ .vmem, ⟨1, _⟩ => ⟨S12x16384, .f32⟩
  | .local _ .vmem, ⟨2, _⟩ => ⟨S12x16384, .f32⟩
  | .local _ .vmem, ⟨3, _⟩ => ⟨S12x16384, .f32⟩
  | .local _ .vmem, ⟨4, _⟩ => ⟨S12x16384, .f32⟩
  | .local _ .vmem, ⟨5, _⟩ => ⟨S12x16384, .f32⟩
  | .local _ .vmem, ⟨6, _⟩ => ⟨S12x16384, .f32⟩
  | .local _ .vmem, ⟨7, _⟩ => ⟨S12x16384, .f32⟩
  | .local _ .vmem, ⟨8, _⟩ => ⟨S2x16384, .f32⟩
  | .local _ .vmem, ⟨9, _⟩ => ⟨S2x16384, .f32⟩
  | .local _ .vmem, ⟨10, _⟩ => ⟨S12x16384, .f32⟩
  | .local _ .vmem, ⟨11, _⟩ => ⟨S12x16384, .f32⟩
  | _, _ => ⟨S1x1x1x1048576x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_cst_9 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v26 : Ref sig .tc := ⟨.hbm, 46, rfl⟩
abbrev main_v27 : Ref sig .tc := ⟨.hbm, 47, rfl⟩
abbrev main_cst_10 : Ref sig .tc := ⟨.hbm, 48, rfl⟩
abbrev main_cst_11 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v28 : Ref sig .tc := ⟨.hbm, 55, rfl⟩
abbrev main_v29 : Ref sig .tc := ⟨.hbm, 56, rfl⟩
abbrev main_cst_12 : Ref sig .tc := ⟨.hbm, 57, rfl⟩
abbrev main_cst_13 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v30 : Ref sig .tc := ⟨.hbm, 64, rfl⟩
abbrev main_v31 : Ref sig .tc := ⟨.hbm, 65, rfl⟩
abbrev main_cst_14 : Ref sig .tc := ⟨.hbm, 66, rfl⟩
abbrev main_cst_15 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_v32 : Ref sig .tc := ⟨.hbm, 73, rfl⟩
abbrev main_v33 : Ref sig .tc := ⟨.hbm, 74, rfl⟩
abbrev main_cst_16 : Ref sig .tc := ⟨.hbm, 75, rfl⟩
abbrev main_v34 : Ref sig .tc := ⟨.hbm, 76, rfl⟩
abbrev main_v35 : Ref sig .tc := ⟨.hbm, 77, rfl⟩
abbrev main_cst_17 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_c : Ref sig .tc := ⟨.hbm, 85, rfl⟩
abbrev main_v42 : Ref sig .tc := ⟨.hbm, 86, rfl⟩
abbrev main_v43 : Ref sig .tc := ⟨.hbm, 87, rfl⟩
abbrev main_c_18 : Ref sig .tc := ⟨.hbm, 88, rfl⟩
abbrev main_v44 : Ref sig .tc := ⟨.hbm, 89, rfl⟩
abbrev main_v45 : Ref sig .tc := ⟨.hbm, 90, rfl⟩
abbrev main_c_19 : Ref sig .tc := ⟨.hbm, 91, rfl⟩
abbrev main_v46 : Ref sig .tc := ⟨.hbm, 92, rfl⟩
abbrev main_v47 : Ref sig .tc := ⟨.hbm, 93, rfl⟩
abbrev main_c_20 : Ref sig .tc := ⟨.hbm, 94, rfl⟩
abbrev main_v48 : Ref sig .tc := ⟨.hbm, 95, rfl⟩
abbrev main_v49 : Ref sig .tc := ⟨.hbm, 96, rfl⟩
abbrev main_c_21 : Ref sig .tc := ⟨.hbm, 97, rfl⟩
abbrev main_v50 : Ref sig .tc := ⟨.hbm, 98, rfl⟩
abbrev main_v51 : Ref sig .tc := ⟨.hbm, 99, rfl⟩
abbrev main_c_22 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_c_23 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_c_24 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_call4_v0 : Ref sig .tc := ⟨.hbm, 114, rfl⟩
abbrev main_v63 : Ref sig .tc := ⟨.hbm, 115, rfl⟩
abbrev main_v64 : Ref sig .tc := ⟨.hbm, 116, rfl⟩
abbrev main_c_25 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_c_26 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_call5_v0 : Ref sig .tc := ⟨.hbm, 125, rfl⟩
abbrev main_v71 : Ref sig .tc := ⟨.hbm, 126, rfl⟩
abbrev main_v72 : Ref sig .tc := ⟨.hbm, 127, rfl⟩
abbrev main_c_27 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_c_28 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_call6_v0 : Ref sig .tc := ⟨.hbm, 136, rfl⟩
abbrev main_v79 : Ref sig .tc := ⟨.hbm, 137, rfl⟩
abbrev main_v80 : Ref sig .tc := ⟨.hbm, 138, rfl⟩
abbrev main_c_29 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_c_30 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_call7_v0 : Ref sig .tc := ⟨.hbm, 147, rfl⟩
abbrev main_v87 : Ref sig .tc := ⟨.hbm, 148, rfl⟩
abbrev main_v88 : Ref sig .tc := ⟨.hbm, 149, rfl⟩
abbrev main_c_31 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_c_32 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_call8_v0 : Ref sig .tc := ⟨.hbm, 158, rfl⟩
abbrev main_v95 : Ref sig .tc := ⟨.hbm, 159, rfl⟩
abbrev main_v96 : Ref sig .tc := ⟨.hbm, 160, rfl⟩
abbrev main_c_33 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_c_34 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_call9_v0 : Ref sig .tc := ⟨.hbm, 169, rfl⟩
abbrev main_v103 : Ref sig .tc := ⟨.hbm, 170, rfl⟩
abbrev main_v104 : Ref sig .tc := ⟨.hbm, 171, rfl⟩
abbrev main_c_35 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_c_36 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_call10_v0 : Ref sig .tc := ⟨.hbm, 180, rfl⟩
abbrev main_v111 : Ref sig .tc := ⟨.hbm, 181, rfl⟩
abbrev main_v112 : Ref sig .tc := ⟨.hbm, 182, rfl⟩
abbrev main_c_37 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_c_38 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_call11_v0 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_cst_39 : Ref sig .tc := ⟨.hbm, 211, rfl⟩
abbrev main_v138 : Ref sig .tc := ⟨.hbm, 212, rfl⟩
abbrev main_v139 : Ref sig .tc := ⟨.hbm, 213, rfl⟩
abbrev main_cst_40 : Ref sig .tc := ⟨.hbm, 214, rfl⟩
abbrev main_v140 : Ref sig .tc := ⟨.hbm, 215, rfl⟩
abbrev main_v141 : Ref sig .tc := ⟨.hbm, 216, rfl⟩
abbrev main_cst_41 : Ref sig .tc := ⟨.hbm, 217, rfl⟩
abbrev main_v142 : Ref sig .tc := ⟨.hbm, 218, rfl⟩
abbrev main_v143 : Ref sig .tc := ⟨.hbm, 219, rfl⟩
abbrev main_cst_42 : Ref sig .tc := ⟨.hbm, 220, rfl⟩
abbrev main_v144 : Ref sig .tc := ⟨.hbm, 221, rfl⟩
abbrev main_v145 : Ref sig .tc := ⟨.hbm, 222, rfl⟩
abbrev main_cst_43 : Ref sig .tc := ⟨.hbm, 223, rfl⟩
abbrev main_v146 : Ref sig .tc := ⟨.hbm, 224, rfl⟩
abbrev main_v147 : Ref sig .tc := ⟨.hbm, 225, rfl⟩
abbrev main_cst_44 : Ref sig .tc := ⟨.hbm, 226, rfl⟩
abbrev main_v148 : Ref sig .tc := ⟨.hbm, 227, rfl⟩
abbrev main_v149 : Ref sig .tc := ⟨.hbm, 228, rfl⟩
abbrev main_cst_45 : Ref sig .tc := ⟨.hbm, 229, rfl⟩
abbrev main_v150 : Ref sig .tc := ⟨.hbm, 230, rfl⟩
abbrev main_v151 : Ref sig .tc := ⟨.hbm, 231, rfl⟩
abbrev main_cst_46 : Ref sig .tc := ⟨.hbm, 232, rfl⟩
abbrev main_v152 : Ref sig .tc := ⟨.hbm, 233, rfl⟩
abbrev main_v153 : Ref sig .tc := ⟨.hbm, 234, rfl⟩
abbrev main_cst_47 : Ref sig .tc := ⟨.hbm, 235, rfl⟩
abbrev main_v154 : Ref sig .tc := ⟨.hbm, 236, rfl⟩
abbrev main_v155 : Ref sig .tc := ⟨.hbm, 237, rfl⟩
abbrev main_v156 : Ref sig .tc := ⟨.hbm, 238, rfl⟩
abbrev main_cst_48 : Ref sig .tc := ⟨.hbm, 239, rfl⟩
abbrev main_cst_49 : Ref sig .tc := ⟨.hbm, 240, rfl⟩
abbrev main_call12_v0 : Ref sig .tc := ⟨.hbm, 241, rfl⟩
abbrev main_call12_v1 : Ref sig .tc := ⟨.hbm, 242, rfl⟩
abbrev main_call12_v2 : Ref sig .tc := ⟨.hbm, 243, rfl⟩
abbrev main_call12_v3 : Ref sig .tc := ⟨.hbm, 244, rfl⟩
abbrev main_call12_v4 : Ref sig .tc := ⟨.hbm, 245, rfl⟩
abbrev main_v157 : Ref sig .tc := ⟨.hbm, 246, rfl⟩
abbrev main_v158 : Ref sig .tc := ⟨.hbm, 247, rfl⟩
abbrev main_cst_50 : Ref sig .tc := ⟨.hbm, 248, rfl⟩
abbrev main_cst_51 : Ref sig .tc := ⟨.hbm, 249, rfl⟩
abbrev main_call13_v0 : Ref sig .tc := ⟨.hbm, 250, rfl⟩
abbrev main_call13_v1 : Ref sig .tc := ⟨.hbm, 251, rfl⟩
abbrev main_call13_v2 : Ref sig .tc := ⟨.hbm, 252, rfl⟩
abbrev main_call13_v3 : Ref sig .tc := ⟨.hbm, 253, rfl⟩
abbrev main_call13_v4 : Ref sig .tc := ⟨.hbm, 254, rfl⟩
abbrev main_v159 : Ref sig .tc := ⟨.hbm, 255, rfl⟩
abbrev main_v160 : Ref sig .tc := ⟨.hbm, 256, rfl⟩
abbrev main_cst_52 : Ref sig .tc := ⟨.hbm, 257, rfl⟩
abbrev main_cst_53 : Ref sig .tc := ⟨.hbm, 258, rfl⟩
abbrev main_call14_v0 : Ref sig .tc := ⟨.hbm, 259, rfl⟩
abbrev main_call14_v1 : Ref sig .tc := ⟨.hbm, 260, rfl⟩
abbrev main_call14_v2 : Ref sig .tc := ⟨.hbm, 261, rfl⟩
abbrev main_call14_v3 : Ref sig .tc := ⟨.hbm, 262, rfl⟩
abbrev main_call14_v4 : Ref sig .tc := ⟨.hbm, 263, rfl⟩
abbrev main_v161 : Ref sig .tc := ⟨.hbm, 264, rfl⟩
abbrev main_v162 : Ref sig .tc := ⟨.hbm, 265, rfl⟩
abbrev main_cst_54 : Ref sig .tc := ⟨.hbm, 266, rfl⟩
abbrev main_cst_55 : Ref sig .tc := ⟨.hbm, 267, rfl⟩
abbrev main_call15_v0 : Ref sig .tc := ⟨.hbm, 268, rfl⟩
abbrev main_call15_v1 : Ref sig .tc := ⟨.hbm, 269, rfl⟩
abbrev main_call15_v2 : Ref sig .tc := ⟨.hbm, 270, rfl⟩
abbrev main_call15_v3 : Ref sig .tc := ⟨.hbm, 271, rfl⟩
abbrev main_call15_v4 : Ref sig .tc := ⟨.hbm, 272, rfl⟩
abbrev main_v163 : Ref sig .tc := ⟨.hbm, 273, rfl⟩
abbrev main_v164 : Ref sig .tc := ⟨.hbm, 274, rfl⟩
abbrev main_cst_56 : Ref sig .tc := ⟨.hbm, 275, rfl⟩
abbrev main_v165 : Ref sig .tc := ⟨.hbm, 276, rfl⟩
abbrev main_v166 : Ref sig .tc := ⟨.hbm, 277, rfl⟩
abbrev main_cst_57 : Ref sig .tc := ⟨.hbm, 278, rfl⟩
abbrev main_v167 : Ref sig .tc := ⟨.hbm, 279, rfl⟩
abbrev main_v168 : Ref sig .tc := ⟨.hbm, 280, rfl⟩
abbrev main_v169 : Ref sig .tc := ⟨.hbm, 281, rfl⟩
abbrev main_v170 : Ref sig .tc := ⟨.hbm, 282, rfl⟩
abbrev main_v171 : Ref sig .tc := ⟨.hbm, 283, rfl⟩
abbrev main_v172 : Ref sig .tc := ⟨.hbm, 284, rfl⟩
abbrev main_c_58 : Ref sig .tc := ⟨.hbm, 285, rfl⟩
abbrev main_v173 : Ref sig .tc := ⟨.hbm, 286, rfl⟩
abbrev main_v174 : Ref sig .tc := ⟨.hbm, 287, rfl⟩
abbrev main_c_59 : Ref sig .tc := ⟨.hbm, 288, rfl⟩
abbrev main_v175 : Ref sig .tc := ⟨.hbm, 289, rfl⟩
abbrev main_v176 : Ref sig .tc := ⟨.hbm, 290, rfl⟩
abbrev main_c_60 : Ref sig .tc := ⟨.hbm, 291, rfl⟩
abbrev main_v177 : Ref sig .tc := ⟨.hbm, 292, rfl⟩
abbrev main_v178 : Ref sig .tc := ⟨.hbm, 293, rfl⟩
abbrev main_c_61 : Ref sig .tc := ⟨.hbm, 294, rfl⟩
abbrev main_v179 : Ref sig .tc := ⟨.hbm, 295, rfl⟩
abbrev main_v180 : Ref sig .tc := ⟨.hbm, 296, rfl⟩
abbrev main_c_62 : Ref sig .tc := ⟨.hbm, 297, rfl⟩
abbrev main_v181 : Ref sig .tc := ⟨.hbm, 298, rfl⟩
abbrev main_v182 : Ref sig .tc := ⟨.hbm, 299, rfl⟩
abbrev main_c_63 : Ref sig .tc := ⟨.hbm, 300, rfl⟩
abbrev main_v183 : Ref sig .tc := ⟨.hbm, 301, rfl⟩
abbrev main_v184 : Ref sig .tc := ⟨.hbm, 302, rfl⟩
abbrev main_v185 : Ref sig .tc := ⟨.hbm, 303, rfl⟩
abbrev main_v186 : Ref sig .tc := ⟨.hbm, 304, rfl⟩
abbrev main_v187 : Ref sig .tc := ⟨.hbm, 305, rfl⟩
abbrev main_c_64 : Ref sig .tc := ⟨.hbm, 306, rfl⟩
abbrev main_v188 : Ref sig .tc := ⟨.hbm, 307, rfl⟩
abbrev main_v189 : Ref sig .tc := ⟨.hbm, 308, rfl⟩
abbrev main_v190 : Ref sig .tc := ⟨.hbm, 309, rfl⟩
abbrev main_c_65 : Ref sig .tc := ⟨.hbm, 310, rfl⟩
abbrev main_v191 : Ref sig .tc := ⟨.hbm, 311, rfl⟩
abbrev main_v192 : Ref sig .tc := ⟨.hbm, 312, rfl⟩
abbrev main_v193 : Ref sig .tc := ⟨.hbm, 313, rfl⟩
abbrev main_call16_v0 : Ref sig .tc := ⟨.hbm, 314, rfl⟩
abbrev main_v194 : Ref sig .tc := ⟨.hbm, 315, rfl⟩
abbrev main_v195 : Ref sig .tc := ⟨.hbm, 316, rfl⟩
abbrev main_c_66 : Ref sig .tc := ⟨.hbm, 317, rfl⟩
abbrev main_v196 : Ref sig .tc := ⟨.hbm, 318, rfl⟩
abbrev main_v197 : Ref sig .tc := ⟨.hbm, 319, rfl⟩
abbrev main_v198 : Ref sig .tc := ⟨.hbm, 320, rfl⟩
abbrev main_c_67 : Ref sig .tc := ⟨.hbm, 321, rfl⟩
abbrev main_v199 : Ref sig .tc := ⟨.hbm, 322, rfl⟩
abbrev main_v200 : Ref sig .tc := ⟨.hbm, 323, rfl⟩
abbrev main_v201 : Ref sig .tc := ⟨.hbm, 324, rfl⟩
abbrev main_call17_v0 : Ref sig .tc := ⟨.hbm, 325, rfl⟩
abbrev main_v202 : Ref sig .tc := ⟨.hbm, 326, rfl⟩
abbrev main_v203 : Ref sig .tc := ⟨.hbm, 327, rfl⟩
abbrev main_c_68 : Ref sig .tc := ⟨.hbm, 328, rfl⟩
abbrev main_v204 : Ref sig .tc := ⟨.hbm, 329, rfl⟩
abbrev main_v205 : Ref sig .tc := ⟨.hbm, 330, rfl⟩
abbrev main_v206 : Ref sig .tc := ⟨.hbm, 331, rfl⟩
abbrev main_c_69 : Ref sig .tc := ⟨.hbm, 332, rfl⟩
abbrev main_v207 : Ref sig .tc := ⟨.hbm, 333, rfl⟩
abbrev main_v208 : Ref sig .tc := ⟨.hbm, 334, rfl⟩
abbrev main_v209 : Ref sig .tc := ⟨.hbm, 335, rfl⟩
abbrev main_call18_v0 : Ref sig .tc := ⟨.hbm, 336, rfl⟩
abbrev main_v210 : Ref sig .tc := ⟨.hbm, 337, rfl⟩
abbrev main_v211 : Ref sig .tc := ⟨.hbm, 338, rfl⟩
abbrev main_c_70 : Ref sig .tc := ⟨.hbm, 339, rfl⟩
abbrev main_v212 : Ref sig .tc := ⟨.hbm, 340, rfl⟩
abbrev main_v213 : Ref sig .tc := ⟨.hbm, 341, rfl⟩
abbrev main_v214 : Ref sig .tc := ⟨.hbm, 342, rfl⟩
abbrev main_c_71 : Ref sig .tc := ⟨.hbm, 343, rfl⟩
abbrev main_v215 : Ref sig .tc := ⟨.hbm, 344, rfl⟩
abbrev main_v216 : Ref sig .tc := ⟨.hbm, 345, rfl⟩
abbrev main_v217 : Ref sig .tc := ⟨.hbm, 346, rfl⟩
abbrev main_call19_v0 : Ref sig .tc := ⟨.hbm, 347, rfl⟩
abbrev main_v218 : Ref sig .tc := ⟨.hbm, 348, rfl⟩
abbrev main_v219 : Ref sig .tc := ⟨.hbm, 349, rfl⟩
abbrev main_c_72 : Ref sig .tc := ⟨.hbm, 350, rfl⟩
abbrev main_v220 : Ref sig .tc := ⟨.hbm, 351, rfl⟩
abbrev main_v221 : Ref sig .tc := ⟨.hbm, 352, rfl⟩
abbrev main_v222 : Ref sig .tc := ⟨.hbm, 353, rfl⟩
abbrev main_c_73 : Ref sig .tc := ⟨.hbm, 354, rfl⟩
abbrev main_v223 : Ref sig .tc := ⟨.hbm, 355, rfl⟩
abbrev main_v224 : Ref sig .tc := ⟨.hbm, 356, rfl⟩
abbrev main_v225 : Ref sig .tc := ⟨.hbm, 357, rfl⟩
abbrev main_call20_v0 : Ref sig .tc := ⟨.hbm, 358, rfl⟩
abbrev main_v226 : Ref sig .tc := ⟨.hbm, 359, rfl⟩
abbrev main_v227 : Ref sig .tc := ⟨.hbm, 360, rfl⟩
abbrev main_c_74 : Ref sig .tc := ⟨.hbm, 361, rfl⟩
abbrev main_v228 : Ref sig .tc := ⟨.hbm, 362, rfl⟩
abbrev main_v229 : Ref sig .tc := ⟨.hbm, 363, rfl⟩
abbrev main_v230 : Ref sig .tc := ⟨.hbm, 364, rfl⟩
abbrev main_c_75 : Ref sig .tc := ⟨.hbm, 365, rfl⟩
abbrev main_v231 : Ref sig .tc := ⟨.hbm, 366, rfl⟩
abbrev main_v232 : Ref sig .tc := ⟨.hbm, 367, rfl⟩
abbrev main_v233 : Ref sig .tc := ⟨.hbm, 368, rfl⟩
abbrev main_call21_v0 : Ref sig .tc := ⟨.hbm, 369, rfl⟩
abbrev main_v234 : Ref sig .tc := ⟨.hbm, 370, rfl⟩
abbrev main_v235 : Ref sig .tc := ⟨.hbm, 371, rfl⟩
abbrev main_c_76 : Ref sig .tc := ⟨.hbm, 372, rfl⟩
abbrev main_v236 : Ref sig .tc := ⟨.hbm, 373, rfl⟩
abbrev main_v237 : Ref sig .tc := ⟨.hbm, 374, rfl⟩
abbrev main_v238 : Ref sig .tc := ⟨.hbm, 375, rfl⟩
abbrev main_c_77 : Ref sig .tc := ⟨.hbm, 376, rfl⟩
abbrev main_v239 : Ref sig .tc := ⟨.hbm, 377, rfl⟩
abbrev main_v240 : Ref sig .tc := ⟨.hbm, 378, rfl⟩
abbrev main_v241 : Ref sig .tc := ⟨.hbm, 379, rfl⟩
abbrev main_call22_v0 : Ref sig .tc := ⟨.hbm, 380, rfl⟩
abbrev main_v242 : Ref sig .tc := ⟨.hbm, 381, rfl⟩
abbrev main_v243 : Ref sig .tc := ⟨.hbm, 382, rfl⟩
abbrev main_c_78 : Ref sig .tc := ⟨.hbm, 383, rfl⟩
abbrev main_v244 : Ref sig .tc := ⟨.hbm, 384, rfl⟩
abbrev main_v245 : Ref sig .tc := ⟨.hbm, 385, rfl⟩
abbrev main_v246 : Ref sig .tc := ⟨.hbm, 386, rfl⟩
abbrev main_c_79 : Ref sig .tc := ⟨.hbm, 387, rfl⟩
abbrev main_v247 : Ref sig .tc := ⟨.hbm, 388, rfl⟩
abbrev main_v248 : Ref sig .tc := ⟨.hbm, 389, rfl⟩
abbrev main_v249 : Ref sig .tc := ⟨.hbm, 390, rfl⟩
abbrev main_call23_v0 : Ref sig .tc := ⟨.hbm, 391, rfl⟩
abbrev main_v250 : Ref sig .tc := ⟨.hbm, 392, rfl⟩
abbrev main_v251 : Ref sig .tc := ⟨.hbm, 393, rfl⟩
abbrev main_v252 : Ref sig .tc := ⟨.hbm, 394, rfl⟩
abbrev main_v253 : Ref sig .tc := ⟨.hbm, 395, rfl⟩
abbrev main_v254 : Ref sig .tc := ⟨.hbm, 396, rfl⟩
abbrev main_v255 : Ref sig .tc := ⟨.hbm, 397, rfl⟩
abbrev main_v256 : Ref sig .tc := ⟨.hbm, 398, rfl⟩
abbrev main_v257 : Ref sig .tc := ⟨.hbm, 399, rfl⟩
abbrev main_v258 : Ref sig .tc := ⟨.hbm, 400, rfl⟩
abbrev main_v259 : Ref sig .tc := ⟨.hbm, 401, rfl⟩
abbrev main_v260 : Ref sig .tc := ⟨.hbm, 402, rfl⟩
abbrev main_v261 : Ref sig .tc := ⟨.hbm, 403, rfl⟩
abbrev main_v262 : Ref sig .tc := ⟨.hbm, 404, rfl⟩
abbrev main_v263 : Ref sig .tc := ⟨.hbm, 405, rfl⟩
abbrev main_v264 : Ref sig .tc := ⟨.hbm, 406, rfl⟩
abbrev main_v265 : Ref sig .tc := ⟨.hbm, 407, rfl⟩
abbrev main_v266 : Ref sig .tc := ⟨.hbm, 408, rfl⟩
abbrev main_v267 : Ref sig .tc := ⟨.hbm, 409, rfl⟩
abbrev main_v268 : Ref sig .tc := ⟨.hbm, 410, rfl⟩
abbrev main_cst_80 : Ref sig .tc := ⟨.hbm, 411, rfl⟩
abbrev main_v269 : Ref sig .tc := ⟨.hbm, 412, rfl⟩
abbrev main_v270 : Ref sig .tc := ⟨.hbm, 413, rfl⟩
abbrev main_cst_81 : Ref sig .tc := ⟨.hbm, 414, rfl⟩
abbrev main_v271 : Ref sig .tc := ⟨.hbm, 415, rfl⟩
abbrev main_v272 : Ref sig .tc := ⟨.hbm, 416, rfl⟩
abbrev main_cst_82 : Ref sig .tc := ⟨.hbm, 417, rfl⟩
abbrev main_v273 : Ref sig .tc := ⟨.hbm, 418, rfl⟩
abbrev main_v274 : Ref sig .tc := ⟨.hbm, 419, rfl⟩
abbrev main_cst_83 : Ref sig .tc := ⟨.hbm, 420, rfl⟩
abbrev main_v275 : Ref sig .tc := ⟨.hbm, 421, rfl⟩
abbrev main_v276 : Ref sig .tc := ⟨.hbm, 422, rfl⟩
abbrev main_cst_84 : Ref sig .tc := ⟨.hbm, 423, rfl⟩
abbrev main_v277 : Ref sig .tc := ⟨.hbm, 424, rfl⟩
abbrev main_v278 : Ref sig .tc := ⟨.hbm, 425, rfl⟩
abbrev main_cst_85 : Ref sig .tc := ⟨.hbm, 426, rfl⟩
abbrev main_v279 : Ref sig .tc := ⟨.hbm, 427, rfl⟩
abbrev main_v280 : Ref sig .tc := ⟨.hbm, 428, rfl⟩
abbrev main_cst_86 : Ref sig .tc := ⟨.hbm, 429, rfl⟩
abbrev main_v281 : Ref sig .tc := ⟨.hbm, 430, rfl⟩
abbrev main_v282 : Ref sig .tc := ⟨.hbm, 431, rfl⟩
abbrev main_cst_87 : Ref sig .tc := ⟨.hbm, 432, rfl⟩
abbrev main_v283 : Ref sig .tc := ⟨.hbm, 433, rfl⟩
abbrev main_v284 : Ref sig .tc := ⟨.hbm, 434, rfl⟩
abbrev main_cst_88 : Ref sig .tc := ⟨.hbm, 435, rfl⟩
abbrev main_v285 : Ref sig .tc := ⟨.hbm, 436, rfl⟩
abbrev main_v286 : Ref sig .tc := ⟨.hbm, 437, rfl⟩
abbrev main_v287 : Ref sig .tc := ⟨.hbm, 438, rfl⟩
abbrev main_cst_89 : Ref sig .tc := ⟨.hbm, 439, rfl⟩
abbrev main_cst_90 : Ref sig .tc := ⟨.hbm, 440, rfl⟩
abbrev main_call24_v0 : Ref sig .tc := ⟨.hbm, 441, rfl⟩
abbrev main_call24_v1 : Ref sig .tc := ⟨.hbm, 442, rfl⟩
abbrev main_call24_v2 : Ref sig .tc := ⟨.hbm, 443, rfl⟩
abbrev main_call24_v3 : Ref sig .tc := ⟨.hbm, 444, rfl⟩
abbrev main_call24_v4 : Ref sig .tc := ⟨.hbm, 445, rfl⟩
abbrev main_v288 : Ref sig .tc := ⟨.hbm, 446, rfl⟩
abbrev main_v289 : Ref sig .tc := ⟨.hbm, 447, rfl⟩
abbrev main_cst_91 : Ref sig .tc := ⟨.hbm, 448, rfl⟩
abbrev main_cst_92 : Ref sig .tc := ⟨.hbm, 449, rfl⟩
abbrev main_call25_v0 : Ref sig .tc := ⟨.hbm, 450, rfl⟩
abbrev main_call25_v1 : Ref sig .tc := ⟨.hbm, 451, rfl⟩
abbrev main_call25_v2 : Ref sig .tc := ⟨.hbm, 452, rfl⟩
abbrev main_call25_v3 : Ref sig .tc := ⟨.hbm, 453, rfl⟩
abbrev main_call25_v4 : Ref sig .tc := ⟨.hbm, 454, rfl⟩
abbrev main_v290 : Ref sig .tc := ⟨.hbm, 455, rfl⟩
abbrev main_v291 : Ref sig .tc := ⟨.hbm, 456, rfl⟩
abbrev main_cst_93 : Ref sig .tc := ⟨.hbm, 457, rfl⟩
abbrev main_cst_94 : Ref sig .tc := ⟨.hbm, 458, rfl⟩
abbrev main_call26_v0 : Ref sig .tc := ⟨.hbm, 459, rfl⟩
abbrev main_call26_v1 : Ref sig .tc := ⟨.hbm, 460, rfl⟩
abbrev main_call26_v2 : Ref sig .tc := ⟨.hbm, 461, rfl⟩
abbrev main_call26_v3 : Ref sig .tc := ⟨.hbm, 462, rfl⟩
abbrev main_call26_v4 : Ref sig .tc := ⟨.hbm, 463, rfl⟩
abbrev main_v292 : Ref sig .tc := ⟨.hbm, 464, rfl⟩
abbrev main_v293 : Ref sig .tc := ⟨.hbm, 465, rfl⟩
abbrev main_cst_95 : Ref sig .tc := ⟨.hbm, 466, rfl⟩
abbrev main_cst_96 : Ref sig .tc := ⟨.hbm, 467, rfl⟩
abbrev main_call27_v0 : Ref sig .tc := ⟨.hbm, 468, rfl⟩
abbrev main_call27_v1 : Ref sig .tc := ⟨.hbm, 469, rfl⟩
abbrev main_call27_v2 : Ref sig .tc := ⟨.hbm, 470, rfl⟩
abbrev main_call27_v3 : Ref sig .tc := ⟨.hbm, 471, rfl⟩
abbrev main_call27_v4 : Ref sig .tc := ⟨.hbm, 472, rfl⟩
abbrev main_v294 : Ref sig .tc := ⟨.hbm, 473, rfl⟩
abbrev main_v295 : Ref sig .tc := ⟨.hbm, 474, rfl⟩
abbrev main_cst_97 : Ref sig .tc := ⟨.hbm, 475, rfl⟩
abbrev main_v296 : Ref sig .tc := ⟨.hbm, 476, rfl⟩
abbrev main_v297 : Ref sig .tc := ⟨.hbm, 477, rfl⟩
abbrev main_cst_98 : Ref sig .tc := ⟨.hbm, 478, rfl⟩
abbrev main_v298 : Ref sig .tc := ⟨.hbm, 479, rfl⟩
abbrev main_v299 : Ref sig .tc := ⟨.hbm, 480, rfl⟩
abbrev main_v300 : Ref sig .tc := ⟨.hbm, 481, rfl⟩
abbrev main_v301 : Ref sig .tc := ⟨.hbm, 482, rfl⟩
abbrev main_v302 : Ref sig .tc := ⟨.hbm, 483, rfl⟩
abbrev main_v303 : Ref sig .tc := ⟨.hbm, 484, rfl⟩
abbrev main_c_99 : Ref sig .tc := ⟨.hbm, 485, rfl⟩
abbrev main_v304 : Ref sig .tc := ⟨.hbm, 486, rfl⟩
abbrev main_v305 : Ref sig .tc := ⟨.hbm, 487, rfl⟩
abbrev main_c_100 : Ref sig .tc := ⟨.hbm, 488, rfl⟩
abbrev main_v306 : Ref sig .tc := ⟨.hbm, 489, rfl⟩
abbrev main_v307 : Ref sig .tc := ⟨.hbm, 490, rfl⟩
abbrev main_c_101 : Ref sig .tc := ⟨.hbm, 491, rfl⟩
abbrev main_v308 : Ref sig .tc := ⟨.hbm, 492, rfl⟩
abbrev main_v309 : Ref sig .tc := ⟨.hbm, 493, rfl⟩
abbrev main_c_102 : Ref sig .tc := ⟨.hbm, 494, rfl⟩
abbrev main_v310 : Ref sig .tc := ⟨.hbm, 495, rfl⟩
abbrev main_v311 : Ref sig .tc := ⟨.hbm, 496, rfl⟩
abbrev main_c_103 : Ref sig .tc := ⟨.hbm, 497, rfl⟩
abbrev main_v312 : Ref sig .tc := ⟨.hbm, 498, rfl⟩
abbrev main_v313 : Ref sig .tc := ⟨.hbm, 499, rfl⟩
abbrev main_c_104 : Ref sig .tc := ⟨.hbm, 500, rfl⟩
abbrev main_v314 : Ref sig .tc := ⟨.hbm, 501, rfl⟩
abbrev main_v315 : Ref sig .tc := ⟨.hbm, 502, rfl⟩
abbrev main_v316 : Ref sig .tc := ⟨.hbm, 503, rfl⟩
abbrev main_v317 : Ref sig .tc := ⟨.hbm, 504, rfl⟩
abbrev main_v318 : Ref sig .tc := ⟨.hbm, 505, rfl⟩
abbrev main_c_105 : Ref sig .tc := ⟨.hbm, 506, rfl⟩
abbrev main_v319 : Ref sig .tc := ⟨.hbm, 507, rfl⟩
abbrev main_v320 : Ref sig .tc := ⟨.hbm, 508, rfl⟩
abbrev main_v321 : Ref sig .tc := ⟨.hbm, 509, rfl⟩
abbrev main_c_106 : Ref sig .tc := ⟨.hbm, 510, rfl⟩
abbrev main_v322 : Ref sig .tc := ⟨.hbm, 511, rfl⟩
abbrev main_v323 : Ref sig .tc := ⟨.hbm, 512, rfl⟩
abbrev main_v324 : Ref sig .tc := ⟨.hbm, 513, rfl⟩
abbrev main_call28_v0 : Ref sig .tc := ⟨.hbm, 514, rfl⟩
abbrev main_v325 : Ref sig .tc := ⟨.hbm, 515, rfl⟩
abbrev main_v326 : Ref sig .tc := ⟨.hbm, 516, rfl⟩
abbrev main_c_107 : Ref sig .tc := ⟨.hbm, 517, rfl⟩
abbrev main_v327 : Ref sig .tc := ⟨.hbm, 518, rfl⟩
abbrev main_v328 : Ref sig .tc := ⟨.hbm, 519, rfl⟩
abbrev main_v329 : Ref sig .tc := ⟨.hbm, 520, rfl⟩
abbrev main_c_108 : Ref sig .tc := ⟨.hbm, 521, rfl⟩
abbrev main_v330 : Ref sig .tc := ⟨.hbm, 522, rfl⟩
abbrev main_v331 : Ref sig .tc := ⟨.hbm, 523, rfl⟩
abbrev main_v332 : Ref sig .tc := ⟨.hbm, 524, rfl⟩
abbrev main_call29_v0 : Ref sig .tc := ⟨.hbm, 525, rfl⟩
abbrev main_v333 : Ref sig .tc := ⟨.hbm, 526, rfl⟩
abbrev main_v334 : Ref sig .tc := ⟨.hbm, 527, rfl⟩
abbrev main_c_109 : Ref sig .tc := ⟨.hbm, 528, rfl⟩
abbrev main_v335 : Ref sig .tc := ⟨.hbm, 529, rfl⟩
abbrev main_v336 : Ref sig .tc := ⟨.hbm, 530, rfl⟩
abbrev main_v337 : Ref sig .tc := ⟨.hbm, 531, rfl⟩
abbrev main_c_110 : Ref sig .tc := ⟨.hbm, 532, rfl⟩
abbrev main_v338 : Ref sig .tc := ⟨.hbm, 533, rfl⟩
abbrev main_v339 : Ref sig .tc := ⟨.hbm, 534, rfl⟩
abbrev main_v340 : Ref sig .tc := ⟨.hbm, 535, rfl⟩
abbrev main_call30_v0 : Ref sig .tc := ⟨.hbm, 536, rfl⟩
abbrev main_v341 : Ref sig .tc := ⟨.hbm, 537, rfl⟩
abbrev main_v342 : Ref sig .tc := ⟨.hbm, 538, rfl⟩
abbrev main_c_111 : Ref sig .tc := ⟨.hbm, 539, rfl⟩
abbrev main_v343 : Ref sig .tc := ⟨.hbm, 540, rfl⟩
abbrev main_v344 : Ref sig .tc := ⟨.hbm, 541, rfl⟩
abbrev main_v345 : Ref sig .tc := ⟨.hbm, 542, rfl⟩
abbrev main_c_112 : Ref sig .tc := ⟨.hbm, 543, rfl⟩
abbrev main_v346 : Ref sig .tc := ⟨.hbm, 544, rfl⟩
abbrev main_v347 : Ref sig .tc := ⟨.hbm, 545, rfl⟩
abbrev main_v348 : Ref sig .tc := ⟨.hbm, 546, rfl⟩
abbrev main_call31_v0 : Ref sig .tc := ⟨.hbm, 547, rfl⟩
abbrev main_v349 : Ref sig .tc := ⟨.hbm, 548, rfl⟩
abbrev main_v350 : Ref sig .tc := ⟨.hbm, 549, rfl⟩
abbrev main_c_113 : Ref sig .tc := ⟨.hbm, 550, rfl⟩
abbrev main_v351 : Ref sig .tc := ⟨.hbm, 551, rfl⟩
abbrev main_v352 : Ref sig .tc := ⟨.hbm, 552, rfl⟩
abbrev main_v353 : Ref sig .tc := ⟨.hbm, 553, rfl⟩
abbrev main_c_114 : Ref sig .tc := ⟨.hbm, 554, rfl⟩
abbrev main_v354 : Ref sig .tc := ⟨.hbm, 555, rfl⟩
abbrev main_v355 : Ref sig .tc := ⟨.hbm, 556, rfl⟩
abbrev main_v356 : Ref sig .tc := ⟨.hbm, 557, rfl⟩
abbrev main_call32_v0 : Ref sig .tc := ⟨.hbm, 558, rfl⟩
abbrev main_v357 : Ref sig .tc := ⟨.hbm, 559, rfl⟩
abbrev main_v358 : Ref sig .tc := ⟨.hbm, 560, rfl⟩
abbrev main_c_115 : Ref sig .tc := ⟨.hbm, 561, rfl⟩
abbrev main_v359 : Ref sig .tc := ⟨.hbm, 562, rfl⟩
abbrev main_v360 : Ref sig .tc := ⟨.hbm, 563, rfl⟩
abbrev main_v361 : Ref sig .tc := ⟨.hbm, 564, rfl⟩
abbrev main_c_116 : Ref sig .tc := ⟨.hbm, 565, rfl⟩
abbrev main_v362 : Ref sig .tc := ⟨.hbm, 566, rfl⟩
abbrev main_v363 : Ref sig .tc := ⟨.hbm, 567, rfl⟩
abbrev main_v364 : Ref sig .tc := ⟨.hbm, 568, rfl⟩
abbrev main_call33_v0 : Ref sig .tc := ⟨.hbm, 569, rfl⟩
abbrev main_v365 : Ref sig .tc := ⟨.hbm, 570, rfl⟩
abbrev main_v366 : Ref sig .tc := ⟨.hbm, 571, rfl⟩
abbrev main_c_117 : Ref sig .tc := ⟨.hbm, 572, rfl⟩
abbrev main_v367 : Ref sig .tc := ⟨.hbm, 573, rfl⟩
abbrev main_v368 : Ref sig .tc := ⟨.hbm, 574, rfl⟩
abbrev main_v369 : Ref sig .tc := ⟨.hbm, 575, rfl⟩
abbrev main_c_118 : Ref sig .tc := ⟨.hbm, 576, rfl⟩
abbrev main_v370 : Ref sig .tc := ⟨.hbm, 577, rfl⟩
abbrev main_v371 : Ref sig .tc := ⟨.hbm, 578, rfl⟩
abbrev main_v372 : Ref sig .tc := ⟨.hbm, 579, rfl⟩
abbrev main_call34_v0 : Ref sig .tc := ⟨.hbm, 580, rfl⟩
abbrev main_v373 : Ref sig .tc := ⟨.hbm, 581, rfl⟩
abbrev main_v374 : Ref sig .tc := ⟨.hbm, 582, rfl⟩
abbrev main_c_119 : Ref sig .tc := ⟨.hbm, 583, rfl⟩
abbrev main_v375 : Ref sig .tc := ⟨.hbm, 584, rfl⟩
abbrev main_v376 : Ref sig .tc := ⟨.hbm, 585, rfl⟩
abbrev main_v377 : Ref sig .tc := ⟨.hbm, 586, rfl⟩
abbrev main_c_120 : Ref sig .tc := ⟨.hbm, 587, rfl⟩
abbrev main_v378 : Ref sig .tc := ⟨.hbm, 588, rfl⟩
abbrev main_v379 : Ref sig .tc := ⟨.hbm, 589, rfl⟩
abbrev main_v380 : Ref sig .tc := ⟨.hbm, 590, rfl⟩
abbrev main_call35_v0 : Ref sig .tc := ⟨.hbm, 591, rfl⟩
abbrev main_v381 : Ref sig .tc := ⟨.hbm, 592, rfl⟩
abbrev main_v382 : Ref sig .tc := ⟨.hbm, 593, rfl⟩
abbrev main_v383 : Ref sig .tc := ⟨.hbm, 594, rfl⟩
abbrev main_v384 : Ref sig .tc := ⟨.hbm, 595, rfl⟩
abbrev main_v385 : Ref sig .tc := ⟨.hbm, 596, rfl⟩
abbrev main_v386 : Ref sig .tc := ⟨.hbm, 597, rfl⟩
abbrev main_v387 : Ref sig .tc := ⟨.hbm, 598, rfl⟩
abbrev main_v388 : Ref sig .tc := ⟨.hbm, 599, rfl⟩
abbrev main_v389 : Ref sig .tc := ⟨.hbm, 600, rfl⟩
abbrev main_v390 : Ref sig .tc := ⟨.hbm, 601, rfl⟩
abbrev main_v391 : Ref sig .tc := ⟨.hbm, 602, rfl⟩
abbrev main_v392 : Ref sig .tc := ⟨.hbm, 603, rfl⟩
abbrev main_v393 : Ref sig .tc := ⟨.hbm, 604, rfl⟩
abbrev main_v394 : Ref sig .tc := ⟨.hbm, 605, rfl⟩
abbrev main_v395 : Ref sig .tc := ⟨.hbm, 606, rfl⟩
abbrev main_v396 : Ref sig .tc := ⟨.hbm, 607, rfl⟩
abbrev main_v397 : Ref sig .tc := ⟨.hbm, 608, rfl⟩
abbrev main_v398 : Ref sig .tc := ⟨.hbm, 609, rfl⟩
abbrev main_v399 : Ref sig .tc := ⟨.hbm, 610, rfl⟩
abbrev main_v400 : Ref sig .tc := ⟨.hbm, 611, rfl⟩
abbrev main_v401 : Ref sig .tc := ⟨.hbm, 612, rfl⟩
abbrev main_v402 : Ref sig .tc := ⟨.hbm, 613, rfl⟩
abbrev main_v403 : Ref sig .tc := ⟨.hbm, 614, rfl⟩
abbrev main_v404 : Ref sig .tc := ⟨.hbm, 615, rfl⟩
abbrev main_v405 : Ref sig .tc := ⟨.hbm, 616, rfl⟩
abbrev main_v406 : Ref sig .tc := ⟨.hbm, 617, rfl⟩
abbrev main_v407 : Ref sig .tc := ⟨.hbm, 618, rfl⟩
abbrev main_v408 : Ref sig .tc := ⟨.hbm, 619, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S12x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S12x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S12x16384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1x1x1x1048576x3_S1048576x3 : S1x1x1x1048576x3.ShapeCasts S1048576x3
  slices_S1048576x3_S1048576x1_0_0 : S1048576x3.Slices ![0, 0] S1048576x1
  shapeCasts_S1048576x1_S1048576 : S1048576x1.ShapeCasts S1048576
  slices_S1048576x3_S1048576x1_0_1 : S1048576x3.Slices ![0, 1] S1048576x1
  slices_S1048576x3_S1048576x1_0_2 : S1048576x3.Slices ![0, 2] S1048576x1
  bcast_S_S1048576 : S_.BroadcastsInDim S1048576 (![] : Fin 0 → Fin S1048576.rank)
  shapeCasts_S1x4x64x64x64_S4x64x64x64 : S1x4x64x64x64.ShapeCasts S4x64x64x64
  transposes_S4x64x64x64_S64x64x64x4_1_2_3_0 : S4x64x64x64.Transposes [1, 2, 3, 0] S64x64x64x4
  shapeCasts_S64x64x64x4_S262144x4 : S64x64x64x4.ShapeCasts S262144x4
  bcast_S1048576_S1048576x1_0 : S1048576.BroadcastsInDim S1048576x1 (![0] : Fin 1 → Fin S1048576x1.rank)
  transposes_S1048576x4_S4x1048576_1_0 : S1048576x4.Transposes [1, 0] S4x1048576
  bcast_S1048576_S1x1048576_1 : S1048576.BroadcastsInDim S1x1048576 (![1] : Fin 1 → Fin S1x1048576.rank)
  bcast_S1x1048576_S4x1048576_0_1 : S1x1048576.BroadcastsInDim S4x1048576 (![0, 1] : Fin 2 → Fin S4x1048576.rank)
  shapeCasts_S1x4x128x128x128_S4x128x128x128 : S1x4x128x128x128.ShapeCasts S4x128x128x128
  transposes_S4x128x128x128_S128x128x128x4_1_2_3_0 : S4x128x128x128.Transposes [1, 2, 3, 0] S128x128x128x4
  shapeCasts_S128x128x128x4_S2097152x4 : S128x128x128x4.ShapeCasts S2097152x4
  shapeCasts_S1x4x192x192x192_S4x192x192x192 : S1x4x192x192x192.ShapeCasts S4x192x192x192
  transposes_S4x192x192x192_S192x192x192x4_1_2_3_0 : S4x192x192x192.Transposes [1, 2, 3, 0] S192x192x192x4
  shapeCasts_S192x192x192x4_S7077888x4 : S192x192x192x4.ShapeCasts S7077888x4
  concatenates_S4x1048576_S4x1048576_S4x1048576_S12x1048576_d0 : Shape.Concatenates [S4x1048576, S4x1048576, S4x1048576] S12x1048576 0
  concatenates_S1x1048576_S1x1048576_S2x1048576_d0 : Shape.Concatenates [S1x1048576, S1x1048576] S2x1048576 0
  inb_S2x16384_S1x16384_0_0 : ∀ a, (![0, 0] : Fin 2 → Nat) a + S1x16384.size a ≤ S2x16384.size a
  h_S1x16384 : 0 < S1x16384.numel
  shapeCasts_S1x16384_S1x16384 : S1x16384.ShapeCasts S1x16384
  inb_S2x16384_S1x16384_1_0 : ∀ a, (![1, 0] : Fin 2 → Nat) a + S1x16384.size a ≤ S2x16384.size a
  broadcasts_S1x16384_S4x16384 : S1x16384.Broadcasts S4x16384
  inb_S12x16384_S4x16384_0_0 : ∀ a, (![0, 0] : Fin 2 → Nat) a + S4x16384.size a ≤ S12x16384.size a
  h_S4x16384 : 0 < S4x16384.numel
  shapeCasts_S4x16384_S4x16384 : S4x16384.ShapeCasts S4x16384
  inb_S12x16384_S4x16384_4_0 : ∀ a, (![4, 0] : Fin 2 → Nat) a + S4x16384.size a ≤ S12x16384.size a
  inb_S12x16384_S4x16384_8_0 : ∀ a, (![8, 0] : Fin 2 → Nat) a + S4x16384.size a ≤ S12x16384.size a
  concatenates_S4x16384_S4x16384_S4x16384_S12x16384_d0 : Shape.Concatenates [S4x16384, S4x16384, S4x16384] S12x16384 0
  inb_S12x16384_S12x16384_0_0 : ∀ a, (![0, 0] : Fin 2 → Nat) a + S12x16384.size a ≤ S12x16384.size a
  h_S12x16384 : 0 < S12x16384.numel
  shapeCasts_S12x1048576_S1x12x1x1x1048576 : S12x1048576.ShapeCasts S1x12x1x1x1048576
  gather_S262144x4_S1048576x1_S1048576x4_1_0_n_n_0_1_14_wf : GatherDims.WF S262144x4 S1048576x1 S1048576x4 [1] [0] [] [0] [] 1 ![1, 4]
  gather_S2097152x4_S1048576x1_S1048576x4_1_0_n_n_0_1_14_wf : GatherDims.WF S2097152x4 S1048576x1 S1048576x4 [1] [0] [] [0] [] 1 ![1, 4]
  gather_S7077888x4_S1048576x1_S1048576x4_1_0_n_n_0_1_14_wf : GatherDims.WF S7077888x4 S1048576x1 S1048576x4 [1] [0] [] [0] [] 1 ![1, 4]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12x16384.size a ≤ S12x1048576.size a
  hwx0_0 : ∀ i : grid0.Coords, EltTy.bits .f32 = 32 ∨ (Rect.block (s := S12x1048576) S12x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12x16384.size a ≤ S12x1048576.size a
  hwx0_1 : ∀ i : grid0.Coords, EltTy.bits .f32 = 32 ∨ (Rect.block (s := S12x1048576) S12x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S12x16384.size a ≤ S12x1048576.size a
  hwx0_2 : ∀ i : grid0.Coords, EltTy.bits .f32 = 32 ∨ (Rect.block (s := S12x1048576) S12x16384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S12x16384.size a ≤ S12x1048576.size a
  hwx0_3 : ∀ i : grid0.Coords, EltTy.bits .f32 = 32 ∨ (Rect.block (s := S12x1048576) S12x16384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x16384.size a ≤ S2x1048576.size a
  hwx0_4 : ∀ i : grid0.Coords, EltTy.bits .f32 = 32 ∨ (Rect.block (s := S2x1048576) S2x16384.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S12x16384.size a ≤ S12x1048576.size a
  hwx0_5 : ∀ i : grid0.Coords, EltTy.bits .f32 = 32 ∨ (Rect.block (s := S12x1048576) S12x16384.size (cc0_transform_5 i) (hinb0_5 i)).WholeWords (EltTy.packing .f32)

variable [Facts₀]

def gather_S262144x4_S1048576x1_S1048576x4_1_0_n_n_0_1_14 : GatherDims S262144x4 S1048576x1 S1048576x4 where
  offsetDims := [1]
  collapsedSliceDims := [0]
  operandBatchingDims := []
  startIndicesBatchingDims := []
  startIndexMap := [0]
  indexVectorDim := 1
  sliceSizes := ![1, 4]
  wf := gather_S262144x4_S1048576x1_S1048576x4_1_0_n_n_0_1_14_wf
def gather_S2097152x4_S1048576x1_S1048576x4_1_0_n_n_0_1_14 : GatherDims S2097152x4 S1048576x1 S1048576x4 where
  offsetDims := [1]
  collapsedSliceDims := [0]
  operandBatchingDims := []
  startIndicesBatchingDims := []
  startIndexMap := [0]
  indexVectorDim := 1
  sliceSizes := ![1, 4]
  wf := gather_S2097152x4_S1048576x1_S1048576x4_1_0_n_n_0_1_14_wf
def gather_S7077888x4_S1048576x1_S1048576x4_1_0_n_n_0_1_14 : GatherDims S7077888x4 S1048576x1 S1048576x4 where
  offsetDims := [1]
  collapsedSliceDims := [0]
  operandBatchingDims := []
  startIndicesBatchingDims := []
  startIndexMap := [0]
  indexVectorDim := 1
  sliceSizes := ![1, 4]
  wf := gather_S7077888x4_S1048576x1_S1048576x4_1_0_n_n_0_1_14_wf

abbrev win0_0 : Pipeline.Window sig grid0 :=
  Pipeline.Window.ofSpec (Memref.whole main_v400) S12x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v401) S12x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v402) S12x16384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v403) S12x16384.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v406) S2x16384.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v407) S12x16384.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x1x1x1048576x3 : Shape := ⟨5, ![1, 1, 1, 1048576, 3]⟩
abbrev S1x4x64x64x64 : Shape := ⟨5, ![1, 4, 64, 64, 64]⟩
abbrev S1x4x128x128x128 : Shape := ⟨5, ![1, 4, 128, 128, 128]⟩
abbrev S1x4x192x192x192 : Shape := ⟨5, ![1, 4, 192, 192, 192]⟩
abbrev S1048576x3 : Shape := ⟨2, ![1048576, 3]⟩
abbrev S1048576x1 : Shape := ⟨2, ![1048576, 1]⟩
abbrev S1048576 : Shape := ⟨1, ![1048576]⟩
abbrev S_ : Shape := ⟨0, ![]⟩
abbrev S4x262144 : Shape := ⟨2, ![4, 262144]⟩
abbrev S4x1048576 : Shape := ⟨2, ![4, 1048576]⟩
abbrev S1x1048576 : Shape := ⟨2, ![1, 1048576]⟩
abbrev S1x4x1x1x1048576 : Shape := ⟨5, ![1, 4, 1, 1, 1048576]⟩
abbrev S4x2097152 : Shape := ⟨2, ![4, 2097152]⟩
abbrev S4x7077888 : Shape := ⟨2, ![4, 7077888]⟩
abbrev S1x12x1x1x1048576 : Shape := ⟨5, ![1, 12, 1, 1, 1048576]⟩

abbrev nBuf : Space → Nat
  | .hbm => 923
  | .vmem => 0
  | .smem => 0
  | _ => 0

abbrev hbmTy0_0 (i : Nat) : BufTy := match i % 128 with
  | 0 => ⟨S1x1x1x1048576x3, .f32⟩
  | 1 => ⟨S1x4x64x64x64, .f32⟩
  | 2 => ⟨S1x4x128x128x128, .f32⟩
  | 3 => ⟨S1x4x192x192x192, .f32⟩
  | 4 => ⟨S1048576x3, .f32⟩
  | 5 => ⟨S1048576x1, .f32⟩
  | 6 => ⟨S1048576, .f32⟩
  | 7 => ⟨S_, .f32⟩
  | 8 => ⟨S1048576, .f32⟩
  | 9 => ⟨S1048576, .f32⟩
  | 10 => ⟨S_, .f32⟩
  | 11 => ⟨S1048576, .f32⟩
  | 12 => ⟨S1048576, .f32⟩
  | 13 => ⟨S_, .f32⟩
  | 14 => ⟨S1048576, .f32⟩
  | 15 => ⟨S1048576, .f32⟩
  | 16 => ⟨S1048576x1, .f32⟩
  | 17 => ⟨S1048576, .f32⟩
  | 18 => ⟨S_, .f32⟩
  | 19 => ⟨S1048576, .f32⟩
  | 20 => ⟨S1048576, .f32⟩
  | 21 => ⟨S_, .f32⟩
  | 22 => ⟨S1048576, .f32⟩
  | 23 => ⟨S1048576, .f32⟩
  | 24 => ⟨S_, .f32⟩
  | 25 => ⟨S1048576, .f32⟩
  | 26 => ⟨S1048576, .f32⟩
  | 27 => ⟨S1048576x1, .f32⟩
  | 28 => ⟨S1048576, .f32⟩
  | 29 => ⟨S_, .f32⟩
  | 30 => ⟨S1048576, .f32⟩
  | 31 => ⟨S1048576, .f32⟩
  | 32 => ⟨S_, .f32⟩
  | 33 => ⟨S1048576, .f32⟩
  | 34 => ⟨S1048576, .f32⟩
  | 35 => ⟨S_, .f32⟩
  | 36 => ⟨S1048576, .f32⟩
  | 37 => ⟨S1048576, .f32⟩
  | 38 => ⟨S1048576, .f32⟩
  | 39 => ⟨S_, .f32⟩
  | 40 => ⟨S_, .i32⟩
  | 41 => ⟨S_, .f32⟩
  | 42 => ⟨S1048576, .f32⟩
  | 43 => ⟨S1048576, .f32⟩
  | 44 => ⟨S_, .f32⟩
  | 45 => ⟨S1048576, .f32⟩
  | 46 => ⟨S1048576, .f32⟩
  | 47 => ⟨S1048576, .f32⟩
  | 48 => ⟨S_, .f32⟩
  | 49 => ⟨S_, .i32⟩
  | 50 => ⟨S_, .f32⟩
  | 51 => ⟨S1048576, .f32⟩
  | 52 => ⟨S1048576, .f32⟩
  | 53 => ⟨S_, .f32⟩
  | 54 => ⟨S1048576, .f32⟩
  | 55 => ⟨S1048576, .f32⟩
  | 56 => ⟨S1048576, .f32⟩
  | 57 => ⟨S_, .f32⟩
  | 58 => ⟨S_, .i32⟩
  | 59 => ⟨S_, .f32⟩
  | 60 => ⟨S1048576, .f32⟩
  | 61 => ⟨S1048576, .f32⟩
  | 62 => ⟨S_, .f32⟩
  | 63 => ⟨S1048576, .f32⟩
  | 64 => ⟨S1048576, .f32⟩
  | 65 => ⟨S1048576, .f32⟩
  | 66 => ⟨S_, .f32⟩
  | 67 => ⟨S_, .f32⟩
  | 68 => ⟨S_, .f32⟩
  | 69 => ⟨S1048576, .f32⟩
  | 70 => ⟨S1048576, .f32⟩
  | 71 => ⟨S_, .f32⟩
  | 72 => ⟨S1048576, .f32⟩
  | 73 => ⟨S1048576, .f32⟩
  | 74 => ⟨S1048576, .f32⟩
  | 75 => ⟨S_, .f32⟩
  | 76 => ⟨S_, .f32⟩
  | 77 => ⟨S_, .f32⟩
  | 78 => ⟨S1048576, .f32⟩
  | 79 => ⟨S1048576, .f32⟩
  | 80 => ⟨S_, .f32⟩
  | 81 => ⟨S1048576, .f32⟩
  | 82 => ⟨S1048576, .f32⟩
  | 83 => ⟨S1048576, .f32⟩
  | 84 => ⟨S_, .f32⟩
  | 85 => ⟨S_, .f32⟩
  | 86 => ⟨S_, .f32⟩
  | 87 => ⟨S1048576, .f32⟩
  | 88 => ⟨S1048576, .f32⟩
  | 89 => ⟨S_, .f32⟩
  | 90 => ⟨S1048576, .f32⟩
  | 91 => ⟨S1048576, .f32⟩
  | 92 => ⟨S1048576, .f32⟩
  | 93 => ⟨S_, .f32⟩
  | 94 => ⟨S1048576, .f32⟩
  | 95 => ⟨S1048576, .f32⟩
  | 96 => ⟨S_, .f32⟩
  | 97 => ⟨S1048576, .f32⟩
  | 98 => ⟨S1048576, .f32⟩
  | 99 => ⟨S1048576, .f32⟩
  | 100 => ⟨S1048576, .f32⟩
  | 101 => ⟨S_, .f32⟩
  | 102 => ⟨S1048576, .f32⟩
  | 103 => ⟨S1048576, .f32⟩
  | 104 => ⟨S_, .f32⟩
  | 105 => ⟨S1048576, .f32⟩
  | 106 => ⟨S1048576, .f32⟩
  | 107 => ⟨S1048576, .f32⟩
  | 108 => ⟨S1048576, .f32⟩
  | 109 => ⟨S_, .f32⟩
  | 110 => ⟨S1048576, .f32⟩
  | 111 => ⟨S1048576, .f32⟩
  | 112 => ⟨S_, .f32⟩
  | 113 => ⟨S1048576, .f32⟩
  | 114 => ⟨S1048576, .f32⟩
  | 115 => ⟨S1048576, .f32⟩
  | 116 => ⟨S1048576, .i32⟩
  | 117 => ⟨S1048576, .i32⟩
  | 118 => ⟨S1048576, .i32⟩
  | 119 => ⟨S_, .i32⟩
  | 120 => ⟨S1048576, .i32⟩
  | 121 => ⟨S1048576, .i32⟩
  | 122 => ⟨S_, .i32⟩
  | 123 => ⟨S1048576, .i32⟩
  | 124 => ⟨S1048576, .i32⟩
  | 125 => ⟨S_, .i32⟩
  | 126 => ⟨S1048576, .i32⟩
  | 127 => ⟨S1048576, .i32⟩
  | _ => ⟨S1x1x1x1048576x3, .f32⟩

abbrev hbmTy0_1 (i : Nat) : BufTy := match i % 128 with
  | 0 => ⟨S_, .i32⟩
  | 1 => ⟨S1048576, .i32⟩
  | 2 => ⟨S1048576, .i32⟩
  | 3 => ⟨S_, .i32⟩
  | 4 => ⟨S1048576, .i32⟩
  | 5 => ⟨S1048576, .i32⟩
  | 6 => ⟨S_, .i32⟩
  | 7 => ⟨S1048576, .i32⟩
  | 8 => ⟨S1048576, .i32⟩
  | 9 => ⟨S4x262144, .f32⟩
  | 10 => ⟨S_, .i32⟩
  | 11 => ⟨S1048576, .i32⟩
  | 12 => ⟨S1048576, .i32⟩
  | 13 => ⟨S1048576, .i32⟩
  | 14 => ⟨S_, .i32⟩
  | 15 => ⟨S1048576, .i32⟩
  | 16 => ⟨S1048576, .i32⟩
  | 17 => ⟨S1048576, .i32⟩
  | 18 => ⟨S_, .i32⟩
  | 19 => ⟨S1048576, .i32⟩
  | 20 => ⟨S1048576, .i1⟩
  | 21 => ⟨S_, .i32⟩
  | 22 => ⟨S1048576, .i32⟩
  | 23 => ⟨S1048576, .i32⟩
  | 24 => ⟨S1048576, .i32⟩
  | 25 => ⟨S1048576x1, .i32⟩
  | 26 => ⟨S4x1048576, .f32⟩
  | 27 => ⟨S_, .i32⟩
  | 28 => ⟨S1048576, .i32⟩
  | 29 => ⟨S1048576, .i32⟩
  | 30 => ⟨S1048576, .i32⟩
  | 31 => ⟨S_, .i32⟩
  | 32 => ⟨S1048576, .i32⟩
  | 33 => ⟨S1048576, .i32⟩
  | 34 => ⟨S1048576, .i32⟩
  | 35 => ⟨S_, .i32⟩
  | 36 => ⟨S1048576, .i32⟩
  | 37 => ⟨S1048576, .i1⟩
  | 38 => ⟨S_, .i32⟩
  | 39 => ⟨S1048576, .i32⟩
  | 40 => ⟨S1048576, .i32⟩
  | 41 => ⟨S1048576, .i32⟩
  | 42 => ⟨S1048576x1, .i32⟩
  | 43 => ⟨S4x1048576, .f32⟩
  | 44 => ⟨S_, .i32⟩
  | 45 => ⟨S1048576, .i32⟩
  | 46 => ⟨S1048576, .i32⟩
  | 47 => ⟨S1048576, .i32⟩
  | 48 => ⟨S_, .i32⟩
  | 49 => ⟨S1048576, .i32⟩
  | 50 => ⟨S1048576, .i32⟩
  | 51 => ⟨S1048576, .i32⟩
  | 52 => ⟨S_, .i32⟩
  | 53 => ⟨S1048576, .i32⟩
  | 54 => ⟨S1048576, .i1⟩
  | 55 => ⟨S_, .i32⟩
  | 56 => ⟨S1048576, .i32⟩
  | 57 => ⟨S1048576, .i32⟩
  | 58 => ⟨S1048576, .i32⟩
  | 59 => ⟨S1048576x1, .i32⟩
  | 60 => ⟨S4x1048576, .f32⟩
  | 61 => ⟨S_, .i32⟩
  | 62 => ⟨S1048576, .i32⟩
  | 63 => ⟨S1048576, .i32⟩
  | 64 => ⟨S1048576, .i32⟩
  | 65 => ⟨S_, .i32⟩
  | 66 => ⟨S1048576, .i32⟩
  | 67 => ⟨S1048576, .i32⟩
  | 68 => ⟨S1048576, .i32⟩
  | 69 => ⟨S_, .i32⟩
  | 70 => ⟨S1048576, .i32⟩
  | 71 => ⟨S1048576, .i1⟩
  | 72 => ⟨S_, .i32⟩
  | 73 => ⟨S1048576, .i32⟩
  | 74 => ⟨S1048576, .i32⟩
  | 75 => ⟨S1048576, .i32⟩
  | 76 => ⟨S1048576x1, .i32⟩
  | 77 => ⟨S4x1048576, .f32⟩
  | 78 => ⟨S_, .i32⟩
  | 79 => ⟨S1048576, .i32⟩
  | 80 => ⟨S1048576, .i32⟩
  | 81 => ⟨S1048576, .i32⟩
  | 82 => ⟨S_, .i32⟩
  | 83 => ⟨S1048576, .i32⟩
  | 84 => ⟨S1048576, .i32⟩
  | 85 => ⟨S1048576, .i32⟩
  | 86 => ⟨S_, .i32⟩
  | 87 => ⟨S1048576, .i32⟩
  | 88 => ⟨S1048576, .i1⟩
  | 89 => ⟨S_, .i32⟩
  | 90 => ⟨S1048576, .i32⟩
  | 91 => ⟨S1048576, .i32⟩
  | 92 => ⟨S1048576, .i32⟩
  | 93 => ⟨S1048576x1, .i32⟩
  | 94 => ⟨S4x1048576, .f32⟩
  | 95 => ⟨S_, .i32⟩
  | 96 => ⟨S1048576, .i32⟩
  | 97 => ⟨S1048576, .i32⟩
  | 98 => ⟨S1048576, .i32⟩
  | 99 => ⟨S_, .i32⟩
  | 100 => ⟨S1048576, .i32⟩
  | 101 => ⟨S1048576, .i32⟩
  | 102 => ⟨S1048576, .i32⟩
  | 103 => ⟨S_, .i32⟩
  | 104 => ⟨S1048576, .i32⟩
  | 105 => ⟨S1048576, .i1⟩
  | 106 => ⟨S_, .i32⟩
  | 107 => ⟨S1048576, .i32⟩
  | 108 => ⟨S1048576, .i32⟩
  | 109 => ⟨S1048576, .i32⟩
  | 110 => ⟨S1048576x1, .i32⟩
  | 111 => ⟨S4x1048576, .f32⟩
  | 112 => ⟨S_, .i32⟩
  | 113 => ⟨S1048576, .i32⟩
  | 114 => ⟨S1048576, .i32⟩
  | 115 => ⟨S1048576, .i32⟩
  | 116 => ⟨S_, .i32⟩
  | 117 => ⟨S1048576, .i32⟩
  | 118 => ⟨S1048576, .i32⟩
  | 119 => ⟨S1048576, .i32⟩
  | 120 => ⟨S_, .i32⟩
  | 121 => ⟨S1048576, .i32⟩
  | 122 => ⟨S1048576, .i1⟩
  | 123 => ⟨S_, .i32⟩
  | 124 => ⟨S1048576, .i32⟩
  | 125 => ⟨S1048576, .i32⟩
  | 126 => ⟨S1048576, .i32⟩
  | 127 => ⟨S1048576x1, .i32⟩
  | _ => ⟨S1x1x1x1048576x3, .f32⟩

abbrev hbmTy0_2 (i : Nat) : BufTy := match i % 128 with
  | 0 => ⟨S4x1048576, .f32⟩
  | 1 => ⟨S_, .i32⟩
  | 2 => ⟨S1048576, .i32⟩
  | 3 => ⟨S1048576, .i32⟩
  | 4 => ⟨S1048576, .i32⟩
  | 5 => ⟨S_, .i32⟩
  | 6 => ⟨S1048576, .i32⟩
  | 7 => ⟨S1048576, .i32⟩
  | 8 => ⟨S1048576, .i32⟩
  | 9 => ⟨S_, .i32⟩
  | 10 => ⟨S1048576, .i32⟩
  | 11 => ⟨S1048576, .i1⟩
  | 12 => ⟨S_, .i32⟩
  | 13 => ⟨S1048576, .i32⟩
  | 14 => ⟨S1048576, .i32⟩
  | 15 => ⟨S1048576, .i32⟩
  | 16 => ⟨S1048576x1, .i32⟩
  | 17 => ⟨S4x1048576, .f32⟩
  | 18 => ⟨S4x1048576, .f32⟩
  | 19 => ⟨S1x1048576, .f32⟩
  | 20 => ⟨S4x1048576, .f32⟩
  | 21 => ⟨S4x1048576, .f32⟩
  | 22 => ⟨S4x1048576, .f32⟩
  | 23 => ⟨S4x1048576, .f32⟩
  | 24 => ⟨S1x1048576, .f32⟩
  | 25 => ⟨S4x1048576, .f32⟩
  | 26 => ⟨S4x1048576, .f32⟩
  | 27 => ⟨S4x1048576, .f32⟩
  | 28 => ⟨S4x1048576, .f32⟩
  | 29 => ⟨S1x1048576, .f32⟩
  | 30 => ⟨S4x1048576, .f32⟩
  | 31 => ⟨S4x1048576, .f32⟩
  | 32 => ⟨S4x1048576, .f32⟩
  | 33 => ⟨S4x1048576, .f32⟩
  | 34 => ⟨S1x1048576, .f32⟩
  | 35 => ⟨S4x1048576, .f32⟩
  | 36 => ⟨S4x1048576, .f32⟩
  | 37 => ⟨S4x1048576, .f32⟩
  | 38 => ⟨S4x1048576, .f32⟩
  | 39 => ⟨S1x1048576, .f32⟩
  | 40 => ⟨S4x1048576, .f32⟩
  | 41 => ⟨S4x1048576, .f32⟩
  | 42 => ⟨S4x1048576, .f32⟩
  | 43 => ⟨S4x1048576, .f32⟩
  | 44 => ⟨S1x1048576, .f32⟩
  | 45 => ⟨S4x1048576, .f32⟩
  | 46 => ⟨S4x1048576, .f32⟩
  | 47 => ⟨S4x1048576, .f32⟩
  | 48 => ⟨S4x1048576, .f32⟩
  | 49 => ⟨S1x1048576, .f32⟩
  | 50 => ⟨S4x1048576, .f32⟩
  | 51 => ⟨S4x1048576, .f32⟩
  | 52 => ⟨S4x1048576, .f32⟩
  | 53 => ⟨S1x4x1x1x1048576, .f32⟩
  | 54 => ⟨S1048576x3, .f32⟩
  | 55 => ⟨S1048576x1, .f32⟩
  | 56 => ⟨S1048576, .f32⟩
  | 57 => ⟨S_, .f32⟩
  | 58 => ⟨S1048576, .f32⟩
  | 59 => ⟨S1048576, .f32⟩
  | 60 => ⟨S_, .f32⟩
  | 61 => ⟨S1048576, .f32⟩
  | 62 => ⟨S1048576, .f32⟩
  | 63 => ⟨S_, .f32⟩
  | 64 => ⟨S1048576, .f32⟩
  | 65 => ⟨S1048576, .f32⟩
  | 66 => ⟨S1048576x1, .f32⟩
  | 67 => ⟨S1048576, .f32⟩
  | 68 => ⟨S_, .f32⟩
  | 69 => ⟨S1048576, .f32⟩
  | 70 => ⟨S1048576, .f32⟩
  | 71 => ⟨S_, .f32⟩
  | 72 => ⟨S1048576, .f32⟩
  | 73 => ⟨S1048576, .f32⟩
  | 74 => ⟨S_, .f32⟩
  | 75 => ⟨S1048576, .f32⟩
  | 76 => ⟨S1048576, .f32⟩
  | 77 => ⟨S1048576x1, .f32⟩
  | 78 => ⟨S1048576, .f32⟩
  | 79 => ⟨S_, .f32⟩
  | 80 => ⟨S1048576, .f32⟩
  | 81 => ⟨S1048576, .f32⟩
  | 82 => ⟨S_, .f32⟩
  | 83 => ⟨S1048576, .f32⟩
  | 84 => ⟨S1048576, .f32⟩
  | 85 => ⟨S_, .f32⟩
  | 86 => ⟨S1048576, .f32⟩
  | 87 => ⟨S1048576, .f32⟩
  | 88 => ⟨S1048576, .f32⟩
  | 89 => ⟨S_, .f32⟩
  | 90 => ⟨S_, .i32⟩
  | 91 => ⟨S_, .f32⟩
  | 92 => ⟨S1048576, .f32⟩
  | 93 => ⟨S1048576, .f32⟩
  | 94 => ⟨S_, .f32⟩
  | 95 => ⟨S1048576, .f32⟩
  | 96 => ⟨S1048576, .f32⟩
  | 97 => ⟨S1048576, .f32⟩
  | 98 => ⟨S_, .f32⟩
  | 99 => ⟨S_, .i32⟩
  | 100 => ⟨S_, .f32⟩
  | 101 => ⟨S1048576, .f32⟩
  | 102 => ⟨S1048576, .f32⟩
  | 103 => ⟨S_, .f32⟩
  | 104 => ⟨S1048576, .f32⟩
  | 105 => ⟨S1048576, .f32⟩
  | 106 => ⟨S1048576, .f32⟩
  | 107 => ⟨S_, .f32⟩
  | 108 => ⟨S_, .i32⟩
  | 109 => ⟨S_, .f32⟩
  | 110 => ⟨S1048576, .f32⟩
  | 111 => ⟨S1048576, .f32⟩
  | 112 => ⟨S_, .f32⟩
  | 113 => ⟨S1048576, .f32⟩
  | 114 => ⟨S1048576, .f32⟩
  | 115 => ⟨S1048576, .f32⟩
  | 116 => ⟨S_, .f32⟩
  | 117 => ⟨S_, .f32⟩
  | 118 => ⟨S_, .f32⟩
  | 119 => ⟨S1048576, .f32⟩
  | 120 => ⟨S1048576, .f32⟩
  | 121 => ⟨S_, .f32⟩
  | 122 => ⟨S1048576, .f32⟩
  | 123 => ⟨S1048576, .f32⟩
  | 124 => ⟨S1048576, .f32⟩
  | 125 => ⟨S_, .f32⟩
  | 126 => ⟨S_, .f32⟩
  | 127 => ⟨S_, .f32⟩
  | _ => ⟨S1x1x1x1048576x3, .f32⟩

abbrev hbmTy0_3 (i : Nat) : BufTy := match i % 128 with
  | 0 => ⟨S1048576, .f32⟩
  | 1 => ⟨S1048576, .f32⟩
  | 2 => ⟨S_, .f32⟩
  | 3 => ⟨S1048576, .f32⟩
  | 4 => ⟨S1048576, .f32⟩
  | 5 => ⟨S1048576, .f32⟩
  | 6 => ⟨S_, .f32⟩
  | 7 => ⟨S_, .f32⟩
  | 8 => ⟨S_, .f32⟩
  | 9 => ⟨S1048576, .f32⟩
  | 10 => ⟨S1048576, .f32⟩
  | 11 => ⟨S_, .f32⟩
  | 12 => ⟨S1048576, .f32⟩
  | 13 => ⟨S1048576, .f32⟩
  | 14 => ⟨S1048576, .f32⟩
  | 15 => ⟨S_, .f32⟩
  | 16 => ⟨S1048576, .f32⟩
  | 17 => ⟨S1048576, .f32⟩
  | 18 => ⟨S_, .f32⟩
  | 19 => ⟨S1048576, .f32⟩
  | 20 => ⟨S1048576, .f32⟩
  | 21 => ⟨S1048576, .f32⟩
  | 22 => ⟨S1048576, .f32⟩
  | 23 => ⟨S_, .f32⟩
  | 24 => ⟨S1048576, .f32⟩
  | 25 => ⟨S1048576, .f32⟩
  | 26 => ⟨S_, .f32⟩
  | 27 => ⟨S1048576, .f32⟩
  | 28 => ⟨S1048576, .f32⟩
  | 29 => ⟨S1048576, .f32⟩
  | 30 => ⟨S1048576, .f32⟩
  | 31 => ⟨S_, .f32⟩
  | 32 => ⟨S1048576, .f32⟩
  | 33 => ⟨S1048576, .f32⟩
  | 34 => ⟨S_, .f32⟩
  | 35 => ⟨S1048576, .f32⟩
  | 36 => ⟨S1048576, .f32⟩
  | 37 => ⟨S1048576, .f32⟩
  | 38 => ⟨S1048576, .i32⟩
  | 39 => ⟨S1048576, .i32⟩
  | 40 => ⟨S1048576, .i32⟩
  | 41 => ⟨S_, .i32⟩
  | 42 => ⟨S1048576, .i32⟩
  | 43 => ⟨S1048576, .i32⟩
  | 44 => ⟨S_, .i32⟩
  | 45 => ⟨S1048576, .i32⟩
  | 46 => ⟨S1048576, .i32⟩
  | 47 => ⟨S_, .i32⟩
  | 48 => ⟨S1048576, .i32⟩
  | 49 => ⟨S1048576, .i32⟩
  | 50 => ⟨S_, .i32⟩
  | 51 => ⟨S1048576, .i32⟩
  | 52 => ⟨S1048576, .i32⟩
  | 53 => ⟨S_, .i32⟩
  | 54 => ⟨S1048576, .i32⟩
  | 55 => ⟨S1048576, .i32⟩
  | 56 => ⟨S_, .i32⟩
  | 57 => ⟨S1048576, .i32⟩
  | 58 => ⟨S1048576, .i32⟩
  | 59 => ⟨S4x2097152, .f32⟩
  | 60 => ⟨S_, .i32⟩
  | 61 => ⟨S1048576, .i32⟩
  | 62 => ⟨S1048576, .i32⟩
  | 63 => ⟨S1048576, .i32⟩
  | 64 => ⟨S_, .i32⟩
  | 65 => ⟨S1048576, .i32⟩
  | 66 => ⟨S1048576, .i32⟩
  | 67 => ⟨S1048576, .i32⟩
  | 68 => ⟨S_, .i32⟩
  | 69 => ⟨S1048576, .i32⟩
  | 70 => ⟨S1048576, .i1⟩
  | 71 => ⟨S_, .i32⟩
  | 72 => ⟨S1048576, .i32⟩
  | 73 => ⟨S1048576, .i32⟩
  | 74 => ⟨S1048576, .i32⟩
  | 75 => ⟨S1048576x1, .i32⟩
  | 76 => ⟨S4x1048576, .f32⟩
  | 77 => ⟨S_, .i32⟩
  | 78 => ⟨S1048576, .i32⟩
  | 79 => ⟨S1048576, .i32⟩
  | 80 => ⟨S1048576, .i32⟩
  | 81 => ⟨S_, .i32⟩
  | 82 => ⟨S1048576, .i32⟩
  | 83 => ⟨S1048576, .i32⟩
  | 84 => ⟨S1048576, .i32⟩
  | 85 => ⟨S_, .i32⟩
  | 86 => ⟨S1048576, .i32⟩
  | 87 => ⟨S1048576, .i1⟩
  | 88 => ⟨S_, .i32⟩
  | 89 => ⟨S1048576, .i32⟩
  | 90 => ⟨S1048576, .i32⟩
  | 91 => ⟨S1048576, .i32⟩
  | 92 => ⟨S1048576x1, .i32⟩
  | 93 => ⟨S4x1048576, .f32⟩
  | 94 => ⟨S_, .i32⟩
  | 95 => ⟨S1048576, .i32⟩
  | 96 => ⟨S1048576, .i32⟩
  | 97 => ⟨S1048576, .i32⟩
  | 98 => ⟨S_, .i32⟩
  | 99 => ⟨S1048576, .i32⟩
  | 100 => ⟨S1048576, .i32⟩
  | 101 => ⟨S1048576, .i32⟩
  | 102 => ⟨S_, .i32⟩
  | 103 => ⟨S1048576, .i32⟩
  | 104 => ⟨S1048576, .i1⟩
  | 105 => ⟨S_, .i32⟩
  | 106 => ⟨S1048576, .i32⟩
  | 107 => ⟨S1048576, .i32⟩
  | 108 => ⟨S1048576, .i32⟩
  | 109 => ⟨S1048576x1, .i32⟩
  | 110 => ⟨S4x1048576, .f32⟩
  | 111 => ⟨S_, .i32⟩
  | 112 => ⟨S1048576, .i32⟩
  | 113 => ⟨S1048576, .i32⟩
  | 114 => ⟨S1048576, .i32⟩
  | 115 => ⟨S_, .i32⟩
  | 116 => ⟨S1048576, .i32⟩
  | 117 => ⟨S1048576, .i32⟩
  | 118 => ⟨S1048576, .i32⟩
  | 119 => ⟨S_, .i32⟩
  | 120 => ⟨S1048576, .i32⟩
  | 121 => ⟨S1048576, .i1⟩
  | 122 => ⟨S_, .i32⟩
  | 123 => ⟨S1048576, .i32⟩
  | 124 => ⟨S1048576, .i32⟩
  | 125 => ⟨S1048576, .i32⟩
  | 126 => ⟨S1048576x1, .i32⟩
  | 127 => ⟨S4x1048576, .f32⟩
  | _ => ⟨S1x1x1x1048576x3, .f32⟩

abbrev hbmTy0_4 (i : Nat) : BufTy := match i % 128 with
  | 0 => ⟨S_, .i32⟩
  | 1 => ⟨S1048576, .i32⟩
  | 2 => ⟨S1048576, .i32⟩
  | 3 => ⟨S1048576, .i32⟩
  | 4 => ⟨S_, .i32⟩
  | 5 => ⟨S1048576, .i32⟩
  | 6 => ⟨S1048576, .i32⟩
  | 7 => ⟨S1048576, .i32⟩
  | 8 => ⟨S_, .i32⟩
  | 9 => ⟨S1048576, .i32⟩
  | 10 => ⟨S1048576, .i1⟩
  | 11 => ⟨S_, .i32⟩
  | 12 => ⟨S1048576, .i32⟩
  | 13 => ⟨S1048576, .i32⟩
  | 14 => ⟨S1048576, .i32⟩
  | 15 => ⟨S1048576x1, .i32⟩
  | 16 => ⟨S4x1048576, .f32⟩
  | 17 => ⟨S_, .i32⟩
  | 18 => ⟨S1048576, .i32⟩
  | 19 => ⟨S1048576, .i32⟩
  | 20 => ⟨S1048576, .i32⟩
  | 21 => ⟨S_, .i32⟩
  | 22 => ⟨S1048576, .i32⟩
  | 23 => ⟨S1048576, .i32⟩
  | 24 => ⟨S1048576, .i32⟩
  | 25 => ⟨S_, .i32⟩
  | 26 => ⟨S1048576, .i32⟩
  | 27 => ⟨S1048576, .i1⟩
  | 28 => ⟨S_, .i32⟩
  | 29 => ⟨S1048576, .i32⟩
  | 30 => ⟨S1048576, .i32⟩
  | 31 => ⟨S1048576, .i32⟩
  | 32 => ⟨S1048576x1, .i32⟩
  | 33 => ⟨S4x1048576, .f32⟩
  | 34 => ⟨S_, .i32⟩
  | 35 => ⟨S1048576, .i32⟩
  | 36 => ⟨S1048576, .i32⟩
  | 37 => ⟨S1048576, .i32⟩
  | 38 => ⟨S_, .i32⟩
  | 39 => ⟨S1048576, .i32⟩
  | 40 => ⟨S1048576, .i32⟩
  | 41 => ⟨S1048576, .i32⟩
  | 42 => ⟨S_, .i32⟩
  | 43 => ⟨S1048576, .i32⟩
  | 44 => ⟨S1048576, .i1⟩
  | 45 => ⟨S_, .i32⟩
  | 46 => ⟨S1048576, .i32⟩
  | 47 => ⟨S1048576, .i32⟩
  | 48 => ⟨S1048576, .i32⟩
  | 49 => ⟨S1048576x1, .i32⟩
  | 50 => ⟨S4x1048576, .f32⟩
  | 51 => ⟨S_, .i32⟩
  | 52 => ⟨S1048576, .i32⟩
  | 53 => ⟨S1048576, .i32⟩
  | 54 => ⟨S1048576, .i32⟩
  | 55 => ⟨S_, .i32⟩
  | 56 => ⟨S1048576, .i32⟩
  | 57 => ⟨S1048576, .i32⟩
  | 58 => ⟨S1048576, .i32⟩
  | 59 => ⟨S_, .i32⟩
  | 60 => ⟨S1048576, .i32⟩
  | 61 => ⟨S1048576, .i1⟩
  | 62 => ⟨S_, .i32⟩
  | 63 => ⟨S1048576, .i32⟩
  | 64 => ⟨S1048576, .i32⟩
  | 65 => ⟨S1048576, .i32⟩
  | 66 => ⟨S1048576x1, .i32⟩
  | 67 => ⟨S4x1048576, .f32⟩
  | 68 => ⟨S4x1048576, .f32⟩
  | 69 => ⟨S1x1048576, .f32⟩
  | 70 => ⟨S4x1048576, .f32⟩
  | 71 => ⟨S4x1048576, .f32⟩
  | 72 => ⟨S4x1048576, .f32⟩
  | 73 => ⟨S4x1048576, .f32⟩
  | 74 => ⟨S1x1048576, .f32⟩
  | 75 => ⟨S4x1048576, .f32⟩
  | 76 => ⟨S4x1048576, .f32⟩
  | 77 => ⟨S4x1048576, .f32⟩
  | 78 => ⟨S4x1048576, .f32⟩
  | 79 => ⟨S1x1048576, .f32⟩
  | 80 => ⟨S4x1048576, .f32⟩
  | 81 => ⟨S4x1048576, .f32⟩
  | 82 => ⟨S4x1048576, .f32⟩
  | 83 => ⟨S4x1048576, .f32⟩
  | 84 => ⟨S1x1048576, .f32⟩
  | 85 => ⟨S4x1048576, .f32⟩
  | 86 => ⟨S4x1048576, .f32⟩
  | 87 => ⟨S4x1048576, .f32⟩
  | 88 => ⟨S4x1048576, .f32⟩
  | 89 => ⟨S1x1048576, .f32⟩
  | 90 => ⟨S4x1048576, .f32⟩
  | 91 => ⟨S4x1048576, .f32⟩
  | 92 => ⟨S4x1048576, .f32⟩
  | 93 => ⟨S4x1048576, .f32⟩
  | 94 => ⟨S1x1048576, .f32⟩
  | 95 => ⟨S4x1048576, .f32⟩
  | 96 => ⟨S4x1048576, .f32⟩
  | 97 => ⟨S4x1048576, .f32⟩
  | 98 => ⟨S4x1048576, .f32⟩
  | 99 => ⟨S1x1048576, .f32⟩
  | 100 => ⟨S4x1048576, .f32⟩
  | 101 => ⟨S4x1048576, .f32⟩
  | 102 => ⟨S4x1048576, .f32⟩
  | 103 => ⟨S1x4x1x1x1048576, .f32⟩
  | 104 => ⟨S1048576x3, .f32⟩
  | 105 => ⟨S1048576x1, .f32⟩
  | 106 => ⟨S1048576, .f32⟩
  | 107 => ⟨S_, .f32⟩
  | 108 => ⟨S1048576, .f32⟩
  | 109 => ⟨S1048576, .f32⟩
  | 110 => ⟨S_, .f32⟩
  | 111 => ⟨S1048576, .f32⟩
  | 112 => ⟨S1048576, .f32⟩
  | 113 => ⟨S_, .f32⟩
  | 114 => ⟨S1048576, .f32⟩
  | 115 => ⟨S1048576, .f32⟩
  | 116 => ⟨S1048576x1, .f32⟩
  | 117 => ⟨S1048576, .f32⟩
  | 118 => ⟨S_, .f32⟩
  | 119 => ⟨S1048576, .f32⟩
  | 120 => ⟨S1048576, .f32⟩
  | 121 => ⟨S_, .f32⟩
  | 122 => ⟨S1048576, .f32⟩
  | 123 => ⟨S1048576, .f32⟩
  | 124 => ⟨S_, .f32⟩
  | 125 => ⟨S1048576, .f32⟩
  | 126 => ⟨S1048576, .f32⟩
  | 127 => ⟨S1048576x1, .f32⟩
  | _ => ⟨S1x1x1x1048576x3, .f32⟩

abbrev hbmTy0_5 (i : Nat) : BufTy := match i % 128 with
  | 0 => ⟨S1048576, .f32⟩
  | 1 => ⟨S_, .f32⟩
  | 2 => ⟨S1048576, .f32⟩
  | 3 => ⟨S1048576, .f32⟩
  | 4 => ⟨S_, .f32⟩
  | 5 => ⟨S1048576, .f32⟩
  | 6 => ⟨S1048576, .f32⟩
  | 7 => ⟨S_, .f32⟩
  | 8 => ⟨S1048576, .f32⟩
  | 9 => ⟨S1048576, .f32⟩
  | 10 => ⟨S1048576, .f32⟩
  | 11 => ⟨S_, .f32⟩
  | 12 => ⟨S_, .i32⟩
  | 13 => ⟨S_, .f32⟩
  | 14 => ⟨S1048576, .f32⟩
  | 15 => ⟨S1048576, .f32⟩
  | 16 => ⟨S_, .f32⟩
  | 17 => ⟨S1048576, .f32⟩
  | 18 => ⟨S1048576, .f32⟩
  | 19 => ⟨S1048576, .f32⟩
  | 20 => ⟨S_, .f32⟩
  | 21 => ⟨S_, .i32⟩
  | 22 => ⟨S_, .f32⟩
  | 23 => ⟨S1048576, .f32⟩
  | 24 => ⟨S1048576, .f32⟩
  | 25 => ⟨S_, .f32⟩
  | 26 => ⟨S1048576, .f32⟩
  | 27 => ⟨S1048576, .f32⟩
  | 28 => ⟨S1048576, .f32⟩
  | 29 => ⟨S_, .f32⟩
  | 30 => ⟨S_, .i32⟩
  | 31 => ⟨S_, .f32⟩
  | 32 => ⟨S1048576, .f32⟩
  | 33 => ⟨S1048576, .f32⟩
  | 34 => ⟨S_, .f32⟩
  | 35 => ⟨S1048576, .f32⟩
  | 36 => ⟨S1048576, .f32⟩
  | 37 => ⟨S1048576, .f32⟩
  | 38 => ⟨S_, .f32⟩
  | 39 => ⟨S_, .f32⟩
  | 40 => ⟨S_, .f32⟩
  | 41 => ⟨S1048576, .f32⟩
  | 42 => ⟨S1048576, .f32⟩
  | 43 => ⟨S_, .f32⟩
  | 44 => ⟨S1048576, .f32⟩
  | 45 => ⟨S1048576, .f32⟩
  | 46 => ⟨S1048576, .f32⟩
  | 47 => ⟨S_, .f32⟩
  | 48 => ⟨S_, .f32⟩
  | 49 => ⟨S_, .f32⟩
  | 50 => ⟨S1048576, .f32⟩
  | 51 => ⟨S1048576, .f32⟩
  | 52 => ⟨S_, .f32⟩
  | 53 => ⟨S1048576, .f32⟩
  | 54 => ⟨S1048576, .f32⟩
  | 55 => ⟨S1048576, .f32⟩
  | 56 => ⟨S_, .f32⟩
  | 57 => ⟨S_, .f32⟩
  | 58 => ⟨S_, .f32⟩
  | 59 => ⟨S1048576, .f32⟩
  | 60 => ⟨S1048576, .f32⟩
  | 61 => ⟨S_, .f32⟩
  | 62 => ⟨S1048576, .f32⟩
  | 63 => ⟨S1048576, .f32⟩
  | 64 => ⟨S1048576, .f32⟩
  | 65 => ⟨S_, .f32⟩
  | 66 => ⟨S1048576, .f32⟩
  | 67 => ⟨S1048576, .f32⟩
  | 68 => ⟨S_, .f32⟩
  | 69 => ⟨S1048576, .f32⟩
  | 70 => ⟨S1048576, .f32⟩
  | 71 => ⟨S1048576, .f32⟩
  | 72 => ⟨S1048576, .f32⟩
  | 73 => ⟨S_, .f32⟩
  | 74 => ⟨S1048576, .f32⟩
  | 75 => ⟨S1048576, .f32⟩
  | 76 => ⟨S_, .f32⟩
  | 77 => ⟨S1048576, .f32⟩
  | 78 => ⟨S1048576, .f32⟩
  | 79 => ⟨S1048576, .f32⟩
  | 80 => ⟨S1048576, .f32⟩
  | 81 => ⟨S_, .f32⟩
  | 82 => ⟨S1048576, .f32⟩
  | 83 => ⟨S1048576, .f32⟩
  | 84 => ⟨S_, .f32⟩
  | 85 => ⟨S1048576, .f32⟩
  | 86 => ⟨S1048576, .f32⟩
  | 87 => ⟨S1048576, .f32⟩
  | 88 => ⟨S1048576, .i32⟩
  | 89 => ⟨S1048576, .i32⟩
  | 90 => ⟨S1048576, .i32⟩
  | 91 => ⟨S_, .i32⟩
  | 92 => ⟨S1048576, .i32⟩
  | 93 => ⟨S1048576, .i32⟩
  | 94 => ⟨S_, .i32⟩
  | 95 => ⟨S1048576, .i32⟩
  | 96 => ⟨S1048576, .i32⟩
  | 97 => ⟨S_, .i32⟩
  | 98 => ⟨S1048576, .i32⟩
  | 99 => ⟨S1048576, .i32⟩
  | 100 => ⟨S_, .i32⟩
  | 101 => ⟨S1048576, .i32⟩
  | 102 => ⟨S1048576, .i32⟩
  | 103 => ⟨S_, .i32⟩
  | 104 => ⟨S1048576, .i32⟩
  | 105 => ⟨S1048576, .i32⟩
  | 106 => ⟨S_, .i32⟩
  | 107 => ⟨S1048576, .i32⟩
  | 108 => ⟨S1048576, .i32⟩
  | 109 => ⟨S4x7077888, .f32⟩
  | 110 => ⟨S_, .i32⟩
  | 111 => ⟨S1048576, .i32⟩
  | 112 => ⟨S1048576, .i32⟩
  | 113 => ⟨S1048576, .i32⟩
  | 114 => ⟨S_, .i32⟩
  | 115 => ⟨S1048576, .i32⟩
  | 116 => ⟨S1048576, .i32⟩
  | 117 => ⟨S1048576, .i32⟩
  | 118 => ⟨S_, .i32⟩
  | 119 => ⟨S1048576, .i32⟩
  | 120 => ⟨S1048576, .i1⟩
  | 121 => ⟨S_, .i32⟩
  | 122 => ⟨S1048576, .i32⟩
  | 123 => ⟨S1048576, .i32⟩
  | 124 => ⟨S1048576, .i32⟩
  | 125 => ⟨S1048576x1, .i32⟩
  | 126 => ⟨S4x1048576, .f32⟩
  | 127 => ⟨S_, .i32⟩
  | _ => ⟨S1x1x1x1048576x3, .f32⟩

abbrev hbmTy0_6 (i : Nat) : BufTy := match i % 128 with
  | 0 => ⟨S1048576, .i32⟩
  | 1 => ⟨S1048576, .i32⟩
  | 2 => ⟨S1048576, .i32⟩
  | 3 => ⟨S_, .i32⟩
  | 4 => ⟨S1048576, .i32⟩
  | 5 => ⟨S1048576, .i32⟩
  | 6 => ⟨S1048576, .i32⟩
  | 7 => ⟨S_, .i32⟩
  | 8 => ⟨S1048576, .i32⟩
  | 9 => ⟨S1048576, .i1⟩
  | 10 => ⟨S_, .i32⟩
  | 11 => ⟨S1048576, .i32⟩
  | 12 => ⟨S1048576, .i32⟩
  | 13 => ⟨S1048576, .i32⟩
  | 14 => ⟨S1048576x1, .i32⟩
  | 15 => ⟨S4x1048576, .f32⟩
  | 16 => ⟨S_, .i32⟩
  | 17 => ⟨S1048576, .i32⟩
  | 18 => ⟨S1048576, .i32⟩
  | 19 => ⟨S1048576, .i32⟩
  | 20 => ⟨S_, .i32⟩
  | 21 => ⟨S1048576, .i32⟩
  | 22 => ⟨S1048576, .i32⟩
  | 23 => ⟨S1048576, .i32⟩
  | 24 => ⟨S_, .i32⟩
  | 25 => ⟨S1048576, .i32⟩
  | 26 => ⟨S1048576, .i1⟩
  | 27 => ⟨S_, .i32⟩
  | 28 => ⟨S1048576, .i32⟩
  | 29 => ⟨S1048576, .i32⟩
  | 30 => ⟨S1048576, .i32⟩
  | 31 => ⟨S1048576x1, .i32⟩
  | 32 => ⟨S4x1048576, .f32⟩
  | 33 => ⟨S_, .i32⟩
  | 34 => ⟨S1048576, .i32⟩
  | 35 => ⟨S1048576, .i32⟩
  | 36 => ⟨S1048576, .i32⟩
  | 37 => ⟨S_, .i32⟩
  | 38 => ⟨S1048576, .i32⟩
  | 39 => ⟨S1048576, .i32⟩
  | 40 => ⟨S1048576, .i32⟩
  | 41 => ⟨S_, .i32⟩
  | 42 => ⟨S1048576, .i32⟩
  | 43 => ⟨S1048576, .i1⟩
  | 44 => ⟨S_, .i32⟩
  | 45 => ⟨S1048576, .i32⟩
  | 46 => ⟨S1048576, .i32⟩
  | 47 => ⟨S1048576, .i32⟩
  | 48 => ⟨S1048576x1, .i32⟩
  | 49 => ⟨S4x1048576, .f32⟩
  | 50 => ⟨S_, .i32⟩
  | 51 => ⟨S1048576, .i32⟩
  | 52 => ⟨S1048576, .i32⟩
  | 53 => ⟨S1048576, .i32⟩
  | 54 => ⟨S_, .i32⟩
  | 55 => ⟨S1048576, .i32⟩
  | 56 => ⟨S1048576, .i32⟩
  | 57 => ⟨S1048576, .i32⟩
  | 58 => ⟨S_, .i32⟩
  | 59 => ⟨S1048576, .i32⟩
  | 60 => ⟨S1048576, .i1⟩
  | 61 => ⟨S_, .i32⟩
  | 62 => ⟨S1048576, .i32⟩
  | 63 => ⟨S1048576, .i32⟩
  | 64 => ⟨S1048576, .i32⟩
  | 65 => ⟨S1048576x1, .i32⟩
  | 66 => ⟨S4x1048576, .f32⟩
  | 67 => ⟨S_, .i32⟩
  | 68 => ⟨S1048576, .i32⟩
  | 69 => ⟨S1048576, .i32⟩
  | 70 => ⟨S1048576, .i32⟩
  | 71 => ⟨S_, .i32⟩
  | 72 => ⟨S1048576, .i32⟩
  | 73 => ⟨S1048576, .i32⟩
  | 74 => ⟨S1048576, .i32⟩
  | 75 => ⟨S_, .i32⟩
  | 76 => ⟨S1048576, .i32⟩
  | 77 => ⟨S1048576, .i1⟩
  | 78 => ⟨S_, .i32⟩
  | 79 => ⟨S1048576, .i32⟩
  | 80 => ⟨S1048576, .i32⟩
  | 81 => ⟨S1048576, .i32⟩
  | 82 => ⟨S1048576x1, .i32⟩
  | 83 => ⟨S4x1048576, .f32⟩
  | 84 => ⟨S_, .i32⟩
  | 85 => ⟨S1048576, .i32⟩
  | 86 => ⟨S1048576, .i32⟩
  | 87 => ⟨S1048576, .i32⟩
  | 88 => ⟨S_, .i32⟩
  | 89 => ⟨S1048576, .i32⟩
  | 90 => ⟨S1048576, .i32⟩
  | 91 => ⟨S1048576, .i32⟩
  | 92 => ⟨S_, .i32⟩
  | 93 => ⟨S1048576, .i32⟩
  | 94 => ⟨S1048576, .i1⟩
  | 95 => ⟨S_, .i32⟩
  | 96 => ⟨S1048576, .i32⟩
  | 97 => ⟨S1048576, .i32⟩
  | 98 => ⟨S1048576, .i32⟩
  | 99 => ⟨S1048576x1, .i32⟩
  | 100 => ⟨S4x1048576, .f32⟩
  | 101 => ⟨S_, .i32⟩
  | 102 => ⟨S1048576, .i32⟩
  | 103 => ⟨S1048576, .i32⟩
  | 104 => ⟨S1048576, .i32⟩
  | 105 => ⟨S_, .i32⟩
  | 106 => ⟨S1048576, .i32⟩
  | 107 => ⟨S1048576, .i32⟩
  | 108 => ⟨S1048576, .i32⟩
  | 109 => ⟨S_, .i32⟩
  | 110 => ⟨S1048576, .i32⟩
  | 111 => ⟨S1048576, .i1⟩
  | 112 => ⟨S_, .i32⟩
  | 113 => ⟨S1048576, .i32⟩
  | 114 => ⟨S1048576, .i32⟩
  | 115 => ⟨S1048576, .i32⟩
  | 116 => ⟨S1048576x1, .i32⟩
  | 117 => ⟨S4x1048576, .f32⟩
  | 118 => ⟨S4x1048576, .f32⟩
  | 119 => ⟨S1x1048576, .f32⟩
  | 120 => ⟨S4x1048576, .f32⟩
  | 121 => ⟨S4x1048576, .f32⟩
  | 122 => ⟨S4x1048576, .f32⟩
  | 123 => ⟨S4x1048576, .f32⟩
  | 124 => ⟨S1x1048576, .f32⟩
  | 125 => ⟨S4x1048576, .f32⟩
  | 126 => ⟨S4x1048576, .f32⟩
  | 127 => ⟨S4x1048576, .f32⟩
  | _ => ⟨S1x1x1x1048576x3, .f32⟩

abbrev hbmTy0_7 (i : Nat) : BufTy := match i % 128 with
  | 0 => ⟨S4x1048576, .f32⟩
  | 1 => ⟨S1x1048576, .f32⟩
  | 2 => ⟨S4x1048576, .f32⟩
  | 3 => ⟨S4x1048576, .f32⟩
  | 4 => ⟨S4x1048576, .f32⟩
  | 5 => ⟨S4x1048576, .f32⟩
  | 6 => ⟨S1x1048576, .f32⟩
  | 7 => ⟨S4x1048576, .f32⟩
  | 8 => ⟨S4x1048576, .f32⟩
  | 9 => ⟨S4x1048576, .f32⟩
  | 10 => ⟨S4x1048576, .f32⟩
  | 11 => ⟨S1x1048576, .f32⟩
  | 12 => ⟨S4x1048576, .f32⟩
  | 13 => ⟨S4x1048576, .f32⟩
  | 14 => ⟨S4x1048576, .f32⟩
  | 15 => ⟨S4x1048576, .f32⟩
  | 16 => ⟨S1x1048576, .f32⟩
  | 17 => ⟨S4x1048576, .f32⟩
  | 18 => ⟨S4x1048576, .f32⟩
  | 19 => ⟨S4x1048576, .f32⟩
  | 20 => ⟨S4x1048576, .f32⟩
  | 21 => ⟨S1x1048576, .f32⟩
  | 22 => ⟨S4x1048576, .f32⟩
  | 23 => ⟨S4x1048576, .f32⟩
  | 24 => ⟨S4x1048576, .f32⟩
  | 25 => ⟨S1x4x1x1x1048576, .f32⟩
  | 26 => ⟨S1x12x1x1x1048576, .f32⟩
  | _ => ⟨S1x1x1x1048576x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S1x1x1x1048576x3, .f32⟩

abbrev bufTy : (tb : Table) → Fin (tcTables nBuf tb) → BufTy
  | .hbm, ⟨i, _⟩ => hbmTy i
  | _, _ => ⟨S1x1x1x1048576x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_c : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v26 : Ref sig .tc := ⟨.hbm, 46, rfl⟩
abbrev main_v27 : Ref sig .tc := ⟨.hbm, 47, rfl⟩
abbrev main_cst_9 : Ref sig .tc := ⟨.hbm, 48, rfl⟩
abbrev main_c_10 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v28 : Ref sig .tc := ⟨.hbm, 55, rfl⟩
abbrev main_v29 : Ref sig .tc := ⟨.hbm, 56, rfl⟩
abbrev main_cst_11 : Ref sig .tc := ⟨.hbm, 57, rfl⟩
abbrev main_c_12 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v30 : Ref sig .tc := ⟨.hbm, 64, rfl⟩
abbrev main_v31 : Ref sig .tc := ⟨.hbm, 65, rfl⟩
abbrev main_cst_13 : Ref sig .tc := ⟨.hbm, 66, rfl⟩
abbrev main_cst_14 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_v32 : Ref sig .tc := ⟨.hbm, 73, rfl⟩
abbrev main_v33 : Ref sig .tc := ⟨.hbm, 74, rfl⟩
abbrev main_cst_15 : Ref sig .tc := ⟨.hbm, 75, rfl⟩
abbrev main_cst_16 : Ref sig .tc := ⟨.hbm, 76, rfl⟩
abbrev main_call4_v0 : Ref sig .tc := ⟨.hbm, 77, rfl⟩
abbrev main_call4_v1 : Ref sig .tc := ⟨.hbm, 78, rfl⟩
abbrev main_call4_v2 : Ref sig .tc := ⟨.hbm, 79, rfl⟩
abbrev main_call4_v3 : Ref sig .tc := ⟨.hbm, 80, rfl⟩
abbrev main_call4_v4 : Ref sig .tc := ⟨.hbm, 81, rfl⟩
abbrev main_v34 : Ref sig .tc := ⟨.hbm, 82, rfl⟩
abbrev main_v35 : Ref sig .tc := ⟨.hbm, 83, rfl⟩
abbrev main_cst_17 : Ref sig .tc := ⟨.hbm, 84, rfl⟩
abbrev main_cst_18 : Ref sig .tc := ⟨.hbm, 85, rfl⟩
abbrev main_call5_v0 : Ref sig .tc := ⟨.hbm, 86, rfl⟩
abbrev main_call5_v1 : Ref sig .tc := ⟨.hbm, 87, rfl⟩
abbrev main_call5_v2 : Ref sig .tc := ⟨.hbm, 88, rfl⟩
abbrev main_call5_v3 : Ref sig .tc := ⟨.hbm, 89, rfl⟩
abbrev main_call5_v4 : Ref sig .tc := ⟨.hbm, 90, rfl⟩
abbrev main_v36 : Ref sig .tc := ⟨.hbm, 91, rfl⟩
abbrev main_v37 : Ref sig .tc := ⟨.hbm, 92, rfl⟩
abbrev main_cst_19 : Ref sig .tc := ⟨.hbm, 93, rfl⟩
abbrev main_v38 : Ref sig .tc := ⟨.hbm, 94, rfl⟩
abbrev main_v39 : Ref sig .tc := ⟨.hbm, 95, rfl⟩
abbrev main_cst_20 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_cst_21 : Ref sig .tc := ⟨.hbm, 101, rfl⟩
abbrev main_v44 : Ref sig .tc := ⟨.hbm, 102, rfl⟩
abbrev main_v45 : Ref sig .tc := ⟨.hbm, 103, rfl⟩
abbrev main_cst_22 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_cst_23 : Ref sig .tc := ⟨.hbm, 109, rfl⟩
abbrev main_v50 : Ref sig .tc := ⟨.hbm, 110, rfl⟩
abbrev main_v51 : Ref sig .tc := ⟨.hbm, 111, rfl⟩
abbrev main_cst_24 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_c_25 : Ref sig .tc := ⟨.hbm, 119, rfl⟩
abbrev main_v58 : Ref sig .tc := ⟨.hbm, 120, rfl⟩
abbrev main_v59 : Ref sig .tc := ⟨.hbm, 121, rfl⟩
abbrev main_c_26 : Ref sig .tc := ⟨.hbm, 122, rfl⟩
abbrev main_v60 : Ref sig .tc := ⟨.hbm, 123, rfl⟩
abbrev main_v61 : Ref sig .tc := ⟨.hbm, 124, rfl⟩
abbrev main_c_27 : Ref sig .tc := ⟨.hbm, 125, rfl⟩
abbrev main_v62 : Ref sig .tc := ⟨.hbm, 126, rfl⟩
abbrev main_v63 : Ref sig .tc := ⟨.hbm, 127, rfl⟩
abbrev main_c_28 : Ref sig .tc := ⟨.hbm, 128, rfl⟩
abbrev main_v64 : Ref sig .tc := ⟨.hbm, 129, rfl⟩
abbrev main_v65 : Ref sig .tc := ⟨.hbm, 130, rfl⟩
abbrev main_c_29 : Ref sig .tc := ⟨.hbm, 131, rfl⟩
abbrev main_v66 : Ref sig .tc := ⟨.hbm, 132, rfl⟩
abbrev main_v67 : Ref sig .tc := ⟨.hbm, 133, rfl⟩
abbrev main_c_30 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_c_31 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_c_32 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_c_33 : Ref sig .tc := ⟨.hbm, 146, rfl⟩
abbrev main_v77 : Ref sig .tc := ⟨.hbm, 147, rfl⟩
abbrev main_v78 : Ref sig .tc := ⟨.hbm, 148, rfl⟩
abbrev main_c_34 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_c_35 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_c_36 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_c_37 : Ref sig .tc := ⟨.hbm, 163, rfl⟩
abbrev main_v90 : Ref sig .tc := ⟨.hbm, 164, rfl⟩
abbrev main_v91 : Ref sig .tc := ⟨.hbm, 165, rfl⟩
abbrev main_c_38 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_c_39 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_c_40 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_c_41 : Ref sig .tc := ⟨.hbm, 180, rfl⟩
abbrev main_v103 : Ref sig .tc := ⟨.hbm, 181, rfl⟩
abbrev main_v104 : Ref sig .tc := ⟨.hbm, 182, rfl⟩
abbrev main_c_42 : Ref sig .tc := ⟨.hbm, 183, rfl⟩
abbrev main_v105 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_c_43 : Ref sig .tc := ⟨.hbm, 189, rfl⟩
abbrev main_v110 : Ref sig .tc := ⟨.hbm, 190, rfl⟩
abbrev main_v111 : Ref sig .tc := ⟨.hbm, 191, rfl⟩
abbrev main_v112 : Ref sig .tc := ⟨.hbm, 192, rfl⟩
abbrev main_c_44 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_c_45 : Ref sig .tc := ⟨.hbm, 197, rfl⟩
abbrev main_v116 : Ref sig .tc := ⟨.hbm, 198, rfl⟩
abbrev main_v117 : Ref sig .tc := ⟨.hbm, 199, rfl⟩
abbrev main_c_46 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_v122 : Ref sig .tc := ⟨.hbm, 205, rfl⟩
abbrev main_c_47 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_c_48 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_c_49 : Ref sig .tc := ⟨.hbm, 214, rfl⟩
abbrev main_v129 : Ref sig .tc := ⟨.hbm, 215, rfl⟩
abbrev main_v130 : Ref sig .tc := ⟨.hbm, 216, rfl⟩
abbrev main_c_50 : Ref sig .tc := ⟨.hbm, 217, rfl⟩
abbrev main_v131 : Ref sig .tc := ⟨.hbm, 218, rfl⟩
abbrev main_v132 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_c_51 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_c_52 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_c_53 : Ref sig .tc := ⟨.hbm, 231, rfl⟩
abbrev main_v142 : Ref sig .tc := ⟨.hbm, 232, rfl⟩
abbrev main_v143 : Ref sig .tc := ⟨.hbm, 233, rfl⟩
abbrev main_c_54 : Ref sig .tc := ⟨.hbm, 234, rfl⟩
abbrev main_v144 : Ref sig .tc := ⟨.hbm, 235, rfl⟩
abbrev main_v145 : Ref sig .tc := ⟨.hbm, 236, rfl⟩
abbrev main_v146 : Ref sig .tc := ⟨.hbm, 237, rfl⟩
abbrev main_v147 : Ref sig .tc := ⟨.hbm, 238, rfl⟩
abbrev main_v148 : Ref sig .tc := ⟨.hbm, 239, rfl⟩
abbrev main_c_55 : Ref sig .tc := ⟨.hbm, 240, rfl⟩
abbrev main_v149 : Ref sig .tc := ⟨.hbm, 241, rfl⟩
abbrev main_v150 : Ref sig .tc := ⟨.hbm, 242, rfl⟩
abbrev main_v151 : Ref sig .tc := ⟨.hbm, 243, rfl⟩
abbrev main_c_56 : Ref sig .tc := ⟨.hbm, 244, rfl⟩
abbrev main_v152 : Ref sig .tc := ⟨.hbm, 245, rfl⟩
abbrev main_v153 : Ref sig .tc := ⟨.hbm, 246, rfl⟩
abbrev main_v154 : Ref sig .tc := ⟨.hbm, 247, rfl⟩
abbrev main_c_57 : Ref sig .tc := ⟨.hbm, 248, rfl⟩
abbrev main_v155 : Ref sig .tc := ⟨.hbm, 249, rfl⟩
abbrev main_v156 : Ref sig .tc := ⟨.hbm, 250, rfl⟩
abbrev main_c_58 : Ref sig .tc := ⟨.hbm, 251, rfl⟩
abbrev main_v157 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩
abbrev main_v161 : Ref sig .tc := ⟨.hbm, 256, rfl⟩
abbrev main_c_59 : Ref sig .tc := ⟨.hbm, 257, rfl⟩
abbrev main_v162 : Ref sig .tc := ⟨.hbm, 258, rfl⟩
abbrev main_v163 : Ref sig .tc := ⟨.hbm, 259, rfl⟩
abbrev main_v164 : Ref sig .tc := ⟨.hbm, 260, rfl⟩
abbrev main_c_60 : Ref sig .tc := ⟨.hbm, 261, rfl⟩
abbrev main_v165 : Ref sig .tc := ⟨.hbm, 262, rfl⟩
abbrev main_v166 : Ref sig .tc := ⟨.hbm, 263, rfl⟩
abbrev main_v167 : Ref sig .tc := ⟨.hbm, 264, rfl⟩
abbrev main_c_61 : Ref sig .tc := ⟨.hbm, 265, rfl⟩
abbrev main_v168 : Ref sig .tc := ⟨.hbm, 266, rfl⟩
abbrev main_v169 : Ref sig .tc := ⟨.hbm, 267, rfl⟩
abbrev main_c_62 : Ref sig .tc := ⟨.hbm, 268, rfl⟩
abbrev main_v170 : Ref sig .tc := ⟨.hbm, 269, rfl⟩
abbrev main_v171 : Ref sig .tc := ⟨.hbm, 270, rfl⟩
abbrev main_v172 : Ref sig .tc := ⟨.hbm, 271, rfl⟩
abbrev main_v173 : Ref sig .tc := ⟨.hbm, 272, rfl⟩
abbrev main_v174 : Ref sig .tc := ⟨.hbm, 273, rfl⟩
abbrev main_v175 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_v179 : Ref sig .tc := ⟨.hbm, 278, rfl⟩
abbrev main_v180 : Ref sig .tc := ⟨.hbm, 279, rfl⟩
abbrev main_v181 : Ref sig .tc := ⟨.hbm, 280, rfl⟩
abbrev main_v182 : Ref sig .tc := ⟨.hbm, 281, rfl⟩
abbrev main_v183 : Ref sig .tc := ⟨.hbm, 282, rfl⟩
abbrev main_v184 : Ref sig .tc := ⟨.hbm, 283, rfl⟩
abbrev main_v185 : Ref sig .tc := ⟨.hbm, 284, rfl⟩
abbrev main_v186 : Ref sig .tc := ⟨.hbm, 285, rfl⟩
abbrev main_v187 : Ref sig .tc := ⟨.hbm, 286, rfl⟩
abbrev main_v188 : Ref sig .tc := ⟨.hbm, 287, rfl⟩
abbrev main_v189 : Ref sig .tc := ⟨.hbm, 288, rfl⟩
abbrev main_v190 : Ref sig .tc := ⟨.hbm, 289, rfl⟩
abbrev main_v191 : Ref sig .tc := ⟨.hbm, 290, rfl⟩
abbrev main_v192 : Ref sig .tc := ⟨.hbm, 291, rfl⟩
abbrev main_v193 : Ref sig .tc := ⟨.hbm, 292, rfl⟩
abbrev main_v194 : Ref sig .tc := ⟨.hbm, 293, rfl⟩
abbrev main_v195 : Ref sig .tc := ⟨.hbm, 294, rfl⟩
abbrev main_v196 : Ref sig .tc := ⟨.hbm, 295, rfl⟩
abbrev main_v197 : Ref sig .tc := ⟨.hbm, 296, rfl⟩
abbrev main_v198 : Ref sig .tc := ⟨.hbm, 297, rfl⟩
abbrev main_v199 : Ref sig .tc := ⟨.hbm, 298, rfl⟩
abbrev main_v200 : Ref sig .tc := ⟨.hbm, 299, rfl⟩
abbrev main_v201 : Ref sig .tc := ⟨.hbm, 300, rfl⟩
abbrev main_v202 : Ref sig .tc := ⟨.hbm, 301, rfl⟩
abbrev main_v203 : Ref sig .tc := ⟨.hbm, 302, rfl⟩
abbrev main_v204 : Ref sig .tc := ⟨.hbm, 303, rfl⟩
abbrev main_v205 : Ref sig .tc := ⟨.hbm, 304, rfl⟩
abbrev main_v206 : Ref sig .tc := ⟨.hbm, 305, rfl⟩
abbrev main_v207 : Ref sig .tc := ⟨.hbm, 306, rfl⟩
abbrev main_v208 : Ref sig .tc := ⟨.hbm, 307, rfl⟩
abbrev main_v209 : Ref sig .tc := ⟨.hbm, 308, rfl⟩
abbrev main_v210 : Ref sig .tc := ⟨.hbm, 309, rfl⟩
abbrev main_v211 : Ref sig .tc := ⟨.hbm, 310, rfl⟩
abbrev main_v212 : Ref sig .tc := ⟨.hbm, 311, rfl⟩
abbrev main_v213 : Ref sig .tc := ⟨.hbm, 312, rfl⟩
abbrev main_cst_63 : Ref sig .tc := ⟨.hbm, 313, rfl⟩
abbrev main_v214 : Ref sig .tc := ⟨.hbm, 314, rfl⟩
abbrev main_v215 : Ref sig .tc := ⟨.hbm, 315, rfl⟩
abbrev main_cst_64 : Ref sig .tc := ⟨.hbm, 316, rfl⟩
abbrev main_v216 : Ref sig .tc := ⟨.hbm, 317, rfl⟩
abbrev main_v217 : Ref sig .tc := ⟨.hbm, 318, rfl⟩
abbrev main_cst_65 : Ref sig .tc := ⟨.hbm, 319, rfl⟩
abbrev main_v218 : Ref sig .tc := ⟨.hbm, 320, rfl⟩
abbrev main_v219 : Ref sig .tc := ⟨.hbm, 321, rfl⟩
abbrev main_v220 : Ref sig .tc := ⟨.hbm, 322, rfl⟩
abbrev main_v221 : Ref sig .tc := ⟨.hbm, 323, rfl⟩
abbrev main_cst_66 : Ref sig .tc := ⟨.hbm, 324, rfl⟩
abbrev main_v222 : Ref sig .tc := ⟨.hbm, 325, rfl⟩
abbrev main_v223 : Ref sig .tc := ⟨.hbm, 326, rfl⟩
abbrev main_cst_67 : Ref sig .tc := ⟨.hbm, 327, rfl⟩
abbrev main_v224 : Ref sig .tc := ⟨.hbm, 328, rfl⟩
abbrev main_v225 : Ref sig .tc := ⟨.hbm, 329, rfl⟩
abbrev main_cst_68 : Ref sig .tc := ⟨.hbm, 330, rfl⟩
abbrev main_v226 : Ref sig .tc := ⟨.hbm, 331, rfl⟩
abbrev main_v227 : Ref sig .tc := ⟨.hbm, 332, rfl⟩
abbrev main_v228 : Ref sig .tc := ⟨.hbm, 333, rfl⟩
abbrev main_v229 : Ref sig .tc := ⟨.hbm, 334, rfl⟩
abbrev main_cst_69 : Ref sig .tc := ⟨.hbm, 335, rfl⟩
abbrev main_v230 : Ref sig .tc := ⟨.hbm, 336, rfl⟩
abbrev main_v231 : Ref sig .tc := ⟨.hbm, 337, rfl⟩
abbrev main_cst_70 : Ref sig .tc := ⟨.hbm, 338, rfl⟩
abbrev main_v232 : Ref sig .tc := ⟨.hbm, 339, rfl⟩
abbrev main_v233 : Ref sig .tc := ⟨.hbm, 340, rfl⟩
abbrev main_cst_71 : Ref sig .tc := ⟨.hbm, 341, rfl⟩
abbrev main_v234 : Ref sig .tc := ⟨.hbm, 342, rfl⟩
abbrev main_v235 : Ref sig .tc := ⟨.hbm, 343, rfl⟩
abbrev main_v236 : Ref sig .tc := ⟨.hbm, 344, rfl⟩
abbrev main_cst_72 : Ref sig .tc := ⟨.hbm, 345, rfl⟩
abbrev main_c_73 : Ref sig .tc := ⟨.hbm, 346, rfl⟩
abbrev main_call6_v0 : Ref sig .tc := ⟨.hbm, 347, rfl⟩
abbrev main_call6_v1 : Ref sig .tc := ⟨.hbm, 348, rfl⟩
abbrev main_call6_v2 : Ref sig .tc := ⟨.hbm, 349, rfl⟩
abbrev main_call6_v3 : Ref sig .tc := ⟨.hbm, 350, rfl⟩
abbrev main_call6_v4 : Ref sig .tc := ⟨.hbm, 351, rfl⟩
abbrev main_v237 : Ref sig .tc := ⟨.hbm, 352, rfl⟩
abbrev main_v238 : Ref sig .tc := ⟨.hbm, 353, rfl⟩
abbrev main_cst_74 : Ref sig .tc := ⟨.hbm, 354, rfl⟩
abbrev main_c_75 : Ref sig .tc := ⟨.hbm, 355, rfl⟩
abbrev main_call7_v0 : Ref sig .tc := ⟨.hbm, 356, rfl⟩
abbrev main_call7_v1 : Ref sig .tc := ⟨.hbm, 357, rfl⟩
abbrev main_call7_v2 : Ref sig .tc := ⟨.hbm, 358, rfl⟩
abbrev main_call7_v3 : Ref sig .tc := ⟨.hbm, 359, rfl⟩
abbrev main_call7_v4 : Ref sig .tc := ⟨.hbm, 360, rfl⟩
abbrev main_v239 : Ref sig .tc := ⟨.hbm, 361, rfl⟩
abbrev main_v240 : Ref sig .tc := ⟨.hbm, 362, rfl⟩
abbrev main_cst_76 : Ref sig .tc := ⟨.hbm, 363, rfl⟩
abbrev main_c_77 : Ref sig .tc := ⟨.hbm, 364, rfl⟩
abbrev main_call8_v0 : Ref sig .tc := ⟨.hbm, 365, rfl⟩
abbrev main_call8_v1 : Ref sig .tc := ⟨.hbm, 366, rfl⟩
abbrev main_call8_v2 : Ref sig .tc := ⟨.hbm, 367, rfl⟩
abbrev main_call8_v3 : Ref sig .tc := ⟨.hbm, 368, rfl⟩
abbrev main_call8_v4 : Ref sig .tc := ⟨.hbm, 369, rfl⟩
abbrev main_v241 : Ref sig .tc := ⟨.hbm, 370, rfl⟩
abbrev main_v242 : Ref sig .tc := ⟨.hbm, 371, rfl⟩
abbrev main_cst_78 : Ref sig .tc := ⟨.hbm, 372, rfl⟩
abbrev main_cst_79 : Ref sig .tc := ⟨.hbm, 373, rfl⟩
abbrev main_call9_v0 : Ref sig .tc := ⟨.hbm, 374, rfl⟩
abbrev main_call9_v1 : Ref sig .tc := ⟨.hbm, 375, rfl⟩
abbrev main_call9_v2 : Ref sig .tc := ⟨.hbm, 376, rfl⟩
abbrev main_call9_v3 : Ref sig .tc := ⟨.hbm, 377, rfl⟩
abbrev main_call9_v4 : Ref sig .tc := ⟨.hbm, 378, rfl⟩
abbrev main_v243 : Ref sig .tc := ⟨.hbm, 379, rfl⟩
abbrev main_v244 : Ref sig .tc := ⟨.hbm, 380, rfl⟩
abbrev main_cst_80 : Ref sig .tc := ⟨.hbm, 381, rfl⟩
abbrev main_cst_81 : Ref sig .tc := ⟨.hbm, 382, rfl⟩
abbrev main_call10_v0 : Ref sig .tc := ⟨.hbm, 383, rfl⟩
abbrev main_call10_v1 : Ref sig .tc := ⟨.hbm, 384, rfl⟩
abbrev main_call10_v2 : Ref sig .tc := ⟨.hbm, 385, rfl⟩
abbrev main_call10_v3 : Ref sig .tc := ⟨.hbm, 386, rfl⟩
abbrev main_call10_v4 : Ref sig .tc := ⟨.hbm, 387, rfl⟩
abbrev main_v245 : Ref sig .tc := ⟨.hbm, 388, rfl⟩
abbrev main_v246 : Ref sig .tc := ⟨.hbm, 389, rfl⟩
abbrev main_cst_82 : Ref sig .tc := ⟨.hbm, 390, rfl⟩
abbrev main_cst_83 : Ref sig .tc := ⟨.hbm, 391, rfl⟩
abbrev main_call11_v0 : Ref sig .tc := ⟨.hbm, 392, rfl⟩
abbrev main_call11_v1 : Ref sig .tc := ⟨.hbm, 393, rfl⟩
abbrev main_call11_v2 : Ref sig .tc := ⟨.hbm, 394, rfl⟩
abbrev main_call11_v3 : Ref sig .tc := ⟨.hbm, 395, rfl⟩
abbrev main_call11_v4 : Ref sig .tc := ⟨.hbm, 396, rfl⟩
abbrev main_v247 : Ref sig .tc := ⟨.hbm, 397, rfl⟩
abbrev main_v248 : Ref sig .tc := ⟨.hbm, 398, rfl⟩
abbrev main_cst_84 : Ref sig .tc := ⟨.hbm, 399, rfl⟩
abbrev main_v249 : Ref sig .tc := ⟨.hbm, 400, rfl⟩
abbrev main_v250 : Ref sig .tc := ⟨.hbm, 401, rfl⟩
abbrev main_cst_85 : Ref sig .tc := ⟨.hbm, 402, rfl⟩
abbrev main_v251 : Ref sig .tc := ⟨.hbm, 403, rfl⟩
abbrev main_v252 : Ref sig .tc := ⟨.hbm, 404, rfl⟩
abbrev main_v253 : Ref sig .tc := ⟨.hbm, 405, rfl⟩
abbrev main_v254 : Ref sig .tc := ⟨.hbm, 406, rfl⟩
abbrev main_cst_86 : Ref sig .tc := ⟨.hbm, 407, rfl⟩
abbrev main_v255 : Ref sig .tc := ⟨.hbm, 408, rfl⟩
abbrev main_v256 : Ref sig .tc := ⟨.hbm, 409, rfl⟩
abbrev main_cst_87 : Ref sig .tc := ⟨.hbm, 410, rfl⟩
abbrev main_v257 : Ref sig .tc := ⟨.hbm, 411, rfl⟩
abbrev main_v258 : Ref sig .tc := ⟨.hbm, 412, rfl⟩
abbrev main_v259 : Ref sig .tc := ⟨.hbm, 413, rfl⟩
abbrev main_v260 : Ref sig .tc := ⟨.hbm, 414, rfl⟩
abbrev main_cst_88 : Ref sig .tc := ⟨.hbm, 415, rfl⟩
abbrev main_v261 : Ref sig .tc := ⟨.hbm, 416, rfl⟩
abbrev main_v262 : Ref sig .tc := ⟨.hbm, 417, rfl⟩
abbrev main_cst_89 : Ref sig .tc := ⟨.hbm, 418, rfl⟩
abbrev main_v263 : Ref sig .tc := ⟨.hbm, 419, rfl⟩
abbrev main_v264 : Ref sig .tc := ⟨.hbm, 420, rfl⟩
abbrev main_v265 : Ref sig .tc := ⟨.hbm, 421, rfl⟩
abbrev main_v266 : Ref sig .tc := ⟨.hbm, 422, rfl⟩
abbrev main_v267 : Ref sig .tc := ⟨.hbm, 423, rfl⟩
abbrev main_v268 : Ref sig .tc := ⟨.hbm, 424, rfl⟩
abbrev main_c_90 : Ref sig .tc := ⟨.hbm, 425, rfl⟩
abbrev main_v269 : Ref sig .tc := ⟨.hbm, 426, rfl⟩
abbrev main_v270 : Ref sig .tc := ⟨.hbm, 427, rfl⟩
abbrev main_c_91 : Ref sig .tc := ⟨.hbm, 428, rfl⟩
abbrev main_v271 : Ref sig .tc := ⟨.hbm, 429, rfl⟩
abbrev main_v272 : Ref sig .tc := ⟨.hbm, 430, rfl⟩
abbrev main_c_92 : Ref sig .tc := ⟨.hbm, 431, rfl⟩
abbrev main_v273 : Ref sig .tc := ⟨.hbm, 432, rfl⟩
abbrev main_v274 : Ref sig .tc := ⟨.hbm, 433, rfl⟩
abbrev main_c_93 : Ref sig .tc := ⟨.hbm, 434, rfl⟩
abbrev main_v275 : Ref sig .tc := ⟨.hbm, 435, rfl⟩
abbrev main_v276 : Ref sig .tc := ⟨.hbm, 436, rfl⟩
abbrev main_c_94 : Ref sig .tc := ⟨.hbm, 437, rfl⟩
abbrev main_v277 : Ref sig .tc := ⟨.hbm, 438, rfl⟩
abbrev main_v278 : Ref sig .tc := ⟨.hbm, 439, rfl⟩
abbrev main_c_95 : Ref sig .tc := ⟨.hbm, 440, rfl⟩
abbrev main_v279 : Ref sig .tc := ⟨.hbm, 441, rfl⟩
abbrev main_v280 : Ref sig .tc := ⟨.hbm, 442, rfl⟩
abbrev main_v281 : Ref sig .tc := ⟨.hbm, 443, rfl⟩
abbrev main_c_96 : Ref sig .tc := ⟨.hbm, 444, rfl⟩
abbrev main_v282 : Ref sig .tc := ⟨.hbm, 445, rfl⟩
abbrev main_v283 : Ref sig .tc := ⟨.hbm, 446, rfl⟩
abbrev main_v284 : Ref sig .tc := ⟨.hbm, 447, rfl⟩
abbrev main_c_97 : Ref sig .tc := ⟨.hbm, 448, rfl⟩
abbrev main_v285 : Ref sig .tc := ⟨.hbm, 449, rfl⟩
abbrev main_v286 : Ref sig .tc := ⟨.hbm, 450, rfl⟩
abbrev main_v287 : Ref sig .tc := ⟨.hbm, 451, rfl⟩
abbrev main_c_98 : Ref sig .tc := ⟨.hbm, 452, rfl⟩
abbrev main_v288 : Ref sig .tc := ⟨.hbm, 453, rfl⟩
abbrev main_v289 : Ref sig .tc := ⟨.hbm, 454, rfl⟩
abbrev main_c_99 : Ref sig .tc := ⟨.hbm, 455, rfl⟩
abbrev main_v290 : Ref sig .tc := ⟨.hbm, 456, rfl⟩
abbrev main_v291 : Ref sig .tc := ⟨.hbm, 457, rfl⟩
abbrev main_v292 : Ref sig .tc := ⟨.hbm, 458, rfl⟩
abbrev main_v293 : Ref sig .tc := ⟨.hbm, 459, rfl⟩
abbrev main_v294 : Ref sig .tc := ⟨.hbm, 460, rfl⟩
abbrev main_c_100 : Ref sig .tc := ⟨.hbm, 461, rfl⟩
abbrev main_v295 : Ref sig .tc := ⟨.hbm, 462, rfl⟩
abbrev main_v296 : Ref sig .tc := ⟨.hbm, 463, rfl⟩
abbrev main_v297 : Ref sig .tc := ⟨.hbm, 464, rfl⟩
abbrev main_c_101 : Ref sig .tc := ⟨.hbm, 465, rfl⟩
abbrev main_v298 : Ref sig .tc := ⟨.hbm, 466, rfl⟩
abbrev main_v299 : Ref sig .tc := ⟨.hbm, 467, rfl⟩
abbrev main_v300 : Ref sig .tc := ⟨.hbm, 468, rfl⟩
abbrev main_c_102 : Ref sig .tc := ⟨.hbm, 469, rfl⟩
abbrev main_v301 : Ref sig .tc := ⟨.hbm, 470, rfl⟩
abbrev main_v302 : Ref sig .tc := ⟨.hbm, 471, rfl⟩
abbrev main_c_103 : Ref sig .tc := ⟨.hbm, 472, rfl⟩
abbrev main_v303 : Ref sig .tc := ⟨.hbm, 473, rfl⟩
abbrev main_v304 : Ref sig .tc := ⟨.hbm, 474, rfl⟩
abbrev main_v305 : Ref sig .tc := ⟨.hbm, 475, rfl⟩
abbrev main_v306 : Ref sig .tc := ⟨.hbm, 476, rfl⟩
abbrev main_v307 : Ref sig .tc := ⟨.hbm, 477, rfl⟩
abbrev main_c_104 : Ref sig .tc := ⟨.hbm, 478, rfl⟩
abbrev main_v308 : Ref sig .tc := ⟨.hbm, 479, rfl⟩
abbrev main_v309 : Ref sig .tc := ⟨.hbm, 480, rfl⟩
abbrev main_v310 : Ref sig .tc := ⟨.hbm, 481, rfl⟩
abbrev main_c_105 : Ref sig .tc := ⟨.hbm, 482, rfl⟩
abbrev main_v311 : Ref sig .tc := ⟨.hbm, 483, rfl⟩
abbrev main_v312 : Ref sig .tc := ⟨.hbm, 484, rfl⟩
abbrev main_v313 : Ref sig .tc := ⟨.hbm, 485, rfl⟩
abbrev main_c_106 : Ref sig .tc := ⟨.hbm, 486, rfl⟩
abbrev main_v314 : Ref sig .tc := ⟨.hbm, 487, rfl⟩
abbrev main_v315 : Ref sig .tc := ⟨.hbm, 488, rfl⟩
abbrev main_c_107 : Ref sig .tc := ⟨.hbm, 489, rfl⟩
abbrev main_v316 : Ref sig .tc := ⟨.hbm, 490, rfl⟩
abbrev main_v317 : Ref sig .tc := ⟨.hbm, 491, rfl⟩
abbrev main_v318 : Ref sig .tc := ⟨.hbm, 492, rfl⟩
abbrev main_v319 : Ref sig .tc := ⟨.hbm, 493, rfl⟩
abbrev main_v320 : Ref sig .tc := ⟨.hbm, 494, rfl⟩
abbrev main_c_108 : Ref sig .tc := ⟨.hbm, 495, rfl⟩
abbrev main_v321 : Ref sig .tc := ⟨.hbm, 496, rfl⟩
abbrev main_v322 : Ref sig .tc := ⟨.hbm, 497, rfl⟩
abbrev main_v323 : Ref sig .tc := ⟨.hbm, 498, rfl⟩
abbrev main_c_109 : Ref sig .tc := ⟨.hbm, 499, rfl⟩
abbrev main_v324 : Ref sig .tc := ⟨.hbm, 500, rfl⟩
abbrev main_v325 : Ref sig .tc := ⟨.hbm, 501, rfl⟩
abbrev main_v326 : Ref sig .tc := ⟨.hbm, 502, rfl⟩
abbrev main_c_110 : Ref sig .tc := ⟨.hbm, 503, rfl⟩
abbrev main_v327 : Ref sig .tc := ⟨.hbm, 504, rfl⟩
abbrev main_v328 : Ref sig .tc := ⟨.hbm, 505, rfl⟩
abbrev main_c_111 : Ref sig .tc := ⟨.hbm, 506, rfl⟩
abbrev main_v329 : Ref sig .tc := ⟨.hbm, 507, rfl⟩
abbrev main_v330 : Ref sig .tc := ⟨.hbm, 508, rfl⟩
abbrev main_v331 : Ref sig .tc := ⟨.hbm, 509, rfl⟩
abbrev main_v332 : Ref sig .tc := ⟨.hbm, 510, rfl⟩
abbrev main_v333 : Ref sig .tc := ⟨.hbm, 511, rfl⟩
abbrev main_c_112 : Ref sig .tc := ⟨.hbm, 512, rfl⟩
abbrev main_v334 : Ref sig .tc := ⟨.hbm, 513, rfl⟩
abbrev main_v335 : Ref sig .tc := ⟨.hbm, 514, rfl⟩
abbrev main_v336 : Ref sig .tc := ⟨.hbm, 515, rfl⟩
abbrev main_c_113 : Ref sig .tc := ⟨.hbm, 516, rfl⟩
abbrev main_v337 : Ref sig .tc := ⟨.hbm, 517, rfl⟩
abbrev main_v338 : Ref sig .tc := ⟨.hbm, 518, rfl⟩
abbrev main_v339 : Ref sig .tc := ⟨.hbm, 519, rfl⟩
abbrev main_c_114 : Ref sig .tc := ⟨.hbm, 520, rfl⟩
abbrev main_v340 : Ref sig .tc := ⟨.hbm, 521, rfl⟩
abbrev main_v341 : Ref sig .tc := ⟨.hbm, 522, rfl⟩
abbrev main_c_115 : Ref sig .tc := ⟨.hbm, 523, rfl⟩
abbrev main_v342 : Ref sig .tc := ⟨.hbm, 524, rfl⟩
abbrev main_v343 : Ref sig .tc := ⟨.hbm, 525, rfl⟩
abbrev main_v344 : Ref sig .tc := ⟨.hbm, 526, rfl⟩
abbrev main_v345 : Ref sig .tc := ⟨.hbm, 527, rfl⟩
abbrev main_v346 : Ref sig .tc := ⟨.hbm, 528, rfl⟩
abbrev main_c_116 : Ref sig .tc := ⟨.hbm, 529, rfl⟩
abbrev main_v347 : Ref sig .tc := ⟨.hbm, 530, rfl⟩
abbrev main_v348 : Ref sig .tc := ⟨.hbm, 531, rfl⟩
abbrev main_v349 : Ref sig .tc := ⟨.hbm, 532, rfl⟩
abbrev main_c_117 : Ref sig .tc := ⟨.hbm, 533, rfl⟩
abbrev main_v350 : Ref sig .tc := ⟨.hbm, 534, rfl⟩
abbrev main_v351 : Ref sig .tc := ⟨.hbm, 535, rfl⟩
abbrev main_v352 : Ref sig .tc := ⟨.hbm, 536, rfl⟩
abbrev main_c_118 : Ref sig .tc := ⟨.hbm, 537, rfl⟩
abbrev main_v353 : Ref sig .tc := ⟨.hbm, 538, rfl⟩
abbrev main_v354 : Ref sig .tc := ⟨.hbm, 539, rfl⟩
abbrev main_c_119 : Ref sig .tc := ⟨.hbm, 540, rfl⟩
abbrev main_v355 : Ref sig .tc := ⟨.hbm, 541, rfl⟩
abbrev main_v356 : Ref sig .tc := ⟨.hbm, 542, rfl⟩
abbrev main_v357 : Ref sig .tc := ⟨.hbm, 543, rfl⟩
abbrev main_v358 : Ref sig .tc := ⟨.hbm, 544, rfl⟩
abbrev main_v359 : Ref sig .tc := ⟨.hbm, 545, rfl⟩
abbrev main_c_120 : Ref sig .tc := ⟨.hbm, 546, rfl⟩
abbrev main_v360 : Ref sig .tc := ⟨.hbm, 547, rfl⟩
abbrev main_v361 : Ref sig .tc := ⟨.hbm, 548, rfl⟩
abbrev main_v362 : Ref sig .tc := ⟨.hbm, 549, rfl⟩
abbrev main_c_121 : Ref sig .tc := ⟨.hbm, 550, rfl⟩
abbrev main_v363 : Ref sig .tc := ⟨.hbm, 551, rfl⟩
abbrev main_v364 : Ref sig .tc := ⟨.hbm, 552, rfl⟩
abbrev main_v365 : Ref sig .tc := ⟨.hbm, 553, rfl⟩
abbrev main_c_122 : Ref sig .tc := ⟨.hbm, 554, rfl⟩
abbrev main_v366 : Ref sig .tc := ⟨.hbm, 555, rfl⟩
abbrev main_v367 : Ref sig .tc := ⟨.hbm, 556, rfl⟩
abbrev main_c_123 : Ref sig .tc := ⟨.hbm, 557, rfl⟩
abbrev main_v368 : Ref sig .tc := ⟨.hbm, 558, rfl⟩
abbrev main_v369 : Ref sig .tc := ⟨.hbm, 559, rfl⟩
abbrev main_v370 : Ref sig .tc := ⟨.hbm, 560, rfl⟩
abbrev main_v371 : Ref sig .tc := ⟨.hbm, 561, rfl⟩
abbrev main_v372 : Ref sig .tc := ⟨.hbm, 562, rfl⟩
abbrev main_c_124 : Ref sig .tc := ⟨.hbm, 563, rfl⟩
abbrev main_v373 : Ref sig .tc := ⟨.hbm, 564, rfl⟩
abbrev main_v374 : Ref sig .tc := ⟨.hbm, 565, rfl⟩
abbrev main_v375 : Ref sig .tc := ⟨.hbm, 566, rfl⟩
abbrev main_c_125 : Ref sig .tc := ⟨.hbm, 567, rfl⟩
abbrev main_v376 : Ref sig .tc := ⟨.hbm, 568, rfl⟩
abbrev main_v377 : Ref sig .tc := ⟨.hbm, 569, rfl⟩
abbrev main_v378 : Ref sig .tc := ⟨.hbm, 570, rfl⟩
abbrev main_c_126 : Ref sig .tc := ⟨.hbm, 571, rfl⟩
abbrev main_v379 : Ref sig .tc := ⟨.hbm, 572, rfl⟩
abbrev main_v380 : Ref sig .tc := ⟨.hbm, 573, rfl⟩
abbrev main_c_127 : Ref sig .tc := ⟨.hbm, 574, rfl⟩
abbrev main_v381 : Ref sig .tc := ⟨.hbm, 575, rfl⟩
abbrev main_v382 : Ref sig .tc := ⟨.hbm, 576, rfl⟩
abbrev main_v383 : Ref sig .tc := ⟨.hbm, 577, rfl⟩
abbrev main_v384 : Ref sig .tc := ⟨.hbm, 578, rfl⟩
abbrev main_v385 : Ref sig .tc := ⟨.hbm, 579, rfl⟩
abbrev main_v386 : Ref sig .tc := ⟨.hbm, 580, rfl⟩
abbrev main_v387 : Ref sig .tc := ⟨.hbm, 581, rfl⟩
abbrev main_v388 : Ref sig .tc := ⟨.hbm, 582, rfl⟩
abbrev main_v389 : Ref sig .tc := ⟨.hbm, 583, rfl⟩
abbrev main_v390 : Ref sig .tc := ⟨.hbm, 584, rfl⟩
abbrev main_v391 : Ref sig .tc := ⟨.hbm, 585, rfl⟩
abbrev main_v392 : Ref sig .tc := ⟨.hbm, 586, rfl⟩
abbrev main_v393 : Ref sig .tc := ⟨.hbm, 587, rfl⟩
abbrev main_v394 : Ref sig .tc := ⟨.hbm, 588, rfl⟩
abbrev main_v395 : Ref sig .tc := ⟨.hbm, 589, rfl⟩
abbrev main_v396 : Ref sig .tc := ⟨.hbm, 590, rfl⟩
abbrev main_v397 : Ref sig .tc := ⟨.hbm, 591, rfl⟩
abbrev main_v398 : Ref sig .tc := ⟨.hbm, 592, rfl⟩
abbrev main_v399 : Ref sig .tc := ⟨.hbm, 593, rfl⟩
abbrev main_v400 : Ref sig .tc := ⟨.hbm, 594, rfl⟩
abbrev main_v401 : Ref sig .tc := ⟨.hbm, 595, rfl⟩
abbrev main_v402 : Ref sig .tc := ⟨.hbm, 596, rfl⟩
abbrev main_v403 : Ref sig .tc := ⟨.hbm, 597, rfl⟩
abbrev main_v404 : Ref sig .tc := ⟨.hbm, 598, rfl⟩
abbrev main_v405 : Ref sig .tc := ⟨.hbm, 599, rfl⟩
abbrev main_v406 : Ref sig .tc := ⟨.hbm, 600, rfl⟩
abbrev main_v407 : Ref sig .tc := ⟨.hbm, 601, rfl⟩
abbrev main_v408 : Ref sig .tc := ⟨.hbm, 602, rfl⟩
abbrev main_v409 : Ref sig .tc := ⟨.hbm, 603, rfl⟩
abbrev main_v410 : Ref sig .tc := ⟨.hbm, 604, rfl⟩
abbrev main_v411 : Ref sig .tc := ⟨.hbm, 605, rfl⟩
abbrev main_v412 : Ref sig .tc := ⟨.hbm, 606, rfl⟩
abbrev main_v413 : Ref sig .tc := ⟨.hbm, 607, rfl⟩
abbrev main_v414 : Ref sig .tc := ⟨.hbm, 608, rfl⟩
abbrev main_v415 : Ref sig .tc := ⟨.hbm, 609, rfl⟩
abbrev main_v416 : Ref sig .tc := ⟨.hbm, 610, rfl⟩
abbrev main_v417 : Ref sig .tc := ⟨.hbm, 611, rfl⟩
abbrev main_v418 : Ref sig .tc := ⟨.hbm, 612, rfl⟩
abbrev main_v419 : Ref sig .tc := ⟨.hbm, 613, rfl⟩
abbrev main_v420 : Ref sig .tc := ⟨.hbm, 614, rfl⟩
abbrev main_v421 : Ref sig .tc := ⟨.hbm, 615, rfl⟩
abbrev main_v422 : Ref sig .tc := ⟨.hbm, 616, rfl⟩
abbrev main_v423 : Ref sig .tc := ⟨.hbm, 617, rfl⟩
abbrev main_v424 : Ref sig .tc := ⟨.hbm, 618, rfl⟩
abbrev main_cst_128 : Ref sig .tc := ⟨.hbm, 619, rfl⟩
abbrev main_v425 : Ref sig .tc := ⟨.hbm, 620, rfl⟩
abbrev main_v426 : Ref sig .tc := ⟨.hbm, 621, rfl⟩
abbrev main_cst_129 : Ref sig .tc := ⟨.hbm, 622, rfl⟩
abbrev main_v427 : Ref sig .tc := ⟨.hbm, 623, rfl⟩
abbrev main_v428 : Ref sig .tc := ⟨.hbm, 624, rfl⟩
abbrev main_cst_130 : Ref sig .tc := ⟨.hbm, 625, rfl⟩
abbrev main_v429 : Ref sig .tc := ⟨.hbm, 626, rfl⟩
abbrev main_v430 : Ref sig .tc := ⟨.hbm, 627, rfl⟩
abbrev main_v431 : Ref sig .tc := ⟨.hbm, 628, rfl⟩
abbrev main_v432 : Ref sig .tc := ⟨.hbm, 629, rfl⟩
abbrev main_cst_131 : Ref sig .tc := ⟨.hbm, 630, rfl⟩
abbrev main_v433 : Ref sig .tc := ⟨.hbm, 631, rfl⟩
abbrev main_v434 : Ref sig .tc := ⟨.hbm, 632, rfl⟩
abbrev main_cst_132 : Ref sig .tc := ⟨.hbm, 633, rfl⟩
abbrev main_v435 : Ref sig .tc := ⟨.hbm, 634, rfl⟩
abbrev main_v436 : Ref sig .tc := ⟨.hbm, 635, rfl⟩
abbrev main_cst_133 : Ref sig .tc := ⟨.hbm, 636, rfl⟩
abbrev main_v437 : Ref sig .tc := ⟨.hbm, 637, rfl⟩
abbrev main_v438 : Ref sig .tc := ⟨.hbm, 638, rfl⟩
abbrev main_v439 : Ref sig .tc := ⟨.hbm, 639, rfl⟩
abbrev main_v440 : Ref sig .tc := ⟨.hbm, 640, rfl⟩
abbrev main_cst_134 : Ref sig .tc := ⟨.hbm, 641, rfl⟩
abbrev main_v441 : Ref sig .tc := ⟨.hbm, 642, rfl⟩
abbrev main_v442 : Ref sig .tc := ⟨.hbm, 643, rfl⟩
abbrev main_cst_135 : Ref sig .tc := ⟨.hbm, 644, rfl⟩
abbrev main_v443 : Ref sig .tc := ⟨.hbm, 645, rfl⟩
abbrev main_v444 : Ref sig .tc := ⟨.hbm, 646, rfl⟩
abbrev main_cst_136 : Ref sig .tc := ⟨.hbm, 647, rfl⟩
abbrev main_v445 : Ref sig .tc := ⟨.hbm, 648, rfl⟩
abbrev main_v446 : Ref sig .tc := ⟨.hbm, 649, rfl⟩
abbrev main_v447 : Ref sig .tc := ⟨.hbm, 650, rfl⟩
abbrev main_cst_137 : Ref sig .tc := ⟨.hbm, 651, rfl⟩
abbrev main_c_138 : Ref sig .tc := ⟨.hbm, 652, rfl⟩
abbrev main_call12_v0 : Ref sig .tc := ⟨.hbm, 653, rfl⟩
abbrev main_call12_v1 : Ref sig .tc := ⟨.hbm, 654, rfl⟩
abbrev main_call12_v2 : Ref sig .tc := ⟨.hbm, 655, rfl⟩
abbrev main_call12_v3 : Ref sig .tc := ⟨.hbm, 656, rfl⟩
abbrev main_call12_v4 : Ref sig .tc := ⟨.hbm, 657, rfl⟩
abbrev main_v448 : Ref sig .tc := ⟨.hbm, 658, rfl⟩
abbrev main_v449 : Ref sig .tc := ⟨.hbm, 659, rfl⟩
abbrev main_cst_139 : Ref sig .tc := ⟨.hbm, 660, rfl⟩
abbrev main_c_140 : Ref sig .tc := ⟨.hbm, 661, rfl⟩
abbrev main_call13_v0 : Ref sig .tc := ⟨.hbm, 662, rfl⟩
abbrev main_call13_v1 : Ref sig .tc := ⟨.hbm, 663, rfl⟩
abbrev main_call13_v2 : Ref sig .tc := ⟨.hbm, 664, rfl⟩
abbrev main_call13_v3 : Ref sig .tc := ⟨.hbm, 665, rfl⟩
abbrev main_call13_v4 : Ref sig .tc := ⟨.hbm, 666, rfl⟩
abbrev main_v450 : Ref sig .tc := ⟨.hbm, 667, rfl⟩
abbrev main_v451 : Ref sig .tc := ⟨.hbm, 668, rfl⟩
abbrev main_cst_141 : Ref sig .tc := ⟨.hbm, 669, rfl⟩
abbrev main_c_142 : Ref sig .tc := ⟨.hbm, 670, rfl⟩
abbrev main_call14_v0 : Ref sig .tc := ⟨.hbm, 671, rfl⟩
abbrev main_call14_v1 : Ref sig .tc := ⟨.hbm, 672, rfl⟩
abbrev main_call14_v2 : Ref sig .tc := ⟨.hbm, 673, rfl⟩
abbrev main_call14_v3 : Ref sig .tc := ⟨.hbm, 674, rfl⟩
abbrev main_call14_v4 : Ref sig .tc := ⟨.hbm, 675, rfl⟩
abbrev main_v452 : Ref sig .tc := ⟨.hbm, 676, rfl⟩
abbrev main_v453 : Ref sig .tc := ⟨.hbm, 677, rfl⟩
abbrev main_cst_143 : Ref sig .tc := ⟨.hbm, 678, rfl⟩
abbrev main_cst_144 : Ref sig .tc := ⟨.hbm, 679, rfl⟩
abbrev main_call15_v0 : Ref sig .tc := ⟨.hbm, 680, rfl⟩
abbrev main_call15_v1 : Ref sig .tc := ⟨.hbm, 681, rfl⟩
abbrev main_call15_v2 : Ref sig .tc := ⟨.hbm, 682, rfl⟩
abbrev main_call15_v3 : Ref sig .tc := ⟨.hbm, 683, rfl⟩
abbrev main_call15_v4 : Ref sig .tc := ⟨.hbm, 684, rfl⟩
abbrev main_v454 : Ref sig .tc := ⟨.hbm, 685, rfl⟩
abbrev main_v455 : Ref sig .tc := ⟨.hbm, 686, rfl⟩
abbrev main_cst_145 : Ref sig .tc := ⟨.hbm, 687, rfl⟩
abbrev main_cst_146 : Ref sig .tc := ⟨.hbm, 688, rfl⟩
abbrev main_call16_v0 : Ref sig .tc := ⟨.hbm, 689, rfl⟩
abbrev main_call16_v1 : Ref sig .tc := ⟨.hbm, 690, rfl⟩
abbrev main_call16_v2 : Ref sig .tc := ⟨.hbm, 691, rfl⟩
abbrev main_call16_v3 : Ref sig .tc := ⟨.hbm, 692, rfl⟩
abbrev main_call16_v4 : Ref sig .tc := ⟨.hbm, 693, rfl⟩
abbrev main_v456 : Ref sig .tc := ⟨.hbm, 694, rfl⟩
abbrev main_v457 : Ref sig .tc := ⟨.hbm, 695, rfl⟩
abbrev main_cst_147 : Ref sig .tc := ⟨.hbm, 696, rfl⟩
abbrev main_cst_148 : Ref sig .tc := ⟨.hbm, 697, rfl⟩
abbrev main_call17_v0 : Ref sig .tc := ⟨.hbm, 698, rfl⟩
abbrev main_call17_v1 : Ref sig .tc := ⟨.hbm, 699, rfl⟩
abbrev main_call17_v2 : Ref sig .tc := ⟨.hbm, 700, rfl⟩
abbrev main_call17_v3 : Ref sig .tc := ⟨.hbm, 701, rfl⟩
abbrev main_call17_v4 : Ref sig .tc := ⟨.hbm, 702, rfl⟩
abbrev main_v458 : Ref sig .tc := ⟨.hbm, 703, rfl⟩
abbrev main_v459 : Ref sig .tc := ⟨.hbm, 704, rfl⟩
abbrev main_cst_149 : Ref sig .tc := ⟨.hbm, 705, rfl⟩
abbrev main_v460 : Ref sig .tc := ⟨.hbm, 706, rfl⟩
abbrev main_v461 : Ref sig .tc := ⟨.hbm, 707, rfl⟩
abbrev main_cst_150 : Ref sig .tc := ⟨.hbm, 708, rfl⟩
abbrev main_v462 : Ref sig .tc := ⟨.hbm, 709, rfl⟩
abbrev main_v463 : Ref sig .tc := ⟨.hbm, 710, rfl⟩
abbrev main_v464 : Ref sig .tc := ⟨.hbm, 711, rfl⟩
abbrev main_v465 : Ref sig .tc := ⟨.hbm, 712, rfl⟩
abbrev main_cst_151 : Ref sig .tc := ⟨.hbm, 713, rfl⟩
abbrev main_v466 : Ref sig .tc := ⟨.hbm, 714, rfl⟩
abbrev main_v467 : Ref sig .tc := ⟨.hbm, 715, rfl⟩
abbrev main_cst_152 : Ref sig .tc := ⟨.hbm, 716, rfl⟩
abbrev main_v468 : Ref sig .tc := ⟨.hbm, 717, rfl⟩
abbrev main_v469 : Ref sig .tc := ⟨.hbm, 718, rfl⟩
abbrev main_v470 : Ref sig .tc := ⟨.hbm, 719, rfl⟩
abbrev main_v471 : Ref sig .tc := ⟨.hbm, 720, rfl⟩
abbrev main_cst_153 : Ref sig .tc := ⟨.hbm, 721, rfl⟩
abbrev main_v472 : Ref sig .tc := ⟨.hbm, 722, rfl⟩
abbrev main_v473 : Ref sig .tc := ⟨.hbm, 723, rfl⟩
abbrev main_cst_154 : Ref sig .tc := ⟨.hbm, 724, rfl⟩
abbrev main_v474 : Ref sig .tc := ⟨.hbm, 725, rfl⟩
abbrev main_v475 : Ref sig .tc := ⟨.hbm, 726, rfl⟩
abbrev main_v476 : Ref sig .tc := ⟨.hbm, 727, rfl⟩
abbrev main_v477 : Ref sig .tc := ⟨.hbm, 728, rfl⟩
abbrev main_v478 : Ref sig .tc := ⟨.hbm, 729, rfl⟩
abbrev main_v479 : Ref sig .tc := ⟨.hbm, 730, rfl⟩
abbrev main_c_155 : Ref sig .tc := ⟨.hbm, 731, rfl⟩
abbrev main_v480 : Ref sig .tc := ⟨.hbm, 732, rfl⟩
abbrev main_v481 : Ref sig .tc := ⟨.hbm, 733, rfl⟩
abbrev main_c_156 : Ref sig .tc := ⟨.hbm, 734, rfl⟩
abbrev main_v482 : Ref sig .tc := ⟨.hbm, 735, rfl⟩
abbrev main_v483 : Ref sig .tc := ⟨.hbm, 736, rfl⟩
abbrev main_c_157 : Ref sig .tc := ⟨.hbm, 737, rfl⟩
abbrev main_v484 : Ref sig .tc := ⟨.hbm, 738, rfl⟩
abbrev main_v485 : Ref sig .tc := ⟨.hbm, 739, rfl⟩
abbrev main_c_158 : Ref sig .tc := ⟨.hbm, 740, rfl⟩
abbrev main_v486 : Ref sig .tc := ⟨.hbm, 741, rfl⟩
abbrev main_v487 : Ref sig .tc := ⟨.hbm, 742, rfl⟩
abbrev main_c_159 : Ref sig .tc := ⟨.hbm, 743, rfl⟩
abbrev main_v488 : Ref sig .tc := ⟨.hbm, 744, rfl⟩
abbrev main_v489 : Ref sig .tc := ⟨.hbm, 745, rfl⟩
abbrev main_c_160 : Ref sig .tc := ⟨.hbm, 746, rfl⟩
abbrev main_v490 : Ref sig .tc := ⟨.hbm, 747, rfl⟩
abbrev main_v491 : Ref sig .tc := ⟨.hbm, 748, rfl⟩
abbrev main_v492 : Ref sig .tc := ⟨.hbm, 749, rfl⟩
abbrev main_c_161 : Ref sig .tc := ⟨.hbm, 750, rfl⟩
abbrev main_v493 : Ref sig .tc := ⟨.hbm, 751, rfl⟩
abbrev main_v494 : Ref sig .tc := ⟨.hbm, 752, rfl⟩
abbrev main_v495 : Ref sig .tc := ⟨.hbm, 753, rfl⟩
abbrev main_c_162 : Ref sig .tc := ⟨.hbm, 754, rfl⟩
abbrev main_v496 : Ref sig .tc := ⟨.hbm, 755, rfl⟩
abbrev main_v497 : Ref sig .tc := ⟨.hbm, 756, rfl⟩
abbrev main_v498 : Ref sig .tc := ⟨.hbm, 757, rfl⟩
abbrev main_c_163 : Ref sig .tc := ⟨.hbm, 758, rfl⟩
abbrev main_v499 : Ref sig .tc := ⟨.hbm, 759, rfl⟩
abbrev main_v500 : Ref sig .tc := ⟨.hbm, 760, rfl⟩
abbrev main_c_164 : Ref sig .tc := ⟨.hbm, 761, rfl⟩
abbrev main_v501 : Ref sig .tc := ⟨.hbm, 762, rfl⟩
abbrev main_v502 : Ref sig .tc := ⟨.hbm, 763, rfl⟩
abbrev main_v503 : Ref sig .tc := ⟨.hbm, 764, rfl⟩
abbrev main_v504 : Ref sig .tc := ⟨.hbm, 765, rfl⟩
abbrev main_v505 : Ref sig .tc := ⟨.hbm, 766, rfl⟩
abbrev main_c_165 : Ref sig .tc := ⟨.hbm, 767, rfl⟩
abbrev main_v506 : Ref sig .tc := ⟨.hbm, 768, rfl⟩
abbrev main_v507 : Ref sig .tc := ⟨.hbm, 769, rfl⟩
abbrev main_v508 : Ref sig .tc := ⟨.hbm, 770, rfl⟩
abbrev main_c_166 : Ref sig .tc := ⟨.hbm, 771, rfl⟩
abbrev main_v509 : Ref sig .tc := ⟨.hbm, 772, rfl⟩
abbrev main_v510 : Ref sig .tc := ⟨.hbm, 773, rfl⟩
abbrev main_v511 : Ref sig .tc := ⟨.hbm, 774, rfl⟩
abbrev main_c_167 : Ref sig .tc := ⟨.hbm, 775, rfl⟩
abbrev main_v512 : Ref sig .tc := ⟨.hbm, 776, rfl⟩
abbrev main_v513 : Ref sig .tc := ⟨.hbm, 777, rfl⟩
abbrev main_c_168 : Ref sig .tc := ⟨.hbm, 778, rfl⟩
abbrev main_v514 : Ref sig .tc := ⟨.hbm, 779, rfl⟩
abbrev main_v515 : Ref sig .tc := ⟨.hbm, 780, rfl⟩
abbrev main_v516 : Ref sig .tc := ⟨.hbm, 781, rfl⟩
abbrev main_v517 : Ref sig .tc := ⟨.hbm, 782, rfl⟩
abbrev main_v518 : Ref sig .tc := ⟨.hbm, 783, rfl⟩
abbrev main_c_169 : Ref sig .tc := ⟨.hbm, 784, rfl⟩
abbrev main_v519 : Ref sig .tc := ⟨.hbm, 785, rfl⟩
abbrev main_v520 : Ref sig .tc := ⟨.hbm, 786, rfl⟩
abbrev main_v521 : Ref sig .tc := ⟨.hbm, 787, rfl⟩
abbrev main_c_170 : Ref sig .tc := ⟨.hbm, 788, rfl⟩
abbrev main_v522 : Ref sig .tc := ⟨.hbm, 789, rfl⟩
abbrev main_v523 : Ref sig .tc := ⟨.hbm, 790, rfl⟩
abbrev main_v524 : Ref sig .tc := ⟨.hbm, 791, rfl⟩
abbrev main_c_171 : Ref sig .tc := ⟨.hbm, 792, rfl⟩
abbrev main_v525 : Ref sig .tc := ⟨.hbm, 793, rfl⟩
abbrev main_v526 : Ref sig .tc := ⟨.hbm, 794, rfl⟩
abbrev main_c_172 : Ref sig .tc := ⟨.hbm, 795, rfl⟩
abbrev main_v527 : Ref sig .tc := ⟨.hbm, 796, rfl⟩
abbrev main_v528 : Ref sig .tc := ⟨.hbm, 797, rfl⟩
abbrev main_v529 : Ref sig .tc := ⟨.hbm, 798, rfl⟩
abbrev main_v530 : Ref sig .tc := ⟨.hbm, 799, rfl⟩
abbrev main_v531 : Ref sig .tc := ⟨.hbm, 800, rfl⟩
abbrev main_c_173 : Ref sig .tc := ⟨.hbm, 801, rfl⟩
abbrev main_v532 : Ref sig .tc := ⟨.hbm, 802, rfl⟩
abbrev main_v533 : Ref sig .tc := ⟨.hbm, 803, rfl⟩
abbrev main_v534 : Ref sig .tc := ⟨.hbm, 804, rfl⟩
abbrev main_c_174 : Ref sig .tc := ⟨.hbm, 805, rfl⟩
abbrev main_v535 : Ref sig .tc := ⟨.hbm, 806, rfl⟩
abbrev main_v536 : Ref sig .tc := ⟨.hbm, 807, rfl⟩
abbrev main_v537 : Ref sig .tc := ⟨.hbm, 808, rfl⟩
abbrev main_c_175 : Ref sig .tc := ⟨.hbm, 809, rfl⟩
abbrev main_v538 : Ref sig .tc := ⟨.hbm, 810, rfl⟩
abbrev main_v539 : Ref sig .tc := ⟨.hbm, 811, rfl⟩
abbrev main_c_176 : Ref sig .tc := ⟨.hbm, 812, rfl⟩
abbrev main_v540 : Ref sig .tc := ⟨.hbm, 813, rfl⟩
abbrev main_v541 : Ref sig .tc := ⟨.hbm, 814, rfl⟩
abbrev main_v542 : Ref sig .tc := ⟨.hbm, 815, rfl⟩
abbrev main_v543 : Ref sig .tc := ⟨.hbm, 816, rfl⟩
abbrev main_v544 : Ref sig .tc := ⟨.hbm, 817, rfl⟩
abbrev main_c_177 : Ref sig .tc := ⟨.hbm, 818, rfl⟩
abbrev main_v545 : Ref sig .tc := ⟨.hbm, 819, rfl⟩
abbrev main_v546 : Ref sig .tc := ⟨.hbm, 820, rfl⟩
abbrev main_v547 : Ref sig .tc := ⟨.hbm, 821, rfl⟩
abbrev main_c_178 : Ref sig .tc := ⟨.hbm, 822, rfl⟩
abbrev main_v548 : Ref sig .tc := ⟨.hbm, 823, rfl⟩
abbrev main_v549 : Ref sig .tc := ⟨.hbm, 824, rfl⟩
abbrev main_v550 : Ref sig .tc := ⟨.hbm, 825, rfl⟩
abbrev main_c_179 : Ref sig .tc := ⟨.hbm, 826, rfl⟩
abbrev main_v551 : Ref sig .tc := ⟨.hbm, 827, rfl⟩
abbrev main_v552 : Ref sig .tc := ⟨.hbm, 828, rfl⟩
abbrev main_c_180 : Ref sig .tc := ⟨.hbm, 829, rfl⟩
abbrev main_v553 : Ref sig .tc := ⟨.hbm, 830, rfl⟩
abbrev main_v554 : Ref sig .tc := ⟨.hbm, 831, rfl⟩
abbrev main_v555 : Ref sig .tc := ⟨.hbm, 832, rfl⟩
abbrev main_v556 : Ref sig .tc := ⟨.hbm, 833, rfl⟩
abbrev main_v557 : Ref sig .tc := ⟨.hbm, 834, rfl⟩
abbrev main_c_181 : Ref sig .tc := ⟨.hbm, 835, rfl⟩
abbrev main_v558 : Ref sig .tc := ⟨.hbm, 836, rfl⟩
abbrev main_v559 : Ref sig .tc := ⟨.hbm, 837, rfl⟩
abbrev main_v560 : Ref sig .tc := ⟨.hbm, 838, rfl⟩
abbrev main_c_182 : Ref sig .tc := ⟨.hbm, 839, rfl⟩
abbrev main_v561 : Ref sig .tc := ⟨.hbm, 840, rfl⟩
abbrev main_v562 : Ref sig .tc := ⟨.hbm, 841, rfl⟩
abbrev main_v563 : Ref sig .tc := ⟨.hbm, 842, rfl⟩
abbrev main_c_183 : Ref sig .tc := ⟨.hbm, 843, rfl⟩
abbrev main_v564 : Ref sig .tc := ⟨.hbm, 844, rfl⟩
abbrev main_v565 : Ref sig .tc := ⟨.hbm, 845, rfl⟩
abbrev main_c_184 : Ref sig .tc := ⟨.hbm, 846, rfl⟩
abbrev main_v566 : Ref sig .tc := ⟨.hbm, 847, rfl⟩
abbrev main_v567 : Ref sig .tc := ⟨.hbm, 848, rfl⟩
abbrev main_v568 : Ref sig .tc := ⟨.hbm, 849, rfl⟩
abbrev main_v569 : Ref sig .tc := ⟨.hbm, 850, rfl⟩
abbrev main_v570 : Ref sig .tc := ⟨.hbm, 851, rfl⟩
abbrev main_c_185 : Ref sig .tc := ⟨.hbm, 852, rfl⟩
abbrev main_v571 : Ref sig .tc := ⟨.hbm, 853, rfl⟩
abbrev main_v572 : Ref sig .tc := ⟨.hbm, 854, rfl⟩
abbrev main_v573 : Ref sig .tc := ⟨.hbm, 855, rfl⟩
abbrev main_c_186 : Ref sig .tc := ⟨.hbm, 856, rfl⟩
abbrev main_v574 : Ref sig .tc := ⟨.hbm, 857, rfl⟩
abbrev main_v575 : Ref sig .tc := ⟨.hbm, 858, rfl⟩
abbrev main_v576 : Ref sig .tc := ⟨.hbm, 859, rfl⟩
abbrev main_c_187 : Ref sig .tc := ⟨.hbm, 860, rfl⟩
abbrev main_v577 : Ref sig .tc := ⟨.hbm, 861, rfl⟩
abbrev main_v578 : Ref sig .tc := ⟨.hbm, 862, rfl⟩
abbrev main_c_188 : Ref sig .tc := ⟨.hbm, 863, rfl⟩
abbrev main_v579 : Ref sig .tc := ⟨.hbm, 864, rfl⟩
abbrev main_v580 : Ref sig .tc := ⟨.hbm, 865, rfl⟩
abbrev main_v581 : Ref sig .tc := ⟨.hbm, 866, rfl⟩
abbrev main_v582 : Ref sig .tc := ⟨.hbm, 867, rfl⟩
abbrev main_v583 : Ref sig .tc := ⟨.hbm, 868, rfl⟩
abbrev main_c_189 : Ref sig .tc := ⟨.hbm, 869, rfl⟩
abbrev main_v584 : Ref sig .tc := ⟨.hbm, 870, rfl⟩
abbrev main_v585 : Ref sig .tc := ⟨.hbm, 871, rfl⟩
abbrev main_v586 : Ref sig .tc := ⟨.hbm, 872, rfl⟩
abbrev main_c_190 : Ref sig .tc := ⟨.hbm, 873, rfl⟩
abbrev main_v587 : Ref sig .tc := ⟨.hbm, 874, rfl⟩
abbrev main_v588 : Ref sig .tc := ⟨.hbm, 875, rfl⟩
abbrev main_v589 : Ref sig .tc := ⟨.hbm, 876, rfl⟩
abbrev main_c_191 : Ref sig .tc := ⟨.hbm, 877, rfl⟩
abbrev main_v590 : Ref sig .tc := ⟨.hbm, 878, rfl⟩
abbrev main_v591 : Ref sig .tc := ⟨.hbm, 879, rfl⟩
abbrev main_c_192 : Ref sig .tc := ⟨.hbm, 880, rfl⟩
abbrev main_v592 : Ref sig .tc := ⟨.hbm, 881, rfl⟩
abbrev main_v593 : Ref sig .tc := ⟨.hbm, 882, rfl⟩
abbrev main_v594 : Ref sig .tc := ⟨.hbm, 883, rfl⟩
abbrev main_v595 : Ref sig .tc := ⟨.hbm, 884, rfl⟩
abbrev main_v596 : Ref sig .tc := ⟨.hbm, 885, rfl⟩
abbrev main_v597 : Ref sig .tc := ⟨.hbm, 886, rfl⟩
abbrev main_v598 : Ref sig .tc := ⟨.hbm, 887, rfl⟩
abbrev main_v599 : Ref sig .tc := ⟨.hbm, 888, rfl⟩
abbrev main_v600 : Ref sig .tc := ⟨.hbm, 889, rfl⟩
abbrev main_v601 : Ref sig .tc := ⟨.hbm, 890, rfl⟩
abbrev main_v602 : Ref sig .tc := ⟨.hbm, 891, rfl⟩
abbrev main_v603 : Ref sig .tc := ⟨.hbm, 892, rfl⟩
abbrev main_v604 : Ref sig .tc := ⟨.hbm, 893, rfl⟩
abbrev main_v605 : Ref sig .tc := ⟨.hbm, 894, rfl⟩
abbrev main_v606 : Ref sig .tc := ⟨.hbm, 895, rfl⟩
abbrev main_v607 : Ref sig .tc := ⟨.hbm, 896, rfl⟩
abbrev main_v608 : Ref sig .tc := ⟨.hbm, 897, rfl⟩
abbrev main_v609 : Ref sig .tc := ⟨.hbm, 898, rfl⟩
abbrev main_v610 : Ref sig .tc := ⟨.hbm, 899, rfl⟩
abbrev main_v611 : Ref sig .tc := ⟨.hbm, 900, rfl⟩
abbrev main_v612 : Ref sig .tc := ⟨.hbm, 901, rfl⟩
abbrev main_v613 : Ref sig .tc := ⟨.hbm, 902, rfl⟩
abbrev main_v614 : Ref sig .tc := ⟨.hbm, 903, rfl⟩
abbrev main_v615 : Ref sig .tc := ⟨.hbm, 904, rfl⟩
abbrev main_v616 : Ref sig .tc := ⟨.hbm, 905, rfl⟩
abbrev main_v617 : Ref sig .tc := ⟨.hbm, 906, rfl⟩
abbrev main_v618 : Ref sig .tc := ⟨.hbm, 907, rfl⟩
abbrev main_v619 : Ref sig .tc := ⟨.hbm, 908, rfl⟩
abbrev main_v620 : Ref sig .tc := ⟨.hbm, 909, rfl⟩
abbrev main_v621 : Ref sig .tc := ⟨.hbm, 910, rfl⟩
abbrev main_v622 : Ref sig .tc := ⟨.hbm, 911, rfl⟩
abbrev main_v623 : Ref sig .tc := ⟨.hbm, 912, rfl⟩
abbrev main_v624 : Ref sig .tc := ⟨.hbm, 913, rfl⟩
abbrev main_v625 : Ref sig .tc := ⟨.hbm, 914, rfl⟩
abbrev main_v626 : Ref sig .tc := ⟨.hbm, 915, rfl⟩
abbrev main_v627 : Ref sig .tc := ⟨.hbm, 916, rfl⟩
abbrev main_v628 : Ref sig .tc := ⟨.hbm, 917, rfl⟩
abbrev main_v629 : Ref sig .tc := ⟨.hbm, 918, rfl⟩
abbrev main_v630 : Ref sig .tc := ⟨.hbm, 919, rfl⟩
abbrev main_v631 : Ref sig .tc := ⟨.hbm, 920, rfl⟩
abbrev main_v632 : Ref sig .tc := ⟨.hbm, 921, rfl⟩
abbrev main_v633 : Ref sig .tc := ⟨.hbm, 922, rfl⟩

abbrev nD : Nat := 1
abbrev τ : Topo := Topo.v7x

variable {F : FTy → Type} [FloatOps F]

class Facts₀ : Prop where
  shapeCasts_S1x1x1x1048576x3_S1048576x3 : S1x1x1x1048576x3.ShapeCasts S1048576x3
  slices_S1048576x3_S1048576x1_0_0 : S1048576x3.Slices ![0, 0] S1048576x1
  shapeCasts_S1048576x1_S1048576 : S1048576x1.ShapeCasts S1048576
  bcast_S_S1048576 : S_.BroadcastsInDim S1048576 (![] : Fin 0 → Fin S1048576.rank)
  slices_S1048576x3_S1048576x1_0_1 : S1048576x3.Slices ![0, 1] S1048576x1
  slices_S1048576x3_S1048576x1_0_2 : S1048576x3.Slices ![0, 2] S1048576x1
  shapeCasts_S1x4x64x64x64_S4x262144 : S1x4x64x64x64.ShapeCasts S4x262144
  bcast_S1048576_S1048576x1_0 : S1048576.BroadcastsInDim S1048576x1 (![0] : Fin 1 → Fin S1048576x1.rank)
  bcast_S1048576_S1x1048576_1 : S1048576.BroadcastsInDim S1x1048576 (![1] : Fin 1 → Fin S1x1048576.rank)
  bcast_S1x1048576_S4x1048576_0_1 : S1x1048576.BroadcastsInDim S4x1048576 (![0, 1] : Fin 2 → Fin S4x1048576.rank)
  shapeCasts_S4x1048576_S1x4x1x1x1048576 : S4x1048576.ShapeCasts S1x4x1x1x1048576
  shapeCasts_S1x4x128x128x128_S4x2097152 : S1x4x128x128x128.ShapeCasts S4x2097152
  shapeCasts_S1x4x192x192x192_S4x7077888 : S1x4x192x192x192.ShapeCasts S4x7077888
  concatenates_S1x4x1x1x1048576_S1x4x1x1x1048576_S1x4x1x1x1048576_S1x12x1x1x1048576_d1 : Shape.Concatenates [S1x4x1x1x1048576, S1x4x1x1x1048576, S1x4x1x1x1048576] S1x12x1x1x1048576 1
  gather_S4x262144_S1048576x1_S4x1048576_0_1_n_n_1_1_41_wf : GatherDims.WF S4x262144 S1048576x1 S4x1048576 [0] [1] [] [1] [] 1 ![4, 1]
  gather_S4x2097152_S1048576x1_S4x1048576_0_1_n_n_1_1_41_wf : GatherDims.WF S4x2097152 S1048576x1 S4x1048576 [0] [1] [] [1] [] 1 ![4, 1]
  gather_S4x7077888_S1048576x1_S4x1048576_0_1_n_n_1_1_41_wf : GatherDims.WF S4x7077888 S1048576x1 S4x1048576 [0] [1] [] [1] [] 1 ![4, 1]

variable [Facts₀]

def gather_S4x262144_S1048576x1_S4x1048576_0_1_n_n_1_1_41 : GatherDims S4x262144 S1048576x1 S4x1048576 where
  offsetDims := [0]
  collapsedSliceDims := [1]
  operandBatchingDims := []
  startIndicesBatchingDims := []
  startIndexMap := [1]
  indexVectorDim := 1
  sliceSizes := ![4, 1]
  wf := gather_S4x262144_S1048576x1_S4x1048576_0_1_n_n_1_1_41_wf
def gather_S4x2097152_S1048576x1_S4x1048576_0_1_n_n_1_1_41 : GatherDims S4x2097152 S1048576x1 S4x1048576 where
  offsetDims := [0]
  collapsedSliceDims := [1]
  operandBatchingDims := []
  startIndicesBatchingDims := []
  startIndexMap := [1]
  indexVectorDim := 1
  sliceSizes := ![4, 1]
  wf := gather_S4x2097152_S1048576x1_S4x1048576_0_1_n_n_1_1_41_wf
def gather_S4x7077888_S1048576x1_S4x1048576_0_1_n_n_1_1_41 : GatherDims S4x7077888 S1048576x1 S4x1048576 where
  offsetDims := [0]
  collapsedSliceDims := [1]
  operandBatchingDims := []
  startIndicesBatchingDims := []
  startIndexMap := [1]
  indexVectorDim := 1
  sliceSizes := ![4, 1]
  wf := gather_S4x7077888_S1048576x1_S4x1048576_0_1_n_n_1_1_41_wf

class Facts : Prop extends Facts₀ where

variable [Facts]
-- ==== Proof.AroundBits.lean ====
/-
  @main of `Kernel` around its one kernel region. The program is a long line of host operations (the three
  per-volume gathers and x-interpolations, cut into stretches at each call of a module-local function), the region,
  and one closing reshape. Here: the contents of every buffer when the region is entered, as the fold of the host
  operations over the launch memory; @main reduced to "the region, continued by the closing reshape" at those
  contents; and the facts that no host operation, before or after the region, writes an argument array or (after
  the region) one of the region's arrays.
-/
import proofs.«113233_j37486474559588_2_alg».proof.Proof.Gen.Kernel.Launch
import proofs.«113233_j37486474559588_2_alg».proof.Proof.Gen.Kernel.Skeleton
import proofs.«113233_j37486474559588_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The stretches of host operations before the region, in program order. -/
abbrev before : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72]

/-- Core `c`'s buffer contents when the region is entered: the launch memory folded through every host operation
    before the region. -/
abbrev V0 (c : Dev nD) : Valuation τ sig (Elt F) := StableHlo.after (List.flatten (before (F := F))) (fun b => m (c, b))
/-- The same, read at a TensorCore reference. -/
abbrev V (c : Dev nD) (b : Ref sig .tc) : Buf (Elt F) ((c : Thread nD τ).loc b) := V0 m c (Proc.devRef .tc b)

/-- No host operation allocates. -/
theorem before_fresh : (before (F := F)).Forall fun ops => ops.Forall fun op => op.fresh = ∅ := by
  simp only [List.Forall]; repeat' constructor
theorem hostOps1_fresh : (hostOps1 : List (HloOp τ sig (Elt F))).Forall fun op => op.fresh = ∅ := by
  simp only [List.Forall]; repeat' constructor

/-- Every host operation before the region touches TensorCore references only. -/
theorem before_sub : (before (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub, hostOps0_50_sub, hostOps0_51_sub, hostOps0_52_sub, hostOps0_53_sub, hostOps0_54_sub, hostOps0_55_sub, hostOps0_56_sub, hostOps0_57_sub, hostOps0_58_sub, hostOps0_59_sub, hostOps0_60_sub, hostOps0_61_sub, hostOps0_62_sub, hostOps0_63_sub, hostOps0_64_sub, hostOps0_65_sub, hostOps0_66_sub, hostOps0_67_sub, hostOps0_68_sub, hostOps0_69_sub, hostOps0_70_sub, hostOps0_71_sub, hostOps0_72_sub⟩

/-- @main is the host stretches, the region, the closing reshape: it reduces to the region continued by the
    reshape, at the entry contents. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (before (F := F)) [hostOps1] before_sub before_fresh main_chain

/-- The closing reshape touches the region's arrays and bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- It writes its own result buffer, which is none of the region's arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

end Cert.Kernel.Around

end
-- ==== Proof.BlendBits.lean ====
/-
  The kernel body of `Kernel` and the frame run. At a grid point the body reads the two rows (y and z grid
  coordinates) of its 2 x 16384 block, and for each of the three volumes the four rows of the four corner blocks
  (the x-interpolated corner values c00, c01, c10, c11); per volume it forms the smoothstep weights ty, tz from the
  unnormalized, floored and clipped coordinates and interpolates along y and then along z; the three 4-row results
  are concatenated and stored as the whole 12 x 16384 output block. `blend` is that block as one pure term of the
  five input blocks (the printed payloads composed in program order); the body's triple, the pipeline's proof data,
  the body obligation, the run of @main and the frame claim follow.
-/
import proofs.«113233_j37486474559588_2_alg».proof.Proof.AroundBits

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    entry contents and whose body leaves the block in place (the window is fetched whole at every point). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, for any proof data whose array is the
    entry contents and whose body leaves the block in place (the window is fetched whole at every point). -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, for any proof data whose array is the
    entry contents and whose body leaves the block in place (the window is fetched whole at every point). -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, for any proof data whose array is the
    entry contents and whose body leaves the block in place (the window is fetched whole at every point). -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, for any proof data whose array is the
    entry contents and whose body leaves the block in place (the window is fetched whole at every point). -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's rectangles -/

/-- Row 0 (the y coordinates) and row 1 (the z coordinates) of the 2 x 16384 block. -/
abbrev rY : Rect S2x16384 := Rect.unit (s := S2x16384) ![0, 0] S1x16384.size inb_S2x16384_S1x16384_0_0
abbrev rZ : Rect S2x16384 := Rect.unit (s := S2x16384) ![1, 0] S1x16384.size inb_S2x16384_S1x16384_1_0
/-- Rows 0-3, 4-7, 8-11 of a 12 x 16384 block: the channels of volume 0, 1, 2. -/
abbrev rV0 : Rect S12x16384 := Rect.unit (s := S12x16384) ![0, 0] S4x16384.size inb_S12x16384_S4x16384_0_0
abbrev rV1 : Rect S12x16384 := Rect.unit (s := S12x16384) ![4, 0] S4x16384.size inb_S12x16384_S4x16384_4_0
abbrev rV2 : Rect S12x16384 := Rect.unit (s := S12x16384) ![8, 0] S4x16384.size inb_S12x16384_S4x16384_8_0
/-- The whole 12 x 16384 block. -/
abbrev rAll : Rect S12x16384 := Rect.unit (s := S12x16384) ![0, 0] S12x16384.size inb_S12x16384_S12x16384_0_0

/-! ## What the body stores -/

/-- The stored block as one term of the input blocks `x0 … x3` (the corner blocks c00, c01, c10, c11) and `x4`
    (the y and z rows): the printed payloads composed in program order. -/
def blend (x0 x1 x2 x3 : Vec F S12x16384 .f32) (x4 : Vec F S2x16384 .f32) : FVec F S12x16384 .f32 :=
  k0_pay1
    (k0_pay7 (k0_pay4 (View.ld x4 rY)) (k0_pay5 (View.ld x4 rZ)) (Scalar.ofBits .f32 0x3F800000#32) (k0_pay6 (F := F))
      (View.ld x0 rV0) (View.ld x1 rV0) (View.ld x2 rV0) (View.ld x3 rV0))
    (k0_pay16 (k0_pay11 (k0_pay8 (k0_pay2 (View.ld x4 rY))) (k0_pay10 (k0_pay2 (View.ld x4 rY))) (Scalar.ofBits .f32 0x00000000#32))
      (k0_pay12 (k0_pay9 (k0_pay3 (View.ld x4 rZ))))
      (k0_pay13 (View.ld x0 rV1)) (k0_pay14 (View.ld x1 rV1)) (k0_pay15 (View.ld x2 rV1)) (View.ld x3 rV1))
    (k0_pay17 (k0_pay2 (View.ld x4 rY))) (k0_pay18 (k0_pay3 (View.ld x4 rZ))) (Scalar.ofBits .f32 0x00000000#32)
    (View.ld x0 rV2) (View.ld x1 rV2) (View.ld x2 rV2) (View.ld x3 rV2)

/-- The output window's staging buffer after the body: its one store, of the whole block. -/
def out5 (x0 x1 x2 x3 : Vec F S12x16384 .f32) (x4 : Vec F S2x16384 .f32) : Vec F S12x16384 .f32 :=
  View.canon [⟨rAll, blend x0 x1 x2 x3 x4⟩]

/-- The one store covers the buffer. -/
theorem cover5 (p0 : Vec F S12x16384 .f32) (y : S12x16384.Idx) :
    ∃ pc ∈ ([⟨rAll, p0⟩] : List (View.Piece (Elt F) S12x16384 .f32)), y ∈ pc.1.set :=
  View.cover_of_tiled [⟨rAll, p0⟩] S12x16384.size (by rfl) y

/-! ## The body's triple -/

set_option maxHeartbeats 4000000 in
/-- The body on whole staging memrefs, the inputs' at contents `x0 … x4` and the output's at anything, runs to the
    continuation holding the inputs' as they were and the output's at `out5` of them. -/
theorem sound_kernel (c : Dev nD) (E : Set ℕ) (i : grid0.Coords)
    (a1 : Memref sig .tc .vmem S12x16384 .f32) (h1 : a1.IsWhole) (a2 : Memref sig .tc .vmem S12x16384 .f32) (h2 : a2.IsWhole)
    (a3 : Memref sig .tc .vmem S12x16384 .f32) (h3 : a3.IsWhole) (a4 : Memref sig .tc .vmem S12x16384 .f32) (h4 : a4.IsWhole)
    (a5 : Memref sig .tc .vmem S2x16384 .f32) (h5 : a5.IsWhole) (a6 : Memref sig .tc .vmem S12x16384 .f32) (h6 : a6.IsWhole)
    (x0 x1 x2 x3 : Vec F S12x16384 .f32) (x4 : Vec F S2x16384 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4
            ∗ owns (c : Thread nD τ) a6 fullShare (out5 x0 x1 x2 x3 x4)) -∗ K ⟨⟩))
      ⊢ wp frame (wpE (defs₀ (F := F)) Variants.none c none) E (cc0__blend_kernel i a1 h1 a2 h2 a3 h3 a4 h4 a5 h5 a6 h6) K := by
  simp only [cc0__blend_kernel_eq_skeleton]; unfold cc0__blend_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

end Cert.Kernel.Around

end
-- ==== Proof.KeptBitsA.lean ====
/-
  The argument arrays of `Kernel` are written by no host operation: each is found by the region as launched, and
  ends as launched after the closing reshape (every host operation writes only its own result buffer, and no
  result buffer is an argument).
-/
import proofs.«113233_j37486474559588_2_alg».proof.Proof.AroundBits

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 4000000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [before, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The closing reshape does not write `main_arg0` either: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 4000000 in
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [before, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The closing reshape does not write `main_arg1` either: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

end Cert.Kernel.Around

end
-- ==== Proof.KeptBitsB.lean ====
/-
  The argument arrays of `Kernel` are written by no host operation: each is found by the region as launched, and
  ends as launched after the closing reshape (every host operation writes only its own result buffer, and no
  result buffer is an argument).
-/
import proofs.«113233_j37486474559588_2_alg».proof.Proof.AroundBits

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 4000000 in
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [before, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The closing reshape does not write `main_arg2` either: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 4000000 in
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [before, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The closing reshape does not write `main_arg3` either: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

end Cert.Kernel.Around

end
-- ==== Proof.RunBits.lean ====
/-
  The frame run of `Kernel`. The pipeline's proof data: the arrays as the region finds them; after the body at a
  point each input window's buffer still at its block and the output window's at the blended block of the five
  input blocks; nothing owed, full shares, the invariant the scoped rest untouched. The body obligation at a
  generic point is the body's triple at the point's blocks; the run of @main follows from the launch theorem for
  "host lines, the region, host lines", and the frame claim from the run's post read at the argument arrays.
-/
import proofs.«113233_j37486474559588_2_alg».proof.Proof.BlendBits
import proofs.«113233_j37486474559588_2_alg».proof.Proof.KeptBitsA
import proofs.«113233_j37486474559588_2_alg».proof.Proof.KeptBitsB

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := Pipeline.ΦA spec0 c
  q _ := fullShare
  owed _ := 0

/-- The proof data's arrays are the entry contents (projected, never unfolding the fold over the host prefix). -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = out5 (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main on the TensorCores terminates, and every final state has every array of the
    pipeline at what the library computes from the proof data and every other unscoped buffer as the closing reshape
    leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's post from a frame run: each argument array is staged by no window and written by no host
    operation, so it ends as launched. -/
theorem frame_of (dats' : (p : Fin 1) → (c : Dev nD) → Dat τ (Elt F) Unit ℕ (UR sig nD τ) ℕ (cfgs p) c)
    (h : θ_run defs (onTc (τ := τ) (main (F := F))) (s₀ m ρ) (Pipeline.FramePost cfgs dats' 0 (Pipeline.afterTail₀ cfgs dats' 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats' c),
     ((h c).2 main_arg1 (Pipeline.mem_restRefs_of main_arg1 (by decide) (by decide))).trans (W_main_arg1 m dats' c),
     ((h c).2 main_arg2 (Pipeline.mem_restRefs_of main_arg2 (by decide) (by decide))).trans (W_main_arg2 m dats' c),
     ((h c).2 main_arg3 (Pipeline.mem_restRefs_of main_arg3 (by decide) (by decide))).trans (W_main_arg3 m dats' c)⟩) h

/-- The frame: @main runs to the end, faults nowhere, and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.Kernel.Around

end
-- ==== Proof.AroundIdeal.lean ====
/-
  @main of `KernelIdeal` around its one kernel region. The program is a long line of host operations (the three
  per-volume gathers and x-interpolations, cut into stretches at each call of a module-local function), the region,
  and one closing reshape. Here: the contents of every buffer when the region is entered, as the fold of the host
  operations over the launch memory; @main reduced to "the region, continued by the closing reshape" at those
  contents; and the facts that no host operation, before or after the region, writes an argument array or (after
  the region) one of the region's arrays.
-/
import proofs.«113233_j37486474559588_2_alg».proof.Proof.Gen.KernelIdeal.Launch
import proofs.«113233_j37486474559588_2_alg».proof.Proof.Gen.KernelIdeal.Skeleton
import proofs.«113233_j37486474559588_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The stretches of host operations before the region, in program order. -/
abbrev before : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72]

/-- Core `c`'s buffer contents when the region is entered: the launch memory folded through every host operation
    before the region. -/
abbrev V0 (c : Dev nD) : Valuation τ sig (Elt F) := StableHlo.after (List.flatten (before (F := F))) (fun b => m (c, b))
/-- The same, read at a TensorCore reference. -/
abbrev V (c : Dev nD) (b : Ref sig .tc) : Buf (Elt F) ((c : Thread nD τ).loc b) := V0 m c (Proc.devRef .tc b)

/-- No host operation allocates. -/
theorem before_fresh : (before (F := F)).Forall fun ops => ops.Forall fun op => op.fresh = ∅ := by
  simp only [List.Forall]; repeat' constructor
theorem hostOps1_fresh : (hostOps1 : List (HloOp τ sig (Elt F))).Forall fun op => op.fresh = ∅ := by
  simp only [List.Forall]; repeat' constructor

/-- Every host operation before the region touches TensorCore references only. -/
theorem before_sub : (before (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub, hostOps0_50_sub, hostOps0_51_sub, hostOps0_52_sub, hostOps0_53_sub, hostOps0_54_sub, hostOps0_55_sub, hostOps0_56_sub, hostOps0_57_sub, hostOps0_58_sub, hostOps0_59_sub, hostOps0_60_sub, hostOps0_61_sub, hostOps0_62_sub, hostOps0_63_sub, hostOps0_64_sub, hostOps0_65_sub, hostOps0_66_sub, hostOps0_67_sub, hostOps0_68_sub, hostOps0_69_sub, hostOps0_70_sub, hostOps0_71_sub, hostOps0_72_sub⟩

/-- @main is the host stretches, the region, the closing reshape: it reduces to the region continued by the
    reshape, at the entry contents. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (before (F := F)) [hostOps1] before_sub before_fresh main_chain

/-- The closing reshape touches the region's arrays and bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- It writes its own result buffer, which is none of the region's arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

end Cert.KernelIdeal.Around

end
-- ==== Proof.BlendIdeal.lean ====
/-
  The kernel body of `KernelIdeal` and the frame run. At a grid point the body reads the two rows (y and z grid
  coordinates) of its 2 x 16384 block, and for each of the three volumes the four rows of the four corner blocks
  (the x-interpolated corner values c00, c01, c10, c11); per volume it forms the smoothstep weights ty, tz from the
  unnormalized, floored and clipped coordinates and interpolates along y and then along z; the three 4-row results
  are concatenated and stored as the whole 12 x 16384 output block. `blend` is that block as one pure term of the
  five input blocks (the printed payloads composed in program order); the body's triple, the pipeline's proof data,
  the body obligation, the run of @main and the frame claim follow.
-/
import proofs.«113233_j37486474559588_2_alg».proof.Proof.AroundIdeal

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    entry contents and whose body leaves the block in place (the window is fetched whole at every point). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, for any proof data whose array is the
    entry contents and whose body leaves the block in place (the window is fetched whole at every point). -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, for any proof data whose array is the
    entry contents and whose body leaves the block in place (the window is fetched whole at every point). -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, for any proof data whose array is the
    entry contents and whose body leaves the block in place (the window is fetched whole at every point). -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, for any proof data whose array is the
    entry contents and whose body leaves the block in place (the window is fetched whole at every point). -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's rectangles -/

/-- Row 0 (the y coordinates) and row 1 (the z coordinates) of the 2 x 16384 block. -/
abbrev rY : Rect S2x16384 := Rect.unit (s := S2x16384) ![0, 0] S1x16384.size inb_S2x16384_S1x16384_0_0
abbrev rZ : Rect S2x16384 := Rect.unit (s := S2x16384) ![1, 0] S1x16384.size inb_S2x16384_S1x16384_1_0
/-- Rows 0-3, 4-7, 8-11 of a 12 x 16384 block: the channels of volume 0, 1, 2. -/
abbrev rV0 : Rect S12x16384 := Rect.unit (s := S12x16384) ![0, 0] S4x16384.size inb_S12x16384_S4x16384_0_0
abbrev rV1 : Rect S12x16384 := Rect.unit (s := S12x16384) ![4, 0] S4x16384.size inb_S12x16384_S4x16384_4_0
abbrev rV2 : Rect S12x16384 := Rect.unit (s := S12x16384) ![8, 0] S4x16384.size inb_S12x16384_S4x16384_8_0
/-- The whole 12 x 16384 block. -/
abbrev rAll : Rect S12x16384 := Rect.unit (s := S12x16384) ![0, 0] S12x16384.size inb_S12x16384_S12x16384_0_0

/-! ## What the body stores -/

/-- The stored block as one term of the input blocks `x0 … x3` (the corner blocks c00, c01, c10, c11) and `x4`
    (the y and z rows): the printed payloads composed in program order. -/
def blend (x0 x1 x2 x3 : Vec F S12x16384 .f32) (x4 : Vec F S2x16384 .f32) : FVec F S12x16384 .f32 :=
  k0_pay1
    (k0_pay7 (k0_pay4 (View.ld x4 rY)) (k0_pay5 (View.ld x4 rZ)) (Scalar.ofBits .f32 0x3F800000#32) (k0_pay6 (F := F))
      (View.ld x0 rV0) (View.ld x1 rV0) (View.ld x2 rV0) (View.ld x3 rV0))
    (k0_pay16 (k0_pay11 (k0_pay8 (k0_pay2 (View.ld x4 rY))) (k0_pay10 (k0_pay2 (View.ld x4 rY))) (Scalar.ofBits .f32 0x00000000#32))
      (k0_pay12 (k0_pay9 (k0_pay3 (View.ld x4 rZ))))
      (k0_pay13 (View.ld x0 rV1)) (k0_pay14 (View.ld x1 rV1)) (k0_pay15 (View.ld x2 rV1)) (View.ld x3 rV1))
    (k0_pay17 (k0_pay2 (View.ld x4 rY))) (k0_pay18 (k0_pay3 (View.ld x4 rZ))) (Scalar.ofBits .f32 0x00000000#32)
    (View.ld x0 rV2) (View.ld x1 rV2) (View.ld x2 rV2) (View.ld x3 rV2)

/-- The output window's staging buffer after the body: its one store, of the whole block. -/
def out5 (x0 x1 x2 x3 : Vec F S12x16384 .f32) (x4 : Vec F S2x16384 .f32) : Vec F S12x16384 .f32 :=
  View.canon [⟨rAll, blend x0 x1 x2 x3 x4⟩]

/-- The one store covers the buffer. -/
theorem cover5 (p0 : Vec F S12x16384 .f32) (y : S12x16384.Idx) :
    ∃ pc ∈ ([⟨rAll, p0⟩] : List (View.Piece (Elt F) S12x16384 .f32)), y ∈ pc.1.set :=
  View.cover_of_tiled [⟨rAll, p0⟩] S12x16384.size (by rfl) y

/-! ## The body's triple -/

set_option maxHeartbeats 4000000 in
/-- The body on whole staging memrefs, the inputs' at contents `x0 … x4` and the output's at anything, runs to the
    continuation holding the inputs' as they were and the output's at `out5` of them. -/
theorem sound_kernel (c : Dev nD) (E : Set ℕ) (i : grid0.Coords)
    (a1 : Memref sig .tc .vmem S12x16384 .f32) (h1 : a1.IsWhole) (a2 : Memref sig .tc .vmem S12x16384 .f32) (h2 : a2.IsWhole)
    (a3 : Memref sig .tc .vmem S12x16384 .f32) (h3 : a3.IsWhole) (a4 : Memref sig .tc .vmem S12x16384 .f32) (h4 : a4.IsWhole)
    (a5 : Memref sig .tc .vmem S2x16384 .f32) (h5 : a5.IsWhole) (a6 : Memref sig .tc .vmem S12x16384 .f32) (h6 : a6.IsWhole)
    (x0 x1 x2 x3 : Vec F S12x16384 .f32) (x4 : Vec F S2x16384 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4
            ∗ owns (c : Thread nD τ) a6 fullShare (out5 x0 x1 x2 x3 x4)) -∗ K ⟨⟩))
      ⊢ wp frame (wpE (defs₀ (F := F)) Variants.none c none) E (cc0__blend_kernel i a1 h1 a2 h2 a3 h3 a4 h4 a5 h5 a6 h6) K := by
  simp only [cc0__blend_kernel_eq_skeleton]; unfold cc0__blend_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

end Cert.KernelIdeal.Around

end
-- ==== Proof.KeptIdealA.lean ====
/-
  The argument arrays of `KernelIdeal` are written by no host operation: each is found by the region as launched, and
  ends as launched after the closing reshape (every host operation writes only its own result buffer, and no
  result buffer is an argument).
-/
import proofs.«113233_j37486474559588_2_alg».proof.Proof.AroundIdeal

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 4000000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [before, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The closing reshape does not write `main_arg0` either: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 4000000 in
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [before, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The closing reshape does not write `main_arg1` either: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

end Cert.KernelIdeal.Around

end
-- ==== Proof.KeptIdealB.lean ====
/-
  The argument arrays of `KernelIdeal` are written by no host operation: each is found by the region as launched, and
  ends as launched after the closing reshape (every host operation writes only its own result buffer, and no
  result buffer is an argument).
-/
import proofs.«113233_j37486474559588_2_alg».proof.Proof.AroundIdeal

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 4000000 in
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [before, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The closing reshape does not write `main_arg2` either: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 4000000 in
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [before, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The closing reshape does not write `main_arg3` either: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

end Cert.KernelIdeal.Around

end
-- ==== Proof.RunIdeal.lean ====
/-
  The frame run of `KernelIdeal`. The pipeline's proof data: the arrays as the region finds them; after the body at a
  point each input window's buffer still at its block and the output window's at the blended block of the five
  input blocks; nothing owed, full shares, the invariant the scoped rest untouched. The body obligation at a
  generic point is the body's triple at the point's blocks; the run of @main follows from the launch theorem for
  "host lines, the region, host lines", and the frame claim from the run's post read at the argument arrays.
-/
import proofs.«113233_j37486474559588_2_alg».proof.Proof.BlendIdeal
import proofs.«113233_j37486474559588_2_alg».proof.Proof.KeptIdealA
import proofs.«113233_j37486474559588_2_alg».proof.Proof.KeptIdealB

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := Pipeline.ΦA spec0 c
  q _ := fullShare
  owed _ := 0

/-- The proof data's arrays are the entry contents (projected, never unfolding the fold over the host prefix). -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = out5 (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main on the TensorCores terminates, and every final state has every array of the
    pipeline at what the library computes from the proof data and every other unscoped buffer as the closing reshape
    leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's post from a frame run: each argument array is staged by no window and written by no host
    operation, so it ends as launched. -/
theorem frame_of (dats' : (p : Fin 1) → (c : Dev nD) → Dat τ (Elt F) Unit ℕ (UR sig nD τ) ℕ (cfgs p) c)
    (h : θ_run defs (onTc (τ := τ) (main (F := F))) (s₀ m ρ) (Pipeline.FramePost cfgs dats' 0 (Pipeline.afterTail₀ cfgs dats' 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats' c),
     ((h c).2 main_arg1 (Pipeline.mem_restRefs_of main_arg1 (by decide) (by decide))).trans (W_main_arg1 m dats' c),
     ((h c).2 main_arg2 (Pipeline.mem_restRefs_of main_arg2 (by decide) (by decide))).trans (W_main_arg2 m dats' c),
     ((h c).2 main_arg3 (Pipeline.mem_restRefs_of main_arg3 (by decide) (by decide))).trans (W_main_arg3 m dats' c)⟩) h

/-- The frame: @main runs to the end, faults nowhere, and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.KernelIdeal.Around

end
-- ==== Proof.RefOps.lean ====
/-
  The reference's @main as lists of host operations. @main is printed in 14 windows of statements; each window is
  the sequence of its operations (the operations of an outlined clip stand at its call site), so @main is the
  sequence of the windows' lists laid end to end: 919 operations in program order. With it the facts the run theorem
  of a straight-line host program asks for: nothing is scoped, every operation touches TensorCore buffers only and
  allocates nothing.
-/
import proofs.«113233_j37486474559588_2_alg».proof.Proof.Gen.ReferenceIdeal
import Idealize.ShloMosaic.Lib.StableHlo.Run

set_option maxRecDepth 65536
set_option maxHeartbeats 40000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The operations of window 0 of @main, in order. -/
abbrev ops0 : List (HloOp τ sig (Elt F)) :=
  [ reshape main_arg0 main_v0 rfl shapeCasts_S1x1x1x1048576x3_S1048576x3,
    unary main_v0 main_v1 ((extractStridedSlice S1048576x1 ![0, 0] · slices_S1048576x3_S1048576x1_0_0) : (⟨S1048576x3, .f32⟩ : BufTy).Contents (Elt F) → (⟨S1048576x1, .f32⟩ : BufTy).Contents (Elt F)),
    reshape main_v1 main_v2 rfl shapeCasts_S1048576x1_S1048576,
    nullary main_cst (constant S_ .f32 0x3F800000#32),
    unary main_cst main_v3 (broadcastInDim S1048576 ![] bcast_S_S1048576 : (⟨S_, .f32⟩ : BufTy).Contents (Elt F) → (⟨S1048576, .f32⟩ : BufTy).Contents (Elt F)),
    binary main_v2 main_v3 main_v4 (addf : (⟨S1048576, .f32⟩ : BufTy).Contents (Elt F) → (⟨S1048576, .f32⟩ : BufTy).Contents (Elt F) → (⟨S1048576, .f32⟩ : BufTy).Contents (Elt F)),
    nullary main_cst_0 (constant S_ .f32 0x3F000000#32),
    unary main_cst_0 main_v5 (broadcastInDim S1048576 ![] bcast_S_S1048576 : (⟨S_, .f32⟩ : BufTy).Contents (Elt F) → (⟨S1048576, .f32⟩ : BufTy).Contents (Elt F)),
    binary main_v4 main_v5 main_v6 (mulf : (⟨S1048576, .f32⟩ : BufTy).Contents (Elt F) → (⟨S1048576, .f32⟩ : BufTy).Contents (Elt F) → (⟨S1048576, .f32⟩ : BufTy).Contents (Elt F)),
    nullary main_cst_1 (constant S_ .f32 0x427C0000#32),
    unary main_cst_1 main_v7 (broadcastInDim S1048576 ![] bcast_S_S1048576 : (⟨S_, .f32⟩ : BufTy).Contents (Elt F) → (⟨S1048576, .f32⟩ : BufTy).Contents (Elt F)),
    binary main_v6 main_v7 main_v8 (mulf : (⟨S1048576, .f32⟩ : BufTy).Contents (Elt F) → (⟨S1048576, .f32⟩ : BufTy).Contents (Elt F) → (⟨S1048576, .f32⟩ : BufTy).Contents (Elt F)),
    unary main_v0 main_v9 ((extractStridedSlice S1048576x1 ![0, 1] · slices_S1048576x3_S1048576x1_0_1) : (⟨S1048576x3, .f32⟩ : BufTy).Contents (Elt F) → (⟨S1048576x1, .f32⟩ : BufTy).Contents (Elt F)),
    reshape main_v9 main_v10 rfl shapeCasts_S1048576x1_S1048576,
    nullary main_cst_2 (constant S_ .f32 0x3F800000#32),
    unary main_cst_2 main_v11 (broadcastInDim S1048576 ![] bcast_S_S1048576 : (⟨S_, .f32⟩ : BufTy).Contents (Elt F) → (⟨S1048576, .f32⟩ : BufTy).Contents (Elt F)),
    binary main_v10 main_v11 main_v12 (addf : (⟨S1048576, .f32⟩ : BufTy).Contents (Elt F) → (⟨S1048576, .f32⟩ : BufTy).Contents (Elt F) → (⟨S1048576, .f32⟩ : BufTy).Contents (Elt F)),
    nullary main_cst_3 (constant S_ .f32 0x3F000000#32),
    unary main_cst_3 main_v13 (broadcastInDim S1048576 ![] bcast_S_S1048576 : (⟨S_, .f32⟩ : BufTy).Contents (Elt F) → (⟨S1048576, .f32⟩ : BufTy).Contents (Elt F)),
    binary main_v12 main_v13 main_v14 (mulf : (⟨S1048576, .f32⟩ : BufTy).Contents (Elt F) → (⟨S1048576, .f32⟩ : BufTy).Contents (Elt F) → (⟨S1048576, .f32⟩ : BufTy).Contents (Elt F)),
    nullary main_cst_4 (constant S_ .f32 0x427C0000#32),
    unary main_cst_4 main_v15 (broadcastInDim S1048576 ![] bcast_S_S1048576 : (⟨S_, .f32⟩ : BufTy).Contents (Elt F) → (⟨S1048576, .f32⟩ : BufTy).Contents (Elt F)),
    binary main_v14 main_v15 main_v16 (mulf : (⟨S1048576, .f32⟩ : BufTy).Contents (Elt F) → (⟨S1048576, .f32⟩ : BufTy).Contents (Elt F) → (⟨S1048576, .f32⟩ : BufTy).Contents (Elt F)),
    unary main_v0 main_v17 ((extractStridedSlice S1048576x1 ![0, 2] · slices_S1048576x3_S1048576x1_0_2) : (⟨S1048576x3, .f32⟩ : BufTy).Contents (Elt F) → (⟨S1048576x1, .f32⟩ : BufTy).Contents (Elt F)),
    reshape main_v17 main_v18 rfl shapeCasts_S1048576x1_S1048576,
    nullary main_cst_5 (constant S_ .f32 0x3F800000#32),
    unary main_cst_5 main_v19 (broadcastInDim S1048576 ![] bcast_S_S1048576 : (⟨S_, .f32⟩ : BufTy).Contents (Elt F) → (⟨S1048576, .f32⟩ : BufTy).Contents (Elt F)),
    binary main_v18 main_v19 main_v20 (addf : (⟨S1048576, .f32⟩ : BufTy).Contents (Elt F) → (⟨S1048576, .f32⟩ : BufTy).Contents (Elt F) → (⟨S1048576, .f32⟩ : BufTy).Contents (Elt F)),
    nullary main_cst_6 (constant S_ .f32 0x3F000000#32),
    unary main_cst_6 main_v21 (broadcastInDim S1048576 ![] bcast_S_S1048576 : (⟨S_, .f32⟩ : BufTy).Contents (Elt F) → (⟨S1048576, .f32⟩ : BufTy).Contents (Elt F)),
    binary main_v20 main_v21 main_v22 (mulf : (⟨S1048576, .f32⟩ : BufTy).Contents (Elt F) → (⟨S1048576, .f32⟩ : BufTy).Contents (Elt F) → (⟨S1048576, .f32⟩ : BufTy).Contents (Elt F)),
    nullary main_cst_7 (constant S_ .f32 0x427C0000#32),
    unary main_cst_7 main_v23 (broadcastInDim S1048576 ![] bcast_S_S1048576 : (⟨S_, .f32⟩ : BufTy).Contents (Elt F) → (⟨S1048576, .f32⟩ : BufTy).Contents (Elt F)),
    binary main_v22 main_v23 main_v24 (mulf : (⟨S1048576, .f32⟩ : BufTy).Contents (Elt F) → (⟨S1048576, .f32⟩ : BufTy).Contents (Elt F) → (⟨S1048576, .f32⟩ : BufTy).Contents (Elt F)),
    unary main_v8 main_v25 (Host.floor : (⟨S1048576, .f32⟩ : BufTy).Contents (Elt F) → (⟨S1048576, .f32⟩ : BufTy).Contents (Elt F)),
    nullary main_cst_8 (constant S_ .f32 0x00000000#32),
    nullary main_c (constantI S_ 32 63#32),
    TRef.unary (TRef.of (T := ⟨S_, .f32⟩) main_cst_8) (TRef.of (T := ⟨S_, .f32⟩) main_call0_v0) id,
    TRef.unary (TRef.of (T := ⟨S_, .f32⟩) main_call0_v0) (TRef.of (T := ⟨S1048576, .f32⟩) main_call0_v1) (broadcastInDim S1048576 ![] bcast_S_S1048576),
    TRef.binary (TRef.of (T := ⟨S1048576, .f32⟩) main_call0_v1) (TRef.of (T := ⟨S1048576, .f32⟩) main_v25) (TRef.of (T := ⟨S1048576, .f32⟩) main_call0_v2) maximumf,
    TRef.unary (TRef.of (T := ⟨S_, .i32⟩) main_c) (TRef.of (T := ⟨S_, .f32⟩) main_call0_v3) (sitofp .f32),
    TRef.unary (TRef.of (T := ⟨S_, .f32⟩) main_call0_v3) (TRef.of (T := ⟨S1048576, .f32⟩) main_call0_v4) (broadcastInDim S1048576 ![] bcast_S_S1048576),
    TRef.binary (TRef.of (T := ⟨S1048576, .f32⟩) main_call0_v4) (TRef.of (T := ⟨S1048576, .f32⟩) main_call0_v2) (TRef.of (T := ⟨S1048576, .f32⟩) main_v26) minimumf,
    unary main_v16 main_v27 (Host.floor : (⟨S1048576, .f32⟩ : BufTy).Contents (Elt F) → (⟨S1048576, .f32⟩ : BufTy).Contents (Elt F)),
    nullary main_cst_9 (constant S_ .f32 0x00000000#32),
    nullary main_c_10 (constantI S_ 32 63#32),
    TRef.unary (TRef.of (T := ⟨S_, .f32⟩) main_cst_9) (TRef.of (T := ⟨S_, .f32⟩) main_call1_v0) id,
    TRef.unary (TRef.of (T := ⟨S_, .f32⟩) main_call1_v0) (TRef.of (T := ⟨S1048576, .f32⟩) main_call1_v1) (broadcastInDim S1048576 ![] bcast_S_S1048576),
    TRef.binary (TRef.of (T := ⟨S1048576, .f32⟩) main_call1_v1) (TRef.of (T := ⟨S1048576, .f32⟩) main_v27) (TRef.of (T := ⟨S1048576, .f32⟩) main_call1_v2) maximumf,
    TRef.unary (TRef.of (T := ⟨S_, .i32⟩) main_c_10) (TRef.of (T := ⟨S_, .f32⟩) main_call1_v3) (sitofp .f32),
    TRef.unary (TRef.of (T := ⟨S_, .f32⟩) main_call1_v3) (TRef.of (T := ⟨S1048576, .f32⟩) main_call1_v4) (broadcastInDim S1048576 ![] bcast_S_S1048576),
    TRef.binary (TRef.of (T := ⟨S1048576, .f32⟩) main_call1_v4) (TRef.of (T := ⟨S1048576, .f32⟩) main_call1_v2) (TRef.of (T := ⟨S1048576, .f32⟩) main_v28) minimumf,
    unary main_v24 main_v29 (Host.floor : (⟨S1048576, .f32⟩ : BufTy).Contents (Elt F) → (⟨S1048576, .f32⟩ : BufTy).Contents (Elt F)),
    nullary main_cst_11 (constant S_ .f32 0x00000000#32),
    nullary main_c_12 (constantI S_ 32 63#32),
    TRef.unary (TRef.of (T := ⟨S_, .f32⟩) main_cst_11) (TRef.of (T := ⟨S_, .f32⟩) main_call2_v0) id,
    TRef.unary (TRef.of (T := ⟨S_, .f32⟩) main_call2_v0) (TRef.of (T := ⟨S1048576, .f32⟩) main_call2_v1) (broadcastInDim S1048576 ![] bcast_S_S1048576),
    TRef.binary (TRef.of (T := ⟨S1048576, .f32⟩) main_call2_v1) (TRef.of (T := ⟨S1048576, .f32⟩) main_v29) (TRef.of (T := ⟨S1048576, .f32⟩) main_call2_v2) maximumf,
    TRef.unary (TRef.of (T := ⟨S_, .i32⟩) main_c_12) (TRef.of (T := ⟨S_, .f32⟩) main_call2_v3) (sitofp .f32),
    TRef.unary (TRef.of (T := ⟨S_, .f32⟩) main_call2_v3) (TRef.of (T := ⟨S1048576, .f32⟩) main_call2_v4) (broadcastInDim S1048576 ![] bcast_S_S1048576),
    TRef.binary (TRef.of (T := ⟨S1048576, .f32⟩) main_call2_v4) (TRef.of (T := ⟨S1048576, .f32⟩) main_call2_v2) (TRef.of (T := ⟨S1048576, .f32⟩) main_v30) minimumf,
    binary main_v8 main_v26 main_v31 (subf : (⟨S1048576, .f32⟩ : BufTy).Contents (Elt F) → (⟨S1048576, .f32⟩ : BufTy).Contents (Elt F) → (⟨S1048576, .f32⟩ : BufTy).Contents (Elt F)),
    nullary main_cst_13 (constant S_ .f32 0x00000000#32),
    nullary main_cst_14 (constant S_ .f32 0x3F800000#32),
    TRef.unary (TRef.of (T := ⟨S_, .f32⟩) main_cst_13) (TRef.of (T := ⟨S_, .f32⟩) main_call3_v0) id,
    TRef.unary (TRef.of (T := ⟨S_, .f32⟩) main_call3_v0) (TRef.of (T := ⟨S1048576, .f32⟩) main_call3_v1) (broadcastInDim S1048576 ![] bcast_S_S1048576),
    TRef.binary (TRef.of (T := ⟨S1048576, .f32⟩) main_call3_v1) (TRef.of (T := ⟨S1048576, .f32⟩) main_v31) (TRef.of (T := ⟨S1048576, .f32⟩) main_call3_v2) maximumf,
    TRef.unary (TRef.of (T := ⟨S_, .f32⟩) main_cst_14) (TRef.of (T := ⟨S_, .f32⟩) main_call3_v3) id,
    TRef.unary (TRef.of (T := ⟨S_, .f32⟩) main_call3_v3) (TRef.of (T := ⟨S1048576, .f32⟩) main_call3_v4) (broadcastInDim S1048576 ![] bcast_S_S1048576),
    TRef.binary (TRef.of (T := ⟨S1048576, .f32⟩) main_call3_v4) (TRef.of (T := ⟨S1048576, .f32⟩) main_call3_v2) (TRef.of (T := ⟨S1048576, .f32⟩) main_v32) minimumf,
    binary main_v16 main_v28 main_v33 (subf : (⟨S1048576, .f32⟩ : BufTy).Contents (Elt F) → (⟨S1048576, .f32⟩ : BufTy).Contents (Elt F) → (⟨S1048576, .f32⟩ : BufTy).Contents (Elt F)),
    nullary main_cst_15 (constant S_ .f32 0x00000000#32),
    nullary main_cst_16 (constant S_ .f32 0x3F800000#32),
    TRef.unary (TRef.of (T := ⟨S_, .f32⟩) main_cst_15) (TRef.of (T := ⟨S_, .f32⟩) main_call4_v0) id,
    TRef.unary (TRef.of (T := ⟨S_, .f32⟩) main_call4_v0) (TRef.of (T := ⟨S1048576, .f32⟩) main_call4_v1) (broadcastInDim S1048576 ![] bcast_S_S1048576),
    TRef.binary (TRef.of (T := ⟨S1048576, .f32⟩) main_call4_v1) (TRef.of (T := ⟨S1048576, .f32⟩) main_v33) (TRef.of (T := ⟨S1048576, .f32⟩) main_call4_v2) maximumf,
    TRef.unary (TRef.of (T := ⟨S_, .f32⟩) main_cst_16) (TRef.of (T := ⟨S_, .f32⟩) main_call4_v3) id,
    TRef.unary (TRef.of (T := ⟨S_, .f32⟩) main_call4_v3) (TRef.of (T := ⟨S1048576, .f32⟩) main_call4_v4) (broadcastInDim S1048576 ![] bcast_S_S1048576),
    TRef.binary (TRef.of (T := ⟨S1048576, .f32⟩) main_call4_v4) (TRef.of (T := ⟨S1048576, .f32⟩) main_call4_v2) (TRef.of (T := ⟨S1048576, .f32⟩) main_v34) minimumf,
    binary main_v24 main_v30 main_v35 (subf : (⟨S1048576, .f32⟩ : BufTy).Contents (Elt F) → (⟨S1048576, .f32⟩ : BufTy).Contents (Elt F) → (⟨S1048576, .f32⟩ : BufTy).Contents (Elt F)),
    nullary main_cst_17 (constant S_ .f32 0x00000000#32),
    nullary main_cst_18 (constant S_ .f32 0x3F800000#32),
    TRef.unary (TRef.of (T := ⟨S_, .f32⟩) main_cst_17) (TRef.of (T := ⟨S_, .f32⟩) main_call5_v0) id,
    TRef.unary (TRef.of (T := ⟨S_, .f32⟩) main_call5_v0) (TRef.of (T := ⟨S1048576, .f32⟩) main_call5_v1) (broadcastInDim S1048576 ![] bcast_S_S1048576),
    TRef.binary (TRef.of (T := ⟨S1048576, .f32⟩) main_call5_v1) (TRef.of (T := ⟨S1048576, .f32⟩) main_v35) (TRef.of (T := ⟨S1048576, .f32⟩) main_call5_v2) maximumf,
    TRef.unary (TRef.of (T := ⟨S_, .f32⟩) main_cst_18) (TRef.of (T := ⟨S_, .f32⟩) main_call5_v3) id,
    TRef.unary (TRef.of (T := ⟨S_, .f32⟩) main_call5_v3) (TRef.of (T := ⟨S1048576, .f32⟩) main_call5_v4) (broadcastInDim S1048576 ![] bcast_S_S1048576),
    TRef.binary (TRef.of (T := ⟨S1048576, .f32⟩) main_call5_v4) (TRef.of (T := ⟨S1048576, .f32⟩) main_call5_v2) (TRef.of (T := ⟨S1048576, .f32⟩) main_v36) minimumf,
    binary main_v32 main_v32 main_v37 (mulf : (⟨S1048576, .f32⟩ : BufTy).Contents (Elt F) → (⟨S1048576, .f32⟩ : BufTy).Contents (Elt F) → (⟨S1048576, .f32⟩ : BufTy).Contents (Elt F)),
    nullary main_cst_19 (constant S_ .f32 0x40000000#32) ]
/-- Window 0 is the sequence of its operations. -/
theorem part_eq0 (c : Dev nD) : main_part0 (F := F) c = seq ops0 := rfl
/-- Each touches TensorCore references only. -/
theorem ops_sub0 : (ops0 : List (HloOp τ sig (Elt F))).Forall fun op => op.bufs ⊆ tcRefs τ sig :=
  ⟨reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., binary_bufs_sub .., nullary_bufs_sub ..⟩

/-- The operations of window 1 of @main, in order. -/
abbrev ops1 : List (HloOp τ sig (Elt F)) :=
  [ unary main_cst_19 main_v38 (broadcastInDim S1048576 ![] bcast_S_S1048576 : (⟨S_, .f32⟩ : BufTy).Contents (Elt F) → (⟨S1048576, .f32⟩ : BufTy).Contents (Elt F)),
    binary main_v38 main_v32 main_v39 (mulf : (⟨S1048576, .f32⟩ : BufTy).Contents (Elt F) → (⟨S1048576, .f32⟩ : BufTy).Contents (Elt F) → (⟨S1048576, .f32⟩ : BufTy).Contents (Elt F)),
    nullary main_cst_20 (constant S_ .f32 0x40400000#32),
    unary main_cst_20 main_v40 (broadcastInDim S1048576 ![] bcast_S_S1048576 : (⟨S_, .f32⟩ : BufTy).Contents (Elt F) → (⟨S1048576, .f32⟩ : BufTy).Contents (Elt F)),
    binary main_v40 main_v39 main_v41 (subf : (⟨S1048576, .f32⟩ : BufTy).Contents (Elt F) → (⟨S1048576, .f32⟩ : BufTy).Contents (Elt F) → (⟨S1048576, .f32⟩ : BufTy).Contents (Elt F)),
    binary main_v37 main_v41 main_v42 (mulf : (⟨S1048576, .f32⟩ : BufTy).Contents (Elt F) → (⟨S1048576, .f32⟩ : BufTy).Contents (Elt F) → (⟨S1048576, .f32⟩ : BufTy).Contents (Elt F)),
    binary main_v34 main_v34 main_v43 (mulf : (⟨S1048576, .f32⟩ : BufTy).Contents (Elt F) → (⟨S1048576, .f32⟩ : BufTy).Contents (Elt F) → (⟨S1048576, .f32⟩ : BufTy).Contents (Elt F)),
    nullary main_cst_21 (constant S_ .f32 0x40000000#32),
    unary main_cst_21 main_v44 (broadcastInDim S1048576 ![] bcast_S_S1048576 : (⟨S_, .f32⟩ : BufTy).Contents (Elt F) → (⟨S1048576, .f32⟩ : BufTy).Contents (Elt F)),
    binary main_v44 main_v34 main_v45 (mulf : (⟨S1048576, .f32⟩ : BufTy).Contents (Elt F) → (⟨S1048576, .f32⟩ : BufTy).Contents (Elt F) → (⟨S1048576, .f32⟩ : BufTy).Contents (Elt F)),
    nullary main_cst_22 (constant S_ .f32 0x40400000#32),
    unary main_cst_22 main_v46 (broadcastInDim S1048576 ![] bcast_S_S1048576 : (⟨S_, .f32⟩ : BufTy).Contents (Elt F) → (⟨S1048576, .f32⟩ : BufTy).Contents (Elt F)),
    binary main_v46 main_v45 main_v47 (subf : (⟨S1048576, .f32⟩ : BufTy).Contents (Elt F) → (⟨S1048576, .f32⟩ : BufTy).Contents (Elt F) → (⟨S1048576, .f32⟩ : BufTy).Contents (Elt F)),
    binary main_v43 main_v47 main_v48 (mulf : (⟨S1048576, .f32⟩ : BufTy).Contents (Elt F) → (⟨S1048576, .f32⟩ : BufTy).Contents (Elt F) → (⟨S1048576, .f32⟩ : BufTy).Contents (Elt F)),
    binary main_v36 main_v36 main_v49 (mulf : (⟨S1048576, .f32⟩ : BufTy).Contents (Elt F) → (⟨S1048576, .f32⟩ : BufTy).Contents (Elt F) → (⟨S1048576, .f32⟩ : BufTy).Contents (Elt F)),
    nullary main_cst_23 (constant S_ .f32 0x40000000#32),
    unary main_cst_23 main_v50 (broadcastInDim S1048576 ![] bcast_S_S1048576 : (⟨S_, .f32⟩ : BufTy).Contents (Elt F) → (⟨S1048576, .f32⟩ : BufTy).Contents (Elt F)),
    binary main_v50 main_v36 main_v51 (mulf : (⟨S1048576, .f32⟩ : BufTy).Contents (Elt F) → (⟨S1048576, .f32⟩ : BufTy).Contents (Elt F) → (⟨S1048576, .f32⟩ : BufTy).Contents (Elt F)),
    nullary main_cst_24 (constant S_ .f32 0x40400000#32),
    unary main_cst_24 main_v52 (broadcastInDim S1048576 ![] bcast_S_S1048576 : (⟨S_, .f32⟩ : BufTy).Contents (Elt F) → (⟨S1048576, .f32⟩ : BufTy).Contents (Elt F)),
    binary main_v52 main_v51 main_v53 (subf : (⟨S1048576, .f32⟩ : BufTy).Contents (Elt F) → (⟨S1048576, .f32⟩ : BufTy).Contents (Elt F) → (⟨S1048576, .f32⟩ : BufTy).Contents (Elt F)),
    binary main_v49 main_v53 main_v54 (mulf : (⟨S1048576, .f32⟩ : BufTy).Contents (Elt F) → (⟨S1048576, .f32⟩ : BufTy).Contents (Elt F) → (⟨S1048576, .f32⟩ : BufTy).Contents (Elt F)),
    unary main_v26 main_v55 (fptosi 32 : (⟨S1048576, .f32⟩ : BufTy).Contents (Elt F) → (⟨S1048576, .i32⟩ : BufTy).Contents (Elt F)),
    unary main_v28 main_v56 (fptosi 32 : (⟨S1048576, .f32⟩ : BufTy).Contents (Elt F) → (⟨S1048576, .i32⟩ : BufTy).Contents (Elt F)),
    unary main_v30 main_v57 (fptosi 32 : (⟨S1048576, .f32⟩ : BufTy).Contents (Elt F) → (⟨S1048576, .i32⟩ : BufTy).Contents (Elt F)),
    nullary main_c_25 (constantI S_ 32 1#32),
    unary main_c_25 main_v58 (broadcastInDim S1048576 ![] bcast_S_S1048576 : (⟨S_, .i32⟩ : BufTy).Contents (Elt F) → (⟨S1048576, .i32⟩ : BufTy).Contents (Elt F)),
    binary main_v55 main_v58 main_v59 (addi : (⟨S1048576, .i32⟩ : BufTy).Contents (Elt F) → (⟨S1048576, .i32⟩ : BufTy).Contents (Elt F) → (⟨S1048576, .i32⟩ : BufTy).Contents (Elt F)),
    nullary main_c_26 (constantI S_ 32 63#32),
    unary main_c_26 main_v60 (broadcastInDim S1048576 ![] bcast_S_S1048576 : (⟨S_, .i32⟩ : BufTy).Contents (Elt F) → (⟨S1048576, .i32⟩ : BufTy).Contents (Elt F)),
    binary main_v59 main_v60 main_v61 (minsi : (⟨S1048576, .i32⟩ : BufTy).Contents (Elt F) → (⟨S1048576, .i32⟩ : BufTy).Contents (Elt F) → (⟨S1048576, .i32⟩ : BufTy).Contents (Elt F)),
    nullary main_c_27 (constantI S_ 32 1#32),
    unary main_c_27 main_v62 (broadcastInDim S1048576 ![] bcast_S_S1048576 : (⟨S_, .i32⟩ : BufTy).Contents (Elt F) → (⟨S1048576, .i32⟩ : BufTy).Contents (Elt F)),
    binary main_v56 main_v62 main_v63 (addi : (⟨S1048576, .i32⟩ : BufTy).Contents (Elt F) → (⟨S1048576, .i32⟩ : BufTy).Contents (Elt F) → (⟨S1048576, .i32⟩ : BufTy).Contents (Elt F)),
    nullary main_c_28 (constantI S_ 32 63#32),
    unary main_c_28 main_v64 (broadcastInDim S1048576 ![] bcast_S_S1048576 : (⟨S_, .i32⟩ : BufTy).Contents (Elt F) → (⟨S1048576, .i32⟩ : BufTy).Contents (Elt F)),
    binary main_v63 main_v64 main_v65 (minsi : (⟨S1048576, .i32⟩ : BufTy).Contents (Elt F) → (⟨S1048576, .i32⟩ : BufTy).Contents (Elt F) → (⟨S1048576, .i32⟩ : BufTy).Contents (Elt F)),
    nullary main_c_29 (constantI S_ 32 1#32),
    unary main_c_29 main_v66 (broadcastInDim S1048576 ![] bcast_S_S1048576 : (⟨S_, .i32⟩ : BufTy).Contents (Elt F) → (⟨S1048576, .i32⟩ : BufTy).Contents (Elt F)),
    binary main_v57 main_v66 main_v67 (addi : (⟨S1048576, .i32⟩ : BufTy).Contents (Elt F) → (⟨S1048576, .i32⟩ : BufTy).Contents (Elt F) → (⟨S1048576, .i32⟩ : BufTy).Contents (Elt F)),
    nullary main_c_30 (constantI S_ 32 63#32),
    unary main_c_30 main_v68 (broadcastInDim S1048576 ![] bcast_S_S1048576 : (⟨S_, .i32⟩ : BufTy).Contents (Elt F) → (⟨S1048576, .i32⟩ : BufTy).Contents (Elt F)),
    binary main_v67 main_v68 main_v69 (minsi : (⟨S1048576, .i32⟩ : BufTy).Contents (Elt F) → (⟨S1048576, .i32⟩ : BufTy).Contents (Elt F) → (⟨S1048576, .i32⟩ : BufTy).Contents (Elt F)),
    reshape main_arg1 main_v70 rfl shapeCasts_S1x4x64x64x64_S4x262144,
    nullary main_c_31 (constantI S_ 32 64#32),
    unary main_c_31 main_v71 (broadcastInDim S1048576 ![] bcast_S_S1048576 : (⟨S_, .i32⟩ : BufTy).Contents (Elt F) → (⟨S1048576, .i32⟩ : BufTy).Contents (Elt F)),
    binary main_v57 main_v71 main_v72 (muli : (⟨S1048576, .i32⟩ : BufTy).Contents (Elt F) → (⟨S1048576, .i32⟩ : BufTy).Contents (Elt F) → (⟨S1048576, .i32⟩ : BufTy).Contents (Elt F)),
    binary main_v72 main_v56 main_v73 (addi : (⟨S1048576, .i32⟩ : BufTy).Contents (Elt F) → (⟨S1048576, .i32⟩ : BufTy).Contents (Elt F) → (⟨S1048576, .i32⟩ : BufTy).Contents (Elt F)),
    nullary main_c_32 (constantI S_ 32 64#32),
    unary main_c_32 main_v74 (broadcastInDim S1048576 ![] bcast_S_S1048576 : (⟨S_, .i32⟩ : BufTy).Contents (Elt F) → (⟨S1048576, .i32⟩ : BufTy).Contents (Elt F)),
    binary main_v73 main_v74 main_v75 (muli : (⟨S1048576, .i32⟩ : BufTy).Contents (Elt F) → (⟨S1048576, .i32⟩ : BufTy).Contents (Elt F) → (⟨S1048576, .i32⟩ : BufTy).Contents (Elt F)),
    binary main_v75 main_v55 main_v76 (addi : (⟨S1048576, .i32⟩ : BufTy).Contents (Elt F) → (⟨S1048576, .i32⟩ : BufTy).Contents (Elt F) → (⟨S1048576, .i32⟩ : BufTy).Contents (Elt F)),
    nullary main_c_33 (constantI S_ 32 0#32),
    unary main_c_33 main_v77 (broadcastInDim S1048576 ![] bcast_S_S1048576 : (⟨S_, .i32⟩ : BufTy).Contents (Elt F) → (⟨S1048576, .i32⟩ : BufTy).Contents (Elt F)),
    binary main_v76 main_v77 main_v78 (cmpi .slt : (⟨S1048576, .i32⟩ : BufTy).Contents (Elt F) → (⟨S1048576, .i32⟩ : BufTy).Contents (Elt F) → (⟨S1048576, .i1⟩ : BufTy).Contents (Elt F)),
    nullary main_c_34 (constantI S_ 32 262144#32),
    unary main_c_34 main_v79 (broadcastInDim S1048576 ![] bcast_S_S1048576 : (⟨S_, .i32⟩ : BufTy).Contents (Elt F) → (⟨S1048576, .i32⟩ : BufTy).Contents (Elt F)),
    binary main_v76 main_v79 main_v80 (addi : (⟨S1048576, .i32⟩ : BufTy).Contents (Elt F) → (⟨S1048576, .i32⟩ : BufTy).Contents (Elt F) → (⟨S1048576, .i32⟩ : BufTy).Contents (Elt F)),
    ternary main_v78 main_v80 main_v76 main_v81 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v81 main_v82 (broadcastInDim S1048576x1 ![0] bcast_S1048576_S1048576x1_0 : (⟨S1048576, .i32⟩ : BufTy).Contents (Elt F) → (⟨S1048576x1, .i32⟩ : BufTy).Contents (Elt F)) ]
/-- Window 1 is the sequence of its operations. -/
theorem part_eq1 (c : Dev nD) : main_part1 (F := F) c = seq ops1 := rfl
/-- Each touches TensorCore references only. -/
theorem ops_sub1 : (ops1 : List (HloOp τ sig (Elt F))).Forall fun op => op.bufs ⊆ tcRefs τ sig :=
  ⟨unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., binary_bufs_sub .., unary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., reshape_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub ..⟩

/-- The operations of window 2 of @main, in order. -/
abbrev ops2 : List (HloOp τ sig (Elt F)) :=
  [ binary main_v70 main_v82 main_v83 ((fun x i => Host.gather gather_S4x262144_S1048576x1_S4x1048576_0_1_n_n_1_1_41 x i) : (⟨S4x262144, .f32⟩ : BufTy).Contents (Elt F) → (⟨S1048576x1, .i32⟩ : BufTy).Contents (Elt F) → (⟨S4x1048576, .f32⟩ : BufTy).Contents (Elt F)),
    nullary main_c_35 (constantI S_ 32 64#32),
    unary main_c_35 main_v84 (broadcastInDim S1048576 ![] bcast_S_S1048576 : (⟨S_, .i32⟩ : BufTy).Contents (Elt F) → (⟨S1048576, .i32⟩ : BufTy).Contents (Elt F)),
    binary main_v57 main_v84 main_v85 (muli : (⟨S1048576, .i32⟩ : BufTy).Contents (Elt F) → (⟨S1048576, .i32⟩ : BufTy).Contents (Elt F) → (⟨S1048576, .i32⟩ : BufTy).Contents (Elt F)),
    binary main_v85 main_v56 main_v86 (addi : (⟨S1048576, .i32⟩ : BufTy).Contents (Elt F) → (⟨S1048576, .i32⟩ : BufTy).Contents (Elt F) → (⟨S1048576, .i32⟩ : BufTy).Contents (Elt F)),
    nullary main_c_36 (constantI S_ 32 64#32),
    unary main_c_36 main_v87 (broadcastInDim S1048576 ![] bcast_S_S1048576 : (⟨S_, .i32⟩ : BufTy).Contents (Elt F) → (⟨S1048576, .i32⟩ : BufTy).Contents (Elt F)),
    binary main_v86 main_v87 main_v88 (muli : (⟨S1048576, .i32⟩ : BufTy).Contents (Elt F) → (⟨S1048576, .i32⟩ : BufTy).Contents (Elt F) → (⟨S1048576, .i32⟩ : BufTy).Contents (Elt F)),
    binary main_v88 main_v61 main_v89 (addi : (⟨S1048576, .i32⟩ : BufTy).Contents (Elt F) → (⟨S1048576, .i32⟩ : BufTy).Contents (Elt F) → (⟨S1048576, .i32⟩ : BufTy).Contents (Elt F)),
    nullary main_c_37 (constantI S_ 32 0#32),
    unary main_c_37 main_v90 (broadcastInDim S1048576 ![] bcast_S_S1048576 : (⟨S_, .i32⟩ : BufTy).Contents (Elt F) → (⟨S1048576, .i32⟩ : BufTy).Contents (Elt F)),
    binary main_v89 main_v90 main_v91 (cmpi .slt : (⟨S1048576, .i32⟩ : BufTy).Contents (Elt F) → (⟨S1048576, .i32⟩ : BufTy).Contents (Elt F) → (⟨S1048576, .i1⟩ : BufTy).Contents (Elt F)),
    nullary main_c_38 (constantI S_ 32 262144#32),
    unary main_c_38 main_v92 (broadcastInDim S1048576 ![] bcast_S_S1048576 : (⟨S_, .i32⟩ : BufTy).Contents (Elt F) → (⟨S1048576, .i32⟩ : BufTy).Contents (Elt F)),
    binary main_v89 main_v92 main_v93 (addi : (⟨S1048576, .i32⟩ : BufTy).Contents (Elt F) → (⟨S1048576, .i32⟩ : BufTy).Contents (Elt F) → (⟨S1048576, .i32⟩ : BufTy).Contents (Elt F)),
    ternary main_v91 main_v93 main_v89 main_v94 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v94 main_v95 (broadcastInDim S1048576x1 ![0] bcast_S1048576_S1048576x1_0 : (⟨S1048576, .i32⟩ : BufTy).Contents (Elt F) → (⟨S1048576x1, .i32⟩ : BufTy).Contents (Elt F)),
    binary main_v70 main_v95 main_v96 ((fun x i => Host.gather gather_S4x262144_S1048576x1_S4x1048576_0_1_n_n_1_1_41 x i) : (⟨S4x262144, .f32⟩ : BufTy).Contents (Elt F) → (⟨S1048576x1, .i32⟩ : BufTy).Contents (Elt F) → (⟨S4x1048576, .f32⟩ : BufTy).Contents (Elt F)),
    nullary main_c_39 (constantI S_ 32 64#32),
    unary main_c_39 main_v97 (broadcastInDim S1048576 ![] bcast_S_S1048576 : (⟨S_, .i32⟩ : BufTy).Contents (Elt F) → (⟨S1048576, .i32⟩ : BufTy).Contents (Elt F)),
    binary main_v57 main_v97 main_v98 (muli : (⟨S1048576, .i32⟩ : BufTy).Contents (Elt F) → (⟨S1048576, .i32⟩ : BufTy).Contents (Elt F) → (⟨S1048576, .i32⟩ : BufTy).Contents (Elt F)),
    binary main_v98 main_v65 main_v99 (addi : (⟨S1048576, .i32⟩ : BufTy).Contents (Elt F) → (⟨S1048576, .i32⟩ : BufTy).Contents (Elt F) → (⟨S1048576, .i32⟩ : BufTy).Contents (Elt F)),
    nullary main_c_40 (constantI S_ 32 64#32),
    unary main_c_40 main_v100 (broadcastInDim S1048576 ![] bcast_S_S1048576 : (⟨S_, .i32⟩ : BufTy).Contents (Elt F) → (⟨S1048576, .i32⟩ : BufTy).Contents (Elt F)),
    binary main_v99 main_v100 main_v101 (muli : (⟨S1048576, .i32⟩ : BufTy).Contents (Elt F) → (⟨S1048576, .i32⟩ : BufTy).Contents (Elt F) → (⟨S1048576, .i32⟩ : BufTy).Contents (Elt F)),
    binary main_v101 main_v55 main_v102 (addi : (⟨S1048576, .i32⟩ : BufTy).Contents (Elt F) → (⟨S1048576, .i32⟩ : BufTy).Contents (Elt F) → (⟨S1048576, .i32⟩ : BufTy).Contents (Elt F)),
    nullary main_c_41 (constantI S_ 32 0#32),
    unary main_c_41 main_v103 (broadcastInDim S1048576 ![] bcast_S_S1048576 : (⟨S_, .i32⟩ : BufTy).Contents (Elt F) → (⟨S1048576, .i32⟩ : BufTy).Contents (Elt F)),
    binary main_v102 main_v103 main_v104 (cmpi .slt : (⟨S1048576, .i32⟩ : BufTy).Contents (Elt F) → (⟨S1048576, .i32⟩ : BufTy).Contents (Elt F) → (⟨S1048576, .i1⟩ : BufTy).Contents (Elt F)),
    nullary main_c_42 (constantI S_ 32 262144#32),
    unary main_c_42 main_v105 (broadcastInDim S1048576 ![] bcast_S_S1048576 : (⟨S_, .i32⟩ : BufTy).Contents (Elt F) → (⟨S1048576, .i32⟩ : BufTy).Contents (Elt F)),
    binary main_v102 main_v105 main_v106 (addi : (⟨S1048576, .i32⟩ : BufTy).Contents (Elt F) → (⟨S1048576, .i32⟩ : BufTy).Contents (Elt F) → (⟨S1048576, .i32⟩ : BufTy).Contents (Elt F)),
    ternary main_v104 main_v106 main_v102 main_v107 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v107 main_v108 (broadcastInDim S1048576x1 ![0] bcast_S1048576_S1048576x1_0 : (⟨S1048576, .i32⟩ : BufTy).Contents (Elt F) → (⟨S1048576x1, .i32⟩ : BufTy).Contents (Elt F)),
    binary main_v70 main_v108 main_v109 ((fun x i => Host.gather gather_S4x262144_S1048576x1_S4x1048576_0_1_n_n_1_1_41 x i) : (⟨S4x262144, .f32⟩ : BufTy).Contents (Elt F) → (⟨S1048576x1, .i32⟩ : BufTy).Contents (Elt F) → (⟨S4x1048576, .f32⟩ : BufTy).Contents (Elt F)),
    nullary main_c_43 (constantI S_ 32 64#32),
    unary main_c_43 main_v110 (broadcastInDim S1048576 ![] bcast_S_S1048576 : (⟨S_, .i32⟩ : BufTy).Contents (Elt F) → (⟨S1048576, .i32⟩ : BufTy).Contents (Elt F)),
    binary main_v57 main_v110 main_v111 (muli : (⟨S1048576, .i32⟩ : BufTy).Contents (Elt F) → (⟨S1048576, .i32⟩ : BufTy).Contents (Elt F) → (⟨S1048576, .i32⟩ : BufTy).Contents (Elt F)),
    binary main_v111 main_v65 main_v112 (addi : (⟨S1048576, .i32⟩ : BufTy).Contents (Elt F) → (⟨S1048576, .i32⟩ : BufTy).Contents (Elt F) → (⟨S1048576, .i32⟩ : BufTy).Contents (Elt F)),
    nullary main_c_44 (constantI S_ 32 64#32),
    unary main_c_44 main_v113 (broadcastInDim S1048576 ![] bcast_S_S1048576 : (⟨S_, .i32⟩ : BufTy).Contents (Elt F) → (⟨S1048576, .i32⟩ : BufTy).Contents (Elt F)),
    binary main_v112 main_v113 main_v114 (muli : (⟨S1048576, .i32⟩ : BufTy).Contents (Elt F) → (⟨S1048576, .i32⟩ : BufTy).Contents (Elt F) → (⟨S1048576, .i32⟩ : BufTy).Contents (Elt F)),
    binary main_v114 main_v61 main_v115 (addi : (⟨S1048576, .i32⟩ : BufTy).Contents (Elt F) → (⟨S1048576, .i32⟩ : BufTy).Contents (Elt F) → (⟨S1048576, .i32⟩ : BufTy).Contents (Elt F)),
    nullary main_c_45 (constantI S_ 32 0#32),
    unary main_c_45 main_v116 (broadcastInDim S1048576 ![] bcast_S_S1048576 : (⟨S_, .i32⟩ : BufTy).Contents (Elt F) → (⟨S1048576, .i32⟩ : BufTy).Contents (Elt F)),
    binary main_v115 main_v116 main_v117 (cmpi .slt : (⟨S1048576, .i32⟩ : BufTy).Contents (Elt F) → (⟨S1048576, .i32⟩ : BufTy).Contents (Elt F) → (⟨S1048576, .i1⟩ : BufTy).Contents (Elt F)),
    nullary main_c_46 (constantI S_ 32 262144#32),
    unary main_c_46 main_v118 (broadcastInDim S1048576 ![] bcast_S_S1048576 : (⟨S_, .i32⟩ : BufTy).Contents (Elt F) → (⟨S1048576, .i32⟩ : BufTy).Contents (Elt F)),
    binary main_v115 main_v118 main_v119 (addi : (⟨S1048576, .i32⟩ : BufTy).Contents (Elt F) → (⟨S1048576, .i32⟩ : BufTy).Contents (Elt F) → (⟨S1048576, .i32⟩ : BufTy).Contents (Elt F)),
    ternary main_v117 main_v119 main_v115 main_v120 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v120 main_v121 (broadcastInDim S1048576x1 ![0] bcast_S1048576_S1048576x1_0 : (⟨S1048576, .i32⟩ : BufTy).Contents (Elt F) → (⟨S1048576x1, .i32⟩ : BufTy).Contents (Elt F)),
    binary main_v70 main_v121 main_v122 ((fun x i => Host.gather gather_S4x262144_S1048576x1_S4x1048576_0_1_n_n_1_1_41 x i) : (⟨S4x262144, .f32⟩ : BufTy).Contents (Elt F) → (⟨S1048576x1, .i32⟩ : BufTy).Contents (Elt F) → (⟨S4x1048576, .f32⟩ : BufTy).Contents (Elt F)),
    nullary main_c_47 (constantI S_ 32 64#32),
    unary main_c_47 main_v123 (broadcastInDim S1048576 ![] bcast_S_S1048576 : (⟨S_, .i32⟩ : BufTy).Contents (Elt F) → (⟨S1048576, .i32⟩ : BufTy).Contents (Elt F)),
    binary main_v69 main_v123 main_v124 (muli : (⟨S1048576, .i32⟩ : BufTy).Contents (Elt F) → (⟨S1048576, .i32⟩ : BufTy).Contents (Elt F) → (⟨S1048576, .i32⟩ : BufTy).Contents (Elt F)),
    binary main_v124 main_v56 main_v125 (addi : (⟨S1048576, .i32⟩ : BufTy).Contents (Elt F) → (⟨S1048576, .i32⟩ : BufTy).Contents (Elt F) → (⟨S1048576, .i32⟩ : BufTy).Contents (Elt F)),
    nullary main_c_48 (constantI S_ 32 64#32),
    unary main_c_48 main_v126 (broadcastInDim S1048576 ![] bcast_S_S1048576 : (⟨S_, .i32⟩ : BufTy).Contents (Elt F) → (⟨S1048576, .i32⟩ : BufTy).Contents (Elt F)),
    binary main_v125 main_v126 main_v127 (muli : (⟨S1048576, .i32⟩ : BufTy).Contents (Elt F) → (⟨S1048576, .i32⟩ : BufTy).Contents (Elt F) → (⟨S1048576, .i32⟩ : BufTy).Contents (Elt F)),
    binary main_v127 main_v55 main_v128 (addi : (⟨S1048576, .i32⟩ : BufTy).Contents (Elt F) → (⟨S1048576, .i32⟩ : BufTy).Contents (Elt F) → (⟨S1048576, .i32⟩ : BufTy).Contents (Elt F)) ]
/-- Window 2 is the sequence of its operations. -/
theorem part_eq2 (c : Dev nD) : main_part2 (F := F) c = seq ops2 := rfl
/-- Each touches TensorCore references only. -/
theorem ops_sub2 : (ops2 : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., nullary_bufs_sub .., unary_bufs_sub .., binary_bufs_sub .., binary_bufs_sub ..⟩

/-- The operations of window 3 of @main, in order. -/
abbrev ops3 : List (HloOp τ sig (Elt F)) :=
  [ nullary main_c_49 (constantI S_ 32 0#32),
    unary main_c_49 main_v129 (broadcastInDim S1048576 ![] bcast_S_S1048576 : (⟨S_, .i32⟩ : BufTy).Contents (Elt F) → (⟨S1048576, .i32⟩ : BufTy).Contents (Elt F)),
    binary main_v128 main_v129 main_v130 (cmpi .slt : (⟨S1048576, .i32⟩ : BufTy).Contents (Elt F) → (⟨S1048576, .i32⟩ : BufTy).Contents (Elt F) → (⟨S1048576, .i1⟩ : BufTy).Contents (Elt F)),
    nullary main_c_50 (constantI S_ 32 262144#32),
    unary main_c_50 main_v131 (broadcastInDim S1048576 ![] bcast_S_S1048576 : (⟨S_, .i32⟩ : BufTy).Contents (Elt F) → (⟨S1048576, .i32⟩ : BufTy).Contents (Elt F)),
    binary main_v128 main_v131 main_v132 (addi : (⟨S1048576, .i32⟩ : BufTy).Contents (Elt F) → (⟨S1048576, .i32⟩ : BufTy).Contents (Elt F) → (⟨S1048576, .i32⟩ : BufTy).Contents (Elt F)),
    ternary main_v130 main_v132 main_v128 main_v133 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v133 main_v134 (broadcastInDim S1048576x1 ![0] bcast_S1048576_S1048576x1_0 : (⟨S1048576, .i32⟩ : BufTy).Contents (Elt F) → (⟨S1048576x1, .i32⟩ : BufTy).Contents (Elt F)),
    binary main_v70 main_v134 main_v135 ((fun x i => Host.gather gather_S4x262144_S1048576x1_S4x1048576_0_1_n_n_1_1_41 x i) : (⟨S4x262144, .f32⟩ : BufTy).Contents (Elt F) → (⟨S1048576x1, .i32⟩ : BufTy).Contents (Elt F) → (⟨S4x1048576, .f32⟩ : BufTy).Contents (Elt F)),
    nullary main_c_51 (constantI S_ 32 64#32),
    unary main_c_51 main_v136 (broadcastInDim S1048576 ![] bcast_S_S1048576 : (⟨S_, .i32⟩ : BufTy).Contents (Elt F) → (⟨S1048576, .i32⟩ : BufTy).Contents (Elt F)),
    binary main_v69 main_v136 main_v137 (muli : (⟨S1048576, .i32⟩ : BufTy).Contents (Elt F) → (⟨S1048576, .i32⟩ : BufTy).Contents (Elt F) → (⟨S1048576, .i32⟩ : BufTy).Contents (Elt F)),
    binary main_v137 main_v56 main_v138 (addi : (⟨S1048576, .i32⟩ : BufTy).Contents (Elt F) → (⟨S1048576, .i32⟩ : BufTy).Contents (Elt F) → (⟨S1048576, .i32⟩ : BufTy).Contents (Elt F)),
    nullary main_c_52 (constantI S_ 32 64#32),
    unary main_c_52 main_v139 (broadcastInDim S1048576 ![] bcast_S_S1048576 : (⟨S_, .i32⟩ : BufTy).Contents (Elt F) → (⟨S1048576, .i32⟩ : BufTy).Contents (Elt F)),
    binary main_v138 main_v139 main_v140 (muli : (⟨S1048576, .i32⟩ : BufTy).Contents (Elt F) → (⟨S1048576, .i32⟩ : BufTy).Contents (Elt F) → (⟨S1048576, .i32⟩ : BufTy).Contents (Elt F)),
    binary main_v140 main_v61 main_v141 (addi : (⟨S1048576, .i32⟩ : BufTy).Contents (Elt F) → (⟨S1048576, .i32⟩ : BufTy).Contents (Elt F) → (⟨S1048576, .i32⟩ : BufTy).Contents (Elt F)),
    nullary main_c_53 (constantI S_ 32 0#32),
    unary main_c_53 main_v142 (broadcastInDim S1048576 ![] bcast_S_S1048576 : (⟨S_, .i32⟩ : BufTy).Contents (Elt F) → (⟨S1048576, .i32⟩ : BufTy).Contents (Elt F)),
    binary main_v141 main_v142 main_v143 (cmpi .slt : (⟨S1048576, .i32⟩ : BufTy).Contents (Elt F) → (⟨S1048576, .i32⟩ : BufTy).Contents (Elt F) → (⟨S1048576, .i1⟩ : BufTy).Contents (Elt F)),
    nullary main_c_54 (constantI S_ 32 262144#32),
    unary main_c_54 main_v144 (broadcastInDim S1048576 ![] bcast_S_S1048576 : (⟨S_, .i32⟩ : BufTy).Contents (Elt F) → (⟨S1048576, .i32⟩ : BufTy).Contents (Elt F)),
    binary main_v141 main_v144 main_v145 (addi : (⟨S1048576, .i32⟩ : BufTy).Contents (Elt F) → (⟨S1048576, .i32⟩ : BufTy).Contents (Elt F) → (⟨S1048576, .i32⟩ : BufTy).Contents (Elt F)),
    ternary main_v143 main_v145 main_v141 main_v146 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v146 main_v147 (broadcastInDim S1048576x1 ![0] bcast_S1048576_S1048576x1_0 : (⟨S1048576, .i32⟩ : BufTy).Contents (Elt F) → (⟨S1048576x1, .i32⟩ : BufTy).Contents (Elt F)),
    binary main_v70 main_v147 main_v148 ((fun x i => Host.gather gather_S4x262144_S1048576x1_S4x1048576_0_1_n_n_1_1_41 x i) : (⟨S4x262144, .f32⟩ : BufTy).Contents (Elt F) → (⟨S1048576x1, .i32⟩ : BufTy).Contents (Elt F) → (⟨S4x1048576, .f32⟩ : BufTy).Contents (Elt F)),
    nullary main_c_55 (constantI S_ 32 64#32),
    unary main_c_55 main_v149 (broadcastInDim S1048576 ![] bcast_S_S1048576 : (⟨S_, .i32⟩ : BufTy).Contents (Elt F) → (⟨S1048576, .i32⟩ : BufTy).Contents (Elt F)),
    binary main_v69 main_v149 main_v150 (muli : (⟨S1048576, .i32⟩ : BufTy).Contents (Elt F) → (⟨S1048576, .i32⟩ : BufTy).Contents (Elt F) → (⟨S1048576, .i32⟩ : BufTy).Contents (Elt F)),
    binary main_v150 main_v65 main_v151 (addi : (⟨S1048576, .i32⟩ : BufTy).Contents (Elt F) → (⟨S1048576, .i32⟩ : BufTy).Contents (Elt F) → (⟨S1048576, .i32⟩ : BufTy).Contents (Elt F)),
    nullary main_c_56 (constantI S_ 32 64#32),
    unary main_c_56 main_v152 (broadcastInDim S1048576 ![] bcast_S_S1048576 : (⟨S_, .i32⟩ : BufTy).Contents (Elt F) → (⟨S1048576, .i32⟩ : BufTy).Contents (Elt F)),
    binary main_v151 main_v152 main_v153 (muli : (⟨S1048576, .i32⟩ : BufTy).Contents (Elt F) → (⟨S1048576, .i32⟩ : BufTy).Contents (Elt F) → (⟨S1048576, .i32⟩ : BufTy).Contents (Elt F)),
    binary main_v153 main_v55 main_v154 (addi : (⟨S1048576, .i32⟩ : BufTy).Contents (Elt F) → (⟨S1048576, .i32⟩ : BufTy).Contents (Elt F) → (⟨S1048576, .i32⟩ : BufTy).Contents (Elt F)),
    nullary main_c_57 (constantI S_ 32 0#32),
    unary main_c_57 main_v155 (broadcastInDim S1048576 ![] bcast_S_S1048576 : (⟨S_, .i32⟩ : BufTy).Contents (Elt F) → (⟨S1048576, .i32⟩ : BufTy).Contents (Elt F)),
    binary main_v154 main_v155 main_v156 (cmpi .slt : (⟨S1048576, .i32⟩ : BufTy).Contents (Elt F) → (⟨S1048576, .i32⟩ : BufTy).Contents (Elt F) → (⟨S1048576, .i1⟩ : BufTy).Contents (Elt F)),
    nullary main_c_58 (constantI S_ 32 262144#32),
    unary main_c_58 main_v157 (broadcastInDim S1048576 ![] bcast_S_S1048576 : (⟨S_, .i32⟩ : BufTy).Contents (Elt F) → (⟨S1048576, .i32⟩ : BufTy).Contents (Elt F)),
    binary main_v154 main_v157 main_v158 (addi : (⟨S1048576, .i32⟩ : BufTy).Contents (Elt F) → (⟨S1048576, .i32⟩ : BufTy).Contents (Elt F) → (⟨S1048576, .i32⟩ : BufTy).Contents (Elt F)),
    ternary main_v156 main_v158 main_v154 main_v159 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v159 main_v160 (broadcastInDim S1048576x1 ![0] bcast_S1048576_S1048576x1_0 : (⟨S1048576, .i32⟩ : BufTy).Contents (Elt F) → (⟨S1048576x1, .i32⟩ : BufTy).Contents (Elt F)),
    binary main_v70 main_v160 main_v161 ((fun x i => Host.gather gather_S4x262144_S1048576x1_S4x1048576_0_1_n_n_1_1_41 x i) : (⟨S4x262144, .f32⟩ : BufTy).Contents (Elt F) → (⟨S1048576x1, .i32⟩ : BufTy).Contents (Elt F) → (⟨S4x1048576, .f32⟩ : BufTy).Contents (Elt F)),
    nullary main_c_59 (constantI S_ 32 64#32),
    unary main_c_59 main_v162 (broadcastInDim S1048576 ![] bcast_S_S1048576 : (⟨S_, .i32⟩ : BufTy).Contents (Elt F) → (⟨S1048576, .i32⟩ : BufTy).Contents (Elt F)),
    binary main_v69 main_v162 main_v163 (muli : (⟨S1048576, .i32⟩ : BufTy).Contents (Elt F) → (⟨S1048576, .i32⟩ : BufTy).Contents (Elt F) → (⟨S1048576, .i32⟩ : BufTy).Contents (Elt F)),
    binary main_v163 main_v65 main_v164 (addi : (⟨S1048576, .i32⟩ : BufTy).Contents (Elt F) → (⟨S1048576, .i32⟩ : BufTy).Contents (Elt F) → (⟨S1048576, .i32⟩ : BufTy).Contents (Elt F)),
    nullary main_c_60 (constantI S_ 32 64#32),
    unary main_c_60 main_v165 (broadcastInDim S1048576 ![] bcast_S_S1048576 : (⟨S_, .i32⟩ : BufTy).Contents (Elt F) → (⟨S1048576, .i32⟩ : BufTy).Contents (Elt F)),
    binary main_v164 main_v165 main_v166 (muli : (⟨S1048576, .i32⟩ : BufTy).Contents (Elt F) → (⟨S1048576, .i32⟩ : BufTy).Contents (Elt F) → (⟨S1048576, .i32⟩ : BufTy).Contents (Elt F)),
    binary main_v166 main_v61 main_v167 (addi : (⟨S1048576, .i32⟩ : BufTy).Contents (Elt F) → (⟨S1048576, .i32⟩ : BufTy).Contents (Elt F) → (⟨S1048576, .i32⟩ : BufTy).Contents (Elt F)),
    nullary main_c_61 (constantI S_ 32 0#32),
    unary main_c_61 main_v168 (broadcastInDim S1048576 ![] bcast_S_S1048576 : (⟨S_, .i32⟩ : BufTy).Contents (Elt F) → (⟨S1048576, .i32⟩ : BufTy).Contents (Elt F)),
    binary main_v167 main_v168 main_v169 (cmpi .slt : (⟨S1048576, .i32⟩ : BufTy).Contents (Elt F) → (⟨S1048576, .i32⟩ : BufTy).Contents (Elt F) → (⟨S1048576, .i1⟩ : BufTy).Contents (Elt F)),
    nullary main_c_62 (constantI S_ 32 262144#32),
    unary main_c_62 main_v170 (broadcastInDim S1048576 ![] bcast_S_S1048576 : (⟨S_, .i32⟩ : BufTy).Contents (Elt F) → (⟨S1048576, .i32⟩ : BufTy).Contents (Elt F)),
    binary main_v167 main_v170 main_v171 (addi : (⟨S1048576, .i32⟩ : BufTy).Contents (Elt F) → (⟨S1048576, .i32⟩ : BufTy).Contents (Elt F) → (⟨S1048576, .i32⟩ : BufTy).Contents (Elt F)),
    ternary main_v169 main_v171 main_v167 main_v172 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v172 main_v173 (broadcastInDim S1048576x1 ![0] bcast_S1048576_S1048576x1_0 : (⟨S1048576, .i32⟩ : BufTy).Contents (Elt F) → (⟨S1048576x1, .i32⟩ : BufTy).Contents (Elt F)),
    binary main_v70 main_v173 main_v174 ((fun x i => Host.gather gather_S4x262144_S1048576x1_S4x1048576_0_1_n_n_1_1_41 x i) : (⟨S4x262144, .f32⟩ : BufTy).Contents (Elt F) → (⟨S1048576x1, .i32⟩ : BufTy).Contents (Elt F) → (⟨S4x1048576, .f32⟩ : BufTy).Contents (Elt F)) ]
/-- Window 3 is the sequence of its operations. -/
theorem part_eq3 (c : Dev nD) : main_part3 (F := F) c = seq ops3 := rfl
/-- Each touches TensorCore references only. -/
theorem ops_sub3 : (ops3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

/-- The operations of window 4 of @main, in order. -/
abbrev ops4 : List (HloOp τ sig (Elt F)) :=
  [ binary main_v96 main_v83 main_v175 (subf : (⟨S4x1048576, .f32⟩ : BufTy).Contents (Elt F) → (⟨S4x1048576, .f32⟩ : BufTy).Contents (Elt F) → (⟨S4x1048576, .f32⟩ : BufTy).Contents (Elt F)),
    unary main_v42 main_v176 (broadcastInDim S1x1048576 ![1] bcast_S1048576_S1x1048576_1 : (⟨S1048576, .f32⟩ : BufTy).Contents (Elt F) → (⟨S1x1048576, .f32⟩ : BufTy).Contents (Elt F)),
    unary main_v176 main_v177 (broadcastInDim S4x1048576 ![0, 1] bcast_S1x1048576_S4x1048576_0_1 : (⟨S1x1048576, .f32⟩ : BufTy).Contents (Elt F) → (⟨S4x1048576, .f32⟩ : BufTy).Contents (Elt F)),
    binary main_v175 main_v177 main_v178 (mulf : (⟨S4x1048576, .f32⟩ : BufTy).Contents (Elt F) → (⟨S4x1048576, .f32⟩ : BufTy).Contents (Elt F) → (⟨S4x1048576, .f32⟩ : BufTy).Contents (Elt F)),
    binary main_v83 main_v178 main_v179 (addf : (⟨S4x1048576, .f32⟩ : BufTy).Contents (Elt F) → (⟨S4x1048576, .f32⟩ : BufTy).Contents (Elt F) → (⟨S4x1048576, .f32⟩ : BufTy).Contents (Elt F)),
    binary main_v122 main_v109 main_v180 (subf : (⟨S4x1048576, .f32⟩ : BufTy).Contents (Elt F) → (⟨S4x1048576, .f32⟩ : BufTy).Contents (Elt F) → (⟨S4x1048576, .f32⟩ : BufTy).Contents (Elt F)),
    unary main_v42 main_v181 (broadcastInDim S1x1048576 ![1] bcast_S1048576_S1x1048576_1 : (⟨S1048576, .f32⟩ : BufTy).Contents (Elt F) → (⟨S1x1048576, .f32⟩ : BufTy).Contents (Elt F)),
    unary main_v181 main_v182 (broadcastInDim S4x1048576 ![0, 1] bcast_S1x1048576_S4x1048576_0_1 : (⟨S1x1048576, .f32⟩ : BufTy).Contents (Elt F) → (⟨S4x1048576, .f32⟩ : BufTy).Contents (Elt F)),
    binary main_v180 main_v182 main_v183 (mulf : (⟨S4x1048576, .f32⟩ : BufTy).Contents (Elt F) → (⟨S4x1048576, .f32⟩ : BufTy).Contents (Elt F) → (⟨S4x1048576, .f32⟩ : BufTy).Contents (Elt F)),
    binary main_v109 main_v183 main_v184 (addf : (⟨S4x1048576, .f32⟩ : BufTy).Contents (Elt F) → (⟨S4x1048576, .f32⟩ : BufTy).Contents (Elt F) → (⟨S4x1048576, .f32⟩ : BufTy).Contents (Elt F)),
    binary main_v148 main_v135 main_v185 (subf : (⟨S4x1048576, .f32⟩ : BufTy).Contents (Elt F) → (⟨S4x1048576, .f32⟩ : BufTy).Contents (Elt F) → (⟨S4x1048576, .f32⟩ : BufTy).Contents (Elt F)),
    unary main_v42 main_v186 (broadcastInDim S1x1048576 ![1] bcast_S1048576_S1x1048576_1 : (⟨S1048576, .f32⟩ : BufTy).Contents (Elt F) → (⟨S1x1048576, .f32⟩ : BufTy).Contents (Elt F)),
    unary main_v186 main_v187 (broadcastInDim S4x1048576 ![0, 1] bcast_S1x1048576_S4x1048576_0_1 : (⟨S1x1048576, .f32⟩ : BufTy).Contents (Elt F) → (⟨S4x1048576, .f32⟩ : BufTy).Contents (Elt F)),
    binary main_v185 main_v187 main_v188 (mulf : (⟨S4x1048576, .f32⟩ : BufTy).Contents (Elt F) → (⟨S4x1048576, .f32⟩ : BufTy).Contents (Elt F) → (⟨S4x1048576, .f32⟩ : BufTy).Contents (Elt F)),
    binary main_v135 main_v188 main_v189 (addf : (⟨S4x1048576, .f32⟩ : BufTy).Contents (Elt F) → (⟨S4x1048576, .f32⟩ : BufTy).Contents (Elt F) → (⟨S4x1048576, .f32⟩ : BufTy).Contents (Elt F)),
    binary main_v174 main_v161 main_v190 (subf : (⟨S4x1048576, .f32⟩ : BufTy).Contents (Elt F) → (⟨S4x1048576, .f32⟩ : BufTy).Contents (Elt F) → (⟨S4x1048576, .f32⟩ : BufTy).Contents (Elt F)),
    unary main_v42 main_v191 (broadcastInDim S1x1048576 ![1] bcast_S1048576_S1x1048576_1 : (⟨S1048576, .f32⟩ : BufTy).Contents (Elt F) → (⟨S1x1048576, .f32⟩ : BufTy).Contents (Elt F)),
    unary main_v191 main_v192 (broadcastInDim S4x1048576 ![0, 1] bcast_S1x1048576_S4x1048576_0_1 : (⟨S1x1048576, .f32⟩ : BufTy).Contents (Elt F) → (⟨S4x1048576, .f32⟩ : BufTy).Contents (Elt F)),
    binary main_v190 main_v192 main_v193 (mulf : (⟨S4x1048576, .f32⟩ : BufTy).Contents (Elt F) → (⟨S4x1048576, .f32⟩ : BufTy).Contents (Elt F) → (⟨S4x1048576, .f32⟩ : BufTy).Contents (Elt F)),
    binary main_v161 main_v193 main_v194 (addf : (⟨S4x1048576, .f32⟩ : BufTy).Contents (Elt F) → (⟨S4x1048576, .f32⟩ : BufTy).Contents (Elt F) → (⟨S4x1048576, .f32⟩ : BufTy).Contents (Elt F)),
    binary main_v184 main_v179 main_v195 (subf : (⟨S4x1048576, .f32⟩ : BufTy).Contents (Elt F) → (⟨S4x1048576, .f32⟩ : BufTy).Contents (Elt F) → (⟨S4x1048576, .f32⟩ : BufTy).Contents (Elt F)),
    unary main_v48 main_v196 (broadcastInDim S1x1048576 ![1] bcast_S1048576_S1x1048576_1 : (⟨S1048576, .f32⟩ : BufTy).Contents (Elt F) → (⟨S1x1048576, .f32⟩ : BufTy).Contents (Elt F)),
    unary main_v196 main_v197 (broadcastInDim S4x1048576 ![0, 1] bcast_S1x1048576_S4x1048576_0_1 : (⟨S1x1048576, .f32⟩ : BufTy).Contents (Elt F) → (⟨S4x1048576, .f32⟩ : BufTy).Contents (Elt F)),
    binary main_v195 main_v197 main_v198 (mulf : (⟨S4x1048576, .f32⟩ : BufTy).Contents (Elt F) → (⟨S4x1048576, .f32⟩ : BufTy).Contents (Elt F) → (⟨S4x1048576, .f32⟩ : BufTy).Contents (Elt F)),
    binary main_v179 main_v198 main_v199 (addf : (⟨S4x1048576, .f32⟩ : BufTy).Contents (Elt F) → (⟨S4x1048576, .f32⟩ : BufTy).Contents (Elt F) → (⟨S4x1048576, .f32⟩ : BufTy).Contents (Elt F)),
    binary main_v194 main_v189 main_v200 (subf : (⟨S4x1048576, .f32⟩ : BufTy).Contents (Elt F) → (⟨S4x1048576, .f32⟩ : BufTy).Contents (Elt F) → (⟨S4x1048576, .f32⟩ : BufTy).Contents (Elt F)),
    unary main_v48 main_v201 (broadcastInDim S1x1048576 ![1] bcast_S1048576_S1x1048576_1 : (⟨S1048576, .f32⟩ : BufTy).Contents (Elt F) → (⟨S1x1048576, .f32⟩ : BufTy).Contents (Elt F)),
    unary main_v201 main_v202 (broadcastInDim S4x1048576 ![0, 1] bcast_S1x1048576_S4x1048576_0_1 : (⟨S1x1048576, .f32⟩ : BufTy).Contents (Elt F) → (⟨S4x1048576, .f32⟩ : BufTy).Contents (Elt F)),
    binary main_v200 main_v202 main_v203 (mulf : (⟨S4x1048576, .f32⟩ : BufTy).Contents (Elt F) → (⟨S4x1048576, .f32⟩ : BufTy).Contents (Elt F) → (⟨S4x1048576, .f32⟩ : BufTy).Contents (Elt F)),
    binary main_v189 main_v203 main_v204 (addf : (⟨S4x1048576, .f32⟩ : BufTy).Contents (Elt F) → (⟨S4x1048576, .f32⟩ : BufTy).Contents (Elt F) → (⟨S4x1048576, .f32⟩ : BufTy).Contents (Elt F)),
    binary main_v204 main_v199 main_v205 (subf : (⟨S4x1048576, .f32⟩ : BufTy).Contents (Elt F) → (⟨S4x1048576, .f32⟩ : BufTy).Contents (Elt F) → (⟨S4x1048576, .f32⟩ : BufTy).Contents (Elt F)),
    unary main_v54 main_v206 (broadcastInDim S1x1048576 ![1] bcast_S1048576_S1x1048576_1 : (⟨S1048576, .f32⟩ : BufTy).Contents (Elt F) → (⟨S1x1048576, .f32⟩ : BufTy).Contents (Elt F)),
    unary main_v206 main_v207 (broadcastInDim S4x1048576 ![0, 1] bcast_S1x1048576_S4x1048576_0_1 : (⟨S1x1048576, .f32⟩ : BufTy).Contents (Elt F) → (⟨S4x1048576, .f32⟩ : BufTy).Contents (Elt F)),
    binary main_v205 main_v207 main_v208 (mulf : (⟨S4x1048576, .f32⟩ : BufTy).Contents (Elt F) → (⟨S4x1048576, .f32⟩ : BufTy).Contents (Elt F) → (⟨S4x1048576, .f32⟩ : BufTy).Contents (Elt F)),
    binary main_v199 main_v208 main_v209 (addf : (⟨S4x1048576, .f32⟩ : BufTy).Contents (Elt F) → (⟨S4x1048576, .f32⟩ : BufTy).Contents (Elt F) → (⟨S4x1048576, .f32⟩ : BufTy).Contents (Elt F)),
    reshape main_v209 main_v210 rfl shapeCasts_S4x1048576_S1x4x1x1x1048576,
    reshape main_arg0 main_v211 rfl shapeCasts_S1x1x1x1048576x3_S1048576x3,
    unary main_v211 main_v212 ((extractStridedSlice S1048576x1 ![0, 0] · slices_S1048576x3_S1048576x1_0_0) : (⟨S1048576x3, .f32⟩ : BufTy).Contents (Elt F) → (⟨S1048576x1, .f32⟩ : BufTy).Contents (Elt F)),
    reshape main_v212 main_v213 rfl shapeCasts_S1048576x1_S1048576,
    nullary main_cst_63 (constant S_ .f32 0x3F800000#32),
    unary main_cst_63 main_v214 (broadcastInDim S1048576 ![] bcast_S_S1048576 : (⟨S_, .f32⟩ : BufTy).Contents (Elt F) → (⟨S1048576, .f32⟩ : BufTy).Contents (Elt F)),
    binary main_v213 main_v214 main_v215 (addf : (⟨S1048576, .f32⟩ : BufTy).Contents (Elt F) → (⟨S1048576, .f32⟩ : BufTy).Contents (Elt F) → (⟨S1048576, .f32⟩ : BufTy).Contents (Elt F)),
    nullary main_cst_64 (constant S_ .f32 0x3F000000#32),
    unary main_cst_64 main_v216 (broadcastInDim S1048576 ![] bcast_S_S1048576 : (⟨S_, .f32⟩ : BufTy).Contents (Elt F) → (⟨S1048576, .f32⟩ : BufTy).Contents (Elt F)),
    binary main_v215 main_v216 main_v217 (mulf : (⟨S1048576, .f32⟩ : BufTy).Contents (Elt F) → (⟨S1048576, .f32⟩ : BufTy).Contents (Elt F) → (⟨S1048576, .f32⟩ : BufTy).Contents (Elt F)),
    nullary main_cst_65 (constant S_ .f32 0x42FE0000#32),
    unary main_cst_65 main_v218 (broadcastInDim S1048576 ![] bcast_S_S1048576 : (⟨S_, .f32⟩ : BufTy).Contents (Elt F) → (⟨S1048576, .f32⟩ : BufTy).Contents (Elt F)),
    binary main_v217 main_v218 main_v219 (mulf : (⟨S1048576, .f32⟩ : BufTy).Contents (Elt F) → (⟨S1048576, .f32⟩ : BufTy).Contents (Elt F) → (⟨S1048576, .f32⟩ : BufTy).Contents (Elt F)),
    unary main_v211 main_v220 ((extractStridedSlice S1048576x1 ![0, 1] · slices_S1048576x3_S1048576x1_0_1) : (⟨S1048576x3, .f32⟩ : BufTy).Contents (Elt F) → (⟨S1048576x1, .f32⟩ : BufTy).Contents (Elt F)),
    reshape main_v220 main_v221 rfl shapeCasts_S1048576x1_S1048576,
    nullary main_cst_66 (constant S_ .f32 0x3F800000#32),
    unary main_cst_66 main_v222 (broadcastInDim S1048576 ![] bcast_S_S1048576 : (⟨S_, .f32⟩ : BufTy).Contents (Elt F) → (⟨S1048576, .f32⟩ : BufTy).Contents (Elt F)),
    binary main_v221 main_v222 main_v223 (addf : (⟨S1048576, .f32⟩ : BufTy).Contents (Elt F) → (⟨S1048576, .f32⟩ : BufTy).Contents (Elt F) → (⟨S1048576, .f32⟩ : BufTy).Contents (Elt F)),
    nullary main_cst_67 (constant S_ .f32 0x3F000000#32),
    unary main_cst_67 main_v224 (broadcastInDim S1048576 ![] bcast_S_S1048576 : (⟨S_, .f32⟩ : BufTy).Contents (Elt F) → (⟨S1048576, .f32⟩ : BufTy).Contents (Elt F)),
    binary main_v223 main_v224 main_v225 (mulf : (⟨S1048576, .f32⟩ : BufTy).Contents (Elt F) → (⟨S1048576, .f32⟩ : BufTy).Contents (Elt F) → (⟨S1048576, .f32⟩ : BufTy).Contents (Elt F)),
    nullary main_cst_68 (constant S_ .f32 0x42FE0000#32),
    unary main_cst_68 main_v226 (broadcastInDim S1048576 ![] bcast_S_S1048576 : (⟨S_, .f32⟩ : BufTy).Contents (Elt F) → (⟨S1048576, .f32⟩ : BufTy).Contents (Elt F)),
    binary main_v225 main_v226 main_v227 (mulf : (⟨S1048576, .f32⟩ : BufTy).Contents (Elt F) → (⟨S1048576, .f32⟩ : BufTy).Contents (Elt F) → (⟨S1048576, .f32⟩ : BufTy).Contents (Elt F)),
    unary main_v211 main_v228 ((extractStridedSlice S1048576x1 ![0, 2] · slices_S1048576x3_S1048576x1_0_2) : (⟨S1048576x3, .f32⟩ : BufTy).Contents (Elt F) → (⟨S1048576x1, .f32⟩ : BufTy).Contents (Elt F)) ]
/-- Window 4 is the sequence of its operations. -/
theorem part_eq4 (c : Dev nD) : main_part4 (F := F) c = seq ops4 := rfl
/-- Each touches TensorCore references only. -/
theorem ops_sub4 : (ops4 : List (HloOp τ sig (Elt F))).Forall fun op => op.bufs ⊆ tcRefs τ sig :=
  ⟨binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., reshape_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub ..⟩

/-- The operations of window 5 of @main, in order. -/
abbrev ops5 : List (HloOp τ sig (Elt F)) :=
  [ reshape main_v228 main_v229 rfl shapeCasts_S1048576x1_S1048576,
    nullary main_cst_69 (constant S_ .f32 0x3F800000#32),
    unary main_cst_69 main_v230 (broadcastInDim S1048576 ![] bcast_S_S1048576 : (⟨S_, .f32⟩ : BufTy).Contents (Elt F) → (⟨S1048576, .f32⟩ : BufTy).Contents (Elt F)),
    binary main_v229 main_v230 main_v231 (addf : (⟨S1048576, .f32⟩ : BufTy).Contents (Elt F) → (⟨S1048576, .f32⟩ : BufTy).Contents (Elt F) → (⟨S1048576, .f32⟩ : BufTy).Contents (Elt F)),
    nullary main_cst_70 (constant S_ .f32 0x3F000000#32),
    unary main_cst_70 main_v232 (broadcastInDim S1048576 ![] bcast_S_S1048576 : (⟨S_, .f32⟩ : BufTy).Contents (Elt F) → (⟨S1048576, .f32⟩ : BufTy).Contents (Elt F)),
    binary main_v231 main_v232 main_v233 (mulf : (⟨S1048576, .f32⟩ : BufTy).Contents (Elt F) → (⟨S1048576, .f32⟩ : BufTy).Contents (Elt F) → (⟨S1048576, .f32⟩ : BufTy).Contents (Elt F)),
    nullary main_cst_71 (constant S_ .f32 0x42FE0000#32),
    unary main_cst_71 main_v234 (broadcastInDim S1048576 ![] bcast_S_S1048576 : (⟨S_, .f32⟩ : BufTy).Contents (Elt F) → (⟨S1048576, .f32⟩ : BufTy).Contents (Elt F)),
    binary main_v233 main_v234 main_v235 (mulf : (⟨S1048576, .f32⟩ : BufTy).Contents (Elt F) → (⟨S1048576, .f32⟩ : BufTy).Contents (Elt F) → (⟨S1048576, .f32⟩ : BufTy).Contents (Elt F)),
    unary main_v219 main_v236 (Host.floor : (⟨S1048576, .f32⟩ : BufTy).Contents (Elt F) → (⟨S1048576, .f32⟩ : BufTy).Contents (Elt F)),
    nullary main_cst_72 (constant S_ .f32 0x00000000#32),
    nullary main_c_73 (constantI S_ 32 127#32),
    TRef.unary (TRef.of (T := ⟨S_, .f32⟩) main_cst_72) (TRef.of (T := ⟨S_, .f32⟩) main_call6_v0) id,
    TRef.unary (TRef.of (T := ⟨S_, .f32⟩) main_call6_v0) (TRef.of (T := ⟨S1048576, .f32⟩) main_call6_v1) (broadcastInDim S1048576 ![] bcast_S_S1048576),
    TRef.binary (TRef.of (T := ⟨S1048576, .f32⟩) main_call6_v1) (TRef.of (T := ⟨S1048576, .f32⟩) main_v236) (TRef.of (T := ⟨S1048576, .f32⟩) main_call6_v2) maximumf,
    TRef.unary (TRef.of (T := ⟨S_, .i32⟩) main_c_73) (TRef.of (T := ⟨S_, .f32⟩) main_call6_v3) (sitofp .f32),
    TRef.unary (TRef.of (T := ⟨S_, .f32⟩) main_call6_v3) (TRef.of (T := ⟨S1048576, .f32⟩) main_call6_v4) (broadcastInDim S1048576 ![] bcast_S_S1048576),
    TRef.binary (TRef.of (T := ⟨S1048576, .f32⟩) main_call6_v4) (TRef.of (T := ⟨S1048576, .f32⟩) main_call6_v2) (TRef.of (T := ⟨S1048576, .f32⟩) main_v237) minimumf,
    unary main_v227 main_v238 (Host.floor : (⟨S1048576, .f32⟩ : BufTy).Contents (Elt F) → (⟨S1048576, .f32⟩ : BufTy).Contents (Elt F)),
    nullary main_cst_74 (constant S_ .f32 0x00000000#32),
    nullary main_c_75 (constantI S_ 32 127#32),
    TRef.unary (TRef.of (T := ⟨S_, .f32⟩) main_cst_74) (TRef.of (T := ⟨S_, .f32⟩) main_call7_v0) id,
    TRef.unary (TRef.of (T := ⟨S_, .f32⟩) main_call7_v0) (TRef.of (T := ⟨S1048576, .f32⟩) main_call7_v1) (broadcastInDim S1048576 ![] bcast_S_S1048576),
    TRef.binary (TRef.of (T := ⟨S1048576, .f32⟩) main_call7_v1) (TRef.of (T := ⟨S1048576, .f32⟩) main_v238) (TRef.of (T := ⟨S1048576, .f32⟩) main_call7_v2) maximumf,
    TRef.unary (TRef.of (T := ⟨S_, .i32⟩) main_c_75) (TRef.of (T := ⟨S_, .f32⟩) main_call7_v3) (sitofp .f32),
    TRef.unary (TRef.of (T := ⟨S_, .f32⟩) main_call7_v3) (TRef.of (T := ⟨S1048576, .f32⟩) main_call7_v4) (broadcastInDim S1048576 ![] bcast_S_S1048576),
    TRef.binary (TRef.of (T := ⟨S1048576, .f32⟩) main_call7_v4) (TRef.of (T := ⟨S1048576, .f32⟩) main_call7_v2) (TRef.of (T := ⟨S1048576, .f32⟩) main_v239) minimumf,
    unary main_v235 main_v240 (Host.floor : (⟨S1048576, .f32⟩ : BufTy).Contents (Elt F) → (⟨S1048576, .f32⟩ : BufTy).Contents (Elt F)),
    nullary main_cst_76 (constant S_ .f32 0x00000000#32),
    nullary main_c_77 (constantI S_ 32 127#32),
    TRef.unary (TRef.of (T := ⟨S_, .f32⟩) main_cst_76) (TRef.of (T := ⟨S_, .f32⟩) main_call8_v0) id,
    TRef.unary (TRef.of (T := ⟨S_, .f32⟩) main_call8_v0) (TRef.of (T := ⟨S1048576, .f32⟩) main_call8_v1) (broadcastInDim S1048576 ![] bcast_S_S1048576),
    TRef.binary (TRef.of (T := ⟨S1048576, .f32⟩) main_call8_v1) (TRef.of (T := ⟨S1048576, .f32⟩) main_v240) (TRef.of (T := ⟨S1048576, .f32⟩) main_call8_v2) maximumf,
    TRef.unary (TRef.of (T := ⟨S_, .i32⟩) main_c_77) (TRef.of (T := ⟨S_, .f32⟩) main_call8_v3) (sitofp .f32),
    TRef.unary (TRef.of (T := ⟨S_, .f32⟩) main_call8_v3) (TRef.of (T := ⟨S1048576, .f32⟩) main_call8_v4) (broadcastInDim S1048576 ![] bcast_S_S1048576),
    TRef.binary (TRef.of (T := ⟨S1048576, .f32⟩) main_call8_v4) (TRef.of (T := ⟨S1048576, .f32⟩) main_call8_v2) (TRef.of (T := ⟨S1048576, .f32⟩) main_v241) minimumf,
    binary main_v219 main_v237 main_v242 (subf : (⟨S1048576, .f32⟩ : BufTy).Contents (Elt F) → (⟨S1048576, .f32⟩ : BufTy).Contents (Elt F) → (⟨S1048576, .f32⟩ : BufTy).Contents (Elt F)),
    nullary main_cst_78 (constant S_ .f32 0x00000000#32),
    nullary main_cst_79 (constant S_ .f32 0x3F800000#32),
    TRef.unary (TRef.of (T := ⟨S_, .f32⟩) main_cst_78) (TRef.of (T := ⟨S_, .f32⟩) main_call9_v0) id,
    TRef.unary (TRef.of (T := ⟨S_, .f32⟩) main_call9_v0) (TRef.of (T := ⟨S1048576, .f32⟩) main_call9_v1) (broadcastInDim S1048576 ![] bcast_S_S1048576),
    TRef.binary (TRef.of (T := ⟨S1048576, .f32⟩) main_call9_v1) (TRef.of (T := ⟨S1048576, .f32⟩) main_v242) (TRef.of (T := ⟨S1048576, .f32⟩) main_call9_v2) maximumf,
    TRef.unary (TRef.of (T := ⟨S_, .f32⟩) main_cst_79) (TRef.of (T := ⟨S_, .f32⟩) main_call9_v3) id,
    TRef.unary (TRef.of (T := ⟨S_, .f32⟩) main_call9_v3) (TRef.of (T := ⟨S1048576, .f32⟩) main_call9_v4) (broadcastInDim S1048576 ![] bcast_S_S1048576),
    TRef.binary (TRef.of (T := ⟨S1048576, .f32⟩) main_call9_v4) (TRef.of (T := ⟨S1048576, .f32⟩) main_call9_v2) (TRef.of (T := ⟨S1048576, .f32⟩) main_v243) minimumf,
    binary main_v227 main_v239 main_v244 (subf : (⟨S1048576, .f32⟩ : BufTy).Contents (Elt F) → (⟨S1048576, .f32⟩ : BufTy).Contents (Elt F) → (⟨S1048576, .f32⟩ : BufTy).Contents (Elt F)),
    nullary main_cst_80 (constant S_ .f32 0x00000000#32),
    nullary main_cst_81 (constant S_ .f32 0x3F800000#32),
    TRef.unary (TRef.of (T := ⟨S_, .f32⟩) main_cst_80) (TRef.of (T := ⟨S_, .f32⟩) main_call10_v0) id,
    TRef.unary (TRef.of (T := ⟨S_, .f32⟩) main_call10_v0) (TRef.of (T := ⟨S1048576, .f32⟩) main_call10_v1) (broadcastInDim S1048576 ![] bcast_S_S1048576),
    TRef.binary (TRef.of (T := ⟨S1048576, .f32⟩) main_call10_v1) (TRef.of (T := ⟨S1048576, .f32⟩) main_v244) (TRef.of (T := ⟨S1048576, .f32⟩) main_call10_v2) maximumf,
    TRef.unary (TRef.of (T := ⟨S_, .f32⟩) main_cst_81) (TRef.of (T := ⟨S_, .f32⟩) main_call10_v3) id,
    TRef.unary (TRef.of (T := ⟨S_, .f32⟩) main_call10_v3) (TRef.of (T := ⟨S1048576, .f32⟩) main_call10_v4) (broadcastInDim S1048576 ![] bcast_S_S1048576),
    TRef.binary (TRef.of (T := ⟨S1048576, .f32⟩) main_call10_v4) (TRef.of (T := ⟨S1048576, .f32⟩) main_call10_v2) (TRef.of (T := ⟨S1048576, .f32⟩) main_v245) minimumf,
    binary main_v235 main_v241 main_v246 (subf : (⟨S1048576, .f32⟩ : BufTy).Contents (Elt F) → (⟨S1048576, .f32⟩ : BufTy).Contents (Elt F) → (⟨S1048576, .f32⟩ : BufTy).Contents (Elt F)),
    nullary main_cst_82 (constant S_ .f32 0x00000000#32),
    nullary main_cst_83 (constant S_ .f32 0x3F800000#32),
    TRef.unary (TRef.of (T := ⟨S_, .f32⟩) main_cst_82) (TRef.of (T := ⟨S_, .f32⟩) main_call11_v0) id,
    TRef.unary (TRef.of (T := ⟨S_, .f32⟩) main_call11_v0) (TRef.of (T := ⟨S1048576, .f32⟩) main_call11_v1) (broadcastInDim S1048576 ![] bcast_S_S1048576),
    TRef.binary (TRef.of (T := ⟨S1048576, .f32⟩) main_call11_v1) (TRef.of (T := ⟨S1048576, .f32⟩) main_v246) (TRef.of (T := ⟨S1048576, .f32⟩) main_call11_v2) maximumf,
    TRef.unary (TRef.of (T := ⟨S_, .f32⟩) main_cst_83) (TRef.of (T := ⟨S_, .f32⟩) main_call11_v3) id,
    TRef.unary (TRef.of (T := ⟨S_, .f32⟩) main_call11_v3) (TRef.of (T := ⟨S1048576, .f32⟩) main_call11_v4) (broadcastInDim S1048576 ![] bcast_S_S1048576),
    TRef.binary (TRef.of (T := ⟨S1048576, .f32⟩) main_call11_v4) (TRef.of (T := ⟨S1048576, .f32⟩) main_call11_v2) (TRef.of (T := ⟨S1048576, .f32⟩) main_v247) minimumf,
    binary main_v243 main_v243 main_v248 (mulf : (⟨S1048576, .f32⟩ : BufTy).Contents (Elt F) → (⟨S1048576, .f32⟩ : BufTy).Contents (Elt F) → (⟨S1048576, .f32⟩ : BufTy).Contents (Elt F)),
    nullary main_cst_84 (constant S_ .f32 0x40000000#32),
    unary main_cst_84 main_v249 (broadcastInDim S1048576 ![] bcast_S_S1048576 : (⟨S_, .f32⟩ : BufTy).Contents (Elt F) → (⟨S1048576, .f32⟩ : BufTy).Contents (Elt F)),
    binary main_v249 main_v243 main_v250 (mulf : (⟨S1048576, .f32⟩ : BufTy).Contents (Elt F) → (⟨S1048576, .f32⟩ : BufTy).Contents (Elt F) → (⟨S1048576, .f32⟩ : BufTy).Contents (Elt F)),
    nullary main_cst_85 (constant S_ .f32 0x40400000#32),
    unary main_cst_85 main_v251 (broadcastInDim S1048576 ![] bcast_S_S1048576 : (⟨S_, .f32⟩ : BufTy).Contents (Elt F) → (⟨S1048576, .f32⟩ : BufTy).Contents (Elt F)),
    binary main_v251 main_v250 main_v252 (subf : (⟨S1048576, .f32⟩ : BufTy).Contents (Elt F) → (⟨S1048576, .f32⟩ : BufTy).Contents (Elt F) → (⟨S1048576, .f32⟩ : BufTy).Contents (Elt F)),
    binary main_v248 main_v252 main_v253 (mulf : (⟨S1048576, .f32⟩ : BufTy).Contents (Elt F) → (⟨S1048576, .f32⟩ : BufTy).Contents (Elt F) → (⟨S1048576, .f32⟩ : BufTy).Contents (Elt F)),
    binary main_v245 main_v245 main_v254 (mulf : (⟨S1048576, .f32⟩ : BufTy).Contents (Elt F) → (⟨S1048576, .f32⟩ : BufTy).Contents (Elt F) → (⟨S1048576, .f32⟩ : BufTy).Contents (Elt F)),
    nullary main_cst_86 (constant S_ .f32 0x40000000#32),
    unary main_cst_86 main_v255 (broadcastInDim S1048576 ![] bcast_S_S1048576 : (⟨S_, .f32⟩ : BufTy).Contents (Elt F) → (⟨S1048576, .f32⟩ : BufTy).Contents (Elt F)),
    binary main_v255 main_v245 main_v256 (mulf : (⟨S1048576, .f32⟩ : BufTy).Contents (Elt F) → (⟨S1048576, .f32⟩ : BufTy).Contents (Elt F) → (⟨S1048576, .f32⟩ : BufTy).Contents (Elt F)),
    nullary main_cst_87 (constant S_ .f32 0x40400000#32),
    unary main_cst_87 main_v257 (broadcastInDim S1048576 ![] bcast_S_S1048576 : (⟨S_, .f32⟩ : BufTy).Contents (Elt F) → (⟨S1048576, .f32⟩ : BufTy).Contents (Elt F)),
    binary main_v257 main_v256 main_v258 (subf : (⟨S1048576, .f32⟩ : BufTy).Contents (Elt F) → (⟨S1048576, .f32⟩ : BufTy).Contents (Elt F) → (⟨S1048576, .f32⟩ : BufTy).Contents (Elt F)),
    binary main_v254 main_v258 main_v259 (mulf : (⟨S1048576, .f32⟩ : BufTy).Contents (Elt F) → (⟨S1048576, .f32⟩ : BufTy).Contents (Elt F) → (⟨S1048576, .f32⟩ : BufTy).Contents (Elt F)),
    binary main_v247 main_v247 main_v260 (mulf : (⟨S1048576, .f32⟩ : BufTy).Contents (Elt F) → (⟨S1048576, .f32⟩ : BufTy).Contents (Elt F) → (⟨S1048576, .f32⟩ : BufTy).Contents (Elt F)),
    nullary main_cst_88 (constant S_ .f32 0x40000000#32),
    unary main_cst_88 main_v261 (broadcastInDim S1048576 ![] bcast_S_S1048576 : (⟨S_, .f32⟩ : BufTy).Contents (Elt F) → (⟨S1048576, .f32⟩ : BufTy).Contents (Elt F)),
    binary main_v261 main_v247 main_v262 (mulf : (⟨S1048576, .f32⟩ : BufTy).Contents (Elt F) → (⟨S1048576, .f32⟩ : BufTy).Contents (Elt F) → (⟨S1048576, .f32⟩ : BufTy).Contents (Elt F)),
    nullary main_cst_89 (constant S_ .f32 0x40400000#32),
    unary main_cst_89 main_v263 (broadcastInDim S1048576 ![] bcast_S_S1048576 : (⟨S_, .f32⟩ : BufTy).Contents (Elt F) → (⟨S1048576, .f32⟩ : BufTy).Contents (Elt F)),
    binary main_v263 main_v262 main_v264 (subf : (⟨S1048576, .f32⟩ : BufTy).Contents (Elt F) → (⟨S1048576, .f32⟩ : BufTy).Contents (Elt F) → (⟨S1048576, .f32⟩ : BufTy).Contents (Elt F)),
    binary main_v260 main_v264 main_v265 (mulf : (⟨S1048576, .f32⟩ : BufTy).Contents (Elt F) → (⟨S1048576, .f32⟩ : BufTy).Contents (Elt F) → (⟨S1048576, .f32⟩ : BufTy).Contents (Elt F)),
    unary main_v237 main_v266 (fptosi 32 : (⟨S1048576, .f32⟩ : BufTy).Contents (Elt F) → (⟨S1048576, .i32⟩ : BufTy).Contents (Elt F)),
    unary main_v239 main_v267 (fptosi 32 : (⟨S1048576, .f32⟩ : BufTy).Contents (Elt F) → (⟨S1048576, .i32⟩ : BufTy).Contents (Elt F)) ]
/-- Window 5 is the sequence of its operations. -/
theorem part_eq5 (c : Dev nD) : main_part5 (F := F) c = seq ops5 := rfl
/-- Each touches TensorCore references only. -/
theorem ops_sub5 : (ops5 : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., binary_bufs_sub .., unary_bufs_sub .., unary_bufs_sub ..⟩

/-- The operations of window 6 of @main, in order. -/
abbrev ops6 : List (HloOp τ sig (Elt F)) :=
  [ unary main_v241 main_v268 (fptosi 32 : (⟨S1048576, .f32⟩ : BufTy).Contents (Elt F) → (⟨S1048576, .i32⟩ : BufTy).Contents (Elt F)),
    nullary main_c_90 (constantI S_ 32 1#32),
    unary main_c_90 main_v269 (broadcastInDim S1048576 ![] bcast_S_S1048576 : (⟨S_, .i32⟩ : BufTy).Contents (Elt F) → (⟨S1048576, .i32⟩ : BufTy).Contents (Elt F)),
    binary main_v266 main_v269 main_v270 (addi : (⟨S1048576, .i32⟩ : BufTy).Contents (Elt F) → (⟨S1048576, .i32⟩ : BufTy).Contents (Elt F) → (⟨S1048576, .i32⟩ : BufTy).Contents (Elt F)),
    nullary main_c_91 (constantI S_ 32 127#32),
    unary main_c_91 main_v271 (broadcastInDim S1048576 ![] bcast_S_S1048576 : (⟨S_, .i32⟩ : BufTy).Contents (Elt F) → (⟨S1048576, .i32⟩ : BufTy).Contents (Elt F)),
    binary main_v270 main_v271 main_v272 (minsi : (⟨S1048576, .i32⟩ : BufTy).Contents (Elt F) → (⟨S1048576, .i32⟩ : BufTy).Contents (Elt F) → (⟨S1048576, .i32⟩ : BufTy).Contents (Elt F)),
    nullary main_c_92 (constantI S_ 32 1#32),
    unary main_c_92 main_v273 (broadcastInDim S1048576 ![] bcast_S_S1048576 : (⟨S_, .i32⟩ : BufTy).Contents (Elt F) → (⟨S1048576, .i32⟩ : BufTy).Contents (Elt F)),
    binary main_v267 main_v273 main_v274 (addi : (⟨S1048576, .i32⟩ : BufTy).Contents (Elt F) → (⟨S1048576, .i32⟩ : BufTy).Contents (Elt F) → (⟨S1048576, .i32⟩ : BufTy).Contents (Elt F)),
    nullary main_c_93 (constantI S_ 32 127#32),
    unary main_c_93 main_v275 (broadcastInDim S1048576 ![] bcast_S_S1048576 : (⟨S_, .i32⟩ : BufTy).Contents (Elt F) → (⟨S1048576, .i32⟩ : BufTy).Contents (Elt F)),
    binary main_v274 main_v275 main_v276 (minsi : (⟨S1048576, .i32⟩ : BufTy).Contents (Elt F) → (⟨S1048576, .i32⟩ : BufTy).Contents (Elt F) → (⟨S1048576, .i32⟩ : BufTy).Contents (Elt F)),
    nullary main_c_94 (constantI S_ 32 1#32),
    unary main_c_94 main_v277 (broadcastInDim S1048576 ![] bcast_S_S1048576 : (⟨S_, .i32⟩ : BufTy).Contents (Elt F) → (⟨S1048576, .i32⟩ : BufTy).Contents (Elt F)),
    binary main_v268 main_v277 main_v278 (addi : (⟨S1048576, .i32⟩ : BufTy).Contents (Elt F) → (⟨S1048576, .i32⟩ : BufTy).Contents (Elt F) → (⟨S1048576, .i32⟩ : BufTy).Contents (Elt F)),
    nullary main_c_95 (constantI S_ 32 127#32),
    unary main_c_95 main_v279 (broadcastInDim S1048576 ![] bcast_S_S1048576 : (⟨S_, .i32⟩ : BufTy).Contents (Elt F) → (⟨S1048576, .i32⟩ : BufTy).Contents (Elt F)),
    binary main_v278 main_v279 main_v280 (minsi : (⟨S1048576, .i32⟩ : BufTy).Contents (Elt F) → (⟨S1048576, .i32⟩ : BufTy).Contents (Elt F) → (⟨S1048576, .i32⟩ : BufTy).Contents (Elt F)),
    reshape main_arg2 main_v281 rfl shapeCasts_S1x4x128x128x128_S4x2097152,
    nullary main_c_96 (constantI S_ 32 128#32),
    unary main_c_96 main_v282 (broadcastInDim S1048576 ![] bcast_S_S1048576 : (⟨S_, .i32⟩ : BufTy).Contents (Elt F) → (⟨S1048576, .i32⟩ : BufTy).Contents (Elt F)),
    binary main_v268 main_v282 main_v283 (muli : (⟨S1048576, .i32⟩ : BufTy).Contents (Elt F) → (⟨S1048576, .i32⟩ : BufTy).Contents (Elt F) → (⟨S1048576, .i32⟩ : BufTy).Contents (Elt F)),
    binary main_v283 main_v267 main_v284 (addi : (⟨S1048576, .i32⟩ : BufTy).Contents (Elt F) → (⟨S1048576, .i32⟩ : BufTy).Contents (Elt F) → (⟨S1048576, .i32⟩ : BufTy).Contents (Elt F)),
    nullary main_c_97 (constantI S_ 32 128#32),
    unary main_c_97 main_v285 (broadcastInDim S1048576 ![] bcast_S_S1048576 : (⟨S_, .i32⟩ : BufTy).Contents (Elt F) → (⟨S1048576, .i32⟩ : BufTy).Contents (Elt F)),
    binary main_v284 main_v285 main_v286 (muli : (⟨S1048576, .i32⟩ : BufTy).Contents (Elt F) → (⟨S1048576, .i32⟩ : BufTy).Contents (Elt F) → (⟨S1048576, .i32⟩ : BufTy).Contents (Elt F)),
    binary main_v286 main_v266 main_v287 (addi : (⟨S1048576, .i32⟩ : BufTy).Contents (Elt F) → (⟨S1048576, .i32⟩ : BufTy).Contents (Elt F) → (⟨S1048576, .i32⟩ : BufTy).Contents (Elt F)),
    nullary main_c_98 (constantI S_ 32 0#32),
    unary main_c_98 main_v288 (broadcastInDim S1048576 ![] bcast_S_S1048576 : (⟨S_, .i32⟩ : BufTy).Contents (Elt F) → (⟨S1048576, .i32⟩ : BufTy).Contents (Elt F)),
    binary main_v287 main_v288 main_v289 (cmpi .slt : (⟨S1048576, .i32⟩ : BufTy).Contents (Elt F) → (⟨S1048576, .i32⟩ : BufTy).Contents (Elt F) → (⟨S1048576, .i1⟩ : BufTy).Contents (Elt F)),
    nullary main_c_99 (constantI S_ 32 2097152#32),
    unary main_c_99 main_v290 (broadcastInDim S1048576 ![] bcast_S_S1048576 : (⟨S_, .i32⟩ : BufTy).Contents (Elt F) → (⟨S1048576, .i32⟩ : BufTy).Contents (Elt F)),
    binary main_v287 main_v290 main_v291 (addi : (⟨S1048576, .i32⟩ : BufTy).Contents (Elt F) → (⟨S1048576, .i32⟩ : BufTy).Contents (Elt F) → (⟨S1048576, .i32⟩ : BufTy).Contents (Elt F)),
    ternary main_v289 main_v291 main_v287 main_v292 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v292 main_v293 (broadcastInDim S1048576x1 ![0] bcast_S1048576_S1048576x1_0 : (⟨S1048576, .i32⟩ : BufTy).Contents (Elt F) → (⟨S1048576x1, .i32⟩ : BufTy).Contents (Elt F)),
    binary main_v281 main_v293 main_v294 ((fun x i => Host.gather gather_S4x2097152_S1048576x1_S4x1048576_0_1_n_n_1_1_41 x i) : (⟨S4x2097152, .f32⟩ : BufTy).Contents (Elt F) → (⟨S1048576x1, .i32⟩ : BufTy).Contents (Elt F) → (⟨S4x1048576, .f32⟩ : BufTy).Contents (Elt F)),
    nullary main_c_100 (constantI S_ 32 128#32),
    unary main_c_100 main_v295 (broadcastInDim S1048576 ![] bcast_S_S1048576 : (⟨S_, .i32⟩ : BufTy).Contents (Elt F) → (⟨S1048576, .i32⟩ : BufTy).Contents (Elt F)),
    binary main_v268 main_v295 main_v296 (muli : (⟨S1048576, .i32⟩ : BufTy).Contents (Elt F) → (⟨S1048576, .i32⟩ : BufTy).Contents (Elt F) → (⟨S1048576, .i32⟩ : BufTy).Contents (Elt F)),
    binary main_v296 main_v267 main_v297 (addi : (⟨S1048576, .i32⟩ : BufTy).Contents (Elt F) → (⟨S1048576, .i32⟩ : BufTy).Contents (Elt F) → (⟨S1048576, .i32⟩ : BufTy).Contents (Elt F)),
    nullary main_c_101 (constantI S_ 32 128#32),
    unary main_c_101 main_v298 (broadcastInDim S1048576 ![] bcast_S_S1048576 : (⟨S_, .i32⟩ : BufTy).Contents (Elt F) → (⟨S1048576, .i32⟩ : BufTy).Contents (Elt F)),
    binary main_v297 main_v298 main_v299 (muli : (⟨S1048576, .i32⟩ : BufTy).Contents (Elt F) → (⟨S1048576, .i32⟩ : BufTy).Contents (Elt F) → (⟨S1048576, .i32⟩ : BufTy).Contents (Elt F)),
    binary main_v299 main_v272 main_v300 (addi : (⟨S1048576, .i32⟩ : BufTy).Contents (Elt F) → (⟨S1048576, .i32⟩ : BufTy).Contents (Elt F) → (⟨S1048576, .i32⟩ : BufTy).Contents (Elt F)),
    nullary main_c_102 (constantI S_ 32 0#32),
    unary main_c_102 main_v301 (broadcastInDim S1048576 ![] bcast_S_S1048576 : (⟨S_, .i32⟩ : BufTy).Contents (Elt F) → (⟨S1048576, .i32⟩ : BufTy).Contents (Elt F)),
    binary main_v300 main_v301 main_v302 (cmpi .slt : (⟨S1048576, .i32⟩ : BufTy).Contents (Elt F) → (⟨S1048576, .i32⟩ : BufTy).Contents (Elt F) → (⟨S1048576, .i1⟩ : BufTy).Contents (Elt F)),
    nullary main_c_103 (constantI S_ 32 2097152#32),
    unary main_c_103 main_v303 (broadcastInDim S1048576 ![] bcast_S_S1048576 : (⟨S_, .i32⟩ : BufTy).Contents (Elt F) → (⟨S1048576, .i32⟩ : BufTy).Contents (Elt F)),
    binary main_v300 main_v303 main_v304 (addi : (⟨S1048576, .i32⟩ : BufTy).Contents (Elt F) → (⟨S1048576, .i32⟩ : BufTy).Contents (Elt F) → (⟨S1048576, .i32⟩ : BufTy).Contents (Elt F)),
    ternary main_v302 main_v304 main_v300 main_v305 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v305 main_v306 (broadcastInDim S1048576x1 ![0] bcast_S1048576_S1048576x1_0 : (⟨S1048576, .i32⟩ : BufTy).Contents (Elt F) → (⟨S1048576x1, .i32⟩ : BufTy).Contents (Elt F)),
    binary main_v281 main_v306 main_v307 ((fun x i => Host.gather gather_S4x2097152_S1048576x1_S4x1048576_0_1_n_n_1_1_41 x i) : (⟨S4x2097152, .f32⟩ : BufTy).Contents (Elt F) → (⟨S1048576x1, .i32⟩ : BufTy).Contents (Elt F) → (⟨S4x1048576, .f32⟩ : BufTy).Contents (Elt F)),
    nullary main_c_104 (constantI S_ 32 128#32),
    unary main_c_104 main_v308 (broadcastInDim S1048576 ![] bcast_S_S1048576 : (⟨S_, .i32⟩ : BufTy).Contents (Elt F) → (⟨S1048576, .i32⟩ : BufTy).Contents (Elt F)),
    binary main_v268 main_v308 main_v309 (muli : (⟨S1048576, .i32⟩ : BufTy).Contents (Elt F) → (⟨S1048576, .i32⟩ : BufTy).Contents (Elt F) → (⟨S1048576, .i32⟩ : BufTy).Contents (Elt F)),
    binary main_v309 main_v276 main_v310 (addi : (⟨S1048576, .i32⟩ : BufTy).Contents (Elt F) → (⟨S1048576, .i32⟩ : BufTy).Contents (Elt F) → (⟨S1048576, .i32⟩ : BufTy).Contents (Elt F)),
    nullary main_c_105 (constantI S_ 32 128#32),
    unary main_c_105 main_v311 (broadcastInDim S1048576 ![] bcast_S_S1048576 : (⟨S_, .i32⟩ : BufTy).Contents (Elt F) → (⟨S1048576, .i32⟩ : BufTy).Contents (Elt F)) ]
/-- Window 6 is the sequence of its operations. -/
theorem part_eq6 (c : Dev nD) : main_part6 (F := F) c = seq ops6 := rfl
/-- Each touches TensorCore references only. -/
theorem ops_sub6 : (ops6 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., reshape_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., nullary_bufs_sub .., unary_bufs_sub ..⟩

/-- The operations of window 7 of @main, in order. -/
abbrev ops7 : List (HloOp τ sig (Elt F)) :=
  [ binary main_v310 main_v311 main_v312 (muli : (⟨S1048576, .i32⟩ : BufTy).Contents (Elt F) → (⟨S1048576, .i32⟩ : BufTy).Contents (Elt F) → (⟨S1048576, .i32⟩ : BufTy).Contents (Elt F)),
    binary main_v312 main_v266 main_v313 (addi : (⟨S1048576, .i32⟩ : BufTy).Contents (Elt F) → (⟨S1048576, .i32⟩ : BufTy).Contents (Elt F) → (⟨S1048576, .i32⟩ : BufTy).Contents (Elt F)),
    nullary main_c_106 (constantI S_ 32 0#32),
    unary main_c_106 main_v314 (broadcastInDim S1048576 ![] bcast_S_S1048576 : (⟨S_, .i32⟩ : BufTy).Contents (Elt F) → (⟨S1048576, .i32⟩ : BufTy).Contents (Elt F)),
    binary main_v313 main_v314 main_v315 (cmpi .slt : (⟨S1048576, .i32⟩ : BufTy).Contents (Elt F) → (⟨S1048576, .i32⟩ : BufTy).Contents (Elt F) → (⟨S1048576, .i1⟩ : BufTy).Contents (Elt F)),
    nullary main_c_107 (constantI S_ 32 2097152#32),
    unary main_c_107 main_v316 (broadcastInDim S1048576 ![] bcast_S_S1048576 : (⟨S_, .i32⟩ : BufTy).Contents (Elt F) → (⟨S1048576, .i32⟩ : BufTy).Contents (Elt F)),
    binary main_v313 main_v316 main_v317 (addi : (⟨S1048576, .i32⟩ : BufTy).Contents (Elt F) → (⟨S1048576, .i32⟩ : BufTy).Contents (Elt F) → (⟨S1048576, .i32⟩ : BufTy).Contents (Elt F)),
    ternary main_v315 main_v317 main_v313 main_v318 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v318 main_v319 (broadcastInDim S1048576x1 ![0] bcast_S1048576_S1048576x1_0 : (⟨S1048576, .i32⟩ : BufTy).Contents (Elt F) → (⟨S1048576x1, .i32⟩ : BufTy).Contents (Elt F)),
    binary main_v281 main_v319 main_v320 ((fun x i => Host.gather gather_S4x2097152_S1048576x1_S4x1048576_0_1_n_n_1_1_41 x i) : (⟨S4x2097152, .f32⟩ : BufTy).Contents (Elt F) → (⟨S1048576x1, .i32⟩ : BufTy).Contents (Elt F) → (⟨S4x1048576, .f32⟩ : BufTy).Contents (Elt F)),
    nullary main_c_108 (constantI S_ 32 128#32),
    unary main_c_108 main_v321 (broadcastInDim S1048576 ![] bcast_S_S1048576 : (⟨S_, .i32⟩ : BufTy).Contents (Elt F) → (⟨S1048576, .i32⟩ : BufTy).Contents (Elt F)),
    binary main_v268 main_v321 main_v322 (muli : (⟨S1048576, .i32⟩ : BufTy).Contents (Elt F) → (⟨S1048576, .i32⟩ : BufTy).Contents (Elt F) → (⟨S1048576, .i32⟩ : BufTy).Contents (Elt F)),
    binary main_v322 main_v276 main_v323 (addi : (⟨S1048576, .i32⟩ : BufTy).Contents (Elt F) → (⟨S1048576, .i32⟩ : BufTy).Contents (Elt F) → (⟨S1048576, .i32⟩ : BufTy).Contents (Elt F)),
    nullary main_c_109 (constantI S_ 32 128#32),
    unary main_c_109 main_v324 (broadcastInDim S1048576 ![] bcast_S_S1048576 : (⟨S_, .i32⟩ : BufTy).Contents (Elt F) → (⟨S1048576, .i32⟩ : BufTy).Contents (Elt F)),
    binary main_v323 main_v324 main_v325 (muli : (⟨S1048576, .i32⟩ : BufTy).Contents (Elt F) → (⟨S1048576, .i32⟩ : BufTy).Contents (Elt F) → (⟨S1048576, .i32⟩ : BufTy).Contents (Elt F)),
    binary main_v325 main_v272 main_v326 (addi : (⟨S1048576, .i32⟩ : BufTy).Contents (Elt F) → (⟨S1048576, .i32⟩ : BufTy).Contents (Elt F) → (⟨S1048576, .i32⟩ : BufTy).Contents (Elt F)),
    nullary main_c_110 (constantI S_ 32 0#32),
    unary main_c_110 main_v327 (broadcastInDim S1048576 ![] bcast_S_S1048576 : (⟨S_, .i32⟩ : BufTy).Contents (Elt F) → (⟨S1048576, .i32⟩ : BufTy).Contents (Elt F)),
    binary main_v326 main_v327 main_v328 (cmpi .slt : (⟨S1048576, .i32⟩ : BufTy).Contents (Elt F) → (⟨S1048576, .i32⟩ : BufTy).Contents (Elt F) → (⟨S1048576, .i1⟩ : BufTy).Contents (Elt F)),
    nullary main_c_111 (constantI S_ 32 2097152#32),
    unary main_c_111 main_v329 (broadcastInDim S1048576 ![] bcast_S_S1048576 : (⟨S_, .i32⟩ : BufTy).Contents (Elt F) → (⟨S1048576, .i32⟩ : BufTy).Contents (Elt F)),
    binary main_v326 main_v329 main_v330 (addi : (⟨S1048576, .i32⟩ : BufTy).Contents (Elt F) → (⟨S1048576, .i32⟩ : BufTy).Contents (Elt F) → (⟨S1048576, .i32⟩ : BufTy).Contents (Elt F)),
    ternary main_v328 main_v330 main_v326 main_v331 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v331 main_v332 (broadcastInDim S1048576x1 ![0] bcast_S1048576_S1048576x1_0 : (⟨S1048576, .i32⟩ : BufTy).Contents (Elt F) → (⟨S1048576x1, .i32⟩ : BufTy).Contents (Elt F)),
    binary main_v281 main_v332 main_v333 ((fun x i => Host.gather gather_S4x2097152_S1048576x1_S4x1048576_0_1_n_n_1_1_41 x i) : (⟨S4x2097152, .f32⟩ : BufTy).Contents (Elt F) → (⟨S1048576x1, .i32⟩ : BufTy).Contents (Elt F) → (⟨S4x1048576, .f32⟩ : BufTy).Contents (Elt F)),
    nullary main_c_112 (constantI S_ 32 128#32),
    unary main_c_112 main_v334 (broadcastInDim S1048576 ![] bcast_S_S1048576 : (⟨S_, .i32⟩ : BufTy).Contents (Elt F) → (⟨S1048576, .i32⟩ : BufTy).Contents (Elt F)),
    binary main_v280 main_v334 main_v335 (muli : (⟨S1048576, .i32⟩ : BufTy).Contents (Elt F) → (⟨S1048576, .i32⟩ : BufTy).Contents (Elt F) → (⟨S1048576, .i32⟩ : BufTy).Contents (Elt F)),
    binary main_v335 main_v267 main_v336 (addi : (⟨S1048576, .i32⟩ : BufTy).Contents (Elt F) → (⟨S1048576, .i32⟩ : BufTy).Contents (Elt F) → (⟨S1048576, .i32⟩ : BufTy).Contents (Elt F)),
    nullary main_c_113 (constantI S_ 32 128#32),
    unary main_c_113 main_v337 (broadcastInDim S1048576 ![] bcast_S_S1048576 : (⟨S_, .i32⟩ : BufTy).Contents (Elt F) → (⟨S1048576, .i32⟩ : BufTy).Contents (Elt F)),
    binary main_v336 main_v337 main_v338 (muli : (⟨S1048576, .i32⟩ : BufTy).Contents (Elt F) → (⟨S1048576, .i32⟩ : BufTy).Contents (Elt F) → (⟨S1048576, .i32⟩ : BufTy).Contents (Elt F)),
    binary main_v338 main_v266 main_v339 (addi : (⟨S1048576, .i32⟩ : BufTy).Contents (Elt F) → (⟨S1048576, .i32⟩ : BufTy).Contents (Elt F) → (⟨S1048576, .i32⟩ : BufTy).Contents (Elt F)),
    nullary main_c_114 (constantI S_ 32 0#32),
    unary main_c_114 main_v340 (broadcastInDim S1048576 ![] bcast_S_S1048576 : (⟨S_, .i32⟩ : BufTy).Contents (Elt F) → (⟨S1048576, .i32⟩ : BufTy).Contents (Elt F)),
    binary main_v339 main_v340 main_v341 (cmpi .slt : (⟨S1048576, .i32⟩ : BufTy).Contents (Elt F) → (⟨S1048576, .i32⟩ : BufTy).Contents (Elt F) → (⟨S1048576, .i1⟩ : BufTy).Contents (Elt F)),
    nullary main_c_115 (constantI S_ 32 2097152#32),
    unary main_c_115 main_v342 (broadcastInDim S1048576 ![] bcast_S_S1048576 : (⟨S_, .i32⟩ : BufTy).Contents (Elt F) → (⟨S1048576, .i32⟩ : BufTy).Contents (Elt F)),
    binary main_v339 main_v342 main_v343 (addi : (⟨S1048576, .i32⟩ : BufTy).Contents (Elt F) → (⟨S1048576, .i32⟩ : BufTy).Contents (Elt F) → (⟨S1048576, .i32⟩ : BufTy).Contents (Elt F)),
    ternary main_v341 main_v343 main_v339 main_v344 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v344 main_v345 (broadcastInDim S1048576x1 ![0] bcast_S1048576_S1048576x1_0 : (⟨S1048576, .i32⟩ : BufTy).Contents (Elt F) → (⟨S1048576x1, .i32⟩ : BufTy).Contents (Elt F)),
    binary main_v281 main_v345 main_v346 ((fun x i => Host.gather gather_S4x2097152_S1048576x1_S4x1048576_0_1_n_n_1_1_41 x i) : (⟨S4x2097152, .f32⟩ : BufTy).Contents (Elt F) → (⟨S1048576x1, .i32⟩ : BufTy).Contents (Elt F) → (⟨S4x1048576, .f32⟩ : BufTy).Contents (Elt F)),
    nullary main_c_116 (constantI S_ 32 128#32),
    unary main_c_116 main_v347 (broadcastInDim S1048576 ![] bcast_S_S1048576 : (⟨S_, .i32⟩ : BufTy).Contents (Elt F) → (⟨S1048576, .i32⟩ : BufTy).Contents (Elt F)),
    binary main_v280 main_v347 main_v348 (muli : (⟨S1048576, .i32⟩ : BufTy).Contents (Elt F) → (⟨S1048576, .i32⟩ : BufTy).Contents (Elt F) → (⟨S1048576, .i32⟩ : BufTy).Contents (Elt F)),
    binary main_v348 main_v267 main_v349 (addi : (⟨S1048576, .i32⟩ : BufTy).Contents (Elt F) → (⟨S1048576, .i32⟩ : BufTy).Contents (Elt F) → (⟨S1048576, .i32⟩ : BufTy).Contents (Elt F)),
    nullary main_c_117 (constantI S_ 32 128#32),
    unary main_c_117 main_v350 (broadcastInDim S1048576 ![] bcast_S_S1048576 : (⟨S_, .i32⟩ : BufTy).Contents (Elt F) → (⟨S1048576, .i32⟩ : BufTy).Contents (Elt F)),
    binary main_v349 main_v350 main_v351 (muli : (⟨S1048576, .i32⟩ : BufTy).Contents (Elt F) → (⟨S1048576, .i32⟩ : BufTy).Contents (Elt F) → (⟨S1048576, .i32⟩ : BufTy).Contents (Elt F)),
    binary main_v351 main_v272 main_v352 (addi : (⟨S1048576, .i32⟩ : BufTy).Contents (Elt F) → (⟨S1048576, .i32⟩ : BufTy).Contents (Elt F) → (⟨S1048576, .i32⟩ : BufTy).Contents (Elt F)),
    nullary main_c_118 (constantI S_ 32 0#32),
    unary main_c_118 main_v353 (broadcastInDim S1048576 ![] bcast_S_S1048576 : (⟨S_, .i32⟩ : BufTy).Contents (Elt F) → (⟨S1048576, .i32⟩ : BufTy).Contents (Elt F)),
    binary main_v352 main_v353 main_v354 (cmpi .slt : (⟨S1048576, .i32⟩ : BufTy).Contents (Elt F) → (⟨S1048576, .i32⟩ : BufTy).Contents (Elt F) → (⟨S1048576, .i1⟩ : BufTy).Contents (Elt F)),
    nullary main_c_119 (constantI S_ 32 2097152#32),
    unary main_c_119 main_v355 (broadcastInDim S1048576 ![] bcast_S_S1048576 : (⟨S_, .i32⟩ : BufTy).Contents (Elt F) → (⟨S1048576, .i32⟩ : BufTy).Contents (Elt F)),
    binary main_v352 main_v355 main_v356 (addi : (⟨S1048576, .i32⟩ : BufTy).Contents (Elt F) → (⟨S1048576, .i32⟩ : BufTy).Contents (Elt F) → (⟨S1048576, .i32⟩ : BufTy).Contents (Elt F)),
    ternary main_v354 main_v356 main_v352 main_v357 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)) ]
/-- Window 7 is the sequence of its operations. -/
theorem part_eq7 (c : Dev nD) : main_part7 (F := F) c = seq ops7 := rfl
/-- Each touches TensorCore references only. -/
theorem ops_sub7 : (ops7 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub ..⟩

/-- The operations of window 8 of @main, in order. -/
abbrev ops8 : List (HloOp τ sig (Elt F)) :=
  [ unary main_v357 main_v358 (broadcastInDim S1048576x1 ![0] bcast_S1048576_S1048576x1_0 : (⟨S1048576, .i32⟩ : BufTy).Contents (Elt F) → (⟨S1048576x1, .i32⟩ : BufTy).Contents (Elt F)),
    binary main_v281 main_v358 main_v359 ((fun x i => Host.gather gather_S4x2097152_S1048576x1_S4x1048576_0_1_n_n_1_1_41 x i) : (⟨S4x2097152, .f32⟩ : BufTy).Contents (Elt F) → (⟨S1048576x1, .i32⟩ : BufTy).Contents (Elt F) → (⟨S4x1048576, .f32⟩ : BufTy).Contents (Elt F)),
    nullary main_c_120 (constantI S_ 32 128#32),
    unary main_c_120 main_v360 (broadcastInDim S1048576 ![] bcast_S_S1048576 : (⟨S_, .i32⟩ : BufTy).Contents (Elt F) → (⟨S1048576, .i32⟩ : BufTy).Contents (Elt F)),
    binary main_v280 main_v360 main_v361 (muli : (⟨S1048576, .i32⟩ : BufTy).Contents (Elt F) → (⟨S1048576, .i32⟩ : BufTy).Contents (Elt F) → (⟨S1048576, .i32⟩ : BufTy).Contents (Elt F)),
    binary main_v361 main_v276 main_v362 (addi : (⟨S1048576, .i32⟩ : BufTy).Contents (Elt F) → (⟨S1048576, .i32⟩ : BufTy).Contents (Elt F) → (⟨S1048576, .i32⟩ : BufTy).Contents (Elt F)),
    nullary main_c_121 (constantI S_ 32 128#32),
    unary main_c_121 main_v363 (broadcastInDim S1048576 ![] bcast_S_S1048576 : (⟨S_, .i32⟩ : BufTy).Contents (Elt F) → (⟨S1048576, .i32⟩ : BufTy).Contents (Elt F)),
    binary main_v362 main_v363 main_v364 (muli : (⟨S1048576, .i32⟩ : BufTy).Contents (Elt F) → (⟨S1048576, .i32⟩ : BufTy).Contents (Elt F) → (⟨S1048576, .i32⟩ : BufTy).Contents (Elt F)),
    binary main_v364 main_v266 main_v365 (addi : (⟨S1048576, .i32⟩ : BufTy).Contents (Elt F) → (⟨S1048576, .i32⟩ : BufTy).Contents (Elt F) → (⟨S1048576, .i32⟩ : BufTy).Contents (Elt F)),
    nullary main_c_122 (constantI S_ 32 0#32),
    unary main_c_122 main_v366 (broadcastInDim S1048576 ![] bcast_S_S1048576 : (⟨S_, .i32⟩ : BufTy).Contents (Elt F) → (⟨S1048576, .i32⟩ : BufTy).Contents (Elt F)),
    binary main_v365 main_v366 main_v367 (cmpi .slt : (⟨S1048576, .i32⟩ : BufTy).Contents (Elt F) → (⟨S1048576, .i32⟩ : BufTy).Contents (Elt F) → (⟨S1048576, .i1⟩ : BufTy).Contents (Elt F)),
    nullary main_c_123 (constantI S_ 32 2097152#32),
    unary main_c_123 main_v368 (broadcastInDim S1048576 ![] bcast_S_S1048576 : (⟨S_, .i32⟩ : BufTy).Contents (Elt F) → (⟨S1048576, .i32⟩ : BufTy).Contents (Elt F)),
    binary main_v365 main_v368 main_v369 (addi : (⟨S1048576, .i32⟩ : BufTy).Contents (Elt F) → (⟨S1048576, .i32⟩ : BufTy).Contents (Elt F) → (⟨S1048576, .i32⟩ : BufTy).Contents (Elt F)),
    ternary main_v367 main_v369 main_v365 main_v370 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v370 main_v371 (broadcastInDim S1048576x1 ![0] bcast_S1048576_S1048576x1_0 : (⟨S1048576, .i32⟩ : BufTy).Contents (Elt F) → (⟨S1048576x1, .i32⟩ : BufTy).Contents (Elt F)),
    binary main_v281 main_v371 main_v372 ((fun x i => Host.gather gather_S4x2097152_S1048576x1_S4x1048576_0_1_n_n_1_1_41 x i) : (⟨S4x2097152, .f32⟩ : BufTy).Contents (Elt F) → (⟨S1048576x1, .i32⟩ : BufTy).Contents (Elt F) → (⟨S4x1048576, .f32⟩ : BufTy).Contents (Elt F)),
    nullary main_c_124 (constantI S_ 32 128#32),
    unary main_c_124 main_v373 (broadcastInDim S1048576 ![] bcast_S_S1048576 : (⟨S_, .i32⟩ : BufTy).Contents (Elt F) → (⟨S1048576, .i32⟩ : BufTy).Contents (Elt F)),
    binary main_v280 main_v373 main_v374 (muli : (⟨S1048576, .i32⟩ : BufTy).Contents (Elt F) → (⟨S1048576, .i32⟩ : BufTy).Contents (Elt F) → (⟨S1048576, .i32⟩ : BufTy).Contents (Elt F)),
    binary main_v374 main_v276 main_v375 (addi : (⟨S1048576, .i32⟩ : BufTy).Contents (Elt F) → (⟨S1048576, .i32⟩ : BufTy).Contents (Elt F) → (⟨S1048576, .i32⟩ : BufTy).Contents (Elt F)),
    nullary main_c_125 (constantI S_ 32 128#32),
    unary main_c_125 main_v376 (broadcastInDim S1048576 ![] bcast_S_S1048576 : (⟨S_, .i32⟩ : BufTy).Contents (Elt F) → (⟨S1048576, .i32⟩ : BufTy).Contents (Elt F)),
    binary main_v375 main_v376 main_v377 (muli : (⟨S1048576, .i32⟩ : BufTy).Contents (Elt F) → (⟨S1048576, .i32⟩ : BufTy).Contents (Elt F) → (⟨S1048576, .i32⟩ : BufTy).Contents (Elt F)),
    binary main_v377 main_v272 main_v378 (addi : (⟨S1048576, .i32⟩ : BufTy).Contents (Elt F) → (⟨S1048576, .i32⟩ : BufTy).Contents (Elt F) → (⟨S1048576, .i32⟩ : BufTy).Contents (Elt F)),
    nullary main_c_126 (constantI S_ 32 0#32),
    unary main_c_126 main_v379 (broadcastInDim S1048576 ![] bcast_S_S1048576 : (⟨S_, .i32⟩ : BufTy).Contents (Elt F) → (⟨S1048576, .i32⟩ : BufTy).Contents (Elt F)),
    binary main_v378 main_v379 main_v380 (cmpi .slt : (⟨S1048576, .i32⟩ : BufTy).Contents (Elt F) → (⟨S1048576, .i32⟩ : BufTy).Contents (Elt F) → (⟨S1048576, .i1⟩ : BufTy).Contents (Elt F)),
    nullary main_c_127 (constantI S_ 32 2097152#32),
    unary main_c_127 main_v381 (broadcastInDim S1048576 ![] bcast_S_S1048576 : (⟨S_, .i32⟩ : BufTy).Contents (Elt F) → (⟨S1048576, .i32⟩ : BufTy).Contents (Elt F)),
    binary main_v378 main_v381 main_v382 (addi : (⟨S1048576, .i32⟩ : BufTy).Contents (Elt F) → (⟨S1048576, .i32⟩ : BufTy).Contents (Elt F) → (⟨S1048576, .i32⟩ : BufTy).Contents (Elt F)),
    ternary main_v380 main_v382 main_v378 main_v383 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v383 main_v384 (broadcastInDim S1048576x1 ![0] bcast_S1048576_S1048576x1_0 : (⟨S1048576, .i32⟩ : BufTy).Contents (Elt F) → (⟨S1048576x1, .i32⟩ : BufTy).Contents (Elt F)),
    binary main_v281 main_v384 main_v385 ((fun x i => Host.gather gather_S4x2097152_S1048576x1_S4x1048576_0_1_n_n_1_1_41 x i) : (⟨S4x2097152, .f32⟩ : BufTy).Contents (Elt F) → (⟨S1048576x1, .i32⟩ : BufTy).Contents (Elt F) → (⟨S4x1048576, .f32⟩ : BufTy).Contents (Elt F)),
    binary main_v307 main_v294 main_v386 (subf : (⟨S4x1048576, .f32⟩ : BufTy).Contents (Elt F) → (⟨S4x1048576, .f32⟩ : BufTy).Contents (Elt F) → (⟨S4x1048576, .f32⟩ : BufTy).Contents (Elt F)),
    unary main_v253 main_v387 (broadcastInDim S1x1048576 ![1] bcast_S1048576_S1x1048576_1 : (⟨S1048576, .f32⟩ : BufTy).Contents (Elt F) → (⟨S1x1048576, .f32⟩ : BufTy).Contents (Elt F)),
    unary main_v387 main_v388 (broadcastInDim S4x1048576 ![0, 1] bcast_S1x1048576_S4x1048576_0_1 : (⟨S1x1048576, .f32⟩ : BufTy).Contents (Elt F) → (⟨S4x1048576, .f32⟩ : BufTy).Contents (Elt F)),
    binary main_v386 main_v388 main_v389 (mulf : (⟨S4x1048576, .f32⟩ : BufTy).Contents (Elt F) → (⟨S4x1048576, .f32⟩ : BufTy).Contents (Elt F) → (⟨S4x1048576, .f32⟩ : BufTy).Contents (Elt F)),
    binary main_v294 main_v389 main_v390 (addf : (⟨S4x1048576, .f32⟩ : BufTy).Contents (Elt F) → (⟨S4x1048576, .f32⟩ : BufTy).Contents (Elt F) → (⟨S4x1048576, .f32⟩ : BufTy).Contents (Elt F)),
    binary main_v333 main_v320 main_v391 (subf : (⟨S4x1048576, .f32⟩ : BufTy).Contents (Elt F) → (⟨S4x1048576, .f32⟩ : BufTy).Contents (Elt F) → (⟨S4x1048576, .f32⟩ : BufTy).Contents (Elt F)),
    unary main_v253 main_v392 (broadcastInDim S1x1048576 ![1] bcast_S1048576_S1x1048576_1 : (⟨S1048576, .f32⟩ : BufTy).Contents (Elt F) → (⟨S1x1048576, .f32⟩ : BufTy).Contents (Elt F)),
    unary main_v392 main_v393 (broadcastInDim S4x1048576 ![0, 1] bcast_S1x1048576_S4x1048576_0_1 : (⟨S1x1048576, .f32⟩ : BufTy).Contents (Elt F) → (⟨S4x1048576, .f32⟩ : BufTy).Contents (Elt F)),
    binary main_v391 main_v393 main_v394 (mulf : (⟨S4x1048576, .f32⟩ : BufTy).Contents (Elt F) → (⟨S4x1048576, .f32⟩ : BufTy).Contents (Elt F) → (⟨S4x1048576, .f32⟩ : BufTy).Contents (Elt F)),
    binary main_v320 main_v394 main_v395 (addf : (⟨S4x1048576, .f32⟩ : BufTy).Contents (Elt F) → (⟨S4x1048576, .f32⟩ : BufTy).Contents (Elt F) → (⟨S4x1048576, .f32⟩ : BufTy).Contents (Elt F)),
    binary main_v359 main_v346 main_v396 (subf : (⟨S4x1048576, .f32⟩ : BufTy).Contents (Elt F) → (⟨S4x1048576, .f32⟩ : BufTy).Contents (Elt F) → (⟨S4x1048576, .f32⟩ : BufTy).Contents (Elt F)),
    unary main_v253 main_v397 (broadcastInDim S1x1048576 ![1] bcast_S1048576_S1x1048576_1 : (⟨S1048576, .f32⟩ : BufTy).Contents (Elt F) → (⟨S1x1048576, .f32⟩ : BufTy).Contents (Elt F)),
    unary main_v397 main_v398 (broadcastInDim S4x1048576 ![0, 1] bcast_S1x1048576_S4x1048576_0_1 : (⟨S1x1048576, .f32⟩ : BufTy).Contents (Elt F) → (⟨S4x1048576, .f32⟩ : BufTy).Contents (Elt F)),
    binary main_v396 main_v398 main_v399 (mulf : (⟨S4x1048576, .f32⟩ : BufTy).Contents (Elt F) → (⟨S4x1048576, .f32⟩ : BufTy).Contents (Elt F) → (⟨S4x1048576, .f32⟩ : BufTy).Contents (Elt F)),
    binary main_v346 main_v399 main_v400 (addf : (⟨S4x1048576, .f32⟩ : BufTy).Contents (Elt F) → (⟨S4x1048576, .f32⟩ : BufTy).Contents (Elt F) → (⟨S4x1048576, .f32⟩ : BufTy).Contents (Elt F)),
    binary main_v385 main_v372 main_v401 (subf : (⟨S4x1048576, .f32⟩ : BufTy).Contents (Elt F) → (⟨S4x1048576, .f32⟩ : BufTy).Contents (Elt F) → (⟨S4x1048576, .f32⟩ : BufTy).Contents (Elt F)),
    unary main_v253 main_v402 (broadcastInDim S1x1048576 ![1] bcast_S1048576_S1x1048576_1 : (⟨S1048576, .f32⟩ : BufTy).Contents (Elt F) → (⟨S1x1048576, .f32⟩ : BufTy).Contents (Elt F)),
    unary main_v402 main_v403 (broadcastInDim S4x1048576 ![0, 1] bcast_S1x1048576_S4x1048576_0_1 : (⟨S1x1048576, .f32⟩ : BufTy).Contents (Elt F) → (⟨S4x1048576, .f32⟩ : BufTy).Contents (Elt F)),
    binary main_v401 main_v403 main_v404 (mulf : (⟨S4x1048576, .f32⟩ : BufTy).Contents (Elt F) → (⟨S4x1048576, .f32⟩ : BufTy).Contents (Elt F) → (⟨S4x1048576, .f32⟩ : BufTy).Contents (Elt F)),
    binary main_v372 main_v404 main_v405 (addf : (⟨S4x1048576, .f32⟩ : BufTy).Contents (Elt F) → (⟨S4x1048576, .f32⟩ : BufTy).Contents (Elt F) → (⟨S4x1048576, .f32⟩ : BufTy).Contents (Elt F)),
    binary main_v395 main_v390 main_v406 (subf : (⟨S4x1048576, .f32⟩ : BufTy).Contents (Elt F) → (⟨S4x1048576, .f32⟩ : BufTy).Contents (Elt F) → (⟨S4x1048576, .f32⟩ : BufTy).Contents (Elt F)),
    unary main_v259 main_v407 (broadcastInDim S1x1048576 ![1] bcast_S1048576_S1x1048576_1 : (⟨S1048576, .f32⟩ : BufTy).Contents (Elt F) → (⟨S1x1048576, .f32⟩ : BufTy).Contents (Elt F)),
    unary main_v407 main_v408 (broadcastInDim S4x1048576 ![0, 1] bcast_S1x1048576_S4x1048576_0_1 : (⟨S1x1048576, .f32⟩ : BufTy).Contents (Elt F) → (⟨S4x1048576, .f32⟩ : BufTy).Contents (Elt F)),
    binary main_v406 main_v408 main_v409 (mulf : (⟨S4x1048576, .f32⟩ : BufTy).Contents (Elt F) → (⟨S4x1048576, .f32⟩ : BufTy).Contents (Elt F) → (⟨S4x1048576, .f32⟩ : BufTy).Contents (Elt F)) ]
/-- Window 8 is the sequence of its operations. -/
theorem part_eq8 (c : Dev nD) : main_part8 (F := F) c = seq ops8 := rfl
/-- Each touches TensorCore references only. -/
theorem ops_sub8 : (ops8 : List (HloOp τ sig (Elt F))).Forall fun op => op.bufs ⊆ tcRefs τ sig :=
  ⟨unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub ..⟩

/-- The operations of window 9 of @main, in order. -/
abbrev ops9 : List (HloOp τ sig (Elt F)) :=
  [ binary main_v390 main_v409 main_v410 (addf : (⟨S4x1048576, .f32⟩ : BufTy).Contents (Elt F) → (⟨S4x1048576, .f32⟩ : BufTy).Contents (Elt F) → (⟨S4x1048576, .f32⟩ : BufTy).Contents (Elt F)),
    binary main_v405 main_v400 main_v411 (subf : (⟨S4x1048576, .f32⟩ : BufTy).Contents (Elt F) → (⟨S4x1048576, .f32⟩ : BufTy).Contents (Elt F) → (⟨S4x1048576, .f32⟩ : BufTy).Contents (Elt F)),
    unary main_v259 main_v412 (broadcastInDim S1x1048576 ![1] bcast_S1048576_S1x1048576_1 : (⟨S1048576, .f32⟩ : BufTy).Contents (Elt F) → (⟨S1x1048576, .f32⟩ : BufTy).Contents (Elt F)),
    unary main_v412 main_v413 (broadcastInDim S4x1048576 ![0, 1] bcast_S1x1048576_S4x1048576_0_1 : (⟨S1x1048576, .f32⟩ : BufTy).Contents (Elt F) → (⟨S4x1048576, .f32⟩ : BufTy).Contents (Elt F)),
    binary main_v411 main_v413 main_v414 (mulf : (⟨S4x1048576, .f32⟩ : BufTy).Contents (Elt F) → (⟨S4x1048576, .f32⟩ : BufTy).Contents (Elt F) → (⟨S4x1048576, .f32⟩ : BufTy).Contents (Elt F)),
    binary main_v400 main_v414 main_v415 (addf : (⟨S4x1048576, .f32⟩ : BufTy).Contents (Elt F) → (⟨S4x1048576, .f32⟩ : BufTy).Contents (Elt F) → (⟨S4x1048576, .f32⟩ : BufTy).Contents (Elt F)),
    binary main_v415 main_v410 main_v416 (subf : (⟨S4x1048576, .f32⟩ : BufTy).Contents (Elt F) → (⟨S4x1048576, .f32⟩ : BufTy).Contents (Elt F) → (⟨S4x1048576, .f32⟩ : BufTy).Contents (Elt F)),
    unary main_v265 main_v417 (broadcastInDim S1x1048576 ![1] bcast_S1048576_S1x1048576_1 : (⟨S1048576, .f32⟩ : BufTy).Contents (Elt F) → (⟨S1x1048576, .f32⟩ : BufTy).Contents (Elt F)),
    unary main_v417 main_v418 (broadcastInDim S4x1048576 ![0, 1] bcast_S1x1048576_S4x1048576_0_1 : (⟨S1x1048576, .f32⟩ : BufTy).Contents (Elt F) → (⟨S4x1048576, .f32⟩ : BufTy).Contents (Elt F)),
    binary main_v416 main_v418 main_v419 (mulf : (⟨S4x1048576, .f32⟩ : BufTy).Contents (Elt F) → (⟨S4x1048576, .f32⟩ : BufTy).Contents (Elt F) → (⟨S4x1048576, .f32⟩ : BufTy).Contents (Elt F)),
    binary main_v410 main_v419 main_v420 (addf : (⟨S4x1048576, .f32⟩ : BufTy).Contents (Elt F) → (⟨S4x1048576, .f32⟩ : BufTy).Contents (Elt F) → (⟨S4x1048576, .f32⟩ : BufTy).Contents (Elt F)),
    reshape main_v420 main_v421 rfl shapeCasts_S4x1048576_S1x4x1x1x1048576,
    reshape main_arg0 main_v422 rfl shapeCasts_S1x1x1x1048576x3_S1048576x3,
    unary main_v422 main_v423 ((extractStridedSlice S1048576x1 ![0, 0] · slices_S1048576x3_S1048576x1_0_0) : (⟨S1048576x3, .f32⟩ : BufTy).Contents (Elt F) → (⟨S1048576x1, .f32⟩ : BufTy).Contents (Elt F)),
    reshape main_v423 main_v424 rfl shapeCasts_S1048576x1_S1048576,
    nullary main_cst_128 (constant S_ .f32 0x3F800000#32),
    unary main_cst_128 main_v425 (broadcastInDim S1048576 ![] bcast_S_S1048576 : (⟨S_, .f32⟩ : BufTy).Contents (Elt F) → (⟨S1048576, .f32⟩ : BufTy).Contents (Elt F)),
    binary main_v424 main_v425 main_v426 (addf : (⟨S1048576, .f32⟩ : BufTy).Contents (Elt F) → (⟨S1048576, .f32⟩ : BufTy).Contents (Elt F) → (⟨S1048576, .f32⟩ : BufTy).Contents (Elt F)),
    nullary main_cst_129 (constant S_ .f32 0x3F000000#32),
    unary main_cst_129 main_v427 (broadcastInDim S1048576 ![] bcast_S_S1048576 : (⟨S_, .f32⟩ : BufTy).Contents (Elt F) → (⟨S1048576, .f32⟩ : BufTy).Contents (Elt F)),
    binary main_v426 main_v427 main_v428 (mulf : (⟨S1048576, .f32⟩ : BufTy).Contents (Elt F) → (⟨S1048576, .f32⟩ : BufTy).Contents (Elt F) → (⟨S1048576, .f32⟩ : BufTy).Contents (Elt F)),
    nullary main_cst_130 (constant S_ .f32 0x433F0000#32),
    unary main_cst_130 main_v429 (broadcastInDim S1048576 ![] bcast_S_S1048576 : (⟨S_, .f32⟩ : BufTy).Contents (Elt F) → (⟨S1048576, .f32⟩ : BufTy).Contents (Elt F)),
    binary main_v428 main_v429 main_v430 (mulf : (⟨S1048576, .f32⟩ : BufTy).Contents (Elt F) → (⟨S1048576, .f32⟩ : BufTy).Contents (Elt F) → (⟨S1048576, .f32⟩ : BufTy).Contents (Elt F)),
    unary main_v422 main_v431 ((extractStridedSlice S1048576x1 ![0, 1] · slices_S1048576x3_S1048576x1_0_1) : (⟨S1048576x3, .f32⟩ : BufTy).Contents (Elt F) → (⟨S1048576x1, .f32⟩ : BufTy).Contents (Elt F)),
    reshape main_v431 main_v432 rfl shapeCasts_S1048576x1_S1048576,
    nullary main_cst_131 (constant S_ .f32 0x3F800000#32),
    unary main_cst_131 main_v433 (broadcastInDim S1048576 ![] bcast_S_S1048576 : (⟨S_, .f32⟩ : BufTy).Contents (Elt F) → (⟨S1048576, .f32⟩ : BufTy).Contents (Elt F)),
    binary main_v432 main_v433 main_v434 (addf : (⟨S1048576, .f32⟩ : BufTy).Contents (Elt F) → (⟨S1048576, .f32⟩ : BufTy).Contents (Elt F) → (⟨S1048576, .f32⟩ : BufTy).Contents (Elt F)),
    nullary main_cst_132 (constant S_ .f32 0x3F000000#32),
    unary main_cst_132 main_v435 (broadcastInDim S1048576 ![] bcast_S_S1048576 : (⟨S_, .f32⟩ : BufTy).Contents (Elt F) → (⟨S1048576, .f32⟩ : BufTy).Contents (Elt F)),
    binary main_v434 main_v435 main_v436 (mulf : (⟨S1048576, .f32⟩ : BufTy).Contents (Elt F) → (⟨S1048576, .f32⟩ : BufTy).Contents (Elt F) → (⟨S1048576, .f32⟩ : BufTy).Contents (Elt F)),
    nullary main_cst_133 (constant S_ .f32 0x433F0000#32),
    unary main_cst_133 main_v437 (broadcastInDim S1048576 ![] bcast_S_S1048576 : (⟨S_, .f32⟩ : BufTy).Contents (Elt F) → (⟨S1048576, .f32⟩ : BufTy).Contents (Elt F)),
    binary main_v436 main_v437 main_v438 (mulf : (⟨S1048576, .f32⟩ : BufTy).Contents (Elt F) → (⟨S1048576, .f32⟩ : BufTy).Contents (Elt F) → (⟨S1048576, .f32⟩ : BufTy).Contents (Elt F)),
    unary main_v422 main_v439 ((extractStridedSlice S1048576x1 ![0, 2] · slices_S1048576x3_S1048576x1_0_2) : (⟨S1048576x3, .f32⟩ : BufTy).Contents (Elt F) → (⟨S1048576x1, .f32⟩ : BufTy).Contents (Elt F)),
    reshape main_v439 main_v440 rfl shapeCasts_S1048576x1_S1048576,
    nullary main_cst_134 (constant S_ .f32 0x3F800000#32),
    unary main_cst_134 main_v441 (broadcastInDim S1048576 ![] bcast_S_S1048576 : (⟨S_, .f32⟩ : BufTy).Contents (Elt F) → (⟨S1048576, .f32⟩ : BufTy).Contents (Elt F)),
    binary main_v440 main_v441 main_v442 (addf : (⟨S1048576, .f32⟩ : BufTy).Contents (Elt F) → (⟨S1048576, .f32⟩ : BufTy).Contents (Elt F) → (⟨S1048576, .f32⟩ : BufTy).Contents (Elt F)),
    nullary main_cst_135 (constant S_ .f32 0x3F000000#32),
    unary main_cst_135 main_v443 (broadcastInDim S1048576 ![] bcast_S_S1048576 : (⟨S_, .f32⟩ : BufTy).Contents (Elt F) → (⟨S1048576, .f32⟩ : BufTy).Contents (Elt F)),
    binary main_v442 main_v443 main_v444 (mulf : (⟨S1048576, .f32⟩ : BufTy).Contents (Elt F) → (⟨S1048576, .f32⟩ : BufTy).Contents (Elt F) → (⟨S1048576, .f32⟩ : BufTy).Contents (Elt F)),
    nullary main_cst_136 (constant S_ .f32 0x433F0000#32),
    unary main_cst_136 main_v445 (broadcastInDim S1048576 ![] bcast_S_S1048576 : (⟨S_, .f32⟩ : BufTy).Contents (Elt F) → (⟨S1048576, .f32⟩ : BufTy).Contents (Elt F)),
    binary main_v444 main_v445 main_v446 (mulf : (⟨S1048576, .f32⟩ : BufTy).Contents (Elt F) → (⟨S1048576, .f32⟩ : BufTy).Contents (Elt F) → (⟨S1048576, .f32⟩ : BufTy).Contents (Elt F)),
    unary main_v430 main_v447 (Host.floor : (⟨S1048576, .f32⟩ : BufTy).Contents (Elt F) → (⟨S1048576, .f32⟩ : BufTy).Contents (Elt F)),
    nullary main_cst_137 (constant S_ .f32 0x00000000#32),
    nullary main_c_138 (constantI S_ 32 191#32),
    TRef.unary (TRef.of (T := ⟨S_, .f32⟩) main_cst_137) (TRef.of (T := ⟨S_, .f32⟩) main_call12_v0) id,
    TRef.unary (TRef.of (T := ⟨S_, .f32⟩) main_call12_v0) (TRef.of (T := ⟨S1048576, .f32⟩) main_call12_v1) (broadcastInDim S1048576 ![] bcast_S_S1048576),
    TRef.binary (TRef.of (T := ⟨S1048576, .f32⟩) main_call12_v1) (TRef.of (T := ⟨S1048576, .f32⟩) main_v447) (TRef.of (T := ⟨S1048576, .f32⟩) main_call12_v2) maximumf,
    TRef.unary (TRef.of (T := ⟨S_, .i32⟩) main_c_138) (TRef.of (T := ⟨S_, .f32⟩) main_call12_v3) (sitofp .f32),
    TRef.unary (TRef.of (T := ⟨S_, .f32⟩) main_call12_v3) (TRef.of (T := ⟨S1048576, .f32⟩) main_call12_v4) (broadcastInDim S1048576 ![] bcast_S_S1048576),
    TRef.binary (TRef.of (T := ⟨S1048576, .f32⟩) main_call12_v4) (TRef.of (T := ⟨S1048576, .f32⟩) main_call12_v2) (TRef.of (T := ⟨S1048576, .f32⟩) main_v448) minimumf,
    unary main_v438 main_v449 (Host.floor : (⟨S1048576, .f32⟩ : BufTy).Contents (Elt F) → (⟨S1048576, .f32⟩ : BufTy).Contents (Elt F)),
    nullary main_cst_139 (constant S_ .f32 0x00000000#32),
    nullary main_c_140 (constantI S_ 32 191#32),
    TRef.unary (TRef.of (T := ⟨S_, .f32⟩) main_cst_139) (TRef.of (T := ⟨S_, .f32⟩) main_call13_v0) id,
    TRef.unary (TRef.of (T := ⟨S_, .f32⟩) main_call13_v0) (TRef.of (T := ⟨S1048576, .f32⟩) main_call13_v1) (broadcastInDim S1048576 ![] bcast_S_S1048576),
    TRef.binary (TRef.of (T := ⟨S1048576, .f32⟩) main_call13_v1) (TRef.of (T := ⟨S1048576, .f32⟩) main_v449) (TRef.of (T := ⟨S1048576, .f32⟩) main_call13_v2) maximumf,
    TRef.unary (TRef.of (T := ⟨S_, .i32⟩) main_c_140) (TRef.of (T := ⟨S_, .f32⟩) main_call13_v3) (sitofp .f32),
    TRef.unary (TRef.of (T := ⟨S_, .f32⟩) main_call13_v3) (TRef.of (T := ⟨S1048576, .f32⟩) main_call13_v4) (broadcastInDim S1048576 ![] bcast_S_S1048576),
    TRef.binary (TRef.of (T := ⟨S1048576, .f32⟩) main_call13_v4) (TRef.of (T := ⟨S1048576, .f32⟩) main_call13_v2) (TRef.of (T := ⟨S1048576, .f32⟩) main_v450) minimumf,
    unary main_v446 main_v451 (Host.floor : (⟨S1048576, .f32⟩ : BufTy).Contents (Elt F) → (⟨S1048576, .f32⟩ : BufTy).Contents (Elt F)),
    nullary main_cst_141 (constant S_ .f32 0x00000000#32),
    nullary main_c_142 (constantI S_ 32 191#32),
    TRef.unary (TRef.of (T := ⟨S_, .f32⟩) main_cst_141) (TRef.of (T := ⟨S_, .f32⟩) main_call14_v0) id,
    TRef.unary (TRef.of (T := ⟨S_, .f32⟩) main_call14_v0) (TRef.of (T := ⟨S1048576, .f32⟩) main_call14_v1) (broadcastInDim S1048576 ![] bcast_S_S1048576),
    TRef.binary (TRef.of (T := ⟨S1048576, .f32⟩) main_call14_v1) (TRef.of (T := ⟨S1048576, .f32⟩) main_v451) (TRef.of (T := ⟨S1048576, .f32⟩) main_call14_v2) maximumf,
    TRef.unary (TRef.of (T := ⟨S_, .i32⟩) main_c_142) (TRef.of (T := ⟨S_, .f32⟩) main_call14_v3) (sitofp .f32),
    TRef.unary (TRef.of (T := ⟨S_, .f32⟩) main_call14_v3) (TRef.of (T := ⟨S1048576, .f32⟩) main_call14_v4) (broadcastInDim S1048576 ![] bcast_S_S1048576),
    TRef.binary (TRef.of (T := ⟨S1048576, .f32⟩) main_call14_v4) (TRef.of (T := ⟨S1048576, .f32⟩) main_call14_v2) (TRef.of (T := ⟨S1048576, .f32⟩) main_v452) minimumf,
    binary main_v430 main_v448 main_v453 (subf : (⟨S1048576, .f32⟩ : BufTy).Contents (Elt F) → (⟨S1048576, .f32⟩ : BufTy).Contents (Elt F) → (⟨S1048576, .f32⟩ : BufTy).Contents (Elt F)),
    nullary main_cst_143 (constant S_ .f32 0x00000000#32) ]
/-- Window 9 is the sequence of its operations. -/
theorem part_eq9 (c : Dev nD) : main_part9 (F := F) c = seq ops9 := rfl
/-- Each touches TensorCore references only. -/
theorem ops_sub9 : (ops9 : List (HloOp τ sig (Elt F))).Forall fun op => op.bufs ⊆ tcRefs τ sig :=
  ⟨binary_bufs_sub .., binary_bufs_sub .., unary_bufs_sub .., unary_bufs_sub .., binary_bufs_sub .., binary_bufs_sub .., binary_bufs_sub .., unary_bufs_sub .., unary_bufs_sub .., binary_bufs_sub .., binary_bufs_sub .., reshape_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., binary_bufs_sub .., nullary_bufs_sub ..⟩

/-- The operations of window 10 of @main, in order. -/
abbrev ops10 : List (HloOp τ sig (Elt F)) :=
  [ nullary main_cst_144 (constant S_ .f32 0x3F800000#32),
    TRef.unary (TRef.of (T := ⟨S_, .f32⟩) main_cst_143) (TRef.of (T := ⟨S_, .f32⟩) main_call15_v0) id,
    TRef.unary (TRef.of (T := ⟨S_, .f32⟩) main_call15_v0) (TRef.of (T := ⟨S1048576, .f32⟩) main_call15_v1) (broadcastInDim S1048576 ![] bcast_S_S1048576),
    TRef.binary (TRef.of (T := ⟨S1048576, .f32⟩) main_call15_v1) (TRef.of (T := ⟨S1048576, .f32⟩) main_v453) (TRef.of (T := ⟨S1048576, .f32⟩) main_call15_v2) maximumf,
    TRef.unary (TRef.of (T := ⟨S_, .f32⟩) main_cst_144) (TRef.of (T := ⟨S_, .f32⟩) main_call15_v3) id,
    TRef.unary (TRef.of (T := ⟨S_, .f32⟩) main_call15_v3) (TRef.of (T := ⟨S1048576, .f32⟩) main_call15_v4) (broadcastInDim S1048576 ![] bcast_S_S1048576),
    TRef.binary (TRef.of (T := ⟨S1048576, .f32⟩) main_call15_v4) (TRef.of (T := ⟨S1048576, .f32⟩) main_call15_v2) (TRef.of (T := ⟨S1048576, .f32⟩) main_v454) minimumf,
    binary main_v438 main_v450 main_v455 (subf : (⟨S1048576, .f32⟩ : BufTy).Contents (Elt F) → (⟨S1048576, .f32⟩ : BufTy).Contents (Elt F) → (⟨S1048576, .f32⟩ : BufTy).Contents (Elt F)),
    nullary main_cst_145 (constant S_ .f32 0x00000000#32),
    nullary main_cst_146 (constant S_ .f32 0x3F800000#32),
    TRef.unary (TRef.of (T := ⟨S_, .f32⟩) main_cst_145) (TRef.of (T := ⟨S_, .f32⟩) main_call16_v0) id,
    TRef.unary (TRef.of (T := ⟨S_, .f32⟩) main_call16_v0) (TRef.of (T := ⟨S1048576, .f32⟩) main_call16_v1) (broadcastInDim S1048576 ![] bcast_S_S1048576),
    TRef.binary (TRef.of (T := ⟨S1048576, .f32⟩) main_call16_v1) (TRef.of (T := ⟨S1048576, .f32⟩) main_v455) (TRef.of (T := ⟨S1048576, .f32⟩) main_call16_v2) maximumf,
    TRef.unary (TRef.of (T := ⟨S_, .f32⟩) main_cst_146) (TRef.of (T := ⟨S_, .f32⟩) main_call16_v3) id,
    TRef.unary (TRef.of (T := ⟨S_, .f32⟩) main_call16_v3) (TRef.of (T := ⟨S1048576, .f32⟩) main_call16_v4) (broadcastInDim S1048576 ![] bcast_S_S1048576),
    TRef.binary (TRef.of (T := ⟨S1048576, .f32⟩) main_call16_v4) (TRef.of (T := ⟨S1048576, .f32⟩) main_call16_v2) (TRef.of (T := ⟨S1048576, .f32⟩) main_v456) minimumf,
    binary main_v446 main_v452 main_v457 (subf : (⟨S1048576, .f32⟩ : BufTy).Contents (Elt F) → (⟨S1048576, .f32⟩ : BufTy).Contents (Elt F) → (⟨S1048576, .f32⟩ : BufTy).Contents (Elt F)),
    nullary main_cst_147 (constant S_ .f32 0x00000000#32),
    nullary main_cst_148 (constant S_ .f32 0x3F800000#32),
    TRef.unary (TRef.of (T := ⟨S_, .f32⟩) main_cst_147) (TRef.of (T := ⟨S_, .f32⟩) main_call17_v0) id,
    TRef.unary (TRef.of (T := ⟨S_, .f32⟩) main_call17_v0) (TRef.of (T := ⟨S1048576, .f32⟩) main_call17_v1) (broadcastInDim S1048576 ![] bcast_S_S1048576),
    TRef.binary (TRef.of (T := ⟨S1048576, .f32⟩) main_call17_v1) (TRef.of (T := ⟨S1048576, .f32⟩) main_v457) (TRef.of (T := ⟨S1048576, .f32⟩) main_call17_v2) maximumf,
    TRef.unary (TRef.of (T := ⟨S_, .f32⟩) main_cst_148) (TRef.of (T := ⟨S_, .f32⟩) main_call17_v3) id,
    TRef.unary (TRef.of (T := ⟨S_, .f32⟩) main_call17_v3) (TRef.of (T := ⟨S1048576, .f32⟩) main_call17_v4) (broadcastInDim S1048576 ![] bcast_S_S1048576),
    TRef.binary (TRef.of (T := ⟨S1048576, .f32⟩) main_call17_v4) (TRef.of (T := ⟨S1048576, .f32⟩) main_call17_v2) (TRef.of (T := ⟨S1048576, .f32⟩) main_v458) minimumf,
    binary main_v454 main_v454 main_v459 (mulf : (⟨S1048576, .f32⟩ : BufTy).Contents (Elt F) → (⟨S1048576, .f32⟩ : BufTy).Contents (Elt F) → (⟨S1048576, .f32⟩ : BufTy).Contents (Elt F)),
    nullary main_cst_149 (constant S_ .f32 0x40000000#32),
    unary main_cst_149 main_v460 (broadcastInDim S1048576 ![] bcast_S_S1048576 : (⟨S_, .f32⟩ : BufTy).Contents (Elt F) → (⟨S1048576, .f32⟩ : BufTy).Contents (Elt F)),
    binary main_v460 main_v454 main_v461 (mulf : (⟨S1048576, .f32⟩ : BufTy).Contents (Elt F) → (⟨S1048576, .f32⟩ : BufTy).Contents (Elt F) → (⟨S1048576, .f32⟩ : BufTy).Contents (Elt F)),
    nullary main_cst_150 (constant S_ .f32 0x40400000#32),
    unary main_cst_150 main_v462 (broadcastInDim S1048576 ![] bcast_S_S1048576 : (⟨S_, .f32⟩ : BufTy).Contents (Elt F) → (⟨S1048576, .f32⟩ : BufTy).Contents (Elt F)),
    binary main_v462 main_v461 main_v463 (subf : (⟨S1048576, .f32⟩ : BufTy).Contents (Elt F) → (⟨S1048576, .f32⟩ : BufTy).Contents (Elt F) → (⟨S1048576, .f32⟩ : BufTy).Contents (Elt F)),
    binary main_v459 main_v463 main_v464 (mulf : (⟨S1048576, .f32⟩ : BufTy).Contents (Elt F) → (⟨S1048576, .f32⟩ : BufTy).Contents (Elt F) → (⟨S1048576, .f32⟩ : BufTy).Contents (Elt F)),
    binary main_v456 main_v456 main_v465 (mulf : (⟨S1048576, .f32⟩ : BufTy).Contents (Elt F) → (⟨S1048576, .f32⟩ : BufTy).Contents (Elt F) → (⟨S1048576, .f32⟩ : BufTy).Contents (Elt F)),
    nullary main_cst_151 (constant S_ .f32 0x40000000#32),
    unary main_cst_151 main_v466 (broadcastInDim S1048576 ![] bcast_S_S1048576 : (⟨S_, .f32⟩ : BufTy).Contents (Elt F) → (⟨S1048576, .f32⟩ : BufTy).Contents (Elt F)),
    binary main_v466 main_v456 main_v467 (mulf : (⟨S1048576, .f32⟩ : BufTy).Contents (Elt F) → (⟨S1048576, .f32⟩ : BufTy).Contents (Elt F) → (⟨S1048576, .f32⟩ : BufTy).Contents (Elt F)),
    nullary main_cst_152 (constant S_ .f32 0x40400000#32),
    unary main_cst_152 main_v468 (broadcastInDim S1048576 ![] bcast_S_S1048576 : (⟨S_, .f32⟩ : BufTy).Contents (Elt F) → (⟨S1048576, .f32⟩ : BufTy).Contents (Elt F)),
    binary main_v468 main_v467 main_v469 (subf : (⟨S1048576, .f32⟩ : BufTy).Contents (Elt F) → (⟨S1048576, .f32⟩ : BufTy).Contents (Elt F) → (⟨S1048576, .f32⟩ : BufTy).Contents (Elt F)),
    binary main_v465 main_v469 main_v470 (mulf : (⟨S1048576, .f32⟩ : BufTy).Contents (Elt F) → (⟨S1048576, .f32⟩ : BufTy).Contents (Elt F) → (⟨S1048576, .f32⟩ : BufTy).Contents (Elt F)),
    binary main_v458 main_v458 main_v471 (mulf : (⟨S1048576, .f32⟩ : BufTy).Contents (Elt F) → (⟨S1048576, .f32⟩ : BufTy).Contents (Elt F) → (⟨S1048576, .f32⟩ : BufTy).Contents (Elt F)),
    nullary main_cst_153 (constant S_ .f32 0x40000000#32),
    unary main_cst_153 main_v472 (broadcastInDim S1048576 ![] bcast_S_S1048576 : (⟨S_, .f32⟩ : BufTy).Contents (Elt F) → (⟨S1048576, .f32⟩ : BufTy).Contents (Elt F)),
    binary main_v472 main_v458 main_v473 (mulf : (⟨S1048576, .f32⟩ : BufTy).Contents (Elt F) → (⟨S1048576, .f32⟩ : BufTy).Contents (Elt F) → (⟨S1048576, .f32⟩ : BufTy).Contents (Elt F)),
    nullary main_cst_154 (constant S_ .f32 0x40400000#32),
    unary main_cst_154 main_v474 (broadcastInDim S1048576 ![] bcast_S_S1048576 : (⟨S_, .f32⟩ : BufTy).Contents (Elt F) → (⟨S1048576, .f32⟩ : BufTy).Contents (Elt F)),
    binary main_v474 main_v473 main_v475 (subf : (⟨S1048576, .f32⟩ : BufTy).Contents (Elt F) → (⟨S1048576, .f32⟩ : BufTy).Contents (Elt F) → (⟨S1048576, .f32⟩ : BufTy).Contents (Elt F)),
    binary main_v471 main_v475 main_v476 (mulf : (⟨S1048576, .f32⟩ : BufTy).Contents (Elt F) → (⟨S1048576, .f32⟩ : BufTy).Contents (Elt F) → (⟨S1048576, .f32⟩ : BufTy).Contents (Elt F)),
    unary main_v448 main_v477 (fptosi 32 : (⟨S1048576, .f32⟩ : BufTy).Contents (Elt F) → (⟨S1048576, .i32⟩ : BufTy).Contents (Elt F)),
    unary main_v450 main_v478 (fptosi 32 : (⟨S1048576, .f32⟩ : BufTy).Contents (Elt F) → (⟨S1048576, .i32⟩ : BufTy).Contents (Elt F)),
    unary main_v452 main_v479 (fptosi 32 : (⟨S1048576, .f32⟩ : BufTy).Contents (Elt F) → (⟨S1048576, .i32⟩ : BufTy).Contents (Elt F)),
    nullary main_c_155 (constantI S_ 32 1#32),
    unary main_c_155 main_v480 (broadcastInDim S1048576 ![] bcast_S_S1048576 : (⟨S_, .i32⟩ : BufTy).Contents (Elt F) → (⟨S1048576, .i32⟩ : BufTy).Contents (Elt F)),
    binary main_v477 main_v480 main_v481 (addi : (⟨S1048576, .i32⟩ : BufTy).Contents (Elt F) → (⟨S1048576, .i32⟩ : BufTy).Contents (Elt F) → (⟨S1048576, .i32⟩ : BufTy).Contents (Elt F)),
    nullary main_c_156 (constantI S_ 32 191#32),
    unary main_c_156 main_v482 (broadcastInDim S1048576 ![] bcast_S_S1048576 : (⟨S_, .i32⟩ : BufTy).Contents (Elt F) → (⟨S1048576, .i32⟩ : BufTy).Contents (Elt F)),
    binary main_v481 main_v482 main_v483 (minsi : (⟨S1048576, .i32⟩ : BufTy).Contents (Elt F) → (⟨S1048576, .i32⟩ : BufTy).Contents (Elt F) → (⟨S1048576, .i32⟩ : BufTy).Contents (Elt F)),
    nullary main_c_157 (constantI S_ 32 1#32),
    unary main_c_157 main_v484 (broadcastInDim S1048576 ![] bcast_S_S1048576 : (⟨S_, .i32⟩ : BufTy).Contents (Elt F) → (⟨S1048576, .i32⟩ : BufTy).Contents (Elt F)),
    binary main_v478 main_v484 main_v485 (addi : (⟨S1048576, .i32⟩ : BufTy).Contents (Elt F) → (⟨S1048576, .i32⟩ : BufTy).Contents (Elt F) → (⟨S1048576, .i32⟩ : BufTy).Contents (Elt F)),
    nullary main_c_158 (constantI S_ 32 191#32),
    unary main_c_158 main_v486 (broadcastInDim S1048576 ![] bcast_S_S1048576 : (⟨S_, .i32⟩ : BufTy).Contents (Elt F) → (⟨S1048576, .i32⟩ : BufTy).Contents (Elt F)),
    binary main_v485 main_v486 main_v487 (minsi : (⟨S1048576, .i32⟩ : BufTy).Contents (Elt F) → (⟨S1048576, .i32⟩ : BufTy).Contents (Elt F) → (⟨S1048576, .i32⟩ : BufTy).Contents (Elt F)),
    nullary main_c_159 (constantI S_ 32 1#32),
    unary main_c_159 main_v488 (broadcastInDim S1048576 ![] bcast_S_S1048576 : (⟨S_, .i32⟩ : BufTy).Contents (Elt F) → (⟨S1048576, .i32⟩ : BufTy).Contents (Elt F)),
    binary main_v479 main_v488 main_v489 (addi : (⟨S1048576, .i32⟩ : BufTy).Contents (Elt F) → (⟨S1048576, .i32⟩ : BufTy).Contents (Elt F) → (⟨S1048576, .i32⟩ : BufTy).Contents (Elt F)),
    nullary main_c_160 (constantI S_ 32 191#32),
    unary main_c_160 main_v490 (broadcastInDim S1048576 ![] bcast_S_S1048576 : (⟨S_, .i32⟩ : BufTy).Contents (Elt F) → (⟨S1048576, .i32⟩ : BufTy).Contents (Elt F)),
    binary main_v489 main_v490 main_v491 (minsi : (⟨S1048576, .i32⟩ : BufTy).Contents (Elt F) → (⟨S1048576, .i32⟩ : BufTy).Contents (Elt F) → (⟨S1048576, .i32⟩ : BufTy).Contents (Elt F)),
    reshape main_arg3 main_v492 rfl shapeCasts_S1x4x192x192x192_S4x7077888,
    nullary main_c_161 (constantI S_ 32 192#32),
    unary main_c_161 main_v493 (broadcastInDim S1048576 ![] bcast_S_S1048576 : (⟨S_, .i32⟩ : BufTy).Contents (Elt F) → (⟨S1048576, .i32⟩ : BufTy).Contents (Elt F)),
    binary main_v479 main_v493 main_v494 (muli : (⟨S1048576, .i32⟩ : BufTy).Contents (Elt F) → (⟨S1048576, .i32⟩ : BufTy).Contents (Elt F) → (⟨S1048576, .i32⟩ : BufTy).Contents (Elt F)),
    binary main_v494 main_v478 main_v495 (addi : (⟨S1048576, .i32⟩ : BufTy).Contents (Elt F) → (⟨S1048576, .i32⟩ : BufTy).Contents (Elt F) → (⟨S1048576, .i32⟩ : BufTy).Contents (Elt F)) ]
/-- Window 10 is the sequence of its operations. -/
theorem part_eq10 (c : Dev nD) : main_part10 (F := F) c = seq ops10 := rfl
/-- Each touches TensorCore references only. -/
theorem ops_sub10 : (ops10 : List (HloOp τ sig (Elt F))).Forall fun op => op.bufs ⊆ tcRefs τ sig :=
  ⟨nullary_bufs_sub .., unary_bufs_sub .., unary_bufs_sub .., binary_bufs_sub .., unary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., binary_bufs_sub .., unary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., reshape_bufs_sub .., nullary_bufs_sub .., unary_bufs_sub .., binary_bufs_sub .., binary_bufs_sub ..⟩

/-- The operations of window 11 of @main, in order. -/
abbrev ops11 : List (HloOp τ sig (Elt F)) :=
  [ nullary main_c_162 (constantI S_ 32 192#32),
    unary main_c_162 main_v496 (broadcastInDim S1048576 ![] bcast_S_S1048576 : (⟨S_, .i32⟩ : BufTy).Contents (Elt F) → (⟨S1048576, .i32⟩ : BufTy).Contents (Elt F)),
    binary main_v495 main_v496 main_v497 (muli : (⟨S1048576, .i32⟩ : BufTy).Contents (Elt F) → (⟨S1048576, .i32⟩ : BufTy).Contents (Elt F) → (⟨S1048576, .i32⟩ : BufTy).Contents (Elt F)),
    binary main_v497 main_v477 main_v498 (addi : (⟨S1048576, .i32⟩ : BufTy).Contents (Elt F) → (⟨S1048576, .i32⟩ : BufTy).Contents (Elt F) → (⟨S1048576, .i32⟩ : BufTy).Contents (Elt F)),
    nullary main_c_163 (constantI S_ 32 0#32),
    unary main_c_163 main_v499 (broadcastInDim S1048576 ![] bcast_S_S1048576 : (⟨S_, .i32⟩ : BufTy).Contents (Elt F) → (⟨S1048576, .i32⟩ : BufTy).Contents (Elt F)),
    binary main_v498 main_v499 main_v500 (cmpi .slt : (⟨S1048576, .i32⟩ : BufTy).Contents (Elt F) → (⟨S1048576, .i32⟩ : BufTy).Contents (Elt F) → (⟨S1048576, .i1⟩ : BufTy).Contents (Elt F)),
    nullary main_c_164 (constantI S_ 32 7077888#32),
    unary main_c_164 main_v501 (broadcastInDim S1048576 ![] bcast_S_S1048576 : (⟨S_, .i32⟩ : BufTy).Contents (Elt F) → (⟨S1048576, .i32⟩ : BufTy).Contents (Elt F)),
    binary main_v498 main_v501 main_v502 (addi : (⟨S1048576, .i32⟩ : BufTy).Contents (Elt F) → (⟨S1048576, .i32⟩ : BufTy).Contents (Elt F) → (⟨S1048576, .i32⟩ : BufTy).Contents (Elt F)),
    ternary main_v500 main_v502 main_v498 main_v503 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v503 main_v504 (broadcastInDim S1048576x1 ![0] bcast_S1048576_S1048576x1_0 : (⟨S1048576, .i32⟩ : BufTy).Contents (Elt F) → (⟨S1048576x1, .i32⟩ : BufTy).Contents (Elt F)),
    binary main_v492 main_v504 main_v505 ((fun x i => Host.gather gather_S4x7077888_S1048576x1_S4x1048576_0_1_n_n_1_1_41 x i) : (⟨S4x7077888, .f32⟩ : BufTy).Contents (Elt F) → (⟨S1048576x1, .i32⟩ : BufTy).Contents (Elt F) → (⟨S4x1048576, .f32⟩ : BufTy).Contents (Elt F)),
    nullary main_c_165 (constantI S_ 32 192#32),
    unary main_c_165 main_v506 (broadcastInDim S1048576 ![] bcast_S_S1048576 : (⟨S_, .i32⟩ : BufTy).Contents (Elt F) → (⟨S1048576, .i32⟩ : BufTy).Contents (Elt F)),
    binary main_v479 main_v506 main_v507 (muli : (⟨S1048576, .i32⟩ : BufTy).Contents (Elt F) → (⟨S1048576, .i32⟩ : BufTy).Contents (Elt F) → (⟨S1048576, .i32⟩ : BufTy).Contents (Elt F)),
    binary main_v507 main_v478 main_v508 (addi : (⟨S1048576, .i32⟩ : BufTy).Contents (Elt F) → (⟨S1048576, .i32⟩ : BufTy).Contents (Elt F) → (⟨S1048576, .i32⟩ : BufTy).Contents (Elt F)),
    nullary main_c_166 (constantI S_ 32 192#32),
    unary main_c_166 main_v509 (broadcastInDim S1048576 ![] bcast_S_S1048576 : (⟨S_, .i32⟩ : BufTy).Contents (Elt F) → (⟨S1048576, .i32⟩ : BufTy).Contents (Elt F)),
    binary main_v508 main_v509 main_v510 (muli : (⟨S1048576, .i32⟩ : BufTy).Contents (Elt F) → (⟨S1048576, .i32⟩ : BufTy).Contents (Elt F) → (⟨S1048576, .i32⟩ : BufTy).Contents (Elt F)),
    binary main_v510 main_v483 main_v511 (addi : (⟨S1048576, .i32⟩ : BufTy).Contents (Elt F) → (⟨S1048576, .i32⟩ : BufTy).Contents (Elt F) → (⟨S1048576, .i32⟩ : BufTy).Contents (Elt F)),
    nullary main_c_167 (constantI S_ 32 0#32),
    unary main_c_167 main_v512 (broadcastInDim S1048576 ![] bcast_S_S1048576 : (⟨S_, .i32⟩ : BufTy).Contents (Elt F) → (⟨S1048576, .i32⟩ : BufTy).Contents (Elt F)),
    binary main_v511 main_v512 main_v513 (cmpi .slt : (⟨S1048576, .i32⟩ : BufTy).Contents (Elt F) → (⟨S1048576, .i32⟩ : BufTy).Contents (Elt F) → (⟨S1048576, .i1⟩ : BufTy).Contents (Elt F)),
    nullary main_c_168 (constantI S_ 32 7077888#32),
    unary main_c_168 main_v514 (broadcastInDim S1048576 ![] bcast_S_S1048576 : (⟨S_, .i32⟩ : BufTy).Contents (Elt F) → (⟨S1048576, .i32⟩ : BufTy).Contents (Elt F)),
    binary main_v511 main_v514 main_v515 (addi : (⟨S1048576, .i32⟩ : BufTy).Contents (Elt F) → (⟨S1048576, .i32⟩ : BufTy).Contents (Elt F) → (⟨S1048576, .i32⟩ : BufTy).Contents (Elt F)),
    ternary main_v513 main_v515 main_v511 main_v516 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v516 main_v517 (broadcastInDim S1048576x1 ![0] bcast_S1048576_S1048576x1_0 : (⟨S1048576, .i32⟩ : BufTy).Contents (Elt F) → (⟨S1048576x1, .i32⟩ : BufTy).Contents (Elt F)),
    binary main_v492 main_v517 main_v518 ((fun x i => Host.gather gather_S4x7077888_S1048576x1_S4x1048576_0_1_n_n_1_1_41 x i) : (⟨S4x7077888, .f32⟩ : BufTy).Contents (Elt F) → (⟨S1048576x1, .i32⟩ : BufTy).Contents (Elt F) → (⟨S4x1048576, .f32⟩ : BufTy).Contents (Elt F)),
    nullary main_c_169 (constantI S_ 32 192#32),
    unary main_c_169 main_v519 (broadcastInDim S1048576 ![] bcast_S_S1048576 : (⟨S_, .i32⟩ : BufTy).Contents (Elt F) → (⟨S1048576, .i32⟩ : BufTy).Contents (Elt F)),
    binary main_v479 main_v519 main_v520 (muli : (⟨S1048576, .i32⟩ : BufTy).Contents (Elt F) → (⟨S1048576, .i32⟩ : BufTy).Contents (Elt F) → (⟨S1048576, .i32⟩ : BufTy).Contents (Elt F)),
    binary main_v520 main_v487 main_v521 (addi : (⟨S1048576, .i32⟩ : BufTy).Contents (Elt F) → (⟨S1048576, .i32⟩ : BufTy).Contents (Elt F) → (⟨S1048576, .i32⟩ : BufTy).Contents (Elt F)),
    nullary main_c_170 (constantI S_ 32 192#32),
    unary main_c_170 main_v522 (broadcastInDim S1048576 ![] bcast_S_S1048576 : (⟨S_, .i32⟩ : BufTy).Contents (Elt F) → (⟨S1048576, .i32⟩ : BufTy).Contents (Elt F)),
    binary main_v521 main_v522 main_v523 (muli : (⟨S1048576, .i32⟩ : BufTy).Contents (Elt F) → (⟨S1048576, .i32⟩ : BufTy).Contents (Elt F) → (⟨S1048576, .i32⟩ : BufTy).Contents (Elt F)),
    binary main_v523 main_v477 main_v524 (addi : (⟨S1048576, .i32⟩ : BufTy).Contents (Elt F) → (⟨S1048576, .i32⟩ : BufTy).Contents (Elt F) → (⟨S1048576, .i32⟩ : BufTy).Contents (Elt F)),
    nullary main_c_171 (constantI S_ 32 0#32),
    unary main_c_171 main_v525 (broadcastInDim S1048576 ![] bcast_S_S1048576 : (⟨S_, .i32⟩ : BufTy).Contents (Elt F) → (⟨S1048576, .i32⟩ : BufTy).Contents (Elt F)),
    binary main_v524 main_v525 main_v526 (cmpi .slt : (⟨S1048576, .i32⟩ : BufTy).Contents (Elt F) → (⟨S1048576, .i32⟩ : BufTy).Contents (Elt F) → (⟨S1048576, .i1⟩ : BufTy).Contents (Elt F)),
    nullary main_c_172 (constantI S_ 32 7077888#32),
    unary main_c_172 main_v527 (broadcastInDim S1048576 ![] bcast_S_S1048576 : (⟨S_, .i32⟩ : BufTy).Contents (Elt F) → (⟨S1048576, .i32⟩ : BufTy).Contents (Elt F)),
    binary main_v524 main_v527 main_v528 (addi : (⟨S1048576, .i32⟩ : BufTy).Contents (Elt F) → (⟨S1048576, .i32⟩ : BufTy).Contents (Elt F) → (⟨S1048576, .i32⟩ : BufTy).Contents (Elt F)),
    ternary main_v526 main_v528 main_v524 main_v529 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v529 main_v530 (broadcastInDim S1048576x1 ![0] bcast_S1048576_S1048576x1_0 : (⟨S1048576, .i32⟩ : BufTy).Contents (Elt F) → (⟨S1048576x1, .i32⟩ : BufTy).Contents (Elt F)),
    binary main_v492 main_v530 main_v531 ((fun x i => Host.gather gather_S4x7077888_S1048576x1_S4x1048576_0_1_n_n_1_1_41 x i) : (⟨S4x7077888, .f32⟩ : BufTy).Contents (Elt F) → (⟨S1048576x1, .i32⟩ : BufTy).Contents (Elt F) → (⟨S4x1048576, .f32⟩ : BufTy).Contents (Elt F)),
    nullary main_c_173 (constantI S_ 32 192#32),
    unary main_c_173 main_v532 (broadcastInDim S1048576 ![] bcast_S_S1048576 : (⟨S_, .i32⟩ : BufTy).Contents (Elt F) → (⟨S1048576, .i32⟩ : BufTy).Contents (Elt F)),
    binary main_v479 main_v532 main_v533 (muli : (⟨S1048576, .i32⟩ : BufTy).Contents (Elt F) → (⟨S1048576, .i32⟩ : BufTy).Contents (Elt F) → (⟨S1048576, .i32⟩ : BufTy).Contents (Elt F)),
    binary main_v533 main_v487 main_v534 (addi : (⟨S1048576, .i32⟩ : BufTy).Contents (Elt F) → (⟨S1048576, .i32⟩ : BufTy).Contents (Elt F) → (⟨S1048576, .i32⟩ : BufTy).Contents (Elt F)),
    nullary main_c_174 (constantI S_ 32 192#32),
    unary main_c_174 main_v535 (broadcastInDim S1048576 ![] bcast_S_S1048576 : (⟨S_, .i32⟩ : BufTy).Contents (Elt F) → (⟨S1048576, .i32⟩ : BufTy).Contents (Elt F)),
    binary main_v534 main_v535 main_v536 (muli : (⟨S1048576, .i32⟩ : BufTy).Contents (Elt F) → (⟨S1048576, .i32⟩ : BufTy).Contents (Elt F) → (⟨S1048576, .i32⟩ : BufTy).Contents (Elt F)),
    binary main_v536 main_v483 main_v537 (addi : (⟨S1048576, .i32⟩ : BufTy).Contents (Elt F) → (⟨S1048576, .i32⟩ : BufTy).Contents (Elt F) → (⟨S1048576, .i32⟩ : BufTy).Contents (Elt F)),
    nullary main_c_175 (constantI S_ 32 0#32),
    unary main_c_175 main_v538 (broadcastInDim S1048576 ![] bcast_S_S1048576 : (⟨S_, .i32⟩ : BufTy).Contents (Elt F) → (⟨S1048576, .i32⟩ : BufTy).Contents (Elt F)),
    binary main_v537 main_v538 main_v539 (cmpi .slt : (⟨S1048576, .i32⟩ : BufTy).Contents (Elt F) → (⟨S1048576, .i32⟩ : BufTy).Contents (Elt F) → (⟨S1048576, .i1⟩ : BufTy).Contents (Elt F)),
    nullary main_c_176 (constantI S_ 32 7077888#32),
    unary main_c_176 main_v540 (broadcastInDim S1048576 ![] bcast_S_S1048576 : (⟨S_, .i32⟩ : BufTy).Contents (Elt F) → (⟨S1048576, .i32⟩ : BufTy).Contents (Elt F)) ]
/-- Window 11 is the sequence of its operations. -/
theorem part_eq11 (c : Dev nD) : main_part11 (F := F) c = seq ops11 := rfl
/-- Each touches TensorCore references only. -/
theorem ops_sub11 : (ops11 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub ..⟩

/-- The operations of window 12 of @main, in order. -/
abbrev ops12 : List (HloOp τ sig (Elt F)) :=
  [ binary main_v537 main_v540 main_v541 (addi : (⟨S1048576, .i32⟩ : BufTy).Contents (Elt F) → (⟨S1048576, .i32⟩ : BufTy).Contents (Elt F) → (⟨S1048576, .i32⟩ : BufTy).Contents (Elt F)),
    ternary main_v539 main_v541 main_v537 main_v542 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v542 main_v543 (broadcastInDim S1048576x1 ![0] bcast_S1048576_S1048576x1_0 : (⟨S1048576, .i32⟩ : BufTy).Contents (Elt F) → (⟨S1048576x1, .i32⟩ : BufTy).Contents (Elt F)),
    binary main_v492 main_v543 main_v544 ((fun x i => Host.gather gather_S4x7077888_S1048576x1_S4x1048576_0_1_n_n_1_1_41 x i) : (⟨S4x7077888, .f32⟩ : BufTy).Contents (Elt F) → (⟨S1048576x1, .i32⟩ : BufTy).Contents (Elt F) → (⟨S4x1048576, .f32⟩ : BufTy).Contents (Elt F)),
    nullary main_c_177 (constantI S_ 32 192#32),
    unary main_c_177 main_v545 (broadcastInDim S1048576 ![] bcast_S_S1048576 : (⟨S_, .i32⟩ : BufTy).Contents (Elt F) → (⟨S1048576, .i32⟩ : BufTy).Contents (Elt F)),
    binary main_v491 main_v545 main_v546 (muli : (⟨S1048576, .i32⟩ : BufTy).Contents (Elt F) → (⟨S1048576, .i32⟩ : BufTy).Contents (Elt F) → (⟨S1048576, .i32⟩ : BufTy).Contents (Elt F)),
    binary main_v546 main_v478 main_v547 (addi : (⟨S1048576, .i32⟩ : BufTy).Contents (Elt F) → (⟨S1048576, .i32⟩ : BufTy).Contents (Elt F) → (⟨S1048576, .i32⟩ : BufTy).Contents (Elt F)),
    nullary main_c_178 (constantI S_ 32 192#32),
    unary main_c_178 main_v548 (broadcastInDim S1048576 ![] bcast_S_S1048576 : (⟨S_, .i32⟩ : BufTy).Contents (Elt F) → (⟨S1048576, .i32⟩ : BufTy).Contents (Elt F)),
    binary main_v547 main_v548 main_v549 (muli : (⟨S1048576, .i32⟩ : BufTy).Contents (Elt F) → (⟨S1048576, .i32⟩ : BufTy).Contents (Elt F) → (⟨S1048576, .i32⟩ : BufTy).Contents (Elt F)),
    binary main_v549 main_v477 main_v550 (addi : (⟨S1048576, .i32⟩ : BufTy).Contents (Elt F) → (⟨S1048576, .i32⟩ : BufTy).Contents (Elt F) → (⟨S1048576, .i32⟩ : BufTy).Contents (Elt F)),
    nullary main_c_179 (constantI S_ 32 0#32),
    unary main_c_179 main_v551 (broadcastInDim S1048576 ![] bcast_S_S1048576 : (⟨S_, .i32⟩ : BufTy).Contents (Elt F) → (⟨S1048576, .i32⟩ : BufTy).Contents (Elt F)),
    binary main_v550 main_v551 main_v552 (cmpi .slt : (⟨S1048576, .i32⟩ : BufTy).Contents (Elt F) → (⟨S1048576, .i32⟩ : BufTy).Contents (Elt F) → (⟨S1048576, .i1⟩ : BufTy).Contents (Elt F)),
    nullary main_c_180 (constantI S_ 32 7077888#32),
    unary main_c_180 main_v553 (broadcastInDim S1048576 ![] bcast_S_S1048576 : (⟨S_, .i32⟩ : BufTy).Contents (Elt F) → (⟨S1048576, .i32⟩ : BufTy).Contents (Elt F)),
    binary main_v550 main_v553 main_v554 (addi : (⟨S1048576, .i32⟩ : BufTy).Contents (Elt F) → (⟨S1048576, .i32⟩ : BufTy).Contents (Elt F) → (⟨S1048576, .i32⟩ : BufTy).Contents (Elt F)),
    ternary main_v552 main_v554 main_v550 main_v555 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v555 main_v556 (broadcastInDim S1048576x1 ![0] bcast_S1048576_S1048576x1_0 : (⟨S1048576, .i32⟩ : BufTy).Contents (Elt F) → (⟨S1048576x1, .i32⟩ : BufTy).Contents (Elt F)),
    binary main_v492 main_v556 main_v557 ((fun x i => Host.gather gather_S4x7077888_S1048576x1_S4x1048576_0_1_n_n_1_1_41 x i) : (⟨S4x7077888, .f32⟩ : BufTy).Contents (Elt F) → (⟨S1048576x1, .i32⟩ : BufTy).Contents (Elt F) → (⟨S4x1048576, .f32⟩ : BufTy).Contents (Elt F)),
    nullary main_c_181 (constantI S_ 32 192#32),
    unary main_c_181 main_v558 (broadcastInDim S1048576 ![] bcast_S_S1048576 : (⟨S_, .i32⟩ : BufTy).Contents (Elt F) → (⟨S1048576, .i32⟩ : BufTy).Contents (Elt F)),
    binary main_v491 main_v558 main_v559 (muli : (⟨S1048576, .i32⟩ : BufTy).Contents (Elt F) → (⟨S1048576, .i32⟩ : BufTy).Contents (Elt F) → (⟨S1048576, .i32⟩ : BufTy).Contents (Elt F)),
    binary main_v559 main_v478 main_v560 (addi : (⟨S1048576, .i32⟩ : BufTy).Contents (Elt F) → (⟨S1048576, .i32⟩ : BufTy).Contents (Elt F) → (⟨S1048576, .i32⟩ : BufTy).Contents (Elt F)),
    nullary main_c_182 (constantI S_ 32 192#32),
    unary main_c_182 main_v561 (broadcastInDim S1048576 ![] bcast_S_S1048576 : (⟨S_, .i32⟩ : BufTy).Contents (Elt F) → (⟨S1048576, .i32⟩ : BufTy).Contents (Elt F)),
    binary main_v560 main_v561 main_v562 (muli : (⟨S1048576, .i32⟩ : BufTy).Contents (Elt F) → (⟨S1048576, .i32⟩ : BufTy).Contents (Elt F) → (⟨S1048576, .i32⟩ : BufTy).Contents (Elt F)),
    binary main_v562 main_v483 main_v563 (addi : (⟨S1048576, .i32⟩ : BufTy).Contents (Elt F) → (⟨S1048576, .i32⟩ : BufTy).Contents (Elt F) → (⟨S1048576, .i32⟩ : BufTy).Contents (Elt F)),
    nullary main_c_183 (constantI S_ 32 0#32),
    unary main_c_183 main_v564 (broadcastInDim S1048576 ![] bcast_S_S1048576 : (⟨S_, .i32⟩ : BufTy).Contents (Elt F) → (⟨S1048576, .i32⟩ : BufTy).Contents (Elt F)),
    binary main_v563 main_v564 main_v565 (cmpi .slt : (⟨S1048576, .i32⟩ : BufTy).Contents (Elt F) → (⟨S1048576, .i32⟩ : BufTy).Contents (Elt F) → (⟨S1048576, .i1⟩ : BufTy).Contents (Elt F)),
    nullary main_c_184 (constantI S_ 32 7077888#32),
    unary main_c_184 main_v566 (broadcastInDim S1048576 ![] bcast_S_S1048576 : (⟨S_, .i32⟩ : BufTy).Contents (Elt F) → (⟨S1048576, .i32⟩ : BufTy).Contents (Elt F)),
    binary main_v563 main_v566 main_v567 (addi : (⟨S1048576, .i32⟩ : BufTy).Contents (Elt F) → (⟨S1048576, .i32⟩ : BufTy).Contents (Elt F) → (⟨S1048576, .i32⟩ : BufTy).Contents (Elt F)),
    ternary main_v565 main_v567 main_v563 main_v568 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v568 main_v569 (broadcastInDim S1048576x1 ![0] bcast_S1048576_S1048576x1_0 : (⟨S1048576, .i32⟩ : BufTy).Contents (Elt F) → (⟨S1048576x1, .i32⟩ : BufTy).Contents (Elt F)),
    binary main_v492 main_v569 main_v570 ((fun x i => Host.gather gather_S4x7077888_S1048576x1_S4x1048576_0_1_n_n_1_1_41 x i) : (⟨S4x7077888, .f32⟩ : BufTy).Contents (Elt F) → (⟨S1048576x1, .i32⟩ : BufTy).Contents (Elt F) → (⟨S4x1048576, .f32⟩ : BufTy).Contents (Elt F)),
    nullary main_c_185 (constantI S_ 32 192#32),
    unary main_c_185 main_v571 (broadcastInDim S1048576 ![] bcast_S_S1048576 : (⟨S_, .i32⟩ : BufTy).Contents (Elt F) → (⟨S1048576, .i32⟩ : BufTy).Contents (Elt F)),
    binary main_v491 main_v571 main_v572 (muli : (⟨S1048576, .i32⟩ : BufTy).Contents (Elt F) → (⟨S1048576, .i32⟩ : BufTy).Contents (Elt F) → (⟨S1048576, .i32⟩ : BufTy).Contents (Elt F)),
    binary main_v572 main_v487 main_v573 (addi : (⟨S1048576, .i32⟩ : BufTy).Contents (Elt F) → (⟨S1048576, .i32⟩ : BufTy).Contents (Elt F) → (⟨S1048576, .i32⟩ : BufTy).Contents (Elt F)),
    nullary main_c_186 (constantI S_ 32 192#32),
    unary main_c_186 main_v574 (broadcastInDim S1048576 ![] bcast_S_S1048576 : (⟨S_, .i32⟩ : BufTy).Contents (Elt F) → (⟨S1048576, .i32⟩ : BufTy).Contents (Elt F)),
    binary main_v573 main_v574 main_v575 (muli : (⟨S1048576, .i32⟩ : BufTy).Contents (Elt F) → (⟨S1048576, .i32⟩ : BufTy).Contents (Elt F) → (⟨S1048576, .i32⟩ : BufTy).Contents (Elt F)),
    binary main_v575 main_v477 main_v576 (addi : (⟨S1048576, .i32⟩ : BufTy).Contents (Elt F) → (⟨S1048576, .i32⟩ : BufTy).Contents (Elt F) → (⟨S1048576, .i32⟩ : BufTy).Contents (Elt F)),
    nullary main_c_187 (constantI S_ 32 0#32),
    unary main_c_187 main_v577 (broadcastInDim S1048576 ![] bcast_S_S1048576 : (⟨S_, .i32⟩ : BufTy).Contents (Elt F) → (⟨S1048576, .i32⟩ : BufTy).Contents (Elt F)),
    binary main_v576 main_v577 main_v578 (cmpi .slt : (⟨S1048576, .i32⟩ : BufTy).Contents (Elt F) → (⟨S1048576, .i32⟩ : BufTy).Contents (Elt F) → (⟨S1048576, .i1⟩ : BufTy).Contents (Elt F)),
    nullary main_c_188 (constantI S_ 32 7077888#32),
    unary main_c_188 main_v579 (broadcastInDim S1048576 ![] bcast_S_S1048576 : (⟨S_, .i32⟩ : BufTy).Contents (Elt F) → (⟨S1048576, .i32⟩ : BufTy).Contents (Elt F)),
    binary main_v576 main_v579 main_v580 (addi : (⟨S1048576, .i32⟩ : BufTy).Contents (Elt F) → (⟨S1048576, .i32⟩ : BufTy).Contents (Elt F) → (⟨S1048576, .i32⟩ : BufTy).Contents (Elt F)),
    ternary main_v578 main_v580 main_v576 main_v581 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v581 main_v582 (broadcastInDim S1048576x1 ![0] bcast_S1048576_S1048576x1_0 : (⟨S1048576, .i32⟩ : BufTy).Contents (Elt F) → (⟨S1048576x1, .i32⟩ : BufTy).Contents (Elt F)),
    binary main_v492 main_v582 main_v583 ((fun x i => Host.gather gather_S4x7077888_S1048576x1_S4x1048576_0_1_n_n_1_1_41 x i) : (⟨S4x7077888, .f32⟩ : BufTy).Contents (Elt F) → (⟨S1048576x1, .i32⟩ : BufTy).Contents (Elt F) → (⟨S4x1048576, .f32⟩ : BufTy).Contents (Elt F)),
    nullary main_c_189 (constantI S_ 32 192#32),
    unary main_c_189 main_v584 (broadcastInDim S1048576 ![] bcast_S_S1048576 : (⟨S_, .i32⟩ : BufTy).Contents (Elt F) → (⟨S1048576, .i32⟩ : BufTy).Contents (Elt F)),
    binary main_v491 main_v584 main_v585 (muli : (⟨S1048576, .i32⟩ : BufTy).Contents (Elt F) → (⟨S1048576, .i32⟩ : BufTy).Contents (Elt F) → (⟨S1048576, .i32⟩ : BufTy).Contents (Elt F)),
    binary main_v585 main_v487 main_v586 (addi : (⟨S1048576, .i32⟩ : BufTy).Contents (Elt F) → (⟨S1048576, .i32⟩ : BufTy).Contents (Elt F) → (⟨S1048576, .i32⟩ : BufTy).Contents (Elt F)),
    nullary main_c_190 (constantI S_ 32 192#32) ]
/-- Window 12 is the sequence of its operations. -/
theorem part_eq12 (c : Dev nD) : main_part12 (F := F) c = seq ops12 := rfl
/-- Each touches TensorCore references only. -/
theorem ops_sub12 : (ops12 : List (HloOp τ sig (Elt F))).Forall fun op => op.bufs ⊆ tcRefs τ sig :=
  ⟨binary_bufs_sub .., ternary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., nullary_bufs_sub ..⟩

/-- The operations of window 13 of @main, in order. -/
abbrev ops13 : List (HloOp τ sig (Elt F)) :=
  [ unary main_c_190 main_v587 (broadcastInDim S1048576 ![] bcast_S_S1048576 : (⟨S_, .i32⟩ : BufTy).Contents (Elt F) → (⟨S1048576, .i32⟩ : BufTy).Contents (Elt F)),
    binary main_v586 main_v587 main_v588 (muli : (⟨S1048576, .i32⟩ : BufTy).Contents (Elt F) → (⟨S1048576, .i32⟩ : BufTy).Contents (Elt F) → (⟨S1048576, .i32⟩ : BufTy).Contents (Elt F)),
    binary main_v588 main_v483 main_v589 (addi : (⟨S1048576, .i32⟩ : BufTy).Contents (Elt F) → (⟨S1048576, .i32⟩ : BufTy).Contents (Elt F) → (⟨S1048576, .i32⟩ : BufTy).Contents (Elt F)),
    nullary main_c_191 (constantI S_ 32 0#32),
    unary main_c_191 main_v590 (broadcastInDim S1048576 ![] bcast_S_S1048576 : (⟨S_, .i32⟩ : BufTy).Contents (Elt F) → (⟨S1048576, .i32⟩ : BufTy).Contents (Elt F)),
    binary main_v589 main_v590 main_v591 (cmpi .slt : (⟨S1048576, .i32⟩ : BufTy).Contents (Elt F) → (⟨S1048576, .i32⟩ : BufTy).Contents (Elt F) → (⟨S1048576, .i1⟩ : BufTy).Contents (Elt F)),
    nullary main_c_192 (constantI S_ 32 7077888#32),
    unary main_c_192 main_v592 (broadcastInDim S1048576 ![] bcast_S_S1048576 : (⟨S_, .i32⟩ : BufTy).Contents (Elt F) → (⟨S1048576, .i32⟩ : BufTy).Contents (Elt F)),
    binary main_v589 main_v592 main_v593 (addi : (⟨S1048576, .i32⟩ : BufTy).Contents (Elt F) → (⟨S1048576, .i32⟩ : BufTy).Contents (Elt F) → (⟨S1048576, .i32⟩ : BufTy).Contents (Elt F)),
    ternary main_v591 main_v593 main_v589 main_v594 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v594 main_v595 (broadcastInDim S1048576x1 ![0] bcast_S1048576_S1048576x1_0 : (⟨S1048576, .i32⟩ : BufTy).Contents (Elt F) → (⟨S1048576x1, .i32⟩ : BufTy).Contents (Elt F)),
    binary main_v492 main_v595 main_v596 ((fun x i => Host.gather gather_S4x7077888_S1048576x1_S4x1048576_0_1_n_n_1_1_41 x i) : (⟨S4x7077888, .f32⟩ : BufTy).Contents (Elt F) → (⟨S1048576x1, .i32⟩ : BufTy).Contents (Elt F) → (⟨S4x1048576, .f32⟩ : BufTy).Contents (Elt F)),
    binary main_v518 main_v505 main_v597 (subf : (⟨S4x1048576, .f32⟩ : BufTy).Contents (Elt F) → (⟨S4x1048576, .f32⟩ : BufTy).Contents (Elt F) → (⟨S4x1048576, .f32⟩ : BufTy).Contents (Elt F)),
    unary main_v464 main_v598 (broadcastInDim S1x1048576 ![1] bcast_S1048576_S1x1048576_1 : (⟨S1048576, .f32⟩ : BufTy).Contents (Elt F) → (⟨S1x1048576, .f32⟩ : BufTy).Contents (Elt F)),
    unary main_v598 main_v599 (broadcastInDim S4x1048576 ![0, 1] bcast_S1x1048576_S4x1048576_0_1 : (⟨S1x1048576, .f32⟩ : BufTy).Contents (Elt F) → (⟨S4x1048576, .f32⟩ : BufTy).Contents (Elt F)),
    binary main_v597 main_v599 main_v600 (mulf : (⟨S4x1048576, .f32⟩ : BufTy).Contents (Elt F) → (⟨S4x1048576, .f32⟩ : BufTy).Contents (Elt F) → (⟨S4x1048576, .f32⟩ : BufTy).Contents (Elt F)),
    binary main_v505 main_v600 main_v601 (addf : (⟨S4x1048576, .f32⟩ : BufTy).Contents (Elt F) → (⟨S4x1048576, .f32⟩ : BufTy).Contents (Elt F) → (⟨S4x1048576, .f32⟩ : BufTy).Contents (Elt F)),
    binary main_v544 main_v531 main_v602 (subf : (⟨S4x1048576, .f32⟩ : BufTy).Contents (Elt F) → (⟨S4x1048576, .f32⟩ : BufTy).Contents (Elt F) → (⟨S4x1048576, .f32⟩ : BufTy).Contents (Elt F)),
    unary main_v464 main_v603 (broadcastInDim S1x1048576 ![1] bcast_S1048576_S1x1048576_1 : (⟨S1048576, .f32⟩ : BufTy).Contents (Elt F) → (⟨S1x1048576, .f32⟩ : BufTy).Contents (Elt F)),
    unary main_v603 main_v604 (broadcastInDim S4x1048576 ![0, 1] bcast_S1x1048576_S4x1048576_0_1 : (⟨S1x1048576, .f32⟩ : BufTy).Contents (Elt F) → (⟨S4x1048576, .f32⟩ : BufTy).Contents (Elt F)),
    binary main_v602 main_v604 main_v605 (mulf : (⟨S4x1048576, .f32⟩ : BufTy).Contents (Elt F) → (⟨S4x1048576, .f32⟩ : BufTy).Contents (Elt F) → (⟨S4x1048576, .f32⟩ : BufTy).Contents (Elt F)),
    binary main_v531 main_v605 main_v606 (addf : (⟨S4x1048576, .f32⟩ : BufTy).Contents (Elt F) → (⟨S4x1048576, .f32⟩ : BufTy).Contents (Elt F) → (⟨S4x1048576, .f32⟩ : BufTy).Contents (Elt F)),
    binary main_v570 main_v557 main_v607 (subf : (⟨S4x1048576, .f32⟩ : BufTy).Contents (Elt F) → (⟨S4x1048576, .f32⟩ : BufTy).Contents (Elt F) → (⟨S4x1048576, .f32⟩ : BufTy).Contents (Elt F)),
    unary main_v464 main_v608 (broadcastInDim S1x1048576 ![1] bcast_S1048576_S1x1048576_1 : (⟨S1048576, .f32⟩ : BufTy).Contents (Elt F) → (⟨S1x1048576, .f32⟩ : BufTy).Contents (Elt F)),
    unary main_v608 main_v609 (broadcastInDim S4x1048576 ![0, 1] bcast_S1x1048576_S4x1048576_0_1 : (⟨S1x1048576, .f32⟩ : BufTy).Contents (Elt F) → (⟨S4x1048576, .f32⟩ : BufTy).Contents (Elt F)),
    binary main_v607 main_v609 main_v610 (mulf : (⟨S4x1048576, .f32⟩ : BufTy).Contents (Elt F) → (⟨S4x1048576, .f32⟩ : BufTy).Contents (Elt F) → (⟨S4x1048576, .f32⟩ : BufTy).Contents (Elt F)),
    binary main_v557 main_v610 main_v611 (addf : (⟨S4x1048576, .f32⟩ : BufTy).Contents (Elt F) → (⟨S4x1048576, .f32⟩ : BufTy).Contents (Elt F) → (⟨S4x1048576, .f32⟩ : BufTy).Contents (Elt F)),
    binary main_v596 main_v583 main_v612 (subf : (⟨S4x1048576, .f32⟩ : BufTy).Contents (Elt F) → (⟨S4x1048576, .f32⟩ : BufTy).Contents (Elt F) → (⟨S4x1048576, .f32⟩ : BufTy).Contents (Elt F)),
    unary main_v464 main_v613 (broadcastInDim S1x1048576 ![1] bcast_S1048576_S1x1048576_1 : (⟨S1048576, .f32⟩ : BufTy).Contents (Elt F) → (⟨S1x1048576, .f32⟩ : BufTy).Contents (Elt F)),
    unary main_v613 main_v614 (broadcastInDim S4x1048576 ![0, 1] bcast_S1x1048576_S4x1048576_0_1 : (⟨S1x1048576, .f32⟩ : BufTy).Contents (Elt F) → (⟨S4x1048576, .f32⟩ : BufTy).Contents (Elt F)),
    binary main_v612 main_v614 main_v615 (mulf : (⟨S4x1048576, .f32⟩ : BufTy).Contents (Elt F) → (⟨S4x1048576, .f32⟩ : BufTy).Contents (Elt F) → (⟨S4x1048576, .f32⟩ : BufTy).Contents (Elt F)),
    binary main_v583 main_v615 main_v616 (addf : (⟨S4x1048576, .f32⟩ : BufTy).Contents (Elt F) → (⟨S4x1048576, .f32⟩ : BufTy).Contents (Elt F) → (⟨S4x1048576, .f32⟩ : BufTy).Contents (Elt F)),
    binary main_v606 main_v601 main_v617 (subf : (⟨S4x1048576, .f32⟩ : BufTy).Contents (Elt F) → (⟨S4x1048576, .f32⟩ : BufTy).Contents (Elt F) → (⟨S4x1048576, .f32⟩ : BufTy).Contents (Elt F)),
    unary main_v470 main_v618 (broadcastInDim S1x1048576 ![1] bcast_S1048576_S1x1048576_1 : (⟨S1048576, .f32⟩ : BufTy).Contents (Elt F) → (⟨S1x1048576, .f32⟩ : BufTy).Contents (Elt F)),
    unary main_v618 main_v619 (broadcastInDim S4x1048576 ![0, 1] bcast_S1x1048576_S4x1048576_0_1 : (⟨S1x1048576, .f32⟩ : BufTy).Contents (Elt F) → (⟨S4x1048576, .f32⟩ : BufTy).Contents (Elt F)),
    binary main_v617 main_v619 main_v620 (mulf : (⟨S4x1048576, .f32⟩ : BufTy).Contents (Elt F) → (⟨S4x1048576, .f32⟩ : BufTy).Contents (Elt F) → (⟨S4x1048576, .f32⟩ : BufTy).Contents (Elt F)),
    binary main_v601 main_v620 main_v621 (addf : (⟨S4x1048576, .f32⟩ : BufTy).Contents (Elt F) → (⟨S4x1048576, .f32⟩ : BufTy).Contents (Elt F) → (⟨S4x1048576, .f32⟩ : BufTy).Contents (Elt F)),
    binary main_v616 main_v611 main_v622 (subf : (⟨S4x1048576, .f32⟩ : BufTy).Contents (Elt F) → (⟨S4x1048576, .f32⟩ : BufTy).Contents (Elt F) → (⟨S4x1048576, .f32⟩ : BufTy).Contents (Elt F)),
    unary main_v470 main_v623 (broadcastInDim S1x1048576 ![1] bcast_S1048576_S1x1048576_1 : (⟨S1048576, .f32⟩ : BufTy).Contents (Elt F) → (⟨S1x1048576, .f32⟩ : BufTy).Contents (Elt F)),
    unary main_v623 main_v624 (broadcastInDim S4x1048576 ![0, 1] bcast_S1x1048576_S4x1048576_0_1 : (⟨S1x1048576, .f32⟩ : BufTy).Contents (Elt F) → (⟨S4x1048576, .f32⟩ : BufTy).Contents (Elt F)),
    binary main_v622 main_v624 main_v625 (mulf : (⟨S4x1048576, .f32⟩ : BufTy).Contents (Elt F) → (⟨S4x1048576, .f32⟩ : BufTy).Contents (Elt F) → (⟨S4x1048576, .f32⟩ : BufTy).Contents (Elt F)),
    binary main_v611 main_v625 main_v626 (addf : (⟨S4x1048576, .f32⟩ : BufTy).Contents (Elt F) → (⟨S4x1048576, .f32⟩ : BufTy).Contents (Elt F) → (⟨S4x1048576, .f32⟩ : BufTy).Contents (Elt F)),
    binary main_v626 main_v621 main_v627 (subf : (⟨S4x1048576, .f32⟩ : BufTy).Contents (Elt F) → (⟨S4x1048576, .f32⟩ : BufTy).Contents (Elt F) → (⟨S4x1048576, .f32⟩ : BufTy).Contents (Elt F)),
    unary main_v476 main_v628 (broadcastInDim S1x1048576 ![1] bcast_S1048576_S1x1048576_1 : (⟨S1048576, .f32⟩ : BufTy).Contents (Elt F) → (⟨S1x1048576, .f32⟩ : BufTy).Contents (Elt F)),
    unary main_v628 main_v629 (broadcastInDim S4x1048576 ![0, 1] bcast_S1x1048576_S4x1048576_0_1 : (⟨S1x1048576, .f32⟩ : BufTy).Contents (Elt F) → (⟨S4x1048576, .f32⟩ : BufTy).Contents (Elt F)),
    binary main_v627 main_v629 main_v630 (mulf : (⟨S4x1048576, .f32⟩ : BufTy).Contents (Elt F) → (⟨S4x1048576, .f32⟩ : BufTy).Contents (Elt F) → (⟨S4x1048576, .f32⟩ : BufTy).Contents (Elt F)),
    binary main_v621 main_v630 main_v631 (addf : (⟨S4x1048576, .f32⟩ : BufTy).Contents (Elt F) → (⟨S4x1048576, .f32⟩ : BufTy).Contents (Elt F) → (⟨S4x1048576, .f32⟩ : BufTy).Contents (Elt F)),
    reshape main_v631 main_v632 rfl shapeCasts_S4x1048576_S1x4x1x1x1048576,
    nary ![main_v210, main_v421, main_v632] main_v633 (fun u => concatenate S1x12x1x1x1048576 1 [⟨S1x4x1x1x1048576, u 0⟩, ⟨S1x4x1x1x1048576, u 1⟩, ⟨S1x4x1x1x1048576, u 2⟩] concatenates_S1x4x1x1x1048576_S1x4x1x1x1048576_S1x4x1x1x1048576_S1x12x1x1x1048576_d1) ]
/-- Window 13 is the sequence of its operations. -/
theorem part_eq13 (c : Dev nD) : main_part13 (F := F) c = seq ops13 := rfl
/-- Each touches TensorCore references only. -/
theorem ops_sub13 : (ops13 : List (HloOp τ sig (Elt F))).Forall fun op => op.bufs ⊆ tcRefs τ sig :=
  ⟨unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., reshape_bufs_sub .., nary_bufs_sub ..⟩

/-- All 919 operations: the windows' lists end to end. -/
abbrev ops : List (HloOp τ sig (Elt F)) :=
  ops0 ++ (ops1 ++ (ops2 ++ (ops3 ++ (ops4 ++ (ops5 ++ (ops6 ++ (ops7 ++ (ops8 ++ (ops9 ++ (ops10 ++ (ops11 ++ (ops12 ++ (ops13)))))))))))))

/-- @main is the sequence of all its operations. -/
theorem main_eq (c : Dev nD) : main (F := F) c = seq ops := by
  show (main_part0 (F := F) c >>= fun _ => main_part1 (F := F) c >>= fun _ => main_part2 (F := F) c >>= fun _ => main_part3 (F := F) c >>= fun _ => main_part4 (F := F) c >>= fun _ => main_part5 (F := F) c >>= fun _ => main_part6 (F := F) c >>= fun _ => main_part7 (F := F) c >>= fun _ => main_part8 (F := F) c >>= fun _ => main_part9 (F := F) c >>= fun _ => main_part10 (F := F) c >>= fun _ => main_part11 (F := F) c >>= fun _ => main_part12 (F := F) c >>= fun _ => main_part13 (F := F) c) = _
  rw [part_eq0, part_eq1, part_eq2, part_eq3, part_eq4, part_eq5, part_eq6, part_eq7, part_eq8, part_eq9, part_eq10, part_eq11, part_eq12, part_eq13]
  simp only [ops, seq_append]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig := by
  refine List.forall_iff_forall_mem.mpr fun op h => ?_
  simp only [ops, List.mem_append] at h
  rcases h with h | h | h | h | h | h | h | h | h | h | h | h | h | h
  · exact (List.forall_iff_forall_mem.mp ops_sub0) op h
  · exact (List.forall_iff_forall_mem.mp ops_sub1) op h
  · exact (List.forall_iff_forall_mem.mp ops_sub2) op h
  · exact (List.forall_iff_forall_mem.mp ops_sub3) op h
  · exact (List.forall_iff_forall_mem.mp ops_sub4) op h
  · exact (List.forall_iff_forall_mem.mp ops_sub5) op h
  · exact (List.forall_iff_forall_mem.mp ops_sub6) op h
  · exact (List.forall_iff_forall_mem.mp ops_sub7) op h
  · exact (List.forall_iff_forall_mem.mp ops_sub8) op h
  · exact (List.forall_iff_forall_mem.mp ops_sub9) op h
  · exact (List.forall_iff_forall_mem.mp ops_sub10) op h
  · exact (List.forall_iff_forall_mem.mp ops_sub11) op h
  · exact (List.forall_iff_forall_mem.mp ops_sub12) op h
  · exact (List.forall_iff_forall_mem.mp ops_sub13) op h

/-- No operation allocates. -/
theorem ops_fresh : (ops : List (HloOp τ sig (Elt F))).Forall fun op => op.fresh = ∅ := by
  refine List.forall_iff_forall_mem.mpr fun op h => ?_
  simp only [ops, List.mem_append] at h
  rcases h with h | h | h | h | h | h | h | h | h | h | h | h | h | h
  · exact (List.forall_iff_forall_mem.mp (show (ops0 : List (HloOp τ sig (Elt F))).Forall fun op => op.fresh = ∅ from by simp only [List.Forall]; repeat' constructor)) op h
  · exact (List.forall_iff_forall_mem.mp (show (ops1 : List (HloOp τ sig (Elt F))).Forall fun op => op.fresh = ∅ from by simp only [List.Forall]; repeat' constructor)) op h
  · exact (List.forall_iff_forall_mem.mp (show (ops2 : List (HloOp τ sig (Elt F))).Forall fun op => op.fresh = ∅ from by simp only [List.Forall]; repeat' constructor)) op h
  · exact (List.forall_iff_forall_mem.mp (show (ops3 : List (HloOp τ sig (Elt F))).Forall fun op => op.fresh = ∅ from by simp only [List.Forall]; repeat' constructor)) op h
  · exact (List.forall_iff_forall_mem.mp (show (ops4 : List (HloOp τ sig (Elt F))).Forall fun op => op.fresh = ∅ from by simp only [List.Forall]; repeat' constructor)) op h
  · exact (List.forall_iff_forall_mem.mp (show (ops5 : List (HloOp τ sig (Elt F))).Forall fun op => op.fresh = ∅ from by simp only [List.Forall]; repeat' constructor)) op h
  · exact (List.forall_iff_forall_mem.mp (show (ops6 : List (HloOp τ sig (Elt F))).Forall fun op => op.fresh = ∅ from by simp only [List.Forall]; repeat' constructor)) op h
  · exact (List.forall_iff_forall_mem.mp (show (ops7 : List (HloOp τ sig (Elt F))).Forall fun op => op.fresh = ∅ from by simp only [List.Forall]; repeat' constructor)) op h
  · exact (List.forall_iff_forall_mem.mp (show (ops8 : List (HloOp τ sig (Elt F))).Forall fun op => op.fresh = ∅ from by simp only [List.Forall]; repeat' constructor)) op h
  · exact (List.forall_iff_forall_mem.mp (show (ops9 : List (HloOp τ sig (Elt F))).Forall fun op => op.fresh = ∅ from by simp only [List.Forall]; repeat' constructor)) op h
  · exact (List.forall_iff_forall_mem.mp (show (ops10 : List (HloOp τ sig (Elt F))).Forall fun op => op.fresh = ∅ from by simp only [List.Forall]; repeat' constructor)) op h
  · exact (List.forall_iff_forall_mem.mp (show (ops11 : List (HloOp τ sig (Elt F))).Forall fun op => op.fresh = ∅ from by simp only [List.Forall]; repeat' constructor)) op h
  · exact (List.forall_iff_forall_mem.mp (show (ops12 : List (HloOp τ sig (Elt F))).Forall fun op => op.fresh = ∅ from by simp only [List.Forall]; repeat' constructor)) op h
  · exact (List.forall_iff_forall_mem.mp (show (ops13 : List (HloOp τ sig (Elt F))).Forall fun op => op.fresh = ∅ from by simp only [List.Forall]; repeat' constructor)) op h

end Cert.ReferenceIdeal.RunH

end
-- ==== Proof.RefWin0.lean ====
/-
  Window 0 of the reference's @main, read on its own: from any buffer contents `V` in which every buffer that
  window 0 or a later window reads from before it holds its stage function of the four argument arrays, the
  contents after the window's operations hold the stage functions again, for every buffer a later window reads.
-/
import proofs.«113233_j37486474559588_2_alg».proof.Proof.RefOps
import proofs.«113233_j37486474559588_2_alg».proof.Proof.RefReadP

set_option maxRecDepth 65536
set_option maxHeartbeats 40000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

theorem win0_main_arg0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3) :
    after (ops0 (F := F)) V (Proc.devRef .tc main_arg0) = x0 := by
  simp only [ops0]
  after_results_simp
  all_goals first
    | (simp only [h_main_arg0, h_main_arg1, h_main_arg2, h_main_arg3]; done)
    | (simp only [h_main_arg0, h_main_arg1, h_main_arg2, h_main_arg3]; rfl)
    | rfl

theorem win0_main_arg1 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3) :
    after (ops0 (F := F)) V (Proc.devRef .tc main_arg1) = x1 := by
  simp only [ops0]
  after_results_simp
  all_goals first
    | (simp only [h_main_arg0, h_main_arg1, h_main_arg2, h_main_arg3]; done)
    | (simp only [h_main_arg0, h_main_arg1, h_main_arg2, h_main_arg3]; rfl)
    | rfl

theorem win0_main_arg2 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3) :
    after (ops0 (F := F)) V (Proc.devRef .tc main_arg2) = x2 := by
  simp only [ops0]
  after_results_simp
  all_goals first
    | (simp only [h_main_arg0, h_main_arg1, h_main_arg2, h_main_arg3]; done)
    | (simp only [h_main_arg0, h_main_arg1, h_main_arg2, h_main_arg3]; rfl)
    | rfl

theorem win0_main_arg3 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3) :
    after (ops0 (F := F)) V (Proc.devRef .tc main_arg3) = x3 := by
  simp only [ops0]
  after_results_simp
  all_goals first
    | (simp only [h_main_arg0, h_main_arg1, h_main_arg2, h_main_arg3]; done)
    | (simp only [h_main_arg0, h_main_arg1, h_main_arg2, h_main_arg3]; rfl)
    | rfl

theorem win0_main_v26 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3) :
    after (ops0 (F := F)) V (Proc.devRef .tc main_v26) = Cert.ReferenceIdeal.ReadP.val_main_v26 (F := F) x0 := by
  simp only [ops0]
  after_results_simp
  all_goals first
    | (simp only [h_main_arg0, h_main_arg1, h_main_arg2, h_main_arg3]; done)
    | (simp only [h_main_arg0, h_main_arg1, h_main_arg2, h_main_arg3]; rfl)
    | rfl

theorem win0_main_v28 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3) :
    after (ops0 (F := F)) V (Proc.devRef .tc main_v28) = Cert.ReferenceIdeal.ReadP.val_main_v28 (F := F) x0 := by
  simp only [ops0]
  after_results_simp
  all_goals first
    | (simp only [h_main_arg0, h_main_arg1, h_main_arg2, h_main_arg3]; done)
    | (simp only [h_main_arg0, h_main_arg1, h_main_arg2, h_main_arg3]; rfl)
    | rfl

theorem win0_main_v30 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3) :
    after (ops0 (F := F)) V (Proc.devRef .tc main_v30) = Cert.ReferenceIdeal.ReadP.val_main_v30 (F := F) x0 := by
  simp only [ops0]
  after_results_simp
  all_goals first
    | (simp only [h_main_arg0, h_main_arg1, h_main_arg2, h_main_arg3]; done)
    | (simp only [h_main_arg0, h_main_arg1, h_main_arg2, h_main_arg3]; rfl)
    | rfl

theorem win0_main_v32 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3) :
    after (ops0 (F := F)) V (Proc.devRef .tc main_v32) = Cert.ReferenceIdeal.ReadP.val_main_v32 (F := F) x0 := by
  simp only [ops0]
  after_results_simp
  all_goals first
    | (simp only [h_main_arg0, h_main_arg1, h_main_arg2, h_main_arg3]; done)
    | (simp only [h_main_arg0, h_main_arg1, h_main_arg2, h_main_arg3]; rfl)
    | rfl

theorem win0_main_v34 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3) :
    after (ops0 (F := F)) V (Proc.devRef .tc main_v34) = Cert.ReferenceIdeal.ReadP.val_main_v34 (F := F) x0 := by
  simp only [ops0]
  after_results_simp
  all_goals first
    | (simp only [h_main_arg0, h_main_arg1, h_main_arg2, h_main_arg3]; done)
    | (simp only [h_main_arg0, h_main_arg1, h_main_arg2, h_main_arg3]; rfl)
    | rfl

theorem win0_main_v36 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3) :
    after (ops0 (F := F)) V (Proc.devRef .tc main_v36) = Cert.ReferenceIdeal.ReadP.val_main_v36 (F := F) x0 := by
  simp only [ops0]
  after_results_simp
  all_goals first
    | (simp only [h_main_arg0, h_main_arg1, h_main_arg2, h_main_arg3]; done)
    | (simp only [h_main_arg0, h_main_arg1, h_main_arg2, h_main_arg3]; rfl)
    | rfl

theorem win0_main_v37 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3) :
    after (ops0 (F := F)) V (Proc.devRef .tc main_v37) = Cert.ReferenceIdeal.ReadP.val_main_v37 (F := F) x0 := by
  simp only [ops0]
  after_results_simp
  all_goals first
    | (simp only [h_main_arg0, h_main_arg1, h_main_arg2, h_main_arg3]; done)
    | (simp only [h_main_arg0, h_main_arg1, h_main_arg2, h_main_arg3]; rfl)
    | rfl

theorem win0_main_cst_19 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3) :
    after (ops0 (F := F)) V (Proc.devRef .tc main_cst_19) = Cert.ReferenceIdeal.ReadP.val_main_cst_19 (F := F) := by
  simp only [ops0]
  after_results_simp
  all_goals first
    | (simp only [h_main_arg0, h_main_arg1, h_main_arg2, h_main_arg3]; done)
    | (simp only [h_main_arg0, h_main_arg1, h_main_arg2, h_main_arg3]; rfl)
    | rfl

end Cert.ReferenceIdeal.RunH

end
-- ==== Proof.RefWin1.lean ====
/-
  Window 1 of the reference's @main, read on its own: from any buffer contents `V` in which every buffer that
  window 1 or a later window reads from before it holds its stage function of the four argument arrays, the
  contents after the window's operations hold the stage functions again, for every buffer a later window reads.
-/
import proofs.«113233_j37486474559588_2_alg».proof.Proof.RefOps
import proofs.«113233_j37486474559588_2_alg».proof.Proof.RefReadP

set_option maxRecDepth 65536
set_option maxHeartbeats 40000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

theorem win1_main_arg0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3)
    (h_main_v26 : V (Proc.devRef .tc main_v26) = Cert.ReferenceIdeal.ReadP.val_main_v26 (F := F) x0)
    (h_main_v28 : V (Proc.devRef .tc main_v28) = Cert.ReferenceIdeal.ReadP.val_main_v28 (F := F) x0)
    (h_main_v30 : V (Proc.devRef .tc main_v30) = Cert.ReferenceIdeal.ReadP.val_main_v30 (F := F) x0)
    (h_main_v32 : V (Proc.devRef .tc main_v32) = Cert.ReferenceIdeal.ReadP.val_main_v32 (F := F) x0)
    (h_main_v34 : V (Proc.devRef .tc main_v34) = Cert.ReferenceIdeal.ReadP.val_main_v34 (F := F) x0)
    (h_main_v36 : V (Proc.devRef .tc main_v36) = Cert.ReferenceIdeal.ReadP.val_main_v36 (F := F) x0)
    (h_main_v37 : V (Proc.devRef .tc main_v37) = Cert.ReferenceIdeal.ReadP.val_main_v37 (F := F) x0)
    (h_main_cst_19 : V (Proc.devRef .tc main_cst_19) = Cert.ReferenceIdeal.ReadP.val_main_cst_19 (F := F)) :
    after (ops1 (F := F)) V (Proc.devRef .tc main_arg0) = x0 := by
  simp only [ops1]
  after_results_simp
  all_goals first
    | (simp only [h_main_arg0, h_main_arg1, h_main_arg2, h_main_arg3, h_main_v26, h_main_v28, h_main_v30, h_main_v32, h_main_v34, h_main_v36, h_main_v37, h_main_cst_19]; done)
    | (simp only [h_main_arg0, h_main_arg1, h_main_arg2, h_main_arg3, h_main_v26, h_main_v28, h_main_v30, h_main_v32, h_main_v34, h_main_v36, h_main_v37, h_main_cst_19]; rfl)
    | rfl

theorem win1_main_arg2 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3)
    (h_main_v26 : V (Proc.devRef .tc main_v26) = Cert.ReferenceIdeal.ReadP.val_main_v26 (F := F) x0)
    (h_main_v28 : V (Proc.devRef .tc main_v28) = Cert.ReferenceIdeal.ReadP.val_main_v28 (F := F) x0)
    (h_main_v30 : V (Proc.devRef .tc main_v30) = Cert.ReferenceIdeal.ReadP.val_main_v30 (F := F) x0)
    (h_main_v32 : V (Proc.devRef .tc main_v32) = Cert.ReferenceIdeal.ReadP.val_main_v32 (F := F) x0)
    (h_main_v34 : V (Proc.devRef .tc main_v34) = Cert.ReferenceIdeal.ReadP.val_main_v34 (F := F) x0)
    (h_main_v36 : V (Proc.devRef .tc main_v36) = Cert.ReferenceIdeal.ReadP.val_main_v36 (F := F) x0)
    (h_main_v37 : V (Proc.devRef .tc main_v37) = Cert.ReferenceIdeal.ReadP.val_main_v37 (F := F) x0)
    (h_main_cst_19 : V (Proc.devRef .tc main_cst_19) = Cert.ReferenceIdeal.ReadP.val_main_cst_19 (F := F)) :
    after (ops1 (F := F)) V (Proc.devRef .tc main_arg2) = x2 := by
  simp only [ops1]
  after_results_simp
  all_goals first
    | (simp only [h_main_arg0, h_main_arg1, h_main_arg2, h_main_arg3, h_main_v26, h_main_v28, h_main_v30, h_main_v32, h_main_v34, h_main_v36, h_main_v37, h_main_cst_19]; done)
    | (simp only [h_main_arg0, h_main_arg1, h_main_arg2, h_main_arg3, h_main_v26, h_main_v28, h_main_v30, h_main_v32, h_main_v34, h_main_v36, h_main_v37, h_main_cst_19]; rfl)
    | rfl

theorem win1_main_arg3 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3)
    (h_main_v26 : V (Proc.devRef .tc main_v26) = Cert.ReferenceIdeal.ReadP.val_main_v26 (F := F) x0)
    (h_main_v28 : V (Proc.devRef .tc main_v28) = Cert.ReferenceIdeal.ReadP.val_main_v28 (F := F) x0)
    (h_main_v30 : V (Proc.devRef .tc main_v30) = Cert.ReferenceIdeal.ReadP.val_main_v30 (F := F) x0)
    (h_main_v32 : V (Proc.devRef .tc main_v32) = Cert.ReferenceIdeal.ReadP.val_main_v32 (F := F) x0)
    (h_main_v34 : V (Proc.devRef .tc main_v34) = Cert.ReferenceIdeal.ReadP.val_main_v34 (F := F) x0)
    (h_main_v36 : V (Proc.devRef .tc main_v36) = Cert.ReferenceIdeal.ReadP.val_main_v36 (F := F) x0)
    (h_main_v37 : V (Proc.devRef .tc main_v37) = Cert.ReferenceIdeal.ReadP.val_main_v37 (F := F) x0)
    (h_main_cst_19 : V (Proc.devRef .tc main_cst_19) = Cert.ReferenceIdeal.ReadP.val_main_cst_19 (F := F)) :
    after (ops1 (F := F)) V (Proc.devRef .tc main_arg3) = x3 := by
  simp only [ops1]
  after_results_simp
  all_goals first
    | (simp only [h_main_arg0, h_main_arg1, h_main_arg2, h_main_arg3, h_main_v26, h_main_v28, h_main_v30, h_main_v32, h_main_v34, h_main_v36, h_main_v37, h_main_cst_19]; done)
    | (simp only [h_main_arg0, h_main_arg1, h_main_arg2, h_main_arg3, h_main_v26, h_main_v28, h_main_v30, h_main_v32, h_main_v34, h_main_v36, h_main_v37, h_main_cst_19]; rfl)
    | rfl

theorem win1_main_v42 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3)
    (h_main_v26 : V (Proc.devRef .tc main_v26) = Cert.ReferenceIdeal.ReadP.val_main_v26 (F := F) x0)
    (h_main_v28 : V (Proc.devRef .tc main_v28) = Cert.ReferenceIdeal.ReadP.val_main_v28 (F := F) x0)
    (h_main_v30 : V (Proc.devRef .tc main_v30) = Cert.ReferenceIdeal.ReadP.val_main_v30 (F := F) x0)
    (h_main_v32 : V (Proc.devRef .tc main_v32) = Cert.ReferenceIdeal.ReadP.val_main_v32 (F := F) x0)
    (h_main_v34 : V (Proc.devRef .tc main_v34) = Cert.ReferenceIdeal.ReadP.val_main_v34 (F := F) x0)
    (h_main_v36 : V (Proc.devRef .tc main_v36) = Cert.ReferenceIdeal.ReadP.val_main_v36 (F := F) x0)
    (h_main_v37 : V (Proc.devRef .tc main_v37) = Cert.ReferenceIdeal.ReadP.val_main_v37 (F := F) x0)
    (h_main_cst_19 : V (Proc.devRef .tc main_cst_19) = Cert.ReferenceIdeal.ReadP.val_main_cst_19 (F := F)) :
    after (ops1 (F := F)) V (Proc.devRef .tc main_v42) = Cert.ReferenceIdeal.ReadP.val_main_v42 (F := F) x0 := by
  simp only [ops1]
  after_results_simp
  all_goals first
    | (simp only [h_main_arg0, h_main_arg1, h_main_arg2, h_main_arg3, h_main_v26, h_main_v28, h_main_v30, h_main_v32, h_main_v34, h_main_v36, h_main_v37, h_main_cst_19]; done)
    | (simp only [h_main_arg0, h_main_arg1, h_main_arg2, h_main_arg3, h_main_v26, h_main_v28, h_main_v30, h_main_v32, h_main_v34, h_main_v36, h_main_v37, h_main_cst_19]; rfl)
    | rfl

theorem win1_main_v48 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3)
    (h_main_v26 : V (Proc.devRef .tc main_v26) = Cert.ReferenceIdeal.ReadP.val_main_v26 (F := F) x0)
    (h_main_v28 : V (Proc.devRef .tc main_v28) = Cert.ReferenceIdeal.ReadP.val_main_v28 (F := F) x0)
    (h_main_v30 : V (Proc.devRef .tc main_v30) = Cert.ReferenceIdeal.ReadP.val_main_v30 (F := F) x0)
    (h_main_v32 : V (Proc.devRef .tc main_v32) = Cert.ReferenceIdeal.ReadP.val_main_v32 (F := F) x0)
    (h_main_v34 : V (Proc.devRef .tc main_v34) = Cert.ReferenceIdeal.ReadP.val_main_v34 (F := F) x0)
    (h_main_v36 : V (Proc.devRef .tc main_v36) = Cert.ReferenceIdeal.ReadP.val_main_v36 (F := F) x0)
    (h_main_v37 : V (Proc.devRef .tc main_v37) = Cert.ReferenceIdeal.ReadP.val_main_v37 (F := F) x0)
    (h_main_cst_19 : V (Proc.devRef .tc main_cst_19) = Cert.ReferenceIdeal.ReadP.val_main_cst_19 (F := F)) :
    after (ops1 (F := F)) V (Proc.devRef .tc main_v48) = Cert.ReferenceIdeal.ReadP.val_main_v48 (F := F) x0 := by
  simp only [ops1]
  after_results_simp
  all_goals first
    | (simp only [h_main_arg0, h_main_arg1, h_main_arg2, h_main_arg3, h_main_v26, h_main_v28, h_main_v30, h_main_v32, h_main_v34, h_main_v36, h_main_v37, h_main_cst_19]; done)
    | (simp only [h_main_arg0, h_main_arg1, h_main_arg2, h_main_arg3, h_main_v26, h_main_v28, h_main_v30, h_main_v32, h_main_v34, h_main_v36, h_main_v37, h_main_cst_19]; rfl)
    | rfl

theorem win1_main_v54 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3)
    (h_main_v26 : V (Proc.devRef .tc main_v26) = Cert.ReferenceIdeal.ReadP.val_main_v26 (F := F) x0)
    (h_main_v28 : V (Proc.devRef .tc main_v28) = Cert.ReferenceIdeal.ReadP.val_main_v28 (F := F) x0)
    (h_main_v30 : V (Proc.devRef .tc main_v30) = Cert.ReferenceIdeal.ReadP.val_main_v30 (F := F) x0)
    (h_main_v32 : V (Proc.devRef .tc main_v32) = Cert.ReferenceIdeal.ReadP.val_main_v32 (F := F) x0)
    (h_main_v34 : V (Proc.devRef .tc main_v34) = Cert.ReferenceIdeal.ReadP.val_main_v34 (F := F) x0)
    (h_main_v36 : V (Proc.devRef .tc main_v36) = Cert.ReferenceIdeal.ReadP.val_main_v36 (F := F) x0)
    (h_main_v37 : V (Proc.devRef .tc main_v37) = Cert.ReferenceIdeal.ReadP.val_main_v37 (F := F) x0)
    (h_main_cst_19 : V (Proc.devRef .tc main_cst_19) = Cert.ReferenceIdeal.ReadP.val_main_cst_19 (F := F)) :
    after (ops1 (F := F)) V (Proc.devRef .tc main_v54) = Cert.ReferenceIdeal.ReadP.val_main_v54 (F := F) x0 := by
  simp only [ops1]
  after_results_simp
  all_goals first
    | (simp only [h_main_arg0, h_main_arg1, h_main_arg2, h_main_arg3, h_main_v26, h_main_v28, h_main_v30, h_main_v32, h_main_v34, h_main_v36, h_main_v37, h_main_cst_19]; done)
    | (simp only [h_main_arg0, h_main_arg1, h_main_arg2, h_main_arg3, h_main_v26, h_main_v28, h_main_v30, h_main_v32, h_main_v34, h_main_v36, h_main_v37, h_main_cst_19]; rfl)
    | rfl

theorem win1_main_v55 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3)
    (h_main_v26 : V (Proc.devRef .tc main_v26) = Cert.ReferenceIdeal.ReadP.val_main_v26 (F := F) x0)
    (h_main_v28 : V (Proc.devRef .tc main_v28) = Cert.ReferenceIdeal.ReadP.val_main_v28 (F := F) x0)
    (h_main_v30 : V (Proc.devRef .tc main_v30) = Cert.ReferenceIdeal.ReadP.val_main_v30 (F := F) x0)
    (h_main_v32 : V (Proc.devRef .tc main_v32) = Cert.ReferenceIdeal.ReadP.val_main_v32 (F := F) x0)
    (h_main_v34 : V (Proc.devRef .tc main_v34) = Cert.ReferenceIdeal.ReadP.val_main_v34 (F := F) x0)
    (h_main_v36 : V (Proc.devRef .tc main_v36) = Cert.ReferenceIdeal.ReadP.val_main_v36 (F := F) x0)
    (h_main_v37 : V (Proc.devRef .tc main_v37) = Cert.ReferenceIdeal.ReadP.val_main_v37 (F := F) x0)
    (h_main_cst_19 : V (Proc.devRef .tc main_cst_19) = Cert.ReferenceIdeal.ReadP.val_main_cst_19 (F := F)) :
    after (ops1 (F := F)) V (Proc.devRef .tc main_v55) = Cert.ReferenceIdeal.ReadP.val_main_v55 (F := F) x0 := by
  simp only [ops1]
  after_results_simp
  all_goals first
    | (simp only [h_main_arg0, h_main_arg1, h_main_arg2, h_main_arg3, h_main_v26, h_main_v28, h_main_v30, h_main_v32, h_main_v34, h_main_v36, h_main_v37, h_main_cst_19]; done)
    | (simp only [h_main_arg0, h_main_arg1, h_main_arg2, h_main_arg3, h_main_v26, h_main_v28, h_main_v30, h_main_v32, h_main_v34, h_main_v36, h_main_v37, h_main_cst_19]; rfl)
    | rfl

theorem win1_main_v56 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3)
    (h_main_v26 : V (Proc.devRef .tc main_v26) = Cert.ReferenceIdeal.ReadP.val_main_v26 (F := F) x0)
    (h_main_v28 : V (Proc.devRef .tc main_v28) = Cert.ReferenceIdeal.ReadP.val_main_v28 (F := F) x0)
    (h_main_v30 : V (Proc.devRef .tc main_v30) = Cert.ReferenceIdeal.ReadP.val_main_v30 (F := F) x0)
    (h_main_v32 : V (Proc.devRef .tc main_v32) = Cert.ReferenceIdeal.ReadP.val_main_v32 (F := F) x0)
    (h_main_v34 : V (Proc.devRef .tc main_v34) = Cert.ReferenceIdeal.ReadP.val_main_v34 (F := F) x0)
    (h_main_v36 : V (Proc.devRef .tc main_v36) = Cert.ReferenceIdeal.ReadP.val_main_v36 (F := F) x0)
    (h_main_v37 : V (Proc.devRef .tc main_v37) = Cert.ReferenceIdeal.ReadP.val_main_v37 (F := F) x0)
    (h_main_cst_19 : V (Proc.devRef .tc main_cst_19) = Cert.ReferenceIdeal.ReadP.val_main_cst_19 (F := F)) :
    after (ops1 (F := F)) V (Proc.devRef .tc main_v56) = Cert.ReferenceIdeal.ReadP.val_main_v56 (F := F) x0 := by
  simp only [ops1]
  after_results_simp
  all_goals first
    | (simp only [h_main_arg0, h_main_arg1, h_main_arg2, h_main_arg3, h_main_v26, h_main_v28, h_main_v30, h_main_v32, h_main_v34, h_main_v36, h_main_v37, h_main_cst_19]; done)
    | (simp only [h_main_arg0, h_main_arg1, h_main_arg2, h_main_arg3, h_main_v26, h_main_v28, h_main_v30, h_main_v32, h_main_v34, h_main_v36, h_main_v37, h_main_cst_19]; rfl)
    | rfl

theorem win1_main_v57 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3)
    (h_main_v26 : V (Proc.devRef .tc main_v26) = Cert.ReferenceIdeal.ReadP.val_main_v26 (F := F) x0)
    (h_main_v28 : V (Proc.devRef .tc main_v28) = Cert.ReferenceIdeal.ReadP.val_main_v28 (F := F) x0)
    (h_main_v30 : V (Proc.devRef .tc main_v30) = Cert.ReferenceIdeal.ReadP.val_main_v30 (F := F) x0)
    (h_main_v32 : V (Proc.devRef .tc main_v32) = Cert.ReferenceIdeal.ReadP.val_main_v32 (F := F) x0)
    (h_main_v34 : V (Proc.devRef .tc main_v34) = Cert.ReferenceIdeal.ReadP.val_main_v34 (F := F) x0)
    (h_main_v36 : V (Proc.devRef .tc main_v36) = Cert.ReferenceIdeal.ReadP.val_main_v36 (F := F) x0)
    (h_main_v37 : V (Proc.devRef .tc main_v37) = Cert.ReferenceIdeal.ReadP.val_main_v37 (F := F) x0)
    (h_main_cst_19 : V (Proc.devRef .tc main_cst_19) = Cert.ReferenceIdeal.ReadP.val_main_cst_19 (F := F)) :
    after (ops1 (F := F)) V (Proc.devRef .tc main_v57) = Cert.ReferenceIdeal.ReadP.val_main_v57 (F := F) x0 := by
  simp only [ops1]
  after_results_simp
  all_goals first
    | (simp only [h_main_arg0, h_main_arg1, h_main_arg2, h_main_arg3, h_main_v26, h_main_v28, h_main_v30, h_main_v32, h_main_v34, h_main_v36, h_main_v37, h_main_cst_19]; done)
    | (simp only [h_main_arg0, h_main_arg1, h_main_arg2, h_main_arg3, h_main_v26, h_main_v28, h_main_v30, h_main_v32, h_main_v34, h_main_v36, h_main_v37, h_main_cst_19]; rfl)
    | rfl

theorem win1_main_v61 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3)
    (h_main_v26 : V (Proc.devRef .tc main_v26) = Cert.ReferenceIdeal.ReadP.val_main_v26 (F := F) x0)
    (h_main_v28 : V (Proc.devRef .tc main_v28) = Cert.ReferenceIdeal.ReadP.val_main_v28 (F := F) x0)
    (h_main_v30 : V (Proc.devRef .tc main_v30) = Cert.ReferenceIdeal.ReadP.val_main_v30 (F := F) x0)
    (h_main_v32 : V (Proc.devRef .tc main_v32) = Cert.ReferenceIdeal.ReadP.val_main_v32 (F := F) x0)
    (h_main_v34 : V (Proc.devRef .tc main_v34) = Cert.ReferenceIdeal.ReadP.val_main_v34 (F := F) x0)
    (h_main_v36 : V (Proc.devRef .tc main_v36) = Cert.ReferenceIdeal.ReadP.val_main_v36 (F := F) x0)
    (h_main_v37 : V (Proc.devRef .tc main_v37) = Cert.ReferenceIdeal.ReadP.val_main_v37 (F := F) x0)
    (h_main_cst_19 : V (Proc.devRef .tc main_cst_19) = Cert.ReferenceIdeal.ReadP.val_main_cst_19 (F := F)) :
    after (ops1 (F := F)) V (Proc.devRef .tc main_v61) = Cert.ReferenceIdeal.ReadP.val_main_v61 (F := F) x0 := by
  simp only [ops1]
  after_results_simp
  all_goals first
    | (simp only [h_main_arg0, h_main_arg1, h_main_arg2, h_main_arg3, h_main_v26, h_main_v28, h_main_v30, h_main_v32, h_main_v34, h_main_v36, h_main_v37, h_main_cst_19]; done)
    | (simp only [h_main_arg0, h_main_arg1, h_main_arg2, h_main_arg3, h_main_v26, h_main_v28, h_main_v30, h_main_v32, h_main_v34, h_main_v36, h_main_v37, h_main_cst_19]; rfl)
    | rfl

theorem win1_main_v65 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3)
    (h_main_v26 : V (Proc.devRef .tc main_v26) = Cert.ReferenceIdeal.ReadP.val_main_v26 (F := F) x0)
    (h_main_v28 : V (Proc.devRef .tc main_v28) = Cert.ReferenceIdeal.ReadP.val_main_v28 (F := F) x0)
    (h_main_v30 : V (Proc.devRef .tc main_v30) = Cert.ReferenceIdeal.ReadP.val_main_v30 (F := F) x0)
    (h_main_v32 : V (Proc.devRef .tc main_v32) = Cert.ReferenceIdeal.ReadP.val_main_v32 (F := F) x0)
    (h_main_v34 : V (Proc.devRef .tc main_v34) = Cert.ReferenceIdeal.ReadP.val_main_v34 (F := F) x0)
    (h_main_v36 : V (Proc.devRef .tc main_v36) = Cert.ReferenceIdeal.ReadP.val_main_v36 (F := F) x0)
    (h_main_v37 : V (Proc.devRef .tc main_v37) = Cert.ReferenceIdeal.ReadP.val_main_v37 (F := F) x0)
    (h_main_cst_19 : V (Proc.devRef .tc main_cst_19) = Cert.ReferenceIdeal.ReadP.val_main_cst_19 (F := F)) :
    after (ops1 (F := F)) V (Proc.devRef .tc main_v65) = Cert.ReferenceIdeal.ReadP.val_main_v65 (F := F) x0 := by
  simp only [ops1]
  after_results_simp
  all_goals first
    | (simp only [h_main_arg0, h_main_arg1, h_main_arg2, h_main_arg3, h_main_v26, h_main_v28, h_main_v30, h_main_v32, h_main_v34, h_main_v36, h_main_v37, h_main_cst_19]; done)
    | (simp only [h_main_arg0, h_main_arg1, h_main_arg2, h_main_arg3, h_main_v26, h_main_v28, h_main_v30, h_main_v32, h_main_v34, h_main_v36, h_main_v37, h_main_cst_19]; rfl)
    | rfl

theorem win1_main_v69 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3)
    (h_main_v26 : V (Proc.devRef .tc main_v26) = Cert.ReferenceIdeal.ReadP.val_main_v26 (F := F) x0)
    (h_main_v28 : V (Proc.devRef .tc main_v28) = Cert.ReferenceIdeal.ReadP.val_main_v28 (F := F) x0)
    (h_main_v30 : V (Proc.devRef .tc main_v30) = Cert.ReferenceIdeal.ReadP.val_main_v30 (F := F) x0)
    (h_main_v32 : V (Proc.devRef .tc main_v32) = Cert.ReferenceIdeal.ReadP.val_main_v32 (F := F) x0)
    (h_main_v34 : V (Proc.devRef .tc main_v34) = Cert.ReferenceIdeal.ReadP.val_main_v34 (F := F) x0)
    (h_main_v36 : V (Proc.devRef .tc main_v36) = Cert.ReferenceIdeal.ReadP.val_main_v36 (F := F) x0)
    (h_main_v37 : V (Proc.devRef .tc main_v37) = Cert.ReferenceIdeal.ReadP.val_main_v37 (F := F) x0)
    (h_main_cst_19 : V (Proc.devRef .tc main_cst_19) = Cert.ReferenceIdeal.ReadP.val_main_cst_19 (F := F)) :
    after (ops1 (F := F)) V (Proc.devRef .tc main_v69) = Cert.ReferenceIdeal.ReadP.val_main_v69 (F := F) x0 := by
  simp only [ops1]
  after_results_simp
  all_goals first
    | (simp only [h_main_arg0, h_main_arg1, h_main_arg2, h_main_arg3, h_main_v26, h_main_v28, h_main_v30, h_main_v32, h_main_v34, h_main_v36, h_main_v37, h_main_cst_19]; done)
    | (simp only [h_main_arg0, h_main_arg1, h_main_arg2, h_main_arg3, h_main_v26, h_main_v28, h_main_v30, h_main_v32, h_main_v34, h_main_v36, h_main_v37, h_main_cst_19]; rfl)
    | rfl

theorem win1_main_v70 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3)
    (h_main_v26 : V (Proc.devRef .tc main_v26) = Cert.ReferenceIdeal.ReadP.val_main_v26 (F := F) x0)
    (h_main_v28 : V (Proc.devRef .tc main_v28) = Cert.ReferenceIdeal.ReadP.val_main_v28 (F := F) x0)
    (h_main_v30 : V (Proc.devRef .tc main_v30) = Cert.ReferenceIdeal.ReadP.val_main_v30 (F := F) x0)
    (h_main_v32 : V (Proc.devRef .tc main_v32) = Cert.ReferenceIdeal.ReadP.val_main_v32 (F := F) x0)
    (h_main_v34 : V (Proc.devRef .tc main_v34) = Cert.ReferenceIdeal.ReadP.val_main_v34 (F := F) x0)
    (h_main_v36 : V (Proc.devRef .tc main_v36) = Cert.ReferenceIdeal.ReadP.val_main_v36 (F := F) x0)
    (h_main_v37 : V (Proc.devRef .tc main_v37) = Cert.ReferenceIdeal.ReadP.val_main_v37 (F := F) x0)
    (h_main_cst_19 : V (Proc.devRef .tc main_cst_19) = Cert.ReferenceIdeal.ReadP.val_main_cst_19 (F := F)) :
    after (ops1 (F := F)) V (Proc.devRef .tc main_v70) = Cert.ReferenceIdeal.ReadP.val_main_v70 (F := F) x1 := by
  simp only [ops1]
  after_results_simp
  all_goals first
    | (simp only [h_main_arg0, h_main_arg1, h_main_arg2, h_main_arg3, h_main_v26, h_main_v28, h_main_v30, h_main_v32, h_main_v34, h_main_v36, h_main_v37, h_main_cst_19]; done)
    | (simp only [h_main_arg0, h_main_arg1, h_main_arg2, h_main_arg3, h_main_v26, h_main_v28, h_main_v30, h_main_v32, h_main_v34, h_main_v36, h_main_v37, h_main_cst_19]; rfl)
    | rfl

theorem win1_main_v82 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg1 : V (Proc.devRef .tc main_arg1) = x1)
    (h_main_arg2 : V (Proc.devRef .tc main_arg2) = x2)
    (h_main_arg3 : V (Proc.devRef .tc main_arg3) = x3)
    (h_main_v26 : V (Proc.devRef .tc main_v26) = Cert.ReferenceIdeal.ReadP.val_main_v26 (F := F) x0)
    (h_main_v28 : V (Proc.devRef .tc main_v28) = Cert.ReferenceIdeal.ReadP.val_main_v28 (F := F) x0)
    (h_main_v30 : V (Proc.devRef .tc main_v30) = Cert.ReferenceIdeal.ReadP.val_main_v30 (F := F) x0)
    (h_main_v32 : V (Proc.devRef .tc main_v32) = Cert.ReferenceIdeal.ReadP.val_main_v32 (F := F) x0)
    (h_main_v34 : V (Proc.devRef .tc main_v34) = Cert.ReferenceIdeal.ReadP.val_main_v34 (F := F) x0)
    (h_main_v36 : V (Proc.devRef .tc main_v36) = Cert.ReferenceIdeal.ReadP.val_main_v36 (F := F) x0)
    (h_main_v37 : V (Proc.devRef .tc main_v37) = Cert.ReferenceIdeal.ReadP.val_main_v37 (F := F) x0)
    (h_main_cst_19 : V (Proc.devRef .tc main_cst_19) = Cert.ReferenceIdeal.ReadP.val_main_cst_19 (F := F)) :
    after (ops1 (F := F)) V (Proc.devRef .tc main_v82) = Cert.ReferenceIdeal.ReadP.val_main_v82 (F := F) x0 := by
  simp only [ops1]
  after_results_simp
  all_goals first
    | (simp only [h_main_arg0, h_main_arg1, h_main_arg2, h_main_arg3, h_main_v26, h_main_v28, h_main_v30, h_main_v32, h_main_v34, h_main_v36, h_main_v37, h_main_cst_19]; done)
    | (simp only [h_main_arg0, h_main_arg1, h_main_arg2, h_main_arg3, h_main_v26, h_main_v28, h_main_v30, h_main_v32, h_main_v34, h_main_v36, h_main_v37, h_main_cst_19]; rfl)
    | rfl

end Cert.ReferenceIdeal.RunH

end
-- ==== Proof.RefWin2.lean ====
/-
  Window 2 of the reference's @main, read on its own: from any buffer contents `V` in which every buffer that
  window 2 or a later window reads from before it holds its stage function of the four argument arrays, the
  contents after the window's operations hold the stage functions again, for every buffer a later window reads.
-/
import proofs.«113233_j37486474559588_2_alg».proof.Proof.RefOps
import proofs.«113233_j37486474559588_2_alg».proof.Proof.RefReadP

set_option maxRecDepth 65536
set_option maxHeartbeats 40000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

theorem win2_main_arg0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v42 : V (Proc.devRef .tc main_v42) = Cert.ReferenceIdeal.ReadP.val_main_v42 (F := F) x0)
    (h_main_v48 : V (Proc.devRef .tc main_v48) = Cert.ReferenceIdeal.ReadP.val_main_v48 (F := F) x0)
    (h_main_v54 : V (Proc.devRef .tc main_v54) = Cert.ReferenceIdeal.ReadP.val_main_v54 (F := F) x0)
    (h_main_v55 : V (Proc.devRef .tc main_v55) = Cert.ReferenceIdeal.ReadP.val_main_v55 (F := F) x0)
    (h_main_v56 : V (Proc.devRef .tc main_v56) = Cert.ReferenceIdeal.ReadP.val_main_v56 (F := F) x0)
    (h_main_v57 : V (Proc.devRef .tc main_v57) = Cert.ReferenceIdeal.ReadP.val_main_v57 (F := F) x0)
    (h_main_v61 : V (Proc.devRef .tc main_v61) = Cert.ReferenceIdeal.ReadP.val_main_v61 (F := F) x0)
    (h_main_v65 : V (Proc.devRef .tc main_v65) = Cert.ReferenceIdeal.ReadP.val_main_v65 (F := F) x0)
    (h_main_v69 : V (Proc.devRef .tc main_v69) = Cert.ReferenceIdeal.ReadP.val_main_v69 (F := F) x0)
    (h_main_v70 : V (Proc.devRef .tc main_v70) = Cert.ReferenceIdeal.ReadP.val_main_v70 (F := F) x1)
    (h_main_v82 : V (Proc.devRef .tc main_v82) = Cert.ReferenceIdeal.ReadP.val_main_v82 (F := F) x0) :
    after (ops2 (F := F)) V (Proc.devRef .tc main_arg0) = x0 := by
  simp only [ops2]
  after_results_simp
  all_goals first
    | (simp only [h_main_arg0, h_main_arg2, h_main_arg3, h_main_v42, h_main_v48, h_main_v54, h_main_v55, h_main_v56, h_main_v57, h_main_v61, h_main_v65, h_main_v69, h_main_v70, h_main_v82]; done)
    | (simp only [h_main_arg0, h_main_arg2, h_main_arg3, h_main_v42, h_main_v48, h_main_v54, h_main_v55, h_main_v56, h_main_v57, h_main_v61, h_main_v65, h_main_v69, h_main_v70, h_main_v82]; rfl)
    | rfl

theorem win2_main_arg2 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v42 : V (Proc.devRef .tc main_v42) = Cert.ReferenceIdeal.ReadP.val_main_v42 (F := F) x0)
    (h_main_v48 : V (Proc.devRef .tc main_v48) = Cert.ReferenceIdeal.ReadP.val_main_v48 (F := F) x0)
    (h_main_v54 : V (Proc.devRef .tc main_v54) = Cert.ReferenceIdeal.ReadP.val_main_v54 (F := F) x0)
    (h_main_v55 : V (Proc.devRef .tc main_v55) = Cert.ReferenceIdeal.ReadP.val_main_v55 (F := F) x0)
    (h_main_v56 : V (Proc.devRef .tc main_v56) = Cert.ReferenceIdeal.ReadP.val_main_v56 (F := F) x0)
    (h_main_v57 : V (Proc.devRef .tc main_v57) = Cert.ReferenceIdeal.ReadP.val_main_v57 (F := F) x0)
    (h_main_v61 : V (Proc.devRef .tc main_v61) = Cert.ReferenceIdeal.ReadP.val_main_v61 (F := F) x0)
    (h_main_v65 : V (Proc.devRef .tc main_v65) = Cert.ReferenceIdeal.ReadP.val_main_v65 (F := F) x0)
    (h_main_v69 : V (Proc.devRef .tc main_v69) = Cert.ReferenceIdeal.ReadP.val_main_v69 (F := F) x0)
    (h_main_v70 : V (Proc.devRef .tc main_v70) = Cert.ReferenceIdeal.ReadP.val_main_v70 (F := F) x1)
    (h_main_v82 : V (Proc.devRef .tc main_v82) = Cert.ReferenceIdeal.ReadP.val_main_v82 (F := F) x0) :
    after (ops2 (F := F)) V (Proc.devRef .tc main_arg2) = x2 := by
  simp only [ops2]
  after_results_simp
  all_goals first
    | (simp only [h_main_arg0, h_main_arg2, h_main_arg3, h_main_v42, h_main_v48, h_main_v54, h_main_v55, h_main_v56, h_main_v57, h_main_v61, h_main_v65, h_main_v69, h_main_v70, h_main_v82]; done)
    | (simp only [h_main_arg0, h_main_arg2, h_main_arg3, h_main_v42, h_main_v48, h_main_v54, h_main_v55, h_main_v56, h_main_v57, h_main_v61, h_main_v65, h_main_v69, h_main_v70, h_main_v82]; rfl)
    | rfl

theorem win2_main_arg3 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v42 : V (Proc.devRef .tc main_v42) = Cert.ReferenceIdeal.ReadP.val_main_v42 (F := F) x0)
    (h_main_v48 : V (Proc.devRef .tc main_v48) = Cert.ReferenceIdeal.ReadP.val_main_v48 (F := F) x0)
    (h_main_v54 : V (Proc.devRef .tc main_v54) = Cert.ReferenceIdeal.ReadP.val_main_v54 (F := F) x0)
    (h_main_v55 : V (Proc.devRef .tc main_v55) = Cert.ReferenceIdeal.ReadP.val_main_v55 (F := F) x0)
    (h_main_v56 : V (Proc.devRef .tc main_v56) = Cert.ReferenceIdeal.ReadP.val_main_v56 (F := F) x0)
    (h_main_v57 : V (Proc.devRef .tc main_v57) = Cert.ReferenceIdeal.ReadP.val_main_v57 (F := F) x0)
    (h_main_v61 : V (Proc.devRef .tc main_v61) = Cert.ReferenceIdeal.ReadP.val_main_v61 (F := F) x0)
    (h_main_v65 : V (Proc.devRef .tc main_v65) = Cert.ReferenceIdeal.ReadP.val_main_v65 (F := F) x0)
    (h_main_v69 : V (Proc.devRef .tc main_v69) = Cert.ReferenceIdeal.ReadP.val_main_v69 (F := F) x0)
    (h_main_v70 : V (Proc.devRef .tc main_v70) = Cert.ReferenceIdeal.ReadP.val_main_v70 (F := F) x1)
    (h_main_v82 : V (Proc.devRef .tc main_v82) = Cert.ReferenceIdeal.ReadP.val_main_v82 (F := F) x0) :
    after (ops2 (F := F)) V (Proc.devRef .tc main_arg3) = x3 := by
  simp only [ops2]
  after_results_simp
  all_goals first
    | (simp only [h_main_arg0, h_main_arg2, h_main_arg3, h_main_v42, h_main_v48, h_main_v54, h_main_v55, h_main_v56, h_main_v57, h_main_v61, h_main_v65, h_main_v69, h_main_v70, h_main_v82]; done)
    | (simp only [h_main_arg0, h_main_arg2, h_main_arg3, h_main_v42, h_main_v48, h_main_v54, h_main_v55, h_main_v56, h_main_v57, h_main_v61, h_main_v65, h_main_v69, h_main_v70, h_main_v82]; rfl)
    | rfl

theorem win2_main_v42 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v42 : V (Proc.devRef .tc main_v42) = Cert.ReferenceIdeal.ReadP.val_main_v42 (F := F) x0)
    (h_main_v48 : V (Proc.devRef .tc main_v48) = Cert.ReferenceIdeal.ReadP.val_main_v48 (F := F) x0)
    (h_main_v54 : V (Proc.devRef .tc main_v54) = Cert.ReferenceIdeal.ReadP.val_main_v54 (F := F) x0)
    (h_main_v55 : V (Proc.devRef .tc main_v55) = Cert.ReferenceIdeal.ReadP.val_main_v55 (F := F) x0)
    (h_main_v56 : V (Proc.devRef .tc main_v56) = Cert.ReferenceIdeal.ReadP.val_main_v56 (F := F) x0)
    (h_main_v57 : V (Proc.devRef .tc main_v57) = Cert.ReferenceIdeal.ReadP.val_main_v57 (F := F) x0)
    (h_main_v61 : V (Proc.devRef .tc main_v61) = Cert.ReferenceIdeal.ReadP.val_main_v61 (F := F) x0)
    (h_main_v65 : V (Proc.devRef .tc main_v65) = Cert.ReferenceIdeal.ReadP.val_main_v65 (F := F) x0)
    (h_main_v69 : V (Proc.devRef .tc main_v69) = Cert.ReferenceIdeal.ReadP.val_main_v69 (F := F) x0)
    (h_main_v70 : V (Proc.devRef .tc main_v70) = Cert.ReferenceIdeal.ReadP.val_main_v70 (F := F) x1)
    (h_main_v82 : V (Proc.devRef .tc main_v82) = Cert.ReferenceIdeal.ReadP.val_main_v82 (F := F) x0) :
    after (ops2 (F := F)) V (Proc.devRef .tc main_v42) = Cert.ReferenceIdeal.ReadP.val_main_v42 (F := F) x0 := by
  simp only [ops2]
  after_results_simp
  all_goals first
    | (simp only [h_main_arg0, h_main_arg2, h_main_arg3, h_main_v42, h_main_v48, h_main_v54, h_main_v55, h_main_v56, h_main_v57, h_main_v61, h_main_v65, h_main_v69, h_main_v70, h_main_v82]; done)
    | (simp only [h_main_arg0, h_main_arg2, h_main_arg3, h_main_v42, h_main_v48, h_main_v54, h_main_v55, h_main_v56, h_main_v57, h_main_v61, h_main_v65, h_main_v69, h_main_v70, h_main_v82]; rfl)
    | rfl

theorem win2_main_v48 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v42 : V (Proc.devRef .tc main_v42) = Cert.ReferenceIdeal.ReadP.val_main_v42 (F := F) x0)
    (h_main_v48 : V (Proc.devRef .tc main_v48) = Cert.ReferenceIdeal.ReadP.val_main_v48 (F := F) x0)
    (h_main_v54 : V (Proc.devRef .tc main_v54) = Cert.ReferenceIdeal.ReadP.val_main_v54 (F := F) x0)
    (h_main_v55 : V (Proc.devRef .tc main_v55) = Cert.ReferenceIdeal.ReadP.val_main_v55 (F := F) x0)
    (h_main_v56 : V (Proc.devRef .tc main_v56) = Cert.ReferenceIdeal.ReadP.val_main_v56 (F := F) x0)
    (h_main_v57 : V (Proc.devRef .tc main_v57) = Cert.ReferenceIdeal.ReadP.val_main_v57 (F := F) x0)
    (h_main_v61 : V (Proc.devRef .tc main_v61) = Cert.ReferenceIdeal.ReadP.val_main_v61 (F := F) x0)
    (h_main_v65 : V (Proc.devRef .tc main_v65) = Cert.ReferenceIdeal.ReadP.val_main_v65 (F := F) x0)
    (h_main_v69 : V (Proc.devRef .tc main_v69) = Cert.ReferenceIdeal.ReadP.val_main_v69 (F := F) x0)
    (h_main_v70 : V (Proc.devRef .tc main_v70) = Cert.ReferenceIdeal.ReadP.val_main_v70 (F := F) x1)
    (h_main_v82 : V (Proc.devRef .tc main_v82) = Cert.ReferenceIdeal.ReadP.val_main_v82 (F := F) x0) :
    after (ops2 (F := F)) V (Proc.devRef .tc main_v48) = Cert.ReferenceIdeal.ReadP.val_main_v48 (F := F) x0 := by
  simp only [ops2]
  after_results_simp
  all_goals first
    | (simp only [h_main_arg0, h_main_arg2, h_main_arg3, h_main_v42, h_main_v48, h_main_v54, h_main_v55, h_main_v56, h_main_v57, h_main_v61, h_main_v65, h_main_v69, h_main_v70, h_main_v82]; done)
    | (simp only [h_main_arg0, h_main_arg2, h_main_arg3, h_main_v42, h_main_v48, h_main_v54, h_main_v55, h_main_v56, h_main_v57, h_main_v61, h_main_v65, h_main_v69, h_main_v70, h_main_v82]; rfl)
    | rfl

theorem win2_main_v54 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v42 : V (Proc.devRef .tc main_v42) = Cert.ReferenceIdeal.ReadP.val_main_v42 (F := F) x0)
    (h_main_v48 : V (Proc.devRef .tc main_v48) = Cert.ReferenceIdeal.ReadP.val_main_v48 (F := F) x0)
    (h_main_v54 : V (Proc.devRef .tc main_v54) = Cert.ReferenceIdeal.ReadP.val_main_v54 (F := F) x0)
    (h_main_v55 : V (Proc.devRef .tc main_v55) = Cert.ReferenceIdeal.ReadP.val_main_v55 (F := F) x0)
    (h_main_v56 : V (Proc.devRef .tc main_v56) = Cert.ReferenceIdeal.ReadP.val_main_v56 (F := F) x0)
    (h_main_v57 : V (Proc.devRef .tc main_v57) = Cert.ReferenceIdeal.ReadP.val_main_v57 (F := F) x0)
    (h_main_v61 : V (Proc.devRef .tc main_v61) = Cert.ReferenceIdeal.ReadP.val_main_v61 (F := F) x0)
    (h_main_v65 : V (Proc.devRef .tc main_v65) = Cert.ReferenceIdeal.ReadP.val_main_v65 (F := F) x0)
    (h_main_v69 : V (Proc.devRef .tc main_v69) = Cert.ReferenceIdeal.ReadP.val_main_v69 (F := F) x0)
    (h_main_v70 : V (Proc.devRef .tc main_v70) = Cert.ReferenceIdeal.ReadP.val_main_v70 (F := F) x1)
    (h_main_v82 : V (Proc.devRef .tc main_v82) = Cert.ReferenceIdeal.ReadP.val_main_v82 (F := F) x0) :
    after (ops2 (F := F)) V (Proc.devRef .tc main_v54) = Cert.ReferenceIdeal.ReadP.val_main_v54 (F := F) x0 := by
  simp only [ops2]
  after_results_simp
  all_goals first
    | (simp only [h_main_arg0, h_main_arg2, h_main_arg3, h_main_v42, h_main_v48, h_main_v54, h_main_v55, h_main_v56, h_main_v57, h_main_v61, h_main_v65, h_main_v69, h_main_v70, h_main_v82]; done)
    | (simp only [h_main_arg0, h_main_arg2, h_main_arg3, h_main_v42, h_main_v48, h_main_v54, h_main_v55, h_main_v56, h_main_v57, h_main_v61, h_main_v65, h_main_v69, h_main_v70, h_main_v82]; rfl)
    | rfl

theorem win2_main_v55 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v42 : V (Proc.devRef .tc main_v42) = Cert.ReferenceIdeal.ReadP.val_main_v42 (F := F) x0)
    (h_main_v48 : V (Proc.devRef .tc main_v48) = Cert.ReferenceIdeal.ReadP.val_main_v48 (F := F) x0)
    (h_main_v54 : V (Proc.devRef .tc main_v54) = Cert.ReferenceIdeal.ReadP.val_main_v54 (F := F) x0)
    (h_main_v55 : V (Proc.devRef .tc main_v55) = Cert.ReferenceIdeal.ReadP.val_main_v55 (F := F) x0)
    (h_main_v56 : V (Proc.devRef .tc main_v56) = Cert.ReferenceIdeal.ReadP.val_main_v56 (F := F) x0)
    (h_main_v57 : V (Proc.devRef .tc main_v57) = Cert.ReferenceIdeal.ReadP.val_main_v57 (F := F) x0)
    (h_main_v61 : V (Proc.devRef .tc main_v61) = Cert.ReferenceIdeal.ReadP.val_main_v61 (F := F) x0)
    (h_main_v65 : V (Proc.devRef .tc main_v65) = Cert.ReferenceIdeal.ReadP.val_main_v65 (F := F) x0)
    (h_main_v69 : V (Proc.devRef .tc main_v69) = Cert.ReferenceIdeal.ReadP.val_main_v69 (F := F) x0)
    (h_main_v70 : V (Proc.devRef .tc main_v70) = Cert.ReferenceIdeal.ReadP.val_main_v70 (F := F) x1)
    (h_main_v82 : V (Proc.devRef .tc main_v82) = Cert.ReferenceIdeal.ReadP.val_main_v82 (F := F) x0) :
    after (ops2 (F := F)) V (Proc.devRef .tc main_v55) = Cert.ReferenceIdeal.ReadP.val_main_v55 (F := F) x0 := by
  simp only [ops2]
  after_results_simp
  all_goals first
    | (simp only [h_main_arg0, h_main_arg2, h_main_arg3, h_main_v42, h_main_v48, h_main_v54, h_main_v55, h_main_v56, h_main_v57, h_main_v61, h_main_v65, h_main_v69, h_main_v70, h_main_v82]; done)
    | (simp only [h_main_arg0, h_main_arg2, h_main_arg3, h_main_v42, h_main_v48, h_main_v54, h_main_v55, h_main_v56, h_main_v57, h_main_v61, h_main_v65, h_main_v69, h_main_v70, h_main_v82]; rfl)
    | rfl

theorem win2_main_v56 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v42 : V (Proc.devRef .tc main_v42) = Cert.ReferenceIdeal.ReadP.val_main_v42 (F := F) x0)
    (h_main_v48 : V (Proc.devRef .tc main_v48) = Cert.ReferenceIdeal.ReadP.val_main_v48 (F := F) x0)
    (h_main_v54 : V (Proc.devRef .tc main_v54) = Cert.ReferenceIdeal.ReadP.val_main_v54 (F := F) x0)
    (h_main_v55 : V (Proc.devRef .tc main_v55) = Cert.ReferenceIdeal.ReadP.val_main_v55 (F := F) x0)
    (h_main_v56 : V (Proc.devRef .tc main_v56) = Cert.ReferenceIdeal.ReadP.val_main_v56 (F := F) x0)
    (h_main_v57 : V (Proc.devRef .tc main_v57) = Cert.ReferenceIdeal.ReadP.val_main_v57 (F := F) x0)
    (h_main_v61 : V (Proc.devRef .tc main_v61) = Cert.ReferenceIdeal.ReadP.val_main_v61 (F := F) x0)
    (h_main_v65 : V (Proc.devRef .tc main_v65) = Cert.ReferenceIdeal.ReadP.val_main_v65 (F := F) x0)
    (h_main_v69 : V (Proc.devRef .tc main_v69) = Cert.ReferenceIdeal.ReadP.val_main_v69 (F := F) x0)
    (h_main_v70 : V (Proc.devRef .tc main_v70) = Cert.ReferenceIdeal.ReadP.val_main_v70 (F := F) x1)
    (h_main_v82 : V (Proc.devRef .tc main_v82) = Cert.ReferenceIdeal.ReadP.val_main_v82 (F := F) x0) :
    after (ops2 (F := F)) V (Proc.devRef .tc main_v56) = Cert.ReferenceIdeal.ReadP.val_main_v56 (F := F) x0 := by
  simp only [ops2]
  after_results_simp
  all_goals first
    | (simp only [h_main_arg0, h_main_arg2, h_main_arg3, h_main_v42, h_main_v48, h_main_v54, h_main_v55, h_main_v56, h_main_v57, h_main_v61, h_main_v65, h_main_v69, h_main_v70, h_main_v82]; done)
    | (simp only [h_main_arg0, h_main_arg2, h_main_arg3, h_main_v42, h_main_v48, h_main_v54, h_main_v55, h_main_v56, h_main_v57, h_main_v61, h_main_v65, h_main_v69, h_main_v70, h_main_v82]; rfl)
    | rfl

theorem win2_main_v61 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v42 : V (Proc.devRef .tc main_v42) = Cert.ReferenceIdeal.ReadP.val_main_v42 (F := F) x0)
    (h_main_v48 : V (Proc.devRef .tc main_v48) = Cert.ReferenceIdeal.ReadP.val_main_v48 (F := F) x0)
    (h_main_v54 : V (Proc.devRef .tc main_v54) = Cert.ReferenceIdeal.ReadP.val_main_v54 (F := F) x0)
    (h_main_v55 : V (Proc.devRef .tc main_v55) = Cert.ReferenceIdeal.ReadP.val_main_v55 (F := F) x0)
    (h_main_v56 : V (Proc.devRef .tc main_v56) = Cert.ReferenceIdeal.ReadP.val_main_v56 (F := F) x0)
    (h_main_v57 : V (Proc.devRef .tc main_v57) = Cert.ReferenceIdeal.ReadP.val_main_v57 (F := F) x0)
    (h_main_v61 : V (Proc.devRef .tc main_v61) = Cert.ReferenceIdeal.ReadP.val_main_v61 (F := F) x0)
    (h_main_v65 : V (Proc.devRef .tc main_v65) = Cert.ReferenceIdeal.ReadP.val_main_v65 (F := F) x0)
    (h_main_v69 : V (Proc.devRef .tc main_v69) = Cert.ReferenceIdeal.ReadP.val_main_v69 (F := F) x0)
    (h_main_v70 : V (Proc.devRef .tc main_v70) = Cert.ReferenceIdeal.ReadP.val_main_v70 (F := F) x1)
    (h_main_v82 : V (Proc.devRef .tc main_v82) = Cert.ReferenceIdeal.ReadP.val_main_v82 (F := F) x0) :
    after (ops2 (F := F)) V (Proc.devRef .tc main_v61) = Cert.ReferenceIdeal.ReadP.val_main_v61 (F := F) x0 := by
  simp only [ops2]
  after_results_simp
  all_goals first
    | (simp only [h_main_arg0, h_main_arg2, h_main_arg3, h_main_v42, h_main_v48, h_main_v54, h_main_v55, h_main_v56, h_main_v57, h_main_v61, h_main_v65, h_main_v69, h_main_v70, h_main_v82]; done)
    | (simp only [h_main_arg0, h_main_arg2, h_main_arg3, h_main_v42, h_main_v48, h_main_v54, h_main_v55, h_main_v56, h_main_v57, h_main_v61, h_main_v65, h_main_v69, h_main_v70, h_main_v82]; rfl)
    | rfl

theorem win2_main_v65 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v42 : V (Proc.devRef .tc main_v42) = Cert.ReferenceIdeal.ReadP.val_main_v42 (F := F) x0)
    (h_main_v48 : V (Proc.devRef .tc main_v48) = Cert.ReferenceIdeal.ReadP.val_main_v48 (F := F) x0)
    (h_main_v54 : V (Proc.devRef .tc main_v54) = Cert.ReferenceIdeal.ReadP.val_main_v54 (F := F) x0)
    (h_main_v55 : V (Proc.devRef .tc main_v55) = Cert.ReferenceIdeal.ReadP.val_main_v55 (F := F) x0)
    (h_main_v56 : V (Proc.devRef .tc main_v56) = Cert.ReferenceIdeal.ReadP.val_main_v56 (F := F) x0)
    (h_main_v57 : V (Proc.devRef .tc main_v57) = Cert.ReferenceIdeal.ReadP.val_main_v57 (F := F) x0)
    (h_main_v61 : V (Proc.devRef .tc main_v61) = Cert.ReferenceIdeal.ReadP.val_main_v61 (F := F) x0)
    (h_main_v65 : V (Proc.devRef .tc main_v65) = Cert.ReferenceIdeal.ReadP.val_main_v65 (F := F) x0)
    (h_main_v69 : V (Proc.devRef .tc main_v69) = Cert.ReferenceIdeal.ReadP.val_main_v69 (F := F) x0)
    (h_main_v70 : V (Proc.devRef .tc main_v70) = Cert.ReferenceIdeal.ReadP.val_main_v70 (F := F) x1)
    (h_main_v82 : V (Proc.devRef .tc main_v82) = Cert.ReferenceIdeal.ReadP.val_main_v82 (F := F) x0) :
    after (ops2 (F := F)) V (Proc.devRef .tc main_v65) = Cert.ReferenceIdeal.ReadP.val_main_v65 (F := F) x0 := by
  simp only [ops2]
  after_results_simp
  all_goals first
    | (simp only [h_main_arg0, h_main_arg2, h_main_arg3, h_main_v42, h_main_v48, h_main_v54, h_main_v55, h_main_v56, h_main_v57, h_main_v61, h_main_v65, h_main_v69, h_main_v70, h_main_v82]; done)
    | (simp only [h_main_arg0, h_main_arg2, h_main_arg3, h_main_v42, h_main_v48, h_main_v54, h_main_v55, h_main_v56, h_main_v57, h_main_v61, h_main_v65, h_main_v69, h_main_v70, h_main_v82]; rfl)
    | rfl

theorem win2_main_v69 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v42 : V (Proc.devRef .tc main_v42) = Cert.ReferenceIdeal.ReadP.val_main_v42 (F := F) x0)
    (h_main_v48 : V (Proc.devRef .tc main_v48) = Cert.ReferenceIdeal.ReadP.val_main_v48 (F := F) x0)
    (h_main_v54 : V (Proc.devRef .tc main_v54) = Cert.ReferenceIdeal.ReadP.val_main_v54 (F := F) x0)
    (h_main_v55 : V (Proc.devRef .tc main_v55) = Cert.ReferenceIdeal.ReadP.val_main_v55 (F := F) x0)
    (h_main_v56 : V (Proc.devRef .tc main_v56) = Cert.ReferenceIdeal.ReadP.val_main_v56 (F := F) x0)
    (h_main_v57 : V (Proc.devRef .tc main_v57) = Cert.ReferenceIdeal.ReadP.val_main_v57 (F := F) x0)
    (h_main_v61 : V (Proc.devRef .tc main_v61) = Cert.ReferenceIdeal.ReadP.val_main_v61 (F := F) x0)
    (h_main_v65 : V (Proc.devRef .tc main_v65) = Cert.ReferenceIdeal.ReadP.val_main_v65 (F := F) x0)
    (h_main_v69 : V (Proc.devRef .tc main_v69) = Cert.ReferenceIdeal.ReadP.val_main_v69 (F := F) x0)
    (h_main_v70 : V (Proc.devRef .tc main_v70) = Cert.ReferenceIdeal.ReadP.val_main_v70 (F := F) x1)
    (h_main_v82 : V (Proc.devRef .tc main_v82) = Cert.ReferenceIdeal.ReadP.val_main_v82 (F := F) x0) :
    after (ops2 (F := F)) V (Proc.devRef .tc main_v69) = Cert.ReferenceIdeal.ReadP.val_main_v69 (F := F) x0 := by
  simp only [ops2]
  after_results_simp
  all_goals first
    | (simp only [h_main_arg0, h_main_arg2, h_main_arg3, h_main_v42, h_main_v48, h_main_v54, h_main_v55, h_main_v56, h_main_v57, h_main_v61, h_main_v65, h_main_v69, h_main_v70, h_main_v82]; done)
    | (simp only [h_main_arg0, h_main_arg2, h_main_arg3, h_main_v42, h_main_v48, h_main_v54, h_main_v55, h_main_v56, h_main_v57, h_main_v61, h_main_v65, h_main_v69, h_main_v70, h_main_v82]; rfl)
    | rfl

theorem win2_main_v70 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v42 : V (Proc.devRef .tc main_v42) = Cert.ReferenceIdeal.ReadP.val_main_v42 (F := F) x0)
    (h_main_v48 : V (Proc.devRef .tc main_v48) = Cert.ReferenceIdeal.ReadP.val_main_v48 (F := F) x0)
    (h_main_v54 : V (Proc.devRef .tc main_v54) = Cert.ReferenceIdeal.ReadP.val_main_v54 (F := F) x0)
    (h_main_v55 : V (Proc.devRef .tc main_v55) = Cert.ReferenceIdeal.ReadP.val_main_v55 (F := F) x0)
    (h_main_v56 : V (Proc.devRef .tc main_v56) = Cert.ReferenceIdeal.ReadP.val_main_v56 (F := F) x0)
    (h_main_v57 : V (Proc.devRef .tc main_v57) = Cert.ReferenceIdeal.ReadP.val_main_v57 (F := F) x0)
    (h_main_v61 : V (Proc.devRef .tc main_v61) = Cert.ReferenceIdeal.ReadP.val_main_v61 (F := F) x0)
    (h_main_v65 : V (Proc.devRef .tc main_v65) = Cert.ReferenceIdeal.ReadP.val_main_v65 (F := F) x0)
    (h_main_v69 : V (Proc.devRef .tc main_v69) = Cert.ReferenceIdeal.ReadP.val_main_v69 (F := F) x0)
    (h_main_v70 : V (Proc.devRef .tc main_v70) = Cert.ReferenceIdeal.ReadP.val_main_v70 (F := F) x1)
    (h_main_v82 : V (Proc.devRef .tc main_v82) = Cert.ReferenceIdeal.ReadP.val_main_v82 (F := F) x0) :
    after (ops2 (F := F)) V (Proc.devRef .tc main_v70) = Cert.ReferenceIdeal.ReadP.val_main_v70 (F := F) x1 := by
  simp only [ops2]
  after_results_simp
  all_goals first
    | (simp only [h_main_arg0, h_main_arg2, h_main_arg3, h_main_v42, h_main_v48, h_main_v54, h_main_v55, h_main_v56, h_main_v57, h_main_v61, h_main_v65, h_main_v69, h_main_v70, h_main_v82]; done)
    | (simp only [h_main_arg0, h_main_arg2, h_main_arg3, h_main_v42, h_main_v48, h_main_v54, h_main_v55, h_main_v56, h_main_v57, h_main_v61, h_main_v65, h_main_v69, h_main_v70, h_main_v82]; rfl)
    | rfl

theorem win2_main_v83 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v42 : V (Proc.devRef .tc main_v42) = Cert.ReferenceIdeal.ReadP.val_main_v42 (F := F) x0)
    (h_main_v48 : V (Proc.devRef .tc main_v48) = Cert.ReferenceIdeal.ReadP.val_main_v48 (F := F) x0)
    (h_main_v54 : V (Proc.devRef .tc main_v54) = Cert.ReferenceIdeal.ReadP.val_main_v54 (F := F) x0)
    (h_main_v55 : V (Proc.devRef .tc main_v55) = Cert.ReferenceIdeal.ReadP.val_main_v55 (F := F) x0)
    (h_main_v56 : V (Proc.devRef .tc main_v56) = Cert.ReferenceIdeal.ReadP.val_main_v56 (F := F) x0)
    (h_main_v57 : V (Proc.devRef .tc main_v57) = Cert.ReferenceIdeal.ReadP.val_main_v57 (F := F) x0)
    (h_main_v61 : V (Proc.devRef .tc main_v61) = Cert.ReferenceIdeal.ReadP.val_main_v61 (F := F) x0)
    (h_main_v65 : V (Proc.devRef .tc main_v65) = Cert.ReferenceIdeal.ReadP.val_main_v65 (F := F) x0)
    (h_main_v69 : V (Proc.devRef .tc main_v69) = Cert.ReferenceIdeal.ReadP.val_main_v69 (F := F) x0)
    (h_main_v70 : V (Proc.devRef .tc main_v70) = Cert.ReferenceIdeal.ReadP.val_main_v70 (F := F) x1)
    (h_main_v82 : V (Proc.devRef .tc main_v82) = Cert.ReferenceIdeal.ReadP.val_main_v82 (F := F) x0) :
    after (ops2 (F := F)) V (Proc.devRef .tc main_v83) = Cert.ReferenceIdeal.ReadP.val_main_v83 (F := F) x0 x1 := by
  simp only [ops2]
  after_results_simp
  all_goals first
    | (simp only [h_main_arg0, h_main_arg2, h_main_arg3, h_main_v42, h_main_v48, h_main_v54, h_main_v55, h_main_v56, h_main_v57, h_main_v61, h_main_v65, h_main_v69, h_main_v70, h_main_v82]; done)
    | (simp only [h_main_arg0, h_main_arg2, h_main_arg3, h_main_v42, h_main_v48, h_main_v54, h_main_v55, h_main_v56, h_main_v57, h_main_v61, h_main_v65, h_main_v69, h_main_v70, h_main_v82]; rfl)
    | rfl

theorem win2_main_v96 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v42 : V (Proc.devRef .tc main_v42) = Cert.ReferenceIdeal.ReadP.val_main_v42 (F := F) x0)
    (h_main_v48 : V (Proc.devRef .tc main_v48) = Cert.ReferenceIdeal.ReadP.val_main_v48 (F := F) x0)
    (h_main_v54 : V (Proc.devRef .tc main_v54) = Cert.ReferenceIdeal.ReadP.val_main_v54 (F := F) x0)
    (h_main_v55 : V (Proc.devRef .tc main_v55) = Cert.ReferenceIdeal.ReadP.val_main_v55 (F := F) x0)
    (h_main_v56 : V (Proc.devRef .tc main_v56) = Cert.ReferenceIdeal.ReadP.val_main_v56 (F := F) x0)
    (h_main_v57 : V (Proc.devRef .tc main_v57) = Cert.ReferenceIdeal.ReadP.val_main_v57 (F := F) x0)
    (h_main_v61 : V (Proc.devRef .tc main_v61) = Cert.ReferenceIdeal.ReadP.val_main_v61 (F := F) x0)
    (h_main_v65 : V (Proc.devRef .tc main_v65) = Cert.ReferenceIdeal.ReadP.val_main_v65 (F := F) x0)
    (h_main_v69 : V (Proc.devRef .tc main_v69) = Cert.ReferenceIdeal.ReadP.val_main_v69 (F := F) x0)
    (h_main_v70 : V (Proc.devRef .tc main_v70) = Cert.ReferenceIdeal.ReadP.val_main_v70 (F := F) x1)
    (h_main_v82 : V (Proc.devRef .tc main_v82) = Cert.ReferenceIdeal.ReadP.val_main_v82 (F := F) x0) :
    after (ops2 (F := F)) V (Proc.devRef .tc main_v96) = Cert.ReferenceIdeal.ReadP.val_main_v96 (F := F) x0 x1 := by
  simp only [ops2]
  after_results_simp
  all_goals first
    | (simp only [h_main_arg0, h_main_arg2, h_main_arg3, h_main_v42, h_main_v48, h_main_v54, h_main_v55, h_main_v56, h_main_v57, h_main_v61, h_main_v65, h_main_v69, h_main_v70, h_main_v82]; done)
    | (simp only [h_main_arg0, h_main_arg2, h_main_arg3, h_main_v42, h_main_v48, h_main_v54, h_main_v55, h_main_v56, h_main_v57, h_main_v61, h_main_v65, h_main_v69, h_main_v70, h_main_v82]; rfl)
    | rfl

theorem win2_main_v109 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v42 : V (Proc.devRef .tc main_v42) = Cert.ReferenceIdeal.ReadP.val_main_v42 (F := F) x0)
    (h_main_v48 : V (Proc.devRef .tc main_v48) = Cert.ReferenceIdeal.ReadP.val_main_v48 (F := F) x0)
    (h_main_v54 : V (Proc.devRef .tc main_v54) = Cert.ReferenceIdeal.ReadP.val_main_v54 (F := F) x0)
    (h_main_v55 : V (Proc.devRef .tc main_v55) = Cert.ReferenceIdeal.ReadP.val_main_v55 (F := F) x0)
    (h_main_v56 : V (Proc.devRef .tc main_v56) = Cert.ReferenceIdeal.ReadP.val_main_v56 (F := F) x0)
    (h_main_v57 : V (Proc.devRef .tc main_v57) = Cert.ReferenceIdeal.ReadP.val_main_v57 (F := F) x0)
    (h_main_v61 : V (Proc.devRef .tc main_v61) = Cert.ReferenceIdeal.ReadP.val_main_v61 (F := F) x0)
    (h_main_v65 : V (Proc.devRef .tc main_v65) = Cert.ReferenceIdeal.ReadP.val_main_v65 (F := F) x0)
    (h_main_v69 : V (Proc.devRef .tc main_v69) = Cert.ReferenceIdeal.ReadP.val_main_v69 (F := F) x0)
    (h_main_v70 : V (Proc.devRef .tc main_v70) = Cert.ReferenceIdeal.ReadP.val_main_v70 (F := F) x1)
    (h_main_v82 : V (Proc.devRef .tc main_v82) = Cert.ReferenceIdeal.ReadP.val_main_v82 (F := F) x0) :
    after (ops2 (F := F)) V (Proc.devRef .tc main_v109) = Cert.ReferenceIdeal.ReadP.val_main_v109 (F := F) x0 x1 := by
  simp only [ops2]
  after_results_simp
  all_goals first
    | (simp only [h_main_arg0, h_main_arg2, h_main_arg3, h_main_v42, h_main_v48, h_main_v54, h_main_v55, h_main_v56, h_main_v57, h_main_v61, h_main_v65, h_main_v69, h_main_v70, h_main_v82]; done)
    | (simp only [h_main_arg0, h_main_arg2, h_main_arg3, h_main_v42, h_main_v48, h_main_v54, h_main_v55, h_main_v56, h_main_v57, h_main_v61, h_main_v65, h_main_v69, h_main_v70, h_main_v82]; rfl)
    | rfl

theorem win2_main_v122 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v42 : V (Proc.devRef .tc main_v42) = Cert.ReferenceIdeal.ReadP.val_main_v42 (F := F) x0)
    (h_main_v48 : V (Proc.devRef .tc main_v48) = Cert.ReferenceIdeal.ReadP.val_main_v48 (F := F) x0)
    (h_main_v54 : V (Proc.devRef .tc main_v54) = Cert.ReferenceIdeal.ReadP.val_main_v54 (F := F) x0)
    (h_main_v55 : V (Proc.devRef .tc main_v55) = Cert.ReferenceIdeal.ReadP.val_main_v55 (F := F) x0)
    (h_main_v56 : V (Proc.devRef .tc main_v56) = Cert.ReferenceIdeal.ReadP.val_main_v56 (F := F) x0)
    (h_main_v57 : V (Proc.devRef .tc main_v57) = Cert.ReferenceIdeal.ReadP.val_main_v57 (F := F) x0)
    (h_main_v61 : V (Proc.devRef .tc main_v61) = Cert.ReferenceIdeal.ReadP.val_main_v61 (F := F) x0)
    (h_main_v65 : V (Proc.devRef .tc main_v65) = Cert.ReferenceIdeal.ReadP.val_main_v65 (F := F) x0)
    (h_main_v69 : V (Proc.devRef .tc main_v69) = Cert.ReferenceIdeal.ReadP.val_main_v69 (F := F) x0)
    (h_main_v70 : V (Proc.devRef .tc main_v70) = Cert.ReferenceIdeal.ReadP.val_main_v70 (F := F) x1)
    (h_main_v82 : V (Proc.devRef .tc main_v82) = Cert.ReferenceIdeal.ReadP.val_main_v82 (F := F) x0) :
    after (ops2 (F := F)) V (Proc.devRef .tc main_v122) = Cert.ReferenceIdeal.ReadP.val_main_v122 (F := F) x0 x1 := by
  simp only [ops2]
  after_results_simp
  all_goals first
    | (simp only [h_main_arg0, h_main_arg2, h_main_arg3, h_main_v42, h_main_v48, h_main_v54, h_main_v55, h_main_v56, h_main_v57, h_main_v61, h_main_v65, h_main_v69, h_main_v70, h_main_v82]; done)
    | (simp only [h_main_arg0, h_main_arg2, h_main_arg3, h_main_v42, h_main_v48, h_main_v54, h_main_v55, h_main_v56, h_main_v57, h_main_v61, h_main_v65, h_main_v69, h_main_v70, h_main_v82]; rfl)
    | rfl

theorem win2_main_v128 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v42 : V (Proc.devRef .tc main_v42) = Cert.ReferenceIdeal.ReadP.val_main_v42 (F := F) x0)
    (h_main_v48 : V (Proc.devRef .tc main_v48) = Cert.ReferenceIdeal.ReadP.val_main_v48 (F := F) x0)
    (h_main_v54 : V (Proc.devRef .tc main_v54) = Cert.ReferenceIdeal.ReadP.val_main_v54 (F := F) x0)
    (h_main_v55 : V (Proc.devRef .tc main_v55) = Cert.ReferenceIdeal.ReadP.val_main_v55 (F := F) x0)
    (h_main_v56 : V (Proc.devRef .tc main_v56) = Cert.ReferenceIdeal.ReadP.val_main_v56 (F := F) x0)
    (h_main_v57 : V (Proc.devRef .tc main_v57) = Cert.ReferenceIdeal.ReadP.val_main_v57 (F := F) x0)
    (h_main_v61 : V (Proc.devRef .tc main_v61) = Cert.ReferenceIdeal.ReadP.val_main_v61 (F := F) x0)
    (h_main_v65 : V (Proc.devRef .tc main_v65) = Cert.ReferenceIdeal.ReadP.val_main_v65 (F := F) x0)
    (h_main_v69 : V (Proc.devRef .tc main_v69) = Cert.ReferenceIdeal.ReadP.val_main_v69 (F := F) x0)
    (h_main_v70 : V (Proc.devRef .tc main_v70) = Cert.ReferenceIdeal.ReadP.val_main_v70 (F := F) x1)
    (h_main_v82 : V (Proc.devRef .tc main_v82) = Cert.ReferenceIdeal.ReadP.val_main_v82 (F := F) x0) :
    after (ops2 (F := F)) V (Proc.devRef .tc main_v128) = Cert.ReferenceIdeal.ReadP.val_main_v128 (F := F) x0 := by
  simp only [ops2]
  after_results_simp
  all_goals first
    | (simp only [h_main_arg0, h_main_arg2, h_main_arg3, h_main_v42, h_main_v48, h_main_v54, h_main_v55, h_main_v56, h_main_v57, h_main_v61, h_main_v65, h_main_v69, h_main_v70, h_main_v82]; done)
    | (simp only [h_main_arg0, h_main_arg2, h_main_arg3, h_main_v42, h_main_v48, h_main_v54, h_main_v55, h_main_v56, h_main_v57, h_main_v61, h_main_v65, h_main_v69, h_main_v70, h_main_v82]; rfl)
    | rfl

end Cert.ReferenceIdeal.RunH

end
-- ==== Proof.RefWin3.lean ====
/-
  Window 3 of the reference's @main, read on its own: from any buffer contents `V` in which every buffer that
  window 3 or a later window reads from before it holds its stage function of the four argument arrays, the
  contents after the window's operations hold the stage functions again, for every buffer a later window reads.
-/
import proofs.«113233_j37486474559588_2_alg».proof.Proof.RefOps
import proofs.«113233_j37486474559588_2_alg».proof.Proof.RefReadP

set_option maxRecDepth 65536
set_option maxHeartbeats 40000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

theorem win3_main_arg0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v42 : V (Proc.devRef .tc main_v42) = Cert.ReferenceIdeal.ReadP.val_main_v42 (F := F) x0)
    (h_main_v48 : V (Proc.devRef .tc main_v48) = Cert.ReferenceIdeal.ReadP.val_main_v48 (F := F) x0)
    (h_main_v54 : V (Proc.devRef .tc main_v54) = Cert.ReferenceIdeal.ReadP.val_main_v54 (F := F) x0)
    (h_main_v55 : V (Proc.devRef .tc main_v55) = Cert.ReferenceIdeal.ReadP.val_main_v55 (F := F) x0)
    (h_main_v56 : V (Proc.devRef .tc main_v56) = Cert.ReferenceIdeal.ReadP.val_main_v56 (F := F) x0)
    (h_main_v61 : V (Proc.devRef .tc main_v61) = Cert.ReferenceIdeal.ReadP.val_main_v61 (F := F) x0)
    (h_main_v65 : V (Proc.devRef .tc main_v65) = Cert.ReferenceIdeal.ReadP.val_main_v65 (F := F) x0)
    (h_main_v69 : V (Proc.devRef .tc main_v69) = Cert.ReferenceIdeal.ReadP.val_main_v69 (F := F) x0)
    (h_main_v70 : V (Proc.devRef .tc main_v70) = Cert.ReferenceIdeal.ReadP.val_main_v70 (F := F) x1)
    (h_main_v83 : V (Proc.devRef .tc main_v83) = Cert.ReferenceIdeal.ReadP.val_main_v83 (F := F) x0 x1)
    (h_main_v96 : V (Proc.devRef .tc main_v96) = Cert.ReferenceIdeal.ReadP.val_main_v96 (F := F) x0 x1)
    (h_main_v109 : V (Proc.devRef .tc main_v109) = Cert.ReferenceIdeal.ReadP.val_main_v109 (F := F) x0 x1)
    (h_main_v122 : V (Proc.devRef .tc main_v122) = Cert.ReferenceIdeal.ReadP.val_main_v122 (F := F) x0 x1)
    (h_main_v128 : V (Proc.devRef .tc main_v128) = Cert.ReferenceIdeal.ReadP.val_main_v128 (F := F) x0) :
    after (ops3 (F := F)) V (Proc.devRef .tc main_arg0) = x0 := by
  simp only [ops3]
  after_results_simp
  all_goals first
    | (simp only [h_main_arg0, h_main_arg2, h_main_arg3, h_main_v42, h_main_v48, h_main_v54, h_main_v55, h_main_v56, h_main_v61, h_main_v65, h_main_v69, h_main_v70, h_main_v83, h_main_v96, h_main_v109, h_main_v122, h_main_v128]; done)
    | (simp only [h_main_arg0, h_main_arg2, h_main_arg3, h_main_v42, h_main_v48, h_main_v54, h_main_v55, h_main_v56, h_main_v61, h_main_v65, h_main_v69, h_main_v70, h_main_v83, h_main_v96, h_main_v109, h_main_v122, h_main_v128]; rfl)
    | rfl

theorem win3_main_arg2 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v42 : V (Proc.devRef .tc main_v42) = Cert.ReferenceIdeal.ReadP.val_main_v42 (F := F) x0)
    (h_main_v48 : V (Proc.devRef .tc main_v48) = Cert.ReferenceIdeal.ReadP.val_main_v48 (F := F) x0)
    (h_main_v54 : V (Proc.devRef .tc main_v54) = Cert.ReferenceIdeal.ReadP.val_main_v54 (F := F) x0)
    (h_main_v55 : V (Proc.devRef .tc main_v55) = Cert.ReferenceIdeal.ReadP.val_main_v55 (F := F) x0)
    (h_main_v56 : V (Proc.devRef .tc main_v56) = Cert.ReferenceIdeal.ReadP.val_main_v56 (F := F) x0)
    (h_main_v61 : V (Proc.devRef .tc main_v61) = Cert.ReferenceIdeal.ReadP.val_main_v61 (F := F) x0)
    (h_main_v65 : V (Proc.devRef .tc main_v65) = Cert.ReferenceIdeal.ReadP.val_main_v65 (F := F) x0)
    (h_main_v69 : V (Proc.devRef .tc main_v69) = Cert.ReferenceIdeal.ReadP.val_main_v69 (F := F) x0)
    (h_main_v70 : V (Proc.devRef .tc main_v70) = Cert.ReferenceIdeal.ReadP.val_main_v70 (F := F) x1)
    (h_main_v83 : V (Proc.devRef .tc main_v83) = Cert.ReferenceIdeal.ReadP.val_main_v83 (F := F) x0 x1)
    (h_main_v96 : V (Proc.devRef .tc main_v96) = Cert.ReferenceIdeal.ReadP.val_main_v96 (F := F) x0 x1)
    (h_main_v109 : V (Proc.devRef .tc main_v109) = Cert.ReferenceIdeal.ReadP.val_main_v109 (F := F) x0 x1)
    (h_main_v122 : V (Proc.devRef .tc main_v122) = Cert.ReferenceIdeal.ReadP.val_main_v122 (F := F) x0 x1)
    (h_main_v128 : V (Proc.devRef .tc main_v128) = Cert.ReferenceIdeal.ReadP.val_main_v128 (F := F) x0) :
    after (ops3 (F := F)) V (Proc.devRef .tc main_arg2) = x2 := by
  simp only [ops3]
  after_results_simp
  all_goals first
    | (simp only [h_main_arg0, h_main_arg2, h_main_arg3, h_main_v42, h_main_v48, h_main_v54, h_main_v55, h_main_v56, h_main_v61, h_main_v65, h_main_v69, h_main_v70, h_main_v83, h_main_v96, h_main_v109, h_main_v122, h_main_v128]; done)
    | (simp only [h_main_arg0, h_main_arg2, h_main_arg3, h_main_v42, h_main_v48, h_main_v54, h_main_v55, h_main_v56, h_main_v61, h_main_v65, h_main_v69, h_main_v70, h_main_v83, h_main_v96, h_main_v109, h_main_v122, h_main_v128]; rfl)
    | rfl

theorem win3_main_arg3 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v42 : V (Proc.devRef .tc main_v42) = Cert.ReferenceIdeal.ReadP.val_main_v42 (F := F) x0)
    (h_main_v48 : V (Proc.devRef .tc main_v48) = Cert.ReferenceIdeal.ReadP.val_main_v48 (F := F) x0)
    (h_main_v54 : V (Proc.devRef .tc main_v54) = Cert.ReferenceIdeal.ReadP.val_main_v54 (F := F) x0)
    (h_main_v55 : V (Proc.devRef .tc main_v55) = Cert.ReferenceIdeal.ReadP.val_main_v55 (F := F) x0)
    (h_main_v56 : V (Proc.devRef .tc main_v56) = Cert.ReferenceIdeal.ReadP.val_main_v56 (F := F) x0)
    (h_main_v61 : V (Proc.devRef .tc main_v61) = Cert.ReferenceIdeal.ReadP.val_main_v61 (F := F) x0)
    (h_main_v65 : V (Proc.devRef .tc main_v65) = Cert.ReferenceIdeal.ReadP.val_main_v65 (F := F) x0)
    (h_main_v69 : V (Proc.devRef .tc main_v69) = Cert.ReferenceIdeal.ReadP.val_main_v69 (F := F) x0)
    (h_main_v70 : V (Proc.devRef .tc main_v70) = Cert.ReferenceIdeal.ReadP.val_main_v70 (F := F) x1)
    (h_main_v83 : V (Proc.devRef .tc main_v83) = Cert.ReferenceIdeal.ReadP.val_main_v83 (F := F) x0 x1)
    (h_main_v96 : V (Proc.devRef .tc main_v96) = Cert.ReferenceIdeal.ReadP.val_main_v96 (F := F) x0 x1)
    (h_main_v109 : V (Proc.devRef .tc main_v109) = Cert.ReferenceIdeal.ReadP.val_main_v109 (F := F) x0 x1)
    (h_main_v122 : V (Proc.devRef .tc main_v122) = Cert.ReferenceIdeal.ReadP.val_main_v122 (F := F) x0 x1)
    (h_main_v128 : V (Proc.devRef .tc main_v128) = Cert.ReferenceIdeal.ReadP.val_main_v128 (F := F) x0) :
    after (ops3 (F := F)) V (Proc.devRef .tc main_arg3) = x3 := by
  simp only [ops3]
  after_results_simp
  all_goals first
    | (simp only [h_main_arg0, h_main_arg2, h_main_arg3, h_main_v42, h_main_v48, h_main_v54, h_main_v55, h_main_v56, h_main_v61, h_main_v65, h_main_v69, h_main_v70, h_main_v83, h_main_v96, h_main_v109, h_main_v122, h_main_v128]; done)
    | (simp only [h_main_arg0, h_main_arg2, h_main_arg3, h_main_v42, h_main_v48, h_main_v54, h_main_v55, h_main_v56, h_main_v61, h_main_v65, h_main_v69, h_main_v70, h_main_v83, h_main_v96, h_main_v109, h_main_v122, h_main_v128]; rfl)
    | rfl

theorem win3_main_v42 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v42 : V (Proc.devRef .tc main_v42) = Cert.ReferenceIdeal.ReadP.val_main_v42 (F := F) x0)
    (h_main_v48 : V (Proc.devRef .tc main_v48) = Cert.ReferenceIdeal.ReadP.val_main_v48 (F := F) x0)
    (h_main_v54 : V (Proc.devRef .tc main_v54) = Cert.ReferenceIdeal.ReadP.val_main_v54 (F := F) x0)
    (h_main_v55 : V (Proc.devRef .tc main_v55) = Cert.ReferenceIdeal.ReadP.val_main_v55 (F := F) x0)
    (h_main_v56 : V (Proc.devRef .tc main_v56) = Cert.ReferenceIdeal.ReadP.val_main_v56 (F := F) x0)
    (h_main_v61 : V (Proc.devRef .tc main_v61) = Cert.ReferenceIdeal.ReadP.val_main_v61 (F := F) x0)
    (h_main_v65 : V (Proc.devRef .tc main_v65) = Cert.ReferenceIdeal.ReadP.val_main_v65 (F := F) x0)
    (h_main_v69 : V (Proc.devRef .tc main_v69) = Cert.ReferenceIdeal.ReadP.val_main_v69 (F := F) x0)
    (h_main_v70 : V (Proc.devRef .tc main_v70) = Cert.ReferenceIdeal.ReadP.val_main_v70 (F := F) x1)
    (h_main_v83 : V (Proc.devRef .tc main_v83) = Cert.ReferenceIdeal.ReadP.val_main_v83 (F := F) x0 x1)
    (h_main_v96 : V (Proc.devRef .tc main_v96) = Cert.ReferenceIdeal.ReadP.val_main_v96 (F := F) x0 x1)
    (h_main_v109 : V (Proc.devRef .tc main_v109) = Cert.ReferenceIdeal.ReadP.val_main_v109 (F := F) x0 x1)
    (h_main_v122 : V (Proc.devRef .tc main_v122) = Cert.ReferenceIdeal.ReadP.val_main_v122 (F := F) x0 x1)
    (h_main_v128 : V (Proc.devRef .tc main_v128) = Cert.ReferenceIdeal.ReadP.val_main_v128 (F := F) x0) :
    after (ops3 (F := F)) V (Proc.devRef .tc main_v42) = Cert.ReferenceIdeal.ReadP.val_main_v42 (F := F) x0 := by
  simp only [ops3]
  after_results_simp
  all_goals first
    | (simp only [h_main_arg0, h_main_arg2, h_main_arg3, h_main_v42, h_main_v48, h_main_v54, h_main_v55, h_main_v56, h_main_v61, h_main_v65, h_main_v69, h_main_v70, h_main_v83, h_main_v96, h_main_v109, h_main_v122, h_main_v128]; done)
    | (simp only [h_main_arg0, h_main_arg2, h_main_arg3, h_main_v42, h_main_v48, h_main_v54, h_main_v55, h_main_v56, h_main_v61, h_main_v65, h_main_v69, h_main_v70, h_main_v83, h_main_v96, h_main_v109, h_main_v122, h_main_v128]; rfl)
    | rfl

theorem win3_main_v48 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v42 : V (Proc.devRef .tc main_v42) = Cert.ReferenceIdeal.ReadP.val_main_v42 (F := F) x0)
    (h_main_v48 : V (Proc.devRef .tc main_v48) = Cert.ReferenceIdeal.ReadP.val_main_v48 (F := F) x0)
    (h_main_v54 : V (Proc.devRef .tc main_v54) = Cert.ReferenceIdeal.ReadP.val_main_v54 (F := F) x0)
    (h_main_v55 : V (Proc.devRef .tc main_v55) = Cert.ReferenceIdeal.ReadP.val_main_v55 (F := F) x0)
    (h_main_v56 : V (Proc.devRef .tc main_v56) = Cert.ReferenceIdeal.ReadP.val_main_v56 (F := F) x0)
    (h_main_v61 : V (Proc.devRef .tc main_v61) = Cert.ReferenceIdeal.ReadP.val_main_v61 (F := F) x0)
    (h_main_v65 : V (Proc.devRef .tc main_v65) = Cert.ReferenceIdeal.ReadP.val_main_v65 (F := F) x0)
    (h_main_v69 : V (Proc.devRef .tc main_v69) = Cert.ReferenceIdeal.ReadP.val_main_v69 (F := F) x0)
    (h_main_v70 : V (Proc.devRef .tc main_v70) = Cert.ReferenceIdeal.ReadP.val_main_v70 (F := F) x1)
    (h_main_v83 : V (Proc.devRef .tc main_v83) = Cert.ReferenceIdeal.ReadP.val_main_v83 (F := F) x0 x1)
    (h_main_v96 : V (Proc.devRef .tc main_v96) = Cert.ReferenceIdeal.ReadP.val_main_v96 (F := F) x0 x1)
    (h_main_v109 : V (Proc.devRef .tc main_v109) = Cert.ReferenceIdeal.ReadP.val_main_v109 (F := F) x0 x1)
    (h_main_v122 : V (Proc.devRef .tc main_v122) = Cert.ReferenceIdeal.ReadP.val_main_v122 (F := F) x0 x1)
    (h_main_v128 : V (Proc.devRef .tc main_v128) = Cert.ReferenceIdeal.ReadP.val_main_v128 (F := F) x0) :
    after (ops3 (F := F)) V (Proc.devRef .tc main_v48) = Cert.ReferenceIdeal.ReadP.val_main_v48 (F := F) x0 := by
  simp only [ops3]
  after_results_simp
  all_goals first
    | (simp only [h_main_arg0, h_main_arg2, h_main_arg3, h_main_v42, h_main_v48, h_main_v54, h_main_v55, h_main_v56, h_main_v61, h_main_v65, h_main_v69, h_main_v70, h_main_v83, h_main_v96, h_main_v109, h_main_v122, h_main_v128]; done)
    | (simp only [h_main_arg0, h_main_arg2, h_main_arg3, h_main_v42, h_main_v48, h_main_v54, h_main_v55, h_main_v56, h_main_v61, h_main_v65, h_main_v69, h_main_v70, h_main_v83, h_main_v96, h_main_v109, h_main_v122, h_main_v128]; rfl)
    | rfl

theorem win3_main_v54 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v42 : V (Proc.devRef .tc main_v42) = Cert.ReferenceIdeal.ReadP.val_main_v42 (F := F) x0)
    (h_main_v48 : V (Proc.devRef .tc main_v48) = Cert.ReferenceIdeal.ReadP.val_main_v48 (F := F) x0)
    (h_main_v54 : V (Proc.devRef .tc main_v54) = Cert.ReferenceIdeal.ReadP.val_main_v54 (F := F) x0)
    (h_main_v55 : V (Proc.devRef .tc main_v55) = Cert.ReferenceIdeal.ReadP.val_main_v55 (F := F) x0)
    (h_main_v56 : V (Proc.devRef .tc main_v56) = Cert.ReferenceIdeal.ReadP.val_main_v56 (F := F) x0)
    (h_main_v61 : V (Proc.devRef .tc main_v61) = Cert.ReferenceIdeal.ReadP.val_main_v61 (F := F) x0)
    (h_main_v65 : V (Proc.devRef .tc main_v65) = Cert.ReferenceIdeal.ReadP.val_main_v65 (F := F) x0)
    (h_main_v69 : V (Proc.devRef .tc main_v69) = Cert.ReferenceIdeal.ReadP.val_main_v69 (F := F) x0)
    (h_main_v70 : V (Proc.devRef .tc main_v70) = Cert.ReferenceIdeal.ReadP.val_main_v70 (F := F) x1)
    (h_main_v83 : V (Proc.devRef .tc main_v83) = Cert.ReferenceIdeal.ReadP.val_main_v83 (F := F) x0 x1)
    (h_main_v96 : V (Proc.devRef .tc main_v96) = Cert.ReferenceIdeal.ReadP.val_main_v96 (F := F) x0 x1)
    (h_main_v109 : V (Proc.devRef .tc main_v109) = Cert.ReferenceIdeal.ReadP.val_main_v109 (F := F) x0 x1)
    (h_main_v122 : V (Proc.devRef .tc main_v122) = Cert.ReferenceIdeal.ReadP.val_main_v122 (F := F) x0 x1)
    (h_main_v128 : V (Proc.devRef .tc main_v128) = Cert.ReferenceIdeal.ReadP.val_main_v128 (F := F) x0) :
    after (ops3 (F := F)) V (Proc.devRef .tc main_v54) = Cert.ReferenceIdeal.ReadP.val_main_v54 (F := F) x0 := by
  simp only [ops3]
  after_results_simp
  all_goals first
    | (simp only [h_main_arg0, h_main_arg2, h_main_arg3, h_main_v42, h_main_v48, h_main_v54, h_main_v55, h_main_v56, h_main_v61, h_main_v65, h_main_v69, h_main_v70, h_main_v83, h_main_v96, h_main_v109, h_main_v122, h_main_v128]; done)
    | (simp only [h_main_arg0, h_main_arg2, h_main_arg3, h_main_v42, h_main_v48, h_main_v54, h_main_v55, h_main_v56, h_main_v61, h_main_v65, h_main_v69, h_main_v70, h_main_v83, h_main_v96, h_main_v109, h_main_v122, h_main_v128]; rfl)
    | rfl

theorem win3_main_v83 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v42 : V (Proc.devRef .tc main_v42) = Cert.ReferenceIdeal.ReadP.val_main_v42 (F := F) x0)
    (h_main_v48 : V (Proc.devRef .tc main_v48) = Cert.ReferenceIdeal.ReadP.val_main_v48 (F := F) x0)
    (h_main_v54 : V (Proc.devRef .tc main_v54) = Cert.ReferenceIdeal.ReadP.val_main_v54 (F := F) x0)
    (h_main_v55 : V (Proc.devRef .tc main_v55) = Cert.ReferenceIdeal.ReadP.val_main_v55 (F := F) x0)
    (h_main_v56 : V (Proc.devRef .tc main_v56) = Cert.ReferenceIdeal.ReadP.val_main_v56 (F := F) x0)
    (h_main_v61 : V (Proc.devRef .tc main_v61) = Cert.ReferenceIdeal.ReadP.val_main_v61 (F := F) x0)
    (h_main_v65 : V (Proc.devRef .tc main_v65) = Cert.ReferenceIdeal.ReadP.val_main_v65 (F := F) x0)
    (h_main_v69 : V (Proc.devRef .tc main_v69) = Cert.ReferenceIdeal.ReadP.val_main_v69 (F := F) x0)
    (h_main_v70 : V (Proc.devRef .tc main_v70) = Cert.ReferenceIdeal.ReadP.val_main_v70 (F := F) x1)
    (h_main_v83 : V (Proc.devRef .tc main_v83) = Cert.ReferenceIdeal.ReadP.val_main_v83 (F := F) x0 x1)
    (h_main_v96 : V (Proc.devRef .tc main_v96) = Cert.ReferenceIdeal.ReadP.val_main_v96 (F := F) x0 x1)
    (h_main_v109 : V (Proc.devRef .tc main_v109) = Cert.ReferenceIdeal.ReadP.val_main_v109 (F := F) x0 x1)
    (h_main_v122 : V (Proc.devRef .tc main_v122) = Cert.ReferenceIdeal.ReadP.val_main_v122 (F := F) x0 x1)
    (h_main_v128 : V (Proc.devRef .tc main_v128) = Cert.ReferenceIdeal.ReadP.val_main_v128 (F := F) x0) :
    after (ops3 (F := F)) V (Proc.devRef .tc main_v83) = Cert.ReferenceIdeal.ReadP.val_main_v83 (F := F) x0 x1 := by
  simp only [ops3]
  after_results_simp
  all_goals first
    | (simp only [h_main_arg0, h_main_arg2, h_main_arg3, h_main_v42, h_main_v48, h_main_v54, h_main_v55, h_main_v56, h_main_v61, h_main_v65, h_main_v69, h_main_v70, h_main_v83, h_main_v96, h_main_v109, h_main_v122, h_main_v128]; done)
    | (simp only [h_main_arg0, h_main_arg2, h_main_arg3, h_main_v42, h_main_v48, h_main_v54, h_main_v55, h_main_v56, h_main_v61, h_main_v65, h_main_v69, h_main_v70, h_main_v83, h_main_v96, h_main_v109, h_main_v122, h_main_v128]; rfl)
    | rfl

theorem win3_main_v96 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v42 : V (Proc.devRef .tc main_v42) = Cert.ReferenceIdeal.ReadP.val_main_v42 (F := F) x0)
    (h_main_v48 : V (Proc.devRef .tc main_v48) = Cert.ReferenceIdeal.ReadP.val_main_v48 (F := F) x0)
    (h_main_v54 : V (Proc.devRef .tc main_v54) = Cert.ReferenceIdeal.ReadP.val_main_v54 (F := F) x0)
    (h_main_v55 : V (Proc.devRef .tc main_v55) = Cert.ReferenceIdeal.ReadP.val_main_v55 (F := F) x0)
    (h_main_v56 : V (Proc.devRef .tc main_v56) = Cert.ReferenceIdeal.ReadP.val_main_v56 (F := F) x0)
    (h_main_v61 : V (Proc.devRef .tc main_v61) = Cert.ReferenceIdeal.ReadP.val_main_v61 (F := F) x0)
    (h_main_v65 : V (Proc.devRef .tc main_v65) = Cert.ReferenceIdeal.ReadP.val_main_v65 (F := F) x0)
    (h_main_v69 : V (Proc.devRef .tc main_v69) = Cert.ReferenceIdeal.ReadP.val_main_v69 (F := F) x0)
    (h_main_v70 : V (Proc.devRef .tc main_v70) = Cert.ReferenceIdeal.ReadP.val_main_v70 (F := F) x1)
    (h_main_v83 : V (Proc.devRef .tc main_v83) = Cert.ReferenceIdeal.ReadP.val_main_v83 (F := F) x0 x1)
    (h_main_v96 : V (Proc.devRef .tc main_v96) = Cert.ReferenceIdeal.ReadP.val_main_v96 (F := F) x0 x1)
    (h_main_v109 : V (Proc.devRef .tc main_v109) = Cert.ReferenceIdeal.ReadP.val_main_v109 (F := F) x0 x1)
    (h_main_v122 : V (Proc.devRef .tc main_v122) = Cert.ReferenceIdeal.ReadP.val_main_v122 (F := F) x0 x1)
    (h_main_v128 : V (Proc.devRef .tc main_v128) = Cert.ReferenceIdeal.ReadP.val_main_v128 (F := F) x0) :
    after (ops3 (F := F)) V (Proc.devRef .tc main_v96) = Cert.ReferenceIdeal.ReadP.val_main_v96 (F := F) x0 x1 := by
  simp only [ops3]
  after_results_simp
  all_goals first
    | (simp only [h_main_arg0, h_main_arg2, h_main_arg3, h_main_v42, h_main_v48, h_main_v54, h_main_v55, h_main_v56, h_main_v61, h_main_v65, h_main_v69, h_main_v70, h_main_v83, h_main_v96, h_main_v109, h_main_v122, h_main_v128]; done)
    | (simp only [h_main_arg0, h_main_arg2, h_main_arg3, h_main_v42, h_main_v48, h_main_v54, h_main_v55, h_main_v56, h_main_v61, h_main_v65, h_main_v69, h_main_v70, h_main_v83, h_main_v96, h_main_v109, h_main_v122, h_main_v128]; rfl)
    | rfl

theorem win3_main_v109 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v42 : V (Proc.devRef .tc main_v42) = Cert.ReferenceIdeal.ReadP.val_main_v42 (F := F) x0)
    (h_main_v48 : V (Proc.devRef .tc main_v48) = Cert.ReferenceIdeal.ReadP.val_main_v48 (F := F) x0)
    (h_main_v54 : V (Proc.devRef .tc main_v54) = Cert.ReferenceIdeal.ReadP.val_main_v54 (F := F) x0)
    (h_main_v55 : V (Proc.devRef .tc main_v55) = Cert.ReferenceIdeal.ReadP.val_main_v55 (F := F) x0)
    (h_main_v56 : V (Proc.devRef .tc main_v56) = Cert.ReferenceIdeal.ReadP.val_main_v56 (F := F) x0)
    (h_main_v61 : V (Proc.devRef .tc main_v61) = Cert.ReferenceIdeal.ReadP.val_main_v61 (F := F) x0)
    (h_main_v65 : V (Proc.devRef .tc main_v65) = Cert.ReferenceIdeal.ReadP.val_main_v65 (F := F) x0)
    (h_main_v69 : V (Proc.devRef .tc main_v69) = Cert.ReferenceIdeal.ReadP.val_main_v69 (F := F) x0)
    (h_main_v70 : V (Proc.devRef .tc main_v70) = Cert.ReferenceIdeal.ReadP.val_main_v70 (F := F) x1)
    (h_main_v83 : V (Proc.devRef .tc main_v83) = Cert.ReferenceIdeal.ReadP.val_main_v83 (F := F) x0 x1)
    (h_main_v96 : V (Proc.devRef .tc main_v96) = Cert.ReferenceIdeal.ReadP.val_main_v96 (F := F) x0 x1)
    (h_main_v109 : V (Proc.devRef .tc main_v109) = Cert.ReferenceIdeal.ReadP.val_main_v109 (F := F) x0 x1)
    (h_main_v122 : V (Proc.devRef .tc main_v122) = Cert.ReferenceIdeal.ReadP.val_main_v122 (F := F) x0 x1)
    (h_main_v128 : V (Proc.devRef .tc main_v128) = Cert.ReferenceIdeal.ReadP.val_main_v128 (F := F) x0) :
    after (ops3 (F := F)) V (Proc.devRef .tc main_v109) = Cert.ReferenceIdeal.ReadP.val_main_v109 (F := F) x0 x1 := by
  simp only [ops3]
  after_results_simp
  all_goals first
    | (simp only [h_main_arg0, h_main_arg2, h_main_arg3, h_main_v42, h_main_v48, h_main_v54, h_main_v55, h_main_v56, h_main_v61, h_main_v65, h_main_v69, h_main_v70, h_main_v83, h_main_v96, h_main_v109, h_main_v122, h_main_v128]; done)
    | (simp only [h_main_arg0, h_main_arg2, h_main_arg3, h_main_v42, h_main_v48, h_main_v54, h_main_v55, h_main_v56, h_main_v61, h_main_v65, h_main_v69, h_main_v70, h_main_v83, h_main_v96, h_main_v109, h_main_v122, h_main_v128]; rfl)
    | rfl

theorem win3_main_v122 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v42 : V (Proc.devRef .tc main_v42) = Cert.ReferenceIdeal.ReadP.val_main_v42 (F := F) x0)
    (h_main_v48 : V (Proc.devRef .tc main_v48) = Cert.ReferenceIdeal.ReadP.val_main_v48 (F := F) x0)
    (h_main_v54 : V (Proc.devRef .tc main_v54) = Cert.ReferenceIdeal.ReadP.val_main_v54 (F := F) x0)
    (h_main_v55 : V (Proc.devRef .tc main_v55) = Cert.ReferenceIdeal.ReadP.val_main_v55 (F := F) x0)
    (h_main_v56 : V (Proc.devRef .tc main_v56) = Cert.ReferenceIdeal.ReadP.val_main_v56 (F := F) x0)
    (h_main_v61 : V (Proc.devRef .tc main_v61) = Cert.ReferenceIdeal.ReadP.val_main_v61 (F := F) x0)
    (h_main_v65 : V (Proc.devRef .tc main_v65) = Cert.ReferenceIdeal.ReadP.val_main_v65 (F := F) x0)
    (h_main_v69 : V (Proc.devRef .tc main_v69) = Cert.ReferenceIdeal.ReadP.val_main_v69 (F := F) x0)
    (h_main_v70 : V (Proc.devRef .tc main_v70) = Cert.ReferenceIdeal.ReadP.val_main_v70 (F := F) x1)
    (h_main_v83 : V (Proc.devRef .tc main_v83) = Cert.ReferenceIdeal.ReadP.val_main_v83 (F := F) x0 x1)
    (h_main_v96 : V (Proc.devRef .tc main_v96) = Cert.ReferenceIdeal.ReadP.val_main_v96 (F := F) x0 x1)
    (h_main_v109 : V (Proc.devRef .tc main_v109) = Cert.ReferenceIdeal.ReadP.val_main_v109 (F := F) x0 x1)
    (h_main_v122 : V (Proc.devRef .tc main_v122) = Cert.ReferenceIdeal.ReadP.val_main_v122 (F := F) x0 x1)
    (h_main_v128 : V (Proc.devRef .tc main_v128) = Cert.ReferenceIdeal.ReadP.val_main_v128 (F := F) x0) :
    after (ops3 (F := F)) V (Proc.devRef .tc main_v122) = Cert.ReferenceIdeal.ReadP.val_main_v122 (F := F) x0 x1 := by
  simp only [ops3]
  after_results_simp
  all_goals first
    | (simp only [h_main_arg0, h_main_arg2, h_main_arg3, h_main_v42, h_main_v48, h_main_v54, h_main_v55, h_main_v56, h_main_v61, h_main_v65, h_main_v69, h_main_v70, h_main_v83, h_main_v96, h_main_v109, h_main_v122, h_main_v128]; done)
    | (simp only [h_main_arg0, h_main_arg2, h_main_arg3, h_main_v42, h_main_v48, h_main_v54, h_main_v55, h_main_v56, h_main_v61, h_main_v65, h_main_v69, h_main_v70, h_main_v83, h_main_v96, h_main_v109, h_main_v122, h_main_v128]; rfl)
    | rfl

theorem win3_main_v135 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v42 : V (Proc.devRef .tc main_v42) = Cert.ReferenceIdeal.ReadP.val_main_v42 (F := F) x0)
    (h_main_v48 : V (Proc.devRef .tc main_v48) = Cert.ReferenceIdeal.ReadP.val_main_v48 (F := F) x0)
    (h_main_v54 : V (Proc.devRef .tc main_v54) = Cert.ReferenceIdeal.ReadP.val_main_v54 (F := F) x0)
    (h_main_v55 : V (Proc.devRef .tc main_v55) = Cert.ReferenceIdeal.ReadP.val_main_v55 (F := F) x0)
    (h_main_v56 : V (Proc.devRef .tc main_v56) = Cert.ReferenceIdeal.ReadP.val_main_v56 (F := F) x0)
    (h_main_v61 : V (Proc.devRef .tc main_v61) = Cert.ReferenceIdeal.ReadP.val_main_v61 (F := F) x0)
    (h_main_v65 : V (Proc.devRef .tc main_v65) = Cert.ReferenceIdeal.ReadP.val_main_v65 (F := F) x0)
    (h_main_v69 : V (Proc.devRef .tc main_v69) = Cert.ReferenceIdeal.ReadP.val_main_v69 (F := F) x0)
    (h_main_v70 : V (Proc.devRef .tc main_v70) = Cert.ReferenceIdeal.ReadP.val_main_v70 (F := F) x1)
    (h_main_v83 : V (Proc.devRef .tc main_v83) = Cert.ReferenceIdeal.ReadP.val_main_v83 (F := F) x0 x1)
    (h_main_v96 : V (Proc.devRef .tc main_v96) = Cert.ReferenceIdeal.ReadP.val_main_v96 (F := F) x0 x1)
    (h_main_v109 : V (Proc.devRef .tc main_v109) = Cert.ReferenceIdeal.ReadP.val_main_v109 (F := F) x0 x1)
    (h_main_v122 : V (Proc.devRef .tc main_v122) = Cert.ReferenceIdeal.ReadP.val_main_v122 (F := F) x0 x1)
    (h_main_v128 : V (Proc.devRef .tc main_v128) = Cert.ReferenceIdeal.ReadP.val_main_v128 (F := F) x0) :
    after (ops3 (F := F)) V (Proc.devRef .tc main_v135) = Cert.ReferenceIdeal.ReadP.val_main_v135 (F := F) x0 x1 := by
  simp only [ops3]
  after_results_simp
  all_goals first
    | (simp only [h_main_arg0, h_main_arg2, h_main_arg3, h_main_v42, h_main_v48, h_main_v54, h_main_v55, h_main_v56, h_main_v61, h_main_v65, h_main_v69, h_main_v70, h_main_v83, h_main_v96, h_main_v109, h_main_v122, h_main_v128]; done)
    | (simp only [h_main_arg0, h_main_arg2, h_main_arg3, h_main_v42, h_main_v48, h_main_v54, h_main_v55, h_main_v56, h_main_v61, h_main_v65, h_main_v69, h_main_v70, h_main_v83, h_main_v96, h_main_v109, h_main_v122, h_main_v128]; rfl)
    | rfl

theorem win3_main_v148 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v42 : V (Proc.devRef .tc main_v42) = Cert.ReferenceIdeal.ReadP.val_main_v42 (F := F) x0)
    (h_main_v48 : V (Proc.devRef .tc main_v48) = Cert.ReferenceIdeal.ReadP.val_main_v48 (F := F) x0)
    (h_main_v54 : V (Proc.devRef .tc main_v54) = Cert.ReferenceIdeal.ReadP.val_main_v54 (F := F) x0)
    (h_main_v55 : V (Proc.devRef .tc main_v55) = Cert.ReferenceIdeal.ReadP.val_main_v55 (F := F) x0)
    (h_main_v56 : V (Proc.devRef .tc main_v56) = Cert.ReferenceIdeal.ReadP.val_main_v56 (F := F) x0)
    (h_main_v61 : V (Proc.devRef .tc main_v61) = Cert.ReferenceIdeal.ReadP.val_main_v61 (F := F) x0)
    (h_main_v65 : V (Proc.devRef .tc main_v65) = Cert.ReferenceIdeal.ReadP.val_main_v65 (F := F) x0)
    (h_main_v69 : V (Proc.devRef .tc main_v69) = Cert.ReferenceIdeal.ReadP.val_main_v69 (F := F) x0)
    (h_main_v70 : V (Proc.devRef .tc main_v70) = Cert.ReferenceIdeal.ReadP.val_main_v70 (F := F) x1)
    (h_main_v83 : V (Proc.devRef .tc main_v83) = Cert.ReferenceIdeal.ReadP.val_main_v83 (F := F) x0 x1)
    (h_main_v96 : V (Proc.devRef .tc main_v96) = Cert.ReferenceIdeal.ReadP.val_main_v96 (F := F) x0 x1)
    (h_main_v109 : V (Proc.devRef .tc main_v109) = Cert.ReferenceIdeal.ReadP.val_main_v109 (F := F) x0 x1)
    (h_main_v122 : V (Proc.devRef .tc main_v122) = Cert.ReferenceIdeal.ReadP.val_main_v122 (F := F) x0 x1)
    (h_main_v128 : V (Proc.devRef .tc main_v128) = Cert.ReferenceIdeal.ReadP.val_main_v128 (F := F) x0) :
    after (ops3 (F := F)) V (Proc.devRef .tc main_v148) = Cert.ReferenceIdeal.ReadP.val_main_v148 (F := F) x0 x1 := by
  simp only [ops3]
  after_results_simp
  all_goals first
    | (simp only [h_main_arg0, h_main_arg2, h_main_arg3, h_main_v42, h_main_v48, h_main_v54, h_main_v55, h_main_v56, h_main_v61, h_main_v65, h_main_v69, h_main_v70, h_main_v83, h_main_v96, h_main_v109, h_main_v122, h_main_v128]; done)
    | (simp only [h_main_arg0, h_main_arg2, h_main_arg3, h_main_v42, h_main_v48, h_main_v54, h_main_v55, h_main_v56, h_main_v61, h_main_v65, h_main_v69, h_main_v70, h_main_v83, h_main_v96, h_main_v109, h_main_v122, h_main_v128]; rfl)
    | rfl

theorem win3_main_v161 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v42 : V (Proc.devRef .tc main_v42) = Cert.ReferenceIdeal.ReadP.val_main_v42 (F := F) x0)
    (h_main_v48 : V (Proc.devRef .tc main_v48) = Cert.ReferenceIdeal.ReadP.val_main_v48 (F := F) x0)
    (h_main_v54 : V (Proc.devRef .tc main_v54) = Cert.ReferenceIdeal.ReadP.val_main_v54 (F := F) x0)
    (h_main_v55 : V (Proc.devRef .tc main_v55) = Cert.ReferenceIdeal.ReadP.val_main_v55 (F := F) x0)
    (h_main_v56 : V (Proc.devRef .tc main_v56) = Cert.ReferenceIdeal.ReadP.val_main_v56 (F := F) x0)
    (h_main_v61 : V (Proc.devRef .tc main_v61) = Cert.ReferenceIdeal.ReadP.val_main_v61 (F := F) x0)
    (h_main_v65 : V (Proc.devRef .tc main_v65) = Cert.ReferenceIdeal.ReadP.val_main_v65 (F := F) x0)
    (h_main_v69 : V (Proc.devRef .tc main_v69) = Cert.ReferenceIdeal.ReadP.val_main_v69 (F := F) x0)
    (h_main_v70 : V (Proc.devRef .tc main_v70) = Cert.ReferenceIdeal.ReadP.val_main_v70 (F := F) x1)
    (h_main_v83 : V (Proc.devRef .tc main_v83) = Cert.ReferenceIdeal.ReadP.val_main_v83 (F := F) x0 x1)
    (h_main_v96 : V (Proc.devRef .tc main_v96) = Cert.ReferenceIdeal.ReadP.val_main_v96 (F := F) x0 x1)
    (h_main_v109 : V (Proc.devRef .tc main_v109) = Cert.ReferenceIdeal.ReadP.val_main_v109 (F := F) x0 x1)
    (h_main_v122 : V (Proc.devRef .tc main_v122) = Cert.ReferenceIdeal.ReadP.val_main_v122 (F := F) x0 x1)
    (h_main_v128 : V (Proc.devRef .tc main_v128) = Cert.ReferenceIdeal.ReadP.val_main_v128 (F := F) x0) :
    after (ops3 (F := F)) V (Proc.devRef .tc main_v161) = Cert.ReferenceIdeal.ReadP.val_main_v161 (F := F) x0 x1 := by
  simp only [ops3]
  after_results_simp
  all_goals first
    | (simp only [h_main_arg0, h_main_arg2, h_main_arg3, h_main_v42, h_main_v48, h_main_v54, h_main_v55, h_main_v56, h_main_v61, h_main_v65, h_main_v69, h_main_v70, h_main_v83, h_main_v96, h_main_v109, h_main_v122, h_main_v128]; done)
    | (simp only [h_main_arg0, h_main_arg2, h_main_arg3, h_main_v42, h_main_v48, h_main_v54, h_main_v55, h_main_v56, h_main_v61, h_main_v65, h_main_v69, h_main_v70, h_main_v83, h_main_v96, h_main_v109, h_main_v122, h_main_v128]; rfl)
    | rfl

theorem win3_main_v174 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v42 : V (Proc.devRef .tc main_v42) = Cert.ReferenceIdeal.ReadP.val_main_v42 (F := F) x0)
    (h_main_v48 : V (Proc.devRef .tc main_v48) = Cert.ReferenceIdeal.ReadP.val_main_v48 (F := F) x0)
    (h_main_v54 : V (Proc.devRef .tc main_v54) = Cert.ReferenceIdeal.ReadP.val_main_v54 (F := F) x0)
    (h_main_v55 : V (Proc.devRef .tc main_v55) = Cert.ReferenceIdeal.ReadP.val_main_v55 (F := F) x0)
    (h_main_v56 : V (Proc.devRef .tc main_v56) = Cert.ReferenceIdeal.ReadP.val_main_v56 (F := F) x0)
    (h_main_v61 : V (Proc.devRef .tc main_v61) = Cert.ReferenceIdeal.ReadP.val_main_v61 (F := F) x0)
    (h_main_v65 : V (Proc.devRef .tc main_v65) = Cert.ReferenceIdeal.ReadP.val_main_v65 (F := F) x0)
    (h_main_v69 : V (Proc.devRef .tc main_v69) = Cert.ReferenceIdeal.ReadP.val_main_v69 (F := F) x0)
    (h_main_v70 : V (Proc.devRef .tc main_v70) = Cert.ReferenceIdeal.ReadP.val_main_v70 (F := F) x1)
    (h_main_v83 : V (Proc.devRef .tc main_v83) = Cert.ReferenceIdeal.ReadP.val_main_v83 (F := F) x0 x1)
    (h_main_v96 : V (Proc.devRef .tc main_v96) = Cert.ReferenceIdeal.ReadP.val_main_v96 (F := F) x0 x1)
    (h_main_v109 : V (Proc.devRef .tc main_v109) = Cert.ReferenceIdeal.ReadP.val_main_v109 (F := F) x0 x1)
    (h_main_v122 : V (Proc.devRef .tc main_v122) = Cert.ReferenceIdeal.ReadP.val_main_v122 (F := F) x0 x1)
    (h_main_v128 : V (Proc.devRef .tc main_v128) = Cert.ReferenceIdeal.ReadP.val_main_v128 (F := F) x0) :
    after (ops3 (F := F)) V (Proc.devRef .tc main_v174) = Cert.ReferenceIdeal.ReadP.val_main_v174 (F := F) x0 x1 := by
  simp only [ops3]
  after_results_simp
  all_goals first
    | (simp only [h_main_arg0, h_main_arg2, h_main_arg3, h_main_v42, h_main_v48, h_main_v54, h_main_v55, h_main_v56, h_main_v61, h_main_v65, h_main_v69, h_main_v70, h_main_v83, h_main_v96, h_main_v109, h_main_v122, h_main_v128]; done)
    | (simp only [h_main_arg0, h_main_arg2, h_main_arg3, h_main_v42, h_main_v48, h_main_v54, h_main_v55, h_main_v56, h_main_v61, h_main_v65, h_main_v69, h_main_v70, h_main_v83, h_main_v96, h_main_v109, h_main_v122, h_main_v128]; rfl)
    | rfl

end Cert.ReferenceIdeal.RunH

end
-- ==== Proof.RefWin4.lean ====
/-
  Window 4 of the reference's @main, read on its own: from any buffer contents `V` in which every buffer that
  window 4 or a later window reads from before it holds its stage function of the four argument arrays, the
  contents after the window's operations hold the stage functions again, for every buffer a later window reads.
-/
import proofs.«113233_j37486474559588_2_alg».proof.Proof.RefOps
import proofs.«113233_j37486474559588_2_alg».proof.Proof.RefReadP

set_option maxRecDepth 65536
set_option maxHeartbeats 40000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

theorem win4_main_arg0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v42 : V (Proc.devRef .tc main_v42) = Cert.ReferenceIdeal.ReadP.val_main_v42 (F := F) x0)
    (h_main_v48 : V (Proc.devRef .tc main_v48) = Cert.ReferenceIdeal.ReadP.val_main_v48 (F := F) x0)
    (h_main_v54 : V (Proc.devRef .tc main_v54) = Cert.ReferenceIdeal.ReadP.val_main_v54 (F := F) x0)
    (h_main_v83 : V (Proc.devRef .tc main_v83) = Cert.ReferenceIdeal.ReadP.val_main_v83 (F := F) x0 x1)
    (h_main_v96 : V (Proc.devRef .tc main_v96) = Cert.ReferenceIdeal.ReadP.val_main_v96 (F := F) x0 x1)
    (h_main_v109 : V (Proc.devRef .tc main_v109) = Cert.ReferenceIdeal.ReadP.val_main_v109 (F := F) x0 x1)
    (h_main_v122 : V (Proc.devRef .tc main_v122) = Cert.ReferenceIdeal.ReadP.val_main_v122 (F := F) x0 x1)
    (h_main_v135 : V (Proc.devRef .tc main_v135) = Cert.ReferenceIdeal.ReadP.val_main_v135 (F := F) x0 x1)
    (h_main_v148 : V (Proc.devRef .tc main_v148) = Cert.ReferenceIdeal.ReadP.val_main_v148 (F := F) x0 x1)
    (h_main_v161 : V (Proc.devRef .tc main_v161) = Cert.ReferenceIdeal.ReadP.val_main_v161 (F := F) x0 x1)
    (h_main_v174 : V (Proc.devRef .tc main_v174) = Cert.ReferenceIdeal.ReadP.val_main_v174 (F := F) x0 x1) :
    after (ops4 (F := F)) V (Proc.devRef .tc main_arg0) = x0 := by
  simp only [ops4]
  after_results_simp
  all_goals first
    | (simp only [h_main_arg0, h_main_arg2, h_main_arg3, h_main_v42, h_main_v48, h_main_v54, h_main_v83, h_main_v96, h_main_v109, h_main_v122, h_main_v135, h_main_v148, h_main_v161, h_main_v174]; done)
    | (simp only [h_main_arg0, h_main_arg2, h_main_arg3, h_main_v42, h_main_v48, h_main_v54, h_main_v83, h_main_v96, h_main_v109, h_main_v122, h_main_v135, h_main_v148, h_main_v161, h_main_v174]; rfl)
    | rfl

theorem win4_main_arg2 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v42 : V (Proc.devRef .tc main_v42) = Cert.ReferenceIdeal.ReadP.val_main_v42 (F := F) x0)
    (h_main_v48 : V (Proc.devRef .tc main_v48) = Cert.ReferenceIdeal.ReadP.val_main_v48 (F := F) x0)
    (h_main_v54 : V (Proc.devRef .tc main_v54) = Cert.ReferenceIdeal.ReadP.val_main_v54 (F := F) x0)
    (h_main_v83 : V (Proc.devRef .tc main_v83) = Cert.ReferenceIdeal.ReadP.val_main_v83 (F := F) x0 x1)
    (h_main_v96 : V (Proc.devRef .tc main_v96) = Cert.ReferenceIdeal.ReadP.val_main_v96 (F := F) x0 x1)
    (h_main_v109 : V (Proc.devRef .tc main_v109) = Cert.ReferenceIdeal.ReadP.val_main_v109 (F := F) x0 x1)
    (h_main_v122 : V (Proc.devRef .tc main_v122) = Cert.ReferenceIdeal.ReadP.val_main_v122 (F := F) x0 x1)
    (h_main_v135 : V (Proc.devRef .tc main_v135) = Cert.ReferenceIdeal.ReadP.val_main_v135 (F := F) x0 x1)
    (h_main_v148 : V (Proc.devRef .tc main_v148) = Cert.ReferenceIdeal.ReadP.val_main_v148 (F := F) x0 x1)
    (h_main_v161 : V (Proc.devRef .tc main_v161) = Cert.ReferenceIdeal.ReadP.val_main_v161 (F := F) x0 x1)
    (h_main_v174 : V (Proc.devRef .tc main_v174) = Cert.ReferenceIdeal.ReadP.val_main_v174 (F := F) x0 x1) :
    after (ops4 (F := F)) V (Proc.devRef .tc main_arg2) = x2 := by
  simp only [ops4]
  after_results_simp
  all_goals first
    | (simp only [h_main_arg0, h_main_arg2, h_main_arg3, h_main_v42, h_main_v48, h_main_v54, h_main_v83, h_main_v96, h_main_v109, h_main_v122, h_main_v135, h_main_v148, h_main_v161, h_main_v174]; done)
    | (simp only [h_main_arg0, h_main_arg2, h_main_arg3, h_main_v42, h_main_v48, h_main_v54, h_main_v83, h_main_v96, h_main_v109, h_main_v122, h_main_v135, h_main_v148, h_main_v161, h_main_v174]; rfl)
    | rfl

theorem win4_main_arg3 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v42 : V (Proc.devRef .tc main_v42) = Cert.ReferenceIdeal.ReadP.val_main_v42 (F := F) x0)
    (h_main_v48 : V (Proc.devRef .tc main_v48) = Cert.ReferenceIdeal.ReadP.val_main_v48 (F := F) x0)
    (h_main_v54 : V (Proc.devRef .tc main_v54) = Cert.ReferenceIdeal.ReadP.val_main_v54 (F := F) x0)
    (h_main_v83 : V (Proc.devRef .tc main_v83) = Cert.ReferenceIdeal.ReadP.val_main_v83 (F := F) x0 x1)
    (h_main_v96 : V (Proc.devRef .tc main_v96) = Cert.ReferenceIdeal.ReadP.val_main_v96 (F := F) x0 x1)
    (h_main_v109 : V (Proc.devRef .tc main_v109) = Cert.ReferenceIdeal.ReadP.val_main_v109 (F := F) x0 x1)
    (h_main_v122 : V (Proc.devRef .tc main_v122) = Cert.ReferenceIdeal.ReadP.val_main_v122 (F := F) x0 x1)
    (h_main_v135 : V (Proc.devRef .tc main_v135) = Cert.ReferenceIdeal.ReadP.val_main_v135 (F := F) x0 x1)
    (h_main_v148 : V (Proc.devRef .tc main_v148) = Cert.ReferenceIdeal.ReadP.val_main_v148 (F := F) x0 x1)
    (h_main_v161 : V (Proc.devRef .tc main_v161) = Cert.ReferenceIdeal.ReadP.val_main_v161 (F := F) x0 x1)
    (h_main_v174 : V (Proc.devRef .tc main_v174) = Cert.ReferenceIdeal.ReadP.val_main_v174 (F := F) x0 x1) :
    after (ops4 (F := F)) V (Proc.devRef .tc main_arg3) = x3 := by
  simp only [ops4]
  after_results_simp
  all_goals first
    | (simp only [h_main_arg0, h_main_arg2, h_main_arg3, h_main_v42, h_main_v48, h_main_v54, h_main_v83, h_main_v96, h_main_v109, h_main_v122, h_main_v135, h_main_v148, h_main_v161, h_main_v174]; done)
    | (simp only [h_main_arg0, h_main_arg2, h_main_arg3, h_main_v42, h_main_v48, h_main_v54, h_main_v83, h_main_v96, h_main_v109, h_main_v122, h_main_v135, h_main_v148, h_main_v161, h_main_v174]; rfl)
    | rfl

theorem win4_main_v210 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v42 : V (Proc.devRef .tc main_v42) = Cert.ReferenceIdeal.ReadP.val_main_v42 (F := F) x0)
    (h_main_v48 : V (Proc.devRef .tc main_v48) = Cert.ReferenceIdeal.ReadP.val_main_v48 (F := F) x0)
    (h_main_v54 : V (Proc.devRef .tc main_v54) = Cert.ReferenceIdeal.ReadP.val_main_v54 (F := F) x0)
    (h_main_v83 : V (Proc.devRef .tc main_v83) = Cert.ReferenceIdeal.ReadP.val_main_v83 (F := F) x0 x1)
    (h_main_v96 : V (Proc.devRef .tc main_v96) = Cert.ReferenceIdeal.ReadP.val_main_v96 (F := F) x0 x1)
    (h_main_v109 : V (Proc.devRef .tc main_v109) = Cert.ReferenceIdeal.ReadP.val_main_v109 (F := F) x0 x1)
    (h_main_v122 : V (Proc.devRef .tc main_v122) = Cert.ReferenceIdeal.ReadP.val_main_v122 (F := F) x0 x1)
    (h_main_v135 : V (Proc.devRef .tc main_v135) = Cert.ReferenceIdeal.ReadP.val_main_v135 (F := F) x0 x1)
    (h_main_v148 : V (Proc.devRef .tc main_v148) = Cert.ReferenceIdeal.ReadP.val_main_v148 (F := F) x0 x1)
    (h_main_v161 : V (Proc.devRef .tc main_v161) = Cert.ReferenceIdeal.ReadP.val_main_v161 (F := F) x0 x1)
    (h_main_v174 : V (Proc.devRef .tc main_v174) = Cert.ReferenceIdeal.ReadP.val_main_v174 (F := F) x0 x1) :
    after (ops4 (F := F)) V (Proc.devRef .tc main_v210) = Cert.ReferenceIdeal.ReadP.val_main_v210 (F := F) x0 x1 := by
  simp only [ops4]
  after_results_simp
  all_goals first
    | (simp only [h_main_arg0, h_main_arg2, h_main_arg3, h_main_v42, h_main_v48, h_main_v54, h_main_v83, h_main_v96, h_main_v109, h_main_v122, h_main_v135, h_main_v148, h_main_v161, h_main_v174]; done)
    | (simp only [h_main_arg0, h_main_arg2, h_main_arg3, h_main_v42, h_main_v48, h_main_v54, h_main_v83, h_main_v96, h_main_v109, h_main_v122, h_main_v135, h_main_v148, h_main_v161, h_main_v174]; rfl)
    | rfl

theorem win4_main_v219 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v42 : V (Proc.devRef .tc main_v42) = Cert.ReferenceIdeal.ReadP.val_main_v42 (F := F) x0)
    (h_main_v48 : V (Proc.devRef .tc main_v48) = Cert.ReferenceIdeal.ReadP.val_main_v48 (F := F) x0)
    (h_main_v54 : V (Proc.devRef .tc main_v54) = Cert.ReferenceIdeal.ReadP.val_main_v54 (F := F) x0)
    (h_main_v83 : V (Proc.devRef .tc main_v83) = Cert.ReferenceIdeal.ReadP.val_main_v83 (F := F) x0 x1)
    (h_main_v96 : V (Proc.devRef .tc main_v96) = Cert.ReferenceIdeal.ReadP.val_main_v96 (F := F) x0 x1)
    (h_main_v109 : V (Proc.devRef .tc main_v109) = Cert.ReferenceIdeal.ReadP.val_main_v109 (F := F) x0 x1)
    (h_main_v122 : V (Proc.devRef .tc main_v122) = Cert.ReferenceIdeal.ReadP.val_main_v122 (F := F) x0 x1)
    (h_main_v135 : V (Proc.devRef .tc main_v135) = Cert.ReferenceIdeal.ReadP.val_main_v135 (F := F) x0 x1)
    (h_main_v148 : V (Proc.devRef .tc main_v148) = Cert.ReferenceIdeal.ReadP.val_main_v148 (F := F) x0 x1)
    (h_main_v161 : V (Proc.devRef .tc main_v161) = Cert.ReferenceIdeal.ReadP.val_main_v161 (F := F) x0 x1)
    (h_main_v174 : V (Proc.devRef .tc main_v174) = Cert.ReferenceIdeal.ReadP.val_main_v174 (F := F) x0 x1) :
    after (ops4 (F := F)) V (Proc.devRef .tc main_v219) = Cert.ReferenceIdeal.ReadP.val_main_v219 (F := F) x0 := by
  simp only [ops4]
  after_results_simp
  all_goals first
    | (simp only [h_main_arg0, h_main_arg2, h_main_arg3, h_main_v42, h_main_v48, h_main_v54, h_main_v83, h_main_v96, h_main_v109, h_main_v122, h_main_v135, h_main_v148, h_main_v161, h_main_v174]; done)
    | (simp only [h_main_arg0, h_main_arg2, h_main_arg3, h_main_v42, h_main_v48, h_main_v54, h_main_v83, h_main_v96, h_main_v109, h_main_v122, h_main_v135, h_main_v148, h_main_v161, h_main_v174]; rfl)
    | rfl

theorem win4_main_v227 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v42 : V (Proc.devRef .tc main_v42) = Cert.ReferenceIdeal.ReadP.val_main_v42 (F := F) x0)
    (h_main_v48 : V (Proc.devRef .tc main_v48) = Cert.ReferenceIdeal.ReadP.val_main_v48 (F := F) x0)
    (h_main_v54 : V (Proc.devRef .tc main_v54) = Cert.ReferenceIdeal.ReadP.val_main_v54 (F := F) x0)
    (h_main_v83 : V (Proc.devRef .tc main_v83) = Cert.ReferenceIdeal.ReadP.val_main_v83 (F := F) x0 x1)
    (h_main_v96 : V (Proc.devRef .tc main_v96) = Cert.ReferenceIdeal.ReadP.val_main_v96 (F := F) x0 x1)
    (h_main_v109 : V (Proc.devRef .tc main_v109) = Cert.ReferenceIdeal.ReadP.val_main_v109 (F := F) x0 x1)
    (h_main_v122 : V (Proc.devRef .tc main_v122) = Cert.ReferenceIdeal.ReadP.val_main_v122 (F := F) x0 x1)
    (h_main_v135 : V (Proc.devRef .tc main_v135) = Cert.ReferenceIdeal.ReadP.val_main_v135 (F := F) x0 x1)
    (h_main_v148 : V (Proc.devRef .tc main_v148) = Cert.ReferenceIdeal.ReadP.val_main_v148 (F := F) x0 x1)
    (h_main_v161 : V (Proc.devRef .tc main_v161) = Cert.ReferenceIdeal.ReadP.val_main_v161 (F := F) x0 x1)
    (h_main_v174 : V (Proc.devRef .tc main_v174) = Cert.ReferenceIdeal.ReadP.val_main_v174 (F := F) x0 x1) :
    after (ops4 (F := F)) V (Proc.devRef .tc main_v227) = Cert.ReferenceIdeal.ReadP.val_main_v227 (F := F) x0 := by
  simp only [ops4]
  after_results_simp
  all_goals first
    | (simp only [h_main_arg0, h_main_arg2, h_main_arg3, h_main_v42, h_main_v48, h_main_v54, h_main_v83, h_main_v96, h_main_v109, h_main_v122, h_main_v135, h_main_v148, h_main_v161, h_main_v174]; done)
    | (simp only [h_main_arg0, h_main_arg2, h_main_arg3, h_main_v42, h_main_v48, h_main_v54, h_main_v83, h_main_v96, h_main_v109, h_main_v122, h_main_v135, h_main_v148, h_main_v161, h_main_v174]; rfl)
    | rfl

theorem win4_main_v228 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v42 : V (Proc.devRef .tc main_v42) = Cert.ReferenceIdeal.ReadP.val_main_v42 (F := F) x0)
    (h_main_v48 : V (Proc.devRef .tc main_v48) = Cert.ReferenceIdeal.ReadP.val_main_v48 (F := F) x0)
    (h_main_v54 : V (Proc.devRef .tc main_v54) = Cert.ReferenceIdeal.ReadP.val_main_v54 (F := F) x0)
    (h_main_v83 : V (Proc.devRef .tc main_v83) = Cert.ReferenceIdeal.ReadP.val_main_v83 (F := F) x0 x1)
    (h_main_v96 : V (Proc.devRef .tc main_v96) = Cert.ReferenceIdeal.ReadP.val_main_v96 (F := F) x0 x1)
    (h_main_v109 : V (Proc.devRef .tc main_v109) = Cert.ReferenceIdeal.ReadP.val_main_v109 (F := F) x0 x1)
    (h_main_v122 : V (Proc.devRef .tc main_v122) = Cert.ReferenceIdeal.ReadP.val_main_v122 (F := F) x0 x1)
    (h_main_v135 : V (Proc.devRef .tc main_v135) = Cert.ReferenceIdeal.ReadP.val_main_v135 (F := F) x0 x1)
    (h_main_v148 : V (Proc.devRef .tc main_v148) = Cert.ReferenceIdeal.ReadP.val_main_v148 (F := F) x0 x1)
    (h_main_v161 : V (Proc.devRef .tc main_v161) = Cert.ReferenceIdeal.ReadP.val_main_v161 (F := F) x0 x1)
    (h_main_v174 : V (Proc.devRef .tc main_v174) = Cert.ReferenceIdeal.ReadP.val_main_v174 (F := F) x0 x1) :
    after (ops4 (F := F)) V (Proc.devRef .tc main_v228) = Cert.ReferenceIdeal.ReadP.val_main_v228 (F := F) x0 := by
  simp only [ops4]
  after_results_simp
  all_goals first
    | (simp only [h_main_arg0, h_main_arg2, h_main_arg3, h_main_v42, h_main_v48, h_main_v54, h_main_v83, h_main_v96, h_main_v109, h_main_v122, h_main_v135, h_main_v148, h_main_v161, h_main_v174]; done)
    | (simp only [h_main_arg0, h_main_arg2, h_main_arg3, h_main_v42, h_main_v48, h_main_v54, h_main_v83, h_main_v96, h_main_v109, h_main_v122, h_main_v135, h_main_v148, h_main_v161, h_main_v174]; rfl)
    | rfl

end Cert.ReferenceIdeal.RunH

end
-- ==== Proof.RefWin5.lean ====
/-
  Window 5 of the reference's @main, read on its own: from any buffer contents `V` in which every buffer that
  window 5 or a later window reads from before it holds its stage function of the four argument arrays, the
  contents after the window's operations hold the stage functions again, for every buffer a later window reads.
-/
import proofs.«113233_j37486474559588_2_alg».proof.Proof.RefOps
import proofs.«113233_j37486474559588_2_alg».proof.Proof.RefReadP

set_option maxRecDepth 65536
set_option maxHeartbeats 40000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

theorem win5_main_arg0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v210 : V (Proc.devRef .tc main_v210) = Cert.ReferenceIdeal.ReadP.val_main_v210 (F := F) x0 x1)
    (h_main_v219 : V (Proc.devRef .tc main_v219) = Cert.ReferenceIdeal.ReadP.val_main_v219 (F := F) x0)
    (h_main_v227 : V (Proc.devRef .tc main_v227) = Cert.ReferenceIdeal.ReadP.val_main_v227 (F := F) x0)
    (h_main_v228 : V (Proc.devRef .tc main_v228) = Cert.ReferenceIdeal.ReadP.val_main_v228 (F := F) x0) :
    after (ops5 (F := F)) V (Proc.devRef .tc main_arg0) = x0 := by
  simp only [ops5]
  after_results_simp
  all_goals first
    | (simp only [h_main_arg0, h_main_arg2, h_main_arg3, h_main_v210, h_main_v219, h_main_v227, h_main_v228]; done)
    | (simp only [h_main_arg0, h_main_arg2, h_main_arg3, h_main_v210, h_main_v219, h_main_v227, h_main_v228]; rfl)
    | rfl

theorem win5_main_arg2 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v210 : V (Proc.devRef .tc main_v210) = Cert.ReferenceIdeal.ReadP.val_main_v210 (F := F) x0 x1)
    (h_main_v219 : V (Proc.devRef .tc main_v219) = Cert.ReferenceIdeal.ReadP.val_main_v219 (F := F) x0)
    (h_main_v227 : V (Proc.devRef .tc main_v227) = Cert.ReferenceIdeal.ReadP.val_main_v227 (F := F) x0)
    (h_main_v228 : V (Proc.devRef .tc main_v228) = Cert.ReferenceIdeal.ReadP.val_main_v228 (F := F) x0) :
    after (ops5 (F := F)) V (Proc.devRef .tc main_arg2) = x2 := by
  simp only [ops5]
  after_results_simp
  all_goals first
    | (simp only [h_main_arg0, h_main_arg2, h_main_arg3, h_main_v210, h_main_v219, h_main_v227, h_main_v228]; done)
    | (simp only [h_main_arg0, h_main_arg2, h_main_arg3, h_main_v210, h_main_v219, h_main_v227, h_main_v228]; rfl)
    | rfl

theorem win5_main_arg3 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v210 : V (Proc.devRef .tc main_v210) = Cert.ReferenceIdeal.ReadP.val_main_v210 (F := F) x0 x1)
    (h_main_v219 : V (Proc.devRef .tc main_v219) = Cert.ReferenceIdeal.ReadP.val_main_v219 (F := F) x0)
    (h_main_v227 : V (Proc.devRef .tc main_v227) = Cert.ReferenceIdeal.ReadP.val_main_v227 (F := F) x0)
    (h_main_v228 : V (Proc.devRef .tc main_v228) = Cert.ReferenceIdeal.ReadP.val_main_v228 (F := F) x0) :
    after (ops5 (F := F)) V (Proc.devRef .tc main_arg3) = x3 := by
  simp only [ops5]
  after_results_simp
  all_goals first
    | (simp only [h_main_arg0, h_main_arg2, h_main_arg3, h_main_v210, h_main_v219, h_main_v227, h_main_v228]; done)
    | (simp only [h_main_arg0, h_main_arg2, h_main_arg3, h_main_v210, h_main_v219, h_main_v227, h_main_v228]; rfl)
    | rfl

theorem win5_main_v210 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v210 : V (Proc.devRef .tc main_v210) = Cert.ReferenceIdeal.ReadP.val_main_v210 (F := F) x0 x1)
    (h_main_v219 : V (Proc.devRef .tc main_v219) = Cert.ReferenceIdeal.ReadP.val_main_v219 (F := F) x0)
    (h_main_v227 : V (Proc.devRef .tc main_v227) = Cert.ReferenceIdeal.ReadP.val_main_v227 (F := F) x0)
    (h_main_v228 : V (Proc.devRef .tc main_v228) = Cert.ReferenceIdeal.ReadP.val_main_v228 (F := F) x0) :
    after (ops5 (F := F)) V (Proc.devRef .tc main_v210) = Cert.ReferenceIdeal.ReadP.val_main_v210 (F := F) x0 x1 := by
  simp only [ops5]
  after_results_simp
  all_goals first
    | (simp only [h_main_arg0, h_main_arg2, h_main_arg3, h_main_v210, h_main_v219, h_main_v227, h_main_v228]; done)
    | (simp only [h_main_arg0, h_main_arg2, h_main_arg3, h_main_v210, h_main_v219, h_main_v227, h_main_v228]; rfl)
    | rfl

theorem win5_main_v241 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v210 : V (Proc.devRef .tc main_v210) = Cert.ReferenceIdeal.ReadP.val_main_v210 (F := F) x0 x1)
    (h_main_v219 : V (Proc.devRef .tc main_v219) = Cert.ReferenceIdeal.ReadP.val_main_v219 (F := F) x0)
    (h_main_v227 : V (Proc.devRef .tc main_v227) = Cert.ReferenceIdeal.ReadP.val_main_v227 (F := F) x0)
    (h_main_v228 : V (Proc.devRef .tc main_v228) = Cert.ReferenceIdeal.ReadP.val_main_v228 (F := F) x0) :
    after (ops5 (F := F)) V (Proc.devRef .tc main_v241) = Cert.ReferenceIdeal.ReadP.val_main_v241 (F := F) x0 := by
  simp only [ops5]
  after_results_simp
  all_goals first
    | (simp only [h_main_arg0, h_main_arg2, h_main_arg3, h_main_v210, h_main_v219, h_main_v227, h_main_v228]; done)
    | (simp only [h_main_arg0, h_main_arg2, h_main_arg3, h_main_v210, h_main_v219, h_main_v227, h_main_v228]; rfl)
    | rfl

theorem win5_main_v253 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v210 : V (Proc.devRef .tc main_v210) = Cert.ReferenceIdeal.ReadP.val_main_v210 (F := F) x0 x1)
    (h_main_v219 : V (Proc.devRef .tc main_v219) = Cert.ReferenceIdeal.ReadP.val_main_v219 (F := F) x0)
    (h_main_v227 : V (Proc.devRef .tc main_v227) = Cert.ReferenceIdeal.ReadP.val_main_v227 (F := F) x0)
    (h_main_v228 : V (Proc.devRef .tc main_v228) = Cert.ReferenceIdeal.ReadP.val_main_v228 (F := F) x0) :
    after (ops5 (F := F)) V (Proc.devRef .tc main_v253) = Cert.ReferenceIdeal.ReadP.val_main_v253 (F := F) x0 := by
  simp only [ops5]
  after_results_simp
  all_goals first
    | (simp only [h_main_arg0, h_main_arg2, h_main_arg3, h_main_v210, h_main_v219, h_main_v227, h_main_v228]; done)
    | (simp only [h_main_arg0, h_main_arg2, h_main_arg3, h_main_v210, h_main_v219, h_main_v227, h_main_v228]; rfl)
    | rfl

theorem win5_main_v259 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v210 : V (Proc.devRef .tc main_v210) = Cert.ReferenceIdeal.ReadP.val_main_v210 (F := F) x0 x1)
    (h_main_v219 : V (Proc.devRef .tc main_v219) = Cert.ReferenceIdeal.ReadP.val_main_v219 (F := F) x0)
    (h_main_v227 : V (Proc.devRef .tc main_v227) = Cert.ReferenceIdeal.ReadP.val_main_v227 (F := F) x0)
    (h_main_v228 : V (Proc.devRef .tc main_v228) = Cert.ReferenceIdeal.ReadP.val_main_v228 (F := F) x0) :
    after (ops5 (F := F)) V (Proc.devRef .tc main_v259) = Cert.ReferenceIdeal.ReadP.val_main_v259 (F := F) x0 := by
  simp only [ops5]
  after_results_simp
  all_goals first
    | (simp only [h_main_arg0, h_main_arg2, h_main_arg3, h_main_v210, h_main_v219, h_main_v227, h_main_v228]; done)
    | (simp only [h_main_arg0, h_main_arg2, h_main_arg3, h_main_v210, h_main_v219, h_main_v227, h_main_v228]; rfl)
    | rfl

theorem win5_main_v265 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v210 : V (Proc.devRef .tc main_v210) = Cert.ReferenceIdeal.ReadP.val_main_v210 (F := F) x0 x1)
    (h_main_v219 : V (Proc.devRef .tc main_v219) = Cert.ReferenceIdeal.ReadP.val_main_v219 (F := F) x0)
    (h_main_v227 : V (Proc.devRef .tc main_v227) = Cert.ReferenceIdeal.ReadP.val_main_v227 (F := F) x0)
    (h_main_v228 : V (Proc.devRef .tc main_v228) = Cert.ReferenceIdeal.ReadP.val_main_v228 (F := F) x0) :
    after (ops5 (F := F)) V (Proc.devRef .tc main_v265) = Cert.ReferenceIdeal.ReadP.val_main_v265 (F := F) x0 := by
  simp only [ops5]
  after_results_simp
  all_goals first
    | (simp only [h_main_arg0, h_main_arg2, h_main_arg3, h_main_v210, h_main_v219, h_main_v227, h_main_v228]; done)
    | (simp only [h_main_arg0, h_main_arg2, h_main_arg3, h_main_v210, h_main_v219, h_main_v227, h_main_v228]; rfl)
    | rfl

theorem win5_main_v266 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v210 : V (Proc.devRef .tc main_v210) = Cert.ReferenceIdeal.ReadP.val_main_v210 (F := F) x0 x1)
    (h_main_v219 : V (Proc.devRef .tc main_v219) = Cert.ReferenceIdeal.ReadP.val_main_v219 (F := F) x0)
    (h_main_v227 : V (Proc.devRef .tc main_v227) = Cert.ReferenceIdeal.ReadP.val_main_v227 (F := F) x0)
    (h_main_v228 : V (Proc.devRef .tc main_v228) = Cert.ReferenceIdeal.ReadP.val_main_v228 (F := F) x0) :
    after (ops5 (F := F)) V (Proc.devRef .tc main_v266) = Cert.ReferenceIdeal.ReadP.val_main_v266 (F := F) x0 := by
  simp only [ops5]
  after_results_simp
  all_goals first
    | (simp only [h_main_arg0, h_main_arg2, h_main_arg3, h_main_v210, h_main_v219, h_main_v227, h_main_v228]; done)
    | (simp only [h_main_arg0, h_main_arg2, h_main_arg3, h_main_v210, h_main_v219, h_main_v227, h_main_v228]; rfl)
    | rfl

theorem win5_main_v267 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v210 : V (Proc.devRef .tc main_v210) = Cert.ReferenceIdeal.ReadP.val_main_v210 (F := F) x0 x1)
    (h_main_v219 : V (Proc.devRef .tc main_v219) = Cert.ReferenceIdeal.ReadP.val_main_v219 (F := F) x0)
    (h_main_v227 : V (Proc.devRef .tc main_v227) = Cert.ReferenceIdeal.ReadP.val_main_v227 (F := F) x0)
    (h_main_v228 : V (Proc.devRef .tc main_v228) = Cert.ReferenceIdeal.ReadP.val_main_v228 (F := F) x0) :
    after (ops5 (F := F)) V (Proc.devRef .tc main_v267) = Cert.ReferenceIdeal.ReadP.val_main_v267 (F := F) x0 := by
  simp only [ops5]
  after_results_simp
  all_goals first
    | (simp only [h_main_arg0, h_main_arg2, h_main_arg3, h_main_v210, h_main_v219, h_main_v227, h_main_v228]; done)
    | (simp only [h_main_arg0, h_main_arg2, h_main_arg3, h_main_v210, h_main_v219, h_main_v227, h_main_v228]; rfl)
    | rfl

end Cert.ReferenceIdeal.RunH

end
-- ==== Proof.RefWin6.lean ====
/-
  Window 6 of the reference's @main, read on its own: from any buffer contents `V` in which every buffer that
  window 6 or a later window reads from before it holds its stage function of the four argument arrays, the
  contents after the window's operations hold the stage functions again, for every buffer a later window reads.
-/
import proofs.«113233_j37486474559588_2_alg».proof.Proof.RefOps
import proofs.«113233_j37486474559588_2_alg».proof.Proof.RefReadP

set_option maxRecDepth 65536
set_option maxHeartbeats 40000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

theorem win6_main_arg0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v210 : V (Proc.devRef .tc main_v210) = Cert.ReferenceIdeal.ReadP.val_main_v210 (F := F) x0 x1)
    (h_main_v241 : V (Proc.devRef .tc main_v241) = Cert.ReferenceIdeal.ReadP.val_main_v241 (F := F) x0)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v267 : V (Proc.devRef .tc main_v267) = Cert.ReferenceIdeal.ReadP.val_main_v267 (F := F) x0) :
    after (ops6 (F := F)) V (Proc.devRef .tc main_arg0) = x0 := by
  simp only [ops6]
  after_results_simp
  all_goals first
    | (simp only [h_main_arg0, h_main_arg2, h_main_arg3, h_main_v210, h_main_v241, h_main_v253, h_main_v259, h_main_v265, h_main_v266, h_main_v267]; done)
    | (simp only [h_main_arg0, h_main_arg2, h_main_arg3, h_main_v210, h_main_v241, h_main_v253, h_main_v259, h_main_v265, h_main_v266, h_main_v267]; rfl)
    | rfl

theorem win6_main_arg3 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v210 : V (Proc.devRef .tc main_v210) = Cert.ReferenceIdeal.ReadP.val_main_v210 (F := F) x0 x1)
    (h_main_v241 : V (Proc.devRef .tc main_v241) = Cert.ReferenceIdeal.ReadP.val_main_v241 (F := F) x0)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v267 : V (Proc.devRef .tc main_v267) = Cert.ReferenceIdeal.ReadP.val_main_v267 (F := F) x0) :
    after (ops6 (F := F)) V (Proc.devRef .tc main_arg3) = x3 := by
  simp only [ops6]
  after_results_simp
  all_goals first
    | (simp only [h_main_arg0, h_main_arg2, h_main_arg3, h_main_v210, h_main_v241, h_main_v253, h_main_v259, h_main_v265, h_main_v266, h_main_v267]; done)
    | (simp only [h_main_arg0, h_main_arg2, h_main_arg3, h_main_v210, h_main_v241, h_main_v253, h_main_v259, h_main_v265, h_main_v266, h_main_v267]; rfl)
    | rfl

theorem win6_main_v210 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v210 : V (Proc.devRef .tc main_v210) = Cert.ReferenceIdeal.ReadP.val_main_v210 (F := F) x0 x1)
    (h_main_v241 : V (Proc.devRef .tc main_v241) = Cert.ReferenceIdeal.ReadP.val_main_v241 (F := F) x0)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v267 : V (Proc.devRef .tc main_v267) = Cert.ReferenceIdeal.ReadP.val_main_v267 (F := F) x0) :
    after (ops6 (F := F)) V (Proc.devRef .tc main_v210) = Cert.ReferenceIdeal.ReadP.val_main_v210 (F := F) x0 x1 := by
  simp only [ops6]
  after_results_simp
  all_goals first
    | (simp only [h_main_arg0, h_main_arg2, h_main_arg3, h_main_v210, h_main_v241, h_main_v253, h_main_v259, h_main_v265, h_main_v266, h_main_v267]; done)
    | (simp only [h_main_arg0, h_main_arg2, h_main_arg3, h_main_v210, h_main_v241, h_main_v253, h_main_v259, h_main_v265, h_main_v266, h_main_v267]; rfl)
    | rfl

theorem win6_main_v253 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v210 : V (Proc.devRef .tc main_v210) = Cert.ReferenceIdeal.ReadP.val_main_v210 (F := F) x0 x1)
    (h_main_v241 : V (Proc.devRef .tc main_v241) = Cert.ReferenceIdeal.ReadP.val_main_v241 (F := F) x0)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v267 : V (Proc.devRef .tc main_v267) = Cert.ReferenceIdeal.ReadP.val_main_v267 (F := F) x0) :
    after (ops6 (F := F)) V (Proc.devRef .tc main_v253) = Cert.ReferenceIdeal.ReadP.val_main_v253 (F := F) x0 := by
  simp only [ops6]
  after_results_simp
  all_goals first
    | (simp only [h_main_arg0, h_main_arg2, h_main_arg3, h_main_v210, h_main_v241, h_main_v253, h_main_v259, h_main_v265, h_main_v266, h_main_v267]; done)
    | (simp only [h_main_arg0, h_main_arg2, h_main_arg3, h_main_v210, h_main_v241, h_main_v253, h_main_v259, h_main_v265, h_main_v266, h_main_v267]; rfl)
    | rfl

theorem win6_main_v259 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v210 : V (Proc.devRef .tc main_v210) = Cert.ReferenceIdeal.ReadP.val_main_v210 (F := F) x0 x1)
    (h_main_v241 : V (Proc.devRef .tc main_v241) = Cert.ReferenceIdeal.ReadP.val_main_v241 (F := F) x0)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v267 : V (Proc.devRef .tc main_v267) = Cert.ReferenceIdeal.ReadP.val_main_v267 (F := F) x0) :
    after (ops6 (F := F)) V (Proc.devRef .tc main_v259) = Cert.ReferenceIdeal.ReadP.val_main_v259 (F := F) x0 := by
  simp only [ops6]
  after_results_simp
  all_goals first
    | (simp only [h_main_arg0, h_main_arg2, h_main_arg3, h_main_v210, h_main_v241, h_main_v253, h_main_v259, h_main_v265, h_main_v266, h_main_v267]; done)
    | (simp only [h_main_arg0, h_main_arg2, h_main_arg3, h_main_v210, h_main_v241, h_main_v253, h_main_v259, h_main_v265, h_main_v266, h_main_v267]; rfl)
    | rfl

theorem win6_main_v265 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v210 : V (Proc.devRef .tc main_v210) = Cert.ReferenceIdeal.ReadP.val_main_v210 (F := F) x0 x1)
    (h_main_v241 : V (Proc.devRef .tc main_v241) = Cert.ReferenceIdeal.ReadP.val_main_v241 (F := F) x0)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v267 : V (Proc.devRef .tc main_v267) = Cert.ReferenceIdeal.ReadP.val_main_v267 (F := F) x0) :
    after (ops6 (F := F)) V (Proc.devRef .tc main_v265) = Cert.ReferenceIdeal.ReadP.val_main_v265 (F := F) x0 := by
  simp only [ops6]
  after_results_simp
  all_goals first
    | (simp only [h_main_arg0, h_main_arg2, h_main_arg3, h_main_v210, h_main_v241, h_main_v253, h_main_v259, h_main_v265, h_main_v266, h_main_v267]; done)
    | (simp only [h_main_arg0, h_main_arg2, h_main_arg3, h_main_v210, h_main_v241, h_main_v253, h_main_v259, h_main_v265, h_main_v266, h_main_v267]; rfl)
    | rfl

theorem win6_main_v266 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v210 : V (Proc.devRef .tc main_v210) = Cert.ReferenceIdeal.ReadP.val_main_v210 (F := F) x0 x1)
    (h_main_v241 : V (Proc.devRef .tc main_v241) = Cert.ReferenceIdeal.ReadP.val_main_v241 (F := F) x0)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v267 : V (Proc.devRef .tc main_v267) = Cert.ReferenceIdeal.ReadP.val_main_v267 (F := F) x0) :
    after (ops6 (F := F)) V (Proc.devRef .tc main_v266) = Cert.ReferenceIdeal.ReadP.val_main_v266 (F := F) x0 := by
  simp only [ops6]
  after_results_simp
  all_goals first
    | (simp only [h_main_arg0, h_main_arg2, h_main_arg3, h_main_v210, h_main_v241, h_main_v253, h_main_v259, h_main_v265, h_main_v266, h_main_v267]; done)
    | (simp only [h_main_arg0, h_main_arg2, h_main_arg3, h_main_v210, h_main_v241, h_main_v253, h_main_v259, h_main_v265, h_main_v266, h_main_v267]; rfl)
    | rfl

theorem win6_main_v267 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v210 : V (Proc.devRef .tc main_v210) = Cert.ReferenceIdeal.ReadP.val_main_v210 (F := F) x0 x1)
    (h_main_v241 : V (Proc.devRef .tc main_v241) = Cert.ReferenceIdeal.ReadP.val_main_v241 (F := F) x0)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v267 : V (Proc.devRef .tc main_v267) = Cert.ReferenceIdeal.ReadP.val_main_v267 (F := F) x0) :
    after (ops6 (F := F)) V (Proc.devRef .tc main_v267) = Cert.ReferenceIdeal.ReadP.val_main_v267 (F := F) x0 := by
  simp only [ops6]
  after_results_simp
  all_goals first
    | (simp only [h_main_arg0, h_main_arg2, h_main_arg3, h_main_v210, h_main_v241, h_main_v253, h_main_v259, h_main_v265, h_main_v266, h_main_v267]; done)
    | (simp only [h_main_arg0, h_main_arg2, h_main_arg3, h_main_v210, h_main_v241, h_main_v253, h_main_v259, h_main_v265, h_main_v266, h_main_v267]; rfl)
    | rfl

theorem win6_main_v268 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v210 : V (Proc.devRef .tc main_v210) = Cert.ReferenceIdeal.ReadP.val_main_v210 (F := F) x0 x1)
    (h_main_v241 : V (Proc.devRef .tc main_v241) = Cert.ReferenceIdeal.ReadP.val_main_v241 (F := F) x0)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v267 : V (Proc.devRef .tc main_v267) = Cert.ReferenceIdeal.ReadP.val_main_v267 (F := F) x0) :
    after (ops6 (F := F)) V (Proc.devRef .tc main_v268) = Cert.ReferenceIdeal.ReadP.val_main_v268 (F := F) x0 := by
  simp only [ops6]
  after_results_simp
  all_goals first
    | (simp only [h_main_arg0, h_main_arg2, h_main_arg3, h_main_v210, h_main_v241, h_main_v253, h_main_v259, h_main_v265, h_main_v266, h_main_v267]; done)
    | (simp only [h_main_arg0, h_main_arg2, h_main_arg3, h_main_v210, h_main_v241, h_main_v253, h_main_v259, h_main_v265, h_main_v266, h_main_v267]; rfl)
    | rfl

theorem win6_main_v272 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v210 : V (Proc.devRef .tc main_v210) = Cert.ReferenceIdeal.ReadP.val_main_v210 (F := F) x0 x1)
    (h_main_v241 : V (Proc.devRef .tc main_v241) = Cert.ReferenceIdeal.ReadP.val_main_v241 (F := F) x0)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v267 : V (Proc.devRef .tc main_v267) = Cert.ReferenceIdeal.ReadP.val_main_v267 (F := F) x0) :
    after (ops6 (F := F)) V (Proc.devRef .tc main_v272) = Cert.ReferenceIdeal.ReadP.val_main_v272 (F := F) x0 := by
  simp only [ops6]
  after_results_simp
  all_goals first
    | (simp only [h_main_arg0, h_main_arg2, h_main_arg3, h_main_v210, h_main_v241, h_main_v253, h_main_v259, h_main_v265, h_main_v266, h_main_v267]; done)
    | (simp only [h_main_arg0, h_main_arg2, h_main_arg3, h_main_v210, h_main_v241, h_main_v253, h_main_v259, h_main_v265, h_main_v266, h_main_v267]; rfl)
    | rfl

theorem win6_main_v276 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v210 : V (Proc.devRef .tc main_v210) = Cert.ReferenceIdeal.ReadP.val_main_v210 (F := F) x0 x1)
    (h_main_v241 : V (Proc.devRef .tc main_v241) = Cert.ReferenceIdeal.ReadP.val_main_v241 (F := F) x0)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v267 : V (Proc.devRef .tc main_v267) = Cert.ReferenceIdeal.ReadP.val_main_v267 (F := F) x0) :
    after (ops6 (F := F)) V (Proc.devRef .tc main_v276) = Cert.ReferenceIdeal.ReadP.val_main_v276 (F := F) x0 := by
  simp only [ops6]
  after_results_simp
  all_goals first
    | (simp only [h_main_arg0, h_main_arg2, h_main_arg3, h_main_v210, h_main_v241, h_main_v253, h_main_v259, h_main_v265, h_main_v266, h_main_v267]; done)
    | (simp only [h_main_arg0, h_main_arg2, h_main_arg3, h_main_v210, h_main_v241, h_main_v253, h_main_v259, h_main_v265, h_main_v266, h_main_v267]; rfl)
    | rfl

theorem win6_main_v280 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v210 : V (Proc.devRef .tc main_v210) = Cert.ReferenceIdeal.ReadP.val_main_v210 (F := F) x0 x1)
    (h_main_v241 : V (Proc.devRef .tc main_v241) = Cert.ReferenceIdeal.ReadP.val_main_v241 (F := F) x0)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v267 : V (Proc.devRef .tc main_v267) = Cert.ReferenceIdeal.ReadP.val_main_v267 (F := F) x0) :
    after (ops6 (F := F)) V (Proc.devRef .tc main_v280) = Cert.ReferenceIdeal.ReadP.val_main_v280 (F := F) x0 := by
  simp only [ops6]
  after_results_simp
  all_goals first
    | (simp only [h_main_arg0, h_main_arg2, h_main_arg3, h_main_v210, h_main_v241, h_main_v253, h_main_v259, h_main_v265, h_main_v266, h_main_v267]; done)
    | (simp only [h_main_arg0, h_main_arg2, h_main_arg3, h_main_v210, h_main_v241, h_main_v253, h_main_v259, h_main_v265, h_main_v266, h_main_v267]; rfl)
    | rfl

theorem win6_main_v281 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v210 : V (Proc.devRef .tc main_v210) = Cert.ReferenceIdeal.ReadP.val_main_v210 (F := F) x0 x1)
    (h_main_v241 : V (Proc.devRef .tc main_v241) = Cert.ReferenceIdeal.ReadP.val_main_v241 (F := F) x0)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v267 : V (Proc.devRef .tc main_v267) = Cert.ReferenceIdeal.ReadP.val_main_v267 (F := F) x0) :
    after (ops6 (F := F)) V (Proc.devRef .tc main_v281) = Cert.ReferenceIdeal.ReadP.val_main_v281 (F := F) x2 := by
  simp only [ops6]
  after_results_simp
  all_goals first
    | (simp only [h_main_arg0, h_main_arg2, h_main_arg3, h_main_v210, h_main_v241, h_main_v253, h_main_v259, h_main_v265, h_main_v266, h_main_v267]; done)
    | (simp only [h_main_arg0, h_main_arg2, h_main_arg3, h_main_v210, h_main_v241, h_main_v253, h_main_v259, h_main_v265, h_main_v266, h_main_v267]; rfl)
    | rfl

theorem win6_main_v294 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v210 : V (Proc.devRef .tc main_v210) = Cert.ReferenceIdeal.ReadP.val_main_v210 (F := F) x0 x1)
    (h_main_v241 : V (Proc.devRef .tc main_v241) = Cert.ReferenceIdeal.ReadP.val_main_v241 (F := F) x0)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v267 : V (Proc.devRef .tc main_v267) = Cert.ReferenceIdeal.ReadP.val_main_v267 (F := F) x0) :
    after (ops6 (F := F)) V (Proc.devRef .tc main_v294) = Cert.ReferenceIdeal.ReadP.val_main_v294 (F := F) x0 x2 := by
  simp only [ops6]
  after_results_simp
  all_goals first
    | (simp only [h_main_arg0, h_main_arg2, h_main_arg3, h_main_v210, h_main_v241, h_main_v253, h_main_v259, h_main_v265, h_main_v266, h_main_v267]; done)
    | (simp only [h_main_arg0, h_main_arg2, h_main_arg3, h_main_v210, h_main_v241, h_main_v253, h_main_v259, h_main_v265, h_main_v266, h_main_v267]; rfl)
    | rfl

theorem win6_main_v307 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v210 : V (Proc.devRef .tc main_v210) = Cert.ReferenceIdeal.ReadP.val_main_v210 (F := F) x0 x1)
    (h_main_v241 : V (Proc.devRef .tc main_v241) = Cert.ReferenceIdeal.ReadP.val_main_v241 (F := F) x0)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v267 : V (Proc.devRef .tc main_v267) = Cert.ReferenceIdeal.ReadP.val_main_v267 (F := F) x0) :
    after (ops6 (F := F)) V (Proc.devRef .tc main_v307) = Cert.ReferenceIdeal.ReadP.val_main_v307 (F := F) x0 x2 := by
  simp only [ops6]
  after_results_simp
  all_goals first
    | (simp only [h_main_arg0, h_main_arg2, h_main_arg3, h_main_v210, h_main_v241, h_main_v253, h_main_v259, h_main_v265, h_main_v266, h_main_v267]; done)
    | (simp only [h_main_arg0, h_main_arg2, h_main_arg3, h_main_v210, h_main_v241, h_main_v253, h_main_v259, h_main_v265, h_main_v266, h_main_v267]; rfl)
    | rfl

theorem win6_main_v310 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v210 : V (Proc.devRef .tc main_v210) = Cert.ReferenceIdeal.ReadP.val_main_v210 (F := F) x0 x1)
    (h_main_v241 : V (Proc.devRef .tc main_v241) = Cert.ReferenceIdeal.ReadP.val_main_v241 (F := F) x0)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v267 : V (Proc.devRef .tc main_v267) = Cert.ReferenceIdeal.ReadP.val_main_v267 (F := F) x0) :
    after (ops6 (F := F)) V (Proc.devRef .tc main_v310) = Cert.ReferenceIdeal.ReadP.val_main_v310 (F := F) x0 := by
  simp only [ops6]
  after_results_simp
  all_goals first
    | (simp only [h_main_arg0, h_main_arg2, h_main_arg3, h_main_v210, h_main_v241, h_main_v253, h_main_v259, h_main_v265, h_main_v266, h_main_v267]; done)
    | (simp only [h_main_arg0, h_main_arg2, h_main_arg3, h_main_v210, h_main_v241, h_main_v253, h_main_v259, h_main_v265, h_main_v266, h_main_v267]; rfl)
    | rfl

theorem win6_main_v311 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg2 : V (Proc.devRef .tc main_arg2) = x2)
    (h_main_arg3 : V (Proc.devRef .tc main_arg3) = x3)
    (h_main_v210 : V (Proc.devRef .tc main_v210) = Cert.ReferenceIdeal.ReadP.val_main_v210 (F := F) x0 x1)
    (h_main_v241 : V (Proc.devRef .tc main_v241) = Cert.ReferenceIdeal.ReadP.val_main_v241 (F := F) x0)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v267 : V (Proc.devRef .tc main_v267) = Cert.ReferenceIdeal.ReadP.val_main_v267 (F := F) x0) :
    after (ops6 (F := F)) V (Proc.devRef .tc main_v311) = Cert.ReferenceIdeal.ReadP.val_main_v311 (F := F) := by
  simp only [ops6]
  after_results_simp
  all_goals first
    | (simp only [h_main_arg0, h_main_arg2, h_main_arg3, h_main_v210, h_main_v241, h_main_v253, h_main_v259, h_main_v265, h_main_v266, h_main_v267]; done)
    | (simp only [h_main_arg0, h_main_arg2, h_main_arg3, h_main_v210, h_main_v241, h_main_v253, h_main_v259, h_main_v265, h_main_v266, h_main_v267]; rfl)
    | rfl

end Cert.ReferenceIdeal.RunH

end
-- ==== Proof.RefWin7.lean ====
/-
  Window 7 of the reference's @main, read on its own: from any buffer contents `V` in which every buffer that
  window 7 or a later window reads from before it holds its stage function of the four argument arrays, the
  contents after the window's operations hold the stage functions again, for every buffer a later window reads.
-/
import proofs.«113233_j37486474559588_2_alg».proof.Proof.RefOps
import proofs.«113233_j37486474559588_2_alg».proof.Proof.RefReadP

set_option maxRecDepth 65536
set_option maxHeartbeats 40000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

theorem win7_main_arg0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg3 : V (Proc.devRef .tc main_arg3) = x3)
    (h_main_v210 : V (Proc.devRef .tc main_v210) = Cert.ReferenceIdeal.ReadP.val_main_v210 (F := F) x0 x1)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v267 : V (Proc.devRef .tc main_v267) = Cert.ReferenceIdeal.ReadP.val_main_v267 (F := F) x0)
    (h_main_v268 : V (Proc.devRef .tc main_v268) = Cert.ReferenceIdeal.ReadP.val_main_v268 (F := F) x0)
    (h_main_v272 : V (Proc.devRef .tc main_v272) = Cert.ReferenceIdeal.ReadP.val_main_v272 (F := F) x0)
    (h_main_v276 : V (Proc.devRef .tc main_v276) = Cert.ReferenceIdeal.ReadP.val_main_v276 (F := F) x0)
    (h_main_v280 : V (Proc.devRef .tc main_v280) = Cert.ReferenceIdeal.ReadP.val_main_v280 (F := F) x0)
    (h_main_v281 : V (Proc.devRef .tc main_v281) = Cert.ReferenceIdeal.ReadP.val_main_v281 (F := F) x2)
    (h_main_v294 : V (Proc.devRef .tc main_v294) = Cert.ReferenceIdeal.ReadP.val_main_v294 (F := F) x0 x2)
    (h_main_v307 : V (Proc.devRef .tc main_v307) = Cert.ReferenceIdeal.ReadP.val_main_v307 (F := F) x0 x2)
    (h_main_v310 : V (Proc.devRef .tc main_v310) = Cert.ReferenceIdeal.ReadP.val_main_v310 (F := F) x0)
    (h_main_v311 : V (Proc.devRef .tc main_v311) = Cert.ReferenceIdeal.ReadP.val_main_v311 (F := F)) :
    after (ops7 (F := F)) V (Proc.devRef .tc main_arg0) = x0 := by
  simp only [ops7]
  after_results_simp
  all_goals first
    | (simp only [h_main_arg0, h_main_arg3, h_main_v210, h_main_v253, h_main_v259, h_main_v265, h_main_v266, h_main_v267, h_main_v268, h_main_v272, h_main_v276, h_main_v280, h_main_v281, h_main_v294, h_main_v307, h_main_v310, h_main_v311]; done)
    | (simp only [h_main_arg0, h_main_arg3, h_main_v210, h_main_v253, h_main_v259, h_main_v265, h_main_v266, h_main_v267, h_main_v268, h_main_v272, h_main_v276, h_main_v280, h_main_v281, h_main_v294, h_main_v307, h_main_v310, h_main_v311]; rfl)
    | rfl

theorem win7_main_arg3 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg3 : V (Proc.devRef .tc main_arg3) = x3)
    (h_main_v210 : V (Proc.devRef .tc main_v210) = Cert.ReferenceIdeal.ReadP.val_main_v210 (F := F) x0 x1)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v267 : V (Proc.devRef .tc main_v267) = Cert.ReferenceIdeal.ReadP.val_main_v267 (F := F) x0)
    (h_main_v268 : V (Proc.devRef .tc main_v268) = Cert.ReferenceIdeal.ReadP.val_main_v268 (F := F) x0)
    (h_main_v272 : V (Proc.devRef .tc main_v272) = Cert.ReferenceIdeal.ReadP.val_main_v272 (F := F) x0)
    (h_main_v276 : V (Proc.devRef .tc main_v276) = Cert.ReferenceIdeal.ReadP.val_main_v276 (F := F) x0)
    (h_main_v280 : V (Proc.devRef .tc main_v280) = Cert.ReferenceIdeal.ReadP.val_main_v280 (F := F) x0)
    (h_main_v281 : V (Proc.devRef .tc main_v281) = Cert.ReferenceIdeal.ReadP.val_main_v281 (F := F) x2)
    (h_main_v294 : V (Proc.devRef .tc main_v294) = Cert.ReferenceIdeal.ReadP.val_main_v294 (F := F) x0 x2)
    (h_main_v307 : V (Proc.devRef .tc main_v307) = Cert.ReferenceIdeal.ReadP.val_main_v307 (F := F) x0 x2)
    (h_main_v310 : V (Proc.devRef .tc main_v310) = Cert.ReferenceIdeal.ReadP.val_main_v310 (F := F) x0)
    (h_main_v311 : V (Proc.devRef .tc main_v311) = Cert.ReferenceIdeal.ReadP.val_main_v311 (F := F)) :
    after (ops7 (F := F)) V (Proc.devRef .tc main_arg3) = x3 := by
  simp only [ops7]
  after_results_simp
  all_goals first
    | (simp only [h_main_arg0, h_main_arg3, h_main_v210, h_main_v253, h_main_v259, h_main_v265, h_main_v266, h_main_v267, h_main_v268, h_main_v272, h_main_v276, h_main_v280, h_main_v281, h_main_v294, h_main_v307, h_main_v310, h_main_v311]; done)
    | (simp only [h_main_arg0, h_main_arg3, h_main_v210, h_main_v253, h_main_v259, h_main_v265, h_main_v266, h_main_v267, h_main_v268, h_main_v272, h_main_v276, h_main_v280, h_main_v281, h_main_v294, h_main_v307, h_main_v310, h_main_v311]; rfl)
    | rfl

theorem win7_main_v210 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg3 : V (Proc.devRef .tc main_arg3) = x3)
    (h_main_v210 : V (Proc.devRef .tc main_v210) = Cert.ReferenceIdeal.ReadP.val_main_v210 (F := F) x0 x1)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v267 : V (Proc.devRef .tc main_v267) = Cert.ReferenceIdeal.ReadP.val_main_v267 (F := F) x0)
    (h_main_v268 : V (Proc.devRef .tc main_v268) = Cert.ReferenceIdeal.ReadP.val_main_v268 (F := F) x0)
    (h_main_v272 : V (Proc.devRef .tc main_v272) = Cert.ReferenceIdeal.ReadP.val_main_v272 (F := F) x0)
    (h_main_v276 : V (Proc.devRef .tc main_v276) = Cert.ReferenceIdeal.ReadP.val_main_v276 (F := F) x0)
    (h_main_v280 : V (Proc.devRef .tc main_v280) = Cert.ReferenceIdeal.ReadP.val_main_v280 (F := F) x0)
    (h_main_v281 : V (Proc.devRef .tc main_v281) = Cert.ReferenceIdeal.ReadP.val_main_v281 (F := F) x2)
    (h_main_v294 : V (Proc.devRef .tc main_v294) = Cert.ReferenceIdeal.ReadP.val_main_v294 (F := F) x0 x2)
    (h_main_v307 : V (Proc.devRef .tc main_v307) = Cert.ReferenceIdeal.ReadP.val_main_v307 (F := F) x0 x2)
    (h_main_v310 : V (Proc.devRef .tc main_v310) = Cert.ReferenceIdeal.ReadP.val_main_v310 (F := F) x0)
    (h_main_v311 : V (Proc.devRef .tc main_v311) = Cert.ReferenceIdeal.ReadP.val_main_v311 (F := F)) :
    after (ops7 (F := F)) V (Proc.devRef .tc main_v210) = Cert.ReferenceIdeal.ReadP.val_main_v210 (F := F) x0 x1 := by
  simp only [ops7]
  after_results_simp
  all_goals first
    | (simp only [h_main_arg0, h_main_arg3, h_main_v210, h_main_v253, h_main_v259, h_main_v265, h_main_v266, h_main_v267, h_main_v268, h_main_v272, h_main_v276, h_main_v280, h_main_v281, h_main_v294, h_main_v307, h_main_v310, h_main_v311]; done)
    | (simp only [h_main_arg0, h_main_arg3, h_main_v210, h_main_v253, h_main_v259, h_main_v265, h_main_v266, h_main_v267, h_main_v268, h_main_v272, h_main_v276, h_main_v280, h_main_v281, h_main_v294, h_main_v307, h_main_v310, h_main_v311]; rfl)
    | rfl

theorem win7_main_v253 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg3 : V (Proc.devRef .tc main_arg3) = x3)
    (h_main_v210 : V (Proc.devRef .tc main_v210) = Cert.ReferenceIdeal.ReadP.val_main_v210 (F := F) x0 x1)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v267 : V (Proc.devRef .tc main_v267) = Cert.ReferenceIdeal.ReadP.val_main_v267 (F := F) x0)
    (h_main_v268 : V (Proc.devRef .tc main_v268) = Cert.ReferenceIdeal.ReadP.val_main_v268 (F := F) x0)
    (h_main_v272 : V (Proc.devRef .tc main_v272) = Cert.ReferenceIdeal.ReadP.val_main_v272 (F := F) x0)
    (h_main_v276 : V (Proc.devRef .tc main_v276) = Cert.ReferenceIdeal.ReadP.val_main_v276 (F := F) x0)
    (h_main_v280 : V (Proc.devRef .tc main_v280) = Cert.ReferenceIdeal.ReadP.val_main_v280 (F := F) x0)
    (h_main_v281 : V (Proc.devRef .tc main_v281) = Cert.ReferenceIdeal.ReadP.val_main_v281 (F := F) x2)
    (h_main_v294 : V (Proc.devRef .tc main_v294) = Cert.ReferenceIdeal.ReadP.val_main_v294 (F := F) x0 x2)
    (h_main_v307 : V (Proc.devRef .tc main_v307) = Cert.ReferenceIdeal.ReadP.val_main_v307 (F := F) x0 x2)
    (h_main_v310 : V (Proc.devRef .tc main_v310) = Cert.ReferenceIdeal.ReadP.val_main_v310 (F := F) x0)
    (h_main_v311 : V (Proc.devRef .tc main_v311) = Cert.ReferenceIdeal.ReadP.val_main_v311 (F := F)) :
    after (ops7 (F := F)) V (Proc.devRef .tc main_v253) = Cert.ReferenceIdeal.ReadP.val_main_v253 (F := F) x0 := by
  simp only [ops7]
  after_results_simp
  all_goals first
    | (simp only [h_main_arg0, h_main_arg3, h_main_v210, h_main_v253, h_main_v259, h_main_v265, h_main_v266, h_main_v267, h_main_v268, h_main_v272, h_main_v276, h_main_v280, h_main_v281, h_main_v294, h_main_v307, h_main_v310, h_main_v311]; done)
    | (simp only [h_main_arg0, h_main_arg3, h_main_v210, h_main_v253, h_main_v259, h_main_v265, h_main_v266, h_main_v267, h_main_v268, h_main_v272, h_main_v276, h_main_v280, h_main_v281, h_main_v294, h_main_v307, h_main_v310, h_main_v311]; rfl)
    | rfl

theorem win7_main_v259 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg3 : V (Proc.devRef .tc main_arg3) = x3)
    (h_main_v210 : V (Proc.devRef .tc main_v210) = Cert.ReferenceIdeal.ReadP.val_main_v210 (F := F) x0 x1)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v267 : V (Proc.devRef .tc main_v267) = Cert.ReferenceIdeal.ReadP.val_main_v267 (F := F) x0)
    (h_main_v268 : V (Proc.devRef .tc main_v268) = Cert.ReferenceIdeal.ReadP.val_main_v268 (F := F) x0)
    (h_main_v272 : V (Proc.devRef .tc main_v272) = Cert.ReferenceIdeal.ReadP.val_main_v272 (F := F) x0)
    (h_main_v276 : V (Proc.devRef .tc main_v276) = Cert.ReferenceIdeal.ReadP.val_main_v276 (F := F) x0)
    (h_main_v280 : V (Proc.devRef .tc main_v280) = Cert.ReferenceIdeal.ReadP.val_main_v280 (F := F) x0)
    (h_main_v281 : V (Proc.devRef .tc main_v281) = Cert.ReferenceIdeal.ReadP.val_main_v281 (F := F) x2)
    (h_main_v294 : V (Proc.devRef .tc main_v294) = Cert.ReferenceIdeal.ReadP.val_main_v294 (F := F) x0 x2)
    (h_main_v307 : V (Proc.devRef .tc main_v307) = Cert.ReferenceIdeal.ReadP.val_main_v307 (F := F) x0 x2)
    (h_main_v310 : V (Proc.devRef .tc main_v310) = Cert.ReferenceIdeal.ReadP.val_main_v310 (F := F) x0)
    (h_main_v311 : V (Proc.devRef .tc main_v311) = Cert.ReferenceIdeal.ReadP.val_main_v311 (F := F)) :
    after (ops7 (F := F)) V (Proc.devRef .tc main_v259) = Cert.ReferenceIdeal.ReadP.val_main_v259 (F := F) x0 := by
  simp only [ops7]
  after_results_simp
  all_goals first
    | (simp only [h_main_arg0, h_main_arg3, h_main_v210, h_main_v253, h_main_v259, h_main_v265, h_main_v266, h_main_v267, h_main_v268, h_main_v272, h_main_v276, h_main_v280, h_main_v281, h_main_v294, h_main_v307, h_main_v310, h_main_v311]; done)
    | (simp only [h_main_arg0, h_main_arg3, h_main_v210, h_main_v253, h_main_v259, h_main_v265, h_main_v266, h_main_v267, h_main_v268, h_main_v272, h_main_v276, h_main_v280, h_main_v281, h_main_v294, h_main_v307, h_main_v310, h_main_v311]; rfl)
    | rfl

theorem win7_main_v265 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg3 : V (Proc.devRef .tc main_arg3) = x3)
    (h_main_v210 : V (Proc.devRef .tc main_v210) = Cert.ReferenceIdeal.ReadP.val_main_v210 (F := F) x0 x1)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v267 : V (Proc.devRef .tc main_v267) = Cert.ReferenceIdeal.ReadP.val_main_v267 (F := F) x0)
    (h_main_v268 : V (Proc.devRef .tc main_v268) = Cert.ReferenceIdeal.ReadP.val_main_v268 (F := F) x0)
    (h_main_v272 : V (Proc.devRef .tc main_v272) = Cert.ReferenceIdeal.ReadP.val_main_v272 (F := F) x0)
    (h_main_v276 : V (Proc.devRef .tc main_v276) = Cert.ReferenceIdeal.ReadP.val_main_v276 (F := F) x0)
    (h_main_v280 : V (Proc.devRef .tc main_v280) = Cert.ReferenceIdeal.ReadP.val_main_v280 (F := F) x0)
    (h_main_v281 : V (Proc.devRef .tc main_v281) = Cert.ReferenceIdeal.ReadP.val_main_v281 (F := F) x2)
    (h_main_v294 : V (Proc.devRef .tc main_v294) = Cert.ReferenceIdeal.ReadP.val_main_v294 (F := F) x0 x2)
    (h_main_v307 : V (Proc.devRef .tc main_v307) = Cert.ReferenceIdeal.ReadP.val_main_v307 (F := F) x0 x2)
    (h_main_v310 : V (Proc.devRef .tc main_v310) = Cert.ReferenceIdeal.ReadP.val_main_v310 (F := F) x0)
    (h_main_v311 : V (Proc.devRef .tc main_v311) = Cert.ReferenceIdeal.ReadP.val_main_v311 (F := F)) :
    after (ops7 (F := F)) V (Proc.devRef .tc main_v265) = Cert.ReferenceIdeal.ReadP.val_main_v265 (F := F) x0 := by
  simp only [ops7]
  after_results_simp
  all_goals first
    | (simp only [h_main_arg0, h_main_arg3, h_main_v210, h_main_v253, h_main_v259, h_main_v265, h_main_v266, h_main_v267, h_main_v268, h_main_v272, h_main_v276, h_main_v280, h_main_v281, h_main_v294, h_main_v307, h_main_v310, h_main_v311]; done)
    | (simp only [h_main_arg0, h_main_arg3, h_main_v210, h_main_v253, h_main_v259, h_main_v265, h_main_v266, h_main_v267, h_main_v268, h_main_v272, h_main_v276, h_main_v280, h_main_v281, h_main_v294, h_main_v307, h_main_v310, h_main_v311]; rfl)
    | rfl

theorem win7_main_v266 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg3 : V (Proc.devRef .tc main_arg3) = x3)
    (h_main_v210 : V (Proc.devRef .tc main_v210) = Cert.ReferenceIdeal.ReadP.val_main_v210 (F := F) x0 x1)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v267 : V (Proc.devRef .tc main_v267) = Cert.ReferenceIdeal.ReadP.val_main_v267 (F := F) x0)
    (h_main_v268 : V (Proc.devRef .tc main_v268) = Cert.ReferenceIdeal.ReadP.val_main_v268 (F := F) x0)
    (h_main_v272 : V (Proc.devRef .tc main_v272) = Cert.ReferenceIdeal.ReadP.val_main_v272 (F := F) x0)
    (h_main_v276 : V (Proc.devRef .tc main_v276) = Cert.ReferenceIdeal.ReadP.val_main_v276 (F := F) x0)
    (h_main_v280 : V (Proc.devRef .tc main_v280) = Cert.ReferenceIdeal.ReadP.val_main_v280 (F := F) x0)
    (h_main_v281 : V (Proc.devRef .tc main_v281) = Cert.ReferenceIdeal.ReadP.val_main_v281 (F := F) x2)
    (h_main_v294 : V (Proc.devRef .tc main_v294) = Cert.ReferenceIdeal.ReadP.val_main_v294 (F := F) x0 x2)
    (h_main_v307 : V (Proc.devRef .tc main_v307) = Cert.ReferenceIdeal.ReadP.val_main_v307 (F := F) x0 x2)
    (h_main_v310 : V (Proc.devRef .tc main_v310) = Cert.ReferenceIdeal.ReadP.val_main_v310 (F := F) x0)
    (h_main_v311 : V (Proc.devRef .tc main_v311) = Cert.ReferenceIdeal.ReadP.val_main_v311 (F := F)) :
    after (ops7 (F := F)) V (Proc.devRef .tc main_v266) = Cert.ReferenceIdeal.ReadP.val_main_v266 (F := F) x0 := by
  simp only [ops7]
  after_results_simp
  all_goals first
    | (simp only [h_main_arg0, h_main_arg3, h_main_v210, h_main_v253, h_main_v259, h_main_v265, h_main_v266, h_main_v267, h_main_v268, h_main_v272, h_main_v276, h_main_v280, h_main_v281, h_main_v294, h_main_v307, h_main_v310, h_main_v311]; done)
    | (simp only [h_main_arg0, h_main_arg3, h_main_v210, h_main_v253, h_main_v259, h_main_v265, h_main_v266, h_main_v267, h_main_v268, h_main_v272, h_main_v276, h_main_v280, h_main_v281, h_main_v294, h_main_v307, h_main_v310, h_main_v311]; rfl)
    | rfl

theorem win7_main_v272 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg3 : V (Proc.devRef .tc main_arg3) = x3)
    (h_main_v210 : V (Proc.devRef .tc main_v210) = Cert.ReferenceIdeal.ReadP.val_main_v210 (F := F) x0 x1)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v267 : V (Proc.devRef .tc main_v267) = Cert.ReferenceIdeal.ReadP.val_main_v267 (F := F) x0)
    (h_main_v268 : V (Proc.devRef .tc main_v268) = Cert.ReferenceIdeal.ReadP.val_main_v268 (F := F) x0)
    (h_main_v272 : V (Proc.devRef .tc main_v272) = Cert.ReferenceIdeal.ReadP.val_main_v272 (F := F) x0)
    (h_main_v276 : V (Proc.devRef .tc main_v276) = Cert.ReferenceIdeal.ReadP.val_main_v276 (F := F) x0)
    (h_main_v280 : V (Proc.devRef .tc main_v280) = Cert.ReferenceIdeal.ReadP.val_main_v280 (F := F) x0)
    (h_main_v281 : V (Proc.devRef .tc main_v281) = Cert.ReferenceIdeal.ReadP.val_main_v281 (F := F) x2)
    (h_main_v294 : V (Proc.devRef .tc main_v294) = Cert.ReferenceIdeal.ReadP.val_main_v294 (F := F) x0 x2)
    (h_main_v307 : V (Proc.devRef .tc main_v307) = Cert.ReferenceIdeal.ReadP.val_main_v307 (F := F) x0 x2)
    (h_main_v310 : V (Proc.devRef .tc main_v310) = Cert.ReferenceIdeal.ReadP.val_main_v310 (F := F) x0)
    (h_main_v311 : V (Proc.devRef .tc main_v311) = Cert.ReferenceIdeal.ReadP.val_main_v311 (F := F)) :
    after (ops7 (F := F)) V (Proc.devRef .tc main_v272) = Cert.ReferenceIdeal.ReadP.val_main_v272 (F := F) x0 := by
  simp only [ops7]
  after_results_simp
  all_goals first
    | (simp only [h_main_arg0, h_main_arg3, h_main_v210, h_main_v253, h_main_v259, h_main_v265, h_main_v266, h_main_v267, h_main_v268, h_main_v272, h_main_v276, h_main_v280, h_main_v281, h_main_v294, h_main_v307, h_main_v310, h_main_v311]; done)
    | (simp only [h_main_arg0, h_main_arg3, h_main_v210, h_main_v253, h_main_v259, h_main_v265, h_main_v266, h_main_v267, h_main_v268, h_main_v272, h_main_v276, h_main_v280, h_main_v281, h_main_v294, h_main_v307, h_main_v310, h_main_v311]; rfl)
    | rfl

theorem win7_main_v276 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg3 : V (Proc.devRef .tc main_arg3) = x3)
    (h_main_v210 : V (Proc.devRef .tc main_v210) = Cert.ReferenceIdeal.ReadP.val_main_v210 (F := F) x0 x1)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v267 : V (Proc.devRef .tc main_v267) = Cert.ReferenceIdeal.ReadP.val_main_v267 (F := F) x0)
    (h_main_v268 : V (Proc.devRef .tc main_v268) = Cert.ReferenceIdeal.ReadP.val_main_v268 (F := F) x0)
    (h_main_v272 : V (Proc.devRef .tc main_v272) = Cert.ReferenceIdeal.ReadP.val_main_v272 (F := F) x0)
    (h_main_v276 : V (Proc.devRef .tc main_v276) = Cert.ReferenceIdeal.ReadP.val_main_v276 (F := F) x0)
    (h_main_v280 : V (Proc.devRef .tc main_v280) = Cert.ReferenceIdeal.ReadP.val_main_v280 (F := F) x0)
    (h_main_v281 : V (Proc.devRef .tc main_v281) = Cert.ReferenceIdeal.ReadP.val_main_v281 (F := F) x2)
    (h_main_v294 : V (Proc.devRef .tc main_v294) = Cert.ReferenceIdeal.ReadP.val_main_v294 (F := F) x0 x2)
    (h_main_v307 : V (Proc.devRef .tc main_v307) = Cert.ReferenceIdeal.ReadP.val_main_v307 (F := F) x0 x2)
    (h_main_v310 : V (Proc.devRef .tc main_v310) = Cert.ReferenceIdeal.ReadP.val_main_v310 (F := F) x0)
    (h_main_v311 : V (Proc.devRef .tc main_v311) = Cert.ReferenceIdeal.ReadP.val_main_v311 (F := F)) :
    after (ops7 (F := F)) V (Proc.devRef .tc main_v276) = Cert.ReferenceIdeal.ReadP.val_main_v276 (F := F) x0 := by
  simp only [ops7]
  after_results_simp
  all_goals first
    | (simp only [h_main_arg0, h_main_arg3, h_main_v210, h_main_v253, h_main_v259, h_main_v265, h_main_v266, h_main_v267, h_main_v268, h_main_v272, h_main_v276, h_main_v280, h_main_v281, h_main_v294, h_main_v307, h_main_v310, h_main_v311]; done)
    | (simp only [h_main_arg0, h_main_arg3, h_main_v210, h_main_v253, h_main_v259, h_main_v265, h_main_v266, h_main_v267, h_main_v268, h_main_v272, h_main_v276, h_main_v280, h_main_v281, h_main_v294, h_main_v307, h_main_v310, h_main_v311]; rfl)
    | rfl

theorem win7_main_v280 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg3 : V (Proc.devRef .tc main_arg3) = x3)
    (h_main_v210 : V (Proc.devRef .tc main_v210) = Cert.ReferenceIdeal.ReadP.val_main_v210 (F := F) x0 x1)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v267 : V (Proc.devRef .tc main_v267) = Cert.ReferenceIdeal.ReadP.val_main_v267 (F := F) x0)
    (h_main_v268 : V (Proc.devRef .tc main_v268) = Cert.ReferenceIdeal.ReadP.val_main_v268 (F := F) x0)
    (h_main_v272 : V (Proc.devRef .tc main_v272) = Cert.ReferenceIdeal.ReadP.val_main_v272 (F := F) x0)
    (h_main_v276 : V (Proc.devRef .tc main_v276) = Cert.ReferenceIdeal.ReadP.val_main_v276 (F := F) x0)
    (h_main_v280 : V (Proc.devRef .tc main_v280) = Cert.ReferenceIdeal.ReadP.val_main_v280 (F := F) x0)
    (h_main_v281 : V (Proc.devRef .tc main_v281) = Cert.ReferenceIdeal.ReadP.val_main_v281 (F := F) x2)
    (h_main_v294 : V (Proc.devRef .tc main_v294) = Cert.ReferenceIdeal.ReadP.val_main_v294 (F := F) x0 x2)
    (h_main_v307 : V (Proc.devRef .tc main_v307) = Cert.ReferenceIdeal.ReadP.val_main_v307 (F := F) x0 x2)
    (h_main_v310 : V (Proc.devRef .tc main_v310) = Cert.ReferenceIdeal.ReadP.val_main_v310 (F := F) x0)
    (h_main_v311 : V (Proc.devRef .tc main_v311) = Cert.ReferenceIdeal.ReadP.val_main_v311 (F := F)) :
    after (ops7 (F := F)) V (Proc.devRef .tc main_v280) = Cert.ReferenceIdeal.ReadP.val_main_v280 (F := F) x0 := by
  simp only [ops7]
  after_results_simp
  all_goals first
    | (simp only [h_main_arg0, h_main_arg3, h_main_v210, h_main_v253, h_main_v259, h_main_v265, h_main_v266, h_main_v267, h_main_v268, h_main_v272, h_main_v276, h_main_v280, h_main_v281, h_main_v294, h_main_v307, h_main_v310, h_main_v311]; done)
    | (simp only [h_main_arg0, h_main_arg3, h_main_v210, h_main_v253, h_main_v259, h_main_v265, h_main_v266, h_main_v267, h_main_v268, h_main_v272, h_main_v276, h_main_v280, h_main_v281, h_main_v294, h_main_v307, h_main_v310, h_main_v311]; rfl)
    | rfl

theorem win7_main_v281 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg3 : V (Proc.devRef .tc main_arg3) = x3)
    (h_main_v210 : V (Proc.devRef .tc main_v210) = Cert.ReferenceIdeal.ReadP.val_main_v210 (F := F) x0 x1)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v267 : V (Proc.devRef .tc main_v267) = Cert.ReferenceIdeal.ReadP.val_main_v267 (F := F) x0)
    (h_main_v268 : V (Proc.devRef .tc main_v268) = Cert.ReferenceIdeal.ReadP.val_main_v268 (F := F) x0)
    (h_main_v272 : V (Proc.devRef .tc main_v272) = Cert.ReferenceIdeal.ReadP.val_main_v272 (F := F) x0)
    (h_main_v276 : V (Proc.devRef .tc main_v276) = Cert.ReferenceIdeal.ReadP.val_main_v276 (F := F) x0)
    (h_main_v280 : V (Proc.devRef .tc main_v280) = Cert.ReferenceIdeal.ReadP.val_main_v280 (F := F) x0)
    (h_main_v281 : V (Proc.devRef .tc main_v281) = Cert.ReferenceIdeal.ReadP.val_main_v281 (F := F) x2)
    (h_main_v294 : V (Proc.devRef .tc main_v294) = Cert.ReferenceIdeal.ReadP.val_main_v294 (F := F) x0 x2)
    (h_main_v307 : V (Proc.devRef .tc main_v307) = Cert.ReferenceIdeal.ReadP.val_main_v307 (F := F) x0 x2)
    (h_main_v310 : V (Proc.devRef .tc main_v310) = Cert.ReferenceIdeal.ReadP.val_main_v310 (F := F) x0)
    (h_main_v311 : V (Proc.devRef .tc main_v311) = Cert.ReferenceIdeal.ReadP.val_main_v311 (F := F)) :
    after (ops7 (F := F)) V (Proc.devRef .tc main_v281) = Cert.ReferenceIdeal.ReadP.val_main_v281 (F := F) x2 := by
  simp only [ops7]
  after_results_simp
  all_goals first
    | (simp only [h_main_arg0, h_main_arg3, h_main_v210, h_main_v253, h_main_v259, h_main_v265, h_main_v266, h_main_v267, h_main_v268, h_main_v272, h_main_v276, h_main_v280, h_main_v281, h_main_v294, h_main_v307, h_main_v310, h_main_v311]; done)
    | (simp only [h_main_arg0, h_main_arg3, h_main_v210, h_main_v253, h_main_v259, h_main_v265, h_main_v266, h_main_v267, h_main_v268, h_main_v272, h_main_v276, h_main_v280, h_main_v281, h_main_v294, h_main_v307, h_main_v310, h_main_v311]; rfl)
    | rfl

theorem win7_main_v294 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg3 : V (Proc.devRef .tc main_arg3) = x3)
    (h_main_v210 : V (Proc.devRef .tc main_v210) = Cert.ReferenceIdeal.ReadP.val_main_v210 (F := F) x0 x1)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v267 : V (Proc.devRef .tc main_v267) = Cert.ReferenceIdeal.ReadP.val_main_v267 (F := F) x0)
    (h_main_v268 : V (Proc.devRef .tc main_v268) = Cert.ReferenceIdeal.ReadP.val_main_v268 (F := F) x0)
    (h_main_v272 : V (Proc.devRef .tc main_v272) = Cert.ReferenceIdeal.ReadP.val_main_v272 (F := F) x0)
    (h_main_v276 : V (Proc.devRef .tc main_v276) = Cert.ReferenceIdeal.ReadP.val_main_v276 (F := F) x0)
    (h_main_v280 : V (Proc.devRef .tc main_v280) = Cert.ReferenceIdeal.ReadP.val_main_v280 (F := F) x0)
    (h_main_v281 : V (Proc.devRef .tc main_v281) = Cert.ReferenceIdeal.ReadP.val_main_v281 (F := F) x2)
    (h_main_v294 : V (Proc.devRef .tc main_v294) = Cert.ReferenceIdeal.ReadP.val_main_v294 (F := F) x0 x2)
    (h_main_v307 : V (Proc.devRef .tc main_v307) = Cert.ReferenceIdeal.ReadP.val_main_v307 (F := F) x0 x2)
    (h_main_v310 : V (Proc.devRef .tc main_v310) = Cert.ReferenceIdeal.ReadP.val_main_v310 (F := F) x0)
    (h_main_v311 : V (Proc.devRef .tc main_v311) = Cert.ReferenceIdeal.ReadP.val_main_v311 (F := F)) :
    after (ops7 (F := F)) V (Proc.devRef .tc main_v294) = Cert.ReferenceIdeal.ReadP.val_main_v294 (F := F) x0 x2 := by
  simp only [ops7]
  after_results_simp
  all_goals first
    | (simp only [h_main_arg0, h_main_arg3, h_main_v210, h_main_v253, h_main_v259, h_main_v265, h_main_v266, h_main_v267, h_main_v268, h_main_v272, h_main_v276, h_main_v280, h_main_v281, h_main_v294, h_main_v307, h_main_v310, h_main_v311]; done)
    | (simp only [h_main_arg0, h_main_arg3, h_main_v210, h_main_v253, h_main_v259, h_main_v265, h_main_v266, h_main_v267, h_main_v268, h_main_v272, h_main_v276, h_main_v280, h_main_v281, h_main_v294, h_main_v307, h_main_v310, h_main_v311]; rfl)
    | rfl

theorem win7_main_v307 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg3 : V (Proc.devRef .tc main_arg3) = x3)
    (h_main_v210 : V (Proc.devRef .tc main_v210) = Cert.ReferenceIdeal.ReadP.val_main_v210 (F := F) x0 x1)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v267 : V (Proc.devRef .tc main_v267) = Cert.ReferenceIdeal.ReadP.val_main_v267 (F := F) x0)
    (h_main_v268 : V (Proc.devRef .tc main_v268) = Cert.ReferenceIdeal.ReadP.val_main_v268 (F := F) x0)
    (h_main_v272 : V (Proc.devRef .tc main_v272) = Cert.ReferenceIdeal.ReadP.val_main_v272 (F := F) x0)
    (h_main_v276 : V (Proc.devRef .tc main_v276) = Cert.ReferenceIdeal.ReadP.val_main_v276 (F := F) x0)
    (h_main_v280 : V (Proc.devRef .tc main_v280) = Cert.ReferenceIdeal.ReadP.val_main_v280 (F := F) x0)
    (h_main_v281 : V (Proc.devRef .tc main_v281) = Cert.ReferenceIdeal.ReadP.val_main_v281 (F := F) x2)
    (h_main_v294 : V (Proc.devRef .tc main_v294) = Cert.ReferenceIdeal.ReadP.val_main_v294 (F := F) x0 x2)
    (h_main_v307 : V (Proc.devRef .tc main_v307) = Cert.ReferenceIdeal.ReadP.val_main_v307 (F := F) x0 x2)
    (h_main_v310 : V (Proc.devRef .tc main_v310) = Cert.ReferenceIdeal.ReadP.val_main_v310 (F := F) x0)
    (h_main_v311 : V (Proc.devRef .tc main_v311) = Cert.ReferenceIdeal.ReadP.val_main_v311 (F := F)) :
    after (ops7 (F := F)) V (Proc.devRef .tc main_v307) = Cert.ReferenceIdeal.ReadP.val_main_v307 (F := F) x0 x2 := by
  simp only [ops7]
  after_results_simp
  all_goals first
    | (simp only [h_main_arg0, h_main_arg3, h_main_v210, h_main_v253, h_main_v259, h_main_v265, h_main_v266, h_main_v267, h_main_v268, h_main_v272, h_main_v276, h_main_v280, h_main_v281, h_main_v294, h_main_v307, h_main_v310, h_main_v311]; done)
    | (simp only [h_main_arg0, h_main_arg3, h_main_v210, h_main_v253, h_main_v259, h_main_v265, h_main_v266, h_main_v267, h_main_v268, h_main_v272, h_main_v276, h_main_v280, h_main_v281, h_main_v294, h_main_v307, h_main_v310, h_main_v311]; rfl)
    | rfl

theorem win7_main_v320 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg3 : V (Proc.devRef .tc main_arg3) = x3)
    (h_main_v210 : V (Proc.devRef .tc main_v210) = Cert.ReferenceIdeal.ReadP.val_main_v210 (F := F) x0 x1)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v267 : V (Proc.devRef .tc main_v267) = Cert.ReferenceIdeal.ReadP.val_main_v267 (F := F) x0)
    (h_main_v268 : V (Proc.devRef .tc main_v268) = Cert.ReferenceIdeal.ReadP.val_main_v268 (F := F) x0)
    (h_main_v272 : V (Proc.devRef .tc main_v272) = Cert.ReferenceIdeal.ReadP.val_main_v272 (F := F) x0)
    (h_main_v276 : V (Proc.devRef .tc main_v276) = Cert.ReferenceIdeal.ReadP.val_main_v276 (F := F) x0)
    (h_main_v280 : V (Proc.devRef .tc main_v280) = Cert.ReferenceIdeal.ReadP.val_main_v280 (F := F) x0)
    (h_main_v281 : V (Proc.devRef .tc main_v281) = Cert.ReferenceIdeal.ReadP.val_main_v281 (F := F) x2)
    (h_main_v294 : V (Proc.devRef .tc main_v294) = Cert.ReferenceIdeal.ReadP.val_main_v294 (F := F) x0 x2)
    (h_main_v307 : V (Proc.devRef .tc main_v307) = Cert.ReferenceIdeal.ReadP.val_main_v307 (F := F) x0 x2)
    (h_main_v310 : V (Proc.devRef .tc main_v310) = Cert.ReferenceIdeal.ReadP.val_main_v310 (F := F) x0)
    (h_main_v311 : V (Proc.devRef .tc main_v311) = Cert.ReferenceIdeal.ReadP.val_main_v311 (F := F)) :
    after (ops7 (F := F)) V (Proc.devRef .tc main_v320) = Cert.ReferenceIdeal.ReadP.val_main_v320 (F := F) x0 x2 := by
  simp only [ops7]
  after_results_simp
  all_goals first
    | (simp only [h_main_arg0, h_main_arg3, h_main_v210, h_main_v253, h_main_v259, h_main_v265, h_main_v266, h_main_v267, h_main_v268, h_main_v272, h_main_v276, h_main_v280, h_main_v281, h_main_v294, h_main_v307, h_main_v310, h_main_v311]; done)
    | (simp only [h_main_arg0, h_main_arg3, h_main_v210, h_main_v253, h_main_v259, h_main_v265, h_main_v266, h_main_v267, h_main_v268, h_main_v272, h_main_v276, h_main_v280, h_main_v281, h_main_v294, h_main_v307, h_main_v310, h_main_v311]; rfl)
    | rfl

theorem win7_main_v333 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg3 : V (Proc.devRef .tc main_arg3) = x3)
    (h_main_v210 : V (Proc.devRef .tc main_v210) = Cert.ReferenceIdeal.ReadP.val_main_v210 (F := F) x0 x1)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v267 : V (Proc.devRef .tc main_v267) = Cert.ReferenceIdeal.ReadP.val_main_v267 (F := F) x0)
    (h_main_v268 : V (Proc.devRef .tc main_v268) = Cert.ReferenceIdeal.ReadP.val_main_v268 (F := F) x0)
    (h_main_v272 : V (Proc.devRef .tc main_v272) = Cert.ReferenceIdeal.ReadP.val_main_v272 (F := F) x0)
    (h_main_v276 : V (Proc.devRef .tc main_v276) = Cert.ReferenceIdeal.ReadP.val_main_v276 (F := F) x0)
    (h_main_v280 : V (Proc.devRef .tc main_v280) = Cert.ReferenceIdeal.ReadP.val_main_v280 (F := F) x0)
    (h_main_v281 : V (Proc.devRef .tc main_v281) = Cert.ReferenceIdeal.ReadP.val_main_v281 (F := F) x2)
    (h_main_v294 : V (Proc.devRef .tc main_v294) = Cert.ReferenceIdeal.ReadP.val_main_v294 (F := F) x0 x2)
    (h_main_v307 : V (Proc.devRef .tc main_v307) = Cert.ReferenceIdeal.ReadP.val_main_v307 (F := F) x0 x2)
    (h_main_v310 : V (Proc.devRef .tc main_v310) = Cert.ReferenceIdeal.ReadP.val_main_v310 (F := F) x0)
    (h_main_v311 : V (Proc.devRef .tc main_v311) = Cert.ReferenceIdeal.ReadP.val_main_v311 (F := F)) :
    after (ops7 (F := F)) V (Proc.devRef .tc main_v333) = Cert.ReferenceIdeal.ReadP.val_main_v333 (F := F) x0 x2 := by
  simp only [ops7]
  after_results_simp
  all_goals first
    | (simp only [h_main_arg0, h_main_arg3, h_main_v210, h_main_v253, h_main_v259, h_main_v265, h_main_v266, h_main_v267, h_main_v268, h_main_v272, h_main_v276, h_main_v280, h_main_v281, h_main_v294, h_main_v307, h_main_v310, h_main_v311]; done)
    | (simp only [h_main_arg0, h_main_arg3, h_main_v210, h_main_v253, h_main_v259, h_main_v265, h_main_v266, h_main_v267, h_main_v268, h_main_v272, h_main_v276, h_main_v280, h_main_v281, h_main_v294, h_main_v307, h_main_v310, h_main_v311]; rfl)
    | rfl

theorem win7_main_v346 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg3 : V (Proc.devRef .tc main_arg3) = x3)
    (h_main_v210 : V (Proc.devRef .tc main_v210) = Cert.ReferenceIdeal.ReadP.val_main_v210 (F := F) x0 x1)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v267 : V (Proc.devRef .tc main_v267) = Cert.ReferenceIdeal.ReadP.val_main_v267 (F := F) x0)
    (h_main_v268 : V (Proc.devRef .tc main_v268) = Cert.ReferenceIdeal.ReadP.val_main_v268 (F := F) x0)
    (h_main_v272 : V (Proc.devRef .tc main_v272) = Cert.ReferenceIdeal.ReadP.val_main_v272 (F := F) x0)
    (h_main_v276 : V (Proc.devRef .tc main_v276) = Cert.ReferenceIdeal.ReadP.val_main_v276 (F := F) x0)
    (h_main_v280 : V (Proc.devRef .tc main_v280) = Cert.ReferenceIdeal.ReadP.val_main_v280 (F := F) x0)
    (h_main_v281 : V (Proc.devRef .tc main_v281) = Cert.ReferenceIdeal.ReadP.val_main_v281 (F := F) x2)
    (h_main_v294 : V (Proc.devRef .tc main_v294) = Cert.ReferenceIdeal.ReadP.val_main_v294 (F := F) x0 x2)
    (h_main_v307 : V (Proc.devRef .tc main_v307) = Cert.ReferenceIdeal.ReadP.val_main_v307 (F := F) x0 x2)
    (h_main_v310 : V (Proc.devRef .tc main_v310) = Cert.ReferenceIdeal.ReadP.val_main_v310 (F := F) x0)
    (h_main_v311 : V (Proc.devRef .tc main_v311) = Cert.ReferenceIdeal.ReadP.val_main_v311 (F := F)) :
    after (ops7 (F := F)) V (Proc.devRef .tc main_v346) = Cert.ReferenceIdeal.ReadP.val_main_v346 (F := F) x0 x2 := by
  simp only [ops7]
  after_results_simp
  all_goals first
    | (simp only [h_main_arg0, h_main_arg3, h_main_v210, h_main_v253, h_main_v259, h_main_v265, h_main_v266, h_main_v267, h_main_v268, h_main_v272, h_main_v276, h_main_v280, h_main_v281, h_main_v294, h_main_v307, h_main_v310, h_main_v311]; done)
    | (simp only [h_main_arg0, h_main_arg3, h_main_v210, h_main_v253, h_main_v259, h_main_v265, h_main_v266, h_main_v267, h_main_v268, h_main_v272, h_main_v276, h_main_v280, h_main_v281, h_main_v294, h_main_v307, h_main_v310, h_main_v311]; rfl)
    | rfl

theorem win7_main_v357 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg3 : V (Proc.devRef .tc main_arg3) = x3)
    (h_main_v210 : V (Proc.devRef .tc main_v210) = Cert.ReferenceIdeal.ReadP.val_main_v210 (F := F) x0 x1)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v267 : V (Proc.devRef .tc main_v267) = Cert.ReferenceIdeal.ReadP.val_main_v267 (F := F) x0)
    (h_main_v268 : V (Proc.devRef .tc main_v268) = Cert.ReferenceIdeal.ReadP.val_main_v268 (F := F) x0)
    (h_main_v272 : V (Proc.devRef .tc main_v272) = Cert.ReferenceIdeal.ReadP.val_main_v272 (F := F) x0)
    (h_main_v276 : V (Proc.devRef .tc main_v276) = Cert.ReferenceIdeal.ReadP.val_main_v276 (F := F) x0)
    (h_main_v280 : V (Proc.devRef .tc main_v280) = Cert.ReferenceIdeal.ReadP.val_main_v280 (F := F) x0)
    (h_main_v281 : V (Proc.devRef .tc main_v281) = Cert.ReferenceIdeal.ReadP.val_main_v281 (F := F) x2)
    (h_main_v294 : V (Proc.devRef .tc main_v294) = Cert.ReferenceIdeal.ReadP.val_main_v294 (F := F) x0 x2)
    (h_main_v307 : V (Proc.devRef .tc main_v307) = Cert.ReferenceIdeal.ReadP.val_main_v307 (F := F) x0 x2)
    (h_main_v310 : V (Proc.devRef .tc main_v310) = Cert.ReferenceIdeal.ReadP.val_main_v310 (F := F) x0)
    (h_main_v311 : V (Proc.devRef .tc main_v311) = Cert.ReferenceIdeal.ReadP.val_main_v311 (F := F)) :
    after (ops7 (F := F)) V (Proc.devRef .tc main_v357) = Cert.ReferenceIdeal.ReadP.val_main_v357 (F := F) x0 := by
  simp only [ops7]
  after_results_simp
  all_goals first
    | (simp only [h_main_arg0, h_main_arg3, h_main_v210, h_main_v253, h_main_v259, h_main_v265, h_main_v266, h_main_v267, h_main_v268, h_main_v272, h_main_v276, h_main_v280, h_main_v281, h_main_v294, h_main_v307, h_main_v310, h_main_v311]; done)
    | (simp only [h_main_arg0, h_main_arg3, h_main_v210, h_main_v253, h_main_v259, h_main_v265, h_main_v266, h_main_v267, h_main_v268, h_main_v272, h_main_v276, h_main_v280, h_main_v281, h_main_v294, h_main_v307, h_main_v310, h_main_v311]; rfl)
    | rfl

end Cert.ReferenceIdeal.RunH

end
-- ==== Proof.RefWin8.lean ====
/-
  Window 8 of the reference's @main, read on its own: from any buffer contents `V` in which every buffer that
  window 8 or a later window reads from before it holds its stage function of the four argument arrays, the
  contents after the window's operations hold the stage functions again, for every buffer a later window reads.
-/
import proofs.«113233_j37486474559588_2_alg».proof.Proof.RefOps
import proofs.«113233_j37486474559588_2_alg».proof.Proof.RefReadP

set_option maxRecDepth 65536
set_option maxHeartbeats 40000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

theorem win8_main_arg0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg3 : V (Proc.devRef .tc main_arg3) = x3)
    (h_main_v210 : V (Proc.devRef .tc main_v210) = Cert.ReferenceIdeal.ReadP.val_main_v210 (F := F) x0 x1)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v272 : V (Proc.devRef .tc main_v272) = Cert.ReferenceIdeal.ReadP.val_main_v272 (F := F) x0)
    (h_main_v276 : V (Proc.devRef .tc main_v276) = Cert.ReferenceIdeal.ReadP.val_main_v276 (F := F) x0)
    (h_main_v280 : V (Proc.devRef .tc main_v280) = Cert.ReferenceIdeal.ReadP.val_main_v280 (F := F) x0)
    (h_main_v281 : V (Proc.devRef .tc main_v281) = Cert.ReferenceIdeal.ReadP.val_main_v281 (F := F) x2)
    (h_main_v294 : V (Proc.devRef .tc main_v294) = Cert.ReferenceIdeal.ReadP.val_main_v294 (F := F) x0 x2)
    (h_main_v307 : V (Proc.devRef .tc main_v307) = Cert.ReferenceIdeal.ReadP.val_main_v307 (F := F) x0 x2)
    (h_main_v320 : V (Proc.devRef .tc main_v320) = Cert.ReferenceIdeal.ReadP.val_main_v320 (F := F) x0 x2)
    (h_main_v333 : V (Proc.devRef .tc main_v333) = Cert.ReferenceIdeal.ReadP.val_main_v333 (F := F) x0 x2)
    (h_main_v346 : V (Proc.devRef .tc main_v346) = Cert.ReferenceIdeal.ReadP.val_main_v346 (F := F) x0 x2)
    (h_main_v357 : V (Proc.devRef .tc main_v357) = Cert.ReferenceIdeal.ReadP.val_main_v357 (F := F) x0) :
    after (ops8 (F := F)) V (Proc.devRef .tc main_arg0) = x0 := by
  simp only [ops8]
  after_results_simp
  all_goals first
    | (simp only [h_main_arg0, h_main_arg3, h_main_v210, h_main_v253, h_main_v259, h_main_v265, h_main_v266, h_main_v272, h_main_v276, h_main_v280, h_main_v281, h_main_v294, h_main_v307, h_main_v320, h_main_v333, h_main_v346, h_main_v357]; done)
    | (simp only [h_main_arg0, h_main_arg3, h_main_v210, h_main_v253, h_main_v259, h_main_v265, h_main_v266, h_main_v272, h_main_v276, h_main_v280, h_main_v281, h_main_v294, h_main_v307, h_main_v320, h_main_v333, h_main_v346, h_main_v357]; rfl)
    | rfl

theorem win8_main_arg3 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg3 : V (Proc.devRef .tc main_arg3) = x3)
    (h_main_v210 : V (Proc.devRef .tc main_v210) = Cert.ReferenceIdeal.ReadP.val_main_v210 (F := F) x0 x1)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v272 : V (Proc.devRef .tc main_v272) = Cert.ReferenceIdeal.ReadP.val_main_v272 (F := F) x0)
    (h_main_v276 : V (Proc.devRef .tc main_v276) = Cert.ReferenceIdeal.ReadP.val_main_v276 (F := F) x0)
    (h_main_v280 : V (Proc.devRef .tc main_v280) = Cert.ReferenceIdeal.ReadP.val_main_v280 (F := F) x0)
    (h_main_v281 : V (Proc.devRef .tc main_v281) = Cert.ReferenceIdeal.ReadP.val_main_v281 (F := F) x2)
    (h_main_v294 : V (Proc.devRef .tc main_v294) = Cert.ReferenceIdeal.ReadP.val_main_v294 (F := F) x0 x2)
    (h_main_v307 : V (Proc.devRef .tc main_v307) = Cert.ReferenceIdeal.ReadP.val_main_v307 (F := F) x0 x2)
    (h_main_v320 : V (Proc.devRef .tc main_v320) = Cert.ReferenceIdeal.ReadP.val_main_v320 (F := F) x0 x2)
    (h_main_v333 : V (Proc.devRef .tc main_v333) = Cert.ReferenceIdeal.ReadP.val_main_v333 (F := F) x0 x2)
    (h_main_v346 : V (Proc.devRef .tc main_v346) = Cert.ReferenceIdeal.ReadP.val_main_v346 (F := F) x0 x2)
    (h_main_v357 : V (Proc.devRef .tc main_v357) = Cert.ReferenceIdeal.ReadP.val_main_v357 (F := F) x0) :
    after (ops8 (F := F)) V (Proc.devRef .tc main_arg3) = x3 := by
  simp only [ops8]
  after_results_simp
  all_goals first
    | (simp only [h_main_arg0, h_main_arg3, h_main_v210, h_main_v253, h_main_v259, h_main_v265, h_main_v266, h_main_v272, h_main_v276, h_main_v280, h_main_v281, h_main_v294, h_main_v307, h_main_v320, h_main_v333, h_main_v346, h_main_v357]; done)
    | (simp only [h_main_arg0, h_main_arg3, h_main_v210, h_main_v253, h_main_v259, h_main_v265, h_main_v266, h_main_v272, h_main_v276, h_main_v280, h_main_v281, h_main_v294, h_main_v307, h_main_v320, h_main_v333, h_main_v346, h_main_v357]; rfl)
    | rfl

theorem win8_main_v210 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg3 : V (Proc.devRef .tc main_arg3) = x3)
    (h_main_v210 : V (Proc.devRef .tc main_v210) = Cert.ReferenceIdeal.ReadP.val_main_v210 (F := F) x0 x1)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v272 : V (Proc.devRef .tc main_v272) = Cert.ReferenceIdeal.ReadP.val_main_v272 (F := F) x0)
    (h_main_v276 : V (Proc.devRef .tc main_v276) = Cert.ReferenceIdeal.ReadP.val_main_v276 (F := F) x0)
    (h_main_v280 : V (Proc.devRef .tc main_v280) = Cert.ReferenceIdeal.ReadP.val_main_v280 (F := F) x0)
    (h_main_v281 : V (Proc.devRef .tc main_v281) = Cert.ReferenceIdeal.ReadP.val_main_v281 (F := F) x2)
    (h_main_v294 : V (Proc.devRef .tc main_v294) = Cert.ReferenceIdeal.ReadP.val_main_v294 (F := F) x0 x2)
    (h_main_v307 : V (Proc.devRef .tc main_v307) = Cert.ReferenceIdeal.ReadP.val_main_v307 (F := F) x0 x2)
    (h_main_v320 : V (Proc.devRef .tc main_v320) = Cert.ReferenceIdeal.ReadP.val_main_v320 (F := F) x0 x2)
    (h_main_v333 : V (Proc.devRef .tc main_v333) = Cert.ReferenceIdeal.ReadP.val_main_v333 (F := F) x0 x2)
    (h_main_v346 : V (Proc.devRef .tc main_v346) = Cert.ReferenceIdeal.ReadP.val_main_v346 (F := F) x0 x2)
    (h_main_v357 : V (Proc.devRef .tc main_v357) = Cert.ReferenceIdeal.ReadP.val_main_v357 (F := F) x0) :
    after (ops8 (F := F)) V (Proc.devRef .tc main_v210) = Cert.ReferenceIdeal.ReadP.val_main_v210 (F := F) x0 x1 := by
  simp only [ops8]
  after_results_simp
  all_goals first
    | (simp only [h_main_arg0, h_main_arg3, h_main_v210, h_main_v253, h_main_v259, h_main_v265, h_main_v266, h_main_v272, h_main_v276, h_main_v280, h_main_v281, h_main_v294, h_main_v307, h_main_v320, h_main_v333, h_main_v346, h_main_v357]; done)
    | (simp only [h_main_arg0, h_main_arg3, h_main_v210, h_main_v253, h_main_v259, h_main_v265, h_main_v266, h_main_v272, h_main_v276, h_main_v280, h_main_v281, h_main_v294, h_main_v307, h_main_v320, h_main_v333, h_main_v346, h_main_v357]; rfl)
    | rfl

theorem win8_main_v259 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg3 : V (Proc.devRef .tc main_arg3) = x3)
    (h_main_v210 : V (Proc.devRef .tc main_v210) = Cert.ReferenceIdeal.ReadP.val_main_v210 (F := F) x0 x1)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v272 : V (Proc.devRef .tc main_v272) = Cert.ReferenceIdeal.ReadP.val_main_v272 (F := F) x0)
    (h_main_v276 : V (Proc.devRef .tc main_v276) = Cert.ReferenceIdeal.ReadP.val_main_v276 (F := F) x0)
    (h_main_v280 : V (Proc.devRef .tc main_v280) = Cert.ReferenceIdeal.ReadP.val_main_v280 (F := F) x0)
    (h_main_v281 : V (Proc.devRef .tc main_v281) = Cert.ReferenceIdeal.ReadP.val_main_v281 (F := F) x2)
    (h_main_v294 : V (Proc.devRef .tc main_v294) = Cert.ReferenceIdeal.ReadP.val_main_v294 (F := F) x0 x2)
    (h_main_v307 : V (Proc.devRef .tc main_v307) = Cert.ReferenceIdeal.ReadP.val_main_v307 (F := F) x0 x2)
    (h_main_v320 : V (Proc.devRef .tc main_v320) = Cert.ReferenceIdeal.ReadP.val_main_v320 (F := F) x0 x2)
    (h_main_v333 : V (Proc.devRef .tc main_v333) = Cert.ReferenceIdeal.ReadP.val_main_v333 (F := F) x0 x2)
    (h_main_v346 : V (Proc.devRef .tc main_v346) = Cert.ReferenceIdeal.ReadP.val_main_v346 (F := F) x0 x2)
    (h_main_v357 : V (Proc.devRef .tc main_v357) = Cert.ReferenceIdeal.ReadP.val_main_v357 (F := F) x0) :
    after (ops8 (F := F)) V (Proc.devRef .tc main_v259) = Cert.ReferenceIdeal.ReadP.val_main_v259 (F := F) x0 := by
  simp only [ops8]
  after_results_simp
  all_goals first
    | (simp only [h_main_arg0, h_main_arg3, h_main_v210, h_main_v253, h_main_v259, h_main_v265, h_main_v266, h_main_v272, h_main_v276, h_main_v280, h_main_v281, h_main_v294, h_main_v307, h_main_v320, h_main_v333, h_main_v346, h_main_v357]; done)
    | (simp only [h_main_arg0, h_main_arg3, h_main_v210, h_main_v253, h_main_v259, h_main_v265, h_main_v266, h_main_v272, h_main_v276, h_main_v280, h_main_v281, h_main_v294, h_main_v307, h_main_v320, h_main_v333, h_main_v346, h_main_v357]; rfl)
    | rfl

theorem win8_main_v265 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg3 : V (Proc.devRef .tc main_arg3) = x3)
    (h_main_v210 : V (Proc.devRef .tc main_v210) = Cert.ReferenceIdeal.ReadP.val_main_v210 (F := F) x0 x1)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v272 : V (Proc.devRef .tc main_v272) = Cert.ReferenceIdeal.ReadP.val_main_v272 (F := F) x0)
    (h_main_v276 : V (Proc.devRef .tc main_v276) = Cert.ReferenceIdeal.ReadP.val_main_v276 (F := F) x0)
    (h_main_v280 : V (Proc.devRef .tc main_v280) = Cert.ReferenceIdeal.ReadP.val_main_v280 (F := F) x0)
    (h_main_v281 : V (Proc.devRef .tc main_v281) = Cert.ReferenceIdeal.ReadP.val_main_v281 (F := F) x2)
    (h_main_v294 : V (Proc.devRef .tc main_v294) = Cert.ReferenceIdeal.ReadP.val_main_v294 (F := F) x0 x2)
    (h_main_v307 : V (Proc.devRef .tc main_v307) = Cert.ReferenceIdeal.ReadP.val_main_v307 (F := F) x0 x2)
    (h_main_v320 : V (Proc.devRef .tc main_v320) = Cert.ReferenceIdeal.ReadP.val_main_v320 (F := F) x0 x2)
    (h_main_v333 : V (Proc.devRef .tc main_v333) = Cert.ReferenceIdeal.ReadP.val_main_v333 (F := F) x0 x2)
    (h_main_v346 : V (Proc.devRef .tc main_v346) = Cert.ReferenceIdeal.ReadP.val_main_v346 (F := F) x0 x2)
    (h_main_v357 : V (Proc.devRef .tc main_v357) = Cert.ReferenceIdeal.ReadP.val_main_v357 (F := F) x0) :
    after (ops8 (F := F)) V (Proc.devRef .tc main_v265) = Cert.ReferenceIdeal.ReadP.val_main_v265 (F := F) x0 := by
  simp only [ops8]
  after_results_simp
  all_goals first
    | (simp only [h_main_arg0, h_main_arg3, h_main_v210, h_main_v253, h_main_v259, h_main_v265, h_main_v266, h_main_v272, h_main_v276, h_main_v280, h_main_v281, h_main_v294, h_main_v307, h_main_v320, h_main_v333, h_main_v346, h_main_v357]; done)
    | (simp only [h_main_arg0, h_main_arg3, h_main_v210, h_main_v253, h_main_v259, h_main_v265, h_main_v266, h_main_v272, h_main_v276, h_main_v280, h_main_v281, h_main_v294, h_main_v307, h_main_v320, h_main_v333, h_main_v346, h_main_v357]; rfl)
    | rfl

theorem win8_main_v390 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg3 : V (Proc.devRef .tc main_arg3) = x3)
    (h_main_v210 : V (Proc.devRef .tc main_v210) = Cert.ReferenceIdeal.ReadP.val_main_v210 (F := F) x0 x1)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v272 : V (Proc.devRef .tc main_v272) = Cert.ReferenceIdeal.ReadP.val_main_v272 (F := F) x0)
    (h_main_v276 : V (Proc.devRef .tc main_v276) = Cert.ReferenceIdeal.ReadP.val_main_v276 (F := F) x0)
    (h_main_v280 : V (Proc.devRef .tc main_v280) = Cert.ReferenceIdeal.ReadP.val_main_v280 (F := F) x0)
    (h_main_v281 : V (Proc.devRef .tc main_v281) = Cert.ReferenceIdeal.ReadP.val_main_v281 (F := F) x2)
    (h_main_v294 : V (Proc.devRef .tc main_v294) = Cert.ReferenceIdeal.ReadP.val_main_v294 (F := F) x0 x2)
    (h_main_v307 : V (Proc.devRef .tc main_v307) = Cert.ReferenceIdeal.ReadP.val_main_v307 (F := F) x0 x2)
    (h_main_v320 : V (Proc.devRef .tc main_v320) = Cert.ReferenceIdeal.ReadP.val_main_v320 (F := F) x0 x2)
    (h_main_v333 : V (Proc.devRef .tc main_v333) = Cert.ReferenceIdeal.ReadP.val_main_v333 (F := F) x0 x2)
    (h_main_v346 : V (Proc.devRef .tc main_v346) = Cert.ReferenceIdeal.ReadP.val_main_v346 (F := F) x0 x2)
    (h_main_v357 : V (Proc.devRef .tc main_v357) = Cert.ReferenceIdeal.ReadP.val_main_v357 (F := F) x0) :
    after (ops8 (F := F)) V (Proc.devRef .tc main_v390) = Cert.ReferenceIdeal.ReadP.val_main_v390 (F := F) x0 x2 := by
  simp only [ops8]
  after_results_simp
  all_goals first
    | (simp only [h_main_arg0, h_main_arg3, h_main_v210, h_main_v253, h_main_v259, h_main_v265, h_main_v266, h_main_v272, h_main_v276, h_main_v280, h_main_v281, h_main_v294, h_main_v307, h_main_v320, h_main_v333, h_main_v346, h_main_v357]; done)
    | (simp only [h_main_arg0, h_main_arg3, h_main_v210, h_main_v253, h_main_v259, h_main_v265, h_main_v266, h_main_v272, h_main_v276, h_main_v280, h_main_v281, h_main_v294, h_main_v307, h_main_v320, h_main_v333, h_main_v346, h_main_v357]; rfl)
    | rfl

theorem win8_main_v400 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg3 : V (Proc.devRef .tc main_arg3) = x3)
    (h_main_v210 : V (Proc.devRef .tc main_v210) = Cert.ReferenceIdeal.ReadP.val_main_v210 (F := F) x0 x1)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v272 : V (Proc.devRef .tc main_v272) = Cert.ReferenceIdeal.ReadP.val_main_v272 (F := F) x0)
    (h_main_v276 : V (Proc.devRef .tc main_v276) = Cert.ReferenceIdeal.ReadP.val_main_v276 (F := F) x0)
    (h_main_v280 : V (Proc.devRef .tc main_v280) = Cert.ReferenceIdeal.ReadP.val_main_v280 (F := F) x0)
    (h_main_v281 : V (Proc.devRef .tc main_v281) = Cert.ReferenceIdeal.ReadP.val_main_v281 (F := F) x2)
    (h_main_v294 : V (Proc.devRef .tc main_v294) = Cert.ReferenceIdeal.ReadP.val_main_v294 (F := F) x0 x2)
    (h_main_v307 : V (Proc.devRef .tc main_v307) = Cert.ReferenceIdeal.ReadP.val_main_v307 (F := F) x0 x2)
    (h_main_v320 : V (Proc.devRef .tc main_v320) = Cert.ReferenceIdeal.ReadP.val_main_v320 (F := F) x0 x2)
    (h_main_v333 : V (Proc.devRef .tc main_v333) = Cert.ReferenceIdeal.ReadP.val_main_v333 (F := F) x0 x2)
    (h_main_v346 : V (Proc.devRef .tc main_v346) = Cert.ReferenceIdeal.ReadP.val_main_v346 (F := F) x0 x2)
    (h_main_v357 : V (Proc.devRef .tc main_v357) = Cert.ReferenceIdeal.ReadP.val_main_v357 (F := F) x0) :
    after (ops8 (F := F)) V (Proc.devRef .tc main_v400) = Cert.ReferenceIdeal.ReadP.val_main_v400 (F := F) x0 x2 := by
  simp only [ops8]
  after_results_simp
  all_goals first
    | (simp only [h_main_arg0, h_main_arg3, h_main_v210, h_main_v253, h_main_v259, h_main_v265, h_main_v266, h_main_v272, h_main_v276, h_main_v280, h_main_v281, h_main_v294, h_main_v307, h_main_v320, h_main_v333, h_main_v346, h_main_v357]; done)
    | (simp only [h_main_arg0, h_main_arg3, h_main_v210, h_main_v253, h_main_v259, h_main_v265, h_main_v266, h_main_v272, h_main_v276, h_main_v280, h_main_v281, h_main_v294, h_main_v307, h_main_v320, h_main_v333, h_main_v346, h_main_v357]; rfl)
    | rfl

theorem win8_main_v405 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg3 : V (Proc.devRef .tc main_arg3) = x3)
    (h_main_v210 : V (Proc.devRef .tc main_v210) = Cert.ReferenceIdeal.ReadP.val_main_v210 (F := F) x0 x1)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v272 : V (Proc.devRef .tc main_v272) = Cert.ReferenceIdeal.ReadP.val_main_v272 (F := F) x0)
    (h_main_v276 : V (Proc.devRef .tc main_v276) = Cert.ReferenceIdeal.ReadP.val_main_v276 (F := F) x0)
    (h_main_v280 : V (Proc.devRef .tc main_v280) = Cert.ReferenceIdeal.ReadP.val_main_v280 (F := F) x0)
    (h_main_v281 : V (Proc.devRef .tc main_v281) = Cert.ReferenceIdeal.ReadP.val_main_v281 (F := F) x2)
    (h_main_v294 : V (Proc.devRef .tc main_v294) = Cert.ReferenceIdeal.ReadP.val_main_v294 (F := F) x0 x2)
    (h_main_v307 : V (Proc.devRef .tc main_v307) = Cert.ReferenceIdeal.ReadP.val_main_v307 (F := F) x0 x2)
    (h_main_v320 : V (Proc.devRef .tc main_v320) = Cert.ReferenceIdeal.ReadP.val_main_v320 (F := F) x0 x2)
    (h_main_v333 : V (Proc.devRef .tc main_v333) = Cert.ReferenceIdeal.ReadP.val_main_v333 (F := F) x0 x2)
    (h_main_v346 : V (Proc.devRef .tc main_v346) = Cert.ReferenceIdeal.ReadP.val_main_v346 (F := F) x0 x2)
    (h_main_v357 : V (Proc.devRef .tc main_v357) = Cert.ReferenceIdeal.ReadP.val_main_v357 (F := F) x0) :
    after (ops8 (F := F)) V (Proc.devRef .tc main_v405) = Cert.ReferenceIdeal.ReadP.val_main_v405 (F := F) x0 x2 := by
  simp only [ops8]
  after_results_simp
  all_goals first
    | (simp only [h_main_arg0, h_main_arg3, h_main_v210, h_main_v253, h_main_v259, h_main_v265, h_main_v266, h_main_v272, h_main_v276, h_main_v280, h_main_v281, h_main_v294, h_main_v307, h_main_v320, h_main_v333, h_main_v346, h_main_v357]; done)
    | (simp only [h_main_arg0, h_main_arg3, h_main_v210, h_main_v253, h_main_v259, h_main_v265, h_main_v266, h_main_v272, h_main_v276, h_main_v280, h_main_v281, h_main_v294, h_main_v307, h_main_v320, h_main_v333, h_main_v346, h_main_v357]; rfl)
    | rfl

theorem win8_main_v409 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg3 : V (Proc.devRef .tc main_arg3) = x3)
    (h_main_v210 : V (Proc.devRef .tc main_v210) = Cert.ReferenceIdeal.ReadP.val_main_v210 (F := F) x0 x1)
    (h_main_v253 : V (Proc.devRef .tc main_v253) = Cert.ReferenceIdeal.ReadP.val_main_v253 (F := F) x0)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v266 : V (Proc.devRef .tc main_v266) = Cert.ReferenceIdeal.ReadP.val_main_v266 (F := F) x0)
    (h_main_v272 : V (Proc.devRef .tc main_v272) = Cert.ReferenceIdeal.ReadP.val_main_v272 (F := F) x0)
    (h_main_v276 : V (Proc.devRef .tc main_v276) = Cert.ReferenceIdeal.ReadP.val_main_v276 (F := F) x0)
    (h_main_v280 : V (Proc.devRef .tc main_v280) = Cert.ReferenceIdeal.ReadP.val_main_v280 (F := F) x0)
    (h_main_v281 : V (Proc.devRef .tc main_v281) = Cert.ReferenceIdeal.ReadP.val_main_v281 (F := F) x2)
    (h_main_v294 : V (Proc.devRef .tc main_v294) = Cert.ReferenceIdeal.ReadP.val_main_v294 (F := F) x0 x2)
    (h_main_v307 : V (Proc.devRef .tc main_v307) = Cert.ReferenceIdeal.ReadP.val_main_v307 (F := F) x0 x2)
    (h_main_v320 : V (Proc.devRef .tc main_v320) = Cert.ReferenceIdeal.ReadP.val_main_v320 (F := F) x0 x2)
    (h_main_v333 : V (Proc.devRef .tc main_v333) = Cert.ReferenceIdeal.ReadP.val_main_v333 (F := F) x0 x2)
    (h_main_v346 : V (Proc.devRef .tc main_v346) = Cert.ReferenceIdeal.ReadP.val_main_v346 (F := F) x0 x2)
    (h_main_v357 : V (Proc.devRef .tc main_v357) = Cert.ReferenceIdeal.ReadP.val_main_v357 (F := F) x0) :
    after (ops8 (F := F)) V (Proc.devRef .tc main_v409) = Cert.ReferenceIdeal.ReadP.val_main_v409 (F := F) x0 x2 := by
  simp only [ops8]
  after_results_simp
  all_goals first
    | (simp only [h_main_arg0, h_main_arg3, h_main_v210, h_main_v253, h_main_v259, h_main_v265, h_main_v266, h_main_v272, h_main_v276, h_main_v280, h_main_v281, h_main_v294, h_main_v307, h_main_v320, h_main_v333, h_main_v346, h_main_v357]; done)
    | (simp only [h_main_arg0, h_main_arg3, h_main_v210, h_main_v253, h_main_v259, h_main_v265, h_main_v266, h_main_v272, h_main_v276, h_main_v280, h_main_v281, h_main_v294, h_main_v307, h_main_v320, h_main_v333, h_main_v346, h_main_v357]; rfl)
    | rfl

end Cert.ReferenceIdeal.RunH

end
-- ==== Proof.RefWin9.lean ====
/-
  Window 9 of the reference's @main, read on its own: from any buffer contents `V` in which every buffer that
  window 9 or a later window reads from before it holds its stage function of the four argument arrays, the
  contents after the window's operations hold the stage functions again, for every buffer a later window reads.
-/
import proofs.«113233_j37486474559588_2_alg».proof.Proof.RefOps
import proofs.«113233_j37486474559588_2_alg».proof.Proof.RefReadP

set_option maxRecDepth 65536
set_option maxHeartbeats 40000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

theorem win9_main_arg3 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg3 : V (Proc.devRef .tc main_arg3) = x3)
    (h_main_v210 : V (Proc.devRef .tc main_v210) = Cert.ReferenceIdeal.ReadP.val_main_v210 (F := F) x0 x1)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v390 : V (Proc.devRef .tc main_v390) = Cert.ReferenceIdeal.ReadP.val_main_v390 (F := F) x0 x2)
    (h_main_v400 : V (Proc.devRef .tc main_v400) = Cert.ReferenceIdeal.ReadP.val_main_v400 (F := F) x0 x2)
    (h_main_v405 : V (Proc.devRef .tc main_v405) = Cert.ReferenceIdeal.ReadP.val_main_v405 (F := F) x0 x2)
    (h_main_v409 : V (Proc.devRef .tc main_v409) = Cert.ReferenceIdeal.ReadP.val_main_v409 (F := F) x0 x2) :
    after (ops9 (F := F)) V (Proc.devRef .tc main_arg3) = x3 := by
  simp only [ops9]
  after_results_simp
  all_goals first
    | (simp only [h_main_arg0, h_main_arg3, h_main_v210, h_main_v259, h_main_v265, h_main_v390, h_main_v400, h_main_v405, h_main_v409]; done)
    | (simp only [h_main_arg0, h_main_arg3, h_main_v210, h_main_v259, h_main_v265, h_main_v390, h_main_v400, h_main_v405, h_main_v409]; rfl)
    | rfl

theorem win9_main_v210 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg3 : V (Proc.devRef .tc main_arg3) = x3)
    (h_main_v210 : V (Proc.devRef .tc main_v210) = Cert.ReferenceIdeal.ReadP.val_main_v210 (F := F) x0 x1)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v390 : V (Proc.devRef .tc main_v390) = Cert.ReferenceIdeal.ReadP.val_main_v390 (F := F) x0 x2)
    (h_main_v400 : V (Proc.devRef .tc main_v400) = Cert.ReferenceIdeal.ReadP.val_main_v400 (F := F) x0 x2)
    (h_main_v405 : V (Proc.devRef .tc main_v405) = Cert.ReferenceIdeal.ReadP.val_main_v405 (F := F) x0 x2)
    (h_main_v409 : V (Proc.devRef .tc main_v409) = Cert.ReferenceIdeal.ReadP.val_main_v409 (F := F) x0 x2) :
    after (ops9 (F := F)) V (Proc.devRef .tc main_v210) = Cert.ReferenceIdeal.ReadP.val_main_v210 (F := F) x0 x1 := by
  simp only [ops9]
  after_results_simp
  all_goals first
    | (simp only [h_main_arg0, h_main_arg3, h_main_v210, h_main_v259, h_main_v265, h_main_v390, h_main_v400, h_main_v405, h_main_v409]; done)
    | (simp only [h_main_arg0, h_main_arg3, h_main_v210, h_main_v259, h_main_v265, h_main_v390, h_main_v400, h_main_v405, h_main_v409]; rfl)
    | rfl

theorem win9_main_v421 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg3 : V (Proc.devRef .tc main_arg3) = x3)
    (h_main_v210 : V (Proc.devRef .tc main_v210) = Cert.ReferenceIdeal.ReadP.val_main_v210 (F := F) x0 x1)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v390 : V (Proc.devRef .tc main_v390) = Cert.ReferenceIdeal.ReadP.val_main_v390 (F := F) x0 x2)
    (h_main_v400 : V (Proc.devRef .tc main_v400) = Cert.ReferenceIdeal.ReadP.val_main_v400 (F := F) x0 x2)
    (h_main_v405 : V (Proc.devRef .tc main_v405) = Cert.ReferenceIdeal.ReadP.val_main_v405 (F := F) x0 x2)
    (h_main_v409 : V (Proc.devRef .tc main_v409) = Cert.ReferenceIdeal.ReadP.val_main_v409 (F := F) x0 x2) :
    after (ops9 (F := F)) V (Proc.devRef .tc main_v421) = Cert.ReferenceIdeal.ReadP.val_main_v421 (F := F) x0 x2 := by
  simp only [ops9]
  after_results_simp
  all_goals first
    | (simp only [h_main_arg0, h_main_arg3, h_main_v210, h_main_v259, h_main_v265, h_main_v390, h_main_v400, h_main_v405, h_main_v409]; done)
    | (simp only [h_main_arg0, h_main_arg3, h_main_v210, h_main_v259, h_main_v265, h_main_v390, h_main_v400, h_main_v405, h_main_v409]; rfl)
    | rfl

theorem win9_main_v438 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg3 : V (Proc.devRef .tc main_arg3) = x3)
    (h_main_v210 : V (Proc.devRef .tc main_v210) = Cert.ReferenceIdeal.ReadP.val_main_v210 (F := F) x0 x1)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v390 : V (Proc.devRef .tc main_v390) = Cert.ReferenceIdeal.ReadP.val_main_v390 (F := F) x0 x2)
    (h_main_v400 : V (Proc.devRef .tc main_v400) = Cert.ReferenceIdeal.ReadP.val_main_v400 (F := F) x0 x2)
    (h_main_v405 : V (Proc.devRef .tc main_v405) = Cert.ReferenceIdeal.ReadP.val_main_v405 (F := F) x0 x2)
    (h_main_v409 : V (Proc.devRef .tc main_v409) = Cert.ReferenceIdeal.ReadP.val_main_v409 (F := F) x0 x2) :
    after (ops9 (F := F)) V (Proc.devRef .tc main_v438) = Cert.ReferenceIdeal.ReadP.val_main_v438 (F := F) x0 := by
  simp only [ops9]
  after_results_simp
  all_goals first
    | (simp only [h_main_arg0, h_main_arg3, h_main_v210, h_main_v259, h_main_v265, h_main_v390, h_main_v400, h_main_v405, h_main_v409]; done)
    | (simp only [h_main_arg0, h_main_arg3, h_main_v210, h_main_v259, h_main_v265, h_main_v390, h_main_v400, h_main_v405, h_main_v409]; rfl)
    | rfl

theorem win9_main_v446 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg3 : V (Proc.devRef .tc main_arg3) = x3)
    (h_main_v210 : V (Proc.devRef .tc main_v210) = Cert.ReferenceIdeal.ReadP.val_main_v210 (F := F) x0 x1)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v390 : V (Proc.devRef .tc main_v390) = Cert.ReferenceIdeal.ReadP.val_main_v390 (F := F) x0 x2)
    (h_main_v400 : V (Proc.devRef .tc main_v400) = Cert.ReferenceIdeal.ReadP.val_main_v400 (F := F) x0 x2)
    (h_main_v405 : V (Proc.devRef .tc main_v405) = Cert.ReferenceIdeal.ReadP.val_main_v405 (F := F) x0 x2)
    (h_main_v409 : V (Proc.devRef .tc main_v409) = Cert.ReferenceIdeal.ReadP.val_main_v409 (F := F) x0 x2) :
    after (ops9 (F := F)) V (Proc.devRef .tc main_v446) = Cert.ReferenceIdeal.ReadP.val_main_v446 (F := F) x0 := by
  simp only [ops9]
  after_results_simp
  all_goals first
    | (simp only [h_main_arg0, h_main_arg3, h_main_v210, h_main_v259, h_main_v265, h_main_v390, h_main_v400, h_main_v405, h_main_v409]; done)
    | (simp only [h_main_arg0, h_main_arg3, h_main_v210, h_main_v259, h_main_v265, h_main_v390, h_main_v400, h_main_v405, h_main_v409]; rfl)
    | rfl

theorem win9_main_v448 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg3 : V (Proc.devRef .tc main_arg3) = x3)
    (h_main_v210 : V (Proc.devRef .tc main_v210) = Cert.ReferenceIdeal.ReadP.val_main_v210 (F := F) x0 x1)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v390 : V (Proc.devRef .tc main_v390) = Cert.ReferenceIdeal.ReadP.val_main_v390 (F := F) x0 x2)
    (h_main_v400 : V (Proc.devRef .tc main_v400) = Cert.ReferenceIdeal.ReadP.val_main_v400 (F := F) x0 x2)
    (h_main_v405 : V (Proc.devRef .tc main_v405) = Cert.ReferenceIdeal.ReadP.val_main_v405 (F := F) x0 x2)
    (h_main_v409 : V (Proc.devRef .tc main_v409) = Cert.ReferenceIdeal.ReadP.val_main_v409 (F := F) x0 x2) :
    after (ops9 (F := F)) V (Proc.devRef .tc main_v448) = Cert.ReferenceIdeal.ReadP.val_main_v448 (F := F) x0 := by
  simp only [ops9]
  after_results_simp
  all_goals first
    | (simp only [h_main_arg0, h_main_arg3, h_main_v210, h_main_v259, h_main_v265, h_main_v390, h_main_v400, h_main_v405, h_main_v409]; done)
    | (simp only [h_main_arg0, h_main_arg3, h_main_v210, h_main_v259, h_main_v265, h_main_v390, h_main_v400, h_main_v405, h_main_v409]; rfl)
    | rfl

theorem win9_main_v450 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg3 : V (Proc.devRef .tc main_arg3) = x3)
    (h_main_v210 : V (Proc.devRef .tc main_v210) = Cert.ReferenceIdeal.ReadP.val_main_v210 (F := F) x0 x1)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v390 : V (Proc.devRef .tc main_v390) = Cert.ReferenceIdeal.ReadP.val_main_v390 (F := F) x0 x2)
    (h_main_v400 : V (Proc.devRef .tc main_v400) = Cert.ReferenceIdeal.ReadP.val_main_v400 (F := F) x0 x2)
    (h_main_v405 : V (Proc.devRef .tc main_v405) = Cert.ReferenceIdeal.ReadP.val_main_v405 (F := F) x0 x2)
    (h_main_v409 : V (Proc.devRef .tc main_v409) = Cert.ReferenceIdeal.ReadP.val_main_v409 (F := F) x0 x2) :
    after (ops9 (F := F)) V (Proc.devRef .tc main_v450) = Cert.ReferenceIdeal.ReadP.val_main_v450 (F := F) x0 := by
  simp only [ops9]
  after_results_simp
  all_goals first
    | (simp only [h_main_arg0, h_main_arg3, h_main_v210, h_main_v259, h_main_v265, h_main_v390, h_main_v400, h_main_v405, h_main_v409]; done)
    | (simp only [h_main_arg0, h_main_arg3, h_main_v210, h_main_v259, h_main_v265, h_main_v390, h_main_v400, h_main_v405, h_main_v409]; rfl)
    | rfl

theorem win9_main_v452 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg3 : V (Proc.devRef .tc main_arg3) = x3)
    (h_main_v210 : V (Proc.devRef .tc main_v210) = Cert.ReferenceIdeal.ReadP.val_main_v210 (F := F) x0 x1)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v390 : V (Proc.devRef .tc main_v390) = Cert.ReferenceIdeal.ReadP.val_main_v390 (F := F) x0 x2)
    (h_main_v400 : V (Proc.devRef .tc main_v400) = Cert.ReferenceIdeal.ReadP.val_main_v400 (F := F) x0 x2)
    (h_main_v405 : V (Proc.devRef .tc main_v405) = Cert.ReferenceIdeal.ReadP.val_main_v405 (F := F) x0 x2)
    (h_main_v409 : V (Proc.devRef .tc main_v409) = Cert.ReferenceIdeal.ReadP.val_main_v409 (F := F) x0 x2) :
    after (ops9 (F := F)) V (Proc.devRef .tc main_v452) = Cert.ReferenceIdeal.ReadP.val_main_v452 (F := F) x0 := by
  simp only [ops9]
  after_results_simp
  all_goals first
    | (simp only [h_main_arg0, h_main_arg3, h_main_v210, h_main_v259, h_main_v265, h_main_v390, h_main_v400, h_main_v405, h_main_v409]; done)
    | (simp only [h_main_arg0, h_main_arg3, h_main_v210, h_main_v259, h_main_v265, h_main_v390, h_main_v400, h_main_v405, h_main_v409]; rfl)
    | rfl

theorem win9_main_v453 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg3 : V (Proc.devRef .tc main_arg3) = x3)
    (h_main_v210 : V (Proc.devRef .tc main_v210) = Cert.ReferenceIdeal.ReadP.val_main_v210 (F := F) x0 x1)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v390 : V (Proc.devRef .tc main_v390) = Cert.ReferenceIdeal.ReadP.val_main_v390 (F := F) x0 x2)
    (h_main_v400 : V (Proc.devRef .tc main_v400) = Cert.ReferenceIdeal.ReadP.val_main_v400 (F := F) x0 x2)
    (h_main_v405 : V (Proc.devRef .tc main_v405) = Cert.ReferenceIdeal.ReadP.val_main_v405 (F := F) x0 x2)
    (h_main_v409 : V (Proc.devRef .tc main_v409) = Cert.ReferenceIdeal.ReadP.val_main_v409 (F := F) x0 x2) :
    after (ops9 (F := F)) V (Proc.devRef .tc main_v453) = Cert.ReferenceIdeal.ReadP.val_main_v453 (F := F) x0 := by
  simp only [ops9]
  after_results_simp
  all_goals first
    | (simp only [h_main_arg0, h_main_arg3, h_main_v210, h_main_v259, h_main_v265, h_main_v390, h_main_v400, h_main_v405, h_main_v409]; done)
    | (simp only [h_main_arg0, h_main_arg3, h_main_v210, h_main_v259, h_main_v265, h_main_v390, h_main_v400, h_main_v405, h_main_v409]; rfl)
    | rfl

theorem win9_main_cst_143 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg0 : V (Proc.devRef .tc main_arg0) = x0)
    (h_main_arg3 : V (Proc.devRef .tc main_arg3) = x3)
    (h_main_v210 : V (Proc.devRef .tc main_v210) = Cert.ReferenceIdeal.ReadP.val_main_v210 (F := F) x0 x1)
    (h_main_v259 : V (Proc.devRef .tc main_v259) = Cert.ReferenceIdeal.ReadP.val_main_v259 (F := F) x0)
    (h_main_v265 : V (Proc.devRef .tc main_v265) = Cert.ReferenceIdeal.ReadP.val_main_v265 (F := F) x0)
    (h_main_v390 : V (Proc.devRef .tc main_v390) = Cert.ReferenceIdeal.ReadP.val_main_v390 (F := F) x0 x2)
    (h_main_v400 : V (Proc.devRef .tc main_v400) = Cert.ReferenceIdeal.ReadP.val_main_v400 (F := F) x0 x2)
    (h_main_v405 : V (Proc.devRef .tc main_v405) = Cert.ReferenceIdeal.ReadP.val_main_v405 (F := F) x0 x2)
    (h_main_v409 : V (Proc.devRef .tc main_v409) = Cert.ReferenceIdeal.ReadP.val_main_v409 (F := F) x0 x2) :
    after (ops9 (F := F)) V (Proc.devRef .tc main_cst_143) = Cert.ReferenceIdeal.ReadP.val_main_cst_143 (F := F) := by
  simp only [ops9]
  after_results_simp
  all_goals first
    | (simp only [h_main_arg0, h_main_arg3, h_main_v210, h_main_v259, h_main_v265, h_main_v390, h_main_v400, h_main_v405, h_main_v409]; done)
    | (simp only [h_main_arg0, h_main_arg3, h_main_v210, h_main_v259, h_main_v265, h_main_v390, h_main_v400, h_main_v405, h_main_v409]; rfl)
    | rfl

end Cert.ReferenceIdeal.RunH

end
-- ==== Proof.RefWin10.lean ====
/-
  Window 10 of the reference's @main, read on its own: from any buffer contents `V` in which every buffer that
  window 10 or a later window reads from before it holds its stage function of the four argument arrays, the
  contents after the window's operations hold the stage functions again, for every buffer a later window reads.
-/
import proofs.«113233_j37486474559588_2_alg».proof.Proof.RefOps
import proofs.«113233_j37486474559588_2_alg».proof.Proof.RefReadP

set_option maxRecDepth 65536
set_option maxHeartbeats 40000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

theorem win10_main_v210 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg3 : V (Proc.devRef .tc main_arg3) = x3)
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v438 : V (Proc.devRef .tc main_v438) = Cert.ReferenceIdeal.ReadP.val_main_v438 (F := F) x0)
    (h_main_v446 : V (Proc.devRef .tc main_v446) = Cert.ReferenceIdeal.ReadP.val_main_v446 (F := F) x0)
    (h_main_v448 : V (Proc.devRef .tc main_v448) = Cert.ReferenceIdeal.ReadP.val_main_v448 (F := F) x0)
    (h_main_v450 : V (Proc.devRef .tc main_v450) = Cert.ReferenceIdeal.ReadP.val_main_v450 (F := F) x0)
    (h_main_v452 : V (Proc.devRef .tc main_v452) = Cert.ReferenceIdeal.ReadP.val_main_v452 (F := F) x0)
    (h_main_v453 : V (Proc.devRef .tc main_v453) = Cert.ReferenceIdeal.ReadP.val_main_v453 (F := F) x0)
    (h_main_cst_143 : V (Proc.devRef .tc main_cst_143) = Cert.ReferenceIdeal.ReadP.val_main_cst_143 (F := F)) :
    after (ops10 (F := F)) V (Proc.devRef .tc main_v210) = Cert.ReferenceIdeal.ReadP.val_main_v210 (F := F) x0 x1 := by
  simp only [ops10]
  after_results_simp
  all_goals first
    | (simp only [h_main_arg3, h_main_v210, h_main_v421, h_main_v438, h_main_v446, h_main_v448, h_main_v450, h_main_v452, h_main_v453, h_main_cst_143]; done)
    | (simp only [h_main_arg3, h_main_v210, h_main_v421, h_main_v438, h_main_v446, h_main_v448, h_main_v450, h_main_v452, h_main_v453, h_main_cst_143]; rfl)
    | rfl

theorem win10_main_v421 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg3 : V (Proc.devRef .tc main_arg3) = x3)
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v438 : V (Proc.devRef .tc main_v438) = Cert.ReferenceIdeal.ReadP.val_main_v438 (F := F) x0)
    (h_main_v446 : V (Proc.devRef .tc main_v446) = Cert.ReferenceIdeal.ReadP.val_main_v446 (F := F) x0)
    (h_main_v448 : V (Proc.devRef .tc main_v448) = Cert.ReferenceIdeal.ReadP.val_main_v448 (F := F) x0)
    (h_main_v450 : V (Proc.devRef .tc main_v450) = Cert.ReferenceIdeal.ReadP.val_main_v450 (F := F) x0)
    (h_main_v452 : V (Proc.devRef .tc main_v452) = Cert.ReferenceIdeal.ReadP.val_main_v452 (F := F) x0)
    (h_main_v453 : V (Proc.devRef .tc main_v453) = Cert.ReferenceIdeal.ReadP.val_main_v453 (F := F) x0)
    (h_main_cst_143 : V (Proc.devRef .tc main_cst_143) = Cert.ReferenceIdeal.ReadP.val_main_cst_143 (F := F)) :
    after (ops10 (F := F)) V (Proc.devRef .tc main_v421) = Cert.ReferenceIdeal.ReadP.val_main_v421 (F := F) x0 x2 := by
  simp only [ops10]
  after_results_simp
  all_goals first
    | (simp only [h_main_arg3, h_main_v210, h_main_v421, h_main_v438, h_main_v446, h_main_v448, h_main_v450, h_main_v452, h_main_v453, h_main_cst_143]; done)
    | (simp only [h_main_arg3, h_main_v210, h_main_v421, h_main_v438, h_main_v446, h_main_v448, h_main_v450, h_main_v452, h_main_v453, h_main_cst_143]; rfl)
    | rfl

theorem win10_main_v464 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg3 : V (Proc.devRef .tc main_arg3) = x3)
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v438 : V (Proc.devRef .tc main_v438) = Cert.ReferenceIdeal.ReadP.val_main_v438 (F := F) x0)
    (h_main_v446 : V (Proc.devRef .tc main_v446) = Cert.ReferenceIdeal.ReadP.val_main_v446 (F := F) x0)
    (h_main_v448 : V (Proc.devRef .tc main_v448) = Cert.ReferenceIdeal.ReadP.val_main_v448 (F := F) x0)
    (h_main_v450 : V (Proc.devRef .tc main_v450) = Cert.ReferenceIdeal.ReadP.val_main_v450 (F := F) x0)
    (h_main_v452 : V (Proc.devRef .tc main_v452) = Cert.ReferenceIdeal.ReadP.val_main_v452 (F := F) x0)
    (h_main_v453 : V (Proc.devRef .tc main_v453) = Cert.ReferenceIdeal.ReadP.val_main_v453 (F := F) x0)
    (h_main_cst_143 : V (Proc.devRef .tc main_cst_143) = Cert.ReferenceIdeal.ReadP.val_main_cst_143 (F := F)) :
    after (ops10 (F := F)) V (Proc.devRef .tc main_v464) = Cert.ReferenceIdeal.ReadP.val_main_v464 (F := F) x0 := by
  simp only [ops10]
  after_results_simp
  all_goals first
    | (simp only [h_main_arg3, h_main_v210, h_main_v421, h_main_v438, h_main_v446, h_main_v448, h_main_v450, h_main_v452, h_main_v453, h_main_cst_143]; done)
    | (simp only [h_main_arg3, h_main_v210, h_main_v421, h_main_v438, h_main_v446, h_main_v448, h_main_v450, h_main_v452, h_main_v453, h_main_cst_143]; rfl)
    | rfl

theorem win10_main_v470 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg3 : V (Proc.devRef .tc main_arg3) = x3)
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v438 : V (Proc.devRef .tc main_v438) = Cert.ReferenceIdeal.ReadP.val_main_v438 (F := F) x0)
    (h_main_v446 : V (Proc.devRef .tc main_v446) = Cert.ReferenceIdeal.ReadP.val_main_v446 (F := F) x0)
    (h_main_v448 : V (Proc.devRef .tc main_v448) = Cert.ReferenceIdeal.ReadP.val_main_v448 (F := F) x0)
    (h_main_v450 : V (Proc.devRef .tc main_v450) = Cert.ReferenceIdeal.ReadP.val_main_v450 (F := F) x0)
    (h_main_v452 : V (Proc.devRef .tc main_v452) = Cert.ReferenceIdeal.ReadP.val_main_v452 (F := F) x0)
    (h_main_v453 : V (Proc.devRef .tc main_v453) = Cert.ReferenceIdeal.ReadP.val_main_v453 (F := F) x0)
    (h_main_cst_143 : V (Proc.devRef .tc main_cst_143) = Cert.ReferenceIdeal.ReadP.val_main_cst_143 (F := F)) :
    after (ops10 (F := F)) V (Proc.devRef .tc main_v470) = Cert.ReferenceIdeal.ReadP.val_main_v470 (F := F) x0 := by
  simp only [ops10]
  after_results_simp
  all_goals first
    | (simp only [h_main_arg3, h_main_v210, h_main_v421, h_main_v438, h_main_v446, h_main_v448, h_main_v450, h_main_v452, h_main_v453, h_main_cst_143]; done)
    | (simp only [h_main_arg3, h_main_v210, h_main_v421, h_main_v438, h_main_v446, h_main_v448, h_main_v450, h_main_v452, h_main_v453, h_main_cst_143]; rfl)
    | rfl

theorem win10_main_v476 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg3 : V (Proc.devRef .tc main_arg3) = x3)
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v438 : V (Proc.devRef .tc main_v438) = Cert.ReferenceIdeal.ReadP.val_main_v438 (F := F) x0)
    (h_main_v446 : V (Proc.devRef .tc main_v446) = Cert.ReferenceIdeal.ReadP.val_main_v446 (F := F) x0)
    (h_main_v448 : V (Proc.devRef .tc main_v448) = Cert.ReferenceIdeal.ReadP.val_main_v448 (F := F) x0)
    (h_main_v450 : V (Proc.devRef .tc main_v450) = Cert.ReferenceIdeal.ReadP.val_main_v450 (F := F) x0)
    (h_main_v452 : V (Proc.devRef .tc main_v452) = Cert.ReferenceIdeal.ReadP.val_main_v452 (F := F) x0)
    (h_main_v453 : V (Proc.devRef .tc main_v453) = Cert.ReferenceIdeal.ReadP.val_main_v453 (F := F) x0)
    (h_main_cst_143 : V (Proc.devRef .tc main_cst_143) = Cert.ReferenceIdeal.ReadP.val_main_cst_143 (F := F)) :
    after (ops10 (F := F)) V (Proc.devRef .tc main_v476) = Cert.ReferenceIdeal.ReadP.val_main_v476 (F := F) x0 := by
  simp only [ops10]
  after_results_simp
  all_goals first
    | (simp only [h_main_arg3, h_main_v210, h_main_v421, h_main_v438, h_main_v446, h_main_v448, h_main_v450, h_main_v452, h_main_v453, h_main_cst_143]; done)
    | (simp only [h_main_arg3, h_main_v210, h_main_v421, h_main_v438, h_main_v446, h_main_v448, h_main_v450, h_main_v452, h_main_v453, h_main_cst_143]; rfl)
    | rfl

theorem win10_main_v477 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg3 : V (Proc.devRef .tc main_arg3) = x3)
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v438 : V (Proc.devRef .tc main_v438) = Cert.ReferenceIdeal.ReadP.val_main_v438 (F := F) x0)
    (h_main_v446 : V (Proc.devRef .tc main_v446) = Cert.ReferenceIdeal.ReadP.val_main_v446 (F := F) x0)
    (h_main_v448 : V (Proc.devRef .tc main_v448) = Cert.ReferenceIdeal.ReadP.val_main_v448 (F := F) x0)
    (h_main_v450 : V (Proc.devRef .tc main_v450) = Cert.ReferenceIdeal.ReadP.val_main_v450 (F := F) x0)
    (h_main_v452 : V (Proc.devRef .tc main_v452) = Cert.ReferenceIdeal.ReadP.val_main_v452 (F := F) x0)
    (h_main_v453 : V (Proc.devRef .tc main_v453) = Cert.ReferenceIdeal.ReadP.val_main_v453 (F := F) x0)
    (h_main_cst_143 : V (Proc.devRef .tc main_cst_143) = Cert.ReferenceIdeal.ReadP.val_main_cst_143 (F := F)) :
    after (ops10 (F := F)) V (Proc.devRef .tc main_v477) = Cert.ReferenceIdeal.ReadP.val_main_v477 (F := F) x0 := by
  simp only [ops10]
  after_results_simp
  all_goals first
    | (simp only [h_main_arg3, h_main_v210, h_main_v421, h_main_v438, h_main_v446, h_main_v448, h_main_v450, h_main_v452, h_main_v453, h_main_cst_143]; done)
    | (simp only [h_main_arg3, h_main_v210, h_main_v421, h_main_v438, h_main_v446, h_main_v448, h_main_v450, h_main_v452, h_main_v453, h_main_cst_143]; rfl)
    | rfl

theorem win10_main_v478 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg3 : V (Proc.devRef .tc main_arg3) = x3)
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v438 : V (Proc.devRef .tc main_v438) = Cert.ReferenceIdeal.ReadP.val_main_v438 (F := F) x0)
    (h_main_v446 : V (Proc.devRef .tc main_v446) = Cert.ReferenceIdeal.ReadP.val_main_v446 (F := F) x0)
    (h_main_v448 : V (Proc.devRef .tc main_v448) = Cert.ReferenceIdeal.ReadP.val_main_v448 (F := F) x0)
    (h_main_v450 : V (Proc.devRef .tc main_v450) = Cert.ReferenceIdeal.ReadP.val_main_v450 (F := F) x0)
    (h_main_v452 : V (Proc.devRef .tc main_v452) = Cert.ReferenceIdeal.ReadP.val_main_v452 (F := F) x0)
    (h_main_v453 : V (Proc.devRef .tc main_v453) = Cert.ReferenceIdeal.ReadP.val_main_v453 (F := F) x0)
    (h_main_cst_143 : V (Proc.devRef .tc main_cst_143) = Cert.ReferenceIdeal.ReadP.val_main_cst_143 (F := F)) :
    after (ops10 (F := F)) V (Proc.devRef .tc main_v478) = Cert.ReferenceIdeal.ReadP.val_main_v478 (F := F) x0 := by
  simp only [ops10]
  after_results_simp
  all_goals first
    | (simp only [h_main_arg3, h_main_v210, h_main_v421, h_main_v438, h_main_v446, h_main_v448, h_main_v450, h_main_v452, h_main_v453, h_main_cst_143]; done)
    | (simp only [h_main_arg3, h_main_v210, h_main_v421, h_main_v438, h_main_v446, h_main_v448, h_main_v450, h_main_v452, h_main_v453, h_main_cst_143]; rfl)
    | rfl

theorem win10_main_v479 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg3 : V (Proc.devRef .tc main_arg3) = x3)
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v438 : V (Proc.devRef .tc main_v438) = Cert.ReferenceIdeal.ReadP.val_main_v438 (F := F) x0)
    (h_main_v446 : V (Proc.devRef .tc main_v446) = Cert.ReferenceIdeal.ReadP.val_main_v446 (F := F) x0)
    (h_main_v448 : V (Proc.devRef .tc main_v448) = Cert.ReferenceIdeal.ReadP.val_main_v448 (F := F) x0)
    (h_main_v450 : V (Proc.devRef .tc main_v450) = Cert.ReferenceIdeal.ReadP.val_main_v450 (F := F) x0)
    (h_main_v452 : V (Proc.devRef .tc main_v452) = Cert.ReferenceIdeal.ReadP.val_main_v452 (F := F) x0)
    (h_main_v453 : V (Proc.devRef .tc main_v453) = Cert.ReferenceIdeal.ReadP.val_main_v453 (F := F) x0)
    (h_main_cst_143 : V (Proc.devRef .tc main_cst_143) = Cert.ReferenceIdeal.ReadP.val_main_cst_143 (F := F)) :
    after (ops10 (F := F)) V (Proc.devRef .tc main_v479) = Cert.ReferenceIdeal.ReadP.val_main_v479 (F := F) x0 := by
  simp only [ops10]
  after_results_simp
  all_goals first
    | (simp only [h_main_arg3, h_main_v210, h_main_v421, h_main_v438, h_main_v446, h_main_v448, h_main_v450, h_main_v452, h_main_v453, h_main_cst_143]; done)
    | (simp only [h_main_arg3, h_main_v210, h_main_v421, h_main_v438, h_main_v446, h_main_v448, h_main_v450, h_main_v452, h_main_v453, h_main_cst_143]; rfl)
    | rfl

theorem win10_main_v483 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg3 : V (Proc.devRef .tc main_arg3) = x3)
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v438 : V (Proc.devRef .tc main_v438) = Cert.ReferenceIdeal.ReadP.val_main_v438 (F := F) x0)
    (h_main_v446 : V (Proc.devRef .tc main_v446) = Cert.ReferenceIdeal.ReadP.val_main_v446 (F := F) x0)
    (h_main_v448 : V (Proc.devRef .tc main_v448) = Cert.ReferenceIdeal.ReadP.val_main_v448 (F := F) x0)
    (h_main_v450 : V (Proc.devRef .tc main_v450) = Cert.ReferenceIdeal.ReadP.val_main_v450 (F := F) x0)
    (h_main_v452 : V (Proc.devRef .tc main_v452) = Cert.ReferenceIdeal.ReadP.val_main_v452 (F := F) x0)
    (h_main_v453 : V (Proc.devRef .tc main_v453) = Cert.ReferenceIdeal.ReadP.val_main_v453 (F := F) x0)
    (h_main_cst_143 : V (Proc.devRef .tc main_cst_143) = Cert.ReferenceIdeal.ReadP.val_main_cst_143 (F := F)) :
    after (ops10 (F := F)) V (Proc.devRef .tc main_v483) = Cert.ReferenceIdeal.ReadP.val_main_v483 (F := F) x0 := by
  simp only [ops10]
  after_results_simp
  all_goals first
    | (simp only [h_main_arg3, h_main_v210, h_main_v421, h_main_v438, h_main_v446, h_main_v448, h_main_v450, h_main_v452, h_main_v453, h_main_cst_143]; done)
    | (simp only [h_main_arg3, h_main_v210, h_main_v421, h_main_v438, h_main_v446, h_main_v448, h_main_v450, h_main_v452, h_main_v453, h_main_cst_143]; rfl)
    | rfl

theorem win10_main_v487 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg3 : V (Proc.devRef .tc main_arg3) = x3)
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v438 : V (Proc.devRef .tc main_v438) = Cert.ReferenceIdeal.ReadP.val_main_v438 (F := F) x0)
    (h_main_v446 : V (Proc.devRef .tc main_v446) = Cert.ReferenceIdeal.ReadP.val_main_v446 (F := F) x0)
    (h_main_v448 : V (Proc.devRef .tc main_v448) = Cert.ReferenceIdeal.ReadP.val_main_v448 (F := F) x0)
    (h_main_v450 : V (Proc.devRef .tc main_v450) = Cert.ReferenceIdeal.ReadP.val_main_v450 (F := F) x0)
    (h_main_v452 : V (Proc.devRef .tc main_v452) = Cert.ReferenceIdeal.ReadP.val_main_v452 (F := F) x0)
    (h_main_v453 : V (Proc.devRef .tc main_v453) = Cert.ReferenceIdeal.ReadP.val_main_v453 (F := F) x0)
    (h_main_cst_143 : V (Proc.devRef .tc main_cst_143) = Cert.ReferenceIdeal.ReadP.val_main_cst_143 (F := F)) :
    after (ops10 (F := F)) V (Proc.devRef .tc main_v487) = Cert.ReferenceIdeal.ReadP.val_main_v487 (F := F) x0 := by
  simp only [ops10]
  after_results_simp
  all_goals first
    | (simp only [h_main_arg3, h_main_v210, h_main_v421, h_main_v438, h_main_v446, h_main_v448, h_main_v450, h_main_v452, h_main_v453, h_main_cst_143]; done)
    | (simp only [h_main_arg3, h_main_v210, h_main_v421, h_main_v438, h_main_v446, h_main_v448, h_main_v450, h_main_v452, h_main_v453, h_main_cst_143]; rfl)
    | rfl

theorem win10_main_v491 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg3 : V (Proc.devRef .tc main_arg3) = x3)
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v438 : V (Proc.devRef .tc main_v438) = Cert.ReferenceIdeal.ReadP.val_main_v438 (F := F) x0)
    (h_main_v446 : V (Proc.devRef .tc main_v446) = Cert.ReferenceIdeal.ReadP.val_main_v446 (F := F) x0)
    (h_main_v448 : V (Proc.devRef .tc main_v448) = Cert.ReferenceIdeal.ReadP.val_main_v448 (F := F) x0)
    (h_main_v450 : V (Proc.devRef .tc main_v450) = Cert.ReferenceIdeal.ReadP.val_main_v450 (F := F) x0)
    (h_main_v452 : V (Proc.devRef .tc main_v452) = Cert.ReferenceIdeal.ReadP.val_main_v452 (F := F) x0)
    (h_main_v453 : V (Proc.devRef .tc main_v453) = Cert.ReferenceIdeal.ReadP.val_main_v453 (F := F) x0)
    (h_main_cst_143 : V (Proc.devRef .tc main_cst_143) = Cert.ReferenceIdeal.ReadP.val_main_cst_143 (F := F)) :
    after (ops10 (F := F)) V (Proc.devRef .tc main_v491) = Cert.ReferenceIdeal.ReadP.val_main_v491 (F := F) x0 := by
  simp only [ops10]
  after_results_simp
  all_goals first
    | (simp only [h_main_arg3, h_main_v210, h_main_v421, h_main_v438, h_main_v446, h_main_v448, h_main_v450, h_main_v452, h_main_v453, h_main_cst_143]; done)
    | (simp only [h_main_arg3, h_main_v210, h_main_v421, h_main_v438, h_main_v446, h_main_v448, h_main_v450, h_main_v452, h_main_v453, h_main_cst_143]; rfl)
    | rfl

theorem win10_main_v492 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg3 : V (Proc.devRef .tc main_arg3) = x3)
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v438 : V (Proc.devRef .tc main_v438) = Cert.ReferenceIdeal.ReadP.val_main_v438 (F := F) x0)
    (h_main_v446 : V (Proc.devRef .tc main_v446) = Cert.ReferenceIdeal.ReadP.val_main_v446 (F := F) x0)
    (h_main_v448 : V (Proc.devRef .tc main_v448) = Cert.ReferenceIdeal.ReadP.val_main_v448 (F := F) x0)
    (h_main_v450 : V (Proc.devRef .tc main_v450) = Cert.ReferenceIdeal.ReadP.val_main_v450 (F := F) x0)
    (h_main_v452 : V (Proc.devRef .tc main_v452) = Cert.ReferenceIdeal.ReadP.val_main_v452 (F := F) x0)
    (h_main_v453 : V (Proc.devRef .tc main_v453) = Cert.ReferenceIdeal.ReadP.val_main_v453 (F := F) x0)
    (h_main_cst_143 : V (Proc.devRef .tc main_cst_143) = Cert.ReferenceIdeal.ReadP.val_main_cst_143 (F := F)) :
    after (ops10 (F := F)) V (Proc.devRef .tc main_v492) = Cert.ReferenceIdeal.ReadP.val_main_v492 (F := F) x3 := by
  simp only [ops10]
  after_results_simp
  all_goals first
    | (simp only [h_main_arg3, h_main_v210, h_main_v421, h_main_v438, h_main_v446, h_main_v448, h_main_v450, h_main_v452, h_main_v453, h_main_cst_143]; done)
    | (simp only [h_main_arg3, h_main_v210, h_main_v421, h_main_v438, h_main_v446, h_main_v448, h_main_v450, h_main_v452, h_main_v453, h_main_cst_143]; rfl)
    | rfl

theorem win10_main_v495 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_arg3 : V (Proc.devRef .tc main_arg3) = x3)
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v438 : V (Proc.devRef .tc main_v438) = Cert.ReferenceIdeal.ReadP.val_main_v438 (F := F) x0)
    (h_main_v446 : V (Proc.devRef .tc main_v446) = Cert.ReferenceIdeal.ReadP.val_main_v446 (F := F) x0)
    (h_main_v448 : V (Proc.devRef .tc main_v448) = Cert.ReferenceIdeal.ReadP.val_main_v448 (F := F) x0)
    (h_main_v450 : V (Proc.devRef .tc main_v450) = Cert.ReferenceIdeal.ReadP.val_main_v450 (F := F) x0)
    (h_main_v452 : V (Proc.devRef .tc main_v452) = Cert.ReferenceIdeal.ReadP.val_main_v452 (F := F) x0)
    (h_main_v453 : V (Proc.devRef .tc main_v453) = Cert.ReferenceIdeal.ReadP.val_main_v453 (F := F) x0)
    (h_main_cst_143 : V (Proc.devRef .tc main_cst_143) = Cert.ReferenceIdeal.ReadP.val_main_cst_143 (F := F)) :
    after (ops10 (F := F)) V (Proc.devRef .tc main_v495) = Cert.ReferenceIdeal.ReadP.val_main_v495 (F := F) x0 := by
  simp only [ops10]
  after_results_simp
  all_goals first
    | (simp only [h_main_arg3, h_main_v210, h_main_v421, h_main_v438, h_main_v446, h_main_v448, h_main_v450, h_main_v452, h_main_v453, h_main_cst_143]; done)
    | (simp only [h_main_arg3, h_main_v210, h_main_v421, h_main_v438, h_main_v446, h_main_v448, h_main_v450, h_main_v452, h_main_v453, h_main_cst_143]; rfl)
    | rfl

end Cert.ReferenceIdeal.RunH

end
-- ==== Proof.RefWin11.lean ====
/-
  Window 11 of the reference's @main, read on its own: from any buffer contents `V` in which every buffer that
  window 11 or a later window reads from before it holds its stage function of the four argument arrays, the
  contents after the window's operations hold the stage functions again, for every buffer a later window reads.
-/
import proofs.«113233_j37486474559588_2_alg».proof.Proof.RefOps
import proofs.«113233_j37486474559588_2_alg».proof.Proof.RefReadP

set_option maxRecDepth 65536
set_option maxHeartbeats 40000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

theorem win11_main_v210 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v464 : V (Proc.devRef .tc main_v464) = Cert.ReferenceIdeal.ReadP.val_main_v464 (F := F) x0)
    (h_main_v470 : V (Proc.devRef .tc main_v470) = Cert.ReferenceIdeal.ReadP.val_main_v470 (F := F) x0)
    (h_main_v476 : V (Proc.devRef .tc main_v476) = Cert.ReferenceIdeal.ReadP.val_main_v476 (F := F) x0)
    (h_main_v477 : V (Proc.devRef .tc main_v477) = Cert.ReferenceIdeal.ReadP.val_main_v477 (F := F) x0)
    (h_main_v478 : V (Proc.devRef .tc main_v478) = Cert.ReferenceIdeal.ReadP.val_main_v478 (F := F) x0)
    (h_main_v479 : V (Proc.devRef .tc main_v479) = Cert.ReferenceIdeal.ReadP.val_main_v479 (F := F) x0)
    (h_main_v483 : V (Proc.devRef .tc main_v483) = Cert.ReferenceIdeal.ReadP.val_main_v483 (F := F) x0)
    (h_main_v487 : V (Proc.devRef .tc main_v487) = Cert.ReferenceIdeal.ReadP.val_main_v487 (F := F) x0)
    (h_main_v491 : V (Proc.devRef .tc main_v491) = Cert.ReferenceIdeal.ReadP.val_main_v491 (F := F) x0)
    (h_main_v492 : V (Proc.devRef .tc main_v492) = Cert.ReferenceIdeal.ReadP.val_main_v492 (F := F) x3)
    (h_main_v495 : V (Proc.devRef .tc main_v495) = Cert.ReferenceIdeal.ReadP.val_main_v495 (F := F) x0) :
    after (ops11 (F := F)) V (Proc.devRef .tc main_v210) = Cert.ReferenceIdeal.ReadP.val_main_v210 (F := F) x0 x1 := by
  simp only [ops11]
  after_results_simp
  all_goals first
    | (simp only [h_main_v210, h_main_v421, h_main_v464, h_main_v470, h_main_v476, h_main_v477, h_main_v478, h_main_v479, h_main_v483, h_main_v487, h_main_v491, h_main_v492, h_main_v495]; done)
    | (simp only [h_main_v210, h_main_v421, h_main_v464, h_main_v470, h_main_v476, h_main_v477, h_main_v478, h_main_v479, h_main_v483, h_main_v487, h_main_v491, h_main_v492, h_main_v495]; rfl)
    | rfl

theorem win11_main_v421 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v464 : V (Proc.devRef .tc main_v464) = Cert.ReferenceIdeal.ReadP.val_main_v464 (F := F) x0)
    (h_main_v470 : V (Proc.devRef .tc main_v470) = Cert.ReferenceIdeal.ReadP.val_main_v470 (F := F) x0)
    (h_main_v476 : V (Proc.devRef .tc main_v476) = Cert.ReferenceIdeal.ReadP.val_main_v476 (F := F) x0)
    (h_main_v477 : V (Proc.devRef .tc main_v477) = Cert.ReferenceIdeal.ReadP.val_main_v477 (F := F) x0)
    (h_main_v478 : V (Proc.devRef .tc main_v478) = Cert.ReferenceIdeal.ReadP.val_main_v478 (F := F) x0)
    (h_main_v479 : V (Proc.devRef .tc main_v479) = Cert.ReferenceIdeal.ReadP.val_main_v479 (F := F) x0)
    (h_main_v483 : V (Proc.devRef .tc main_v483) = Cert.ReferenceIdeal.ReadP.val_main_v483 (F := F) x0)
    (h_main_v487 : V (Proc.devRef .tc main_v487) = Cert.ReferenceIdeal.ReadP.val_main_v487 (F := F) x0)
    (h_main_v491 : V (Proc.devRef .tc main_v491) = Cert.ReferenceIdeal.ReadP.val_main_v491 (F := F) x0)
    (h_main_v492 : V (Proc.devRef .tc main_v492) = Cert.ReferenceIdeal.ReadP.val_main_v492 (F := F) x3)
    (h_main_v495 : V (Proc.devRef .tc main_v495) = Cert.ReferenceIdeal.ReadP.val_main_v495 (F := F) x0) :
    after (ops11 (F := F)) V (Proc.devRef .tc main_v421) = Cert.ReferenceIdeal.ReadP.val_main_v421 (F := F) x0 x2 := by
  simp only [ops11]
  after_results_simp
  all_goals first
    | (simp only [h_main_v210, h_main_v421, h_main_v464, h_main_v470, h_main_v476, h_main_v477, h_main_v478, h_main_v479, h_main_v483, h_main_v487, h_main_v491, h_main_v492, h_main_v495]; done)
    | (simp only [h_main_v210, h_main_v421, h_main_v464, h_main_v470, h_main_v476, h_main_v477, h_main_v478, h_main_v479, h_main_v483, h_main_v487, h_main_v491, h_main_v492, h_main_v495]; rfl)
    | rfl

theorem win11_main_v464 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v464 : V (Proc.devRef .tc main_v464) = Cert.ReferenceIdeal.ReadP.val_main_v464 (F := F) x0)
    (h_main_v470 : V (Proc.devRef .tc main_v470) = Cert.ReferenceIdeal.ReadP.val_main_v470 (F := F) x0)
    (h_main_v476 : V (Proc.devRef .tc main_v476) = Cert.ReferenceIdeal.ReadP.val_main_v476 (F := F) x0)
    (h_main_v477 : V (Proc.devRef .tc main_v477) = Cert.ReferenceIdeal.ReadP.val_main_v477 (F := F) x0)
    (h_main_v478 : V (Proc.devRef .tc main_v478) = Cert.ReferenceIdeal.ReadP.val_main_v478 (F := F) x0)
    (h_main_v479 : V (Proc.devRef .tc main_v479) = Cert.ReferenceIdeal.ReadP.val_main_v479 (F := F) x0)
    (h_main_v483 : V (Proc.devRef .tc main_v483) = Cert.ReferenceIdeal.ReadP.val_main_v483 (F := F) x0)
    (h_main_v487 : V (Proc.devRef .tc main_v487) = Cert.ReferenceIdeal.ReadP.val_main_v487 (F := F) x0)
    (h_main_v491 : V (Proc.devRef .tc main_v491) = Cert.ReferenceIdeal.ReadP.val_main_v491 (F := F) x0)
    (h_main_v492 : V (Proc.devRef .tc main_v492) = Cert.ReferenceIdeal.ReadP.val_main_v492 (F := F) x3)
    (h_main_v495 : V (Proc.devRef .tc main_v495) = Cert.ReferenceIdeal.ReadP.val_main_v495 (F := F) x0) :
    after (ops11 (F := F)) V (Proc.devRef .tc main_v464) = Cert.ReferenceIdeal.ReadP.val_main_v464 (F := F) x0 := by
  simp only [ops11]
  after_results_simp
  all_goals first
    | (simp only [h_main_v210, h_main_v421, h_main_v464, h_main_v470, h_main_v476, h_main_v477, h_main_v478, h_main_v479, h_main_v483, h_main_v487, h_main_v491, h_main_v492, h_main_v495]; done)
    | (simp only [h_main_v210, h_main_v421, h_main_v464, h_main_v470, h_main_v476, h_main_v477, h_main_v478, h_main_v479, h_main_v483, h_main_v487, h_main_v491, h_main_v492, h_main_v495]; rfl)
    | rfl

theorem win11_main_v470 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v464 : V (Proc.devRef .tc main_v464) = Cert.ReferenceIdeal.ReadP.val_main_v464 (F := F) x0)
    (h_main_v470 : V (Proc.devRef .tc main_v470) = Cert.ReferenceIdeal.ReadP.val_main_v470 (F := F) x0)
    (h_main_v476 : V (Proc.devRef .tc main_v476) = Cert.ReferenceIdeal.ReadP.val_main_v476 (F := F) x0)
    (h_main_v477 : V (Proc.devRef .tc main_v477) = Cert.ReferenceIdeal.ReadP.val_main_v477 (F := F) x0)
    (h_main_v478 : V (Proc.devRef .tc main_v478) = Cert.ReferenceIdeal.ReadP.val_main_v478 (F := F) x0)
    (h_main_v479 : V (Proc.devRef .tc main_v479) = Cert.ReferenceIdeal.ReadP.val_main_v479 (F := F) x0)
    (h_main_v483 : V (Proc.devRef .tc main_v483) = Cert.ReferenceIdeal.ReadP.val_main_v483 (F := F) x0)
    (h_main_v487 : V (Proc.devRef .tc main_v487) = Cert.ReferenceIdeal.ReadP.val_main_v487 (F := F) x0)
    (h_main_v491 : V (Proc.devRef .tc main_v491) = Cert.ReferenceIdeal.ReadP.val_main_v491 (F := F) x0)
    (h_main_v492 : V (Proc.devRef .tc main_v492) = Cert.ReferenceIdeal.ReadP.val_main_v492 (F := F) x3)
    (h_main_v495 : V (Proc.devRef .tc main_v495) = Cert.ReferenceIdeal.ReadP.val_main_v495 (F := F) x0) :
    after (ops11 (F := F)) V (Proc.devRef .tc main_v470) = Cert.ReferenceIdeal.ReadP.val_main_v470 (F := F) x0 := by
  simp only [ops11]
  after_results_simp
  all_goals first
    | (simp only [h_main_v210, h_main_v421, h_main_v464, h_main_v470, h_main_v476, h_main_v477, h_main_v478, h_main_v479, h_main_v483, h_main_v487, h_main_v491, h_main_v492, h_main_v495]; done)
    | (simp only [h_main_v210, h_main_v421, h_main_v464, h_main_v470, h_main_v476, h_main_v477, h_main_v478, h_main_v479, h_main_v483, h_main_v487, h_main_v491, h_main_v492, h_main_v495]; rfl)
    | rfl

theorem win11_main_v476 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v464 : V (Proc.devRef .tc main_v464) = Cert.ReferenceIdeal.ReadP.val_main_v464 (F := F) x0)
    (h_main_v470 : V (Proc.devRef .tc main_v470) = Cert.ReferenceIdeal.ReadP.val_main_v470 (F := F) x0)
    (h_main_v476 : V (Proc.devRef .tc main_v476) = Cert.ReferenceIdeal.ReadP.val_main_v476 (F := F) x0)
    (h_main_v477 : V (Proc.devRef .tc main_v477) = Cert.ReferenceIdeal.ReadP.val_main_v477 (F := F) x0)
    (h_main_v478 : V (Proc.devRef .tc main_v478) = Cert.ReferenceIdeal.ReadP.val_main_v478 (F := F) x0)
    (h_main_v479 : V (Proc.devRef .tc main_v479) = Cert.ReferenceIdeal.ReadP.val_main_v479 (F := F) x0)
    (h_main_v483 : V (Proc.devRef .tc main_v483) = Cert.ReferenceIdeal.ReadP.val_main_v483 (F := F) x0)
    (h_main_v487 : V (Proc.devRef .tc main_v487) = Cert.ReferenceIdeal.ReadP.val_main_v487 (F := F) x0)
    (h_main_v491 : V (Proc.devRef .tc main_v491) = Cert.ReferenceIdeal.ReadP.val_main_v491 (F := F) x0)
    (h_main_v492 : V (Proc.devRef .tc main_v492) = Cert.ReferenceIdeal.ReadP.val_main_v492 (F := F) x3)
    (h_main_v495 : V (Proc.devRef .tc main_v495) = Cert.ReferenceIdeal.ReadP.val_main_v495 (F := F) x0) :
    after (ops11 (F := F)) V (Proc.devRef .tc main_v476) = Cert.ReferenceIdeal.ReadP.val_main_v476 (F := F) x0 := by
  simp only [ops11]
  after_results_simp
  all_goals first
    | (simp only [h_main_v210, h_main_v421, h_main_v464, h_main_v470, h_main_v476, h_main_v477, h_main_v478, h_main_v479, h_main_v483, h_main_v487, h_main_v491, h_main_v492, h_main_v495]; done)
    | (simp only [h_main_v210, h_main_v421, h_main_v464, h_main_v470, h_main_v476, h_main_v477, h_main_v478, h_main_v479, h_main_v483, h_main_v487, h_main_v491, h_main_v492, h_main_v495]; rfl)
    | rfl

theorem win11_main_v477 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v464 : V (Proc.devRef .tc main_v464) = Cert.ReferenceIdeal.ReadP.val_main_v464 (F := F) x0)
    (h_main_v470 : V (Proc.devRef .tc main_v470) = Cert.ReferenceIdeal.ReadP.val_main_v470 (F := F) x0)
    (h_main_v476 : V (Proc.devRef .tc main_v476) = Cert.ReferenceIdeal.ReadP.val_main_v476 (F := F) x0)
    (h_main_v477 : V (Proc.devRef .tc main_v477) = Cert.ReferenceIdeal.ReadP.val_main_v477 (F := F) x0)
    (h_main_v478 : V (Proc.devRef .tc main_v478) = Cert.ReferenceIdeal.ReadP.val_main_v478 (F := F) x0)
    (h_main_v479 : V (Proc.devRef .tc main_v479) = Cert.ReferenceIdeal.ReadP.val_main_v479 (F := F) x0)
    (h_main_v483 : V (Proc.devRef .tc main_v483) = Cert.ReferenceIdeal.ReadP.val_main_v483 (F := F) x0)
    (h_main_v487 : V (Proc.devRef .tc main_v487) = Cert.ReferenceIdeal.ReadP.val_main_v487 (F := F) x0)
    (h_main_v491 : V (Proc.devRef .tc main_v491) = Cert.ReferenceIdeal.ReadP.val_main_v491 (F := F) x0)
    (h_main_v492 : V (Proc.devRef .tc main_v492) = Cert.ReferenceIdeal.ReadP.val_main_v492 (F := F) x3)
    (h_main_v495 : V (Proc.devRef .tc main_v495) = Cert.ReferenceIdeal.ReadP.val_main_v495 (F := F) x0) :
    after (ops11 (F := F)) V (Proc.devRef .tc main_v477) = Cert.ReferenceIdeal.ReadP.val_main_v477 (F := F) x0 := by
  simp only [ops11]
  after_results_simp
  all_goals first
    | (simp only [h_main_v210, h_main_v421, h_main_v464, h_main_v470, h_main_v476, h_main_v477, h_main_v478, h_main_v479, h_main_v483, h_main_v487, h_main_v491, h_main_v492, h_main_v495]; done)
    | (simp only [h_main_v210, h_main_v421, h_main_v464, h_main_v470, h_main_v476, h_main_v477, h_main_v478, h_main_v479, h_main_v483, h_main_v487, h_main_v491, h_main_v492, h_main_v495]; rfl)
    | rfl

theorem win11_main_v478 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v464 : V (Proc.devRef .tc main_v464) = Cert.ReferenceIdeal.ReadP.val_main_v464 (F := F) x0)
    (h_main_v470 : V (Proc.devRef .tc main_v470) = Cert.ReferenceIdeal.ReadP.val_main_v470 (F := F) x0)
    (h_main_v476 : V (Proc.devRef .tc main_v476) = Cert.ReferenceIdeal.ReadP.val_main_v476 (F := F) x0)
    (h_main_v477 : V (Proc.devRef .tc main_v477) = Cert.ReferenceIdeal.ReadP.val_main_v477 (F := F) x0)
    (h_main_v478 : V (Proc.devRef .tc main_v478) = Cert.ReferenceIdeal.ReadP.val_main_v478 (F := F) x0)
    (h_main_v479 : V (Proc.devRef .tc main_v479) = Cert.ReferenceIdeal.ReadP.val_main_v479 (F := F) x0)
    (h_main_v483 : V (Proc.devRef .tc main_v483) = Cert.ReferenceIdeal.ReadP.val_main_v483 (F := F) x0)
    (h_main_v487 : V (Proc.devRef .tc main_v487) = Cert.ReferenceIdeal.ReadP.val_main_v487 (F := F) x0)
    (h_main_v491 : V (Proc.devRef .tc main_v491) = Cert.ReferenceIdeal.ReadP.val_main_v491 (F := F) x0)
    (h_main_v492 : V (Proc.devRef .tc main_v492) = Cert.ReferenceIdeal.ReadP.val_main_v492 (F := F) x3)
    (h_main_v495 : V (Proc.devRef .tc main_v495) = Cert.ReferenceIdeal.ReadP.val_main_v495 (F := F) x0) :
    after (ops11 (F := F)) V (Proc.devRef .tc main_v478) = Cert.ReferenceIdeal.ReadP.val_main_v478 (F := F) x0 := by
  simp only [ops11]
  after_results_simp
  all_goals first
    | (simp only [h_main_v210, h_main_v421, h_main_v464, h_main_v470, h_main_v476, h_main_v477, h_main_v478, h_main_v479, h_main_v483, h_main_v487, h_main_v491, h_main_v492, h_main_v495]; done)
    | (simp only [h_main_v210, h_main_v421, h_main_v464, h_main_v470, h_main_v476, h_main_v477, h_main_v478, h_main_v479, h_main_v483, h_main_v487, h_main_v491, h_main_v492, h_main_v495]; rfl)
    | rfl

theorem win11_main_v483 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v464 : V (Proc.devRef .tc main_v464) = Cert.ReferenceIdeal.ReadP.val_main_v464 (F := F) x0)
    (h_main_v470 : V (Proc.devRef .tc main_v470) = Cert.ReferenceIdeal.ReadP.val_main_v470 (F := F) x0)
    (h_main_v476 : V (Proc.devRef .tc main_v476) = Cert.ReferenceIdeal.ReadP.val_main_v476 (F := F) x0)
    (h_main_v477 : V (Proc.devRef .tc main_v477) = Cert.ReferenceIdeal.ReadP.val_main_v477 (F := F) x0)
    (h_main_v478 : V (Proc.devRef .tc main_v478) = Cert.ReferenceIdeal.ReadP.val_main_v478 (F := F) x0)
    (h_main_v479 : V (Proc.devRef .tc main_v479) = Cert.ReferenceIdeal.ReadP.val_main_v479 (F := F) x0)
    (h_main_v483 : V (Proc.devRef .tc main_v483) = Cert.ReferenceIdeal.ReadP.val_main_v483 (F := F) x0)
    (h_main_v487 : V (Proc.devRef .tc main_v487) = Cert.ReferenceIdeal.ReadP.val_main_v487 (F := F) x0)
    (h_main_v491 : V (Proc.devRef .tc main_v491) = Cert.ReferenceIdeal.ReadP.val_main_v491 (F := F) x0)
    (h_main_v492 : V (Proc.devRef .tc main_v492) = Cert.ReferenceIdeal.ReadP.val_main_v492 (F := F) x3)
    (h_main_v495 : V (Proc.devRef .tc main_v495) = Cert.ReferenceIdeal.ReadP.val_main_v495 (F := F) x0) :
    after (ops11 (F := F)) V (Proc.devRef .tc main_v483) = Cert.ReferenceIdeal.ReadP.val_main_v483 (F := F) x0 := by
  simp only [ops11]
  after_results_simp
  all_goals first
    | (simp only [h_main_v210, h_main_v421, h_main_v464, h_main_v470, h_main_v476, h_main_v477, h_main_v478, h_main_v479, h_main_v483, h_main_v487, h_main_v491, h_main_v492, h_main_v495]; done)
    | (simp only [h_main_v210, h_main_v421, h_main_v464, h_main_v470, h_main_v476, h_main_v477, h_main_v478, h_main_v479, h_main_v483, h_main_v487, h_main_v491, h_main_v492, h_main_v495]; rfl)
    | rfl

theorem win11_main_v487 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v464 : V (Proc.devRef .tc main_v464) = Cert.ReferenceIdeal.ReadP.val_main_v464 (F := F) x0)
    (h_main_v470 : V (Proc.devRef .tc main_v470) = Cert.ReferenceIdeal.ReadP.val_main_v470 (F := F) x0)
    (h_main_v476 : V (Proc.devRef .tc main_v476) = Cert.ReferenceIdeal.ReadP.val_main_v476 (F := F) x0)
    (h_main_v477 : V (Proc.devRef .tc main_v477) = Cert.ReferenceIdeal.ReadP.val_main_v477 (F := F) x0)
    (h_main_v478 : V (Proc.devRef .tc main_v478) = Cert.ReferenceIdeal.ReadP.val_main_v478 (F := F) x0)
    (h_main_v479 : V (Proc.devRef .tc main_v479) = Cert.ReferenceIdeal.ReadP.val_main_v479 (F := F) x0)
    (h_main_v483 : V (Proc.devRef .tc main_v483) = Cert.ReferenceIdeal.ReadP.val_main_v483 (F := F) x0)
    (h_main_v487 : V (Proc.devRef .tc main_v487) = Cert.ReferenceIdeal.ReadP.val_main_v487 (F := F) x0)
    (h_main_v491 : V (Proc.devRef .tc main_v491) = Cert.ReferenceIdeal.ReadP.val_main_v491 (F := F) x0)
    (h_main_v492 : V (Proc.devRef .tc main_v492) = Cert.ReferenceIdeal.ReadP.val_main_v492 (F := F) x3)
    (h_main_v495 : V (Proc.devRef .tc main_v495) = Cert.ReferenceIdeal.ReadP.val_main_v495 (F := F) x0) :
    after (ops11 (F := F)) V (Proc.devRef .tc main_v487) = Cert.ReferenceIdeal.ReadP.val_main_v487 (F := F) x0 := by
  simp only [ops11]
  after_results_simp
  all_goals first
    | (simp only [h_main_v210, h_main_v421, h_main_v464, h_main_v470, h_main_v476, h_main_v477, h_main_v478, h_main_v479, h_main_v483, h_main_v487, h_main_v491, h_main_v492, h_main_v495]; done)
    | (simp only [h_main_v210, h_main_v421, h_main_v464, h_main_v470, h_main_v476, h_main_v477, h_main_v478, h_main_v479, h_main_v483, h_main_v487, h_main_v491, h_main_v492, h_main_v495]; rfl)
    | rfl

theorem win11_main_v491 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v464 : V (Proc.devRef .tc main_v464) = Cert.ReferenceIdeal.ReadP.val_main_v464 (F := F) x0)
    (h_main_v470 : V (Proc.devRef .tc main_v470) = Cert.ReferenceIdeal.ReadP.val_main_v470 (F := F) x0)
    (h_main_v476 : V (Proc.devRef .tc main_v476) = Cert.ReferenceIdeal.ReadP.val_main_v476 (F := F) x0)
    (h_main_v477 : V (Proc.devRef .tc main_v477) = Cert.ReferenceIdeal.ReadP.val_main_v477 (F := F) x0)
    (h_main_v478 : V (Proc.devRef .tc main_v478) = Cert.ReferenceIdeal.ReadP.val_main_v478 (F := F) x0)
    (h_main_v479 : V (Proc.devRef .tc main_v479) = Cert.ReferenceIdeal.ReadP.val_main_v479 (F := F) x0)
    (h_main_v483 : V (Proc.devRef .tc main_v483) = Cert.ReferenceIdeal.ReadP.val_main_v483 (F := F) x0)
    (h_main_v487 : V (Proc.devRef .tc main_v487) = Cert.ReferenceIdeal.ReadP.val_main_v487 (F := F) x0)
    (h_main_v491 : V (Proc.devRef .tc main_v491) = Cert.ReferenceIdeal.ReadP.val_main_v491 (F := F) x0)
    (h_main_v492 : V (Proc.devRef .tc main_v492) = Cert.ReferenceIdeal.ReadP.val_main_v492 (F := F) x3)
    (h_main_v495 : V (Proc.devRef .tc main_v495) = Cert.ReferenceIdeal.ReadP.val_main_v495 (F := F) x0) :
    after (ops11 (F := F)) V (Proc.devRef .tc main_v491) = Cert.ReferenceIdeal.ReadP.val_main_v491 (F := F) x0 := by
  simp only [ops11]
  after_results_simp
  all_goals first
    | (simp only [h_main_v210, h_main_v421, h_main_v464, h_main_v470, h_main_v476, h_main_v477, h_main_v478, h_main_v479, h_main_v483, h_main_v487, h_main_v491, h_main_v492, h_main_v495]; done)
    | (simp only [h_main_v210, h_main_v421, h_main_v464, h_main_v470, h_main_v476, h_main_v477, h_main_v478, h_main_v479, h_main_v483, h_main_v487, h_main_v491, h_main_v492, h_main_v495]; rfl)
    | rfl

theorem win11_main_v492 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v464 : V (Proc.devRef .tc main_v464) = Cert.ReferenceIdeal.ReadP.val_main_v464 (F := F) x0)
    (h_main_v470 : V (Proc.devRef .tc main_v470) = Cert.ReferenceIdeal.ReadP.val_main_v470 (F := F) x0)
    (h_main_v476 : V (Proc.devRef .tc main_v476) = Cert.ReferenceIdeal.ReadP.val_main_v476 (F := F) x0)
    (h_main_v477 : V (Proc.devRef .tc main_v477) = Cert.ReferenceIdeal.ReadP.val_main_v477 (F := F) x0)
    (h_main_v478 : V (Proc.devRef .tc main_v478) = Cert.ReferenceIdeal.ReadP.val_main_v478 (F := F) x0)
    (h_main_v479 : V (Proc.devRef .tc main_v479) = Cert.ReferenceIdeal.ReadP.val_main_v479 (F := F) x0)
    (h_main_v483 : V (Proc.devRef .tc main_v483) = Cert.ReferenceIdeal.ReadP.val_main_v483 (F := F) x0)
    (h_main_v487 : V (Proc.devRef .tc main_v487) = Cert.ReferenceIdeal.ReadP.val_main_v487 (F := F) x0)
    (h_main_v491 : V (Proc.devRef .tc main_v491) = Cert.ReferenceIdeal.ReadP.val_main_v491 (F := F) x0)
    (h_main_v492 : V (Proc.devRef .tc main_v492) = Cert.ReferenceIdeal.ReadP.val_main_v492 (F := F) x3)
    (h_main_v495 : V (Proc.devRef .tc main_v495) = Cert.ReferenceIdeal.ReadP.val_main_v495 (F := F) x0) :
    after (ops11 (F := F)) V (Proc.devRef .tc main_v492) = Cert.ReferenceIdeal.ReadP.val_main_v492 (F := F) x3 := by
  simp only [ops11]
  after_results_simp
  all_goals first
    | (simp only [h_main_v210, h_main_v421, h_main_v464, h_main_v470, h_main_v476, h_main_v477, h_main_v478, h_main_v479, h_main_v483, h_main_v487, h_main_v491, h_main_v492, h_main_v495]; done)
    | (simp only [h_main_v210, h_main_v421, h_main_v464, h_main_v470, h_main_v476, h_main_v477, h_main_v478, h_main_v479, h_main_v483, h_main_v487, h_main_v491, h_main_v492, h_main_v495]; rfl)
    | rfl

theorem win11_main_v505 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v464 : V (Proc.devRef .tc main_v464) = Cert.ReferenceIdeal.ReadP.val_main_v464 (F := F) x0)
    (h_main_v470 : V (Proc.devRef .tc main_v470) = Cert.ReferenceIdeal.ReadP.val_main_v470 (F := F) x0)
    (h_main_v476 : V (Proc.devRef .tc main_v476) = Cert.ReferenceIdeal.ReadP.val_main_v476 (F := F) x0)
    (h_main_v477 : V (Proc.devRef .tc main_v477) = Cert.ReferenceIdeal.ReadP.val_main_v477 (F := F) x0)
    (h_main_v478 : V (Proc.devRef .tc main_v478) = Cert.ReferenceIdeal.ReadP.val_main_v478 (F := F) x0)
    (h_main_v479 : V (Proc.devRef .tc main_v479) = Cert.ReferenceIdeal.ReadP.val_main_v479 (F := F) x0)
    (h_main_v483 : V (Proc.devRef .tc main_v483) = Cert.ReferenceIdeal.ReadP.val_main_v483 (F := F) x0)
    (h_main_v487 : V (Proc.devRef .tc main_v487) = Cert.ReferenceIdeal.ReadP.val_main_v487 (F := F) x0)
    (h_main_v491 : V (Proc.devRef .tc main_v491) = Cert.ReferenceIdeal.ReadP.val_main_v491 (F := F) x0)
    (h_main_v492 : V (Proc.devRef .tc main_v492) = Cert.ReferenceIdeal.ReadP.val_main_v492 (F := F) x3)
    (h_main_v495 : V (Proc.devRef .tc main_v495) = Cert.ReferenceIdeal.ReadP.val_main_v495 (F := F) x0) :
    after (ops11 (F := F)) V (Proc.devRef .tc main_v505) = Cert.ReferenceIdeal.ReadP.val_main_v505 (F := F) x0 x3 := by
  simp only [ops11]
  after_results_simp
  all_goals first
    | (simp only [h_main_v210, h_main_v421, h_main_v464, h_main_v470, h_main_v476, h_main_v477, h_main_v478, h_main_v479, h_main_v483, h_main_v487, h_main_v491, h_main_v492, h_main_v495]; done)
    | (simp only [h_main_v210, h_main_v421, h_main_v464, h_main_v470, h_main_v476, h_main_v477, h_main_v478, h_main_v479, h_main_v483, h_main_v487, h_main_v491, h_main_v492, h_main_v495]; rfl)
    | rfl

theorem win11_main_v518 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v464 : V (Proc.devRef .tc main_v464) = Cert.ReferenceIdeal.ReadP.val_main_v464 (F := F) x0)
    (h_main_v470 : V (Proc.devRef .tc main_v470) = Cert.ReferenceIdeal.ReadP.val_main_v470 (F := F) x0)
    (h_main_v476 : V (Proc.devRef .tc main_v476) = Cert.ReferenceIdeal.ReadP.val_main_v476 (F := F) x0)
    (h_main_v477 : V (Proc.devRef .tc main_v477) = Cert.ReferenceIdeal.ReadP.val_main_v477 (F := F) x0)
    (h_main_v478 : V (Proc.devRef .tc main_v478) = Cert.ReferenceIdeal.ReadP.val_main_v478 (F := F) x0)
    (h_main_v479 : V (Proc.devRef .tc main_v479) = Cert.ReferenceIdeal.ReadP.val_main_v479 (F := F) x0)
    (h_main_v483 : V (Proc.devRef .tc main_v483) = Cert.ReferenceIdeal.ReadP.val_main_v483 (F := F) x0)
    (h_main_v487 : V (Proc.devRef .tc main_v487) = Cert.ReferenceIdeal.ReadP.val_main_v487 (F := F) x0)
    (h_main_v491 : V (Proc.devRef .tc main_v491) = Cert.ReferenceIdeal.ReadP.val_main_v491 (F := F) x0)
    (h_main_v492 : V (Proc.devRef .tc main_v492) = Cert.ReferenceIdeal.ReadP.val_main_v492 (F := F) x3)
    (h_main_v495 : V (Proc.devRef .tc main_v495) = Cert.ReferenceIdeal.ReadP.val_main_v495 (F := F) x0) :
    after (ops11 (F := F)) V (Proc.devRef .tc main_v518) = Cert.ReferenceIdeal.ReadP.val_main_v518 (F := F) x0 x3 := by
  simp only [ops11]
  after_results_simp
  all_goals first
    | (simp only [h_main_v210, h_main_v421, h_main_v464, h_main_v470, h_main_v476, h_main_v477, h_main_v478, h_main_v479, h_main_v483, h_main_v487, h_main_v491, h_main_v492, h_main_v495]; done)
    | (simp only [h_main_v210, h_main_v421, h_main_v464, h_main_v470, h_main_v476, h_main_v477, h_main_v478, h_main_v479, h_main_v483, h_main_v487, h_main_v491, h_main_v492, h_main_v495]; rfl)
    | rfl

theorem win11_main_v531 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v464 : V (Proc.devRef .tc main_v464) = Cert.ReferenceIdeal.ReadP.val_main_v464 (F := F) x0)
    (h_main_v470 : V (Proc.devRef .tc main_v470) = Cert.ReferenceIdeal.ReadP.val_main_v470 (F := F) x0)
    (h_main_v476 : V (Proc.devRef .tc main_v476) = Cert.ReferenceIdeal.ReadP.val_main_v476 (F := F) x0)
    (h_main_v477 : V (Proc.devRef .tc main_v477) = Cert.ReferenceIdeal.ReadP.val_main_v477 (F := F) x0)
    (h_main_v478 : V (Proc.devRef .tc main_v478) = Cert.ReferenceIdeal.ReadP.val_main_v478 (F := F) x0)
    (h_main_v479 : V (Proc.devRef .tc main_v479) = Cert.ReferenceIdeal.ReadP.val_main_v479 (F := F) x0)
    (h_main_v483 : V (Proc.devRef .tc main_v483) = Cert.ReferenceIdeal.ReadP.val_main_v483 (F := F) x0)
    (h_main_v487 : V (Proc.devRef .tc main_v487) = Cert.ReferenceIdeal.ReadP.val_main_v487 (F := F) x0)
    (h_main_v491 : V (Proc.devRef .tc main_v491) = Cert.ReferenceIdeal.ReadP.val_main_v491 (F := F) x0)
    (h_main_v492 : V (Proc.devRef .tc main_v492) = Cert.ReferenceIdeal.ReadP.val_main_v492 (F := F) x3)
    (h_main_v495 : V (Proc.devRef .tc main_v495) = Cert.ReferenceIdeal.ReadP.val_main_v495 (F := F) x0) :
    after (ops11 (F := F)) V (Proc.devRef .tc main_v531) = Cert.ReferenceIdeal.ReadP.val_main_v531 (F := F) x0 x3 := by
  simp only [ops11]
  after_results_simp
  all_goals first
    | (simp only [h_main_v210, h_main_v421, h_main_v464, h_main_v470, h_main_v476, h_main_v477, h_main_v478, h_main_v479, h_main_v483, h_main_v487, h_main_v491, h_main_v492, h_main_v495]; done)
    | (simp only [h_main_v210, h_main_v421, h_main_v464, h_main_v470, h_main_v476, h_main_v477, h_main_v478, h_main_v479, h_main_v483, h_main_v487, h_main_v491, h_main_v492, h_main_v495]; rfl)
    | rfl

theorem win11_main_v537 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v464 : V (Proc.devRef .tc main_v464) = Cert.ReferenceIdeal.ReadP.val_main_v464 (F := F) x0)
    (h_main_v470 : V (Proc.devRef .tc main_v470) = Cert.ReferenceIdeal.ReadP.val_main_v470 (F := F) x0)
    (h_main_v476 : V (Proc.devRef .tc main_v476) = Cert.ReferenceIdeal.ReadP.val_main_v476 (F := F) x0)
    (h_main_v477 : V (Proc.devRef .tc main_v477) = Cert.ReferenceIdeal.ReadP.val_main_v477 (F := F) x0)
    (h_main_v478 : V (Proc.devRef .tc main_v478) = Cert.ReferenceIdeal.ReadP.val_main_v478 (F := F) x0)
    (h_main_v479 : V (Proc.devRef .tc main_v479) = Cert.ReferenceIdeal.ReadP.val_main_v479 (F := F) x0)
    (h_main_v483 : V (Proc.devRef .tc main_v483) = Cert.ReferenceIdeal.ReadP.val_main_v483 (F := F) x0)
    (h_main_v487 : V (Proc.devRef .tc main_v487) = Cert.ReferenceIdeal.ReadP.val_main_v487 (F := F) x0)
    (h_main_v491 : V (Proc.devRef .tc main_v491) = Cert.ReferenceIdeal.ReadP.val_main_v491 (F := F) x0)
    (h_main_v492 : V (Proc.devRef .tc main_v492) = Cert.ReferenceIdeal.ReadP.val_main_v492 (F := F) x3)
    (h_main_v495 : V (Proc.devRef .tc main_v495) = Cert.ReferenceIdeal.ReadP.val_main_v495 (F := F) x0) :
    after (ops11 (F := F)) V (Proc.devRef .tc main_v537) = Cert.ReferenceIdeal.ReadP.val_main_v537 (F := F) x0 := by
  simp only [ops11]
  after_results_simp
  all_goals first
    | (simp only [h_main_v210, h_main_v421, h_main_v464, h_main_v470, h_main_v476, h_main_v477, h_main_v478, h_main_v479, h_main_v483, h_main_v487, h_main_v491, h_main_v492, h_main_v495]; done)
    | (simp only [h_main_v210, h_main_v421, h_main_v464, h_main_v470, h_main_v476, h_main_v477, h_main_v478, h_main_v479, h_main_v483, h_main_v487, h_main_v491, h_main_v492, h_main_v495]; rfl)
    | rfl

theorem win11_main_v539 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v464 : V (Proc.devRef .tc main_v464) = Cert.ReferenceIdeal.ReadP.val_main_v464 (F := F) x0)
    (h_main_v470 : V (Proc.devRef .tc main_v470) = Cert.ReferenceIdeal.ReadP.val_main_v470 (F := F) x0)
    (h_main_v476 : V (Proc.devRef .tc main_v476) = Cert.ReferenceIdeal.ReadP.val_main_v476 (F := F) x0)
    (h_main_v477 : V (Proc.devRef .tc main_v477) = Cert.ReferenceIdeal.ReadP.val_main_v477 (F := F) x0)
    (h_main_v478 : V (Proc.devRef .tc main_v478) = Cert.ReferenceIdeal.ReadP.val_main_v478 (F := F) x0)
    (h_main_v479 : V (Proc.devRef .tc main_v479) = Cert.ReferenceIdeal.ReadP.val_main_v479 (F := F) x0)
    (h_main_v483 : V (Proc.devRef .tc main_v483) = Cert.ReferenceIdeal.ReadP.val_main_v483 (F := F) x0)
    (h_main_v487 : V (Proc.devRef .tc main_v487) = Cert.ReferenceIdeal.ReadP.val_main_v487 (F := F) x0)
    (h_main_v491 : V (Proc.devRef .tc main_v491) = Cert.ReferenceIdeal.ReadP.val_main_v491 (F := F) x0)
    (h_main_v492 : V (Proc.devRef .tc main_v492) = Cert.ReferenceIdeal.ReadP.val_main_v492 (F := F) x3)
    (h_main_v495 : V (Proc.devRef .tc main_v495) = Cert.ReferenceIdeal.ReadP.val_main_v495 (F := F) x0) :
    after (ops11 (F := F)) V (Proc.devRef .tc main_v539) = Cert.ReferenceIdeal.ReadP.val_main_v539 (F := F) x0 := by
  simp only [ops11]
  after_results_simp
  all_goals first
    | (simp only [h_main_v210, h_main_v421, h_main_v464, h_main_v470, h_main_v476, h_main_v477, h_main_v478, h_main_v479, h_main_v483, h_main_v487, h_main_v491, h_main_v492, h_main_v495]; done)
    | (simp only [h_main_v210, h_main_v421, h_main_v464, h_main_v470, h_main_v476, h_main_v477, h_main_v478, h_main_v479, h_main_v483, h_main_v487, h_main_v491, h_main_v492, h_main_v495]; rfl)
    | rfl

theorem win11_main_v540 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v464 : V (Proc.devRef .tc main_v464) = Cert.ReferenceIdeal.ReadP.val_main_v464 (F := F) x0)
    (h_main_v470 : V (Proc.devRef .tc main_v470) = Cert.ReferenceIdeal.ReadP.val_main_v470 (F := F) x0)
    (h_main_v476 : V (Proc.devRef .tc main_v476) = Cert.ReferenceIdeal.ReadP.val_main_v476 (F := F) x0)
    (h_main_v477 : V (Proc.devRef .tc main_v477) = Cert.ReferenceIdeal.ReadP.val_main_v477 (F := F) x0)
    (h_main_v478 : V (Proc.devRef .tc main_v478) = Cert.ReferenceIdeal.ReadP.val_main_v478 (F := F) x0)
    (h_main_v479 : V (Proc.devRef .tc main_v479) = Cert.ReferenceIdeal.ReadP.val_main_v479 (F := F) x0)
    (h_main_v483 : V (Proc.devRef .tc main_v483) = Cert.ReferenceIdeal.ReadP.val_main_v483 (F := F) x0)
    (h_main_v487 : V (Proc.devRef .tc main_v487) = Cert.ReferenceIdeal.ReadP.val_main_v487 (F := F) x0)
    (h_main_v491 : V (Proc.devRef .tc main_v491) = Cert.ReferenceIdeal.ReadP.val_main_v491 (F := F) x0)
    (h_main_v492 : V (Proc.devRef .tc main_v492) = Cert.ReferenceIdeal.ReadP.val_main_v492 (F := F) x3)
    (h_main_v495 : V (Proc.devRef .tc main_v495) = Cert.ReferenceIdeal.ReadP.val_main_v495 (F := F) x0) :
    after (ops11 (F := F)) V (Proc.devRef .tc main_v540) = Cert.ReferenceIdeal.ReadP.val_main_v540 (F := F) := by
  simp only [ops11]
  after_results_simp
  all_goals first
    | (simp only [h_main_v210, h_main_v421, h_main_v464, h_main_v470, h_main_v476, h_main_v477, h_main_v478, h_main_v479, h_main_v483, h_main_v487, h_main_v491, h_main_v492, h_main_v495]; done)
    | (simp only [h_main_v210, h_main_v421, h_main_v464, h_main_v470, h_main_v476, h_main_v477, h_main_v478, h_main_v479, h_main_v483, h_main_v487, h_main_v491, h_main_v492, h_main_v495]; rfl)
    | rfl

end Cert.ReferenceIdeal.RunH

end
-- ==== Proof.RefWin12.lean ====
/-
  Window 12 of the reference's @main, read on its own: from any buffer contents `V` in which every buffer that
  window 12 or a later window reads from before it holds its stage function of the four argument arrays, the
  contents after the window's operations hold the stage functions again, for every buffer a later window reads.
-/
import proofs.«113233_j37486474559588_2_alg».proof.Proof.RefOps
import proofs.«113233_j37486474559588_2_alg».proof.Proof.RefReadP

set_option maxRecDepth 65536
set_option maxHeartbeats 40000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

theorem win12_main_v210 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v464 : V (Proc.devRef .tc main_v464) = Cert.ReferenceIdeal.ReadP.val_main_v464 (F := F) x0)
    (h_main_v470 : V (Proc.devRef .tc main_v470) = Cert.ReferenceIdeal.ReadP.val_main_v470 (F := F) x0)
    (h_main_v476 : V (Proc.devRef .tc main_v476) = Cert.ReferenceIdeal.ReadP.val_main_v476 (F := F) x0)
    (h_main_v477 : V (Proc.devRef .tc main_v477) = Cert.ReferenceIdeal.ReadP.val_main_v477 (F := F) x0)
    (h_main_v478 : V (Proc.devRef .tc main_v478) = Cert.ReferenceIdeal.ReadP.val_main_v478 (F := F) x0)
    (h_main_v483 : V (Proc.devRef .tc main_v483) = Cert.ReferenceIdeal.ReadP.val_main_v483 (F := F) x0)
    (h_main_v487 : V (Proc.devRef .tc main_v487) = Cert.ReferenceIdeal.ReadP.val_main_v487 (F := F) x0)
    (h_main_v491 : V (Proc.devRef .tc main_v491) = Cert.ReferenceIdeal.ReadP.val_main_v491 (F := F) x0)
    (h_main_v492 : V (Proc.devRef .tc main_v492) = Cert.ReferenceIdeal.ReadP.val_main_v492 (F := F) x3)
    (h_main_v505 : V (Proc.devRef .tc main_v505) = Cert.ReferenceIdeal.ReadP.val_main_v505 (F := F) x0 x3)
    (h_main_v518 : V (Proc.devRef .tc main_v518) = Cert.ReferenceIdeal.ReadP.val_main_v518 (F := F) x0 x3)
    (h_main_v531 : V (Proc.devRef .tc main_v531) = Cert.ReferenceIdeal.ReadP.val_main_v531 (F := F) x0 x3)
    (h_main_v537 : V (Proc.devRef .tc main_v537) = Cert.ReferenceIdeal.ReadP.val_main_v537 (F := F) x0)
    (h_main_v539 : V (Proc.devRef .tc main_v539) = Cert.ReferenceIdeal.ReadP.val_main_v539 (F := F) x0)
    (h_main_v540 : V (Proc.devRef .tc main_v540) = Cert.ReferenceIdeal.ReadP.val_main_v540 (F := F)) :
    after (ops12 (F := F)) V (Proc.devRef .tc main_v210) = Cert.ReferenceIdeal.ReadP.val_main_v210 (F := F) x0 x1 := by
  simp only [ops12]
  after_results_simp
  all_goals first
    | (simp only [h_main_v210, h_main_v421, h_main_v464, h_main_v470, h_main_v476, h_main_v477, h_main_v478, h_main_v483, h_main_v487, h_main_v491, h_main_v492, h_main_v505, h_main_v518, h_main_v531, h_main_v537, h_main_v539, h_main_v540]; done)
    | (simp only [h_main_v210, h_main_v421, h_main_v464, h_main_v470, h_main_v476, h_main_v477, h_main_v478, h_main_v483, h_main_v487, h_main_v491, h_main_v492, h_main_v505, h_main_v518, h_main_v531, h_main_v537, h_main_v539, h_main_v540]; rfl)
    | rfl

theorem win12_main_v421 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v464 : V (Proc.devRef .tc main_v464) = Cert.ReferenceIdeal.ReadP.val_main_v464 (F := F) x0)
    (h_main_v470 : V (Proc.devRef .tc main_v470) = Cert.ReferenceIdeal.ReadP.val_main_v470 (F := F) x0)
    (h_main_v476 : V (Proc.devRef .tc main_v476) = Cert.ReferenceIdeal.ReadP.val_main_v476 (F := F) x0)
    (h_main_v477 : V (Proc.devRef .tc main_v477) = Cert.ReferenceIdeal.ReadP.val_main_v477 (F := F) x0)
    (h_main_v478 : V (Proc.devRef .tc main_v478) = Cert.ReferenceIdeal.ReadP.val_main_v478 (F := F) x0)
    (h_main_v483 : V (Proc.devRef .tc main_v483) = Cert.ReferenceIdeal.ReadP.val_main_v483 (F := F) x0)
    (h_main_v487 : V (Proc.devRef .tc main_v487) = Cert.ReferenceIdeal.ReadP.val_main_v487 (F := F) x0)
    (h_main_v491 : V (Proc.devRef .tc main_v491) = Cert.ReferenceIdeal.ReadP.val_main_v491 (F := F) x0)
    (h_main_v492 : V (Proc.devRef .tc main_v492) = Cert.ReferenceIdeal.ReadP.val_main_v492 (F := F) x3)
    (h_main_v505 : V (Proc.devRef .tc main_v505) = Cert.ReferenceIdeal.ReadP.val_main_v505 (F := F) x0 x3)
    (h_main_v518 : V (Proc.devRef .tc main_v518) = Cert.ReferenceIdeal.ReadP.val_main_v518 (F := F) x0 x3)
    (h_main_v531 : V (Proc.devRef .tc main_v531) = Cert.ReferenceIdeal.ReadP.val_main_v531 (F := F) x0 x3)
    (h_main_v537 : V (Proc.devRef .tc main_v537) = Cert.ReferenceIdeal.ReadP.val_main_v537 (F := F) x0)
    (h_main_v539 : V (Proc.devRef .tc main_v539) = Cert.ReferenceIdeal.ReadP.val_main_v539 (F := F) x0)
    (h_main_v540 : V (Proc.devRef .tc main_v540) = Cert.ReferenceIdeal.ReadP.val_main_v540 (F := F)) :
    after (ops12 (F := F)) V (Proc.devRef .tc main_v421) = Cert.ReferenceIdeal.ReadP.val_main_v421 (F := F) x0 x2 := by
  simp only [ops12]
  after_results_simp
  all_goals first
    | (simp only [h_main_v210, h_main_v421, h_main_v464, h_main_v470, h_main_v476, h_main_v477, h_main_v478, h_main_v483, h_main_v487, h_main_v491, h_main_v492, h_main_v505, h_main_v518, h_main_v531, h_main_v537, h_main_v539, h_main_v540]; done)
    | (simp only [h_main_v210, h_main_v421, h_main_v464, h_main_v470, h_main_v476, h_main_v477, h_main_v478, h_main_v483, h_main_v487, h_main_v491, h_main_v492, h_main_v505, h_main_v518, h_main_v531, h_main_v537, h_main_v539, h_main_v540]; rfl)
    | rfl

theorem win12_main_v464 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v464 : V (Proc.devRef .tc main_v464) = Cert.ReferenceIdeal.ReadP.val_main_v464 (F := F) x0)
    (h_main_v470 : V (Proc.devRef .tc main_v470) = Cert.ReferenceIdeal.ReadP.val_main_v470 (F := F) x0)
    (h_main_v476 : V (Proc.devRef .tc main_v476) = Cert.ReferenceIdeal.ReadP.val_main_v476 (F := F) x0)
    (h_main_v477 : V (Proc.devRef .tc main_v477) = Cert.ReferenceIdeal.ReadP.val_main_v477 (F := F) x0)
    (h_main_v478 : V (Proc.devRef .tc main_v478) = Cert.ReferenceIdeal.ReadP.val_main_v478 (F := F) x0)
    (h_main_v483 : V (Proc.devRef .tc main_v483) = Cert.ReferenceIdeal.ReadP.val_main_v483 (F := F) x0)
    (h_main_v487 : V (Proc.devRef .tc main_v487) = Cert.ReferenceIdeal.ReadP.val_main_v487 (F := F) x0)
    (h_main_v491 : V (Proc.devRef .tc main_v491) = Cert.ReferenceIdeal.ReadP.val_main_v491 (F := F) x0)
    (h_main_v492 : V (Proc.devRef .tc main_v492) = Cert.ReferenceIdeal.ReadP.val_main_v492 (F := F) x3)
    (h_main_v505 : V (Proc.devRef .tc main_v505) = Cert.ReferenceIdeal.ReadP.val_main_v505 (F := F) x0 x3)
    (h_main_v518 : V (Proc.devRef .tc main_v518) = Cert.ReferenceIdeal.ReadP.val_main_v518 (F := F) x0 x3)
    (h_main_v531 : V (Proc.devRef .tc main_v531) = Cert.ReferenceIdeal.ReadP.val_main_v531 (F := F) x0 x3)
    (h_main_v537 : V (Proc.devRef .tc main_v537) = Cert.ReferenceIdeal.ReadP.val_main_v537 (F := F) x0)
    (h_main_v539 : V (Proc.devRef .tc main_v539) = Cert.ReferenceIdeal.ReadP.val_main_v539 (F := F) x0)
    (h_main_v540 : V (Proc.devRef .tc main_v540) = Cert.ReferenceIdeal.ReadP.val_main_v540 (F := F)) :
    after (ops12 (F := F)) V (Proc.devRef .tc main_v464) = Cert.ReferenceIdeal.ReadP.val_main_v464 (F := F) x0 := by
  simp only [ops12]
  after_results_simp
  all_goals first
    | (simp only [h_main_v210, h_main_v421, h_main_v464, h_main_v470, h_main_v476, h_main_v477, h_main_v478, h_main_v483, h_main_v487, h_main_v491, h_main_v492, h_main_v505, h_main_v518, h_main_v531, h_main_v537, h_main_v539, h_main_v540]; done)
    | (simp only [h_main_v210, h_main_v421, h_main_v464, h_main_v470, h_main_v476, h_main_v477, h_main_v478, h_main_v483, h_main_v487, h_main_v491, h_main_v492, h_main_v505, h_main_v518, h_main_v531, h_main_v537, h_main_v539, h_main_v540]; rfl)
    | rfl

theorem win12_main_v470 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v464 : V (Proc.devRef .tc main_v464) = Cert.ReferenceIdeal.ReadP.val_main_v464 (F := F) x0)
    (h_main_v470 : V (Proc.devRef .tc main_v470) = Cert.ReferenceIdeal.ReadP.val_main_v470 (F := F) x0)
    (h_main_v476 : V (Proc.devRef .tc main_v476) = Cert.ReferenceIdeal.ReadP.val_main_v476 (F := F) x0)
    (h_main_v477 : V (Proc.devRef .tc main_v477) = Cert.ReferenceIdeal.ReadP.val_main_v477 (F := F) x0)
    (h_main_v478 : V (Proc.devRef .tc main_v478) = Cert.ReferenceIdeal.ReadP.val_main_v478 (F := F) x0)
    (h_main_v483 : V (Proc.devRef .tc main_v483) = Cert.ReferenceIdeal.ReadP.val_main_v483 (F := F) x0)
    (h_main_v487 : V (Proc.devRef .tc main_v487) = Cert.ReferenceIdeal.ReadP.val_main_v487 (F := F) x0)
    (h_main_v491 : V (Proc.devRef .tc main_v491) = Cert.ReferenceIdeal.ReadP.val_main_v491 (F := F) x0)
    (h_main_v492 : V (Proc.devRef .tc main_v492) = Cert.ReferenceIdeal.ReadP.val_main_v492 (F := F) x3)
    (h_main_v505 : V (Proc.devRef .tc main_v505) = Cert.ReferenceIdeal.ReadP.val_main_v505 (F := F) x0 x3)
    (h_main_v518 : V (Proc.devRef .tc main_v518) = Cert.ReferenceIdeal.ReadP.val_main_v518 (F := F) x0 x3)
    (h_main_v531 : V (Proc.devRef .tc main_v531) = Cert.ReferenceIdeal.ReadP.val_main_v531 (F := F) x0 x3)
    (h_main_v537 : V (Proc.devRef .tc main_v537) = Cert.ReferenceIdeal.ReadP.val_main_v537 (F := F) x0)
    (h_main_v539 : V (Proc.devRef .tc main_v539) = Cert.ReferenceIdeal.ReadP.val_main_v539 (F := F) x0)
    (h_main_v540 : V (Proc.devRef .tc main_v540) = Cert.ReferenceIdeal.ReadP.val_main_v540 (F := F)) :
    after (ops12 (F := F)) V (Proc.devRef .tc main_v470) = Cert.ReferenceIdeal.ReadP.val_main_v470 (F := F) x0 := by
  simp only [ops12]
  after_results_simp
  all_goals first
    | (simp only [h_main_v210, h_main_v421, h_main_v464, h_main_v470, h_main_v476, h_main_v477, h_main_v478, h_main_v483, h_main_v487, h_main_v491, h_main_v492, h_main_v505, h_main_v518, h_main_v531, h_main_v537, h_main_v539, h_main_v540]; done)
    | (simp only [h_main_v210, h_main_v421, h_main_v464, h_main_v470, h_main_v476, h_main_v477, h_main_v478, h_main_v483, h_main_v487, h_main_v491, h_main_v492, h_main_v505, h_main_v518, h_main_v531, h_main_v537, h_main_v539, h_main_v540]; rfl)
    | rfl

theorem win12_main_v476 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v464 : V (Proc.devRef .tc main_v464) = Cert.ReferenceIdeal.ReadP.val_main_v464 (F := F) x0)
    (h_main_v470 : V (Proc.devRef .tc main_v470) = Cert.ReferenceIdeal.ReadP.val_main_v470 (F := F) x0)
    (h_main_v476 : V (Proc.devRef .tc main_v476) = Cert.ReferenceIdeal.ReadP.val_main_v476 (F := F) x0)
    (h_main_v477 : V (Proc.devRef .tc main_v477) = Cert.ReferenceIdeal.ReadP.val_main_v477 (F := F) x0)
    (h_main_v478 : V (Proc.devRef .tc main_v478) = Cert.ReferenceIdeal.ReadP.val_main_v478 (F := F) x0)
    (h_main_v483 : V (Proc.devRef .tc main_v483) = Cert.ReferenceIdeal.ReadP.val_main_v483 (F := F) x0)
    (h_main_v487 : V (Proc.devRef .tc main_v487) = Cert.ReferenceIdeal.ReadP.val_main_v487 (F := F) x0)
    (h_main_v491 : V (Proc.devRef .tc main_v491) = Cert.ReferenceIdeal.ReadP.val_main_v491 (F := F) x0)
    (h_main_v492 : V (Proc.devRef .tc main_v492) = Cert.ReferenceIdeal.ReadP.val_main_v492 (F := F) x3)
    (h_main_v505 : V (Proc.devRef .tc main_v505) = Cert.ReferenceIdeal.ReadP.val_main_v505 (F := F) x0 x3)
    (h_main_v518 : V (Proc.devRef .tc main_v518) = Cert.ReferenceIdeal.ReadP.val_main_v518 (F := F) x0 x3)
    (h_main_v531 : V (Proc.devRef .tc main_v531) = Cert.ReferenceIdeal.ReadP.val_main_v531 (F := F) x0 x3)
    (h_main_v537 : V (Proc.devRef .tc main_v537) = Cert.ReferenceIdeal.ReadP.val_main_v537 (F := F) x0)
    (h_main_v539 : V (Proc.devRef .tc main_v539) = Cert.ReferenceIdeal.ReadP.val_main_v539 (F := F) x0)
    (h_main_v540 : V (Proc.devRef .tc main_v540) = Cert.ReferenceIdeal.ReadP.val_main_v540 (F := F)) :
    after (ops12 (F := F)) V (Proc.devRef .tc main_v476) = Cert.ReferenceIdeal.ReadP.val_main_v476 (F := F) x0 := by
  simp only [ops12]
  after_results_simp
  all_goals first
    | (simp only [h_main_v210, h_main_v421, h_main_v464, h_main_v470, h_main_v476, h_main_v477, h_main_v478, h_main_v483, h_main_v487, h_main_v491, h_main_v492, h_main_v505, h_main_v518, h_main_v531, h_main_v537, h_main_v539, h_main_v540]; done)
    | (simp only [h_main_v210, h_main_v421, h_main_v464, h_main_v470, h_main_v476, h_main_v477, h_main_v478, h_main_v483, h_main_v487, h_main_v491, h_main_v492, h_main_v505, h_main_v518, h_main_v531, h_main_v537, h_main_v539, h_main_v540]; rfl)
    | rfl

theorem win12_main_v483 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v464 : V (Proc.devRef .tc main_v464) = Cert.ReferenceIdeal.ReadP.val_main_v464 (F := F) x0)
    (h_main_v470 : V (Proc.devRef .tc main_v470) = Cert.ReferenceIdeal.ReadP.val_main_v470 (F := F) x0)
    (h_main_v476 : V (Proc.devRef .tc main_v476) = Cert.ReferenceIdeal.ReadP.val_main_v476 (F := F) x0)
    (h_main_v477 : V (Proc.devRef .tc main_v477) = Cert.ReferenceIdeal.ReadP.val_main_v477 (F := F) x0)
    (h_main_v478 : V (Proc.devRef .tc main_v478) = Cert.ReferenceIdeal.ReadP.val_main_v478 (F := F) x0)
    (h_main_v483 : V (Proc.devRef .tc main_v483) = Cert.ReferenceIdeal.ReadP.val_main_v483 (F := F) x0)
    (h_main_v487 : V (Proc.devRef .tc main_v487) = Cert.ReferenceIdeal.ReadP.val_main_v487 (F := F) x0)
    (h_main_v491 : V (Proc.devRef .tc main_v491) = Cert.ReferenceIdeal.ReadP.val_main_v491 (F := F) x0)
    (h_main_v492 : V (Proc.devRef .tc main_v492) = Cert.ReferenceIdeal.ReadP.val_main_v492 (F := F) x3)
    (h_main_v505 : V (Proc.devRef .tc main_v505) = Cert.ReferenceIdeal.ReadP.val_main_v505 (F := F) x0 x3)
    (h_main_v518 : V (Proc.devRef .tc main_v518) = Cert.ReferenceIdeal.ReadP.val_main_v518 (F := F) x0 x3)
    (h_main_v531 : V (Proc.devRef .tc main_v531) = Cert.ReferenceIdeal.ReadP.val_main_v531 (F := F) x0 x3)
    (h_main_v537 : V (Proc.devRef .tc main_v537) = Cert.ReferenceIdeal.ReadP.val_main_v537 (F := F) x0)
    (h_main_v539 : V (Proc.devRef .tc main_v539) = Cert.ReferenceIdeal.ReadP.val_main_v539 (F := F) x0)
    (h_main_v540 : V (Proc.devRef .tc main_v540) = Cert.ReferenceIdeal.ReadP.val_main_v540 (F := F)) :
    after (ops12 (F := F)) V (Proc.devRef .tc main_v483) = Cert.ReferenceIdeal.ReadP.val_main_v483 (F := F) x0 := by
  simp only [ops12]
  after_results_simp
  all_goals first
    | (simp only [h_main_v210, h_main_v421, h_main_v464, h_main_v470, h_main_v476, h_main_v477, h_main_v478, h_main_v483, h_main_v487, h_main_v491, h_main_v492, h_main_v505, h_main_v518, h_main_v531, h_main_v537, h_main_v539, h_main_v540]; done)
    | (simp only [h_main_v210, h_main_v421, h_main_v464, h_main_v470, h_main_v476, h_main_v477, h_main_v478, h_main_v483, h_main_v487, h_main_v491, h_main_v492, h_main_v505, h_main_v518, h_main_v531, h_main_v537, h_main_v539, h_main_v540]; rfl)
    | rfl

theorem win12_main_v492 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v464 : V (Proc.devRef .tc main_v464) = Cert.ReferenceIdeal.ReadP.val_main_v464 (F := F) x0)
    (h_main_v470 : V (Proc.devRef .tc main_v470) = Cert.ReferenceIdeal.ReadP.val_main_v470 (F := F) x0)
    (h_main_v476 : V (Proc.devRef .tc main_v476) = Cert.ReferenceIdeal.ReadP.val_main_v476 (F := F) x0)
    (h_main_v477 : V (Proc.devRef .tc main_v477) = Cert.ReferenceIdeal.ReadP.val_main_v477 (F := F) x0)
    (h_main_v478 : V (Proc.devRef .tc main_v478) = Cert.ReferenceIdeal.ReadP.val_main_v478 (F := F) x0)
    (h_main_v483 : V (Proc.devRef .tc main_v483) = Cert.ReferenceIdeal.ReadP.val_main_v483 (F := F) x0)
    (h_main_v487 : V (Proc.devRef .tc main_v487) = Cert.ReferenceIdeal.ReadP.val_main_v487 (F := F) x0)
    (h_main_v491 : V (Proc.devRef .tc main_v491) = Cert.ReferenceIdeal.ReadP.val_main_v491 (F := F) x0)
    (h_main_v492 : V (Proc.devRef .tc main_v492) = Cert.ReferenceIdeal.ReadP.val_main_v492 (F := F) x3)
    (h_main_v505 : V (Proc.devRef .tc main_v505) = Cert.ReferenceIdeal.ReadP.val_main_v505 (F := F) x0 x3)
    (h_main_v518 : V (Proc.devRef .tc main_v518) = Cert.ReferenceIdeal.ReadP.val_main_v518 (F := F) x0 x3)
    (h_main_v531 : V (Proc.devRef .tc main_v531) = Cert.ReferenceIdeal.ReadP.val_main_v531 (F := F) x0 x3)
    (h_main_v537 : V (Proc.devRef .tc main_v537) = Cert.ReferenceIdeal.ReadP.val_main_v537 (F := F) x0)
    (h_main_v539 : V (Proc.devRef .tc main_v539) = Cert.ReferenceIdeal.ReadP.val_main_v539 (F := F) x0)
    (h_main_v540 : V (Proc.devRef .tc main_v540) = Cert.ReferenceIdeal.ReadP.val_main_v540 (F := F)) :
    after (ops12 (F := F)) V (Proc.devRef .tc main_v492) = Cert.ReferenceIdeal.ReadP.val_main_v492 (F := F) x3 := by
  simp only [ops12]
  after_results_simp
  all_goals first
    | (simp only [h_main_v210, h_main_v421, h_main_v464, h_main_v470, h_main_v476, h_main_v477, h_main_v478, h_main_v483, h_main_v487, h_main_v491, h_main_v492, h_main_v505, h_main_v518, h_main_v531, h_main_v537, h_main_v539, h_main_v540]; done)
    | (simp only [h_main_v210, h_main_v421, h_main_v464, h_main_v470, h_main_v476, h_main_v477, h_main_v478, h_main_v483, h_main_v487, h_main_v491, h_main_v492, h_main_v505, h_main_v518, h_main_v531, h_main_v537, h_main_v539, h_main_v540]; rfl)
    | rfl

theorem win12_main_v505 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v464 : V (Proc.devRef .tc main_v464) = Cert.ReferenceIdeal.ReadP.val_main_v464 (F := F) x0)
    (h_main_v470 : V (Proc.devRef .tc main_v470) = Cert.ReferenceIdeal.ReadP.val_main_v470 (F := F) x0)
    (h_main_v476 : V (Proc.devRef .tc main_v476) = Cert.ReferenceIdeal.ReadP.val_main_v476 (F := F) x0)
    (h_main_v477 : V (Proc.devRef .tc main_v477) = Cert.ReferenceIdeal.ReadP.val_main_v477 (F := F) x0)
    (h_main_v478 : V (Proc.devRef .tc main_v478) = Cert.ReferenceIdeal.ReadP.val_main_v478 (F := F) x0)
    (h_main_v483 : V (Proc.devRef .tc main_v483) = Cert.ReferenceIdeal.ReadP.val_main_v483 (F := F) x0)
    (h_main_v487 : V (Proc.devRef .tc main_v487) = Cert.ReferenceIdeal.ReadP.val_main_v487 (F := F) x0)
    (h_main_v491 : V (Proc.devRef .tc main_v491) = Cert.ReferenceIdeal.ReadP.val_main_v491 (F := F) x0)
    (h_main_v492 : V (Proc.devRef .tc main_v492) = Cert.ReferenceIdeal.ReadP.val_main_v492 (F := F) x3)
    (h_main_v505 : V (Proc.devRef .tc main_v505) = Cert.ReferenceIdeal.ReadP.val_main_v505 (F := F) x0 x3)
    (h_main_v518 : V (Proc.devRef .tc main_v518) = Cert.ReferenceIdeal.ReadP.val_main_v518 (F := F) x0 x3)
    (h_main_v531 : V (Proc.devRef .tc main_v531) = Cert.ReferenceIdeal.ReadP.val_main_v531 (F := F) x0 x3)
    (h_main_v537 : V (Proc.devRef .tc main_v537) = Cert.ReferenceIdeal.ReadP.val_main_v537 (F := F) x0)
    (h_main_v539 : V (Proc.devRef .tc main_v539) = Cert.ReferenceIdeal.ReadP.val_main_v539 (F := F) x0)
    (h_main_v540 : V (Proc.devRef .tc main_v540) = Cert.ReferenceIdeal.ReadP.val_main_v540 (F := F)) :
    after (ops12 (F := F)) V (Proc.devRef .tc main_v505) = Cert.ReferenceIdeal.ReadP.val_main_v505 (F := F) x0 x3 := by
  simp only [ops12]
  after_results_simp
  all_goals first
    | (simp only [h_main_v210, h_main_v421, h_main_v464, h_main_v470, h_main_v476, h_main_v477, h_main_v478, h_main_v483, h_main_v487, h_main_v491, h_main_v492, h_main_v505, h_main_v518, h_main_v531, h_main_v537, h_main_v539, h_main_v540]; done)
    | (simp only [h_main_v210, h_main_v421, h_main_v464, h_main_v470, h_main_v476, h_main_v477, h_main_v478, h_main_v483, h_main_v487, h_main_v491, h_main_v492, h_main_v505, h_main_v518, h_main_v531, h_main_v537, h_main_v539, h_main_v540]; rfl)
    | rfl

theorem win12_main_v518 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v464 : V (Proc.devRef .tc main_v464) = Cert.ReferenceIdeal.ReadP.val_main_v464 (F := F) x0)
    (h_main_v470 : V (Proc.devRef .tc main_v470) = Cert.ReferenceIdeal.ReadP.val_main_v470 (F := F) x0)
    (h_main_v476 : V (Proc.devRef .tc main_v476) = Cert.ReferenceIdeal.ReadP.val_main_v476 (F := F) x0)
    (h_main_v477 : V (Proc.devRef .tc main_v477) = Cert.ReferenceIdeal.ReadP.val_main_v477 (F := F) x0)
    (h_main_v478 : V (Proc.devRef .tc main_v478) = Cert.ReferenceIdeal.ReadP.val_main_v478 (F := F) x0)
    (h_main_v483 : V (Proc.devRef .tc main_v483) = Cert.ReferenceIdeal.ReadP.val_main_v483 (F := F) x0)
    (h_main_v487 : V (Proc.devRef .tc main_v487) = Cert.ReferenceIdeal.ReadP.val_main_v487 (F := F) x0)
    (h_main_v491 : V (Proc.devRef .tc main_v491) = Cert.ReferenceIdeal.ReadP.val_main_v491 (F := F) x0)
    (h_main_v492 : V (Proc.devRef .tc main_v492) = Cert.ReferenceIdeal.ReadP.val_main_v492 (F := F) x3)
    (h_main_v505 : V (Proc.devRef .tc main_v505) = Cert.ReferenceIdeal.ReadP.val_main_v505 (F := F) x0 x3)
    (h_main_v518 : V (Proc.devRef .tc main_v518) = Cert.ReferenceIdeal.ReadP.val_main_v518 (F := F) x0 x3)
    (h_main_v531 : V (Proc.devRef .tc main_v531) = Cert.ReferenceIdeal.ReadP.val_main_v531 (F := F) x0 x3)
    (h_main_v537 : V (Proc.devRef .tc main_v537) = Cert.ReferenceIdeal.ReadP.val_main_v537 (F := F) x0)
    (h_main_v539 : V (Proc.devRef .tc main_v539) = Cert.ReferenceIdeal.ReadP.val_main_v539 (F := F) x0)
    (h_main_v540 : V (Proc.devRef .tc main_v540) = Cert.ReferenceIdeal.ReadP.val_main_v540 (F := F)) :
    after (ops12 (F := F)) V (Proc.devRef .tc main_v518) = Cert.ReferenceIdeal.ReadP.val_main_v518 (F := F) x0 x3 := by
  simp only [ops12]
  after_results_simp
  all_goals first
    | (simp only [h_main_v210, h_main_v421, h_main_v464, h_main_v470, h_main_v476, h_main_v477, h_main_v478, h_main_v483, h_main_v487, h_main_v491, h_main_v492, h_main_v505, h_main_v518, h_main_v531, h_main_v537, h_main_v539, h_main_v540]; done)
    | (simp only [h_main_v210, h_main_v421, h_main_v464, h_main_v470, h_main_v476, h_main_v477, h_main_v478, h_main_v483, h_main_v487, h_main_v491, h_main_v492, h_main_v505, h_main_v518, h_main_v531, h_main_v537, h_main_v539, h_main_v540]; rfl)
    | rfl

theorem win12_main_v531 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v464 : V (Proc.devRef .tc main_v464) = Cert.ReferenceIdeal.ReadP.val_main_v464 (F := F) x0)
    (h_main_v470 : V (Proc.devRef .tc main_v470) = Cert.ReferenceIdeal.ReadP.val_main_v470 (F := F) x0)
    (h_main_v476 : V (Proc.devRef .tc main_v476) = Cert.ReferenceIdeal.ReadP.val_main_v476 (F := F) x0)
    (h_main_v477 : V (Proc.devRef .tc main_v477) = Cert.ReferenceIdeal.ReadP.val_main_v477 (F := F) x0)
    (h_main_v478 : V (Proc.devRef .tc main_v478) = Cert.ReferenceIdeal.ReadP.val_main_v478 (F := F) x0)
    (h_main_v483 : V (Proc.devRef .tc main_v483) = Cert.ReferenceIdeal.ReadP.val_main_v483 (F := F) x0)
    (h_main_v487 : V (Proc.devRef .tc main_v487) = Cert.ReferenceIdeal.ReadP.val_main_v487 (F := F) x0)
    (h_main_v491 : V (Proc.devRef .tc main_v491) = Cert.ReferenceIdeal.ReadP.val_main_v491 (F := F) x0)
    (h_main_v492 : V (Proc.devRef .tc main_v492) = Cert.ReferenceIdeal.ReadP.val_main_v492 (F := F) x3)
    (h_main_v505 : V (Proc.devRef .tc main_v505) = Cert.ReferenceIdeal.ReadP.val_main_v505 (F := F) x0 x3)
    (h_main_v518 : V (Proc.devRef .tc main_v518) = Cert.ReferenceIdeal.ReadP.val_main_v518 (F := F) x0 x3)
    (h_main_v531 : V (Proc.devRef .tc main_v531) = Cert.ReferenceIdeal.ReadP.val_main_v531 (F := F) x0 x3)
    (h_main_v537 : V (Proc.devRef .tc main_v537) = Cert.ReferenceIdeal.ReadP.val_main_v537 (F := F) x0)
    (h_main_v539 : V (Proc.devRef .tc main_v539) = Cert.ReferenceIdeal.ReadP.val_main_v539 (F := F) x0)
    (h_main_v540 : V (Proc.devRef .tc main_v540) = Cert.ReferenceIdeal.ReadP.val_main_v540 (F := F)) :
    after (ops12 (F := F)) V (Proc.devRef .tc main_v531) = Cert.ReferenceIdeal.ReadP.val_main_v531 (F := F) x0 x3 := by
  simp only [ops12]
  after_results_simp
  all_goals first
    | (simp only [h_main_v210, h_main_v421, h_main_v464, h_main_v470, h_main_v476, h_main_v477, h_main_v478, h_main_v483, h_main_v487, h_main_v491, h_main_v492, h_main_v505, h_main_v518, h_main_v531, h_main_v537, h_main_v539, h_main_v540]; done)
    | (simp only [h_main_v210, h_main_v421, h_main_v464, h_main_v470, h_main_v476, h_main_v477, h_main_v478, h_main_v483, h_main_v487, h_main_v491, h_main_v492, h_main_v505, h_main_v518, h_main_v531, h_main_v537, h_main_v539, h_main_v540]; rfl)
    | rfl

theorem win12_main_v544 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v464 : V (Proc.devRef .tc main_v464) = Cert.ReferenceIdeal.ReadP.val_main_v464 (F := F) x0)
    (h_main_v470 : V (Proc.devRef .tc main_v470) = Cert.ReferenceIdeal.ReadP.val_main_v470 (F := F) x0)
    (h_main_v476 : V (Proc.devRef .tc main_v476) = Cert.ReferenceIdeal.ReadP.val_main_v476 (F := F) x0)
    (h_main_v477 : V (Proc.devRef .tc main_v477) = Cert.ReferenceIdeal.ReadP.val_main_v477 (F := F) x0)
    (h_main_v478 : V (Proc.devRef .tc main_v478) = Cert.ReferenceIdeal.ReadP.val_main_v478 (F := F) x0)
    (h_main_v483 : V (Proc.devRef .tc main_v483) = Cert.ReferenceIdeal.ReadP.val_main_v483 (F := F) x0)
    (h_main_v487 : V (Proc.devRef .tc main_v487) = Cert.ReferenceIdeal.ReadP.val_main_v487 (F := F) x0)
    (h_main_v491 : V (Proc.devRef .tc main_v491) = Cert.ReferenceIdeal.ReadP.val_main_v491 (F := F) x0)
    (h_main_v492 : V (Proc.devRef .tc main_v492) = Cert.ReferenceIdeal.ReadP.val_main_v492 (F := F) x3)
    (h_main_v505 : V (Proc.devRef .tc main_v505) = Cert.ReferenceIdeal.ReadP.val_main_v505 (F := F) x0 x3)
    (h_main_v518 : V (Proc.devRef .tc main_v518) = Cert.ReferenceIdeal.ReadP.val_main_v518 (F := F) x0 x3)
    (h_main_v531 : V (Proc.devRef .tc main_v531) = Cert.ReferenceIdeal.ReadP.val_main_v531 (F := F) x0 x3)
    (h_main_v537 : V (Proc.devRef .tc main_v537) = Cert.ReferenceIdeal.ReadP.val_main_v537 (F := F) x0)
    (h_main_v539 : V (Proc.devRef .tc main_v539) = Cert.ReferenceIdeal.ReadP.val_main_v539 (F := F) x0)
    (h_main_v540 : V (Proc.devRef .tc main_v540) = Cert.ReferenceIdeal.ReadP.val_main_v540 (F := F)) :
    after (ops12 (F := F)) V (Proc.devRef .tc main_v544) = Cert.ReferenceIdeal.ReadP.val_main_v544 (F := F) x0 x3 := by
  simp only [ops12]
  after_results_simp
  all_goals first
    | (simp only [h_main_v210, h_main_v421, h_main_v464, h_main_v470, h_main_v476, h_main_v477, h_main_v478, h_main_v483, h_main_v487, h_main_v491, h_main_v492, h_main_v505, h_main_v518, h_main_v531, h_main_v537, h_main_v539, h_main_v540]; done)
    | (simp only [h_main_v210, h_main_v421, h_main_v464, h_main_v470, h_main_v476, h_main_v477, h_main_v478, h_main_v483, h_main_v487, h_main_v491, h_main_v492, h_main_v505, h_main_v518, h_main_v531, h_main_v537, h_main_v539, h_main_v540]; rfl)
    | rfl

theorem win12_main_v557 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v464 : V (Proc.devRef .tc main_v464) = Cert.ReferenceIdeal.ReadP.val_main_v464 (F := F) x0)
    (h_main_v470 : V (Proc.devRef .tc main_v470) = Cert.ReferenceIdeal.ReadP.val_main_v470 (F := F) x0)
    (h_main_v476 : V (Proc.devRef .tc main_v476) = Cert.ReferenceIdeal.ReadP.val_main_v476 (F := F) x0)
    (h_main_v477 : V (Proc.devRef .tc main_v477) = Cert.ReferenceIdeal.ReadP.val_main_v477 (F := F) x0)
    (h_main_v478 : V (Proc.devRef .tc main_v478) = Cert.ReferenceIdeal.ReadP.val_main_v478 (F := F) x0)
    (h_main_v483 : V (Proc.devRef .tc main_v483) = Cert.ReferenceIdeal.ReadP.val_main_v483 (F := F) x0)
    (h_main_v487 : V (Proc.devRef .tc main_v487) = Cert.ReferenceIdeal.ReadP.val_main_v487 (F := F) x0)
    (h_main_v491 : V (Proc.devRef .tc main_v491) = Cert.ReferenceIdeal.ReadP.val_main_v491 (F := F) x0)
    (h_main_v492 : V (Proc.devRef .tc main_v492) = Cert.ReferenceIdeal.ReadP.val_main_v492 (F := F) x3)
    (h_main_v505 : V (Proc.devRef .tc main_v505) = Cert.ReferenceIdeal.ReadP.val_main_v505 (F := F) x0 x3)
    (h_main_v518 : V (Proc.devRef .tc main_v518) = Cert.ReferenceIdeal.ReadP.val_main_v518 (F := F) x0 x3)
    (h_main_v531 : V (Proc.devRef .tc main_v531) = Cert.ReferenceIdeal.ReadP.val_main_v531 (F := F) x0 x3)
    (h_main_v537 : V (Proc.devRef .tc main_v537) = Cert.ReferenceIdeal.ReadP.val_main_v537 (F := F) x0)
    (h_main_v539 : V (Proc.devRef .tc main_v539) = Cert.ReferenceIdeal.ReadP.val_main_v539 (F := F) x0)
    (h_main_v540 : V (Proc.devRef .tc main_v540) = Cert.ReferenceIdeal.ReadP.val_main_v540 (F := F)) :
    after (ops12 (F := F)) V (Proc.devRef .tc main_v557) = Cert.ReferenceIdeal.ReadP.val_main_v557 (F := F) x0 x3 := by
  simp only [ops12]
  after_results_simp
  all_goals first
    | (simp only [h_main_v210, h_main_v421, h_main_v464, h_main_v470, h_main_v476, h_main_v477, h_main_v478, h_main_v483, h_main_v487, h_main_v491, h_main_v492, h_main_v505, h_main_v518, h_main_v531, h_main_v537, h_main_v539, h_main_v540]; done)
    | (simp only [h_main_v210, h_main_v421, h_main_v464, h_main_v470, h_main_v476, h_main_v477, h_main_v478, h_main_v483, h_main_v487, h_main_v491, h_main_v492, h_main_v505, h_main_v518, h_main_v531, h_main_v537, h_main_v539, h_main_v540]; rfl)
    | rfl

theorem win12_main_v570 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v464 : V (Proc.devRef .tc main_v464) = Cert.ReferenceIdeal.ReadP.val_main_v464 (F := F) x0)
    (h_main_v470 : V (Proc.devRef .tc main_v470) = Cert.ReferenceIdeal.ReadP.val_main_v470 (F := F) x0)
    (h_main_v476 : V (Proc.devRef .tc main_v476) = Cert.ReferenceIdeal.ReadP.val_main_v476 (F := F) x0)
    (h_main_v477 : V (Proc.devRef .tc main_v477) = Cert.ReferenceIdeal.ReadP.val_main_v477 (F := F) x0)
    (h_main_v478 : V (Proc.devRef .tc main_v478) = Cert.ReferenceIdeal.ReadP.val_main_v478 (F := F) x0)
    (h_main_v483 : V (Proc.devRef .tc main_v483) = Cert.ReferenceIdeal.ReadP.val_main_v483 (F := F) x0)
    (h_main_v487 : V (Proc.devRef .tc main_v487) = Cert.ReferenceIdeal.ReadP.val_main_v487 (F := F) x0)
    (h_main_v491 : V (Proc.devRef .tc main_v491) = Cert.ReferenceIdeal.ReadP.val_main_v491 (F := F) x0)
    (h_main_v492 : V (Proc.devRef .tc main_v492) = Cert.ReferenceIdeal.ReadP.val_main_v492 (F := F) x3)
    (h_main_v505 : V (Proc.devRef .tc main_v505) = Cert.ReferenceIdeal.ReadP.val_main_v505 (F := F) x0 x3)
    (h_main_v518 : V (Proc.devRef .tc main_v518) = Cert.ReferenceIdeal.ReadP.val_main_v518 (F := F) x0 x3)
    (h_main_v531 : V (Proc.devRef .tc main_v531) = Cert.ReferenceIdeal.ReadP.val_main_v531 (F := F) x0 x3)
    (h_main_v537 : V (Proc.devRef .tc main_v537) = Cert.ReferenceIdeal.ReadP.val_main_v537 (F := F) x0)
    (h_main_v539 : V (Proc.devRef .tc main_v539) = Cert.ReferenceIdeal.ReadP.val_main_v539 (F := F) x0)
    (h_main_v540 : V (Proc.devRef .tc main_v540) = Cert.ReferenceIdeal.ReadP.val_main_v540 (F := F)) :
    after (ops12 (F := F)) V (Proc.devRef .tc main_v570) = Cert.ReferenceIdeal.ReadP.val_main_v570 (F := F) x0 x3 := by
  simp only [ops12]
  after_results_simp
  all_goals first
    | (simp only [h_main_v210, h_main_v421, h_main_v464, h_main_v470, h_main_v476, h_main_v477, h_main_v478, h_main_v483, h_main_v487, h_main_v491, h_main_v492, h_main_v505, h_main_v518, h_main_v531, h_main_v537, h_main_v539, h_main_v540]; done)
    | (simp only [h_main_v210, h_main_v421, h_main_v464, h_main_v470, h_main_v476, h_main_v477, h_main_v478, h_main_v483, h_main_v487, h_main_v491, h_main_v492, h_main_v505, h_main_v518, h_main_v531, h_main_v537, h_main_v539, h_main_v540]; rfl)
    | rfl

theorem win12_main_v583 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v464 : V (Proc.devRef .tc main_v464) = Cert.ReferenceIdeal.ReadP.val_main_v464 (F := F) x0)
    (h_main_v470 : V (Proc.devRef .tc main_v470) = Cert.ReferenceIdeal.ReadP.val_main_v470 (F := F) x0)
    (h_main_v476 : V (Proc.devRef .tc main_v476) = Cert.ReferenceIdeal.ReadP.val_main_v476 (F := F) x0)
    (h_main_v477 : V (Proc.devRef .tc main_v477) = Cert.ReferenceIdeal.ReadP.val_main_v477 (F := F) x0)
    (h_main_v478 : V (Proc.devRef .tc main_v478) = Cert.ReferenceIdeal.ReadP.val_main_v478 (F := F) x0)
    (h_main_v483 : V (Proc.devRef .tc main_v483) = Cert.ReferenceIdeal.ReadP.val_main_v483 (F := F) x0)
    (h_main_v487 : V (Proc.devRef .tc main_v487) = Cert.ReferenceIdeal.ReadP.val_main_v487 (F := F) x0)
    (h_main_v491 : V (Proc.devRef .tc main_v491) = Cert.ReferenceIdeal.ReadP.val_main_v491 (F := F) x0)
    (h_main_v492 : V (Proc.devRef .tc main_v492) = Cert.ReferenceIdeal.ReadP.val_main_v492 (F := F) x3)
    (h_main_v505 : V (Proc.devRef .tc main_v505) = Cert.ReferenceIdeal.ReadP.val_main_v505 (F := F) x0 x3)
    (h_main_v518 : V (Proc.devRef .tc main_v518) = Cert.ReferenceIdeal.ReadP.val_main_v518 (F := F) x0 x3)
    (h_main_v531 : V (Proc.devRef .tc main_v531) = Cert.ReferenceIdeal.ReadP.val_main_v531 (F := F) x0 x3)
    (h_main_v537 : V (Proc.devRef .tc main_v537) = Cert.ReferenceIdeal.ReadP.val_main_v537 (F := F) x0)
    (h_main_v539 : V (Proc.devRef .tc main_v539) = Cert.ReferenceIdeal.ReadP.val_main_v539 (F := F) x0)
    (h_main_v540 : V (Proc.devRef .tc main_v540) = Cert.ReferenceIdeal.ReadP.val_main_v540 (F := F)) :
    after (ops12 (F := F)) V (Proc.devRef .tc main_v583) = Cert.ReferenceIdeal.ReadP.val_main_v583 (F := F) x0 x3 := by
  simp only [ops12]
  after_results_simp
  all_goals first
    | (simp only [h_main_v210, h_main_v421, h_main_v464, h_main_v470, h_main_v476, h_main_v477, h_main_v478, h_main_v483, h_main_v487, h_main_v491, h_main_v492, h_main_v505, h_main_v518, h_main_v531, h_main_v537, h_main_v539, h_main_v540]; done)
    | (simp only [h_main_v210, h_main_v421, h_main_v464, h_main_v470, h_main_v476, h_main_v477, h_main_v478, h_main_v483, h_main_v487, h_main_v491, h_main_v492, h_main_v505, h_main_v518, h_main_v531, h_main_v537, h_main_v539, h_main_v540]; rfl)
    | rfl

theorem win12_main_v586 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v464 : V (Proc.devRef .tc main_v464) = Cert.ReferenceIdeal.ReadP.val_main_v464 (F := F) x0)
    (h_main_v470 : V (Proc.devRef .tc main_v470) = Cert.ReferenceIdeal.ReadP.val_main_v470 (F := F) x0)
    (h_main_v476 : V (Proc.devRef .tc main_v476) = Cert.ReferenceIdeal.ReadP.val_main_v476 (F := F) x0)
    (h_main_v477 : V (Proc.devRef .tc main_v477) = Cert.ReferenceIdeal.ReadP.val_main_v477 (F := F) x0)
    (h_main_v478 : V (Proc.devRef .tc main_v478) = Cert.ReferenceIdeal.ReadP.val_main_v478 (F := F) x0)
    (h_main_v483 : V (Proc.devRef .tc main_v483) = Cert.ReferenceIdeal.ReadP.val_main_v483 (F := F) x0)
    (h_main_v487 : V (Proc.devRef .tc main_v487) = Cert.ReferenceIdeal.ReadP.val_main_v487 (F := F) x0)
    (h_main_v491 : V (Proc.devRef .tc main_v491) = Cert.ReferenceIdeal.ReadP.val_main_v491 (F := F) x0)
    (h_main_v492 : V (Proc.devRef .tc main_v492) = Cert.ReferenceIdeal.ReadP.val_main_v492 (F := F) x3)
    (h_main_v505 : V (Proc.devRef .tc main_v505) = Cert.ReferenceIdeal.ReadP.val_main_v505 (F := F) x0 x3)
    (h_main_v518 : V (Proc.devRef .tc main_v518) = Cert.ReferenceIdeal.ReadP.val_main_v518 (F := F) x0 x3)
    (h_main_v531 : V (Proc.devRef .tc main_v531) = Cert.ReferenceIdeal.ReadP.val_main_v531 (F := F) x0 x3)
    (h_main_v537 : V (Proc.devRef .tc main_v537) = Cert.ReferenceIdeal.ReadP.val_main_v537 (F := F) x0)
    (h_main_v539 : V (Proc.devRef .tc main_v539) = Cert.ReferenceIdeal.ReadP.val_main_v539 (F := F) x0)
    (h_main_v540 : V (Proc.devRef .tc main_v540) = Cert.ReferenceIdeal.ReadP.val_main_v540 (F := F)) :
    after (ops12 (F := F)) V (Proc.devRef .tc main_v586) = Cert.ReferenceIdeal.ReadP.val_main_v586 (F := F) x0 := by
  simp only [ops12]
  after_results_simp
  all_goals first
    | (simp only [h_main_v210, h_main_v421, h_main_v464, h_main_v470, h_main_v476, h_main_v477, h_main_v478, h_main_v483, h_main_v487, h_main_v491, h_main_v492, h_main_v505, h_main_v518, h_main_v531, h_main_v537, h_main_v539, h_main_v540]; done)
    | (simp only [h_main_v210, h_main_v421, h_main_v464, h_main_v470, h_main_v476, h_main_v477, h_main_v478, h_main_v483, h_main_v487, h_main_v491, h_main_v492, h_main_v505, h_main_v518, h_main_v531, h_main_v537, h_main_v539, h_main_v540]; rfl)
    | rfl

theorem win12_main_c_190 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v464 : V (Proc.devRef .tc main_v464) = Cert.ReferenceIdeal.ReadP.val_main_v464 (F := F) x0)
    (h_main_v470 : V (Proc.devRef .tc main_v470) = Cert.ReferenceIdeal.ReadP.val_main_v470 (F := F) x0)
    (h_main_v476 : V (Proc.devRef .tc main_v476) = Cert.ReferenceIdeal.ReadP.val_main_v476 (F := F) x0)
    (h_main_v477 : V (Proc.devRef .tc main_v477) = Cert.ReferenceIdeal.ReadP.val_main_v477 (F := F) x0)
    (h_main_v478 : V (Proc.devRef .tc main_v478) = Cert.ReferenceIdeal.ReadP.val_main_v478 (F := F) x0)
    (h_main_v483 : V (Proc.devRef .tc main_v483) = Cert.ReferenceIdeal.ReadP.val_main_v483 (F := F) x0)
    (h_main_v487 : V (Proc.devRef .tc main_v487) = Cert.ReferenceIdeal.ReadP.val_main_v487 (F := F) x0)
    (h_main_v491 : V (Proc.devRef .tc main_v491) = Cert.ReferenceIdeal.ReadP.val_main_v491 (F := F) x0)
    (h_main_v492 : V (Proc.devRef .tc main_v492) = Cert.ReferenceIdeal.ReadP.val_main_v492 (F := F) x3)
    (h_main_v505 : V (Proc.devRef .tc main_v505) = Cert.ReferenceIdeal.ReadP.val_main_v505 (F := F) x0 x3)
    (h_main_v518 : V (Proc.devRef .tc main_v518) = Cert.ReferenceIdeal.ReadP.val_main_v518 (F := F) x0 x3)
    (h_main_v531 : V (Proc.devRef .tc main_v531) = Cert.ReferenceIdeal.ReadP.val_main_v531 (F := F) x0 x3)
    (h_main_v537 : V (Proc.devRef .tc main_v537) = Cert.ReferenceIdeal.ReadP.val_main_v537 (F := F) x0)
    (h_main_v539 : V (Proc.devRef .tc main_v539) = Cert.ReferenceIdeal.ReadP.val_main_v539 (F := F) x0)
    (h_main_v540 : V (Proc.devRef .tc main_v540) = Cert.ReferenceIdeal.ReadP.val_main_v540 (F := F)) :
    after (ops12 (F := F)) V (Proc.devRef .tc main_c_190) = Cert.ReferenceIdeal.ReadP.val_main_c_190 (F := F) := by
  simp only [ops12]
  after_results_simp
  all_goals first
    | (simp only [h_main_v210, h_main_v421, h_main_v464, h_main_v470, h_main_v476, h_main_v477, h_main_v478, h_main_v483, h_main_v487, h_main_v491, h_main_v492, h_main_v505, h_main_v518, h_main_v531, h_main_v537, h_main_v539, h_main_v540]; done)
    | (simp only [h_main_v210, h_main_v421, h_main_v464, h_main_v470, h_main_v476, h_main_v477, h_main_v478, h_main_v483, h_main_v487, h_main_v491, h_main_v492, h_main_v505, h_main_v518, h_main_v531, h_main_v537, h_main_v539, h_main_v540]; rfl)
    | rfl

end Cert.ReferenceIdeal.RunH

end
-- ==== Proof.RefWin13.lean ====
/-
  The last window of the reference's @main: its first 48 operations finish volume 2's interpolation, and its last one
  concatenates the three volumes' results. From contents `V` holding the stage functions at the buffers live on entry,
  the result buffer after the window holds the last stage function.
-/
import proofs.«113233_j37486474559588_2_alg».proof.Proof.RefOps
import proofs.«113233_j37486474559588_2_alg».proof.Proof.RefReadP

set_option maxRecDepth 65536
set_option maxHeartbeats 40000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The window's operations before the closing concatenation. -/
abbrev ops13init : List (HloOp τ sig (Elt F)) :=
  [ unary main_c_190 main_v587 (broadcastInDim S1048576 ![] bcast_S_S1048576 : (⟨S_, .i32⟩ : BufTy).Contents (Elt F) → (⟨S1048576, .i32⟩ : BufTy).Contents (Elt F)),
    binary main_v586 main_v587 main_v588 (muli : (⟨S1048576, .i32⟩ : BufTy).Contents (Elt F) → (⟨S1048576, .i32⟩ : BufTy).Contents (Elt F) → (⟨S1048576, .i32⟩ : BufTy).Contents (Elt F)),
    binary main_v588 main_v483 main_v589 (addi : (⟨S1048576, .i32⟩ : BufTy).Contents (Elt F) → (⟨S1048576, .i32⟩ : BufTy).Contents (Elt F) → (⟨S1048576, .i32⟩ : BufTy).Contents (Elt F)),
    nullary main_c_191 (constantI S_ 32 0#32),
    unary main_c_191 main_v590 (broadcastInDim S1048576 ![] bcast_S_S1048576 : (⟨S_, .i32⟩ : BufTy).Contents (Elt F) → (⟨S1048576, .i32⟩ : BufTy).Contents (Elt F)),
    binary main_v589 main_v590 main_v591 (cmpi .slt : (⟨S1048576, .i32⟩ : BufTy).Contents (Elt F) → (⟨S1048576, .i32⟩ : BufTy).Contents (Elt F) → (⟨S1048576, .i1⟩ : BufTy).Contents (Elt F)),
    nullary main_c_192 (constantI S_ 32 7077888#32),
    unary main_c_192 main_v592 (broadcastInDim S1048576 ![] bcast_S_S1048576 : (⟨S_, .i32⟩ : BufTy).Contents (Elt F) → (⟨S1048576, .i32⟩ : BufTy).Contents (Elt F)),
    binary main_v589 main_v592 main_v593 (addi : (⟨S1048576, .i32⟩ : BufTy).Contents (Elt F) → (⟨S1048576, .i32⟩ : BufTy).Contents (Elt F) → (⟨S1048576, .i32⟩ : BufTy).Contents (Elt F)),
    ternary main_v591 main_v593 main_v589 main_v594 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v594 main_v595 (broadcastInDim S1048576x1 ![0] bcast_S1048576_S1048576x1_0 : (⟨S1048576, .i32⟩ : BufTy).Contents (Elt F) → (⟨S1048576x1, .i32⟩ : BufTy).Contents (Elt F)),
    binary main_v492 main_v595 main_v596 ((fun x i => Host.gather gather_S4x7077888_S1048576x1_S4x1048576_0_1_n_n_1_1_41 x i) : (⟨S4x7077888, .f32⟩ : BufTy).Contents (Elt F) → (⟨S1048576x1, .i32⟩ : BufTy).Contents (Elt F) → (⟨S4x1048576, .f32⟩ : BufTy).Contents (Elt F)),
    binary main_v518 main_v505 main_v597 (subf : (⟨S4x1048576, .f32⟩ : BufTy).Contents (Elt F) → (⟨S4x1048576, .f32⟩ : BufTy).Contents (Elt F) → (⟨S4x1048576, .f32⟩ : BufTy).Contents (Elt F)),
    unary main_v464 main_v598 (broadcastInDim S1x1048576 ![1] bcast_S1048576_S1x1048576_1 : (⟨S1048576, .f32⟩ : BufTy).Contents (Elt F) → (⟨S1x1048576, .f32⟩ : BufTy).Contents (Elt F)),
    unary main_v598 main_v599 (broadcastInDim S4x1048576 ![0, 1] bcast_S1x1048576_S4x1048576_0_1 : (⟨S1x1048576, .f32⟩ : BufTy).Contents (Elt F) → (⟨S4x1048576, .f32⟩ : BufTy).Contents (Elt F)),
    binary main_v597 main_v599 main_v600 (mulf : (⟨S4x1048576, .f32⟩ : BufTy).Contents (Elt F) → (⟨S4x1048576, .f32⟩ : BufTy).Contents (Elt F) → (⟨S4x1048576, .f32⟩ : BufTy).Contents (Elt F)),
    binary main_v505 main_v600 main_v601 (addf : (⟨S4x1048576, .f32⟩ : BufTy).Contents (Elt F) → (⟨S4x1048576, .f32⟩ : BufTy).Contents (Elt F) → (⟨S4x1048576, .f32⟩ : BufTy).Contents (Elt F)),
    binary main_v544 main_v531 main_v602 (subf : (⟨S4x1048576, .f32⟩ : BufTy).Contents (Elt F) → (⟨S4x1048576, .f32⟩ : BufTy).Contents (Elt F) → (⟨S4x1048576, .f32⟩ : BufTy).Contents (Elt F)),
    unary main_v464 main_v603 (broadcastInDim S1x1048576 ![1] bcast_S1048576_S1x1048576_1 : (⟨S1048576, .f32⟩ : BufTy).Contents (Elt F) → (⟨S1x1048576, .f32⟩ : BufTy).Contents (Elt F)),
    unary main_v603 main_v604 (broadcastInDim S4x1048576 ![0, 1] bcast_S1x1048576_S4x1048576_0_1 : (⟨S1x1048576, .f32⟩ : BufTy).Contents (Elt F) → (⟨S4x1048576, .f32⟩ : BufTy).Contents (Elt F)),
    binary main_v602 main_v604 main_v605 (mulf : (⟨S4x1048576, .f32⟩ : BufTy).Contents (Elt F) → (⟨S4x1048576, .f32⟩ : BufTy).Contents (Elt F) → (⟨S4x1048576, .f32⟩ : BufTy).Contents (Elt F)),
    binary main_v531 main_v605 main_v606 (addf : (⟨S4x1048576, .f32⟩ : BufTy).Contents (Elt F) → (⟨S4x1048576, .f32⟩ : BufTy).Contents (Elt F) → (⟨S4x1048576, .f32⟩ : BufTy).Contents (Elt F)),
    binary main_v570 main_v557 main_v607 (subf : (⟨S4x1048576, .f32⟩ : BufTy).Contents (Elt F) → (⟨S4x1048576, .f32⟩ : BufTy).Contents (Elt F) → (⟨S4x1048576, .f32⟩ : BufTy).Contents (Elt F)),
    unary main_v464 main_v608 (broadcastInDim S1x1048576 ![1] bcast_S1048576_S1x1048576_1 : (⟨S1048576, .f32⟩ : BufTy).Contents (Elt F) → (⟨S1x1048576, .f32⟩ : BufTy).Contents (Elt F)),
    unary main_v608 main_v609 (broadcastInDim S4x1048576 ![0, 1] bcast_S1x1048576_S4x1048576_0_1 : (⟨S1x1048576, .f32⟩ : BufTy).Contents (Elt F) → (⟨S4x1048576, .f32⟩ : BufTy).Contents (Elt F)),
    binary main_v607 main_v609 main_v610 (mulf : (⟨S4x1048576, .f32⟩ : BufTy).Contents (Elt F) → (⟨S4x1048576, .f32⟩ : BufTy).Contents (Elt F) → (⟨S4x1048576, .f32⟩ : BufTy).Contents (Elt F)),
    binary main_v557 main_v610 main_v611 (addf : (⟨S4x1048576, .f32⟩ : BufTy).Contents (Elt F) → (⟨S4x1048576, .f32⟩ : BufTy).Contents (Elt F) → (⟨S4x1048576, .f32⟩ : BufTy).Contents (Elt F)),
    binary main_v596 main_v583 main_v612 (subf : (⟨S4x1048576, .f32⟩ : BufTy).Contents (Elt F) → (⟨S4x1048576, .f32⟩ : BufTy).Contents (Elt F) → (⟨S4x1048576, .f32⟩ : BufTy).Contents (Elt F)),
    unary main_v464 main_v613 (broadcastInDim S1x1048576 ![1] bcast_S1048576_S1x1048576_1 : (⟨S1048576, .f32⟩ : BufTy).Contents (Elt F) → (⟨S1x1048576, .f32⟩ : BufTy).Contents (Elt F)),
    unary main_v613 main_v614 (broadcastInDim S4x1048576 ![0, 1] bcast_S1x1048576_S4x1048576_0_1 : (⟨S1x1048576, .f32⟩ : BufTy).Contents (Elt F) → (⟨S4x1048576, .f32⟩ : BufTy).Contents (Elt F)),
    binary main_v612 main_v614 main_v615 (mulf : (⟨S4x1048576, .f32⟩ : BufTy).Contents (Elt F) → (⟨S4x1048576, .f32⟩ : BufTy).Contents (Elt F) → (⟨S4x1048576, .f32⟩ : BufTy).Contents (Elt F)),
    binary main_v583 main_v615 main_v616 (addf : (⟨S4x1048576, .f32⟩ : BufTy).Contents (Elt F) → (⟨S4x1048576, .f32⟩ : BufTy).Contents (Elt F) → (⟨S4x1048576, .f32⟩ : BufTy).Contents (Elt F)),
    binary main_v606 main_v601 main_v617 (subf : (⟨S4x1048576, .f32⟩ : BufTy).Contents (Elt F) → (⟨S4x1048576, .f32⟩ : BufTy).Contents (Elt F) → (⟨S4x1048576, .f32⟩ : BufTy).Contents (Elt F)),
    unary main_v470 main_v618 (broadcastInDim S1x1048576 ![1] bcast_S1048576_S1x1048576_1 : (⟨S1048576, .f32⟩ : BufTy).Contents (Elt F) → (⟨S1x1048576, .f32⟩ : BufTy).Contents (Elt F)),
    unary main_v618 main_v619 (broadcastInDim S4x1048576 ![0, 1] bcast_S1x1048576_S4x1048576_0_1 : (⟨S1x1048576, .f32⟩ : BufTy).Contents (Elt F) → (⟨S4x1048576, .f32⟩ : BufTy).Contents (Elt F)),
    binary main_v617 main_v619 main_v620 (mulf : (⟨S4x1048576, .f32⟩ : BufTy).Contents (Elt F) → (⟨S4x1048576, .f32⟩ : BufTy).Contents (Elt F) → (⟨S4x1048576, .f32⟩ : BufTy).Contents (Elt F)),
    binary main_v601 main_v620 main_v621 (addf : (⟨S4x1048576, .f32⟩ : BufTy).Contents (Elt F) → (⟨S4x1048576, .f32⟩ : BufTy).Contents (Elt F) → (⟨S4x1048576, .f32⟩ : BufTy).Contents (Elt F)),
    binary main_v616 main_v611 main_v622 (subf : (⟨S4x1048576, .f32⟩ : BufTy).Contents (Elt F) → (⟨S4x1048576, .f32⟩ : BufTy).Contents (Elt F) → (⟨S4x1048576, .f32⟩ : BufTy).Contents (Elt F)),
    unary main_v470 main_v623 (broadcastInDim S1x1048576 ![1] bcast_S1048576_S1x1048576_1 : (⟨S1048576, .f32⟩ : BufTy).Contents (Elt F) → (⟨S1x1048576, .f32⟩ : BufTy).Contents (Elt F)),
    unary main_v623 main_v624 (broadcastInDim S4x1048576 ![0, 1] bcast_S1x1048576_S4x1048576_0_1 : (⟨S1x1048576, .f32⟩ : BufTy).Contents (Elt F) → (⟨S4x1048576, .f32⟩ : BufTy).Contents (Elt F)),
    binary main_v622 main_v624 main_v625 (mulf : (⟨S4x1048576, .f32⟩ : BufTy).Contents (Elt F) → (⟨S4x1048576, .f32⟩ : BufTy).Contents (Elt F) → (⟨S4x1048576, .f32⟩ : BufTy).Contents (Elt F)),
    binary main_v611 main_v625 main_v626 (addf : (⟨S4x1048576, .f32⟩ : BufTy).Contents (Elt F) → (⟨S4x1048576, .f32⟩ : BufTy).Contents (Elt F) → (⟨S4x1048576, .f32⟩ : BufTy).Contents (Elt F)),
    binary main_v626 main_v621 main_v627 (subf : (⟨S4x1048576, .f32⟩ : BufTy).Contents (Elt F) → (⟨S4x1048576, .f32⟩ : BufTy).Contents (Elt F) → (⟨S4x1048576, .f32⟩ : BufTy).Contents (Elt F)),
    unary main_v476 main_v628 (broadcastInDim S1x1048576 ![1] bcast_S1048576_S1x1048576_1 : (⟨S1048576, .f32⟩ : BufTy).Contents (Elt F) → (⟨S1x1048576, .f32⟩ : BufTy).Contents (Elt F)),
    unary main_v628 main_v629 (broadcastInDim S4x1048576 ![0, 1] bcast_S1x1048576_S4x1048576_0_1 : (⟨S1x1048576, .f32⟩ : BufTy).Contents (Elt F) → (⟨S4x1048576, .f32⟩ : BufTy).Contents (Elt F)),
    binary main_v627 main_v629 main_v630 (mulf : (⟨S4x1048576, .f32⟩ : BufTy).Contents (Elt F) → (⟨S4x1048576, .f32⟩ : BufTy).Contents (Elt F) → (⟨S4x1048576, .f32⟩ : BufTy).Contents (Elt F)),
    binary main_v621 main_v630 main_v631 (addf : (⟨S4x1048576, .f32⟩ : BufTy).Contents (Elt F) → (⟨S4x1048576, .f32⟩ : BufTy).Contents (Elt F) → (⟨S4x1048576, .f32⟩ : BufTy).Contents (Elt F)),
    reshape main_v631 main_v632 rfl shapeCasts_S4x1048576_S1x4x1x1x1048576 ]

/-- The window is those operations followed by the concatenation. -/
theorem ops13_split : (ops13 : List (HloOp τ sig (Elt F))) = ops13init ++ [ nary ![main_v210, main_v421, main_v632] main_v633 (fun u => concatenate S1x12x1x1x1048576 1 [⟨S1x4x1x1x1048576, u 0⟩, ⟨S1x4x1x1x1048576, u 1⟩, ⟨S1x4x1x1x1048576, u 2⟩] concatenates_S1x4x1x1x1048576_S1x4x1x1x1048576_S1x4x1x1x1048576_S1x12x1x1x1048576_d1) ] := rfl

theorem win13i_main_v210 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v464 : V (Proc.devRef .tc main_v464) = Cert.ReferenceIdeal.ReadP.val_main_v464 (F := F) x0)
    (h_main_v470 : V (Proc.devRef .tc main_v470) = Cert.ReferenceIdeal.ReadP.val_main_v470 (F := F) x0)
    (h_main_v476 : V (Proc.devRef .tc main_v476) = Cert.ReferenceIdeal.ReadP.val_main_v476 (F := F) x0)
    (h_main_v483 : V (Proc.devRef .tc main_v483) = Cert.ReferenceIdeal.ReadP.val_main_v483 (F := F) x0)
    (h_main_v492 : V (Proc.devRef .tc main_v492) = Cert.ReferenceIdeal.ReadP.val_main_v492 (F := F) x3)
    (h_main_v505 : V (Proc.devRef .tc main_v505) = Cert.ReferenceIdeal.ReadP.val_main_v505 (F := F) x0 x3)
    (h_main_v518 : V (Proc.devRef .tc main_v518) = Cert.ReferenceIdeal.ReadP.val_main_v518 (F := F) x0 x3)
    (h_main_v531 : V (Proc.devRef .tc main_v531) = Cert.ReferenceIdeal.ReadP.val_main_v531 (F := F) x0 x3)
    (h_main_v544 : V (Proc.devRef .tc main_v544) = Cert.ReferenceIdeal.ReadP.val_main_v544 (F := F) x0 x3)
    (h_main_v557 : V (Proc.devRef .tc main_v557) = Cert.ReferenceIdeal.ReadP.val_main_v557 (F := F) x0 x3)
    (h_main_v570 : V (Proc.devRef .tc main_v570) = Cert.ReferenceIdeal.ReadP.val_main_v570 (F := F) x0 x3)
    (h_main_v583 : V (Proc.devRef .tc main_v583) = Cert.ReferenceIdeal.ReadP.val_main_v583 (F := F) x0 x3)
    (h_main_v586 : V (Proc.devRef .tc main_v586) = Cert.ReferenceIdeal.ReadP.val_main_v586 (F := F) x0)
    (h_main_c_190 : V (Proc.devRef .tc main_c_190) = Cert.ReferenceIdeal.ReadP.val_main_c_190 (F := F)) :
    after (ops13init (F := F)) V (Proc.devRef .tc main_v210) = Cert.ReferenceIdeal.ReadP.val_main_v210 (F := F) x0 x1 := by
  simp only [ops13init]
  after_results_simp
  all_goals first
    | (simp only [h_main_v210, h_main_v421, h_main_v464, h_main_v470, h_main_v476, h_main_v483, h_main_v492, h_main_v505, h_main_v518, h_main_v531, h_main_v544, h_main_v557, h_main_v570, h_main_v583, h_main_v586, h_main_c_190]; done)
    | (simp only [h_main_v210, h_main_v421, h_main_v464, h_main_v470, h_main_v476, h_main_v483, h_main_v492, h_main_v505, h_main_v518, h_main_v531, h_main_v544, h_main_v557, h_main_v570, h_main_v583, h_main_v586, h_main_c_190]; rfl)
    | rfl

theorem win13i_main_v421 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v464 : V (Proc.devRef .tc main_v464) = Cert.ReferenceIdeal.ReadP.val_main_v464 (F := F) x0)
    (h_main_v470 : V (Proc.devRef .tc main_v470) = Cert.ReferenceIdeal.ReadP.val_main_v470 (F := F) x0)
    (h_main_v476 : V (Proc.devRef .tc main_v476) = Cert.ReferenceIdeal.ReadP.val_main_v476 (F := F) x0)
    (h_main_v483 : V (Proc.devRef .tc main_v483) = Cert.ReferenceIdeal.ReadP.val_main_v483 (F := F) x0)
    (h_main_v492 : V (Proc.devRef .tc main_v492) = Cert.ReferenceIdeal.ReadP.val_main_v492 (F := F) x3)
    (h_main_v505 : V (Proc.devRef .tc main_v505) = Cert.ReferenceIdeal.ReadP.val_main_v505 (F := F) x0 x3)
    (h_main_v518 : V (Proc.devRef .tc main_v518) = Cert.ReferenceIdeal.ReadP.val_main_v518 (F := F) x0 x3)
    (h_main_v531 : V (Proc.devRef .tc main_v531) = Cert.ReferenceIdeal.ReadP.val_main_v531 (F := F) x0 x3)
    (h_main_v544 : V (Proc.devRef .tc main_v544) = Cert.ReferenceIdeal.ReadP.val_main_v544 (F := F) x0 x3)
    (h_main_v557 : V (Proc.devRef .tc main_v557) = Cert.ReferenceIdeal.ReadP.val_main_v557 (F := F) x0 x3)
    (h_main_v570 : V (Proc.devRef .tc main_v570) = Cert.ReferenceIdeal.ReadP.val_main_v570 (F := F) x0 x3)
    (h_main_v583 : V (Proc.devRef .tc main_v583) = Cert.ReferenceIdeal.ReadP.val_main_v583 (F := F) x0 x3)
    (h_main_v586 : V (Proc.devRef .tc main_v586) = Cert.ReferenceIdeal.ReadP.val_main_v586 (F := F) x0)
    (h_main_c_190 : V (Proc.devRef .tc main_c_190) = Cert.ReferenceIdeal.ReadP.val_main_c_190 (F := F)) :
    after (ops13init (F := F)) V (Proc.devRef .tc main_v421) = Cert.ReferenceIdeal.ReadP.val_main_v421 (F := F) x0 x2 := by
  simp only [ops13init]
  after_results_simp
  all_goals first
    | (simp only [h_main_v210, h_main_v421, h_main_v464, h_main_v470, h_main_v476, h_main_v483, h_main_v492, h_main_v505, h_main_v518, h_main_v531, h_main_v544, h_main_v557, h_main_v570, h_main_v583, h_main_v586, h_main_c_190]; done)
    | (simp only [h_main_v210, h_main_v421, h_main_v464, h_main_v470, h_main_v476, h_main_v483, h_main_v492, h_main_v505, h_main_v518, h_main_v531, h_main_v544, h_main_v557, h_main_v570, h_main_v583, h_main_v586, h_main_c_190]; rfl)
    | rfl

theorem win13i_main_v632 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v464 : V (Proc.devRef .tc main_v464) = Cert.ReferenceIdeal.ReadP.val_main_v464 (F := F) x0)
    (h_main_v470 : V (Proc.devRef .tc main_v470) = Cert.ReferenceIdeal.ReadP.val_main_v470 (F := F) x0)
    (h_main_v476 : V (Proc.devRef .tc main_v476) = Cert.ReferenceIdeal.ReadP.val_main_v476 (F := F) x0)
    (h_main_v483 : V (Proc.devRef .tc main_v483) = Cert.ReferenceIdeal.ReadP.val_main_v483 (F := F) x0)
    (h_main_v492 : V (Proc.devRef .tc main_v492) = Cert.ReferenceIdeal.ReadP.val_main_v492 (F := F) x3)
    (h_main_v505 : V (Proc.devRef .tc main_v505) = Cert.ReferenceIdeal.ReadP.val_main_v505 (F := F) x0 x3)
    (h_main_v518 : V (Proc.devRef .tc main_v518) = Cert.ReferenceIdeal.ReadP.val_main_v518 (F := F) x0 x3)
    (h_main_v531 : V (Proc.devRef .tc main_v531) = Cert.ReferenceIdeal.ReadP.val_main_v531 (F := F) x0 x3)
    (h_main_v544 : V (Proc.devRef .tc main_v544) = Cert.ReferenceIdeal.ReadP.val_main_v544 (F := F) x0 x3)
    (h_main_v557 : V (Proc.devRef .tc main_v557) = Cert.ReferenceIdeal.ReadP.val_main_v557 (F := F) x0 x3)
    (h_main_v570 : V (Proc.devRef .tc main_v570) = Cert.ReferenceIdeal.ReadP.val_main_v570 (F := F) x0 x3)
    (h_main_v583 : V (Proc.devRef .tc main_v583) = Cert.ReferenceIdeal.ReadP.val_main_v583 (F := F) x0 x3)
    (h_main_v586 : V (Proc.devRef .tc main_v586) = Cert.ReferenceIdeal.ReadP.val_main_v586 (F := F) x0)
    (h_main_c_190 : V (Proc.devRef .tc main_c_190) = Cert.ReferenceIdeal.ReadP.val_main_c_190 (F := F)) :
    after (ops13init (F := F)) V (Proc.devRef .tc main_v632) = Cert.ReferenceIdeal.ReadP.val_main_v632 (F := F) x0 x3 := by
  simp only [ops13init]
  after_results_simp
  all_goals first
    | (simp only [h_main_v210, h_main_v421, h_main_v464, h_main_v470, h_main_v476, h_main_v483, h_main_v492, h_main_v505, h_main_v518, h_main_v531, h_main_v544, h_main_v557, h_main_v570, h_main_v583, h_main_v586, h_main_c_190]; done)
    | (simp only [h_main_v210, h_main_v421, h_main_v464, h_main_v470, h_main_v476, h_main_v483, h_main_v492, h_main_v505, h_main_v518, h_main_v531, h_main_v544, h_main_v557, h_main_v570, h_main_v583, h_main_v586, h_main_c_190]; rfl)
    | rfl

theorem win13_main_v633 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) (V : Valuation τ sig (Elt F))
    (h_main_v210 : V (Proc.devRef .tc main_v210) = Cert.ReferenceIdeal.ReadP.val_main_v210 (F := F) x0 x1)
    (h_main_v421 : V (Proc.devRef .tc main_v421) = Cert.ReferenceIdeal.ReadP.val_main_v421 (F := F) x0 x2)
    (h_main_v464 : V (Proc.devRef .tc main_v464) = Cert.ReferenceIdeal.ReadP.val_main_v464 (F := F) x0)
    (h_main_v470 : V (Proc.devRef .tc main_v470) = Cert.ReferenceIdeal.ReadP.val_main_v470 (F := F) x0)
    (h_main_v476 : V (Proc.devRef .tc main_v476) = Cert.ReferenceIdeal.ReadP.val_main_v476 (F := F) x0)
    (h_main_v483 : V (Proc.devRef .tc main_v483) = Cert.ReferenceIdeal.ReadP.val_main_v483 (F := F) x0)
    (h_main_v492 : V (Proc.devRef .tc main_v492) = Cert.ReferenceIdeal.ReadP.val_main_v492 (F := F) x3)
    (h_main_v505 : V (Proc.devRef .tc main_v505) = Cert.ReferenceIdeal.ReadP.val_main_v505 (F := F) x0 x3)
    (h_main_v518 : V (Proc.devRef .tc main_v518) = Cert.ReferenceIdeal.ReadP.val_main_v518 (F := F) x0 x3)
    (h_main_v531 : V (Proc.devRef .tc main_v531) = Cert.ReferenceIdeal.ReadP.val_main_v531 (F := F) x0 x3)
    (h_main_v544 : V (Proc.devRef .tc main_v544) = Cert.ReferenceIdeal.ReadP.val_main_v544 (F := F) x0 x3)
    (h_main_v557 : V (Proc.devRef .tc main_v557) = Cert.ReferenceIdeal.ReadP.val_main_v557 (F := F) x0 x3)
    (h_main_v570 : V (Proc.devRef .tc main_v570) = Cert.ReferenceIdeal.ReadP.val_main_v570 (F := F) x0 x3)
    (h_main_v583 : V (Proc.devRef .tc main_v583) = Cert.ReferenceIdeal.ReadP.val_main_v583 (F := F) x0 x3)
    (h_main_v586 : V (Proc.devRef .tc main_v586) = Cert.ReferenceIdeal.ReadP.val_main_v586 (F := F) x0)
    (h_main_c_190 : V (Proc.devRef .tc main_c_190) = Cert.ReferenceIdeal.ReadP.val_main_c_190 (F := F)) :
    after (ops13 (F := F)) V (Proc.devRef .tc main_v633) = Cert.ReferenceIdeal.ReadP.val_main_v633 (F := F) x0 x1 x2 x3 := by
  rw [ops13_split, after_append]
  simp only [after_cons, after_nil]
  rw [nary_result]
  show concatenate S1x12x1x1x1048576 1
      [⟨S1x4x1x1x1048576, after (ops13init (F := F)) V (Proc.devRef .tc main_v210)⟩,
       ⟨S1x4x1x1x1048576, after (ops13init (F := F)) V (Proc.devRef .tc main_v421)⟩,
       ⟨S1x4x1x1x1048576, after (ops13init (F := F)) V (Proc.devRef .tc main_v632)⟩] _ = _
  rw [win13i_main_v210 x0 x1 x2 x3 V h_main_v210 h_main_v421 h_main_v464 h_main_v470 h_main_v476 h_main_v483 h_main_v492 h_main_v505 h_main_v518 h_main_v531 h_main_v544 h_main_v557 h_main_v570 h_main_v583 h_main_v586 h_main_c_190, win13i_main_v421 x0 x1 x2 x3 V h_main_v210 h_main_v421 h_main_v464 h_main_v470 h_main_v476 h_main_v483 h_main_v492 h_main_v505 h_main_v518 h_main_v531 h_main_v544 h_main_v557 h_main_v570 h_main_v583 h_main_v586 h_main_c_190, win13i_main_v632 x0 x1 x2 x3 V h_main_v210 h_main_v421 h_main_v464 h_main_v470 h_main_v476 h_main_v483 h_main_v492 h_main_v505 h_main_v518 h_main_v531 h_main_v544 h_main_v557 h_main_v570 h_main_v583 h_main_v586 h_main_c_190]
  rfl

end Cert.ReferenceIdeal.RunH

end
-- ==== Proof.RefResult.lean ====
/-
  The reference's result buffer after all 919 operations is its last stage function (the concatenation of the three
  volumes' interpolated values) of the four argument arrays: the windows' reads chained, window after window, over
  the buffers that stay live between them.
-/
import proofs.«113233_j37486474559588_2_alg».proof.Proof.RefOps
import proofs.«113233_j37486474559588_2_alg».proof.Proof.RefReadP
import proofs.«113233_j37486474559588_2_alg».proof.Proof.RefWin0
import proofs.«113233_j37486474559588_2_alg».proof.Proof.RefWin1
import proofs.«113233_j37486474559588_2_alg».proof.Proof.RefWin2
import proofs.«113233_j37486474559588_2_alg».proof.Proof.RefWin3
import proofs.«113233_j37486474559588_2_alg».proof.Proof.RefWin4
import proofs.«113233_j37486474559588_2_alg».proof.Proof.RefWin5
import proofs.«113233_j37486474559588_2_alg».proof.Proof.RefWin6
import proofs.«113233_j37486474559588_2_alg».proof.Proof.RefWin7
import proofs.«113233_j37486474559588_2_alg».proof.Proof.RefWin8
import proofs.«113233_j37486474559588_2_alg».proof.Proof.RefWin9
import proofs.«113233_j37486474559588_2_alg».proof.Proof.RefWin10
import proofs.«113233_j37486474559588_2_alg».proof.Proof.RefWin11
import proofs.«113233_j37486474559588_2_alg».proof.Proof.RefWin12
import proofs.«113233_j37486474559588_2_alg».proof.Proof.RefWin13

set_option maxRecDepth 65536
set_option maxHeartbeats 40000000

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

theorem result_read (m : (ℓ : Loc nD τ sig) → Buf (Elt F) ℓ) (c : Dev nD) :
    after (ops (F := F)) (launchContents m c) (Proc.devRef .tc main_v633)
      = Cert.ReferenceIdeal.ReadP.val_main_v633 (F := F) (m ((c.tc : Thread nD τ).loc main_arg0)) (m ((c.tc : Thread nD τ).loc main_arg1))
          (m ((c.tc : Thread nD τ).loc main_arg2)) (m ((c.tc : Thread nD τ).loc main_arg3)) := by
  generalize hX0 : m ((c.tc : Thread nD τ).loc main_arg0) = X0
  generalize hX1 : m ((c.tc : Thread nD τ).loc main_arg1) = X1
  generalize hX2 : m ((c.tc : Thread nD τ).loc main_arg2) = X2
  generalize hX3 : m ((c.tc : Thread nD τ).loc main_arg3) = X3
  simp only [ops, after_append]
  have f0_main_arg0 := win0_main_arg0 (F := F) X0 X1 X2 X3 (launchContents m c) hX0 hX1 hX2 hX3
  have f0_main_arg1 := win0_main_arg1 (F := F) X0 X1 X2 X3 (launchContents m c) hX0 hX1 hX2 hX3
  have f0_main_arg2 := win0_main_arg2 (F := F) X0 X1 X2 X3 (launchContents m c) hX0 hX1 hX2 hX3
  have f0_main_arg3 := win0_main_arg3 (F := F) X0 X1 X2 X3 (launchContents m c) hX0 hX1 hX2 hX3
  have f0_main_v26 := win0_main_v26 (F := F) X0 X1 X2 X3 (launchContents m c) hX0 hX1 hX2 hX3
  have f0_main_v28 := win0_main_v28 (F := F) X0 X1 X2 X3 (launchContents m c) hX0 hX1 hX2 hX3
  have f0_main_v30 := win0_main_v30 (F := F) X0 X1 X2 X3 (launchContents m c) hX0 hX1 hX2 hX3
  have f0_main_v32 := win0_main_v32 (F := F) X0 X1 X2 X3 (launchContents m c) hX0 hX1 hX2 hX3
  have f0_main_v34 := win0_main_v34 (F := F) X0 X1 X2 X3 (launchContents m c) hX0 hX1 hX2 hX3
  have f0_main_v36 := win0_main_v36 (F := F) X0 X1 X2 X3 (launchContents m c) hX0 hX1 hX2 hX3
  have f0_main_v37 := win0_main_v37 (F := F) X0 X1 X2 X3 (launchContents m c) hX0 hX1 hX2 hX3
  have f0_main_cst_19 := win0_main_cst_19 (F := F) X0 X1 X2 X3 (launchContents m c) hX0 hX1 hX2 hX3
  have f1_main_arg0 := win1_main_arg0 (F := F) X0 X1 X2 X3 (after (ops0 (F := F)) (launchContents m c)) f0_main_arg0 f0_main_arg1 f0_main_arg2 f0_main_arg3 f0_main_v26 f0_main_v28 f0_main_v30 f0_main_v32 f0_main_v34 f0_main_v36 f0_main_v37 f0_main_cst_19
  have f1_main_arg2 := win1_main_arg2 (F := F) X0 X1 X2 X3 (after (ops0 (F := F)) (launchContents m c)) f0_main_arg0 f0_main_arg1 f0_main_arg2 f0_main_arg3 f0_main_v26 f0_main_v28 f0_main_v30 f0_main_v32 f0_main_v34 f0_main_v36 f0_main_v37 f0_main_cst_19
  have f1_main_arg3 := win1_main_arg3 (F := F) X0 X1 X2 X3 (after (ops0 (F := F)) (launchContents m c)) f0_main_arg0 f0_main_arg1 f0_main_arg2 f0_main_arg3 f0_main_v26 f0_main_v28 f0_main_v30 f0_main_v32 f0_main_v34 f0_main_v36 f0_main_v37 f0_main_cst_19
  have f1_main_v42 := win1_main_v42 (F := F) X0 X1 X2 X3 (after (ops0 (F := F)) (launchContents m c)) f0_main_arg0 f0_main_arg1 f0_main_arg2 f0_main_arg3 f0_main_v26 f0_main_v28 f0_main_v30 f0_main_v32 f0_main_v34 f0_main_v36 f0_main_v37 f0_main_cst_19
  have f1_main_v48 := win1_main_v48 (F := F) X0 X1 X2 X3 (after (ops0 (F := F)) (launchContents m c)) f0_main_arg0 f0_main_arg1 f0_main_arg2 f0_main_arg3 f0_main_v26 f0_main_v28 f0_main_v30 f0_main_v32 f0_main_v34 f0_main_v36 f0_main_v37 f0_main_cst_19
  have f1_main_v54 := win1_main_v54 (F := F) X0 X1 X2 X3 (after (ops0 (F := F)) (launchContents m c)) f0_main_arg0 f0_main_arg1 f0_main_arg2 f0_main_arg3 f0_main_v26 f0_main_v28 f0_main_v30 f0_main_v32 f0_main_v34 f0_main_v36 f0_main_v37 f0_main_cst_19
  have f1_main_v55 := win1_main_v55 (F := F) X0 X1 X2 X3 (after (ops0 (F := F)) (launchContents m c)) f0_main_arg0 f0_main_arg1 f0_main_arg2 f0_main_arg3 f0_main_v26 f0_main_v28 f0_main_v30 f0_main_v32 f0_main_v34 f0_main_v36 f0_main_v37 f0_main_cst_19
  have f1_main_v56 := win1_main_v56 (F := F) X0 X1 X2 X3 (after (ops0 (F := F)) (launchContents m c)) f0_main_arg0 f0_main_arg1 f0_main_arg2 f0_main_arg3 f0_main_v26 f0_main_v28 f0_main_v30 f0_main_v32 f0_main_v34 f0_main_v36 f0_main_v37 f0_main_cst_19
  have f1_main_v57 := win1_main_v57 (F := F) X0 X1 X2 X3 (after (ops0 (F := F)) (launchContents m c)) f0_main_arg0 f0_main_arg1 f0_main_arg2 f0_main_arg3 f0_main_v26 f0_main_v28 f0_main_v30 f0_main_v32 f0_main_v34 f0_main_v36 f0_main_v37 f0_main_cst_19
  have f1_main_v61 := win1_main_v61 (F := F) X0 X1 X2 X3 (after (ops0 (F := F)) (launchContents m c)) f0_main_arg0 f0_main_arg1 f0_main_arg2 f0_main_arg3 f0_main_v26 f0_main_v28 f0_main_v30 f0_main_v32 f0_main_v34 f0_main_v36 f0_main_v37 f0_main_cst_19
  have f1_main_v65 := win1_main_v65 (F := F) X0 X1 X2 X3 (after (ops0 (F := F)) (launchContents m c)) f0_main_arg0 f0_main_arg1 f0_main_arg2 f0_main_arg3 f0_main_v26 f0_main_v28 f0_main_v30 f0_main_v32 f0_main_v34 f0_main_v36 f0_main_v37 f0_main_cst_19
  have f1_main_v69 := win1_main_v69 (F := F) X0 X1 X2 X3 (after (ops0 (F := F)) (launchContents m c)) f0_main_arg0 f0_main_arg1 f0_main_arg2 f0_main_arg3 f0_main_v26 f0_main_v28 f0_main_v30 f0_main_v32 f0_main_v34 f0_main_v36 f0_main_v37 f0_main_cst_19
  have f1_main_v70 := win1_main_v70 (F := F) X0 X1 X2 X3 (after (ops0 (F := F)) (launchContents m c)) f0_main_arg0 f0_main_arg1 f0_main_arg2 f0_main_arg3 f0_main_v26 f0_main_v28 f0_main_v30 f0_main_v32 f0_main_v34 f0_main_v36 f0_main_v37 f0_main_cst_19
  have f1_main_v82 := win1_main_v82 (F := F) X0 X1 X2 X3 (after (ops0 (F := F)) (launchContents m c)) f0_main_arg0 f0_main_arg1 f0_main_arg2 f0_main_arg3 f0_main_v26 f0_main_v28 f0_main_v30 f0_main_v32 f0_main_v34 f0_main_v36 f0_main_v37 f0_main_cst_19
  have f2_main_arg0 := win2_main_arg0 (F := F) X0 X1 X2 X3 (after (ops1 (F := F)) (after (ops0 (F := F)) (launchContents m c))) f1_main_arg0 f1_main_arg2 f1_main_arg3 f1_main_v42 f1_main_v48 f1_main_v54 f1_main_v55 f1_main_v56 f1_main_v57 f1_main_v61 f1_main_v65 f1_main_v69 f1_main_v70 f1_main_v82
  have f2_main_arg2 := win2_main_arg2 (F := F) X0 X1 X2 X3 (after (ops1 (F := F)) (after (ops0 (F := F)) (launchContents m c))) f1_main_arg0 f1_main_arg2 f1_main_arg3 f1_main_v42 f1_main_v48 f1_main_v54 f1_main_v55 f1_main_v56 f1_main_v57 f1_main_v61 f1_main_v65 f1_main_v69 f1_main_v70 f1_main_v82
  have f2_main_arg3 := win2_main_arg3 (F := F) X0 X1 X2 X3 (after (ops1 (F := F)) (after (ops0 (F := F)) (launchContents m c))) f1_main_arg0 f1_main_arg2 f1_main_arg3 f1_main_v42 f1_main_v48 f1_main_v54 f1_main_v55 f1_main_v56 f1_main_v57 f1_main_v61 f1_main_v65 f1_main_v69 f1_main_v70 f1_main_v82
  have f2_main_v42 := win2_main_v42 (F := F) X0 X1 X2 X3 (after (ops1 (F := F)) (after (ops0 (F := F)) (launchContents m c))) f1_main_arg0 f1_main_arg2 f1_main_arg3 f1_main_v42 f1_main_v48 f1_main_v54 f1_main_v55 f1_main_v56 f1_main_v57 f1_main_v61 f1_main_v65 f1_main_v69 f1_main_v70 f1_main_v82
  have f2_main_v48 := win2_main_v48 (F := F) X0 X1 X2 X3 (after (ops1 (F := F)) (after (ops0 (F := F)) (launchContents m c))) f1_main_arg0 f1_main_arg2 f1_main_arg3 f1_main_v42 f1_main_v48 f1_main_v54 f1_main_v55 f1_main_v56 f1_main_v57 f1_main_v61 f1_main_v65 f1_main_v69 f1_main_v70 f1_main_v82
  have f2_main_v54 := win2_main_v54 (F := F) X0 X1 X2 X3 (after (ops1 (F := F)) (after (ops0 (F := F)) (launchContents m c))) f1_main_arg0 f1_main_arg2 f1_main_arg3 f1_main_v42 f1_main_v48 f1_main_v54 f1_main_v55 f1_main_v56 f1_main_v57 f1_main_v61 f1_main_v65 f1_main_v69 f1_main_v70 f1_main_v82
  have f2_main_v55 := win2_main_v55 (F := F) X0 X1 X2 X3 (after (ops1 (F := F)) (after (ops0 (F := F)) (launchContents m c))) f1_main_arg0 f1_main_arg2 f1_main_arg3 f1_main_v42 f1_main_v48 f1_main_v54 f1_main_v55 f1_main_v56 f1_main_v57 f1_main_v61 f1_main_v65 f1_main_v69 f1_main_v70 f1_main_v82
  have f2_main_v56 := win2_main_v56 (F := F) X0 X1 X2 X3 (after (ops1 (F := F)) (after (ops0 (F := F)) (launchContents m c))) f1_main_arg0 f1_main_arg2 f1_main_arg3 f1_main_v42 f1_main_v48 f1_main_v54 f1_main_v55 f1_main_v56 f1_main_v57 f1_main_v61 f1_main_v65 f1_main_v69 f1_main_v70 f1_main_v82
  have f2_main_v61 := win2_main_v61 (F := F) X0 X1 X2 X3 (after (ops1 (F := F)) (after (ops0 (F := F)) (launchContents m c))) f1_main_arg0 f1_main_arg2 f1_main_arg3 f1_main_v42 f1_main_v48 f1_main_v54 f1_main_v55 f1_main_v56 f1_main_v57 f1_main_v61 f1_main_v65 f1_main_v69 f1_main_v70 f1_main_v82
  have f2_main_v65 := win2_main_v65 (F := F) X0 X1 X2 X3 (after (ops1 (F := F)) (after (ops0 (F := F)) (launchContents m c))) f1_main_arg0 f1_main_arg2 f1_main_arg3 f1_main_v42 f1_main_v48 f1_main_v54 f1_main_v55 f1_main_v56 f1_main_v57 f1_main_v61 f1_main_v65 f1_main_v69 f1_main_v70 f1_main_v82
  have f2_main_v69 := win2_main_v69 (F := F) X0 X1 X2 X3 (after (ops1 (F := F)) (after (ops0 (F := F)) (launchContents m c))) f1_main_arg0 f1_main_arg2 f1_main_arg3 f1_main_v42 f1_main_v48 f1_main_v54 f1_main_v55 f1_main_v56 f1_main_v57 f1_main_v61 f1_main_v65 f1_main_v69 f1_main_v70 f1_main_v82
  have f2_main_v70 := win2_main_v70 (F := F) X0 X1 X2 X3 (after (ops1 (F := F)) (after (ops0 (F := F)) (launchContents m c))) f1_main_arg0 f1_main_arg2 f1_main_arg3 f1_main_v42 f1_main_v48 f1_main_v54 f1_main_v55 f1_main_v56 f1_main_v57 f1_main_v61 f1_main_v65 f1_main_v69 f1_main_v70 f1_main_v82
  have f2_main_v83 := win2_main_v83 (F := F) X0 X1 X2 X3 (after (ops1 (F := F)) (after (ops0 (F := F)) (launchContents m c))) f1_main_arg0 f1_main_arg2 f1_main_arg3 f1_main_v42 f1_main_v48 f1_main_v54 f1_main_v55 f1_main_v56 f1_main_v57 f1_main_v61 f1_main_v65 f1_main_v69 f1_main_v70 f1_main_v82
  have f2_main_v96 := win2_main_v96 (F := F) X0 X1 X2 X3 (after (ops1 (F := F)) (after (ops0 (F := F)) (launchContents m c))) f1_main_arg0 f1_main_arg2 f1_main_arg3 f1_main_v42 f1_main_v48 f1_main_v54 f1_main_v55 f1_main_v56 f1_main_v57 f1_main_v61 f1_main_v65 f1_main_v69 f1_main_v70 f1_main_v82
  have f2_main_v109 := win2_main_v109 (F := F) X0 X1 X2 X3 (after (ops1 (F := F)) (after (ops0 (F := F)) (launchContents m c))) f1_main_arg0 f1_main_arg2 f1_main_arg3 f1_main_v42 f1_main_v48 f1_main_v54 f1_main_v55 f1_main_v56 f1_main_v57 f1_main_v61 f1_main_v65 f1_main_v69 f1_main_v70 f1_main_v82
  have f2_main_v122 := win2_main_v122 (F := F) X0 X1 X2 X3 (after (ops1 (F := F)) (after (ops0 (F := F)) (launchContents m c))) f1_main_arg0 f1_main_arg2 f1_main_arg3 f1_main_v42 f1_main_v48 f1_main_v54 f1_main_v55 f1_main_v56 f1_main_v57 f1_main_v61 f1_main_v65 f1_main_v69 f1_main_v70 f1_main_v82
  have f2_main_v128 := win2_main_v128 (F := F) X0 X1 X2 X3 (after (ops1 (F := F)) (after (ops0 (F := F)) (launchContents m c))) f1_main_arg0 f1_main_arg2 f1_main_arg3 f1_main_v42 f1_main_v48 f1_main_v54 f1_main_v55 f1_main_v56 f1_main_v57 f1_main_v61 f1_main_v65 f1_main_v69 f1_main_v70 f1_main_v82
  have f3_main_arg0 := win3_main_arg0 (F := F) X0 X1 X2 X3 (after (ops2 (F := F)) (after (ops1 (F := F)) (after (ops0 (F := F)) (launchContents m c)))) f2_main_arg0 f2_main_arg2 f2_main_arg3 f2_main_v42 f2_main_v48 f2_main_v54 f2_main_v55 f2_main_v56 f2_main_v61 f2_main_v65 f2_main_v69 f2_main_v70 f2_main_v83 f2_main_v96 f2_main_v109 f2_main_v122 f2_main_v128
  have f3_main_arg2 := win3_main_arg2 (F := F) X0 X1 X2 X3 (after (ops2 (F := F)) (after (ops1 (F := F)) (after (ops0 (F := F)) (launchContents m c)))) f2_main_arg0 f2_main_arg2 f2_main_arg3 f2_main_v42 f2_main_v48 f2_main_v54 f2_main_v55 f2_main_v56 f2_main_v61 f2_main_v65 f2_main_v69 f2_main_v70 f2_main_v83 f2_main_v96 f2_main_v109 f2_main_v122 f2_main_v128
  have f3_main_arg3 := win3_main_arg3 (F := F) X0 X1 X2 X3 (after (ops2 (F := F)) (after (ops1 (F := F)) (after (ops0 (F := F)) (launchContents m c)))) f2_main_arg0 f2_main_arg2 f2_main_arg3 f2_main_v42 f2_main_v48 f2_main_v54 f2_main_v55 f2_main_v56 f2_main_v61 f2_main_v65 f2_main_v69 f2_main_v70 f2_main_v83 f2_main_v96 f2_main_v109 f2_main_v122 f2_main_v128
  have f3_main_v42 := win3_main_v42 (F := F) X0 X1 X2 X3 (after (ops2 (F := F)) (after (ops1 (F := F)) (after (ops0 (F := F)) (launchContents m c)))) f2_main_arg0 f2_main_arg2 f2_main_arg3 f2_main_v42 f2_main_v48 f2_main_v54 f2_main_v55 f2_main_v56 f2_main_v61 f2_main_v65 f2_main_v69 f2_main_v70 f2_main_v83 f2_main_v96 f2_main_v109 f2_main_v122 f2_main_v128
  have f3_main_v48 := win3_main_v48 (F := F) X0 X1 X2 X3 (after (ops2 (F := F)) (after (ops1 (F := F)) (after (ops0 (F := F)) (launchContents m c)))) f2_main_arg0 f2_main_arg2 f2_main_arg3 f2_main_v42 f2_main_v48 f2_main_v54 f2_main_v55 f2_main_v56 f2_main_v61 f2_main_v65 f2_main_v69 f2_main_v70 f2_main_v83 f2_main_v96 f2_main_v109 f2_main_v122 f2_main_v128
  have f3_main_v54 := win3_main_v54 (F := F) X0 X1 X2 X3 (after (ops2 (F := F)) (after (ops1 (F := F)) (after (ops0 (F := F)) (launchContents m c)))) f2_main_arg0 f2_main_arg2 f2_main_arg3 f2_main_v42 f2_main_v48 f2_main_v54 f2_main_v55 f2_main_v56 f2_main_v61 f2_main_v65 f2_main_v69 f2_main_v70 f2_main_v83 f2_main_v96 f2_main_v109 f2_main_v122 f2_main_v128
  have f3_main_v83 := win3_main_v83 (F := F) X0 X1 X2 X3 (after (ops2 (F := F)) (after (ops1 (F := F)) (after (ops0 (F := F)) (launchContents m c)))) f2_main_arg0 f2_main_arg2 f2_main_arg3 f2_main_v42 f2_main_v48 f2_main_v54 f2_main_v55 f2_main_v56 f2_main_v61 f2_main_v65 f2_main_v69 f2_main_v70 f2_main_v83 f2_main_v96 f2_main_v109 f2_main_v122 f2_main_v128
  have f3_main_v96 := win3_main_v96 (F := F) X0 X1 X2 X3 (after (ops2 (F := F)) (after (ops1 (F := F)) (after (ops0 (F := F)) (launchContents m c)))) f2_main_arg0 f2_main_arg2 f2_main_arg3 f2_main_v42 f2_main_v48 f2_main_v54 f2_main_v55 f2_main_v56 f2_main_v61 f2_main_v65 f2_main_v69 f2_main_v70 f2_main_v83 f2_main_v96 f2_main_v109 f2_main_v122 f2_main_v128
  have f3_main_v109 := win3_main_v109 (F := F) X0 X1 X2 X3 (after (ops2 (F := F)) (after (ops1 (F := F)) (after (ops0 (F := F)) (launchContents m c)))) f2_main_arg0 f2_main_arg2 f2_main_arg3 f2_main_v42 f2_main_v48 f2_main_v54 f2_main_v55 f2_main_v56 f2_main_v61 f2_main_v65 f2_main_v69 f2_main_v70 f2_main_v83 f2_main_v96 f2_main_v109 f2_main_v122 f2_main_v128
  have f3_main_v122 := win3_main_v122 (F := F) X0 X1 X2 X3 (after (ops2 (F := F)) (after (ops1 (F := F)) (after (ops0 (F := F)) (launchContents m c)))) f2_main_arg0 f2_main_arg2 f2_main_arg3 f2_main_v42 f2_main_v48 f2_main_v54 f2_main_v55 f2_main_v56 f2_main_v61 f2_main_v65 f2_main_v69 f2_main_v70 f2_main_v83 f2_main_v96 f2_main_v109 f2_main_v122 f2_main_v128
  have f3_main_v135 := win3_main_v135 (F := F) X0 X1 X2 X3 (after (ops2 (F := F)) (after (ops1 (F := F)) (after (ops0 (F := F)) (launchContents m c)))) f2_main_arg0 f2_main_arg2 f2_main_arg3 f2_main_v42 f2_main_v48 f2_main_v54 f2_main_v55 f2_main_v56 f2_main_v61 f2_main_v65 f2_main_v69 f2_main_v70 f2_main_v83 f2_main_v96 f2_main_v109 f2_main_v122 f2_main_v128
  have f3_main_v148 := win3_main_v148 (F := F) X0 X1 X2 X3 (after (ops2 (F := F)) (after (ops1 (F := F)) (after (ops0 (F := F)) (launchContents m c)))) f2_main_arg0 f2_main_arg2 f2_main_arg3 f2_main_v42 f2_main_v48 f2_main_v54 f2_main_v55 f2_main_v56 f2_main_v61 f2_main_v65 f2_main_v69 f2_main_v70 f2_main_v83 f2_main_v96 f2_main_v109 f2_main_v122 f2_main_v128
  have f3_main_v161 := win3_main_v161 (F := F) X0 X1 X2 X3 (after (ops2 (F := F)) (after (ops1 (F := F)) (after (ops0 (F := F)) (launchContents m c)))) f2_main_arg0 f2_main_arg2 f2_main_arg3 f2_main_v42 f2_main_v48 f2_main_v54 f2_main_v55 f2_main_v56 f2_main_v61 f2_main_v65 f2_main_v69 f2_main_v70 f2_main_v83 f2_main_v96 f2_main_v109 f2_main_v122 f2_main_v128
  have f3_main_v174 := win3_main_v174 (F := F) X0 X1 X2 X3 (after (ops2 (F := F)) (after (ops1 (F := F)) (after (ops0 (F := F)) (launchContents m c)))) f2_main_arg0 f2_main_arg2 f2_main_arg3 f2_main_v42 f2_main_v48 f2_main_v54 f2_main_v55 f2_main_v56 f2_main_v61 f2_main_v65 f2_main_v69 f2_main_v70 f2_main_v83 f2_main_v96 f2_main_v109 f2_main_v122 f2_main_v128
  have f4_main_arg0 := win4_main_arg0 (F := F) X0 X1 X2 X3 (after (ops3 (F := F)) (after (ops2 (F := F)) (after (ops1 (F := F)) (after (ops0 (F := F)) (launchContents m c))))) f3_main_arg0 f3_main_arg2 f3_main_arg3 f3_main_v42 f3_main_v48 f3_main_v54 f3_main_v83 f3_main_v96 f3_main_v109 f3_main_v122 f3_main_v135 f3_main_v148 f3_main_v161 f3_main_v174
  have f4_main_arg2 := win4_main_arg2 (F := F) X0 X1 X2 X3 (after (ops3 (F := F)) (after (ops2 (F := F)) (after (ops1 (F := F)) (after (ops0 (F := F)) (launchContents m c))))) f3_main_arg0 f3_main_arg2 f3_main_arg3 f3_main_v42 f3_main_v48 f3_main_v54 f3_main_v83 f3_main_v96 f3_main_v109 f3_main_v122 f3_main_v135 f3_main_v148 f3_main_v161 f3_main_v174
  have f4_main_arg3 := win4_main_arg3 (F := F) X0 X1 X2 X3 (after (ops3 (F := F)) (after (ops2 (F := F)) (after (ops1 (F := F)) (after (ops0 (F := F)) (launchContents m c))))) f3_main_arg0 f3_main_arg2 f3_main_arg3 f3_main_v42 f3_main_v48 f3_main_v54 f3_main_v83 f3_main_v96 f3_main_v109 f3_main_v122 f3_main_v135 f3_main_v148 f3_main_v161 f3_main_v174
  have f4_main_v210 := win4_main_v210 (F := F) X0 X1 X2 X3 (after (ops3 (F := F)) (after (ops2 (F := F)) (after (ops1 (F := F)) (after (ops0 (F := F)) (launchContents m c))))) f3_main_arg0 f3_main_arg2 f3_main_arg3 f3_main_v42 f3_main_v48 f3_main_v54 f3_main_v83 f3_main_v96 f3_main_v109 f3_main_v122 f3_main_v135 f3_main_v148 f3_main_v161 f3_main_v174
  have f4_main_v219 := win4_main_v219 (F := F) X0 X1 X2 X3 (after (ops3 (F := F)) (after (ops2 (F := F)) (after (ops1 (F := F)) (after (ops0 (F := F)) (launchContents m c))))) f3_main_arg0 f3_main_arg2 f3_main_arg3 f3_main_v42 f3_main_v48 f3_main_v54 f3_main_v83 f3_main_v96 f3_main_v109 f3_main_v122 f3_main_v135 f3_main_v148 f3_main_v161 f3_main_v174
  have f4_main_v227 := win4_main_v227 (F := F) X0 X1 X2 X3 (after (ops3 (F := F)) (after (ops2 (F := F)) (after (ops1 (F := F)) (after (ops0 (F := F)) (launchContents m c))))) f3_main_arg0 f3_main_arg2 f3_main_arg3 f3_main_v42 f3_main_v48 f3_main_v54 f3_main_v83 f3_main_v96 f3_main_v109 f3_main_v122 f3_main_v135 f3_main_v148 f3_main_v161 f3_main_v174
  have f4_main_v228 := win4_main_v228 (F := F) X0 X1 X2 X3 (after (ops3 (F := F)) (after (ops2 (F := F)) (after (ops1 (F := F)) (after (ops0 (F := F)) (launchContents m c))))) f3_main_arg0 f3_main_arg2 f3_main_arg3 f3_main_v42 f3_main_v48 f3_main_v54 f3_main_v83 f3_main_v96 f3_main_v109 f3_main_v122 f3_main_v135 f3_main_v148 f3_main_v161 f3_main_v174
  have f5_main_arg0 := win5_main_arg0 (F := F) X0 X1 X2 X3 (after (ops4 (F := F)) (after (ops3 (F := F)) (after (ops2 (F := F)) (after (ops1 (F := F)) (after (ops0 (F := F)) (launchContents m c)))))) f4_main_arg0 f4_main_arg2 f4_main_arg3 f4_main_v210 f4_main_v219 f4_main_v227 f4_main_v228
  have f5_main_arg2 := win5_main_arg2 (F := F) X0 X1 X2 X3 (after (ops4 (F := F)) (after (ops3 (F := F)) (after (ops2 (F := F)) (after (ops1 (F := F)) (after (ops0 (F := F)) (launchContents m c)))))) f4_main_arg0 f4_main_arg2 f4_main_arg3 f4_main_v210 f4_main_v219 f4_main_v227 f4_main_v228
  have f5_main_arg3 := win5_main_arg3 (F := F) X0 X1 X2 X3 (after (ops4 (F := F)) (after (ops3 (F := F)) (after (ops2 (F := F)) (after (ops1 (F := F)) (after (ops0 (F := F)) (launchContents m c)))))) f4_main_arg0 f4_main_arg2 f4_main_arg3 f4_main_v210 f4_main_v219 f4_main_v227 f4_main_v228
  have f5_main_v210 := win5_main_v210 (F := F) X0 X1 X2 X3 (after (ops4 (F := F)) (after (ops3 (F := F)) (after (ops2 (F := F)) (after (ops1 (F := F)) (after (ops0 (F := F)) (launchContents m c)))))) f4_main_arg0 f4_main_arg2 f4_main_arg3 f4_main_v210 f4_main_v219 f4_main_v227 f4_main_v228
  have f5_main_v241 := win5_main_v241 (F := F) X0 X1 X2 X3 (after (ops4 (F := F)) (after (ops3 (F := F)) (after (ops2 (F := F)) (after (ops1 (F := F)) (after (ops0 (F := F)) (launchContents m c)))))) f4_main_arg0 f4_main_arg2 f4_main_arg3 f4_main_v210 f4_main_v219 f4_main_v227 f4_main_v228
  have f5_main_v253 := win5_main_v253 (F := F) X0 X1 X2 X3 (after (ops4 (F := F)) (after (ops3 (F := F)) (after (ops2 (F := F)) (after (ops1 (F := F)) (after (ops0 (F := F)) (launchContents m c)))))) f4_main_arg0 f4_main_arg2 f4_main_arg3 f4_main_v210 f4_main_v219 f4_main_v227 f4_main_v228
  have f5_main_v259 := win5_main_v259 (F := F) X0 X1 X2 X3 (after (ops4 (F := F)) (after (ops3 (F := F)) (after (ops2 (F := F)) (after (ops1 (F := F)) (after (ops0 (F := F)) (launchContents m c)))))) f4_main_arg0 f4_main_arg2 f4_main_arg3 f4_main_v210 f4_main_v219 f4_main_v227 f4_main_v228
  have f5_main_v265 := win5_main_v265 (F := F) X0 X1 X2 X3 (after (ops4 (F := F)) (after (ops3 (F := F)) (after (ops2 (F := F)) (after (ops1 (F := F)) (after (ops0 (F := F)) (launchContents m c)))))) f4_main_arg0 f4_main_arg2 f4_main_arg3 f4_main_v210 f4_main_v219 f4_main_v227 f4_main_v228
  have f5_main_v266 := win5_main_v266 (F := F) X0 X1 X2 X3 (after (ops4 (F := F)) (after (ops3 (F := F)) (after (ops2 (F := F)) (after (ops1 (F := F)) (after (ops0 (F := F)) (launchContents m c)))))) f4_main_arg0 f4_main_arg2 f4_main_arg3 f4_main_v210 f4_main_v219 f4_main_v227 f4_main_v228
  have f5_main_v267 := win5_main_v267 (F := F) X0 X1 X2 X3 (after (ops4 (F := F)) (after (ops3 (F := F)) (after (ops2 (F := F)) (after (ops1 (F := F)) (after (ops0 (F := F)) (launchContents m c)))))) f4_main_arg0 f4_main_arg2 f4_main_arg3 f4_main_v210 f4_main_v219 f4_main_v227 f4_main_v228
  have f6_main_arg0 := win6_main_arg0 (F := F) X0 X1 X2 X3 (after (ops5 (F := F)) (after (ops4 (F := F)) (after (ops3 (F := F)) (after (ops2 (F := F)) (after (ops1 (F := F)) (after (ops0 (F := F)) (launchContents m c))))))) f5_main_arg0 f5_main_arg2 f5_main_arg3 f5_main_v210 f5_main_v241 f5_main_v253 f5_main_v259 f5_main_v265 f5_main_v266 f5_main_v267
  have f6_main_arg3 := win6_main_arg3 (F := F) X0 X1 X2 X3 (after (ops5 (F := F)) (after (ops4 (F := F)) (after (ops3 (F := F)) (after (ops2 (F := F)) (after (ops1 (F := F)) (after (ops0 (F := F)) (launchContents m c))))))) f5_main_arg0 f5_main_arg2 f5_main_arg3 f5_main_v210 f5_main_v241 f5_main_v253 f5_main_v259 f5_main_v265 f5_main_v266 f5_main_v267
  have f6_main_v210 := win6_main_v210 (F := F) X0 X1 X2 X3 (after (ops5 (F := F)) (after (ops4 (F := F)) (after (ops3 (F := F)) (after (ops2 (F := F)) (after (ops1 (F := F)) (after (ops0 (F := F)) (launchContents m c))))))) f5_main_arg0 f5_main_arg2 f5_main_arg3 f5_main_v210 f5_main_v241 f5_main_v253 f5_main_v259 f5_main_v265 f5_main_v266 f5_main_v267
  have f6_main_v253 := win6_main_v253 (F := F) X0 X1 X2 X3 (after (ops5 (F := F)) (after (ops4 (F := F)) (after (ops3 (F := F)) (after (ops2 (F := F)) (after (ops1 (F := F)) (after (ops0 (F := F)) (launchContents m c))))))) f5_main_arg0 f5_main_arg2 f5_main_arg3 f5_main_v210 f5_main_v241 f5_main_v253 f5_main_v259 f5_main_v265 f5_main_v266 f5_main_v267
  have f6_main_v259 := win6_main_v259 (F := F) X0 X1 X2 X3 (after (ops5 (F := F)) (after (ops4 (F := F)) (after (ops3 (F := F)) (after (ops2 (F := F)) (after (ops1 (F := F)) (after (ops0 (F := F)) (launchContents m c))))))) f5_main_arg0 f5_main_arg2 f5_main_arg3 f5_main_v210 f5_main_v241 f5_main_v253 f5_main_v259 f5_main_v265 f5_main_v266 f5_main_v267
  have f6_main_v265 := win6_main_v265 (F := F) X0 X1 X2 X3 (after (ops5 (F := F)) (after (ops4 (F := F)) (after (ops3 (F := F)) (after (ops2 (F := F)) (after (ops1 (F := F)) (after (ops0 (F := F)) (launchContents m c))))))) f5_main_arg0 f5_main_arg2 f5_main_arg3 f5_main_v210 f5_main_v241 f5_main_v253 f5_main_v259 f5_main_v265 f5_main_v266 f5_main_v267
  have f6_main_v266 := win6_main_v266 (F := F) X0 X1 X2 X3 (after (ops5 (F := F)) (after (ops4 (F := F)) (after (ops3 (F := F)) (after (ops2 (F := F)) (after (ops1 (F := F)) (after (ops0 (F := F)) (launchContents m c))))))) f5_main_arg0 f5_main_arg2 f5_main_arg3 f5_main_v210 f5_main_v241 f5_main_v253 f5_main_v259 f5_main_v265 f5_main_v266 f5_main_v267
  have f6_main_v267 := win6_main_v267 (F := F) X0 X1 X2 X3 (after (ops5 (F := F)) (after (ops4 (F := F)) (after (ops3 (F := F)) (after (ops2 (F := F)) (after (ops1 (F := F)) (after (ops0 (F := F)) (launchContents m c))))))) f5_main_arg0 f5_main_arg2 f5_main_arg3 f5_main_v210 f5_main_v241 f5_main_v253 f5_main_v259 f5_main_v265 f5_main_v266 f5_main_v267
  have f6_main_v268 := win6_main_v268 (F := F) X0 X1 X2 X3 (after (ops5 (F := F)) (after (ops4 (F := F)) (after (ops3 (F := F)) (after (ops2 (F := F)) (after (ops1 (F := F)) (after (ops0 (F := F)) (launchContents m c))))))) f5_main_arg0 f5_main_arg2 f5_main_arg3 f5_main_v210 f5_main_v241 f5_main_v253 f5_main_v259 f5_main_v265 f5_main_v266 f5_main_v267
  have f6_main_v272 := win6_main_v272 (F := F) X0 X1 X2 X3 (after (ops5 (F := F)) (after (ops4 (F := F)) (after (ops3 (F := F)) (after (ops2 (F := F)) (after (ops1 (F := F)) (after (ops0 (F := F)) (launchContents m c))))))) f5_main_arg0 f5_main_arg2 f5_main_arg3 f5_main_v210 f5_main_v241 f5_main_v253 f5_main_v259 f5_main_v265 f5_main_v266 f5_main_v267
  have f6_main_v276 := win6_main_v276 (F := F) X0 X1 X2 X3 (after (ops5 (F := F)) (after (ops4 (F := F)) (after (ops3 (F := F)) (after (ops2 (F := F)) (after (ops1 (F := F)) (after (ops0 (F := F)) (launchContents m c))))))) f5_main_arg0 f5_main_arg2 f5_main_arg3 f5_main_v210 f5_main_v241 f5_main_v253 f5_main_v259 f5_main_v265 f5_main_v266 f5_main_v267
  have f6_main_v280 := win6_main_v280 (F := F) X0 X1 X2 X3 (after (ops5 (F := F)) (after (ops4 (F := F)) (after (ops3 (F := F)) (after (ops2 (F := F)) (after (ops1 (F := F)) (after (ops0 (F := F)) (launchContents m c))))))) f5_main_arg0 f5_main_arg2 f5_main_arg3 f5_main_v210 f5_main_v241 f5_main_v253 f5_main_v259 f5_main_v265 f5_main_v266 f5_main_v267
  have f6_main_v281 := win6_main_v281 (F := F) X0 X1 X2 X3 (after (ops5 (F := F)) (after (ops4 (F := F)) (after (ops3 (F := F)) (after (ops2 (F := F)) (after (ops1 (F := F)) (after (ops0 (F := F)) (launchContents m c))))))) f5_main_arg0 f5_main_arg2 f5_main_arg3 f5_main_v210 f5_main_v241 f5_main_v253 f5_main_v259 f5_main_v265 f5_main_v266 f5_main_v267
  have f6_main_v294 := win6_main_v294 (F := F) X0 X1 X2 X3 (after (ops5 (F := F)) (after (ops4 (F := F)) (after (ops3 (F := F)) (after (ops2 (F := F)) (after (ops1 (F := F)) (after (ops0 (F := F)) (launchContents m c))))))) f5_main_arg0 f5_main_arg2 f5_main_arg3 f5_main_v210 f5_main_v241 f5_main_v253 f5_main_v259 f5_main_v265 f5_main_v266 f5_main_v267
  have f6_main_v307 := win6_main_v307 (F := F) X0 X1 X2 X3 (after (ops5 (F := F)) (after (ops4 (F := F)) (after (ops3 (F := F)) (after (ops2 (F := F)) (after (ops1 (F := F)) (after (ops0 (F := F)) (launchContents m c))))))) f5_main_arg0 f5_main_arg2 f5_main_arg3 f5_main_v210 f5_main_v241 f5_main_v253 f5_main_v259 f5_main_v265 f5_main_v266 f5_main_v267
  have f6_main_v310 := win6_main_v310 (F := F) X0 X1 X2 X3 (after (ops5 (F := F)) (after (ops4 (F := F)) (after (ops3 (F := F)) (after (ops2 (F := F)) (after (ops1 (F := F)) (after (ops0 (F := F)) (launchContents m c))))))) f5_main_arg0 f5_main_arg2 f5_main_arg3 f5_main_v210 f5_main_v241 f5_main_v253 f5_main_v259 f5_main_v265 f5_main_v266 f5_main_v267
  have f6_main_v311 := win6_main_v311 (F := F) X0 X1 X2 X3 (after (ops5 (F := F)) (after (ops4 (F := F)) (after (ops3 (F := F)) (after (ops2 (F := F)) (after (ops1 (F := F)) (after (ops0 (F := F)) (launchContents m c))))))) f5_main_arg0 f5_main_arg2 f5_main_arg3 f5_main_v210 f5_main_v241 f5_main_v253 f5_main_v259 f5_main_v265 f5_main_v266 f5_main_v267
  have f7_main_arg0 := win7_main_arg0 (F := F) X0 X1 X2 X3 (after (ops6 (F := F)) (after (ops5 (F := F)) (after (ops4 (F := F)) (after (ops3 (F := F)) (after (ops2 (F := F)) (after (ops1 (F := F)) (after (ops0 (F := F)) (launchContents m c)))))))) f6_main_arg0 f6_main_arg3 f6_main_v210 f6_main_v253 f6_main_v259 f6_main_v265 f6_main_v266 f6_main_v267 f6_main_v268 f6_main_v272 f6_main_v276 f6_main_v280 f6_main_v281 f6_main_v294 f6_main_v307 f6_main_v310 f6_main_v311
  have f7_main_arg3 := win7_main_arg3 (F := F) X0 X1 X2 X3 (after (ops6 (F := F)) (after (ops5 (F := F)) (after (ops4 (F := F)) (after (ops3 (F := F)) (after (ops2 (F := F)) (after (ops1 (F := F)) (after (ops0 (F := F)) (launchContents m c)))))))) f6_main_arg0 f6_main_arg3 f6_main_v210 f6_main_v253 f6_main_v259 f6_main_v265 f6_main_v266 f6_main_v267 f6_main_v268 f6_main_v272 f6_main_v276 f6_main_v280 f6_main_v281 f6_main_v294 f6_main_v307 f6_main_v310 f6_main_v311
  have f7_main_v210 := win7_main_v210 (F := F) X0 X1 X2 X3 (after (ops6 (F := F)) (after (ops5 (F := F)) (after (ops4 (F := F)) (after (ops3 (F := F)) (after (ops2 (F := F)) (after (ops1 (F := F)) (after (ops0 (F := F)) (launchContents m c)))))))) f6_main_arg0 f6_main_arg3 f6_main_v210 f6_main_v253 f6_main_v259 f6_main_v265 f6_main_v266 f6_main_v267 f6_main_v268 f6_main_v272 f6_main_v276 f6_main_v280 f6_main_v281 f6_main_v294 f6_main_v307 f6_main_v310 f6_main_v311
  have f7_main_v253 := win7_main_v253 (F := F) X0 X1 X2 X3 (after (ops6 (F := F)) (after (ops5 (F := F)) (after (ops4 (F := F)) (after (ops3 (F := F)) (after (ops2 (F := F)) (after (ops1 (F := F)) (after (ops0 (F := F)) (launchContents m c)))))))) f6_main_arg0 f6_main_arg3 f6_main_v210 f6_main_v253 f6_main_v259 f6_main_v265 f6_main_v266 f6_main_v267 f6_main_v268 f6_main_v272 f6_main_v276 f6_main_v280 f6_main_v281 f6_main_v294 f6_main_v307 f6_main_v310 f6_main_v311
  have f7_main_v259 := win7_main_v259 (F := F) X0 X1 X2 X3 (after (ops6 (F := F)) (after (ops5 (F := F)) (after (ops4 (F := F)) (after (ops3 (F := F)) (after (ops2 (F := F)) (after (ops1 (F := F)) (after (ops0 (F := F)) (launchContents m c)))))))) f6_main_arg0 f6_main_arg3 f6_main_v210 f6_main_v253 f6_main_v259 f6_main_v265 f6_main_v266 f6_main_v267 f6_main_v268 f6_main_v272 f6_main_v276 f6_main_v280 f6_main_v281 f6_main_v294 f6_main_v307 f6_main_v310 f6_main_v311
  have f7_main_v265 := win7_main_v265 (F := F) X0 X1 X2 X3 (after (ops6 (F := F)) (after (ops5 (F := F)) (after (ops4 (F := F)) (after (ops3 (F := F)) (after (ops2 (F := F)) (after (ops1 (F := F)) (after (ops0 (F := F)) (launchContents m c)))))))) f6_main_arg0 f6_main_arg3 f6_main_v210 f6_main_v253 f6_main_v259 f6_main_v265 f6_main_v266 f6_main_v267 f6_main_v268 f6_main_v272 f6_main_v276 f6_main_v280 f6_main_v281 f6_main_v294 f6_main_v307 f6_main_v310 f6_main_v311
  have f7_main_v266 := win7_main_v266 (F := F) X0 X1 X2 X3 (after (ops6 (F := F)) (after (ops5 (F := F)) (after (ops4 (F := F)) (after (ops3 (F := F)) (after (ops2 (F := F)) (after (ops1 (F := F)) (after (ops0 (F := F)) (launchContents m c)))))))) f6_main_arg0 f6_main_arg3 f6_main_v210 f6_main_v253 f6_main_v259 f6_main_v265 f6_main_v266 f6_main_v267 f6_main_v268 f6_main_v272 f6_main_v276 f6_main_v280 f6_main_v281 f6_main_v294 f6_main_v307 f6_main_v310 f6_main_v311
  have f7_main_v272 := win7_main_v272 (F := F) X0 X1 X2 X3 (after (ops6 (F := F)) (after (ops5 (F := F)) (after (ops4 (F := F)) (after (ops3 (F := F)) (after (ops2 (F := F)) (after (ops1 (F := F)) (after (ops0 (F := F)) (launchContents m c)))))))) f6_main_arg0 f6_main_arg3 f6_main_v210 f6_main_v253 f6_main_v259 f6_main_v265 f6_main_v266 f6_main_v267 f6_main_v268 f6_main_v272 f6_main_v276 f6_main_v280 f6_main_v281 f6_main_v294 f6_main_v307 f6_main_v310 f6_main_v311
  have f7_main_v276 := win7_main_v276 (F := F) X0 X1 X2 X3 (after (ops6 (F := F)) (after (ops5 (F := F)) (after (ops4 (F := F)) (after (ops3 (F := F)) (after (ops2 (F := F)) (after (ops1 (F := F)) (after (ops0 (F := F)) (launchContents m c)))))))) f6_main_arg0 f6_main_arg3 f6_main_v210 f6_main_v253 f6_main_v259 f6_main_v265 f6_main_v266 f6_main_v267 f6_main_v268 f6_main_v272 f6_main_v276 f6_main_v280 f6_main_v281 f6_main_v294 f6_main_v307 f6_main_v310 f6_main_v311
  have f7_main_v280 := win7_main_v280 (F := F) X0 X1 X2 X3 (after (ops6 (F := F)) (after (ops5 (F := F)) (after (ops4 (F := F)) (after (ops3 (F := F)) (after (ops2 (F := F)) (after (ops1 (F := F)) (after (ops0 (F := F)) (launchContents m c)))))))) f6_main_arg0 f6_main_arg3 f6_main_v210 f6_main_v253 f6_main_v259 f6_main_v265 f6_main_v266 f6_main_v267 f6_main_v268 f6_main_v272 f6_main_v276 f6_main_v280 f6_main_v281 f6_main_v294 f6_main_v307 f6_main_v310 f6_main_v311
  have f7_main_v281 := win7_main_v281 (F := F) X0 X1 X2 X3 (after (ops6 (F := F)) (after (ops5 (F := F)) (after (ops4 (F := F)) (after (ops3 (F := F)) (after (ops2 (F := F)) (after (ops1 (F := F)) (after (ops0 (F := F)) (launchContents m c)))))))) f6_main_arg0 f6_main_arg3 f6_main_v210 f6_main_v253 f6_main_v259 f6_main_v265 f6_main_v266 f6_main_v267 f6_main_v268 f6_main_v272 f6_main_v276 f6_main_v280 f6_main_v281 f6_main_v294 f6_main_v307 f6_main_v310 f6_main_v311
  have f7_main_v294 := win7_main_v294 (F := F) X0 X1 X2 X3 (after (ops6 (F := F)) (after (ops5 (F := F)) (after (ops4 (F := F)) (after (ops3 (F := F)) (after (ops2 (F := F)) (after (ops1 (F := F)) (after (ops0 (F := F)) (launchContents m c)))))))) f6_main_arg0 f6_main_arg3 f6_main_v210 f6_main_v253 f6_main_v259 f6_main_v265 f6_main_v266 f6_main_v267 f6_main_v268 f6_main_v272 f6_main_v276 f6_main_v280 f6_main_v281 f6_main_v294 f6_main_v307 f6_main_v310 f6_main_v311
  have f7_main_v307 := win7_main_v307 (F := F) X0 X1 X2 X3 (after (ops6 (F := F)) (after (ops5 (F := F)) (after (ops4 (F := F)) (after (ops3 (F := F)) (after (ops2 (F := F)) (after (ops1 (F := F)) (after (ops0 (F := F)) (launchContents m c)))))))) f6_main_arg0 f6_main_arg3 f6_main_v210 f6_main_v253 f6_main_v259 f6_main_v265 f6_main_v266 f6_main_v267 f6_main_v268 f6_main_v272 f6_main_v276 f6_main_v280 f6_main_v281 f6_main_v294 f6_main_v307 f6_main_v310 f6_main_v311
  have f7_main_v320 := win7_main_v320 (F := F) X0 X1 X2 X3 (after (ops6 (F := F)) (after (ops5 (F := F)) (after (ops4 (F := F)) (after (ops3 (F := F)) (after (ops2 (F := F)) (after (ops1 (F := F)) (after (ops0 (F := F)) (launchContents m c)))))))) f6_main_arg0 f6_main_arg3 f6_main_v210 f6_main_v253 f6_main_v259 f6_main_v265 f6_main_v266 f6_main_v267 f6_main_v268 f6_main_v272 f6_main_v276 f6_main_v280 f6_main_v281 f6_main_v294 f6_main_v307 f6_main_v310 f6_main_v311
  have f7_main_v333 := win7_main_v333 (F := F) X0 X1 X2 X3 (after (ops6 (F := F)) (after (ops5 (F := F)) (after (ops4 (F := F)) (after (ops3 (F := F)) (after (ops2 (F := F)) (after (ops1 (F := F)) (after (ops0 (F := F)) (launchContents m c)))))))) f6_main_arg0 f6_main_arg3 f6_main_v210 f6_main_v253 f6_main_v259 f6_main_v265 f6_main_v266 f6_main_v267 f6_main_v268 f6_main_v272 f6_main_v276 f6_main_v280 f6_main_v281 f6_main_v294 f6_main_v307 f6_main_v310 f6_main_v311
  have f7_main_v346 := win7_main_v346 (F := F) X0 X1 X2 X3 (after (ops6 (F := F)) (after (ops5 (F := F)) (after (ops4 (F := F)) (after (ops3 (F := F)) (after (ops2 (F := F)) (after (ops1 (F := F)) (after (ops0 (F := F)) (launchContents m c)))))))) f6_main_arg0 f6_main_arg3 f6_main_v210 f6_main_v253 f6_main_v259 f6_main_v265 f6_main_v266 f6_main_v267 f6_main_v268 f6_main_v272 f6_main_v276 f6_main_v280 f6_main_v281 f6_main_v294 f6_main_v307 f6_main_v310 f6_main_v311
  have f7_main_v357 := win7_main_v357 (F := F) X0 X1 X2 X3 (after (ops6 (F := F)) (after (ops5 (F := F)) (after (ops4 (F := F)) (after (ops3 (F := F)) (after (ops2 (F := F)) (after (ops1 (F := F)) (after (ops0 (F := F)) (launchContents m c)))))))) f6_main_arg0 f6_main_arg3 f6_main_v210 f6_main_v253 f6_main_v259 f6_main_v265 f6_main_v266 f6_main_v267 f6_main_v268 f6_main_v272 f6_main_v276 f6_main_v280 f6_main_v281 f6_main_v294 f6_main_v307 f6_main_v310 f6_main_v311
  have f8_main_arg0 := win8_main_arg0 (F := F) X0 X1 X2 X3 (after (ops7 (F := F)) (after (ops6 (F := F)) (after (ops5 (F := F)) (after (ops4 (F := F)) (after (ops3 (F := F)) (after (ops2 (F := F)) (after (ops1 (F := F)) (after (ops0 (F := F)) (launchContents m c))))))))) f7_main_arg0 f7_main_arg3 f7_main_v210 f7_main_v253 f7_main_v259 f7_main_v265 f7_main_v266 f7_main_v272 f7_main_v276 f7_main_v280 f7_main_v281 f7_main_v294 f7_main_v307 f7_main_v320 f7_main_v333 f7_main_v346 f7_main_v357
  have f8_main_arg3 := win8_main_arg3 (F := F) X0 X1 X2 X3 (after (ops7 (F := F)) (after (ops6 (F := F)) (after (ops5 (F := F)) (after (ops4 (F := F)) (after (ops3 (F := F)) (after (ops2 (F := F)) (after (ops1 (F := F)) (after (ops0 (F := F)) (launchContents m c))))))))) f7_main_arg0 f7_main_arg3 f7_main_v210 f7_main_v253 f7_main_v259 f7_main_v265 f7_main_v266 f7_main_v272 f7_main_v276 f7_main_v280 f7_main_v281 f7_main_v294 f7_main_v307 f7_main_v320 f7_main_v333 f7_main_v346 f7_main_v357
  have f8_main_v210 := win8_main_v210 (F := F) X0 X1 X2 X3 (after (ops7 (F := F)) (after (ops6 (F := F)) (after (ops5 (F := F)) (after (ops4 (F := F)) (after (ops3 (F := F)) (after (ops2 (F := F)) (after (ops1 (F := F)) (after (ops0 (F := F)) (launchContents m c))))))))) f7_main_arg0 f7_main_arg3 f7_main_v210 f7_main_v253 f7_main_v259 f7_main_v265 f7_main_v266 f7_main_v272 f7_main_v276 f7_main_v280 f7_main_v281 f7_main_v294 f7_main_v307 f7_main_v320 f7_main_v333 f7_main_v346 f7_main_v357
  have f8_main_v259 := win8_main_v259 (F := F) X0 X1 X2 X3 (after (ops7 (F := F)) (after (ops6 (F := F)) (after (ops5 (F := F)) (after (ops4 (F := F)) (after (ops3 (F := F)) (after (ops2 (F := F)) (after (ops1 (F := F)) (after (ops0 (F := F)) (launchContents m c))))))))) f7_main_arg0 f7_main_arg3 f7_main_v210 f7_main_v253 f7_main_v259 f7_main_v265 f7_main_v266 f7_main_v272 f7_main_v276 f7_main_v280 f7_main_v281 f7_main_v294 f7_main_v307 f7_main_v320 f7_main_v333 f7_main_v346 f7_main_v357
  have f8_main_v265 := win8_main_v265 (F := F) X0 X1 X2 X3 (after (ops7 (F := F)) (after (ops6 (F := F)) (after (ops5 (F := F)) (after (ops4 (F := F)) (after (ops3 (F := F)) (after (ops2 (F := F)) (after (ops1 (F := F)) (after (ops0 (F := F)) (launchContents m c))))))))) f7_main_arg0 f7_main_arg3 f7_main_v210 f7_main_v253 f7_main_v259 f7_main_v265 f7_main_v266 f7_main_v272 f7_main_v276 f7_main_v280 f7_main_v281 f7_main_v294 f7_main_v307 f7_main_v320 f7_main_v333 f7_main_v346 f7_main_v357
  have f8_main_v390 := win8_main_v390 (F := F) X0 X1 X2 X3 (after (ops7 (F := F)) (after (ops6 (F := F)) (after (ops5 (F := F)) (after (ops4 (F := F)) (after (ops3 (F := F)) (after (ops2 (F := F)) (after (ops1 (F := F)) (after (ops0 (F := F)) (launchContents m c))))))))) f7_main_arg0 f7_main_arg3 f7_main_v210 f7_main_v253 f7_main_v259 f7_main_v265 f7_main_v266 f7_main_v272 f7_main_v276 f7_main_v280 f7_main_v281 f7_main_v294 f7_main_v307 f7_main_v320 f7_main_v333 f7_main_v346 f7_main_v357
  have f8_main_v400 := win8_main_v400 (F := F) X0 X1 X2 X3 (after (ops7 (F := F)) (after (ops6 (F := F)) (after (ops5 (F := F)) (after (ops4 (F := F)) (after (ops3 (F := F)) (after (ops2 (F := F)) (after (ops1 (F := F)) (after (ops0 (F := F)) (launchContents m c))))))))) f7_main_arg0 f7_main_arg3 f7_main_v210 f7_main_v253 f7_main_v259 f7_main_v265 f7_main_v266 f7_main_v272 f7_main_v276 f7_main_v280 f7_main_v281 f7_main_v294 f7_main_v307 f7_main_v320 f7_main_v333 f7_main_v346 f7_main_v357
  have f8_main_v405 := win8_main_v405 (F := F) X0 X1 X2 X3 (after (ops7 (F := F)) (after (ops6 (F := F)) (after (ops5 (F := F)) (after (ops4 (F := F)) (after (ops3 (F := F)) (after (ops2 (F := F)) (after (ops1 (F := F)) (after (ops0 (F := F)) (launchContents m c))))))))) f7_main_arg0 f7_main_arg3 f7_main_v210 f7_main_v253 f7_main_v259 f7_main_v265 f7_main_v266 f7_main_v272 f7_main_v276 f7_main_v280 f7_main_v281 f7_main_v294 f7_main_v307 f7_main_v320 f7_main_v333 f7_main_v346 f7_main_v357
  have f8_main_v409 := win8_main_v409 (F := F) X0 X1 X2 X3 (after (ops7 (F := F)) (after (ops6 (F := F)) (after (ops5 (F := F)) (after (ops4 (F := F)) (after (ops3 (F := F)) (after (ops2 (F := F)) (after (ops1 (F := F)) (after (ops0 (F := F)) (launchContents m c))))))))) f7_main_arg0 f7_main_arg3 f7_main_v210 f7_main_v253 f7_main_v259 f7_main_v265 f7_main_v266 f7_main_v272 f7_main_v276 f7_main_v280 f7_main_v281 f7_main_v294 f7_main_v307 f7_main_v320 f7_main_v333 f7_main_v346 f7_main_v357
  have f9_main_arg3 := win9_main_arg3 (F := F) X0 X1 X2 X3 (after (ops8 (F := F)) (after (ops7 (F := F)) (after (ops6 (F := F)) (after (ops5 (F := F)) (after (ops4 (F := F)) (after (ops3 (F := F)) (after (ops2 (F := F)) (after (ops1 (F := F)) (after (ops0 (F := F)) (launchContents m c)))))))))) f8_main_arg0 f8_main_arg3 f8_main_v210 f8_main_v259 f8_main_v265 f8_main_v390 f8_main_v400 f8_main_v405 f8_main_v409
  have f9_main_v210 := win9_main_v210 (F := F) X0 X1 X2 X3 (after (ops8 (F := F)) (after (ops7 (F := F)) (after (ops6 (F := F)) (after (ops5 (F := F)) (after (ops4 (F := F)) (after (ops3 (F := F)) (after (ops2 (F := F)) (after (ops1 (F := F)) (after (ops0 (F := F)) (launchContents m c)))))))))) f8_main_arg0 f8_main_arg3 f8_main_v210 f8_main_v259 f8_main_v265 f8_main_v390 f8_main_v400 f8_main_v405 f8_main_v409
  have f9_main_v421 := win9_main_v421 (F := F) X0 X1 X2 X3 (after (ops8 (F := F)) (after (ops7 (F := F)) (after (ops6 (F := F)) (after (ops5 (F := F)) (after (ops4 (F := F)) (after (ops3 (F := F)) (after (ops2 (F := F)) (after (ops1 (F := F)) (after (ops0 (F := F)) (launchContents m c)))))))))) f8_main_arg0 f8_main_arg3 f8_main_v210 f8_main_v259 f8_main_v265 f8_main_v390 f8_main_v400 f8_main_v405 f8_main_v409
  have f9_main_v438 := win9_main_v438 (F := F) X0 X1 X2 X3 (after (ops8 (F := F)) (after (ops7 (F := F)) (after (ops6 (F := F)) (after (ops5 (F := F)) (after (ops4 (F := F)) (after (ops3 (F := F)) (after (ops2 (F := F)) (after (ops1 (F := F)) (after (ops0 (F := F)) (launchContents m c)))))))))) f8_main_arg0 f8_main_arg3 f8_main_v210 f8_main_v259 f8_main_v265 f8_main_v390 f8_main_v400 f8_main_v405 f8_main_v409
  have f9_main_v446 := win9_main_v446 (F := F) X0 X1 X2 X3 (after (ops8 (F := F)) (after (ops7 (F := F)) (after (ops6 (F := F)) (after (ops5 (F := F)) (after (ops4 (F := F)) (after (ops3 (F := F)) (after (ops2 (F := F)) (after (ops1 (F := F)) (after (ops0 (F := F)) (launchContents m c)))))))))) f8_main_arg0 f8_main_arg3 f8_main_v210 f8_main_v259 f8_main_v265 f8_main_v390 f8_main_v400 f8_main_v405 f8_main_v409
  have f9_main_v448 := win9_main_v448 (F := F) X0 X1 X2 X3 (after (ops8 (F := F)) (after (ops7 (F := F)) (after (ops6 (F := F)) (after (ops5 (F := F)) (after (ops4 (F := F)) (after (ops3 (F := F)) (after (ops2 (F := F)) (after (ops1 (F := F)) (after (ops0 (F := F)) (launchContents m c)))))))))) f8_main_arg0 f8_main_arg3 f8_main_v210 f8_main_v259 f8_main_v265 f8_main_v390 f8_main_v400 f8_main_v405 f8_main_v409
  have f9_main_v450 := win9_main_v450 (F := F) X0 X1 X2 X3 (after (ops8 (F := F)) (after (ops7 (F := F)) (after (ops6 (F := F)) (after (ops5 (F := F)) (after (ops4 (F := F)) (after (ops3 (F := F)) (after (ops2 (F := F)) (after (ops1 (F := F)) (after (ops0 (F := F)) (launchContents m c)))))))))) f8_main_arg0 f8_main_arg3 f8_main_v210 f8_main_v259 f8_main_v265 f8_main_v390 f8_main_v400 f8_main_v405 f8_main_v409
  have f9_main_v452 := win9_main_v452 (F := F) X0 X1 X2 X3 (after (ops8 (F := F)) (after (ops7 (F := F)) (after (ops6 (F := F)) (after (ops5 (F := F)) (after (ops4 (F := F)) (after (ops3 (F := F)) (after (ops2 (F := F)) (after (ops1 (F := F)) (after (ops0 (F := F)) (launchContents m c)))))))))) f8_main_arg0 f8_main_arg3 f8_main_v210 f8_main_v259 f8_main_v265 f8_main_v390 f8_main_v400 f8_main_v405 f8_main_v409
  have f9_main_v453 := win9_main_v453 (F := F) X0 X1 X2 X3 (after (ops8 (F := F)) (after (ops7 (F := F)) (after (ops6 (F := F)) (after (ops5 (F := F)) (after (ops4 (F := F)) (after (ops3 (F := F)) (after (ops2 (F := F)) (after (ops1 (F := F)) (after (ops0 (F := F)) (launchContents m c)))))))))) f8_main_arg0 f8_main_arg3 f8_main_v210 f8_main_v259 f8_main_v265 f8_main_v390 f8_main_v400 f8_main_v405 f8_main_v409
  have f9_main_cst_143 := win9_main_cst_143 (F := F) X0 X1 X2 X3 (after (ops8 (F := F)) (after (ops7 (F := F)) (after (ops6 (F := F)) (after (ops5 (F := F)) (after (ops4 (F := F)) (after (ops3 (F := F)) (after (ops2 (F := F)) (after (ops1 (F := F)) (after (ops0 (F := F)) (launchContents m c)))))))))) f8_main_arg0 f8_main_arg3 f8_main_v210 f8_main_v259 f8_main_v265 f8_main_v390 f8_main_v400 f8_main_v405 f8_main_v409
  have f10_main_v210 := win10_main_v210 (F := F) X0 X1 X2 X3 (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c))))))))))) f9_main_arg3 f9_main_v210 f9_main_v421 f9_main_v438 f9_main_v446 f9_main_v448 f9_main_v450 f9_main_v452 f9_main_v453 f9_main_cst_143
  have f10_main_v421 := win10_main_v421 (F := F) X0 X1 X2 X3 (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c))))))))))) f9_main_arg3 f9_main_v210 f9_main_v421 f9_main_v438 f9_main_v446 f9_main_v448 f9_main_v450 f9_main_v452 f9_main_v453 f9_main_cst_143
  have f10_main_v464 := win10_main_v464 (F := F) X0 X1 X2 X3 (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c))))))))))) f9_main_arg3 f9_main_v210 f9_main_v421 f9_main_v438 f9_main_v446 f9_main_v448 f9_main_v450 f9_main_v452 f9_main_v453 f9_main_cst_143
  have f10_main_v470 := win10_main_v470 (F := F) X0 X1 X2 X3 (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c))))))))))) f9_main_arg3 f9_main_v210 f9_main_v421 f9_main_v438 f9_main_v446 f9_main_v448 f9_main_v450 f9_main_v452 f9_main_v453 f9_main_cst_143
  have f10_main_v476 := win10_main_v476 (F := F) X0 X1 X2 X3 (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c))))))))))) f9_main_arg3 f9_main_v210 f9_main_v421 f9_main_v438 f9_main_v446 f9_main_v448 f9_main_v450 f9_main_v452 f9_main_v453 f9_main_cst_143
  have f10_main_v477 := win10_main_v477 (F := F) X0 X1 X2 X3 (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c))))))))))) f9_main_arg3 f9_main_v210 f9_main_v421 f9_main_v438 f9_main_v446 f9_main_v448 f9_main_v450 f9_main_v452 f9_main_v453 f9_main_cst_143
  have f10_main_v478 := win10_main_v478 (F := F) X0 X1 X2 X3 (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c))))))))))) f9_main_arg3 f9_main_v210 f9_main_v421 f9_main_v438 f9_main_v446 f9_main_v448 f9_main_v450 f9_main_v452 f9_main_v453 f9_main_cst_143
  have f10_main_v479 := win10_main_v479 (F := F) X0 X1 X2 X3 (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c))))))))))) f9_main_arg3 f9_main_v210 f9_main_v421 f9_main_v438 f9_main_v446 f9_main_v448 f9_main_v450 f9_main_v452 f9_main_v453 f9_main_cst_143
  have f10_main_v483 := win10_main_v483 (F := F) X0 X1 X2 X3 (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c))))))))))) f9_main_arg3 f9_main_v210 f9_main_v421 f9_main_v438 f9_main_v446 f9_main_v448 f9_main_v450 f9_main_v452 f9_main_v453 f9_main_cst_143
  have f10_main_v487 := win10_main_v487 (F := F) X0 X1 X2 X3 (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c))))))))))) f9_main_arg3 f9_main_v210 f9_main_v421 f9_main_v438 f9_main_v446 f9_main_v448 f9_main_v450 f9_main_v452 f9_main_v453 f9_main_cst_143
  have f10_main_v491 := win10_main_v491 (F := F) X0 X1 X2 X3 (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c))))))))))) f9_main_arg3 f9_main_v210 f9_main_v421 f9_main_v438 f9_main_v446 f9_main_v448 f9_main_v450 f9_main_v452 f9_main_v453 f9_main_cst_143
  have f10_main_v492 := win10_main_v492 (F := F) X0 X1 X2 X3 (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c))))))))))) f9_main_arg3 f9_main_v210 f9_main_v421 f9_main_v438 f9_main_v446 f9_main_v448 f9_main_v450 f9_main_v452 f9_main_v453 f9_main_cst_143
  have f10_main_v495 := win10_main_v495 (F := F) X0 X1 X2 X3 (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c))))))))))) f9_main_arg3 f9_main_v210 f9_main_v421 f9_main_v438 f9_main_v446 f9_main_v448 f9_main_v450 f9_main_v452 f9_main_v453 f9_main_cst_143
  have f11_main_v210 := win11_main_v210 (F := F) X0 X1 X2 X3 (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c)))))))))))) f10_main_v210 f10_main_v421 f10_main_v464 f10_main_v470 f10_main_v476 f10_main_v477 f10_main_v478 f10_main_v479 f10_main_v483 f10_main_v487 f10_main_v491 f10_main_v492 f10_main_v495
  have f11_main_v421 := win11_main_v421 (F := F) X0 X1 X2 X3 (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c)))))))))))) f10_main_v210 f10_main_v421 f10_main_v464 f10_main_v470 f10_main_v476 f10_main_v477 f10_main_v478 f10_main_v479 f10_main_v483 f10_main_v487 f10_main_v491 f10_main_v492 f10_main_v495
  have f11_main_v464 := win11_main_v464 (F := F) X0 X1 X2 X3 (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c)))))))))))) f10_main_v210 f10_main_v421 f10_main_v464 f10_main_v470 f10_main_v476 f10_main_v477 f10_main_v478 f10_main_v479 f10_main_v483 f10_main_v487 f10_main_v491 f10_main_v492 f10_main_v495
  have f11_main_v470 := win11_main_v470 (F := F) X0 X1 X2 X3 (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c)))))))))))) f10_main_v210 f10_main_v421 f10_main_v464 f10_main_v470 f10_main_v476 f10_main_v477 f10_main_v478 f10_main_v479 f10_main_v483 f10_main_v487 f10_main_v491 f10_main_v492 f10_main_v495
  have f11_main_v476 := win11_main_v476 (F := F) X0 X1 X2 X3 (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c)))))))))))) f10_main_v210 f10_main_v421 f10_main_v464 f10_main_v470 f10_main_v476 f10_main_v477 f10_main_v478 f10_main_v479 f10_main_v483 f10_main_v487 f10_main_v491 f10_main_v492 f10_main_v495
  have f11_main_v477 := win11_main_v477 (F := F) X0 X1 X2 X3 (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c)))))))))))) f10_main_v210 f10_main_v421 f10_main_v464 f10_main_v470 f10_main_v476 f10_main_v477 f10_main_v478 f10_main_v479 f10_main_v483 f10_main_v487 f10_main_v491 f10_main_v492 f10_main_v495
  have f11_main_v478 := win11_main_v478 (F := F) X0 X1 X2 X3 (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c)))))))))))) f10_main_v210 f10_main_v421 f10_main_v464 f10_main_v470 f10_main_v476 f10_main_v477 f10_main_v478 f10_main_v479 f10_main_v483 f10_main_v487 f10_main_v491 f10_main_v492 f10_main_v495
  have f11_main_v483 := win11_main_v483 (F := F) X0 X1 X2 X3 (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c)))))))))))) f10_main_v210 f10_main_v421 f10_main_v464 f10_main_v470 f10_main_v476 f10_main_v477 f10_main_v478 f10_main_v479 f10_main_v483 f10_main_v487 f10_main_v491 f10_main_v492 f10_main_v495
  have f11_main_v487 := win11_main_v487 (F := F) X0 X1 X2 X3 (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c)))))))))))) f10_main_v210 f10_main_v421 f10_main_v464 f10_main_v470 f10_main_v476 f10_main_v477 f10_main_v478 f10_main_v479 f10_main_v483 f10_main_v487 f10_main_v491 f10_main_v492 f10_main_v495
  have f11_main_v491 := win11_main_v491 (F := F) X0 X1 X2 X3 (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c)))))))))))) f10_main_v210 f10_main_v421 f10_main_v464 f10_main_v470 f10_main_v476 f10_main_v477 f10_main_v478 f10_main_v479 f10_main_v483 f10_main_v487 f10_main_v491 f10_main_v492 f10_main_v495
  have f11_main_v492 := win11_main_v492 (F := F) X0 X1 X2 X3 (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c)))))))))))) f10_main_v210 f10_main_v421 f10_main_v464 f10_main_v470 f10_main_v476 f10_main_v477 f10_main_v478 f10_main_v479 f10_main_v483 f10_main_v487 f10_main_v491 f10_main_v492 f10_main_v495
  have f11_main_v505 := win11_main_v505 (F := F) X0 X1 X2 X3 (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c)))))))))))) f10_main_v210 f10_main_v421 f10_main_v464 f10_main_v470 f10_main_v476 f10_main_v477 f10_main_v478 f10_main_v479 f10_main_v483 f10_main_v487 f10_main_v491 f10_main_v492 f10_main_v495
  have f11_main_v518 := win11_main_v518 (F := F) X0 X1 X2 X3 (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c)))))))))))) f10_main_v210 f10_main_v421 f10_main_v464 f10_main_v470 f10_main_v476 f10_main_v477 f10_main_v478 f10_main_v479 f10_main_v483 f10_main_v487 f10_main_v491 f10_main_v492 f10_main_v495
  have f11_main_v531 := win11_main_v531 (F := F) X0 X1 X2 X3 (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c)))))))))))) f10_main_v210 f10_main_v421 f10_main_v464 f10_main_v470 f10_main_v476 f10_main_v477 f10_main_v478 f10_main_v479 f10_main_v483 f10_main_v487 f10_main_v491 f10_main_v492 f10_main_v495
  have f11_main_v537 := win11_main_v537 (F := F) X0 X1 X2 X3 (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c)))))))))))) f10_main_v210 f10_main_v421 f10_main_v464 f10_main_v470 f10_main_v476 f10_main_v477 f10_main_v478 f10_main_v479 f10_main_v483 f10_main_v487 f10_main_v491 f10_main_v492 f10_main_v495
  have f11_main_v539 := win11_main_v539 (F := F) X0 X1 X2 X3 (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c)))))))))))) f10_main_v210 f10_main_v421 f10_main_v464 f10_main_v470 f10_main_v476 f10_main_v477 f10_main_v478 f10_main_v479 f10_main_v483 f10_main_v487 f10_main_v491 f10_main_v492 f10_main_v495
  have f11_main_v540 := win11_main_v540 (F := F) X0 X1 X2 X3 (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c)))))))))))) f10_main_v210 f10_main_v421 f10_main_v464 f10_main_v470 f10_main_v476 f10_main_v477 f10_main_v478 f10_main_v479 f10_main_v483 f10_main_v487 f10_main_v491 f10_main_v492 f10_main_v495
  have f12_main_v210 := win12_main_v210 (F := F) X0 X1 X2 X3 (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c))))))))))))) f11_main_v210 f11_main_v421 f11_main_v464 f11_main_v470 f11_main_v476 f11_main_v477 f11_main_v478 f11_main_v483 f11_main_v487 f11_main_v491 f11_main_v492 f11_main_v505 f11_main_v518 f11_main_v531 f11_main_v537 f11_main_v539 f11_main_v540
  have f12_main_v421 := win12_main_v421 (F := F) X0 X1 X2 X3 (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c))))))))))))) f11_main_v210 f11_main_v421 f11_main_v464 f11_main_v470 f11_main_v476 f11_main_v477 f11_main_v478 f11_main_v483 f11_main_v487 f11_main_v491 f11_main_v492 f11_main_v505 f11_main_v518 f11_main_v531 f11_main_v537 f11_main_v539 f11_main_v540
  have f12_main_v464 := win12_main_v464 (F := F) X0 X1 X2 X3 (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c))))))))))))) f11_main_v210 f11_main_v421 f11_main_v464 f11_main_v470 f11_main_v476 f11_main_v477 f11_main_v478 f11_main_v483 f11_main_v487 f11_main_v491 f11_main_v492 f11_main_v505 f11_main_v518 f11_main_v531 f11_main_v537 f11_main_v539 f11_main_v540
  have f12_main_v470 := win12_main_v470 (F := F) X0 X1 X2 X3 (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c))))))))))))) f11_main_v210 f11_main_v421 f11_main_v464 f11_main_v470 f11_main_v476 f11_main_v477 f11_main_v478 f11_main_v483 f11_main_v487 f11_main_v491 f11_main_v492 f11_main_v505 f11_main_v518 f11_main_v531 f11_main_v537 f11_main_v539 f11_main_v540
  have f12_main_v476 := win12_main_v476 (F := F) X0 X1 X2 X3 (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c))))))))))))) f11_main_v210 f11_main_v421 f11_main_v464 f11_main_v470 f11_main_v476 f11_main_v477 f11_main_v478 f11_main_v483 f11_main_v487 f11_main_v491 f11_main_v492 f11_main_v505 f11_main_v518 f11_main_v531 f11_main_v537 f11_main_v539 f11_main_v540
  have f12_main_v483 := win12_main_v483 (F := F) X0 X1 X2 X3 (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c))))))))))))) f11_main_v210 f11_main_v421 f11_main_v464 f11_main_v470 f11_main_v476 f11_main_v477 f11_main_v478 f11_main_v483 f11_main_v487 f11_main_v491 f11_main_v492 f11_main_v505 f11_main_v518 f11_main_v531 f11_main_v537 f11_main_v539 f11_main_v540
  have f12_main_v492 := win12_main_v492 (F := F) X0 X1 X2 X3 (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c))))))))))))) f11_main_v210 f11_main_v421 f11_main_v464 f11_main_v470 f11_main_v476 f11_main_v477 f11_main_v478 f11_main_v483 f11_main_v487 f11_main_v491 f11_main_v492 f11_main_v505 f11_main_v518 f11_main_v531 f11_main_v537 f11_main_v539 f11_main_v540
  have f12_main_v505 := win12_main_v505 (F := F) X0 X1 X2 X3 (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c))))))))))))) f11_main_v210 f11_main_v421 f11_main_v464 f11_main_v470 f11_main_v476 f11_main_v477 f11_main_v478 f11_main_v483 f11_main_v487 f11_main_v491 f11_main_v492 f11_main_v505 f11_main_v518 f11_main_v531 f11_main_v537 f11_main_v539 f11_main_v540
  have f12_main_v518 := win12_main_v518 (F := F) X0 X1 X2 X3 (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c))))))))))))) f11_main_v210 f11_main_v421 f11_main_v464 f11_main_v470 f11_main_v476 f11_main_v477 f11_main_v478 f11_main_v483 f11_main_v487 f11_main_v491 f11_main_v492 f11_main_v505 f11_main_v518 f11_main_v531 f11_main_v537 f11_main_v539 f11_main_v540
  have f12_main_v531 := win12_main_v531 (F := F) X0 X1 X2 X3 (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c))))))))))))) f11_main_v210 f11_main_v421 f11_main_v464 f11_main_v470 f11_main_v476 f11_main_v477 f11_main_v478 f11_main_v483 f11_main_v487 f11_main_v491 f11_main_v492 f11_main_v505 f11_main_v518 f11_main_v531 f11_main_v537 f11_main_v539 f11_main_v540
  have f12_main_v544 := win12_main_v544 (F := F) X0 X1 X2 X3 (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c))))))))))))) f11_main_v210 f11_main_v421 f11_main_v464 f11_main_v470 f11_main_v476 f11_main_v477 f11_main_v478 f11_main_v483 f11_main_v487 f11_main_v491 f11_main_v492 f11_main_v505 f11_main_v518 f11_main_v531 f11_main_v537 f11_main_v539 f11_main_v540
  have f12_main_v557 := win12_main_v557 (F := F) X0 X1 X2 X3 (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c))))))))))))) f11_main_v210 f11_main_v421 f11_main_v464 f11_main_v470 f11_main_v476 f11_main_v477 f11_main_v478 f11_main_v483 f11_main_v487 f11_main_v491 f11_main_v492 f11_main_v505 f11_main_v518 f11_main_v531 f11_main_v537 f11_main_v539 f11_main_v540
  have f12_main_v570 := win12_main_v570 (F := F) X0 X1 X2 X3 (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c))))))))))))) f11_main_v210 f11_main_v421 f11_main_v464 f11_main_v470 f11_main_v476 f11_main_v477 f11_main_v478 f11_main_v483 f11_main_v487 f11_main_v491 f11_main_v492 f11_main_v505 f11_main_v518 f11_main_v531 f11_main_v537 f11_main_v539 f11_main_v540
  have f12_main_v583 := win12_main_v583 (F := F) X0 X1 X2 X3 (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c))))))))))))) f11_main_v210 f11_main_v421 f11_main_v464 f11_main_v470 f11_main_v476 f11_main_v477 f11_main_v478 f11_main_v483 f11_main_v487 f11_main_v491 f11_main_v492 f11_main_v505 f11_main_v518 f11_main_v531 f11_main_v537 f11_main_v539 f11_main_v540
  have f12_main_v586 := win12_main_v586 (F := F) X0 X1 X2 X3 (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c))))))))))))) f11_main_v210 f11_main_v421 f11_main_v464 f11_main_v470 f11_main_v476 f11_main_v477 f11_main_v478 f11_main_v483 f11_main_v487 f11_main_v491 f11_main_v492 f11_main_v505 f11_main_v518 f11_main_v531 f11_main_v537 f11_main_v539 f11_main_v540
  have f12_main_c_190 := win12_main_c_190 (F := F) X0 X1 X2 X3 (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c))))))))))))) f11_main_v210 f11_main_v421 f11_main_v464 f11_main_v470 f11_main_v476 f11_main_v477 f11_main_v478 f11_main_v483 f11_main_v487 f11_main_v491 f11_main_v492 f11_main_v505 f11_main_v518 f11_main_v531 f11_main_v537 f11_main_v539 f11_main_v540
  have f13_main_v633 := win13_main_v633 (F := F) X0 X1 X2 X3 (after (ops12 (F := F)) (after (ops11 (F := F)) (after (ops10 (F := F)) (after (ops9 (F := F)) (after (ops8 (F := F)) (after (ops7 (F := F)) (after (ops6 (F := F)) (after (ops5 (F := F)) (after (ops4 (F := F)) (after (ops3 (F := F)) (after (ops2 (F := F)) (after (ops1 (F := F)) (after (ops0 (F := F)) (launchContents m c)))))))))))))) f12_main_v210 f12_main_v421 f12_main_v464 f12_main_v470 f12_main_v476 f12_main_v483 f12_main_v492 f12_main_v505 f12_main_v518 f12_main_v531 f12_main_v544 f12_main_v557 f12_main_v570 f12_main_v583 f12_main_v586 f12_main_c_190
  exact f13_main_v633

end Cert.ReferenceIdeal.RunH

end
-- ==== Proof.RefKeptA.lean ====
/-
  No operation of the reference writes an argument array: after all 919 operations each argument buffer holds its
  launch contents.
-/
import proofs.«113233_j37486474559588_2_alg».proof.Proof.RefOps

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 400000000 in
theorem kept_arg0 (m : (ℓ : Loc nD τ sig) → Buf (Elt F) ℓ) (c : Dev nD) :
    after (ops (F := F)) (launchContents m c) (Proc.devRef .tc main_arg0) = m ((c.tc : Thread nD τ).loc main_arg0) :=
  after_of_forall_not_mem (b := Proc.devRef .tc main_arg0) _ _ (List.forall_iff_forall_mem.mp (by
    simp only [ops, ops0, ops1, ops2, ops3, ops4, ops5, ops6, ops7, ops8, ops9, ops10, ops11, ops12, ops13, List.append_assoc, List.cons_append, List.nil_append, List.append_nil, List.Forall, nullary_writes, unary_writes, binary_writes, ternary_writes, quaternary_writes, reshape_writes, binaryIndexed_writes, unaryIndexed_writes, nary_writes, Finset.mem_singleton]
    repeat' apply And.intro
    all_goals exact devRef_ne_of_ne (by decide)))

set_option maxHeartbeats 400000000 in
theorem kept_arg1 (m : (ℓ : Loc nD τ sig) → Buf (Elt F) ℓ) (c : Dev nD) :
    after (ops (F := F)) (launchContents m c) (Proc.devRef .tc main_arg1) = m ((c.tc : Thread nD τ).loc main_arg1) :=
  after_of_forall_not_mem (b := Proc.devRef .tc main_arg1) _ _ (List.forall_iff_forall_mem.mp (by
    simp only [ops, ops0, ops1, ops2, ops3, ops4, ops5, ops6, ops7, ops8, ops9, ops10, ops11, ops12, ops13, List.append_assoc, List.cons_append, List.nil_append, List.append_nil, List.Forall, nullary_writes, unary_writes, binary_writes, ternary_writes, quaternary_writes, reshape_writes, binaryIndexed_writes, unaryIndexed_writes, nary_writes, Finset.mem_singleton]
    repeat' apply And.intro
    all_goals exact devRef_ne_of_ne (by decide)))

end Cert.ReferenceIdeal.RunH

end
-- ==== Proof.RefKeptB.lean ====
/-
  No operation of the reference writes an argument array: after all 919 operations each argument buffer holds its
  launch contents.
-/
import proofs.«113233_j37486474559588_2_alg».proof.Proof.RefOps

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 400000000 in
theorem kept_arg2 (m : (ℓ : Loc nD τ sig) → Buf (Elt F) ℓ) (c : Dev nD) :
    after (ops (F := F)) (launchContents m c) (Proc.devRef .tc main_arg2) = m ((c.tc : Thread nD τ).loc main_arg2) :=
  after_of_forall_not_mem (b := Proc.devRef .tc main_arg2) _ _ (List.forall_iff_forall_mem.mp (by
    simp only [ops, ops0, ops1, ops2, ops3, ops4, ops5, ops6, ops7, ops8, ops9, ops10, ops11, ops12, ops13, List.append_assoc, List.cons_append, List.nil_append, List.append_nil, List.Forall, nullary_writes, unary_writes, binary_writes, ternary_writes, quaternary_writes, reshape_writes, binaryIndexed_writes, unaryIndexed_writes, nary_writes, Finset.mem_singleton]
    repeat' apply And.intro
    all_goals exact devRef_ne_of_ne (by decide)))

set_option maxHeartbeats 400000000 in
theorem kept_arg3 (m : (ℓ : Loc nD τ sig) → Buf (Elt F) ℓ) (c : Dev nD) :
    after (ops (F := F)) (launchContents m c) (Proc.devRef .tc main_arg3) = m ((c.tc : Thread nD τ).loc main_arg3) :=
  after_of_forall_not_mem (b := Proc.devRef .tc main_arg3) _ _ (List.forall_iff_forall_mem.mp (by
    simp only [ops, ops0, ops1, ops2, ops3, ops4, ops5, ops6, ops7, ops8, ops9, ops10, ops11, ops12, ops13, List.append_assoc, List.cons_append, List.nil_append, List.append_nil, List.Forall, nullary_writes, unary_writes, binary_writes, ternary_writes, quaternary_writes, reshape_writes, binaryIndexed_writes, unaryIndexed_writes, nary_writes, Finset.mem_singleton]
    repeat' apply And.intro
    all_goals exact devRef_ne_of_ne (by decide)))

end Cert.ReferenceIdeal.RunH

end
-- ==== Proof.RefRunH.lean ====
/-
  The reference's run: every weakly fair execution of its @main terminates with the result buffer at the last
  stage function of the arguments' launch contents and the four argument arrays unchanged.
-/
import proofs.«113233_j37486474559588_2_alg».proof.Proof.RefResult
import proofs.«113233_j37486474559588_2_alg».proof.Proof.RefKeptA
import proofs.«113233_j37486474559588_2_alg».proof.Proof.RefKeptB

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v633)
          = Cert.ReferenceIdeal.ReadP.val_main_v633 (F := F) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v633).trans (result_read m c),
      (h c main_arg0).trans (kept_arg0 m c), (h c main_arg1).trans (kept_arg1 m c),
      (h c main_arg2).trans (kept_arg2 m c), (h c main_arg3).trans (kept_arg3 m c)⟩)
    (run_seq scopedRefs_eq scopedSems_eq defs main (fun _ => ops) main_eq (fun _ => ops_sub) m ρ
      (fun _ op hop => (List.forall_iff_forall_mem.mp ops_fresh) op hop))

end Cert.ReferenceIdeal.RunH

end
-- ==== Proof.RefFrame.lean ====
/-
  The reference is a host program with no kernel: its run is read back as one composed pure term of the argument
  arrays, and its frame claim is that run with the result dropped.
-/
import proofs.«113233_j37486474559588_2_alg».proof.Defs
import proofs.«113233_j37486474559588_2_alg».proof.Proof.RefRunH

noncomputable section

namespace Cert.Proof.Reference

open Idealize.ShloMosaic Idealize.ShloMosaic.TcCoe Idealize.SL.Sem

/-- The reference runs to the end, faults nowhere and leaves its four argument arrays unchanged. -/
theorem frame [hR : Cert.ReferenceIdeal.Facts] [hP : Cert.Pre_finite_inputs.Facts] : Cert.frame_ReferenceIdeal := fun m ρ _ =>
  (θ_run Cert.ReferenceIdeal.defs _ _).mono (fun _ h c => (h c).2) (Cert.ReferenceIdeal.RunH.run (F := Ideal) m ρ)

end Cert.Proof.Reference

end
-- ==== Proof.PointSpec.lean ====
/-
  The value of one output element, as one function of the numbers it depends on. For a volume whose axes have
  extent K + 1, a query point with raw grid coordinates gy, gz (in [-1, 1]) and the four x-interpolated corner values
  c00, c01, c10, c11 of one channel: the raw coordinate g is unnormalized to u = (g + 1) * (1/2) * K; its cell is
  u0 = min K (max 0 ⌊u⌋); the fractional offset min 1 (max 0 (u - u0)) is passed through the smoothstep
  s(t) = (t * t) * (3 - 2 * t); and the corners are interpolated along y and then along z,
  lerp a b t = a + (b - a) * t. Everything is over the extended reals with exact operations; the literals are the
  f32 words both programs print, and every product and sum is associated as both programs compute it.
-/
import Idealize.ShloMosaic.PureOps.Ideal

noncomputable section

namespace Cert.Proof.Spec

open Idealize.ShloMosaic

/-- The f32 words 0, 1/2, 1, 2, 3 as extended reals. -/
abbrev zero : EReal := Ideal.ofBits .f32 0x00000000#32
abbrev half : EReal := Ideal.ofBits .f32 0x3F000000#32
abbrev one : EReal := Ideal.ofBits .f32 0x3F800000#32
abbrev two : EReal := Ideal.ofBits .f32 0x40000000#32
abbrev three : EReal := Ideal.ofBits .f32 0x40400000#32

/-- The raw coordinate `g` unnormalized onto an axis of extent `K + 1`. -/
def coord (K g : EReal) : EReal := ((g + one) * half) * K

/-- `x` clipped into `[lo, hi]`: the lower bound first, then the upper. -/
def clip (lo hi x : EReal) : EReal := min hi (max lo x)

/-- The clipped fractional offset of the unnormalized coordinate from its (floored, clipped) cell. -/
def frac (K g : EReal) : EReal :=
  clip zero one (coord K g - clip zero K (Ideal.liftRound Int.floor (coord K g)))

/-- The smoothstep polynomial. -/
def smooth (t : EReal) : EReal := (t * t) * (three - two * t)

/-- The interpolation weight of a raw coordinate. -/
def weight (K g : EReal) : EReal := smooth (frac K g)

/-- Linear interpolation from `a` to `b` at weight `t`. -/
def lerp (a b t : EReal) : EReal := a + (b - a) * t

/-- One output element: the corners interpolated along y, then along z. -/
def point (K c00 c01 c10 c11 gy gz : EReal) : EReal :=
  lerp (lerp c00 c01 (weight K gy)) (lerp c10 c11 (weight K gy)) (weight K gz)

end Cert.Proof.Spec

end
-- ==== Proof.KernelArray.lean ====
/-
  The value of `KernelIdeal`'s one kernel region and of @main's result. The grid has 64 points; at point `t` every
  window's block is the stripe of columns `16384 t … 16384 t + 16383` (all rows) of its array, and the body stores the
  blend of the five input blocks as the whole 12 x 16384 output block. So the output array after the run is ONE
  function of the arrays the region finds: entry `(r, n)` is entry `(r, n mod 16384)` of the blend of the blocks at
  point `n / 16384`. Here: the index maps decided over the grid, what each point writes back as a block of that
  function, the cover of the array by the 64 stripes, the array after the run, the closing reshape, and the run of
  @main with its result named. Then the function at an entry: the stored block is three 4-row pieces stacked, one per
  volume; row `4 v + q` of it at column `j` reads the four corner blocks at that row and column and the two coordinate
  rows at column `j`, unnormalizes the coordinates to the volume's extent, takes the smoothstep of their clipped
  fractional parts as weights and interpolates the corners along y and then along z — the scalar specification's
  point value with the volume's extent literal; read through the blocks, entry `(r, n)` of the output array is that
  value of the region's corner arrays at `(r, n)` and coordinate rows at column `n`.
-/
import proofs.«113233_j37486474559588_2_alg».proof.Proof.RunIdeal
import proofs.«113233_j37486474559588_2_alg».proof.Proof.PointSpec
import Idealize.ShloMosaic.Lib.Pipeline.Value
import Idealize.ShloMosaic.Lib.ValueIdx
import Idealize.ShloMosaic.Lib.ValueIdxCoords
import Idealize.ShloMosaic.Lib.ValueLayout

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg)

/-- The offsets of the whole-block rectangle are zero on both axes. -/
theorem hz : (![0, 0] : Fin 2 → Nat) = fun _ => 0 := funext fun a => by fin_cases a <;> rfl

/-- The grid has 64 points. -/
theorem hN : cfg0.N = 64 := N_0

/-- The printed index maps, decided over the grid: at point `t` every window's block index is `(0, t)`. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val :=
  (by decide +kernel : ∀ t : Fin grid0.N, _)

/-- The grid point whose blocks hold column `n`: the column's 16384-wide stripe. -/
def stripe (n : Fin 1048576) : Fin cfg0.N := ⟨n.val / 16384, by rw [hN]; have := n.isLt; omega⟩
/-- The column's place inside its stripe. -/
def inStripe (n : Fin 1048576) : Fin 16384 := ⟨n.val % 16384, Nat.mod_lt _ (by decide)⟩

/-- The block the body stores at point `t`: the blend of the five input blocks there. -/
def Kblk (c : Dev nD) (t : Fin cfg0.N) : Vec Ideal S12x16384 .f32 :=
  blend (F := Ideal) (iblk m c 0 t) (iblk m c 1 t) (iblk m c 2 t) (iblk m c 3 t) (iblk m c 4 t)

/-- The output array as one function of the arrays the region finds: entry `(r, n)` is entry `(r, n mod 16384)` of
    the block stored at the stripe `n / 16384`. -/
def Kout (c : Dev nD) : S12x1048576.Idx → EReal := fun j =>
  Kblk m c (stripe (j 1)) (ix2 (j 0) (inStripe (j 1)))

/-- What point `t` writes back is block `t` of `Kout`. -/
theorem flushed5_eq (c : Dev nD) (t : Fin cfg0.N) :
    (dats m 0 c).flushed 5 t = ((cfg0.win 5).blk t).view.read (Elt Ideal) (Kout m c) := by
  show (cfg0.win 5).cut (grid0.coords t) ((dats m 0 c).after 5 t) = _
  rw [after5]
  unfold out5
  rw [View.canon_unit_zero hz]
  obtain ⟨-, -, -, -, -, -, -, -, -, -, e0, e1⟩ := idx_facts t
  funext y
  rw [View.read_apply]
  show Kblk m c t y = Kout m c (((cfg0.win 5).blk t).view.emb y)
  unfold Kout
  have hy0 : (y 0).val < 12 := (y 0).isLt
  have hy1 : (y 1).val < 16384 := (y 1).isLt
  have h1 : stripe ((((cfg0.win 5).blk t).view.emb y) 1) = t := by
    apply Fin.ext
    show (win0_5.index t (1 : Fin 2) * 16384 + 1 * (y 1).val) / 16384 = t.val
    omega
  have h2 : ix2 ((((cfg0.win 5).blk t).view.emb y) 0) (inStripe ((((cfg0.win 5).blk t).view.emb y) 1)) = y := by
    funext a
    apply Fin.ext
    match a with
    | ⟨0, _⟩ => show win0_5.index t (0 : Fin 2) * 12 + 1 * (y 0).val = (y 0).val; omega
    | ⟨1, _⟩ => show (win0_5.index t (1 : Fin 2) * 16384 + 1 * (y 1).val) % 16384 = (y 1).val; omega
  rw [h1]
  exact congrArg (Kblk m c t) h2.symm

/-- An index of the array is in point `t`'s block iff each coordinate is in the block's range on its axis. -/
theorem mem_blk5 (t : Fin cfg0.N) (i : S12x1048576.Idx) :
    i ∈ ((cfg0.win 5).blk t).view.set ↔ ∀ a : Fin 2, win0_5.index t a * S12x16384.size a ≤ (i a).val ∧ (i a).val < win0_5.index t a * S12x16384.size a + S12x16384.size a := by
  show i ∈ ((View.whole main_v407).slice (win0_5.rect t)).set ↔ _
  rw [View.set_slice_whole, Rect.mem_set_unit]
  exact Iff.rfl

/-- Every index of the output array lies in the block of its column's stripe. -/
theorem cover5_arr (i : S12x1048576.Idx) :
    ∃ t : Fin cfg0.N, (cfg0.win 5).flush t = true ∧ i ∈ ((cfg0.win 5).blk t).view.set := by
  have hi0 : (i 0).val < 12 := (i 0).isLt
  have hi1 : (i 1).val < 1048576 := (i 1).isLt
  refine ⟨stripe (i 1), flush0_5 _, ?_⟩
  rw [mem_blk5]
  obtain ⟨-, -, -, -, -, -, -, -, -, -, e0, e1⟩ := idx_facts (stripe (i 1))
  have hs : (stripe (i 1)).val = (i 1).val / 16384 := rfl
  intro a
  match a with
  | ⟨0, _⟩ => show win0_5.index (stripe (i 1)) (0 : Fin 2) * 12 ≤ (i 0).val ∧ (i 0).val < win0_5.index (stripe (i 1)) (0 : Fin 2) * 12 + 12; omega
  | ⟨1, _⟩ => show win0_5.index (stripe (i 1)) (1 : Fin 2) * 16384 ≤ (i 1).val ∧ (i 1).val < win0_5.index (stripe (i 1)) (1 : Fin 2) * 16384 + 16384; omega

/-- The output array after the run is `Kout`. -/
theorem final5 (c : Dev nD) : (dats m 0 c).arrAt 5 cfg0.N = Kout m c :=
  (dats m 0 c).arrAt_eq_of_cover 5 (Kout m c) (fun t _ => flushed5_eq m c t) cover5_arr

/-- The result buffer after the closing reshape: `Kout` recast to the result's shape. -/
theorem tail408 (c : Dev nD) :
    Pipeline.afterTail₀ cfgs (dats m) 0 (V0 m) [hostOps1] c main_v408
      = shapeCast S1x12x1x1x1048576 (Kout m c) shapeCasts_S12x1048576_S1x12x1x1x1048576 := by
  unfold Pipeline.afterTail₀
  show StableHlo.after hostOps1 _ (Proc.devRef .tc main_v408) = _
  after_results
  rw [Pipeline.withArrays_arr spec0 launch0.win.arr_inj c _ _ 5, final5]
  rfl

/-- The run with the result named: every weakly fair execution of @main ends with the result buffer at `Kout`
    recast to the result's shape, and the four argument arrays as launched. -/
theorem value_run : θ_run defs (onTc (τ := τ) (main (F := Ideal))) ⟨m, fun _ => 0, ρ⟩ (fun r => ∀ c : Dev nD,
      r.2.mem ((c.tc : Thread nD τ).loc main_v408) = shapeCast S1x12x1x1x1048576 (Kout m c) shapeCasts_S12x1048576_S1x12x1x1x1048576
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v408 (Pipeline.mem_restRefs_of main_v408 (by decide) (by decide))).trans (tail408 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩) (run_main m ρ)

/-! ## The block's loads and broadcasts, as functions of the index -/

/-- The load of row 0 of the coordinate block reads the y row. -/
theorem ld_rY (x4 : Vec Ideal S2x16384 .f32) :
    View.ld x4 rY = fun i : S1x16384.Idx => x4 (ix2 (0 : Fin 2) (i 1)) := by
  funext i
  show x4 (rY.idx i) = _
  refine congrArg x4 (funext fun a => Fin.ext ?_)
  match a with
  | ⟨0, _⟩ => show 0 + 1 * (i 0).val = 0; have h : (i 0).val < 1 := (i 0).isLt; omega
  | ⟨1, _⟩ => show 0 + 1 * (i 1).val = (i 1).val; omega

/-- The load of row 1 of the coordinate block reads the z row. -/
theorem ld_rZ (x4 : Vec Ideal S2x16384 .f32) :
    View.ld x4 rZ = fun i : S1x16384.Idx => x4 (ix2 (1 : Fin 2) (i 1)) := by
  funext i
  show x4 (rZ.idx i) = _
  refine congrArg x4 (funext fun a => Fin.ext ?_)
  match a with
  | ⟨0, _⟩ => show 1 + 1 * (i 0).val = 1; have h : (i 0).val < 1 := (i 0).isLt; omega
  | ⟨1, _⟩ => show 0 + 1 * (i 1).val = (i 1).val; omega

/-- A four-row row index placed `k` rows down a twelve-row block. -/
def rowAt (k : Nat) (hk : k + 4 ≤ 12) (q : Fin 4) : Fin 12 := ⟨k + q.val, by have := q.isLt; omega⟩

/-- The load of rows 0-3 of a corner block. -/
theorem ld_rV0 (x : Vec Ideal S12x16384 .f32) :
    View.ld x rV0 = fun i : S4x16384.Idx => x (ix2 (rowAt 0 (by decide) (i 0)) (i 1)) := by
  funext i
  show x (rV0.idx i) = _
  refine congrArg x (funext fun a => Fin.ext ?_)
  match a with
  | ⟨0, _⟩ => show 0 + 1 * (i 0).val = 0 + (i 0).val; omega
  | ⟨1, _⟩ => show 0 + 1 * (i 1).val = (i 1).val; omega

/-- The load of rows 4-7 of a corner block. -/
theorem ld_rV1 (x : Vec Ideal S12x16384 .f32) :
    View.ld x rV1 = fun i : S4x16384.Idx => x (ix2 (rowAt 4 (by decide) (i 0)) (i 1)) := by
  funext i
  show x (rV1.idx i) = _
  refine congrArg x (funext fun a => Fin.ext ?_)
  match a with
  | ⟨0, _⟩ => show 4 + 1 * (i 0).val = 4 + (i 0).val; omega
  | ⟨1, _⟩ => show 0 + 1 * (i 1).val = (i 1).val; omega

/-- The load of rows 8-11 of a corner block. -/
theorem ld_rV2 (x : Vec Ideal S12x16384 .f32) :
    View.ld x rV2 = fun i : S4x16384.Idx => x (ix2 (rowAt 8 (by decide) (i 0)) (i 1)) := by
  funext i
  show x (rV2.idx i) = _
  refine congrArg x (funext fun a => Fin.ext ?_)
  match a with
  | ⟨0, _⟩ => show 8 + 1 * (i 0).val = 8 + (i 0).val; omega
  | ⟨1, _⟩ => show 0 + 1 * (i 1).val = (i 1).val; omega

/-- One row broadcast down four rows reads the row at the column. -/
theorem bc_rows (v : FVec Ideal S1x16384 .f32) (h : S1x16384.Broadcasts S4x16384) :
    broadcastTo S4x16384 v h = fun i : S4x16384.Idx => v (ix2 (0 : Fin 1) (i 1)) := by
  funext i
  rw [eq_ix2 i]
  exact broadcastTo_1b_ab_apply v h (i 0) (i 1)

/-! ## The blend at an entry -/

open Cert.Proof.Spec in
/-- Rows 0-3 (volume 0, axis extent 64): the stored block at row `q`, column `j` is the specification's point value
    of the four corner values there and the two coordinates at column `j`. -/
theorem blend_rows0 (x0 x1 x2 x3 : Vec Ideal S12x16384 .f32) (x4 : Vec Ideal S2x16384 .f32)
    (q : Fin 4) (j : Fin 16384) :
    blend (F := Ideal) x0 x1 x2 x3 x4 (ix2 (rowAt 0 (by decide) q) j)
      = point (Ideal.ofBits .f32 0x427C0000#32) (x0 (ix2 (rowAt 0 (by decide) q) j)) (x1 (ix2 (rowAt 0 (by decide) q) j))
          (x2 (ix2 (rowAt 0 (by decide) q) j)) (x3 (ix2 (rowAt 0 (by decide) q) j))
          (x4 (ix2 (0 : Fin 2) j)) (x4 (ix2 (1 : Fin 2) j)) := by
  unfold blend k0_pay1
  refine (concatenate_apply_piece (0 : Fin 2) _ _ (ix2 (rowAt 0 (by decide) q) j) 0 ?hk S4x16384 ?x1 ?hxk rfl 0 ?hpre
    (ix2 q j) ?hi ?ha).trans ?_
  case hk => exact Nat.zero_lt_succ _
  case hxk => rfl
  case hpre => rfl
  case hi =>
    intro b hb
    match b with
    | ⟨0, _⟩ => exact absurd rfl hb
    | ⟨1, _⟩ => rfl
  case ha => rfl
  · unfold k0_pay7 k0_pay4 k0_pay5 k0_pay6 k0_pay2 k0_pay3
    simp only [shapeCast_self, ld_rY, ld_rZ, ld_rV0, bc_rows]
    rfl

open Cert.Proof.Spec in
/-- Rows 4-7 (volume 1, axis extent 128): the same, with the corner values read four rows down. -/
theorem blend_rows1 (x0 x1 x2 x3 : Vec Ideal S12x16384 .f32) (x4 : Vec Ideal S2x16384 .f32)
    (q : Fin 4) (j : Fin 16384) :
    blend (F := Ideal) x0 x1 x2 x3 x4 (ix2 (rowAt 4 (by decide) q) j)
      = point (Ideal.ofBits .f32 0x42FE0000#32) (x0 (ix2 (rowAt 4 (by decide) q) j)) (x1 (ix2 (rowAt 4 (by decide) q) j))
          (x2 (ix2 (rowAt 4 (by decide) q) j)) (x3 (ix2 (rowAt 4 (by decide) q) j))
          (x4 (ix2 (0 : Fin 2) j)) (x4 (ix2 (1 : Fin 2) j)) := by
  unfold blend k0_pay1
  refine (concatenate_apply_piece (0 : Fin 2) _ _ (ix2 (rowAt 4 (by decide) q) j) 1 ?hk S4x16384 ?x1 ?hxk rfl 4 ?hpre
    (ix2 q j) ?hi ?ha).trans ?_
  case hk => exact Nat.succ_lt_succ (Nat.zero_lt_succ _)
  case hxk => rfl
  case hpre => rfl
  case hi =>
    intro b hb
    match b with
    | ⟨0, _⟩ => exact absurd rfl hb
    | ⟨1, _⟩ => rfl
  case ha => rfl
  · unfold k0_pay16 k0_pay11 k0_pay12 k0_pay10 k0_pay8 k0_pay9 k0_pay13 k0_pay14 k0_pay15 k0_pay2 k0_pay3
    simp only [shapeCast_self, ld_rY, ld_rZ, ld_rV1, bc_rows]
    rfl

open Cert.Proof.Spec in
/-- Rows 8-11 (volume 2, axis extent 192): the same, with the corner values read eight rows down. -/
theorem blend_rows2 (x0 x1 x2 x3 : Vec Ideal S12x16384 .f32) (x4 : Vec Ideal S2x16384 .f32)
    (q : Fin 4) (j : Fin 16384) :
    blend (F := Ideal) x0 x1 x2 x3 x4 (ix2 (rowAt 8 (by decide) q) j)
      = point (Ideal.ofBits .f32 0x433F0000#32) (x0 (ix2 (rowAt 8 (by decide) q) j)) (x1 (ix2 (rowAt 8 (by decide) q) j))
          (x2 (ix2 (rowAt 8 (by decide) q) j)) (x3 (ix2 (rowAt 8 (by decide) q) j))
          (x4 (ix2 (0 : Fin 2) j)) (x4 (ix2 (1 : Fin 2) j)) := by
  unfold blend k0_pay1
  refine (concatenate_apply_piece (0 : Fin 2) _ _ (ix2 (rowAt 8 (by decide) q) j) 2 ?hk S4x16384 ?x1 ?hxk rfl 8 ?hpre
    (ix2 q j) ?hi ?ha).trans ?_
  case hk => exact Nat.succ_lt_succ (Nat.succ_lt_succ (Nat.zero_lt_succ _))
  case hxk => rfl
  case hpre => rfl
  case hi =>
    intro b hb
    match b with
    | ⟨0, _⟩ => exact absurd rfl hb
    | ⟨1, _⟩ => rfl
  case ha => rfl
  · unfold k0_pay17 k0_pay18 k0_pay2 k0_pay3
    simp only [shapeCast_self, ld_rY, ld_rZ, ld_rV2, bc_rows]
    rfl

/-! ## The input blocks at an entry -/

/-- Block `t` of the c00 array at `(r, j)` is the array at row `r`, column `16384 t + j`. -/
theorem iblk0_apply (c : Dev nD) (t : Fin cfg0.N) (r : Fin 12) (j : Fin 16384) (n : Fin 1048576)
    (hn : n.val = t.val * 16384 + j.val) :
    (iblk m c 0 t : Vec Ideal S12x16384 .f32) (ix2 r j) = (V m c main_v400 : S12x1048576.Idx → EReal) (ix2 r n) := by
  obtain ⟨e0, e1, -⟩ := idx_facts t
  unfold iblk
  rw [View.read_apply]
  show (V m c main_v400 : S12x1048576.Idx → EReal) _ = _
  refine congrArg (V m c main_v400 : S12x1048576.Idx → EReal) (funext fun a => Fin.ext ?_)
  match a with
  | ⟨0, _⟩ => show win0_0.index t (0 : Fin 2) * 12 + 1 * r.val = r.val; omega
  | ⟨1, _⟩ => show win0_0.index t (1 : Fin 2) * 16384 + 1 * j.val = n.val; omega

/-- The same for the c01 array. -/
theorem iblk1_apply (c : Dev nD) (t : Fin cfg0.N) (r : Fin 12) (j : Fin 16384) (n : Fin 1048576)
    (hn : n.val = t.val * 16384 + j.val) :
    (iblk m c 1 t : Vec Ideal S12x16384 .f32) (ix2 r j) = (V m c main_v401 : S12x1048576.Idx → EReal) (ix2 r n) := by
  obtain ⟨-, -, e0, e1, -⟩ := idx_facts t
  unfold iblk
  rw [View.read_apply]
  show (V m c main_v401 : S12x1048576.Idx → EReal) _ = _
  refine congrArg (V m c main_v401 : S12x1048576.Idx → EReal) (funext fun a => Fin.ext ?_)
  match a with
  | ⟨0, _⟩ => show win0_1.index t (0 : Fin 2) * 12 + 1 * r.val = r.val; omega
  | ⟨1, _⟩ => show win0_1.index t (1 : Fin 2) * 16384 + 1 * j.val = n.val; omega

/-- The same for the c10 array. -/
theorem iblk2_apply (c : Dev nD) (t : Fin cfg0.N) (r : Fin 12) (j : Fin 16384) (n : Fin 1048576)
    (hn : n.val = t.val * 16384 + j.val) :
    (iblk m c 2 t : Vec Ideal S12x16384 .f32) (ix2 r j) = (V m c main_v402 : S12x1048576.Idx → EReal) (ix2 r n) := by
  obtain ⟨-, -, -, -, e0, e1, -⟩ := idx_facts t
  unfold iblk
  rw [View.read_apply]
  show (V m c main_v402 : S12x1048576.Idx → EReal) _ = _
  refine congrArg (V m c main_v402 : S12x1048576.Idx → EReal) (funext fun a => Fin.ext ?_)
  match a with
  | ⟨0, _⟩ => show win0_2.index t (0 : Fin 2) * 12 + 1 * r.val = r.val; omega
  | ⟨1, _⟩ => show win0_2.index t (1 : Fin 2) * 16384 + 1 * j.val = n.val; omega

/-- The same for the c11 array. -/
theorem iblk3_apply (c : Dev nD) (t : Fin cfg0.N) (r : Fin 12) (j : Fin 16384) (n : Fin 1048576)
    (hn : n.val = t.val * 16384 + j.val) :
    (iblk m c 3 t : Vec Ideal S12x16384 .f32) (ix2 r j) = (V m c main_v403 : S12x1048576.Idx → EReal) (ix2 r n) := by
  obtain ⟨-, -, -, -, -, -, e0, e1, -⟩ := idx_facts t
  unfold iblk
  rw [View.read_apply]
  show (V m c main_v403 : S12x1048576.Idx → EReal) _ = _
  refine congrArg (V m c main_v403 : S12x1048576.Idx → EReal) (funext fun a => Fin.ext ?_)
  match a with
  | ⟨0, _⟩ => show win0_3.index t (0 : Fin 2) * 12 + 1 * r.val = r.val; omega
  | ⟨1, _⟩ => show win0_3.index t (1 : Fin 2) * 16384 + 1 * j.val = n.val; omega

/-- Block `t` of the coordinate array at `(g, j)` is the array at row `g`, column `16384 t + j`. -/
theorem iblk4_apply (c : Dev nD) (t : Fin cfg0.N) (g : Fin 2) (j : Fin 16384) (n : Fin 1048576)
    (hn : n.val = t.val * 16384 + j.val) :
    (iblk m c 4 t : Vec Ideal S2x16384 .f32) (ix2 g j) = (V m c main_v406 : S2x1048576.Idx → EReal) (ix2 g n) := by
  obtain ⟨-, -, -, -, -, -, -, -, e0, e1, -⟩ := idx_facts t
  unfold iblk
  rw [View.read_apply]
  show (V m c main_v406 : S2x1048576.Idx → EReal) _ = _
  refine congrArg (V m c main_v406 : S2x1048576.Idx → EReal) (funext fun a => Fin.ext ?_)
  match a with
  | ⟨0, _⟩ => show win0_4.index t (0 : Fin 2) * 2 + 1 * g.val = g.val; omega
  | ⟨1, _⟩ => show win0_4.index t (1 : Fin 2) * 16384 + 1 * j.val = n.val; omega

/-- A column is its stripe's first column plus its place in the stripe. -/
theorem stripe_split (n : Fin 1048576) : n.val = (stripe n).val * 16384 + (inStripe n).val := by
  show n.val = n.val / 16384 * 16384 + n.val % 16384
  omega

/-! ## The output array at an entry -/

/-- Rows 0-3 of the output array (volume 0, axis extent 64): entry `(r, n)` is the specification's point value of the
    four corner arrays at `(r, n)` and the two coordinate rows at column `n`. -/
theorem Kout_apply0 (c : Dev nD) (r : Fin 12) (hr : r.val < 4) (n : Fin 1048576) :
    Kout m c (ix2 r n) = Cert.Proof.Spec.point (Ideal.ofBits .f32 0x427C0000#32)
      (V m c main_v400 (ix2 r n)) (V m c main_v401 (ix2 r n)) (V m c main_v402 (ix2 r n)) (V m c main_v403 (ix2 r n))
      (V m c main_v406 (ix2 (0 : Fin 2) n)) (V m c main_v406 (ix2 (1 : Fin 2) n)) := by
  obtain ⟨q, rfl⟩ : ∃ q : Fin 4, r = rowAt 0 (by decide) q :=
    ⟨⟨r.val, hr⟩, Fin.ext (by show r.val = 0 + r.val; omega)⟩
  have hn := stripe_split n
  show Kblk m c (stripe n) (ix2 (rowAt 0 (by decide) q) (inStripe n)) = _
  unfold Kblk
  refine (blend_rows0 (iblk m c 0 (stripe n)) (iblk m c 1 (stripe n)) (iblk m c 2 (stripe n)) (iblk m c 3 (stripe n))
    (iblk m c 4 (stripe n)) q (inStripe n)).trans ?_
  rw [iblk0_apply m c (stripe n) _ (inStripe n) n hn, iblk1_apply m c (stripe n) _ (inStripe n) n hn,
    iblk2_apply m c (stripe n) _ (inStripe n) n hn, iblk3_apply m c (stripe n) _ (inStripe n) n hn,
    iblk4_apply m c (stripe n) 0 (inStripe n) n hn, iblk4_apply m c (stripe n) 1 (inStripe n) n hn]

/-- Rows 4-7 (volume 1, axis extent 128). -/
theorem Kout_apply1 (c : Dev nD) (r : Fin 12) (hr : 4 ≤ r.val ∧ r.val < 8) (n : Fin 1048576) :
    Kout m c (ix2 r n) = Cert.Proof.Spec.point (Ideal.ofBits .f32 0x42FE0000#32)
      (V m c main_v400 (ix2 r n)) (V m c main_v401 (ix2 r n)) (V m c main_v402 (ix2 r n)) (V m c main_v403 (ix2 r n))
      (V m c main_v406 (ix2 (0 : Fin 2) n)) (V m c main_v406 (ix2 (1 : Fin 2) n)) := by
  obtain ⟨q, rfl⟩ : ∃ q : Fin 4, r = rowAt 4 (by decide) q :=
    ⟨⟨r.val - 4, by omega⟩, Fin.ext (by show r.val = 4 + (r.val - 4); omega)⟩
  have hn := stripe_split n
  show Kblk m c (stripe n) (ix2 (rowAt 4 (by decide) q) (inStripe n)) = _
  unfold Kblk
  refine (blend_rows1 (iblk m c 0 (stripe n)) (iblk m c 1 (stripe n)) (iblk m c 2 (stripe n)) (iblk m c 3 (stripe n))
    (iblk m c 4 (stripe n)) q (inStripe n)).trans ?_
  rw [iblk0_apply m c (stripe n) _ (inStripe n) n hn, iblk1_apply m c (stripe n) _ (inStripe n) n hn,
    iblk2_apply m c (stripe n) _ (inStripe n) n hn, iblk3_apply m c (stripe n) _ (inStripe n) n hn,
    iblk4_apply m c (stripe n) 0 (inStripe n) n hn, iblk4_apply m c (stripe n) 1 (inStripe n) n hn]

/-- Rows 8-11 (volume 2, axis extent 192). -/
theorem Kout_apply2 (c : Dev nD) (r : Fin 12) (hr : 8 ≤ r.val) (n : Fin 1048576) :
    Kout m c (ix2 r n) = Cert.Proof.Spec.point (Ideal.ofBits .f32 0x433F0000#32)
      (V m c main_v400 (ix2 r n)) (V m c main_v401 (ix2 r n)) (V m c main_v402 (ix2 r n)) (V m c main_v403 (ix2 r n))
      (V m c main_v406 (ix2 (0 : Fin 2) n)) (V m c main_v406 (ix2 (1 : Fin 2) n)) := by
  have hr12 : r.val < 12 := r.isLt
  obtain ⟨q, rfl⟩ : ∃ q : Fin 4, r = rowAt 8 (by decide) q :=
    ⟨⟨r.val - 8, by omega⟩, Fin.ext (by show r.val = 8 + (r.val - 8); omega)⟩
  have hn := stripe_split n
  show Kblk m c (stripe n) (ix2 (rowAt 8 (by decide) q) (inStripe n)) = _
  unfold Kblk
  refine (blend_rows2 (iblk m c 0 (stripe n)) (iblk m c 1 (stripe n)) (iblk m c 2 (stripe n)) (iblk m c 3 (stripe n))
    (iblk m c 4 (stripe n)) q (inStripe n)).trans ?_
  rw [iblk0_apply m c (stripe n) _ (inStripe n) n hn, iblk1_apply m c (stripe n) _ (inStripe n) n hn,
    iblk2_apply m c (stripe n) _ (inStripe n) n hn, iblk3_apply m c (stripe n) _ (inStripe n) n hn,
    iblk4_apply m c (stripe n) 0 (inStripe n) n hn, iblk4_apply m c (stripe n) 1 (inStripe n) n hn]

end Cert.KernelIdeal.Around

end
-- ==== Proof.RefPoint.lean ====
import proofs.«113233_j37486474559588_2_alg».proof.Proof.RefReadP
import proofs.«113233_j37486474559588_2_alg».proof.Proof.PointSpec
import Idealize.ShloMosaic.Lib.ValueIdx
import Idealize.ShloMosaic.Lib.Pipeline.Value
import Mathlib.Tactic

/-!
# The reference's result at one output element

The reference computes, for each of the three volumes, the four x-interpolated corner values of every
channel and query point, interpolates them along y and then along z with smoothstep weights of the
grid's columns 1 and 2, and joins the three results along the channel axis.  Read at row
`4 * v + ch` and query point `n` the result is the function `Spec.point` of the four corners at
`(ch, n)` and of the two grid coordinates of `n`.  The only value facts used are that the integer
upper bounds `63`, `127`, `191` convert to the floats the f32 words `0x427C0000`, `0x42FE0000`,
`0x433F0000` denote.
-/

noncomputable section

namespace Cert.Proof.RefPoint

open Cert.ReferenceIdeal Cert.ReferenceIdeal.Gen Idealize.ShloMosaic Idealize.ShloMosaic.ValueIdx
open Cert.Proof

/-! ### The integer upper bounds as floats -/

/-- The integer `63` converts to the float the word `0x427C0000` denotes. -/
theorem sitofp_63 :
    FloatOps.sitofp (F := Ideal) .f32 (63#32 : BitVec 32) = Ideal.ofBits .f32 0x427C0000#32 := by
  have h : ((63#32 : BitVec 32).toInt) = 63 := by decide
  show ((((63#32 : BitVec 32).toInt : ℤ) : ℝ) : EReal) = _
  rw [h]
  simp [Ideal.ofBits, Ideal.ieee, -EReal.coe_mul]; norm_num

/-- The integer `127` converts to the float the word `0x42FE0000` denotes. -/
theorem sitofp_127 :
    FloatOps.sitofp (F := Ideal) .f32 (127#32 : BitVec 32) = Ideal.ofBits .f32 0x42FE0000#32 := by
  have h : ((127#32 : BitVec 32).toInt) = 127 := by decide
  show ((((127#32 : BitVec 32).toInt : ℤ) : ℝ) : EReal) = _
  rw [h]
  simp [Ideal.ofBits, Ideal.ieee, -EReal.coe_mul]; norm_num

/-- The integer `191` converts to the float the word `0x433F0000` denotes. -/
theorem sitofp_191 :
    FloatOps.sitofp (F := Ideal) .f32 (191#32 : BitVec 32) = Ideal.ofBits .f32 0x433F0000#32 := by
  have h : ((191#32 : BitVec 32).toInt) = 191 := by decide
  show ((((191#32 : BitVec 32).toInt : ℤ) : ℝ) : EReal) = _
  rw [h]
  simp [Ideal.ofBits, Ideal.ieee, -EReal.coe_mul]; norm_num

/-! ### Three pieces of four rows joined along the channel axis, read at a row -/

/-- The shape of one volume's result and of the joined result. -/
abbrev SPiece : Shape := ⟨5, ![1, 4, 1, 1, 1048576]⟩
abbrev SJoined : Shape := ⟨5, ![1, 12, 1, 1, 1048576]⟩

/-- Row `4 * k + ch` of the concatenation of three four-row pieces along axis 1 is row `ch` of piece `k`
    (here `k = 0`). -/
theorem concat3_piece0 {α : Type} (y0 y1 y2 : SPiece.Idx → α)
    (h : Shape.Concatenates (([⟨SPiece, y0⟩, ⟨SPiece, y1⟩, ⟨SPiece, y2⟩] :
      List ((s : Shape) × (s.Idx → α))).map (·.1)) SJoined 1)
    (ch : Fin 4) (n : Fin 1048576) :
    concatenate SJoined 1 [⟨SPiece, y0⟩, ⟨SPiece, y1⟩, ⟨SPiece, y2⟩] h
        (ix5 (0 : Fin 1) (⟨ch.val, by have := ch.isLt; omega⟩ : Fin 12) (0 : Fin 1) (0 : Fin 1) n)
      = y0 (ix5 (0 : Fin 1) ch (0 : Fin 1) (0 : Fin 1) n) := by
  refine concatenate_apply_piece (t := SJoined) 1 _ h _ 0 (by simp) SPiece y0 rfl rfl 0 rfl
    (ix5 (0 : Fin 1) ch (0 : Fin 1) (0 : Fin 1) n) ?_ ?_
  · intro b hb
    match b with
    | ⟨0, _⟩ => rfl
    | ⟨1, _⟩ => exact absurd rfl hb
    | ⟨2, _⟩ => rfl
    | ⟨3, _⟩ => rfl
    | ⟨4, _⟩ => rfl
  · show 0 + ch.val = ch.val
    omega

/-- The same for piece `k = 1`: rows `4` to `7`. -/
theorem concat3_piece1 {α : Type} (y0 y1 y2 : SPiece.Idx → α)
    (h : Shape.Concatenates (([⟨SPiece, y0⟩, ⟨SPiece, y1⟩, ⟨SPiece, y2⟩] :
      List ((s : Shape) × (s.Idx → α))).map (·.1)) SJoined 1)
    (ch : Fin 4) (n : Fin 1048576) :
    concatenate SJoined 1 [⟨SPiece, y0⟩, ⟨SPiece, y1⟩, ⟨SPiece, y2⟩] h
        (ix5 (0 : Fin 1) (⟨4 + ch.val, by have := ch.isLt; omega⟩ : Fin 12) (0 : Fin 1) (0 : Fin 1) n)
      = y1 (ix5 (0 : Fin 1) ch (0 : Fin 1) (0 : Fin 1) n) := by
  refine concatenate_apply_piece (t := SJoined) 1 _ h _ 1 (by simp) SPiece y1 rfl rfl 4 rfl
    (ix5 (0 : Fin 1) ch (0 : Fin 1) (0 : Fin 1) n) ?_ ?_
  · intro b hb
    match b with
    | ⟨0, _⟩ => rfl
    | ⟨1, _⟩ => exact absurd rfl hb
    | ⟨2, _⟩ => rfl
    | ⟨3, _⟩ => rfl
    | ⟨4, _⟩ => rfl
  · rfl

/-- The same for piece `k = 2`: rows `8` to `11`. -/
theorem concat3_piece2 {α : Type} (y0 y1 y2 : SPiece.Idx → α)
    (h : Shape.Concatenates (([⟨SPiece, y0⟩, ⟨SPiece, y1⟩, ⟨SPiece, y2⟩] :
      List ((s : Shape) × (s.Idx → α))).map (·.1)) SJoined 1)
    (ch : Fin 4) (n : Fin 1048576) :
    concatenate SJoined 1 [⟨SPiece, y0⟩, ⟨SPiece, y1⟩, ⟨SPiece, y2⟩] h
        (ix5 (0 : Fin 1) (⟨8 + ch.val, by have := ch.isLt; omega⟩ : Fin 12) (0 : Fin 1) (0 : Fin 1) n)
      = y2 (ix5 (0 : Fin 1) ch (0 : Fin 1) (0 : Fin 1) n) := by
  refine concatenate_apply_piece (t := SJoined) 1 _ h _ 2 (by simp) SPiece y2 rfl rfl 8 rfl
    (ix5 (0 : Fin 1) ch (0 : Fin 1) (0 : Fin 1) n) ?_ ?_
  · intro b hb
    match b with
    | ⟨0, _⟩ => rfl
    | ⟨1, _⟩ => exact absurd rfl hb
    | ⟨2, _⟩ => rfl
    | ⟨3, _⟩ => rfl
    | ⟨4, _⟩ => rfl
  · rfl

/-! ### Volume 0: axis extent 64, upper cell 63 -/

/-- The unnormalized y coordinate of query point `n` is `coord` of column 1 of the grid. -/
theorem coordY0 (x0 : (⟨S1x1x1x1048576x3, .f32⟩ : BufTy).Contents (Elt Ideal)) (n : Fin 1048576) :
    ReadP.val_main_v16 (F := Ideal) x0 (ix1 n)
      = Spec.coord (Ideal.ofBits .f32 0x427C0000#32) (x0 (ix5 (0 : Fin 1) (0 : Fin 1) (0 : Fin 1) n (1 : Fin 3))) := by
  have hi : ReadP.idx_main_v0 (ReadP.idx_main_v9 (ReadP.idx_main_v10 (ix1 n)))
      = ix5 (0 : Fin 1) (0 : Fin 1) (0 : Fin 1) n (1 : Fin 3) := by
    funext a
    match a with
    | ⟨0, _⟩ => rfl
    | ⟨1, _⟩ => rfl
    | ⟨2, _⟩ => rfl
    | ⟨3, _⟩ =>
      exact Fin.ext (by
        show (n.val / 1 * 3 + (1 + 0)) / 3 % 1048576 = n.val
        have := n.isLt
        omega)
    | ⟨4, _⟩ =>
      exact Fin.ext (by
        show (n.val / 1 * 3 + (1 + 0)) % 3 = 1
        omega)
  simp only [
    ReadP.val_main_v16_apply, ReadP.val_main_v14_apply, ReadP.val_main_v12_apply, ReadP.val_main_v10_apply,
    ReadP.val_main_v9_apply, ReadP.val_main_v0_apply, ReadP.val_main_v11_apply, ReadP.val_main_cst_2_apply,
    ReadP.val_main_v13_apply, ReadP.val_main_cst_3_apply, ReadP.val_main_v15_apply,
    ReadP.val_main_cst_4_apply, Ideal.mulf_def, Ideal.addf_def, Ideal.ofBits_def]
  rw [hi]
  rfl

/-- The clipped fractional offset along y is `frac` of column 1 of the grid. -/
theorem fracY0 (x0 : (⟨S1x1x1x1048576x3, .f32⟩ : BufTy).Contents (Elt Ideal)) (n : Fin 1048576) :
    ReadP.val_main_v34 (F := Ideal) x0 (ix1 n)
      = Spec.frac (Ideal.ofBits .f32 0x427C0000#32) (x0 (ix5 (0 : Fin 1) (0 : Fin 1) (0 : Fin 1) n (1 : Fin 3))) := by
  simp only [
    ReadP.val_main_v34_apply, ReadP.val_main_call4_v4_apply, ReadP.val_main_call4_v3_apply,
    ReadP.val_main_cst_16_apply, ReadP.val_main_call4_v2_apply, ReadP.val_main_call4_v1_apply,
    ReadP.val_main_call4_v0_apply, ReadP.val_main_cst_15_apply, ReadP.val_main_v33_apply,
    ReadP.val_main_v28_apply, ReadP.val_main_call1_v4_apply, ReadP.val_main_call1_v3_apply,
    ReadP.val_main_c_10_apply, ReadP.val_main_call1_v2_apply, ReadP.val_main_call1_v1_apply,
    ReadP.val_main_call1_v0_apply, ReadP.val_main_cst_9_apply, ReadP.val_main_v27_apply, Ideal.subf_def,
    Ideal.maximumf_def, Ideal.minimumf_def, Ideal.ofBits_def, Ideal.hostUnary_floor_def, coordY0,
    sitofp_63]
  rfl

/-- The interpolation weight along y is `weight` of column 1 of the grid. -/
theorem weightY0 (x0 : (⟨S1x1x1x1048576x3, .f32⟩ : BufTy).Contents (Elt Ideal)) (n : Fin 1048576) :
    ReadP.val_main_v48 (F := Ideal) x0 (ix1 n)
      = Spec.weight (Ideal.ofBits .f32 0x427C0000#32) (x0 (ix5 (0 : Fin 1) (0 : Fin 1) (0 : Fin 1) n (1 : Fin 3))) := by
  simp only [
    ReadP.val_main_v48_apply, ReadP.val_main_v43_apply, ReadP.val_main_v47_apply, ReadP.val_main_v46_apply,
    ReadP.val_main_cst_22_apply, ReadP.val_main_v45_apply, ReadP.val_main_v44_apply,
    ReadP.val_main_cst_21_apply, Ideal.mulf_def, Ideal.subf_def, Ideal.ofBits_def, fracY0]
  rfl

/-- The unnormalized z coordinate of query point `n` is `coord` of column 2 of the grid. -/
theorem coordZ0 (x0 : (⟨S1x1x1x1048576x3, .f32⟩ : BufTy).Contents (Elt Ideal)) (n : Fin 1048576) :
    ReadP.val_main_v24 (F := Ideal) x0 (ix1 n)
      = Spec.coord (Ideal.ofBits .f32 0x427C0000#32) (x0 (ix5 (0 : Fin 1) (0 : Fin 1) (0 : Fin 1) n (2 : Fin 3))) := by
  have hi : ReadP.idx_main_v0 (ReadP.idx_main_v17 (ReadP.idx_main_v18 (ix1 n)))
      = ix5 (0 : Fin 1) (0 : Fin 1) (0 : Fin 1) n (2 : Fin 3) := by
    funext a
    match a with
    | ⟨0, _⟩ => rfl
    | ⟨1, _⟩ => rfl
    | ⟨2, _⟩ => rfl
    | ⟨3, _⟩ =>
      exact Fin.ext (by
        show (n.val / 1 * 3 + (2 + 0)) / 3 % 1048576 = n.val
        have := n.isLt
        omega)
    | ⟨4, _⟩ =>
      exact Fin.ext (by
        show (n.val / 1 * 3 + (2 + 0)) % 3 = 2
        omega)
  simp only [
    ReadP.val_main_v24_apply, ReadP.val_main_v22_apply, ReadP.val_main_v20_apply, ReadP.val_main_v18_apply,
    ReadP.val_main_v17_apply, ReadP.val_main_v0_apply, ReadP.val_main_v19_apply,
    ReadP.val_main_cst_5_apply, ReadP.val_main_v21_apply, ReadP.val_main_cst_6_apply,
    ReadP.val_main_v23_apply, ReadP.val_main_cst_7_apply, Ideal.mulf_def, Ideal.addf_def, Ideal.ofBits_def]
  rw [hi]
  rfl

/-- The clipped fractional offset along z is `frac` of column 2 of the grid. -/
theorem fracZ0 (x0 : (⟨S1x1x1x1048576x3, .f32⟩ : BufTy).Contents (Elt Ideal)) (n : Fin 1048576) :
    ReadP.val_main_v36 (F := Ideal) x0 (ix1 n)
      = Spec.frac (Ideal.ofBits .f32 0x427C0000#32) (x0 (ix5 (0 : Fin 1) (0 : Fin 1) (0 : Fin 1) n (2 : Fin 3))) := by
  simp only [
    ReadP.val_main_v36_apply, ReadP.val_main_call5_v4_apply, ReadP.val_main_call5_v3_apply,
    ReadP.val_main_cst_18_apply, ReadP.val_main_call5_v2_apply, ReadP.val_main_call5_v1_apply,
    ReadP.val_main_call5_v0_apply, ReadP.val_main_cst_17_apply, ReadP.val_main_v35_apply,
    ReadP.val_main_v30_apply, ReadP.val_main_call2_v4_apply, ReadP.val_main_call2_v3_apply,
    ReadP.val_main_c_12_apply, ReadP.val_main_call2_v2_apply, ReadP.val_main_call2_v1_apply,
    ReadP.val_main_call2_v0_apply, ReadP.val_main_cst_11_apply, ReadP.val_main_v29_apply, Ideal.subf_def,
    Ideal.maximumf_def, Ideal.minimumf_def, Ideal.ofBits_def, Ideal.hostUnary_floor_def, coordZ0,
    sitofp_63]
  rfl

/-- The interpolation weight along z is `weight` of column 2 of the grid. -/
theorem weightZ0 (x0 : (⟨S1x1x1x1048576x3, .f32⟩ : BufTy).Contents (Elt Ideal)) (n : Fin 1048576) :
    ReadP.val_main_v54 (F := Ideal) x0 (ix1 n)
      = Spec.weight (Ideal.ofBits .f32 0x427C0000#32) (x0 (ix5 (0 : Fin 1) (0 : Fin 1) (0 : Fin 1) n (2 : Fin 3))) := by
  simp only [
    ReadP.val_main_v54_apply, ReadP.val_main_v49_apply, ReadP.val_main_v53_apply, ReadP.val_main_v52_apply,
    ReadP.val_main_cst_24_apply, ReadP.val_main_v51_apply, ReadP.val_main_v50_apply,
    ReadP.val_main_cst_23_apply, Ideal.mulf_def, Ideal.subf_def, Ideal.ofBits_def, fracZ0]
  rfl

/-- Channel `ch` of the interpolated value of query point `n` in volume 0 is `point` of the four
    x-interpolated corners and of columns 1 and 2 of the grid. -/
theorem out0 (x0 : (⟨S1x1x1x1048576x3, .f32⟩ : BufTy).Contents (Elt Ideal))
    (x1 : (⟨S1x4x64x64x64, .f32⟩ : BufTy).Contents (Elt Ideal)) (ch : Fin 4) (n : Fin 1048576) :
    ReadP.val_main_v209 (F := Ideal) x0 x1 (ix2 ch n)
      = Spec.point (Ideal.ofBits .f32 0x427C0000#32)
        (ReadP.val_main_v179 (F := Ideal) x0 x1 (ix2 ch n)) (ReadP.val_main_v184 (F := Ideal) x0 x1 (ix2 ch n))
        (ReadP.val_main_v189 (F := Ideal) x0 x1 (ix2 ch n)) (ReadP.val_main_v194 (F := Ideal) x0 x1 (ix2 ch n))
        (x0 (ix5 (0 : Fin 1) (0 : Fin 1) (0 : Fin 1) n (1 : Fin 3)))
        (x0 (ix5 (0 : Fin 1) (0 : Fin 1) (0 : Fin 1) n (2 : Fin 3))) := by
  have h1 : ReadP.idx_main_v196 (ReadP.idx_main_v197 (ix2 ch n)) = ix1 n := by
    funext a; match a with | ⟨0, _⟩ => rfl
  have h2 : ReadP.idx_main_v201 (ReadP.idx_main_v202 (ix2 ch n)) = ix1 n := by
    funext a; match a with | ⟨0, _⟩ => rfl
  have h3 : ReadP.idx_main_v206 (ReadP.idx_main_v207 (ix2 ch n)) = ix1 n := by
    funext a; match a with | ⟨0, _⟩ => rfl
  simp only [
    ReadP.val_main_v209_apply, ReadP.val_main_v199_apply, ReadP.val_main_v198_apply,
    ReadP.val_main_v195_apply, ReadP.val_main_v197_apply, ReadP.val_main_v196_apply,
    ReadP.val_main_v208_apply, ReadP.val_main_v205_apply, ReadP.val_main_v204_apply,
    ReadP.val_main_v203_apply, ReadP.val_main_v200_apply, ReadP.val_main_v202_apply,
    ReadP.val_main_v201_apply, ReadP.val_main_v207_apply, ReadP.val_main_v206_apply, Ideal.mulf_def,
    Ideal.addf_def, Ideal.subf_def]
  rw [h1, h2, h3, weightY0, weightZ0]
  rfl

/-- **The reference at one output element, volume 0**: row `0 + ch`, query point `n`. -/
theorem ref_point0 (x0 : (⟨S1x1x1x1048576x3, .f32⟩ : BufTy).Contents (Elt Ideal))
    (x1 : (⟨S1x4x64x64x64, .f32⟩ : BufTy).Contents (Elt Ideal))
    (x2 : (⟨S1x4x128x128x128, .f32⟩ : BufTy).Contents (Elt Ideal))
    (x3 : (⟨S1x4x192x192x192, .f32⟩ : BufTy).Contents (Elt Ideal)) (ch : Fin 4) (n : Fin 1048576) :
    ReadP.val_main_v633 (F := Ideal) x0 x1 x2 x3
        (ix5 (0 : Fin 1) (⟨ch.val, by have := ch.isLt; omega⟩ : Fin 12) (0 : Fin 1) (0 : Fin 1) n)
      = Spec.point (Ideal.ofBits .f32 0x427C0000#32)
        (ReadP.val_main_v179 (F := Ideal) x0 x1 (ix2 ch n)) (ReadP.val_main_v184 (F := Ideal) x0 x1 (ix2 ch n))
        (ReadP.val_main_v189 (F := Ideal) x0 x1 (ix2 ch n)) (ReadP.val_main_v194 (F := Ideal) x0 x1 (ix2 ch n))
        (x0 (ix5 (0 : Fin 1) (0 : Fin 1) (0 : Fin 1) n (1 : Fin 3)))
        (x0 (ix5 (0 : Fin 1) (0 : Fin 1) (0 : Fin 1) n (2 : Fin 3))) := by
  have hc : ReadP.val_main_v633 (F := Ideal) x0 x1 x2 x3
        (ix5 (0 : Fin 1) (⟨ch.val, by have := ch.isLt; omega⟩ : Fin 12) (0 : Fin 1) (0 : Fin 1) n)
      = ReadP.val_main_v210 (F := Ideal) x0 x1 (ix5 (0 : Fin 1) ch (0 : Fin 1) (0 : Fin 1) n) := by
    unfold ReadP.val_main_v633
    exact concat3_piece0 _ _ _ _ ch n
  have hi : ReadP.idx_main_v210 (ix5 (0 : Fin 1) ch (0 : Fin 1) (0 : Fin 1) n) = ix2 ch n := by
    funext a
    match a with
    | ⟨0, _⟩ =>
      exact Fin.ext (by
        show ((((0 * 4 + ch.val) * 1 + 0) * 1 + 0) * 1048576 + n.val) / 1048576 = ch.val
        have := n.isLt
        omega)
    | ⟨1, _⟩ =>
      exact Fin.ext (by
        show ((((0 * 4 + ch.val) * 1 + 0) * 1 + 0) * 1048576 + n.val) % 1048576 = n.val
        have := n.isLt
        omega)
  rw [hc, ReadP.val_main_v210_apply, hi]
  exact out0 x0 x1 ch n

/-- The same at any row `r` whose number is `0 + ch`. -/
theorem ref_point0_row (x0 : (⟨S1x1x1x1048576x3, .f32⟩ : BufTy).Contents (Elt Ideal))
    (x1 : (⟨S1x4x64x64x64, .f32⟩ : BufTy).Contents (Elt Ideal))
    (x2 : (⟨S1x4x128x128x128, .f32⟩ : BufTy).Contents (Elt Ideal))
    (x3 : (⟨S1x4x192x192x192, .f32⟩ : BufTy).Contents (Elt Ideal)) (ch : Fin 4) (n : Fin 1048576)
    (r : Fin 12) (hr : r.val = ch.val) :
    ReadP.val_main_v633 (F := Ideal) x0 x1 x2 x3 (ix5 (0 : Fin 1) r (0 : Fin 1) (0 : Fin 1) n)
      = Spec.point (Ideal.ofBits .f32 0x427C0000#32)
        (ReadP.val_main_v179 (F := Ideal) x0 x1 (ix2 ch n)) (ReadP.val_main_v184 (F := Ideal) x0 x1 (ix2 ch n))
        (ReadP.val_main_v189 (F := Ideal) x0 x1 (ix2 ch n)) (ReadP.val_main_v194 (F := Ideal) x0 x1 (ix2 ch n))
        (x0 (ix5 (0 : Fin 1) (0 : Fin 1) (0 : Fin 1) n (1 : Fin 3)))
        (x0 (ix5 (0 : Fin 1) (0 : Fin 1) (0 : Fin 1) n (2 : Fin 3))) := by
  have e : r = (⟨ch.val, by have := ch.isLt; omega⟩ : Fin 12) := Fin.ext hr
  rw [e]
  exact ref_point0 x0 x1 x2 x3 ch n

/-! ### Volume 1: axis extent 128, upper cell 127 -/

/-- The unnormalized y coordinate of query point `n` is `coord` of column 1 of the grid. -/
theorem coordY1 (x0 : (⟨S1x1x1x1048576x3, .f32⟩ : BufTy).Contents (Elt Ideal)) (n : Fin 1048576) :
    ReadP.val_main_v227 (F := Ideal) x0 (ix1 n)
      = Spec.coord (Ideal.ofBits .f32 0x42FE0000#32) (x0 (ix5 (0 : Fin 1) (0 : Fin 1) (0 : Fin 1) n (1 : Fin 3))) := by
  have hi : ReadP.idx_main_v211 (ReadP.idx_main_v220 (ReadP.idx_main_v221 (ix1 n)))
      = ix5 (0 : Fin 1) (0 : Fin 1) (0 : Fin 1) n (1 : Fin 3) := by
    funext a
    match a with
    | ⟨0, _⟩ => rfl
    | ⟨1, _⟩ => rfl
    | ⟨2, _⟩ => rfl
    | ⟨3, _⟩ =>
      exact Fin.ext (by
        show (n.val / 1 * 3 + (1 + 0)) / 3 % 1048576 = n.val
        have := n.isLt
        omega)
    | ⟨4, _⟩ =>
      exact Fin.ext (by
        show (n.val / 1 * 3 + (1 + 0)) % 3 = 1
        omega)
  simp only [
    ReadP.val_main_v227_apply, ReadP.val_main_v225_apply, ReadP.val_main_v223_apply,
    ReadP.val_main_v221_apply, ReadP.val_main_v220_apply, ReadP.val_main_v211_apply,
    ReadP.val_main_v222_apply, ReadP.val_main_cst_66_apply, ReadP.val_main_v224_apply,
    ReadP.val_main_cst_67_apply, ReadP.val_main_v226_apply, ReadP.val_main_cst_68_apply, Ideal.mulf_def,
    Ideal.addf_def, Ideal.ofBits_def]
  rw [hi]
  rfl

/-- The clipped fractional offset along y is `frac` of column 1 of the grid. -/
theorem fracY1 (x0 : (⟨S1x1x1x1048576x3, .f32⟩ : BufTy).Contents (Elt Ideal)) (n : Fin 1048576) :
    ReadP.val_main_v245 (F := Ideal) x0 (ix1 n)
      = Spec.frac (Ideal.ofBits .f32 0x42FE0000#32) (x0 (ix5 (0 : Fin 1) (0 : Fin 1) (0 : Fin 1) n (1 : Fin 3))) := by
  simp only [
    ReadP.val_main_v245_apply, ReadP.val_main_call10_v4_apply, ReadP.val_main_call10_v3_apply,
    ReadP.val_main_cst_81_apply, ReadP.val_main_call10_v2_apply, ReadP.val_main_call10_v1_apply,
    ReadP.val_main_call10_v0_apply, ReadP.val_main_cst_80_apply, ReadP.val_main_v244_apply,
    ReadP.val_main_v239_apply, ReadP.val_main_call7_v4_apply, ReadP.val_main_call7_v3_apply,
    ReadP.val_main_c_75_apply, ReadP.val_main_call7_v2_apply, ReadP.val_main_call7_v1_apply,
    ReadP.val_main_call7_v0_apply, ReadP.val_main_cst_74_apply, ReadP.val_main_v238_apply, Ideal.subf_def,
    Ideal.maximumf_def, Ideal.minimumf_def, Ideal.ofBits_def, Ideal.hostUnary_floor_def, coordY1,
    sitofp_127]
  rfl

/-- The interpolation weight along y is `weight` of column 1 of the grid. -/
theorem weightY1 (x0 : (⟨S1x1x1x1048576x3, .f32⟩ : BufTy).Contents (Elt Ideal)) (n : Fin 1048576) :
    ReadP.val_main_v259 (F := Ideal) x0 (ix1 n)
      = Spec.weight (Ideal.ofBits .f32 0x42FE0000#32) (x0 (ix5 (0 : Fin 1) (0 : Fin 1) (0 : Fin 1) n (1 : Fin 3))) := by
  simp only [
    ReadP.val_main_v259_apply, ReadP.val_main_v254_apply, ReadP.val_main_v258_apply,
    ReadP.val_main_v257_apply, ReadP.val_main_cst_87_apply, ReadP.val_main_v256_apply,
    ReadP.val_main_v255_apply, ReadP.val_main_cst_86_apply, Ideal.mulf_def, Ideal.subf_def,
    Ideal.ofBits_def, fracY1]
  rfl

/-- The unnormalized z coordinate of query point `n` is `coord` of column 2 of the grid. -/
theorem coordZ1 (x0 : (⟨S1x1x1x1048576x3, .f32⟩ : BufTy).Contents (Elt Ideal)) (n : Fin 1048576) :
    ReadP.val_main_v235 (F := Ideal) x0 (ix1 n)
      = Spec.coord (Ideal.ofBits .f32 0x42FE0000#32) (x0 (ix5 (0 : Fin 1) (0 : Fin 1) (0 : Fin 1) n (2 : Fin 3))) := by
  have hi : ReadP.idx_main_v211 (ReadP.idx_main_v228 (ReadP.idx_main_v229 (ix1 n)))
      = ix5 (0 : Fin 1) (0 : Fin 1) (0 : Fin 1) n (2 : Fin 3) := by
    funext a
    match a with
    | ⟨0, _⟩ => rfl
    | ⟨1, _⟩ => rfl
    | ⟨2, _⟩ => rfl
    | ⟨3, _⟩ =>
      exact Fin.ext (by
        show (n.val / 1 * 3 + (2 + 0)) / 3 % 1048576 = n.val
        have := n.isLt
        omega)
    | ⟨4, _⟩ =>
      exact Fin.ext (by
        show (n.val / 1 * 3 + (2 + 0)) % 3 = 2
        omega)
  simp only [
    ReadP.val_main_v235_apply, ReadP.val_main_v233_apply, ReadP.val_main_v231_apply,
    ReadP.val_main_v229_apply, ReadP.val_main_v228_apply, ReadP.val_main_v211_apply,
    ReadP.val_main_v230_apply, ReadP.val_main_cst_69_apply, ReadP.val_main_v232_apply,
    ReadP.val_main_cst_70_apply, ReadP.val_main_v234_apply, ReadP.val_main_cst_71_apply, Ideal.mulf_def,
    Ideal.addf_def, Ideal.ofBits_def]
  rw [hi]
  rfl

/-- The clipped fractional offset along z is `frac` of column 2 of the grid. -/
theorem fracZ1 (x0 : (⟨S1x1x1x1048576x3, .f32⟩ : BufTy).Contents (Elt Ideal)) (n : Fin 1048576) :
    ReadP.val_main_v247 (F := Ideal) x0 (ix1 n)
      = Spec.frac (Ideal.ofBits .f32 0x42FE0000#32) (x0 (ix5 (0 : Fin 1) (0 : Fin 1) (0 : Fin 1) n (2 : Fin 3))) := by
  simp only [
    ReadP.val_main_v247_apply, ReadP.val_main_call11_v4_apply, ReadP.val_main_call11_v3_apply,
    ReadP.val_main_cst_83_apply, ReadP.val_main_call11_v2_apply, ReadP.val_main_call11_v1_apply,
    ReadP.val_main_call11_v0_apply, ReadP.val_main_cst_82_apply, ReadP.val_main_v246_apply,
    ReadP.val_main_v241_apply, ReadP.val_main_call8_v4_apply, ReadP.val_main_call8_v3_apply,
    ReadP.val_main_c_77_apply, ReadP.val_main_call8_v2_apply, ReadP.val_main_call8_v1_apply,
    ReadP.val_main_call8_v0_apply, ReadP.val_main_cst_76_apply, ReadP.val_main_v240_apply, Ideal.subf_def,
    Ideal.maximumf_def, Ideal.minimumf_def, Ideal.ofBits_def, Ideal.hostUnary_floor_def, coordZ1,
    sitofp_127]
  rfl

/-- The interpolation weight along z is `weight` of column 2 of the grid. -/
theorem weightZ1 (x0 : (⟨S1x1x1x1048576x3, .f32⟩ : BufTy).Contents (Elt Ideal)) (n : Fin 1048576) :
    ReadP.val_main_v265 (F := Ideal) x0 (ix1 n)
      = Spec.weight (Ideal.ofBits .f32 0x42FE0000#32) (x0 (ix5 (0 : Fin 1) (0 : Fin 1) (0 : Fin 1) n (2 : Fin 3))) := by
  simp only [
    ReadP.val_main_v265_apply, ReadP.val_main_v260_apply, ReadP.val_main_v264_apply,
    ReadP.val_main_v263_apply, ReadP.val_main_cst_89_apply, ReadP.val_main_v262_apply,
    ReadP.val_main_v261_apply, ReadP.val_main_cst_88_apply, Ideal.mulf_def, Ideal.subf_def,
    Ideal.ofBits_def, fracZ1]
  rfl

/-- Channel `ch` of the interpolated value of query point `n` in volume 1 is `point` of the four
    x-interpolated corners and of columns 1 and 2 of the grid. -/
theorem out1 (x0 : (⟨S1x1x1x1048576x3, .f32⟩ : BufTy).Contents (Elt Ideal))
    (x2 : (⟨S1x4x128x128x128, .f32⟩ : BufTy).Contents (Elt Ideal)) (ch : Fin 4) (n : Fin 1048576) :
    ReadP.val_main_v420 (F := Ideal) x0 x2 (ix2 ch n)
      = Spec.point (Ideal.ofBits .f32 0x42FE0000#32)
        (ReadP.val_main_v390 (F := Ideal) x0 x2 (ix2 ch n)) (ReadP.val_main_v395 (F := Ideal) x0 x2 (ix2 ch n))
        (ReadP.val_main_v400 (F := Ideal) x0 x2 (ix2 ch n)) (ReadP.val_main_v405 (F := Ideal) x0 x2 (ix2 ch n))
        (x0 (ix5 (0 : Fin 1) (0 : Fin 1) (0 : Fin 1) n (1 : Fin 3)))
        (x0 (ix5 (0 : Fin 1) (0 : Fin 1) (0 : Fin 1) n (2 : Fin 3))) := by
  have h1 : ReadP.idx_main_v407 (ReadP.idx_main_v408 (ix2 ch n)) = ix1 n := by
    funext a; match a with | ⟨0, _⟩ => rfl
  have h2 : ReadP.idx_main_v412 (ReadP.idx_main_v413 (ix2 ch n)) = ix1 n := by
    funext a; match a with | ⟨0, _⟩ => rfl
  have h3 : ReadP.idx_main_v417 (ReadP.idx_main_v418 (ix2 ch n)) = ix1 n := by
    funext a; match a with | ⟨0, _⟩ => rfl
  simp only [
    ReadP.val_main_v420_apply, ReadP.val_main_v410_apply, ReadP.val_main_v409_apply,
    ReadP.val_main_v406_apply, ReadP.val_main_v408_apply, ReadP.val_main_v407_apply,
    ReadP.val_main_v419_apply, ReadP.val_main_v416_apply, ReadP.val_main_v415_apply,
    ReadP.val_main_v414_apply, ReadP.val_main_v411_apply, ReadP.val_main_v413_apply,
    ReadP.val_main_v412_apply, ReadP.val_main_v418_apply, ReadP.val_main_v417_apply, Ideal.mulf_def,
    Ideal.addf_def, Ideal.subf_def]
  rw [h1, h2, h3, weightY1, weightZ1]
  rfl

/-- **The reference at one output element, volume 1**: row `4 + ch`, query point `n`. -/
theorem ref_point1 (x0 : (⟨S1x1x1x1048576x3, .f32⟩ : BufTy).Contents (Elt Ideal))
    (x1 : (⟨S1x4x64x64x64, .f32⟩ : BufTy).Contents (Elt Ideal))
    (x2 : (⟨S1x4x128x128x128, .f32⟩ : BufTy).Contents (Elt Ideal))
    (x3 : (⟨S1x4x192x192x192, .f32⟩ : BufTy).Contents (Elt Ideal)) (ch : Fin 4) (n : Fin 1048576) :
    ReadP.val_main_v633 (F := Ideal) x0 x1 x2 x3
        (ix5 (0 : Fin 1) (⟨4 + ch.val, by have := ch.isLt; omega⟩ : Fin 12) (0 : Fin 1) (0 : Fin 1) n)
      = Spec.point (Ideal.ofBits .f32 0x42FE0000#32)
        (ReadP.val_main_v390 (F := Ideal) x0 x2 (ix2 ch n)) (ReadP.val_main_v395 (F := Ideal) x0 x2 (ix2 ch n))
        (ReadP.val_main_v400 (F := Ideal) x0 x2 (ix2 ch n)) (ReadP.val_main_v405 (F := Ideal) x0 x2 (ix2 ch n))
        (x0 (ix5 (0 : Fin 1) (0 : Fin 1) (0 : Fin 1) n (1 : Fin 3)))
        (x0 (ix5 (0 : Fin 1) (0 : Fin 1) (0 : Fin 1) n (2 : Fin 3))) := by
  have hc : ReadP.val_main_v633 (F := Ideal) x0 x1 x2 x3
        (ix5 (0 : Fin 1) (⟨4 + ch.val, by have := ch.isLt; omega⟩ : Fin 12) (0 : Fin 1) (0 : Fin 1) n)
      = ReadP.val_main_v421 (F := Ideal) x0 x2 (ix5 (0 : Fin 1) ch (0 : Fin 1) (0 : Fin 1) n) := by
    unfold ReadP.val_main_v633
    exact concat3_piece1 _ _ _ _ ch n
  have hi : ReadP.idx_main_v421 (ix5 (0 : Fin 1) ch (0 : Fin 1) (0 : Fin 1) n) = ix2 ch n := by
    funext a
    match a with
    | ⟨0, _⟩ =>
      exact Fin.ext (by
        show ((((0 * 4 + ch.val) * 1 + 0) * 1 + 0) * 1048576 + n.val) / 1048576 = ch.val
        have := n.isLt
        omega)
    | ⟨1, _⟩ =>
      exact Fin.ext (by
        show ((((0 * 4 + ch.val) * 1 + 0) * 1 + 0) * 1048576 + n.val) % 1048576 = n.val
        have := n.isLt
        omega)
  rw [hc, ReadP.val_main_v421_apply, hi]
  exact out1 x0 x2 ch n

/-- The same at any row `r` whose number is `4 + ch`. -/
theorem ref_point1_row (x0 : (⟨S1x1x1x1048576x3, .f32⟩ : BufTy).Contents (Elt Ideal))
    (x1 : (⟨S1x4x64x64x64, .f32⟩ : BufTy).Contents (Elt Ideal))
    (x2 : (⟨S1x4x128x128x128, .f32⟩ : BufTy).Contents (Elt Ideal))
    (x3 : (⟨S1x4x192x192x192, .f32⟩ : BufTy).Contents (Elt Ideal)) (ch : Fin 4) (n : Fin 1048576)
    (r : Fin 12) (hr : r.val = 4 + ch.val) :
    ReadP.val_main_v633 (F := Ideal) x0 x1 x2 x3 (ix5 (0 : Fin 1) r (0 : Fin 1) (0 : Fin 1) n)
      = Spec.point (Ideal.ofBits .f32 0x42FE0000#32)
        (ReadP.val_main_v390 (F := Ideal) x0 x2 (ix2 ch n)) (ReadP.val_main_v395 (F := Ideal) x0 x2 (ix2 ch n))
        (ReadP.val_main_v400 (F := Ideal) x0 x2 (ix2 ch n)) (ReadP.val_main_v405 (F := Ideal) x0 x2 (ix2 ch n))
        (x0 (ix5 (0 : Fin 1) (0 : Fin 1) (0 : Fin 1) n (1 : Fin 3)))
        (x0 (ix5 (0 : Fin 1) (0 : Fin 1) (0 : Fin 1) n (2 : Fin 3))) := by
  have e : r = (⟨4 + ch.val, by have := ch.isLt; omega⟩ : Fin 12) := Fin.ext hr
  rw [e]
  exact ref_point1 x0 x1 x2 x3 ch n

/-! ### Volume 2: axis extent 192, upper cell 191 -/

/-- The unnormalized y coordinate of query point `n` is `coord` of column 1 of the grid. -/
theorem coordY2 (x0 : (⟨S1x1x1x1048576x3, .f32⟩ : BufTy).Contents (Elt Ideal)) (n : Fin 1048576) :
    ReadP.val_main_v438 (F := Ideal) x0 (ix1 n)
      = Spec.coord (Ideal.ofBits .f32 0x433F0000#32) (x0 (ix5 (0 : Fin 1) (0 : Fin 1) (0 : Fin 1) n (1 : Fin 3))) := by
  have hi : ReadP.idx_main_v422 (ReadP.idx_main_v431 (ReadP.idx_main_v432 (ix1 n)))
      = ix5 (0 : Fin 1) (0 : Fin 1) (0 : Fin 1) n (1 : Fin 3) := by
    funext a
    match a with
    | ⟨0, _⟩ => rfl
    | ⟨1, _⟩ => rfl
    | ⟨2, _⟩ => rfl
    | ⟨3, _⟩ =>
      exact Fin.ext (by
        show (n.val / 1 * 3 + (1 + 0)) / 3 % 1048576 = n.val
        have := n.isLt
        omega)
    | ⟨4, _⟩ =>
      exact Fin.ext (by
        show (n.val / 1 * 3 + (1 + 0)) % 3 = 1
        omega)
  simp only [
    ReadP.val_main_v438_apply, ReadP.val_main_v436_apply, ReadP.val_main_v434_apply,
    ReadP.val_main_v432_apply, ReadP.val_main_v431_apply, ReadP.val_main_v422_apply,
    ReadP.val_main_v433_apply, ReadP.val_main_cst_131_apply, ReadP.val_main_v435_apply,
    ReadP.val_main_cst_132_apply, ReadP.val_main_v437_apply, ReadP.val_main_cst_133_apply, Ideal.mulf_def,
    Ideal.addf_def, Ideal.ofBits_def]
  rw [hi]
  rfl

/-- The clipped fractional offset along y is `frac` of column 1 of the grid. -/
theorem fracY2 (x0 : (⟨S1x1x1x1048576x3, .f32⟩ : BufTy).Contents (Elt Ideal)) (n : Fin 1048576) :
    ReadP.val_main_v456 (F := Ideal) x0 (ix1 n)
      = Spec.frac (Ideal.ofBits .f32 0x433F0000#32) (x0 (ix5 (0 : Fin 1) (0 : Fin 1) (0 : Fin 1) n (1 : Fin 3))) := by
  simp only [
    ReadP.val_main_v456_apply, ReadP.val_main_call16_v4_apply, ReadP.val_main_call16_v3_apply,
    ReadP.val_main_cst_146_apply, ReadP.val_main_call16_v2_apply, ReadP.val_main_call16_v1_apply,
    ReadP.val_main_call16_v0_apply, ReadP.val_main_cst_145_apply, ReadP.val_main_v455_apply,
    ReadP.val_main_v450_apply, ReadP.val_main_call13_v4_apply, ReadP.val_main_call13_v3_apply,
    ReadP.val_main_c_140_apply, ReadP.val_main_call13_v2_apply, ReadP.val_main_call13_v1_apply,
    ReadP.val_main_call13_v0_apply, ReadP.val_main_cst_139_apply, ReadP.val_main_v449_apply,
    Ideal.subf_def, Ideal.maximumf_def, Ideal.minimumf_def, Ideal.ofBits_def, Ideal.hostUnary_floor_def,
    coordY2, sitofp_191]
  rfl

/-- The interpolation weight along y is `weight` of column 1 of the grid. -/
theorem weightY2 (x0 : (⟨S1x1x1x1048576x3, .f32⟩ : BufTy).Contents (Elt Ideal)) (n : Fin 1048576) :
    ReadP.val_main_v470 (F := Ideal) x0 (ix1 n)
      = Spec.weight (Ideal.ofBits .f32 0x433F0000#32) (x0 (ix5 (0 : Fin 1) (0 : Fin 1) (0 : Fin 1) n (1 : Fin 3))) := by
  simp only [
    ReadP.val_main_v470_apply, ReadP.val_main_v465_apply, ReadP.val_main_v469_apply,
    ReadP.val_main_v468_apply, ReadP.val_main_cst_152_apply, ReadP.val_main_v467_apply,
    ReadP.val_main_v466_apply, ReadP.val_main_cst_151_apply, Ideal.mulf_def, Ideal.subf_def,
    Ideal.ofBits_def, fracY2]
  rfl

/-- The unnormalized z coordinate of query point `n` is `coord` of column 2 of the grid. -/
theorem coordZ2 (x0 : (⟨S1x1x1x1048576x3, .f32⟩ : BufTy).Contents (Elt Ideal)) (n : Fin 1048576) :
    ReadP.val_main_v446 (F := Ideal) x0 (ix1 n)
      = Spec.coord (Ideal.ofBits .f32 0x433F0000#32) (x0 (ix5 (0 : Fin 1) (0 : Fin 1) (0 : Fin 1) n (2 : Fin 3))) := by
  have hi : ReadP.idx_main_v422 (ReadP.idx_main_v439 (ReadP.idx_main_v440 (ix1 n)))
      = ix5 (0 : Fin 1) (0 : Fin 1) (0 : Fin 1) n (2 : Fin 3) := by
    funext a
    match a with
    | ⟨0, _⟩ => rfl
    | ⟨1, _⟩ => rfl
    | ⟨2, _⟩ => rfl
    | ⟨3, _⟩ =>
      exact Fin.ext (by
        show (n.val / 1 * 3 + (2 + 0)) / 3 % 1048576 = n.val
        have := n.isLt
        omega)
    | ⟨4, _⟩ =>
      exact Fin.ext (by
        show (n.val / 1 * 3 + (2 + 0)) % 3 = 2
        omega)
  simp only [
    ReadP.val_main_v446_apply, ReadP.val_main_v444_apply, ReadP.val_main_v442_apply,
    ReadP.val_main_v440_apply, ReadP.val_main_v439_apply, ReadP.val_main_v422_apply,
    ReadP.val_main_v441_apply, ReadP.val_main_cst_134_apply, ReadP.val_main_v443_apply,
    ReadP.val_main_cst_135_apply, ReadP.val_main_v445_apply, ReadP.val_main_cst_136_apply, Ideal.mulf_def,
    Ideal.addf_def, Ideal.ofBits_def]
  rw [hi]
  rfl

/-- The clipped fractional offset along z is `frac` of column 2 of the grid. -/
theorem fracZ2 (x0 : (⟨S1x1x1x1048576x3, .f32⟩ : BufTy).Contents (Elt Ideal)) (n : Fin 1048576) :
    ReadP.val_main_v458 (F := Ideal) x0 (ix1 n)
      = Spec.frac (Ideal.ofBits .f32 0x433F0000#32) (x0 (ix5 (0 : Fin 1) (0 : Fin 1) (0 : Fin 1) n (2 : Fin 3))) := by
  simp only [
    ReadP.val_main_v458_apply, ReadP.val_main_call17_v4_apply, ReadP.val_main_call17_v3_apply,
    ReadP.val_main_cst_148_apply, ReadP.val_main_call17_v2_apply, ReadP.val_main_call17_v1_apply,
    ReadP.val_main_call17_v0_apply, ReadP.val_main_cst_147_apply, ReadP.val_main_v457_apply,
    ReadP.val_main_v452_apply, ReadP.val_main_call14_v4_apply, ReadP.val_main_call14_v3_apply,
    ReadP.val_main_c_142_apply, ReadP.val_main_call14_v2_apply, ReadP.val_main_call14_v1_apply,
    ReadP.val_main_call14_v0_apply, ReadP.val_main_cst_141_apply, ReadP.val_main_v451_apply,
    Ideal.subf_def, Ideal.maximumf_def, Ideal.minimumf_def, Ideal.ofBits_def, Ideal.hostUnary_floor_def,
    coordZ2, sitofp_191]
  rfl

/-- The interpolation weight along z is `weight` of column 2 of the grid. -/
theorem weightZ2 (x0 : (⟨S1x1x1x1048576x3, .f32⟩ : BufTy).Contents (Elt Ideal)) (n : Fin 1048576) :
    ReadP.val_main_v476 (F := Ideal) x0 (ix1 n)
      = Spec.weight (Ideal.ofBits .f32 0x433F0000#32) (x0 (ix5 (0 : Fin 1) (0 : Fin 1) (0 : Fin 1) n (2 : Fin 3))) := by
  simp only [
    ReadP.val_main_v476_apply, ReadP.val_main_v471_apply, ReadP.val_main_v475_apply,
    ReadP.val_main_v474_apply, ReadP.val_main_cst_154_apply, ReadP.val_main_v473_apply,
    ReadP.val_main_v472_apply, ReadP.val_main_cst_153_apply, Ideal.mulf_def, Ideal.subf_def,
    Ideal.ofBits_def, fracZ2]
  rfl

/-- Channel `ch` of the interpolated value of query point `n` in volume 2 is `point` of the four
    x-interpolated corners and of columns 1 and 2 of the grid. -/
theorem out2 (x0 : (⟨S1x1x1x1048576x3, .f32⟩ : BufTy).Contents (Elt Ideal))
    (x3 : (⟨S1x4x192x192x192, .f32⟩ : BufTy).Contents (Elt Ideal)) (ch : Fin 4) (n : Fin 1048576) :
    ReadP.val_main_v631 (F := Ideal) x0 x3 (ix2 ch n)
      = Spec.point (Ideal.ofBits .f32 0x433F0000#32)
        (ReadP.val_main_v601 (F := Ideal) x0 x3 (ix2 ch n)) (ReadP.val_main_v606 (F := Ideal) x0 x3 (ix2 ch n))
        (ReadP.val_main_v611 (F := Ideal) x0 x3 (ix2 ch n)) (ReadP.val_main_v616 (F := Ideal) x0 x3 (ix2 ch n))
        (x0 (ix5 (0 : Fin 1) (0 : Fin 1) (0 : Fin 1) n (1 : Fin 3)))
        (x0 (ix5 (0 : Fin 1) (0 : Fin 1) (0 : Fin 1) n (2 : Fin 3))) := by
  have h1 : ReadP.idx_main_v618 (ReadP.idx_main_v619 (ix2 ch n)) = ix1 n := by
    funext a; match a with | ⟨0, _⟩ => rfl
  have h2 : ReadP.idx_main_v623 (ReadP.idx_main_v624 (ix2 ch n)) = ix1 n := by
    funext a; match a with | ⟨0, _⟩ => rfl
  have h3 : ReadP.idx_main_v628 (ReadP.idx_main_v629 (ix2 ch n)) = ix1 n := by
    funext a; match a with | ⟨0, _⟩ => rfl
  simp only [
    ReadP.val_main_v631_apply, ReadP.val_main_v621_apply, ReadP.val_main_v620_apply,
    ReadP.val_main_v617_apply, ReadP.val_main_v619_apply, ReadP.val_main_v618_apply,
    ReadP.val_main_v630_apply, ReadP.val_main_v627_apply, ReadP.val_main_v626_apply,
    ReadP.val_main_v625_apply, ReadP.val_main_v622_apply, ReadP.val_main_v624_apply,
    ReadP.val_main_v623_apply, ReadP.val_main_v629_apply, ReadP.val_main_v628_apply, Ideal.mulf_def,
    Ideal.addf_def, Ideal.subf_def]
  rw [h1, h2, h3, weightY2, weightZ2]
  rfl

/-- **The reference at one output element, volume 2**: row `8 + ch`, query point `n`. -/
theorem ref_point2 (x0 : (⟨S1x1x1x1048576x3, .f32⟩ : BufTy).Contents (Elt Ideal))
    (x1 : (⟨S1x4x64x64x64, .f32⟩ : BufTy).Contents (Elt Ideal))
    (x2 : (⟨S1x4x128x128x128, .f32⟩ : BufTy).Contents (Elt Ideal))
    (x3 : (⟨S1x4x192x192x192, .f32⟩ : BufTy).Contents (Elt Ideal)) (ch : Fin 4) (n : Fin 1048576) :
    ReadP.val_main_v633 (F := Ideal) x0 x1 x2 x3
        (ix5 (0 : Fin 1) (⟨8 + ch.val, by have := ch.isLt; omega⟩ : Fin 12) (0 : Fin 1) (0 : Fin 1) n)
      = Spec.point (Ideal.ofBits .f32 0x433F0000#32)
        (ReadP.val_main_v601 (F := Ideal) x0 x3 (ix2 ch n)) (ReadP.val_main_v606 (F := Ideal) x0 x3 (ix2 ch n))
        (ReadP.val_main_v611 (F := Ideal) x0 x3 (ix2 ch n)) (ReadP.val_main_v616 (F := Ideal) x0 x3 (ix2 ch n))
        (x0 (ix5 (0 : Fin 1) (0 : Fin 1) (0 : Fin 1) n (1 : Fin 3)))
        (x0 (ix5 (0 : Fin 1) (0 : Fin 1) (0 : Fin 1) n (2 : Fin 3))) := by
  have hc : ReadP.val_main_v633 (F := Ideal) x0 x1 x2 x3
        (ix5 (0 : Fin 1) (⟨8 + ch.val, by have := ch.isLt; omega⟩ : Fin 12) (0 : Fin 1) (0 : Fin 1) n)
      = ReadP.val_main_v632 (F := Ideal) x0 x3 (ix5 (0 : Fin 1) ch (0 : Fin 1) (0 : Fin 1) n) := by
    unfold ReadP.val_main_v633
    exact concat3_piece2 _ _ _ _ ch n
  have hi : ReadP.idx_main_v632 (ix5 (0 : Fin 1) ch (0 : Fin 1) (0 : Fin 1) n) = ix2 ch n := by
    funext a
    match a with
    | ⟨0, _⟩ =>
      exact Fin.ext (by
        show ((((0 * 4 + ch.val) * 1 + 0) * 1 + 0) * 1048576 + n.val) / 1048576 = ch.val
        have := n.isLt
        omega)
    | ⟨1, _⟩ =>
      exact Fin.ext (by
        show ((((0 * 4 + ch.val) * 1 + 0) * 1 + 0) * 1048576 + n.val) % 1048576 = n.val
        have := n.isLt
        omega)
  rw [hc, ReadP.val_main_v632_apply, hi]
  exact out2 x0 x3 ch n

/-- The same at any row `r` whose number is `8 + ch`. -/
theorem ref_point2_row (x0 : (⟨S1x1x1x1048576x3, .f32⟩ : BufTy).Contents (Elt Ideal))
    (x1 : (⟨S1x4x64x64x64, .f32⟩ : BufTy).Contents (Elt Ideal))
    (x2 : (⟨S1x4x128x128x128, .f32⟩ : BufTy).Contents (Elt Ideal))
    (x3 : (⟨S1x4x192x192x192, .f32⟩ : BufTy).Contents (Elt Ideal)) (ch : Fin 4) (n : Fin 1048576)
    (r : Fin 12) (hr : r.val = 8 + ch.val) :
    ReadP.val_main_v633 (F := Ideal) x0 x1 x2 x3 (ix5 (0 : Fin 1) r (0 : Fin 1) (0 : Fin 1) n)
      = Spec.point (Ideal.ofBits .f32 0x433F0000#32)
        (ReadP.val_main_v601 (F := Ideal) x0 x3 (ix2 ch n)) (ReadP.val_main_v606 (F := Ideal) x0 x3 (ix2 ch n))
        (ReadP.val_main_v611 (F := Ideal) x0 x3 (ix2 ch n)) (ReadP.val_main_v616 (F := Ideal) x0 x3 (ix2 ch n))
        (x0 (ix5 (0 : Fin 1) (0 : Fin 1) (0 : Fin 1) n (1 : Fin 3)))
        (x0 (ix5 (0 : Fin 1) (0 : Fin 1) (0 : Fin 1) n (2 : Fin 3))) := by
  have e : r = (⟨8 + ch.val, by have := ch.isLt; omega⟩ : Fin 12) := Fin.ext hr
  rw [e]
  exact ref_point2 x0 x1 x2 x3 ch n

end Cert.Proof.RefPoint

end
-- ==== Proof.HostStagesIdeal.lean ====
/-
  The host operations of `KernelIdeal`'s @main before the kernel region, one at a time: for each operation, the value it
  writes as a function of the four argument arrays (the grid and the three volumes), in program order — the
  reshapes and slices of the grid, per volume the unnormalized coordinates, their floors clipped to the volume, the
  x weight, the integer cell coordinates and their clipped successors, the eight flat corner indices, the eight
  gathered corner rows transposed to channel-major, the four x-interpolations, and last the four 12-row stacks and
  the 2-row stack of the raw y and z coordinates that the region reads.
-/
import proofs.«113233_j37486474559588_2_alg».proof.Proof.Gen.KernelIdeal
import Idealize.ShloMosaic.Lib.StableHlo.Run

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

def kst_main_v0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x3, .f32⟩ : BufTy).Contents (Elt F) :=
  shapeCast _ x0 shapeCasts_S1x1x1x1048576x3_S1048576x3
def kst_main_v1 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x1, .f32⟩ : BufTy).Contents (Elt F) :=
  (((extractStridedSlice S1048576x1 ![0, 0] · slices_S1048576x3_S1048576x1_0_0)) : (⟨S1048576x3, .f32⟩ : BufTy).Contents (Elt F) → (⟨S1048576x1, .f32⟩ : BufTy).Contents (Elt F)) (kst_main_v0 (F := F) x0 x1 x2 x3)
def kst_main_v2 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  shapeCast _ (kst_main_v1 (F := F) x0 x1 x2 x3) shapeCasts_S1048576x1_S1048576
def kst_main_v3 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x1, .f32⟩ : BufTy).Contents (Elt F) :=
  (((extractStridedSlice S1048576x1 ![0, 1] · slices_S1048576x3_S1048576x1_0_1)) : (⟨S1048576x3, .f32⟩ : BufTy).Contents (Elt F) → (⟨S1048576x1, .f32⟩ : BufTy).Contents (Elt F)) (kst_main_v0 (F := F) x0 x1 x2 x3)
def kst_main_v4 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  shapeCast _ (kst_main_v3 (F := F) x0 x1 x2 x3) shapeCasts_S1048576x1_S1048576
def kst_main_v5 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x1, .f32⟩ : BufTy).Contents (Elt F) :=
  (((extractStridedSlice S1048576x1 ![0, 2] · slices_S1048576x3_S1048576x1_0_2)) : (⟨S1048576x3, .f32⟩ : BufTy).Contents (Elt F) → (⟨S1048576x1, .f32⟩ : BufTy).Contents (Elt F)) (kst_main_v0 (F := F) x0 x1 x2 x3)
def kst_main_v6 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  shapeCast _ (kst_main_v5 (F := F) x0 x1 x2 x3) shapeCasts_S1048576x1_S1048576
def kst_main_cst (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x3F800000#32)
def kst_main_v7 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((broadcastInDim S1048576 ![] bcast_S_S1048576) : (⟨S_, .f32⟩ : BufTy).Contents (Elt F) → (⟨S1048576, .f32⟩ : BufTy).Contents (Elt F)) (kst_main_cst (F := F) x0 x1 x2 x3)
def kst_main_v8 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((addf) : (⟨S1048576, .f32⟩ : BufTy).Contents (Elt F) → (⟨S1048576, .f32⟩ : BufTy).Contents (Elt F) → (⟨S1048576, .f32⟩ : BufTy).Contents (Elt F)) (kst_main_v2 (F := F) x0 x1 x2 x3) (kst_main_v7 (F := F) x0 x1 x2 x3)
def kst_main_cst_0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x3F000000#32)
def kst_main_v9 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((broadcastInDim S1048576 ![] bcast_S_S1048576) : (⟨S_, .f32⟩ : BufTy).Contents (Elt F) → (⟨S1048576, .f32⟩ : BufTy).Contents (Elt F)) (kst_main_cst_0 (F := F) x0 x1 x2 x3)
def kst_main_v10 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((mulf) : (⟨S1048576, .f32⟩ : BufTy).Contents (Elt F) → (⟨S1048576, .f32⟩ : BufTy).Contents (Elt F) → (⟨S1048576, .f32⟩ : BufTy).Contents (Elt F)) (kst_main_v8 (F := F) x0 x1 x2 x3) (kst_main_v9 (F := F) x0 x1 x2 x3)
def kst_main_cst_1 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x427C0000#32)
def kst_main_v11 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((broadcastInDim S1048576 ![] bcast_S_S1048576) : (⟨S_, .f32⟩ : BufTy).Contents (Elt F) → (⟨S1048576, .f32⟩ : BufTy).Contents (Elt F)) (kst_main_cst_1 (F := F) x0 x1 x2 x3)
def kst_main_v12 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((mulf) : (⟨S1048576, .f32⟩ : BufTy).Contents (Elt F) → (⟨S1048576, .f32⟩ : BufTy).Contents (Elt F) → (⟨S1048576, .f32⟩ : BufTy).Contents (Elt F)) (kst_main_v10 (F := F) x0 x1 x2 x3) (kst_main_v11 (F := F) x0 x1 x2 x3)
def kst_main_cst_2 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x3F800000#32)
def kst_main_v13 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((broadcastInDim S1048576 ![] bcast_S_S1048576) : (⟨S_, .f32⟩ : BufTy).Contents (Elt F) → (⟨S1048576, .f32⟩ : BufTy).Contents (Elt F)) (kst_main_cst_2 (F := F) x0 x1 x2 x3)
def kst_main_v14 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((addf) : (⟨S1048576, .f32⟩ : BufTy).Contents (Elt F) → (⟨S1048576, .f32⟩ : BufTy).Contents (Elt F) → (⟨S1048576, .f32⟩ : BufTy).Contents (Elt F)) (kst_main_v4 (F := F) x0 x1 x2 x3) (kst_main_v13 (F := F) x0 x1 x2 x3)
def kst_main_cst_3 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x3F000000#32)
def kst_main_v15 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((broadcastInDim S1048576 ![] bcast_S_S1048576) : (⟨S_, .f32⟩ : BufTy).Contents (Elt F) → (⟨S1048576, .f32⟩ : BufTy).Contents (Elt F)) (kst_main_cst_3 (F := F) x0 x1 x2 x3)
def kst_main_v16 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((mulf) : (⟨S1048576, .f32⟩ : BufTy).Contents (Elt F) → (⟨S1048576, .f32⟩ : BufTy).Contents (Elt F) → (⟨S1048576, .f32⟩ : BufTy).Contents (Elt F)) (kst_main_v14 (F := F) x0 x1 x2 x3) (kst_main_v15 (F := F) x0 x1 x2 x3)
def kst_main_cst_4 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x427C0000#32)
def kst_main_v17 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((broadcastInDim S1048576 ![] bcast_S_S1048576) : (⟨S_, .f32⟩ : BufTy).Contents (Elt F) → (⟨S1048576, .f32⟩ : BufTy).Contents (Elt F)) (kst_main_cst_4 (F := F) x0 x1 x2 x3)
def kst_main_v18 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((mulf) : (⟨S1048576, .f32⟩ : BufTy).Contents (Elt F) → (⟨S1048576, .f32⟩ : BufTy).Contents (Elt F) → (⟨S1048576, .f32⟩ : BufTy).Contents (Elt F)) (kst_main_v16 (F := F) x0 x1 x2 x3) (kst_main_v17 (F := F) x0 x1 x2 x3)
def kst_main_cst_5 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x3F800000#32)
def kst_main_v19 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((broadcastInDim S1048576 ![] bcast_S_S1048576) : (⟨S_, .f32⟩ : BufTy).Contents (Elt F) → (⟨S1048576, .f32⟩ : BufTy).Contents (Elt F)) (kst_main_cst_5 (F := F) x0 x1 x2 x3)
def kst_main_v20 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((addf) : (⟨S1048576, .f32⟩ : BufTy).Contents (Elt F) → (⟨S1048576, .f32⟩ : BufTy).Contents (Elt F) → (⟨S1048576, .f32⟩ : BufTy).Contents (Elt F)) (kst_main_v6 (F := F) x0 x1 x2 x3) (kst_main_v19 (F := F) x0 x1 x2 x3)
def kst_main_cst_6 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x3F000000#32)
def kst_main_v21 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((broadcastInDim S1048576 ![] bcast_S_S1048576) : (⟨S_, .f32⟩ : BufTy).Contents (Elt F) → (⟨S1048576, .f32⟩ : BufTy).Contents (Elt F)) (kst_main_cst_6 (F := F) x0 x1 x2 x3)
def kst_main_v22 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((mulf) : (⟨S1048576, .f32⟩ : BufTy).Contents (Elt F) → (⟨S1048576, .f32⟩ : BufTy).Contents (Elt F) → (⟨S1048576, .f32⟩ : BufTy).Contents (Elt F)) (kst_main_v20 (F := F) x0 x1 x2 x3) (kst_main_v21 (F := F) x0 x1 x2 x3)
def kst_main_cst_7 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x427C0000#32)
def kst_main_v23 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((broadcastInDim S1048576 ![] bcast_S_S1048576) : (⟨S_, .f32⟩ : BufTy).Contents (Elt F) → (⟨S1048576, .f32⟩ : BufTy).Contents (Elt F)) (kst_main_cst_7 (F := F) x0 x1 x2 x3)
def kst_main_v24 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((mulf) : (⟨S1048576, .f32⟩ : BufTy).Contents (Elt F) → (⟨S1048576, .f32⟩ : BufTy).Contents (Elt F) → (⟨S1048576, .f32⟩ : BufTy).Contents (Elt F)) (kst_main_v22 (F := F) x0 x1 x2 x3) (kst_main_v23 (F := F) x0 x1 x2 x3)
def kst_main_v25 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((Host.floor) : (⟨S1048576, .f32⟩ : BufTy).Contents (Elt F) → (⟨S1048576, .f32⟩ : BufTy).Contents (Elt F)) (kst_main_v12 (F := F) x0 x1 x2 x3)
def kst_main_cst_8 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x00000000#32)
def kst_main_cst_9 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x427C0000#32)
def kst_main_call0_v0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  ((id) : (⟨S_, .f32⟩ : BufTy).Contents (Elt F) → (⟨S_, .f32⟩ : BufTy).Contents (Elt F)) (kst_main_cst_8 (F := F) x0 x1 x2 x3)
def kst_main_call0_v1 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  (((broadcastInDim S1048576 ![] bcast_S_S1048576)) : (⟨S_, .f32⟩ : BufTy).Contents (Elt F) → (⟨S1048576, .f32⟩ : BufTy).Contents (Elt F)) (kst_main_call0_v0 (F := F) x0 x1 x2 x3)
def kst_main_call0_v2 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((maximumf) : (⟨S1048576, .f32⟩ : BufTy).Contents (Elt F) → (⟨S1048576, .f32⟩ : BufTy).Contents (Elt F) → (⟨S1048576, .f32⟩ : BufTy).Contents (Elt F)) (kst_main_call0_v1 (F := F) x0 x1 x2 x3) (kst_main_v25 (F := F) x0 x1 x2 x3)
def kst_main_call0_v3 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  ((id) : (⟨S_, .f32⟩ : BufTy).Contents (Elt F) → (⟨S_, .f32⟩ : BufTy).Contents (Elt F)) (kst_main_cst_9 (F := F) x0 x1 x2 x3)
def kst_main_call0_v4 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  (((broadcastInDim S1048576 ![] bcast_S_S1048576)) : (⟨S_, .f32⟩ : BufTy).Contents (Elt F) → (⟨S1048576, .f32⟩ : BufTy).Contents (Elt F)) (kst_main_call0_v3 (F := F) x0 x1 x2 x3)
def kst_main_v26 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((minimumf) : (⟨S1048576, .f32⟩ : BufTy).Contents (Elt F) → (⟨S1048576, .f32⟩ : BufTy).Contents (Elt F) → (⟨S1048576, .f32⟩ : BufTy).Contents (Elt F)) (kst_main_call0_v4 (F := F) x0 x1 x2 x3) (kst_main_call0_v2 (F := F) x0 x1 x2 x3)
def kst_main_v27 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((Host.floor) : (⟨S1048576, .f32⟩ : BufTy).Contents (Elt F) → (⟨S1048576, .f32⟩ : BufTy).Contents (Elt F)) (kst_main_v18 (F := F) x0 x1 x2 x3)
def kst_main_cst_10 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x00000000#32)
def kst_main_cst_11 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x427C0000#32)
def kst_main_call1_v0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  ((id) : (⟨S_, .f32⟩ : BufTy).Contents (Elt F) → (⟨S_, .f32⟩ : BufTy).Contents (Elt F)) (kst_main_cst_10 (F := F) x0 x1 x2 x3)
def kst_main_call1_v1 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  (((broadcastInDim S1048576 ![] bcast_S_S1048576)) : (⟨S_, .f32⟩ : BufTy).Contents (Elt F) → (⟨S1048576, .f32⟩ : BufTy).Contents (Elt F)) (kst_main_call1_v0 (F := F) x0 x1 x2 x3)
def kst_main_call1_v2 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((maximumf) : (⟨S1048576, .f32⟩ : BufTy).Contents (Elt F) → (⟨S1048576, .f32⟩ : BufTy).Contents (Elt F) → (⟨S1048576, .f32⟩ : BufTy).Contents (Elt F)) (kst_main_call1_v1 (F := F) x0 x1 x2 x3) (kst_main_v27 (F := F) x0 x1 x2 x3)
def kst_main_call1_v3 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  ((id) : (⟨S_, .f32⟩ : BufTy).Contents (Elt F) → (⟨S_, .f32⟩ : BufTy).Contents (Elt F)) (kst_main_cst_11 (F := F) x0 x1 x2 x3)
def kst_main_call1_v4 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  (((broadcastInDim S1048576 ![] bcast_S_S1048576)) : (⟨S_, .f32⟩ : BufTy).Contents (Elt F) → (⟨S1048576, .f32⟩ : BufTy).Contents (Elt F)) (kst_main_call1_v3 (F := F) x0 x1 x2 x3)
def kst_main_v28 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((minimumf) : (⟨S1048576, .f32⟩ : BufTy).Contents (Elt F) → (⟨S1048576, .f32⟩ : BufTy).Contents (Elt F) → (⟨S1048576, .f32⟩ : BufTy).Contents (Elt F)) (kst_main_call1_v4 (F := F) x0 x1 x2 x3) (kst_main_call1_v2 (F := F) x0 x1 x2 x3)
def kst_main_v29 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((Host.floor) : (⟨S1048576, .f32⟩ : BufTy).Contents (Elt F) → (⟨S1048576, .f32⟩ : BufTy).Contents (Elt F)) (kst_main_v24 (F := F) x0 x1 x2 x3)
def kst_main_cst_12 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x00000000#32)
def kst_main_cst_13 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x427C0000#32)
def kst_main_call2_v0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  ((id) : (⟨S_, .f32⟩ : BufTy).Contents (Elt F) → (⟨S_, .f32⟩ : BufTy).Contents (Elt F)) (kst_main_cst_12 (F := F) x0 x1 x2 x3)
def kst_main_call2_v1 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  (((broadcastInDim S1048576 ![] bcast_S_S1048576)) : (⟨S_, .f32⟩ : BufTy).Contents (Elt F) → (⟨S1048576, .f32⟩ : BufTy).Contents (Elt F)) (kst_main_call2_v0 (F := F) x0 x1 x2 x3)
def kst_main_call2_v2 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((maximumf) : (⟨S1048576, .f32⟩ : BufTy).Contents (Elt F) → (⟨S1048576, .f32⟩ : BufTy).Contents (Elt F) → (⟨S1048576, .f32⟩ : BufTy).Contents (Elt F)) (kst_main_call2_v1 (F := F) x0 x1 x2 x3) (kst_main_v29 (F := F) x0 x1 x2 x3)
def kst_main_call2_v3 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  ((id) : (⟨S_, .f32⟩ : BufTy).Contents (Elt F) → (⟨S_, .f32⟩ : BufTy).Contents (Elt F)) (kst_main_cst_13 (F := F) x0 x1 x2 x3)
def kst_main_call2_v4 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  (((broadcastInDim S1048576 ![] bcast_S_S1048576)) : (⟨S_, .f32⟩ : BufTy).Contents (Elt F) → (⟨S1048576, .f32⟩ : BufTy).Contents (Elt F)) (kst_main_call2_v3 (F := F) x0 x1 x2 x3)
def kst_main_v30 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((minimumf) : (⟨S1048576, .f32⟩ : BufTy).Contents (Elt F) → (⟨S1048576, .f32⟩ : BufTy).Contents (Elt F) → (⟨S1048576, .f32⟩ : BufTy).Contents (Elt F)) (kst_main_call2_v4 (F := F) x0 x1 x2 x3) (kst_main_call2_v2 (F := F) x0 x1 x2 x3)
def kst_main_v31 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((subf) : (⟨S1048576, .f32⟩ : BufTy).Contents (Elt F) → (⟨S1048576, .f32⟩ : BufTy).Contents (Elt F) → (⟨S1048576, .f32⟩ : BufTy).Contents (Elt F)) (kst_main_v12 (F := F) x0 x1 x2 x3) (kst_main_v26 (F := F) x0 x1 x2 x3)
def kst_main_cst_14 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x00000000#32)
def kst_main_cst_15 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x3F800000#32)
def kst_main_call3_v0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  ((id) : (⟨S_, .f32⟩ : BufTy).Contents (Elt F) → (⟨S_, .f32⟩ : BufTy).Contents (Elt F)) (kst_main_cst_14 (F := F) x0 x1 x2 x3)
def kst_main_call3_v1 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  (((broadcastInDim S1048576 ![] bcast_S_S1048576)) : (⟨S_, .f32⟩ : BufTy).Contents (Elt F) → (⟨S1048576, .f32⟩ : BufTy).Contents (Elt F)) (kst_main_call3_v0 (F := F) x0 x1 x2 x3)
def kst_main_call3_v2 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((maximumf) : (⟨S1048576, .f32⟩ : BufTy).Contents (Elt F) → (⟨S1048576, .f32⟩ : BufTy).Contents (Elt F) → (⟨S1048576, .f32⟩ : BufTy).Contents (Elt F)) (kst_main_call3_v1 (F := F) x0 x1 x2 x3) (kst_main_v31 (F := F) x0 x1 x2 x3)
def kst_main_call3_v3 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  ((id) : (⟨S_, .f32⟩ : BufTy).Contents (Elt F) → (⟨S_, .f32⟩ : BufTy).Contents (Elt F)) (kst_main_cst_15 (F := F) x0 x1 x2 x3)
def kst_main_call3_v4 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  (((broadcastInDim S1048576 ![] bcast_S_S1048576)) : (⟨S_, .f32⟩ : BufTy).Contents (Elt F) → (⟨S1048576, .f32⟩ : BufTy).Contents (Elt F)) (kst_main_call3_v3 (F := F) x0 x1 x2 x3)
def kst_main_v32 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((minimumf) : (⟨S1048576, .f32⟩ : BufTy).Contents (Elt F) → (⟨S1048576, .f32⟩ : BufTy).Contents (Elt F) → (⟨S1048576, .f32⟩ : BufTy).Contents (Elt F)) (kst_main_call3_v4 (F := F) x0 x1 x2 x3) (kst_main_call3_v2 (F := F) x0 x1 x2 x3)
def kst_main_v33 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((mulf) : (⟨S1048576, .f32⟩ : BufTy).Contents (Elt F) → (⟨S1048576, .f32⟩ : BufTy).Contents (Elt F) → (⟨S1048576, .f32⟩ : BufTy).Contents (Elt F)) (kst_main_v32 (F := F) x0 x1 x2 x3) (kst_main_v32 (F := F) x0 x1 x2 x3)
def kst_main_cst_16 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x40000000#32)
def kst_main_v34 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((broadcastInDim S1048576 ![] bcast_S_S1048576) : (⟨S_, .f32⟩ : BufTy).Contents (Elt F) → (⟨S1048576, .f32⟩ : BufTy).Contents (Elt F)) (kst_main_cst_16 (F := F) x0 x1 x2 x3)
def kst_main_v35 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((mulf) : (⟨S1048576, .f32⟩ : BufTy).Contents (Elt F) → (⟨S1048576, .f32⟩ : BufTy).Contents (Elt F) → (⟨S1048576, .f32⟩ : BufTy).Contents (Elt F)) (kst_main_v34 (F := F) x0 x1 x2 x3) (kst_main_v32 (F := F) x0 x1 x2 x3)
def kst_main_cst_17 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x40400000#32)
def kst_main_v36 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((broadcastInDim S1048576 ![] bcast_S_S1048576) : (⟨S_, .f32⟩ : BufTy).Contents (Elt F) → (⟨S1048576, .f32⟩ : BufTy).Contents (Elt F)) (kst_main_cst_17 (F := F) x0 x1 x2 x3)
def kst_main_v37 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((subf) : (⟨S1048576, .f32⟩ : BufTy).Contents (Elt F) → (⟨S1048576, .f32⟩ : BufTy).Contents (Elt F) → (⟨S1048576, .f32⟩ : BufTy).Contents (Elt F)) (kst_main_v36 (F := F) x0 x1 x2 x3) (kst_main_v35 (F := F) x0 x1 x2 x3)
def kst_main_v38 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((mulf) : (⟨S1048576, .f32⟩ : BufTy).Contents (Elt F) → (⟨S1048576, .f32⟩ : BufTy).Contents (Elt F) → (⟨S1048576, .f32⟩ : BufTy).Contents (Elt F)) (kst_main_v33 (F := F) x0 x1 x2 x3) (kst_main_v37 (F := F) x0 x1 x2 x3)
def kst_main_v39 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((fptosi 32) : (⟨S1048576, .f32⟩ : BufTy).Contents (Elt F) → (⟨S1048576, .i32⟩ : BufTy).Contents (Elt F)) (kst_main_v26 (F := F) x0 x1 x2 x3)
def kst_main_v40 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((fptosi 32) : (⟨S1048576, .f32⟩ : BufTy).Contents (Elt F) → (⟨S1048576, .i32⟩ : BufTy).Contents (Elt F)) (kst_main_v28 (F := F) x0 x1 x2 x3)
def kst_main_v41 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((fptosi 32) : (⟨S1048576, .f32⟩ : BufTy).Contents (Elt F) → (⟨S1048576, .i32⟩ : BufTy).Contents (Elt F)) (kst_main_v30 (F := F) x0 x1 x2 x3)
def kst_main_c (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 1#32)
def kst_main_v42 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c (F := F) x0 x1 x2 x3)
def kst_main_v43 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v39 (F := F) x0 x1 x2 x3) (kst_main_v42 (F := F) x0 x1 x2 x3)
def kst_main_c_18 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 63#32)
def kst_main_v44 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_18 (F := F) x0 x1 x2 x3)
def kst_main_v45 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((minsi) : (⟨S1048576, .i32⟩ : BufTy).Contents (Elt F) → (⟨S1048576, .i32⟩ : BufTy).Contents (Elt F) → (⟨S1048576, .i32⟩ : BufTy).Contents (Elt F)) (kst_main_v43 (F := F) x0 x1 x2 x3) (kst_main_v44 (F := F) x0 x1 x2 x3)
def kst_main_c_19 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 1#32)
def kst_main_v46 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_19 (F := F) x0 x1 x2 x3)
def kst_main_v47 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v40 (F := F) x0 x1 x2 x3) (kst_main_v46 (F := F) x0 x1 x2 x3)
def kst_main_c_20 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 63#32)
def kst_main_v48 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_20 (F := F) x0 x1 x2 x3)
def kst_main_v49 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((minsi) : (⟨S1048576, .i32⟩ : BufTy).Contents (Elt F) → (⟨S1048576, .i32⟩ : BufTy).Contents (Elt F) → (⟨S1048576, .i32⟩ : BufTy).Contents (Elt F)) (kst_main_v47 (F := F) x0 x1 x2 x3) (kst_main_v48 (F := F) x0 x1 x2 x3)
def kst_main_c_21 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 1#32)
def kst_main_v50 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_21 (F := F) x0 x1 x2 x3)
def kst_main_v51 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v41 (F := F) x0 x1 x2 x3) (kst_main_v50 (F := F) x0 x1 x2 x3)
def kst_main_c_22 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 63#32)
def kst_main_v52 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_22 (F := F) x0 x1 x2 x3)
def kst_main_v53 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((minsi) : (⟨S1048576, .i32⟩ : BufTy).Contents (Elt F) → (⟨S1048576, .i32⟩ : BufTy).Contents (Elt F) → (⟨S1048576, .i32⟩ : BufTy).Contents (Elt F)) (kst_main_v51 (F := F) x0 x1 x2 x3) (kst_main_v52 (F := F) x0 x1 x2 x3)
def kst_main_v54 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x64x64x64, .f32⟩ : BufTy).Contents (Elt F) :=
  shapeCast _ x1 shapeCasts_S1x4x64x64x64_S4x64x64x64
def kst_main_v55 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S64x64x64x4, .f32⟩ : BufTy).Contents (Elt F) :=
  (((transpose S64x64x64x4 [1, 2, 3, 0] · transposes_S4x64x64x64_S64x64x64x4_1_2_3_0)) : (⟨S4x64x64x64, .f32⟩ : BufTy).Contents (Elt F) → (⟨S64x64x64x4, .f32⟩ : BufTy).Contents (Elt F)) (kst_main_v54 (F := F) x0 x1 x2 x3)
def kst_main_v56 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S262144x4, .f32⟩ : BufTy).Contents (Elt F) :=
  shapeCast _ (kst_main_v55 (F := F) x0 x1 x2 x3) shapeCasts_S64x64x64x4_S262144x4
def kst_main_c_23 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 64#32)
def kst_main_v57 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_23 (F := F) x0 x1 x2 x3)
def kst_main_v58 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v41 (F := F) x0 x1 x2 x3) (kst_main_v57 (F := F) x0 x1 x2 x3)
def kst_main_v59 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v58 (F := F) x0 x1 x2 x3) (kst_main_v40 (F := F) x0 x1 x2 x3)
def kst_main_c_24 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 64#32)
def kst_main_v60 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_24 (F := F) x0 x1 x2 x3)
def kst_main_v61 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v59 (F := F) x0 x1 x2 x3) (kst_main_v60 (F := F) x0 x1 x2 x3)
def kst_main_v62 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v61 (F := F) x0 x1 x2 x3) (kst_main_v39 (F := F) x0 x1 x2 x3)
def kst_main_call4_v0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x1, .i32⟩ : BufTy).Contents (Elt F) :=
  (((broadcastInDim S1048576x1 ![0] bcast_S1048576_S1048576x1_0)) : (⟨S1048576, .i32⟩ : BufTy).Contents (Elt F) → (⟨S1048576x1, .i32⟩ : BufTy).Contents (Elt F)) (kst_main_v62 (F := F) x0 x1 x2 x3)
def kst_main_v63 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x4, .f32⟩ : BufTy).Contents (Elt F) :=
  (((fun x i => Host.gather gather_S262144x4_S1048576x1_S1048576x4_1_0_n_n_0_1_14 x i)) : (⟨S262144x4, .f32⟩ : BufTy).Contents (Elt F) → (⟨S1048576x1, .i32⟩ : BufTy).Contents (Elt F) → (⟨S1048576x4, .f32⟩ : BufTy).Contents (Elt F)) (kst_main_v56 (F := F) x0 x1 x2 x3) (kst_main_call4_v0 (F := F) x0 x1 x2 x3)
def kst_main_v64 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  (((transpose S4x1048576 [1, 0] · transposes_S1048576x4_S4x1048576_1_0)) : (⟨S1048576x4, .f32⟩ : BufTy).Contents (Elt F) → (⟨S4x1048576, .f32⟩ : BufTy).Contents (Elt F)) (kst_main_v63 (F := F) x0 x1 x2 x3)
def kst_main_c_25 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 64#32)
def kst_main_v65 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_25 (F := F) x0 x1 x2 x3)
def kst_main_v66 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v41 (F := F) x0 x1 x2 x3) (kst_main_v65 (F := F) x0 x1 x2 x3)
def kst_main_v67 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v66 (F := F) x0 x1 x2 x3) (kst_main_v40 (F := F) x0 x1 x2 x3)
def kst_main_c_26 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 64#32)
def kst_main_v68 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_26 (F := F) x0 x1 x2 x3)
def kst_main_v69 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v67 (F := F) x0 x1 x2 x3) (kst_main_v68 (F := F) x0 x1 x2 x3)
def kst_main_v70 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v69 (F := F) x0 x1 x2 x3) (kst_main_v45 (F := F) x0 x1 x2 x3)
def kst_main_call5_v0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x1, .i32⟩ : BufTy).Contents (Elt F) :=
  (((broadcastInDim S1048576x1 ![0] bcast_S1048576_S1048576x1_0)) : (⟨S1048576, .i32⟩ : BufTy).Contents (Elt F) → (⟨S1048576x1, .i32⟩ : BufTy).Contents (Elt F)) (kst_main_v70 (F := F) x0 x1 x2 x3)
def kst_main_v71 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x4, .f32⟩ : BufTy).Contents (Elt F) :=
  (((fun x i => Host.gather gather_S262144x4_S1048576x1_S1048576x4_1_0_n_n_0_1_14 x i)) : (⟨S262144x4, .f32⟩ : BufTy).Contents (Elt F) → (⟨S1048576x1, .i32⟩ : BufTy).Contents (Elt F) → (⟨S1048576x4, .f32⟩ : BufTy).Contents (Elt F)) (kst_main_v56 (F := F) x0 x1 x2 x3) (kst_main_call5_v0 (F := F) x0 x1 x2 x3)
def kst_main_v72 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  (((transpose S4x1048576 [1, 0] · transposes_S1048576x4_S4x1048576_1_0)) : (⟨S1048576x4, .f32⟩ : BufTy).Contents (Elt F) → (⟨S4x1048576, .f32⟩ : BufTy).Contents (Elt F)) (kst_main_v71 (F := F) x0 x1 x2 x3)
def kst_main_c_27 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 64#32)
def kst_main_v73 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_27 (F := F) x0 x1 x2 x3)
def kst_main_v74 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v41 (F := F) x0 x1 x2 x3) (kst_main_v73 (F := F) x0 x1 x2 x3)
def kst_main_v75 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v74 (F := F) x0 x1 x2 x3) (kst_main_v49 (F := F) x0 x1 x2 x3)
def kst_main_c_28 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 64#32)
def kst_main_v76 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_28 (F := F) x0 x1 x2 x3)
def kst_main_v77 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v75 (F := F) x0 x1 x2 x3) (kst_main_v76 (F := F) x0 x1 x2 x3)
def kst_main_v78 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v77 (F := F) x0 x1 x2 x3) (kst_main_v39 (F := F) x0 x1 x2 x3)
def kst_main_call6_v0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x1, .i32⟩ : BufTy).Contents (Elt F) :=
  (((broadcastInDim S1048576x1 ![0] bcast_S1048576_S1048576x1_0)) : (⟨S1048576, .i32⟩ : BufTy).Contents (Elt F) → (⟨S1048576x1, .i32⟩ : BufTy).Contents (Elt F)) (kst_main_v78 (F := F) x0 x1 x2 x3)
def kst_main_v79 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x4, .f32⟩ : BufTy).Contents (Elt F) :=
  (((fun x i => Host.gather gather_S262144x4_S1048576x1_S1048576x4_1_0_n_n_0_1_14 x i)) : (⟨S262144x4, .f32⟩ : BufTy).Contents (Elt F) → (⟨S1048576x1, .i32⟩ : BufTy).Contents (Elt F) → (⟨S1048576x4, .f32⟩ : BufTy).Contents (Elt F)) (kst_main_v56 (F := F) x0 x1 x2 x3) (kst_main_call6_v0 (F := F) x0 x1 x2 x3)
def kst_main_v80 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  (((transpose S4x1048576 [1, 0] · transposes_S1048576x4_S4x1048576_1_0)) : (⟨S1048576x4, .f32⟩ : BufTy).Contents (Elt F) → (⟨S4x1048576, .f32⟩ : BufTy).Contents (Elt F)) (kst_main_v79 (F := F) x0 x1 x2 x3)
def kst_main_c_29 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 64#32)
def kst_main_v81 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_29 (F := F) x0 x1 x2 x3)
def kst_main_v82 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v41 (F := F) x0 x1 x2 x3) (kst_main_v81 (F := F) x0 x1 x2 x3)
def kst_main_v83 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v82 (F := F) x0 x1 x2 x3) (kst_main_v49 (F := F) x0 x1 x2 x3)
def kst_main_c_30 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 64#32)
def kst_main_v84 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_30 (F := F) x0 x1 x2 x3)
def kst_main_v85 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v83 (F := F) x0 x1 x2 x3) (kst_main_v84 (F := F) x0 x1 x2 x3)
def kst_main_v86 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v85 (F := F) x0 x1 x2 x3) (kst_main_v45 (F := F) x0 x1 x2 x3)
def kst_main_call7_v0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x1, .i32⟩ : BufTy).Contents (Elt F) :=
  (((broadcastInDim S1048576x1 ![0] bcast_S1048576_S1048576x1_0)) : (⟨S1048576, .i32⟩ : BufTy).Contents (Elt F) → (⟨S1048576x1, .i32⟩ : BufTy).Contents (Elt F)) (kst_main_v86 (F := F) x0 x1 x2 x3)
def kst_main_v87 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x4, .f32⟩ : BufTy).Contents (Elt F) :=
  (((fun x i => Host.gather gather_S262144x4_S1048576x1_S1048576x4_1_0_n_n_0_1_14 x i)) : (⟨S262144x4, .f32⟩ : BufTy).Contents (Elt F) → (⟨S1048576x1, .i32⟩ : BufTy).Contents (Elt F) → (⟨S1048576x4, .f32⟩ : BufTy).Contents (Elt F)) (kst_main_v56 (F := F) x0 x1 x2 x3) (kst_main_call7_v0 (F := F) x0 x1 x2 x3)
def kst_main_v88 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  (((transpose S4x1048576 [1, 0] · transposes_S1048576x4_S4x1048576_1_0)) : (⟨S1048576x4, .f32⟩ : BufTy).Contents (Elt F) → (⟨S4x1048576, .f32⟩ : BufTy).Contents (Elt F)) (kst_main_v87 (F := F) x0 x1 x2 x3)
def kst_main_c_31 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 64#32)
def kst_main_v89 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_31 (F := F) x0 x1 x2 x3)
def kst_main_v90 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v53 (F := F) x0 x1 x2 x3) (kst_main_v89 (F := F) x0 x1 x2 x3)
def kst_main_v91 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v90 (F := F) x0 x1 x2 x3) (kst_main_v40 (F := F) x0 x1 x2 x3)
def kst_main_c_32 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 64#32)
def kst_main_v92 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_32 (F := F) x0 x1 x2 x3)
def kst_main_v93 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v91 (F := F) x0 x1 x2 x3) (kst_main_v92 (F := F) x0 x1 x2 x3)
def kst_main_v94 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v93 (F := F) x0 x1 x2 x3) (kst_main_v39 (F := F) x0 x1 x2 x3)
def kst_main_call8_v0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x1, .i32⟩ : BufTy).Contents (Elt F) :=
  (((broadcastInDim S1048576x1 ![0] bcast_S1048576_S1048576x1_0)) : (⟨S1048576, .i32⟩ : BufTy).Contents (Elt F) → (⟨S1048576x1, .i32⟩ : BufTy).Contents (Elt F)) (kst_main_v94 (F := F) x0 x1 x2 x3)
def kst_main_v95 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x4, .f32⟩ : BufTy).Contents (Elt F) :=
  (((fun x i => Host.gather gather_S262144x4_S1048576x1_S1048576x4_1_0_n_n_0_1_14 x i)) : (⟨S262144x4, .f32⟩ : BufTy).Contents (Elt F) → (⟨S1048576x1, .i32⟩ : BufTy).Contents (Elt F) → (⟨S1048576x4, .f32⟩ : BufTy).Contents (Elt F)) (kst_main_v56 (F := F) x0 x1 x2 x3) (kst_main_call8_v0 (F := F) x0 x1 x2 x3)
def kst_main_v96 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  (((transpose S4x1048576 [1, 0] · transposes_S1048576x4_S4x1048576_1_0)) : (⟨S1048576x4, .f32⟩ : BufTy).Contents (Elt F) → (⟨S4x1048576, .f32⟩ : BufTy).Contents (Elt F)) (kst_main_v95 (F := F) x0 x1 x2 x3)
def kst_main_c_33 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 64#32)
def kst_main_v97 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_33 (F := F) x0 x1 x2 x3)
def kst_main_v98 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v53 (F := F) x0 x1 x2 x3) (kst_main_v97 (F := F) x0 x1 x2 x3)
def kst_main_v99 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v98 (F := F) x0 x1 x2 x3) (kst_main_v40 (F := F) x0 x1 x2 x3)
def kst_main_c_34 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 64#32)
def kst_main_v100 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_34 (F := F) x0 x1 x2 x3)
def kst_main_v101 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v99 (F := F) x0 x1 x2 x3) (kst_main_v100 (F := F) x0 x1 x2 x3)
def kst_main_v102 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v101 (F := F) x0 x1 x2 x3) (kst_main_v45 (F := F) x0 x1 x2 x3)
def kst_main_call9_v0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x1, .i32⟩ : BufTy).Contents (Elt F) :=
  (((broadcastInDim S1048576x1 ![0] bcast_S1048576_S1048576x1_0)) : (⟨S1048576, .i32⟩ : BufTy).Contents (Elt F) → (⟨S1048576x1, .i32⟩ : BufTy).Contents (Elt F)) (kst_main_v102 (F := F) x0 x1 x2 x3)
def kst_main_v103 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x4, .f32⟩ : BufTy).Contents (Elt F) :=
  (((fun x i => Host.gather gather_S262144x4_S1048576x1_S1048576x4_1_0_n_n_0_1_14 x i)) : (⟨S262144x4, .f32⟩ : BufTy).Contents (Elt F) → (⟨S1048576x1, .i32⟩ : BufTy).Contents (Elt F) → (⟨S1048576x4, .f32⟩ : BufTy).Contents (Elt F)) (kst_main_v56 (F := F) x0 x1 x2 x3) (kst_main_call9_v0 (F := F) x0 x1 x2 x3)
def kst_main_v104 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  (((transpose S4x1048576 [1, 0] · transposes_S1048576x4_S4x1048576_1_0)) : (⟨S1048576x4, .f32⟩ : BufTy).Contents (Elt F) → (⟨S4x1048576, .f32⟩ : BufTy).Contents (Elt F)) (kst_main_v103 (F := F) x0 x1 x2 x3)
def kst_main_c_35 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 64#32)
def kst_main_v105 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_35 (F := F) x0 x1 x2 x3)
def kst_main_v106 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v53 (F := F) x0 x1 x2 x3) (kst_main_v105 (F := F) x0 x1 x2 x3)
def kst_main_v107 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v106 (F := F) x0 x1 x2 x3) (kst_main_v49 (F := F) x0 x1 x2 x3)
def kst_main_c_36 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 64#32)
def kst_main_v108 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_36 (F := F) x0 x1 x2 x3)
def kst_main_v109 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v107 (F := F) x0 x1 x2 x3) (kst_main_v108 (F := F) x0 x1 x2 x3)
def kst_main_v110 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v109 (F := F) x0 x1 x2 x3) (kst_main_v39 (F := F) x0 x1 x2 x3)
def kst_main_call10_v0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x1, .i32⟩ : BufTy).Contents (Elt F) :=
  (((broadcastInDim S1048576x1 ![0] bcast_S1048576_S1048576x1_0)) : (⟨S1048576, .i32⟩ : BufTy).Contents (Elt F) → (⟨S1048576x1, .i32⟩ : BufTy).Contents (Elt F)) (kst_main_v110 (F := F) x0 x1 x2 x3)
def kst_main_v111 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x4, .f32⟩ : BufTy).Contents (Elt F) :=
  (((fun x i => Host.gather gather_S262144x4_S1048576x1_S1048576x4_1_0_n_n_0_1_14 x i)) : (⟨S262144x4, .f32⟩ : BufTy).Contents (Elt F) → (⟨S1048576x1, .i32⟩ : BufTy).Contents (Elt F) → (⟨S1048576x4, .f32⟩ : BufTy).Contents (Elt F)) (kst_main_v56 (F := F) x0 x1 x2 x3) (kst_main_call10_v0 (F := F) x0 x1 x2 x3)
def kst_main_v112 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  (((transpose S4x1048576 [1, 0] · transposes_S1048576x4_S4x1048576_1_0)) : (⟨S1048576x4, .f32⟩ : BufTy).Contents (Elt F) → (⟨S4x1048576, .f32⟩ : BufTy).Contents (Elt F)) (kst_main_v111 (F := F) x0 x1 x2 x3)
def kst_main_c_37 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 64#32)
def kst_main_v113 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_37 (F := F) x0 x1 x2 x3)
def kst_main_v114 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v53 (F := F) x0 x1 x2 x3) (kst_main_v113 (F := F) x0 x1 x2 x3)
def kst_main_v115 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v114 (F := F) x0 x1 x2 x3) (kst_main_v49 (F := F) x0 x1 x2 x3)
def kst_main_c_38 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 64#32)
def kst_main_v116 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_38 (F := F) x0 x1 x2 x3)
def kst_main_v117 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v115 (F := F) x0 x1 x2 x3) (kst_main_v116 (F := F) x0 x1 x2 x3)
def kst_main_v118 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v117 (F := F) x0 x1 x2 x3) (kst_main_v45 (F := F) x0 x1 x2 x3)
def kst_main_call11_v0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x1, .i32⟩ : BufTy).Contents (Elt F) :=
  (((broadcastInDim S1048576x1 ![0] bcast_S1048576_S1048576x1_0)) : (⟨S1048576, .i32⟩ : BufTy).Contents (Elt F) → (⟨S1048576x1, .i32⟩ : BufTy).Contents (Elt F)) (kst_main_v118 (F := F) x0 x1 x2 x3)
def kst_main_v119 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x4, .f32⟩ : BufTy).Contents (Elt F) :=
  (((fun x i => Host.gather gather_S262144x4_S1048576x1_S1048576x4_1_0_n_n_0_1_14 x i)) : (⟨S262144x4, .f32⟩ : BufTy).Contents (Elt F) → (⟨S1048576x1, .i32⟩ : BufTy).Contents (Elt F) → (⟨S1048576x4, .f32⟩ : BufTy).Contents (Elt F)) (kst_main_v56 (F := F) x0 x1 x2 x3) (kst_main_call11_v0 (F := F) x0 x1 x2 x3)
def kst_main_v120 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  (((transpose S4x1048576 [1, 0] · transposes_S1048576x4_S4x1048576_1_0)) : (⟨S1048576x4, .f32⟩ : BufTy).Contents (Elt F) → (⟨S4x1048576, .f32⟩ : BufTy).Contents (Elt F)) (kst_main_v119 (F := F) x0 x1 x2 x3)
def kst_main_v121 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1x1048576, .f32⟩ : BufTy).Contents (Elt F) :=
  ((broadcastInDim S1x1048576 ![1] bcast_S1048576_S1x1048576_1) : (⟨S1048576, .f32⟩ : BufTy).Contents (Elt F) → (⟨S1x1048576, .f32⟩ : BufTy).Contents (Elt F)) (kst_main_v38 (F := F) x0 x1 x2 x3)
def kst_main_v122 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((subf) : (⟨S4x1048576, .f32⟩ : BufTy).Contents (Elt F) → (⟨S4x1048576, .f32⟩ : BufTy).Contents (Elt F) → (⟨S4x1048576, .f32⟩ : BufTy).Contents (Elt F)) (kst_main_v72 (F := F) x0 x1 x2 x3) (kst_main_v64 (F := F) x0 x1 x2 x3)
def kst_main_v123 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((broadcastInDim S4x1048576 ![0, 1] bcast_S1x1048576_S4x1048576_0_1) : (⟨S1x1048576, .f32⟩ : BufTy).Contents (Elt F) → (⟨S4x1048576, .f32⟩ : BufTy).Contents (Elt F)) (kst_main_v121 (F := F) x0 x1 x2 x3)
def kst_main_v124 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((mulf) : (⟨S4x1048576, .f32⟩ : BufTy).Contents (Elt F) → (⟨S4x1048576, .f32⟩ : BufTy).Contents (Elt F) → (⟨S4x1048576, .f32⟩ : BufTy).Contents (Elt F)) (kst_main_v122 (F := F) x0 x1 x2 x3) (kst_main_v123 (F := F) x0 x1 x2 x3)
def kst_main_v125 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((addf) : (⟨S4x1048576, .f32⟩ : BufTy).Contents (Elt F) → (⟨S4x1048576, .f32⟩ : BufTy).Contents (Elt F) → (⟨S4x1048576, .f32⟩ : BufTy).Contents (Elt F)) (kst_main_v64 (F := F) x0 x1 x2 x3) (kst_main_v124 (F := F) x0 x1 x2 x3)
def kst_main_v126 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((subf) : (⟨S4x1048576, .f32⟩ : BufTy).Contents (Elt F) → (⟨S4x1048576, .f32⟩ : BufTy).Contents (Elt F) → (⟨S4x1048576, .f32⟩ : BufTy).Contents (Elt F)) (kst_main_v88 (F := F) x0 x1 x2 x3) (kst_main_v80 (F := F) x0 x1 x2 x3)
def kst_main_v127 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((broadcastInDim S4x1048576 ![0, 1] bcast_S1x1048576_S4x1048576_0_1) : (⟨S1x1048576, .f32⟩ : BufTy).Contents (Elt F) → (⟨S4x1048576, .f32⟩ : BufTy).Contents (Elt F)) (kst_main_v121 (F := F) x0 x1 x2 x3)
def kst_main_v128 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((mulf) : (⟨S4x1048576, .f32⟩ : BufTy).Contents (Elt F) → (⟨S4x1048576, .f32⟩ : BufTy).Contents (Elt F) → (⟨S4x1048576, .f32⟩ : BufTy).Contents (Elt F)) (kst_main_v126 (F := F) x0 x1 x2 x3) (kst_main_v127 (F := F) x0 x1 x2 x3)
def kst_main_v129 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((addf) : (⟨S4x1048576, .f32⟩ : BufTy).Contents (Elt F) → (⟨S4x1048576, .f32⟩ : BufTy).Contents (Elt F) → (⟨S4x1048576, .f32⟩ : BufTy).Contents (Elt F)) (kst_main_v80 (F := F) x0 x1 x2 x3) (kst_main_v128 (F := F) x0 x1 x2 x3)
def kst_main_v130 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((subf) : (⟨S4x1048576, .f32⟩ : BufTy).Contents (Elt F) → (⟨S4x1048576, .f32⟩ : BufTy).Contents (Elt F) → (⟨S4x1048576, .f32⟩ : BufTy).Contents (Elt F)) (kst_main_v104 (F := F) x0 x1 x2 x3) (kst_main_v96 (F := F) x0 x1 x2 x3)
def kst_main_v131 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((broadcastInDim S4x1048576 ![0, 1] bcast_S1x1048576_S4x1048576_0_1) : (⟨S1x1048576, .f32⟩ : BufTy).Contents (Elt F) → (⟨S4x1048576, .f32⟩ : BufTy).Contents (Elt F)) (kst_main_v121 (F := F) x0 x1 x2 x3)
def kst_main_v132 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((mulf) : (⟨S4x1048576, .f32⟩ : BufTy).Contents (Elt F) → (⟨S4x1048576, .f32⟩ : BufTy).Contents (Elt F) → (⟨S4x1048576, .f32⟩ : BufTy).Contents (Elt F)) (kst_main_v130 (F := F) x0 x1 x2 x3) (kst_main_v131 (F := F) x0 x1 x2 x3)
def kst_main_v133 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((addf) : (⟨S4x1048576, .f32⟩ : BufTy).Contents (Elt F) → (⟨S4x1048576, .f32⟩ : BufTy).Contents (Elt F) → (⟨S4x1048576, .f32⟩ : BufTy).Contents (Elt F)) (kst_main_v96 (F := F) x0 x1 x2 x3) (kst_main_v132 (F := F) x0 x1 x2 x3)
def kst_main_v134 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((subf) : (⟨S4x1048576, .f32⟩ : BufTy).Contents (Elt F) → (⟨S4x1048576, .f32⟩ : BufTy).Contents (Elt F) → (⟨S4x1048576, .f32⟩ : BufTy).Contents (Elt F)) (kst_main_v120 (F := F) x0 x1 x2 x3) (kst_main_v112 (F := F) x0 x1 x2 x3)
def kst_main_v135 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((broadcastInDim S4x1048576 ![0, 1] bcast_S1x1048576_S4x1048576_0_1) : (⟨S1x1048576, .f32⟩ : BufTy).Contents (Elt F) → (⟨S4x1048576, .f32⟩ : BufTy).Contents (Elt F)) (kst_main_v121 (F := F) x0 x1 x2 x3)
def kst_main_v136 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((mulf) : (⟨S4x1048576, .f32⟩ : BufTy).Contents (Elt F) → (⟨S4x1048576, .f32⟩ : BufTy).Contents (Elt F) → (⟨S4x1048576, .f32⟩ : BufTy).Contents (Elt F)) (kst_main_v134 (F := F) x0 x1 x2 x3) (kst_main_v135 (F := F) x0 x1 x2 x3)
def kst_main_v137 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((addf) : (⟨S4x1048576, .f32⟩ : BufTy).Contents (Elt F) → (⟨S4x1048576, .f32⟩ : BufTy).Contents (Elt F) → (⟨S4x1048576, .f32⟩ : BufTy).Contents (Elt F)) (kst_main_v112 (F := F) x0 x1 x2 x3) (kst_main_v136 (F := F) x0 x1 x2 x3)
def kst_main_cst_39 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x3F800000#32)
def kst_main_v138 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((broadcastInDim S1048576 ![] bcast_S_S1048576) : (⟨S_, .f32⟩ : BufTy).Contents (Elt F) → (⟨S1048576, .f32⟩ : BufTy).Contents (Elt F)) (kst_main_cst_39 (F := F) x0 x1 x2 x3)
def kst_main_v139 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((addf) : (⟨S1048576, .f32⟩ : BufTy).Contents (Elt F) → (⟨S1048576, .f32⟩ : BufTy).Contents (Elt F) → (⟨S1048576, .f32⟩ : BufTy).Contents (Elt F)) (kst_main_v2 (F := F) x0 x1 x2 x3) (kst_main_v138 (F := F) x0 x1 x2 x3)
def kst_main_cst_40 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x3F000000#32)
def kst_main_v140 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((broadcastInDim S1048576 ![] bcast_S_S1048576) : (⟨S_, .f32⟩ : BufTy).Contents (Elt F) → (⟨S1048576, .f32⟩ : BufTy).Contents (Elt F)) (kst_main_cst_40 (F := F) x0 x1 x2 x3)
def kst_main_v141 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((mulf) : (⟨S1048576, .f32⟩ : BufTy).Contents (Elt F) → (⟨S1048576, .f32⟩ : BufTy).Contents (Elt F) → (⟨S1048576, .f32⟩ : BufTy).Contents (Elt F)) (kst_main_v139 (F := F) x0 x1 x2 x3) (kst_main_v140 (F := F) x0 x1 x2 x3)
def kst_main_cst_41 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x42FE0000#32)
def kst_main_v142 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((broadcastInDim S1048576 ![] bcast_S_S1048576) : (⟨S_, .f32⟩ : BufTy).Contents (Elt F) → (⟨S1048576, .f32⟩ : BufTy).Contents (Elt F)) (kst_main_cst_41 (F := F) x0 x1 x2 x3)
def kst_main_v143 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((mulf) : (⟨S1048576, .f32⟩ : BufTy).Contents (Elt F) → (⟨S1048576, .f32⟩ : BufTy).Contents (Elt F) → (⟨S1048576, .f32⟩ : BufTy).Contents (Elt F)) (kst_main_v141 (F := F) x0 x1 x2 x3) (kst_main_v142 (F := F) x0 x1 x2 x3)
def kst_main_cst_42 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x3F800000#32)
def kst_main_v144 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((broadcastInDim S1048576 ![] bcast_S_S1048576) : (⟨S_, .f32⟩ : BufTy).Contents (Elt F) → (⟨S1048576, .f32⟩ : BufTy).Contents (Elt F)) (kst_main_cst_42 (F := F) x0 x1 x2 x3)
def kst_main_v145 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((addf) : (⟨S1048576, .f32⟩ : BufTy).Contents (Elt F) → (⟨S1048576, .f32⟩ : BufTy).Contents (Elt F) → (⟨S1048576, .f32⟩ : BufTy).Contents (Elt F)) (kst_main_v4 (F := F) x0 x1 x2 x3) (kst_main_v144 (F := F) x0 x1 x2 x3)
def kst_main_cst_43 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x3F000000#32)
def kst_main_v146 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((broadcastInDim S1048576 ![] bcast_S_S1048576) : (⟨S_, .f32⟩ : BufTy).Contents (Elt F) → (⟨S1048576, .f32⟩ : BufTy).Contents (Elt F)) (kst_main_cst_43 (F := F) x0 x1 x2 x3)
def kst_main_v147 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((mulf) : (⟨S1048576, .f32⟩ : BufTy).Contents (Elt F) → (⟨S1048576, .f32⟩ : BufTy).Contents (Elt F) → (⟨S1048576, .f32⟩ : BufTy).Contents (Elt F)) (kst_main_v145 (F := F) x0 x1 x2 x3) (kst_main_v146 (F := F) x0 x1 x2 x3)
def kst_main_cst_44 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x42FE0000#32)
def kst_main_v148 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((broadcastInDim S1048576 ![] bcast_S_S1048576) : (⟨S_, .f32⟩ : BufTy).Contents (Elt F) → (⟨S1048576, .f32⟩ : BufTy).Contents (Elt F)) (kst_main_cst_44 (F := F) x0 x1 x2 x3)
def kst_main_v149 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((mulf) : (⟨S1048576, .f32⟩ : BufTy).Contents (Elt F) → (⟨S1048576, .f32⟩ : BufTy).Contents (Elt F) → (⟨S1048576, .f32⟩ : BufTy).Contents (Elt F)) (kst_main_v147 (F := F) x0 x1 x2 x3) (kst_main_v148 (F := F) x0 x1 x2 x3)
def kst_main_cst_45 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x3F800000#32)
def kst_main_v150 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((broadcastInDim S1048576 ![] bcast_S_S1048576) : (⟨S_, .f32⟩ : BufTy).Contents (Elt F) → (⟨S1048576, .f32⟩ : BufTy).Contents (Elt F)) (kst_main_cst_45 (F := F) x0 x1 x2 x3)
def kst_main_v151 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((addf) : (⟨S1048576, .f32⟩ : BufTy).Contents (Elt F) → (⟨S1048576, .f32⟩ : BufTy).Contents (Elt F) → (⟨S1048576, .f32⟩ : BufTy).Contents (Elt F)) (kst_main_v6 (F := F) x0 x1 x2 x3) (kst_main_v150 (F := F) x0 x1 x2 x3)
def kst_main_cst_46 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x3F000000#32)
def kst_main_v152 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((broadcastInDim S1048576 ![] bcast_S_S1048576) : (⟨S_, .f32⟩ : BufTy).Contents (Elt F) → (⟨S1048576, .f32⟩ : BufTy).Contents (Elt F)) (kst_main_cst_46 (F := F) x0 x1 x2 x3)
def kst_main_v153 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((mulf) : (⟨S1048576, .f32⟩ : BufTy).Contents (Elt F) → (⟨S1048576, .f32⟩ : BufTy).Contents (Elt F) → (⟨S1048576, .f32⟩ : BufTy).Contents (Elt F)) (kst_main_v151 (F := F) x0 x1 x2 x3) (kst_main_v152 (F := F) x0 x1 x2 x3)
def kst_main_cst_47 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x42FE0000#32)
def kst_main_v154 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((broadcastInDim S1048576 ![] bcast_S_S1048576) : (⟨S_, .f32⟩ : BufTy).Contents (Elt F) → (⟨S1048576, .f32⟩ : BufTy).Contents (Elt F)) (kst_main_cst_47 (F := F) x0 x1 x2 x3)
def kst_main_v155 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((mulf) : (⟨S1048576, .f32⟩ : BufTy).Contents (Elt F) → (⟨S1048576, .f32⟩ : BufTy).Contents (Elt F) → (⟨S1048576, .f32⟩ : BufTy).Contents (Elt F)) (kst_main_v153 (F := F) x0 x1 x2 x3) (kst_main_v154 (F := F) x0 x1 x2 x3)
def kst_main_v156 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((Host.floor) : (⟨S1048576, .f32⟩ : BufTy).Contents (Elt F) → (⟨S1048576, .f32⟩ : BufTy).Contents (Elt F)) (kst_main_v143 (F := F) x0 x1 x2 x3)
def kst_main_cst_48 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x00000000#32)
def kst_main_cst_49 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x42FE0000#32)
def kst_main_call12_v0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  ((id) : (⟨S_, .f32⟩ : BufTy).Contents (Elt F) → (⟨S_, .f32⟩ : BufTy).Contents (Elt F)) (kst_main_cst_48 (F := F) x0 x1 x2 x3)
def kst_main_call12_v1 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  (((broadcastInDim S1048576 ![] bcast_S_S1048576)) : (⟨S_, .f32⟩ : BufTy).Contents (Elt F) → (⟨S1048576, .f32⟩ : BufTy).Contents (Elt F)) (kst_main_call12_v0 (F := F) x0 x1 x2 x3)
def kst_main_call12_v2 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((maximumf) : (⟨S1048576, .f32⟩ : BufTy).Contents (Elt F) → (⟨S1048576, .f32⟩ : BufTy).Contents (Elt F) → (⟨S1048576, .f32⟩ : BufTy).Contents (Elt F)) (kst_main_call12_v1 (F := F) x0 x1 x2 x3) (kst_main_v156 (F := F) x0 x1 x2 x3)
def kst_main_call12_v3 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  ((id) : (⟨S_, .f32⟩ : BufTy).Contents (Elt F) → (⟨S_, .f32⟩ : BufTy).Contents (Elt F)) (kst_main_cst_49 (F := F) x0 x1 x2 x3)
def kst_main_call12_v4 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  (((broadcastInDim S1048576 ![] bcast_S_S1048576)) : (⟨S_, .f32⟩ : BufTy).Contents (Elt F) → (⟨S1048576, .f32⟩ : BufTy).Contents (Elt F)) (kst_main_call12_v3 (F := F) x0 x1 x2 x3)
def kst_main_v157 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((minimumf) : (⟨S1048576, .f32⟩ : BufTy).Contents (Elt F) → (⟨S1048576, .f32⟩ : BufTy).Contents (Elt F) → (⟨S1048576, .f32⟩ : BufTy).Contents (Elt F)) (kst_main_call12_v4 (F := F) x0 x1 x2 x3) (kst_main_call12_v2 (F := F) x0 x1 x2 x3)
def kst_main_v158 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((Host.floor) : (⟨S1048576, .f32⟩ : BufTy).Contents (Elt F) → (⟨S1048576, .f32⟩ : BufTy).Contents (Elt F)) (kst_main_v149 (F := F) x0 x1 x2 x3)
def kst_main_cst_50 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x00000000#32)
def kst_main_cst_51 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x42FE0000#32)
def kst_main_call13_v0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  ((id) : (⟨S_, .f32⟩ : BufTy).Contents (Elt F) → (⟨S_, .f32⟩ : BufTy).Contents (Elt F)) (kst_main_cst_50 (F := F) x0 x1 x2 x3)
def kst_main_call13_v1 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  (((broadcastInDim S1048576 ![] bcast_S_S1048576)) : (⟨S_, .f32⟩ : BufTy).Contents (Elt F) → (⟨S1048576, .f32⟩ : BufTy).Contents (Elt F)) (kst_main_call13_v0 (F := F) x0 x1 x2 x3)
def kst_main_call13_v2 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((maximumf) : (⟨S1048576, .f32⟩ : BufTy).Contents (Elt F) → (⟨S1048576, .f32⟩ : BufTy).Contents (Elt F) → (⟨S1048576, .f32⟩ : BufTy).Contents (Elt F)) (kst_main_call13_v1 (F := F) x0 x1 x2 x3) (kst_main_v158 (F := F) x0 x1 x2 x3)
def kst_main_call13_v3 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  ((id) : (⟨S_, .f32⟩ : BufTy).Contents (Elt F) → (⟨S_, .f32⟩ : BufTy).Contents (Elt F)) (kst_main_cst_51 (F := F) x0 x1 x2 x3)
def kst_main_call13_v4 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  (((broadcastInDim S1048576 ![] bcast_S_S1048576)) : (⟨S_, .f32⟩ : BufTy).Contents (Elt F) → (⟨S1048576, .f32⟩ : BufTy).Contents (Elt F)) (kst_main_call13_v3 (F := F) x0 x1 x2 x3)
def kst_main_v159 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((minimumf) : (⟨S1048576, .f32⟩ : BufTy).Contents (Elt F) → (⟨S1048576, .f32⟩ : BufTy).Contents (Elt F) → (⟨S1048576, .f32⟩ : BufTy).Contents (Elt F)) (kst_main_call13_v4 (F := F) x0 x1 x2 x3) (kst_main_call13_v2 (F := F) x0 x1 x2 x3)
def kst_main_v160 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((Host.floor) : (⟨S1048576, .f32⟩ : BufTy).Contents (Elt F) → (⟨S1048576, .f32⟩ : BufTy).Contents (Elt F)) (kst_main_v155 (F := F) x0 x1 x2 x3)
def kst_main_cst_52 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x00000000#32)
def kst_main_cst_53 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x42FE0000#32)
def kst_main_call14_v0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  ((id) : (⟨S_, .f32⟩ : BufTy).Contents (Elt F) → (⟨S_, .f32⟩ : BufTy).Contents (Elt F)) (kst_main_cst_52 (F := F) x0 x1 x2 x3)
def kst_main_call14_v1 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  (((broadcastInDim S1048576 ![] bcast_S_S1048576)) : (⟨S_, .f32⟩ : BufTy).Contents (Elt F) → (⟨S1048576, .f32⟩ : BufTy).Contents (Elt F)) (kst_main_call14_v0 (F := F) x0 x1 x2 x3)
def kst_main_call14_v2 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((maximumf) : (⟨S1048576, .f32⟩ : BufTy).Contents (Elt F) → (⟨S1048576, .f32⟩ : BufTy).Contents (Elt F) → (⟨S1048576, .f32⟩ : BufTy).Contents (Elt F)) (kst_main_call14_v1 (F := F) x0 x1 x2 x3) (kst_main_v160 (F := F) x0 x1 x2 x3)
def kst_main_call14_v3 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  ((id) : (⟨S_, .f32⟩ : BufTy).Contents (Elt F) → (⟨S_, .f32⟩ : BufTy).Contents (Elt F)) (kst_main_cst_53 (F := F) x0 x1 x2 x3)
def kst_main_call14_v4 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  (((broadcastInDim S1048576 ![] bcast_S_S1048576)) : (⟨S_, .f32⟩ : BufTy).Contents (Elt F) → (⟨S1048576, .f32⟩ : BufTy).Contents (Elt F)) (kst_main_call14_v3 (F := F) x0 x1 x2 x3)
def kst_main_v161 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((minimumf) : (⟨S1048576, .f32⟩ : BufTy).Contents (Elt F) → (⟨S1048576, .f32⟩ : BufTy).Contents (Elt F) → (⟨S1048576, .f32⟩ : BufTy).Contents (Elt F)) (kst_main_call14_v4 (F := F) x0 x1 x2 x3) (kst_main_call14_v2 (F := F) x0 x1 x2 x3)
def kst_main_v162 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((subf) : (⟨S1048576, .f32⟩ : BufTy).Contents (Elt F) → (⟨S1048576, .f32⟩ : BufTy).Contents (Elt F) → (⟨S1048576, .f32⟩ : BufTy).Contents (Elt F)) (kst_main_v143 (F := F) x0 x1 x2 x3) (kst_main_v157 (F := F) x0 x1 x2 x3)
def kst_main_cst_54 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x00000000#32)
def kst_main_cst_55 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x3F800000#32)
def kst_main_call15_v0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  ((id) : (⟨S_, .f32⟩ : BufTy).Contents (Elt F) → (⟨S_, .f32⟩ : BufTy).Contents (Elt F)) (kst_main_cst_54 (F := F) x0 x1 x2 x3)
def kst_main_call15_v1 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  (((broadcastInDim S1048576 ![] bcast_S_S1048576)) : (⟨S_, .f32⟩ : BufTy).Contents (Elt F) → (⟨S1048576, .f32⟩ : BufTy).Contents (Elt F)) (kst_main_call15_v0 (F := F) x0 x1 x2 x3)
def kst_main_call15_v2 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((maximumf) : (⟨S1048576, .f32⟩ : BufTy).Contents (Elt F) → (⟨S1048576, .f32⟩ : BufTy).Contents (Elt F) → (⟨S1048576, .f32⟩ : BufTy).Contents (Elt F)) (kst_main_call15_v1 (F := F) x0 x1 x2 x3) (kst_main_v162 (F := F) x0 x1 x2 x3)
def kst_main_call15_v3 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  ((id) : (⟨S_, .f32⟩ : BufTy).Contents (Elt F) → (⟨S_, .f32⟩ : BufTy).Contents (Elt F)) (kst_main_cst_55 (F := F) x0 x1 x2 x3)
def kst_main_call15_v4 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  (((broadcastInDim S1048576 ![] bcast_S_S1048576)) : (⟨S_, .f32⟩ : BufTy).Contents (Elt F) → (⟨S1048576, .f32⟩ : BufTy).Contents (Elt F)) (kst_main_call15_v3 (F := F) x0 x1 x2 x3)
def kst_main_v163 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((minimumf) : (⟨S1048576, .f32⟩ : BufTy).Contents (Elt F) → (⟨S1048576, .f32⟩ : BufTy).Contents (Elt F) → (⟨S1048576, .f32⟩ : BufTy).Contents (Elt F)) (kst_main_call15_v4 (F := F) x0 x1 x2 x3) (kst_main_call15_v2 (F := F) x0 x1 x2 x3)
def kst_main_v164 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((mulf) : (⟨S1048576, .f32⟩ : BufTy).Contents (Elt F) → (⟨S1048576, .f32⟩ : BufTy).Contents (Elt F) → (⟨S1048576, .f32⟩ : BufTy).Contents (Elt F)) (kst_main_v163 (F := F) x0 x1 x2 x3) (kst_main_v163 (F := F) x0 x1 x2 x3)
def kst_main_cst_56 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x40000000#32)
def kst_main_v165 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((broadcastInDim S1048576 ![] bcast_S_S1048576) : (⟨S_, .f32⟩ : BufTy).Contents (Elt F) → (⟨S1048576, .f32⟩ : BufTy).Contents (Elt F)) (kst_main_cst_56 (F := F) x0 x1 x2 x3)
def kst_main_v166 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((mulf) : (⟨S1048576, .f32⟩ : BufTy).Contents (Elt F) → (⟨S1048576, .f32⟩ : BufTy).Contents (Elt F) → (⟨S1048576, .f32⟩ : BufTy).Contents (Elt F)) (kst_main_v165 (F := F) x0 x1 x2 x3) (kst_main_v163 (F := F) x0 x1 x2 x3)
def kst_main_cst_57 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x40400000#32)
def kst_main_v167 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((broadcastInDim S1048576 ![] bcast_S_S1048576) : (⟨S_, .f32⟩ : BufTy).Contents (Elt F) → (⟨S1048576, .f32⟩ : BufTy).Contents (Elt F)) (kst_main_cst_57 (F := F) x0 x1 x2 x3)
def kst_main_v168 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((subf) : (⟨S1048576, .f32⟩ : BufTy).Contents (Elt F) → (⟨S1048576, .f32⟩ : BufTy).Contents (Elt F) → (⟨S1048576, .f32⟩ : BufTy).Contents (Elt F)) (kst_main_v167 (F := F) x0 x1 x2 x3) (kst_main_v166 (F := F) x0 x1 x2 x3)
def kst_main_v169 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((mulf) : (⟨S1048576, .f32⟩ : BufTy).Contents (Elt F) → (⟨S1048576, .f32⟩ : BufTy).Contents (Elt F) → (⟨S1048576, .f32⟩ : BufTy).Contents (Elt F)) (kst_main_v164 (F := F) x0 x1 x2 x3) (kst_main_v168 (F := F) x0 x1 x2 x3)
def kst_main_v170 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((fptosi 32) : (⟨S1048576, .f32⟩ : BufTy).Contents (Elt F) → (⟨S1048576, .i32⟩ : BufTy).Contents (Elt F)) (kst_main_v157 (F := F) x0 x1 x2 x3)
def kst_main_v171 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((fptosi 32) : (⟨S1048576, .f32⟩ : BufTy).Contents (Elt F) → (⟨S1048576, .i32⟩ : BufTy).Contents (Elt F)) (kst_main_v159 (F := F) x0 x1 x2 x3)
def kst_main_v172 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((fptosi 32) : (⟨S1048576, .f32⟩ : BufTy).Contents (Elt F) → (⟨S1048576, .i32⟩ : BufTy).Contents (Elt F)) (kst_main_v161 (F := F) x0 x1 x2 x3)
def kst_main_c_58 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 1#32)
def kst_main_v173 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_58 (F := F) x0 x1 x2 x3)
def kst_main_v174 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v170 (F := F) x0 x1 x2 x3) (kst_main_v173 (F := F) x0 x1 x2 x3)
def kst_main_c_59 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 127#32)
def kst_main_v175 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_59 (F := F) x0 x1 x2 x3)
def kst_main_v176 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((minsi) : (⟨S1048576, .i32⟩ : BufTy).Contents (Elt F) → (⟨S1048576, .i32⟩ : BufTy).Contents (Elt F) → (⟨S1048576, .i32⟩ : BufTy).Contents (Elt F)) (kst_main_v174 (F := F) x0 x1 x2 x3) (kst_main_v175 (F := F) x0 x1 x2 x3)
def kst_main_c_60 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 1#32)
def kst_main_v177 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_60 (F := F) x0 x1 x2 x3)
def kst_main_v178 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v171 (F := F) x0 x1 x2 x3) (kst_main_v177 (F := F) x0 x1 x2 x3)
def kst_main_c_61 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 127#32)
def kst_main_v179 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_61 (F := F) x0 x1 x2 x3)
def kst_main_v180 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((minsi) : (⟨S1048576, .i32⟩ : BufTy).Contents (Elt F) → (⟨S1048576, .i32⟩ : BufTy).Contents (Elt F) → (⟨S1048576, .i32⟩ : BufTy).Contents (Elt F)) (kst_main_v178 (F := F) x0 x1 x2 x3) (kst_main_v179 (F := F) x0 x1 x2 x3)
def kst_main_c_62 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 1#32)
def kst_main_v181 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_62 (F := F) x0 x1 x2 x3)
def kst_main_v182 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v172 (F := F) x0 x1 x2 x3) (kst_main_v181 (F := F) x0 x1 x2 x3)
def kst_main_c_63 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 127#32)
def kst_main_v183 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_63 (F := F) x0 x1 x2 x3)
def kst_main_v184 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((minsi) : (⟨S1048576, .i32⟩ : BufTy).Contents (Elt F) → (⟨S1048576, .i32⟩ : BufTy).Contents (Elt F) → (⟨S1048576, .i32⟩ : BufTy).Contents (Elt F)) (kst_main_v182 (F := F) x0 x1 x2 x3) (kst_main_v183 (F := F) x0 x1 x2 x3)
def kst_main_v185 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x128x128x128, .f32⟩ : BufTy).Contents (Elt F) :=
  shapeCast _ x2 shapeCasts_S1x4x128x128x128_S4x128x128x128
def kst_main_v186 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S128x128x128x4, .f32⟩ : BufTy).Contents (Elt F) :=
  (((transpose S128x128x128x4 [1, 2, 3, 0] · transposes_S4x128x128x128_S128x128x128x4_1_2_3_0)) : (⟨S4x128x128x128, .f32⟩ : BufTy).Contents (Elt F) → (⟨S128x128x128x4, .f32⟩ : BufTy).Contents (Elt F)) (kst_main_v185 (F := F) x0 x1 x2 x3)
def kst_main_v187 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S2097152x4, .f32⟩ : BufTy).Contents (Elt F) :=
  shapeCast _ (kst_main_v186 (F := F) x0 x1 x2 x3) shapeCasts_S128x128x128x4_S2097152x4
def kst_main_c_64 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 128#32)
def kst_main_v188 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_64 (F := F) x0 x1 x2 x3)
def kst_main_v189 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v172 (F := F) x0 x1 x2 x3) (kst_main_v188 (F := F) x0 x1 x2 x3)
def kst_main_v190 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v189 (F := F) x0 x1 x2 x3) (kst_main_v171 (F := F) x0 x1 x2 x3)
def kst_main_c_65 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 128#32)
def kst_main_v191 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_65 (F := F) x0 x1 x2 x3)
def kst_main_v192 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v190 (F := F) x0 x1 x2 x3) (kst_main_v191 (F := F) x0 x1 x2 x3)
def kst_main_v193 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v192 (F := F) x0 x1 x2 x3) (kst_main_v170 (F := F) x0 x1 x2 x3)
def kst_main_call16_v0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x1, .i32⟩ : BufTy).Contents (Elt F) :=
  (((broadcastInDim S1048576x1 ![0] bcast_S1048576_S1048576x1_0)) : (⟨S1048576, .i32⟩ : BufTy).Contents (Elt F) → (⟨S1048576x1, .i32⟩ : BufTy).Contents (Elt F)) (kst_main_v193 (F := F) x0 x1 x2 x3)
def kst_main_v194 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x4, .f32⟩ : BufTy).Contents (Elt F) :=
  (((fun x i => Host.gather gather_S2097152x4_S1048576x1_S1048576x4_1_0_n_n_0_1_14 x i)) : (⟨S2097152x4, .f32⟩ : BufTy).Contents (Elt F) → (⟨S1048576x1, .i32⟩ : BufTy).Contents (Elt F) → (⟨S1048576x4, .f32⟩ : BufTy).Contents (Elt F)) (kst_main_v187 (F := F) x0 x1 x2 x3) (kst_main_call16_v0 (F := F) x0 x1 x2 x3)
def kst_main_v195 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  (((transpose S4x1048576 [1, 0] · transposes_S1048576x4_S4x1048576_1_0)) : (⟨S1048576x4, .f32⟩ : BufTy).Contents (Elt F) → (⟨S4x1048576, .f32⟩ : BufTy).Contents (Elt F)) (kst_main_v194 (F := F) x0 x1 x2 x3)
def kst_main_c_66 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 128#32)
def kst_main_v196 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_66 (F := F) x0 x1 x2 x3)
def kst_main_v197 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v172 (F := F) x0 x1 x2 x3) (kst_main_v196 (F := F) x0 x1 x2 x3)
def kst_main_v198 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v197 (F := F) x0 x1 x2 x3) (kst_main_v171 (F := F) x0 x1 x2 x3)
def kst_main_c_67 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 128#32)
def kst_main_v199 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_67 (F := F) x0 x1 x2 x3)
def kst_main_v200 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v198 (F := F) x0 x1 x2 x3) (kst_main_v199 (F := F) x0 x1 x2 x3)
def kst_main_v201 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v200 (F := F) x0 x1 x2 x3) (kst_main_v176 (F := F) x0 x1 x2 x3)
def kst_main_call17_v0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x1, .i32⟩ : BufTy).Contents (Elt F) :=
  (((broadcastInDim S1048576x1 ![0] bcast_S1048576_S1048576x1_0)) : (⟨S1048576, .i32⟩ : BufTy).Contents (Elt F) → (⟨S1048576x1, .i32⟩ : BufTy).Contents (Elt F)) (kst_main_v201 (F := F) x0 x1 x2 x3)
def kst_main_v202 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x4, .f32⟩ : BufTy).Contents (Elt F) :=
  (((fun x i => Host.gather gather_S2097152x4_S1048576x1_S1048576x4_1_0_n_n_0_1_14 x i)) : (⟨S2097152x4, .f32⟩ : BufTy).Contents (Elt F) → (⟨S1048576x1, .i32⟩ : BufTy).Contents (Elt F) → (⟨S1048576x4, .f32⟩ : BufTy).Contents (Elt F)) (kst_main_v187 (F := F) x0 x1 x2 x3) (kst_main_call17_v0 (F := F) x0 x1 x2 x3)
def kst_main_v203 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  (((transpose S4x1048576 [1, 0] · transposes_S1048576x4_S4x1048576_1_0)) : (⟨S1048576x4, .f32⟩ : BufTy).Contents (Elt F) → (⟨S4x1048576, .f32⟩ : BufTy).Contents (Elt F)) (kst_main_v202 (F := F) x0 x1 x2 x3)
def kst_main_c_68 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 128#32)
def kst_main_v204 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_68 (F := F) x0 x1 x2 x3)
def kst_main_v205 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v172 (F := F) x0 x1 x2 x3) (kst_main_v204 (F := F) x0 x1 x2 x3)
def kst_main_v206 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v205 (F := F) x0 x1 x2 x3) (kst_main_v180 (F := F) x0 x1 x2 x3)
def kst_main_c_69 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 128#32)
def kst_main_v207 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_69 (F := F) x0 x1 x2 x3)
def kst_main_v208 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v206 (F := F) x0 x1 x2 x3) (kst_main_v207 (F := F) x0 x1 x2 x3)
def kst_main_v209 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v208 (F := F) x0 x1 x2 x3) (kst_main_v170 (F := F) x0 x1 x2 x3)
def kst_main_call18_v0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x1, .i32⟩ : BufTy).Contents (Elt F) :=
  (((broadcastInDim S1048576x1 ![0] bcast_S1048576_S1048576x1_0)) : (⟨S1048576, .i32⟩ : BufTy).Contents (Elt F) → (⟨S1048576x1, .i32⟩ : BufTy).Contents (Elt F)) (kst_main_v209 (F := F) x0 x1 x2 x3)
def kst_main_v210 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x4, .f32⟩ : BufTy).Contents (Elt F) :=
  (((fun x i => Host.gather gather_S2097152x4_S1048576x1_S1048576x4_1_0_n_n_0_1_14 x i)) : (⟨S2097152x4, .f32⟩ : BufTy).Contents (Elt F) → (⟨S1048576x1, .i32⟩ : BufTy).Contents (Elt F) → (⟨S1048576x4, .f32⟩ : BufTy).Contents (Elt F)) (kst_main_v187 (F := F) x0 x1 x2 x3) (kst_main_call18_v0 (F := F) x0 x1 x2 x3)
def kst_main_v211 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  (((transpose S4x1048576 [1, 0] · transposes_S1048576x4_S4x1048576_1_0)) : (⟨S1048576x4, .f32⟩ : BufTy).Contents (Elt F) → (⟨S4x1048576, .f32⟩ : BufTy).Contents (Elt F)) (kst_main_v210 (F := F) x0 x1 x2 x3)
def kst_main_c_70 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 128#32)
def kst_main_v212 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_70 (F := F) x0 x1 x2 x3)
def kst_main_v213 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v172 (F := F) x0 x1 x2 x3) (kst_main_v212 (F := F) x0 x1 x2 x3)
def kst_main_v214 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v213 (F := F) x0 x1 x2 x3) (kst_main_v180 (F := F) x0 x1 x2 x3)
def kst_main_c_71 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 128#32)
def kst_main_v215 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_71 (F := F) x0 x1 x2 x3)
def kst_main_v216 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v214 (F := F) x0 x1 x2 x3) (kst_main_v215 (F := F) x0 x1 x2 x3)
def kst_main_v217 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v216 (F := F) x0 x1 x2 x3) (kst_main_v176 (F := F) x0 x1 x2 x3)
def kst_main_call19_v0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x1, .i32⟩ : BufTy).Contents (Elt F) :=
  (((broadcastInDim S1048576x1 ![0] bcast_S1048576_S1048576x1_0)) : (⟨S1048576, .i32⟩ : BufTy).Contents (Elt F) → (⟨S1048576x1, .i32⟩ : BufTy).Contents (Elt F)) (kst_main_v217 (F := F) x0 x1 x2 x3)
def kst_main_v218 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x4, .f32⟩ : BufTy).Contents (Elt F) :=
  (((fun x i => Host.gather gather_S2097152x4_S1048576x1_S1048576x4_1_0_n_n_0_1_14 x i)) : (⟨S2097152x4, .f32⟩ : BufTy).Contents (Elt F) → (⟨S1048576x1, .i32⟩ : BufTy).Contents (Elt F) → (⟨S1048576x4, .f32⟩ : BufTy).Contents (Elt F)) (kst_main_v187 (F := F) x0 x1 x2 x3) (kst_main_call19_v0 (F := F) x0 x1 x2 x3)
def kst_main_v219 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  (((transpose S4x1048576 [1, 0] · transposes_S1048576x4_S4x1048576_1_0)) : (⟨S1048576x4, .f32⟩ : BufTy).Contents (Elt F) → (⟨S4x1048576, .f32⟩ : BufTy).Contents (Elt F)) (kst_main_v218 (F := F) x0 x1 x2 x3)
def kst_main_c_72 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 128#32)
def kst_main_v220 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_72 (F := F) x0 x1 x2 x3)
def kst_main_v221 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v184 (F := F) x0 x1 x2 x3) (kst_main_v220 (F := F) x0 x1 x2 x3)
def kst_main_v222 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v221 (F := F) x0 x1 x2 x3) (kst_main_v171 (F := F) x0 x1 x2 x3)
def kst_main_c_73 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 128#32)
def kst_main_v223 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_73 (F := F) x0 x1 x2 x3)
def kst_main_v224 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v222 (F := F) x0 x1 x2 x3) (kst_main_v223 (F := F) x0 x1 x2 x3)
def kst_main_v225 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v224 (F := F) x0 x1 x2 x3) (kst_main_v170 (F := F) x0 x1 x2 x3)
def kst_main_call20_v0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x1, .i32⟩ : BufTy).Contents (Elt F) :=
  (((broadcastInDim S1048576x1 ![0] bcast_S1048576_S1048576x1_0)) : (⟨S1048576, .i32⟩ : BufTy).Contents (Elt F) → (⟨S1048576x1, .i32⟩ : BufTy).Contents (Elt F)) (kst_main_v225 (F := F) x0 x1 x2 x3)
def kst_main_v226 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x4, .f32⟩ : BufTy).Contents (Elt F) :=
  (((fun x i => Host.gather gather_S2097152x4_S1048576x1_S1048576x4_1_0_n_n_0_1_14 x i)) : (⟨S2097152x4, .f32⟩ : BufTy).Contents (Elt F) → (⟨S1048576x1, .i32⟩ : BufTy).Contents (Elt F) → (⟨S1048576x4, .f32⟩ : BufTy).Contents (Elt F)) (kst_main_v187 (F := F) x0 x1 x2 x3) (kst_main_call20_v0 (F := F) x0 x1 x2 x3)
def kst_main_v227 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  (((transpose S4x1048576 [1, 0] · transposes_S1048576x4_S4x1048576_1_0)) : (⟨S1048576x4, .f32⟩ : BufTy).Contents (Elt F) → (⟨S4x1048576, .f32⟩ : BufTy).Contents (Elt F)) (kst_main_v226 (F := F) x0 x1 x2 x3)
def kst_main_c_74 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 128#32)
def kst_main_v228 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_74 (F := F) x0 x1 x2 x3)
def kst_main_v229 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v184 (F := F) x0 x1 x2 x3) (kst_main_v228 (F := F) x0 x1 x2 x3)
def kst_main_v230 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v229 (F := F) x0 x1 x2 x3) (kst_main_v171 (F := F) x0 x1 x2 x3)
def kst_main_c_75 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 128#32)
def kst_main_v231 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_75 (F := F) x0 x1 x2 x3)
def kst_main_v232 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v230 (F := F) x0 x1 x2 x3) (kst_main_v231 (F := F) x0 x1 x2 x3)
def kst_main_v233 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v232 (F := F) x0 x1 x2 x3) (kst_main_v176 (F := F) x0 x1 x2 x3)
def kst_main_call21_v0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x1, .i32⟩ : BufTy).Contents (Elt F) :=
  (((broadcastInDim S1048576x1 ![0] bcast_S1048576_S1048576x1_0)) : (⟨S1048576, .i32⟩ : BufTy).Contents (Elt F) → (⟨S1048576x1, .i32⟩ : BufTy).Contents (Elt F)) (kst_main_v233 (F := F) x0 x1 x2 x3)
def kst_main_v234 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x4, .f32⟩ : BufTy).Contents (Elt F) :=
  (((fun x i => Host.gather gather_S2097152x4_S1048576x1_S1048576x4_1_0_n_n_0_1_14 x i)) : (⟨S2097152x4, .f32⟩ : BufTy).Contents (Elt F) → (⟨S1048576x1, .i32⟩ : BufTy).Contents (Elt F) → (⟨S1048576x4, .f32⟩ : BufTy).Contents (Elt F)) (kst_main_v187 (F := F) x0 x1 x2 x3) (kst_main_call21_v0 (F := F) x0 x1 x2 x3)
def kst_main_v235 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  (((transpose S4x1048576 [1, 0] · transposes_S1048576x4_S4x1048576_1_0)) : (⟨S1048576x4, .f32⟩ : BufTy).Contents (Elt F) → (⟨S4x1048576, .f32⟩ : BufTy).Contents (Elt F)) (kst_main_v234 (F := F) x0 x1 x2 x3)
def kst_main_c_76 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 128#32)
def kst_main_v236 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_76 (F := F) x0 x1 x2 x3)
def kst_main_v237 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v184 (F := F) x0 x1 x2 x3) (kst_main_v236 (F := F) x0 x1 x2 x3)
def kst_main_v238 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v237 (F := F) x0 x1 x2 x3) (kst_main_v180 (F := F) x0 x1 x2 x3)
def kst_main_c_77 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 128#32)
def kst_main_v239 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_77 (F := F) x0 x1 x2 x3)
def kst_main_v240 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v238 (F := F) x0 x1 x2 x3) (kst_main_v239 (F := F) x0 x1 x2 x3)
def kst_main_v241 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v240 (F := F) x0 x1 x2 x3) (kst_main_v170 (F := F) x0 x1 x2 x3)
def kst_main_call22_v0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x1, .i32⟩ : BufTy).Contents (Elt F) :=
  (((broadcastInDim S1048576x1 ![0] bcast_S1048576_S1048576x1_0)) : (⟨S1048576, .i32⟩ : BufTy).Contents (Elt F) → (⟨S1048576x1, .i32⟩ : BufTy).Contents (Elt F)) (kst_main_v241 (F := F) x0 x1 x2 x3)
def kst_main_v242 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x4, .f32⟩ : BufTy).Contents (Elt F) :=
  (((fun x i => Host.gather gather_S2097152x4_S1048576x1_S1048576x4_1_0_n_n_0_1_14 x i)) : (⟨S2097152x4, .f32⟩ : BufTy).Contents (Elt F) → (⟨S1048576x1, .i32⟩ : BufTy).Contents (Elt F) → (⟨S1048576x4, .f32⟩ : BufTy).Contents (Elt F)) (kst_main_v187 (F := F) x0 x1 x2 x3) (kst_main_call22_v0 (F := F) x0 x1 x2 x3)
def kst_main_v243 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  (((transpose S4x1048576 [1, 0] · transposes_S1048576x4_S4x1048576_1_0)) : (⟨S1048576x4, .f32⟩ : BufTy).Contents (Elt F) → (⟨S4x1048576, .f32⟩ : BufTy).Contents (Elt F)) (kst_main_v242 (F := F) x0 x1 x2 x3)
def kst_main_c_78 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 128#32)
def kst_main_v244 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_78 (F := F) x0 x1 x2 x3)
def kst_main_v245 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v184 (F := F) x0 x1 x2 x3) (kst_main_v244 (F := F) x0 x1 x2 x3)
def kst_main_v246 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v245 (F := F) x0 x1 x2 x3) (kst_main_v180 (F := F) x0 x1 x2 x3)
def kst_main_c_79 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 128#32)
def kst_main_v247 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_79 (F := F) x0 x1 x2 x3)
def kst_main_v248 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v246 (F := F) x0 x1 x2 x3) (kst_main_v247 (F := F) x0 x1 x2 x3)
def kst_main_v249 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v248 (F := F) x0 x1 x2 x3) (kst_main_v176 (F := F) x0 x1 x2 x3)
def kst_main_call23_v0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x1, .i32⟩ : BufTy).Contents (Elt F) :=
  (((broadcastInDim S1048576x1 ![0] bcast_S1048576_S1048576x1_0)) : (⟨S1048576, .i32⟩ : BufTy).Contents (Elt F) → (⟨S1048576x1, .i32⟩ : BufTy).Contents (Elt F)) (kst_main_v249 (F := F) x0 x1 x2 x3)
def kst_main_v250 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x4, .f32⟩ : BufTy).Contents (Elt F) :=
  (((fun x i => Host.gather gather_S2097152x4_S1048576x1_S1048576x4_1_0_n_n_0_1_14 x i)) : (⟨S2097152x4, .f32⟩ : BufTy).Contents (Elt F) → (⟨S1048576x1, .i32⟩ : BufTy).Contents (Elt F) → (⟨S1048576x4, .f32⟩ : BufTy).Contents (Elt F)) (kst_main_v187 (F := F) x0 x1 x2 x3) (kst_main_call23_v0 (F := F) x0 x1 x2 x3)
def kst_main_v251 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  (((transpose S4x1048576 [1, 0] · transposes_S1048576x4_S4x1048576_1_0)) : (⟨S1048576x4, .f32⟩ : BufTy).Contents (Elt F) → (⟨S4x1048576, .f32⟩ : BufTy).Contents (Elt F)) (kst_main_v250 (F := F) x0 x1 x2 x3)
def kst_main_v252 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1x1048576, .f32⟩ : BufTy).Contents (Elt F) :=
  ((broadcastInDim S1x1048576 ![1] bcast_S1048576_S1x1048576_1) : (⟨S1048576, .f32⟩ : BufTy).Contents (Elt F) → (⟨S1x1048576, .f32⟩ : BufTy).Contents (Elt F)) (kst_main_v169 (F := F) x0 x1 x2 x3)
def kst_main_v253 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((subf) : (⟨S4x1048576, .f32⟩ : BufTy).Contents (Elt F) → (⟨S4x1048576, .f32⟩ : BufTy).Contents (Elt F) → (⟨S4x1048576, .f32⟩ : BufTy).Contents (Elt F)) (kst_main_v203 (F := F) x0 x1 x2 x3) (kst_main_v195 (F := F) x0 x1 x2 x3)
def kst_main_v254 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((broadcastInDim S4x1048576 ![0, 1] bcast_S1x1048576_S4x1048576_0_1) : (⟨S1x1048576, .f32⟩ : BufTy).Contents (Elt F) → (⟨S4x1048576, .f32⟩ : BufTy).Contents (Elt F)) (kst_main_v252 (F := F) x0 x1 x2 x3)
def kst_main_v255 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((mulf) : (⟨S4x1048576, .f32⟩ : BufTy).Contents (Elt F) → (⟨S4x1048576, .f32⟩ : BufTy).Contents (Elt F) → (⟨S4x1048576, .f32⟩ : BufTy).Contents (Elt F)) (kst_main_v253 (F := F) x0 x1 x2 x3) (kst_main_v254 (F := F) x0 x1 x2 x3)
def kst_main_v256 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((addf) : (⟨S4x1048576, .f32⟩ : BufTy).Contents (Elt F) → (⟨S4x1048576, .f32⟩ : BufTy).Contents (Elt F) → (⟨S4x1048576, .f32⟩ : BufTy).Contents (Elt F)) (kst_main_v195 (F := F) x0 x1 x2 x3) (kst_main_v255 (F := F) x0 x1 x2 x3)
def kst_main_v257 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((subf) : (⟨S4x1048576, .f32⟩ : BufTy).Contents (Elt F) → (⟨S4x1048576, .f32⟩ : BufTy).Contents (Elt F) → (⟨S4x1048576, .f32⟩ : BufTy).Contents (Elt F)) (kst_main_v219 (F := F) x0 x1 x2 x3) (kst_main_v211 (F := F) x0 x1 x2 x3)
def kst_main_v258 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((broadcastInDim S4x1048576 ![0, 1] bcast_S1x1048576_S4x1048576_0_1) : (⟨S1x1048576, .f32⟩ : BufTy).Contents (Elt F) → (⟨S4x1048576, .f32⟩ : BufTy).Contents (Elt F)) (kst_main_v252 (F := F) x0 x1 x2 x3)
def kst_main_v259 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((mulf) : (⟨S4x1048576, .f32⟩ : BufTy).Contents (Elt F) → (⟨S4x1048576, .f32⟩ : BufTy).Contents (Elt F) → (⟨S4x1048576, .f32⟩ : BufTy).Contents (Elt F)) (kst_main_v257 (F := F) x0 x1 x2 x3) (kst_main_v258 (F := F) x0 x1 x2 x3)
def kst_main_v260 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((addf) : (⟨S4x1048576, .f32⟩ : BufTy).Contents (Elt F) → (⟨S4x1048576, .f32⟩ : BufTy).Contents (Elt F) → (⟨S4x1048576, .f32⟩ : BufTy).Contents (Elt F)) (kst_main_v211 (F := F) x0 x1 x2 x3) (kst_main_v259 (F := F) x0 x1 x2 x3)
def kst_main_v261 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((subf) : (⟨S4x1048576, .f32⟩ : BufTy).Contents (Elt F) → (⟨S4x1048576, .f32⟩ : BufTy).Contents (Elt F) → (⟨S4x1048576, .f32⟩ : BufTy).Contents (Elt F)) (kst_main_v235 (F := F) x0 x1 x2 x3) (kst_main_v227 (F := F) x0 x1 x2 x3)
def kst_main_v262 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((broadcastInDim S4x1048576 ![0, 1] bcast_S1x1048576_S4x1048576_0_1) : (⟨S1x1048576, .f32⟩ : BufTy).Contents (Elt F) → (⟨S4x1048576, .f32⟩ : BufTy).Contents (Elt F)) (kst_main_v252 (F := F) x0 x1 x2 x3)
def kst_main_v263 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((mulf) : (⟨S4x1048576, .f32⟩ : BufTy).Contents (Elt F) → (⟨S4x1048576, .f32⟩ : BufTy).Contents (Elt F) → (⟨S4x1048576, .f32⟩ : BufTy).Contents (Elt F)) (kst_main_v261 (F := F) x0 x1 x2 x3) (kst_main_v262 (F := F) x0 x1 x2 x3)
def kst_main_v264 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((addf) : (⟨S4x1048576, .f32⟩ : BufTy).Contents (Elt F) → (⟨S4x1048576, .f32⟩ : BufTy).Contents (Elt F) → (⟨S4x1048576, .f32⟩ : BufTy).Contents (Elt F)) (kst_main_v227 (F := F) x0 x1 x2 x3) (kst_main_v263 (F := F) x0 x1 x2 x3)
def kst_main_v265 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((subf) : (⟨S4x1048576, .f32⟩ : BufTy).Contents (Elt F) → (⟨S4x1048576, .f32⟩ : BufTy).Contents (Elt F) → (⟨S4x1048576, .f32⟩ : BufTy).Contents (Elt F)) (kst_main_v251 (F := F) x0 x1 x2 x3) (kst_main_v243 (F := F) x0 x1 x2 x3)
def kst_main_v266 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((broadcastInDim S4x1048576 ![0, 1] bcast_S1x1048576_S4x1048576_0_1) : (⟨S1x1048576, .f32⟩ : BufTy).Contents (Elt F) → (⟨S4x1048576, .f32⟩ : BufTy).Contents (Elt F)) (kst_main_v252 (F := F) x0 x1 x2 x3)
def kst_main_v267 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((mulf) : (⟨S4x1048576, .f32⟩ : BufTy).Contents (Elt F) → (⟨S4x1048576, .f32⟩ : BufTy).Contents (Elt F) → (⟨S4x1048576, .f32⟩ : BufTy).Contents (Elt F)) (kst_main_v265 (F := F) x0 x1 x2 x3) (kst_main_v266 (F := F) x0 x1 x2 x3)
def kst_main_v268 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((addf) : (⟨S4x1048576, .f32⟩ : BufTy).Contents (Elt F) → (⟨S4x1048576, .f32⟩ : BufTy).Contents (Elt F) → (⟨S4x1048576, .f32⟩ : BufTy).Contents (Elt F)) (kst_main_v243 (F := F) x0 x1 x2 x3) (kst_main_v267 (F := F) x0 x1 x2 x3)
def kst_main_cst_80 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x3F800000#32)
def kst_main_v269 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((broadcastInDim S1048576 ![] bcast_S_S1048576) : (⟨S_, .f32⟩ : BufTy).Contents (Elt F) → (⟨S1048576, .f32⟩ : BufTy).Contents (Elt F)) (kst_main_cst_80 (F := F) x0 x1 x2 x3)
def kst_main_v270 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((addf) : (⟨S1048576, .f32⟩ : BufTy).Contents (Elt F) → (⟨S1048576, .f32⟩ : BufTy).Contents (Elt F) → (⟨S1048576, .f32⟩ : BufTy).Contents (Elt F)) (kst_main_v2 (F := F) x0 x1 x2 x3) (kst_main_v269 (F := F) x0 x1 x2 x3)
def kst_main_cst_81 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x3F000000#32)
def kst_main_v271 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((broadcastInDim S1048576 ![] bcast_S_S1048576) : (⟨S_, .f32⟩ : BufTy).Contents (Elt F) → (⟨S1048576, .f32⟩ : BufTy).Contents (Elt F)) (kst_main_cst_81 (F := F) x0 x1 x2 x3)
def kst_main_v272 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((mulf) : (⟨S1048576, .f32⟩ : BufTy).Contents (Elt F) → (⟨S1048576, .f32⟩ : BufTy).Contents (Elt F) → (⟨S1048576, .f32⟩ : BufTy).Contents (Elt F)) (kst_main_v270 (F := F) x0 x1 x2 x3) (kst_main_v271 (F := F) x0 x1 x2 x3)
def kst_main_cst_82 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x433F0000#32)
def kst_main_v273 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((broadcastInDim S1048576 ![] bcast_S_S1048576) : (⟨S_, .f32⟩ : BufTy).Contents (Elt F) → (⟨S1048576, .f32⟩ : BufTy).Contents (Elt F)) (kst_main_cst_82 (F := F) x0 x1 x2 x3)
def kst_main_v274 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((mulf) : (⟨S1048576, .f32⟩ : BufTy).Contents (Elt F) → (⟨S1048576, .f32⟩ : BufTy).Contents (Elt F) → (⟨S1048576, .f32⟩ : BufTy).Contents (Elt F)) (kst_main_v272 (F := F) x0 x1 x2 x3) (kst_main_v273 (F := F) x0 x1 x2 x3)
def kst_main_cst_83 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x3F800000#32)
def kst_main_v275 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((broadcastInDim S1048576 ![] bcast_S_S1048576) : (⟨S_, .f32⟩ : BufTy).Contents (Elt F) → (⟨S1048576, .f32⟩ : BufTy).Contents (Elt F)) (kst_main_cst_83 (F := F) x0 x1 x2 x3)
def kst_main_v276 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((addf) : (⟨S1048576, .f32⟩ : BufTy).Contents (Elt F) → (⟨S1048576, .f32⟩ : BufTy).Contents (Elt F) → (⟨S1048576, .f32⟩ : BufTy).Contents (Elt F)) (kst_main_v4 (F := F) x0 x1 x2 x3) (kst_main_v275 (F := F) x0 x1 x2 x3)
def kst_main_cst_84 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x3F000000#32)
def kst_main_v277 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((broadcastInDim S1048576 ![] bcast_S_S1048576) : (⟨S_, .f32⟩ : BufTy).Contents (Elt F) → (⟨S1048576, .f32⟩ : BufTy).Contents (Elt F)) (kst_main_cst_84 (F := F) x0 x1 x2 x3)
def kst_main_v278 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((mulf) : (⟨S1048576, .f32⟩ : BufTy).Contents (Elt F) → (⟨S1048576, .f32⟩ : BufTy).Contents (Elt F) → (⟨S1048576, .f32⟩ : BufTy).Contents (Elt F)) (kst_main_v276 (F := F) x0 x1 x2 x3) (kst_main_v277 (F := F) x0 x1 x2 x3)
def kst_main_cst_85 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x433F0000#32)
def kst_main_v279 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((broadcastInDim S1048576 ![] bcast_S_S1048576) : (⟨S_, .f32⟩ : BufTy).Contents (Elt F) → (⟨S1048576, .f32⟩ : BufTy).Contents (Elt F)) (kst_main_cst_85 (F := F) x0 x1 x2 x3)
def kst_main_v280 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((mulf) : (⟨S1048576, .f32⟩ : BufTy).Contents (Elt F) → (⟨S1048576, .f32⟩ : BufTy).Contents (Elt F) → (⟨S1048576, .f32⟩ : BufTy).Contents (Elt F)) (kst_main_v278 (F := F) x0 x1 x2 x3) (kst_main_v279 (F := F) x0 x1 x2 x3)
def kst_main_cst_86 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x3F800000#32)
def kst_main_v281 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((broadcastInDim S1048576 ![] bcast_S_S1048576) : (⟨S_, .f32⟩ : BufTy).Contents (Elt F) → (⟨S1048576, .f32⟩ : BufTy).Contents (Elt F)) (kst_main_cst_86 (F := F) x0 x1 x2 x3)
def kst_main_v282 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((addf) : (⟨S1048576, .f32⟩ : BufTy).Contents (Elt F) → (⟨S1048576, .f32⟩ : BufTy).Contents (Elt F) → (⟨S1048576, .f32⟩ : BufTy).Contents (Elt F)) (kst_main_v6 (F := F) x0 x1 x2 x3) (kst_main_v281 (F := F) x0 x1 x2 x3)
def kst_main_cst_87 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x3F000000#32)
def kst_main_v283 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((broadcastInDim S1048576 ![] bcast_S_S1048576) : (⟨S_, .f32⟩ : BufTy).Contents (Elt F) → (⟨S1048576, .f32⟩ : BufTy).Contents (Elt F)) (kst_main_cst_87 (F := F) x0 x1 x2 x3)
def kst_main_v284 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((mulf) : (⟨S1048576, .f32⟩ : BufTy).Contents (Elt F) → (⟨S1048576, .f32⟩ : BufTy).Contents (Elt F) → (⟨S1048576, .f32⟩ : BufTy).Contents (Elt F)) (kst_main_v282 (F := F) x0 x1 x2 x3) (kst_main_v283 (F := F) x0 x1 x2 x3)
def kst_main_cst_88 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x433F0000#32)
def kst_main_v285 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((broadcastInDim S1048576 ![] bcast_S_S1048576) : (⟨S_, .f32⟩ : BufTy).Contents (Elt F) → (⟨S1048576, .f32⟩ : BufTy).Contents (Elt F)) (kst_main_cst_88 (F := F) x0 x1 x2 x3)
def kst_main_v286 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((mulf) : (⟨S1048576, .f32⟩ : BufTy).Contents (Elt F) → (⟨S1048576, .f32⟩ : BufTy).Contents (Elt F) → (⟨S1048576, .f32⟩ : BufTy).Contents (Elt F)) (kst_main_v284 (F := F) x0 x1 x2 x3) (kst_main_v285 (F := F) x0 x1 x2 x3)
def kst_main_v287 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((Host.floor) : (⟨S1048576, .f32⟩ : BufTy).Contents (Elt F) → (⟨S1048576, .f32⟩ : BufTy).Contents (Elt F)) (kst_main_v274 (F := F) x0 x1 x2 x3)
def kst_main_cst_89 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x00000000#32)
def kst_main_cst_90 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x433F0000#32)
def kst_main_call24_v0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  ((id) : (⟨S_, .f32⟩ : BufTy).Contents (Elt F) → (⟨S_, .f32⟩ : BufTy).Contents (Elt F)) (kst_main_cst_89 (F := F) x0 x1 x2 x3)
def kst_main_call24_v1 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  (((broadcastInDim S1048576 ![] bcast_S_S1048576)) : (⟨S_, .f32⟩ : BufTy).Contents (Elt F) → (⟨S1048576, .f32⟩ : BufTy).Contents (Elt F)) (kst_main_call24_v0 (F := F) x0 x1 x2 x3)
def kst_main_call24_v2 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((maximumf) : (⟨S1048576, .f32⟩ : BufTy).Contents (Elt F) → (⟨S1048576, .f32⟩ : BufTy).Contents (Elt F) → (⟨S1048576, .f32⟩ : BufTy).Contents (Elt F)) (kst_main_call24_v1 (F := F) x0 x1 x2 x3) (kst_main_v287 (F := F) x0 x1 x2 x3)
def kst_main_call24_v3 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  ((id) : (⟨S_, .f32⟩ : BufTy).Contents (Elt F) → (⟨S_, .f32⟩ : BufTy).Contents (Elt F)) (kst_main_cst_90 (F := F) x0 x1 x2 x3)
def kst_main_call24_v4 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  (((broadcastInDim S1048576 ![] bcast_S_S1048576)) : (⟨S_, .f32⟩ : BufTy).Contents (Elt F) → (⟨S1048576, .f32⟩ : BufTy).Contents (Elt F)) (kst_main_call24_v3 (F := F) x0 x1 x2 x3)
def kst_main_v288 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((minimumf) : (⟨S1048576, .f32⟩ : BufTy).Contents (Elt F) → (⟨S1048576, .f32⟩ : BufTy).Contents (Elt F) → (⟨S1048576, .f32⟩ : BufTy).Contents (Elt F)) (kst_main_call24_v4 (F := F) x0 x1 x2 x3) (kst_main_call24_v2 (F := F) x0 x1 x2 x3)
def kst_main_v289 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((Host.floor) : (⟨S1048576, .f32⟩ : BufTy).Contents (Elt F) → (⟨S1048576, .f32⟩ : BufTy).Contents (Elt F)) (kst_main_v280 (F := F) x0 x1 x2 x3)
def kst_main_cst_91 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x00000000#32)
def kst_main_cst_92 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x433F0000#32)
def kst_main_call25_v0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  ((id) : (⟨S_, .f32⟩ : BufTy).Contents (Elt F) → (⟨S_, .f32⟩ : BufTy).Contents (Elt F)) (kst_main_cst_91 (F := F) x0 x1 x2 x3)
def kst_main_call25_v1 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  (((broadcastInDim S1048576 ![] bcast_S_S1048576)) : (⟨S_, .f32⟩ : BufTy).Contents (Elt F) → (⟨S1048576, .f32⟩ : BufTy).Contents (Elt F)) (kst_main_call25_v0 (F := F) x0 x1 x2 x3)
def kst_main_call25_v2 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((maximumf) : (⟨S1048576, .f32⟩ : BufTy).Contents (Elt F) → (⟨S1048576, .f32⟩ : BufTy).Contents (Elt F) → (⟨S1048576, .f32⟩ : BufTy).Contents (Elt F)) (kst_main_call25_v1 (F := F) x0 x1 x2 x3) (kst_main_v289 (F := F) x0 x1 x2 x3)
def kst_main_call25_v3 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  ((id) : (⟨S_, .f32⟩ : BufTy).Contents (Elt F) → (⟨S_, .f32⟩ : BufTy).Contents (Elt F)) (kst_main_cst_92 (F := F) x0 x1 x2 x3)
def kst_main_call25_v4 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  (((broadcastInDim S1048576 ![] bcast_S_S1048576)) : (⟨S_, .f32⟩ : BufTy).Contents (Elt F) → (⟨S1048576, .f32⟩ : BufTy).Contents (Elt F)) (kst_main_call25_v3 (F := F) x0 x1 x2 x3)
def kst_main_v290 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((minimumf) : (⟨S1048576, .f32⟩ : BufTy).Contents (Elt F) → (⟨S1048576, .f32⟩ : BufTy).Contents (Elt F) → (⟨S1048576, .f32⟩ : BufTy).Contents (Elt F)) (kst_main_call25_v4 (F := F) x0 x1 x2 x3) (kst_main_call25_v2 (F := F) x0 x1 x2 x3)
def kst_main_v291 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((Host.floor) : (⟨S1048576, .f32⟩ : BufTy).Contents (Elt F) → (⟨S1048576, .f32⟩ : BufTy).Contents (Elt F)) (kst_main_v286 (F := F) x0 x1 x2 x3)
def kst_main_cst_93 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x00000000#32)
def kst_main_cst_94 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x433F0000#32)
def kst_main_call26_v0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  ((id) : (⟨S_, .f32⟩ : BufTy).Contents (Elt F) → (⟨S_, .f32⟩ : BufTy).Contents (Elt F)) (kst_main_cst_93 (F := F) x0 x1 x2 x3)
def kst_main_call26_v1 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  (((broadcastInDim S1048576 ![] bcast_S_S1048576)) : (⟨S_, .f32⟩ : BufTy).Contents (Elt F) → (⟨S1048576, .f32⟩ : BufTy).Contents (Elt F)) (kst_main_call26_v0 (F := F) x0 x1 x2 x3)
def kst_main_call26_v2 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((maximumf) : (⟨S1048576, .f32⟩ : BufTy).Contents (Elt F) → (⟨S1048576, .f32⟩ : BufTy).Contents (Elt F) → (⟨S1048576, .f32⟩ : BufTy).Contents (Elt F)) (kst_main_call26_v1 (F := F) x0 x1 x2 x3) (kst_main_v291 (F := F) x0 x1 x2 x3)
def kst_main_call26_v3 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  ((id) : (⟨S_, .f32⟩ : BufTy).Contents (Elt F) → (⟨S_, .f32⟩ : BufTy).Contents (Elt F)) (kst_main_cst_94 (F := F) x0 x1 x2 x3)
def kst_main_call26_v4 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  (((broadcastInDim S1048576 ![] bcast_S_S1048576)) : (⟨S_, .f32⟩ : BufTy).Contents (Elt F) → (⟨S1048576, .f32⟩ : BufTy).Contents (Elt F)) (kst_main_call26_v3 (F := F) x0 x1 x2 x3)
def kst_main_v292 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((minimumf) : (⟨S1048576, .f32⟩ : BufTy).Contents (Elt F) → (⟨S1048576, .f32⟩ : BufTy).Contents (Elt F) → (⟨S1048576, .f32⟩ : BufTy).Contents (Elt F)) (kst_main_call26_v4 (F := F) x0 x1 x2 x3) (kst_main_call26_v2 (F := F) x0 x1 x2 x3)
def kst_main_v293 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((subf) : (⟨S1048576, .f32⟩ : BufTy).Contents (Elt F) → (⟨S1048576, .f32⟩ : BufTy).Contents (Elt F) → (⟨S1048576, .f32⟩ : BufTy).Contents (Elt F)) (kst_main_v274 (F := F) x0 x1 x2 x3) (kst_main_v288 (F := F) x0 x1 x2 x3)
def kst_main_cst_95 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x00000000#32)
def kst_main_cst_96 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x3F800000#32)
def kst_main_call27_v0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  ((id) : (⟨S_, .f32⟩ : BufTy).Contents (Elt F) → (⟨S_, .f32⟩ : BufTy).Contents (Elt F)) (kst_main_cst_95 (F := F) x0 x1 x2 x3)
def kst_main_call27_v1 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  (((broadcastInDim S1048576 ![] bcast_S_S1048576)) : (⟨S_, .f32⟩ : BufTy).Contents (Elt F) → (⟨S1048576, .f32⟩ : BufTy).Contents (Elt F)) (kst_main_call27_v0 (F := F) x0 x1 x2 x3)
def kst_main_call27_v2 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((maximumf) : (⟨S1048576, .f32⟩ : BufTy).Contents (Elt F) → (⟨S1048576, .f32⟩ : BufTy).Contents (Elt F) → (⟨S1048576, .f32⟩ : BufTy).Contents (Elt F)) (kst_main_call27_v1 (F := F) x0 x1 x2 x3) (kst_main_v293 (F := F) x0 x1 x2 x3)
def kst_main_call27_v3 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  ((id) : (⟨S_, .f32⟩ : BufTy).Contents (Elt F) → (⟨S_, .f32⟩ : BufTy).Contents (Elt F)) (kst_main_cst_96 (F := F) x0 x1 x2 x3)
def kst_main_call27_v4 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  (((broadcastInDim S1048576 ![] bcast_S_S1048576)) : (⟨S_, .f32⟩ : BufTy).Contents (Elt F) → (⟨S1048576, .f32⟩ : BufTy).Contents (Elt F)) (kst_main_call27_v3 (F := F) x0 x1 x2 x3)
def kst_main_v294 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((minimumf) : (⟨S1048576, .f32⟩ : BufTy).Contents (Elt F) → (⟨S1048576, .f32⟩ : BufTy).Contents (Elt F) → (⟨S1048576, .f32⟩ : BufTy).Contents (Elt F)) (kst_main_call27_v4 (F := F) x0 x1 x2 x3) (kst_main_call27_v2 (F := F) x0 x1 x2 x3)
def kst_main_v295 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((mulf) : (⟨S1048576, .f32⟩ : BufTy).Contents (Elt F) → (⟨S1048576, .f32⟩ : BufTy).Contents (Elt F) → (⟨S1048576, .f32⟩ : BufTy).Contents (Elt F)) (kst_main_v294 (F := F) x0 x1 x2 x3) (kst_main_v294 (F := F) x0 x1 x2 x3)
def kst_main_cst_97 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x40000000#32)
def kst_main_v296 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((broadcastInDim S1048576 ![] bcast_S_S1048576) : (⟨S_, .f32⟩ : BufTy).Contents (Elt F) → (⟨S1048576, .f32⟩ : BufTy).Contents (Elt F)) (kst_main_cst_97 (F := F) x0 x1 x2 x3)
def kst_main_v297 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((mulf) : (⟨S1048576, .f32⟩ : BufTy).Contents (Elt F) → (⟨S1048576, .f32⟩ : BufTy).Contents (Elt F) → (⟨S1048576, .f32⟩ : BufTy).Contents (Elt F)) (kst_main_v296 (F := F) x0 x1 x2 x3) (kst_main_v294 (F := F) x0 x1 x2 x3)
def kst_main_cst_98 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .f32⟩ : BufTy).Contents (Elt F) :=
  (constant S_ .f32 0x40400000#32)
def kst_main_v298 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((broadcastInDim S1048576 ![] bcast_S_S1048576) : (⟨S_, .f32⟩ : BufTy).Contents (Elt F) → (⟨S1048576, .f32⟩ : BufTy).Contents (Elt F)) (kst_main_cst_98 (F := F) x0 x1 x2 x3)
def kst_main_v299 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((subf) : (⟨S1048576, .f32⟩ : BufTy).Contents (Elt F) → (⟨S1048576, .f32⟩ : BufTy).Contents (Elt F) → (⟨S1048576, .f32⟩ : BufTy).Contents (Elt F)) (kst_main_v298 (F := F) x0 x1 x2 x3) (kst_main_v297 (F := F) x0 x1 x2 x3)
def kst_main_v300 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .f32⟩ : BufTy).Contents (Elt F) :=
  ((mulf) : (⟨S1048576, .f32⟩ : BufTy).Contents (Elt F) → (⟨S1048576, .f32⟩ : BufTy).Contents (Elt F) → (⟨S1048576, .f32⟩ : BufTy).Contents (Elt F)) (kst_main_v295 (F := F) x0 x1 x2 x3) (kst_main_v299 (F := F) x0 x1 x2 x3)
def kst_main_v301 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((fptosi 32) : (⟨S1048576, .f32⟩ : BufTy).Contents (Elt F) → (⟨S1048576, .i32⟩ : BufTy).Contents (Elt F)) (kst_main_v288 (F := F) x0 x1 x2 x3)
def kst_main_v302 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((fptosi 32) : (⟨S1048576, .f32⟩ : BufTy).Contents (Elt F) → (⟨S1048576, .i32⟩ : BufTy).Contents (Elt F)) (kst_main_v290 (F := F) x0 x1 x2 x3)
def kst_main_v303 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((fptosi 32) : (⟨S1048576, .f32⟩ : BufTy).Contents (Elt F) → (⟨S1048576, .i32⟩ : BufTy).Contents (Elt F)) (kst_main_v292 (F := F) x0 x1 x2 x3)
def kst_main_c_99 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 1#32)
def kst_main_v304 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_99 (F := F) x0 x1 x2 x3)
def kst_main_v305 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v301 (F := F) x0 x1 x2 x3) (kst_main_v304 (F := F) x0 x1 x2 x3)
def kst_main_c_100 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 191#32)
def kst_main_v306 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_100 (F := F) x0 x1 x2 x3)
def kst_main_v307 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((minsi) : (⟨S1048576, .i32⟩ : BufTy).Contents (Elt F) → (⟨S1048576, .i32⟩ : BufTy).Contents (Elt F) → (⟨S1048576, .i32⟩ : BufTy).Contents (Elt F)) (kst_main_v305 (F := F) x0 x1 x2 x3) (kst_main_v306 (F := F) x0 x1 x2 x3)
def kst_main_c_101 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 1#32)
def kst_main_v308 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_101 (F := F) x0 x1 x2 x3)
def kst_main_v309 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v302 (F := F) x0 x1 x2 x3) (kst_main_v308 (F := F) x0 x1 x2 x3)
def kst_main_c_102 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 191#32)
def kst_main_v310 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_102 (F := F) x0 x1 x2 x3)
def kst_main_v311 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((minsi) : (⟨S1048576, .i32⟩ : BufTy).Contents (Elt F) → (⟨S1048576, .i32⟩ : BufTy).Contents (Elt F) → (⟨S1048576, .i32⟩ : BufTy).Contents (Elt F)) (kst_main_v309 (F := F) x0 x1 x2 x3) (kst_main_v310 (F := F) x0 x1 x2 x3)
def kst_main_c_103 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 1#32)
def kst_main_v312 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_103 (F := F) x0 x1 x2 x3)
def kst_main_v313 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v303 (F := F) x0 x1 x2 x3) (kst_main_v312 (F := F) x0 x1 x2 x3)
def kst_main_c_104 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 191#32)
def kst_main_v314 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_104 (F := F) x0 x1 x2 x3)
def kst_main_v315 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((minsi) : (⟨S1048576, .i32⟩ : BufTy).Contents (Elt F) → (⟨S1048576, .i32⟩ : BufTy).Contents (Elt F) → (⟨S1048576, .i32⟩ : BufTy).Contents (Elt F)) (kst_main_v313 (F := F) x0 x1 x2 x3) (kst_main_v314 (F := F) x0 x1 x2 x3)
def kst_main_v316 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x192x192x192, .f32⟩ : BufTy).Contents (Elt F) :=
  shapeCast _ x3 shapeCasts_S1x4x192x192x192_S4x192x192x192
def kst_main_v317 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S192x192x192x4, .f32⟩ : BufTy).Contents (Elt F) :=
  (((transpose S192x192x192x4 [1, 2, 3, 0] · transposes_S4x192x192x192_S192x192x192x4_1_2_3_0)) : (⟨S4x192x192x192, .f32⟩ : BufTy).Contents (Elt F) → (⟨S192x192x192x4, .f32⟩ : BufTy).Contents (Elt F)) (kst_main_v316 (F := F) x0 x1 x2 x3)
def kst_main_v318 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S7077888x4, .f32⟩ : BufTy).Contents (Elt F) :=
  shapeCast _ (kst_main_v317 (F := F) x0 x1 x2 x3) shapeCasts_S192x192x192x4_S7077888x4
def kst_main_c_105 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 192#32)
def kst_main_v319 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_105 (F := F) x0 x1 x2 x3)
def kst_main_v320 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v303 (F := F) x0 x1 x2 x3) (kst_main_v319 (F := F) x0 x1 x2 x3)
def kst_main_v321 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v320 (F := F) x0 x1 x2 x3) (kst_main_v302 (F := F) x0 x1 x2 x3)
def kst_main_c_106 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 192#32)
def kst_main_v322 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_106 (F := F) x0 x1 x2 x3)
def kst_main_v323 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v321 (F := F) x0 x1 x2 x3) (kst_main_v322 (F := F) x0 x1 x2 x3)
def kst_main_v324 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v323 (F := F) x0 x1 x2 x3) (kst_main_v301 (F := F) x0 x1 x2 x3)
def kst_main_call28_v0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x1, .i32⟩ : BufTy).Contents (Elt F) :=
  (((broadcastInDim S1048576x1 ![0] bcast_S1048576_S1048576x1_0)) : (⟨S1048576, .i32⟩ : BufTy).Contents (Elt F) → (⟨S1048576x1, .i32⟩ : BufTy).Contents (Elt F)) (kst_main_v324 (F := F) x0 x1 x2 x3)
def kst_main_v325 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x4, .f32⟩ : BufTy).Contents (Elt F) :=
  (((fun x i => Host.gather gather_S7077888x4_S1048576x1_S1048576x4_1_0_n_n_0_1_14 x i)) : (⟨S7077888x4, .f32⟩ : BufTy).Contents (Elt F) → (⟨S1048576x1, .i32⟩ : BufTy).Contents (Elt F) → (⟨S1048576x4, .f32⟩ : BufTy).Contents (Elt F)) (kst_main_v318 (F := F) x0 x1 x2 x3) (kst_main_call28_v0 (F := F) x0 x1 x2 x3)
def kst_main_v326 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  (((transpose S4x1048576 [1, 0] · transposes_S1048576x4_S4x1048576_1_0)) : (⟨S1048576x4, .f32⟩ : BufTy).Contents (Elt F) → (⟨S4x1048576, .f32⟩ : BufTy).Contents (Elt F)) (kst_main_v325 (F := F) x0 x1 x2 x3)
def kst_main_c_107 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 192#32)
def kst_main_v327 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_107 (F := F) x0 x1 x2 x3)
def kst_main_v328 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v303 (F := F) x0 x1 x2 x3) (kst_main_v327 (F := F) x0 x1 x2 x3)
def kst_main_v329 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v328 (F := F) x0 x1 x2 x3) (kst_main_v302 (F := F) x0 x1 x2 x3)
def kst_main_c_108 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 192#32)
def kst_main_v330 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_108 (F := F) x0 x1 x2 x3)
def kst_main_v331 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v329 (F := F) x0 x1 x2 x3) (kst_main_v330 (F := F) x0 x1 x2 x3)
def kst_main_v332 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v331 (F := F) x0 x1 x2 x3) (kst_main_v307 (F := F) x0 x1 x2 x3)
def kst_main_call29_v0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x1, .i32⟩ : BufTy).Contents (Elt F) :=
  (((broadcastInDim S1048576x1 ![0] bcast_S1048576_S1048576x1_0)) : (⟨S1048576, .i32⟩ : BufTy).Contents (Elt F) → (⟨S1048576x1, .i32⟩ : BufTy).Contents (Elt F)) (kst_main_v332 (F := F) x0 x1 x2 x3)
def kst_main_v333 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x4, .f32⟩ : BufTy).Contents (Elt F) :=
  (((fun x i => Host.gather gather_S7077888x4_S1048576x1_S1048576x4_1_0_n_n_0_1_14 x i)) : (⟨S7077888x4, .f32⟩ : BufTy).Contents (Elt F) → (⟨S1048576x1, .i32⟩ : BufTy).Contents (Elt F) → (⟨S1048576x4, .f32⟩ : BufTy).Contents (Elt F)) (kst_main_v318 (F := F) x0 x1 x2 x3) (kst_main_call29_v0 (F := F) x0 x1 x2 x3)
def kst_main_v334 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  (((transpose S4x1048576 [1, 0] · transposes_S1048576x4_S4x1048576_1_0)) : (⟨S1048576x4, .f32⟩ : BufTy).Contents (Elt F) → (⟨S4x1048576, .f32⟩ : BufTy).Contents (Elt F)) (kst_main_v333 (F := F) x0 x1 x2 x3)
def kst_main_c_109 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 192#32)
def kst_main_v335 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_109 (F := F) x0 x1 x2 x3)
def kst_main_v336 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v303 (F := F) x0 x1 x2 x3) (kst_main_v335 (F := F) x0 x1 x2 x3)
def kst_main_v337 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v336 (F := F) x0 x1 x2 x3) (kst_main_v311 (F := F) x0 x1 x2 x3)
def kst_main_c_110 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 192#32)
def kst_main_v338 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_110 (F := F) x0 x1 x2 x3)
def kst_main_v339 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v337 (F := F) x0 x1 x2 x3) (kst_main_v338 (F := F) x0 x1 x2 x3)
def kst_main_v340 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v339 (F := F) x0 x1 x2 x3) (kst_main_v301 (F := F) x0 x1 x2 x3)
def kst_main_call30_v0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x1, .i32⟩ : BufTy).Contents (Elt F) :=
  (((broadcastInDim S1048576x1 ![0] bcast_S1048576_S1048576x1_0)) : (⟨S1048576, .i32⟩ : BufTy).Contents (Elt F) → (⟨S1048576x1, .i32⟩ : BufTy).Contents (Elt F)) (kst_main_v340 (F := F) x0 x1 x2 x3)
def kst_main_v341 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x4, .f32⟩ : BufTy).Contents (Elt F) :=
  (((fun x i => Host.gather gather_S7077888x4_S1048576x1_S1048576x4_1_0_n_n_0_1_14 x i)) : (⟨S7077888x4, .f32⟩ : BufTy).Contents (Elt F) → (⟨S1048576x1, .i32⟩ : BufTy).Contents (Elt F) → (⟨S1048576x4, .f32⟩ : BufTy).Contents (Elt F)) (kst_main_v318 (F := F) x0 x1 x2 x3) (kst_main_call30_v0 (F := F) x0 x1 x2 x3)
def kst_main_v342 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  (((transpose S4x1048576 [1, 0] · transposes_S1048576x4_S4x1048576_1_0)) : (⟨S1048576x4, .f32⟩ : BufTy).Contents (Elt F) → (⟨S4x1048576, .f32⟩ : BufTy).Contents (Elt F)) (kst_main_v341 (F := F) x0 x1 x2 x3)
def kst_main_c_111 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 192#32)
def kst_main_v343 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_111 (F := F) x0 x1 x2 x3)
def kst_main_v344 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v303 (F := F) x0 x1 x2 x3) (kst_main_v343 (F := F) x0 x1 x2 x3)
def kst_main_v345 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v344 (F := F) x0 x1 x2 x3) (kst_main_v311 (F := F) x0 x1 x2 x3)
def kst_main_c_112 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 192#32)
def kst_main_v346 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_112 (F := F) x0 x1 x2 x3)
def kst_main_v347 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v345 (F := F) x0 x1 x2 x3) (kst_main_v346 (F := F) x0 x1 x2 x3)
def kst_main_v348 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v347 (F := F) x0 x1 x2 x3) (kst_main_v307 (F := F) x0 x1 x2 x3)
def kst_main_call31_v0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x1, .i32⟩ : BufTy).Contents (Elt F) :=
  (((broadcastInDim S1048576x1 ![0] bcast_S1048576_S1048576x1_0)) : (⟨S1048576, .i32⟩ : BufTy).Contents (Elt F) → (⟨S1048576x1, .i32⟩ : BufTy).Contents (Elt F)) (kst_main_v348 (F := F) x0 x1 x2 x3)
def kst_main_v349 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x4, .f32⟩ : BufTy).Contents (Elt F) :=
  (((fun x i => Host.gather gather_S7077888x4_S1048576x1_S1048576x4_1_0_n_n_0_1_14 x i)) : (⟨S7077888x4, .f32⟩ : BufTy).Contents (Elt F) → (⟨S1048576x1, .i32⟩ : BufTy).Contents (Elt F) → (⟨S1048576x4, .f32⟩ : BufTy).Contents (Elt F)) (kst_main_v318 (F := F) x0 x1 x2 x3) (kst_main_call31_v0 (F := F) x0 x1 x2 x3)
def kst_main_v350 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  (((transpose S4x1048576 [1, 0] · transposes_S1048576x4_S4x1048576_1_0)) : (⟨S1048576x4, .f32⟩ : BufTy).Contents (Elt F) → (⟨S4x1048576, .f32⟩ : BufTy).Contents (Elt F)) (kst_main_v349 (F := F) x0 x1 x2 x3)
def kst_main_c_113 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 192#32)
def kst_main_v351 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_113 (F := F) x0 x1 x2 x3)
def kst_main_v352 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v315 (F := F) x0 x1 x2 x3) (kst_main_v351 (F := F) x0 x1 x2 x3)
def kst_main_v353 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v352 (F := F) x0 x1 x2 x3) (kst_main_v302 (F := F) x0 x1 x2 x3)
def kst_main_c_114 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 192#32)
def kst_main_v354 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_114 (F := F) x0 x1 x2 x3)
def kst_main_v355 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v353 (F := F) x0 x1 x2 x3) (kst_main_v354 (F := F) x0 x1 x2 x3)
def kst_main_v356 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v355 (F := F) x0 x1 x2 x3) (kst_main_v301 (F := F) x0 x1 x2 x3)
def kst_main_call32_v0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x1, .i32⟩ : BufTy).Contents (Elt F) :=
  (((broadcastInDim S1048576x1 ![0] bcast_S1048576_S1048576x1_0)) : (⟨S1048576, .i32⟩ : BufTy).Contents (Elt F) → (⟨S1048576x1, .i32⟩ : BufTy).Contents (Elt F)) (kst_main_v356 (F := F) x0 x1 x2 x3)
def kst_main_v357 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x4, .f32⟩ : BufTy).Contents (Elt F) :=
  (((fun x i => Host.gather gather_S7077888x4_S1048576x1_S1048576x4_1_0_n_n_0_1_14 x i)) : (⟨S7077888x4, .f32⟩ : BufTy).Contents (Elt F) → (⟨S1048576x1, .i32⟩ : BufTy).Contents (Elt F) → (⟨S1048576x4, .f32⟩ : BufTy).Contents (Elt F)) (kst_main_v318 (F := F) x0 x1 x2 x3) (kst_main_call32_v0 (F := F) x0 x1 x2 x3)
def kst_main_v358 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  (((transpose S4x1048576 [1, 0] · transposes_S1048576x4_S4x1048576_1_0)) : (⟨S1048576x4, .f32⟩ : BufTy).Contents (Elt F) → (⟨S4x1048576, .f32⟩ : BufTy).Contents (Elt F)) (kst_main_v357 (F := F) x0 x1 x2 x3)
def kst_main_c_115 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 192#32)
def kst_main_v359 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_115 (F := F) x0 x1 x2 x3)
def kst_main_v360 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v315 (F := F) x0 x1 x2 x3) (kst_main_v359 (F := F) x0 x1 x2 x3)
def kst_main_v361 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v360 (F := F) x0 x1 x2 x3) (kst_main_v302 (F := F) x0 x1 x2 x3)
def kst_main_c_116 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 192#32)
def kst_main_v362 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_116 (F := F) x0 x1 x2 x3)
def kst_main_v363 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v361 (F := F) x0 x1 x2 x3) (kst_main_v362 (F := F) x0 x1 x2 x3)
def kst_main_v364 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v363 (F := F) x0 x1 x2 x3) (kst_main_v307 (F := F) x0 x1 x2 x3)
def kst_main_call33_v0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x1, .i32⟩ : BufTy).Contents (Elt F) :=
  (((broadcastInDim S1048576x1 ![0] bcast_S1048576_S1048576x1_0)) : (⟨S1048576, .i32⟩ : BufTy).Contents (Elt F) → (⟨S1048576x1, .i32⟩ : BufTy).Contents (Elt F)) (kst_main_v364 (F := F) x0 x1 x2 x3)
def kst_main_v365 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x4, .f32⟩ : BufTy).Contents (Elt F) :=
  (((fun x i => Host.gather gather_S7077888x4_S1048576x1_S1048576x4_1_0_n_n_0_1_14 x i)) : (⟨S7077888x4, .f32⟩ : BufTy).Contents (Elt F) → (⟨S1048576x1, .i32⟩ : BufTy).Contents (Elt F) → (⟨S1048576x4, .f32⟩ : BufTy).Contents (Elt F)) (kst_main_v318 (F := F) x0 x1 x2 x3) (kst_main_call33_v0 (F := F) x0 x1 x2 x3)
def kst_main_v366 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  (((transpose S4x1048576 [1, 0] · transposes_S1048576x4_S4x1048576_1_0)) : (⟨S1048576x4, .f32⟩ : BufTy).Contents (Elt F) → (⟨S4x1048576, .f32⟩ : BufTy).Contents (Elt F)) (kst_main_v365 (F := F) x0 x1 x2 x3)
def kst_main_c_117 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 192#32)
def kst_main_v367 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_117 (F := F) x0 x1 x2 x3)
def kst_main_v368 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v315 (F := F) x0 x1 x2 x3) (kst_main_v367 (F := F) x0 x1 x2 x3)
def kst_main_v369 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v368 (F := F) x0 x1 x2 x3) (kst_main_v311 (F := F) x0 x1 x2 x3)
def kst_main_c_118 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 192#32)
def kst_main_v370 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_118 (F := F) x0 x1 x2 x3)
def kst_main_v371 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v369 (F := F) x0 x1 x2 x3) (kst_main_v370 (F := F) x0 x1 x2 x3)
def kst_main_v372 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v371 (F := F) x0 x1 x2 x3) (kst_main_v301 (F := F) x0 x1 x2 x3)
def kst_main_call34_v0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x1, .i32⟩ : BufTy).Contents (Elt F) :=
  (((broadcastInDim S1048576x1 ![0] bcast_S1048576_S1048576x1_0)) : (⟨S1048576, .i32⟩ : BufTy).Contents (Elt F) → (⟨S1048576x1, .i32⟩ : BufTy).Contents (Elt F)) (kst_main_v372 (F := F) x0 x1 x2 x3)
def kst_main_v373 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x4, .f32⟩ : BufTy).Contents (Elt F) :=
  (((fun x i => Host.gather gather_S7077888x4_S1048576x1_S1048576x4_1_0_n_n_0_1_14 x i)) : (⟨S7077888x4, .f32⟩ : BufTy).Contents (Elt F) → (⟨S1048576x1, .i32⟩ : BufTy).Contents (Elt F) → (⟨S1048576x4, .f32⟩ : BufTy).Contents (Elt F)) (kst_main_v318 (F := F) x0 x1 x2 x3) (kst_main_call34_v0 (F := F) x0 x1 x2 x3)
def kst_main_v374 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  (((transpose S4x1048576 [1, 0] · transposes_S1048576x4_S4x1048576_1_0)) : (⟨S1048576x4, .f32⟩ : BufTy).Contents (Elt F) → (⟨S4x1048576, .f32⟩ : BufTy).Contents (Elt F)) (kst_main_v373 (F := F) x0 x1 x2 x3)
def kst_main_c_119 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 192#32)
def kst_main_v375 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_119 (F := F) x0 x1 x2 x3)
def kst_main_v376 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v315 (F := F) x0 x1 x2 x3) (kst_main_v375 (F := F) x0 x1 x2 x3)
def kst_main_v377 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v376 (F := F) x0 x1 x2 x3) (kst_main_v311 (F := F) x0 x1 x2 x3)
def kst_main_c_120 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S_, .i32⟩ : BufTy).Contents (Elt F) :=
  (constantI S_ 32 192#32)
def kst_main_v378 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((broadcastInDim S1048576 ![] bcast_S_S1048576) : (⟨S_, .i32⟩ : BufTy).Contents (Elt F) → (⟨S1048576, .i32⟩ : BufTy).Contents (Elt F)) (kst_main_c_120 (F := F) x0 x1 x2 x3)
def kst_main_v379 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((muli) : (⟨S1048576, .i32⟩ : BufTy).Contents (Elt F) → (⟨S1048576, .i32⟩ : BufTy).Contents (Elt F) → (⟨S1048576, .i32⟩ : BufTy).Contents (Elt F)) (kst_main_v377 (F := F) x0 x1 x2 x3) (kst_main_v378 (F := F) x0 x1 x2 x3)
def kst_main_v380 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576, .i32⟩ : BufTy).Contents (Elt F) :=
  ((addi) : (⟨S1048576, .i32⟩ : BufTy).Contents (Elt F) → (⟨S1048576, .i32⟩ : BufTy).Contents (Elt F) → (⟨S1048576, .i32⟩ : BufTy).Contents (Elt F)) (kst_main_v379 (F := F) x0 x1 x2 x3) (kst_main_v307 (F := F) x0 x1 x2 x3)
def kst_main_call35_v0 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x1, .i32⟩ : BufTy).Contents (Elt F) :=
  (((broadcastInDim S1048576x1 ![0] bcast_S1048576_S1048576x1_0)) : (⟨S1048576, .i32⟩ : BufTy).Contents (Elt F) → (⟨S1048576x1, .i32⟩ : BufTy).Contents (Elt F)) (kst_main_v380 (F := F) x0 x1 x2 x3)
def kst_main_v381 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1048576x4, .f32⟩ : BufTy).Contents (Elt F) :=
  (((fun x i => Host.gather gather_S7077888x4_S1048576x1_S1048576x4_1_0_n_n_0_1_14 x i)) : (⟨S7077888x4, .f32⟩ : BufTy).Contents (Elt F) → (⟨S1048576x1, .i32⟩ : BufTy).Contents (Elt F) → (⟨S1048576x4, .f32⟩ : BufTy).Contents (Elt F)) (kst_main_v318 (F := F) x0 x1 x2 x3) (kst_main_call35_v0 (F := F) x0 x1 x2 x3)
def kst_main_v382 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  (((transpose S4x1048576 [1, 0] · transposes_S1048576x4_S4x1048576_1_0)) : (⟨S1048576x4, .f32⟩ : BufTy).Contents (Elt F) → (⟨S4x1048576, .f32⟩ : BufTy).Contents (Elt F)) (kst_main_v381 (F := F) x0 x1 x2 x3)
def kst_main_v383 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1x1048576, .f32⟩ : BufTy).Contents (Elt F) :=
  ((broadcastInDim S1x1048576 ![1] bcast_S1048576_S1x1048576_1) : (⟨S1048576, .f32⟩ : BufTy).Contents (Elt F) → (⟨S1x1048576, .f32⟩ : BufTy).Contents (Elt F)) (kst_main_v300 (F := F) x0 x1 x2 x3)
def kst_main_v384 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((subf) : (⟨S4x1048576, .f32⟩ : BufTy).Contents (Elt F) → (⟨S4x1048576, .f32⟩ : BufTy).Contents (Elt F) → (⟨S4x1048576, .f32⟩ : BufTy).Contents (Elt F)) (kst_main_v334 (F := F) x0 x1 x2 x3) (kst_main_v326 (F := F) x0 x1 x2 x3)
def kst_main_v385 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((broadcastInDim S4x1048576 ![0, 1] bcast_S1x1048576_S4x1048576_0_1) : (⟨S1x1048576, .f32⟩ : BufTy).Contents (Elt F) → (⟨S4x1048576, .f32⟩ : BufTy).Contents (Elt F)) (kst_main_v383 (F := F) x0 x1 x2 x3)
def kst_main_v386 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((mulf) : (⟨S4x1048576, .f32⟩ : BufTy).Contents (Elt F) → (⟨S4x1048576, .f32⟩ : BufTy).Contents (Elt F) → (⟨S4x1048576, .f32⟩ : BufTy).Contents (Elt F)) (kst_main_v384 (F := F) x0 x1 x2 x3) (kst_main_v385 (F := F) x0 x1 x2 x3)
def kst_main_v387 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((addf) : (⟨S4x1048576, .f32⟩ : BufTy).Contents (Elt F) → (⟨S4x1048576, .f32⟩ : BufTy).Contents (Elt F) → (⟨S4x1048576, .f32⟩ : BufTy).Contents (Elt F)) (kst_main_v326 (F := F) x0 x1 x2 x3) (kst_main_v386 (F := F) x0 x1 x2 x3)
def kst_main_v388 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((subf) : (⟨S4x1048576, .f32⟩ : BufTy).Contents (Elt F) → (⟨S4x1048576, .f32⟩ : BufTy).Contents (Elt F) → (⟨S4x1048576, .f32⟩ : BufTy).Contents (Elt F)) (kst_main_v350 (F := F) x0 x1 x2 x3) (kst_main_v342 (F := F) x0 x1 x2 x3)
def kst_main_v389 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((broadcastInDim S4x1048576 ![0, 1] bcast_S1x1048576_S4x1048576_0_1) : (⟨S1x1048576, .f32⟩ : BufTy).Contents (Elt F) → (⟨S4x1048576, .f32⟩ : BufTy).Contents (Elt F)) (kst_main_v383 (F := F) x0 x1 x2 x3)
def kst_main_v390 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((mulf) : (⟨S4x1048576, .f32⟩ : BufTy).Contents (Elt F) → (⟨S4x1048576, .f32⟩ : BufTy).Contents (Elt F) → (⟨S4x1048576, .f32⟩ : BufTy).Contents (Elt F)) (kst_main_v388 (F := F) x0 x1 x2 x3) (kst_main_v389 (F := F) x0 x1 x2 x3)
def kst_main_v391 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((addf) : (⟨S4x1048576, .f32⟩ : BufTy).Contents (Elt F) → (⟨S4x1048576, .f32⟩ : BufTy).Contents (Elt F) → (⟨S4x1048576, .f32⟩ : BufTy).Contents (Elt F)) (kst_main_v342 (F := F) x0 x1 x2 x3) (kst_main_v390 (F := F) x0 x1 x2 x3)
def kst_main_v392 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((subf) : (⟨S4x1048576, .f32⟩ : BufTy).Contents (Elt F) → (⟨S4x1048576, .f32⟩ : BufTy).Contents (Elt F) → (⟨S4x1048576, .f32⟩ : BufTy).Contents (Elt F)) (kst_main_v366 (F := F) x0 x1 x2 x3) (kst_main_v358 (F := F) x0 x1 x2 x3)
def kst_main_v393 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((broadcastInDim S4x1048576 ![0, 1] bcast_S1x1048576_S4x1048576_0_1) : (⟨S1x1048576, .f32⟩ : BufTy).Contents (Elt F) → (⟨S4x1048576, .f32⟩ : BufTy).Contents (Elt F)) (kst_main_v383 (F := F) x0 x1 x2 x3)
def kst_main_v394 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((mulf) : (⟨S4x1048576, .f32⟩ : BufTy).Contents (Elt F) → (⟨S4x1048576, .f32⟩ : BufTy).Contents (Elt F) → (⟨S4x1048576, .f32⟩ : BufTy).Contents (Elt F)) (kst_main_v392 (F := F) x0 x1 x2 x3) (kst_main_v393 (F := F) x0 x1 x2 x3)
def kst_main_v395 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((addf) : (⟨S4x1048576, .f32⟩ : BufTy).Contents (Elt F) → (⟨S4x1048576, .f32⟩ : BufTy).Contents (Elt F) → (⟨S4x1048576, .f32⟩ : BufTy).Contents (Elt F)) (kst_main_v358 (F := F) x0 x1 x2 x3) (kst_main_v394 (F := F) x0 x1 x2 x3)
def kst_main_v396 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((subf) : (⟨S4x1048576, .f32⟩ : BufTy).Contents (Elt F) → (⟨S4x1048576, .f32⟩ : BufTy).Contents (Elt F) → (⟨S4x1048576, .f32⟩ : BufTy).Contents (Elt F)) (kst_main_v382 (F := F) x0 x1 x2 x3) (kst_main_v374 (F := F) x0 x1 x2 x3)
def kst_main_v397 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((broadcastInDim S4x1048576 ![0, 1] bcast_S1x1048576_S4x1048576_0_1) : (⟨S1x1048576, .f32⟩ : BufTy).Contents (Elt F) → (⟨S4x1048576, .f32⟩ : BufTy).Contents (Elt F)) (kst_main_v383 (F := F) x0 x1 x2 x3)
def kst_main_v398 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((mulf) : (⟨S4x1048576, .f32⟩ : BufTy).Contents (Elt F) → (⟨S4x1048576, .f32⟩ : BufTy).Contents (Elt F) → (⟨S4x1048576, .f32⟩ : BufTy).Contents (Elt F)) (kst_main_v396 (F := F) x0 x1 x2 x3) (kst_main_v397 (F := F) x0 x1 x2 x3)
def kst_main_v399 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S4x1048576, .f32⟩ : BufTy).Contents (Elt F) :=
  ((addf) : (⟨S4x1048576, .f32⟩ : BufTy).Contents (Elt F) → (⟨S4x1048576, .f32⟩ : BufTy).Contents (Elt F) → (⟨S4x1048576, .f32⟩ : BufTy).Contents (Elt F)) (kst_main_v374 (F := F) x0 x1 x2 x3) (kst_main_v398 (F := F) x0 x1 x2 x3)
def kst_main_v400 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S12x1048576, .f32⟩ : BufTy).Contents (Elt F) :=
  concatenate S12x1048576 0 [⟨S4x1048576, (kst_main_v125 (F := F) x0 x1 x2 x3)⟩, ⟨S4x1048576, (kst_main_v256 (F := F) x0 x1 x2 x3)⟩, ⟨S4x1048576, (kst_main_v387 (F := F) x0 x1 x2 x3)⟩] concatenates_S4x1048576_S4x1048576_S4x1048576_S12x1048576_d0
def kst_main_v401 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S12x1048576, .f32⟩ : BufTy).Contents (Elt F) :=
  concatenate S12x1048576 0 [⟨S4x1048576, (kst_main_v129 (F := F) x0 x1 x2 x3)⟩, ⟨S4x1048576, (kst_main_v260 (F := F) x0 x1 x2 x3)⟩, ⟨S4x1048576, (kst_main_v391 (F := F) x0 x1 x2 x3)⟩] concatenates_S4x1048576_S4x1048576_S4x1048576_S12x1048576_d0
def kst_main_v402 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S12x1048576, .f32⟩ : BufTy).Contents (Elt F) :=
  concatenate S12x1048576 0 [⟨S4x1048576, (kst_main_v133 (F := F) x0 x1 x2 x3)⟩, ⟨S4x1048576, (kst_main_v264 (F := F) x0 x1 x2 x3)⟩, ⟨S4x1048576, (kst_main_v395 (F := F) x0 x1 x2 x3)⟩] concatenates_S4x1048576_S4x1048576_S4x1048576_S12x1048576_d0
def kst_main_v403 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S12x1048576, .f32⟩ : BufTy).Contents (Elt F) :=
  concatenate S12x1048576 0 [⟨S4x1048576, (kst_main_v137 (F := F) x0 x1 x2 x3)⟩, ⟨S4x1048576, (kst_main_v268 (F := F) x0 x1 x2 x3)⟩, ⟨S4x1048576, (kst_main_v399 (F := F) x0 x1 x2 x3)⟩] concatenates_S4x1048576_S4x1048576_S4x1048576_S12x1048576_d0
def kst_main_v404 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1x1048576, .f32⟩ : BufTy).Contents (Elt F) :=
  ((broadcastInDim S1x1048576 ![1] bcast_S1048576_S1x1048576_1) : (⟨S1048576, .f32⟩ : BufTy).Contents (Elt F) → (⟨S1x1048576, .f32⟩ : BufTy).Contents (Elt F)) (kst_main_v4 (F := F) x0 x1 x2 x3)
def kst_main_v405 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S1x1048576, .f32⟩ : BufTy).Contents (Elt F) :=
  ((broadcastInDim S1x1048576 ![1] bcast_S1048576_S1x1048576_1) : (⟨S1048576, .f32⟩ : BufTy).Contents (Elt F) → (⟨S1x1048576, .f32⟩ : BufTy).Contents (Elt F)) (kst_main_v6 (F := F) x0 x1 x2 x3)
def kst_main_v406 (x0 : (⟨S1x1x1x1048576x3, .f32⟩ : BufTy).Contents (Elt F)) (x1 : (⟨S1x4x64x64x64, .f32⟩ : BufTy).Contents (Elt F)) (x2 : (⟨S1x4x128x128x128, .f32⟩ : BufTy).Contents (Elt F)) (x3 : (⟨S1x4x192x192x192, .f32⟩ : BufTy).Contents (Elt F)) : (⟨S2x1048576, .f32⟩ : BufTy).Contents (Elt F) :=
  (((fun a b => concatenate S2x1048576 0 [⟨S1x1048576, a⟩, ⟨S1x1048576, b⟩] concatenates_S1x1048576_S1x1048576_S2x1048576_d0)) : (⟨S1x1048576, .f32⟩ : BufTy).Contents (Elt F) → (⟨S1x1048576, .f32⟩ : BufTy).Contents (Elt F) → (⟨S2x1048576, .f32⟩ : BufTy).Contents (Elt F)) (kst_main_v404 (F := F) x0 x1 x2 x3) (kst_main_v405 (F := F) x0 x1 x2 x3)

end Cert.KernelIdeal.Host

end
-- ==== Proof.EntryIdealA.lean ====
/-
  The region's entry buffers of `KernelIdeal` are the last stages of the host prefix: the contents of each buffer the
  region reads, as the region finds it, is that buffer's stage function of the argument arrays as launched.
-/
import proofs.«113233_j37486474559588_2_alg».proof.Proof.AroundIdeal
import proofs.«113233_j37486474559588_2_alg».proof.Proof.HostStagesIdeal

set_option maxRecDepth 16384

noncomputable section

namespace Cert.KernelIdeal.Around

open Cert.KernelIdeal Cert.KernelIdeal.Gen Cert.KernelIdeal.Host
open Idealize.ShloMosaic Idealize.ShloMosaic.TcCoe Idealize.ShloMosaic.Tactic Idealize.ShloMosaic.StableHlo
open Idealize.SL Idealize.SL.Sem

variable {F : FTy → Type} [FloatOps F]
variable (m : (ℓ : Loc nD τ sig) → Buf (Elt F) ℓ)

set_option maxHeartbeats 400000000 in
/-- What the region finds in `main_v400` is its stage function of the launch contents of the argument arrays. -/
theorem entry_main_v400 (c : Dev nD) : V m c main_v400 = kst_main_v400 (F := F) (m ((c.tc : Thread nD τ).loc main_arg0)) (m ((c.tc : Thread nD τ).loc main_arg1)) (m ((c.tc : Thread nD τ).loc main_arg2)) (m ((c.tc : Thread nD τ).loc main_arg3)) := by
  dsimp only [V, V0]
  simp only [before, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, List.flatten_cons, List.flatten_nil, List.append_nil, List.cons_append, List.nil_append]
  after_results_simp
  all_goals rfl

end Cert.KernelIdeal.Around

end
-- ==== Proof.EntryIdealB.lean ====
/-
  The region's entry buffers of `KernelIdeal` are the last stages of the host prefix: the contents of each buffer the
  region reads, as the region finds it, is that buffer's stage function of the argument arrays as launched.
-/
import proofs.«113233_j37486474559588_2_alg».proof.Proof.AroundIdeal
import proofs.«113233_j37486474559588_2_alg».proof.Proof.HostStagesIdeal

set_option maxRecDepth 16384

noncomputable section

namespace Cert.KernelIdeal.Around

open Cert.KernelIdeal Cert.KernelIdeal.Gen Cert.KernelIdeal.Host
open Idealize.ShloMosaic Idealize.ShloMosaic.TcCoe Idealize.ShloMosaic.Tactic Idealize.ShloMosaic.StableHlo
open Idealize.SL Idealize.SL.Sem

variable {F : FTy → Type} [FloatOps F]
variable (m : (ℓ : Loc nD τ sig) → Buf (Elt F) ℓ)

set_option maxHeartbeats 400000000 in
/-- What the region finds in `main_v401` is its stage function of the launch contents of the argument arrays. -/
theorem entry_main_v401 (c : Dev nD) : V m c main_v401 = kst_main_v401 (F := F) (m ((c.tc : Thread nD τ).loc main_arg0)) (m ((c.tc : Thread nD τ).loc main_arg1)) (m ((c.tc : Thread nD τ).loc main_arg2)) (m ((c.tc : Thread nD τ).loc main_arg3)) := by
  dsimp only [V, V0]
  simp only [before, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, List.flatten_cons, List.flatten_nil, List.append_nil, List.cons_append, List.nil_append]
  after_results_simp
  all_goals rfl

end Cert.KernelIdeal.Around

end
-- ==== Proof.EntryIdealC.lean ====
/-
  The region's entry buffers of `KernelIdeal` are the last stages of the host prefix: the contents of each buffer the
  region reads, as the region finds it, is that buffer's stage function of the argument arrays as launched.
-/
import proofs.«113233_j37486474559588_2_alg».proof.Proof.AroundIdeal
import proofs.«113233_j37486474559588_2_alg».proof.Proof.HostStagesIdeal

set_option maxRecDepth 16384

noncomputable section

namespace Cert.KernelIdeal.Around

open Cert.KernelIdeal Cert.KernelIdeal.Gen Cert.KernelIdeal.Host
open Idealize.ShloMosaic Idealize.ShloMosaic.TcCoe Idealize.ShloMosaic.Tactic Idealize.ShloMosaic.StableHlo
open Idealize.SL Idealize.SL.Sem

variable {F : FTy → Type} [FloatOps F]
variable (m : (ℓ : Loc nD τ sig) → Buf (Elt F) ℓ)

set_option maxHeartbeats 400000000 in
/-- What the region finds in `main_v402` is its stage function of the launch contents of the argument arrays. -/
theorem entry_main_v402 (c : Dev nD) : V m c main_v402 = kst_main_v402 (F := F) (m ((c.tc : Thread nD τ).loc main_arg0)) (m ((c.tc : Thread nD τ).loc main_arg1)) (m ((c.tc : Thread nD τ).loc main_arg2)) (m ((c.tc : Thread nD τ).loc main_arg3)) := by
  dsimp only [V, V0]
  simp only [before, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, List.flatten_cons, List.flatten_nil, List.append_nil, List.cons_append, List.nil_append]
  after_results_simp
  all_goals rfl

end Cert.KernelIdeal.Around

end
-- ==== Proof.EntryIdealD.lean ====
/-
  The region's entry buffers of `KernelIdeal` are the last stages of the host prefix: the contents of each buffer the
  region reads, as the region finds it, is that buffer's stage function of the argument arrays as launched.
-/
import proofs.«113233_j37486474559588_2_alg».proof.Proof.AroundIdeal
import proofs.«113233_j37486474559588_2_alg».proof.Proof.HostStagesIdeal

set_option maxRecDepth 16384

noncomputable section

namespace Cert.KernelIdeal.Around

open Cert.KernelIdeal Cert.KernelIdeal.Gen Cert.KernelIdeal.Host
open Idealize.ShloMosaic Idealize.ShloMosaic.TcCoe Idealize.ShloMosaic.Tactic Idealize.ShloMosaic.StableHlo
open Idealize.SL Idealize.SL.Sem

variable {F : FTy → Type} [FloatOps F]
variable (m : (ℓ : Loc nD τ sig) → Buf (Elt F) ℓ)

set_option maxHeartbeats 400000000 in
/-- What the region finds in `main_v403` is its stage function of the launch contents of the argument arrays. -/
theorem entry_main_v403 (c : Dev nD) : V m c main_v403 = kst_main_v403 (F := F) (m ((c.tc : Thread nD τ).loc main_arg0)) (m ((c.tc : Thread nD τ).loc main_arg1)) (m ((c.tc : Thread nD τ).loc main_arg2)) (m ((c.tc : Thread nD τ).loc main_arg3)) := by
  dsimp only [V, V0]
  simp only [before, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, List.flatten_cons, List.flatten_nil, List.append_nil, List.cons_append, List.nil_append]
  after_results_simp
  all_goals rfl

end Cert.KernelIdeal.Around

end
-- ==== Proof.EntryIdealE.lean ====
/-
  The region's entry buffers of `KernelIdeal` are the last stages of the host prefix: the contents of each buffer the
  region reads, as the region finds it, is that buffer's stage function of the argument arrays as launched.
-/
import proofs.«113233_j37486474559588_2_alg».proof.Proof.AroundIdeal
import proofs.«113233_j37486474559588_2_alg».proof.Proof.HostStagesIdeal

set_option maxRecDepth 16384

noncomputable section

namespace Cert.KernelIdeal.Around

open Cert.KernelIdeal Cert.KernelIdeal.Gen Cert.KernelIdeal.Host
open Idealize.ShloMosaic Idealize.ShloMosaic.TcCoe Idealize.ShloMosaic.Tactic Idealize.ShloMosaic.StableHlo
open Idealize.SL Idealize.SL.Sem

variable {F : FTy → Type} [FloatOps F]
variable (m : (ℓ : Loc nD τ sig) → Buf (Elt F) ℓ)

set_option maxHeartbeats 400000000 in
/-- What the region finds in `main_v406` is its stage function of the launch contents of the argument arrays. -/
theorem entry_main_v406 (c : Dev nD) : V m c main_v406 = kst_main_v406 (F := F) (m ((c.tc : Thread nD τ).loc main_arg0)) (m ((c.tc : Thread nD τ).loc main_arg1)) (m ((c.tc : Thread nD τ).loc main_arg2)) (m ((c.tc : Thread nD τ).loc main_arg3)) := by
  dsimp only [V, V0]
  simp only [before, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, List.flatten_cons, List.flatten_nil, List.append_nil, List.cons_append, List.nil_append]
  after_results_simp
  all_goals rfl

end Cert.KernelIdeal.Around

end
-- ==== Proof.GlueEntry0.lean ====
/-
  The arrays the kernel region of `KernelIdeal` finds, read at one element of the rows of volume 0 (rows 0 to 3 of
  each 12-row stack), first as stages of the host prefix and then as stages of the reference program. Row `0 + q` of
  a stack is row `q` of volume 0's x-interpolation of two gathered corner rows; that x-interpolation at `(q, n)` is
  its x0 corner plus the difference to its x1 corner times volume 0's x weight of column `n` (the weight broadcast to
  a row and then down the four channels); the reference computes its own x-interpolation by the same three
  operations from its own corners and weight, so the two agree at an entry as soon as the corners and the weight do;
  and what the region finds in a stack is the stack's stage of the argument arrays as launched.
  The 2-row coordinate stack holds, at column `n`, the raw y and z coordinates of query point `n` (the grid reshaped
  to [N, 3], a column sliced, reshaped to [N] and broadcast to a row).
-/
import proofs.«113233_j37486474559588_2_alg».proof.Proof.HostStagesIdeal
import proofs.«113233_j37486474559588_2_alg».proof.Proof.RefReadP
import proofs.«113233_j37486474559588_2_alg».proof.Proof.EntryIdealA
import proofs.«113233_j37486474559588_2_alg».proof.Proof.EntryIdealB
import proofs.«113233_j37486474559588_2_alg».proof.Proof.EntryIdealC
import proofs.«113233_j37486474559588_2_alg».proof.Proof.EntryIdealD
import proofs.«113233_j37486474559588_2_alg».proof.Proof.EntryIdealE
import Idealize.ShloMosaic.Lib.Pipeline.Value
import Idealize.ShloMosaic.Lib.ValueIdx
import Idealize.ShloMosaic.Lib.ValueIdxCoords
import Idealize.ShloMosaic.Lib.ValueLayout

set_option maxRecDepth 16384

noncomputable section

namespace Cert.KernelIdeal.Glue

open Cert.KernelIdeal Cert.KernelIdeal.Gen Cert.KernelIdeal.Host
open Idealize.ShloMosaic Idealize.ShloMosaic.TcCoe Idealize.SL.Sem Idealize.ShloMosaic.StableHlo
open Idealize.ShloMosaic.ValueIdx

variable (x0 : (⟨S1x1x1x1048576x3, .f32⟩ : BufTy).Contents (Elt Ideal)) (x1 : (⟨S1x4x64x64x64, .f32⟩ : BufTy).Contents (Elt Ideal))
  (x2 : (⟨S1x4x128x128x128, .f32⟩ : BufTy).Contents (Elt Ideal)) (x3 : (⟨S1x4x192x192x192, .f32⟩ : BufTy).Contents (Elt Ideal))

/-! ## The 12-row stacks read at a row of volume 0 -/

/-- Rows 0-3 of the c00 stack are volume 0's x-interpolation of the corners (y0, z0). -/
theorem stack400_rows0 (r : Fin 12) (hr : r.val < 4) (n : Fin 1048576) :
    kst_main_v400 (F := Ideal) x0 x1 x2 x3 (ix2 r n) = kst_main_v125 (F := Ideal) x0 x1 x2 x3 (ix2 (⟨r.val, hr⟩ : Fin 4) n) := by
  unfold kst_main_v400
  refine concatenate_apply_piece (0 : Fin 2) _ _ (ix2 r n) 0 ?hk S4x1048576 ?x1 ?hxk rfl 0 ?hpre
    (ix2 (⟨r.val, hr⟩ : Fin 4) n) ?hi ?ha
  case hk => exact Nat.zero_lt_succ _
  case hxk => rfl
  case hpre => rfl
  case hi =>
    intro b hb
    match b with
    | ⟨0, _⟩ => exact absurd rfl hb
    | ⟨1, _⟩ => rfl
  case ha => show 0 + r.val = r.val; omega

/-- Rows 0-3 of the c01 stack. -/
theorem stack401_rows0 (r : Fin 12) (hr : r.val < 4) (n : Fin 1048576) :
    kst_main_v401 (F := Ideal) x0 x1 x2 x3 (ix2 r n) = kst_main_v129 (F := Ideal) x0 x1 x2 x3 (ix2 (⟨r.val, hr⟩ : Fin 4) n) := by
  unfold kst_main_v401
  refine concatenate_apply_piece (0 : Fin 2) _ _ (ix2 r n) 0 ?hk S4x1048576 ?x1 ?hxk rfl 0 ?hpre
    (ix2 (⟨r.val, hr⟩ : Fin 4) n) ?hi ?ha
  case hk => exact Nat.zero_lt_succ _
  case hxk => rfl
  case hpre => rfl
  case hi =>
    intro b hb
    match b with
    | ⟨0, _⟩ => exact absurd rfl hb
    | ⟨1, _⟩ => rfl
  case ha => show 0 + r.val = r.val; omega

/-- Rows 0-3 of the c10 stack. -/
theorem stack402_rows0 (r : Fin 12) (hr : r.val < 4) (n : Fin 1048576) :
    kst_main_v402 (F := Ideal) x0 x1 x2 x3 (ix2 r n) = kst_main_v133 (F := Ideal) x0 x1 x2 x3 (ix2 (⟨r.val, hr⟩ : Fin 4) n) := by
  unfold kst_main_v402
  refine concatenate_apply_piece (0 : Fin 2) _ _ (ix2 r n) 0 ?hk S4x1048576 ?x1 ?hxk rfl 0 ?hpre
    (ix2 (⟨r.val, hr⟩ : Fin 4) n) ?hi ?ha
  case hk => exact Nat.zero_lt_succ _
  case hxk => rfl
  case hpre => rfl
  case hi =>
    intro b hb
    match b with
    | ⟨0, _⟩ => exact absurd rfl hb
    | ⟨1, _⟩ => rfl
  case ha => show 0 + r.val = r.val; omega

/-- Rows 0-3 of the c11 stack. -/
theorem stack403_rows0 (r : Fin 12) (hr : r.val < 4) (n : Fin 1048576) :
    kst_main_v403 (F := Ideal) x0 x1 x2 x3 (ix2 r n) = kst_main_v137 (F := Ideal) x0 x1 x2 x3 (ix2 (⟨r.val, hr⟩ : Fin 4) n) := by
  unfold kst_main_v403
  refine concatenate_apply_piece (0 : Fin 2) _ _ (ix2 r n) 0 ?hk S4x1048576 ?x1 ?hxk rfl 0 ?hpre
    (ix2 (⟨r.val, hr⟩ : Fin 4) n) ?hi ?ha
  case hk => exact Nat.zero_lt_succ _
  case hxk => rfl
  case hpre => rfl
  case hi =>
    intro b hb
    match b with
    | ⟨0, _⟩ => exact absurd rfl hb
    | ⟨1, _⟩ => rfl
  case ha => show 0 + r.val = r.val; omega

/-! ## The coordinate rows -/

/-- Component `k` of query point `n`, read through the grid's reshape to [N, 3], the slice of column `k` and the
    reshape to [N]. -/
theorem grid_col1 (n : Fin 1048576) :
    kst_main_v4 (F := Ideal) x0 x1 x2 x3 (ix1 n) = x0 (ix5 (0 : Fin 1) (0 : Fin 1) (0 : Fin 1) n (1 : Fin 3)) := by
  unfold kst_main_v4
  refine (shapeCast_apply _ _ (ix1 n) (ix2 n (0 : Fin 1)) (by
    rw [Shape.rowMajor_val_two, Shape.rowMajor_val_one]; show n.val * 1 + 0 = n.val; omega)).trans ?_
  unfold kst_main_v3
  refine (extractStridedSlice_apply _ _ _ (ix2 n (0 : Fin 1)) (ix2 n (1 : Fin 3)) (fun a => match a with
    | ⟨0, _⟩ => by show n.val = 0 + n.val; omega
    | ⟨1, _⟩ => rfl)).trans ?_
  unfold kst_main_v0
  exact shapeCast_apply _ _ (ix2 n (1 : Fin 3)) (ix5 (0 : Fin 1) (0 : Fin 1) (0 : Fin 1) n (1 : Fin 3)) (by
    rw [Shape.rowMajor_val_five, Shape.rowMajor_val_two]
    show (((0 * 1 + 0) * 1 + 0) * 1048576 + n.val) * 3 + 1 = n.val * 3 + 1; omega)

theorem grid_col2 (n : Fin 1048576) :
    kst_main_v6 (F := Ideal) x0 x1 x2 x3 (ix1 n) = x0 (ix5 (0 : Fin 1) (0 : Fin 1) (0 : Fin 1) n (2 : Fin 3)) := by
  unfold kst_main_v6
  refine (shapeCast_apply _ _ (ix1 n) (ix2 n (0 : Fin 1)) (by
    rw [Shape.rowMajor_val_two, Shape.rowMajor_val_one]; show n.val * 1 + 0 = n.val; omega)).trans ?_
  unfold kst_main_v5
  refine (extractStridedSlice_apply _ _ _ (ix2 n (0 : Fin 1)) (ix2 n (2 : Fin 3)) (fun a => match a with
    | ⟨0, _⟩ => by show n.val = 0 + n.val; omega
    | ⟨1, _⟩ => rfl)).trans ?_
  unfold kst_main_v0
  exact shapeCast_apply _ _ (ix2 n (2 : Fin 3)) (ix5 (0 : Fin 1) (0 : Fin 1) (0 : Fin 1) n (2 : Fin 3)) (by
    rw [Shape.rowMajor_val_five, Shape.rowMajor_val_two]
    show (((0 * 1 + 0) * 1 + 0) * 1048576 + n.val) * 3 + 2 = n.val * 3 + 2; omega)

/-- Row 0 of the coordinate stack is the raw y coordinate of the query point. -/
theorem stack406_row0 (n : Fin 1048576) :
    kst_main_v406 (F := Ideal) x0 x1 x2 x3 (ix2 (0 : Fin 2) n) = x0 (ix5 (0 : Fin 1) (0 : Fin 1) (0 : Fin 1) n (1 : Fin 3)) := by
  unfold kst_main_v406
  refine (concatenate_pair_apply_left (s₁ := S1x1048576) (s₂ := S1x1048576) (0 : Fin 2) _ _ _ (ix2 (0 : Fin 2) n) rfl (ix2 (0 : Fin 1) n) (fun b => match b with
    | ⟨0, _⟩ => rfl
    | ⟨1, _⟩ => rfl)).trans ?_
  unfold kst_main_v404
  refine (broadcastInDim_apply _ _ _ (ix2 (0 : Fin 1) n) (ix1 n) (fun a => match a with
    | ⟨0, _⟩ => by show n.val = if (1048576 : Nat) = 1 then 0 else n.val; rw [if_neg (by decide)])).trans ?_
  exact grid_col1 x0 x1 x2 x3 n

/-- Row 1 of the coordinate stack is the raw z coordinate of the query point. -/
theorem stack406_row1 (n : Fin 1048576) :
    kst_main_v406 (F := Ideal) x0 x1 x2 x3 (ix2 (1 : Fin 2) n) = x0 (ix5 (0 : Fin 1) (0 : Fin 1) (0 : Fin 1) n (2 : Fin 3)) := by
  unfold kst_main_v406
  refine (concatenate_pair_apply_right (s₁ := S1x1048576) (s₂ := S1x1048576) (0 : Fin 2) _ _ _ (ix2 (1 : Fin 2) n) rfl rfl (ix2 (0 : Fin 1) n) (fun b hb => match b with
    | ⟨0, _⟩ => absurd rfl hb
    | ⟨1, _⟩ => rfl) rfl).trans ?_
  unfold kst_main_v405
  refine (broadcastInDim_apply _ _ _ (ix2 (0 : Fin 1) n) (ix1 n) (fun a => match a with
    | ⟨0, _⟩ => by show n.val = if (1048576 : Nat) = 1 then 0 else n.val; rw [if_neg (by decide)])).trans ?_
  exact grid_col2 x0 x1 x2 x3 n

/-! ## The x-interpolations at an entry -/

/-- The x weight broadcast to a row and then down the four channels reads the weight of the column. -/
theorem xweight_apply (q : Fin 4) (n : Fin 1048576) :
    (broadcastInDim S4x1048576 ![0, 1] bcast_S1x1048576_S4x1048576_0_1 (kst_main_v121 (F := Ideal) x0 x1 x2 x3)) (ix2 q n)
      = kst_main_v38 (F := Ideal) x0 x1 x2 x3 (ix1 n) := by
  refine (broadcastInDim_apply _ _ _ (ix2 q n) (ix2 (0 : Fin 1) n) (fun a => match a with
    | ⟨0, _⟩ => by show 0 = if (1 : Nat) = 1 then 0 else q.val; rw [if_pos rfl]
    | ⟨1, _⟩ => by show n.val = if (1048576 : Nat) = 1 then 0 else n.val; rw [if_neg (by decide)])).trans ?_
  unfold kst_main_v121
  exact broadcastInDim_apply _ _ _ (ix2 (0 : Fin 1) n) (ix1 n) (fun a => match a with
    | ⟨0, _⟩ => by show n.val = if (1048576 : Nat) = 1 then 0 else n.val; rw [if_neg (by decide)])

/-- Volume 0's c00 at an entry: its x0 corner moved toward its x1 corner by the x weight. -/
theorem interp125_apply (q : Fin 4) (n : Fin 1048576) :
    kst_main_v125 (F := Ideal) x0 x1 x2 x3 (ix2 q n)
      = kst_main_v64 (F := Ideal) x0 x1 x2 x3 (ix2 q n)
        + (kst_main_v72 (F := Ideal) x0 x1 x2 x3 (ix2 q n) - kst_main_v64 (F := Ideal) x0 x1 x2 x3 (ix2 q n))
          * kst_main_v38 (F := Ideal) x0 x1 x2 x3 (ix1 n) := by
  unfold kst_main_v125 kst_main_v124 kst_main_v122 kst_main_v123
  exact congrArg (fun w => kst_main_v64 (F := Ideal) x0 x1 x2 x3 (ix2 q n)
        + (kst_main_v72 (F := Ideal) x0 x1 x2 x3 (ix2 q n) - kst_main_v64 (F := Ideal) x0 x1 x2 x3 (ix2 q n)) * w)
    (xweight_apply x0 x1 x2 x3 q n)

/-- Volume 0's c01 at an entry: its x0 corner moved toward its x1 corner by the x weight. -/
theorem interp129_apply (q : Fin 4) (n : Fin 1048576) :
    kst_main_v129 (F := Ideal) x0 x1 x2 x3 (ix2 q n)
      = kst_main_v80 (F := Ideal) x0 x1 x2 x3 (ix2 q n)
        + (kst_main_v88 (F := Ideal) x0 x1 x2 x3 (ix2 q n) - kst_main_v80 (F := Ideal) x0 x1 x2 x3 (ix2 q n))
          * kst_main_v38 (F := Ideal) x0 x1 x2 x3 (ix1 n) := by
  unfold kst_main_v129 kst_main_v128 kst_main_v126 kst_main_v127
  exact congrArg (fun w => kst_main_v80 (F := Ideal) x0 x1 x2 x3 (ix2 q n)
        + (kst_main_v88 (F := Ideal) x0 x1 x2 x3 (ix2 q n) - kst_main_v80 (F := Ideal) x0 x1 x2 x3 (ix2 q n)) * w)
    (xweight_apply x0 x1 x2 x3 q n)

/-- Volume 0's c10 at an entry: its x0 corner moved toward its x1 corner by the x weight. -/
theorem interp133_apply (q : Fin 4) (n : Fin 1048576) :
    kst_main_v133 (F := Ideal) x0 x1 x2 x3 (ix2 q n)
      = kst_main_v96 (F := Ideal) x0 x1 x2 x3 (ix2 q n)
        + (kst_main_v104 (F := Ideal) x0 x1 x2 x3 (ix2 q n) - kst_main_v96 (F := Ideal) x0 x1 x2 x3 (ix2 q n))
          * kst_main_v38 (F := Ideal) x0 x1 x2 x3 (ix1 n) := by
  unfold kst_main_v133 kst_main_v132 kst_main_v130 kst_main_v131
  exact congrArg (fun w => kst_main_v96 (F := Ideal) x0 x1 x2 x3 (ix2 q n)
        + (kst_main_v104 (F := Ideal) x0 x1 x2 x3 (ix2 q n) - kst_main_v96 (F := Ideal) x0 x1 x2 x3 (ix2 q n)) * w)
    (xweight_apply x0 x1 x2 x3 q n)

/-- Volume 0's c11 at an entry: its x0 corner moved toward its x1 corner by the x weight. -/
theorem interp137_apply (q : Fin 4) (n : Fin 1048576) :
    kst_main_v137 (F := Ideal) x0 x1 x2 x3 (ix2 q n)
      = kst_main_v112 (F := Ideal) x0 x1 x2 x3 (ix2 q n)
        + (kst_main_v120 (F := Ideal) x0 x1 x2 x3 (ix2 q n) - kst_main_v112 (F := Ideal) x0 x1 x2 x3 (ix2 q n))
          * kst_main_v38 (F := Ideal) x0 x1 x2 x3 (ix1 n) := by
  unfold kst_main_v137 kst_main_v136 kst_main_v134 kst_main_v135
  exact congrArg (fun w => kst_main_v112 (F := Ideal) x0 x1 x2 x3 (ix2 q n)
        + (kst_main_v120 (F := Ideal) x0 x1 x2 x3 (ix2 q n) - kst_main_v112 (F := Ideal) x0 x1 x2 x3 (ix2 q n)) * w)
    (xweight_apply x0 x1 x2 x3 q n)

/-! ## The reference's x-interpolations of volume 0 at an entry, and the two programs' agreement there -/

/-- The reference's x-interpolation %179 at an entry: its x0 corner plus the difference to its x1 corner times
    the x weight of the column. -/
theorem ref179_apply (q : Fin 4) (n : Fin 1048576) :
    Cert.ReferenceIdeal.ReadP.val_main_v179 (F := Ideal) x0 x1 (ix2 q n)
      = Cert.ReferenceIdeal.ReadP.val_main_v83 (F := Ideal) x0 x1 (ix2 q n)
        + (Cert.ReferenceIdeal.ReadP.val_main_v96 (F := Ideal) x0 x1 (ix2 q n) - Cert.ReferenceIdeal.ReadP.val_main_v83 (F := Ideal) x0 x1 (ix2 q n))
          * Cert.ReferenceIdeal.ReadP.val_main_v42 (F := Ideal) x0 (ix1 n) := by
  have hw : Cert.ReferenceIdeal.ReadP.val_main_v177 (F := Ideal) x0 (ix2 q n) = Cert.ReferenceIdeal.ReadP.val_main_v42 (F := Ideal) x0 (ix1 n) :=
    (Cert.ReferenceIdeal.ReadP.val_main_v177_apply x0 (ix2 q n)).trans ((Cert.ReferenceIdeal.ReadP.val_main_v176_apply x0 _).trans
      (congrArg (Cert.ReferenceIdeal.ReadP.val_main_v42 (F := Ideal) x0) (funext fun a => match a with | ⟨0, _⟩ => rfl)))
  unfold Cert.ReferenceIdeal.ReadP.val_main_v179 Cert.ReferenceIdeal.ReadP.val_main_v178 Cert.ReferenceIdeal.ReadP.val_main_v175
  exact congrArg (fun w => Cert.ReferenceIdeal.ReadP.val_main_v83 (F := Ideal) x0 x1 (ix2 q n)
        + (Cert.ReferenceIdeal.ReadP.val_main_v96 (F := Ideal) x0 x1 (ix2 q n) - Cert.ReferenceIdeal.ReadP.val_main_v83 (F := Ideal) x0 x1 (ix2 q n)) * w) hw

/-- The reference's x-interpolation %184 at an entry: its x0 corner plus the difference to its x1 corner times
    the x weight of the column. -/
theorem ref184_apply (q : Fin 4) (n : Fin 1048576) :
    Cert.ReferenceIdeal.ReadP.val_main_v184 (F := Ideal) x0 x1 (ix2 q n)
      = Cert.ReferenceIdeal.ReadP.val_main_v109 (F := Ideal) x0 x1 (ix2 q n)
        + (Cert.ReferenceIdeal.ReadP.val_main_v122 (F := Ideal) x0 x1 (ix2 q n) - Cert.ReferenceIdeal.ReadP.val_main_v109 (F := Ideal) x0 x1 (ix2 q n))
          * Cert.ReferenceIdeal.ReadP.val_main_v42 (F := Ideal) x0 (ix1 n) := by
  have hw : Cert.ReferenceIdeal.ReadP.val_main_v182 (F := Ideal) x0 (ix2 q n) = Cert.ReferenceIdeal.ReadP.val_main_v42 (F := Ideal) x0 (ix1 n) :=
    (Cert.ReferenceIdeal.ReadP.val_main_v182_apply x0 (ix2 q n)).trans ((Cert.ReferenceIdeal.ReadP.val_main_v181_apply x0 _).trans
      (congrArg (Cert.ReferenceIdeal.ReadP.val_main_v42 (F := Ideal) x0) (funext fun a => match a with | ⟨0, _⟩ => rfl)))
  unfold Cert.ReferenceIdeal.ReadP.val_main_v184 Cert.ReferenceIdeal.ReadP.val_main_v183 Cert.ReferenceIdeal.ReadP.val_main_v180
  exact congrArg (fun w => Cert.ReferenceIdeal.ReadP.val_main_v109 (F := Ideal) x0 x1 (ix2 q n)
        + (Cert.ReferenceIdeal.ReadP.val_main_v122 (F := Ideal) x0 x1 (ix2 q n) - Cert.ReferenceIdeal.ReadP.val_main_v109 (F := Ideal) x0 x1 (ix2 q n)) * w) hw

/-- The reference's x-interpolation %189 at an entry: its x0 corner plus the difference to its x1 corner times
    the x weight of the column. -/
theorem ref189_apply (q : Fin 4) (n : Fin 1048576) :
    Cert.ReferenceIdeal.ReadP.val_main_v189 (F := Ideal) x0 x1 (ix2 q n)
      = Cert.ReferenceIdeal.ReadP.val_main_v135 (F := Ideal) x0 x1 (ix2 q n)
        + (Cert.ReferenceIdeal.ReadP.val_main_v148 (F := Ideal) x0 x1 (ix2 q n) - Cert.ReferenceIdeal.ReadP.val_main_v135 (F := Ideal) x0 x1 (ix2 q n))
          * Cert.ReferenceIdeal.ReadP.val_main_v42 (F := Ideal) x0 (ix1 n) := by
  have hw : Cert.ReferenceIdeal.ReadP.val_main_v187 (F := Ideal) x0 (ix2 q n) = Cert.ReferenceIdeal.ReadP.val_main_v42 (F := Ideal) x0 (ix1 n) :=
    (Cert.ReferenceIdeal.ReadP.val_main_v187_apply x0 (ix2 q n)).trans ((Cert.ReferenceIdeal.ReadP.val_main_v186_apply x0 _).trans
      (congrArg (Cert.ReferenceIdeal.ReadP.val_main_v42 (F := Ideal) x0) (funext fun a => match a with | ⟨0, _⟩ => rfl)))
  unfold Cert.ReferenceIdeal.ReadP.val_main_v189 Cert.ReferenceIdeal.ReadP.val_main_v188 Cert.ReferenceIdeal.ReadP.val_main_v185
  exact congrArg (fun w => Cert.ReferenceIdeal.ReadP.val_main_v135 (F := Ideal) x0 x1 (ix2 q n)
        + (Cert.ReferenceIdeal.ReadP.val_main_v148 (F := Ideal) x0 x1 (ix2 q n) - Cert.ReferenceIdeal.ReadP.val_main_v135 (F := Ideal) x0 x1 (ix2 q n)) * w) hw

/-- The reference's x-interpolation %194 at an entry: its x0 corner plus the difference to its x1 corner times
    the x weight of the column. -/
theorem ref194_apply (q : Fin 4) (n : Fin 1048576) :
    Cert.ReferenceIdeal.ReadP.val_main_v194 (F := Ideal) x0 x1 (ix2 q n)
      = Cert.ReferenceIdeal.ReadP.val_main_v161 (F := Ideal) x0 x1 (ix2 q n)
        + (Cert.ReferenceIdeal.ReadP.val_main_v174 (F := Ideal) x0 x1 (ix2 q n) - Cert.ReferenceIdeal.ReadP.val_main_v161 (F := Ideal) x0 x1 (ix2 q n))
          * Cert.ReferenceIdeal.ReadP.val_main_v42 (F := Ideal) x0 (ix1 n) := by
  have hw : Cert.ReferenceIdeal.ReadP.val_main_v192 (F := Ideal) x0 (ix2 q n) = Cert.ReferenceIdeal.ReadP.val_main_v42 (F := Ideal) x0 (ix1 n) :=
    (Cert.ReferenceIdeal.ReadP.val_main_v192_apply x0 (ix2 q n)).trans ((Cert.ReferenceIdeal.ReadP.val_main_v191_apply x0 _).trans
      (congrArg (Cert.ReferenceIdeal.ReadP.val_main_v42 (F := Ideal) x0) (funext fun a => match a with | ⟨0, _⟩ => rfl)))
  unfold Cert.ReferenceIdeal.ReadP.val_main_v194 Cert.ReferenceIdeal.ReadP.val_main_v193 Cert.ReferenceIdeal.ReadP.val_main_v190
  exact congrArg (fun w => Cert.ReferenceIdeal.ReadP.val_main_v161 (F := Ideal) x0 x1 (ix2 q n)
        + (Cert.ReferenceIdeal.ReadP.val_main_v174 (F := Ideal) x0 x1 (ix2 q n) - Cert.ReferenceIdeal.ReadP.val_main_v161 (F := Ideal) x0 x1 (ix2 q n)) * w) hw

/-- The kernel program's x-interpolation and the reference's agree at an entry once their two corners and the x
    weight do. -/
theorem glue125 (q : Fin 4) (n : Fin 1048576)
    (ha : kst_main_v64 (F := Ideal) x0 x1 x2 x3 (ix2 q n) = Cert.ReferenceIdeal.ReadP.val_main_v83 (F := Ideal) x0 x1 (ix2 q n))
    (hb : kst_main_v72 (F := Ideal) x0 x1 x2 x3 (ix2 q n) = Cert.ReferenceIdeal.ReadP.val_main_v96 (F := Ideal) x0 x1 (ix2 q n))
    (hw : kst_main_v38 (F := Ideal) x0 x1 x2 x3 (ix1 n) = Cert.ReferenceIdeal.ReadP.val_main_v42 (F := Ideal) x0 (ix1 n)) :
    kst_main_v125 (F := Ideal) x0 x1 x2 x3 (ix2 q n) = Cert.ReferenceIdeal.ReadP.val_main_v179 (F := Ideal) x0 x1 (ix2 q n) := by
  rw [interp125_apply, ref179_apply, ha, hb, hw]

/-- The kernel program's x-interpolation and the reference's agree at an entry once their two corners and the x
    weight do. -/
theorem glue129 (q : Fin 4) (n : Fin 1048576)
    (ha : kst_main_v80 (F := Ideal) x0 x1 x2 x3 (ix2 q n) = Cert.ReferenceIdeal.ReadP.val_main_v109 (F := Ideal) x0 x1 (ix2 q n))
    (hb : kst_main_v88 (F := Ideal) x0 x1 x2 x3 (ix2 q n) = Cert.ReferenceIdeal.ReadP.val_main_v122 (F := Ideal) x0 x1 (ix2 q n))
    (hw : kst_main_v38 (F := Ideal) x0 x1 x2 x3 (ix1 n) = Cert.ReferenceIdeal.ReadP.val_main_v42 (F := Ideal) x0 (ix1 n)) :
    kst_main_v129 (F := Ideal) x0 x1 x2 x3 (ix2 q n) = Cert.ReferenceIdeal.ReadP.val_main_v184 (F := Ideal) x0 x1 (ix2 q n) := by
  rw [interp129_apply, ref184_apply, ha, hb, hw]

/-- The kernel program's x-interpolation and the reference's agree at an entry once their two corners and the x
    weight do. -/
theorem glue133 (q : Fin 4) (n : Fin 1048576)
    (ha : kst_main_v96 (F := Ideal) x0 x1 x2 x3 (ix2 q n) = Cert.ReferenceIdeal.ReadP.val_main_v135 (F := Ideal) x0 x1 (ix2 q n))
    (hb : kst_main_v104 (F := Ideal) x0 x1 x2 x3 (ix2 q n) = Cert.ReferenceIdeal.ReadP.val_main_v148 (F := Ideal) x0 x1 (ix2 q n))
    (hw : kst_main_v38 (F := Ideal) x0 x1 x2 x3 (ix1 n) = Cert.ReferenceIdeal.ReadP.val_main_v42 (F := Ideal) x0 (ix1 n)) :
    kst_main_v133 (F := Ideal) x0 x1 x2 x3 (ix2 q n) = Cert.ReferenceIdeal.ReadP.val_main_v189 (F := Ideal) x0 x1 (ix2 q n) := by
  rw [interp133_apply, ref189_apply, ha, hb, hw]

/-- The kernel program's x-interpolation and the reference's agree at an entry once their two corners and the x
    weight do. -/
theorem glue137 (q : Fin 4) (n : Fin 1048576)
    (ha : kst_main_v112 (F := Ideal) x0 x1 x2 x3 (ix2 q n) = Cert.ReferenceIdeal.ReadP.val_main_v161 (F := Ideal) x0 x1 (ix2 q n))
    (hb : kst_main_v120 (F := Ideal) x0 x1 x2 x3 (ix2 q n) = Cert.ReferenceIdeal.ReadP.val_main_v174 (F := Ideal) x0 x1 (ix2 q n))
    (hw : kst_main_v38 (F := Ideal) x0 x1 x2 x3 (ix1 n) = Cert.ReferenceIdeal.ReadP.val_main_v42 (F := Ideal) x0 (ix1 n)) :
    kst_main_v137 (F := Ideal) x0 x1 x2 x3 (ix2 q n) = Cert.ReferenceIdeal.ReadP.val_main_v194 (F := Ideal) x0 x1 (ix2 q n) := by
  rw [interp137_apply, ref194_apply, ha, hb, hw]

/-! ## The region's entry arrays at an element of volume 0's rows -/

section Entry

open Cert.KernelIdeal.Around

variable (m : (ℓ : Loc nD τ sig) → Buf (Elt Ideal) ℓ)

/-- The four argument arrays as launched on core `c`: the grid and the three volumes. -/
abbrev A0 (c : Dev nD) := m ((c.tc : Thread nD τ).loc main_arg0)
abbrev A1 (c : Dev nD) := m ((c.tc : Thread nD τ).loc main_arg1)
abbrev A2 (c : Dev nD) := m ((c.tc : Thread nD τ).loc main_arg2)
abbrev A3 (c : Dev nD) := m ((c.tc : Thread nD τ).loc main_arg3)

/-- What the region finds in the c00 stack at a row of volume 0 is the reference's x-interpolation %179 there, once
    the two corners and the x weight agree. -/
theorem entry400_rows0 (c : Dev nD) (r : Fin 12) (hr : r.val < 4) (n : Fin 1048576)
    (ha : kst_main_v64 (F := Ideal) (A0 m c) (A1 m c) (A2 m c) (A3 m c) (ix2 (⟨r.val, hr⟩ : Fin 4) n)
      = Cert.ReferenceIdeal.ReadP.val_main_v83 (F := Ideal) (A0 m c) (A1 m c) (ix2 (⟨r.val, hr⟩ : Fin 4) n))
    (hb : kst_main_v72 (F := Ideal) (A0 m c) (A1 m c) (A2 m c) (A3 m c) (ix2 (⟨r.val, hr⟩ : Fin 4) n)
      = Cert.ReferenceIdeal.ReadP.val_main_v96 (F := Ideal) (A0 m c) (A1 m c) (ix2 (⟨r.val, hr⟩ : Fin 4) n))
    (hw : kst_main_v38 (F := Ideal) (A0 m c) (A1 m c) (A2 m c) (A3 m c) (ix1 n)
      = Cert.ReferenceIdeal.ReadP.val_main_v42 (F := Ideal) (A0 m c) (ix1 n)) :
    (V m c main_v400 : S12x1048576.Idx → EReal) (ix2 r n)
      = Cert.ReferenceIdeal.ReadP.val_main_v179 (F := Ideal) (A0 m c) (A1 m c) (ix2 (⟨r.val, hr⟩ : Fin 4) n) := by
  have e : (V m c main_v400 : S12x1048576.Idx → EReal) = kst_main_v400 (F := Ideal) (A0 m c) (A1 m c) (A2 m c) (A3 m c) :=
    entry_main_v400 m c
  exact (congrFun e (ix2 r n)).trans ((stack400_rows0 (A0 m c) (A1 m c) (A2 m c) (A3 m c) r hr n).trans
    (glue125 (A0 m c) (A1 m c) (A2 m c) (A3 m c) (⟨r.val, hr⟩ : Fin 4) n ha hb hw))

/-- What the region finds in the c01 stack at a row of volume 0 is the reference's x-interpolation %184 there, once
    the two corners and the x weight agree. -/
theorem entry401_rows0 (c : Dev nD) (r : Fin 12) (hr : r.val < 4) (n : Fin 1048576)
    (ha : kst_main_v80 (F := Ideal) (A0 m c) (A1 m c) (A2 m c) (A3 m c) (ix2 (⟨r.val, hr⟩ : Fin 4) n)
      = Cert.ReferenceIdeal.ReadP.val_main_v109 (F := Ideal) (A0 m c) (A1 m c) (ix2 (⟨r.val, hr⟩ : Fin 4) n))
    (hb : kst_main_v88 (F := Ideal) (A0 m c) (A1 m c) (A2 m c) (A3 m c) (ix2 (⟨r.val, hr⟩ : Fin 4) n)
      = Cert.ReferenceIdeal.ReadP.val_main_v122 (F := Ideal) (A0 m c) (A1 m c) (ix2 (⟨r.val, hr⟩ : Fin 4) n))
    (hw : kst_main_v38 (F := Ideal) (A0 m c) (A1 m c) (A2 m c) (A3 m c) (ix1 n)
      = Cert.ReferenceIdeal.ReadP.val_main_v42 (F := Ideal) (A0 m c) (ix1 n)) :
    (V m c main_v401 : S12x1048576.Idx → EReal) (ix2 r n)
      = Cert.ReferenceIdeal.ReadP.val_main_v184 (F := Ideal) (A0 m c) (A1 m c) (ix2 (⟨r.val, hr⟩ : Fin 4) n) := by
  have e : (V m c main_v401 : S12x1048576.Idx → EReal) = kst_main_v401 (F := Ideal) (A0 m c) (A1 m c) (A2 m c) (A3 m c) :=
    entry_main_v401 m c
  exact (congrFun e (ix2 r n)).trans ((stack401_rows0 (A0 m c) (A1 m c) (A2 m c) (A3 m c) r hr n).trans
    (glue129 (A0 m c) (A1 m c) (A2 m c) (A3 m c) (⟨r.val, hr⟩ : Fin 4) n ha hb hw))

/-- What the region finds in the c10 stack at a row of volume 0 is the reference's x-interpolation %189 there, once
    the two corners and the x weight agree. -/
theorem entry402_rows0 (c : Dev nD) (r : Fin 12) (hr : r.val < 4) (n : Fin 1048576)
    (ha : kst_main_v96 (F := Ideal) (A0 m c) (A1 m c) (A2 m c) (A3 m c) (ix2 (⟨r.val, hr⟩ : Fin 4) n)
      = Cert.ReferenceIdeal.ReadP.val_main_v135 (F := Ideal) (A0 m c) (A1 m c) (ix2 (⟨r.val, hr⟩ : Fin 4) n))
    (hb : kst_main_v104 (F := Ideal) (A0 m c) (A1 m c) (A2 m c) (A3 m c) (ix2 (⟨r.val, hr⟩ : Fin 4) n)
      = Cert.ReferenceIdeal.ReadP.val_main_v148 (F := Ideal) (A0 m c) (A1 m c) (ix2 (⟨r.val, hr⟩ : Fin 4) n))
    (hw : kst_main_v38 (F := Ideal) (A0 m c) (A1 m c) (A2 m c) (A3 m c) (ix1 n)
      = Cert.ReferenceIdeal.ReadP.val_main_v42 (F := Ideal) (A0 m c) (ix1 n)) :
    (V m c main_v402 : S12x1048576.Idx → EReal) (ix2 r n)
      = Cert.ReferenceIdeal.ReadP.val_main_v189 (F := Ideal) (A0 m c) (A1 m c) (ix2 (⟨r.val, hr⟩ : Fin 4) n) := by
  have e : (V m c main_v402 : S12x1048576.Idx → EReal) = kst_main_v402 (F := Ideal) (A0 m c) (A1 m c) (A2 m c) (A3 m c) :=
    entry_main_v402 m c
  exact (congrFun e (ix2 r n)).trans ((stack402_rows0 (A0 m c) (A1 m c) (A2 m c) (A3 m c) r hr n).trans
    (glue133 (A0 m c) (A1 m c) (A2 m c) (A3 m c) (⟨r.val, hr⟩ : Fin 4) n ha hb hw))

/-- What the region finds in the c11 stack at a row of volume 0 is the reference's x-interpolation %194 there, once
    the two corners and the x weight agree. -/
theorem entry403_rows0 (c : Dev nD) (r : Fin 12) (hr : r.val < 4) (n : Fin 1048576)
    (ha : kst_main_v112 (F := Ideal) (A0 m c) (A1 m c) (A2 m c) (A3 m c) (ix2 (⟨r.val, hr⟩ : Fin 4) n)
      = Cert.ReferenceIdeal.ReadP.val_main_v161 (F := Ideal) (A0 m c) (A1 m c) (ix2 (⟨r.val, hr⟩ : Fin 4) n))
    (hb : kst_main_v120 (F := Ideal) (A0 m c) (A1 m c) (A2 m c) (A3 m c) (ix2 (⟨r.val, hr⟩ : Fin 4) n)
      = Cert.ReferenceIdeal.ReadP.val_main_v174 (F := Ideal) (A0 m c) (A1 m c) (ix2 (⟨r.val, hr⟩ : Fin 4) n))
    (hw : kst_main_v38 (F := Ideal) (A0 m c) (A1 m c) (A2 m c) (A3 m c) (ix1 n)
      = Cert.ReferenceIdeal.ReadP.val_main_v42 (F := Ideal) (A0 m c) (ix1 n)) :
    (V m c main_v403 : S12x1048576.Idx → EReal) (ix2 r n)
      = Cert.ReferenceIdeal.ReadP.val_main_v194 (F := Ideal) (A0 m c) (A1 m c) (ix2 (⟨r.val, hr⟩ : Fin 4) n) := by
  have e : (V m c main_v403 : S12x1048576.Idx → EReal) = kst_main_v403 (F := Ideal) (A0 m c) (A1 m c) (A2 m c) (A3 m c) :=
    entry_main_v403 m c
  exact (congrFun e (ix2 r n)).trans ((stack403_rows0 (A0 m c) (A1 m c) (A2 m c) (A3 m c) r hr n).trans
    (glue137 (A0 m c) (A1 m c) (A2 m c) (A3 m c) (⟨r.val, hr⟩ : Fin 4) n ha hb hw))

/-- What the region finds in row 0 of the coordinate stack is the raw y coordinate of the query point. -/
theorem entry406_row0 (c : Dev nD) (n : Fin 1048576) :
    (V m c main_v406 : S2x1048576.Idx → EReal) (ix2 (0 : Fin 2) n) = A0 m c (ix5 (0 : Fin 1) (0 : Fin 1) (0 : Fin 1) n (1 : Fin 3)) := by
  have e : (V m c main_v406 : S2x1048576.Idx → EReal) = kst_main_v406 (F := Ideal) (A0 m c) (A1 m c) (A2 m c) (A3 m c) :=
    entry_main_v406 m c
  exact (congrFun e (ix2 (0 : Fin 2) n)).trans (stack406_row0 (A0 m c) (A1 m c) (A2 m c) (A3 m c) n)

/-- What the region finds in row 1 of the coordinate stack is the raw z coordinate of the query point. -/
theorem entry406_row1 (c : Dev nD) (n : Fin 1048576) :
    (V m c main_v406 : S2x1048576.Idx → EReal) (ix2 (1 : Fin 2) n) = A0 m c (ix5 (0 : Fin 1) (0 : Fin 1) (0 : Fin 1) n (2 : Fin 3)) := by
  have e : (V m c main_v406 : S2x1048576.Idx → EReal) = kst_main_v406 (F := Ideal) (A0 m c) (A1 m c) (A2 m c) (A3 m c) :=
    entry_main_v406 m c
  exact (congrFun e (ix2 (1 : Fin 2) n)).trans (stack406_row1 (A0 m c) (A1 m c) (A2 m c) (A3 m c) n)

end Entry

end Cert.KernelIdeal.Glue

end
-- ==== Proof.GlueEntry1.lean ====
/-
  The arrays the kernel region of `KernelIdeal` finds, read at one element of the rows of volume 1 (rows 4 to 7 of
  each 12-row stack), first as stages of the host prefix and then as stages of the reference program. Row `4 + q` of
  a stack is row `q` of volume 1's x-interpolation of two gathered corner rows; that x-interpolation at `(q, n)` is
  its x0 corner plus the difference to its x1 corner times volume 1's x weight of column `n` (the weight broadcast to
  a row and then down the four channels); the reference computes its own x-interpolation by the same three
  operations from its own corners and weight, so the two agree at an entry as soon as the corners and the weight do;
  and what the region finds in a stack is the stack's stage of the argument arrays as launched.
-/
import proofs.«113233_j37486474559588_2_alg».proof.Proof.HostStagesIdeal
import proofs.«113233_j37486474559588_2_alg».proof.Proof.RefReadP
import proofs.«113233_j37486474559588_2_alg».proof.Proof.EntryIdealA
import proofs.«113233_j37486474559588_2_alg».proof.Proof.EntryIdealB
import proofs.«113233_j37486474559588_2_alg».proof.Proof.EntryIdealC
import proofs.«113233_j37486474559588_2_alg».proof.Proof.EntryIdealD
import proofs.«113233_j37486474559588_2_alg».proof.Proof.EntryIdealE
import Idealize.ShloMosaic.Lib.Pipeline.Value
import Idealize.ShloMosaic.Lib.ValueIdx
import Idealize.ShloMosaic.Lib.ValueIdxCoords
import Idealize.ShloMosaic.Lib.ValueLayout

set_option maxRecDepth 16384

noncomputable section

namespace Cert.KernelIdeal.Glue

open Cert.KernelIdeal Cert.KernelIdeal.Gen Cert.KernelIdeal.Host
open Idealize.ShloMosaic Idealize.ShloMosaic.TcCoe Idealize.SL.Sem Idealize.ShloMosaic.StableHlo
open Idealize.ShloMosaic.ValueIdx

variable (x0 : (⟨S1x1x1x1048576x3, .f32⟩ : BufTy).Contents (Elt Ideal)) (x1 : (⟨S1x4x64x64x64, .f32⟩ : BufTy).Contents (Elt Ideal))
  (x2 : (⟨S1x4x128x128x128, .f32⟩ : BufTy).Contents (Elt Ideal)) (x3 : (⟨S1x4x192x192x192, .f32⟩ : BufTy).Contents (Elt Ideal))

/-! ## The 12-row stacks read at a row of volume 1 -/

/-- Rows 4-7 of the c00 stack are volume 1's x-interpolation. -/
theorem stack400_rows1 (r : Fin 12) (hr : 4 ≤ r.val ∧ r.val < 8) (n : Fin 1048576) :
    kst_main_v400 (F := Ideal) x0 x1 x2 x3 (ix2 r n) = kst_main_v256 (F := Ideal) x0 x1 x2 x3 (ix2 (⟨r.val - 4, by omega⟩ : Fin 4) n) := by
  unfold kst_main_v400
  refine concatenate_apply_piece (0 : Fin 2) _ _ (ix2 r n) 1 ?hk S4x1048576 ?x1 ?hxk rfl 4 ?hpre
    (ix2 (⟨r.val - 4, by omega⟩ : Fin 4) n) ?hi ?ha
  case hk => exact Nat.succ_lt_succ (Nat.zero_lt_succ _)
  case hxk => rfl
  case hpre => rfl
  case hi =>
    intro b hb
    match b with
    | ⟨0, _⟩ => exact absurd rfl hb
    | ⟨1, _⟩ => rfl
  case ha => show 4 + (r.val - 4) = r.val; omega

/-- Rows 4-7 of the c01 stack are volume 1's x-interpolation. -/
theorem stack401_rows1 (r : Fin 12) (hr : 4 ≤ r.val ∧ r.val < 8) (n : Fin 1048576) :
    kst_main_v401 (F := Ideal) x0 x1 x2 x3 (ix2 r n) = kst_main_v260 (F := Ideal) x0 x1 x2 x3 (ix2 (⟨r.val - 4, by omega⟩ : Fin 4) n) := by
  unfold kst_main_v401
  refine concatenate_apply_piece (0 : Fin 2) _ _ (ix2 r n) 1 ?hk S4x1048576 ?x1 ?hxk rfl 4 ?hpre
    (ix2 (⟨r.val - 4, by omega⟩ : Fin 4) n) ?hi ?ha
  case hk => exact Nat.succ_lt_succ (Nat.zero_lt_succ _)
  case hxk => rfl
  case hpre => rfl
  case hi =>
    intro b hb
    match b with
    | ⟨0, _⟩ => exact absurd rfl hb
    | ⟨1, _⟩ => rfl
  case ha => show 4 + (r.val - 4) = r.val; omega

/-- Rows 4-7 of the c10 stack are volume 1's x-interpolation. -/
theorem stack402_rows1 (r : Fin 12) (hr : 4 ≤ r.val ∧ r.val < 8) (n : Fin 1048576) :
    kst_main_v402 (F := Ideal) x0 x1 x2 x3 (ix2 r n) = kst_main_v264 (F := Ideal) x0 x1 x2 x3 (ix2 (⟨r.val - 4, by omega⟩ : Fin 4) n) := by
  unfold kst_main_v402
  refine concatenate_apply_piece (0 : Fin 2) _ _ (ix2 r n) 1 ?hk S4x1048576 ?x1 ?hxk rfl 4 ?hpre
    (ix2 (⟨r.val - 4, by omega⟩ : Fin 4) n) ?hi ?ha
  case hk => exact Nat.succ_lt_succ (Nat.zero_lt_succ _)
  case hxk => rfl
  case hpre => rfl
  case hi =>
    intro b hb
    match b with
    | ⟨0, _⟩ => exact absurd rfl hb
    | ⟨1, _⟩ => rfl
  case ha => show 4 + (r.val - 4) = r.val; omega

/-- Rows 4-7 of the c11 stack are volume 1's x-interpolation. -/
theorem stack403_rows1 (r : Fin 12) (hr : 4 ≤ r.val ∧ r.val < 8) (n : Fin 1048576) :
    kst_main_v403 (F := Ideal) x0 x1 x2 x3 (ix2 r n) = kst_main_v268 (F := Ideal) x0 x1 x2 x3 (ix2 (⟨r.val - 4, by omega⟩ : Fin 4) n) := by
  unfold kst_main_v403
  refine concatenate_apply_piece (0 : Fin 2) _ _ (ix2 r n) 1 ?hk S4x1048576 ?x1 ?hxk rfl 4 ?hpre
    (ix2 (⟨r.val - 4, by omega⟩ : Fin 4) n) ?hi ?ha
  case hk => exact Nat.succ_lt_succ (Nat.zero_lt_succ _)
  case hxk => rfl
  case hpre => rfl
  case hi =>
    intro b hb
    match b with
    | ⟨0, _⟩ => exact absurd rfl hb
    | ⟨1, _⟩ => rfl
  case ha => show 4 + (r.val - 4) = r.val; omega

/-! ## The x-interpolations at an entry -/

/-- Volume 1's x weight broadcast to a row and then down the four channels reads the weight of the column. -/
theorem xweight1_apply (q : Fin 4) (n : Fin 1048576) :
    (broadcastInDim S4x1048576 ![0, 1] bcast_S1x1048576_S4x1048576_0_1 (kst_main_v252 (F := Ideal) x0 x1 x2 x3)) (ix2 q n)
      = kst_main_v169 (F := Ideal) x0 x1 x2 x3 (ix1 n) := by
  refine (broadcastInDim_apply _ _ _ (ix2 q n) (ix2 (0 : Fin 1) n) (fun a => match a with
    | ⟨0, _⟩ => by show 0 = if (1 : Nat) = 1 then 0 else q.val; rw [if_pos rfl]
    | ⟨1, _⟩ => by show n.val = if (1048576 : Nat) = 1 then 0 else n.val; rw [if_neg (by decide)])).trans ?_
  unfold kst_main_v252
  exact broadcastInDim_apply _ _ _ (ix2 (0 : Fin 1) n) (ix1 n) (fun a => match a with
    | ⟨0, _⟩ => by show n.val = if (1048576 : Nat) = 1 then 0 else n.val; rw [if_neg (by decide)])

/-- Volume 1's c00 at an entry: its x0 corner moved toward its x1 corner by the x weight. -/
theorem interp256_apply (q : Fin 4) (n : Fin 1048576) :
    kst_main_v256 (F := Ideal) x0 x1 x2 x3 (ix2 q n)
      = kst_main_v195 (F := Ideal) x0 x1 x2 x3 (ix2 q n)
        + (kst_main_v203 (F := Ideal) x0 x1 x2 x3 (ix2 q n) - kst_main_v195 (F := Ideal) x0 x1 x2 x3 (ix2 q n))
          * kst_main_v169 (F := Ideal) x0 x1 x2 x3 (ix1 n) := by
  unfold kst_main_v256 kst_main_v255 kst_main_v253 kst_main_v254
  exact congrArg (fun w => kst_main_v195 (F := Ideal) x0 x1 x2 x3 (ix2 q n)
        + (kst_main_v203 (F := Ideal) x0 x1 x2 x3 (ix2 q n) - kst_main_v195 (F := Ideal) x0 x1 x2 x3 (ix2 q n)) * w)
    (xweight1_apply x0 x1 x2 x3 q n)

/-- Volume 1's c01 at an entry: its x0 corner moved toward its x1 corner by the x weight. -/
theorem interp260_apply (q : Fin 4) (n : Fin 1048576) :
    kst_main_v260 (F := Ideal) x0 x1 x2 x3 (ix2 q n)
      = kst_main_v211 (F := Ideal) x0 x1 x2 x3 (ix2 q n)
        + (kst_main_v219 (F := Ideal) x0 x1 x2 x3 (ix2 q n) - kst_main_v211 (F := Ideal) x0 x1 x2 x3 (ix2 q n))
          * kst_main_v169 (F := Ideal) x0 x1 x2 x3 (ix1 n) := by
  unfold kst_main_v260 kst_main_v259 kst_main_v257 kst_main_v258
  exact congrArg (fun w => kst_main_v211 (F := Ideal) x0 x1 x2 x3 (ix2 q n)
        + (kst_main_v219 (F := Ideal) x0 x1 x2 x3 (ix2 q n) - kst_main_v211 (F := Ideal) x0 x1 x2 x3 (ix2 q n)) * w)
    (xweight1_apply x0 x1 x2 x3 q n)

/-- Volume 1's c10 at an entry: its x0 corner moved toward its x1 corner by the x weight. -/
theorem interp264_apply (q : Fin 4) (n : Fin 1048576) :
    kst_main_v264 (F := Ideal) x0 x1 x2 x3 (ix2 q n)
      = kst_main_v227 (F := Ideal) x0 x1 x2 x3 (ix2 q n)
        + (kst_main_v235 (F := Ideal) x0 x1 x2 x3 (ix2 q n) - kst_main_v227 (F := Ideal) x0 x1 x2 x3 (ix2 q n))
          * kst_main_v169 (F := Ideal) x0 x1 x2 x3 (ix1 n) := by
  unfold kst_main_v264 kst_main_v263 kst_main_v261 kst_main_v262
  exact congrArg (fun w => kst_main_v227 (F := Ideal) x0 x1 x2 x3 (ix2 q n)
        + (kst_main_v235 (F := Ideal) x0 x1 x2 x3 (ix2 q n) - kst_main_v227 (F := Ideal) x0 x1 x2 x3 (ix2 q n)) * w)
    (xweight1_apply x0 x1 x2 x3 q n)

/-- Volume 1's c11 at an entry: its x0 corner moved toward its x1 corner by the x weight. -/
theorem interp268_apply (q : Fin 4) (n : Fin 1048576) :
    kst_main_v268 (F := Ideal) x0 x1 x2 x3 (ix2 q n)
      = kst_main_v243 (F := Ideal) x0 x1 x2 x3 (ix2 q n)
        + (kst_main_v251 (F := Ideal) x0 x1 x2 x3 (ix2 q n) - kst_main_v243 (F := Ideal) x0 x1 x2 x3 (ix2 q n))
          * kst_main_v169 (F := Ideal) x0 x1 x2 x3 (ix1 n) := by
  unfold kst_main_v268 kst_main_v267 kst_main_v265 kst_main_v266
  exact congrArg (fun w => kst_main_v243 (F := Ideal) x0 x1 x2 x3 (ix2 q n)
        + (kst_main_v251 (F := Ideal) x0 x1 x2 x3 (ix2 q n) - kst_main_v243 (F := Ideal) x0 x1 x2 x3 (ix2 q n)) * w)
    (xweight1_apply x0 x1 x2 x3 q n)

/-! ## The reference's x-interpolations of volume 1 at an entry, and the two programs' agreement there -/

/-- The reference's x-interpolation %390 at an entry: its x0 corner plus the difference to its x1 corner times
    the x weight of the column. -/
theorem ref390_apply (q : Fin 4) (n : Fin 1048576) :
    Cert.ReferenceIdeal.ReadP.val_main_v390 (F := Ideal) x0 x2 (ix2 q n)
      = Cert.ReferenceIdeal.ReadP.val_main_v294 (F := Ideal) x0 x2 (ix2 q n)
        + (Cert.ReferenceIdeal.ReadP.val_main_v307 (F := Ideal) x0 x2 (ix2 q n) - Cert.ReferenceIdeal.ReadP.val_main_v294 (F := Ideal) x0 x2 (ix2 q n))
          * Cert.ReferenceIdeal.ReadP.val_main_v253 (F := Ideal) x0 (ix1 n) := by
  have hw : Cert.ReferenceIdeal.ReadP.val_main_v388 (F := Ideal) x0 (ix2 q n) = Cert.ReferenceIdeal.ReadP.val_main_v253 (F := Ideal) x0 (ix1 n) :=
    (Cert.ReferenceIdeal.ReadP.val_main_v388_apply x0 (ix2 q n)).trans ((Cert.ReferenceIdeal.ReadP.val_main_v387_apply x0 _).trans
      (congrArg (Cert.ReferenceIdeal.ReadP.val_main_v253 (F := Ideal) x0) (funext fun a => match a with | ⟨0, _⟩ => rfl)))
  unfold Cert.ReferenceIdeal.ReadP.val_main_v390 Cert.ReferenceIdeal.ReadP.val_main_v389 Cert.ReferenceIdeal.ReadP.val_main_v386
  exact congrArg (fun w => Cert.ReferenceIdeal.ReadP.val_main_v294 (F := Ideal) x0 x2 (ix2 q n)
        + (Cert.ReferenceIdeal.ReadP.val_main_v307 (F := Ideal) x0 x2 (ix2 q n) - Cert.ReferenceIdeal.ReadP.val_main_v294 (F := Ideal) x0 x2 (ix2 q n)) * w) hw

/-- The reference's x-interpolation %395 at an entry: its x0 corner plus the difference to its x1 corner times
    the x weight of the column. -/
theorem ref395_apply (q : Fin 4) (n : Fin 1048576) :
    Cert.ReferenceIdeal.ReadP.val_main_v395 (F := Ideal) x0 x2 (ix2 q n)
      = Cert.ReferenceIdeal.ReadP.val_main_v320 (F := Ideal) x0 x2 (ix2 q n)
        + (Cert.ReferenceIdeal.ReadP.val_main_v333 (F := Ideal) x0 x2 (ix2 q n) - Cert.ReferenceIdeal.ReadP.val_main_v320 (F := Ideal) x0 x2 (ix2 q n))
          * Cert.ReferenceIdeal.ReadP.val_main_v253 (F := Ideal) x0 (ix1 n) := by
  have hw : Cert.ReferenceIdeal.ReadP.val_main_v393 (F := Ideal) x0 (ix2 q n) = Cert.ReferenceIdeal.ReadP.val_main_v253 (F := Ideal) x0 (ix1 n) :=
    (Cert.ReferenceIdeal.ReadP.val_main_v393_apply x0 (ix2 q n)).trans ((Cert.ReferenceIdeal.ReadP.val_main_v392_apply x0 _).trans
      (congrArg (Cert.ReferenceIdeal.ReadP.val_main_v253 (F := Ideal) x0) (funext fun a => match a with | ⟨0, _⟩ => rfl)))
  unfold Cert.ReferenceIdeal.ReadP.val_main_v395 Cert.ReferenceIdeal.ReadP.val_main_v394 Cert.ReferenceIdeal.ReadP.val_main_v391
  exact congrArg (fun w => Cert.ReferenceIdeal.ReadP.val_main_v320 (F := Ideal) x0 x2 (ix2 q n)
        + (Cert.ReferenceIdeal.ReadP.val_main_v333 (F := Ideal) x0 x2 (ix2 q n) - Cert.ReferenceIdeal.ReadP.val_main_v320 (F := Ideal) x0 x2 (ix2 q n)) * w) hw

/-- The reference's x-interpolation %400 at an entry: its x0 corner plus the difference to its x1 corner times
    the x weight of the column. -/
theorem ref400_apply (q : Fin 4) (n : Fin 1048576) :
    Cert.ReferenceIdeal.ReadP.val_main_v400 (F := Ideal) x0 x2 (ix2 q n)
      = Cert.ReferenceIdeal.ReadP.val_main_v346 (F := Ideal) x0 x2 (ix2 q n)
        + (Cert.ReferenceIdeal.ReadP.val_main_v359 (F := Ideal) x0 x2 (ix2 q n) - Cert.ReferenceIdeal.ReadP.val_main_v346 (F := Ideal) x0 x2 (ix2 q n))
          * Cert.ReferenceIdeal.ReadP.val_main_v253 (F := Ideal) x0 (ix1 n) := by
  have hw : Cert.ReferenceIdeal.ReadP.val_main_v398 (F := Ideal) x0 (ix2 q n) = Cert.ReferenceIdeal.ReadP.val_main_v253 (F := Ideal) x0 (ix1 n) :=
    (Cert.ReferenceIdeal.ReadP.val_main_v398_apply x0 (ix2 q n)).trans ((Cert.ReferenceIdeal.ReadP.val_main_v397_apply x0 _).trans
      (congrArg (Cert.ReferenceIdeal.ReadP.val_main_v253 (F := Ideal) x0) (funext fun a => match a with | ⟨0, _⟩ => rfl)))
  unfold Cert.ReferenceIdeal.ReadP.val_main_v400 Cert.ReferenceIdeal.ReadP.val_main_v399 Cert.ReferenceIdeal.ReadP.val_main_v396
  exact congrArg (fun w => Cert.ReferenceIdeal.ReadP.val_main_v346 (F := Ideal) x0 x2 (ix2 q n)
        + (Cert.ReferenceIdeal.ReadP.val_main_v359 (F := Ideal) x0 x2 (ix2 q n) - Cert.ReferenceIdeal.ReadP.val_main_v346 (F := Ideal) x0 x2 (ix2 q n)) * w) hw

/-- The reference's x-interpolation %405 at an entry: its x0 corner plus the difference to its x1 corner times
    the x weight of the column. -/
theorem ref405_apply (q : Fin 4) (n : Fin 1048576) :
    Cert.ReferenceIdeal.ReadP.val_main_v405 (F := Ideal) x0 x2 (ix2 q n)
      = Cert.ReferenceIdeal.ReadP.val_main_v372 (F := Ideal) x0 x2 (ix2 q n)
        + (Cert.ReferenceIdeal.ReadP.val_main_v385 (F := Ideal) x0 x2 (ix2 q n) - Cert.ReferenceIdeal.ReadP.val_main_v372 (F := Ideal) x0 x2 (ix2 q n))
          * Cert.ReferenceIdeal.ReadP.val_main_v253 (F := Ideal) x0 (ix1 n) := by
  have hw : Cert.ReferenceIdeal.ReadP.val_main_v403 (F := Ideal) x0 (ix2 q n) = Cert.ReferenceIdeal.ReadP.val_main_v253 (F := Ideal) x0 (ix1 n) :=
    (Cert.ReferenceIdeal.ReadP.val_main_v403_apply x0 (ix2 q n)).trans ((Cert.ReferenceIdeal.ReadP.val_main_v402_apply x0 _).trans
      (congrArg (Cert.ReferenceIdeal.ReadP.val_main_v253 (F := Ideal) x0) (funext fun a => match a with | ⟨0, _⟩ => rfl)))
  unfold Cert.ReferenceIdeal.ReadP.val_main_v405 Cert.ReferenceIdeal.ReadP.val_main_v404 Cert.ReferenceIdeal.ReadP.val_main_v401
  exact congrArg (fun w => Cert.ReferenceIdeal.ReadP.val_main_v372 (F := Ideal) x0 x2 (ix2 q n)
        + (Cert.ReferenceIdeal.ReadP.val_main_v385 (F := Ideal) x0 x2 (ix2 q n) - Cert.ReferenceIdeal.ReadP.val_main_v372 (F := Ideal) x0 x2 (ix2 q n)) * w) hw

/-- The kernel program's x-interpolation and the reference's agree at an entry once their two corners and the x
    weight do. -/
theorem glue256 (q : Fin 4) (n : Fin 1048576)
    (ha : kst_main_v195 (F := Ideal) x0 x1 x2 x3 (ix2 q n) = Cert.ReferenceIdeal.ReadP.val_main_v294 (F := Ideal) x0 x2 (ix2 q n))
    (hb : kst_main_v203 (F := Ideal) x0 x1 x2 x3 (ix2 q n) = Cert.ReferenceIdeal.ReadP.val_main_v307 (F := Ideal) x0 x2 (ix2 q n))
    (hw : kst_main_v169 (F := Ideal) x0 x1 x2 x3 (ix1 n) = Cert.ReferenceIdeal.ReadP.val_main_v253 (F := Ideal) x0 (ix1 n)) :
    kst_main_v256 (F := Ideal) x0 x1 x2 x3 (ix2 q n) = Cert.ReferenceIdeal.ReadP.val_main_v390 (F := Ideal) x0 x2 (ix2 q n) := by
  rw [interp256_apply, ref390_apply, ha, hb, hw]

/-- The kernel program's x-interpolation and the reference's agree at an entry once their two corners and the x
    weight do. -/
theorem glue260 (q : Fin 4) (n : Fin 1048576)
    (ha : kst_main_v211 (F := Ideal) x0 x1 x2 x3 (ix2 q n) = Cert.ReferenceIdeal.ReadP.val_main_v320 (F := Ideal) x0 x2 (ix2 q n))
    (hb : kst_main_v219 (F := Ideal) x0 x1 x2 x3 (ix2 q n) = Cert.ReferenceIdeal.ReadP.val_main_v333 (F := Ideal) x0 x2 (ix2 q n))
    (hw : kst_main_v169 (F := Ideal) x0 x1 x2 x3 (ix1 n) = Cert.ReferenceIdeal.ReadP.val_main_v253 (F := Ideal) x0 (ix1 n)) :
    kst_main_v260 (F := Ideal) x0 x1 x2 x3 (ix2 q n) = Cert.ReferenceIdeal.ReadP.val_main_v395 (F := Ideal) x0 x2 (ix2 q n) := by
  rw [interp260_apply, ref395_apply, ha, hb, hw]

/-- The kernel program's x-interpolation and the reference's agree at an entry once their two corners and the x
    weight do. -/
theorem glue264 (q : Fin 4) (n : Fin 1048576)
    (ha : kst_main_v227 (F := Ideal) x0 x1 x2 x3 (ix2 q n) = Cert.ReferenceIdeal.ReadP.val_main_v346 (F := Ideal) x0 x2 (ix2 q n))
    (hb : kst_main_v235 (F := Ideal) x0 x1 x2 x3 (ix2 q n) = Cert.ReferenceIdeal.ReadP.val_main_v359 (F := Ideal) x0 x2 (ix2 q n))
    (hw : kst_main_v169 (F := Ideal) x0 x1 x2 x3 (ix1 n) = Cert.ReferenceIdeal.ReadP.val_main_v253 (F := Ideal) x0 (ix1 n)) :
    kst_main_v264 (F := Ideal) x0 x1 x2 x3 (ix2 q n) = Cert.ReferenceIdeal.ReadP.val_main_v400 (F := Ideal) x0 x2 (ix2 q n) := by
  rw [interp264_apply, ref400_apply, ha, hb, hw]

/-- The kernel program's x-interpolation and the reference's agree at an entry once their two corners and the x
    weight do. -/
theorem glue268 (q : Fin 4) (n : Fin 1048576)
    (ha : kst_main_v243 (F := Ideal) x0 x1 x2 x3 (ix2 q n) = Cert.ReferenceIdeal.ReadP.val_main_v372 (F := Ideal) x0 x2 (ix2 q n))
    (hb : kst_main_v251 (F := Ideal) x0 x1 x2 x3 (ix2 q n) = Cert.ReferenceIdeal.ReadP.val_main_v385 (F := Ideal) x0 x2 (ix2 q n))
    (hw : kst_main_v169 (F := Ideal) x0 x1 x2 x3 (ix1 n) = Cert.ReferenceIdeal.ReadP.val_main_v253 (F := Ideal) x0 (ix1 n)) :
    kst_main_v268 (F := Ideal) x0 x1 x2 x3 (ix2 q n) = Cert.ReferenceIdeal.ReadP.val_main_v405 (F := Ideal) x0 x2 (ix2 q n) := by
  rw [interp268_apply, ref405_apply, ha, hb, hw]

/-! ## The region's entry arrays at an element of volume 1's rows -/

section Entry

open Cert.KernelIdeal.Around

variable (m : (ℓ : Loc nD τ sig) → Buf (Elt Ideal) ℓ)

/-- What the region finds in the c00 stack at a row of volume 1 is the reference's x-interpolation %390 there, once
    the two corners and the x weight agree. -/
theorem entry400_rows1 (c : Dev nD) (r : Fin 12) (hr : 4 ≤ r.val ∧ r.val < 8) (n : Fin 1048576)
    (ha : kst_main_v195 (F := Ideal) (m ((c.tc : Thread nD τ).loc main_arg0)) (m ((c.tc : Thread nD τ).loc main_arg1)) (m ((c.tc : Thread nD τ).loc main_arg2)) (m ((c.tc : Thread nD τ).loc main_arg3)) (ix2 (⟨r.val - 4, by omega⟩ : Fin 4) n)
      = Cert.ReferenceIdeal.ReadP.val_main_v294 (F := Ideal) (m ((c.tc : Thread nD τ).loc main_arg0)) (m ((c.tc : Thread nD τ).loc main_arg2)) (ix2 (⟨r.val - 4, by omega⟩ : Fin 4) n))
    (hb : kst_main_v203 (F := Ideal) (m ((c.tc : Thread nD τ).loc main_arg0)) (m ((c.tc : Thread nD τ).loc main_arg1)) (m ((c.tc : Thread nD τ).loc main_arg2)) (m ((c.tc : Thread nD τ).loc main_arg3)) (ix2 (⟨r.val - 4, by omega⟩ : Fin 4) n)
      = Cert.ReferenceIdeal.ReadP.val_main_v307 (F := Ideal) (m ((c.tc : Thread nD τ).loc main_arg0)) (m ((c.tc : Thread nD τ).loc main_arg2)) (ix2 (⟨r.val - 4, by omega⟩ : Fin 4) n))
    (hw : kst_main_v169 (F := Ideal) (m ((c.tc : Thread nD τ).loc main_arg0)) (m ((c.tc : Thread nD τ).loc main_arg1)) (m ((c.tc : Thread nD τ).loc main_arg2)) (m ((c.tc : Thread nD τ).loc main_arg3)) (ix1 n)
      = Cert.ReferenceIdeal.ReadP.val_main_v253 (F := Ideal) (m ((c.tc : Thread nD τ).loc main_arg0)) (ix1 n)) :
    (V m c main_v400 : S12x1048576.Idx → EReal) (ix2 r n)
      = Cert.ReferenceIdeal.ReadP.val_main_v390 (F := Ideal) (m ((c.tc : Thread nD τ).loc main_arg0)) (m ((c.tc : Thread nD τ).loc main_arg2)) (ix2 (⟨r.val - 4, by omega⟩ : Fin 4) n) := by
  have e : (V m c main_v400 : S12x1048576.Idx → EReal) = kst_main_v400 (F := Ideal) (m ((c.tc : Thread nD τ).loc main_arg0)) (m ((c.tc : Thread nD τ).loc main_arg1)) (m ((c.tc : Thread nD τ).loc main_arg2)) (m ((c.tc : Thread nD τ).loc main_arg3)) :=
    entry_main_v400 m c
  exact (congrFun e (ix2 r n)).trans ((stack400_rows1 (m ((c.tc : Thread nD τ).loc main_arg0)) (m ((c.tc : Thread nD τ).loc main_arg1)) (m ((c.tc : Thread nD τ).loc main_arg2)) (m ((c.tc : Thread nD τ).loc main_arg3)) r hr n).trans
    (glue256 (m ((c.tc : Thread nD τ).loc main_arg0)) (m ((c.tc : Thread nD τ).loc main_arg1)) (m ((c.tc : Thread nD τ).loc main_arg2)) (m ((c.tc : Thread nD τ).loc main_arg3)) (⟨r.val - 4, by omega⟩ : Fin 4) n ha hb hw))

/-- What the region finds in the c01 stack at a row of volume 1 is the reference's x-interpolation %395 there, once
    the two corners and the x weight agree. -/
theorem entry401_rows1 (c : Dev nD) (r : Fin 12) (hr : 4 ≤ r.val ∧ r.val < 8) (n : Fin 1048576)
    (ha : kst_main_v211 (F := Ideal) (m ((c.tc : Thread nD τ).loc main_arg0)) (m ((c.tc : Thread nD τ).loc main_arg1)) (m ((c.tc : Thread nD τ).loc main_arg2)) (m ((c.tc : Thread nD τ).loc main_arg3)) (ix2 (⟨r.val - 4, by omega⟩ : Fin 4) n)
      = Cert.ReferenceIdeal.ReadP.val_main_v320 (F := Ideal) (m ((c.tc : Thread nD τ).loc main_arg0)) (m ((c.tc : Thread nD τ).loc main_arg2)) (ix2 (⟨r.val - 4, by omega⟩ : Fin 4) n))
    (hb : kst_main_v219 (F := Ideal) (m ((c.tc : Thread nD τ).loc main_arg0)) (m ((c.tc : Thread nD τ).loc main_arg1)) (m ((c.tc : Thread nD τ).loc main_arg2)) (m ((c.tc : Thread nD τ).loc main_arg3)) (ix2 (⟨r.val - 4, by omega⟩ : Fin 4) n)
      = Cert.ReferenceIdeal.ReadP.val_main_v333 (F := Ideal) (m ((c.tc : Thread nD τ).loc main_arg0)) (m ((c.tc : Thread nD τ).loc main_arg2)) (ix2 (⟨r.val - 4, by omega⟩ : Fin 4) n))
    (hw : kst_main_v169 (F := Ideal) (m ((c.tc : Thread nD τ).loc main_arg0)) (m ((c.tc : Thread nD τ).loc main_arg1)) (m ((c.tc : Thread nD τ).loc main_arg2)) (m ((c.tc : Thread nD τ).loc main_arg3)) (ix1 n)
      = Cert.ReferenceIdeal.ReadP.val_main_v253 (F := Ideal) (m ((c.tc : Thread nD τ).loc main_arg0)) (ix1 n)) :
    (V m c main_v401 : S12x1048576.Idx → EReal) (ix2 r n)
      = Cert.ReferenceIdeal.ReadP.val_main_v395 (F := Ideal) (m ((c.tc : Thread nD τ).loc main_arg0)) (m ((c.tc : Thread nD τ).loc main_arg2)) (ix2 (⟨r.val - 4, by omega⟩ : Fin 4) n) := by
  have e : (V m c main_v401 : S12x1048576.Idx → EReal) = kst_main_v401 (F := Ideal) (m ((c.tc : Thread nD τ).loc main_arg0)) (m ((c.tc : Thread nD τ).loc main_arg1)) (m ((c.tc : Thread nD τ).loc main_arg2)) (m ((c.tc : Thread nD τ).loc main_arg3)) :=
    entry_main_v401 m c
  exact (congrFun e (ix2 r n)).trans ((stack401_rows1 (m ((c.tc : Thread nD τ).loc main_arg0)) (m ((c.tc : Thread nD τ).loc main_arg1)) (m ((c.tc : Thread nD τ).loc main_arg2)) (m ((c.tc : Thread nD τ).loc main_arg3)) r hr n).trans
    (glue260 (m ((c.tc : Thread nD τ).loc main_arg0)) (m ((c.tc : Thread nD τ).loc main_arg1)) (m ((c.tc : Thread nD τ).loc main_arg2)) (m ((c.tc : Thread nD τ).loc main_arg3)) (⟨r.val - 4, by omega⟩ : Fin 4) n ha hb hw))

/-- What the region finds in the c10 stack at a row of volume 1 is the reference's x-interpolation %400 there, once
    the two corners and the x weight agree. -/
theorem entry402_rows1 (c : Dev nD) (r : Fin 12) (hr : 4 ≤ r.val ∧ r.val < 8) (n : Fin 1048576)
    (ha : kst_main_v227 (F := Ideal) (m ((c.tc : Thread nD τ).loc main_arg0)) (m ((c.tc : Thread nD τ).loc main_arg1)) (m ((c.tc : Thread nD τ).loc main_arg2)) (m ((c.tc : Thread nD τ).loc main_arg3)) (ix2 (⟨r.val - 4, by omega⟩ : Fin 4) n)
      = Cert.ReferenceIdeal.ReadP.val_main_v346 (F := Ideal) (m ((c.tc : Thread nD τ).loc main_arg0)) (m ((c.tc : Thread nD τ).loc main_arg2)) (ix2 (⟨r.val - 4, by omega⟩ : Fin 4) n))
    (hb : kst_main_v235 (F := Ideal) (m ((c.tc : Thread nD τ).loc main_arg0)) (m ((c.tc : Thread nD τ).loc main_arg1)) (m ((c.tc : Thread nD τ).loc main_arg2)) (m ((c.tc : Thread nD τ).loc main_arg3)) (ix2 (⟨r.val - 4, by omega⟩ : Fin 4) n)
      = Cert.ReferenceIdeal.ReadP.val_main_v359 (F := Ideal) (m ((c.tc : Thread nD τ).loc main_arg0)) (m ((c.tc : Thread nD τ).loc main_arg2)) (ix2 (⟨r.val - 4, by omega⟩ : Fin 4) n))
    (hw : kst_main_v169 (F := Ideal) (m ((c.tc : Thread nD τ).loc main_arg0)) (m ((c.tc : Thread nD τ).loc main_arg1)) (m ((c.tc : Thread nD τ).loc main_arg2)) (m ((c.tc : Thread nD τ).loc main_arg3)) (ix1 n)
      = Cert.ReferenceIdeal.ReadP.val_main_v253 (F := Ideal) (m ((c.tc : Thread nD τ).loc main_arg0)) (ix1 n)) :
    (V m c main_v402 : S12x1048576.Idx → EReal) (ix2 r n)
      = Cert.ReferenceIdeal.ReadP.val_main_v400 (F := Ideal) (m ((c.tc : Thread nD τ).loc main_arg0)) (m ((c.tc : Thread nD τ).loc main_arg2)) (ix2 (⟨r.val - 4, by omega⟩ : Fin 4) n) := by
  have e : (V m c main_v402 : S12x1048576.Idx → EReal) = kst_main_v402 (F := Ideal) (m ((c.tc : Thread nD τ).loc main_arg0)) (m ((c.tc : Thread nD τ).loc main_arg1)) (m ((c.tc : Thread nD τ).loc main_arg2)) (m ((c.tc : Thread nD τ).loc main_arg3)) :=
    entry_main_v402 m c
  exact (congrFun e (ix2 r n)).trans ((stack402_rows1 (m ((c.tc : Thread nD τ).loc main_arg0)) (m ((c.tc : Thread nD τ).loc main_arg1)) (m ((c.tc : Thread nD τ).loc main_arg2)) (m ((c.tc : Thread nD τ).loc main_arg3)) r hr n).trans
    (glue264 (m ((c.tc : Thread nD τ).loc main_arg0)) (m ((c.tc : Thread nD τ).loc main_arg1)) (m ((c.tc : Thread nD τ).loc main_arg2)) (m ((c.tc : Thread nD τ).loc main_arg3)) (⟨r.val - 4, by omega⟩ : Fin 4) n ha hb hw))

/-- What the region finds in the c11 stack at a row of volume 1 is the reference's x-interpolation %405 there, once
    the two corners and the x weight agree. -/
theorem entry403_rows1 (c : Dev nD) (r : Fin 12) (hr : 4 ≤ r.val ∧ r.val < 8) (n : Fin 1048576)
    (ha : kst_main_v243 (F := Ideal) (m ((c.tc : Thread nD τ).loc main_arg0)) (m ((c.tc : Thread nD τ).loc main_arg1)) (m ((c.tc : Thread nD τ).loc main_arg2)) (m ((c.tc : Thread nD τ).loc main_arg3)) (ix2 (⟨r.val - 4, by omega⟩ : Fin 4) n)
      = Cert.ReferenceIdeal.ReadP.val_main_v372 (F := Ideal) (m ((c.tc : Thread nD τ).loc main_arg0)) (m ((c.tc : Thread nD τ).loc main_arg2)) (ix2 (⟨r.val - 4, by omega⟩ : Fin 4) n))
    (hb : kst_main_v251 (F := Ideal) (m ((c.tc : Thread nD τ).loc main_arg0)) (m ((c.tc : Thread nD τ).loc main_arg1)) (m ((c.tc : Thread nD τ).loc main_arg2)) (m ((c.tc : Thread nD τ).loc main_arg3)) (ix2 (⟨r.val - 4, by omega⟩ : Fin 4) n)
      = Cert.ReferenceIdeal.ReadP.val_main_v385 (F := Ideal) (m ((c.tc : Thread nD τ).loc main_arg0)) (m ((c.tc : Thread nD τ).loc main_arg2)) (ix2 (⟨r.val - 4, by omega⟩ : Fin 4) n))
    (hw : kst_main_v169 (F := Ideal) (m ((c.tc : Thread nD τ).loc main_arg0)) (m ((c.tc : Thread nD τ).loc main_arg1)) (m ((c.tc : Thread nD τ).loc main_arg2)) (m ((c.tc : Thread nD τ).loc main_arg3)) (ix1 n)
      = Cert.ReferenceIdeal.ReadP.val_main_v253 (F := Ideal) (m ((c.tc : Thread nD τ).loc main_arg0)) (ix1 n)) :
    (V m c main_v403 : S12x1048576.Idx → EReal) (ix2 r n)
      = Cert.ReferenceIdeal.ReadP.val_main_v405 (F := Ideal) (m ((c.tc : Thread nD τ).loc main_arg0)) (m ((c.tc : Thread nD τ).loc main_arg2)) (ix2 (⟨r.val - 4, by omega⟩ : Fin 4) n) := by
  have e : (V m c main_v403 : S12x1048576.Idx → EReal) = kst_main_v403 (F := Ideal) (m ((c.tc : Thread nD τ).loc main_arg0)) (m ((c.tc : Thread nD τ).loc main_arg1)) (m ((c.tc : Thread nD τ).loc main_arg2)) (m ((c.tc : Thread nD τ).loc main_arg3)) :=
    entry_main_v403 m c
  exact (congrFun e (ix2 r n)).trans ((stack403_rows1 (m ((c.tc : Thread nD τ).loc main_arg0)) (m ((c.tc : Thread nD τ).loc main_arg1)) (m ((c.tc : Thread nD τ).loc main_arg2)) (m ((c.tc : Thread nD τ).loc main_arg3)) r hr n).trans
    (glue268 (m ((c.tc : Thread nD τ).loc main_arg0)) (m ((c.tc : Thread nD τ).loc main_arg1)) (m ((c.tc : Thread nD τ).loc main_arg2)) (m ((c.tc : Thread nD τ).loc main_arg3)) (⟨r.val - 4, by omega⟩ : Fin 4) n ha hb hw))

end Entry

end Cert.KernelIdeal.Glue

end
-- ==== Proof.GlueEntry2.lean ====
/-
  The arrays the kernel region of `KernelIdeal` finds, read at one element of the rows of volume 2 (rows 8 to 11 of
  each 12-row stack), first as stages of the host prefix and then as stages of the reference program. Row `8 + q` of
  a stack is row `q` of volume 2's x-interpolation of two gathered corner rows; that x-interpolation at `(q, n)` is
  its x0 corner plus the difference to its x1 corner times volume 2's x weight of column `n` (the weight broadcast to
  a row and then down the four channels); the reference computes its own x-interpolation by the same three
  operations from its own corners and weight, so the two agree at an entry as soon as the corners and the weight do;
  and what the region finds in a stack is the stack's stage of the argument arrays as launched.
-/
import proofs.«113233_j37486474559588_2_alg».proof.Proof.HostStagesIdeal
import proofs.«113233_j37486474559588_2_alg».proof.Proof.RefReadP
import proofs.«113233_j37486474559588_2_alg».proof.Proof.EntryIdealA
import proofs.«113233_j37486474559588_2_alg».proof.Proof.EntryIdealB
import proofs.«113233_j37486474559588_2_alg».proof.Proof.EntryIdealC
import proofs.«113233_j37486474559588_2_alg».proof.Proof.EntryIdealD
import proofs.«113233_j37486474559588_2_alg».proof.Proof.EntryIdealE
import Idealize.ShloMosaic.Lib.Pipeline.Value
import Idealize.ShloMosaic.Lib.ValueIdx
import Idealize.ShloMosaic.Lib.ValueIdxCoords
import Idealize.ShloMosaic.Lib.ValueLayout

set_option maxRecDepth 16384

noncomputable section

namespace Cert.KernelIdeal.Glue

open Cert.KernelIdeal Cert.KernelIdeal.Gen Cert.KernelIdeal.Host
open Idealize.ShloMosaic Idealize.ShloMosaic.TcCoe Idealize.SL.Sem Idealize.ShloMosaic.StableHlo
open Idealize.ShloMosaic.ValueIdx

variable (x0 : (⟨S1x1x1x1048576x3, .f32⟩ : BufTy).Contents (Elt Ideal)) (x1 : (⟨S1x4x64x64x64, .f32⟩ : BufTy).Contents (Elt Ideal))
  (x2 : (⟨S1x4x128x128x128, .f32⟩ : BufTy).Contents (Elt Ideal)) (x3 : (⟨S1x4x192x192x192, .f32⟩ : BufTy).Contents (Elt Ideal))

/-! ## The 12-row stacks read at a row of volume 2 -/

/-- Rows 8-11 of the c00 stack are volume 2's x-interpolation. -/
theorem stack400_rows2 (r : Fin 12) (hr : 8 ≤ r.val) (n : Fin 1048576) :
    kst_main_v400 (F := Ideal) x0 x1 x2 x3 (ix2 r n) = kst_main_v387 (F := Ideal) x0 x1 x2 x3 (ix2 (⟨r.val - 8, by have := r.isLt; omega⟩ : Fin 4) n) := by
  unfold kst_main_v400
  refine concatenate_apply_piece (0 : Fin 2) _ _ (ix2 r n) 2 ?hk S4x1048576 ?x1 ?hxk rfl 8 ?hpre
    (ix2 (⟨r.val - 8, by have := r.isLt; omega⟩ : Fin 4) n) ?hi ?ha
  case hk => exact Nat.succ_lt_succ (Nat.succ_lt_succ (Nat.zero_lt_succ _))
  case hxk => rfl
  case hpre => rfl
  case hi =>
    intro b hb
    match b with
    | ⟨0, _⟩ => exact absurd rfl hb
    | ⟨1, _⟩ => rfl
  case ha => show 8 + (r.val - 8) = r.val; omega

/-- Rows 8-11 of the c01 stack are volume 2's x-interpolation. -/
theorem stack401_rows2 (r : Fin 12) (hr : 8 ≤ r.val) (n : Fin 1048576) :
    kst_main_v401 (F := Ideal) x0 x1 x2 x3 (ix2 r n) = kst_main_v391 (F := Ideal) x0 x1 x2 x3 (ix2 (⟨r.val - 8, by have := r.isLt; omega⟩ : Fin 4) n) := by
  unfold kst_main_v401
  refine concatenate_apply_piece (0 : Fin 2) _ _ (ix2 r n) 2 ?hk S4x1048576 ?x1 ?hxk rfl 8 ?hpre
    (ix2 (⟨r.val - 8, by have := r.isLt; omega⟩ : Fin 4) n) ?hi ?ha
  case hk => exact Nat.succ_lt_succ (Nat.succ_lt_succ (Nat.zero_lt_succ _))
  case hxk => rfl
  case hpre => rfl
  case hi =>
    intro b hb
    match b with
    | ⟨0, _⟩ => exact absurd rfl hb
    | ⟨1, _⟩ => rfl
  case ha => show 8 + (r.val - 8) = r.val; omega

/-- Rows 8-11 of the c10 stack are volume 2's x-interpolation. -/
theorem stack402_rows2 (r : Fin 12) (hr : 8 ≤ r.val) (n : Fin 1048576) :
    kst_main_v402 (F := Ideal) x0 x1 x2 x3 (ix2 r n) = kst_main_v395 (F := Ideal) x0 x1 x2 x3 (ix2 (⟨r.val - 8, by have := r.isLt; omega⟩ : Fin 4) n) := by
  unfold kst_main_v402
  refine concatenate_apply_piece (0 : Fin 2) _ _ (ix2 r n) 2 ?hk S4x1048576 ?x1 ?hxk rfl 8 ?hpre
    (ix2 (⟨r.val - 8, by have := r.isLt; omega⟩ : Fin 4) n) ?hi ?ha
  case hk => exact Nat.succ_lt_succ (Nat.succ_lt_succ (Nat.zero_lt_succ _))
  case hxk => rfl
  case hpre => rfl
  case hi =>
    intro b hb
    match b with
    | ⟨0, _⟩ => exact absurd rfl hb
    | ⟨1, _⟩ => rfl
  case ha => show 8 + (r.val - 8) = r.val; omega

/-- Rows 8-11 of the c11 stack are volume 2's x-interpolation. -/
theorem stack403_rows2 (r : Fin 12) (hr : 8 ≤ r.val) (n : Fin 1048576) :
    kst_main_v403 (F := Ideal) x0 x1 x2 x3 (ix2 r n) = kst_main_v399 (F := Ideal) x0 x1 x2 x3 (ix2 (⟨r.val - 8, by have := r.isLt; omega⟩ : Fin 4) n) := by
  unfold kst_main_v403
  refine concatenate_apply_piece (0 : Fin 2) _ _ (ix2 r n) 2 ?hk S4x1048576 ?x1 ?hxk rfl 8 ?hpre
    (ix2 (⟨r.val - 8, by have := r.isLt; omega⟩ : Fin 4) n) ?hi ?ha
  case hk => exact Nat.succ_lt_succ (Nat.succ_lt_succ (Nat.zero_lt_succ _))
  case hxk => rfl
  case hpre => rfl
  case hi =>
    intro b hb
    match b with
    | ⟨0, _⟩ => exact absurd rfl hb
    | ⟨1, _⟩ => rfl
  case ha => show 8 + (r.val - 8) = r.val; omega

/-! ## The x-interpolations at an entry -/

/-- Volume 2's x weight broadcast to a row and then down the four channels reads the weight of the column. -/
theorem xweight2_apply (q : Fin 4) (n : Fin 1048576) :
    (broadcastInDim S4x1048576 ![0, 1] bcast_S1x1048576_S4x1048576_0_1 (kst_main_v383 (F := Ideal) x0 x1 x2 x3)) (ix2 q n)
      = kst_main_v300 (F := Ideal) x0 x1 x2 x3 (ix1 n) := by
  refine (broadcastInDim_apply _ _ _ (ix2 q n) (ix2 (0 : Fin 1) n) (fun a => match a with
    | ⟨0, _⟩ => by show 0 = if (1 : Nat) = 1 then 0 else q.val; rw [if_pos rfl]
    | ⟨1, _⟩ => by show n.val = if (1048576 : Nat) = 1 then 0 else n.val; rw [if_neg (by decide)])).trans ?_
  unfold kst_main_v383
  exact broadcastInDim_apply _ _ _ (ix2 (0 : Fin 1) n) (ix1 n) (fun a => match a with
    | ⟨0, _⟩ => by show n.val = if (1048576 : Nat) = 1 then 0 else n.val; rw [if_neg (by decide)])

/-- Volume 2's c00 at an entry: its x0 corner moved toward its x1 corner by the x weight. -/
theorem interp387_apply (q : Fin 4) (n : Fin 1048576) :
    kst_main_v387 (F := Ideal) x0 x1 x2 x3 (ix2 q n)
      = kst_main_v326 (F := Ideal) x0 x1 x2 x3 (ix2 q n)
        + (kst_main_v334 (F := Ideal) x0 x1 x2 x3 (ix2 q n) - kst_main_v326 (F := Ideal) x0 x1 x2 x3 (ix2 q n))
          * kst_main_v300 (F := Ideal) x0 x1 x2 x3 (ix1 n) := by
  unfold kst_main_v387 kst_main_v386 kst_main_v384 kst_main_v385
  exact congrArg (fun w => kst_main_v326 (F := Ideal) x0 x1 x2 x3 (ix2 q n)
        + (kst_main_v334 (F := Ideal) x0 x1 x2 x3 (ix2 q n) - kst_main_v326 (F := Ideal) x0 x1 x2 x3 (ix2 q n)) * w)
    (xweight2_apply x0 x1 x2 x3 q n)

/-- Volume 2's c01 at an entry: its x0 corner moved toward its x1 corner by the x weight. -/
theorem interp391_apply (q : Fin 4) (n : Fin 1048576) :
    kst_main_v391 (F := Ideal) x0 x1 x2 x3 (ix2 q n)
      = kst_main_v342 (F := Ideal) x0 x1 x2 x3 (ix2 q n)
        + (kst_main_v350 (F := Ideal) x0 x1 x2 x3 (ix2 q n) - kst_main_v342 (F := Ideal) x0 x1 x2 x3 (ix2 q n))
          * kst_main_v300 (F := Ideal) x0 x1 x2 x3 (ix1 n) := by
  unfold kst_main_v391 kst_main_v390 kst_main_v388 kst_main_v389
  exact congrArg (fun w => kst_main_v342 (F := Ideal) x0 x1 x2 x3 (ix2 q n)
        + (kst_main_v350 (F := Ideal) x0 x1 x2 x3 (ix2 q n) - kst_main_v342 (F := Ideal) x0 x1 x2 x3 (ix2 q n)) * w)
    (xweight2_apply x0 x1 x2 x3 q n)

/-- Volume 2's c10 at an entry: its x0 corner moved toward its x1 corner by the x weight. -/
theorem interp395_apply (q : Fin 4) (n : Fin 1048576) :
    kst_main_v395 (F := Ideal) x0 x1 x2 x3 (ix2 q n)
      = kst_main_v358 (F := Ideal) x0 x1 x2 x3 (ix2 q n)
        + (kst_main_v366 (F := Ideal) x0 x1 x2 x3 (ix2 q n) - kst_main_v358 (F := Ideal) x0 x1 x2 x3 (ix2 q n))
          * kst_main_v300 (F := Ideal) x0 x1 x2 x3 (ix1 n) := by
  unfold kst_main_v395 kst_main_v394 kst_main_v392 kst_main_v393
  exact congrArg (fun w => kst_main_v358 (F := Ideal) x0 x1 x2 x3 (ix2 q n)
        + (kst_main_v366 (F := Ideal) x0 x1 x2 x3 (ix2 q n) - kst_main_v358 (F := Ideal) x0 x1 x2 x3 (ix2 q n)) * w)
    (xweight2_apply x0 x1 x2 x3 q n)

/-- Volume 2's c11 at an entry: its x0 corner moved toward its x1 corner by the x weight. -/
theorem interp399_apply (q : Fin 4) (n : Fin 1048576) :
    kst_main_v399 (F := Ideal) x0 x1 x2 x3 (ix2 q n)
      = kst_main_v374 (F := Ideal) x0 x1 x2 x3 (ix2 q n)
        + (kst_main_v382 (F := Ideal) x0 x1 x2 x3 (ix2 q n) - kst_main_v374 (F := Ideal) x0 x1 x2 x3 (ix2 q n))
          * kst_main_v300 (F := Ideal) x0 x1 x2 x3 (ix1 n) := by
  unfold kst_main_v399 kst_main_v398 kst_main_v396 kst_main_v397
  exact congrArg (fun w => kst_main_v374 (F := Ideal) x0 x1 x2 x3 (ix2 q n)
        + (kst_main_v382 (F := Ideal) x0 x1 x2 x3 (ix2 q n) - kst_main_v374 (F := Ideal) x0 x1 x2 x3 (ix2 q n)) * w)
    (xweight2_apply x0 x1 x2 x3 q n)

/-! ## The reference's x-interpolations of volume 2 at an entry, and the two programs' agreement there -/

/-- The reference's x-interpolation %601 at an entry: its x0 corner plus the difference to its x1 corner times
    the x weight of the column. -/
theorem ref601_apply (q : Fin 4) (n : Fin 1048576) :
    Cert.ReferenceIdeal.ReadP.val_main_v601 (F := Ideal) x0 x3 (ix2 q n)
      = Cert.ReferenceIdeal.ReadP.val_main_v505 (F := Ideal) x0 x3 (ix2 q n)
        + (Cert.ReferenceIdeal.ReadP.val_main_v518 (F := Ideal) x0 x3 (ix2 q n) - Cert.ReferenceIdeal.ReadP.val_main_v505 (F := Ideal) x0 x3 (ix2 q n))
          * Cert.ReferenceIdeal.ReadP.val_main_v464 (F := Ideal) x0 (ix1 n) := by
  have hw : Cert.ReferenceIdeal.ReadP.val_main_v599 (F := Ideal) x0 (ix2 q n) = Cert.ReferenceIdeal.ReadP.val_main_v464 (F := Ideal) x0 (ix1 n) :=
    (Cert.ReferenceIdeal.ReadP.val_main_v599_apply x0 (ix2 q n)).trans ((Cert.ReferenceIdeal.ReadP.val_main_v598_apply x0 _).trans
      (congrArg (Cert.ReferenceIdeal.ReadP.val_main_v464 (F := Ideal) x0) (funext fun a => match a with | ⟨0, _⟩ => rfl)))
  unfold Cert.ReferenceIdeal.ReadP.val_main_v601 Cert.ReferenceIdeal.ReadP.val_main_v600 Cert.ReferenceIdeal.ReadP.val_main_v597
  exact congrArg (fun w => Cert.ReferenceIdeal.ReadP.val_main_v505 (F := Ideal) x0 x3 (ix2 q n)
        + (Cert.ReferenceIdeal.ReadP.val_main_v518 (F := Ideal) x0 x3 (ix2 q n) - Cert.ReferenceIdeal.ReadP.val_main_v505 (F := Ideal) x0 x3 (ix2 q n)) * w) hw

/-- The reference's x-interpolation %606 at an entry: its x0 corner plus the difference to its x1 corner times
    the x weight of the column. -/
theorem ref606_apply (q : Fin 4) (n : Fin 1048576) :
    Cert.ReferenceIdeal.ReadP.val_main_v606 (F := Ideal) x0 x3 (ix2 q n)
      = Cert.ReferenceIdeal.ReadP.val_main_v531 (F := Ideal) x0 x3 (ix2 q n)
        + (Cert.ReferenceIdeal.ReadP.val_main_v544 (F := Ideal) x0 x3 (ix2 q n) - Cert.ReferenceIdeal.ReadP.val_main_v531 (F := Ideal) x0 x3 (ix2 q n))
          * Cert.ReferenceIdeal.ReadP.val_main_v464 (F := Ideal) x0 (ix1 n) := by
  have hw : Cert.ReferenceIdeal.ReadP.val_main_v604 (F := Ideal) x0 (ix2 q n) = Cert.ReferenceIdeal.ReadP.val_main_v464 (F := Ideal) x0 (ix1 n) :=
    (Cert.ReferenceIdeal.ReadP.val_main_v604_apply x0 (ix2 q n)).trans ((Cert.ReferenceIdeal.ReadP.val_main_v603_apply x0 _).trans
      (congrArg (Cert.ReferenceIdeal.ReadP.val_main_v464 (F := Ideal) x0) (funext fun a => match a with | ⟨0, _⟩ => rfl)))
  unfold Cert.ReferenceIdeal.ReadP.val_main_v606 Cert.ReferenceIdeal.ReadP.val_main_v605 Cert.ReferenceIdeal.ReadP.val_main_v602
  exact congrArg (fun w => Cert.ReferenceIdeal.ReadP.val_main_v531 (F := Ideal) x0 x3 (ix2 q n)
        + (Cert.ReferenceIdeal.ReadP.val_main_v544 (F := Ideal) x0 x3 (ix2 q n) - Cert.ReferenceIdeal.ReadP.val_main_v531 (F := Ideal) x0 x3 (ix2 q n)) * w) hw

/-- The reference's x-interpolation %611 at an entry: its x0 corner plus the difference to its x1 corner times
    the x weight of the column. -/
theorem ref611_apply (q : Fin 4) (n : Fin 1048576) :
    Cert.ReferenceIdeal.ReadP.val_main_v611 (F := Ideal) x0 x3 (ix2 q n)
      = Cert.ReferenceIdeal.ReadP.val_main_v557 (F := Ideal) x0 x3 (ix2 q n)
        + (Cert.ReferenceIdeal.ReadP.val_main_v570 (F := Ideal) x0 x3 (ix2 q n) - Cert.ReferenceIdeal.ReadP.val_main_v557 (F := Ideal) x0 x3 (ix2 q n))
          * Cert.ReferenceIdeal.ReadP.val_main_v464 (F := Ideal) x0 (ix1 n) := by
  have hw : Cert.ReferenceIdeal.ReadP.val_main_v609 (F := Ideal) x0 (ix2 q n) = Cert.ReferenceIdeal.ReadP.val_main_v464 (F := Ideal) x0 (ix1 n) :=
    (Cert.ReferenceIdeal.ReadP.val_main_v609_apply x0 (ix2 q n)).trans ((Cert.ReferenceIdeal.ReadP.val_main_v608_apply x0 _).trans
      (congrArg (Cert.ReferenceIdeal.ReadP.val_main_v464 (F := Ideal) x0) (funext fun a => match a with | ⟨0, _⟩ => rfl)))
  unfold Cert.ReferenceIdeal.ReadP.val_main_v611 Cert.ReferenceIdeal.ReadP.val_main_v610 Cert.ReferenceIdeal.ReadP.val_main_v607
  exact congrArg (fun w => Cert.ReferenceIdeal.ReadP.val_main_v557 (F := Ideal) x0 x3 (ix2 q n)
        + (Cert.ReferenceIdeal.ReadP.val_main_v570 (F := Ideal) x0 x3 (ix2 q n) - Cert.ReferenceIdeal.ReadP.val_main_v557 (F := Ideal) x0 x3 (ix2 q n)) * w) hw

/-- The reference's x-interpolation %616 at an entry: its x0 corner plus the difference to its x1 corner times
    the x weight of the column. -/
theorem ref616_apply (q : Fin 4) (n : Fin 1048576) :
    Cert.ReferenceIdeal.ReadP.val_main_v616 (F := Ideal) x0 x3 (ix2 q n)
      = Cert.ReferenceIdeal.ReadP.val_main_v583 (F := Ideal) x0 x3 (ix2 q n)
        + (Cert.ReferenceIdeal.ReadP.val_main_v596 (F := Ideal) x0 x3 (ix2 q n) - Cert.ReferenceIdeal.ReadP.val_main_v583 (F := Ideal) x0 x3 (ix2 q n))
          * Cert.ReferenceIdeal.ReadP.val_main_v464 (F := Ideal) x0 (ix1 n) := by
  have hw : Cert.ReferenceIdeal.ReadP.val_main_v614 (F := Ideal) x0 (ix2 q n) = Cert.ReferenceIdeal.ReadP.val_main_v464 (F := Ideal) x0 (ix1 n) :=
    (Cert.ReferenceIdeal.ReadP.val_main_v614_apply x0 (ix2 q n)).trans ((Cert.ReferenceIdeal.ReadP.val_main_v613_apply x0 _).trans
      (congrArg (Cert.ReferenceIdeal.ReadP.val_main_v464 (F := Ideal) x0) (funext fun a => match a with | ⟨0, _⟩ => rfl)))
  unfold Cert.ReferenceIdeal.ReadP.val_main_v616 Cert.ReferenceIdeal.ReadP.val_main_v615 Cert.ReferenceIdeal.ReadP.val_main_v612
  exact congrArg (fun w => Cert.ReferenceIdeal.ReadP.val_main_v583 (F := Ideal) x0 x3 (ix2 q n)
        + (Cert.ReferenceIdeal.ReadP.val_main_v596 (F := Ideal) x0 x3 (ix2 q n) - Cert.ReferenceIdeal.ReadP.val_main_v583 (F := Ideal) x0 x3 (ix2 q n)) * w) hw

/-- The kernel program's x-interpolation and the reference's agree at an entry once their two corners and the x
    weight do. -/
theorem glue387 (q : Fin 4) (n : Fin 1048576)
    (ha : kst_main_v326 (F := Ideal) x0 x1 x2 x3 (ix2 q n) = Cert.ReferenceIdeal.ReadP.val_main_v505 (F := Ideal) x0 x3 (ix2 q n))
    (hb : kst_main_v334 (F := Ideal) x0 x1 x2 x3 (ix2 q n) = Cert.ReferenceIdeal.ReadP.val_main_v518 (F := Ideal) x0 x3 (ix2 q n))
    (hw : kst_main_v300 (F := Ideal) x0 x1 x2 x3 (ix1 n) = Cert.ReferenceIdeal.ReadP.val_main_v464 (F := Ideal) x0 (ix1 n)) :
    kst_main_v387 (F := Ideal) x0 x1 x2 x3 (ix2 q n) = Cert.ReferenceIdeal.ReadP.val_main_v601 (F := Ideal) x0 x3 (ix2 q n) := by
  rw [interp387_apply, ref601_apply, ha, hb, hw]

/-- The kernel program's x-interpolation and the reference's agree at an entry once their two corners and the x
    weight do. -/
theorem glue391 (q : Fin 4) (n : Fin 1048576)
    (ha : kst_main_v342 (F := Ideal) x0 x1 x2 x3 (ix2 q n) = Cert.ReferenceIdeal.ReadP.val_main_v531 (F := Ideal) x0 x3 (ix2 q n))
    (hb : kst_main_v350 (F := Ideal) x0 x1 x2 x3 (ix2 q n) = Cert.ReferenceIdeal.ReadP.val_main_v544 (F := Ideal) x0 x3 (ix2 q n))
    (hw : kst_main_v300 (F := Ideal) x0 x1 x2 x3 (ix1 n) = Cert.ReferenceIdeal.ReadP.val_main_v464 (F := Ideal) x0 (ix1 n)) :
    kst_main_v391 (F := Ideal) x0 x1 x2 x3 (ix2 q n) = Cert.ReferenceIdeal.ReadP.val_main_v606 (F := Ideal) x0 x3 (ix2 q n) := by
  rw [interp391_apply, ref606_apply, ha, hb, hw]

/-- The kernel program's x-interpolation and the reference's agree at an entry once their two corners and the x
    weight do. -/
theorem glue395 (q : Fin 4) (n : Fin 1048576)
    (ha : kst_main_v358 (F := Ideal) x0 x1 x2 x3 (ix2 q n) = Cert.ReferenceIdeal.ReadP.val_main_v557 (F := Ideal) x0 x3 (ix2 q n))
    (hb : kst_main_v366 (F := Ideal) x0 x1 x2 x3 (ix2 q n) = Cert.ReferenceIdeal.ReadP.val_main_v570 (F := Ideal) x0 x3 (ix2 q n))
    (hw : kst_main_v300 (F := Ideal) x0 x1 x2 x3 (ix1 n) = Cert.ReferenceIdeal.ReadP.val_main_v464 (F := Ideal) x0 (ix1 n)) :
    kst_main_v395 (F := Ideal) x0 x1 x2 x3 (ix2 q n) = Cert.ReferenceIdeal.ReadP.val_main_v611 (F := Ideal) x0 x3 (ix2 q n) := by
  rw [interp395_apply, ref611_apply, ha, hb, hw]

/-- The kernel program's x-interpolation and the reference's agree at an entry once their two corners and the x
    weight do. -/
theorem glue399 (q : Fin 4) (n : Fin 1048576)
    (ha : kst_main_v374 (F := Ideal) x0 x1 x2 x3 (ix2 q n) = Cert.ReferenceIdeal.ReadP.val_main_v583 (F := Ideal) x0 x3 (ix2 q n))
    (hb : kst_main_v382 (F := Ideal) x0 x1 x2 x3 (ix2 q n) = Cert.ReferenceIdeal.ReadP.val_main_v596 (F := Ideal) x0 x3 (ix2 q n))
    (hw : kst_main_v300 (F := Ideal) x0 x1 x2 x3 (ix1 n) = Cert.ReferenceIdeal.ReadP.val_main_v464 (F := Ideal) x0 (ix1 n)) :
    kst_main_v399 (F := Ideal) x0 x1 x2 x3 (ix2 q n) = Cert.ReferenceIdeal.ReadP.val_main_v616 (F := Ideal) x0 x3 (ix2 q n) := by
  rw [interp399_apply, ref616_apply, ha, hb, hw]

/-! ## The region's entry arrays at an element of volume 2's rows -/

section Entry

open Cert.KernelIdeal.Around

variable (m : (ℓ : Loc nD τ sig) → Buf (Elt Ideal) ℓ)

/-- What the region finds in the c00 stack at a row of volume 2 is the reference's x-interpolation %601 there, once
    the two corners and the x weight agree. -/
theorem entry400_rows2 (c : Dev nD) (r : Fin 12) (hr : 8 ≤ r.val) (n : Fin 1048576)
    (ha : kst_main_v326 (F := Ideal) (m ((c.tc : Thread nD τ).loc main_arg0)) (m ((c.tc : Thread nD τ).loc main_arg1)) (m ((c.tc : Thread nD τ).loc main_arg2)) (m ((c.tc : Thread nD τ).loc main_arg3)) (ix2 (⟨r.val - 8, by have := r.isLt; omega⟩ : Fin 4) n)
      = Cert.ReferenceIdeal.ReadP.val_main_v505 (F := Ideal) (m ((c.tc : Thread nD τ).loc main_arg0)) (m ((c.tc : Thread nD τ).loc main_arg3)) (ix2 (⟨r.val - 8, by have := r.isLt; omega⟩ : Fin 4) n))
    (hb : kst_main_v334 (F := Ideal) (m ((c.tc : Thread nD τ).loc main_arg0)) (m ((c.tc : Thread nD τ).loc main_arg1)) (m ((c.tc : Thread nD τ).loc main_arg2)) (m ((c.tc : Thread nD τ).loc main_arg3)) (ix2 (⟨r.val - 8, by have := r.isLt; omega⟩ : Fin 4) n)
      = Cert.ReferenceIdeal.ReadP.val_main_v518 (F := Ideal) (m ((c.tc : Thread nD τ).loc main_arg0)) (m ((c.tc : Thread nD τ).loc main_arg3)) (ix2 (⟨r.val - 8, by have := r.isLt; omega⟩ : Fin 4) n))
    (hw : kst_main_v300 (F := Ideal) (m ((c.tc : Thread nD τ).loc main_arg0)) (m ((c.tc : Thread nD τ).loc main_arg1)) (m ((c.tc : Thread nD τ).loc main_arg2)) (m ((c.tc : Thread nD τ).loc main_arg3)) (ix1 n)
      = Cert.ReferenceIdeal.ReadP.val_main_v464 (F := Ideal) (m ((c.tc : Thread nD τ).loc main_arg0)) (ix1 n)) :
    (V m c main_v400 : S12x1048576.Idx → EReal) (ix2 r n)
      = Cert.ReferenceIdeal.ReadP.val_main_v601 (F := Ideal) (m ((c.tc : Thread nD τ).loc main_arg0)) (m ((c.tc : Thread nD τ).loc main_arg3)) (ix2 (⟨r.val - 8, by have := r.isLt; omega⟩ : Fin 4) n) := by
  have e : (V m c main_v400 : S12x1048576.Idx → EReal) = kst_main_v400 (F := Ideal) (m ((c.tc : Thread nD τ).loc main_arg0)) (m ((c.tc : Thread nD τ).loc main_arg1)) (m ((c.tc : Thread nD τ).loc main_arg2)) (m ((c.tc : Thread nD τ).loc main_arg3)) :=
    entry_main_v400 m c
  exact (congrFun e (ix2 r n)).trans ((stack400_rows2 (m ((c.tc : Thread nD τ).loc main_arg0)) (m ((c.tc : Thread nD τ).loc main_arg1)) (m ((c.tc : Thread nD τ).loc main_arg2)) (m ((c.tc : Thread nD τ).loc main_arg3)) r hr n).trans
    (glue387 (m ((c.tc : Thread nD τ).loc main_arg0)) (m ((c.tc : Thread nD τ).loc main_arg1)) (m ((c.tc : Thread nD τ).loc main_arg2)) (m ((c.tc : Thread nD τ).loc main_arg3)) (⟨r.val - 8, by have := r.isLt; omega⟩ : Fin 4) n ha hb hw))

/-- What the region finds in the c01 stack at a row of volume 2 is the reference's x-interpolation %606 there, once
    the two corners and the x weight agree. -/
theorem entry401_rows2 (c : Dev nD) (r : Fin 12) (hr : 8 ≤ r.val) (n : Fin 1048576)
    (ha : kst_main_v342 (F := Ideal) (m ((c.tc : Thread nD τ).loc main_arg0)) (m ((c.tc : Thread nD τ).loc main_arg1)) (m ((c.tc : Thread nD τ).loc main_arg2)) (m ((c.tc : Thread nD τ).loc main_arg3)) (ix2 (⟨r.val - 8, by have := r.isLt; omega⟩ : Fin 4) n)
      = Cert.ReferenceIdeal.ReadP.val_main_v531 (F := Ideal) (m ((c.tc : Thread nD τ).loc main_arg0)) (m ((c.tc : Thread nD τ).loc main_arg3)) (ix2 (⟨r.val - 8, by have := r.isLt; omega⟩ : Fin 4) n))
    (hb : kst_main_v350 (F := Ideal) (m ((c.tc : Thread nD τ).loc main_arg0)) (m ((c.tc : Thread nD τ).loc main_arg1)) (m ((c.tc : Thread nD τ).loc main_arg2)) (m ((c.tc : Thread nD τ).loc main_arg3)) (ix2 (⟨r.val - 8, by have := r.isLt; omega⟩ : Fin 4) n)
      = Cert.ReferenceIdeal.ReadP.val_main_v544 (F := Ideal) (m ((c.tc : Thread nD τ).loc main_arg0)) (m ((c.tc : Thread nD τ).loc main_arg3)) (ix2 (⟨r.val - 8, by have := r.isLt; omega⟩ : Fin 4) n))
    (hw : kst_main_v300 (F := Ideal) (m ((c.tc : Thread nD τ).loc main_arg0)) (m ((c.tc : Thread nD τ).loc main_arg1)) (m ((c.tc : Thread nD τ).loc main_arg2)) (m ((c.tc : Thread nD τ).loc main_arg3)) (ix1 n)
      = Cert.ReferenceIdeal.ReadP.val_main_v464 (F := Ideal) (m ((c.tc : Thread nD τ).loc main_arg0)) (ix1 n)) :
    (V m c main_v401 : S12x1048576.Idx → EReal) (ix2 r n)
      = Cert.ReferenceIdeal.ReadP.val_main_v606 (F := Ideal) (m ((c.tc : Thread nD τ).loc main_arg0)) (m ((c.tc : Thread nD τ).loc main_arg3)) (ix2 (⟨r.val - 8, by have := r.isLt; omega⟩ : Fin 4) n) := by
  have e : (V m c main_v401 : S12x1048576.Idx → EReal) = kst_main_v401 (F := Ideal) (m ((c.tc : Thread nD τ).loc main_arg0)) (m ((c.tc : Thread nD τ).loc main_arg1)) (m ((c.tc : Thread nD τ).loc main_arg2)) (m ((c.tc : Thread nD τ).loc main_arg3)) :=
    entry_main_v401 m c
  exact (congrFun e (ix2 r n)).trans ((stack401_rows2 (m ((c.tc : Thread nD τ).loc main_arg0)) (m ((c.tc : Thread nD τ).loc main_arg1)) (m ((c.tc : Thread nD τ).loc main_arg2)) (m ((c.tc : Thread nD τ).loc main_arg3)) r hr n).trans
    (glue391 (m ((c.tc : Thread nD τ).loc main_arg0)) (m ((c.tc : Thread nD τ).loc main_arg1)) (m ((c.tc : Thread nD τ).loc main_arg2)) (m ((c.tc : Thread nD τ).loc main_arg3)) (⟨r.val - 8, by have := r.isLt; omega⟩ : Fin 4) n ha hb hw))

/-- What the region finds in the c10 stack at a row of volume 2 is the reference's x-interpolation %611 there, once
    the two corners and the x weight agree. -/
theorem entry402_rows2 (c : Dev nD) (r : Fin 12) (hr : 8 ≤ r.val) (n : Fin 1048576)
    (ha : kst_main_v358 (F := Ideal) (m ((c.tc : Thread nD τ).loc main_arg0)) (m ((c.tc : Thread nD τ).loc main_arg1)) (m ((c.tc : Thread nD τ).loc main_arg2)) (m ((c.tc : Thread nD τ).loc main_arg3)) (ix2 (⟨r.val - 8, by have := r.isLt; omega⟩ : Fin 4) n)
      = Cert.ReferenceIdeal.ReadP.val_main_v557 (F := Ideal) (m ((c.tc : Thread nD τ).loc main_arg0)) (m ((c.tc : Thread nD τ).loc main_arg3)) (ix2 (⟨r.val - 8, by have := r.isLt; omega⟩ : Fin 4) n))
    (hb : kst_main_v366 (F := Ideal) (m ((c.tc : Thread nD τ).loc main_arg0)) (m ((c.tc : Thread nD τ).loc main_arg1)) (m ((c.tc : Thread nD τ).loc main_arg2)) (m ((c.tc : Thread nD τ).loc main_arg3)) (ix2 (⟨r.val - 8, by have := r.isLt; omega⟩ : Fin 4) n)
      = Cert.ReferenceIdeal.ReadP.val_main_v570 (F := Ideal) (m ((c.tc : Thread nD τ).loc main_arg0)) (m ((c.tc : Thread nD τ).loc main_arg3)) (ix2 (⟨r.val - 8, by have := r.isLt; omega⟩ : Fin 4) n))
    (hw : kst_main_v300 (F := Ideal) (m ((c.tc : Thread nD τ).loc main_arg0)) (m ((c.tc : Thread nD τ).loc main_arg1)) (m ((c.tc : Thread nD τ).loc main_arg2)) (m ((c.tc : Thread nD τ).loc main_arg3)) (ix1 n)
      = Cert.ReferenceIdeal.ReadP.val_main_v464 (F := Ideal) (m ((c.tc : Thread nD τ).loc main_arg0)) (ix1 n)) :
    (V m c main_v402 : S12x1048576.Idx → EReal) (ix2 r n)
      = Cert.ReferenceIdeal.ReadP.val_main_v611 (F := Ideal) (m ((c.tc : Thread nD τ).loc main_arg0)) (m ((c.tc : Thread nD τ).loc main_arg3)) (ix2 (⟨r.val - 8, by have := r.isLt; omega⟩ : Fin 4) n) := by
  have e : (V m c main_v402 : S12x1048576.Idx → EReal) = kst_main_v402 (F := Ideal) (m ((c.tc : Thread nD τ).loc main_arg0)) (m ((c.tc : Thread nD τ).loc main_arg1)) (m ((c.tc : Thread nD τ).loc main_arg2)) (m ((c.tc : Thread nD τ).loc main_arg3)) :=
    entry_main_v402 m c
  exact (congrFun e (ix2 r n)).trans ((stack402_rows2 (m ((c.tc : Thread nD τ).loc main_arg0)) (m ((c.tc : Thread nD τ).loc main_arg1)) (m ((c.tc : Thread nD τ).loc main_arg2)) (m ((c.tc : Thread nD τ).loc main_arg3)) r hr n).trans
    (glue395 (m ((c.tc : Thread nD τ).loc main_arg0)) (m ((c.tc : Thread nD τ).loc main_arg1)) (m ((c.tc : Thread nD τ).loc main_arg2)) (m ((c.tc : Thread nD τ).loc main_arg3)) (⟨r.val - 8, by have := r.isLt; omega⟩ : Fin 4) n ha hb hw))

/-- What the region finds in the c11 stack at a row of volume 2 is the reference's x-interpolation %616 there, once
    the two corners and the x weight agree. -/
theorem entry403_rows2 (c : Dev nD) (r : Fin 12) (hr : 8 ≤ r.val) (n : Fin 1048576)
    (ha : kst_main_v374 (F := Ideal) (m ((c.tc : Thread nD τ).loc main_arg0)) (m ((c.tc : Thread nD τ).loc main_arg1)) (m ((c.tc : Thread nD τ).loc main_arg2)) (m ((c.tc : Thread nD τ).loc main_arg3)) (ix2 (⟨r.val - 8, by have := r.isLt; omega⟩ : Fin 4) n)
      = Cert.ReferenceIdeal.ReadP.val_main_v583 (F := Ideal) (m ((c.tc : Thread nD τ).loc main_arg0)) (m ((c.tc : Thread nD τ).loc main_arg3)) (ix2 (⟨r.val - 8, by have := r.isLt; omega⟩ : Fin 4) n))
    (hb : kst_main_v382 (F := Ideal) (m ((c.tc : Thread nD τ).loc main_arg0)) (m ((c.tc : Thread nD τ).loc main_arg1)) (m ((c.tc : Thread nD τ).loc main_arg2)) (m ((c.tc : Thread nD τ).loc main_arg3)) (ix2 (⟨r.val - 8, by have := r.isLt; omega⟩ : Fin 4) n)
      = Cert.ReferenceIdeal.ReadP.val_main_v596 (F := Ideal) (m ((c.tc : Thread nD τ).loc main_arg0)) (m ((c.tc : Thread nD τ).loc main_arg3)) (ix2 (⟨r.val - 8, by have := r.isLt; omega⟩ : Fin 4) n))
    (hw : kst_main_v300 (F := Ideal) (m ((c.tc : Thread nD τ).loc main_arg0)) (m ((c.tc : Thread nD τ).loc main_arg1)) (m ((c.tc : Thread nD τ).loc main_arg2)) (m ((c.tc : Thread nD τ).loc main_arg3)) (ix1 n)
      = Cert.ReferenceIdeal.ReadP.val_main_v464 (F := Ideal) (m ((c.tc : Thread nD τ).loc main_arg0)) (ix1 n)) :
    (V m c main_v403 : S12x1048576.Idx → EReal) (ix2 r n)
      = Cert.ReferenceIdeal.ReadP.val_main_v616 (F := Ideal) (m ((c.tc : Thread nD τ).loc main_arg0)) (m ((c.tc : Thread nD τ).loc main_arg3)) (ix2 (⟨r.val - 8, by have := r.isLt; omega⟩ : Fin 4) n) := by
  have e : (V m c main_v403 : S12x1048576.Idx → EReal) = kst_main_v403 (F := Ideal) (m ((c.tc : Thread nD τ).loc main_arg0)) (m ((c.tc : Thread nD τ).loc main_arg1)) (m ((c.tc : Thread nD τ).loc main_arg2)) (m ((c.tc : Thread nD τ).loc main_arg3)) :=
    entry_main_v403 m c
  exact (congrFun e (ix2 r n)).trans ((stack403_rows2 (m ((c.tc : Thread nD τ).loc main_arg0)) (m ((c.tc : Thread nD τ).loc main_arg1)) (m ((c.tc : Thread nD τ).loc main_arg2)) (m ((c.tc : Thread nD τ).loc main_arg3)) r hr n).trans
    (glue399 (m ((c.tc : Thread nD τ).loc main_arg0)) (m ((c.tc : Thread nD τ).loc main_arg1)) (m ((c.tc : Thread nD τ).loc main_arg2)) (m ((c.tc : Thread nD τ).loc main_arg3)) (⟨r.val - 8, by have := r.isLt; omega⟩ : Fin 4) n ha hb hw))

end Entry

end Cert.KernelIdeal.Glue

end
-- ==== Proof.LibGatherRows.lean ====
/-
  A gather of whole rows, or of whole columns, of a rank-2 array, read at an index.

  The operand is a table `[M, C]` (one row per position, `C` channels) or its transpose `[C, M]`; the start indices are
  an `[N, 1]` array of integers, one position per result row (column). Every result element is the operand's element
  in the same channel at the position the start index names, the start index read as a signed integer and clamped
  into `[0, M − 1]` as the gather clamps every start index. The argument is the one for a rank-1 operand: per operand
  axis the operand index is the clamped start plus the batching coordinate plus the offset coordinate; the collapsed
  axis carries the start alone, and the kept axis — the channel — carries the result's own offset coordinate alone.
-/
import Idealize.ShloMosaic.Lib.ValueIdx

noncomputable section

namespace Cert.Proof.LibGatherRows

open Idealize.ShloMosaic Idealize.ShloMosaic.ValueIdx

variable {α : Type}

/-! ## Words: the signed reading of a word that is not negative -/

/-- A word whose signed reading is nonnegative has that reading equal to its unsigned one. -/
theorem toInt_toNat_of_nonneg {w : Nat} (b : BitVec w) (h0 : 0 ≤ b.toInt) : b.toInt.toNat = b.toNat := by
  have h := BitVec.toInt_eq_toNat_cond b
  have hlt := b.isLt
  split at h <;> omega

/-- A word whose signed reading lies in `[0, M)` has its unsigned reading below `M`. -/
theorem toNat_lt_of_toInt {w M : Nat} (b : BitVec w) (h0 : 0 ≤ b.toInt) (hlt : b.toInt < (M : Int)) : b.toNat < M := by
  have := toInt_toNat_of_nonneg b h0
  omega

/-- A signed reading in `[0, M)` is its own clamp into `[0, M − 1]`: `min (toInt.toNat) (M − 1) = toNat`. -/
theorem clamp_eq_toNat {w M : Nat} (b : BitVec w) (h0 : 0 ≤ b.toInt) (hlt : b.toInt < (M : Int)) :
    min b.toInt.toNat (M - 1) = b.toNat := by
  have := toInt_toNat_of_nonneg b h0
  omega

/-! ## Rows: operand `[M, C]`, start indices `[N, 1]`, result `[N, C]` -/

section Rows

/-- The dimension numbers of a gather of whole rows: operand `[M, C]`, start indices `[N, 1]`, result `[N, C]`; offset
    axis 1 (the channel, kept whole: slice sizes `[1, C]`), collapsed axis 0, start index map `[0]`, index vector on
    axis 1. Their conditions `wf` are decided on a program's literal shapes. -/
abbrev rowDims (M N C : Nat)
    (wf : GatherDims.WF ⟨2, ![M, C]⟩ ⟨2, ![N, 1]⟩ ⟨2, ![N, C]⟩ [1] [0] [] [0] [] 1 ![1, C]) :
    GatherDims ⟨2, ![M, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- The row gather at `(n, c)` is the operand at `(r, c)` for ANY row `r` whose number is the start index `idx[n, 0]`
    read signed and clamped into `[0, M − 1]`: on axis 0 (collapsed) the operand index is the clamped start alone, on
    axis 1 (kept) it is the result's offset coordinate `c` alone. -/
theorem gather_rows_at {M N C w : Nat}
    (wf : GatherDims.WF ⟨2, ![M, C]⟩ ⟨2, ![N, 1]⟩ ⟨2, ![N, C]⟩ [1] [0] [] [0] [] 1 ![1, C])
    (x : (⟨2, ![M, C]⟩ : Shape).Idx → α) (idx : IVec ⟨2, ![N, 1]⟩ w) (n : Fin N) (c : Fin C) (r : Fin M)
    (hr : r.val = min (idx (ix2 n 0)).toInt.toNat (M - 1)) :
    Host.gather (rowDims M N C wf) x idx (ix2 n c) = x (ix2 r c) := by
  unfold Host.gather
  congr 1
  funext a
  refine Fin.ext ?_
  have h10 : ¬ ((1 : Fin 2) = 0) := by decide
  match a with
  | ⟨0, _⟩ =>
    show (rowDims M N C wf).start (ix2 n c) idx 0 + (rowDims M N C wf).batchCoord (ix2 n c) 0
      + (rowDims M N C wf).offCoord (ix2 n c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims M N C wf).startIndexMap from List.mem_singleton.mpr rfl)]
    have hsi : (rowDims M N C wf).siIdx (ix2 n c) ⟨List.idxOf (0 : Fin 2) (rowDims M N C wf).startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    exact hr.symm
  | ⟨1, _⟩ =>
    show (rowDims M N C wf).start (ix2 n c) idx 1 + (rowDims M N C wf).batchCoord (ix2 n c) 1
      + (rowDims M N C wf).offCoord (ix2 n c) 1 = _
    have hk : (1 : Fin 2) ∈ (rowDims M N C wf).sKept :=
      (GatherDims.mem_sKept _ _).mpr ⟨fun h => h10 (List.mem_singleton.mp h), List.not_mem_nil⟩
    rw [GatherDims.batchCoord_eq_zero _ _ _ List.not_mem_nil]
    unfold GatherDims.start GatherDims.offCoord
    rw [dif_neg (show (1 : Fin 2) ∉ (rowDims M N C wf).startIndexMap from fun h => h10 (List.mem_singleton.mp h)),
      dif_pos hk]
    simp only [Nat.add_zero, Nat.zero_add]
    rfl

/-- THE ROW GATHER READ AT `(n, c)`: the operand at row `idx[n, 0]`, read signed and clamped into `[0, M − 1]`, and
    column `c`. -/
theorem gather_rows_apply {M N C w : Nat} (hM : 0 < M)
    (wf : GatherDims.WF ⟨2, ![M, C]⟩ ⟨2, ![N, 1]⟩ ⟨2, ![N, C]⟩ [1] [0] [] [0] [] 1 ![1, C])
    (x : (⟨2, ![M, C]⟩ : Shape).Idx → α) (idx : IVec ⟨2, ![N, 1]⟩ w) (n : Fin N) (c : Fin C) :
    Host.gather (rowDims M N C wf) x idx (ix2 n c)
      = x (ix2 ⟨min (idx (ix2 n 0)).toInt.toNat (M - 1), by omega⟩ c) :=
  gather_rows_at wf x idx n c _ rfl

/-- When the start index `idx[n, 0]` read signed IS the number of a row `r`, the row gather at `(n, c)` is the operand
    at `(r, c)`: a row number is its own clamp. -/
theorem gather_rows_apply_of_toInt_eq {M N C w : Nat}
    (wf : GatherDims.WF ⟨2, ![M, C]⟩ ⟨2, ![N, 1]⟩ ⟨2, ![N, C]⟩ [1] [0] [] [0] [] 1 ![1, C])
    (x : (⟨2, ![M, C]⟩ : Shape).Idx → α) (idx : IVec ⟨2, ![N, 1]⟩ w) (n : Fin N) (c : Fin C) (r : Fin M)
    (hr : (idx (ix2 n 0)).toInt = (r.val : Int)) :
    Host.gather (rowDims M N C wf) x idx (ix2 n c) = x (ix2 r c) :=
  gather_rows_at wf x idx n c r (by have := r.isLt; omega)

/-- When the start index `idx[n, 0]` read signed lies in `[0, M)` the clamp disappears: the row gather at `(n, c)` is
    the operand at row `idx[n, 0]` read unsigned and column `c`. -/
theorem gather_rows_apply_of_lt {M N C w : Nat}
    (wf : GatherDims.WF ⟨2, ![M, C]⟩ ⟨2, ![N, 1]⟩ ⟨2, ![N, C]⟩ [1] [0] [] [0] [] 1 ![1, C])
    (x : (⟨2, ![M, C]⟩ : Shape).Idx → α) (idx : IVec ⟨2, ![N, 1]⟩ w) (n : Fin N) (c : Fin C)
    (h0 : 0 ≤ (idx (ix2 n 0)).toInt) (hlt : (idx (ix2 n 0)).toInt < (M : Int)) :
    Host.gather (rowDims M N C wf) x idx (ix2 n c)
      = x (ix2 ⟨(idx (ix2 n 0)).toNat, toNat_lt_of_toInt _ h0 hlt⟩ c) :=
  gather_rows_at wf x idx n c _ (clamp_eq_toNat _ h0 hlt).symm

end Rows

/-! ## Columns: operand `[C, M]`, start indices `[N, 1]`, result `[C, N]` -/

section Cols

/-- The dimension numbers of a gather of whole columns: operand `[C, M]`, start indices `[N, 1]`, result `[C, N]`;
    offset axis 0 (the channel, kept whole: slice sizes `[C, 1]`), collapsed axis 1, start index map `[1]`, index
    vector on axis 1. Their conditions `wf` are decided on a program's literal shapes. -/
abbrev colDims (M N C : Nat)
    (wf : GatherDims.WF ⟨2, ![C, M]⟩ ⟨2, ![N, 1]⟩ ⟨2, ![C, N]⟩ [0] [1] [] [1] [] 1 ![C, 1]) :
    GatherDims ⟨2, ![C, M]⟩ ⟨2, ![N, 1]⟩ ⟨2, ![C, N]⟩ where
  offsetDims := [0]
  collapsedSliceDims := [1]
  operandBatchingDims := []
  startIndicesBatchingDims := []
  startIndexMap := [1]
  indexVectorDim := 1
  sliceSizes := ![C, 1]
  wf := wf

/-- The column gather at `(c, n)` is the operand at `(c, r)` for ANY column `r` whose number is the start index
    `idx[n, 0]` read signed and clamped into `[0, M − 1]`: on axis 0 (kept) the operand index is the result's offset
    coordinate `c` alone, on axis 1 (collapsed) it is the clamped start alone. -/
theorem gather_cols_at {M N C w : Nat}
    (wf : GatherDims.WF ⟨2, ![C, M]⟩ ⟨2, ![N, 1]⟩ ⟨2, ![C, N]⟩ [0] [1] [] [1] [] 1 ![C, 1])
    (x : (⟨2, ![C, M]⟩ : Shape).Idx → α) (idx : IVec ⟨2, ![N, 1]⟩ w) (c : Fin C) (n : Fin N) (r : Fin M)
    (hr : r.val = min (idx (ix2 n 0)).toInt.toNat (M - 1)) :
    Host.gather (colDims M N C wf) x idx (ix2 c n) = x (ix2 c r) := by
  unfold Host.gather
  congr 1
  funext a
  refine Fin.ext ?_
  have h01 : ¬ ((0 : Fin 2) = 1) := by decide
  match a with
  | ⟨0, _⟩ =>
    show (colDims M N C wf).start (ix2 c n) idx 0 + (colDims M N C wf).batchCoord (ix2 c n) 0
      + (colDims M N C wf).offCoord (ix2 c n) 0 = _
    have hk : (0 : Fin 2) ∈ (colDims M N C wf).sKept :=
      (GatherDims.mem_sKept _ _).mpr ⟨fun h => h01 (List.mem_singleton.mp h), List.not_mem_nil⟩
    rw [GatherDims.batchCoord_eq_zero _ _ _ List.not_mem_nil]
    unfold GatherDims.start GatherDims.offCoord
    rw [dif_neg (show (0 : Fin 2) ∉ (colDims M N C wf).startIndexMap from fun h => h01 (List.mem_singleton.mp h)),
      dif_pos hk]
    simp only [Nat.add_zero, Nat.zero_add]
    rfl
  | ⟨1, _⟩ =>
    show (colDims M N C wf).start (ix2 c n) idx 1 + (colDims M N C wf).batchCoord (ix2 c n) 1
      + (colDims M N C wf).offCoord (ix2 c n) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims M N C wf).startIndexMap from List.mem_singleton.mpr rfl)]
    have hsi : (colDims M N C wf).siIdx (ix2 c n) ⟨List.idxOf (1 : Fin 2) (colDims M N C wf).startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    exact hr.symm

/-- THE COLUMN GATHER READ AT `(c, n)`: the operand at row `c` and column `idx[n, 0]`, read signed and clamped into
    `[0, M − 1]`. -/
theorem gather_cols_apply {M N C w : Nat} (hM : 0 < M)
    (wf : GatherDims.WF ⟨2, ![C, M]⟩ ⟨2, ![N, 1]⟩ ⟨2, ![C, N]⟩ [0] [1] [] [1] [] 1 ![C, 1])
    (x : (⟨2, ![C, M]⟩ : Shape).Idx → α) (idx : IVec ⟨2, ![N, 1]⟩ w) (c : Fin C) (n : Fin N) :
    Host.gather (colDims M N C wf) x idx (ix2 c n)
      = x (ix2 c ⟨min (idx (ix2 n 0)).toInt.toNat (M - 1), by omega⟩) :=
  gather_cols_at wf x idx c n _ rfl

/-- When the start index `idx[n, 0]` read signed IS the number of a column `r`, the column gather at `(c, n)` is the
    operand at `(c, r)`: a column number is its own clamp. -/
theorem gather_cols_apply_of_toInt_eq {M N C w : Nat}
    (wf : GatherDims.WF ⟨2, ![C, M]⟩ ⟨2, ![N, 1]⟩ ⟨2, ![C, N]⟩ [0] [1] [] [1] [] 1 ![C, 1])
    (x : (⟨2, ![C, M]⟩ : Shape).Idx → α) (idx : IVec ⟨2, ![N, 1]⟩ w) (c : Fin C) (n : Fin N) (r : Fin M)
    (hr : (idx (ix2 n 0)).toInt = (r.val : Int)) :
    Host.gather (colDims M N C wf) x idx (ix2 c n) = x (ix2 c r) :=
  gather_cols_at wf x idx c n r (by have := r.isLt; omega)

/-- When the start index `idx[n, 0]` read signed lies in `[0, M)` the clamp disappears: the column gather at `(c, n)`
    is the operand at row `c` and column `idx[n, 0]` read unsigned. -/
theorem gather_cols_apply_of_lt {M N C w : Nat}
    (wf : GatherDims.WF ⟨2, ![C, M]⟩ ⟨2, ![N, 1]⟩ ⟨2, ![C, N]⟩ [0] [1] [] [1] [] 1 ![C, 1])
    (x : (⟨2, ![C, M]⟩ : Shape).Idx → α) (idx : IVec ⟨2, ![N, 1]⟩ w) (c : Fin C) (n : Fin N)
    (h0 : 0 ≤ (idx (ix2 n 0)).toInt) (hlt : (idx (ix2 n 0)).toInt < (M : Int)) :
    Host.gather (colDims M N C wf) x idx (ix2 c n)
      = x (ix2 c ⟨(idx (ix2 n 0)).toNat, toNat_lt_of_toInt _ h0 hlt⟩) :=
  gather_cols_at wf x idx c n _ (clamp_eq_toNat _ h0 hlt).symm

end Cols

end Cert.Proof.LibGatherRows

end
-- ==== Proof.CornerReads.lean ====
/-
  One corner of one volume, in both programs' spelling, lands on the volume's element `(0, ch, z, y, x)`.

  Each program reads a corner of the sampling cell by flattening the volume `[1, 4, D, D, D]` into a table whose one axis
  is the flat position `(z · D + y) · D + x` and whose other axis is the channel, and gathering that table at a vector of
  flat positions. The kernel makes the table positions-by-channels (it moves the channel axis last before flattening)
  and gathers rows, then transposes; the reference makes it channels-by-positions and gathers columns. Both are read
  here at one result index `(ch, n)`: a reshape keeps the row-major position, a transpose permutes coordinates, and the
  gather reads the row (column) its start index names. Stated for the three volumes, `D = 64, 128, 192`.
-/
import proofs.«113233_j37486474559588_2_alg».proof.KernelIdeal
import proofs.«113233_j37486474559588_2_alg».proof.ReferenceIdeal
import proofs.«113233_j37486474559588_2_alg».proof.Proof.LibGatherRows
import Idealize.ShloMosaic.Lib.Pipeline.Value
import Idealize.ShloMosaic.Lib.ValueIdx

noncomputable section

namespace Cert.Proof.CornerReads

open Idealize.ShloMosaic Idealize.ShloMosaic.ValueIdx Cert.Proof.LibGatherRows

variable {α : Type}

/-! ## Words: a 32-bit index below `2 ^ 31` -/

/-- A 32-bit word whose unsigned reading is `m < 2 ^ 31` has signed reading `m`. -/
theorem toInt_eq_of_toNat_eq (b : BitVec 32) (m : ℕ) (hm : m < 2147483648) (h : b.toNat = m) : b.toInt = (m : Int) := by
  have hc := BitVec.toInt_eq_toNat_cond b
  split at hc <;> omega

/-! ## The kernel's spelling: channel-last table, rows gathered, result transposed -/

section Kernel
variable [Cert.KernelIdeal.Facts₀]
open Cert.KernelIdeal Cert.KernelIdeal.Facts₀

/-- Volume 0 (extent 64), the kernel's spelling: the volume `[1, 4, 64, 64, 64]` reshaped to `[4, 64, 64, 64]`, its
    channel axis moved last, flattened to the table `[262144, 4]` of positions by channels, rows gathered at the index
    vector and the result transposed to `[4, N]`. When the `n`-th index read signed is the flat position
    `(z · 64 + y) · 64 + x`, the element at `(ch, n)` is the volume's at `(0, ch, z, y, x)`. -/
theorem kcorner0 (vol : S1x4x64x64x64.Idx → α) (I : IVec S1048576 32) (ch : Fin 4) (n : Fin 1048576) (x y z : Fin 64)
    (hI : (I (ix1 n)).toInt = (((z.val * 64 + y.val) * 64 + x.val : ℕ) : Int)) :
    transpose S4x1048576 [1, 0]
      (Host.gather gather_S262144x4_S1048576x1_S1048576x4_1_0_n_n_0_1_14
        (shapeCast S262144x4
          (transpose S64x64x64x4 [1, 2, 3, 0]
            (shapeCast S4x64x64x64 vol shapeCasts_S1x4x64x64x64_S4x64x64x64)
            transposes_S4x64x64x64_S64x64x64x4_1_2_3_0)
          shapeCasts_S64x64x64x4_S262144x4)
        (broadcastInDim S1048576x1 ![0] bcast_S1048576_S1048576x1_0 I))
      transposes_S1048576x4_S4x1048576_1_0 (ix2 ch n)
    = vol (ix5 0 ch z y x) := by
  have hr : (z.val * 64 + y.val) * 64 + x.val < 262144 := by omega
  have hb : broadcastInDim S1048576x1 ![0] bcast_S1048576_S1048576x1_0 I (ix2 n 0) = I (ix1 n) :=
    broadcastInDim_apply _ _ I (ix2 n 0) (ix1 n) (fun a => by match a with | ⟨0, _⟩ => rfl)
  -- the outer transpose reads the gathered table at `(n, ch)`
  refine (transpose_apply _ _ _ (ix2 ch n) (ix2 n ch) (fun b => ?_)).trans ?_
  · match b with
    | ⟨0, _⟩ => rfl
    | ⟨1, _⟩ => rfl
  -- the gather reads the table's row at the flat position
  refine (gather_rows_apply_of_toInt_eq (M := 262144) (N := 1048576) (C := 4) _ _ _ n ch
    ⟨(z.val * 64 + y.val) * 64 + x.val, hr⟩ ?_).trans ?_
  · rw [hb, hI]
  -- the table's element `(flat, ch)` is the channel-last array's at `(z, y, x, ch)`: same row-major position
  refine (shapeCast_apply _ _ (ix2 ⟨(z.val * 64 + y.val) * 64 + x.val, hr⟩ ch) (ix4 z y x ch) ?_).trans ?_
  · rw [Shape.rowMajor_val_four, Shape.rowMajor_val_two]
    show ((z.val * 64 + y.val) * 64 + x.val) * 4 + ch.val = ((z.val * 64 + y.val) * 64 + x.val) * 4 + ch.val
    rfl
  -- the channel-last array at `(z, y, x, ch)` is the channel-first one at `(ch, z, y, x)`
  refine (transpose_apply _ _ _ (ix4 z y x ch) (ix4 ch z y x) (fun b => ?_)).trans ?_
  · match b with
    | ⟨0, _⟩ => rfl
    | ⟨1, _⟩ => rfl
    | ⟨2, _⟩ => rfl
    | ⟨3, _⟩ => rfl
  -- dropping the leading unit axis keeps the row-major position
  refine shapeCast_apply _ _ (ix4 ch z y x) (ix5 0 ch z y x) ?_
  rw [Shape.rowMajor_val_five, Shape.rowMajor_val_four]
  show (((0 * 4 + ch.val) * 64 + z.val) * 64 + y.val) * 64 + x.val = ((ch.val * 64 + z.val) * 64 + y.val) * 64 + x.val
  omega

/-- Volume 1 (extent 128), the kernel's spelling: the volume `[1, 4, 128, 128, 128]` reshaped to `[4, 128, 128, 128]`, its
    channel axis moved last, flattened to the table `[2097152, 4]` of positions by channels, rows gathered at the index
    vector and the result transposed to `[4, N]`. When the `n`-th index read signed is the flat position
    `(z · 128 + y) · 128 + x`, the element at `(ch, n)` is the volume's at `(0, ch, z, y, x)`. -/
theorem kcorner1 (vol : S1x4x128x128x128.Idx → α) (I : IVec S1048576 32) (ch : Fin 4) (n : Fin 1048576) (x y z : Fin 128)
    (hI : (I (ix1 n)).toInt = (((z.val * 128 + y.val) * 128 + x.val : ℕ) : Int)) :
    transpose S4x1048576 [1, 0]
      (Host.gather gather_S2097152x4_S1048576x1_S1048576x4_1_0_n_n_0_1_14
        (shapeCast S2097152x4
          (transpose S128x128x128x4 [1, 2, 3, 0]
            (shapeCast S4x128x128x128 vol shapeCasts_S1x4x128x128x128_S4x128x128x128)
            transposes_S4x128x128x128_S128x128x128x4_1_2_3_0)
          shapeCasts_S128x128x128x4_S2097152x4)
        (broadcastInDim S1048576x1 ![0] bcast_S1048576_S1048576x1_0 I))
      transposes_S1048576x4_S4x1048576_1_0 (ix2 ch n)
    = vol (ix5 0 ch z y x) := by
  have hr : (z.val * 128 + y.val) * 128 + x.val < 2097152 := by omega
  have hb : broadcastInDim S1048576x1 ![0] bcast_S1048576_S1048576x1_0 I (ix2 n 0) = I (ix1 n) :=
    broadcastInDim_apply _ _ I (ix2 n 0) (ix1 n) (fun a => by match a with | ⟨0, _⟩ => rfl)
  -- the outer transpose reads the gathered table at `(n, ch)`
  refine (transpose_apply _ _ _ (ix2 ch n) (ix2 n ch) (fun b => ?_)).trans ?_
  · match b with
    | ⟨0, _⟩ => rfl
    | ⟨1, _⟩ => rfl
  -- the gather reads the table's row at the flat position
  refine (gather_rows_apply_of_toInt_eq (M := 2097152) (N := 1048576) (C := 4) _ _ _ n ch
    ⟨(z.val * 128 + y.val) * 128 + x.val, hr⟩ ?_).trans ?_
  · rw [hb, hI]
  -- the table's element `(flat, ch)` is the channel-last array's at `(z, y, x, ch)`: same row-major position
  refine (shapeCast_apply _ _ (ix2 ⟨(z.val * 128 + y.val) * 128 + x.val, hr⟩ ch) (ix4 z y x ch) ?_).trans ?_
  · rw [Shape.rowMajor_val_four, Shape.rowMajor_val_two]
    show ((z.val * 128 + y.val) * 128 + x.val) * 4 + ch.val = ((z.val * 128 + y.val) * 128 + x.val) * 4 + ch.val
    rfl
  -- the channel-last array at `(z, y, x, ch)` is the channel-first one at `(ch, z, y, x)`
  refine (transpose_apply _ _ _ (ix4 z y x ch) (ix4 ch z y x) (fun b => ?_)).trans ?_
  · match b with
    | ⟨0, _⟩ => rfl
    | ⟨1, _⟩ => rfl
    | ⟨2, _⟩ => rfl
    | ⟨3, _⟩ => rfl
  -- dropping the leading unit axis keeps the row-major position
  refine shapeCast_apply _ _ (ix4 ch z y x) (ix5 0 ch z y x) ?_
  rw [Shape.rowMajor_val_five, Shape.rowMajor_val_four]
  show (((0 * 4 + ch.val) * 128 + z.val) * 128 + y.val) * 128 + x.val = ((ch.val * 128 + z.val) * 128 + y.val) * 128 + x.val
  omega

/-- Volume 2 (extent 192), the kernel's spelling: the volume `[1, 4, 192, 192, 192]` reshaped to `[4, 192, 192, 192]`, its
    channel axis moved last, flattened to the table `[7077888, 4]` of positions by channels, rows gathered at the index
    vector and the result transposed to `[4, N]`. When the `n`-th index read signed is the flat position
    `(z · 192 + y) · 192 + x`, the element at `(ch, n)` is the volume's at `(0, ch, z, y, x)`. -/
theorem kcorner2 (vol : S1x4x192x192x192.Idx → α) (I : IVec S1048576 32) (ch : Fin 4) (n : Fin 1048576) (x y z : Fin 192)
    (hI : (I (ix1 n)).toInt = (((z.val * 192 + y.val) * 192 + x.val : ℕ) : Int)) :
    transpose S4x1048576 [1, 0]
      (Host.gather gather_S7077888x4_S1048576x1_S1048576x4_1_0_n_n_0_1_14
        (shapeCast S7077888x4
          (transpose S192x192x192x4 [1, 2, 3, 0]
            (shapeCast S4x192x192x192 vol shapeCasts_S1x4x192x192x192_S4x192x192x192)
            transposes_S4x192x192x192_S192x192x192x4_1_2_3_0)
          shapeCasts_S192x192x192x4_S7077888x4)
        (broadcastInDim S1048576x1 ![0] bcast_S1048576_S1048576x1_0 I))
      transposes_S1048576x4_S4x1048576_1_0 (ix2 ch n)
    = vol (ix5 0 ch z y x) := by
  have hr : (z.val * 192 + y.val) * 192 + x.val < 7077888 := by omega
  have hb : broadcastInDim S1048576x1 ![0] bcast_S1048576_S1048576x1_0 I (ix2 n 0) = I (ix1 n) :=
    broadcastInDim_apply _ _ I (ix2 n 0) (ix1 n) (fun a => by match a with | ⟨0, _⟩ => rfl)
  -- the outer transpose reads the gathered table at `(n, ch)`
  refine (transpose_apply _ _ _ (ix2 ch n) (ix2 n ch) (fun b => ?_)).trans ?_
  · match b with
    | ⟨0, _⟩ => rfl
    | ⟨1, _⟩ => rfl
  -- the gather reads the table's row at the flat position
  refine (gather_rows_apply_of_toInt_eq (M := 7077888) (N := 1048576) (C := 4) _ _ _ n ch
    ⟨(z.val * 192 + y.val) * 192 + x.val, hr⟩ ?_).trans ?_
  · rw [hb, hI]
  -- the table's element `(flat, ch)` is the channel-last array's at `(z, y, x, ch)`: same row-major position
  refine (shapeCast_apply _ _ (ix2 ⟨(z.val * 192 + y.val) * 192 + x.val, hr⟩ ch) (ix4 z y x ch) ?_).trans ?_
  · rw [Shape.rowMajor_val_four, Shape.rowMajor_val_two]
    show ((z.val * 192 + y.val) * 192 + x.val) * 4 + ch.val = ((z.val * 192 + y.val) * 192 + x.val) * 4 + ch.val
    rfl
  -- the channel-last array at `(z, y, x, ch)` is the channel-first one at `(ch, z, y, x)`
  refine (transpose_apply _ _ _ (ix4 z y x ch) (ix4 ch z y x) (fun b => ?_)).trans ?_
  · match b with
    | ⟨0, _⟩ => rfl
    | ⟨1, _⟩ => rfl
    | ⟨2, _⟩ => rfl
    | ⟨3, _⟩ => rfl
  -- dropping the leading unit axis keeps the row-major position
  refine shapeCast_apply _ _ (ix4 ch z y x) (ix5 0 ch z y x) ?_
  rw [Shape.rowMajor_val_five, Shape.rowMajor_val_four]
  show (((0 * 4 + ch.val) * 192 + z.val) * 192 + y.val) * 192 + x.val = ((ch.val * 192 + z.val) * 192 + y.val) * 192 + x.val
  omega

/-- `kcorner0` with the index's UNSIGNED reading given: a flat position is below `2 ^ 31`, so the two readings agree. -/
theorem kcorner0_toNat (vol : S1x4x64x64x64.Idx → α) (I : IVec S1048576 32) (ch : Fin 4) (n : Fin 1048576) (x y z : Fin 64)
    (hI : (I (ix1 n)).toNat = (z.val * 64 + y.val) * 64 + x.val) :
    transpose S4x1048576 [1, 0]
      (Host.gather gather_S262144x4_S1048576x1_S1048576x4_1_0_n_n_0_1_14
        (shapeCast S262144x4
          (transpose S64x64x64x4 [1, 2, 3, 0]
            (shapeCast S4x64x64x64 vol shapeCasts_S1x4x64x64x64_S4x64x64x64)
            transposes_S4x64x64x64_S64x64x64x4_1_2_3_0)
          shapeCasts_S64x64x64x4_S262144x4)
        (broadcastInDim S1048576x1 ![0] bcast_S1048576_S1048576x1_0 I))
      transposes_S1048576x4_S4x1048576_1_0 (ix2 ch n)
    = vol (ix5 0 ch z y x) :=
  kcorner0 vol I ch n x y z (toInt_eq_of_toNat_eq _ _ (by omega) hI)

/-- `kcorner1` with the index's UNSIGNED reading given: a flat position is below `2 ^ 31`, so the two readings agree. -/
theorem kcorner1_toNat (vol : S1x4x128x128x128.Idx → α) (I : IVec S1048576 32) (ch : Fin 4) (n : Fin 1048576) (x y z : Fin 128)
    (hI : (I (ix1 n)).toNat = (z.val * 128 + y.val) * 128 + x.val) :
    transpose S4x1048576 [1, 0]
      (Host.gather gather_S2097152x4_S1048576x1_S1048576x4_1_0_n_n_0_1_14
        (shapeCast S2097152x4
          (transpose S128x128x128x4 [1, 2, 3, 0]
            (shapeCast S4x128x128x128 vol shapeCasts_S1x4x128x128x128_S4x128x128x128)
            transposes_S4x128x128x128_S128x128x128x4_1_2_3_0)
          shapeCasts_S128x128x128x4_S2097152x4)
        (broadcastInDim S1048576x1 ![0] bcast_S1048576_S1048576x1_0 I))
      transposes_S1048576x4_S4x1048576_1_0 (ix2 ch n)
    = vol (ix5 0 ch z y x) :=
  kcorner1 vol I ch n x y z (toInt_eq_of_toNat_eq _ _ (by omega) hI)

/-- `kcorner2` with the index's UNSIGNED reading given: a flat position is below `2 ^ 31`, so the two readings agree. -/
theorem kcorner2_toNat (vol : S1x4x192x192x192.Idx → α) (I : IVec S1048576 32) (ch : Fin 4) (n : Fin 1048576) (x y z : Fin 192)
    (hI : (I (ix1 n)).toNat = (z.val * 192 + y.val) * 192 + x.val) :
    transpose S4x1048576 [1, 0]
      (Host.gather gather_S7077888x4_S1048576x1_S1048576x4_1_0_n_n_0_1_14
        (shapeCast S7077888x4
          (transpose S192x192x192x4 [1, 2, 3, 0]
            (shapeCast S4x192x192x192 vol shapeCasts_S1x4x192x192x192_S4x192x192x192)
            transposes_S4x192x192x192_S192x192x192x4_1_2_3_0)
          shapeCasts_S192x192x192x4_S7077888x4)
        (broadcastInDim S1048576x1 ![0] bcast_S1048576_S1048576x1_0 I))
      transposes_S1048576x4_S4x1048576_1_0 (ix2 ch n)
    = vol (ix5 0 ch z y x) :=
  kcorner2 vol I ch n x y z (toInt_eq_of_toNat_eq _ _ (by omega) hI)

end Kernel

/-! ## The reference's spelling: channel-first table, columns gathered -/

section Reference
variable [Cert.ReferenceIdeal.Facts₀]
open Cert.ReferenceIdeal Cert.ReferenceIdeal.Facts₀

/-- Volume 0 (extent 64), the reference's spelling: the volume `[1, 4, 64, 64, 64]` flattened to the table `[4, 262144]` of
    channels by positions and its columns gathered at the index vector, giving `[4, N]`. When the `n`-th index read
    signed is the flat position `(z · 64 + y) · 64 + x`, the element at `(ch, n)` is the volume's at `(0, ch, z, y, x)`. -/
theorem rcorner0 (vol : S1x4x64x64x64.Idx → α) (J : IVec S1048576 32) (ch : Fin 4) (n : Fin 1048576) (x y z : Fin 64)
    (hJ : (J (ix1 n)).toInt = (((z.val * 64 + y.val) * 64 + x.val : ℕ) : Int)) :
    Host.gather gather_S4x262144_S1048576x1_S4x1048576_0_1_n_n_1_1_41
      (shapeCast S4x262144 vol shapeCasts_S1x4x64x64x64_S4x262144)
      (broadcastInDim S1048576x1 ![0] bcast_S1048576_S1048576x1_0 J) (ix2 ch n)
    = vol (ix5 0 ch z y x) := by
  have hr : (z.val * 64 + y.val) * 64 + x.val < 262144 := by omega
  have hb : broadcastInDim S1048576x1 ![0] bcast_S1048576_S1048576x1_0 J (ix2 n 0) = J (ix1 n) :=
    broadcastInDim_apply _ _ J (ix2 n 0) (ix1 n) (fun a => by match a with | ⟨0, _⟩ => rfl)
  -- the gather reads the table's column at the flat position
  refine (gather_cols_apply_of_toInt_eq (M := 262144) (N := 1048576) (C := 4) _ _ _ ch n
    ⟨(z.val * 64 + y.val) * 64 + x.val, hr⟩ ?_).trans ?_
  · rw [hb, hJ]
  -- the table's element `(ch, flat)` is the volume's at `(0, ch, z, y, x)`: same row-major position
  refine shapeCast_apply _ _ (ix2 ch ⟨(z.val * 64 + y.val) * 64 + x.val, hr⟩) (ix5 0 ch z y x) ?_
  rw [Shape.rowMajor_val_five, Shape.rowMajor_val_two]
  show (((0 * 4 + ch.val) * 64 + z.val) * 64 + y.val) * 64 + x.val = ch.val * 262144 + ((z.val * 64 + y.val) * 64 + x.val)
  omega

/-- Volume 1 (extent 128), the reference's spelling: the volume `[1, 4, 128, 128, 128]` flattened to the table `[4, 2097152]` of
    channels by positions and its columns gathered at the index vector, giving `[4, N]`. When the `n`-th index read
    signed is the flat position `(z · 128 + y) · 128 + x`, the element at `(ch, n)` is the volume's at `(0, ch, z, y, x)`. -/
theorem rcorner1 (vol : S1x4x128x128x128.Idx → α) (J : IVec S1048576 32) (ch : Fin 4) (n : Fin 1048576) (x y z : Fin 128)
    (hJ : (J (ix1 n)).toInt = (((z.val * 128 + y.val) * 128 + x.val : ℕ) : Int)) :
    Host.gather gather_S4x2097152_S1048576x1_S4x1048576_0_1_n_n_1_1_41
      (shapeCast S4x2097152 vol shapeCasts_S1x4x128x128x128_S4x2097152)
      (broadcastInDim S1048576x1 ![0] bcast_S1048576_S1048576x1_0 J) (ix2 ch n)
    = vol (ix5 0 ch z y x) := by
  have hr : (z.val * 128 + y.val) * 128 + x.val < 2097152 := by omega
  have hb : broadcastInDim S1048576x1 ![0] bcast_S1048576_S1048576x1_0 J (ix2 n 0) = J (ix1 n) :=
    broadcastInDim_apply _ _ J (ix2 n 0) (ix1 n) (fun a => by match a with | ⟨0, _⟩ => rfl)
  -- the gather reads the table's column at the flat position
  refine (gather_cols_apply_of_toInt_eq (M := 2097152) (N := 1048576) (C := 4) _ _ _ ch n
    ⟨(z.val * 128 + y.val) * 128 + x.val, hr⟩ ?_).trans ?_
  · rw [hb, hJ]
  -- the table's element `(ch, flat)` is the volume's at `(0, ch, z, y, x)`: same row-major position
  refine shapeCast_apply _ _ (ix2 ch ⟨(z.val * 128 + y.val) * 128 + x.val, hr⟩) (ix5 0 ch z y x) ?_
  rw [Shape.rowMajor_val_five, Shape.rowMajor_val_two]
  show (((0 * 4 + ch.val) * 128 + z.val) * 128 + y.val) * 128 + x.val = ch.val * 2097152 + ((z.val * 128 + y.val) * 128 + x.val)
  omega

/-- Volume 2 (extent 192), the reference's spelling: the volume `[1, 4, 192, 192, 192]` flattened to the table `[4, 7077888]` of
    channels by positions and its columns gathered at the index vector, giving `[4, N]`. When the `n`-th index read
    signed is the flat position `(z · 192 + y) · 192 + x`, the element at `(ch, n)` is the volume's at `(0, ch, z, y, x)`. -/
theorem rcorner2 (vol : S1x4x192x192x192.Idx → α) (J : IVec S1048576 32) (ch : Fin 4) (n : Fin 1048576) (x y z : Fin 192)
    (hJ : (J (ix1 n)).toInt = (((z.val * 192 + y.val) * 192 + x.val : ℕ) : Int)) :
    Host.gather gather_S4x7077888_S1048576x1_S4x1048576_0_1_n_n_1_1_41
      (shapeCast S4x7077888 vol shapeCasts_S1x4x192x192x192_S4x7077888)
      (broadcastInDim S1048576x1 ![0] bcast_S1048576_S1048576x1_0 J) (ix2 ch n)
    = vol (ix5 0 ch z y x) := by
  have hr : (z.val * 192 + y.val) * 192 + x.val < 7077888 := by omega
  have hb : broadcastInDim S1048576x1 ![0] bcast_S1048576_S1048576x1_0 J (ix2 n 0) = J (ix1 n) :=
    broadcastInDim_apply _ _ J (ix2 n 0) (ix1 n) (fun a => by match a with | ⟨0, _⟩ => rfl)
  -- the gather reads the table's column at the flat position
  refine (gather_cols_apply_of_toInt_eq (M := 7077888) (N := 1048576) (C := 4) _ _ _ ch n
    ⟨(z.val * 192 + y.val) * 192 + x.val, hr⟩ ?_).trans ?_
  · rw [hb, hJ]
  -- the table's element `(ch, flat)` is the volume's at `(0, ch, z, y, x)`: same row-major position
  refine shapeCast_apply _ _ (ix2 ch ⟨(z.val * 192 + y.val) * 192 + x.val, hr⟩) (ix5 0 ch z y x) ?_
  rw [Shape.rowMajor_val_five, Shape.rowMajor_val_two]
  show (((0 * 4 + ch.val) * 192 + z.val) * 192 + y.val) * 192 + x.val = ch.val * 7077888 + ((z.val * 192 + y.val) * 192 + x.val)
  omega

/-- `rcorner0` with the index's UNSIGNED reading given: a flat position is below `2 ^ 31`, so the two readings agree. -/
theorem rcorner0_toNat (vol : S1x4x64x64x64.Idx → α) (J : IVec S1048576 32) (ch : Fin 4) (n : Fin 1048576) (x y z : Fin 64)
    (hJ : (J (ix1 n)).toNat = (z.val * 64 + y.val) * 64 + x.val) :
    Host.gather gather_S4x262144_S1048576x1_S4x1048576_0_1_n_n_1_1_41
      (shapeCast S4x262144 vol shapeCasts_S1x4x64x64x64_S4x262144)
      (broadcastInDim S1048576x1 ![0] bcast_S1048576_S1048576x1_0 J) (ix2 ch n)
    = vol (ix5 0 ch z y x) :=
  rcorner0 vol J ch n x y z (toInt_eq_of_toNat_eq _ _ (by omega) hJ)

/-- `rcorner1` with the index's UNSIGNED reading given: a flat position is below `2 ^ 31`, so the two readings agree. -/
theorem rcorner1_toNat (vol : S1x4x128x128x128.Idx → α) (J : IVec S1048576 32) (ch : Fin 4) (n : Fin 1048576) (x y z : Fin 128)
    (hJ : (J (ix1 n)).toNat = (z.val * 128 + y.val) * 128 + x.val) :
    Host.gather gather_S4x2097152_S1048576x1_S4x1048576_0_1_n_n_1_1_41
      (shapeCast S4x2097152 vol shapeCasts_S1x4x128x128x128_S4x2097152)
      (broadcastInDim S1048576x1 ![0] bcast_S1048576_S1048576x1_0 J) (ix2 ch n)
    = vol (ix5 0 ch z y x) :=
  rcorner1 vol J ch n x y z (toInt_eq_of_toNat_eq _ _ (by omega) hJ)

/-- `rcorner2` with the index's UNSIGNED reading given: a flat position is below `2 ^ 31`, so the two readings agree. -/
theorem rcorner2_toNat (vol : S1x4x192x192x192.Idx → α) (J : IVec S1048576 32) (ch : Fin 4) (n : Fin 1048576) (x y z : Fin 192)
    (hJ : (J (ix1 n)).toNat = (z.val * 192 + y.val) * 192 + x.val) :
    Host.gather gather_S4x7077888_S1048576x1_S4x1048576_0_1_n_n_1_1_41
      (shapeCast S4x7077888 vol shapeCasts_S1x4x192x192x192_S4x7077888)
      (broadcastInDim S1048576x1 ![0] bcast_S1048576_S1048576x1_0 J) (ix2 ch n)
    = vol (ix5 0 ch z y x) :=
  rcorner2 vol J ch n x y z (toInt_eq_of_toNat_eq _ _ (by omega) hJ)

end Reference

end Cert.Proof.CornerReads

end
-- ==== Proof.GlueCorners0.lean ====
/-
  The eight corner arrays of volume 0 (extent 64) agree element by element in the two programs.

  Each program gathers, for every output point `n` and each of the eight corners `(z, y, x)` of the point's sampling cell,
  the four channel values of the volume at that corner, as an array `[4, N]`. The kernel's array and the reference's are
  each read at `(ch, n)` down to the volume's element `(0, ch, z, y, x)` (the corner reads), under the one hypothesis
  that the program's `n`-th index word reads signed as the corner's flat position `(z · 64 + y) · 64 + x`; the two
  arrays then agree there. The corners come in the order `(z, y, x)` = 000, 001, 010, 011, 100, 101, 110, 111, where 0 is
  the cell's base coordinate and 1 its successor, in both programs.
-/
import proofs.«113233_j37486474559588_2_alg».proof.Proof.HostStagesIdeal
import proofs.«113233_j37486474559588_2_alg».proof.Proof.RefReadP
import proofs.«113233_j37486474559588_2_alg».proof.Proof.CornerReads

noncomputable section

namespace Cert.Proof.GlueCorners0

open Idealize.ShloMosaic Idealize.ShloMosaic.ValueIdx Cert.Proof.CornerReads

/-! ## The kernel's eight arrays -/

/-- Corner (z₀, y₀, x₀), the kernel's array: its element `(ch, n)` is the volume's at `(0, ch, z, y, x)` once the `n`-th flat
    index read signed is `(z · 64 + y) · 64 + x`. -/
theorem kread_v64 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 64)
    (hK : (Cert.KernelIdeal.Host.kst_main_v62 (F := Ideal) x0 x1 x2 x3 (ix1 n)).toInt = (((z.val * 64 + y.val) * 64 + x.val : ℕ) : Int)) :
    Cert.KernelIdeal.Host.kst_main_v64 (F := Ideal) x0 x1 x2 x3 (ix2 ch n) = x1 (ix5 0 ch z y x) :=
  kcorner0 x1 (Cert.KernelIdeal.Host.kst_main_v62 (F := Ideal) x0 x1 x2 x3) ch n x y z hK

/-- Corner (z₀, y₀, x₁), the kernel's array: its element `(ch, n)` is the volume's at `(0, ch, z, y, x)` once the `n`-th flat
    index read signed is `(z · 64 + y) · 64 + x`. -/
theorem kread_v72 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 64)
    (hK : (Cert.KernelIdeal.Host.kst_main_v70 (F := Ideal) x0 x1 x2 x3 (ix1 n)).toInt = (((z.val * 64 + y.val) * 64 + x.val : ℕ) : Int)) :
    Cert.KernelIdeal.Host.kst_main_v72 (F := Ideal) x0 x1 x2 x3 (ix2 ch n) = x1 (ix5 0 ch z y x) :=
  kcorner0 x1 (Cert.KernelIdeal.Host.kst_main_v70 (F := Ideal) x0 x1 x2 x3) ch n x y z hK

/-- Corner (z₀, y₁, x₀), the kernel's array: its element `(ch, n)` is the volume's at `(0, ch, z, y, x)` once the `n`-th flat
    index read signed is `(z · 64 + y) · 64 + x`. -/
theorem kread_v80 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 64)
    (hK : (Cert.KernelIdeal.Host.kst_main_v78 (F := Ideal) x0 x1 x2 x3 (ix1 n)).toInt = (((z.val * 64 + y.val) * 64 + x.val : ℕ) : Int)) :
    Cert.KernelIdeal.Host.kst_main_v80 (F := Ideal) x0 x1 x2 x3 (ix2 ch n) = x1 (ix5 0 ch z y x) :=
  kcorner0 x1 (Cert.KernelIdeal.Host.kst_main_v78 (F := Ideal) x0 x1 x2 x3) ch n x y z hK

/-- Corner (z₀, y₁, x₁), the kernel's array: its element `(ch, n)` is the volume's at `(0, ch, z, y, x)` once the `n`-th flat
    index read signed is `(z · 64 + y) · 64 + x`. -/
theorem kread_v88 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 64)
    (hK : (Cert.KernelIdeal.Host.kst_main_v86 (F := Ideal) x0 x1 x2 x3 (ix1 n)).toInt = (((z.val * 64 + y.val) * 64 + x.val : ℕ) : Int)) :
    Cert.KernelIdeal.Host.kst_main_v88 (F := Ideal) x0 x1 x2 x3 (ix2 ch n) = x1 (ix5 0 ch z y x) :=
  kcorner0 x1 (Cert.KernelIdeal.Host.kst_main_v86 (F := Ideal) x0 x1 x2 x3) ch n x y z hK

/-- Corner (z₁, y₀, x₀), the kernel's array: its element `(ch, n)` is the volume's at `(0, ch, z, y, x)` once the `n`-th flat
    index read signed is `(z · 64 + y) · 64 + x`. -/
theorem kread_v96 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 64)
    (hK : (Cert.KernelIdeal.Host.kst_main_v94 (F := Ideal) x0 x1 x2 x3 (ix1 n)).toInt = (((z.val * 64 + y.val) * 64 + x.val : ℕ) : Int)) :
    Cert.KernelIdeal.Host.kst_main_v96 (F := Ideal) x0 x1 x2 x3 (ix2 ch n) = x1 (ix5 0 ch z y x) :=
  kcorner0 x1 (Cert.KernelIdeal.Host.kst_main_v94 (F := Ideal) x0 x1 x2 x3) ch n x y z hK

/-- Corner (z₁, y₀, x₁), the kernel's array: its element `(ch, n)` is the volume's at `(0, ch, z, y, x)` once the `n`-th flat
    index read signed is `(z · 64 + y) · 64 + x`. -/
theorem kread_v104 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 64)
    (hK : (Cert.KernelIdeal.Host.kst_main_v102 (F := Ideal) x0 x1 x2 x3 (ix1 n)).toInt = (((z.val * 64 + y.val) * 64 + x.val : ℕ) : Int)) :
    Cert.KernelIdeal.Host.kst_main_v104 (F := Ideal) x0 x1 x2 x3 (ix2 ch n) = x1 (ix5 0 ch z y x) :=
  kcorner0 x1 (Cert.KernelIdeal.Host.kst_main_v102 (F := Ideal) x0 x1 x2 x3) ch n x y z hK

/-- Corner (z₁, y₁, x₀), the kernel's array: its element `(ch, n)` is the volume's at `(0, ch, z, y, x)` once the `n`-th flat
    index read signed is `(z · 64 + y) · 64 + x`. -/
theorem kread_v112 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 64)
    (hK : (Cert.KernelIdeal.Host.kst_main_v110 (F := Ideal) x0 x1 x2 x3 (ix1 n)).toInt = (((z.val * 64 + y.val) * 64 + x.val : ℕ) : Int)) :
    Cert.KernelIdeal.Host.kst_main_v112 (F := Ideal) x0 x1 x2 x3 (ix2 ch n) = x1 (ix5 0 ch z y x) :=
  kcorner0 x1 (Cert.KernelIdeal.Host.kst_main_v110 (F := Ideal) x0 x1 x2 x3) ch n x y z hK

/-- Corner (z₁, y₁, x₁), the kernel's array: its element `(ch, n)` is the volume's at `(0, ch, z, y, x)` once the `n`-th flat
    index read signed is `(z · 64 + y) · 64 + x`. -/
theorem kread_v120 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 64)
    (hK : (Cert.KernelIdeal.Host.kst_main_v118 (F := Ideal) x0 x1 x2 x3 (ix1 n)).toInt = (((z.val * 64 + y.val) * 64 + x.val : ℕ) : Int)) :
    Cert.KernelIdeal.Host.kst_main_v120 (F := Ideal) x0 x1 x2 x3 (ix2 ch n) = x1 (ix5 0 ch z y x) :=
  kcorner0 x1 (Cert.KernelIdeal.Host.kst_main_v118 (F := Ideal) x0 x1 x2 x3) ch n x y z hK

/-! ## The reference's eight arrays -/

/-- Corner (z₀, y₀, x₀), the reference's array: its element `(ch, n)` is the volume's at `(0, ch, z, y, x)` once the `n`-th
    selected index read signed is `(z · 64 + y) · 64 + x`. -/
theorem rread_v83 (x0 : (⟨Cert.KernelIdeal.S1x1x1x1048576x3, .f32⟩ : BufTy).Contents (Elt Ideal)) (x1 : (⟨Cert.KernelIdeal.S1x4x64x64x64, .f32⟩ : BufTy).Contents (Elt Ideal))
    (ch : Fin 4) (n : Fin 1048576) (x y z : Fin 64)
    (hR : (Cert.ReferenceIdeal.ReadP.val_main_v81 (F := Ideal) x0 (ix1 n)).toInt = (((z.val * 64 + y.val) * 64 + x.val : ℕ) : Int)) :
    Cert.ReferenceIdeal.ReadP.val_main_v83 (F := Ideal) x0 x1 (ix2 ch n) = x1 (ix5 0 ch z y x) :=
  rcorner0 x1 (Cert.ReferenceIdeal.ReadP.val_main_v81 (F := Ideal) x0) ch n x y z hR

/-- Corner (z₀, y₀, x₁), the reference's array: its element `(ch, n)` is the volume's at `(0, ch, z, y, x)` once the `n`-th
    selected index read signed is `(z · 64 + y) · 64 + x`. -/
theorem rread_v96 (x0 : (⟨Cert.KernelIdeal.S1x1x1x1048576x3, .f32⟩ : BufTy).Contents (Elt Ideal)) (x1 : (⟨Cert.KernelIdeal.S1x4x64x64x64, .f32⟩ : BufTy).Contents (Elt Ideal))
    (ch : Fin 4) (n : Fin 1048576) (x y z : Fin 64)
    (hR : (Cert.ReferenceIdeal.ReadP.val_main_v94 (F := Ideal) x0 (ix1 n)).toInt = (((z.val * 64 + y.val) * 64 + x.val : ℕ) : Int)) :
    Cert.ReferenceIdeal.ReadP.val_main_v96 (F := Ideal) x0 x1 (ix2 ch n) = x1 (ix5 0 ch z y x) :=
  rcorner0 x1 (Cert.ReferenceIdeal.ReadP.val_main_v94 (F := Ideal) x0) ch n x y z hR

/-- Corner (z₀, y₁, x₀), the reference's array: its element `(ch, n)` is the volume's at `(0, ch, z, y, x)` once the `n`-th
    selected index read signed is `(z · 64 + y) · 64 + x`. -/
theorem rread_v109 (x0 : (⟨Cert.KernelIdeal.S1x1x1x1048576x3, .f32⟩ : BufTy).Contents (Elt Ideal)) (x1 : (⟨Cert.KernelIdeal.S1x4x64x64x64, .f32⟩ : BufTy).Contents (Elt Ideal))
    (ch : Fin 4) (n : Fin 1048576) (x y z : Fin 64)
    (hR : (Cert.ReferenceIdeal.ReadP.val_main_v107 (F := Ideal) x0 (ix1 n)).toInt = (((z.val * 64 + y.val) * 64 + x.val : ℕ) : Int)) :
    Cert.ReferenceIdeal.ReadP.val_main_v109 (F := Ideal) x0 x1 (ix2 ch n) = x1 (ix5 0 ch z y x) :=
  rcorner0 x1 (Cert.ReferenceIdeal.ReadP.val_main_v107 (F := Ideal) x0) ch n x y z hR

/-- Corner (z₀, y₁, x₁), the reference's array: its element `(ch, n)` is the volume's at `(0, ch, z, y, x)` once the `n`-th
    selected index read signed is `(z · 64 + y) · 64 + x`. -/
theorem rread_v122 (x0 : (⟨Cert.KernelIdeal.S1x1x1x1048576x3, .f32⟩ : BufTy).Contents (Elt Ideal)) (x1 : (⟨Cert.KernelIdeal.S1x4x64x64x64, .f32⟩ : BufTy).Contents (Elt Ideal))
    (ch : Fin 4) (n : Fin 1048576) (x y z : Fin 64)
    (hR : (Cert.ReferenceIdeal.ReadP.val_main_v120 (F := Ideal) x0 (ix1 n)).toInt = (((z.val * 64 + y.val) * 64 + x.val : ℕ) : Int)) :
    Cert.ReferenceIdeal.ReadP.val_main_v122 (F := Ideal) x0 x1 (ix2 ch n) = x1 (ix5 0 ch z y x) :=
  rcorner0 x1 (Cert.ReferenceIdeal.ReadP.val_main_v120 (F := Ideal) x0) ch n x y z hR

/-- Corner (z₁, y₀, x₀), the reference's array: its element `(ch, n)` is the volume's at `(0, ch, z, y, x)` once the `n`-th
    selected index read signed is `(z · 64 + y) · 64 + x`. -/
theorem rread_v135 (x0 : (⟨Cert.KernelIdeal.S1x1x1x1048576x3, .f32⟩ : BufTy).Contents (Elt Ideal)) (x1 : (⟨Cert.KernelIdeal.S1x4x64x64x64, .f32⟩ : BufTy).Contents (Elt Ideal))
    (ch : Fin 4) (n : Fin 1048576) (x y z : Fin 64)
    (hR : (Cert.ReferenceIdeal.ReadP.val_main_v133 (F := Ideal) x0 (ix1 n)).toInt = (((z.val * 64 + y.val) * 64 + x.val : ℕ) : Int)) :
    Cert.ReferenceIdeal.ReadP.val_main_v135 (F := Ideal) x0 x1 (ix2 ch n) = x1 (ix5 0 ch z y x) :=
  rcorner0 x1 (Cert.ReferenceIdeal.ReadP.val_main_v133 (F := Ideal) x0) ch n x y z hR

/-- Corner (z₁, y₀, x₁), the reference's array: its element `(ch, n)` is the volume's at `(0, ch, z, y, x)` once the `n`-th
    selected index read signed is `(z · 64 + y) · 64 + x`. -/
theorem rread_v148 (x0 : (⟨Cert.KernelIdeal.S1x1x1x1048576x3, .f32⟩ : BufTy).Contents (Elt Ideal)) (x1 : (⟨Cert.KernelIdeal.S1x4x64x64x64, .f32⟩ : BufTy).Contents (Elt Ideal))
    (ch : Fin 4) (n : Fin 1048576) (x y z : Fin 64)
    (hR : (Cert.ReferenceIdeal.ReadP.val_main_v146 (F := Ideal) x0 (ix1 n)).toInt = (((z.val * 64 + y.val) * 64 + x.val : ℕ) : Int)) :
    Cert.ReferenceIdeal.ReadP.val_main_v148 (F := Ideal) x0 x1 (ix2 ch n) = x1 (ix5 0 ch z y x) :=
  rcorner0 x1 (Cert.ReferenceIdeal.ReadP.val_main_v146 (F := Ideal) x0) ch n x y z hR

/-- Corner (z₁, y₁, x₀), the reference's array: its element `(ch, n)` is the volume's at `(0, ch, z, y, x)` once the `n`-th
    selected index read signed is `(z · 64 + y) · 64 + x`. -/
theorem rread_v161 (x0 : (⟨Cert.KernelIdeal.S1x1x1x1048576x3, .f32⟩ : BufTy).Contents (Elt Ideal)) (x1 : (⟨Cert.KernelIdeal.S1x4x64x64x64, .f32⟩ : BufTy).Contents (Elt Ideal))
    (ch : Fin 4) (n : Fin 1048576) (x y z : Fin 64)
    (hR : (Cert.ReferenceIdeal.ReadP.val_main_v159 (F := Ideal) x0 (ix1 n)).toInt = (((z.val * 64 + y.val) * 64 + x.val : ℕ) : Int)) :
    Cert.ReferenceIdeal.ReadP.val_main_v161 (F := Ideal) x0 x1 (ix2 ch n) = x1 (ix5 0 ch z y x) :=
  rcorner0 x1 (Cert.ReferenceIdeal.ReadP.val_main_v159 (F := Ideal) x0) ch n x y z hR

/-- Corner (z₁, y₁, x₁), the reference's array: its element `(ch, n)` is the volume's at `(0, ch, z, y, x)` once the `n`-th
    selected index read signed is `(z · 64 + y) · 64 + x`. -/
theorem rread_v174 (x0 : (⟨Cert.KernelIdeal.S1x1x1x1048576x3, .f32⟩ : BufTy).Contents (Elt Ideal)) (x1 : (⟨Cert.KernelIdeal.S1x4x64x64x64, .f32⟩ : BufTy).Contents (Elt Ideal))
    (ch : Fin 4) (n : Fin 1048576) (x y z : Fin 64)
    (hR : (Cert.ReferenceIdeal.ReadP.val_main_v172 (F := Ideal) x0 (ix1 n)).toInt = (((z.val * 64 + y.val) * 64 + x.val : ℕ) : Int)) :
    Cert.ReferenceIdeal.ReadP.val_main_v174 (F := Ideal) x0 x1 (ix2 ch n) = x1 (ix5 0 ch z y x) :=
  rcorner0 x1 (Cert.ReferenceIdeal.ReadP.val_main_v172 (F := Ideal) x0) ch n x y z hR

/-! ## The two agree -/

/-- Corner (z₀, y₀, x₀): the two programs' arrays agree at `(ch, n)` when both index words read signed are the flat
    position of one cell `(z, y, x)`. -/
theorem corner_v64_v83 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 64)
    (hK : (Cert.KernelIdeal.Host.kst_main_v62 (F := Ideal) x0 x1 x2 x3 (ix1 n)).toInt = (((z.val * 64 + y.val) * 64 + x.val : ℕ) : Int))
    (hR : (Cert.ReferenceIdeal.ReadP.val_main_v81 (F := Ideal) x0 (ix1 n)).toInt = (((z.val * 64 + y.val) * 64 + x.val : ℕ) : Int)) :
    Cert.KernelIdeal.Host.kst_main_v64 (F := Ideal) x0 x1 x2 x3 (ix2 ch n) = Cert.ReferenceIdeal.ReadP.val_main_v83 (F := Ideal) x0 x1 (ix2 ch n) :=
  (kread_v64 x0 x1 x2 x3 ch n x y z hK).trans (rread_v83 x0 x1 ch n x y z hR).symm

/-- Corner (z₀, y₀, x₀) again, from "the two index words are the same word, and it reads signed as a flat position". -/
theorem corner_v64_v83_of_same (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 64)
    (hsame : Cert.KernelIdeal.Host.kst_main_v62 (F := Ideal) x0 x1 x2 x3 (ix1 n) = Cert.ReferenceIdeal.ReadP.val_main_v81 (F := Ideal) x0 (ix1 n))
    (hK : (Cert.KernelIdeal.Host.kst_main_v62 (F := Ideal) x0 x1 x2 x3 (ix1 n)).toInt = (((z.val * 64 + y.val) * 64 + x.val : ℕ) : Int)) :
    Cert.KernelIdeal.Host.kst_main_v64 (F := Ideal) x0 x1 x2 x3 (ix2 ch n) = Cert.ReferenceIdeal.ReadP.val_main_v83 (F := Ideal) x0 x1 (ix2 ch n) :=
  corner_v64_v83 x0 x1 x2 x3 ch n x y z hK (hsame ▸ hK)

/-- Corner (z₀, y₀, x₁): the two programs' arrays agree at `(ch, n)` when both index words read signed are the flat
    position of one cell `(z, y, x)`. -/
theorem corner_v72_v96 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 64)
    (hK : (Cert.KernelIdeal.Host.kst_main_v70 (F := Ideal) x0 x1 x2 x3 (ix1 n)).toInt = (((z.val * 64 + y.val) * 64 + x.val : ℕ) : Int))
    (hR : (Cert.ReferenceIdeal.ReadP.val_main_v94 (F := Ideal) x0 (ix1 n)).toInt = (((z.val * 64 + y.val) * 64 + x.val : ℕ) : Int)) :
    Cert.KernelIdeal.Host.kst_main_v72 (F := Ideal) x0 x1 x2 x3 (ix2 ch n) = Cert.ReferenceIdeal.ReadP.val_main_v96 (F := Ideal) x0 x1 (ix2 ch n) :=
  (kread_v72 x0 x1 x2 x3 ch n x y z hK).trans (rread_v96 x0 x1 ch n x y z hR).symm

/-- Corner (z₀, y₀, x₁) again, from "the two index words are the same word, and it reads signed as a flat position". -/
theorem corner_v72_v96_of_same (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 64)
    (hsame : Cert.KernelIdeal.Host.kst_main_v70 (F := Ideal) x0 x1 x2 x3 (ix1 n) = Cert.ReferenceIdeal.ReadP.val_main_v94 (F := Ideal) x0 (ix1 n))
    (hK : (Cert.KernelIdeal.Host.kst_main_v70 (F := Ideal) x0 x1 x2 x3 (ix1 n)).toInt = (((z.val * 64 + y.val) * 64 + x.val : ℕ) : Int)) :
    Cert.KernelIdeal.Host.kst_main_v72 (F := Ideal) x0 x1 x2 x3 (ix2 ch n) = Cert.ReferenceIdeal.ReadP.val_main_v96 (F := Ideal) x0 x1 (ix2 ch n) :=
  corner_v72_v96 x0 x1 x2 x3 ch n x y z hK (hsame ▸ hK)

/-- Corner (z₀, y₁, x₀): the two programs' arrays agree at `(ch, n)` when both index words read signed are the flat
    position of one cell `(z, y, x)`. -/
theorem corner_v80_v109 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 64)
    (hK : (Cert.KernelIdeal.Host.kst_main_v78 (F := Ideal) x0 x1 x2 x3 (ix1 n)).toInt = (((z.val * 64 + y.val) * 64 + x.val : ℕ) : Int))
    (hR : (Cert.ReferenceIdeal.ReadP.val_main_v107 (F := Ideal) x0 (ix1 n)).toInt = (((z.val * 64 + y.val) * 64 + x.val : ℕ) : Int)) :
    Cert.KernelIdeal.Host.kst_main_v80 (F := Ideal) x0 x1 x2 x3 (ix2 ch n) = Cert.ReferenceIdeal.ReadP.val_main_v109 (F := Ideal) x0 x1 (ix2 ch n) :=
  (kread_v80 x0 x1 x2 x3 ch n x y z hK).trans (rread_v109 x0 x1 ch n x y z hR).symm

/-- Corner (z₀, y₁, x₀) again, from "the two index words are the same word, and it reads signed as a flat position". -/
theorem corner_v80_v109_of_same (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 64)
    (hsame : Cert.KernelIdeal.Host.kst_main_v78 (F := Ideal) x0 x1 x2 x3 (ix1 n) = Cert.ReferenceIdeal.ReadP.val_main_v107 (F := Ideal) x0 (ix1 n))
    (hK : (Cert.KernelIdeal.Host.kst_main_v78 (F := Ideal) x0 x1 x2 x3 (ix1 n)).toInt = (((z.val * 64 + y.val) * 64 + x.val : ℕ) : Int)) :
    Cert.KernelIdeal.Host.kst_main_v80 (F := Ideal) x0 x1 x2 x3 (ix2 ch n) = Cert.ReferenceIdeal.ReadP.val_main_v109 (F := Ideal) x0 x1 (ix2 ch n) :=
  corner_v80_v109 x0 x1 x2 x3 ch n x y z hK (hsame ▸ hK)

/-- Corner (z₀, y₁, x₁): the two programs' arrays agree at `(ch, n)` when both index words read signed are the flat
    position of one cell `(z, y, x)`. -/
theorem corner_v88_v122 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 64)
    (hK : (Cert.KernelIdeal.Host.kst_main_v86 (F := Ideal) x0 x1 x2 x3 (ix1 n)).toInt = (((z.val * 64 + y.val) * 64 + x.val : ℕ) : Int))
    (hR : (Cert.ReferenceIdeal.ReadP.val_main_v120 (F := Ideal) x0 (ix1 n)).toInt = (((z.val * 64 + y.val) * 64 + x.val : ℕ) : Int)) :
    Cert.KernelIdeal.Host.kst_main_v88 (F := Ideal) x0 x1 x2 x3 (ix2 ch n) = Cert.ReferenceIdeal.ReadP.val_main_v122 (F := Ideal) x0 x1 (ix2 ch n) :=
  (kread_v88 x0 x1 x2 x3 ch n x y z hK).trans (rread_v122 x0 x1 ch n x y z hR).symm

/-- Corner (z₀, y₁, x₁) again, from "the two index words are the same word, and it reads signed as a flat position". -/
theorem corner_v88_v122_of_same (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 64)
    (hsame : Cert.KernelIdeal.Host.kst_main_v86 (F := Ideal) x0 x1 x2 x3 (ix1 n) = Cert.ReferenceIdeal.ReadP.val_main_v120 (F := Ideal) x0 (ix1 n))
    (hK : (Cert.KernelIdeal.Host.kst_main_v86 (F := Ideal) x0 x1 x2 x3 (ix1 n)).toInt = (((z.val * 64 + y.val) * 64 + x.val : ℕ) : Int)) :
    Cert.KernelIdeal.Host.kst_main_v88 (F := Ideal) x0 x1 x2 x3 (ix2 ch n) = Cert.ReferenceIdeal.ReadP.val_main_v122 (F := Ideal) x0 x1 (ix2 ch n) :=
  corner_v88_v122 x0 x1 x2 x3 ch n x y z hK (hsame ▸ hK)

/-- Corner (z₁, y₀, x₀): the two programs' arrays agree at `(ch, n)` when both index words read signed are the flat
    position of one cell `(z, y, x)`. -/
theorem corner_v96_v135 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 64)
    (hK : (Cert.KernelIdeal.Host.kst_main_v94 (F := Ideal) x0 x1 x2 x3 (ix1 n)).toInt = (((z.val * 64 + y.val) * 64 + x.val : ℕ) : Int))
    (hR : (Cert.ReferenceIdeal.ReadP.val_main_v133 (F := Ideal) x0 (ix1 n)).toInt = (((z.val * 64 + y.val) * 64 + x.val : ℕ) : Int)) :
    Cert.KernelIdeal.Host.kst_main_v96 (F := Ideal) x0 x1 x2 x3 (ix2 ch n) = Cert.ReferenceIdeal.ReadP.val_main_v135 (F := Ideal) x0 x1 (ix2 ch n) :=
  (kread_v96 x0 x1 x2 x3 ch n x y z hK).trans (rread_v135 x0 x1 ch n x y z hR).symm

/-- Corner (z₁, y₀, x₀) again, from "the two index words are the same word, and it reads signed as a flat position". -/
theorem corner_v96_v135_of_same (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 64)
    (hsame : Cert.KernelIdeal.Host.kst_main_v94 (F := Ideal) x0 x1 x2 x3 (ix1 n) = Cert.ReferenceIdeal.ReadP.val_main_v133 (F := Ideal) x0 (ix1 n))
    (hK : (Cert.KernelIdeal.Host.kst_main_v94 (F := Ideal) x0 x1 x2 x3 (ix1 n)).toInt = (((z.val * 64 + y.val) * 64 + x.val : ℕ) : Int)) :
    Cert.KernelIdeal.Host.kst_main_v96 (F := Ideal) x0 x1 x2 x3 (ix2 ch n) = Cert.ReferenceIdeal.ReadP.val_main_v135 (F := Ideal) x0 x1 (ix2 ch n) :=
  corner_v96_v135 x0 x1 x2 x3 ch n x y z hK (hsame ▸ hK)

/-- Corner (z₁, y₀, x₁): the two programs' arrays agree at `(ch, n)` when both index words read signed are the flat
    position of one cell `(z, y, x)`. -/
theorem corner_v104_v148 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 64)
    (hK : (Cert.KernelIdeal.Host.kst_main_v102 (F := Ideal) x0 x1 x2 x3 (ix1 n)).toInt = (((z.val * 64 + y.val) * 64 + x.val : ℕ) : Int))
    (hR : (Cert.ReferenceIdeal.ReadP.val_main_v146 (F := Ideal) x0 (ix1 n)).toInt = (((z.val * 64 + y.val) * 64 + x.val : ℕ) : Int)) :
    Cert.KernelIdeal.Host.kst_main_v104 (F := Ideal) x0 x1 x2 x3 (ix2 ch n) = Cert.ReferenceIdeal.ReadP.val_main_v148 (F := Ideal) x0 x1 (ix2 ch n) :=
  (kread_v104 x0 x1 x2 x3 ch n x y z hK).trans (rread_v148 x0 x1 ch n x y z hR).symm

/-- Corner (z₁, y₀, x₁) again, from "the two index words are the same word, and it reads signed as a flat position". -/
theorem corner_v104_v148_of_same (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 64)
    (hsame : Cert.KernelIdeal.Host.kst_main_v102 (F := Ideal) x0 x1 x2 x3 (ix1 n) = Cert.ReferenceIdeal.ReadP.val_main_v146 (F := Ideal) x0 (ix1 n))
    (hK : (Cert.KernelIdeal.Host.kst_main_v102 (F := Ideal) x0 x1 x2 x3 (ix1 n)).toInt = (((z.val * 64 + y.val) * 64 + x.val : ℕ) : Int)) :
    Cert.KernelIdeal.Host.kst_main_v104 (F := Ideal) x0 x1 x2 x3 (ix2 ch n) = Cert.ReferenceIdeal.ReadP.val_main_v148 (F := Ideal) x0 x1 (ix2 ch n) :=
  corner_v104_v148 x0 x1 x2 x3 ch n x y z hK (hsame ▸ hK)

/-- Corner (z₁, y₁, x₀): the two programs' arrays agree at `(ch, n)` when both index words read signed are the flat
    position of one cell `(z, y, x)`. -/
theorem corner_v112_v161 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 64)
    (hK : (Cert.KernelIdeal.Host.kst_main_v110 (F := Ideal) x0 x1 x2 x3 (ix1 n)).toInt = (((z.val * 64 + y.val) * 64 + x.val : ℕ) : Int))
    (hR : (Cert.ReferenceIdeal.ReadP.val_main_v159 (F := Ideal) x0 (ix1 n)).toInt = (((z.val * 64 + y.val) * 64 + x.val : ℕ) : Int)) :
    Cert.KernelIdeal.Host.kst_main_v112 (F := Ideal) x0 x1 x2 x3 (ix2 ch n) = Cert.ReferenceIdeal.ReadP.val_main_v161 (F := Ideal) x0 x1 (ix2 ch n) :=
  (kread_v112 x0 x1 x2 x3 ch n x y z hK).trans (rread_v161 x0 x1 ch n x y z hR).symm

/-- Corner (z₁, y₁, x₀) again, from "the two index words are the same word, and it reads signed as a flat position". -/
theorem corner_v112_v161_of_same (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 64)
    (hsame : Cert.KernelIdeal.Host.kst_main_v110 (F := Ideal) x0 x1 x2 x3 (ix1 n) = Cert.ReferenceIdeal.ReadP.val_main_v159 (F := Ideal) x0 (ix1 n))
    (hK : (Cert.KernelIdeal.Host.kst_main_v110 (F := Ideal) x0 x1 x2 x3 (ix1 n)).toInt = (((z.val * 64 + y.val) * 64 + x.val : ℕ) : Int)) :
    Cert.KernelIdeal.Host.kst_main_v112 (F := Ideal) x0 x1 x2 x3 (ix2 ch n) = Cert.ReferenceIdeal.ReadP.val_main_v161 (F := Ideal) x0 x1 (ix2 ch n) :=
  corner_v112_v161 x0 x1 x2 x3 ch n x y z hK (hsame ▸ hK)

/-- Corner (z₁, y₁, x₁): the two programs' arrays agree at `(ch, n)` when both index words read signed are the flat
    position of one cell `(z, y, x)`. -/
theorem corner_v120_v174 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 64)
    (hK : (Cert.KernelIdeal.Host.kst_main_v118 (F := Ideal) x0 x1 x2 x3 (ix1 n)).toInt = (((z.val * 64 + y.val) * 64 + x.val : ℕ) : Int))
    (hR : (Cert.ReferenceIdeal.ReadP.val_main_v172 (F := Ideal) x0 (ix1 n)).toInt = (((z.val * 64 + y.val) * 64 + x.val : ℕ) : Int)) :
    Cert.KernelIdeal.Host.kst_main_v120 (F := Ideal) x0 x1 x2 x3 (ix2 ch n) = Cert.ReferenceIdeal.ReadP.val_main_v174 (F := Ideal) x0 x1 (ix2 ch n) :=
  (kread_v120 x0 x1 x2 x3 ch n x y z hK).trans (rread_v174 x0 x1 ch n x y z hR).symm

/-- Corner (z₁, y₁, x₁) again, from "the two index words are the same word, and it reads signed as a flat position". -/
theorem corner_v120_v174_of_same (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 64)
    (hsame : Cert.KernelIdeal.Host.kst_main_v118 (F := Ideal) x0 x1 x2 x3 (ix1 n) = Cert.ReferenceIdeal.ReadP.val_main_v172 (F := Ideal) x0 (ix1 n))
    (hK : (Cert.KernelIdeal.Host.kst_main_v118 (F := Ideal) x0 x1 x2 x3 (ix1 n)).toInt = (((z.val * 64 + y.val) * 64 + x.val : ℕ) : Int)) :
    Cert.KernelIdeal.Host.kst_main_v120 (F := Ideal) x0 x1 x2 x3 (ix2 ch n) = Cert.ReferenceIdeal.ReadP.val_main_v174 (F := Ideal) x0 x1 (ix2 ch n) :=
  corner_v120_v174 x0 x1 x2 x3 ch n x y z hK (hsame ▸ hK)

end Cert.Proof.GlueCorners0

end
-- ==== Proof.LibIndexRange.lean ====
import Idealize.ShloMosaic.PureOps.Ideal
import Mathlib.Tactic

/-!
# The flat corner index of a trilinear sample lies inside its volume

Per axis, a coordinate `u` is floored and clipped to `[0, K]`, converted to a 32-bit integer `a`,
and its neighbour is `a' = min (a + 1) K`.  With `D = K + 1` the flat index of a corner is
`(z * D + y) * D + x`, each of `x y z` being such an `a` or `a'`.  Everything here is about
scalars; `K ≤ 191` covers the three grid sizes `64, 128, 192`.
-/

namespace LibIndexRange

open Idealize.ShloMosaic

/-! ### The literals -/

/-- The f32 word `0x00000000` denotes the real number `0`. -/
theorem ofBits_zero : Ideal.ofBits .f32 0x00000000#32 = ((0 : ℝ) : EReal) := by
  simp [Ideal.ofBits, Ideal.ieee]

/-- The f32 word `0x427C0000` denotes `63`. -/
theorem ofBits_63 : Ideal.ofBits .f32 0x427C0000#32 = ((63 : ℝ) : EReal) := by
  simp [Ideal.ofBits, Ideal.ieee, -EReal.coe_mul]; norm_num

/-- The f32 word `0x42FE0000` denotes `127`. -/
theorem ofBits_127 : Ideal.ofBits .f32 0x42FE0000#32 = ((127 : ℝ) : EReal) := by
  simp [Ideal.ofBits, Ideal.ieee, -EReal.coe_mul]; norm_num

/-- The f32 word `0x433F0000` denotes `191`. -/
theorem ofBits_191 : Ideal.ofBits .f32 0x433F0000#32 = ((191 : ℝ) : EReal) := by
  simp [Ideal.ofBits, Ideal.ieee, -EReal.coe_mul]; norm_num

/-! ### The clipped floor and its conversion -/

/-- The embedding of the reals in the extended reals commutes with `max`. -/
theorem coe_max (a b : ℝ) : max (a : EReal) (b : EReal) = ((max a b : ℝ) : EReal) :=
  (EReal.coe_strictMono.monotone.map_max).symm

/-- The embedding of the reals in the extended reals commutes with `min`. -/
theorem coe_min (a b : ℝ) : min (a : EReal) (b : EReal) = ((min a b : ℝ) : EReal) :=
  (EReal.coe_strictMono.monotone.map_min).symm

/-- Converting a natural number below `2^31` to a signed 32-bit integer gives its own word. -/
theorem fptosi_natCast (m : ℕ) (hm : m < 2 ^ 31) :
    Ideal.fptosi 32 ((m : ℝ) : EReal) = BitVec.ofNat 32 m := by
  rw [Ideal.fptosi, Ideal.toIntClamped_coe, if_pos (Nat.cast_nonneg m), Int.floor_natCast]
  have e : ((2 ^ (32 - 1) : ℕ) : ℤ) = 2147483648 := by norm_num
  rw [e]
  have h1 : min ((2147483648 : ℤ) - 1) (m : ℤ) = (m : ℤ) := min_eq_right (by omega)
  have h2 : max (-(2147483648 : ℤ)) (m : ℤ) = (m : ℤ) := max_eq_right (by omega)
  rw [h1, h2, BitVec.ofInt_natCast]

/-- For a real `r` the clipped floor `min K (max 0 ⌊r⌋)`, computed in the extended reals, is the
    natural number `min K (max 0 ⌊r⌋)`. -/
theorem clip_floor_coe (K : ℕ) (r : ℝ) :
    min ((K : ℝ) : EReal) (max ((0 : ℝ) : EReal) (Ideal.liftRound Int.floor (r : EReal)))
      = (((min (K : ℤ) (max 0 ⌊r⌋)).toNat : ℝ) : EReal) := by
  have hnn : (0 : ℤ) ≤ min (K : ℤ) (max 0 ⌊r⌋) := le_min (Int.natCast_nonneg K) (le_max_left _ _)
  have h : ((((min (K : ℤ) (max 0 ⌊r⌋)).toNat : ℕ) : ℤ) : ℝ)
      = ((min (K : ℤ) (max 0 ⌊r⌋) : ℤ) : ℝ) := by
    rw [Int.toNat_of_nonneg hnn]
  rw [Int.cast_natCast] at h
  rw [Ideal.liftRound_coe, coe_max, coe_min, h]
  push_cast
  rfl

/-- The natural number `min K (max 0 ⌊r⌋)` is at most `K`. -/
theorem clip_toNat_le (K : ℕ) (r : ℝ) : (min (K : ℤ) (max 0 ⌊r⌋)).toNat ≤ K := by
  have : min (K : ℤ) (max 0 ⌊r⌋) ≤ K := min_le_left _ _
  omega

/-- The clipped floor `min K (max 0 ⌊u⌋)` of any extended real `u` is a natural number at most `K`
    (at `u = -∞` it is `0`, at `u = +∞` it is `K`). -/
theorem clip_floor_eq (K : ℕ) (u : EReal) :
    ∃ m : ℕ, m ≤ K ∧
      min ((K : ℝ) : EReal) (max ((0 : ℝ) : EReal) (Ideal.liftRound Int.floor u)) = ((m : ℝ) : EReal) := by
  induction u using EReal.rec with
  | bot =>
    refine ⟨0, Nat.zero_le _, ?_⟩
    rw [Ideal.liftRound_bot, max_eq_left bot_le, Nat.cast_zero]
    exact min_eq_right (by exact_mod_cast (Nat.cast_nonneg K : (0 : ℝ) ≤ K))
  | top =>
    refine ⟨K, le_rfl, ?_⟩
    rw [Ideal.liftRound_top, max_eq_right le_top]
    exact min_eq_left le_top
  | coe r => exact ⟨_, clip_toNat_le K r, clip_floor_coe K r⟩

/-- The clipped floor of any extended real converts to a 32-bit integer between `0` and `K`. -/
theorem fptosi_clip_floor_toNat_le (K : ℕ) (hK : K < 2 ^ 31) (u : EReal) :
    (Ideal.fptosi 32
      (min ((K : ℝ) : EReal) (max ((0 : ℝ) : EReal) (Ideal.liftRound Int.floor u)))).toNat ≤ K := by
  obtain ⟨m, hm, h⟩ := clip_floor_eq K u
  rw [h, fptosi_natCast m (lt_of_le_of_lt hm hK), BitVec.toNat_ofNat]
  exact le_trans (Nat.mod_le _ _) hm

/-- For a real `r` the conversion of the clipped floor is the word of `min K (max 0 ⌊r⌋)`. -/
theorem fptosi_clip_floor_coe (K : ℕ) (hK : K < 2 ^ 31) (r : ℝ) :
    Ideal.fptosi 32
      (min ((K : ℝ) : EReal) (max ((0 : ℝ) : EReal) (Ideal.liftRound Int.floor (r : EReal))))
      = BitVec.ofNat 32 (min (K : ℤ) (max 0 ⌊r⌋)).toNat := by
  rw [clip_floor_coe K r, fptosi_natCast _ (lt_of_le_of_lt (clip_toNat_le K r) hK)]

/-! ### The neighbour index -/

/-- A 32-bit word whose unsigned value is below `2^31` has that value as its signed value. -/
theorem toInt_eq_toNat_of_lt {a : BitVec 32} (h : a.toNat < 2 ^ 31) : a.toInt = (a.toNat : ℤ) := by
  rw [BitVec.toInt_eq_toNat_cond]
  have : 2 * a.toNat < 2 ^ 32 := by omega
  rw [if_pos this]

/-- The neighbour `min (a + 1) K` of an index `a ≤ K`, computed on 32-bit words, is the natural
    number `min (a + 1) K`. -/
theorem minsi_succ_toNat (K : ℕ) (hK : K < 2 ^ 31 - 1) (a : BitVec 32) (ha : a.toNat ≤ K) :
    (IntOp.minsi (IntOp.addi a 1#32) (BitVec.ofNat 32 K)).toNat = min (a.toNat + 1) K := by
  have h1 : (IntOp.addi a 1#32).toNat = a.toNat + 1 := by
    rw [IntOp.addi, BitVec.toNat_add]
    have : (1#32 : BitVec 32).toNat = 1 := rfl
    rw [this, Nat.mod_eq_of_lt (by omega)]
  have hK' : (BitVec.ofNat 32 K).toNat = K := by
    rw [BitVec.toNat_ofNat, Nat.mod_eq_of_lt (by omega)]
  have i1 : (IntOp.addi a 1#32).toInt = ((a.toNat + 1 : ℕ) : ℤ) := by
    rw [toInt_eq_toNat_of_lt (by omega), h1]
  have i2 : (BitVec.ofNat 32 K).toInt = (K : ℤ) := by
    rw [toInt_eq_toNat_of_lt (by omega), hK']
  unfold IntOp.minsi
  rw [BitVec.slt, i1, i2]
  by_cases h : ((a.toNat + 1 : ℕ) : ℤ) < (K : ℤ)
  · rw [decide_eq_true h, if_pos rfl, h1]
    have : a.toNat + 1 < K := by exact_mod_cast h
    omega
  · rw [decide_eq_false h, if_neg (by simp), hK']
    have : ¬ a.toNat + 1 < K := by exact_mod_cast h
    omega

/-- The neighbour index stays in `[0, K]`. -/
theorem minsi_succ_toNat_le (K : ℕ) (hK : K < 2 ^ 31 - 1) (a : BitVec 32) (ha : a.toNat ≤ K) :
    (IntOp.minsi (IntOp.addi a 1#32) (BitVec.ofNat 32 K)).toNat ≤ K := by
  rw [minsi_succ_toNat K hK a ha]
  exact min_le_right _ _

/-! ### The flat index -/

/-- With `x y z ≤ K` and `D = K + 1` the flat index `(z * D + y) * D + x` is below `D ^ 3`. -/
theorem flat_lt (K D : ℕ) (hD : D = K + 1) {x y z : ℕ} (hx : x ≤ K) (hy : y ≤ K) (hz : z ≤ K) :
    (z * D + y) * D + x < D ^ 3 := by
  subst hD
  have h1 : z * (K + 1) + y ≤ K * (K + 1) + K := Nat.add_le_add (Nat.mul_le_mul_right _ hz) hy
  have h2 : (z * (K + 1) + y) * (K + 1) ≤ (K * (K + 1) + K) * (K + 1) := Nat.mul_le_mul_right _ h1
  have h3 : (K * (K + 1) + K) * (K + 1) + K + 1 = (K + 1) ^ 3 := by ring
  omega

/-- A word below `2^31` is not negative: the signed comparison with `0` is the false bit. -/
theorem cmpi_slt_zero_of_lt (I : BitVec 32) (h : I.toNat < 2 ^ 31) :
    IntOp.cmpi .slt I 0#32 = 0#1 := by
  have hI : I.toInt = (I.toNat : ℤ) := toInt_eq_toNat_of_lt h
  have h0 : (0#32 : BitVec 32).toInt = 0 := rfl
  have : I.slt 0#32 = false := by
    rw [BitVec.slt, hI, h0]
    exact decide_eq_false (by omega)
  show BitVec.ofBool (I.slt 0#32) = 0#1
  rw [this]
  rfl

/-- On a word below `2^31` the wrap-around of a negative index is not taken. -/
theorem select_slt_zero_of_lt (I alt : BitVec 32) (h : I.toNat < 2 ^ 31) :
    Scalar.select (IntOp.cmpi .slt I 0#32) alt I = I := by
  rw [cmpi_slt_zero_of_lt I h, Scalar.select, if_neg (by decide)]

/-- Clamping an in-range start index into `[0, N - 1]` leaves it unchanged. -/
theorem clamp_of_lt (I : BitVec 32) (N : ℕ) (h : I.toNat < N) (hN : N ≤ 2 ^ 31) :
    min I.toInt.toNat (N - 1) = I.toNat := by
  rw [toInt_eq_toNat_of_lt (by omega), Int.toNat_natCast]
  exact min_eq_left (by omega)

local notation "flatI(" D ", " x ", " y ", " z ")" =>
  IntOp.addi (IntOp.muli (IntOp.addi (IntOp.muli z (BitVec.ofNat 32 D)) y) (BitVec.ofNat 32 D)) x

/-- The flat index computed on 32-bit words is the natural number `(z * D + y) * D + x`: no step
    of the computation wraps. -/
theorem flat_toNat (K D : ℕ) (hK : K ≤ 191) (hD : D = K + 1) (x y z : BitVec 32)
    (hx : x.toNat ≤ K) (hy : y.toNat ≤ K) (hz : z.toNat ≤ K) :
    (flatI(D, x, y, z)).toNat = (z.toNat * D + y.toNat) * D + x.toNat := by
  have hlt := flat_lt K D hD hx hy hz
  have hD3 : D ^ 3 ≤ 192 ^ 3 := Nat.pow_le_pow_left (by omega) 3
  have hDn : (BitVec.ofNat 32 D).toNat = D := by
    rw [BitVec.toNat_ofNat, Nat.mod_eq_of_lt (by omega)]
  have hle : z.toNat * D + y.toNat ≤ (z.toNat * D + y.toNat) * D :=
    Nat.le_mul_of_pos_right _ (by omega)
  have b1 : z.toNat * D < 2 ^ 32 := by omega
  have b2 : z.toNat * D + y.toNat < 2 ^ 32 := by omega
  have b3 : (z.toNat * D + y.toNat) * D < 2 ^ 32 := by omega
  have b4 : (z.toNat * D + y.toNat) * D + x.toNat < 2 ^ 32 := by omega
  unfold IntOp.addi IntOp.muli
  rw [BitVec.toNat_add, BitVec.toNat_mul, BitVec.toNat_add, BitVec.toNat_mul, hDn,
    Nat.mod_eq_of_lt b1, Nat.mod_eq_of_lt b2, Nat.mod_eq_of_lt b3, Nat.mod_eq_of_lt b4]

/-- The flat index is below `D ^ 3`. -/
theorem flat_toNat_lt (K D : ℕ) (hK : K ≤ 191) (hD : D = K + 1) (x y z : BitVec 32)
    (hx : x.toNat ≤ K) (hy : y.toNat ≤ K) (hz : z.toNat ≤ K) :
    (flatI(D, x, y, z)).toNat < D ^ 3 := by
  rw [flat_toNat K D hK hD x y z hx hy hz]
  exact flat_lt K D hD hx hy hz

/-- `D ^ 3` is far below `2 ^ 31` for `D ≤ 192`. -/
theorem cube_le (K D : ℕ) (hK : K ≤ 191) (hD : D = K + 1) : D ^ 3 ≤ 2 ^ 31 := by
  have hD3 : D ^ 3 ≤ 192 ^ 3 := Nat.pow_le_pow_left (by omega) 3
  omega

/-- Read as a signed integer the flat index is the same natural number. -/
theorem flat_toInt (K D : ℕ) (hK : K ≤ 191) (hD : D = K + 1) (x y z : BitVec 32)
    (hx : x.toNat ≤ K) (hy : y.toNat ≤ K) (hz : z.toNat ≤ K) :
    (flatI(D, x, y, z)).toInt = ((flatI(D, x, y, z)).toNat : ℤ) := by
  have h1 := flat_toNat_lt K D hK hD x y z hx hy hz
  have h2 := cube_le K D hK hD
  exact toInt_eq_toNat_of_lt (by omega)

/-- The flat index is not negative: its signed comparison with `0` is the false bit. -/
theorem flat_cmpi_slt (K D : ℕ) (hK : K ≤ 191) (hD : D = K + 1) (x y z : BitVec 32)
    (hx : x.toNat ≤ K) (hy : y.toNat ≤ K) (hz : z.toNat ≤ K) :
    IntOp.cmpi .slt (flatI(D, x, y, z)) 0#32 = 0#1 := by
  have h1 := flat_toNat_lt K D hK hD x y z hx hy hz
  have h2 := cube_le K D hK hD
  exact cmpi_slt_zero_of_lt _ (by omega)

/-- The wrap-around of a negative index leaves the flat index as it is, whatever is added. -/
theorem flat_select (K D : ℕ) (hK : K ≤ 191) (hD : D = K + 1) (x y z : BitVec 32)
    (hx : x.toNat ≤ K) (hy : y.toNat ≤ K) (hz : z.toNat ≤ K) (N : BitVec 32) :
    Scalar.select (IntOp.cmpi .slt (flatI(D, x, y, z)) 0#32) (IntOp.addi (flatI(D, x, y, z)) N)
      (flatI(D, x, y, z)) = flatI(D, x, y, z) := by
  have h1 := flat_toNat_lt K D hK hD x y z hx hy hz
  have h2 := cube_le K D hK hD
  exact select_slt_zero_of_lt _ _ (by omega)

/-- The gather's clamp of the start index into `[0, D ^ 3 - 1]` leaves the flat index unchanged. -/
theorem flat_clamp (K D N : ℕ) (hK : K ≤ 191) (hD : D = K + 1) (hN : N = D ^ 3) (x y z : BitVec 32)
    (hx : x.toNat ≤ K) (hy : y.toNat ≤ K) (hz : z.toNat ≤ K) :
    min (flatI(D, x, y, z)).toInt.toNat (N - 1) = (z.toNat * D + y.toNat) * D + x.toNat := by
  have h1 := flat_toNat_lt K D hK hD x y z hx hy hz
  have h2 := cube_le K D hK hD
  rw [clamp_of_lt _ N (by omega) (by omega)]
  exact flat_toNat K D hK hD x y z hx hy hz

/-! ### The same facts in the operations' own names -/

/-- The clip of a kernel's floor between literals denoting `0` and `K`, written with the float
    operations at the ideal instance, converts to a 32-bit integer in `[0, K]`. -/
theorem fptosi_clip_floor_ops_le (K : ℕ) (hK : K < 2 ^ 31) (lo hi u : Ideal .f32)
    (hlo : lo = ((0 : ℝ) : EReal)) (hhi : hi = ((K : ℝ) : EReal)) :
    (FloatOps.fptosi (F := Ideal) 32
      (FloatOps.minimumf (F := Ideal) hi
        (FloatOps.maximumf (F := Ideal) lo (FloatOps.floor (F := Ideal) u)))).toNat ≤ K := by
  subst hlo hhi
  exact fptosi_clip_floor_toNat_le K hK u

/-- The same for the host program's floor. -/
theorem fptosi_clip_hostFloor_ops_le (K : ℕ) (hK : K < 2 ^ 31) (lo hi u : Ideal .f32)
    (hlo : lo = ((0 : ℝ) : EReal)) (hhi : hi = ((K : ℝ) : EReal)) :
    (FloatOps.fptosi (F := Ideal) 32
      (FloatOps.minimumf (F := Ideal) hi
        (FloatOps.maximumf (F := Ideal) lo (FloatOps.hostUnary (F := Ideal) .floor u)))).toNat ≤ K := by
  subst hlo hhi
  exact fptosi_clip_floor_toNat_le K hK u

/-- Grid of 64: the floor clipped between the words `0x00000000` and `0x427C0000` converts to an
    integer in `[0, 63]`. -/
theorem fptosi_clip_63 (u : EReal) :
    (Ideal.fptosi 32 (min (Ideal.ofBits .f32 0x427C0000#32)
      (max (Ideal.ofBits .f32 0x00000000#32) (Ideal.liftRound Int.floor u)))).toNat ≤ 63 := by
  have h := fptosi_clip_floor_toNat_le 63 (by norm_num) u
  have e : (((63 : ℕ) : ℝ) : EReal) = ((63 : ℝ) : EReal) := by norm_num
  rw [e] at h
  rw [ofBits_63, ofBits_zero]
  exact h

/-- Grid of 128: the floor clipped between the words `0x00000000` and `0x42FE0000` converts to an
    integer in `[0, 127]`. -/
theorem fptosi_clip_127 (u : EReal) :
    (Ideal.fptosi 32 (min (Ideal.ofBits .f32 0x42FE0000#32)
      (max (Ideal.ofBits .f32 0x00000000#32) (Ideal.liftRound Int.floor u)))).toNat ≤ 127 := by
  have h := fptosi_clip_floor_toNat_le 127 (by norm_num) u
  have e : (((127 : ℕ) : ℝ) : EReal) = ((127 : ℝ) : EReal) := by norm_num
  rw [e] at h
  rw [ofBits_127, ofBits_zero]
  exact h

/-- Grid of 192: the floor clipped between the words `0x00000000` and `0x433F0000` converts to an
    integer in `[0, 191]`. -/
theorem fptosi_clip_191 (u : EReal) :
    (Ideal.fptosi 32 (min (Ideal.ofBits .f32 0x433F0000#32)
      (max (Ideal.ofBits .f32 0x00000000#32) (Ideal.liftRound Int.floor u)))).toNat ≤ 191 := by
  have h := fptosi_clip_floor_toNat_le 191 (by norm_num) u
  have e : (((191 : ℕ) : ℝ) : EReal) = ((191 : ℝ) : EReal) := by norm_num
  rw [e] at h
  rw [ofBits_191, ofBits_zero]
  exact h

/-- The three grids at once, instantiated: neighbour, flat index, sign test, wrap-around and clamp
    for `K = 63`, `D = 64`, `D ^ 3 = 262144` in the literals' own spelling. -/
example (a x y z : BitVec 32) (ha : a.toNat ≤ 63) (hx : x.toNat ≤ 63) (hy : y.toNat ≤ 63)
    (hz : z.toNat ≤ 63) :
    (IntOp.minsi (IntOp.addi a 1#32) 63#32).toNat ≤ 63 ∧
    (IntOp.addi (IntOp.muli (IntOp.addi (IntOp.muli z 64#32) y) 64#32) x).toNat
      = (z.toNat * 64 + y.toNat) * 64 + x.toNat ∧
    Scalar.select (IntOp.cmpi .slt (IntOp.addi (IntOp.muli (IntOp.addi (IntOp.muli z 64#32) y) 64#32) x) 0#32)
      (IntOp.addi (IntOp.addi (IntOp.muli (IntOp.addi (IntOp.muli z 64#32) y) 64#32) x) 262144#32)
      (IntOp.addi (IntOp.muli (IntOp.addi (IntOp.muli z 64#32) y) 64#32) x)
      = IntOp.addi (IntOp.muli (IntOp.addi (IntOp.muli z 64#32) y) 64#32) x ∧
    min (IntOp.addi (IntOp.muli (IntOp.addi (IntOp.muli z 64#32) y) 64#32) x).toInt.toNat (262144 - 1)
      = (z.toNat * 64 + y.toNat) * 64 + x.toNat :=
  ⟨minsi_succ_toNat_le 63 (by norm_num) a ha,
   flat_toNat 63 64 (by norm_num) rfl x y z hx hy hz,
   flat_select 63 64 (by norm_num) rfl x y z hx hy hz 262144#32,
   flat_clamp 63 64 262144 (by norm_num) rfl (by norm_num) x y z hx hy hz⟩

/-! ### An integer bound converted to a float -/

/-- The word of a natural number below `2^31`, read as a signed integer and converted to a float,
    is that number. -/
theorem sitofp_ofNat (K : ℕ) (hK : K < 2 ^ 31) :
    FloatOps.sitofp (F := Ideal) .f32 (BitVec.ofNat 32 K) = ((K : ℝ) : EReal) := by
  have hn : (BitVec.ofNat 32 K).toNat = K := by
    rw [BitVec.toNat_ofNat, Nat.mod_eq_of_lt (by omega)]
  show ((((BitVec.ofNat 32 K).toInt : ℤ) : ℝ) : EReal) = _
  rw [toInt_eq_toNat_of_lt (by omega), hn, Int.cast_natCast]

/-- The integer literals `63`, `127`, `191` convert to the floats `63`, `127`, `191`. -/
theorem sitofp_literals :
    FloatOps.sitofp (F := Ideal) .f32 (63#32 : BitVec 32) = ((63 : ℝ) : EReal) ∧
    FloatOps.sitofp (F := Ideal) .f32 (127#32 : BitVec 32) = ((127 : ℝ) : EReal) ∧
    FloatOps.sitofp (F := Ideal) .f32 (191#32 : BitVec 32) = ((191 : ℝ) : EReal) := by
  refine ⟨?_, ?_, ?_⟩
  · rw [sitofp_ofNat 63 (by norm_num)]; norm_num
  · rw [sitofp_ofNat 127 (by norm_num)]; norm_num
  · rw [sitofp_ofNat 191 (by norm_num)]; norm_num

end LibIndexRange
-- ==== Proof.GlueCoords0.lean ====
import proofs.«113233_j37486474559588_2_alg».proof.Proof.HostStagesIdeal
import proofs.«113233_j37486474559588_2_alg».proof.Proof.RefReadP
import proofs.«113233_j37486474559588_2_alg».proof.Proof.LibIndexRange
import Idealize.ShloMosaic.Lib.ValueIdx
import Idealize.ShloMosaic.Lib.Pipeline.Value
import Mathlib.Tactic

/-!
# The two programs' scalar chains agree, volume 0

Before any gather, both programs compute per query point the same scalars from the grid: the
unnormalized coordinates, their floors clipped to the volume, the smoothstep weight along x, the
integer cell coordinates and their clipped successors, and the eight flat corner indices.  The
kernel's host stages and the reference's stages are the same functions of the grid, operation by
operation; the one difference is that the reference converts an integer upper bound to a float where
the kernel has the float's word, and the two are the same number.  The reference also tests its flat
index for a negative sign and wraps it; the index is never negative, so that changes nothing.
-/

noncomputable section

namespace Cert.Proof.GlueCoords0

open Idealize.ShloMosaic Idealize.ShloMosaic.ValueIdx
open Cert.KernelIdeal.Host Cert.ReferenceIdeal

/-- A scalar broadcast to any shape reads the scalar everywhere. -/
theorem bcast0_apply {α : Type} {t : Shape} (dims : Fin (⟨0, ![]⟩ : Shape).rank → Fin t.rank)
    (h : (⟨0, ![]⟩ : Shape).BroadcastsInDim t dims) (y : (⟨0, ![]⟩ : Shape).Idx → α) (i : t.Idx) :
    broadcastInDim t dims h y i = y ix0 :=
  broadcastInDim_apply dims h y i ix0 (fun a => a.elim0)

variable (x0 : (⟨S1x1x1x1048576x3, .f32⟩ : BufTy).Contents (Elt Ideal))
  (x1 : (⟨S1x4x64x64x64, .f32⟩ : BufTy).Contents (Elt Ideal))
  (x2 : (⟨S1x4x128x128x128, .f32⟩ : BufTy).Contents (Elt Ideal))
  (x3 : (⟨S1x4x192x192x192, .f32⟩ : BufTy).Contents (Elt Ideal))

/-! ### The x axis -/

/-- The two programs' unnormalized x coordinates are one array. -/
theorem coordX : kst_main_v12 (F := Ideal) x0 x1 x2 x3 = ReadP.val_main_v8 (F := Ideal) x0 := rfl

/-- The kernel's upper clip bound, broadcast, is the float `63` everywhere. -/
theorem kHiX (i : S1048576.Idx) : kst_main_call0_v4 (F := Ideal) x0 x1 x2 x3 i = Ideal.ofBits .f32 0x427C0000#32 := by
  unfold kst_main_call0_v4
  exact (bcast0_apply _ _ _ i).trans rfl

/-- The kernel's lower clip bound, broadcast, is `0` everywhere. -/
theorem kLoX (i : S1048576.Idx) : kst_main_call0_v1 (F := Ideal) x0 x1 x2 x3 i = Ideal.ofBits .f32 0x00000000#32 := by
  unfold kst_main_call0_v1
  exact (bcast0_apply _ _ _ i).trans rfl

/-- The reference's upper clip bound, the integer `63` converted and broadcast, is the same float. -/
theorem rHiX (i : S1048576.Idx) : ReadP.val_main_call0_v4 (F := Ideal) i = Ideal.ofBits .f32 0x427C0000#32 := by
  rw [ReadP.val_main_call0_v4_apply, ReadP.val_main_call0_v3_apply, ReadP.val_main_c_apply]
  exact LibIndexRange.sitofp_literals.1.trans LibIndexRange.ofBits_63.symm

/-- The two programs' clipped floors along x are one array. -/
theorem clipX : kst_main_v26 (F := Ideal) x0 x1 x2 x3 = ReadP.val_main_v26 (F := Ideal) x0 := by
  funext i
  show FloatOps.minimumf (F := Ideal) (φ := .f32) (kst_main_call0_v4 (F := Ideal) x0 x1 x2 x3 i) (kst_main_call0_v2 (F := Ideal) x0 x1 x2 x3 i)
    = FloatOps.minimumf (F := Ideal) (φ := .f32) (ReadP.val_main_call0_v4 (F := Ideal) i) (ReadP.val_main_call0_v2 (F := Ideal) x0 i)
  rw [kHiX, rHiX]
  rfl

/-- The lower cell words along x are one array. -/
theorem cell0X_fn : kst_main_v39 (F := Ideal) x0 x1 x2 x3 = ReadP.val_main_v55 (F := Ideal) x0 := by
  unfold kst_main_v39 ReadP.val_main_v55
  exact congrArg _ (clipX x0 x1 x2 x3)

/-- The upper cell words along x are one array. -/
theorem cell1X_fn : kst_main_v45 (F := Ideal) x0 x1 x2 x3 = ReadP.val_main_v61 (F := Ideal) x0 := by
  unfold kst_main_v45 kst_main_v43 ReadP.val_main_v61 ReadP.val_main_v59
  rw [cell0X_fn x0 x1 x2 x3] <;> rfl

/-- The lower cell word along x at a query point, kernel and reference. -/
theorem cell0X (i : S1048576.Idx) : kst_main_v39 (F := Ideal) x0 x1 x2 x3 i = ReadP.val_main_v55 (F := Ideal) x0 i :=
  congrFun (cell0X_fn x0 x1 x2 x3) i

/-- The upper cell word along x at a query point, kernel and reference. -/
theorem cell1X (i : S1048576.Idx) : kst_main_v45 (F := Ideal) x0 x1 x2 x3 i = ReadP.val_main_v61 (F := Ideal) x0 i :=
  congrFun (cell1X_fn x0 x1 x2 x3) i

/-- The lower cell word along x is in `[0, 63]`. -/
theorem cell0X_le (i : S1048576.Idx) : (kst_main_v39 (F := Ideal) x0 x1 x2 x3 i).toNat ≤ 63 := by
  have h : kst_main_v39 (F := Ideal) x0 x1 x2 x3 i
      = Ideal.fptosi 32 (min (Ideal.ofBits .f32 0x427C0000#32) (max (Ideal.ofBits .f32 0x00000000#32)
          (Ideal.liftRound Int.floor (kst_main_v12 (F := Ideal) x0 x1 x2 x3 i)))) := by
    show Ideal.fptosi 32 (min (kst_main_call0_v4 (F := Ideal) x0 x1 x2 x3 i) (max (kst_main_call0_v1 (F := Ideal) x0 x1 x2 x3 i)
          (Ideal.liftRound Int.floor (kst_main_v12 (F := Ideal) x0 x1 x2 x3 i)))) = _
    rw [kHiX, kLoX]
  rw [h]
  exact LibIndexRange.fptosi_clip_63 _

/-- The upper cell word along x is `min (a + 1) 63` of the lower one, on 32-bit words. -/
theorem cell1X_eq (i : S1048576.Idx) :
    kst_main_v45 (F := Ideal) x0 x1 x2 x3 i = IntOp.minsi (IntOp.addi (kst_main_v39 (F := Ideal) x0 x1 x2 x3 i) 1#32) 63#32 := by
  have h1 : kst_main_v42 (F := Ideal) x0 x1 x2 x3 i = 1#32 := by
    unfold kst_main_v42
    exact (bcast0_apply _ _ _ i).trans rfl
  have hK : kst_main_v44 (F := Ideal) x0 x1 x2 x3 i = 63#32 := by
    unfold kst_main_v44
    exact (bcast0_apply _ _ _ i).trans rfl
  show IntOp.minsi (IntOp.addi (kst_main_v39 (F := Ideal) x0 x1 x2 x3 i) (kst_main_v42 (F := Ideal) x0 x1 x2 x3 i)) (kst_main_v44 (F := Ideal) x0 x1 x2 x3 i) = _
  rw [h1, hK]

/-- The upper cell word along x is in `[0, 63]`. -/
theorem cell1X_le (i : S1048576.Idx) : (kst_main_v45 (F := Ideal) x0 x1 x2 x3 i).toNat ≤ 63 := by
  rw [cell1X_eq]
  exact LibIndexRange.minsi_succ_toNat_le 63 (by norm_num) _ (cell0X_le x0 x1 x2 x3 i)

/-! ### The y axis -/

/-- The two programs' unnormalized y coordinates are one array. -/
theorem coordY : kst_main_v18 (F := Ideal) x0 x1 x2 x3 = ReadP.val_main_v16 (F := Ideal) x0 := rfl

/-- The kernel's upper clip bound, broadcast, is the float `63` everywhere. -/
theorem kHiY (i : S1048576.Idx) : kst_main_call1_v4 (F := Ideal) x0 x1 x2 x3 i = Ideal.ofBits .f32 0x427C0000#32 := by
  unfold kst_main_call1_v4
  exact (bcast0_apply _ _ _ i).trans rfl

/-- The kernel's lower clip bound, broadcast, is `0` everywhere. -/
theorem kLoY (i : S1048576.Idx) : kst_main_call1_v1 (F := Ideal) x0 x1 x2 x3 i = Ideal.ofBits .f32 0x00000000#32 := by
  unfold kst_main_call1_v1
  exact (bcast0_apply _ _ _ i).trans rfl

/-- The reference's upper clip bound, the integer `63` converted and broadcast, is the same float. -/
theorem rHiY (i : S1048576.Idx) : ReadP.val_main_call1_v4 (F := Ideal) i = Ideal.ofBits .f32 0x427C0000#32 := by
  rw [ReadP.val_main_call1_v4_apply, ReadP.val_main_call1_v3_apply, ReadP.val_main_c_10_apply]
  exact LibIndexRange.sitofp_literals.1.trans LibIndexRange.ofBits_63.symm

/-- The two programs' clipped floors along y are one array. -/
theorem clipY : kst_main_v28 (F := Ideal) x0 x1 x2 x3 = ReadP.val_main_v28 (F := Ideal) x0 := by
  funext i
  show FloatOps.minimumf (F := Ideal) (φ := .f32) (kst_main_call1_v4 (F := Ideal) x0 x1 x2 x3 i) (kst_main_call1_v2 (F := Ideal) x0 x1 x2 x3 i)
    = FloatOps.minimumf (F := Ideal) (φ := .f32) (ReadP.val_main_call1_v4 (F := Ideal) i) (ReadP.val_main_call1_v2 (F := Ideal) x0 i)
  rw [kHiY, rHiY]
  rfl

/-- The lower cell words along y are one array. -/
theorem cell0Y_fn : kst_main_v40 (F := Ideal) x0 x1 x2 x3 = ReadP.val_main_v56 (F := Ideal) x0 := by
  unfold kst_main_v40 ReadP.val_main_v56
  exact congrArg _ (clipY x0 x1 x2 x3)

/-- The upper cell words along y are one array. -/
theorem cell1Y_fn : kst_main_v49 (F := Ideal) x0 x1 x2 x3 = ReadP.val_main_v65 (F := Ideal) x0 := by
  unfold kst_main_v49 kst_main_v47 ReadP.val_main_v65 ReadP.val_main_v63
  rw [cell0Y_fn x0 x1 x2 x3] <;> rfl

/-- The lower cell word along y at a query point, kernel and reference. -/
theorem cell0Y (i : S1048576.Idx) : kst_main_v40 (F := Ideal) x0 x1 x2 x3 i = ReadP.val_main_v56 (F := Ideal) x0 i :=
  congrFun (cell0Y_fn x0 x1 x2 x3) i

/-- The upper cell word along y at a query point, kernel and reference. -/
theorem cell1Y (i : S1048576.Idx) : kst_main_v49 (F := Ideal) x0 x1 x2 x3 i = ReadP.val_main_v65 (F := Ideal) x0 i :=
  congrFun (cell1Y_fn x0 x1 x2 x3) i

/-- The lower cell word along y is in `[0, 63]`. -/
theorem cell0Y_le (i : S1048576.Idx) : (kst_main_v40 (F := Ideal) x0 x1 x2 x3 i).toNat ≤ 63 := by
  have h : kst_main_v40 (F := Ideal) x0 x1 x2 x3 i
      = Ideal.fptosi 32 (min (Ideal.ofBits .f32 0x427C0000#32) (max (Ideal.ofBits .f32 0x00000000#32)
          (Ideal.liftRound Int.floor (kst_main_v18 (F := Ideal) x0 x1 x2 x3 i)))) := by
    show Ideal.fptosi 32 (min (kst_main_call1_v4 (F := Ideal) x0 x1 x2 x3 i) (max (kst_main_call1_v1 (F := Ideal) x0 x1 x2 x3 i)
          (Ideal.liftRound Int.floor (kst_main_v18 (F := Ideal) x0 x1 x2 x3 i)))) = _
    rw [kHiY, kLoY]
  rw [h]
  exact LibIndexRange.fptosi_clip_63 _

/-- The upper cell word along y is `min (a + 1) 63` of the lower one, on 32-bit words. -/
theorem cell1Y_eq (i : S1048576.Idx) :
    kst_main_v49 (F := Ideal) x0 x1 x2 x3 i = IntOp.minsi (IntOp.addi (kst_main_v40 (F := Ideal) x0 x1 x2 x3 i) 1#32) 63#32 := by
  have h1 : kst_main_v46 (F := Ideal) x0 x1 x2 x3 i = 1#32 := by
    unfold kst_main_v46
    exact (bcast0_apply _ _ _ i).trans rfl
  have hK : kst_main_v48 (F := Ideal) x0 x1 x2 x3 i = 63#32 := by
    unfold kst_main_v48
    exact (bcast0_apply _ _ _ i).trans rfl
  show IntOp.minsi (IntOp.addi (kst_main_v40 (F := Ideal) x0 x1 x2 x3 i) (kst_main_v46 (F := Ideal) x0 x1 x2 x3 i)) (kst_main_v48 (F := Ideal) x0 x1 x2 x3 i) = _
  rw [h1, hK]

/-- The upper cell word along y is in `[0, 63]`. -/
theorem cell1Y_le (i : S1048576.Idx) : (kst_main_v49 (F := Ideal) x0 x1 x2 x3 i).toNat ≤ 63 := by
  rw [cell1Y_eq]
  exact LibIndexRange.minsi_succ_toNat_le 63 (by norm_num) _ (cell0Y_le x0 x1 x2 x3 i)

/-! ### The z axis -/

/-- The two programs' unnormalized z coordinates are one array. -/
theorem coordZ : kst_main_v24 (F := Ideal) x0 x1 x2 x3 = ReadP.val_main_v24 (F := Ideal) x0 := rfl

/-- The kernel's upper clip bound, broadcast, is the float `63` everywhere. -/
theorem kHiZ (i : S1048576.Idx) : kst_main_call2_v4 (F := Ideal) x0 x1 x2 x3 i = Ideal.ofBits .f32 0x427C0000#32 := by
  unfold kst_main_call2_v4
  exact (bcast0_apply _ _ _ i).trans rfl

/-- The kernel's lower clip bound, broadcast, is `0` everywhere. -/
theorem kLoZ (i : S1048576.Idx) : kst_main_call2_v1 (F := Ideal) x0 x1 x2 x3 i = Ideal.ofBits .f32 0x00000000#32 := by
  unfold kst_main_call2_v1
  exact (bcast0_apply _ _ _ i).trans rfl

/-- The reference's upper clip bound, the integer `63` converted and broadcast, is the same float. -/
theorem rHiZ (i : S1048576.Idx) : ReadP.val_main_call2_v4 (F := Ideal) i = Ideal.ofBits .f32 0x427C0000#32 := by
  rw [ReadP.val_main_call2_v4_apply, ReadP.val_main_call2_v3_apply, ReadP.val_main_c_12_apply]
  exact LibIndexRange.sitofp_literals.1.trans LibIndexRange.ofBits_63.symm

/-- The two programs' clipped floors along z are one array. -/
theorem clipZ : kst_main_v30 (F := Ideal) x0 x1 x2 x3 = ReadP.val_main_v30 (F := Ideal) x0 := by
  funext i
  show FloatOps.minimumf (F := Ideal) (φ := .f32) (kst_main_call2_v4 (F := Ideal) x0 x1 x2 x3 i) (kst_main_call2_v2 (F := Ideal) x0 x1 x2 x3 i)
    = FloatOps.minimumf (F := Ideal) (φ := .f32) (ReadP.val_main_call2_v4 (F := Ideal) i) (ReadP.val_main_call2_v2 (F := Ideal) x0 i)
  rw [kHiZ, rHiZ]
  rfl

/-- The lower cell words along z are one array. -/
theorem cell0Z_fn : kst_main_v41 (F := Ideal) x0 x1 x2 x3 = ReadP.val_main_v57 (F := Ideal) x0 := by
  unfold kst_main_v41 ReadP.val_main_v57
  exact congrArg _ (clipZ x0 x1 x2 x3)

/-- The upper cell words along z are one array. -/
theorem cell1Z_fn : kst_main_v53 (F := Ideal) x0 x1 x2 x3 = ReadP.val_main_v69 (F := Ideal) x0 := by
  unfold kst_main_v53 kst_main_v51 ReadP.val_main_v69 ReadP.val_main_v67
  rw [cell0Z_fn x0 x1 x2 x3] <;> rfl

/-- The lower cell word along z at a query point, kernel and reference. -/
theorem cell0Z (i : S1048576.Idx) : kst_main_v41 (F := Ideal) x0 x1 x2 x3 i = ReadP.val_main_v57 (F := Ideal) x0 i :=
  congrFun (cell0Z_fn x0 x1 x2 x3) i

/-- The upper cell word along z at a query point, kernel and reference. -/
theorem cell1Z (i : S1048576.Idx) : kst_main_v53 (F := Ideal) x0 x1 x2 x3 i = ReadP.val_main_v69 (F := Ideal) x0 i :=
  congrFun (cell1Z_fn x0 x1 x2 x3) i

/-- The lower cell word along z is in `[0, 63]`. -/
theorem cell0Z_le (i : S1048576.Idx) : (kst_main_v41 (F := Ideal) x0 x1 x2 x3 i).toNat ≤ 63 := by
  have h : kst_main_v41 (F := Ideal) x0 x1 x2 x3 i
      = Ideal.fptosi 32 (min (Ideal.ofBits .f32 0x427C0000#32) (max (Ideal.ofBits .f32 0x00000000#32)
          (Ideal.liftRound Int.floor (kst_main_v24 (F := Ideal) x0 x1 x2 x3 i)))) := by
    show Ideal.fptosi 32 (min (kst_main_call2_v4 (F := Ideal) x0 x1 x2 x3 i) (max (kst_main_call2_v1 (F := Ideal) x0 x1 x2 x3 i)
          (Ideal.liftRound Int.floor (kst_main_v24 (F := Ideal) x0 x1 x2 x3 i)))) = _
    rw [kHiZ, kLoZ]
  rw [h]
  exact LibIndexRange.fptosi_clip_63 _

/-- The upper cell word along z is `min (a + 1) 63` of the lower one, on 32-bit words. -/
theorem cell1Z_eq (i : S1048576.Idx) :
    kst_main_v53 (F := Ideal) x0 x1 x2 x3 i = IntOp.minsi (IntOp.addi (kst_main_v41 (F := Ideal) x0 x1 x2 x3 i) 1#32) 63#32 := by
  have h1 : kst_main_v50 (F := Ideal) x0 x1 x2 x3 i = 1#32 := by
    unfold kst_main_v50
    exact (bcast0_apply _ _ _ i).trans rfl
  have hK : kst_main_v52 (F := Ideal) x0 x1 x2 x3 i = 63#32 := by
    unfold kst_main_v52
    exact (bcast0_apply _ _ _ i).trans rfl
  show IntOp.minsi (IntOp.addi (kst_main_v41 (F := Ideal) x0 x1 x2 x3 i) (kst_main_v50 (F := Ideal) x0 x1 x2 x3 i)) (kst_main_v52 (F := Ideal) x0 x1 x2 x3 i) = _
  rw [h1, hK]

/-- The upper cell word along z is in `[0, 63]`. -/
theorem cell1Z_le (i : S1048576.Idx) : (kst_main_v53 (F := Ideal) x0 x1 x2 x3 i).toNat ≤ 63 := by
  rw [cell1Z_eq]
  exact LibIndexRange.minsi_succ_toNat_le 63 (by norm_num) _ (cell0Z_le x0 x1 x2 x3 i)

/-! ### The x weight -/

/-- The two programs' smoothstep weights along x are one array. -/
theorem weightX_fn : kst_main_v38 (F := Ideal) x0 x1 x2 x3 = ReadP.val_main_v42 (F := Ideal) x0 := by
  unfold kst_main_v38 kst_main_v37 kst_main_v35 kst_main_v33 kst_main_v32 kst_main_call3_v2 kst_main_v31
  unfold ReadP.val_main_v42 ReadP.val_main_v41 ReadP.val_main_v39 ReadP.val_main_v37 ReadP.val_main_v32 ReadP.val_main_call3_v2 ReadP.val_main_v31
  rw [clipX x0 x1 x2 x3] <;> rfl

/-- **(a)** the x weight at a query point, kernel and reference. -/
theorem weightX (i : S1048576.Idx) : kst_main_v38 (F := Ideal) x0 x1 x2 x3 i = ReadP.val_main_v42 (F := Ideal) x0 i :=
  congrFun (weightX_fn x0 x1 x2 x3) i

/-! ### The eight flat corner indices -/

/-- Corner 0: the two programs' flat indices, before the reference's sign test, are one array. -/
theorem flat0_fn : kst_main_v62 (F := Ideal) x0 x1 x2 x3 = ReadP.val_main_v76 (F := Ideal) x0 := by
  unfold kst_main_v62 kst_main_v61 kst_main_v59 kst_main_v58 ReadP.val_main_v76 ReadP.val_main_v75 ReadP.val_main_v73 ReadP.val_main_v72
  rw [cell0Z_fn x0 x1 x2 x3, cell0Y_fn x0 x1 x2 x3, cell0X_fn x0 x1 x2 x3] <;> rfl

/-- Corner 0: the kernel's flat index at a query point is `(z * 64 + y) * 64 + x` on 32-bit words. -/
theorem flat0_eq (i : S1048576.Idx) :
    kst_main_v62 (F := Ideal) x0 x1 x2 x3 i
      = IntOp.addi (IntOp.muli (IntOp.addi (IntOp.muli (kst_main_v41 (F := Ideal) x0 x1 x2 x3 i) 64#32) (kst_main_v40 (F := Ideal) x0 x1 x2 x3 i)) 64#32) (kst_main_v39 (F := Ideal) x0 x1 x2 x3 i) := by
  have h1 : kst_main_v60 (F := Ideal) x0 x1 x2 x3 i = 64#32 := by
    unfold kst_main_v60
    exact (bcast0_apply _ _ _ i).trans rfl
  have h2 : kst_main_v57 (F := Ideal) x0 x1 x2 x3 i = 64#32 := by
    unfold kst_main_v57
    exact (bcast0_apply _ _ _ i).trans rfl
  show IntOp.addi (IntOp.muli (IntOp.addi (IntOp.muli (kst_main_v41 (F := Ideal) x0 x1 x2 x3 i) (kst_main_v57 (F := Ideal) x0 x1 x2 x3 i)) (kst_main_v40 (F := Ideal) x0 x1 x2 x3 i)) (kst_main_v60 (F := Ideal) x0 x1 x2 x3 i)) (kst_main_v39 (F := Ideal) x0 x1 x2 x3 i) = _
  rw [h1, h2]

/-- **(c)** corner 0: the kernel's flat index, read as a signed integer, is the natural number
    `(z * 64 + y) * 64 + x` of its three cell words. -/
theorem corner0_toInt (i : S1048576.Idx) :
    (kst_main_v62 (F := Ideal) x0 x1 x2 x3 i).toInt
      = ((((kst_main_v41 (F := Ideal) x0 x1 x2 x3 i).toNat * 64 + (kst_main_v40 (F := Ideal) x0 x1 x2 x3 i).toNat) * 64
          + (kst_main_v39 (F := Ideal) x0 x1 x2 x3 i).toNat : ℕ) : ℤ) := by
  rw [flat0_eq]
  have hx := cell0X_le x0 x1 x2 x3 i
  have hy := cell0Y_le x0 x1 x2 x3 i
  have hz := cell0Z_le x0 x1 x2 x3 i
  rw [LibIndexRange.flat_toInt 63 64 (by norm_num) rfl _ _ _ hx hy hz,
    LibIndexRange.flat_toNat 63 64 (by norm_num) rfl _ _ _ hx hy hz]

/-- **(c)** corner 0: the kernel's flat index and the reference's index after its sign test and
    wrap-around are one word. -/
theorem corner0_eq (i : S1048576.Idx) : kst_main_v62 (F := Ideal) x0 x1 x2 x3 i = ReadP.val_main_v81 (F := Ideal) x0 i := by
  have hsel : ReadP.val_main_v81 (F := Ideal) x0 i
      = Scalar.select (IntOp.cmpi .slt (ReadP.val_main_v76 (F := Ideal) x0 i) 0#32)
          (IntOp.addi (ReadP.val_main_v76 (F := Ideal) x0 i) 262144#32) (ReadP.val_main_v76 (F := Ideal) x0 i) := by
    simp only [ReadP.val_main_v81_apply, ReadP.val_main_v78_apply, ReadP.val_main_v80_apply, ReadP.val_main_v77_apply,
      ReadP.val_main_c_33_apply, ReadP.val_main_v79_apply, ReadP.val_main_c_34_apply]
  have hI : ReadP.val_main_v76 (F := Ideal) x0 i = kst_main_v62 (F := Ideal) x0 x1 x2 x3 i := (congrFun (flat0_fn x0 x1 x2 x3) i).symm
  have hx := cell0X_le x0 x1 x2 x3 i
  have hy := cell0Y_le x0 x1 x2 x3 i
  have hz := cell0Z_le x0 x1 x2 x3 i
  rw [hsel, hI, flat0_eq]
  exact (LibIndexRange.flat_select 63 64 (by norm_num) rfl _ _ _ hx hy hz 262144#32).symm

/-- Corner 1: the two programs' flat indices, before the reference's sign test, are one array. -/
theorem flat1_fn : kst_main_v70 (F := Ideal) x0 x1 x2 x3 = ReadP.val_main_v89 (F := Ideal) x0 := by
  unfold kst_main_v70 kst_main_v69 kst_main_v67 kst_main_v66 ReadP.val_main_v89 ReadP.val_main_v88 ReadP.val_main_v86 ReadP.val_main_v85
  rw [cell0Z_fn x0 x1 x2 x3, cell0Y_fn x0 x1 x2 x3, cell1X_fn x0 x1 x2 x3] <;> rfl

/-- Corner 1: the kernel's flat index at a query point is `(z * 64 + y) * 64 + x` on 32-bit words. -/
theorem flat1_eq (i : S1048576.Idx) :
    kst_main_v70 (F := Ideal) x0 x1 x2 x3 i
      = IntOp.addi (IntOp.muli (IntOp.addi (IntOp.muli (kst_main_v41 (F := Ideal) x0 x1 x2 x3 i) 64#32) (kst_main_v40 (F := Ideal) x0 x1 x2 x3 i)) 64#32) (kst_main_v45 (F := Ideal) x0 x1 x2 x3 i) := by
  have h1 : kst_main_v68 (F := Ideal) x0 x1 x2 x3 i = 64#32 := by
    unfold kst_main_v68
    exact (bcast0_apply _ _ _ i).trans rfl
  have h2 : kst_main_v65 (F := Ideal) x0 x1 x2 x3 i = 64#32 := by
    unfold kst_main_v65
    exact (bcast0_apply _ _ _ i).trans rfl
  show IntOp.addi (IntOp.muli (IntOp.addi (IntOp.muli (kst_main_v41 (F := Ideal) x0 x1 x2 x3 i) (kst_main_v65 (F := Ideal) x0 x1 x2 x3 i)) (kst_main_v40 (F := Ideal) x0 x1 x2 x3 i)) (kst_main_v68 (F := Ideal) x0 x1 x2 x3 i)) (kst_main_v45 (F := Ideal) x0 x1 x2 x3 i) = _
  rw [h1, h2]

/-- **(c)** corner 1: the kernel's flat index, read as a signed integer, is the natural number
    `(z * 64 + y) * 64 + x` of its three cell words. -/
theorem corner1_toInt (i : S1048576.Idx) :
    (kst_main_v70 (F := Ideal) x0 x1 x2 x3 i).toInt
      = ((((kst_main_v41 (F := Ideal) x0 x1 x2 x3 i).toNat * 64 + (kst_main_v40 (F := Ideal) x0 x1 x2 x3 i).toNat) * 64
          + (kst_main_v45 (F := Ideal) x0 x1 x2 x3 i).toNat : ℕ) : ℤ) := by
  rw [flat1_eq]
  have hx := cell1X_le x0 x1 x2 x3 i
  have hy := cell0Y_le x0 x1 x2 x3 i
  have hz := cell0Z_le x0 x1 x2 x3 i
  rw [LibIndexRange.flat_toInt 63 64 (by norm_num) rfl _ _ _ hx hy hz,
    LibIndexRange.flat_toNat 63 64 (by norm_num) rfl _ _ _ hx hy hz]

/-- **(c)** corner 1: the kernel's flat index and the reference's index after its sign test and
    wrap-around are one word. -/
theorem corner1_eq (i : S1048576.Idx) : kst_main_v70 (F := Ideal) x0 x1 x2 x3 i = ReadP.val_main_v94 (F := Ideal) x0 i := by
  have hsel : ReadP.val_main_v94 (F := Ideal) x0 i
      = Scalar.select (IntOp.cmpi .slt (ReadP.val_main_v89 (F := Ideal) x0 i) 0#32)
          (IntOp.addi (ReadP.val_main_v89 (F := Ideal) x0 i) 262144#32) (ReadP.val_main_v89 (F := Ideal) x0 i) := by
    simp only [ReadP.val_main_v94_apply, ReadP.val_main_v91_apply, ReadP.val_main_v93_apply, ReadP.val_main_v90_apply,
      ReadP.val_main_c_37_apply, ReadP.val_main_v92_apply, ReadP.val_main_c_38_apply]
  have hI : ReadP.val_main_v89 (F := Ideal) x0 i = kst_main_v70 (F := Ideal) x0 x1 x2 x3 i := (congrFun (flat1_fn x0 x1 x2 x3) i).symm
  have hx := cell1X_le x0 x1 x2 x3 i
  have hy := cell0Y_le x0 x1 x2 x3 i
  have hz := cell0Z_le x0 x1 x2 x3 i
  rw [hsel, hI, flat1_eq]
  exact (LibIndexRange.flat_select 63 64 (by norm_num) rfl _ _ _ hx hy hz 262144#32).symm

/-- Corner 2: the two programs' flat indices, before the reference's sign test, are one array. -/
theorem flat2_fn : kst_main_v78 (F := Ideal) x0 x1 x2 x3 = ReadP.val_main_v102 (F := Ideal) x0 := by
  unfold kst_main_v78 kst_main_v77 kst_main_v75 kst_main_v74 ReadP.val_main_v102 ReadP.val_main_v101 ReadP.val_main_v99 ReadP.val_main_v98
  rw [cell0Z_fn x0 x1 x2 x3, cell1Y_fn x0 x1 x2 x3, cell0X_fn x0 x1 x2 x3] <;> rfl

/-- Corner 2: the kernel's flat index at a query point is `(z * 64 + y) * 64 + x` on 32-bit words. -/
theorem flat2_eq (i : S1048576.Idx) :
    kst_main_v78 (F := Ideal) x0 x1 x2 x3 i
      = IntOp.addi (IntOp.muli (IntOp.addi (IntOp.muli (kst_main_v41 (F := Ideal) x0 x1 x2 x3 i) 64#32) (kst_main_v49 (F := Ideal) x0 x1 x2 x3 i)) 64#32) (kst_main_v39 (F := Ideal) x0 x1 x2 x3 i) := by
  have h1 : kst_main_v76 (F := Ideal) x0 x1 x2 x3 i = 64#32 := by
    unfold kst_main_v76
    exact (bcast0_apply _ _ _ i).trans rfl
  have h2 : kst_main_v73 (F := Ideal) x0 x1 x2 x3 i = 64#32 := by
    unfold kst_main_v73
    exact (bcast0_apply _ _ _ i).trans rfl
  show IntOp.addi (IntOp.muli (IntOp.addi (IntOp.muli (kst_main_v41 (F := Ideal) x0 x1 x2 x3 i) (kst_main_v73 (F := Ideal) x0 x1 x2 x3 i)) (kst_main_v49 (F := Ideal) x0 x1 x2 x3 i)) (kst_main_v76 (F := Ideal) x0 x1 x2 x3 i)) (kst_main_v39 (F := Ideal) x0 x1 x2 x3 i) = _
  rw [h1, h2]

/-- **(c)** corner 2: the kernel's flat index, read as a signed integer, is the natural number
    `(z * 64 + y) * 64 + x` of its three cell words. -/
theorem corner2_toInt (i : S1048576.Idx) :
    (kst_main_v78 (F := Ideal) x0 x1 x2 x3 i).toInt
      = ((((kst_main_v41 (F := Ideal) x0 x1 x2 x3 i).toNat * 64 + (kst_main_v49 (F := Ideal) x0 x1 x2 x3 i).toNat) * 64
          + (kst_main_v39 (F := Ideal) x0 x1 x2 x3 i).toNat : ℕ) : ℤ) := by
  rw [flat2_eq]
  have hx := cell0X_le x0 x1 x2 x3 i
  have hy := cell1Y_le x0 x1 x2 x3 i
  have hz := cell0Z_le x0 x1 x2 x3 i
  rw [LibIndexRange.flat_toInt 63 64 (by norm_num) rfl _ _ _ hx hy hz,
    LibIndexRange.flat_toNat 63 64 (by norm_num) rfl _ _ _ hx hy hz]

/-- **(c)** corner 2: the kernel's flat index and the reference's index after its sign test and
    wrap-around are one word. -/
theorem corner2_eq (i : S1048576.Idx) : kst_main_v78 (F := Ideal) x0 x1 x2 x3 i = ReadP.val_main_v107 (F := Ideal) x0 i := by
  have hsel : ReadP.val_main_v107 (F := Ideal) x0 i
      = Scalar.select (IntOp.cmpi .slt (ReadP.val_main_v102 (F := Ideal) x0 i) 0#32)
          (IntOp.addi (ReadP.val_main_v102 (F := Ideal) x0 i) 262144#32) (ReadP.val_main_v102 (F := Ideal) x0 i) := by
    simp only [ReadP.val_main_v107_apply, ReadP.val_main_v104_apply, ReadP.val_main_v106_apply, ReadP.val_main_v103_apply,
      ReadP.val_main_c_41_apply, ReadP.val_main_v105_apply, ReadP.val_main_c_42_apply]
  have hI : ReadP.val_main_v102 (F := Ideal) x0 i = kst_main_v78 (F := Ideal) x0 x1 x2 x3 i := (congrFun (flat2_fn x0 x1 x2 x3) i).symm
  have hx := cell0X_le x0 x1 x2 x3 i
  have hy := cell1Y_le x0 x1 x2 x3 i
  have hz := cell0Z_le x0 x1 x2 x3 i
  rw [hsel, hI, flat2_eq]
  exact (LibIndexRange.flat_select 63 64 (by norm_num) rfl _ _ _ hx hy hz 262144#32).symm

/-- Corner 3: the two programs' flat indices, before the reference's sign test, are one array. -/
theorem flat3_fn : kst_main_v86 (F := Ideal) x0 x1 x2 x3 = ReadP.val_main_v115 (F := Ideal) x0 := by
  unfold kst_main_v86 kst_main_v85 kst_main_v83 kst_main_v82 ReadP.val_main_v115 ReadP.val_main_v114 ReadP.val_main_v112 ReadP.val_main_v111
  rw [cell0Z_fn x0 x1 x2 x3, cell1Y_fn x0 x1 x2 x3, cell1X_fn x0 x1 x2 x3] <;> rfl

/-- Corner 3: the kernel's flat index at a query point is `(z * 64 + y) * 64 + x` on 32-bit words. -/
theorem flat3_eq (i : S1048576.Idx) :
    kst_main_v86 (F := Ideal) x0 x1 x2 x3 i
      = IntOp.addi (IntOp.muli (IntOp.addi (IntOp.muli (kst_main_v41 (F := Ideal) x0 x1 x2 x3 i) 64#32) (kst_main_v49 (F := Ideal) x0 x1 x2 x3 i)) 64#32) (kst_main_v45 (F := Ideal) x0 x1 x2 x3 i) := by
  have h1 : kst_main_v84 (F := Ideal) x0 x1 x2 x3 i = 64#32 := by
    unfold kst_main_v84
    exact (bcast0_apply _ _ _ i).trans rfl
  have h2 : kst_main_v81 (F := Ideal) x0 x1 x2 x3 i = 64#32 := by
    unfold kst_main_v81
    exact (bcast0_apply _ _ _ i).trans rfl
  show IntOp.addi (IntOp.muli (IntOp.addi (IntOp.muli (kst_main_v41 (F := Ideal) x0 x1 x2 x3 i) (kst_main_v81 (F := Ideal) x0 x1 x2 x3 i)) (kst_main_v49 (F := Ideal) x0 x1 x2 x3 i)) (kst_main_v84 (F := Ideal) x0 x1 x2 x3 i)) (kst_main_v45 (F := Ideal) x0 x1 x2 x3 i) = _
  rw [h1, h2]

/-- **(c)** corner 3: the kernel's flat index, read as a signed integer, is the natural number
    `(z * 64 + y) * 64 + x` of its three cell words. -/
theorem corner3_toInt (i : S1048576.Idx) :
    (kst_main_v86 (F := Ideal) x0 x1 x2 x3 i).toInt
      = ((((kst_main_v41 (F := Ideal) x0 x1 x2 x3 i).toNat * 64 + (kst_main_v49 (F := Ideal) x0 x1 x2 x3 i).toNat) * 64
          + (kst_main_v45 (F := Ideal) x0 x1 x2 x3 i).toNat : ℕ) : ℤ) := by
  rw [flat3_eq]
  have hx := cell1X_le x0 x1 x2 x3 i
  have hy := cell1Y_le x0 x1 x2 x3 i
  have hz := cell0Z_le x0 x1 x2 x3 i
  rw [LibIndexRange.flat_toInt 63 64 (by norm_num) rfl _ _ _ hx hy hz,
    LibIndexRange.flat_toNat 63 64 (by norm_num) rfl _ _ _ hx hy hz]

/-- **(c)** corner 3: the kernel's flat index and the reference's index after its sign test and
    wrap-around are one word. -/
theorem corner3_eq (i : S1048576.Idx) : kst_main_v86 (F := Ideal) x0 x1 x2 x3 i = ReadP.val_main_v120 (F := Ideal) x0 i := by
  have hsel : ReadP.val_main_v120 (F := Ideal) x0 i
      = Scalar.select (IntOp.cmpi .slt (ReadP.val_main_v115 (F := Ideal) x0 i) 0#32)
          (IntOp.addi (ReadP.val_main_v115 (F := Ideal) x0 i) 262144#32) (ReadP.val_main_v115 (F := Ideal) x0 i) := by
    simp only [ReadP.val_main_v120_apply, ReadP.val_main_v117_apply, ReadP.val_main_v119_apply, ReadP.val_main_v116_apply,
      ReadP.val_main_c_45_apply, ReadP.val_main_v118_apply, ReadP.val_main_c_46_apply]
  have hI : ReadP.val_main_v115 (F := Ideal) x0 i = kst_main_v86 (F := Ideal) x0 x1 x2 x3 i := (congrFun (flat3_fn x0 x1 x2 x3) i).symm
  have hx := cell1X_le x0 x1 x2 x3 i
  have hy := cell1Y_le x0 x1 x2 x3 i
  have hz := cell0Z_le x0 x1 x2 x3 i
  rw [hsel, hI, flat3_eq]
  exact (LibIndexRange.flat_select 63 64 (by norm_num) rfl _ _ _ hx hy hz 262144#32).symm

/-- Corner 4: the two programs' flat indices, before the reference's sign test, are one array. -/
theorem flat4_fn : kst_main_v94 (F := Ideal) x0 x1 x2 x3 = ReadP.val_main_v128 (F := Ideal) x0 := by
  unfold kst_main_v94 kst_main_v93 kst_main_v91 kst_main_v90 ReadP.val_main_v128 ReadP.val_main_v127 ReadP.val_main_v125 ReadP.val_main_v124
  rw [cell1Z_fn x0 x1 x2 x3, cell0Y_fn x0 x1 x2 x3, cell0X_fn x0 x1 x2 x3] <;> rfl

/-- Corner 4: the kernel's flat index at a query point is `(z * 64 + y) * 64 + x` on 32-bit words. -/
theorem flat4_eq (i : S1048576.Idx) :
    kst_main_v94 (F := Ideal) x0 x1 x2 x3 i
      = IntOp.addi (IntOp.muli (IntOp.addi (IntOp.muli (kst_main_v53 (F := Ideal) x0 x1 x2 x3 i) 64#32) (kst_main_v40 (F := Ideal) x0 x1 x2 x3 i)) 64#32) (kst_main_v39 (F := Ideal) x0 x1 x2 x3 i) := by
  have h1 : kst_main_v92 (F := Ideal) x0 x1 x2 x3 i = 64#32 := by
    unfold kst_main_v92
    exact (bcast0_apply _ _ _ i).trans rfl
  have h2 : kst_main_v89 (F := Ideal) x0 x1 x2 x3 i = 64#32 := by
    unfold kst_main_v89
    exact (bcast0_apply _ _ _ i).trans rfl
  show IntOp.addi (IntOp.muli (IntOp.addi (IntOp.muli (kst_main_v53 (F := Ideal) x0 x1 x2 x3 i) (kst_main_v89 (F := Ideal) x0 x1 x2 x3 i)) (kst_main_v40 (F := Ideal) x0 x1 x2 x3 i)) (kst_main_v92 (F := Ideal) x0 x1 x2 x3 i)) (kst_main_v39 (F := Ideal) x0 x1 x2 x3 i) = _
  rw [h1, h2]

/-- **(c)** corner 4: the kernel's flat index, read as a signed integer, is the natural number
    `(z * 64 + y) * 64 + x` of its three cell words. -/
theorem corner4_toInt (i : S1048576.Idx) :
    (kst_main_v94 (F := Ideal) x0 x1 x2 x3 i).toInt
      = ((((kst_main_v53 (F := Ideal) x0 x1 x2 x3 i).toNat * 64 + (kst_main_v40 (F := Ideal) x0 x1 x2 x3 i).toNat) * 64
          + (kst_main_v39 (F := Ideal) x0 x1 x2 x3 i).toNat : ℕ) : ℤ) := by
  rw [flat4_eq]
  have hx := cell0X_le x0 x1 x2 x3 i
  have hy := cell0Y_le x0 x1 x2 x3 i
  have hz := cell1Z_le x0 x1 x2 x3 i
  rw [LibIndexRange.flat_toInt 63 64 (by norm_num) rfl _ _ _ hx hy hz,
    LibIndexRange.flat_toNat 63 64 (by norm_num) rfl _ _ _ hx hy hz]

/-- **(c)** corner 4: the kernel's flat index and the reference's index after its sign test and
    wrap-around are one word. -/
theorem corner4_eq (i : S1048576.Idx) : kst_main_v94 (F := Ideal) x0 x1 x2 x3 i = ReadP.val_main_v133 (F := Ideal) x0 i := by
  have hsel : ReadP.val_main_v133 (F := Ideal) x0 i
      = Scalar.select (IntOp.cmpi .slt (ReadP.val_main_v128 (F := Ideal) x0 i) 0#32)
          (IntOp.addi (ReadP.val_main_v128 (F := Ideal) x0 i) 262144#32) (ReadP.val_main_v128 (F := Ideal) x0 i) := by
    simp only [ReadP.val_main_v133_apply, ReadP.val_main_v130_apply, ReadP.val_main_v132_apply, ReadP.val_main_v129_apply,
      ReadP.val_main_c_49_apply, ReadP.val_main_v131_apply, ReadP.val_main_c_50_apply]
  have hI : ReadP.val_main_v128 (F := Ideal) x0 i = kst_main_v94 (F := Ideal) x0 x1 x2 x3 i := (congrFun (flat4_fn x0 x1 x2 x3) i).symm
  have hx := cell0X_le x0 x1 x2 x3 i
  have hy := cell0Y_le x0 x1 x2 x3 i
  have hz := cell1Z_le x0 x1 x2 x3 i
  rw [hsel, hI, flat4_eq]
  exact (LibIndexRange.flat_select 63 64 (by norm_num) rfl _ _ _ hx hy hz 262144#32).symm

/-- Corner 5: the two programs' flat indices, before the reference's sign test, are one array. -/
theorem flat5_fn : kst_main_v102 (F := Ideal) x0 x1 x2 x3 = ReadP.val_main_v141 (F := Ideal) x0 := by
  unfold kst_main_v102 kst_main_v101 kst_main_v99 kst_main_v98 ReadP.val_main_v141 ReadP.val_main_v140 ReadP.val_main_v138 ReadP.val_main_v137
  rw [cell1Z_fn x0 x1 x2 x3, cell0Y_fn x0 x1 x2 x3, cell1X_fn x0 x1 x2 x3] <;> rfl

/-- Corner 5: the kernel's flat index at a query point is `(z * 64 + y) * 64 + x` on 32-bit words. -/
theorem flat5_eq (i : S1048576.Idx) :
    kst_main_v102 (F := Ideal) x0 x1 x2 x3 i
      = IntOp.addi (IntOp.muli (IntOp.addi (IntOp.muli (kst_main_v53 (F := Ideal) x0 x1 x2 x3 i) 64#32) (kst_main_v40 (F := Ideal) x0 x1 x2 x3 i)) 64#32) (kst_main_v45 (F := Ideal) x0 x1 x2 x3 i) := by
  have h1 : kst_main_v100 (F := Ideal) x0 x1 x2 x3 i = 64#32 := by
    unfold kst_main_v100
    exact (bcast0_apply _ _ _ i).trans rfl
  have h2 : kst_main_v97 (F := Ideal) x0 x1 x2 x3 i = 64#32 := by
    unfold kst_main_v97
    exact (bcast0_apply _ _ _ i).trans rfl
  show IntOp.addi (IntOp.muli (IntOp.addi (IntOp.muli (kst_main_v53 (F := Ideal) x0 x1 x2 x3 i) (kst_main_v97 (F := Ideal) x0 x1 x2 x3 i)) (kst_main_v40 (F := Ideal) x0 x1 x2 x3 i)) (kst_main_v100 (F := Ideal) x0 x1 x2 x3 i)) (kst_main_v45 (F := Ideal) x0 x1 x2 x3 i) = _
  rw [h1, h2]

/-- **(c)** corner 5: the kernel's flat index, read as a signed integer, is the natural number
    `(z * 64 + y) * 64 + x` of its three cell words. -/
theorem corner5_toInt (i : S1048576.Idx) :
    (kst_main_v102 (F := Ideal) x0 x1 x2 x3 i).toInt
      = ((((kst_main_v53 (F := Ideal) x0 x1 x2 x3 i).toNat * 64 + (kst_main_v40 (F := Ideal) x0 x1 x2 x3 i).toNat) * 64
          + (kst_main_v45 (F := Ideal) x0 x1 x2 x3 i).toNat : ℕ) : ℤ) := by
  rw [flat5_eq]
  have hx := cell1X_le x0 x1 x2 x3 i
  have hy := cell0Y_le x0 x1 x2 x3 i
  have hz := cell1Z_le x0 x1 x2 x3 i
  rw [LibIndexRange.flat_toInt 63 64 (by norm_num) rfl _ _ _ hx hy hz,
    LibIndexRange.flat_toNat 63 64 (by norm_num) rfl _ _ _ hx hy hz]

/-- **(c)** corner 5: the kernel's flat index and the reference's index after its sign test and
    wrap-around are one word. -/
theorem corner5_eq (i : S1048576.Idx) : kst_main_v102 (F := Ideal) x0 x1 x2 x3 i = ReadP.val_main_v146 (F := Ideal) x0 i := by
  have hsel : ReadP.val_main_v146 (F := Ideal) x0 i
      = Scalar.select (IntOp.cmpi .slt (ReadP.val_main_v141 (F := Ideal) x0 i) 0#32)
          (IntOp.addi (ReadP.val_main_v141 (F := Ideal) x0 i) 262144#32) (ReadP.val_main_v141 (F := Ideal) x0 i) := by
    simp only [ReadP.val_main_v146_apply, ReadP.val_main_v143_apply, ReadP.val_main_v145_apply, ReadP.val_main_v142_apply,
      ReadP.val_main_c_53_apply, ReadP.val_main_v144_apply, ReadP.val_main_c_54_apply]
  have hI : ReadP.val_main_v141 (F := Ideal) x0 i = kst_main_v102 (F := Ideal) x0 x1 x2 x3 i := (congrFun (flat5_fn x0 x1 x2 x3) i).symm
  have hx := cell1X_le x0 x1 x2 x3 i
  have hy := cell0Y_le x0 x1 x2 x3 i
  have hz := cell1Z_le x0 x1 x2 x3 i
  rw [hsel, hI, flat5_eq]
  exact (LibIndexRange.flat_select 63 64 (by norm_num) rfl _ _ _ hx hy hz 262144#32).symm

/-- Corner 6: the two programs' flat indices, before the reference's sign test, are one array. -/
theorem flat6_fn : kst_main_v110 (F := Ideal) x0 x1 x2 x3 = ReadP.val_main_v154 (F := Ideal) x0 := by
  unfold kst_main_v110 kst_main_v109 kst_main_v107 kst_main_v106 ReadP.val_main_v154 ReadP.val_main_v153 ReadP.val_main_v151 ReadP.val_main_v150
  rw [cell1Z_fn x0 x1 x2 x3, cell1Y_fn x0 x1 x2 x3, cell0X_fn x0 x1 x2 x3] <;> rfl

/-- Corner 6: the kernel's flat index at a query point is `(z * 64 + y) * 64 + x` on 32-bit words. -/
theorem flat6_eq (i : S1048576.Idx) :
    kst_main_v110 (F := Ideal) x0 x1 x2 x3 i
      = IntOp.addi (IntOp.muli (IntOp.addi (IntOp.muli (kst_main_v53 (F := Ideal) x0 x1 x2 x3 i) 64#32) (kst_main_v49 (F := Ideal) x0 x1 x2 x3 i)) 64#32) (kst_main_v39 (F := Ideal) x0 x1 x2 x3 i) := by
  have h1 : kst_main_v108 (F := Ideal) x0 x1 x2 x3 i = 64#32 := by
    unfold kst_main_v108
    exact (bcast0_apply _ _ _ i).trans rfl
  have h2 : kst_main_v105 (F := Ideal) x0 x1 x2 x3 i = 64#32 := by
    unfold kst_main_v105
    exact (bcast0_apply _ _ _ i).trans rfl
  show IntOp.addi (IntOp.muli (IntOp.addi (IntOp.muli (kst_main_v53 (F := Ideal) x0 x1 x2 x3 i) (kst_main_v105 (F := Ideal) x0 x1 x2 x3 i)) (kst_main_v49 (F := Ideal) x0 x1 x2 x3 i)) (kst_main_v108 (F := Ideal) x0 x1 x2 x3 i)) (kst_main_v39 (F := Ideal) x0 x1 x2 x3 i) = _
  rw [h1, h2]

/-- **(c)** corner 6: the kernel's flat index, read as a signed integer, is the natural number
    `(z * 64 + y) * 64 + x` of its three cell words. -/
theorem corner6_toInt (i : S1048576.Idx) :
    (kst_main_v110 (F := Ideal) x0 x1 x2 x3 i).toInt
      = ((((kst_main_v53 (F := Ideal) x0 x1 x2 x3 i).toNat * 64 + (kst_main_v49 (F := Ideal) x0 x1 x2 x3 i).toNat) * 64
          + (kst_main_v39 (F := Ideal) x0 x1 x2 x3 i).toNat : ℕ) : ℤ) := by
  rw [flat6_eq]
  have hx := cell0X_le x0 x1 x2 x3 i
  have hy := cell1Y_le x0 x1 x2 x3 i
  have hz := cell1Z_le x0 x1 x2 x3 i
  rw [LibIndexRange.flat_toInt 63 64 (by norm_num) rfl _ _ _ hx hy hz,
    LibIndexRange.flat_toNat 63 64 (by norm_num) rfl _ _ _ hx hy hz]

/-- **(c)** corner 6: the kernel's flat index and the reference's index after its sign test and
    wrap-around are one word. -/
theorem corner6_eq (i : S1048576.Idx) : kst_main_v110 (F := Ideal) x0 x1 x2 x3 i = ReadP.val_main_v159 (F := Ideal) x0 i := by
  have hsel : ReadP.val_main_v159 (F := Ideal) x0 i
      = Scalar.select (IntOp.cmpi .slt (ReadP.val_main_v154 (F := Ideal) x0 i) 0#32)
          (IntOp.addi (ReadP.val_main_v154 (F := Ideal) x0 i) 262144#32) (ReadP.val_main_v154 (F := Ideal) x0 i) := by
    simp only [ReadP.val_main_v159_apply, ReadP.val_main_v156_apply, ReadP.val_main_v158_apply, ReadP.val_main_v155_apply,
      ReadP.val_main_c_57_apply, ReadP.val_main_v157_apply, ReadP.val_main_c_58_apply]
  have hI : ReadP.val_main_v154 (F := Ideal) x0 i = kst_main_v110 (F := Ideal) x0 x1 x2 x3 i := (congrFun (flat6_fn x0 x1 x2 x3) i).symm
  have hx := cell0X_le x0 x1 x2 x3 i
  have hy := cell1Y_le x0 x1 x2 x3 i
  have hz := cell1Z_le x0 x1 x2 x3 i
  rw [hsel, hI, flat6_eq]
  exact (LibIndexRange.flat_select 63 64 (by norm_num) rfl _ _ _ hx hy hz 262144#32).symm

/-- Corner 7: the two programs' flat indices, before the reference's sign test, are one array. -/
theorem flat7_fn : kst_main_v118 (F := Ideal) x0 x1 x2 x3 = ReadP.val_main_v167 (F := Ideal) x0 := by
  unfold kst_main_v118 kst_main_v117 kst_main_v115 kst_main_v114 ReadP.val_main_v167 ReadP.val_main_v166 ReadP.val_main_v164 ReadP.val_main_v163
  rw [cell1Z_fn x0 x1 x2 x3, cell1Y_fn x0 x1 x2 x3, cell1X_fn x0 x1 x2 x3] <;> rfl

/-- Corner 7: the kernel's flat index at a query point is `(z * 64 + y) * 64 + x` on 32-bit words. -/
theorem flat7_eq (i : S1048576.Idx) :
    kst_main_v118 (F := Ideal) x0 x1 x2 x3 i
      = IntOp.addi (IntOp.muli (IntOp.addi (IntOp.muli (kst_main_v53 (F := Ideal) x0 x1 x2 x3 i) 64#32) (kst_main_v49 (F := Ideal) x0 x1 x2 x3 i)) 64#32) (kst_main_v45 (F := Ideal) x0 x1 x2 x3 i) := by
  have h1 : kst_main_v116 (F := Ideal) x0 x1 x2 x3 i = 64#32 := by
    unfold kst_main_v116
    exact (bcast0_apply _ _ _ i).trans rfl
  have h2 : kst_main_v113 (F := Ideal) x0 x1 x2 x3 i = 64#32 := by
    unfold kst_main_v113
    exact (bcast0_apply _ _ _ i).trans rfl
  show IntOp.addi (IntOp.muli (IntOp.addi (IntOp.muli (kst_main_v53 (F := Ideal) x0 x1 x2 x3 i) (kst_main_v113 (F := Ideal) x0 x1 x2 x3 i)) (kst_main_v49 (F := Ideal) x0 x1 x2 x3 i)) (kst_main_v116 (F := Ideal) x0 x1 x2 x3 i)) (kst_main_v45 (F := Ideal) x0 x1 x2 x3 i) = _
  rw [h1, h2]

/-- **(c)** corner 7: the kernel's flat index, read as a signed integer, is the natural number
    `(z * 64 + y) * 64 + x` of its three cell words. -/
theorem corner7_toInt (i : S1048576.Idx) :
    (kst_main_v118 (F := Ideal) x0 x1 x2 x3 i).toInt
      = ((((kst_main_v53 (F := Ideal) x0 x1 x2 x3 i).toNat * 64 + (kst_main_v49 (F := Ideal) x0 x1 x2 x3 i).toNat) * 64
          + (kst_main_v45 (F := Ideal) x0 x1 x2 x3 i).toNat : ℕ) : ℤ) := by
  rw [flat7_eq]
  have hx := cell1X_le x0 x1 x2 x3 i
  have hy := cell1Y_le x0 x1 x2 x3 i
  have hz := cell1Z_le x0 x1 x2 x3 i
  rw [LibIndexRange.flat_toInt 63 64 (by norm_num) rfl _ _ _ hx hy hz,
    LibIndexRange.flat_toNat 63 64 (by norm_num) rfl _ _ _ hx hy hz]

/-- **(c)** corner 7: the kernel's flat index and the reference's index after its sign test and
    wrap-around are one word. -/
theorem corner7_eq (i : S1048576.Idx) : kst_main_v118 (F := Ideal) x0 x1 x2 x3 i = ReadP.val_main_v172 (F := Ideal) x0 i := by
  have hsel : ReadP.val_main_v172 (F := Ideal) x0 i
      = Scalar.select (IntOp.cmpi .slt (ReadP.val_main_v167 (F := Ideal) x0 i) 0#32)
          (IntOp.addi (ReadP.val_main_v167 (F := Ideal) x0 i) 262144#32) (ReadP.val_main_v167 (F := Ideal) x0 i) := by
    simp only [ReadP.val_main_v172_apply, ReadP.val_main_v169_apply, ReadP.val_main_v171_apply, ReadP.val_main_v168_apply,
      ReadP.val_main_c_61_apply, ReadP.val_main_v170_apply, ReadP.val_main_c_62_apply]
  have hI : ReadP.val_main_v167 (F := Ideal) x0 i = kst_main_v118 (F := Ideal) x0 x1 x2 x3 i := (congrFun (flat7_fn x0 x1 x2 x3) i).symm
  have hx := cell1X_le x0 x1 x2 x3 i
  have hy := cell1Y_le x0 x1 x2 x3 i
  have hz := cell1Z_le x0 x1 x2 x3 i
  rw [hsel, hI, flat7_eq]
  exact (LibIndexRange.flat_select 63 64 (by norm_num) rfl _ _ _ hx hy hz 262144#32).symm

/-! ### The cell words as coordinates on an axis of extent 64 -/

/-- The lower cell coordinate along x of a query point, as an index into the axis. -/
def finX0 (i : S1048576.Idx) : Fin 64 :=
  ⟨(kst_main_v39 (F := Ideal) x0 x1 x2 x3 i).toNat, Nat.lt_succ_of_le (cell0X_le x0 x1 x2 x3 i)⟩

/-- Its value is the cell word's. -/
theorem finX0_val (i : S1048576.Idx) : (finX0 x0 x1 x2 x3 i).val = (kst_main_v39 (F := Ideal) x0 x1 x2 x3 i).toNat := by
  unfold finX0
  exact Fin.val_mk _

/-- The upper cell coordinate along x of a query point, as an index into the axis. -/
def finX1 (i : S1048576.Idx) : Fin 64 :=
  ⟨(kst_main_v45 (F := Ideal) x0 x1 x2 x3 i).toNat, Nat.lt_succ_of_le (cell1X_le x0 x1 x2 x3 i)⟩

/-- Its value is the cell word's. -/
theorem finX1_val (i : S1048576.Idx) : (finX1 x0 x1 x2 x3 i).val = (kst_main_v45 (F := Ideal) x0 x1 x2 x3 i).toNat := by
  unfold finX1
  exact Fin.val_mk _

/-- The lower cell coordinate along y of a query point, as an index into the axis. -/
def finY0 (i : S1048576.Idx) : Fin 64 :=
  ⟨(kst_main_v40 (F := Ideal) x0 x1 x2 x3 i).toNat, Nat.lt_succ_of_le (cell0Y_le x0 x1 x2 x3 i)⟩

/-- Its value is the cell word's. -/
theorem finY0_val (i : S1048576.Idx) : (finY0 x0 x1 x2 x3 i).val = (kst_main_v40 (F := Ideal) x0 x1 x2 x3 i).toNat := by
  unfold finY0
  exact Fin.val_mk _

/-- The upper cell coordinate along y of a query point, as an index into the axis. -/
def finY1 (i : S1048576.Idx) : Fin 64 :=
  ⟨(kst_main_v49 (F := Ideal) x0 x1 x2 x3 i).toNat, Nat.lt_succ_of_le (cell1Y_le x0 x1 x2 x3 i)⟩

/-- Its value is the cell word's. -/
theorem finY1_val (i : S1048576.Idx) : (finY1 x0 x1 x2 x3 i).val = (kst_main_v49 (F := Ideal) x0 x1 x2 x3 i).toNat := by
  unfold finY1
  exact Fin.val_mk _

/-- The lower cell coordinate along z of a query point, as an index into the axis. -/
def finZ0 (i : S1048576.Idx) : Fin 64 :=
  ⟨(kst_main_v41 (F := Ideal) x0 x1 x2 x3 i).toNat, Nat.lt_succ_of_le (cell0Z_le x0 x1 x2 x3 i)⟩

/-- Its value is the cell word's. -/
theorem finZ0_val (i : S1048576.Idx) : (finZ0 x0 x1 x2 x3 i).val = (kst_main_v41 (F := Ideal) x0 x1 x2 x3 i).toNat := by
  unfold finZ0
  exact Fin.val_mk _

/-- The upper cell coordinate along z of a query point, as an index into the axis. -/
def finZ1 (i : S1048576.Idx) : Fin 64 :=
  ⟨(kst_main_v53 (F := Ideal) x0 x1 x2 x3 i).toNat, Nat.lt_succ_of_le (cell1Z_le x0 x1 x2 x3 i)⟩

/-- Its value is the cell word's. -/
theorem finZ1_val (i : S1048576.Idx) : (finZ1 x0 x1 x2 x3 i).val = (kst_main_v53 (F := Ideal) x0 x1 x2 x3 i).toNat := by
  unfold finZ1
  exact Fin.val_mk _

/-- **(c)** corner 0 with its cell coordinates as indices: the flat index is `(z * 64 + y) * 64 + x`. -/
theorem corner0_toInt_fin (i : S1048576.Idx) :
    (kst_main_v62 (F := Ideal) x0 x1 x2 x3 i).toInt
      = ((((finZ0 x0 x1 x2 x3 i).val * 64 + (finY0 x0 x1 x2 x3 i).val) * 64
          + (finX0 x0 x1 x2 x3 i).val : ℕ) : ℤ) := by
  rw [finZ0_val, finY0_val, finX0_val]
  exact corner0_toInt x0 x1 x2 x3 i

/-- **(c)** corner 1 with its cell coordinates as indices: the flat index is `(z * 64 + y) * 64 + x`. -/
theorem corner1_toInt_fin (i : S1048576.Idx) :
    (kst_main_v70 (F := Ideal) x0 x1 x2 x3 i).toInt
      = ((((finZ0 x0 x1 x2 x3 i).val * 64 + (finY0 x0 x1 x2 x3 i).val) * 64
          + (finX1 x0 x1 x2 x3 i).val : ℕ) : ℤ) := by
  rw [finZ0_val, finY0_val, finX1_val]
  exact corner1_toInt x0 x1 x2 x3 i

/-- **(c)** corner 2 with its cell coordinates as indices: the flat index is `(z * 64 + y) * 64 + x`. -/
theorem corner2_toInt_fin (i : S1048576.Idx) :
    (kst_main_v78 (F := Ideal) x0 x1 x2 x3 i).toInt
      = ((((finZ0 x0 x1 x2 x3 i).val * 64 + (finY1 x0 x1 x2 x3 i).val) * 64
          + (finX0 x0 x1 x2 x3 i).val : ℕ) : ℤ) := by
  rw [finZ0_val, finY1_val, finX0_val]
  exact corner2_toInt x0 x1 x2 x3 i

/-- **(c)** corner 3 with its cell coordinates as indices: the flat index is `(z * 64 + y) * 64 + x`. -/
theorem corner3_toInt_fin (i : S1048576.Idx) :
    (kst_main_v86 (F := Ideal) x0 x1 x2 x3 i).toInt
      = ((((finZ0 x0 x1 x2 x3 i).val * 64 + (finY1 x0 x1 x2 x3 i).val) * 64
          + (finX1 x0 x1 x2 x3 i).val : ℕ) : ℤ) := by
  rw [finZ0_val, finY1_val, finX1_val]
  exact corner3_toInt x0 x1 x2 x3 i

/-- **(c)** corner 4 with its cell coordinates as indices: the flat index is `(z * 64 + y) * 64 + x`. -/
theorem corner4_toInt_fin (i : S1048576.Idx) :
    (kst_main_v94 (F := Ideal) x0 x1 x2 x3 i).toInt
      = ((((finZ1 x0 x1 x2 x3 i).val * 64 + (finY0 x0 x1 x2 x3 i).val) * 64
          + (finX0 x0 x1 x2 x3 i).val : ℕ) : ℤ) := by
  rw [finZ1_val, finY0_val, finX0_val]
  exact corner4_toInt x0 x1 x2 x3 i

/-- **(c)** corner 5 with its cell coordinates as indices: the flat index is `(z * 64 + y) * 64 + x`. -/
theorem corner5_toInt_fin (i : S1048576.Idx) :
    (kst_main_v102 (F := Ideal) x0 x1 x2 x3 i).toInt
      = ((((finZ1 x0 x1 x2 x3 i).val * 64 + (finY0 x0 x1 x2 x3 i).val) * 64
          + (finX1 x0 x1 x2 x3 i).val : ℕ) : ℤ) := by
  rw [finZ1_val, finY0_val, finX1_val]
  exact corner5_toInt x0 x1 x2 x3 i

/-- **(c)** corner 6 with its cell coordinates as indices: the flat index is `(z * 64 + y) * 64 + x`. -/
theorem corner6_toInt_fin (i : S1048576.Idx) :
    (kst_main_v110 (F := Ideal) x0 x1 x2 x3 i).toInt
      = ((((finZ1 x0 x1 x2 x3 i).val * 64 + (finY1 x0 x1 x2 x3 i).val) * 64
          + (finX0 x0 x1 x2 x3 i).val : ℕ) : ℤ) := by
  rw [finZ1_val, finY1_val, finX0_val]
  exact corner6_toInt x0 x1 x2 x3 i

/-- **(c)** corner 7 with its cell coordinates as indices: the flat index is `(z * 64 + y) * 64 + x`. -/
theorem corner7_toInt_fin (i : S1048576.Idx) :
    (kst_main_v118 (F := Ideal) x0 x1 x2 x3 i).toInt
      = ((((finZ1 x0 x1 x2 x3 i).val * 64 + (finY1 x0 x1 x2 x3 i).val) * 64
          + (finX1 x0 x1 x2 x3 i).val : ℕ) : ℤ) := by
  rw [finZ1_val, finY1_val, finX1_val]
  exact corner7_toInt x0 x1 x2 x3 i

end Cert.Proof.GlueCoords0

end
-- ==== Proof.CornersAgree0.lean ====
/-
  The eight corner arrays of volume 0 (extent 64) are the same arrays in the two programs.

  For every output point `n` and each corner of its sampling cell the two programs' index words are one word, reading
  signed as the corner's flat position `(z · 64 + y) · 64 + x` with `z, y, x` below 64; each program's gathered array read at
  `(ch, n)` is then the volume's element `(0, ch, z, y, x)`, so the arrays agree element by element.
-/
import proofs.«113233_j37486474559588_2_alg».proof.Proof.GlueCorners0
import proofs.«113233_j37486474559588_2_alg».proof.Proof.GlueCoords0

noncomputable section

namespace Cert.Proof.CornersAgree0

open Idealize.ShloMosaic Idealize.ShloMosaic.ValueIdx Cert.Proof.GlueCorners0 Cert.Proof.GlueCoords0

/-- Corner (z₀, y₀, x₀): the kernel's array at `(ch, n)` is the volume's element at the cell coordinates the point's index
    words name. -/
theorem kval_v64 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v64 (F := Ideal) x0 x1 x2 x3 (ix2 ch n) = x1 (ix5 0 ch (finZ0 x0 x1 x2 x3 (ix1 n)) (finY0 x0 x1 x2 x3 (ix1 n)) (finX0 x0 x1 x2 x3 (ix1 n))) :=
  kread_v64 x0 x1 x2 x3 ch n (finX0 x0 x1 x2 x3 (ix1 n)) (finY0 x0 x1 x2 x3 (ix1 n)) (finZ0 x0 x1 x2 x3 (ix1 n)) (corner0_toInt_fin x0 x1 x2 x3 (ix1 n))

/-- Corner (z₀, y₀, x₀): the two programs' arrays agree at every `(ch, n)`: their index words are the same word, and it
    reads signed as the flat position of the cell `(z, y, x)` the point's coordinates name. -/
theorem agree_v64_v83 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v64 (F := Ideal) x0 x1 x2 x3 (ix2 ch n) = Cert.ReferenceIdeal.ReadP.val_main_v83 (F := Ideal) x0 x1 (ix2 ch n) :=
  corner_v64_v83_of_same x0 x1 x2 x3 ch n (finX0 x0 x1 x2 x3 (ix1 n)) (finY0 x0 x1 x2 x3 (ix1 n)) (finZ0 x0 x1 x2 x3 (ix1 n))
    (corner0_eq x0 x1 x2 x3 (ix1 n)) (corner0_toInt_fin x0 x1 x2 x3 (ix1 n))

/-- Corner (z₀, y₀, x₀): the two arrays are equal. -/
theorem agree_v64_v83_fn (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal)) :
    Cert.KernelIdeal.Host.kst_main_v64 (F := Ideal) x0 x1 x2 x3 = Cert.ReferenceIdeal.ReadP.val_main_v83 (F := Ideal) x0 x1 := by
  funext j
  obtain ⟨ch, n, rfl⟩ : ∃ (ch : Fin 4) (n : Fin 1048576), j = ix2 ch n := ⟨j 0, j 1, eq_ix2 j⟩
  exact agree_v64_v83 x0 x1 x2 x3 ch n

/-- Corner (z₀, y₀, x₁): the kernel's array at `(ch, n)` is the volume's element at the cell coordinates the point's index
    words name. -/
theorem kval_v72 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v72 (F := Ideal) x0 x1 x2 x3 (ix2 ch n) = x1 (ix5 0 ch (finZ0 x0 x1 x2 x3 (ix1 n)) (finY0 x0 x1 x2 x3 (ix1 n)) (finX1 x0 x1 x2 x3 (ix1 n))) :=
  kread_v72 x0 x1 x2 x3 ch n (finX1 x0 x1 x2 x3 (ix1 n)) (finY0 x0 x1 x2 x3 (ix1 n)) (finZ0 x0 x1 x2 x3 (ix1 n)) (corner1_toInt_fin x0 x1 x2 x3 (ix1 n))

/-- Corner (z₀, y₀, x₁): the two programs' arrays agree at every `(ch, n)`: their index words are the same word, and it
    reads signed as the flat position of the cell `(z, y, x)` the point's coordinates name. -/
theorem agree_v72_v96 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v72 (F := Ideal) x0 x1 x2 x3 (ix2 ch n) = Cert.ReferenceIdeal.ReadP.val_main_v96 (F := Ideal) x0 x1 (ix2 ch n) :=
  corner_v72_v96_of_same x0 x1 x2 x3 ch n (finX1 x0 x1 x2 x3 (ix1 n)) (finY0 x0 x1 x2 x3 (ix1 n)) (finZ0 x0 x1 x2 x3 (ix1 n))
    (corner1_eq x0 x1 x2 x3 (ix1 n)) (corner1_toInt_fin x0 x1 x2 x3 (ix1 n))

/-- Corner (z₀, y₀, x₁): the two arrays are equal. -/
theorem agree_v72_v96_fn (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal)) :
    Cert.KernelIdeal.Host.kst_main_v72 (F := Ideal) x0 x1 x2 x3 = Cert.ReferenceIdeal.ReadP.val_main_v96 (F := Ideal) x0 x1 := by
  funext j
  obtain ⟨ch, n, rfl⟩ : ∃ (ch : Fin 4) (n : Fin 1048576), j = ix2 ch n := ⟨j 0, j 1, eq_ix2 j⟩
  exact agree_v72_v96 x0 x1 x2 x3 ch n

/-- Corner (z₀, y₁, x₀): the kernel's array at `(ch, n)` is the volume's element at the cell coordinates the point's index
    words name. -/
theorem kval_v80 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v80 (F := Ideal) x0 x1 x2 x3 (ix2 ch n) = x1 (ix5 0 ch (finZ0 x0 x1 x2 x3 (ix1 n)) (finY1 x0 x1 x2 x3 (ix1 n)) (finX0 x0 x1 x2 x3 (ix1 n))) :=
  kread_v80 x0 x1 x2 x3 ch n (finX0 x0 x1 x2 x3 (ix1 n)) (finY1 x0 x1 x2 x3 (ix1 n)) (finZ0 x0 x1 x2 x3 (ix1 n)) (corner2_toInt_fin x0 x1 x2 x3 (ix1 n))

/-- Corner (z₀, y₁, x₀): the two programs' arrays agree at every `(ch, n)`: their index words are the same word, and it
    reads signed as the flat position of the cell `(z, y, x)` the point's coordinates name. -/
theorem agree_v80_v109 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v80 (F := Ideal) x0 x1 x2 x3 (ix2 ch n) = Cert.ReferenceIdeal.ReadP.val_main_v109 (F := Ideal) x0 x1 (ix2 ch n) :=
  corner_v80_v109_of_same x0 x1 x2 x3 ch n (finX0 x0 x1 x2 x3 (ix1 n)) (finY1 x0 x1 x2 x3 (ix1 n)) (finZ0 x0 x1 x2 x3 (ix1 n))
    (corner2_eq x0 x1 x2 x3 (ix1 n)) (corner2_toInt_fin x0 x1 x2 x3 (ix1 n))

/-- Corner (z₀, y₁, x₀): the two arrays are equal. -/
theorem agree_v80_v109_fn (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal)) :
    Cert.KernelIdeal.Host.kst_main_v80 (F := Ideal) x0 x1 x2 x3 = Cert.ReferenceIdeal.ReadP.val_main_v109 (F := Ideal) x0 x1 := by
  funext j
  obtain ⟨ch, n, rfl⟩ : ∃ (ch : Fin 4) (n : Fin 1048576), j = ix2 ch n := ⟨j 0, j 1, eq_ix2 j⟩
  exact agree_v80_v109 x0 x1 x2 x3 ch n

/-- Corner (z₀, y₁, x₁): the kernel's array at `(ch, n)` is the volume's element at the cell coordinates the point's index
    words name. -/
theorem kval_v88 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v88 (F := Ideal) x0 x1 x2 x3 (ix2 ch n) = x1 (ix5 0 ch (finZ0 x0 x1 x2 x3 (ix1 n)) (finY1 x0 x1 x2 x3 (ix1 n)) (finX1 x0 x1 x2 x3 (ix1 n))) :=
  kread_v88 x0 x1 x2 x3 ch n (finX1 x0 x1 x2 x3 (ix1 n)) (finY1 x0 x1 x2 x3 (ix1 n)) (finZ0 x0 x1 x2 x3 (ix1 n)) (corner3_toInt_fin x0 x1 x2 x3 (ix1 n))

/-- Corner (z₀, y₁, x₁): the two programs' arrays agree at every `(ch, n)`: their index words are the same word, and it
    reads signed as the flat position of the cell `(z, y, x)` the point's coordinates name. -/
theorem agree_v88_v122 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v88 (F := Ideal) x0 x1 x2 x3 (ix2 ch n) = Cert.ReferenceIdeal.ReadP.val_main_v122 (F := Ideal) x0 x1 (ix2 ch n) :=
  corner_v88_v122_of_same x0 x1 x2 x3 ch n (finX1 x0 x1 x2 x3 (ix1 n)) (finY1 x0 x1 x2 x3 (ix1 n)) (finZ0 x0 x1 x2 x3 (ix1 n))
    (corner3_eq x0 x1 x2 x3 (ix1 n)) (corner3_toInt_fin x0 x1 x2 x3 (ix1 n))

/-- Corner (z₀, y₁, x₁): the two arrays are equal. -/
theorem agree_v88_v122_fn (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal)) :
    Cert.KernelIdeal.Host.kst_main_v88 (F := Ideal) x0 x1 x2 x3 = Cert.ReferenceIdeal.ReadP.val_main_v122 (F := Ideal) x0 x1 := by
  funext j
  obtain ⟨ch, n, rfl⟩ : ∃ (ch : Fin 4) (n : Fin 1048576), j = ix2 ch n := ⟨j 0, j 1, eq_ix2 j⟩
  exact agree_v88_v122 x0 x1 x2 x3 ch n

/-- Corner (z₁, y₀, x₀): the kernel's array at `(ch, n)` is the volume's element at the cell coordinates the point's index
    words name. -/
theorem kval_v96 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v96 (F := Ideal) x0 x1 x2 x3 (ix2 ch n) = x1 (ix5 0 ch (finZ1 x0 x1 x2 x3 (ix1 n)) (finY0 x0 x1 x2 x3 (ix1 n)) (finX0 x0 x1 x2 x3 (ix1 n))) :=
  kread_v96 x0 x1 x2 x3 ch n (finX0 x0 x1 x2 x3 (ix1 n)) (finY0 x0 x1 x2 x3 (ix1 n)) (finZ1 x0 x1 x2 x3 (ix1 n)) (corner4_toInt_fin x0 x1 x2 x3 (ix1 n))

/-- Corner (z₁, y₀, x₀): the two programs' arrays agree at every `(ch, n)`: their index words are the same word, and it
    reads signed as the flat position of the cell `(z, y, x)` the point's coordinates name. -/
theorem agree_v96_v135 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v96 (F := Ideal) x0 x1 x2 x3 (ix2 ch n) = Cert.ReferenceIdeal.ReadP.val_main_v135 (F := Ideal) x0 x1 (ix2 ch n) :=
  corner_v96_v135_of_same x0 x1 x2 x3 ch n (finX0 x0 x1 x2 x3 (ix1 n)) (finY0 x0 x1 x2 x3 (ix1 n)) (finZ1 x0 x1 x2 x3 (ix1 n))
    (corner4_eq x0 x1 x2 x3 (ix1 n)) (corner4_toInt_fin x0 x1 x2 x3 (ix1 n))

/-- Corner (z₁, y₀, x₀): the two arrays are equal. -/
theorem agree_v96_v135_fn (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal)) :
    Cert.KernelIdeal.Host.kst_main_v96 (F := Ideal) x0 x1 x2 x3 = Cert.ReferenceIdeal.ReadP.val_main_v135 (F := Ideal) x0 x1 := by
  funext j
  obtain ⟨ch, n, rfl⟩ : ∃ (ch : Fin 4) (n : Fin 1048576), j = ix2 ch n := ⟨j 0, j 1, eq_ix2 j⟩
  exact agree_v96_v135 x0 x1 x2 x3 ch n

/-- Corner (z₁, y₀, x₁): the kernel's array at `(ch, n)` is the volume's element at the cell coordinates the point's index
    words name. -/
theorem kval_v104 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v104 (F := Ideal) x0 x1 x2 x3 (ix2 ch n) = x1 (ix5 0 ch (finZ1 x0 x1 x2 x3 (ix1 n)) (finY0 x0 x1 x2 x3 (ix1 n)) (finX1 x0 x1 x2 x3 (ix1 n))) :=
  kread_v104 x0 x1 x2 x3 ch n (finX1 x0 x1 x2 x3 (ix1 n)) (finY0 x0 x1 x2 x3 (ix1 n)) (finZ1 x0 x1 x2 x3 (ix1 n)) (corner5_toInt_fin x0 x1 x2 x3 (ix1 n))

/-- Corner (z₁, y₀, x₁): the two programs' arrays agree at every `(ch, n)`: their index words are the same word, and it
    reads signed as the flat position of the cell `(z, y, x)` the point's coordinates name. -/
theorem agree_v104_v148 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v104 (F := Ideal) x0 x1 x2 x3 (ix2 ch n) = Cert.ReferenceIdeal.ReadP.val_main_v148 (F := Ideal) x0 x1 (ix2 ch n) :=
  corner_v104_v148_of_same x0 x1 x2 x3 ch n (finX1 x0 x1 x2 x3 (ix1 n)) (finY0 x0 x1 x2 x3 (ix1 n)) (finZ1 x0 x1 x2 x3 (ix1 n))
    (corner5_eq x0 x1 x2 x3 (ix1 n)) (corner5_toInt_fin x0 x1 x2 x3 (ix1 n))

/-- Corner (z₁, y₀, x₁): the two arrays are equal. -/
theorem agree_v104_v148_fn (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal)) :
    Cert.KernelIdeal.Host.kst_main_v104 (F := Ideal) x0 x1 x2 x3 = Cert.ReferenceIdeal.ReadP.val_main_v148 (F := Ideal) x0 x1 := by
  funext j
  obtain ⟨ch, n, rfl⟩ : ∃ (ch : Fin 4) (n : Fin 1048576), j = ix2 ch n := ⟨j 0, j 1, eq_ix2 j⟩
  exact agree_v104_v148 x0 x1 x2 x3 ch n

/-- Corner (z₁, y₁, x₀): the kernel's array at `(ch, n)` is the volume's element at the cell coordinates the point's index
    words name. -/
theorem kval_v112 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v112 (F := Ideal) x0 x1 x2 x3 (ix2 ch n) = x1 (ix5 0 ch (finZ1 x0 x1 x2 x3 (ix1 n)) (finY1 x0 x1 x2 x3 (ix1 n)) (finX0 x0 x1 x2 x3 (ix1 n))) :=
  kread_v112 x0 x1 x2 x3 ch n (finX0 x0 x1 x2 x3 (ix1 n)) (finY1 x0 x1 x2 x3 (ix1 n)) (finZ1 x0 x1 x2 x3 (ix1 n)) (corner6_toInt_fin x0 x1 x2 x3 (ix1 n))

/-- Corner (z₁, y₁, x₀): the two programs' arrays agree at every `(ch, n)`: their index words are the same word, and it
    reads signed as the flat position of the cell `(z, y, x)` the point's coordinates name. -/
theorem agree_v112_v161 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v112 (F := Ideal) x0 x1 x2 x3 (ix2 ch n) = Cert.ReferenceIdeal.ReadP.val_main_v161 (F := Ideal) x0 x1 (ix2 ch n) :=
  corner_v112_v161_of_same x0 x1 x2 x3 ch n (finX0 x0 x1 x2 x3 (ix1 n)) (finY1 x0 x1 x2 x3 (ix1 n)) (finZ1 x0 x1 x2 x3 (ix1 n))
    (corner6_eq x0 x1 x2 x3 (ix1 n)) (corner6_toInt_fin x0 x1 x2 x3 (ix1 n))

/-- Corner (z₁, y₁, x₀): the two arrays are equal. -/
theorem agree_v112_v161_fn (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal)) :
    Cert.KernelIdeal.Host.kst_main_v112 (F := Ideal) x0 x1 x2 x3 = Cert.ReferenceIdeal.ReadP.val_main_v161 (F := Ideal) x0 x1 := by
  funext j
  obtain ⟨ch, n, rfl⟩ : ∃ (ch : Fin 4) (n : Fin 1048576), j = ix2 ch n := ⟨j 0, j 1, eq_ix2 j⟩
  exact agree_v112_v161 x0 x1 x2 x3 ch n

/-- Corner (z₁, y₁, x₁): the kernel's array at `(ch, n)` is the volume's element at the cell coordinates the point's index
    words name. -/
theorem kval_v120 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v120 (F := Ideal) x0 x1 x2 x3 (ix2 ch n) = x1 (ix5 0 ch (finZ1 x0 x1 x2 x3 (ix1 n)) (finY1 x0 x1 x2 x3 (ix1 n)) (finX1 x0 x1 x2 x3 (ix1 n))) :=
  kread_v120 x0 x1 x2 x3 ch n (finX1 x0 x1 x2 x3 (ix1 n)) (finY1 x0 x1 x2 x3 (ix1 n)) (finZ1 x0 x1 x2 x3 (ix1 n)) (corner7_toInt_fin x0 x1 x2 x3 (ix1 n))

/-- Corner (z₁, y₁, x₁): the two programs' arrays agree at every `(ch, n)`: their index words are the same word, and it
    reads signed as the flat position of the cell `(z, y, x)` the point's coordinates name. -/
theorem agree_v120_v174 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v120 (F := Ideal) x0 x1 x2 x3 (ix2 ch n) = Cert.ReferenceIdeal.ReadP.val_main_v174 (F := Ideal) x0 x1 (ix2 ch n) :=
  corner_v120_v174_of_same x0 x1 x2 x3 ch n (finX1 x0 x1 x2 x3 (ix1 n)) (finY1 x0 x1 x2 x3 (ix1 n)) (finZ1 x0 x1 x2 x3 (ix1 n))
    (corner7_eq x0 x1 x2 x3 (ix1 n)) (corner7_toInt_fin x0 x1 x2 x3 (ix1 n))

/-- Corner (z₁, y₁, x₁): the two arrays are equal. -/
theorem agree_v120_v174_fn (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal)) :
    Cert.KernelIdeal.Host.kst_main_v120 (F := Ideal) x0 x1 x2 x3 = Cert.ReferenceIdeal.ReadP.val_main_v174 (F := Ideal) x0 x1 := by
  funext j
  obtain ⟨ch, n, rfl⟩ : ∃ (ch : Fin 4) (n : Fin 1048576), j = ix2 ch n := ⟨j 0, j 1, eq_ix2 j⟩
  exact agree_v120_v174 x0 x1 x2 x3 ch n

end Cert.Proof.CornersAgree0

end
-- ==== Proof.GlueCorners1.lean ====
/-
  The eight corner arrays of volume 1 (extent 128) agree element by element in the two programs.

  Each program gathers, for every output point `n` and each of the eight corners `(z, y, x)` of the point's sampling cell,
  the four channel values of the volume at that corner, as an array `[4, N]`. The kernel's array and the reference's are
  each read at `(ch, n)` down to the volume's element `(0, ch, z, y, x)` (the corner reads), under the one hypothesis
  that the program's `n`-th index word reads signed as the corner's flat position `(z · 128 + y) · 128 + x`; the two
  arrays then agree there. The corners come in the order `(z, y, x)` = 000, 001, 010, 011, 100, 101, 110, 111, where 0 is
  the cell's base coordinate and 1 its successor, in both programs.
-/
import proofs.«113233_j37486474559588_2_alg».proof.Proof.HostStagesIdeal
import proofs.«113233_j37486474559588_2_alg».proof.Proof.RefReadP
import proofs.«113233_j37486474559588_2_alg».proof.Proof.CornerReads

noncomputable section

namespace Cert.Proof.GlueCorners1

open Idealize.ShloMosaic Idealize.ShloMosaic.ValueIdx Cert.Proof.CornerReads

/-! ## The kernel's eight arrays -/

/-- Corner (z₀, y₀, x₀), the kernel's array: its element `(ch, n)` is the volume's at `(0, ch, z, y, x)` once the `n`-th flat
    index read signed is `(z · 128 + y) · 128 + x`. -/
theorem kread_v195 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 128)
    (hK : (Cert.KernelIdeal.Host.kst_main_v193 (F := Ideal) x0 x1 x2 x3 (ix1 n)).toInt = (((z.val * 128 + y.val) * 128 + x.val : ℕ) : Int)) :
    Cert.KernelIdeal.Host.kst_main_v195 (F := Ideal) x0 x1 x2 x3 (ix2 ch n) = x2 (ix5 0 ch z y x) :=
  kcorner1 x2 (Cert.KernelIdeal.Host.kst_main_v193 (F := Ideal) x0 x1 x2 x3) ch n x y z hK

/-- Corner (z₀, y₀, x₁), the kernel's array: its element `(ch, n)` is the volume's at `(0, ch, z, y, x)` once the `n`-th flat
    index read signed is `(z · 128 + y) · 128 + x`. -/
theorem kread_v203 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 128)
    (hK : (Cert.KernelIdeal.Host.kst_main_v201 (F := Ideal) x0 x1 x2 x3 (ix1 n)).toInt = (((z.val * 128 + y.val) * 128 + x.val : ℕ) : Int)) :
    Cert.KernelIdeal.Host.kst_main_v203 (F := Ideal) x0 x1 x2 x3 (ix2 ch n) = x2 (ix5 0 ch z y x) :=
  kcorner1 x2 (Cert.KernelIdeal.Host.kst_main_v201 (F := Ideal) x0 x1 x2 x3) ch n x y z hK

/-- Corner (z₀, y₁, x₀), the kernel's array: its element `(ch, n)` is the volume's at `(0, ch, z, y, x)` once the `n`-th flat
    index read signed is `(z · 128 + y) · 128 + x`. -/
theorem kread_v211 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 128)
    (hK : (Cert.KernelIdeal.Host.kst_main_v209 (F := Ideal) x0 x1 x2 x3 (ix1 n)).toInt = (((z.val * 128 + y.val) * 128 + x.val : ℕ) : Int)) :
    Cert.KernelIdeal.Host.kst_main_v211 (F := Ideal) x0 x1 x2 x3 (ix2 ch n) = x2 (ix5 0 ch z y x) :=
  kcorner1 x2 (Cert.KernelIdeal.Host.kst_main_v209 (F := Ideal) x0 x1 x2 x3) ch n x y z hK

/-- Corner (z₀, y₁, x₁), the kernel's array: its element `(ch, n)` is the volume's at `(0, ch, z, y, x)` once the `n`-th flat
    index read signed is `(z · 128 + y) · 128 + x`. -/
theorem kread_v219 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 128)
    (hK : (Cert.KernelIdeal.Host.kst_main_v217 (F := Ideal) x0 x1 x2 x3 (ix1 n)).toInt = (((z.val * 128 + y.val) * 128 + x.val : ℕ) : Int)) :
    Cert.KernelIdeal.Host.kst_main_v219 (F := Ideal) x0 x1 x2 x3 (ix2 ch n) = x2 (ix5 0 ch z y x) :=
  kcorner1 x2 (Cert.KernelIdeal.Host.kst_main_v217 (F := Ideal) x0 x1 x2 x3) ch n x y z hK

/-- Corner (z₁, y₀, x₀), the kernel's array: its element `(ch, n)` is the volume's at `(0, ch, z, y, x)` once the `n`-th flat
    index read signed is `(z · 128 + y) · 128 + x`. -/
theorem kread_v227 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 128)
    (hK : (Cert.KernelIdeal.Host.kst_main_v225 (F := Ideal) x0 x1 x2 x3 (ix1 n)).toInt = (((z.val * 128 + y.val) * 128 + x.val : ℕ) : Int)) :
    Cert.KernelIdeal.Host.kst_main_v227 (F := Ideal) x0 x1 x2 x3 (ix2 ch n) = x2 (ix5 0 ch z y x) :=
  kcorner1 x2 (Cert.KernelIdeal.Host.kst_main_v225 (F := Ideal) x0 x1 x2 x3) ch n x y z hK

/-- Corner (z₁, y₀, x₁), the kernel's array: its element `(ch, n)` is the volume's at `(0, ch, z, y, x)` once the `n`-th flat
    index read signed is `(z · 128 + y) · 128 + x`. -/
theorem kread_v235 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 128)
    (hK : (Cert.KernelIdeal.Host.kst_main_v233 (F := Ideal) x0 x1 x2 x3 (ix1 n)).toInt = (((z.val * 128 + y.val) * 128 + x.val : ℕ) : Int)) :
    Cert.KernelIdeal.Host.kst_main_v235 (F := Ideal) x0 x1 x2 x3 (ix2 ch n) = x2 (ix5 0 ch z y x) :=
  kcorner1 x2 (Cert.KernelIdeal.Host.kst_main_v233 (F := Ideal) x0 x1 x2 x3) ch n x y z hK

/-- Corner (z₁, y₁, x₀), the kernel's array: its element `(ch, n)` is the volume's at `(0, ch, z, y, x)` once the `n`-th flat
    index read signed is `(z · 128 + y) · 128 + x`. -/
theorem kread_v243 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 128)
    (hK : (Cert.KernelIdeal.Host.kst_main_v241 (F := Ideal) x0 x1 x2 x3 (ix1 n)).toInt = (((z.val * 128 + y.val) * 128 + x.val : ℕ) : Int)) :
    Cert.KernelIdeal.Host.kst_main_v243 (F := Ideal) x0 x1 x2 x3 (ix2 ch n) = x2 (ix5 0 ch z y x) :=
  kcorner1 x2 (Cert.KernelIdeal.Host.kst_main_v241 (F := Ideal) x0 x1 x2 x3) ch n x y z hK

/-- Corner (z₁, y₁, x₁), the kernel's array: its element `(ch, n)` is the volume's at `(0, ch, z, y, x)` once the `n`-th flat
    index read signed is `(z · 128 + y) · 128 + x`. -/
theorem kread_v251 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 128)
    (hK : (Cert.KernelIdeal.Host.kst_main_v249 (F := Ideal) x0 x1 x2 x3 (ix1 n)).toInt = (((z.val * 128 + y.val) * 128 + x.val : ℕ) : Int)) :
    Cert.KernelIdeal.Host.kst_main_v251 (F := Ideal) x0 x1 x2 x3 (ix2 ch n) = x2 (ix5 0 ch z y x) :=
  kcorner1 x2 (Cert.KernelIdeal.Host.kst_main_v249 (F := Ideal) x0 x1 x2 x3) ch n x y z hK

/-! ## The reference's eight arrays -/

/-- Corner (z₀, y₀, x₀), the reference's array: its element `(ch, n)` is the volume's at `(0, ch, z, y, x)` once the `n`-th
    selected index read signed is `(z · 128 + y) · 128 + x`. -/
theorem rread_v294 (x0 : (⟨Cert.KernelIdeal.S1x1x1x1048576x3, .f32⟩ : BufTy).Contents (Elt Ideal)) (x2 : (⟨Cert.KernelIdeal.S1x4x128x128x128, .f32⟩ : BufTy).Contents (Elt Ideal))
    (ch : Fin 4) (n : Fin 1048576) (x y z : Fin 128)
    (hR : (Cert.ReferenceIdeal.ReadP.val_main_v292 (F := Ideal) x0 (ix1 n)).toInt = (((z.val * 128 + y.val) * 128 + x.val : ℕ) : Int)) :
    Cert.ReferenceIdeal.ReadP.val_main_v294 (F := Ideal) x0 x2 (ix2 ch n) = x2 (ix5 0 ch z y x) :=
  rcorner1 x2 (Cert.ReferenceIdeal.ReadP.val_main_v292 (F := Ideal) x0) ch n x y z hR

/-- Corner (z₀, y₀, x₁), the reference's array: its element `(ch, n)` is the volume's at `(0, ch, z, y, x)` once the `n`-th
    selected index read signed is `(z · 128 + y) · 128 + x`. -/
theorem rread_v307 (x0 : (⟨Cert.KernelIdeal.S1x1x1x1048576x3, .f32⟩ : BufTy).Contents (Elt Ideal)) (x2 : (⟨Cert.KernelIdeal.S1x4x128x128x128, .f32⟩ : BufTy).Contents (Elt Ideal))
    (ch : Fin 4) (n : Fin 1048576) (x y z : Fin 128)
    (hR : (Cert.ReferenceIdeal.ReadP.val_main_v305 (F := Ideal) x0 (ix1 n)).toInt = (((z.val * 128 + y.val) * 128 + x.val : ℕ) : Int)) :
    Cert.ReferenceIdeal.ReadP.val_main_v307 (F := Ideal) x0 x2 (ix2 ch n) = x2 (ix5 0 ch z y x) :=
  rcorner1 x2 (Cert.ReferenceIdeal.ReadP.val_main_v305 (F := Ideal) x0) ch n x y z hR

/-- Corner (z₀, y₁, x₀), the reference's array: its element `(ch, n)` is the volume's at `(0, ch, z, y, x)` once the `n`-th
    selected index read signed is `(z · 128 + y) · 128 + x`. -/
theorem rread_v320 (x0 : (⟨Cert.KernelIdeal.S1x1x1x1048576x3, .f32⟩ : BufTy).Contents (Elt Ideal)) (x2 : (⟨Cert.KernelIdeal.S1x4x128x128x128, .f32⟩ : BufTy).Contents (Elt Ideal))
    (ch : Fin 4) (n : Fin 1048576) (x y z : Fin 128)
    (hR : (Cert.ReferenceIdeal.ReadP.val_main_v318 (F := Ideal) x0 (ix1 n)).toInt = (((z.val * 128 + y.val) * 128 + x.val : ℕ) : Int)) :
    Cert.ReferenceIdeal.ReadP.val_main_v320 (F := Ideal) x0 x2 (ix2 ch n) = x2 (ix5 0 ch z y x) :=
  rcorner1 x2 (Cert.ReferenceIdeal.ReadP.val_main_v318 (F := Ideal) x0) ch n x y z hR

/-- Corner (z₀, y₁, x₁), the reference's array: its element `(ch, n)` is the volume's at `(0, ch, z, y, x)` once the `n`-th
    selected index read signed is `(z · 128 + y) · 128 + x`. -/
theorem rread_v333 (x0 : (⟨Cert.KernelIdeal.S1x1x1x1048576x3, .f32⟩ : BufTy).Contents (Elt Ideal)) (x2 : (⟨Cert.KernelIdeal.S1x4x128x128x128, .f32⟩ : BufTy).Contents (Elt Ideal))
    (ch : Fin 4) (n : Fin 1048576) (x y z : Fin 128)
    (hR : (Cert.ReferenceIdeal.ReadP.val_main_v331 (F := Ideal) x0 (ix1 n)).toInt = (((z.val * 128 + y.val) * 128 + x.val : ℕ) : Int)) :
    Cert.ReferenceIdeal.ReadP.val_main_v333 (F := Ideal) x0 x2 (ix2 ch n) = x2 (ix5 0 ch z y x) :=
  rcorner1 x2 (Cert.ReferenceIdeal.ReadP.val_main_v331 (F := Ideal) x0) ch n x y z hR

/-- Corner (z₁, y₀, x₀), the reference's array: its element `(ch, n)` is the volume's at `(0, ch, z, y, x)` once the `n`-th
    selected index read signed is `(z · 128 + y) · 128 + x`. -/
theorem rread_v346 (x0 : (⟨Cert.KernelIdeal.S1x1x1x1048576x3, .f32⟩ : BufTy).Contents (Elt Ideal)) (x2 : (⟨Cert.KernelIdeal.S1x4x128x128x128, .f32⟩ : BufTy).Contents (Elt Ideal))
    (ch : Fin 4) (n : Fin 1048576) (x y z : Fin 128)
    (hR : (Cert.ReferenceIdeal.ReadP.val_main_v344 (F := Ideal) x0 (ix1 n)).toInt = (((z.val * 128 + y.val) * 128 + x.val : ℕ) : Int)) :
    Cert.ReferenceIdeal.ReadP.val_main_v346 (F := Ideal) x0 x2 (ix2 ch n) = x2 (ix5 0 ch z y x) :=
  rcorner1 x2 (Cert.ReferenceIdeal.ReadP.val_main_v344 (F := Ideal) x0) ch n x y z hR

/-- Corner (z₁, y₀, x₁), the reference's array: its element `(ch, n)` is the volume's at `(0, ch, z, y, x)` once the `n`-th
    selected index read signed is `(z · 128 + y) · 128 + x`. -/
theorem rread_v359 (x0 : (⟨Cert.KernelIdeal.S1x1x1x1048576x3, .f32⟩ : BufTy).Contents (Elt Ideal)) (x2 : (⟨Cert.KernelIdeal.S1x4x128x128x128, .f32⟩ : BufTy).Contents (Elt Ideal))
    (ch : Fin 4) (n : Fin 1048576) (x y z : Fin 128)
    (hR : (Cert.ReferenceIdeal.ReadP.val_main_v357 (F := Ideal) x0 (ix1 n)).toInt = (((z.val * 128 + y.val) * 128 + x.val : ℕ) : Int)) :
    Cert.ReferenceIdeal.ReadP.val_main_v359 (F := Ideal) x0 x2 (ix2 ch n) = x2 (ix5 0 ch z y x) :=
  rcorner1 x2 (Cert.ReferenceIdeal.ReadP.val_main_v357 (F := Ideal) x0) ch n x y z hR

/-- Corner (z₁, y₁, x₀), the reference's array: its element `(ch, n)` is the volume's at `(0, ch, z, y, x)` once the `n`-th
    selected index read signed is `(z · 128 + y) · 128 + x`. -/
theorem rread_v372 (x0 : (⟨Cert.KernelIdeal.S1x1x1x1048576x3, .f32⟩ : BufTy).Contents (Elt Ideal)) (x2 : (⟨Cert.KernelIdeal.S1x4x128x128x128, .f32⟩ : BufTy).Contents (Elt Ideal))
    (ch : Fin 4) (n : Fin 1048576) (x y z : Fin 128)
    (hR : (Cert.ReferenceIdeal.ReadP.val_main_v370 (F := Ideal) x0 (ix1 n)).toInt = (((z.val * 128 + y.val) * 128 + x.val : ℕ) : Int)) :
    Cert.ReferenceIdeal.ReadP.val_main_v372 (F := Ideal) x0 x2 (ix2 ch n) = x2 (ix5 0 ch z y x) :=
  rcorner1 x2 (Cert.ReferenceIdeal.ReadP.val_main_v370 (F := Ideal) x0) ch n x y z hR

/-- Corner (z₁, y₁, x₁), the reference's array: its element `(ch, n)` is the volume's at `(0, ch, z, y, x)` once the `n`-th
    selected index read signed is `(z · 128 + y) · 128 + x`. -/
theorem rread_v385 (x0 : (⟨Cert.KernelIdeal.S1x1x1x1048576x3, .f32⟩ : BufTy).Contents (Elt Ideal)) (x2 : (⟨Cert.KernelIdeal.S1x4x128x128x128, .f32⟩ : BufTy).Contents (Elt Ideal))
    (ch : Fin 4) (n : Fin 1048576) (x y z : Fin 128)
    (hR : (Cert.ReferenceIdeal.ReadP.val_main_v383 (F := Ideal) x0 (ix1 n)).toInt = (((z.val * 128 + y.val) * 128 + x.val : ℕ) : Int)) :
    Cert.ReferenceIdeal.ReadP.val_main_v385 (F := Ideal) x0 x2 (ix2 ch n) = x2 (ix5 0 ch z y x) :=
  rcorner1 x2 (Cert.ReferenceIdeal.ReadP.val_main_v383 (F := Ideal) x0) ch n x y z hR

/-! ## The two agree -/

/-- Corner (z₀, y₀, x₀): the two programs' arrays agree at `(ch, n)` when both index words read signed are the flat
    position of one cell `(z, y, x)`. -/
theorem corner_v195_v294 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 128)
    (hK : (Cert.KernelIdeal.Host.kst_main_v193 (F := Ideal) x0 x1 x2 x3 (ix1 n)).toInt = (((z.val * 128 + y.val) * 128 + x.val : ℕ) : Int))
    (hR : (Cert.ReferenceIdeal.ReadP.val_main_v292 (F := Ideal) x0 (ix1 n)).toInt = (((z.val * 128 + y.val) * 128 + x.val : ℕ) : Int)) :
    Cert.KernelIdeal.Host.kst_main_v195 (F := Ideal) x0 x1 x2 x3 (ix2 ch n) = Cert.ReferenceIdeal.ReadP.val_main_v294 (F := Ideal) x0 x2 (ix2 ch n) :=
  (kread_v195 x0 x1 x2 x3 ch n x y z hK).trans (rread_v294 x0 x2 ch n x y z hR).symm

/-- Corner (z₀, y₀, x₀) again, from "the two index words are the same word, and it reads signed as a flat position". -/
theorem corner_v195_v294_of_same (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 128)
    (hsame : Cert.KernelIdeal.Host.kst_main_v193 (F := Ideal) x0 x1 x2 x3 (ix1 n) = Cert.ReferenceIdeal.ReadP.val_main_v292 (F := Ideal) x0 (ix1 n))
    (hK : (Cert.KernelIdeal.Host.kst_main_v193 (F := Ideal) x0 x1 x2 x3 (ix1 n)).toInt = (((z.val * 128 + y.val) * 128 + x.val : ℕ) : Int)) :
    Cert.KernelIdeal.Host.kst_main_v195 (F := Ideal) x0 x1 x2 x3 (ix2 ch n) = Cert.ReferenceIdeal.ReadP.val_main_v294 (F := Ideal) x0 x2 (ix2 ch n) :=
  corner_v195_v294 x0 x1 x2 x3 ch n x y z hK (hsame ▸ hK)

/-- Corner (z₀, y₀, x₁): the two programs' arrays agree at `(ch, n)` when both index words read signed are the flat
    position of one cell `(z, y, x)`. -/
theorem corner_v203_v307 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 128)
    (hK : (Cert.KernelIdeal.Host.kst_main_v201 (F := Ideal) x0 x1 x2 x3 (ix1 n)).toInt = (((z.val * 128 + y.val) * 128 + x.val : ℕ) : Int))
    (hR : (Cert.ReferenceIdeal.ReadP.val_main_v305 (F := Ideal) x0 (ix1 n)).toInt = (((z.val * 128 + y.val) * 128 + x.val : ℕ) : Int)) :
    Cert.KernelIdeal.Host.kst_main_v203 (F := Ideal) x0 x1 x2 x3 (ix2 ch n) = Cert.ReferenceIdeal.ReadP.val_main_v307 (F := Ideal) x0 x2 (ix2 ch n) :=
  (kread_v203 x0 x1 x2 x3 ch n x y z hK).trans (rread_v307 x0 x2 ch n x y z hR).symm

/-- Corner (z₀, y₀, x₁) again, from "the two index words are the same word, and it reads signed as a flat position". -/
theorem corner_v203_v307_of_same (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 128)
    (hsame : Cert.KernelIdeal.Host.kst_main_v201 (F := Ideal) x0 x1 x2 x3 (ix1 n) = Cert.ReferenceIdeal.ReadP.val_main_v305 (F := Ideal) x0 (ix1 n))
    (hK : (Cert.KernelIdeal.Host.kst_main_v201 (F := Ideal) x0 x1 x2 x3 (ix1 n)).toInt = (((z.val * 128 + y.val) * 128 + x.val : ℕ) : Int)) :
    Cert.KernelIdeal.Host.kst_main_v203 (F := Ideal) x0 x1 x2 x3 (ix2 ch n) = Cert.ReferenceIdeal.ReadP.val_main_v307 (F := Ideal) x0 x2 (ix2 ch n) :=
  corner_v203_v307 x0 x1 x2 x3 ch n x y z hK (hsame ▸ hK)

/-- Corner (z₀, y₁, x₀): the two programs' arrays agree at `(ch, n)` when both index words read signed are the flat
    position of one cell `(z, y, x)`. -/
theorem corner_v211_v320 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 128)
    (hK : (Cert.KernelIdeal.Host.kst_main_v209 (F := Ideal) x0 x1 x2 x3 (ix1 n)).toInt = (((z.val * 128 + y.val) * 128 + x.val : ℕ) : Int))
    (hR : (Cert.ReferenceIdeal.ReadP.val_main_v318 (F := Ideal) x0 (ix1 n)).toInt = (((z.val * 128 + y.val) * 128 + x.val : ℕ) : Int)) :
    Cert.KernelIdeal.Host.kst_main_v211 (F := Ideal) x0 x1 x2 x3 (ix2 ch n) = Cert.ReferenceIdeal.ReadP.val_main_v320 (F := Ideal) x0 x2 (ix2 ch n) :=
  (kread_v211 x0 x1 x2 x3 ch n x y z hK).trans (rread_v320 x0 x2 ch n x y z hR).symm

/-- Corner (z₀, y₁, x₀) again, from "the two index words are the same word, and it reads signed as a flat position". -/
theorem corner_v211_v320_of_same (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 128)
    (hsame : Cert.KernelIdeal.Host.kst_main_v209 (F := Ideal) x0 x1 x2 x3 (ix1 n) = Cert.ReferenceIdeal.ReadP.val_main_v318 (F := Ideal) x0 (ix1 n))
    (hK : (Cert.KernelIdeal.Host.kst_main_v209 (F := Ideal) x0 x1 x2 x3 (ix1 n)).toInt = (((z.val * 128 + y.val) * 128 + x.val : ℕ) : Int)) :
    Cert.KernelIdeal.Host.kst_main_v211 (F := Ideal) x0 x1 x2 x3 (ix2 ch n) = Cert.ReferenceIdeal.ReadP.val_main_v320 (F := Ideal) x0 x2 (ix2 ch n) :=
  corner_v211_v320 x0 x1 x2 x3 ch n x y z hK (hsame ▸ hK)

/-- Corner (z₀, y₁, x₁): the two programs' arrays agree at `(ch, n)` when both index words read signed are the flat
    position of one cell `(z, y, x)`. -/
theorem corner_v219_v333 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 128)
    (hK : (Cert.KernelIdeal.Host.kst_main_v217 (F := Ideal) x0 x1 x2 x3 (ix1 n)).toInt = (((z.val * 128 + y.val) * 128 + x.val : ℕ) : Int))
    (hR : (Cert.ReferenceIdeal.ReadP.val_main_v331 (F := Ideal) x0 (ix1 n)).toInt = (((z.val * 128 + y.val) * 128 + x.val : ℕ) : Int)) :
    Cert.KernelIdeal.Host.kst_main_v219 (F := Ideal) x0 x1 x2 x3 (ix2 ch n) = Cert.ReferenceIdeal.ReadP.val_main_v333 (F := Ideal) x0 x2 (ix2 ch n) :=
  (kread_v219 x0 x1 x2 x3 ch n x y z hK).trans (rread_v333 x0 x2 ch n x y z hR).symm

/-- Corner (z₀, y₁, x₁) again, from "the two index words are the same word, and it reads signed as a flat position". -/
theorem corner_v219_v333_of_same (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 128)
    (hsame : Cert.KernelIdeal.Host.kst_main_v217 (F := Ideal) x0 x1 x2 x3 (ix1 n) = Cert.ReferenceIdeal.ReadP.val_main_v331 (F := Ideal) x0 (ix1 n))
    (hK : (Cert.KernelIdeal.Host.kst_main_v217 (F := Ideal) x0 x1 x2 x3 (ix1 n)).toInt = (((z.val * 128 + y.val) * 128 + x.val : ℕ) : Int)) :
    Cert.KernelIdeal.Host.kst_main_v219 (F := Ideal) x0 x1 x2 x3 (ix2 ch n) = Cert.ReferenceIdeal.ReadP.val_main_v333 (F := Ideal) x0 x2 (ix2 ch n) :=
  corner_v219_v333 x0 x1 x2 x3 ch n x y z hK (hsame ▸ hK)

/-- Corner (z₁, y₀, x₀): the two programs' arrays agree at `(ch, n)` when both index words read signed are the flat
    position of one cell `(z, y, x)`. -/
theorem corner_v227_v346 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 128)
    (hK : (Cert.KernelIdeal.Host.kst_main_v225 (F := Ideal) x0 x1 x2 x3 (ix1 n)).toInt = (((z.val * 128 + y.val) * 128 + x.val : ℕ) : Int))
    (hR : (Cert.ReferenceIdeal.ReadP.val_main_v344 (F := Ideal) x0 (ix1 n)).toInt = (((z.val * 128 + y.val) * 128 + x.val : ℕ) : Int)) :
    Cert.KernelIdeal.Host.kst_main_v227 (F := Ideal) x0 x1 x2 x3 (ix2 ch n) = Cert.ReferenceIdeal.ReadP.val_main_v346 (F := Ideal) x0 x2 (ix2 ch n) :=
  (kread_v227 x0 x1 x2 x3 ch n x y z hK).trans (rread_v346 x0 x2 ch n x y z hR).symm

/-- Corner (z₁, y₀, x₀) again, from "the two index words are the same word, and it reads signed as a flat position". -/
theorem corner_v227_v346_of_same (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 128)
    (hsame : Cert.KernelIdeal.Host.kst_main_v225 (F := Ideal) x0 x1 x2 x3 (ix1 n) = Cert.ReferenceIdeal.ReadP.val_main_v344 (F := Ideal) x0 (ix1 n))
    (hK : (Cert.KernelIdeal.Host.kst_main_v225 (F := Ideal) x0 x1 x2 x3 (ix1 n)).toInt = (((z.val * 128 + y.val) * 128 + x.val : ℕ) : Int)) :
    Cert.KernelIdeal.Host.kst_main_v227 (F := Ideal) x0 x1 x2 x3 (ix2 ch n) = Cert.ReferenceIdeal.ReadP.val_main_v346 (F := Ideal) x0 x2 (ix2 ch n) :=
  corner_v227_v346 x0 x1 x2 x3 ch n x y z hK (hsame ▸ hK)

/-- Corner (z₁, y₀, x₁): the two programs' arrays agree at `(ch, n)` when both index words read signed are the flat
    position of one cell `(z, y, x)`. -/
theorem corner_v235_v359 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 128)
    (hK : (Cert.KernelIdeal.Host.kst_main_v233 (F := Ideal) x0 x1 x2 x3 (ix1 n)).toInt = (((z.val * 128 + y.val) * 128 + x.val : ℕ) : Int))
    (hR : (Cert.ReferenceIdeal.ReadP.val_main_v357 (F := Ideal) x0 (ix1 n)).toInt = (((z.val * 128 + y.val) * 128 + x.val : ℕ) : Int)) :
    Cert.KernelIdeal.Host.kst_main_v235 (F := Ideal) x0 x1 x2 x3 (ix2 ch n) = Cert.ReferenceIdeal.ReadP.val_main_v359 (F := Ideal) x0 x2 (ix2 ch n) :=
  (kread_v235 x0 x1 x2 x3 ch n x y z hK).trans (rread_v359 x0 x2 ch n x y z hR).symm

/-- Corner (z₁, y₀, x₁) again, from "the two index words are the same word, and it reads signed as a flat position". -/
theorem corner_v235_v359_of_same (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 128)
    (hsame : Cert.KernelIdeal.Host.kst_main_v233 (F := Ideal) x0 x1 x2 x3 (ix1 n) = Cert.ReferenceIdeal.ReadP.val_main_v357 (F := Ideal) x0 (ix1 n))
    (hK : (Cert.KernelIdeal.Host.kst_main_v233 (F := Ideal) x0 x1 x2 x3 (ix1 n)).toInt = (((z.val * 128 + y.val) * 128 + x.val : ℕ) : Int)) :
    Cert.KernelIdeal.Host.kst_main_v235 (F := Ideal) x0 x1 x2 x3 (ix2 ch n) = Cert.ReferenceIdeal.ReadP.val_main_v359 (F := Ideal) x0 x2 (ix2 ch n) :=
  corner_v235_v359 x0 x1 x2 x3 ch n x y z hK (hsame ▸ hK)

/-- Corner (z₁, y₁, x₀): the two programs' arrays agree at `(ch, n)` when both index words read signed are the flat
    position of one cell `(z, y, x)`. -/
theorem corner_v243_v372 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 128)
    (hK : (Cert.KernelIdeal.Host.kst_main_v241 (F := Ideal) x0 x1 x2 x3 (ix1 n)).toInt = (((z.val * 128 + y.val) * 128 + x.val : ℕ) : Int))
    (hR : (Cert.ReferenceIdeal.ReadP.val_main_v370 (F := Ideal) x0 (ix1 n)).toInt = (((z.val * 128 + y.val) * 128 + x.val : ℕ) : Int)) :
    Cert.KernelIdeal.Host.kst_main_v243 (F := Ideal) x0 x1 x2 x3 (ix2 ch n) = Cert.ReferenceIdeal.ReadP.val_main_v372 (F := Ideal) x0 x2 (ix2 ch n) :=
  (kread_v243 x0 x1 x2 x3 ch n x y z hK).trans (rread_v372 x0 x2 ch n x y z hR).symm

/-- Corner (z₁, y₁, x₀) again, from "the two index words are the same word, and it reads signed as a flat position". -/
theorem corner_v243_v372_of_same (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 128)
    (hsame : Cert.KernelIdeal.Host.kst_main_v241 (F := Ideal) x0 x1 x2 x3 (ix1 n) = Cert.ReferenceIdeal.ReadP.val_main_v370 (F := Ideal) x0 (ix1 n))
    (hK : (Cert.KernelIdeal.Host.kst_main_v241 (F := Ideal) x0 x1 x2 x3 (ix1 n)).toInt = (((z.val * 128 + y.val) * 128 + x.val : ℕ) : Int)) :
    Cert.KernelIdeal.Host.kst_main_v243 (F := Ideal) x0 x1 x2 x3 (ix2 ch n) = Cert.ReferenceIdeal.ReadP.val_main_v372 (F := Ideal) x0 x2 (ix2 ch n) :=
  corner_v243_v372 x0 x1 x2 x3 ch n x y z hK (hsame ▸ hK)

/-- Corner (z₁, y₁, x₁): the two programs' arrays agree at `(ch, n)` when both index words read signed are the flat
    position of one cell `(z, y, x)`. -/
theorem corner_v251_v385 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 128)
    (hK : (Cert.KernelIdeal.Host.kst_main_v249 (F := Ideal) x0 x1 x2 x3 (ix1 n)).toInt = (((z.val * 128 + y.val) * 128 + x.val : ℕ) : Int))
    (hR : (Cert.ReferenceIdeal.ReadP.val_main_v383 (F := Ideal) x0 (ix1 n)).toInt = (((z.val * 128 + y.val) * 128 + x.val : ℕ) : Int)) :
    Cert.KernelIdeal.Host.kst_main_v251 (F := Ideal) x0 x1 x2 x3 (ix2 ch n) = Cert.ReferenceIdeal.ReadP.val_main_v385 (F := Ideal) x0 x2 (ix2 ch n) :=
  (kread_v251 x0 x1 x2 x3 ch n x y z hK).trans (rread_v385 x0 x2 ch n x y z hR).symm

/-- Corner (z₁, y₁, x₁) again, from "the two index words are the same word, and it reads signed as a flat position". -/
theorem corner_v251_v385_of_same (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 128)
    (hsame : Cert.KernelIdeal.Host.kst_main_v249 (F := Ideal) x0 x1 x2 x3 (ix1 n) = Cert.ReferenceIdeal.ReadP.val_main_v383 (F := Ideal) x0 (ix1 n))
    (hK : (Cert.KernelIdeal.Host.kst_main_v249 (F := Ideal) x0 x1 x2 x3 (ix1 n)).toInt = (((z.val * 128 + y.val) * 128 + x.val : ℕ) : Int)) :
    Cert.KernelIdeal.Host.kst_main_v251 (F := Ideal) x0 x1 x2 x3 (ix2 ch n) = Cert.ReferenceIdeal.ReadP.val_main_v385 (F := Ideal) x0 x2 (ix2 ch n) :=
  corner_v251_v385 x0 x1 x2 x3 ch n x y z hK (hsame ▸ hK)

end Cert.Proof.GlueCorners1

end
-- ==== Proof.GlueCoords1.lean ====
import proofs.«113233_j37486474559588_2_alg».proof.Proof.HostStagesIdeal
import proofs.«113233_j37486474559588_2_alg».proof.Proof.RefReadP
import proofs.«113233_j37486474559588_2_alg».proof.Proof.LibIndexRange
import Idealize.ShloMosaic.Lib.ValueIdx
import Idealize.ShloMosaic.Lib.Pipeline.Value
import Mathlib.Tactic

/-!
# The two programs' scalar chains agree, volume 1

Before any gather, both programs compute per query point the same scalars from the grid: the
unnormalized coordinates, their floors clipped to the volume, the smoothstep weight along x, the
integer cell coordinates and their clipped successors, and the eight flat corner indices.  The
kernel's host stages and the reference's stages are the same functions of the grid, operation by
operation; the one difference is that the reference converts an integer upper bound to a float where
the kernel has the float's word, and the two are the same number.  The reference also tests its flat
index for a negative sign and wraps it; the index is never negative, so that changes nothing.
-/

noncomputable section

namespace Cert.Proof.GlueCoords1

open Idealize.ShloMosaic Idealize.ShloMosaic.ValueIdx
open Cert.KernelIdeal.Host Cert.ReferenceIdeal

/-- A scalar broadcast to any shape reads the scalar everywhere. -/
theorem bcast0_apply {α : Type} {t : Shape} (dims : Fin (⟨0, ![]⟩ : Shape).rank → Fin t.rank)
    (h : (⟨0, ![]⟩ : Shape).BroadcastsInDim t dims) (y : (⟨0, ![]⟩ : Shape).Idx → α) (i : t.Idx) :
    broadcastInDim t dims h y i = y ix0 :=
  broadcastInDim_apply dims h y i ix0 (fun a => a.elim0)

variable (x0 : (⟨S1x1x1x1048576x3, .f32⟩ : BufTy).Contents (Elt Ideal))
  (x1 : (⟨S1x4x64x64x64, .f32⟩ : BufTy).Contents (Elt Ideal))
  (x2 : (⟨S1x4x128x128x128, .f32⟩ : BufTy).Contents (Elt Ideal))
  (x3 : (⟨S1x4x192x192x192, .f32⟩ : BufTy).Contents (Elt Ideal))

/-! ### The x axis -/

/-- The two programs' unnormalized x coordinates are one array. -/
theorem coordX : kst_main_v143 (F := Ideal) x0 x1 x2 x3 = ReadP.val_main_v219 (F := Ideal) x0 := rfl

/-- The kernel's upper clip bound, broadcast, is the float `127` everywhere. -/
theorem kHiX (i : S1048576.Idx) : kst_main_call12_v4 (F := Ideal) x0 x1 x2 x3 i = Ideal.ofBits .f32 0x42FE0000#32 := by
  unfold kst_main_call12_v4
  exact (bcast0_apply _ _ _ i).trans rfl

/-- The kernel's lower clip bound, broadcast, is `0` everywhere. -/
theorem kLoX (i : S1048576.Idx) : kst_main_call12_v1 (F := Ideal) x0 x1 x2 x3 i = Ideal.ofBits .f32 0x00000000#32 := by
  unfold kst_main_call12_v1
  exact (bcast0_apply _ _ _ i).trans rfl

/-- The reference's upper clip bound, the integer `127` converted and broadcast, is the same float. -/
theorem rHiX (i : S1048576.Idx) : ReadP.val_main_call6_v4 (F := Ideal) i = Ideal.ofBits .f32 0x42FE0000#32 := by
  rw [ReadP.val_main_call6_v4_apply, ReadP.val_main_call6_v3_apply, ReadP.val_main_c_73_apply]
  exact LibIndexRange.sitofp_literals.2.1.trans LibIndexRange.ofBits_127.symm

/-- The two programs' clipped floors along x are one array. -/
theorem clipX : kst_main_v157 (F := Ideal) x0 x1 x2 x3 = ReadP.val_main_v237 (F := Ideal) x0 := by
  funext i
  show FloatOps.minimumf (F := Ideal) (φ := .f32) (kst_main_call12_v4 (F := Ideal) x0 x1 x2 x3 i) (kst_main_call12_v2 (F := Ideal) x0 x1 x2 x3 i)
    = FloatOps.minimumf (F := Ideal) (φ := .f32) (ReadP.val_main_call6_v4 (F := Ideal) i) (ReadP.val_main_call6_v2 (F := Ideal) x0 i)
  rw [kHiX, rHiX]
  rfl

/-- The lower cell words along x are one array. -/
theorem cell0X_fn : kst_main_v170 (F := Ideal) x0 x1 x2 x3 = ReadP.val_main_v266 (F := Ideal) x0 := by
  unfold kst_main_v170 ReadP.val_main_v266
  exact congrArg _ (clipX x0 x1 x2 x3)

/-- The upper cell words along x are one array. -/
theorem cell1X_fn : kst_main_v176 (F := Ideal) x0 x1 x2 x3 = ReadP.val_main_v272 (F := Ideal) x0 := by
  unfold kst_main_v176 kst_main_v174 ReadP.val_main_v272 ReadP.val_main_v270
  rw [cell0X_fn x0 x1 x2 x3] <;> rfl

/-- The lower cell word along x at a query point, kernel and reference. -/
theorem cell0X (i : S1048576.Idx) : kst_main_v170 (F := Ideal) x0 x1 x2 x3 i = ReadP.val_main_v266 (F := Ideal) x0 i :=
  congrFun (cell0X_fn x0 x1 x2 x3) i

/-- The upper cell word along x at a query point, kernel and reference. -/
theorem cell1X (i : S1048576.Idx) : kst_main_v176 (F := Ideal) x0 x1 x2 x3 i = ReadP.val_main_v272 (F := Ideal) x0 i :=
  congrFun (cell1X_fn x0 x1 x2 x3) i

/-- The lower cell word along x is in `[0, 127]`. -/
theorem cell0X_le (i : S1048576.Idx) : (kst_main_v170 (F := Ideal) x0 x1 x2 x3 i).toNat ≤ 127 := by
  have h : kst_main_v170 (F := Ideal) x0 x1 x2 x3 i
      = Ideal.fptosi 32 (min (Ideal.ofBits .f32 0x42FE0000#32) (max (Ideal.ofBits .f32 0x00000000#32)
          (Ideal.liftRound Int.floor (kst_main_v143 (F := Ideal) x0 x1 x2 x3 i)))) := by
    show Ideal.fptosi 32 (min (kst_main_call12_v4 (F := Ideal) x0 x1 x2 x3 i) (max (kst_main_call12_v1 (F := Ideal) x0 x1 x2 x3 i)
          (Ideal.liftRound Int.floor (kst_main_v143 (F := Ideal) x0 x1 x2 x3 i)))) = _
    rw [kHiX, kLoX]
  rw [h]
  exact LibIndexRange.fptosi_clip_127 _

/-- The upper cell word along x is `min (a + 1) 127` of the lower one, on 32-bit words. -/
theorem cell1X_eq (i : S1048576.Idx) :
    kst_main_v176 (F := Ideal) x0 x1 x2 x3 i = IntOp.minsi (IntOp.addi (kst_main_v170 (F := Ideal) x0 x1 x2 x3 i) 1#32) 127#32 := by
  have h1 : kst_main_v173 (F := Ideal) x0 x1 x2 x3 i = 1#32 := by
    unfold kst_main_v173
    exact (bcast0_apply _ _ _ i).trans rfl
  have hK : kst_main_v175 (F := Ideal) x0 x1 x2 x3 i = 127#32 := by
    unfold kst_main_v175
    exact (bcast0_apply _ _ _ i).trans rfl
  show IntOp.minsi (IntOp.addi (kst_main_v170 (F := Ideal) x0 x1 x2 x3 i) (kst_main_v173 (F := Ideal) x0 x1 x2 x3 i)) (kst_main_v175 (F := Ideal) x0 x1 x2 x3 i) = _
  rw [h1, hK]

/-- The upper cell word along x is in `[0, 127]`. -/
theorem cell1X_le (i : S1048576.Idx) : (kst_main_v176 (F := Ideal) x0 x1 x2 x3 i).toNat ≤ 127 := by
  rw [cell1X_eq]
  exact LibIndexRange.minsi_succ_toNat_le 127 (by norm_num) _ (cell0X_le x0 x1 x2 x3 i)

/-! ### The y axis -/

/-- The two programs' unnormalized y coordinates are one array. -/
theorem coordY : kst_main_v149 (F := Ideal) x0 x1 x2 x3 = ReadP.val_main_v227 (F := Ideal) x0 := rfl

/-- The kernel's upper clip bound, broadcast, is the float `127` everywhere. -/
theorem kHiY (i : S1048576.Idx) : kst_main_call13_v4 (F := Ideal) x0 x1 x2 x3 i = Ideal.ofBits .f32 0x42FE0000#32 := by
  unfold kst_main_call13_v4
  exact (bcast0_apply _ _ _ i).trans rfl

/-- The kernel's lower clip bound, broadcast, is `0` everywhere. -/
theorem kLoY (i : S1048576.Idx) : kst_main_call13_v1 (F := Ideal) x0 x1 x2 x3 i = Ideal.ofBits .f32 0x00000000#32 := by
  unfold kst_main_call13_v1
  exact (bcast0_apply _ _ _ i).trans rfl

/-- The reference's upper clip bound, the integer `127` converted and broadcast, is the same float. -/
theorem rHiY (i : S1048576.Idx) : ReadP.val_main_call7_v4 (F := Ideal) i = Ideal.ofBits .f32 0x42FE0000#32 := by
  rw [ReadP.val_main_call7_v4_apply, ReadP.val_main_call7_v3_apply, ReadP.val_main_c_75_apply]
  exact LibIndexRange.sitofp_literals.2.1.trans LibIndexRange.ofBits_127.symm

/-- The two programs' clipped floors along y are one array. -/
theorem clipY : kst_main_v159 (F := Ideal) x0 x1 x2 x3 = ReadP.val_main_v239 (F := Ideal) x0 := by
  funext i
  show FloatOps.minimumf (F := Ideal) (φ := .f32) (kst_main_call13_v4 (F := Ideal) x0 x1 x2 x3 i) (kst_main_call13_v2 (F := Ideal) x0 x1 x2 x3 i)
    = FloatOps.minimumf (F := Ideal) (φ := .f32) (ReadP.val_main_call7_v4 (F := Ideal) i) (ReadP.val_main_call7_v2 (F := Ideal) x0 i)
  rw [kHiY, rHiY]
  rfl

/-- The lower cell words along y are one array. -/
theorem cell0Y_fn : kst_main_v171 (F := Ideal) x0 x1 x2 x3 = ReadP.val_main_v267 (F := Ideal) x0 := by
  unfold kst_main_v171 ReadP.val_main_v267
  exact congrArg _ (clipY x0 x1 x2 x3)

/-- The upper cell words along y are one array. -/
theorem cell1Y_fn : kst_main_v180 (F := Ideal) x0 x1 x2 x3 = ReadP.val_main_v276 (F := Ideal) x0 := by
  unfold kst_main_v180 kst_main_v178 ReadP.val_main_v276 ReadP.val_main_v274
  rw [cell0Y_fn x0 x1 x2 x3] <;> rfl

/-- The lower cell word along y at a query point, kernel and reference. -/
theorem cell0Y (i : S1048576.Idx) : kst_main_v171 (F := Ideal) x0 x1 x2 x3 i = ReadP.val_main_v267 (F := Ideal) x0 i :=
  congrFun (cell0Y_fn x0 x1 x2 x3) i

/-- The upper cell word along y at a query point, kernel and reference. -/
theorem cell1Y (i : S1048576.Idx) : kst_main_v180 (F := Ideal) x0 x1 x2 x3 i = ReadP.val_main_v276 (F := Ideal) x0 i :=
  congrFun (cell1Y_fn x0 x1 x2 x3) i

/-- The lower cell word along y is in `[0, 127]`. -/
theorem cell0Y_le (i : S1048576.Idx) : (kst_main_v171 (F := Ideal) x0 x1 x2 x3 i).toNat ≤ 127 := by
  have h : kst_main_v171 (F := Ideal) x0 x1 x2 x3 i
      = Ideal.fptosi 32 (min (Ideal.ofBits .f32 0x42FE0000#32) (max (Ideal.ofBits .f32 0x00000000#32)
          (Ideal.liftRound Int.floor (kst_main_v149 (F := Ideal) x0 x1 x2 x3 i)))) := by
    show Ideal.fptosi 32 (min (kst_main_call13_v4 (F := Ideal) x0 x1 x2 x3 i) (max (kst_main_call13_v1 (F := Ideal) x0 x1 x2 x3 i)
          (Ideal.liftRound Int.floor (kst_main_v149 (F := Ideal) x0 x1 x2 x3 i)))) = _
    rw [kHiY, kLoY]
  rw [h]
  exact LibIndexRange.fptosi_clip_127 _

/-- The upper cell word along y is `min (a + 1) 127` of the lower one, on 32-bit words. -/
theorem cell1Y_eq (i : S1048576.Idx) :
    kst_main_v180 (F := Ideal) x0 x1 x2 x3 i = IntOp.minsi (IntOp.addi (kst_main_v171 (F := Ideal) x0 x1 x2 x3 i) 1#32) 127#32 := by
  have h1 : kst_main_v177 (F := Ideal) x0 x1 x2 x3 i = 1#32 := by
    unfold kst_main_v177
    exact (bcast0_apply _ _ _ i).trans rfl
  have hK : kst_main_v179 (F := Ideal) x0 x1 x2 x3 i = 127#32 := by
    unfold kst_main_v179
    exact (bcast0_apply _ _ _ i).trans rfl
  show IntOp.minsi (IntOp.addi (kst_main_v171 (F := Ideal) x0 x1 x2 x3 i) (kst_main_v177 (F := Ideal) x0 x1 x2 x3 i)) (kst_main_v179 (F := Ideal) x0 x1 x2 x3 i) = _
  rw [h1, hK]

/-- The upper cell word along y is in `[0, 127]`. -/
theorem cell1Y_le (i : S1048576.Idx) : (kst_main_v180 (F := Ideal) x0 x1 x2 x3 i).toNat ≤ 127 := by
  rw [cell1Y_eq]
  exact LibIndexRange.minsi_succ_toNat_le 127 (by norm_num) _ (cell0Y_le x0 x1 x2 x3 i)

/-! ### The z axis -/

/-- The two programs' unnormalized z coordinates are one array. -/
theorem coordZ : kst_main_v155 (F := Ideal) x0 x1 x2 x3 = ReadP.val_main_v235 (F := Ideal) x0 := rfl

/-- The kernel's upper clip bound, broadcast, is the float `127` everywhere. -/
theorem kHiZ (i : S1048576.Idx) : kst_main_call14_v4 (F := Ideal) x0 x1 x2 x3 i = Ideal.ofBits .f32 0x42FE0000#32 := by
  unfold kst_main_call14_v4
  exact (bcast0_apply _ _ _ i).trans rfl

/-- The kernel's lower clip bound, broadcast, is `0` everywhere. -/
theorem kLoZ (i : S1048576.Idx) : kst_main_call14_v1 (F := Ideal) x0 x1 x2 x3 i = Ideal.ofBits .f32 0x00000000#32 := by
  unfold kst_main_call14_v1
  exact (bcast0_apply _ _ _ i).trans rfl

/-- The reference's upper clip bound, the integer `127` converted and broadcast, is the same float. -/
theorem rHiZ (i : S1048576.Idx) : ReadP.val_main_call8_v4 (F := Ideal) i = Ideal.ofBits .f32 0x42FE0000#32 := by
  rw [ReadP.val_main_call8_v4_apply, ReadP.val_main_call8_v3_apply, ReadP.val_main_c_77_apply]
  exact LibIndexRange.sitofp_literals.2.1.trans LibIndexRange.ofBits_127.symm

/-- The two programs' clipped floors along z are one array. -/
theorem clipZ : kst_main_v161 (F := Ideal) x0 x1 x2 x3 = ReadP.val_main_v241 (F := Ideal) x0 := by
  funext i
  show FloatOps.minimumf (F := Ideal) (φ := .f32) (kst_main_call14_v4 (F := Ideal) x0 x1 x2 x3 i) (kst_main_call14_v2 (F := Ideal) x0 x1 x2 x3 i)
    = FloatOps.minimumf (F := Ideal) (φ := .f32) (ReadP.val_main_call8_v4 (F := Ideal) i) (ReadP.val_main_call8_v2 (F := Ideal) x0 i)
  rw [kHiZ, rHiZ]
  rfl

/-- The lower cell words along z are one array. -/
theorem cell0Z_fn : kst_main_v172 (F := Ideal) x0 x1 x2 x3 = ReadP.val_main_v268 (F := Ideal) x0 := by
  unfold kst_main_v172 ReadP.val_main_v268
  exact congrArg _ (clipZ x0 x1 x2 x3)

/-- The upper cell words along z are one array. -/
theorem cell1Z_fn : kst_main_v184 (F := Ideal) x0 x1 x2 x3 = ReadP.val_main_v280 (F := Ideal) x0 := by
  unfold kst_main_v184 kst_main_v182 ReadP.val_main_v280 ReadP.val_main_v278
  rw [cell0Z_fn x0 x1 x2 x3] <;> rfl

/-- The lower cell word along z at a query point, kernel and reference. -/
theorem cell0Z (i : S1048576.Idx) : kst_main_v172 (F := Ideal) x0 x1 x2 x3 i = ReadP.val_main_v268 (F := Ideal) x0 i :=
  congrFun (cell0Z_fn x0 x1 x2 x3) i

/-- The upper cell word along z at a query point, kernel and reference. -/
theorem cell1Z (i : S1048576.Idx) : kst_main_v184 (F := Ideal) x0 x1 x2 x3 i = ReadP.val_main_v280 (F := Ideal) x0 i :=
  congrFun (cell1Z_fn x0 x1 x2 x3) i

/-- The lower cell word along z is in `[0, 127]`. -/
theorem cell0Z_le (i : S1048576.Idx) : (kst_main_v172 (F := Ideal) x0 x1 x2 x3 i).toNat ≤ 127 := by
  have h : kst_main_v172 (F := Ideal) x0 x1 x2 x3 i
      = Ideal.fptosi 32 (min (Ideal.ofBits .f32 0x42FE0000#32) (max (Ideal.ofBits .f32 0x00000000#32)
          (Ideal.liftRound Int.floor (kst_main_v155 (F := Ideal) x0 x1 x2 x3 i)))) := by
    show Ideal.fptosi 32 (min (kst_main_call14_v4 (F := Ideal) x0 x1 x2 x3 i) (max (kst_main_call14_v1 (F := Ideal) x0 x1 x2 x3 i)
          (Ideal.liftRound Int.floor (kst_main_v155 (F := Ideal) x0 x1 x2 x3 i)))) = _
    rw [kHiZ, kLoZ]
  rw [h]
  exact LibIndexRange.fptosi_clip_127 _

/-- The upper cell word along z is `min (a + 1) 127` of the lower one, on 32-bit words. -/
theorem cell1Z_eq (i : S1048576.Idx) :
    kst_main_v184 (F := Ideal) x0 x1 x2 x3 i = IntOp.minsi (IntOp.addi (kst_main_v172 (F := Ideal) x0 x1 x2 x3 i) 1#32) 127#32 := by
  have h1 : kst_main_v181 (F := Ideal) x0 x1 x2 x3 i = 1#32 := by
    unfold kst_main_v181
    exact (bcast0_apply _ _ _ i).trans rfl
  have hK : kst_main_v183 (F := Ideal) x0 x1 x2 x3 i = 127#32 := by
    unfold kst_main_v183
    exact (bcast0_apply _ _ _ i).trans rfl
  show IntOp.minsi (IntOp.addi (kst_main_v172 (F := Ideal) x0 x1 x2 x3 i) (kst_main_v181 (F := Ideal) x0 x1 x2 x3 i)) (kst_main_v183 (F := Ideal) x0 x1 x2 x3 i) = _
  rw [h1, hK]

/-- The upper cell word along z is in `[0, 127]`. -/
theorem cell1Z_le (i : S1048576.Idx) : (kst_main_v184 (F := Ideal) x0 x1 x2 x3 i).toNat ≤ 127 := by
  rw [cell1Z_eq]
  exact LibIndexRange.minsi_succ_toNat_le 127 (by norm_num) _ (cell0Z_le x0 x1 x2 x3 i)

/-! ### The x weight -/

/-- The two programs' smoothstep weights along x are one array. -/
theorem weightX_fn : kst_main_v169 (F := Ideal) x0 x1 x2 x3 = ReadP.val_main_v253 (F := Ideal) x0 := by
  unfold kst_main_v169 kst_main_v168 kst_main_v166 kst_main_v164 kst_main_v163 kst_main_call15_v2 kst_main_v162
  unfold ReadP.val_main_v253 ReadP.val_main_v252 ReadP.val_main_v250 ReadP.val_main_v248 ReadP.val_main_v243 ReadP.val_main_call9_v2 ReadP.val_main_v242
  rw [clipX x0 x1 x2 x3] <;> rfl

/-- **(a)** the x weight at a query point, kernel and reference. -/
theorem weightX (i : S1048576.Idx) : kst_main_v169 (F := Ideal) x0 x1 x2 x3 i = ReadP.val_main_v253 (F := Ideal) x0 i :=
  congrFun (weightX_fn x0 x1 x2 x3) i

/-! ### The eight flat corner indices -/

/-- Corner 0: the two programs' flat indices, before the reference's sign test, are one array. -/
theorem flat0_fn : kst_main_v193 (F := Ideal) x0 x1 x2 x3 = ReadP.val_main_v287 (F := Ideal) x0 := by
  unfold kst_main_v193 kst_main_v192 kst_main_v190 kst_main_v189 ReadP.val_main_v287 ReadP.val_main_v286 ReadP.val_main_v284 ReadP.val_main_v283
  rw [cell0Z_fn x0 x1 x2 x3, cell0Y_fn x0 x1 x2 x3, cell0X_fn x0 x1 x2 x3] <;> rfl

/-- Corner 0: the kernel's flat index at a query point is `(z * 128 + y) * 128 + x` on 32-bit words. -/
theorem flat0_eq (i : S1048576.Idx) :
    kst_main_v193 (F := Ideal) x0 x1 x2 x3 i
      = IntOp.addi (IntOp.muli (IntOp.addi (IntOp.muli (kst_main_v172 (F := Ideal) x0 x1 x2 x3 i) 128#32) (kst_main_v171 (F := Ideal) x0 x1 x2 x3 i)) 128#32) (kst_main_v170 (F := Ideal) x0 x1 x2 x3 i) := by
  have h1 : kst_main_v191 (F := Ideal) x0 x1 x2 x3 i = 128#32 := by
    unfold kst_main_v191
    exact (bcast0_apply _ _ _ i).trans rfl
  have h2 : kst_main_v188 (F := Ideal) x0 x1 x2 x3 i = 128#32 := by
    unfold kst_main_v188
    exact (bcast0_apply _ _ _ i).trans rfl
  show IntOp.addi (IntOp.muli (IntOp.addi (IntOp.muli (kst_main_v172 (F := Ideal) x0 x1 x2 x3 i) (kst_main_v188 (F := Ideal) x0 x1 x2 x3 i)) (kst_main_v171 (F := Ideal) x0 x1 x2 x3 i)) (kst_main_v191 (F := Ideal) x0 x1 x2 x3 i)) (kst_main_v170 (F := Ideal) x0 x1 x2 x3 i) = _
  rw [h1, h2]

/-- **(c)** corner 0: the kernel's flat index, read as a signed integer, is the natural number
    `(z * 128 + y) * 128 + x` of its three cell words. -/
theorem corner0_toInt (i : S1048576.Idx) :
    (kst_main_v193 (F := Ideal) x0 x1 x2 x3 i).toInt
      = ((((kst_main_v172 (F := Ideal) x0 x1 x2 x3 i).toNat * 128 + (kst_main_v171 (F := Ideal) x0 x1 x2 x3 i).toNat) * 128
          + (kst_main_v170 (F := Ideal) x0 x1 x2 x3 i).toNat : ℕ) : ℤ) := by
  rw [flat0_eq]
  have hx := cell0X_le x0 x1 x2 x3 i
  have hy := cell0Y_le x0 x1 x2 x3 i
  have hz := cell0Z_le x0 x1 x2 x3 i
  rw [LibIndexRange.flat_toInt 127 128 (by norm_num) rfl _ _ _ hx hy hz,
    LibIndexRange.flat_toNat 127 128 (by norm_num) rfl _ _ _ hx hy hz]

/-- **(c)** corner 0: the kernel's flat index and the reference's index after its sign test and
    wrap-around are one word. -/
theorem corner0_eq (i : S1048576.Idx) : kst_main_v193 (F := Ideal) x0 x1 x2 x3 i = ReadP.val_main_v292 (F := Ideal) x0 i := by
  have hsel : ReadP.val_main_v292 (F := Ideal) x0 i
      = Scalar.select (IntOp.cmpi .slt (ReadP.val_main_v287 (F := Ideal) x0 i) 0#32)
          (IntOp.addi (ReadP.val_main_v287 (F := Ideal) x0 i) 2097152#32) (ReadP.val_main_v287 (F := Ideal) x0 i) := by
    simp only [ReadP.val_main_v292_apply, ReadP.val_main_v289_apply, ReadP.val_main_v291_apply, ReadP.val_main_v288_apply,
      ReadP.val_main_c_98_apply, ReadP.val_main_v290_apply, ReadP.val_main_c_99_apply]
  have hI : ReadP.val_main_v287 (F := Ideal) x0 i = kst_main_v193 (F := Ideal) x0 x1 x2 x3 i := (congrFun (flat0_fn x0 x1 x2 x3) i).symm
  have hx := cell0X_le x0 x1 x2 x3 i
  have hy := cell0Y_le x0 x1 x2 x3 i
  have hz := cell0Z_le x0 x1 x2 x3 i
  rw [hsel, hI, flat0_eq]
  exact (LibIndexRange.flat_select 127 128 (by norm_num) rfl _ _ _ hx hy hz 2097152#32).symm

/-- Corner 1: the two programs' flat indices, before the reference's sign test, are one array. -/
theorem flat1_fn : kst_main_v201 (F := Ideal) x0 x1 x2 x3 = ReadP.val_main_v300 (F := Ideal) x0 := by
  unfold kst_main_v201 kst_main_v200 kst_main_v198 kst_main_v197 ReadP.val_main_v300 ReadP.val_main_v299 ReadP.val_main_v297 ReadP.val_main_v296
  rw [cell0Z_fn x0 x1 x2 x3, cell0Y_fn x0 x1 x2 x3, cell1X_fn x0 x1 x2 x3] <;> rfl

/-- Corner 1: the kernel's flat index at a query point is `(z * 128 + y) * 128 + x` on 32-bit words. -/
theorem flat1_eq (i : S1048576.Idx) :
    kst_main_v201 (F := Ideal) x0 x1 x2 x3 i
      = IntOp.addi (IntOp.muli (IntOp.addi (IntOp.muli (kst_main_v172 (F := Ideal) x0 x1 x2 x3 i) 128#32) (kst_main_v171 (F := Ideal) x0 x1 x2 x3 i)) 128#32) (kst_main_v176 (F := Ideal) x0 x1 x2 x3 i) := by
  have h1 : kst_main_v199 (F := Ideal) x0 x1 x2 x3 i = 128#32 := by
    unfold kst_main_v199
    exact (bcast0_apply _ _ _ i).trans rfl
  have h2 : kst_main_v196 (F := Ideal) x0 x1 x2 x3 i = 128#32 := by
    unfold kst_main_v196
    exact (bcast0_apply _ _ _ i).trans rfl
  show IntOp.addi (IntOp.muli (IntOp.addi (IntOp.muli (kst_main_v172 (F := Ideal) x0 x1 x2 x3 i) (kst_main_v196 (F := Ideal) x0 x1 x2 x3 i)) (kst_main_v171 (F := Ideal) x0 x1 x2 x3 i)) (kst_main_v199 (F := Ideal) x0 x1 x2 x3 i)) (kst_main_v176 (F := Ideal) x0 x1 x2 x3 i) = _
  rw [h1, h2]

/-- **(c)** corner 1: the kernel's flat index, read as a signed integer, is the natural number
    `(z * 128 + y) * 128 + x` of its three cell words. -/
theorem corner1_toInt (i : S1048576.Idx) :
    (kst_main_v201 (F := Ideal) x0 x1 x2 x3 i).toInt
      = ((((kst_main_v172 (F := Ideal) x0 x1 x2 x3 i).toNat * 128 + (kst_main_v171 (F := Ideal) x0 x1 x2 x3 i).toNat) * 128
          + (kst_main_v176 (F := Ideal) x0 x1 x2 x3 i).toNat : ℕ) : ℤ) := by
  rw [flat1_eq]
  have hx := cell1X_le x0 x1 x2 x3 i
  have hy := cell0Y_le x0 x1 x2 x3 i
  have hz := cell0Z_le x0 x1 x2 x3 i
  rw [LibIndexRange.flat_toInt 127 128 (by norm_num) rfl _ _ _ hx hy hz,
    LibIndexRange.flat_toNat 127 128 (by norm_num) rfl _ _ _ hx hy hz]

/-- **(c)** corner 1: the kernel's flat index and the reference's index after its sign test and
    wrap-around are one word. -/
theorem corner1_eq (i : S1048576.Idx) : kst_main_v201 (F := Ideal) x0 x1 x2 x3 i = ReadP.val_main_v305 (F := Ideal) x0 i := by
  have hsel : ReadP.val_main_v305 (F := Ideal) x0 i
      = Scalar.select (IntOp.cmpi .slt (ReadP.val_main_v300 (F := Ideal) x0 i) 0#32)
          (IntOp.addi (ReadP.val_main_v300 (F := Ideal) x0 i) 2097152#32) (ReadP.val_main_v300 (F := Ideal) x0 i) := by
    simp only [ReadP.val_main_v305_apply, ReadP.val_main_v302_apply, ReadP.val_main_v304_apply, ReadP.val_main_v301_apply,
      ReadP.val_main_c_102_apply, ReadP.val_main_v303_apply, ReadP.val_main_c_103_apply]
  have hI : ReadP.val_main_v300 (F := Ideal) x0 i = kst_main_v201 (F := Ideal) x0 x1 x2 x3 i := (congrFun (flat1_fn x0 x1 x2 x3) i).symm
  have hx := cell1X_le x0 x1 x2 x3 i
  have hy := cell0Y_le x0 x1 x2 x3 i
  have hz := cell0Z_le x0 x1 x2 x3 i
  rw [hsel, hI, flat1_eq]
  exact (LibIndexRange.flat_select 127 128 (by norm_num) rfl _ _ _ hx hy hz 2097152#32).symm

/-- Corner 2: the two programs' flat indices, before the reference's sign test, are one array. -/
theorem flat2_fn : kst_main_v209 (F := Ideal) x0 x1 x2 x3 = ReadP.val_main_v313 (F := Ideal) x0 := by
  unfold kst_main_v209 kst_main_v208 kst_main_v206 kst_main_v205 ReadP.val_main_v313 ReadP.val_main_v312 ReadP.val_main_v310 ReadP.val_main_v309
  rw [cell0Z_fn x0 x1 x2 x3, cell1Y_fn x0 x1 x2 x3, cell0X_fn x0 x1 x2 x3] <;> rfl

/-- Corner 2: the kernel's flat index at a query point is `(z * 128 + y) * 128 + x` on 32-bit words. -/
theorem flat2_eq (i : S1048576.Idx) :
    kst_main_v209 (F := Ideal) x0 x1 x2 x3 i
      = IntOp.addi (IntOp.muli (IntOp.addi (IntOp.muli (kst_main_v172 (F := Ideal) x0 x1 x2 x3 i) 128#32) (kst_main_v180 (F := Ideal) x0 x1 x2 x3 i)) 128#32) (kst_main_v170 (F := Ideal) x0 x1 x2 x3 i) := by
  have h1 : kst_main_v207 (F := Ideal) x0 x1 x2 x3 i = 128#32 := by
    unfold kst_main_v207
    exact (bcast0_apply _ _ _ i).trans rfl
  have h2 : kst_main_v204 (F := Ideal) x0 x1 x2 x3 i = 128#32 := by
    unfold kst_main_v204
    exact (bcast0_apply _ _ _ i).trans rfl
  show IntOp.addi (IntOp.muli (IntOp.addi (IntOp.muli (kst_main_v172 (F := Ideal) x0 x1 x2 x3 i) (kst_main_v204 (F := Ideal) x0 x1 x2 x3 i)) (kst_main_v180 (F := Ideal) x0 x1 x2 x3 i)) (kst_main_v207 (F := Ideal) x0 x1 x2 x3 i)) (kst_main_v170 (F := Ideal) x0 x1 x2 x3 i) = _
  rw [h1, h2]

/-- **(c)** corner 2: the kernel's flat index, read as a signed integer, is the natural number
    `(z * 128 + y) * 128 + x` of its three cell words. -/
theorem corner2_toInt (i : S1048576.Idx) :
    (kst_main_v209 (F := Ideal) x0 x1 x2 x3 i).toInt
      = ((((kst_main_v172 (F := Ideal) x0 x1 x2 x3 i).toNat * 128 + (kst_main_v180 (F := Ideal) x0 x1 x2 x3 i).toNat) * 128
          + (kst_main_v170 (F := Ideal) x0 x1 x2 x3 i).toNat : ℕ) : ℤ) := by
  rw [flat2_eq]
  have hx := cell0X_le x0 x1 x2 x3 i
  have hy := cell1Y_le x0 x1 x2 x3 i
  have hz := cell0Z_le x0 x1 x2 x3 i
  rw [LibIndexRange.flat_toInt 127 128 (by norm_num) rfl _ _ _ hx hy hz,
    LibIndexRange.flat_toNat 127 128 (by norm_num) rfl _ _ _ hx hy hz]

/-- **(c)** corner 2: the kernel's flat index and the reference's index after its sign test and
    wrap-around are one word. -/
theorem corner2_eq (i : S1048576.Idx) : kst_main_v209 (F := Ideal) x0 x1 x2 x3 i = ReadP.val_main_v318 (F := Ideal) x0 i := by
  have hsel : ReadP.val_main_v318 (F := Ideal) x0 i
      = Scalar.select (IntOp.cmpi .slt (ReadP.val_main_v313 (F := Ideal) x0 i) 0#32)
          (IntOp.addi (ReadP.val_main_v313 (F := Ideal) x0 i) 2097152#32) (ReadP.val_main_v313 (F := Ideal) x0 i) := by
    simp only [ReadP.val_main_v318_apply, ReadP.val_main_v315_apply, ReadP.val_main_v317_apply, ReadP.val_main_v314_apply,
      ReadP.val_main_c_106_apply, ReadP.val_main_v316_apply, ReadP.val_main_c_107_apply]
  have hI : ReadP.val_main_v313 (F := Ideal) x0 i = kst_main_v209 (F := Ideal) x0 x1 x2 x3 i := (congrFun (flat2_fn x0 x1 x2 x3) i).symm
  have hx := cell0X_le x0 x1 x2 x3 i
  have hy := cell1Y_le x0 x1 x2 x3 i
  have hz := cell0Z_le x0 x1 x2 x3 i
  rw [hsel, hI, flat2_eq]
  exact (LibIndexRange.flat_select 127 128 (by norm_num) rfl _ _ _ hx hy hz 2097152#32).symm

/-- Corner 3: the two programs' flat indices, before the reference's sign test, are one array. -/
theorem flat3_fn : kst_main_v217 (F := Ideal) x0 x1 x2 x3 = ReadP.val_main_v326 (F := Ideal) x0 := by
  unfold kst_main_v217 kst_main_v216 kst_main_v214 kst_main_v213 ReadP.val_main_v326 ReadP.val_main_v325 ReadP.val_main_v323 ReadP.val_main_v322
  rw [cell0Z_fn x0 x1 x2 x3, cell1Y_fn x0 x1 x2 x3, cell1X_fn x0 x1 x2 x3] <;> rfl

/-- Corner 3: the kernel's flat index at a query point is `(z * 128 + y) * 128 + x` on 32-bit words. -/
theorem flat3_eq (i : S1048576.Idx) :
    kst_main_v217 (F := Ideal) x0 x1 x2 x3 i
      = IntOp.addi (IntOp.muli (IntOp.addi (IntOp.muli (kst_main_v172 (F := Ideal) x0 x1 x2 x3 i) 128#32) (kst_main_v180 (F := Ideal) x0 x1 x2 x3 i)) 128#32) (kst_main_v176 (F := Ideal) x0 x1 x2 x3 i) := by
  have h1 : kst_main_v215 (F := Ideal) x0 x1 x2 x3 i = 128#32 := by
    unfold kst_main_v215
    exact (bcast0_apply _ _ _ i).trans rfl
  have h2 : kst_main_v212 (F := Ideal) x0 x1 x2 x3 i = 128#32 := by
    unfold kst_main_v212
    exact (bcast0_apply _ _ _ i).trans rfl
  show IntOp.addi (IntOp.muli (IntOp.addi (IntOp.muli (kst_main_v172 (F := Ideal) x0 x1 x2 x3 i) (kst_main_v212 (F := Ideal) x0 x1 x2 x3 i)) (kst_main_v180 (F := Ideal) x0 x1 x2 x3 i)) (kst_main_v215 (F := Ideal) x0 x1 x2 x3 i)) (kst_main_v176 (F := Ideal) x0 x1 x2 x3 i) = _
  rw [h1, h2]

/-- **(c)** corner 3: the kernel's flat index, read as a signed integer, is the natural number
    `(z * 128 + y) * 128 + x` of its three cell words. -/
theorem corner3_toInt (i : S1048576.Idx) :
    (kst_main_v217 (F := Ideal) x0 x1 x2 x3 i).toInt
      = ((((kst_main_v172 (F := Ideal) x0 x1 x2 x3 i).toNat * 128 + (kst_main_v180 (F := Ideal) x0 x1 x2 x3 i).toNat) * 128
          + (kst_main_v176 (F := Ideal) x0 x1 x2 x3 i).toNat : ℕ) : ℤ) := by
  rw [flat3_eq]
  have hx := cell1X_le x0 x1 x2 x3 i
  have hy := cell1Y_le x0 x1 x2 x3 i
  have hz := cell0Z_le x0 x1 x2 x3 i
  rw [LibIndexRange.flat_toInt 127 128 (by norm_num) rfl _ _ _ hx hy hz,
    LibIndexRange.flat_toNat 127 128 (by norm_num) rfl _ _ _ hx hy hz]

/-- **(c)** corner 3: the kernel's flat index and the reference's index after its sign test and
    wrap-around are one word. -/
theorem corner3_eq (i : S1048576.Idx) : kst_main_v217 (F := Ideal) x0 x1 x2 x3 i = ReadP.val_main_v331 (F := Ideal) x0 i := by
  have hsel : ReadP.val_main_v331 (F := Ideal) x0 i
      = Scalar.select (IntOp.cmpi .slt (ReadP.val_main_v326 (F := Ideal) x0 i) 0#32)
          (IntOp.addi (ReadP.val_main_v326 (F := Ideal) x0 i) 2097152#32) (ReadP.val_main_v326 (F := Ideal) x0 i) := by
    simp only [ReadP.val_main_v331_apply, ReadP.val_main_v328_apply, ReadP.val_main_v330_apply, ReadP.val_main_v327_apply,
      ReadP.val_main_c_110_apply, ReadP.val_main_v329_apply, ReadP.val_main_c_111_apply]
  have hI : ReadP.val_main_v326 (F := Ideal) x0 i = kst_main_v217 (F := Ideal) x0 x1 x2 x3 i := (congrFun (flat3_fn x0 x1 x2 x3) i).symm
  have hx := cell1X_le x0 x1 x2 x3 i
  have hy := cell1Y_le x0 x1 x2 x3 i
  have hz := cell0Z_le x0 x1 x2 x3 i
  rw [hsel, hI, flat3_eq]
  exact (LibIndexRange.flat_select 127 128 (by norm_num) rfl _ _ _ hx hy hz 2097152#32).symm

/-- Corner 4: the two programs' flat indices, before the reference's sign test, are one array. -/
theorem flat4_fn : kst_main_v225 (F := Ideal) x0 x1 x2 x3 = ReadP.val_main_v339 (F := Ideal) x0 := by
  unfold kst_main_v225 kst_main_v224 kst_main_v222 kst_main_v221 ReadP.val_main_v339 ReadP.val_main_v338 ReadP.val_main_v336 ReadP.val_main_v335
  rw [cell1Z_fn x0 x1 x2 x3, cell0Y_fn x0 x1 x2 x3, cell0X_fn x0 x1 x2 x3] <;> rfl

/-- Corner 4: the kernel's flat index at a query point is `(z * 128 + y) * 128 + x` on 32-bit words. -/
theorem flat4_eq (i : S1048576.Idx) :
    kst_main_v225 (F := Ideal) x0 x1 x2 x3 i
      = IntOp.addi (IntOp.muli (IntOp.addi (IntOp.muli (kst_main_v184 (F := Ideal) x0 x1 x2 x3 i) 128#32) (kst_main_v171 (F := Ideal) x0 x1 x2 x3 i)) 128#32) (kst_main_v170 (F := Ideal) x0 x1 x2 x3 i) := by
  have h1 : kst_main_v223 (F := Ideal) x0 x1 x2 x3 i = 128#32 := by
    unfold kst_main_v223
    exact (bcast0_apply _ _ _ i).trans rfl
  have h2 : kst_main_v220 (F := Ideal) x0 x1 x2 x3 i = 128#32 := by
    unfold kst_main_v220
    exact (bcast0_apply _ _ _ i).trans rfl
  show IntOp.addi (IntOp.muli (IntOp.addi (IntOp.muli (kst_main_v184 (F := Ideal) x0 x1 x2 x3 i) (kst_main_v220 (F := Ideal) x0 x1 x2 x3 i)) (kst_main_v171 (F := Ideal) x0 x1 x2 x3 i)) (kst_main_v223 (F := Ideal) x0 x1 x2 x3 i)) (kst_main_v170 (F := Ideal) x0 x1 x2 x3 i) = _
  rw [h1, h2]

/-- **(c)** corner 4: the kernel's flat index, read as a signed integer, is the natural number
    `(z * 128 + y) * 128 + x` of its three cell words. -/
theorem corner4_toInt (i : S1048576.Idx) :
    (kst_main_v225 (F := Ideal) x0 x1 x2 x3 i).toInt
      = ((((kst_main_v184 (F := Ideal) x0 x1 x2 x3 i).toNat * 128 + (kst_main_v171 (F := Ideal) x0 x1 x2 x3 i).toNat) * 128
          + (kst_main_v170 (F := Ideal) x0 x1 x2 x3 i).toNat : ℕ) : ℤ) := by
  rw [flat4_eq]
  have hx := cell0X_le x0 x1 x2 x3 i
  have hy := cell0Y_le x0 x1 x2 x3 i
  have hz := cell1Z_le x0 x1 x2 x3 i
  rw [LibIndexRange.flat_toInt 127 128 (by norm_num) rfl _ _ _ hx hy hz,
    LibIndexRange.flat_toNat 127 128 (by norm_num) rfl _ _ _ hx hy hz]

/-- **(c)** corner 4: the kernel's flat index and the reference's index after its sign test and
    wrap-around are one word. -/
theorem corner4_eq (i : S1048576.Idx) : kst_main_v225 (F := Ideal) x0 x1 x2 x3 i = ReadP.val_main_v344 (F := Ideal) x0 i := by
  have hsel : ReadP.val_main_v344 (F := Ideal) x0 i
      = Scalar.select (IntOp.cmpi .slt (ReadP.val_main_v339 (F := Ideal) x0 i) 0#32)
          (IntOp.addi (ReadP.val_main_v339 (F := Ideal) x0 i) 2097152#32) (ReadP.val_main_v339 (F := Ideal) x0 i) := by
    simp only [ReadP.val_main_v344_apply, ReadP.val_main_v341_apply, ReadP.val_main_v343_apply, ReadP.val_main_v340_apply,
      ReadP.val_main_c_114_apply, ReadP.val_main_v342_apply, ReadP.val_main_c_115_apply]
  have hI : ReadP.val_main_v339 (F := Ideal) x0 i = kst_main_v225 (F := Ideal) x0 x1 x2 x3 i := (congrFun (flat4_fn x0 x1 x2 x3) i).symm
  have hx := cell0X_le x0 x1 x2 x3 i
  have hy := cell0Y_le x0 x1 x2 x3 i
  have hz := cell1Z_le x0 x1 x2 x3 i
  rw [hsel, hI, flat4_eq]
  exact (LibIndexRange.flat_select 127 128 (by norm_num) rfl _ _ _ hx hy hz 2097152#32).symm

/-- Corner 5: the two programs' flat indices, before the reference's sign test, are one array. -/
theorem flat5_fn : kst_main_v233 (F := Ideal) x0 x1 x2 x3 = ReadP.val_main_v352 (F := Ideal) x0 := by
  unfold kst_main_v233 kst_main_v232 kst_main_v230 kst_main_v229 ReadP.val_main_v352 ReadP.val_main_v351 ReadP.val_main_v349 ReadP.val_main_v348
  rw [cell1Z_fn x0 x1 x2 x3, cell0Y_fn x0 x1 x2 x3, cell1X_fn x0 x1 x2 x3] <;> rfl

/-- Corner 5: the kernel's flat index at a query point is `(z * 128 + y) * 128 + x` on 32-bit words. -/
theorem flat5_eq (i : S1048576.Idx) :
    kst_main_v233 (F := Ideal) x0 x1 x2 x3 i
      = IntOp.addi (IntOp.muli (IntOp.addi (IntOp.muli (kst_main_v184 (F := Ideal) x0 x1 x2 x3 i) 128#32) (kst_main_v171 (F := Ideal) x0 x1 x2 x3 i)) 128#32) (kst_main_v176 (F := Ideal) x0 x1 x2 x3 i) := by
  have h1 : kst_main_v231 (F := Ideal) x0 x1 x2 x3 i = 128#32 := by
    unfold kst_main_v231
    exact (bcast0_apply _ _ _ i).trans rfl
  have h2 : kst_main_v228 (F := Ideal) x0 x1 x2 x3 i = 128#32 := by
    unfold kst_main_v228
    exact (bcast0_apply _ _ _ i).trans rfl
  show IntOp.addi (IntOp.muli (IntOp.addi (IntOp.muli (kst_main_v184 (F := Ideal) x0 x1 x2 x3 i) (kst_main_v228 (F := Ideal) x0 x1 x2 x3 i)) (kst_main_v171 (F := Ideal) x0 x1 x2 x3 i)) (kst_main_v231 (F := Ideal) x0 x1 x2 x3 i)) (kst_main_v176 (F := Ideal) x0 x1 x2 x3 i) = _
  rw [h1, h2]

/-- **(c)** corner 5: the kernel's flat index, read as a signed integer, is the natural number
    `(z * 128 + y) * 128 + x` of its three cell words. -/
theorem corner5_toInt (i : S1048576.Idx) :
    (kst_main_v233 (F := Ideal) x0 x1 x2 x3 i).toInt
      = ((((kst_main_v184 (F := Ideal) x0 x1 x2 x3 i).toNat * 128 + (kst_main_v171 (F := Ideal) x0 x1 x2 x3 i).toNat) * 128
          + (kst_main_v176 (F := Ideal) x0 x1 x2 x3 i).toNat : ℕ) : ℤ) := by
  rw [flat5_eq]
  have hx := cell1X_le x0 x1 x2 x3 i
  have hy := cell0Y_le x0 x1 x2 x3 i
  have hz := cell1Z_le x0 x1 x2 x3 i
  rw [LibIndexRange.flat_toInt 127 128 (by norm_num) rfl _ _ _ hx hy hz,
    LibIndexRange.flat_toNat 127 128 (by norm_num) rfl _ _ _ hx hy hz]

/-- **(c)** corner 5: the kernel's flat index and the reference's index after its sign test and
    wrap-around are one word. -/
theorem corner5_eq (i : S1048576.Idx) : kst_main_v233 (F := Ideal) x0 x1 x2 x3 i = ReadP.val_main_v357 (F := Ideal) x0 i := by
  have hsel : ReadP.val_main_v357 (F := Ideal) x0 i
      = Scalar.select (IntOp.cmpi .slt (ReadP.val_main_v352 (F := Ideal) x0 i) 0#32)
          (IntOp.addi (ReadP.val_main_v352 (F := Ideal) x0 i) 2097152#32) (ReadP.val_main_v352 (F := Ideal) x0 i) := by
    simp only [ReadP.val_main_v357_apply, ReadP.val_main_v354_apply, ReadP.val_main_v356_apply, ReadP.val_main_v353_apply,
      ReadP.val_main_c_118_apply, ReadP.val_main_v355_apply, ReadP.val_main_c_119_apply]
  have hI : ReadP.val_main_v352 (F := Ideal) x0 i = kst_main_v233 (F := Ideal) x0 x1 x2 x3 i := (congrFun (flat5_fn x0 x1 x2 x3) i).symm
  have hx := cell1X_le x0 x1 x2 x3 i
  have hy := cell0Y_le x0 x1 x2 x3 i
  have hz := cell1Z_le x0 x1 x2 x3 i
  rw [hsel, hI, flat5_eq]
  exact (LibIndexRange.flat_select 127 128 (by norm_num) rfl _ _ _ hx hy hz 2097152#32).symm

/-- Corner 6: the two programs' flat indices, before the reference's sign test, are one array. -/
theorem flat6_fn : kst_main_v241 (F := Ideal) x0 x1 x2 x3 = ReadP.val_main_v365 (F := Ideal) x0 := by
  unfold kst_main_v241 kst_main_v240 kst_main_v238 kst_main_v237 ReadP.val_main_v365 ReadP.val_main_v364 ReadP.val_main_v362 ReadP.val_main_v361
  rw [cell1Z_fn x0 x1 x2 x3, cell1Y_fn x0 x1 x2 x3, cell0X_fn x0 x1 x2 x3] <;> rfl

/-- Corner 6: the kernel's flat index at a query point is `(z * 128 + y) * 128 + x` on 32-bit words. -/
theorem flat6_eq (i : S1048576.Idx) :
    kst_main_v241 (F := Ideal) x0 x1 x2 x3 i
      = IntOp.addi (IntOp.muli (IntOp.addi (IntOp.muli (kst_main_v184 (F := Ideal) x0 x1 x2 x3 i) 128#32) (kst_main_v180 (F := Ideal) x0 x1 x2 x3 i)) 128#32) (kst_main_v170 (F := Ideal) x0 x1 x2 x3 i) := by
  have h1 : kst_main_v239 (F := Ideal) x0 x1 x2 x3 i = 128#32 := by
    unfold kst_main_v239
    exact (bcast0_apply _ _ _ i).trans rfl
  have h2 : kst_main_v236 (F := Ideal) x0 x1 x2 x3 i = 128#32 := by
    unfold kst_main_v236
    exact (bcast0_apply _ _ _ i).trans rfl
  show IntOp.addi (IntOp.muli (IntOp.addi (IntOp.muli (kst_main_v184 (F := Ideal) x0 x1 x2 x3 i) (kst_main_v236 (F := Ideal) x0 x1 x2 x3 i)) (kst_main_v180 (F := Ideal) x0 x1 x2 x3 i)) (kst_main_v239 (F := Ideal) x0 x1 x2 x3 i)) (kst_main_v170 (F := Ideal) x0 x1 x2 x3 i) = _
  rw [h1, h2]

/-- **(c)** corner 6: the kernel's flat index, read as a signed integer, is the natural number
    `(z * 128 + y) * 128 + x` of its three cell words. -/
theorem corner6_toInt (i : S1048576.Idx) :
    (kst_main_v241 (F := Ideal) x0 x1 x2 x3 i).toInt
      = ((((kst_main_v184 (F := Ideal) x0 x1 x2 x3 i).toNat * 128 + (kst_main_v180 (F := Ideal) x0 x1 x2 x3 i).toNat) * 128
          + (kst_main_v170 (F := Ideal) x0 x1 x2 x3 i).toNat : ℕ) : ℤ) := by
  rw [flat6_eq]
  have hx := cell0X_le x0 x1 x2 x3 i
  have hy := cell1Y_le x0 x1 x2 x3 i
  have hz := cell1Z_le x0 x1 x2 x3 i
  rw [LibIndexRange.flat_toInt 127 128 (by norm_num) rfl _ _ _ hx hy hz,
    LibIndexRange.flat_toNat 127 128 (by norm_num) rfl _ _ _ hx hy hz]

/-- **(c)** corner 6: the kernel's flat index and the reference's index after its sign test and
    wrap-around are one word. -/
theorem corner6_eq (i : S1048576.Idx) : kst_main_v241 (F := Ideal) x0 x1 x2 x3 i = ReadP.val_main_v370 (F := Ideal) x0 i := by
  have hsel : ReadP.val_main_v370 (F := Ideal) x0 i
      = Scalar.select (IntOp.cmpi .slt (ReadP.val_main_v365 (F := Ideal) x0 i) 0#32)
          (IntOp.addi (ReadP.val_main_v365 (F := Ideal) x0 i) 2097152#32) (ReadP.val_main_v365 (F := Ideal) x0 i) := by
    simp only [ReadP.val_main_v370_apply, ReadP.val_main_v367_apply, ReadP.val_main_v369_apply, ReadP.val_main_v366_apply,
      ReadP.val_main_c_122_apply, ReadP.val_main_v368_apply, ReadP.val_main_c_123_apply]
  have hI : ReadP.val_main_v365 (F := Ideal) x0 i = kst_main_v241 (F := Ideal) x0 x1 x2 x3 i := (congrFun (flat6_fn x0 x1 x2 x3) i).symm
  have hx := cell0X_le x0 x1 x2 x3 i
  have hy := cell1Y_le x0 x1 x2 x3 i
  have hz := cell1Z_le x0 x1 x2 x3 i
  rw [hsel, hI, flat6_eq]
  exact (LibIndexRange.flat_select 127 128 (by norm_num) rfl _ _ _ hx hy hz 2097152#32).symm

/-- Corner 7: the two programs' flat indices, before the reference's sign test, are one array. -/
theorem flat7_fn : kst_main_v249 (F := Ideal) x0 x1 x2 x3 = ReadP.val_main_v378 (F := Ideal) x0 := by
  unfold kst_main_v249 kst_main_v248 kst_main_v246 kst_main_v245 ReadP.val_main_v378 ReadP.val_main_v377 ReadP.val_main_v375 ReadP.val_main_v374
  rw [cell1Z_fn x0 x1 x2 x3, cell1Y_fn x0 x1 x2 x3, cell1X_fn x0 x1 x2 x3] <;> rfl

/-- Corner 7: the kernel's flat index at a query point is `(z * 128 + y) * 128 + x` on 32-bit words. -/
theorem flat7_eq (i : S1048576.Idx) :
    kst_main_v249 (F := Ideal) x0 x1 x2 x3 i
      = IntOp.addi (IntOp.muli (IntOp.addi (IntOp.muli (kst_main_v184 (F := Ideal) x0 x1 x2 x3 i) 128#32) (kst_main_v180 (F := Ideal) x0 x1 x2 x3 i)) 128#32) (kst_main_v176 (F := Ideal) x0 x1 x2 x3 i) := by
  have h1 : kst_main_v247 (F := Ideal) x0 x1 x2 x3 i = 128#32 := by
    unfold kst_main_v247
    exact (bcast0_apply _ _ _ i).trans rfl
  have h2 : kst_main_v244 (F := Ideal) x0 x1 x2 x3 i = 128#32 := by
    unfold kst_main_v244
    exact (bcast0_apply _ _ _ i).trans rfl
  show IntOp.addi (IntOp.muli (IntOp.addi (IntOp.muli (kst_main_v184 (F := Ideal) x0 x1 x2 x3 i) (kst_main_v244 (F := Ideal) x0 x1 x2 x3 i)) (kst_main_v180 (F := Ideal) x0 x1 x2 x3 i)) (kst_main_v247 (F := Ideal) x0 x1 x2 x3 i)) (kst_main_v176 (F := Ideal) x0 x1 x2 x3 i) = _
  rw [h1, h2]

/-- **(c)** corner 7: the kernel's flat index, read as a signed integer, is the natural number
    `(z * 128 + y) * 128 + x` of its three cell words. -/
theorem corner7_toInt (i : S1048576.Idx) :
    (kst_main_v249 (F := Ideal) x0 x1 x2 x3 i).toInt
      = ((((kst_main_v184 (F := Ideal) x0 x1 x2 x3 i).toNat * 128 + (kst_main_v180 (F := Ideal) x0 x1 x2 x3 i).toNat) * 128
          + (kst_main_v176 (F := Ideal) x0 x1 x2 x3 i).toNat : ℕ) : ℤ) := by
  rw [flat7_eq]
  have hx := cell1X_le x0 x1 x2 x3 i
  have hy := cell1Y_le x0 x1 x2 x3 i
  have hz := cell1Z_le x0 x1 x2 x3 i
  rw [LibIndexRange.flat_toInt 127 128 (by norm_num) rfl _ _ _ hx hy hz,
    LibIndexRange.flat_toNat 127 128 (by norm_num) rfl _ _ _ hx hy hz]

/-- **(c)** corner 7: the kernel's flat index and the reference's index after its sign test and
    wrap-around are one word. -/
theorem corner7_eq (i : S1048576.Idx) : kst_main_v249 (F := Ideal) x0 x1 x2 x3 i = ReadP.val_main_v383 (F := Ideal) x0 i := by
  have hsel : ReadP.val_main_v383 (F := Ideal) x0 i
      = Scalar.select (IntOp.cmpi .slt (ReadP.val_main_v378 (F := Ideal) x0 i) 0#32)
          (IntOp.addi (ReadP.val_main_v378 (F := Ideal) x0 i) 2097152#32) (ReadP.val_main_v378 (F := Ideal) x0 i) := by
    simp only [ReadP.val_main_v383_apply, ReadP.val_main_v380_apply, ReadP.val_main_v382_apply, ReadP.val_main_v379_apply,
      ReadP.val_main_c_126_apply, ReadP.val_main_v381_apply, ReadP.val_main_c_127_apply]
  have hI : ReadP.val_main_v378 (F := Ideal) x0 i = kst_main_v249 (F := Ideal) x0 x1 x2 x3 i := (congrFun (flat7_fn x0 x1 x2 x3) i).symm
  have hx := cell1X_le x0 x1 x2 x3 i
  have hy := cell1Y_le x0 x1 x2 x3 i
  have hz := cell1Z_le x0 x1 x2 x3 i
  rw [hsel, hI, flat7_eq]
  exact (LibIndexRange.flat_select 127 128 (by norm_num) rfl _ _ _ hx hy hz 2097152#32).symm

/-! ### The cell words as coordinates on an axis of extent 128 -/

/-- The lower cell coordinate along x of a query point, as an index into the axis. -/
def finX0 (i : S1048576.Idx) : Fin 128 :=
  ⟨(kst_main_v170 (F := Ideal) x0 x1 x2 x3 i).toNat, Nat.lt_succ_of_le (cell0X_le x0 x1 x2 x3 i)⟩

/-- Its value is the cell word's. -/
theorem finX0_val (i : S1048576.Idx) : (finX0 x0 x1 x2 x3 i).val = (kst_main_v170 (F := Ideal) x0 x1 x2 x3 i).toNat := by
  unfold finX0
  exact Fin.val_mk _

/-- The upper cell coordinate along x of a query point, as an index into the axis. -/
def finX1 (i : S1048576.Idx) : Fin 128 :=
  ⟨(kst_main_v176 (F := Ideal) x0 x1 x2 x3 i).toNat, Nat.lt_succ_of_le (cell1X_le x0 x1 x2 x3 i)⟩

/-- Its value is the cell word's. -/
theorem finX1_val (i : S1048576.Idx) : (finX1 x0 x1 x2 x3 i).val = (kst_main_v176 (F := Ideal) x0 x1 x2 x3 i).toNat := by
  unfold finX1
  exact Fin.val_mk _

/-- The lower cell coordinate along y of a query point, as an index into the axis. -/
def finY0 (i : S1048576.Idx) : Fin 128 :=
  ⟨(kst_main_v171 (F := Ideal) x0 x1 x2 x3 i).toNat, Nat.lt_succ_of_le (cell0Y_le x0 x1 x2 x3 i)⟩

/-- Its value is the cell word's. -/
theorem finY0_val (i : S1048576.Idx) : (finY0 x0 x1 x2 x3 i).val = (kst_main_v171 (F := Ideal) x0 x1 x2 x3 i).toNat := by
  unfold finY0
  exact Fin.val_mk _

/-- The upper cell coordinate along y of a query point, as an index into the axis. -/
def finY1 (i : S1048576.Idx) : Fin 128 :=
  ⟨(kst_main_v180 (F := Ideal) x0 x1 x2 x3 i).toNat, Nat.lt_succ_of_le (cell1Y_le x0 x1 x2 x3 i)⟩

/-- Its value is the cell word's. -/
theorem finY1_val (i : S1048576.Idx) : (finY1 x0 x1 x2 x3 i).val = (kst_main_v180 (F := Ideal) x0 x1 x2 x3 i).toNat := by
  unfold finY1
  exact Fin.val_mk _

/-- The lower cell coordinate along z of a query point, as an index into the axis. -/
def finZ0 (i : S1048576.Idx) : Fin 128 :=
  ⟨(kst_main_v172 (F := Ideal) x0 x1 x2 x3 i).toNat, Nat.lt_succ_of_le (cell0Z_le x0 x1 x2 x3 i)⟩

/-- Its value is the cell word's. -/
theorem finZ0_val (i : S1048576.Idx) : (finZ0 x0 x1 x2 x3 i).val = (kst_main_v172 (F := Ideal) x0 x1 x2 x3 i).toNat := by
  unfold finZ0
  exact Fin.val_mk _

/-- The upper cell coordinate along z of a query point, as an index into the axis. -/
def finZ1 (i : S1048576.Idx) : Fin 128 :=
  ⟨(kst_main_v184 (F := Ideal) x0 x1 x2 x3 i).toNat, Nat.lt_succ_of_le (cell1Z_le x0 x1 x2 x3 i)⟩

/-- Its value is the cell word's. -/
theorem finZ1_val (i : S1048576.Idx) : (finZ1 x0 x1 x2 x3 i).val = (kst_main_v184 (F := Ideal) x0 x1 x2 x3 i).toNat := by
  unfold finZ1
  exact Fin.val_mk _

/-- **(c)** corner 0 with its cell coordinates as indices: the flat index is `(z * 128 + y) * 128 + x`. -/
theorem corner0_toInt_fin (i : S1048576.Idx) :
    (kst_main_v193 (F := Ideal) x0 x1 x2 x3 i).toInt
      = ((((finZ0 x0 x1 x2 x3 i).val * 128 + (finY0 x0 x1 x2 x3 i).val) * 128
          + (finX0 x0 x1 x2 x3 i).val : ℕ) : ℤ) := by
  rw [finZ0_val, finY0_val, finX0_val]
  exact corner0_toInt x0 x1 x2 x3 i

/-- **(c)** corner 1 with its cell coordinates as indices: the flat index is `(z * 128 + y) * 128 + x`. -/
theorem corner1_toInt_fin (i : S1048576.Idx) :
    (kst_main_v201 (F := Ideal) x0 x1 x2 x3 i).toInt
      = ((((finZ0 x0 x1 x2 x3 i).val * 128 + (finY0 x0 x1 x2 x3 i).val) * 128
          + (finX1 x0 x1 x2 x3 i).val : ℕ) : ℤ) := by
  rw [finZ0_val, finY0_val, finX1_val]
  exact corner1_toInt x0 x1 x2 x3 i

/-- **(c)** corner 2 with its cell coordinates as indices: the flat index is `(z * 128 + y) * 128 + x`. -/
theorem corner2_toInt_fin (i : S1048576.Idx) :
    (kst_main_v209 (F := Ideal) x0 x1 x2 x3 i).toInt
      = ((((finZ0 x0 x1 x2 x3 i).val * 128 + (finY1 x0 x1 x2 x3 i).val) * 128
          + (finX0 x0 x1 x2 x3 i).val : ℕ) : ℤ) := by
  rw [finZ0_val, finY1_val, finX0_val]
  exact corner2_toInt x0 x1 x2 x3 i

/-- **(c)** corner 3 with its cell coordinates as indices: the flat index is `(z * 128 + y) * 128 + x`. -/
theorem corner3_toInt_fin (i : S1048576.Idx) :
    (kst_main_v217 (F := Ideal) x0 x1 x2 x3 i).toInt
      = ((((finZ0 x0 x1 x2 x3 i).val * 128 + (finY1 x0 x1 x2 x3 i).val) * 128
          + (finX1 x0 x1 x2 x3 i).val : ℕ) : ℤ) := by
  rw [finZ0_val, finY1_val, finX1_val]
  exact corner3_toInt x0 x1 x2 x3 i

/-- **(c)** corner 4 with its cell coordinates as indices: the flat index is `(z * 128 + y) * 128 + x`. -/
theorem corner4_toInt_fin (i : S1048576.Idx) :
    (kst_main_v225 (F := Ideal) x0 x1 x2 x3 i).toInt
      = ((((finZ1 x0 x1 x2 x3 i).val * 128 + (finY0 x0 x1 x2 x3 i).val) * 128
          + (finX0 x0 x1 x2 x3 i).val : ℕ) : ℤ) := by
  rw [finZ1_val, finY0_val, finX0_val]
  exact corner4_toInt x0 x1 x2 x3 i

/-- **(c)** corner 5 with its cell coordinates as indices: the flat index is `(z * 128 + y) * 128 + x`. -/
theorem corner5_toInt_fin (i : S1048576.Idx) :
    (kst_main_v233 (F := Ideal) x0 x1 x2 x3 i).toInt
      = ((((finZ1 x0 x1 x2 x3 i).val * 128 + (finY0 x0 x1 x2 x3 i).val) * 128
          + (finX1 x0 x1 x2 x3 i).val : ℕ) : ℤ) := by
  rw [finZ1_val, finY0_val, finX1_val]
  exact corner5_toInt x0 x1 x2 x3 i

/-- **(c)** corner 6 with its cell coordinates as indices: the flat index is `(z * 128 + y) * 128 + x`. -/
theorem corner6_toInt_fin (i : S1048576.Idx) :
    (kst_main_v241 (F := Ideal) x0 x1 x2 x3 i).toInt
      = ((((finZ1 x0 x1 x2 x3 i).val * 128 + (finY1 x0 x1 x2 x3 i).val) * 128
          + (finX0 x0 x1 x2 x3 i).val : ℕ) : ℤ) := by
  rw [finZ1_val, finY1_val, finX0_val]
  exact corner6_toInt x0 x1 x2 x3 i

/-- **(c)** corner 7 with its cell coordinates as indices: the flat index is `(z * 128 + y) * 128 + x`. -/
theorem corner7_toInt_fin (i : S1048576.Idx) :
    (kst_main_v249 (F := Ideal) x0 x1 x2 x3 i).toInt
      = ((((finZ1 x0 x1 x2 x3 i).val * 128 + (finY1 x0 x1 x2 x3 i).val) * 128
          + (finX1 x0 x1 x2 x3 i).val : ℕ) : ℤ) := by
  rw [finZ1_val, finY1_val, finX1_val]
  exact corner7_toInt x0 x1 x2 x3 i

end Cert.Proof.GlueCoords1

end
-- ==== Proof.CornersAgree1.lean ====
/-
  The eight corner arrays of volume 1 (extent 128) are the same arrays in the two programs.

  For every output point `n` and each corner of its sampling cell the two programs' index words are one word, reading
  signed as the corner's flat position `(z · 128 + y) · 128 + x` with `z, y, x` below 128; each program's gathered array read at
  `(ch, n)` is then the volume's element `(0, ch, z, y, x)`, so the arrays agree element by element.
-/
import proofs.«113233_j37486474559588_2_alg».proof.Proof.GlueCorners1
import proofs.«113233_j37486474559588_2_alg».proof.Proof.GlueCoords1

noncomputable section

namespace Cert.Proof.CornersAgree1

open Idealize.ShloMosaic Idealize.ShloMosaic.ValueIdx Cert.Proof.GlueCorners1 Cert.Proof.GlueCoords1

/-- Corner (z₀, y₀, x₀): the kernel's array at `(ch, n)` is the volume's element at the cell coordinates the point's index
    words name. -/
theorem kval_v195 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v195 (F := Ideal) x0 x1 x2 x3 (ix2 ch n) = x2 (ix5 0 ch (finZ0 x0 x1 x2 x3 (ix1 n)) (finY0 x0 x1 x2 x3 (ix1 n)) (finX0 x0 x1 x2 x3 (ix1 n))) :=
  kread_v195 x0 x1 x2 x3 ch n (finX0 x0 x1 x2 x3 (ix1 n)) (finY0 x0 x1 x2 x3 (ix1 n)) (finZ0 x0 x1 x2 x3 (ix1 n)) (corner0_toInt_fin x0 x1 x2 x3 (ix1 n))

/-- Corner (z₀, y₀, x₀): the two programs' arrays agree at every `(ch, n)`: their index words are the same word, and it
    reads signed as the flat position of the cell `(z, y, x)` the point's coordinates name. -/
theorem agree_v195_v294 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v195 (F := Ideal) x0 x1 x2 x3 (ix2 ch n) = Cert.ReferenceIdeal.ReadP.val_main_v294 (F := Ideal) x0 x2 (ix2 ch n) :=
  corner_v195_v294_of_same x0 x1 x2 x3 ch n (finX0 x0 x1 x2 x3 (ix1 n)) (finY0 x0 x1 x2 x3 (ix1 n)) (finZ0 x0 x1 x2 x3 (ix1 n))
    (corner0_eq x0 x1 x2 x3 (ix1 n)) (corner0_toInt_fin x0 x1 x2 x3 (ix1 n))

/-- Corner (z₀, y₀, x₀): the two arrays are equal. -/
theorem agree_v195_v294_fn (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal)) :
    Cert.KernelIdeal.Host.kst_main_v195 (F := Ideal) x0 x1 x2 x3 = Cert.ReferenceIdeal.ReadP.val_main_v294 (F := Ideal) x0 x2 := by
  funext j
  obtain ⟨ch, n, rfl⟩ : ∃ (ch : Fin 4) (n : Fin 1048576), j = ix2 ch n := ⟨j 0, j 1, eq_ix2 j⟩
  exact agree_v195_v294 x0 x1 x2 x3 ch n

/-- Corner (z₀, y₀, x₁): the kernel's array at `(ch, n)` is the volume's element at the cell coordinates the point's index
    words name. -/
theorem kval_v203 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v203 (F := Ideal) x0 x1 x2 x3 (ix2 ch n) = x2 (ix5 0 ch (finZ0 x0 x1 x2 x3 (ix1 n)) (finY0 x0 x1 x2 x3 (ix1 n)) (finX1 x0 x1 x2 x3 (ix1 n))) :=
  kread_v203 x0 x1 x2 x3 ch n (finX1 x0 x1 x2 x3 (ix1 n)) (finY0 x0 x1 x2 x3 (ix1 n)) (finZ0 x0 x1 x2 x3 (ix1 n)) (corner1_toInt_fin x0 x1 x2 x3 (ix1 n))

/-- Corner (z₀, y₀, x₁): the two programs' arrays agree at every `(ch, n)`: their index words are the same word, and it
    reads signed as the flat position of the cell `(z, y, x)` the point's coordinates name. -/
theorem agree_v203_v307 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v203 (F := Ideal) x0 x1 x2 x3 (ix2 ch n) = Cert.ReferenceIdeal.ReadP.val_main_v307 (F := Ideal) x0 x2 (ix2 ch n) :=
  corner_v203_v307_of_same x0 x1 x2 x3 ch n (finX1 x0 x1 x2 x3 (ix1 n)) (finY0 x0 x1 x2 x3 (ix1 n)) (finZ0 x0 x1 x2 x3 (ix1 n))
    (corner1_eq x0 x1 x2 x3 (ix1 n)) (corner1_toInt_fin x0 x1 x2 x3 (ix1 n))

/-- Corner (z₀, y₀, x₁): the two arrays are equal. -/
theorem agree_v203_v307_fn (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal)) :
    Cert.KernelIdeal.Host.kst_main_v203 (F := Ideal) x0 x1 x2 x3 = Cert.ReferenceIdeal.ReadP.val_main_v307 (F := Ideal) x0 x2 := by
  funext j
  obtain ⟨ch, n, rfl⟩ : ∃ (ch : Fin 4) (n : Fin 1048576), j = ix2 ch n := ⟨j 0, j 1, eq_ix2 j⟩
  exact agree_v203_v307 x0 x1 x2 x3 ch n

/-- Corner (z₀, y₁, x₀): the kernel's array at `(ch, n)` is the volume's element at the cell coordinates the point's index
    words name. -/
theorem kval_v211 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v211 (F := Ideal) x0 x1 x2 x3 (ix2 ch n) = x2 (ix5 0 ch (finZ0 x0 x1 x2 x3 (ix1 n)) (finY1 x0 x1 x2 x3 (ix1 n)) (finX0 x0 x1 x2 x3 (ix1 n))) :=
  kread_v211 x0 x1 x2 x3 ch n (finX0 x0 x1 x2 x3 (ix1 n)) (finY1 x0 x1 x2 x3 (ix1 n)) (finZ0 x0 x1 x2 x3 (ix1 n)) (corner2_toInt_fin x0 x1 x2 x3 (ix1 n))

/-- Corner (z₀, y₁, x₀): the two programs' arrays agree at every `(ch, n)`: their index words are the same word, and it
    reads signed as the flat position of the cell `(z, y, x)` the point's coordinates name. -/
theorem agree_v211_v320 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v211 (F := Ideal) x0 x1 x2 x3 (ix2 ch n) = Cert.ReferenceIdeal.ReadP.val_main_v320 (F := Ideal) x0 x2 (ix2 ch n) :=
  corner_v211_v320_of_same x0 x1 x2 x3 ch n (finX0 x0 x1 x2 x3 (ix1 n)) (finY1 x0 x1 x2 x3 (ix1 n)) (finZ0 x0 x1 x2 x3 (ix1 n))
    (corner2_eq x0 x1 x2 x3 (ix1 n)) (corner2_toInt_fin x0 x1 x2 x3 (ix1 n))

/-- Corner (z₀, y₁, x₀): the two arrays are equal. -/
theorem agree_v211_v320_fn (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal)) :
    Cert.KernelIdeal.Host.kst_main_v211 (F := Ideal) x0 x1 x2 x3 = Cert.ReferenceIdeal.ReadP.val_main_v320 (F := Ideal) x0 x2 := by
  funext j
  obtain ⟨ch, n, rfl⟩ : ∃ (ch : Fin 4) (n : Fin 1048576), j = ix2 ch n := ⟨j 0, j 1, eq_ix2 j⟩
  exact agree_v211_v320 x0 x1 x2 x3 ch n

/-- Corner (z₀, y₁, x₁): the kernel's array at `(ch, n)` is the volume's element at the cell coordinates the point's index
    words name. -/
theorem kval_v219 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v219 (F := Ideal) x0 x1 x2 x3 (ix2 ch n) = x2 (ix5 0 ch (finZ0 x0 x1 x2 x3 (ix1 n)) (finY1 x0 x1 x2 x3 (ix1 n)) (finX1 x0 x1 x2 x3 (ix1 n))) :=
  kread_v219 x0 x1 x2 x3 ch n (finX1 x0 x1 x2 x3 (ix1 n)) (finY1 x0 x1 x2 x3 (ix1 n)) (finZ0 x0 x1 x2 x3 (ix1 n)) (corner3_toInt_fin x0 x1 x2 x3 (ix1 n))

/-- Corner (z₀, y₁, x₁): the two programs' arrays agree at every `(ch, n)`: their index words are the same word, and it
    reads signed as the flat position of the cell `(z, y, x)` the point's coordinates name. -/
theorem agree_v219_v333 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v219 (F := Ideal) x0 x1 x2 x3 (ix2 ch n) = Cert.ReferenceIdeal.ReadP.val_main_v333 (F := Ideal) x0 x2 (ix2 ch n) :=
  corner_v219_v333_of_same x0 x1 x2 x3 ch n (finX1 x0 x1 x2 x3 (ix1 n)) (finY1 x0 x1 x2 x3 (ix1 n)) (finZ0 x0 x1 x2 x3 (ix1 n))
    (corner3_eq x0 x1 x2 x3 (ix1 n)) (corner3_toInt_fin x0 x1 x2 x3 (ix1 n))

/-- Corner (z₀, y₁, x₁): the two arrays are equal. -/
theorem agree_v219_v333_fn (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal)) :
    Cert.KernelIdeal.Host.kst_main_v219 (F := Ideal) x0 x1 x2 x3 = Cert.ReferenceIdeal.ReadP.val_main_v333 (F := Ideal) x0 x2 := by
  funext j
  obtain ⟨ch, n, rfl⟩ : ∃ (ch : Fin 4) (n : Fin 1048576), j = ix2 ch n := ⟨j 0, j 1, eq_ix2 j⟩
  exact agree_v219_v333 x0 x1 x2 x3 ch n

/-- Corner (z₁, y₀, x₀): the kernel's array at `(ch, n)` is the volume's element at the cell coordinates the point's index
    words name. -/
theorem kval_v227 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v227 (F := Ideal) x0 x1 x2 x3 (ix2 ch n) = x2 (ix5 0 ch (finZ1 x0 x1 x2 x3 (ix1 n)) (finY0 x0 x1 x2 x3 (ix1 n)) (finX0 x0 x1 x2 x3 (ix1 n))) :=
  kread_v227 x0 x1 x2 x3 ch n (finX0 x0 x1 x2 x3 (ix1 n)) (finY0 x0 x1 x2 x3 (ix1 n)) (finZ1 x0 x1 x2 x3 (ix1 n)) (corner4_toInt_fin x0 x1 x2 x3 (ix1 n))

/-- Corner (z₁, y₀, x₀): the two programs' arrays agree at every `(ch, n)`: their index words are the same word, and it
    reads signed as the flat position of the cell `(z, y, x)` the point's coordinates name. -/
theorem agree_v227_v346 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v227 (F := Ideal) x0 x1 x2 x3 (ix2 ch n) = Cert.ReferenceIdeal.ReadP.val_main_v346 (F := Ideal) x0 x2 (ix2 ch n) :=
  corner_v227_v346_of_same x0 x1 x2 x3 ch n (finX0 x0 x1 x2 x3 (ix1 n)) (finY0 x0 x1 x2 x3 (ix1 n)) (finZ1 x0 x1 x2 x3 (ix1 n))
    (corner4_eq x0 x1 x2 x3 (ix1 n)) (corner4_toInt_fin x0 x1 x2 x3 (ix1 n))

/-- Corner (z₁, y₀, x₀): the two arrays are equal. -/
theorem agree_v227_v346_fn (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal)) :
    Cert.KernelIdeal.Host.kst_main_v227 (F := Ideal) x0 x1 x2 x3 = Cert.ReferenceIdeal.ReadP.val_main_v346 (F := Ideal) x0 x2 := by
  funext j
  obtain ⟨ch, n, rfl⟩ : ∃ (ch : Fin 4) (n : Fin 1048576), j = ix2 ch n := ⟨j 0, j 1, eq_ix2 j⟩
  exact agree_v227_v346 x0 x1 x2 x3 ch n

/-- Corner (z₁, y₀, x₁): the kernel's array at `(ch, n)` is the volume's element at the cell coordinates the point's index
    words name. -/
theorem kval_v235 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v235 (F := Ideal) x0 x1 x2 x3 (ix2 ch n) = x2 (ix5 0 ch (finZ1 x0 x1 x2 x3 (ix1 n)) (finY0 x0 x1 x2 x3 (ix1 n)) (finX1 x0 x1 x2 x3 (ix1 n))) :=
  kread_v235 x0 x1 x2 x3 ch n (finX1 x0 x1 x2 x3 (ix1 n)) (finY0 x0 x1 x2 x3 (ix1 n)) (finZ1 x0 x1 x2 x3 (ix1 n)) (corner5_toInt_fin x0 x1 x2 x3 (ix1 n))

/-- Corner (z₁, y₀, x₁): the two programs' arrays agree at every `(ch, n)`: their index words are the same word, and it
    reads signed as the flat position of the cell `(z, y, x)` the point's coordinates name. -/
theorem agree_v235_v359 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v235 (F := Ideal) x0 x1 x2 x3 (ix2 ch n) = Cert.ReferenceIdeal.ReadP.val_main_v359 (F := Ideal) x0 x2 (ix2 ch n) :=
  corner_v235_v359_of_same x0 x1 x2 x3 ch n (finX1 x0 x1 x2 x3 (ix1 n)) (finY0 x0 x1 x2 x3 (ix1 n)) (finZ1 x0 x1 x2 x3 (ix1 n))
    (corner5_eq x0 x1 x2 x3 (ix1 n)) (corner5_toInt_fin x0 x1 x2 x3 (ix1 n))

/-- Corner (z₁, y₀, x₁): the two arrays are equal. -/
theorem agree_v235_v359_fn (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal)) :
    Cert.KernelIdeal.Host.kst_main_v235 (F := Ideal) x0 x1 x2 x3 = Cert.ReferenceIdeal.ReadP.val_main_v359 (F := Ideal) x0 x2 := by
  funext j
  obtain ⟨ch, n, rfl⟩ : ∃ (ch : Fin 4) (n : Fin 1048576), j = ix2 ch n := ⟨j 0, j 1, eq_ix2 j⟩
  exact agree_v235_v359 x0 x1 x2 x3 ch n

/-- Corner (z₁, y₁, x₀): the kernel's array at `(ch, n)` is the volume's element at the cell coordinates the point's index
    words name. -/
theorem kval_v243 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v243 (F := Ideal) x0 x1 x2 x3 (ix2 ch n) = x2 (ix5 0 ch (finZ1 x0 x1 x2 x3 (ix1 n)) (finY1 x0 x1 x2 x3 (ix1 n)) (finX0 x0 x1 x2 x3 (ix1 n))) :=
  kread_v243 x0 x1 x2 x3 ch n (finX0 x0 x1 x2 x3 (ix1 n)) (finY1 x0 x1 x2 x3 (ix1 n)) (finZ1 x0 x1 x2 x3 (ix1 n)) (corner6_toInt_fin x0 x1 x2 x3 (ix1 n))

/-- Corner (z₁, y₁, x₀): the two programs' arrays agree at every `(ch, n)`: their index words are the same word, and it
    reads signed as the flat position of the cell `(z, y, x)` the point's coordinates name. -/
theorem agree_v243_v372 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v243 (F := Ideal) x0 x1 x2 x3 (ix2 ch n) = Cert.ReferenceIdeal.ReadP.val_main_v372 (F := Ideal) x0 x2 (ix2 ch n) :=
  corner_v243_v372_of_same x0 x1 x2 x3 ch n (finX0 x0 x1 x2 x3 (ix1 n)) (finY1 x0 x1 x2 x3 (ix1 n)) (finZ1 x0 x1 x2 x3 (ix1 n))
    (corner6_eq x0 x1 x2 x3 (ix1 n)) (corner6_toInt_fin x0 x1 x2 x3 (ix1 n))

/-- Corner (z₁, y₁, x₀): the two arrays are equal. -/
theorem agree_v243_v372_fn (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal)) :
    Cert.KernelIdeal.Host.kst_main_v243 (F := Ideal) x0 x1 x2 x3 = Cert.ReferenceIdeal.ReadP.val_main_v372 (F := Ideal) x0 x2 := by
  funext j
  obtain ⟨ch, n, rfl⟩ : ∃ (ch : Fin 4) (n : Fin 1048576), j = ix2 ch n := ⟨j 0, j 1, eq_ix2 j⟩
  exact agree_v243_v372 x0 x1 x2 x3 ch n

/-- Corner (z₁, y₁, x₁): the kernel's array at `(ch, n)` is the volume's element at the cell coordinates the point's index
    words name. -/
theorem kval_v251 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v251 (F := Ideal) x0 x1 x2 x3 (ix2 ch n) = x2 (ix5 0 ch (finZ1 x0 x1 x2 x3 (ix1 n)) (finY1 x0 x1 x2 x3 (ix1 n)) (finX1 x0 x1 x2 x3 (ix1 n))) :=
  kread_v251 x0 x1 x2 x3 ch n (finX1 x0 x1 x2 x3 (ix1 n)) (finY1 x0 x1 x2 x3 (ix1 n)) (finZ1 x0 x1 x2 x3 (ix1 n)) (corner7_toInt_fin x0 x1 x2 x3 (ix1 n))

/-- Corner (z₁, y₁, x₁): the two programs' arrays agree at every `(ch, n)`: their index words are the same word, and it
    reads signed as the flat position of the cell `(z, y, x)` the point's coordinates name. -/
theorem agree_v251_v385 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v251 (F := Ideal) x0 x1 x2 x3 (ix2 ch n) = Cert.ReferenceIdeal.ReadP.val_main_v385 (F := Ideal) x0 x2 (ix2 ch n) :=
  corner_v251_v385_of_same x0 x1 x2 x3 ch n (finX1 x0 x1 x2 x3 (ix1 n)) (finY1 x0 x1 x2 x3 (ix1 n)) (finZ1 x0 x1 x2 x3 (ix1 n))
    (corner7_eq x0 x1 x2 x3 (ix1 n)) (corner7_toInt_fin x0 x1 x2 x3 (ix1 n))

/-- Corner (z₁, y₁, x₁): the two arrays are equal. -/
theorem agree_v251_v385_fn (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal)) :
    Cert.KernelIdeal.Host.kst_main_v251 (F := Ideal) x0 x1 x2 x3 = Cert.ReferenceIdeal.ReadP.val_main_v385 (F := Ideal) x0 x2 := by
  funext j
  obtain ⟨ch, n, rfl⟩ : ∃ (ch : Fin 4) (n : Fin 1048576), j = ix2 ch n := ⟨j 0, j 1, eq_ix2 j⟩
  exact agree_v251_v385 x0 x1 x2 x3 ch n

end Cert.Proof.CornersAgree1

end
-- ==== Proof.GlueCorners2.lean ====
/-
  The eight corner arrays of volume 2 (extent 192) agree element by element in the two programs.

  Each program gathers, for every output point `n` and each of the eight corners `(z, y, x)` of the point's sampling cell,
  the four channel values of the volume at that corner, as an array `[4, N]`. The kernel's array and the reference's are
  each read at `(ch, n)` down to the volume's element `(0, ch, z, y, x)` (the corner reads), under the one hypothesis
  that the program's `n`-th index word reads signed as the corner's flat position `(z · 192 + y) · 192 + x`; the two
  arrays then agree there. The corners come in the order `(z, y, x)` = 000, 001, 010, 011, 100, 101, 110, 111, where 0 is
  the cell's base coordinate and 1 its successor, in both programs.
-/
import proofs.«113233_j37486474559588_2_alg».proof.Proof.HostStagesIdeal
import proofs.«113233_j37486474559588_2_alg».proof.Proof.RefReadP
import proofs.«113233_j37486474559588_2_alg».proof.Proof.CornerReads

noncomputable section

namespace Cert.Proof.GlueCorners2

open Idealize.ShloMosaic Idealize.ShloMosaic.ValueIdx Cert.Proof.CornerReads

/-! ## The kernel's eight arrays -/

/-- Corner (z₀, y₀, x₀), the kernel's array: its element `(ch, n)` is the volume's at `(0, ch, z, y, x)` once the `n`-th flat
    index read signed is `(z · 192 + y) · 192 + x`. -/
theorem kread_v326 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 192)
    (hK : (Cert.KernelIdeal.Host.kst_main_v324 (F := Ideal) x0 x1 x2 x3 (ix1 n)).toInt = (((z.val * 192 + y.val) * 192 + x.val : ℕ) : Int)) :
    Cert.KernelIdeal.Host.kst_main_v326 (F := Ideal) x0 x1 x2 x3 (ix2 ch n) = x3 (ix5 0 ch z y x) :=
  kcorner2 x3 (Cert.KernelIdeal.Host.kst_main_v324 (F := Ideal) x0 x1 x2 x3) ch n x y z hK

/-- Corner (z₀, y₀, x₁), the kernel's array: its element `(ch, n)` is the volume's at `(0, ch, z, y, x)` once the `n`-th flat
    index read signed is `(z · 192 + y) · 192 + x`. -/
theorem kread_v334 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 192)
    (hK : (Cert.KernelIdeal.Host.kst_main_v332 (F := Ideal) x0 x1 x2 x3 (ix1 n)).toInt = (((z.val * 192 + y.val) * 192 + x.val : ℕ) : Int)) :
    Cert.KernelIdeal.Host.kst_main_v334 (F := Ideal) x0 x1 x2 x3 (ix2 ch n) = x3 (ix5 0 ch z y x) :=
  kcorner2 x3 (Cert.KernelIdeal.Host.kst_main_v332 (F := Ideal) x0 x1 x2 x3) ch n x y z hK

/-- Corner (z₀, y₁, x₀), the kernel's array: its element `(ch, n)` is the volume's at `(0, ch, z, y, x)` once the `n`-th flat
    index read signed is `(z · 192 + y) · 192 + x`. -/
theorem kread_v342 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 192)
    (hK : (Cert.KernelIdeal.Host.kst_main_v340 (F := Ideal) x0 x1 x2 x3 (ix1 n)).toInt = (((z.val * 192 + y.val) * 192 + x.val : ℕ) : Int)) :
    Cert.KernelIdeal.Host.kst_main_v342 (F := Ideal) x0 x1 x2 x3 (ix2 ch n) = x3 (ix5 0 ch z y x) :=
  kcorner2 x3 (Cert.KernelIdeal.Host.kst_main_v340 (F := Ideal) x0 x1 x2 x3) ch n x y z hK

/-- Corner (z₀, y₁, x₁), the kernel's array: its element `(ch, n)` is the volume's at `(0, ch, z, y, x)` once the `n`-th flat
    index read signed is `(z · 192 + y) · 192 + x`. -/
theorem kread_v350 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 192)
    (hK : (Cert.KernelIdeal.Host.kst_main_v348 (F := Ideal) x0 x1 x2 x3 (ix1 n)).toInt = (((z.val * 192 + y.val) * 192 + x.val : ℕ) : Int)) :
    Cert.KernelIdeal.Host.kst_main_v350 (F := Ideal) x0 x1 x2 x3 (ix2 ch n) = x3 (ix5 0 ch z y x) :=
  kcorner2 x3 (Cert.KernelIdeal.Host.kst_main_v348 (F := Ideal) x0 x1 x2 x3) ch n x y z hK

/-- Corner (z₁, y₀, x₀), the kernel's array: its element `(ch, n)` is the volume's at `(0, ch, z, y, x)` once the `n`-th flat
    index read signed is `(z · 192 + y) · 192 + x`. -/
theorem kread_v358 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 192)
    (hK : (Cert.KernelIdeal.Host.kst_main_v356 (F := Ideal) x0 x1 x2 x3 (ix1 n)).toInt = (((z.val * 192 + y.val) * 192 + x.val : ℕ) : Int)) :
    Cert.KernelIdeal.Host.kst_main_v358 (F := Ideal) x0 x1 x2 x3 (ix2 ch n) = x3 (ix5 0 ch z y x) :=
  kcorner2 x3 (Cert.KernelIdeal.Host.kst_main_v356 (F := Ideal) x0 x1 x2 x3) ch n x y z hK

/-- Corner (z₁, y₀, x₁), the kernel's array: its element `(ch, n)` is the volume's at `(0, ch, z, y, x)` once the `n`-th flat
    index read signed is `(z · 192 + y) · 192 + x`. -/
theorem kread_v366 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 192)
    (hK : (Cert.KernelIdeal.Host.kst_main_v364 (F := Ideal) x0 x1 x2 x3 (ix1 n)).toInt = (((z.val * 192 + y.val) * 192 + x.val : ℕ) : Int)) :
    Cert.KernelIdeal.Host.kst_main_v366 (F := Ideal) x0 x1 x2 x3 (ix2 ch n) = x3 (ix5 0 ch z y x) :=
  kcorner2 x3 (Cert.KernelIdeal.Host.kst_main_v364 (F := Ideal) x0 x1 x2 x3) ch n x y z hK

/-- Corner (z₁, y₁, x₀), the kernel's array: its element `(ch, n)` is the volume's at `(0, ch, z, y, x)` once the `n`-th flat
    index read signed is `(z · 192 + y) · 192 + x`. -/
theorem kread_v374 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 192)
    (hK : (Cert.KernelIdeal.Host.kst_main_v372 (F := Ideal) x0 x1 x2 x3 (ix1 n)).toInt = (((z.val * 192 + y.val) * 192 + x.val : ℕ) : Int)) :
    Cert.KernelIdeal.Host.kst_main_v374 (F := Ideal) x0 x1 x2 x3 (ix2 ch n) = x3 (ix5 0 ch z y x) :=
  kcorner2 x3 (Cert.KernelIdeal.Host.kst_main_v372 (F := Ideal) x0 x1 x2 x3) ch n x y z hK

/-- Corner (z₁, y₁, x₁), the kernel's array: its element `(ch, n)` is the volume's at `(0, ch, z, y, x)` once the `n`-th flat
    index read signed is `(z · 192 + y) · 192 + x`. -/
theorem kread_v382 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 192)
    (hK : (Cert.KernelIdeal.Host.kst_main_v380 (F := Ideal) x0 x1 x2 x3 (ix1 n)).toInt = (((z.val * 192 + y.val) * 192 + x.val : ℕ) : Int)) :
    Cert.KernelIdeal.Host.kst_main_v382 (F := Ideal) x0 x1 x2 x3 (ix2 ch n) = x3 (ix5 0 ch z y x) :=
  kcorner2 x3 (Cert.KernelIdeal.Host.kst_main_v380 (F := Ideal) x0 x1 x2 x3) ch n x y z hK

/-! ## The reference's eight arrays -/

/-- Corner (z₀, y₀, x₀), the reference's array: its element `(ch, n)` is the volume's at `(0, ch, z, y, x)` once the `n`-th
    selected index read signed is `(z · 192 + y) · 192 + x`. -/
theorem rread_v505 (x0 : (⟨Cert.KernelIdeal.S1x1x1x1048576x3, .f32⟩ : BufTy).Contents (Elt Ideal)) (x3 : (⟨Cert.KernelIdeal.S1x4x192x192x192, .f32⟩ : BufTy).Contents (Elt Ideal))
    (ch : Fin 4) (n : Fin 1048576) (x y z : Fin 192)
    (hR : (Cert.ReferenceIdeal.ReadP.val_main_v503 (F := Ideal) x0 (ix1 n)).toInt = (((z.val * 192 + y.val) * 192 + x.val : ℕ) : Int)) :
    Cert.ReferenceIdeal.ReadP.val_main_v505 (F := Ideal) x0 x3 (ix2 ch n) = x3 (ix5 0 ch z y x) :=
  rcorner2 x3 (Cert.ReferenceIdeal.ReadP.val_main_v503 (F := Ideal) x0) ch n x y z hR

/-- Corner (z₀, y₀, x₁), the reference's array: its element `(ch, n)` is the volume's at `(0, ch, z, y, x)` once the `n`-th
    selected index read signed is `(z · 192 + y) · 192 + x`. -/
theorem rread_v518 (x0 : (⟨Cert.KernelIdeal.S1x1x1x1048576x3, .f32⟩ : BufTy).Contents (Elt Ideal)) (x3 : (⟨Cert.KernelIdeal.S1x4x192x192x192, .f32⟩ : BufTy).Contents (Elt Ideal))
    (ch : Fin 4) (n : Fin 1048576) (x y z : Fin 192)
    (hR : (Cert.ReferenceIdeal.ReadP.val_main_v516 (F := Ideal) x0 (ix1 n)).toInt = (((z.val * 192 + y.val) * 192 + x.val : ℕ) : Int)) :
    Cert.ReferenceIdeal.ReadP.val_main_v518 (F := Ideal) x0 x3 (ix2 ch n) = x3 (ix5 0 ch z y x) :=
  rcorner2 x3 (Cert.ReferenceIdeal.ReadP.val_main_v516 (F := Ideal) x0) ch n x y z hR

/-- Corner (z₀, y₁, x₀), the reference's array: its element `(ch, n)` is the volume's at `(0, ch, z, y, x)` once the `n`-th
    selected index read signed is `(z · 192 + y) · 192 + x`. -/
theorem rread_v531 (x0 : (⟨Cert.KernelIdeal.S1x1x1x1048576x3, .f32⟩ : BufTy).Contents (Elt Ideal)) (x3 : (⟨Cert.KernelIdeal.S1x4x192x192x192, .f32⟩ : BufTy).Contents (Elt Ideal))
    (ch : Fin 4) (n : Fin 1048576) (x y z : Fin 192)
    (hR : (Cert.ReferenceIdeal.ReadP.val_main_v529 (F := Ideal) x0 (ix1 n)).toInt = (((z.val * 192 + y.val) * 192 + x.val : ℕ) : Int)) :
    Cert.ReferenceIdeal.ReadP.val_main_v531 (F := Ideal) x0 x3 (ix2 ch n) = x3 (ix5 0 ch z y x) :=
  rcorner2 x3 (Cert.ReferenceIdeal.ReadP.val_main_v529 (F := Ideal) x0) ch n x y z hR

/-- Corner (z₀, y₁, x₁), the reference's array: its element `(ch, n)` is the volume's at `(0, ch, z, y, x)` once the `n`-th
    selected index read signed is `(z · 192 + y) · 192 + x`. -/
theorem rread_v544 (x0 : (⟨Cert.KernelIdeal.S1x1x1x1048576x3, .f32⟩ : BufTy).Contents (Elt Ideal)) (x3 : (⟨Cert.KernelIdeal.S1x4x192x192x192, .f32⟩ : BufTy).Contents (Elt Ideal))
    (ch : Fin 4) (n : Fin 1048576) (x y z : Fin 192)
    (hR : (Cert.ReferenceIdeal.ReadP.val_main_v542 (F := Ideal) x0 (ix1 n)).toInt = (((z.val * 192 + y.val) * 192 + x.val : ℕ) : Int)) :
    Cert.ReferenceIdeal.ReadP.val_main_v544 (F := Ideal) x0 x3 (ix2 ch n) = x3 (ix5 0 ch z y x) :=
  rcorner2 x3 (Cert.ReferenceIdeal.ReadP.val_main_v542 (F := Ideal) x0) ch n x y z hR

/-- Corner (z₁, y₀, x₀), the reference's array: its element `(ch, n)` is the volume's at `(0, ch, z, y, x)` once the `n`-th
    selected index read signed is `(z · 192 + y) · 192 + x`. -/
theorem rread_v557 (x0 : (⟨Cert.KernelIdeal.S1x1x1x1048576x3, .f32⟩ : BufTy).Contents (Elt Ideal)) (x3 : (⟨Cert.KernelIdeal.S1x4x192x192x192, .f32⟩ : BufTy).Contents (Elt Ideal))
    (ch : Fin 4) (n : Fin 1048576) (x y z : Fin 192)
    (hR : (Cert.ReferenceIdeal.ReadP.val_main_v555 (F := Ideal) x0 (ix1 n)).toInt = (((z.val * 192 + y.val) * 192 + x.val : ℕ) : Int)) :
    Cert.ReferenceIdeal.ReadP.val_main_v557 (F := Ideal) x0 x3 (ix2 ch n) = x3 (ix5 0 ch z y x) :=
  rcorner2 x3 (Cert.ReferenceIdeal.ReadP.val_main_v555 (F := Ideal) x0) ch n x y z hR

/-- Corner (z₁, y₀, x₁), the reference's array: its element `(ch, n)` is the volume's at `(0, ch, z, y, x)` once the `n`-th
    selected index read signed is `(z · 192 + y) · 192 + x`. -/
theorem rread_v570 (x0 : (⟨Cert.KernelIdeal.S1x1x1x1048576x3, .f32⟩ : BufTy).Contents (Elt Ideal)) (x3 : (⟨Cert.KernelIdeal.S1x4x192x192x192, .f32⟩ : BufTy).Contents (Elt Ideal))
    (ch : Fin 4) (n : Fin 1048576) (x y z : Fin 192)
    (hR : (Cert.ReferenceIdeal.ReadP.val_main_v568 (F := Ideal) x0 (ix1 n)).toInt = (((z.val * 192 + y.val) * 192 + x.val : ℕ) : Int)) :
    Cert.ReferenceIdeal.ReadP.val_main_v570 (F := Ideal) x0 x3 (ix2 ch n) = x3 (ix5 0 ch z y x) :=
  rcorner2 x3 (Cert.ReferenceIdeal.ReadP.val_main_v568 (F := Ideal) x0) ch n x y z hR

/-- Corner (z₁, y₁, x₀), the reference's array: its element `(ch, n)` is the volume's at `(0, ch, z, y, x)` once the `n`-th
    selected index read signed is `(z · 192 + y) · 192 + x`. -/
theorem rread_v583 (x0 : (⟨Cert.KernelIdeal.S1x1x1x1048576x3, .f32⟩ : BufTy).Contents (Elt Ideal)) (x3 : (⟨Cert.KernelIdeal.S1x4x192x192x192, .f32⟩ : BufTy).Contents (Elt Ideal))
    (ch : Fin 4) (n : Fin 1048576) (x y z : Fin 192)
    (hR : (Cert.ReferenceIdeal.ReadP.val_main_v581 (F := Ideal) x0 (ix1 n)).toInt = (((z.val * 192 + y.val) * 192 + x.val : ℕ) : Int)) :
    Cert.ReferenceIdeal.ReadP.val_main_v583 (F := Ideal) x0 x3 (ix2 ch n) = x3 (ix5 0 ch z y x) :=
  rcorner2 x3 (Cert.ReferenceIdeal.ReadP.val_main_v581 (F := Ideal) x0) ch n x y z hR

/-- Corner (z₁, y₁, x₁), the reference's array: its element `(ch, n)` is the volume's at `(0, ch, z, y, x)` once the `n`-th
    selected index read signed is `(z · 192 + y) · 192 + x`. -/
theorem rread_v596 (x0 : (⟨Cert.KernelIdeal.S1x1x1x1048576x3, .f32⟩ : BufTy).Contents (Elt Ideal)) (x3 : (⟨Cert.KernelIdeal.S1x4x192x192x192, .f32⟩ : BufTy).Contents (Elt Ideal))
    (ch : Fin 4) (n : Fin 1048576) (x y z : Fin 192)
    (hR : (Cert.ReferenceIdeal.ReadP.val_main_v594 (F := Ideal) x0 (ix1 n)).toInt = (((z.val * 192 + y.val) * 192 + x.val : ℕ) : Int)) :
    Cert.ReferenceIdeal.ReadP.val_main_v596 (F := Ideal) x0 x3 (ix2 ch n) = x3 (ix5 0 ch z y x) :=
  rcorner2 x3 (Cert.ReferenceIdeal.ReadP.val_main_v594 (F := Ideal) x0) ch n x y z hR

/-! ## The two agree -/

/-- Corner (z₀, y₀, x₀): the two programs' arrays agree at `(ch, n)` when both index words read signed are the flat
    position of one cell `(z, y, x)`. -/
theorem corner_v326_v505 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 192)
    (hK : (Cert.KernelIdeal.Host.kst_main_v324 (F := Ideal) x0 x1 x2 x3 (ix1 n)).toInt = (((z.val * 192 + y.val) * 192 + x.val : ℕ) : Int))
    (hR : (Cert.ReferenceIdeal.ReadP.val_main_v503 (F := Ideal) x0 (ix1 n)).toInt = (((z.val * 192 + y.val) * 192 + x.val : ℕ) : Int)) :
    Cert.KernelIdeal.Host.kst_main_v326 (F := Ideal) x0 x1 x2 x3 (ix2 ch n) = Cert.ReferenceIdeal.ReadP.val_main_v505 (F := Ideal) x0 x3 (ix2 ch n) :=
  (kread_v326 x0 x1 x2 x3 ch n x y z hK).trans (rread_v505 x0 x3 ch n x y z hR).symm

/-- Corner (z₀, y₀, x₀) again, from "the two index words are the same word, and it reads signed as a flat position". -/
theorem corner_v326_v505_of_same (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 192)
    (hsame : Cert.KernelIdeal.Host.kst_main_v324 (F := Ideal) x0 x1 x2 x3 (ix1 n) = Cert.ReferenceIdeal.ReadP.val_main_v503 (F := Ideal) x0 (ix1 n))
    (hK : (Cert.KernelIdeal.Host.kst_main_v324 (F := Ideal) x0 x1 x2 x3 (ix1 n)).toInt = (((z.val * 192 + y.val) * 192 + x.val : ℕ) : Int)) :
    Cert.KernelIdeal.Host.kst_main_v326 (F := Ideal) x0 x1 x2 x3 (ix2 ch n) = Cert.ReferenceIdeal.ReadP.val_main_v505 (F := Ideal) x0 x3 (ix2 ch n) :=
  corner_v326_v505 x0 x1 x2 x3 ch n x y z hK (hsame ▸ hK)

/-- Corner (z₀, y₀, x₁): the two programs' arrays agree at `(ch, n)` when both index words read signed are the flat
    position of one cell `(z, y, x)`. -/
theorem corner_v334_v518 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 192)
    (hK : (Cert.KernelIdeal.Host.kst_main_v332 (F := Ideal) x0 x1 x2 x3 (ix1 n)).toInt = (((z.val * 192 + y.val) * 192 + x.val : ℕ) : Int))
    (hR : (Cert.ReferenceIdeal.ReadP.val_main_v516 (F := Ideal) x0 (ix1 n)).toInt = (((z.val * 192 + y.val) * 192 + x.val : ℕ) : Int)) :
    Cert.KernelIdeal.Host.kst_main_v334 (F := Ideal) x0 x1 x2 x3 (ix2 ch n) = Cert.ReferenceIdeal.ReadP.val_main_v518 (F := Ideal) x0 x3 (ix2 ch n) :=
  (kread_v334 x0 x1 x2 x3 ch n x y z hK).trans (rread_v518 x0 x3 ch n x y z hR).symm

/-- Corner (z₀, y₀, x₁) again, from "the two index words are the same word, and it reads signed as a flat position". -/
theorem corner_v334_v518_of_same (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 192)
    (hsame : Cert.KernelIdeal.Host.kst_main_v332 (F := Ideal) x0 x1 x2 x3 (ix1 n) = Cert.ReferenceIdeal.ReadP.val_main_v516 (F := Ideal) x0 (ix1 n))
    (hK : (Cert.KernelIdeal.Host.kst_main_v332 (F := Ideal) x0 x1 x2 x3 (ix1 n)).toInt = (((z.val * 192 + y.val) * 192 + x.val : ℕ) : Int)) :
    Cert.KernelIdeal.Host.kst_main_v334 (F := Ideal) x0 x1 x2 x3 (ix2 ch n) = Cert.ReferenceIdeal.ReadP.val_main_v518 (F := Ideal) x0 x3 (ix2 ch n) :=
  corner_v334_v518 x0 x1 x2 x3 ch n x y z hK (hsame ▸ hK)

/-- Corner (z₀, y₁, x₀): the two programs' arrays agree at `(ch, n)` when both index words read signed are the flat
    position of one cell `(z, y, x)`. -/
theorem corner_v342_v531 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 192)
    (hK : (Cert.KernelIdeal.Host.kst_main_v340 (F := Ideal) x0 x1 x2 x3 (ix1 n)).toInt = (((z.val * 192 + y.val) * 192 + x.val : ℕ) : Int))
    (hR : (Cert.ReferenceIdeal.ReadP.val_main_v529 (F := Ideal) x0 (ix1 n)).toInt = (((z.val * 192 + y.val) * 192 + x.val : ℕ) : Int)) :
    Cert.KernelIdeal.Host.kst_main_v342 (F := Ideal) x0 x1 x2 x3 (ix2 ch n) = Cert.ReferenceIdeal.ReadP.val_main_v531 (F := Ideal) x0 x3 (ix2 ch n) :=
  (kread_v342 x0 x1 x2 x3 ch n x y z hK).trans (rread_v531 x0 x3 ch n x y z hR).symm

/-- Corner (z₀, y₁, x₀) again, from "the two index words are the same word, and it reads signed as a flat position". -/
theorem corner_v342_v531_of_same (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 192)
    (hsame : Cert.KernelIdeal.Host.kst_main_v340 (F := Ideal) x0 x1 x2 x3 (ix1 n) = Cert.ReferenceIdeal.ReadP.val_main_v529 (F := Ideal) x0 (ix1 n))
    (hK : (Cert.KernelIdeal.Host.kst_main_v340 (F := Ideal) x0 x1 x2 x3 (ix1 n)).toInt = (((z.val * 192 + y.val) * 192 + x.val : ℕ) : Int)) :
    Cert.KernelIdeal.Host.kst_main_v342 (F := Ideal) x0 x1 x2 x3 (ix2 ch n) = Cert.ReferenceIdeal.ReadP.val_main_v531 (F := Ideal) x0 x3 (ix2 ch n) :=
  corner_v342_v531 x0 x1 x2 x3 ch n x y z hK (hsame ▸ hK)

/-- Corner (z₀, y₁, x₁): the two programs' arrays agree at `(ch, n)` when both index words read signed are the flat
    position of one cell `(z, y, x)`. -/
theorem corner_v350_v544 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 192)
    (hK : (Cert.KernelIdeal.Host.kst_main_v348 (F := Ideal) x0 x1 x2 x3 (ix1 n)).toInt = (((z.val * 192 + y.val) * 192 + x.val : ℕ) : Int))
    (hR : (Cert.ReferenceIdeal.ReadP.val_main_v542 (F := Ideal) x0 (ix1 n)).toInt = (((z.val * 192 + y.val) * 192 + x.val : ℕ) : Int)) :
    Cert.KernelIdeal.Host.kst_main_v350 (F := Ideal) x0 x1 x2 x3 (ix2 ch n) = Cert.ReferenceIdeal.ReadP.val_main_v544 (F := Ideal) x0 x3 (ix2 ch n) :=
  (kread_v350 x0 x1 x2 x3 ch n x y z hK).trans (rread_v544 x0 x3 ch n x y z hR).symm

/-- Corner (z₀, y₁, x₁) again, from "the two index words are the same word, and it reads signed as a flat position". -/
theorem corner_v350_v544_of_same (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 192)
    (hsame : Cert.KernelIdeal.Host.kst_main_v348 (F := Ideal) x0 x1 x2 x3 (ix1 n) = Cert.ReferenceIdeal.ReadP.val_main_v542 (F := Ideal) x0 (ix1 n))
    (hK : (Cert.KernelIdeal.Host.kst_main_v348 (F := Ideal) x0 x1 x2 x3 (ix1 n)).toInt = (((z.val * 192 + y.val) * 192 + x.val : ℕ) : Int)) :
    Cert.KernelIdeal.Host.kst_main_v350 (F := Ideal) x0 x1 x2 x3 (ix2 ch n) = Cert.ReferenceIdeal.ReadP.val_main_v544 (F := Ideal) x0 x3 (ix2 ch n) :=
  corner_v350_v544 x0 x1 x2 x3 ch n x y z hK (hsame ▸ hK)

/-- Corner (z₁, y₀, x₀): the two programs' arrays agree at `(ch, n)` when both index words read signed are the flat
    position of one cell `(z, y, x)`. -/
theorem corner_v358_v557 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 192)
    (hK : (Cert.KernelIdeal.Host.kst_main_v356 (F := Ideal) x0 x1 x2 x3 (ix1 n)).toInt = (((z.val * 192 + y.val) * 192 + x.val : ℕ) : Int))
    (hR : (Cert.ReferenceIdeal.ReadP.val_main_v555 (F := Ideal) x0 (ix1 n)).toInt = (((z.val * 192 + y.val) * 192 + x.val : ℕ) : Int)) :
    Cert.KernelIdeal.Host.kst_main_v358 (F := Ideal) x0 x1 x2 x3 (ix2 ch n) = Cert.ReferenceIdeal.ReadP.val_main_v557 (F := Ideal) x0 x3 (ix2 ch n) :=
  (kread_v358 x0 x1 x2 x3 ch n x y z hK).trans (rread_v557 x0 x3 ch n x y z hR).symm

/-- Corner (z₁, y₀, x₀) again, from "the two index words are the same word, and it reads signed as a flat position". -/
theorem corner_v358_v557_of_same (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 192)
    (hsame : Cert.KernelIdeal.Host.kst_main_v356 (F := Ideal) x0 x1 x2 x3 (ix1 n) = Cert.ReferenceIdeal.ReadP.val_main_v555 (F := Ideal) x0 (ix1 n))
    (hK : (Cert.KernelIdeal.Host.kst_main_v356 (F := Ideal) x0 x1 x2 x3 (ix1 n)).toInt = (((z.val * 192 + y.val) * 192 + x.val : ℕ) : Int)) :
    Cert.KernelIdeal.Host.kst_main_v358 (F := Ideal) x0 x1 x2 x3 (ix2 ch n) = Cert.ReferenceIdeal.ReadP.val_main_v557 (F := Ideal) x0 x3 (ix2 ch n) :=
  corner_v358_v557 x0 x1 x2 x3 ch n x y z hK (hsame ▸ hK)

/-- Corner (z₁, y₀, x₁): the two programs' arrays agree at `(ch, n)` when both index words read signed are the flat
    position of one cell `(z, y, x)`. -/
theorem corner_v366_v570 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 192)
    (hK : (Cert.KernelIdeal.Host.kst_main_v364 (F := Ideal) x0 x1 x2 x3 (ix1 n)).toInt = (((z.val * 192 + y.val) * 192 + x.val : ℕ) : Int))
    (hR : (Cert.ReferenceIdeal.ReadP.val_main_v568 (F := Ideal) x0 (ix1 n)).toInt = (((z.val * 192 + y.val) * 192 + x.val : ℕ) : Int)) :
    Cert.KernelIdeal.Host.kst_main_v366 (F := Ideal) x0 x1 x2 x3 (ix2 ch n) = Cert.ReferenceIdeal.ReadP.val_main_v570 (F := Ideal) x0 x3 (ix2 ch n) :=
  (kread_v366 x0 x1 x2 x3 ch n x y z hK).trans (rread_v570 x0 x3 ch n x y z hR).symm

/-- Corner (z₁, y₀, x₁) again, from "the two index words are the same word, and it reads signed as a flat position". -/
theorem corner_v366_v570_of_same (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 192)
    (hsame : Cert.KernelIdeal.Host.kst_main_v364 (F := Ideal) x0 x1 x2 x3 (ix1 n) = Cert.ReferenceIdeal.ReadP.val_main_v568 (F := Ideal) x0 (ix1 n))
    (hK : (Cert.KernelIdeal.Host.kst_main_v364 (F := Ideal) x0 x1 x2 x3 (ix1 n)).toInt = (((z.val * 192 + y.val) * 192 + x.val : ℕ) : Int)) :
    Cert.KernelIdeal.Host.kst_main_v366 (F := Ideal) x0 x1 x2 x3 (ix2 ch n) = Cert.ReferenceIdeal.ReadP.val_main_v570 (F := Ideal) x0 x3 (ix2 ch n) :=
  corner_v366_v570 x0 x1 x2 x3 ch n x y z hK (hsame ▸ hK)

/-- Corner (z₁, y₁, x₀): the two programs' arrays agree at `(ch, n)` when both index words read signed are the flat
    position of one cell `(z, y, x)`. -/
theorem corner_v374_v583 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 192)
    (hK : (Cert.KernelIdeal.Host.kst_main_v372 (F := Ideal) x0 x1 x2 x3 (ix1 n)).toInt = (((z.val * 192 + y.val) * 192 + x.val : ℕ) : Int))
    (hR : (Cert.ReferenceIdeal.ReadP.val_main_v581 (F := Ideal) x0 (ix1 n)).toInt = (((z.val * 192 + y.val) * 192 + x.val : ℕ) : Int)) :
    Cert.KernelIdeal.Host.kst_main_v374 (F := Ideal) x0 x1 x2 x3 (ix2 ch n) = Cert.ReferenceIdeal.ReadP.val_main_v583 (F := Ideal) x0 x3 (ix2 ch n) :=
  (kread_v374 x0 x1 x2 x3 ch n x y z hK).trans (rread_v583 x0 x3 ch n x y z hR).symm

/-- Corner (z₁, y₁, x₀) again, from "the two index words are the same word, and it reads signed as a flat position". -/
theorem corner_v374_v583_of_same (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 192)
    (hsame : Cert.KernelIdeal.Host.kst_main_v372 (F := Ideal) x0 x1 x2 x3 (ix1 n) = Cert.ReferenceIdeal.ReadP.val_main_v581 (F := Ideal) x0 (ix1 n))
    (hK : (Cert.KernelIdeal.Host.kst_main_v372 (F := Ideal) x0 x1 x2 x3 (ix1 n)).toInt = (((z.val * 192 + y.val) * 192 + x.val : ℕ) : Int)) :
    Cert.KernelIdeal.Host.kst_main_v374 (F := Ideal) x0 x1 x2 x3 (ix2 ch n) = Cert.ReferenceIdeal.ReadP.val_main_v583 (F := Ideal) x0 x3 (ix2 ch n) :=
  corner_v374_v583 x0 x1 x2 x3 ch n x y z hK (hsame ▸ hK)

/-- Corner (z₁, y₁, x₁): the two programs' arrays agree at `(ch, n)` when both index words read signed are the flat
    position of one cell `(z, y, x)`. -/
theorem corner_v382_v596 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 192)
    (hK : (Cert.KernelIdeal.Host.kst_main_v380 (F := Ideal) x0 x1 x2 x3 (ix1 n)).toInt = (((z.val * 192 + y.val) * 192 + x.val : ℕ) : Int))
    (hR : (Cert.ReferenceIdeal.ReadP.val_main_v594 (F := Ideal) x0 (ix1 n)).toInt = (((z.val * 192 + y.val) * 192 + x.val : ℕ) : Int)) :
    Cert.KernelIdeal.Host.kst_main_v382 (F := Ideal) x0 x1 x2 x3 (ix2 ch n) = Cert.ReferenceIdeal.ReadP.val_main_v596 (F := Ideal) x0 x3 (ix2 ch n) :=
  (kread_v382 x0 x1 x2 x3 ch n x y z hK).trans (rread_v596 x0 x3 ch n x y z hR).symm

/-- Corner (z₁, y₁, x₁) again, from "the two index words are the same word, and it reads signed as a flat position". -/
theorem corner_v382_v596_of_same (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) (x y z : Fin 192)
    (hsame : Cert.KernelIdeal.Host.kst_main_v380 (F := Ideal) x0 x1 x2 x3 (ix1 n) = Cert.ReferenceIdeal.ReadP.val_main_v594 (F := Ideal) x0 (ix1 n))
    (hK : (Cert.KernelIdeal.Host.kst_main_v380 (F := Ideal) x0 x1 x2 x3 (ix1 n)).toInt = (((z.val * 192 + y.val) * 192 + x.val : ℕ) : Int)) :
    Cert.KernelIdeal.Host.kst_main_v382 (F := Ideal) x0 x1 x2 x3 (ix2 ch n) = Cert.ReferenceIdeal.ReadP.val_main_v596 (F := Ideal) x0 x3 (ix2 ch n) :=
  corner_v382_v596 x0 x1 x2 x3 ch n x y z hK (hsame ▸ hK)

end Cert.Proof.GlueCorners2

end
-- ==== Proof.GlueCoords2.lean ====
import proofs.«113233_j37486474559588_2_alg».proof.Proof.HostStagesIdeal
import proofs.«113233_j37486474559588_2_alg».proof.Proof.RefReadP
import proofs.«113233_j37486474559588_2_alg».proof.Proof.LibIndexRange
import Idealize.ShloMosaic.Lib.ValueIdx
import Idealize.ShloMosaic.Lib.Pipeline.Value
import Mathlib.Tactic

/-!
# The two programs' scalar chains agree, volume 2

Before any gather, both programs compute per query point the same scalars from the grid: the
unnormalized coordinates, their floors clipped to the volume, the smoothstep weight along x, the
integer cell coordinates and their clipped successors, and the eight flat corner indices.  The
kernel's host stages and the reference's stages are the same functions of the grid, operation by
operation; the one difference is that the reference converts an integer upper bound to a float where
the kernel has the float's word, and the two are the same number.  The reference also tests its flat
index for a negative sign and wraps it; the index is never negative, so that changes nothing.
-/

noncomputable section

namespace Cert.Proof.GlueCoords2

open Idealize.ShloMosaic Idealize.ShloMosaic.ValueIdx
open Cert.KernelIdeal.Host Cert.ReferenceIdeal

/-- A scalar broadcast to any shape reads the scalar everywhere. -/
theorem bcast0_apply {α : Type} {t : Shape} (dims : Fin (⟨0, ![]⟩ : Shape).rank → Fin t.rank)
    (h : (⟨0, ![]⟩ : Shape).BroadcastsInDim t dims) (y : (⟨0, ![]⟩ : Shape).Idx → α) (i : t.Idx) :
    broadcastInDim t dims h y i = y ix0 :=
  broadcastInDim_apply dims h y i ix0 (fun a => a.elim0)

variable (x0 : (⟨S1x1x1x1048576x3, .f32⟩ : BufTy).Contents (Elt Ideal))
  (x1 : (⟨S1x4x64x64x64, .f32⟩ : BufTy).Contents (Elt Ideal))
  (x2 : (⟨S1x4x128x128x128, .f32⟩ : BufTy).Contents (Elt Ideal))
  (x3 : (⟨S1x4x192x192x192, .f32⟩ : BufTy).Contents (Elt Ideal))

/-! ### The x axis -/

/-- The two programs' unnormalized x coordinates are one array. -/
theorem coordX : kst_main_v274 (F := Ideal) x0 x1 x2 x3 = ReadP.val_main_v430 (F := Ideal) x0 := rfl

/-- The kernel's upper clip bound, broadcast, is the float `191` everywhere. -/
theorem kHiX (i : S1048576.Idx) : kst_main_call24_v4 (F := Ideal) x0 x1 x2 x3 i = Ideal.ofBits .f32 0x433F0000#32 := by
  unfold kst_main_call24_v4
  exact (bcast0_apply _ _ _ i).trans rfl

/-- The kernel's lower clip bound, broadcast, is `0` everywhere. -/
theorem kLoX (i : S1048576.Idx) : kst_main_call24_v1 (F := Ideal) x0 x1 x2 x3 i = Ideal.ofBits .f32 0x00000000#32 := by
  unfold kst_main_call24_v1
  exact (bcast0_apply _ _ _ i).trans rfl

/-- The reference's upper clip bound, the integer `191` converted and broadcast, is the same float. -/
theorem rHiX (i : S1048576.Idx) : ReadP.val_main_call12_v4 (F := Ideal) i = Ideal.ofBits .f32 0x433F0000#32 := by
  rw [ReadP.val_main_call12_v4_apply, ReadP.val_main_call12_v3_apply, ReadP.val_main_c_138_apply]
  exact LibIndexRange.sitofp_literals.2.2.trans LibIndexRange.ofBits_191.symm

/-- The two programs' clipped floors along x are one array. -/
theorem clipX : kst_main_v288 (F := Ideal) x0 x1 x2 x3 = ReadP.val_main_v448 (F := Ideal) x0 := by
  funext i
  show FloatOps.minimumf (F := Ideal) (φ := .f32) (kst_main_call24_v4 (F := Ideal) x0 x1 x2 x3 i) (kst_main_call24_v2 (F := Ideal) x0 x1 x2 x3 i)
    = FloatOps.minimumf (F := Ideal) (φ := .f32) (ReadP.val_main_call12_v4 (F := Ideal) i) (ReadP.val_main_call12_v2 (F := Ideal) x0 i)
  rw [kHiX, rHiX]
  rfl

/-- The lower cell words along x are one array. -/
theorem cell0X_fn : kst_main_v301 (F := Ideal) x0 x1 x2 x3 = ReadP.val_main_v477 (F := Ideal) x0 := by
  unfold kst_main_v301 ReadP.val_main_v477
  exact congrArg _ (clipX x0 x1 x2 x3)

/-- The upper cell words along x are one array. -/
theorem cell1X_fn : kst_main_v307 (F := Ideal) x0 x1 x2 x3 = ReadP.val_main_v483 (F := Ideal) x0 := by
  unfold kst_main_v307 kst_main_v305 ReadP.val_main_v483 ReadP.val_main_v481
  rw [cell0X_fn x0 x1 x2 x3] <;> rfl

/-- The lower cell word along x at a query point, kernel and reference. -/
theorem cell0X (i : S1048576.Idx) : kst_main_v301 (F := Ideal) x0 x1 x2 x3 i = ReadP.val_main_v477 (F := Ideal) x0 i :=
  congrFun (cell0X_fn x0 x1 x2 x3) i

/-- The upper cell word along x at a query point, kernel and reference. -/
theorem cell1X (i : S1048576.Idx) : kst_main_v307 (F := Ideal) x0 x1 x2 x3 i = ReadP.val_main_v483 (F := Ideal) x0 i :=
  congrFun (cell1X_fn x0 x1 x2 x3) i

/-- The lower cell word along x is in `[0, 191]`. -/
theorem cell0X_le (i : S1048576.Idx) : (kst_main_v301 (F := Ideal) x0 x1 x2 x3 i).toNat ≤ 191 := by
  have h : kst_main_v301 (F := Ideal) x0 x1 x2 x3 i
      = Ideal.fptosi 32 (min (Ideal.ofBits .f32 0x433F0000#32) (max (Ideal.ofBits .f32 0x00000000#32)
          (Ideal.liftRound Int.floor (kst_main_v274 (F := Ideal) x0 x1 x2 x3 i)))) := by
    show Ideal.fptosi 32 (min (kst_main_call24_v4 (F := Ideal) x0 x1 x2 x3 i) (max (kst_main_call24_v1 (F := Ideal) x0 x1 x2 x3 i)
          (Ideal.liftRound Int.floor (kst_main_v274 (F := Ideal) x0 x1 x2 x3 i)))) = _
    rw [kHiX, kLoX]
  rw [h]
  exact LibIndexRange.fptosi_clip_191 _

/-- The upper cell word along x is `min (a + 1) 191` of the lower one, on 32-bit words. -/
theorem cell1X_eq (i : S1048576.Idx) :
    kst_main_v307 (F := Ideal) x0 x1 x2 x3 i = IntOp.minsi (IntOp.addi (kst_main_v301 (F := Ideal) x0 x1 x2 x3 i) 1#32) 191#32 := by
  have h1 : kst_main_v304 (F := Ideal) x0 x1 x2 x3 i = 1#32 := by
    unfold kst_main_v304
    exact (bcast0_apply _ _ _ i).trans rfl
  have hK : kst_main_v306 (F := Ideal) x0 x1 x2 x3 i = 191#32 := by
    unfold kst_main_v306
    exact (bcast0_apply _ _ _ i).trans rfl
  show IntOp.minsi (IntOp.addi (kst_main_v301 (F := Ideal) x0 x1 x2 x3 i) (kst_main_v304 (F := Ideal) x0 x1 x2 x3 i)) (kst_main_v306 (F := Ideal) x0 x1 x2 x3 i) = _
  rw [h1, hK]

/-- The upper cell word along x is in `[0, 191]`. -/
theorem cell1X_le (i : S1048576.Idx) : (kst_main_v307 (F := Ideal) x0 x1 x2 x3 i).toNat ≤ 191 := by
  rw [cell1X_eq]
  exact LibIndexRange.minsi_succ_toNat_le 191 (by norm_num) _ (cell0X_le x0 x1 x2 x3 i)

/-! ### The y axis -/

/-- The two programs' unnormalized y coordinates are one array. -/
theorem coordY : kst_main_v280 (F := Ideal) x0 x1 x2 x3 = ReadP.val_main_v438 (F := Ideal) x0 := rfl

/-- The kernel's upper clip bound, broadcast, is the float `191` everywhere. -/
theorem kHiY (i : S1048576.Idx) : kst_main_call25_v4 (F := Ideal) x0 x1 x2 x3 i = Ideal.ofBits .f32 0x433F0000#32 := by
  unfold kst_main_call25_v4
  exact (bcast0_apply _ _ _ i).trans rfl

/-- The kernel's lower clip bound, broadcast, is `0` everywhere. -/
theorem kLoY (i : S1048576.Idx) : kst_main_call25_v1 (F := Ideal) x0 x1 x2 x3 i = Ideal.ofBits .f32 0x00000000#32 := by
  unfold kst_main_call25_v1
  exact (bcast0_apply _ _ _ i).trans rfl

/-- The reference's upper clip bound, the integer `191` converted and broadcast, is the same float. -/
theorem rHiY (i : S1048576.Idx) : ReadP.val_main_call13_v4 (F := Ideal) i = Ideal.ofBits .f32 0x433F0000#32 := by
  rw [ReadP.val_main_call13_v4_apply, ReadP.val_main_call13_v3_apply, ReadP.val_main_c_140_apply]
  exact LibIndexRange.sitofp_literals.2.2.trans LibIndexRange.ofBits_191.symm

/-- The two programs' clipped floors along y are one array. -/
theorem clipY : kst_main_v290 (F := Ideal) x0 x1 x2 x3 = ReadP.val_main_v450 (F := Ideal) x0 := by
  funext i
  show FloatOps.minimumf (F := Ideal) (φ := .f32) (kst_main_call25_v4 (F := Ideal) x0 x1 x2 x3 i) (kst_main_call25_v2 (F := Ideal) x0 x1 x2 x3 i)
    = FloatOps.minimumf (F := Ideal) (φ := .f32) (ReadP.val_main_call13_v4 (F := Ideal) i) (ReadP.val_main_call13_v2 (F := Ideal) x0 i)
  rw [kHiY, rHiY]
  rfl

/-- The lower cell words along y are one array. -/
theorem cell0Y_fn : kst_main_v302 (F := Ideal) x0 x1 x2 x3 = ReadP.val_main_v478 (F := Ideal) x0 := by
  unfold kst_main_v302 ReadP.val_main_v478
  exact congrArg _ (clipY x0 x1 x2 x3)

/-- The upper cell words along y are one array. -/
theorem cell1Y_fn : kst_main_v311 (F := Ideal) x0 x1 x2 x3 = ReadP.val_main_v487 (F := Ideal) x0 := by
  unfold kst_main_v311 kst_main_v309 ReadP.val_main_v487 ReadP.val_main_v485
  rw [cell0Y_fn x0 x1 x2 x3] <;> rfl

/-- The lower cell word along y at a query point, kernel and reference. -/
theorem cell0Y (i : S1048576.Idx) : kst_main_v302 (F := Ideal) x0 x1 x2 x3 i = ReadP.val_main_v478 (F := Ideal) x0 i :=
  congrFun (cell0Y_fn x0 x1 x2 x3) i

/-- The upper cell word along y at a query point, kernel and reference. -/
theorem cell1Y (i : S1048576.Idx) : kst_main_v311 (F := Ideal) x0 x1 x2 x3 i = ReadP.val_main_v487 (F := Ideal) x0 i :=
  congrFun (cell1Y_fn x0 x1 x2 x3) i

/-- The lower cell word along y is in `[0, 191]`. -/
theorem cell0Y_le (i : S1048576.Idx) : (kst_main_v302 (F := Ideal) x0 x1 x2 x3 i).toNat ≤ 191 := by
  have h : kst_main_v302 (F := Ideal) x0 x1 x2 x3 i
      = Ideal.fptosi 32 (min (Ideal.ofBits .f32 0x433F0000#32) (max (Ideal.ofBits .f32 0x00000000#32)
          (Ideal.liftRound Int.floor (kst_main_v280 (F := Ideal) x0 x1 x2 x3 i)))) := by
    show Ideal.fptosi 32 (min (kst_main_call25_v4 (F := Ideal) x0 x1 x2 x3 i) (max (kst_main_call25_v1 (F := Ideal) x0 x1 x2 x3 i)
          (Ideal.liftRound Int.floor (kst_main_v280 (F := Ideal) x0 x1 x2 x3 i)))) = _
    rw [kHiY, kLoY]
  rw [h]
  exact LibIndexRange.fptosi_clip_191 _

/-- The upper cell word along y is `min (a + 1) 191` of the lower one, on 32-bit words. -/
theorem cell1Y_eq (i : S1048576.Idx) :
    kst_main_v311 (F := Ideal) x0 x1 x2 x3 i = IntOp.minsi (IntOp.addi (kst_main_v302 (F := Ideal) x0 x1 x2 x3 i) 1#32) 191#32 := by
  have h1 : kst_main_v308 (F := Ideal) x0 x1 x2 x3 i = 1#32 := by
    unfold kst_main_v308
    exact (bcast0_apply _ _ _ i).trans rfl
  have hK : kst_main_v310 (F := Ideal) x0 x1 x2 x3 i = 191#32 := by
    unfold kst_main_v310
    exact (bcast0_apply _ _ _ i).trans rfl
  show IntOp.minsi (IntOp.addi (kst_main_v302 (F := Ideal) x0 x1 x2 x3 i) (kst_main_v308 (F := Ideal) x0 x1 x2 x3 i)) (kst_main_v310 (F := Ideal) x0 x1 x2 x3 i) = _
  rw [h1, hK]

/-- The upper cell word along y is in `[0, 191]`. -/
theorem cell1Y_le (i : S1048576.Idx) : (kst_main_v311 (F := Ideal) x0 x1 x2 x3 i).toNat ≤ 191 := by
  rw [cell1Y_eq]
  exact LibIndexRange.minsi_succ_toNat_le 191 (by norm_num) _ (cell0Y_le x0 x1 x2 x3 i)

/-! ### The z axis -/

/-- The two programs' unnormalized z coordinates are one array. -/
theorem coordZ : kst_main_v286 (F := Ideal) x0 x1 x2 x3 = ReadP.val_main_v446 (F := Ideal) x0 := rfl

/-- The kernel's upper clip bound, broadcast, is the float `191` everywhere. -/
theorem kHiZ (i : S1048576.Idx) : kst_main_call26_v4 (F := Ideal) x0 x1 x2 x3 i = Ideal.ofBits .f32 0x433F0000#32 := by
  unfold kst_main_call26_v4
  exact (bcast0_apply _ _ _ i).trans rfl

/-- The kernel's lower clip bound, broadcast, is `0` everywhere. -/
theorem kLoZ (i : S1048576.Idx) : kst_main_call26_v1 (F := Ideal) x0 x1 x2 x3 i = Ideal.ofBits .f32 0x00000000#32 := by
  unfold kst_main_call26_v1
  exact (bcast0_apply _ _ _ i).trans rfl

/-- The reference's upper clip bound, the integer `191` converted and broadcast, is the same float. -/
theorem rHiZ (i : S1048576.Idx) : ReadP.val_main_call14_v4 (F := Ideal) i = Ideal.ofBits .f32 0x433F0000#32 := by
  rw [ReadP.val_main_call14_v4_apply, ReadP.val_main_call14_v3_apply, ReadP.val_main_c_142_apply]
  exact LibIndexRange.sitofp_literals.2.2.trans LibIndexRange.ofBits_191.symm

/-- The two programs' clipped floors along z are one array. -/
theorem clipZ : kst_main_v292 (F := Ideal) x0 x1 x2 x3 = ReadP.val_main_v452 (F := Ideal) x0 := by
  funext i
  show FloatOps.minimumf (F := Ideal) (φ := .f32) (kst_main_call26_v4 (F := Ideal) x0 x1 x2 x3 i) (kst_main_call26_v2 (F := Ideal) x0 x1 x2 x3 i)
    = FloatOps.minimumf (F := Ideal) (φ := .f32) (ReadP.val_main_call14_v4 (F := Ideal) i) (ReadP.val_main_call14_v2 (F := Ideal) x0 i)
  rw [kHiZ, rHiZ]
  rfl

/-- The lower cell words along z are one array. -/
theorem cell0Z_fn : kst_main_v303 (F := Ideal) x0 x1 x2 x3 = ReadP.val_main_v479 (F := Ideal) x0 := by
  unfold kst_main_v303 ReadP.val_main_v479
  exact congrArg _ (clipZ x0 x1 x2 x3)

/-- The upper cell words along z are one array. -/
theorem cell1Z_fn : kst_main_v315 (F := Ideal) x0 x1 x2 x3 = ReadP.val_main_v491 (F := Ideal) x0 := by
  unfold kst_main_v315 kst_main_v313 ReadP.val_main_v491 ReadP.val_main_v489
  rw [cell0Z_fn x0 x1 x2 x3] <;> rfl

/-- The lower cell word along z at a query point, kernel and reference. -/
theorem cell0Z (i : S1048576.Idx) : kst_main_v303 (F := Ideal) x0 x1 x2 x3 i = ReadP.val_main_v479 (F := Ideal) x0 i :=
  congrFun (cell0Z_fn x0 x1 x2 x3) i

/-- The upper cell word along z at a query point, kernel and reference. -/
theorem cell1Z (i : S1048576.Idx) : kst_main_v315 (F := Ideal) x0 x1 x2 x3 i = ReadP.val_main_v491 (F := Ideal) x0 i :=
  congrFun (cell1Z_fn x0 x1 x2 x3) i

/-- The lower cell word along z is in `[0, 191]`. -/
theorem cell0Z_le (i : S1048576.Idx) : (kst_main_v303 (F := Ideal) x0 x1 x2 x3 i).toNat ≤ 191 := by
  have h : kst_main_v303 (F := Ideal) x0 x1 x2 x3 i
      = Ideal.fptosi 32 (min (Ideal.ofBits .f32 0x433F0000#32) (max (Ideal.ofBits .f32 0x00000000#32)
          (Ideal.liftRound Int.floor (kst_main_v286 (F := Ideal) x0 x1 x2 x3 i)))) := by
    show Ideal.fptosi 32 (min (kst_main_call26_v4 (F := Ideal) x0 x1 x2 x3 i) (max (kst_main_call26_v1 (F := Ideal) x0 x1 x2 x3 i)
          (Ideal.liftRound Int.floor (kst_main_v286 (F := Ideal) x0 x1 x2 x3 i)))) = _
    rw [kHiZ, kLoZ]
  rw [h]
  exact LibIndexRange.fptosi_clip_191 _

/-- The upper cell word along z is `min (a + 1) 191` of the lower one, on 32-bit words. -/
theorem cell1Z_eq (i : S1048576.Idx) :
    kst_main_v315 (F := Ideal) x0 x1 x2 x3 i = IntOp.minsi (IntOp.addi (kst_main_v303 (F := Ideal) x0 x1 x2 x3 i) 1#32) 191#32 := by
  have h1 : kst_main_v312 (F := Ideal) x0 x1 x2 x3 i = 1#32 := by
    unfold kst_main_v312
    exact (bcast0_apply _ _ _ i).trans rfl
  have hK : kst_main_v314 (F := Ideal) x0 x1 x2 x3 i = 191#32 := by
    unfold kst_main_v314
    exact (bcast0_apply _ _ _ i).trans rfl
  show IntOp.minsi (IntOp.addi (kst_main_v303 (F := Ideal) x0 x1 x2 x3 i) (kst_main_v312 (F := Ideal) x0 x1 x2 x3 i)) (kst_main_v314 (F := Ideal) x0 x1 x2 x3 i) = _
  rw [h1, hK]

/-- The upper cell word along z is in `[0, 191]`. -/
theorem cell1Z_le (i : S1048576.Idx) : (kst_main_v315 (F := Ideal) x0 x1 x2 x3 i).toNat ≤ 191 := by
  rw [cell1Z_eq]
  exact LibIndexRange.minsi_succ_toNat_le 191 (by norm_num) _ (cell0Z_le x0 x1 x2 x3 i)

/-! ### The x weight -/

/-- The two programs' smoothstep weights along x are one array. -/
theorem weightX_fn : kst_main_v300 (F := Ideal) x0 x1 x2 x3 = ReadP.val_main_v464 (F := Ideal) x0 := by
  unfold kst_main_v300 kst_main_v299 kst_main_v297 kst_main_v295 kst_main_v294 kst_main_call27_v2 kst_main_v293
  unfold ReadP.val_main_v464 ReadP.val_main_v463 ReadP.val_main_v461 ReadP.val_main_v459 ReadP.val_main_v454 ReadP.val_main_call15_v2 ReadP.val_main_v453
  rw [clipX x0 x1 x2 x3] <;> rfl

/-- **(a)** the x weight at a query point, kernel and reference. -/
theorem weightX (i : S1048576.Idx) : kst_main_v300 (F := Ideal) x0 x1 x2 x3 i = ReadP.val_main_v464 (F := Ideal) x0 i :=
  congrFun (weightX_fn x0 x1 x2 x3) i

/-! ### The eight flat corner indices -/

/-- Corner 0: the two programs' flat indices, before the reference's sign test, are one array. -/
theorem flat0_fn : kst_main_v324 (F := Ideal) x0 x1 x2 x3 = ReadP.val_main_v498 (F := Ideal) x0 := by
  unfold kst_main_v324 kst_main_v323 kst_main_v321 kst_main_v320 ReadP.val_main_v498 ReadP.val_main_v497 ReadP.val_main_v495 ReadP.val_main_v494
  rw [cell0Z_fn x0 x1 x2 x3, cell0Y_fn x0 x1 x2 x3, cell0X_fn x0 x1 x2 x3] <;> rfl

/-- Corner 0: the kernel's flat index at a query point is `(z * 192 + y) * 192 + x` on 32-bit words. -/
theorem flat0_eq (i : S1048576.Idx) :
    kst_main_v324 (F := Ideal) x0 x1 x2 x3 i
      = IntOp.addi (IntOp.muli (IntOp.addi (IntOp.muli (kst_main_v303 (F := Ideal) x0 x1 x2 x3 i) 192#32) (kst_main_v302 (F := Ideal) x0 x1 x2 x3 i)) 192#32) (kst_main_v301 (F := Ideal) x0 x1 x2 x3 i) := by
  have h1 : kst_main_v322 (F := Ideal) x0 x1 x2 x3 i = 192#32 := by
    unfold kst_main_v322
    exact (bcast0_apply _ _ _ i).trans rfl
  have h2 : kst_main_v319 (F := Ideal) x0 x1 x2 x3 i = 192#32 := by
    unfold kst_main_v319
    exact (bcast0_apply _ _ _ i).trans rfl
  show IntOp.addi (IntOp.muli (IntOp.addi (IntOp.muli (kst_main_v303 (F := Ideal) x0 x1 x2 x3 i) (kst_main_v319 (F := Ideal) x0 x1 x2 x3 i)) (kst_main_v302 (F := Ideal) x0 x1 x2 x3 i)) (kst_main_v322 (F := Ideal) x0 x1 x2 x3 i)) (kst_main_v301 (F := Ideal) x0 x1 x2 x3 i) = _
  rw [h1, h2]

/-- **(c)** corner 0: the kernel's flat index, read as a signed integer, is the natural number
    `(z * 192 + y) * 192 + x` of its three cell words. -/
theorem corner0_toInt (i : S1048576.Idx) :
    (kst_main_v324 (F := Ideal) x0 x1 x2 x3 i).toInt
      = ((((kst_main_v303 (F := Ideal) x0 x1 x2 x3 i).toNat * 192 + (kst_main_v302 (F := Ideal) x0 x1 x2 x3 i).toNat) * 192
          + (kst_main_v301 (F := Ideal) x0 x1 x2 x3 i).toNat : ℕ) : ℤ) := by
  rw [flat0_eq]
  have hx := cell0X_le x0 x1 x2 x3 i
  have hy := cell0Y_le x0 x1 x2 x3 i
  have hz := cell0Z_le x0 x1 x2 x3 i
  rw [LibIndexRange.flat_toInt 191 192 (by norm_num) rfl _ _ _ hx hy hz,
    LibIndexRange.flat_toNat 191 192 (by norm_num) rfl _ _ _ hx hy hz]

/-- **(c)** corner 0: the kernel's flat index and the reference's index after its sign test and
    wrap-around are one word. -/
theorem corner0_eq (i : S1048576.Idx) : kst_main_v324 (F := Ideal) x0 x1 x2 x3 i = ReadP.val_main_v503 (F := Ideal) x0 i := by
  have hsel : ReadP.val_main_v503 (F := Ideal) x0 i
      = Scalar.select (IntOp.cmpi .slt (ReadP.val_main_v498 (F := Ideal) x0 i) 0#32)
          (IntOp.addi (ReadP.val_main_v498 (F := Ideal) x0 i) 7077888#32) (ReadP.val_main_v498 (F := Ideal) x0 i) := by
    simp only [ReadP.val_main_v503_apply, ReadP.val_main_v500_apply, ReadP.val_main_v502_apply, ReadP.val_main_v499_apply,
      ReadP.val_main_c_163_apply, ReadP.val_main_v501_apply, ReadP.val_main_c_164_apply]
  have hI : ReadP.val_main_v498 (F := Ideal) x0 i = kst_main_v324 (F := Ideal) x0 x1 x2 x3 i := (congrFun (flat0_fn x0 x1 x2 x3) i).symm
  have hx := cell0X_le x0 x1 x2 x3 i
  have hy := cell0Y_le x0 x1 x2 x3 i
  have hz := cell0Z_le x0 x1 x2 x3 i
  rw [hsel, hI, flat0_eq]
  exact (LibIndexRange.flat_select 191 192 (by norm_num) rfl _ _ _ hx hy hz 7077888#32).symm

/-- Corner 1: the two programs' flat indices, before the reference's sign test, are one array. -/
theorem flat1_fn : kst_main_v332 (F := Ideal) x0 x1 x2 x3 = ReadP.val_main_v511 (F := Ideal) x0 := by
  unfold kst_main_v332 kst_main_v331 kst_main_v329 kst_main_v328 ReadP.val_main_v511 ReadP.val_main_v510 ReadP.val_main_v508 ReadP.val_main_v507
  rw [cell0Z_fn x0 x1 x2 x3, cell0Y_fn x0 x1 x2 x3, cell1X_fn x0 x1 x2 x3] <;> rfl

/-- Corner 1: the kernel's flat index at a query point is `(z * 192 + y) * 192 + x` on 32-bit words. -/
theorem flat1_eq (i : S1048576.Idx) :
    kst_main_v332 (F := Ideal) x0 x1 x2 x3 i
      = IntOp.addi (IntOp.muli (IntOp.addi (IntOp.muli (kst_main_v303 (F := Ideal) x0 x1 x2 x3 i) 192#32) (kst_main_v302 (F := Ideal) x0 x1 x2 x3 i)) 192#32) (kst_main_v307 (F := Ideal) x0 x1 x2 x3 i) := by
  have h1 : kst_main_v330 (F := Ideal) x0 x1 x2 x3 i = 192#32 := by
    unfold kst_main_v330
    exact (bcast0_apply _ _ _ i).trans rfl
  have h2 : kst_main_v327 (F := Ideal) x0 x1 x2 x3 i = 192#32 := by
    unfold kst_main_v327
    exact (bcast0_apply _ _ _ i).trans rfl
  show IntOp.addi (IntOp.muli (IntOp.addi (IntOp.muli (kst_main_v303 (F := Ideal) x0 x1 x2 x3 i) (kst_main_v327 (F := Ideal) x0 x1 x2 x3 i)) (kst_main_v302 (F := Ideal) x0 x1 x2 x3 i)) (kst_main_v330 (F := Ideal) x0 x1 x2 x3 i)) (kst_main_v307 (F := Ideal) x0 x1 x2 x3 i) = _
  rw [h1, h2]

/-- **(c)** corner 1: the kernel's flat index, read as a signed integer, is the natural number
    `(z * 192 + y) * 192 + x` of its three cell words. -/
theorem corner1_toInt (i : S1048576.Idx) :
    (kst_main_v332 (F := Ideal) x0 x1 x2 x3 i).toInt
      = ((((kst_main_v303 (F := Ideal) x0 x1 x2 x3 i).toNat * 192 + (kst_main_v302 (F := Ideal) x0 x1 x2 x3 i).toNat) * 192
          + (kst_main_v307 (F := Ideal) x0 x1 x2 x3 i).toNat : ℕ) : ℤ) := by
  rw [flat1_eq]
  have hx := cell1X_le x0 x1 x2 x3 i
  have hy := cell0Y_le x0 x1 x2 x3 i
  have hz := cell0Z_le x0 x1 x2 x3 i
  rw [LibIndexRange.flat_toInt 191 192 (by norm_num) rfl _ _ _ hx hy hz,
    LibIndexRange.flat_toNat 191 192 (by norm_num) rfl _ _ _ hx hy hz]

/-- **(c)** corner 1: the kernel's flat index and the reference's index after its sign test and
    wrap-around are one word. -/
theorem corner1_eq (i : S1048576.Idx) : kst_main_v332 (F := Ideal) x0 x1 x2 x3 i = ReadP.val_main_v516 (F := Ideal) x0 i := by
  have hsel : ReadP.val_main_v516 (F := Ideal) x0 i
      = Scalar.select (IntOp.cmpi .slt (ReadP.val_main_v511 (F := Ideal) x0 i) 0#32)
          (IntOp.addi (ReadP.val_main_v511 (F := Ideal) x0 i) 7077888#32) (ReadP.val_main_v511 (F := Ideal) x0 i) := by
    simp only [ReadP.val_main_v516_apply, ReadP.val_main_v513_apply, ReadP.val_main_v515_apply, ReadP.val_main_v512_apply,
      ReadP.val_main_c_167_apply, ReadP.val_main_v514_apply, ReadP.val_main_c_168_apply]
  have hI : ReadP.val_main_v511 (F := Ideal) x0 i = kst_main_v332 (F := Ideal) x0 x1 x2 x3 i := (congrFun (flat1_fn x0 x1 x2 x3) i).symm
  have hx := cell1X_le x0 x1 x2 x3 i
  have hy := cell0Y_le x0 x1 x2 x3 i
  have hz := cell0Z_le x0 x1 x2 x3 i
  rw [hsel, hI, flat1_eq]
  exact (LibIndexRange.flat_select 191 192 (by norm_num) rfl _ _ _ hx hy hz 7077888#32).symm

/-- Corner 2: the two programs' flat indices, before the reference's sign test, are one array. -/
theorem flat2_fn : kst_main_v340 (F := Ideal) x0 x1 x2 x3 = ReadP.val_main_v524 (F := Ideal) x0 := by
  unfold kst_main_v340 kst_main_v339 kst_main_v337 kst_main_v336 ReadP.val_main_v524 ReadP.val_main_v523 ReadP.val_main_v521 ReadP.val_main_v520
  rw [cell0Z_fn x0 x1 x2 x3, cell1Y_fn x0 x1 x2 x3, cell0X_fn x0 x1 x2 x3] <;> rfl

/-- Corner 2: the kernel's flat index at a query point is `(z * 192 + y) * 192 + x` on 32-bit words. -/
theorem flat2_eq (i : S1048576.Idx) :
    kst_main_v340 (F := Ideal) x0 x1 x2 x3 i
      = IntOp.addi (IntOp.muli (IntOp.addi (IntOp.muli (kst_main_v303 (F := Ideal) x0 x1 x2 x3 i) 192#32) (kst_main_v311 (F := Ideal) x0 x1 x2 x3 i)) 192#32) (kst_main_v301 (F := Ideal) x0 x1 x2 x3 i) := by
  have h1 : kst_main_v338 (F := Ideal) x0 x1 x2 x3 i = 192#32 := by
    unfold kst_main_v338
    exact (bcast0_apply _ _ _ i).trans rfl
  have h2 : kst_main_v335 (F := Ideal) x0 x1 x2 x3 i = 192#32 := by
    unfold kst_main_v335
    exact (bcast0_apply _ _ _ i).trans rfl
  show IntOp.addi (IntOp.muli (IntOp.addi (IntOp.muli (kst_main_v303 (F := Ideal) x0 x1 x2 x3 i) (kst_main_v335 (F := Ideal) x0 x1 x2 x3 i)) (kst_main_v311 (F := Ideal) x0 x1 x2 x3 i)) (kst_main_v338 (F := Ideal) x0 x1 x2 x3 i)) (kst_main_v301 (F := Ideal) x0 x1 x2 x3 i) = _
  rw [h1, h2]

/-- **(c)** corner 2: the kernel's flat index, read as a signed integer, is the natural number
    `(z * 192 + y) * 192 + x` of its three cell words. -/
theorem corner2_toInt (i : S1048576.Idx) :
    (kst_main_v340 (F := Ideal) x0 x1 x2 x3 i).toInt
      = ((((kst_main_v303 (F := Ideal) x0 x1 x2 x3 i).toNat * 192 + (kst_main_v311 (F := Ideal) x0 x1 x2 x3 i).toNat) * 192
          + (kst_main_v301 (F := Ideal) x0 x1 x2 x3 i).toNat : ℕ) : ℤ) := by
  rw [flat2_eq]
  have hx := cell0X_le x0 x1 x2 x3 i
  have hy := cell1Y_le x0 x1 x2 x3 i
  have hz := cell0Z_le x0 x1 x2 x3 i
  rw [LibIndexRange.flat_toInt 191 192 (by norm_num) rfl _ _ _ hx hy hz,
    LibIndexRange.flat_toNat 191 192 (by norm_num) rfl _ _ _ hx hy hz]

/-- **(c)** corner 2: the kernel's flat index and the reference's index after its sign test and
    wrap-around are one word. -/
theorem corner2_eq (i : S1048576.Idx) : kst_main_v340 (F := Ideal) x0 x1 x2 x3 i = ReadP.val_main_v529 (F := Ideal) x0 i := by
  have hsel : ReadP.val_main_v529 (F := Ideal) x0 i
      = Scalar.select (IntOp.cmpi .slt (ReadP.val_main_v524 (F := Ideal) x0 i) 0#32)
          (IntOp.addi (ReadP.val_main_v524 (F := Ideal) x0 i) 7077888#32) (ReadP.val_main_v524 (F := Ideal) x0 i) := by
    simp only [ReadP.val_main_v529_apply, ReadP.val_main_v526_apply, ReadP.val_main_v528_apply, ReadP.val_main_v525_apply,
      ReadP.val_main_c_171_apply, ReadP.val_main_v527_apply, ReadP.val_main_c_172_apply]
  have hI : ReadP.val_main_v524 (F := Ideal) x0 i = kst_main_v340 (F := Ideal) x0 x1 x2 x3 i := (congrFun (flat2_fn x0 x1 x2 x3) i).symm
  have hx := cell0X_le x0 x1 x2 x3 i
  have hy := cell1Y_le x0 x1 x2 x3 i
  have hz := cell0Z_le x0 x1 x2 x3 i
  rw [hsel, hI, flat2_eq]
  exact (LibIndexRange.flat_select 191 192 (by norm_num) rfl _ _ _ hx hy hz 7077888#32).symm

/-- Corner 3: the two programs' flat indices, before the reference's sign test, are one array. -/
theorem flat3_fn : kst_main_v348 (F := Ideal) x0 x1 x2 x3 = ReadP.val_main_v537 (F := Ideal) x0 := by
  unfold kst_main_v348 kst_main_v347 kst_main_v345 kst_main_v344 ReadP.val_main_v537 ReadP.val_main_v536 ReadP.val_main_v534 ReadP.val_main_v533
  rw [cell0Z_fn x0 x1 x2 x3, cell1Y_fn x0 x1 x2 x3, cell1X_fn x0 x1 x2 x3] <;> rfl

/-- Corner 3: the kernel's flat index at a query point is `(z * 192 + y) * 192 + x` on 32-bit words. -/
theorem flat3_eq (i : S1048576.Idx) :
    kst_main_v348 (F := Ideal) x0 x1 x2 x3 i
      = IntOp.addi (IntOp.muli (IntOp.addi (IntOp.muli (kst_main_v303 (F := Ideal) x0 x1 x2 x3 i) 192#32) (kst_main_v311 (F := Ideal) x0 x1 x2 x3 i)) 192#32) (kst_main_v307 (F := Ideal) x0 x1 x2 x3 i) := by
  have h1 : kst_main_v346 (F := Ideal) x0 x1 x2 x3 i = 192#32 := by
    unfold kst_main_v346
    exact (bcast0_apply _ _ _ i).trans rfl
  have h2 : kst_main_v343 (F := Ideal) x0 x1 x2 x3 i = 192#32 := by
    unfold kst_main_v343
    exact (bcast0_apply _ _ _ i).trans rfl
  show IntOp.addi (IntOp.muli (IntOp.addi (IntOp.muli (kst_main_v303 (F := Ideal) x0 x1 x2 x3 i) (kst_main_v343 (F := Ideal) x0 x1 x2 x3 i)) (kst_main_v311 (F := Ideal) x0 x1 x2 x3 i)) (kst_main_v346 (F := Ideal) x0 x1 x2 x3 i)) (kst_main_v307 (F := Ideal) x0 x1 x2 x3 i) = _
  rw [h1, h2]

/-- **(c)** corner 3: the kernel's flat index, read as a signed integer, is the natural number
    `(z * 192 + y) * 192 + x` of its three cell words. -/
theorem corner3_toInt (i : S1048576.Idx) :
    (kst_main_v348 (F := Ideal) x0 x1 x2 x3 i).toInt
      = ((((kst_main_v303 (F := Ideal) x0 x1 x2 x3 i).toNat * 192 + (kst_main_v311 (F := Ideal) x0 x1 x2 x3 i).toNat) * 192
          + (kst_main_v307 (F := Ideal) x0 x1 x2 x3 i).toNat : ℕ) : ℤ) := by
  rw [flat3_eq]
  have hx := cell1X_le x0 x1 x2 x3 i
  have hy := cell1Y_le x0 x1 x2 x3 i
  have hz := cell0Z_le x0 x1 x2 x3 i
  rw [LibIndexRange.flat_toInt 191 192 (by norm_num) rfl _ _ _ hx hy hz,
    LibIndexRange.flat_toNat 191 192 (by norm_num) rfl _ _ _ hx hy hz]

/-- **(c)** corner 3: the kernel's flat index and the reference's index after its sign test and
    wrap-around are one word. -/
theorem corner3_eq (i : S1048576.Idx) : kst_main_v348 (F := Ideal) x0 x1 x2 x3 i = ReadP.val_main_v542 (F := Ideal) x0 i := by
  have hsel : ReadP.val_main_v542 (F := Ideal) x0 i
      = Scalar.select (IntOp.cmpi .slt (ReadP.val_main_v537 (F := Ideal) x0 i) 0#32)
          (IntOp.addi (ReadP.val_main_v537 (F := Ideal) x0 i) 7077888#32) (ReadP.val_main_v537 (F := Ideal) x0 i) := by
    simp only [ReadP.val_main_v542_apply, ReadP.val_main_v539_apply, ReadP.val_main_v541_apply, ReadP.val_main_v538_apply,
      ReadP.val_main_c_175_apply, ReadP.val_main_v540_apply, ReadP.val_main_c_176_apply]
  have hI : ReadP.val_main_v537 (F := Ideal) x0 i = kst_main_v348 (F := Ideal) x0 x1 x2 x3 i := (congrFun (flat3_fn x0 x1 x2 x3) i).symm
  have hx := cell1X_le x0 x1 x2 x3 i
  have hy := cell1Y_le x0 x1 x2 x3 i
  have hz := cell0Z_le x0 x1 x2 x3 i
  rw [hsel, hI, flat3_eq]
  exact (LibIndexRange.flat_select 191 192 (by norm_num) rfl _ _ _ hx hy hz 7077888#32).symm

/-- Corner 4: the two programs' flat indices, before the reference's sign test, are one array. -/
theorem flat4_fn : kst_main_v356 (F := Ideal) x0 x1 x2 x3 = ReadP.val_main_v550 (F := Ideal) x0 := by
  unfold kst_main_v356 kst_main_v355 kst_main_v353 kst_main_v352 ReadP.val_main_v550 ReadP.val_main_v549 ReadP.val_main_v547 ReadP.val_main_v546
  rw [cell1Z_fn x0 x1 x2 x3, cell0Y_fn x0 x1 x2 x3, cell0X_fn x0 x1 x2 x3] <;> rfl

/-- Corner 4: the kernel's flat index at a query point is `(z * 192 + y) * 192 + x` on 32-bit words. -/
theorem flat4_eq (i : S1048576.Idx) :
    kst_main_v356 (F := Ideal) x0 x1 x2 x3 i
      = IntOp.addi (IntOp.muli (IntOp.addi (IntOp.muli (kst_main_v315 (F := Ideal) x0 x1 x2 x3 i) 192#32) (kst_main_v302 (F := Ideal) x0 x1 x2 x3 i)) 192#32) (kst_main_v301 (F := Ideal) x0 x1 x2 x3 i) := by
  have h1 : kst_main_v354 (F := Ideal) x0 x1 x2 x3 i = 192#32 := by
    unfold kst_main_v354
    exact (bcast0_apply _ _ _ i).trans rfl
  have h2 : kst_main_v351 (F := Ideal) x0 x1 x2 x3 i = 192#32 := by
    unfold kst_main_v351
    exact (bcast0_apply _ _ _ i).trans rfl
  show IntOp.addi (IntOp.muli (IntOp.addi (IntOp.muli (kst_main_v315 (F := Ideal) x0 x1 x2 x3 i) (kst_main_v351 (F := Ideal) x0 x1 x2 x3 i)) (kst_main_v302 (F := Ideal) x0 x1 x2 x3 i)) (kst_main_v354 (F := Ideal) x0 x1 x2 x3 i)) (kst_main_v301 (F := Ideal) x0 x1 x2 x3 i) = _
  rw [h1, h2]

/-- **(c)** corner 4: the kernel's flat index, read as a signed integer, is the natural number
    `(z * 192 + y) * 192 + x` of its three cell words. -/
theorem corner4_toInt (i : S1048576.Idx) :
    (kst_main_v356 (F := Ideal) x0 x1 x2 x3 i).toInt
      = ((((kst_main_v315 (F := Ideal) x0 x1 x2 x3 i).toNat * 192 + (kst_main_v302 (F := Ideal) x0 x1 x2 x3 i).toNat) * 192
          + (kst_main_v301 (F := Ideal) x0 x1 x2 x3 i).toNat : ℕ) : ℤ) := by
  rw [flat4_eq]
  have hx := cell0X_le x0 x1 x2 x3 i
  have hy := cell0Y_le x0 x1 x2 x3 i
  have hz := cell1Z_le x0 x1 x2 x3 i
  rw [LibIndexRange.flat_toInt 191 192 (by norm_num) rfl _ _ _ hx hy hz,
    LibIndexRange.flat_toNat 191 192 (by norm_num) rfl _ _ _ hx hy hz]

/-- **(c)** corner 4: the kernel's flat index and the reference's index after its sign test and
    wrap-around are one word. -/
theorem corner4_eq (i : S1048576.Idx) : kst_main_v356 (F := Ideal) x0 x1 x2 x3 i = ReadP.val_main_v555 (F := Ideal) x0 i := by
  have hsel : ReadP.val_main_v555 (F := Ideal) x0 i
      = Scalar.select (IntOp.cmpi .slt (ReadP.val_main_v550 (F := Ideal) x0 i) 0#32)
          (IntOp.addi (ReadP.val_main_v550 (F := Ideal) x0 i) 7077888#32) (ReadP.val_main_v550 (F := Ideal) x0 i) := by
    simp only [ReadP.val_main_v555_apply, ReadP.val_main_v552_apply, ReadP.val_main_v554_apply, ReadP.val_main_v551_apply,
      ReadP.val_main_c_179_apply, ReadP.val_main_v553_apply, ReadP.val_main_c_180_apply]
  have hI : ReadP.val_main_v550 (F := Ideal) x0 i = kst_main_v356 (F := Ideal) x0 x1 x2 x3 i := (congrFun (flat4_fn x0 x1 x2 x3) i).symm
  have hx := cell0X_le x0 x1 x2 x3 i
  have hy := cell0Y_le x0 x1 x2 x3 i
  have hz := cell1Z_le x0 x1 x2 x3 i
  rw [hsel, hI, flat4_eq]
  exact (LibIndexRange.flat_select 191 192 (by norm_num) rfl _ _ _ hx hy hz 7077888#32).symm

/-- Corner 5: the two programs' flat indices, before the reference's sign test, are one array. -/
theorem flat5_fn : kst_main_v364 (F := Ideal) x0 x1 x2 x3 = ReadP.val_main_v563 (F := Ideal) x0 := by
  unfold kst_main_v364 kst_main_v363 kst_main_v361 kst_main_v360 ReadP.val_main_v563 ReadP.val_main_v562 ReadP.val_main_v560 ReadP.val_main_v559
  rw [cell1Z_fn x0 x1 x2 x3, cell0Y_fn x0 x1 x2 x3, cell1X_fn x0 x1 x2 x3] <;> rfl

/-- Corner 5: the kernel's flat index at a query point is `(z * 192 + y) * 192 + x` on 32-bit words. -/
theorem flat5_eq (i : S1048576.Idx) :
    kst_main_v364 (F := Ideal) x0 x1 x2 x3 i
      = IntOp.addi (IntOp.muli (IntOp.addi (IntOp.muli (kst_main_v315 (F := Ideal) x0 x1 x2 x3 i) 192#32) (kst_main_v302 (F := Ideal) x0 x1 x2 x3 i)) 192#32) (kst_main_v307 (F := Ideal) x0 x1 x2 x3 i) := by
  have h1 : kst_main_v362 (F := Ideal) x0 x1 x2 x3 i = 192#32 := by
    unfold kst_main_v362
    exact (bcast0_apply _ _ _ i).trans rfl
  have h2 : kst_main_v359 (F := Ideal) x0 x1 x2 x3 i = 192#32 := by
    unfold kst_main_v359
    exact (bcast0_apply _ _ _ i).trans rfl
  show IntOp.addi (IntOp.muli (IntOp.addi (IntOp.muli (kst_main_v315 (F := Ideal) x0 x1 x2 x3 i) (kst_main_v359 (F := Ideal) x0 x1 x2 x3 i)) (kst_main_v302 (F := Ideal) x0 x1 x2 x3 i)) (kst_main_v362 (F := Ideal) x0 x1 x2 x3 i)) (kst_main_v307 (F := Ideal) x0 x1 x2 x3 i) = _
  rw [h1, h2]

/-- **(c)** corner 5: the kernel's flat index, read as a signed integer, is the natural number
    `(z * 192 + y) * 192 + x` of its three cell words. -/
theorem corner5_toInt (i : S1048576.Idx) :
    (kst_main_v364 (F := Ideal) x0 x1 x2 x3 i).toInt
      = ((((kst_main_v315 (F := Ideal) x0 x1 x2 x3 i).toNat * 192 + (kst_main_v302 (F := Ideal) x0 x1 x2 x3 i).toNat) * 192
          + (kst_main_v307 (F := Ideal) x0 x1 x2 x3 i).toNat : ℕ) : ℤ) := by
  rw [flat5_eq]
  have hx := cell1X_le x0 x1 x2 x3 i
  have hy := cell0Y_le x0 x1 x2 x3 i
  have hz := cell1Z_le x0 x1 x2 x3 i
  rw [LibIndexRange.flat_toInt 191 192 (by norm_num) rfl _ _ _ hx hy hz,
    LibIndexRange.flat_toNat 191 192 (by norm_num) rfl _ _ _ hx hy hz]

/-- **(c)** corner 5: the kernel's flat index and the reference's index after its sign test and
    wrap-around are one word. -/
theorem corner5_eq (i : S1048576.Idx) : kst_main_v364 (F := Ideal) x0 x1 x2 x3 i = ReadP.val_main_v568 (F := Ideal) x0 i := by
  have hsel : ReadP.val_main_v568 (F := Ideal) x0 i
      = Scalar.select (IntOp.cmpi .slt (ReadP.val_main_v563 (F := Ideal) x0 i) 0#32)
          (IntOp.addi (ReadP.val_main_v563 (F := Ideal) x0 i) 7077888#32) (ReadP.val_main_v563 (F := Ideal) x0 i) := by
    simp only [ReadP.val_main_v568_apply, ReadP.val_main_v565_apply, ReadP.val_main_v567_apply, ReadP.val_main_v564_apply,
      ReadP.val_main_c_183_apply, ReadP.val_main_v566_apply, ReadP.val_main_c_184_apply]
  have hI : ReadP.val_main_v563 (F := Ideal) x0 i = kst_main_v364 (F := Ideal) x0 x1 x2 x3 i := (congrFun (flat5_fn x0 x1 x2 x3) i).symm
  have hx := cell1X_le x0 x1 x2 x3 i
  have hy := cell0Y_le x0 x1 x2 x3 i
  have hz := cell1Z_le x0 x1 x2 x3 i
  rw [hsel, hI, flat5_eq]
  exact (LibIndexRange.flat_select 191 192 (by norm_num) rfl _ _ _ hx hy hz 7077888#32).symm

/-- Corner 6: the two programs' flat indices, before the reference's sign test, are one array. -/
theorem flat6_fn : kst_main_v372 (F := Ideal) x0 x1 x2 x3 = ReadP.val_main_v576 (F := Ideal) x0 := by
  unfold kst_main_v372 kst_main_v371 kst_main_v369 kst_main_v368 ReadP.val_main_v576 ReadP.val_main_v575 ReadP.val_main_v573 ReadP.val_main_v572
  rw [cell1Z_fn x0 x1 x2 x3, cell1Y_fn x0 x1 x2 x3, cell0X_fn x0 x1 x2 x3] <;> rfl

/-- Corner 6: the kernel's flat index at a query point is `(z * 192 + y) * 192 + x` on 32-bit words. -/
theorem flat6_eq (i : S1048576.Idx) :
    kst_main_v372 (F := Ideal) x0 x1 x2 x3 i
      = IntOp.addi (IntOp.muli (IntOp.addi (IntOp.muli (kst_main_v315 (F := Ideal) x0 x1 x2 x3 i) 192#32) (kst_main_v311 (F := Ideal) x0 x1 x2 x3 i)) 192#32) (kst_main_v301 (F := Ideal) x0 x1 x2 x3 i) := by
  have h1 : kst_main_v370 (F := Ideal) x0 x1 x2 x3 i = 192#32 := by
    unfold kst_main_v370
    exact (bcast0_apply _ _ _ i).trans rfl
  have h2 : kst_main_v367 (F := Ideal) x0 x1 x2 x3 i = 192#32 := by
    unfold kst_main_v367
    exact (bcast0_apply _ _ _ i).trans rfl
  show IntOp.addi (IntOp.muli (IntOp.addi (IntOp.muli (kst_main_v315 (F := Ideal) x0 x1 x2 x3 i) (kst_main_v367 (F := Ideal) x0 x1 x2 x3 i)) (kst_main_v311 (F := Ideal) x0 x1 x2 x3 i)) (kst_main_v370 (F := Ideal) x0 x1 x2 x3 i)) (kst_main_v301 (F := Ideal) x0 x1 x2 x3 i) = _
  rw [h1, h2]

/-- **(c)** corner 6: the kernel's flat index, read as a signed integer, is the natural number
    `(z * 192 + y) * 192 + x` of its three cell words. -/
theorem corner6_toInt (i : S1048576.Idx) :
    (kst_main_v372 (F := Ideal) x0 x1 x2 x3 i).toInt
      = ((((kst_main_v315 (F := Ideal) x0 x1 x2 x3 i).toNat * 192 + (kst_main_v311 (F := Ideal) x0 x1 x2 x3 i).toNat) * 192
          + (kst_main_v301 (F := Ideal) x0 x1 x2 x3 i).toNat : ℕ) : ℤ) := by
  rw [flat6_eq]
  have hx := cell0X_le x0 x1 x2 x3 i
  have hy := cell1Y_le x0 x1 x2 x3 i
  have hz := cell1Z_le x0 x1 x2 x3 i
  rw [LibIndexRange.flat_toInt 191 192 (by norm_num) rfl _ _ _ hx hy hz,
    LibIndexRange.flat_toNat 191 192 (by norm_num) rfl _ _ _ hx hy hz]

/-- **(c)** corner 6: the kernel's flat index and the reference's index after its sign test and
    wrap-around are one word. -/
theorem corner6_eq (i : S1048576.Idx) : kst_main_v372 (F := Ideal) x0 x1 x2 x3 i = ReadP.val_main_v581 (F := Ideal) x0 i := by
  have hsel : ReadP.val_main_v581 (F := Ideal) x0 i
      = Scalar.select (IntOp.cmpi .slt (ReadP.val_main_v576 (F := Ideal) x0 i) 0#32)
          (IntOp.addi (ReadP.val_main_v576 (F := Ideal) x0 i) 7077888#32) (ReadP.val_main_v576 (F := Ideal) x0 i) := by
    simp only [ReadP.val_main_v581_apply, ReadP.val_main_v578_apply, ReadP.val_main_v580_apply, ReadP.val_main_v577_apply,
      ReadP.val_main_c_187_apply, ReadP.val_main_v579_apply, ReadP.val_main_c_188_apply]
  have hI : ReadP.val_main_v576 (F := Ideal) x0 i = kst_main_v372 (F := Ideal) x0 x1 x2 x3 i := (congrFun (flat6_fn x0 x1 x2 x3) i).symm
  have hx := cell0X_le x0 x1 x2 x3 i
  have hy := cell1Y_le x0 x1 x2 x3 i
  have hz := cell1Z_le x0 x1 x2 x3 i
  rw [hsel, hI, flat6_eq]
  exact (LibIndexRange.flat_select 191 192 (by norm_num) rfl _ _ _ hx hy hz 7077888#32).symm

/-- Corner 7: the two programs' flat indices, before the reference's sign test, are one array. -/
theorem flat7_fn : kst_main_v380 (F := Ideal) x0 x1 x2 x3 = ReadP.val_main_v589 (F := Ideal) x0 := by
  unfold kst_main_v380 kst_main_v379 kst_main_v377 kst_main_v376 ReadP.val_main_v589 ReadP.val_main_v588 ReadP.val_main_v586 ReadP.val_main_v585
  rw [cell1Z_fn x0 x1 x2 x3, cell1Y_fn x0 x1 x2 x3, cell1X_fn x0 x1 x2 x3] <;> rfl

/-- Corner 7: the kernel's flat index at a query point is `(z * 192 + y) * 192 + x` on 32-bit words. -/
theorem flat7_eq (i : S1048576.Idx) :
    kst_main_v380 (F := Ideal) x0 x1 x2 x3 i
      = IntOp.addi (IntOp.muli (IntOp.addi (IntOp.muli (kst_main_v315 (F := Ideal) x0 x1 x2 x3 i) 192#32) (kst_main_v311 (F := Ideal) x0 x1 x2 x3 i)) 192#32) (kst_main_v307 (F := Ideal) x0 x1 x2 x3 i) := by
  have h1 : kst_main_v378 (F := Ideal) x0 x1 x2 x3 i = 192#32 := by
    unfold kst_main_v378
    exact (bcast0_apply _ _ _ i).trans rfl
  have h2 : kst_main_v375 (F := Ideal) x0 x1 x2 x3 i = 192#32 := by
    unfold kst_main_v375
    exact (bcast0_apply _ _ _ i).trans rfl
  show IntOp.addi (IntOp.muli (IntOp.addi (IntOp.muli (kst_main_v315 (F := Ideal) x0 x1 x2 x3 i) (kst_main_v375 (F := Ideal) x0 x1 x2 x3 i)) (kst_main_v311 (F := Ideal) x0 x1 x2 x3 i)) (kst_main_v378 (F := Ideal) x0 x1 x2 x3 i)) (kst_main_v307 (F := Ideal) x0 x1 x2 x3 i) = _
  rw [h1, h2]

/-- **(c)** corner 7: the kernel's flat index, read as a signed integer, is the natural number
    `(z * 192 + y) * 192 + x` of its three cell words. -/
theorem corner7_toInt (i : S1048576.Idx) :
    (kst_main_v380 (F := Ideal) x0 x1 x2 x3 i).toInt
      = ((((kst_main_v315 (F := Ideal) x0 x1 x2 x3 i).toNat * 192 + (kst_main_v311 (F := Ideal) x0 x1 x2 x3 i).toNat) * 192
          + (kst_main_v307 (F := Ideal) x0 x1 x2 x3 i).toNat : ℕ) : ℤ) := by
  rw [flat7_eq]
  have hx := cell1X_le x0 x1 x2 x3 i
  have hy := cell1Y_le x0 x1 x2 x3 i
  have hz := cell1Z_le x0 x1 x2 x3 i
  rw [LibIndexRange.flat_toInt 191 192 (by norm_num) rfl _ _ _ hx hy hz,
    LibIndexRange.flat_toNat 191 192 (by norm_num) rfl _ _ _ hx hy hz]

/-- **(c)** corner 7: the kernel's flat index and the reference's index after its sign test and
    wrap-around are one word. -/
theorem corner7_eq (i : S1048576.Idx) : kst_main_v380 (F := Ideal) x0 x1 x2 x3 i = ReadP.val_main_v594 (F := Ideal) x0 i := by
  have hsel : ReadP.val_main_v594 (F := Ideal) x0 i
      = Scalar.select (IntOp.cmpi .slt (ReadP.val_main_v589 (F := Ideal) x0 i) 0#32)
          (IntOp.addi (ReadP.val_main_v589 (F := Ideal) x0 i) 7077888#32) (ReadP.val_main_v589 (F := Ideal) x0 i) := by
    simp only [ReadP.val_main_v594_apply, ReadP.val_main_v591_apply, ReadP.val_main_v593_apply, ReadP.val_main_v590_apply,
      ReadP.val_main_c_191_apply, ReadP.val_main_v592_apply, ReadP.val_main_c_192_apply]
  have hI : ReadP.val_main_v589 (F := Ideal) x0 i = kst_main_v380 (F := Ideal) x0 x1 x2 x3 i := (congrFun (flat7_fn x0 x1 x2 x3) i).symm
  have hx := cell1X_le x0 x1 x2 x3 i
  have hy := cell1Y_le x0 x1 x2 x3 i
  have hz := cell1Z_le x0 x1 x2 x3 i
  rw [hsel, hI, flat7_eq]
  exact (LibIndexRange.flat_select 191 192 (by norm_num) rfl _ _ _ hx hy hz 7077888#32).symm

/-! ### The cell words as coordinates on an axis of extent 192 -/

/-- The lower cell coordinate along x of a query point, as an index into the axis. -/
def finX0 (i : S1048576.Idx) : Fin 192 :=
  ⟨(kst_main_v301 (F := Ideal) x0 x1 x2 x3 i).toNat, Nat.lt_succ_of_le (cell0X_le x0 x1 x2 x3 i)⟩

/-- Its value is the cell word's. -/
theorem finX0_val (i : S1048576.Idx) : (finX0 x0 x1 x2 x3 i).val = (kst_main_v301 (F := Ideal) x0 x1 x2 x3 i).toNat := by
  unfold finX0
  exact Fin.val_mk _

/-- The upper cell coordinate along x of a query point, as an index into the axis. -/
def finX1 (i : S1048576.Idx) : Fin 192 :=
  ⟨(kst_main_v307 (F := Ideal) x0 x1 x2 x3 i).toNat, Nat.lt_succ_of_le (cell1X_le x0 x1 x2 x3 i)⟩

/-- Its value is the cell word's. -/
theorem finX1_val (i : S1048576.Idx) : (finX1 x0 x1 x2 x3 i).val = (kst_main_v307 (F := Ideal) x0 x1 x2 x3 i).toNat := by
  unfold finX1
  exact Fin.val_mk _

/-- The lower cell coordinate along y of a query point, as an index into the axis. -/
def finY0 (i : S1048576.Idx) : Fin 192 :=
  ⟨(kst_main_v302 (F := Ideal) x0 x1 x2 x3 i).toNat, Nat.lt_succ_of_le (cell0Y_le x0 x1 x2 x3 i)⟩

/-- Its value is the cell word's. -/
theorem finY0_val (i : S1048576.Idx) : (finY0 x0 x1 x2 x3 i).val = (kst_main_v302 (F := Ideal) x0 x1 x2 x3 i).toNat := by
  unfold finY0
  exact Fin.val_mk _

/-- The upper cell coordinate along y of a query point, as an index into the axis. -/
def finY1 (i : S1048576.Idx) : Fin 192 :=
  ⟨(kst_main_v311 (F := Ideal) x0 x1 x2 x3 i).toNat, Nat.lt_succ_of_le (cell1Y_le x0 x1 x2 x3 i)⟩

/-- Its value is the cell word's. -/
theorem finY1_val (i : S1048576.Idx) : (finY1 x0 x1 x2 x3 i).val = (kst_main_v311 (F := Ideal) x0 x1 x2 x3 i).toNat := by
  unfold finY1
  exact Fin.val_mk _

/-- The lower cell coordinate along z of a query point, as an index into the axis. -/
def finZ0 (i : S1048576.Idx) : Fin 192 :=
  ⟨(kst_main_v303 (F := Ideal) x0 x1 x2 x3 i).toNat, Nat.lt_succ_of_le (cell0Z_le x0 x1 x2 x3 i)⟩

/-- Its value is the cell word's. -/
theorem finZ0_val (i : S1048576.Idx) : (finZ0 x0 x1 x2 x3 i).val = (kst_main_v303 (F := Ideal) x0 x1 x2 x3 i).toNat := by
  unfold finZ0
  exact Fin.val_mk _

/-- The upper cell coordinate along z of a query point, as an index into the axis. -/
def finZ1 (i : S1048576.Idx) : Fin 192 :=
  ⟨(kst_main_v315 (F := Ideal) x0 x1 x2 x3 i).toNat, Nat.lt_succ_of_le (cell1Z_le x0 x1 x2 x3 i)⟩

/-- Its value is the cell word's. -/
theorem finZ1_val (i : S1048576.Idx) : (finZ1 x0 x1 x2 x3 i).val = (kst_main_v315 (F := Ideal) x0 x1 x2 x3 i).toNat := by
  unfold finZ1
  exact Fin.val_mk _

/-- **(c)** corner 0 with its cell coordinates as indices: the flat index is `(z * 192 + y) * 192 + x`. -/
theorem corner0_toInt_fin (i : S1048576.Idx) :
    (kst_main_v324 (F := Ideal) x0 x1 x2 x3 i).toInt
      = ((((finZ0 x0 x1 x2 x3 i).val * 192 + (finY0 x0 x1 x2 x3 i).val) * 192
          + (finX0 x0 x1 x2 x3 i).val : ℕ) : ℤ) := by
  rw [finZ0_val, finY0_val, finX0_val]
  exact corner0_toInt x0 x1 x2 x3 i

/-- **(c)** corner 1 with its cell coordinates as indices: the flat index is `(z * 192 + y) * 192 + x`. -/
theorem corner1_toInt_fin (i : S1048576.Idx) :
    (kst_main_v332 (F := Ideal) x0 x1 x2 x3 i).toInt
      = ((((finZ0 x0 x1 x2 x3 i).val * 192 + (finY0 x0 x1 x2 x3 i).val) * 192
          + (finX1 x0 x1 x2 x3 i).val : ℕ) : ℤ) := by
  rw [finZ0_val, finY0_val, finX1_val]
  exact corner1_toInt x0 x1 x2 x3 i

/-- **(c)** corner 2 with its cell coordinates as indices: the flat index is `(z * 192 + y) * 192 + x`. -/
theorem corner2_toInt_fin (i : S1048576.Idx) :
    (kst_main_v340 (F := Ideal) x0 x1 x2 x3 i).toInt
      = ((((finZ0 x0 x1 x2 x3 i).val * 192 + (finY1 x0 x1 x2 x3 i).val) * 192
          + (finX0 x0 x1 x2 x3 i).val : ℕ) : ℤ) := by
  rw [finZ0_val, finY1_val, finX0_val]
  exact corner2_toInt x0 x1 x2 x3 i

/-- **(c)** corner 3 with its cell coordinates as indices: the flat index is `(z * 192 + y) * 192 + x`. -/
theorem corner3_toInt_fin (i : S1048576.Idx) :
    (kst_main_v348 (F := Ideal) x0 x1 x2 x3 i).toInt
      = ((((finZ0 x0 x1 x2 x3 i).val * 192 + (finY1 x0 x1 x2 x3 i).val) * 192
          + (finX1 x0 x1 x2 x3 i).val : ℕ) : ℤ) := by
  rw [finZ0_val, finY1_val, finX1_val]
  exact corner3_toInt x0 x1 x2 x3 i

/-- **(c)** corner 4 with its cell coordinates as indices: the flat index is `(z * 192 + y) * 192 + x`. -/
theorem corner4_toInt_fin (i : S1048576.Idx) :
    (kst_main_v356 (F := Ideal) x0 x1 x2 x3 i).toInt
      = ((((finZ1 x0 x1 x2 x3 i).val * 192 + (finY0 x0 x1 x2 x3 i).val) * 192
          + (finX0 x0 x1 x2 x3 i).val : ℕ) : ℤ) := by
  rw [finZ1_val, finY0_val, finX0_val]
  exact corner4_toInt x0 x1 x2 x3 i

/-- **(c)** corner 5 with its cell coordinates as indices: the flat index is `(z * 192 + y) * 192 + x`. -/
theorem corner5_toInt_fin (i : S1048576.Idx) :
    (kst_main_v364 (F := Ideal) x0 x1 x2 x3 i).toInt
      = ((((finZ1 x0 x1 x2 x3 i).val * 192 + (finY0 x0 x1 x2 x3 i).val) * 192
          + (finX1 x0 x1 x2 x3 i).val : ℕ) : ℤ) := by
  rw [finZ1_val, finY0_val, finX1_val]
  exact corner5_toInt x0 x1 x2 x3 i

/-- **(c)** corner 6 with its cell coordinates as indices: the flat index is `(z * 192 + y) * 192 + x`. -/
theorem corner6_toInt_fin (i : S1048576.Idx) :
    (kst_main_v372 (F := Ideal) x0 x1 x2 x3 i).toInt
      = ((((finZ1 x0 x1 x2 x3 i).val * 192 + (finY1 x0 x1 x2 x3 i).val) * 192
          + (finX0 x0 x1 x2 x3 i).val : ℕ) : ℤ) := by
  rw [finZ1_val, finY1_val, finX0_val]
  exact corner6_toInt x0 x1 x2 x3 i

/-- **(c)** corner 7 with its cell coordinates as indices: the flat index is `(z * 192 + y) * 192 + x`. -/
theorem corner7_toInt_fin (i : S1048576.Idx) :
    (kst_main_v380 (F := Ideal) x0 x1 x2 x3 i).toInt
      = ((((finZ1 x0 x1 x2 x3 i).val * 192 + (finY1 x0 x1 x2 x3 i).val) * 192
          + (finX1 x0 x1 x2 x3 i).val : ℕ) : ℤ) := by
  rw [finZ1_val, finY1_val, finX1_val]
  exact corner7_toInt x0 x1 x2 x3 i

end Cert.Proof.GlueCoords2

end
-- ==== Proof.CornersAgree2.lean ====
/-
  The eight corner arrays of volume 2 (extent 192) are the same arrays in the two programs.

  For every output point `n` and each corner of its sampling cell the two programs' index words are one word, reading
  signed as the corner's flat position `(z · 192 + y) · 192 + x` with `z, y, x` below 192; each program's gathered array read at
  `(ch, n)` is then the volume's element `(0, ch, z, y, x)`, so the arrays agree element by element.
-/
import proofs.«113233_j37486474559588_2_alg».proof.Proof.GlueCorners2
import proofs.«113233_j37486474559588_2_alg».proof.Proof.GlueCoords2

noncomputable section

namespace Cert.Proof.CornersAgree2

open Idealize.ShloMosaic Idealize.ShloMosaic.ValueIdx Cert.Proof.GlueCorners2 Cert.Proof.GlueCoords2

/-- Corner (z₀, y₀, x₀): the kernel's array at `(ch, n)` is the volume's element at the cell coordinates the point's index
    words name. -/
theorem kval_v326 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v326 (F := Ideal) x0 x1 x2 x3 (ix2 ch n) = x3 (ix5 0 ch (finZ0 x0 x1 x2 x3 (ix1 n)) (finY0 x0 x1 x2 x3 (ix1 n)) (finX0 x0 x1 x2 x3 (ix1 n))) :=
  kread_v326 x0 x1 x2 x3 ch n (finX0 x0 x1 x2 x3 (ix1 n)) (finY0 x0 x1 x2 x3 (ix1 n)) (finZ0 x0 x1 x2 x3 (ix1 n)) (corner0_toInt_fin x0 x1 x2 x3 (ix1 n))

/-- Corner (z₀, y₀, x₀): the two programs' arrays agree at every `(ch, n)`: their index words are the same word, and it
    reads signed as the flat position of the cell `(z, y, x)` the point's coordinates name. -/
theorem agree_v326_v505 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v326 (F := Ideal) x0 x1 x2 x3 (ix2 ch n) = Cert.ReferenceIdeal.ReadP.val_main_v505 (F := Ideal) x0 x3 (ix2 ch n) :=
  corner_v326_v505_of_same x0 x1 x2 x3 ch n (finX0 x0 x1 x2 x3 (ix1 n)) (finY0 x0 x1 x2 x3 (ix1 n)) (finZ0 x0 x1 x2 x3 (ix1 n))
    (corner0_eq x0 x1 x2 x3 (ix1 n)) (corner0_toInt_fin x0 x1 x2 x3 (ix1 n))

/-- Corner (z₀, y₀, x₀): the two arrays are equal. -/
theorem agree_v326_v505_fn (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal)) :
    Cert.KernelIdeal.Host.kst_main_v326 (F := Ideal) x0 x1 x2 x3 = Cert.ReferenceIdeal.ReadP.val_main_v505 (F := Ideal) x0 x3 := by
  funext j
  obtain ⟨ch, n, rfl⟩ : ∃ (ch : Fin 4) (n : Fin 1048576), j = ix2 ch n := ⟨j 0, j 1, eq_ix2 j⟩
  exact agree_v326_v505 x0 x1 x2 x3 ch n

/-- Corner (z₀, y₀, x₁): the kernel's array at `(ch, n)` is the volume's element at the cell coordinates the point's index
    words name. -/
theorem kval_v334 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v334 (F := Ideal) x0 x1 x2 x3 (ix2 ch n) = x3 (ix5 0 ch (finZ0 x0 x1 x2 x3 (ix1 n)) (finY0 x0 x1 x2 x3 (ix1 n)) (finX1 x0 x1 x2 x3 (ix1 n))) :=
  kread_v334 x0 x1 x2 x3 ch n (finX1 x0 x1 x2 x3 (ix1 n)) (finY0 x0 x1 x2 x3 (ix1 n)) (finZ0 x0 x1 x2 x3 (ix1 n)) (corner1_toInt_fin x0 x1 x2 x3 (ix1 n))

/-- Corner (z₀, y₀, x₁): the two programs' arrays agree at every `(ch, n)`: their index words are the same word, and it
    reads signed as the flat position of the cell `(z, y, x)` the point's coordinates name. -/
theorem agree_v334_v518 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v334 (F := Ideal) x0 x1 x2 x3 (ix2 ch n) = Cert.ReferenceIdeal.ReadP.val_main_v518 (F := Ideal) x0 x3 (ix2 ch n) :=
  corner_v334_v518_of_same x0 x1 x2 x3 ch n (finX1 x0 x1 x2 x3 (ix1 n)) (finY0 x0 x1 x2 x3 (ix1 n)) (finZ0 x0 x1 x2 x3 (ix1 n))
    (corner1_eq x0 x1 x2 x3 (ix1 n)) (corner1_toInt_fin x0 x1 x2 x3 (ix1 n))

/-- Corner (z₀, y₀, x₁): the two arrays are equal. -/
theorem agree_v334_v518_fn (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal)) :
    Cert.KernelIdeal.Host.kst_main_v334 (F := Ideal) x0 x1 x2 x3 = Cert.ReferenceIdeal.ReadP.val_main_v518 (F := Ideal) x0 x3 := by
  funext j
  obtain ⟨ch, n, rfl⟩ : ∃ (ch : Fin 4) (n : Fin 1048576), j = ix2 ch n := ⟨j 0, j 1, eq_ix2 j⟩
  exact agree_v334_v518 x0 x1 x2 x3 ch n

/-- Corner (z₀, y₁, x₀): the kernel's array at `(ch, n)` is the volume's element at the cell coordinates the point's index
    words name. -/
theorem kval_v342 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v342 (F := Ideal) x0 x1 x2 x3 (ix2 ch n) = x3 (ix5 0 ch (finZ0 x0 x1 x2 x3 (ix1 n)) (finY1 x0 x1 x2 x3 (ix1 n)) (finX0 x0 x1 x2 x3 (ix1 n))) :=
  kread_v342 x0 x1 x2 x3 ch n (finX0 x0 x1 x2 x3 (ix1 n)) (finY1 x0 x1 x2 x3 (ix1 n)) (finZ0 x0 x1 x2 x3 (ix1 n)) (corner2_toInt_fin x0 x1 x2 x3 (ix1 n))

/-- Corner (z₀, y₁, x₀): the two programs' arrays agree at every `(ch, n)`: their index words are the same word, and it
    reads signed as the flat position of the cell `(z, y, x)` the point's coordinates name. -/
theorem agree_v342_v531 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v342 (F := Ideal) x0 x1 x2 x3 (ix2 ch n) = Cert.ReferenceIdeal.ReadP.val_main_v531 (F := Ideal) x0 x3 (ix2 ch n) :=
  corner_v342_v531_of_same x0 x1 x2 x3 ch n (finX0 x0 x1 x2 x3 (ix1 n)) (finY1 x0 x1 x2 x3 (ix1 n)) (finZ0 x0 x1 x2 x3 (ix1 n))
    (corner2_eq x0 x1 x2 x3 (ix1 n)) (corner2_toInt_fin x0 x1 x2 x3 (ix1 n))

/-- Corner (z₀, y₁, x₀): the two arrays are equal. -/
theorem agree_v342_v531_fn (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal)) :
    Cert.KernelIdeal.Host.kst_main_v342 (F := Ideal) x0 x1 x2 x3 = Cert.ReferenceIdeal.ReadP.val_main_v531 (F := Ideal) x0 x3 := by
  funext j
  obtain ⟨ch, n, rfl⟩ : ∃ (ch : Fin 4) (n : Fin 1048576), j = ix2 ch n := ⟨j 0, j 1, eq_ix2 j⟩
  exact agree_v342_v531 x0 x1 x2 x3 ch n

/-- Corner (z₀, y₁, x₁): the kernel's array at `(ch, n)` is the volume's element at the cell coordinates the point's index
    words name. -/
theorem kval_v350 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v350 (F := Ideal) x0 x1 x2 x3 (ix2 ch n) = x3 (ix5 0 ch (finZ0 x0 x1 x2 x3 (ix1 n)) (finY1 x0 x1 x2 x3 (ix1 n)) (finX1 x0 x1 x2 x3 (ix1 n))) :=
  kread_v350 x0 x1 x2 x3 ch n (finX1 x0 x1 x2 x3 (ix1 n)) (finY1 x0 x1 x2 x3 (ix1 n)) (finZ0 x0 x1 x2 x3 (ix1 n)) (corner3_toInt_fin x0 x1 x2 x3 (ix1 n))

/-- Corner (z₀, y₁, x₁): the two programs' arrays agree at every `(ch, n)`: their index words are the same word, and it
    reads signed as the flat position of the cell `(z, y, x)` the point's coordinates name. -/
theorem agree_v350_v544 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v350 (F := Ideal) x0 x1 x2 x3 (ix2 ch n) = Cert.ReferenceIdeal.ReadP.val_main_v544 (F := Ideal) x0 x3 (ix2 ch n) :=
  corner_v350_v544_of_same x0 x1 x2 x3 ch n (finX1 x0 x1 x2 x3 (ix1 n)) (finY1 x0 x1 x2 x3 (ix1 n)) (finZ0 x0 x1 x2 x3 (ix1 n))
    (corner3_eq x0 x1 x2 x3 (ix1 n)) (corner3_toInt_fin x0 x1 x2 x3 (ix1 n))

/-- Corner (z₀, y₁, x₁): the two arrays are equal. -/
theorem agree_v350_v544_fn (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal)) :
    Cert.KernelIdeal.Host.kst_main_v350 (F := Ideal) x0 x1 x2 x3 = Cert.ReferenceIdeal.ReadP.val_main_v544 (F := Ideal) x0 x3 := by
  funext j
  obtain ⟨ch, n, rfl⟩ : ∃ (ch : Fin 4) (n : Fin 1048576), j = ix2 ch n := ⟨j 0, j 1, eq_ix2 j⟩
  exact agree_v350_v544 x0 x1 x2 x3 ch n

/-- Corner (z₁, y₀, x₀): the kernel's array at `(ch, n)` is the volume's element at the cell coordinates the point's index
    words name. -/
theorem kval_v358 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v358 (F := Ideal) x0 x1 x2 x3 (ix2 ch n) = x3 (ix5 0 ch (finZ1 x0 x1 x2 x3 (ix1 n)) (finY0 x0 x1 x2 x3 (ix1 n)) (finX0 x0 x1 x2 x3 (ix1 n))) :=
  kread_v358 x0 x1 x2 x3 ch n (finX0 x0 x1 x2 x3 (ix1 n)) (finY0 x0 x1 x2 x3 (ix1 n)) (finZ1 x0 x1 x2 x3 (ix1 n)) (corner4_toInt_fin x0 x1 x2 x3 (ix1 n))

/-- Corner (z₁, y₀, x₀): the two programs' arrays agree at every `(ch, n)`: their index words are the same word, and it
    reads signed as the flat position of the cell `(z, y, x)` the point's coordinates name. -/
theorem agree_v358_v557 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v358 (F := Ideal) x0 x1 x2 x3 (ix2 ch n) = Cert.ReferenceIdeal.ReadP.val_main_v557 (F := Ideal) x0 x3 (ix2 ch n) :=
  corner_v358_v557_of_same x0 x1 x2 x3 ch n (finX0 x0 x1 x2 x3 (ix1 n)) (finY0 x0 x1 x2 x3 (ix1 n)) (finZ1 x0 x1 x2 x3 (ix1 n))
    (corner4_eq x0 x1 x2 x3 (ix1 n)) (corner4_toInt_fin x0 x1 x2 x3 (ix1 n))

/-- Corner (z₁, y₀, x₀): the two arrays are equal. -/
theorem agree_v358_v557_fn (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal)) :
    Cert.KernelIdeal.Host.kst_main_v358 (F := Ideal) x0 x1 x2 x3 = Cert.ReferenceIdeal.ReadP.val_main_v557 (F := Ideal) x0 x3 := by
  funext j
  obtain ⟨ch, n, rfl⟩ : ∃ (ch : Fin 4) (n : Fin 1048576), j = ix2 ch n := ⟨j 0, j 1, eq_ix2 j⟩
  exact agree_v358_v557 x0 x1 x2 x3 ch n

/-- Corner (z₁, y₀, x₁): the kernel's array at `(ch, n)` is the volume's element at the cell coordinates the point's index
    words name. -/
theorem kval_v366 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v366 (F := Ideal) x0 x1 x2 x3 (ix2 ch n) = x3 (ix5 0 ch (finZ1 x0 x1 x2 x3 (ix1 n)) (finY0 x0 x1 x2 x3 (ix1 n)) (finX1 x0 x1 x2 x3 (ix1 n))) :=
  kread_v366 x0 x1 x2 x3 ch n (finX1 x0 x1 x2 x3 (ix1 n)) (finY0 x0 x1 x2 x3 (ix1 n)) (finZ1 x0 x1 x2 x3 (ix1 n)) (corner5_toInt_fin x0 x1 x2 x3 (ix1 n))

/-- Corner (z₁, y₀, x₁): the two programs' arrays agree at every `(ch, n)`: their index words are the same word, and it
    reads signed as the flat position of the cell `(z, y, x)` the point's coordinates name. -/
theorem agree_v366_v570 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v366 (F := Ideal) x0 x1 x2 x3 (ix2 ch n) = Cert.ReferenceIdeal.ReadP.val_main_v570 (F := Ideal) x0 x3 (ix2 ch n) :=
  corner_v366_v570_of_same x0 x1 x2 x3 ch n (finX1 x0 x1 x2 x3 (ix1 n)) (finY0 x0 x1 x2 x3 (ix1 n)) (finZ1 x0 x1 x2 x3 (ix1 n))
    (corner5_eq x0 x1 x2 x3 (ix1 n)) (corner5_toInt_fin x0 x1 x2 x3 (ix1 n))

/-- Corner (z₁, y₀, x₁): the two arrays are equal. -/
theorem agree_v366_v570_fn (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal)) :
    Cert.KernelIdeal.Host.kst_main_v366 (F := Ideal) x0 x1 x2 x3 = Cert.ReferenceIdeal.ReadP.val_main_v570 (F := Ideal) x0 x3 := by
  funext j
  obtain ⟨ch, n, rfl⟩ : ∃ (ch : Fin 4) (n : Fin 1048576), j = ix2 ch n := ⟨j 0, j 1, eq_ix2 j⟩
  exact agree_v366_v570 x0 x1 x2 x3 ch n

/-- Corner (z₁, y₁, x₀): the kernel's array at `(ch, n)` is the volume's element at the cell coordinates the point's index
    words name. -/
theorem kval_v374 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v374 (F := Ideal) x0 x1 x2 x3 (ix2 ch n) = x3 (ix5 0 ch (finZ1 x0 x1 x2 x3 (ix1 n)) (finY1 x0 x1 x2 x3 (ix1 n)) (finX0 x0 x1 x2 x3 (ix1 n))) :=
  kread_v374 x0 x1 x2 x3 ch n (finX0 x0 x1 x2 x3 (ix1 n)) (finY1 x0 x1 x2 x3 (ix1 n)) (finZ1 x0 x1 x2 x3 (ix1 n)) (corner6_toInt_fin x0 x1 x2 x3 (ix1 n))

/-- Corner (z₁, y₁, x₀): the two programs' arrays agree at every `(ch, n)`: their index words are the same word, and it
    reads signed as the flat position of the cell `(z, y, x)` the point's coordinates name. -/
theorem agree_v374_v583 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v374 (F := Ideal) x0 x1 x2 x3 (ix2 ch n) = Cert.ReferenceIdeal.ReadP.val_main_v583 (F := Ideal) x0 x3 (ix2 ch n) :=
  corner_v374_v583_of_same x0 x1 x2 x3 ch n (finX0 x0 x1 x2 x3 (ix1 n)) (finY1 x0 x1 x2 x3 (ix1 n)) (finZ1 x0 x1 x2 x3 (ix1 n))
    (corner6_eq x0 x1 x2 x3 (ix1 n)) (corner6_toInt_fin x0 x1 x2 x3 (ix1 n))

/-- Corner (z₁, y₁, x₀): the two arrays are equal. -/
theorem agree_v374_v583_fn (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal)) :
    Cert.KernelIdeal.Host.kst_main_v374 (F := Ideal) x0 x1 x2 x3 = Cert.ReferenceIdeal.ReadP.val_main_v583 (F := Ideal) x0 x3 := by
  funext j
  obtain ⟨ch, n, rfl⟩ : ∃ (ch : Fin 4) (n : Fin 1048576), j = ix2 ch n := ⟨j 0, j 1, eq_ix2 j⟩
  exact agree_v374_v583 x0 x1 x2 x3 ch n

/-- Corner (z₁, y₁, x₁): the kernel's array at `(ch, n)` is the volume's element at the cell coordinates the point's index
    words name. -/
theorem kval_v382 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v382 (F := Ideal) x0 x1 x2 x3 (ix2 ch n) = x3 (ix5 0 ch (finZ1 x0 x1 x2 x3 (ix1 n)) (finY1 x0 x1 x2 x3 (ix1 n)) (finX1 x0 x1 x2 x3 (ix1 n))) :=
  kread_v382 x0 x1 x2 x3 ch n (finX1 x0 x1 x2 x3 (ix1 n)) (finY1 x0 x1 x2 x3 (ix1 n)) (finZ1 x0 x1 x2 x3 (ix1 n)) (corner7_toInt_fin x0 x1 x2 x3 (ix1 n))

/-- Corner (z₁, y₁, x₁): the two programs' arrays agree at every `(ch, n)`: their index words are the same word, and it
    reads signed as the flat position of the cell `(z, y, x)` the point's coordinates name. -/
theorem agree_v382_v596 (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal))
    (ch : Fin 4) (n : Fin 1048576) :
    Cert.KernelIdeal.Host.kst_main_v382 (F := Ideal) x0 x1 x2 x3 (ix2 ch n) = Cert.ReferenceIdeal.ReadP.val_main_v596 (F := Ideal) x0 x3 (ix2 ch n) :=
  corner_v382_v596_of_same x0 x1 x2 x3 ch n (finX1 x0 x1 x2 x3 (ix1 n)) (finY1 x0 x1 x2 x3 (ix1 n)) (finZ1 x0 x1 x2 x3 (ix1 n))
    (corner7_eq x0 x1 x2 x3 (ix1 n)) (corner7_toInt_fin x0 x1 x2 x3 (ix1 n))

/-- Corner (z₁, y₁, x₁): the two arrays are equal. -/
theorem agree_v382_v596_fn (x0 : (⟨Cert.KernelIdeal.S1x1x1x1048576x3, .f32⟩ : BufTy).Contents (Elt Ideal)) (x1 : (⟨Cert.KernelIdeal.S1x4x64x64x64, .f32⟩ : BufTy).Contents (Elt Ideal))
    (x2 : (⟨Cert.KernelIdeal.S1x4x128x128x128, .f32⟩ : BufTy).Contents (Elt Ideal)) (x3 : (⟨Cert.KernelIdeal.S1x4x192x192x192, .f32⟩ : BufTy).Contents (Elt Ideal)) :
    Cert.KernelIdeal.Host.kst_main_v382 (F := Ideal) x0 x1 x2 x3 = Cert.ReferenceIdeal.ReadP.val_main_v596 (F := Ideal) x0 x3 := by
  funext j
  obtain ⟨ch, n, rfl⟩ : ∃ (ch : Fin 4) (n : Fin 1048576), j = ix2 ch n := ⟨j 0, j 1, eq_ix2 j⟩
  exact agree_v382_v596 x0 x1 x2 x3 ch n

end Cert.Proof.CornersAgree2

end
-- ==== Proof.RowIndex.lean ====
import Idealize.ShloMosaic.Lib.ValueIdx
import Idealize.ShloMosaic.Lib.Pipeline.Value
import Mathlib.Tactic

/-!
# The result's last reshape read at an index, and the split of its twelve rows

The result `[1, 12, 1, 1, N]` is a reshape of a `[12, N]` array: element `(0, r, 0, 0, n)` is
element `(r, n)`.  Every index of the result has that form, and a row `r < 12` lies in exactly one
of the three four-row blocks.
-/

noncomputable section

namespace Cert.Proof.RowIndex

open Idealize.ShloMosaic Idealize.ShloMosaic.ValueIdx

/-- The twelve-row array and the result's shape. -/
abbrev SRows : Shape := ⟨2, ![12, 1048576]⟩
abbrev SOut : Shape := ⟨5, ![1, 12, 1, 1, 1048576]⟩

/-- **(1)** The reshape of a `[12, N]` array to `[1, 12, 1, 1, N]` read at an index is the array at the
    index's row and query point. -/
theorem out_reshape_apply {α : Type} (f : SRows.Idx → α) (h : SRows.ShapeCasts SOut) (i : SOut.Idx) :
    shapeCast SOut f h i = f (ix2 (n0 := 12) (n1 := 1048576) (i 1) (i 4)) := by
  refine shapeCast_apply f h i (ix2 (n0 := 12) (n1 := 1048576) (i 1) (i 4)) ?_
  rewrite [Shape.rowMajor_val_two, Shape.rowMajor_val_five]
  have h0 : (i 0).val < 1 := (i 0).isLt
  have h2 : (i 2).val < 1 := (i 2).isLt
  have h3 : (i 3).val < 1 := (i 3).isLt
  show (i 1).val * 1048576 + (i 4).val
    = ((((i 0).val * 12 + (i 1).val) * 1 + (i 2).val) * 1 + (i 3).val) * 1048576 + (i 4).val
  omega

/-- **(2)** Every index of the result is `(0, r, 0, 0, n)` for its row `r` and query point `n`. -/
theorem idx5_eq (i : SOut.Idx) :
    i = ix5 (n0 := 1) (n1 := 12) (n2 := 1) (n3 := 1) (n4 := 1048576)
      (0 : Fin 1) (i 1) (0 : Fin 1) (0 : Fin 1) (i 4) := by
  funext a
  match a with
  | ⟨0, h⟩ =>
    exact Fin.ext (by
      have h1 : (i ⟨0, h⟩).val < 1 := (i ⟨0, h⟩).isLt
      show (i ⟨0, h⟩).val = 0
      omega)
  | ⟨1, _⟩ => rfl
  | ⟨2, h⟩ =>
    exact Fin.ext (by
      have h1 : (i ⟨2, h⟩).val < 1 := (i ⟨2, h⟩).isLt
      show (i ⟨2, h⟩).val = 0
      omega)
  | ⟨3, h⟩ =>
    exact Fin.ext (by
      have h1 : (i ⟨3, h⟩).val < 1 := (i ⟨3, h⟩).isLt
      show (i ⟨3, h⟩).val = 0
      omega)
  | ⟨4, _⟩ => rfl

/-- **(3)** A row of the twelve lies in the first, the second or the third block of four. -/
theorem row_cases (r : Fin 12) : r.val < 4 ∨ (4 ≤ r.val ∧ r.val < 8) ∨ 8 ≤ r.val := by
  omega

/-- A row of the first block is a channel of volume 0. -/
theorem row_block0 (r : Fin 12) (h : r.val < 4) : ∃ ch : Fin 4, r.val = ch.val := ⟨⟨r.val, h⟩, rfl⟩

/-- A row of the second block is `4 + ch` for a channel `ch` of volume 1. -/
theorem row_block1 (r : Fin 12) (h1 : 4 ≤ r.val) (h2 : r.val < 8) : ∃ ch : Fin 4, r.val = 4 + ch.val :=
  ⟨⟨r.val - 4, by omega⟩, by show r.val = 4 + (r.val - 4); omega⟩

/-- A row of the third block is `8 + ch` for a channel `ch` of volume 2. -/
theorem row_block2 (r : Fin 12) (h : 8 ≤ r.val) : ∃ ch : Fin 4, r.val = 8 + ch.val :=
  ⟨⟨r.val - 8, by have := r.isLt; omega⟩, by show r.val = 8 + (r.val - 8); omega⟩

end Cert.Proof.RowIndex

end
-- ==== Proof.Algebraic.lean ====
/-
  The two idealized programs end with equal results. The kernel's result is the closing reshape of one
  whole-array function `Kout` of its entry arrays (the region's blocks laid back side by side); the reference's is
  one composed term of the arguments, read through its stage functions. At the output element of channel row
  `r = 4v + ch` and query point `n` both are the same point value: the kernel's from the four stacked
  x-interpolated corner arrays at `(r, n)` and the two raw coordinates of point `n`, the reference's from its own
  x-interpolated corners of volume `v` at `(ch, n)` and the same two grid entries — and the stacked arrays' rows
  ARE those corners, because each gathered corner reads the same element of the volume in both layouts (the flat
  index of a clipped cell is in range, so the reference's negative-index branch is never taken and no clamp acts).
-/
import proofs.«113233_j37486474559588_2_alg».proof.Defs
import proofs.«113233_j37486474559588_2_alg».proof.Proof.Gen.Pre_finite_inputs
import proofs.«113233_j37486474559588_2_alg».proof.Proof.KernelArray
import proofs.«113233_j37486474559588_2_alg».proof.Proof.RefPoint
import proofs.«113233_j37486474559588_2_alg».proof.Proof.RefRunH
import proofs.«113233_j37486474559588_2_alg».proof.Proof.GlueEntry0
import proofs.«113233_j37486474559588_2_alg».proof.Proof.GlueEntry1
import proofs.«113233_j37486474559588_2_alg».proof.Proof.GlueEntry2
import proofs.«113233_j37486474559588_2_alg».proof.Proof.CornersAgree0
import proofs.«113233_j37486474559588_2_alg».proof.Proof.CornersAgree1
import proofs.«113233_j37486474559588_2_alg».proof.Proof.CornersAgree2
import proofs.«113233_j37486474559588_2_alg».proof.Proof.RowIndex

noncomputable section

namespace Cert.Proof.Bridge

open Idealize.ShloMosaic Idealize.ShloMosaic.TcCoe Idealize.SL.Sem Idealize.ShloMosaic.ValueIdx
open Cert.KernelIdeal Cert.KernelIdeal.Gen Cert.KernelIdeal.Around Cert.KernelIdeal.Glue

/-- Rows of volume 0: the kernel's output element is the reference's. -/
theorem row0 (m : (ℓ : Loc nD τ sig) → Buf (Elt Ideal) ℓ) (c : Dev nD) (r : Fin 12) (hr : r.val < 4) (n : Fin 1048576) :
    Kout m c (ix2 r n) = Cert.ReferenceIdeal.ReadP.val_main_v633 (F := Ideal) (A0 m c) (A1 m c) (A2 m c) (A3 m c) (ix5 (0 : Fin 1) r (0 : Fin 1) (0 : Fin 1) n) := by
  rw [Kout_apply0 m c r hr n,
    entry400_rows0 m c r hr n
      (Cert.Proof.CornersAgree0.agree_v64_v83 (A0 m c) (A1 m c) (A2 m c) (A3 m c) (⟨r.val, hr⟩ : Fin 4) n)
      (Cert.Proof.CornersAgree0.agree_v72_v96 (A0 m c) (A1 m c) (A2 m c) (A3 m c) (⟨r.val, hr⟩ : Fin 4) n)
      (Cert.Proof.GlueCoords0.weightX (A0 m c) (A1 m c) (A2 m c) (A3 m c) (ix1 n)),
    entry401_rows0 m c r hr n
      (Cert.Proof.CornersAgree0.agree_v80_v109 (A0 m c) (A1 m c) (A2 m c) (A3 m c) (⟨r.val, hr⟩ : Fin 4) n)
      (Cert.Proof.CornersAgree0.agree_v88_v122 (A0 m c) (A1 m c) (A2 m c) (A3 m c) (⟨r.val, hr⟩ : Fin 4) n)
      (Cert.Proof.GlueCoords0.weightX (A0 m c) (A1 m c) (A2 m c) (A3 m c) (ix1 n)),
    entry402_rows0 m c r hr n
      (Cert.Proof.CornersAgree0.agree_v96_v135 (A0 m c) (A1 m c) (A2 m c) (A3 m c) (⟨r.val, hr⟩ : Fin 4) n)
      (Cert.Proof.CornersAgree0.agree_v104_v148 (A0 m c) (A1 m c) (A2 m c) (A3 m c) (⟨r.val, hr⟩ : Fin 4) n)
      (Cert.Proof.GlueCoords0.weightX (A0 m c) (A1 m c) (A2 m c) (A3 m c) (ix1 n)),
    entry403_rows0 m c r hr n
      (Cert.Proof.CornersAgree0.agree_v112_v161 (A0 m c) (A1 m c) (A2 m c) (A3 m c) (⟨r.val, hr⟩ : Fin 4) n)
      (Cert.Proof.CornersAgree0.agree_v120_v174 (A0 m c) (A1 m c) (A2 m c) (A3 m c) (⟨r.val, hr⟩ : Fin 4) n)
      (Cert.Proof.GlueCoords0.weightX (A0 m c) (A1 m c) (A2 m c) (A3 m c) (ix1 n)),
    entry406_row0 m c n, entry406_row1 m c n]
  exact (Cert.Proof.RefPoint.ref_point0_row (A0 m c) (A1 m c) (A2 m c) (A3 m c) (⟨r.val, hr⟩ : Fin 4) n r rfl).symm

/-- Rows of volume 1: the kernel's output element is the reference's. -/
theorem row1 (m : (ℓ : Loc nD τ sig) → Buf (Elt Ideal) ℓ) (c : Dev nD) (r : Fin 12) (hr : 4 ≤ r.val ∧ r.val < 8) (n : Fin 1048576) :
    Kout m c (ix2 r n) = Cert.ReferenceIdeal.ReadP.val_main_v633 (F := Ideal) (A0 m c) (A1 m c) (A2 m c) (A3 m c) (ix5 (0 : Fin 1) r (0 : Fin 1) (0 : Fin 1) n) := by
  rw [Kout_apply1 m c r hr n,
    entry400_rows1 m c r hr n
      (Cert.Proof.CornersAgree1.agree_v195_v294 (A0 m c) (A1 m c) (A2 m c) (A3 m c) (⟨r.val - 4, by omega⟩ : Fin 4) n)
      (Cert.Proof.CornersAgree1.agree_v203_v307 (A0 m c) (A1 m c) (A2 m c) (A3 m c) (⟨r.val - 4, by omega⟩ : Fin 4) n)
      (Cert.Proof.GlueCoords1.weightX (A0 m c) (A1 m c) (A2 m c) (A3 m c) (ix1 n)),
    entry401_rows1 m c r hr n
      (Cert.Proof.CornersAgree1.agree_v211_v320 (A0 m c) (A1 m c) (A2 m c) (A3 m c) (⟨r.val - 4, by omega⟩ : Fin 4) n)
      (Cert.Proof.CornersAgree1.agree_v219_v333 (A0 m c) (A1 m c) (A2 m c) (A3 m c) (⟨r.val - 4, by omega⟩ : Fin 4) n)
      (Cert.Proof.GlueCoords1.weightX (A0 m c) (A1 m c) (A2 m c) (A3 m c) (ix1 n)),
    entry402_rows1 m c r hr n
      (Cert.Proof.CornersAgree1.agree_v227_v346 (A0 m c) (A1 m c) (A2 m c) (A3 m c) (⟨r.val - 4, by omega⟩ : Fin 4) n)
      (Cert.Proof.CornersAgree1.agree_v235_v359 (A0 m c) (A1 m c) (A2 m c) (A3 m c) (⟨r.val - 4, by omega⟩ : Fin 4) n)
      (Cert.Proof.GlueCoords1.weightX (A0 m c) (A1 m c) (A2 m c) (A3 m c) (ix1 n)),
    entry403_rows1 m c r hr n
      (Cert.Proof.CornersAgree1.agree_v243_v372 (A0 m c) (A1 m c) (A2 m c) (A3 m c) (⟨r.val - 4, by omega⟩ : Fin 4) n)
      (Cert.Proof.CornersAgree1.agree_v251_v385 (A0 m c) (A1 m c) (A2 m c) (A3 m c) (⟨r.val - 4, by omega⟩ : Fin 4) n)
      (Cert.Proof.GlueCoords1.weightX (A0 m c) (A1 m c) (A2 m c) (A3 m c) (ix1 n)),
    entry406_row0 m c n, entry406_row1 m c n]
  exact (Cert.Proof.RefPoint.ref_point1_row (A0 m c) (A1 m c) (A2 m c) (A3 m c) (⟨r.val - 4, by omega⟩ : Fin 4) n r
    (by show r.val = 4 + (r.val - 4); omega)).symm

/-- Rows of volume 2: the kernel's output element is the reference's. -/
theorem row2 (m : (ℓ : Loc nD τ sig) → Buf (Elt Ideal) ℓ) (c : Dev nD) (r : Fin 12) (hr : 8 ≤ r.val) (n : Fin 1048576) :
    Kout m c (ix2 r n) = Cert.ReferenceIdeal.ReadP.val_main_v633 (F := Ideal) (A0 m c) (A1 m c) (A2 m c) (A3 m c) (ix5 (0 : Fin 1) r (0 : Fin 1) (0 : Fin 1) n) := by
  rw [Kout_apply2 m c r hr n,
    entry400_rows2 m c r hr n
      (Cert.Proof.CornersAgree2.agree_v326_v505 (A0 m c) (A1 m c) (A2 m c) (A3 m c) (⟨r.val - 8, by have := r.isLt; omega⟩ : Fin 4) n)
      (Cert.Proof.CornersAgree2.agree_v334_v518 (A0 m c) (A1 m c) (A2 m c) (A3 m c) (⟨r.val - 8, by have := r.isLt; omega⟩ : Fin 4) n)
      (Cert.Proof.GlueCoords2.weightX (A0 m c) (A1 m c) (A2 m c) (A3 m c) (ix1 n)),
    entry401_rows2 m c r hr n
      (Cert.Proof.CornersAgree2.agree_v342_v531 (A0 m c) (A1 m c) (A2 m c) (A3 m c) (⟨r.val - 8, by have := r.isLt; omega⟩ : Fin 4) n)
      (Cert.Proof.CornersAgree2.agree_v350_v544 (A0 m c) (A1 m c) (A2 m c) (A3 m c) (⟨r.val - 8, by have := r.isLt; omega⟩ : Fin 4) n)
      (Cert.Proof.GlueCoords2.weightX (A0 m c) (A1 m c) (A2 m c) (A3 m c) (ix1 n)),
    entry402_rows2 m c r hr n
      (Cert.Proof.CornersAgree2.agree_v358_v557 (A0 m c) (A1 m c) (A2 m c) (A3 m c) (⟨r.val - 8, by have := r.isLt; omega⟩ : Fin 4) n)
      (Cert.Proof.CornersAgree2.agree_v366_v570 (A0 m c) (A1 m c) (A2 m c) (A3 m c) (⟨r.val - 8, by have := r.isLt; omega⟩ : Fin 4) n)
      (Cert.Proof.GlueCoords2.weightX (A0 m c) (A1 m c) (A2 m c) (A3 m c) (ix1 n)),
    entry403_rows2 m c r hr n
      (Cert.Proof.CornersAgree2.agree_v374_v583 (A0 m c) (A1 m c) (A2 m c) (A3 m c) (⟨r.val - 8, by have := r.isLt; omega⟩ : Fin 4) n)
      (Cert.Proof.CornersAgree2.agree_v382_v596 (A0 m c) (A1 m c) (A2 m c) (A3 m c) (⟨r.val - 8, by have := r.isLt; omega⟩ : Fin 4) n)
      (Cert.Proof.GlueCoords2.weightX (A0 m c) (A1 m c) (A2 m c) (A3 m c) (ix1 n)),
    entry406_row0 m c n, entry406_row1 m c n]
  exact (Cert.Proof.RefPoint.ref_point2_row (A0 m c) (A1 m c) (A2 m c) (A3 m c) (⟨r.val - 8, by have := r.isLt; omega⟩ : Fin 4) n r
    (by show r.val = 8 + (r.val - 8); omega)).symm

/-- The reference's result, as its last stage function of the arguments, is the kernel's result array recast. -/
theorem bridge (m : (ℓ : Loc nD τ sig) → Buf (Elt Ideal) ℓ) (c : Dev nD) :
    Cert.ReferenceIdeal.ReadP.val_main_v633 (F := Ideal) (A0 m c) (A1 m c) (A2 m c) (A3 m c)
      = shapeCast S1x12x1x1x1048576 (Kout m c) shapeCasts_S12x1048576_S1x12x1x1x1048576 := by
  funext i
  obtain ⟨r, n, rfl⟩ : ∃ (r : Fin 12) (n : Fin 1048576), i = ix5 (0 : Fin 1) r (0 : Fin 1) (0 : Fin 1) n :=
    ⟨i 1, i 4, Cert.Proof.RowIndex.idx5_eq i⟩
  rw [Cert.Proof.RowIndex.out_reshape_apply]
  show _ = Kout m c (ix2 r n)
  rcases Cert.Proof.RowIndex.row_cases r with h | h | h
  · exact (row0 m c r h n).symm
  · exact (row1 m c r h n).symm
  · exact (row2 m c r h n).symm

/-- From memories agreeing on the arguments both idealized programs run to the end, with equal results element by
    element and unchanged arguments. -/
theorem algebraic : Cert.algebraic_KernelIdeal_ReferenceIdeal := by
  intro m ρ m' ρ' _ hagree
  refine ⟨fun c => shapeCast S1x12x1x1x1048576 (Kout m c) shapeCasts_S12x1048576_S1x12x1x1x1048576, value_run m ρ, ?_⟩
  refine (θ_run Cert.ReferenceIdeal.defs _ _).mono (fun _ h c => ⟨(h c).1.trans ?_, (h c).2⟩)
    (Cert.ReferenceIdeal.RunH.run (F := Ideal) m' ρ')
  rw [(hagree c).1, (hagree c).2.1, (hagree c).2.2.1, (hagree c).2.2.2]
  exact bridge m c

end Cert.Proof.Bridge

end
-- ==== Proof.lean ====
/-
  Trilinear grid sampling from three volumes with smoothstep weights: the kernel against its jnp reference.

  Both programs compute, for each of 1,048,576 query points and each of the 12 output channels (4 per volume), the
  same expression: the eight corner values of the point's cell, interpolated along x, then y, then z, with weights
  s(t) = t·t·(3 − 2t) of the clipped fractional offsets. They differ only in where the work is done and how the
  data is laid out. The kernel gathers corner rows from a channel-last copy of each volume and interpolates along
  x on the host, stacks the four x-interpolated corner arrays of the three volumes, and interpolates along y and
  z inside the region, 16,384 points per grid step; the reference gathers corner columns from the channel-first
  volume (after normalizing a negative index, which never occurs: the flat index of a clipped cell lies in range),
  interpolates along all three axes on the host and concatenates the three volumes' results.

  The claim has five parts. The two kernel programs run to the end without a fault and leave their arguments
  unchanged: their @main is a line of host operations, one region, and a closing reshape; the region's body is a
  straight line of loads, arithmetic and one whole-block store, and no host operation writes an argument. The
  reference is a host program whose run is read back as one term of its arguments. The idealization rewrote no
  operation. And at exact arithmetic the two results agree element by element: no algebraic law is needed beyond
  evaluating the layout operations at an index; the precondition (finite inputs) is not used, because the clipped
  floor of any extended real is an integer of the volume's range.
-/
import proofs.«113233_j37486474559588_2_alg».proof.Defs
import proofs.«113233_j37486474559588_2_alg».proof.Proof.Gen.Kernel
import proofs.«113233_j37486474559588_2_alg».proof.Proof.Gen.KernelIdeal
import proofs.«113233_j37486474559588_2_alg».proof.Proof.Gen.ReferenceIdeal
import proofs.«113233_j37486474559588_2_alg».proof.Proof.Gen.Pre_finite_inputs
import proofs.«113233_j37486474559588_2_alg».proof.Proof.RunBits
import proofs.«113233_j37486474559588_2_alg».proof.Proof.RunIdeal
import proofs.«113233_j37486474559588_2_alg».proof.Proof.RefFrame
import proofs.«113233_j37486474559588_2_alg».proof.Proof.Algebraic

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Around.frame (F := Bits) m ρ,
    fun m ρ _ => Cert.KernelIdeal.Around.frame (F := Ideal) m ρ,
    Cert.Proof.Reference.frame,
    trivial,
    Cert.Proof.Bridge.algebraic⟩

end Cert.Proof

end
